-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v240)) (v1 : (c : Dev Cert.KernelIdeal.nD) → Buf (Elt Ideal) ((c.tc : Thread Cert.KernelIdeal.nD Cert.KernelIdeal.τ).loc Cert.KernelIdeal.main_v217)) (v2 : (c : Dev Cert.KernelIdeal.nD) → Buf (Elt Ideal) ((c.tc : Thread Cert.KernelIdeal.nD Cert.KernelIdeal.τ).loc Cert.KernelIdeal.main_v255)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v240) = v0 c
          ∧ r.2.mem ((c.tc : Thread Cert.KernelIdeal.nD Cert.KernelIdeal.τ).loc Cert.KernelIdeal.main_v217) = v1 c
          ∧ r.2.mem ((c.tc : Thread Cert.KernelIdeal.nD Cert.KernelIdeal.τ).loc Cert.KernelIdeal.main_v255) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v244) = v1 c
          ∧ r.2.mem ((c.tc : Thread Cert.ReferenceIdeal.nD Cert.ReferenceIdeal.τ).loc Cert.ReferenceIdeal.main_v285) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S2x300000 : Shape := ⟨2, ![2, 300000]⟩
abbrev S300000x32 : Shape := ⟨2, ![300000, 32]⟩
abbrev S64x32 : Shape := ⟨2, ![64, 32]⟩
abbrev S30000 : Shape := ⟨1, ![30000]⟩
abbrev S64 : Shape := ⟨1, ![64]⟩
abbrev S32 : Shape := ⟨1, ![32]⟩
abbrev S192x64 : Shape := ⟨2, ![192, 64]⟩
abbrev S160x64 : Shape := ⟨2, ![160, 64]⟩
abbrev S96x64 : Shape := ⟨2, ![96, 64]⟩
abbrev S256x64 : Shape := ⟨2, ![256, 64]⟩
abbrev S128x64 : Shape := ⟨2, ![128, 64]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S300000x32 : S_.BroadcastsInDim S300000x32 (![] : Fin 0 → Fin S300000x32.rank)
  reducesTo_S300000x32_S_d0_1 : S300000x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_
  bcast_S_S192x64 : S_.BroadcastsInDim S192x64 (![] : Fin 0 → Fin S192x64.rank)
  reducesTo_S192x64_S_d0_1 : S192x64.ReducesTo [0, 1] S_
  bcast_S_S160x64 : S_.BroadcastsInDim S160x64 (![] : Fin 0 → Fin S160x64.rank)
  reducesTo_S160x64_S_d0_1 : S160x64.ReducesTo [0, 1] S_
  bcast_S_S96x64 : S_.BroadcastsInDim S96x64 (![] : Fin 0 → Fin S96x64.rank)
  reducesTo_S96x64_S_d0_1 : S96x64.ReducesTo [0, 1] S_
  bcast_S_S256x64 : S_.BroadcastsInDim S256x64 (![] : Fin 0 → Fin S256x64.rank)
  reducesTo_S256x64_S_d0_1 : S256x64.ReducesTo [0, 1] S_
  bcast_S_S128x64 : S_.BroadcastsInDim S128x64 (![] : Fin 0 → Fin S128x64.rank)
  reducesTo_S128x64_S_d0_1 : S128x64.ReducesTo [0, 1] S_

variable [Facts]

def fn_part7 {F : FTy → Type} [FloatOps F] (main_arg27 : FVec F S128x64 .f32) (main_arg28 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S128x64 .f32 := Host.absf main_arg27
  let main_cst_48 : FVec F S_ .f32 := constant S_ .f32 0x7F800000#32
  let main_v125 : FVec F S128x64 .f32 := broadcastInDim S128x64 ![] bcast_S_S128x64 main_cst_48
  let main_v126 : IVec S128x64 1 := cmpf .olt main_v124 main_v125
  let main_c_49 : IVec S_ 1 := constantI S_ 1 1#1
  let main_v127 : IVec S_ 1 := (fun x v => Host.reduce IntOp.andi x v reducesTo_S128x64_S_d0_1 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  main_v133

def fn_part6 {F : FTy → Type} [FloatOps F] (main_arg23 : FVec F S256x64 .f32) (main_arg24 : FVec F S64 .f32) (main_arg25 : FVec F S192x64 .f32) (main_arg26 : FVec F S64 .f32) (main_arg27 : FVec F S128x64 .f32) (main_arg28 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S256x64 .f32 := Host.absf main_arg23
  let main_cst_40 : FVec F S_ .f32 := constant S_ .f32 0x7F800000#32
  let main_v105 : FVec F S256x64 .f32 := broadcastInDim S256x64 ![] bcast_S_S256x64 main_cst_40
  let main_v106 : IVec S256x64 1 := cmpf .olt main_v104 main_v105
  let main_c_41 : IVec S_ 1 := constantI S_ 1 1#1
  let main_v107 : IVec S_ 1 := (fun x v => Host.reduce IntOp.andi x v reducesTo_S256x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S192x64 .f32 := Host.absf main_arg25
  let main_cst_44 : FVec F S_ .f32 := constant S_ .f32 0x7F800000#32
  let main_v115 : FVec F S192x64 .f32 := broadcastInDim S192x64 ![] bcast_S_S192x64 main_cst_44
  let main_v116 : IVec S192x64 1 := cmpf .olt main_v114 main_v115
  let main_c_45 : IVec S_ 1 := constantI S_ 1 1#1
  let main_v117 : IVec S_ 1 := (fun x v => Host.reduce IntOp.andi x v reducesTo_S192x64_S_d0_1 h_S_) main_v116 main_c_45
  let main_v118 : IVec S_ 1 := andi main_v113 main_v117
  let main_v119 : FVec F S64 .f32 := Host.absf main_arg26
  fn_part7 (F := F) main_arg27 main_arg28 main_v118 main_v119

def fn_part5 {F : FTy → Type} [FloatOps F] (main_arg20 : FVec F S64 .f32) (main_arg21 : FVec F S128x64 .f32) (main_arg22 : FVec F S64 .f32) (main_arg23 : FVec F S256x64 .f32) (main_arg24 : FVec F S64 .f32) (main_arg25 : FVec F S192x64 .f32) (main_arg26 : FVec F S64 .f32) (main_arg27 : FVec F S128x64 .f32) (main_arg28 : FVec F S64 .f32) (main_v83 : IVec S_ 1) (main_v84 : FVec F S192x64 .f32) (main_cst_32 : FVec F S_ .f32) : IVec S_ 1 :=
  let main_v85 : FVec F S192x64 .f32 := broadcastInDim S192x64 ![] bcast_S_S192x64 main_cst_32
  let main_v86 : IVec S192x64 1 := cmpf .olt main_v84 main_v85
  let main_c_33 : IVec S_ 1 := constantI S_ 1 1#1
  let main_v87 : IVec S_ 1 := (fun x v => Host.reduce IntOp.andi x v reducesTo_S192x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S64 .f32) (main_arg17 : FVec F S256x64 .f32) (main_arg18 : FVec F S64 .f32) (main_arg19 : FVec F S192x64 .f32) (main_arg20 : FVec F S64 .f32) (main_arg21 : FVec F S128x64 .f32) (main_arg22 : FVec F S64 .f32) (main_arg23 : FVec F S256x64 .f32) (main_arg24 : FVec F S64 .f32) (main_arg25 : FVec F S192x64 .f32) (main_arg26 : FVec F S64 .f32) (main_arg27 : FVec F S128x64 .f32) (main_arg28 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S256x64 .f32 := Host.absf main_arg17
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S192x64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S160x64 .f32) (main_arg14 : FVec F S64 .f32) (main_arg15 : FVec F S96x64 .f32) (main_arg16 : FVec F S64 .f32) (main_arg17 : FVec F S256x64 .f32) (main_arg18 : FVec F S64 .f32) (main_arg19 : FVec F S192x64 .f32) (main_arg20 : FVec F S64 .f32) (main_arg21 : FVec F S128x64 .f32) (main_arg22 : FVec F S64 .f32) (main_arg23 : FVec F S256x64 .f32) (main_arg24 : FVec F S64 .f32) (main_arg25 : FVec F S192x64 .f32) (main_arg26 : FVec F S64 .f32) (main_arg27 : FVec F S128x64 .f32) (main_arg28 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S160x64 .f32 := Host.absf main_arg13
  let main_cst_20 : FVec F S_ .f32 := constant S_ .f32 0x7F800000#32
  let main_v55 : FVec F S160x64 .f32 := broadcastInDim S160x64 ![] bcast_S_S160x64 main_cst_20
  let main_v56 : IVec S160x64 1 := cmpf .olt main_v54 main_v55
  let main_c_21 : IVec S_ 1 := constantI S_ 1 1#1
  let main_v57 : IVec S_ 1 := (fun x v => Host.reduce IntOp.andi x v reducesTo_S160x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S96x64 .f32 := Host.absf main_arg15
  let main_cst_24 : FVec F S_ .f32 := constant S_ .f32 0x7F800000#32
  let main_v65 : FVec F S96x64 .f32 := broadcastInDim S96x64 ![] bcast_S_S96x64 main_cst_24
  let main_v66 : IVec S96x64 1 := cmpf .olt main_v64 main_v65
  let main_c_25 : IVec S_ 1 := constantI S_ 1 1#1
  let main_v67 : IVec S_ 1 := (fun x v => Host.reduce IntOp.andi x v reducesTo_S96x64_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S32 .f32) (main_arg10 : FVec F S32 .f32) (main_arg11 : FVec F S192x64 .f32) (main_arg12 : FVec F S64 .f32) (main_arg13 : FVec F S160x64 .f32) (main_arg14 : FVec F S64 .f32) (main_arg15 : FVec F S96x64 .f32) (main_arg16 : FVec F S64 .f32) (main_arg17 : FVec F S256x64 .f32) (main_arg18 : FVec F S64 .f32) (main_arg19 : FVec F S192x64 .f32) (main_arg20 : FVec F S64 .f32) (main_arg21 : FVec F S128x64 .f32) (main_arg22 : FVec F S64 .f32) (main_arg23 : FVec F S256x64 .f32) (main_arg24 : FVec F S64 .f32) (main_arg25 : FVec F S192x64 .f32) (main_arg26 : FVec F S64 .f32) (main_arg27 : FVec F S128x64 .f32) (main_arg28 : FVec F S64 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S192x64 .f32 := Host.absf main_arg11
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S64 .f32) (main_arg7 : FVec F S32 .f32) (main_arg8 : FVec F S32 .f32) (main_arg9 : FVec F S32 .f32) (main_arg10 : FVec F S32 .f32) (main_arg11 : FVec F S192x64 .f32) (main_arg12 : FVec F S64 .f32) (main_arg13 : FVec F S160x64 .f32) (main_arg14 : FVec F S64 .f32) (main_arg15 : FVec F S96x64 .f32) (main_arg16 : FVec F S64 .f32) (main_arg17 : FVec F S256x64 .f32) (main_arg18 : FVec F S64 .f32) (main_arg19 : FVec F S192x64 .f32) (main_arg20 : FVec F S64 .f32) (main_arg21 : FVec F S128x64 .f32) (main_arg22 : FVec F S64 .f32) (main_arg23 : FVec F S256x64 .f32) (main_arg24 : FVec F S64 .f32) (main_arg25 : FVec F S192x64 .f32) (main_arg26 : FVec F S64 .f32) (main_arg27 : FVec F S128x64 .f32) (main_arg28 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S30000x64 .f32) (main_arg1 : IVec S2x300000 32) (main_arg2 : FVec F S300000x32 .f32) (main_arg3 : FVec F S64x32 .f32) (main_arg4 : IVec S30000 32) (main_arg5 : FVec F S64 .f32) (main_arg6 : FVec F S64 .f32) (main_arg7 : FVec F S32 .f32) (main_arg8 : FVec F S32 .f32) (main_arg9 : FVec F S32 .f32) (main_arg10 : FVec F S32 .f32) (main_arg11 : FVec F S192x64 .f32) (main_arg12 : FVec F S64 .f32) (main_arg13 : FVec F S160x64 .f32) (main_arg14 : FVec F S64 .f32) (main_arg15 : FVec F S96x64 .f32) (main_arg16 : FVec F S64 .f32) (main_arg17 : FVec F S256x64 .f32) (main_arg18 : FVec F S64 .f32) (main_arg19 : FVec F S192x64 .f32) (main_arg20 : FVec F S64 .f32) (main_arg21 : FVec F S128x64 .f32) (main_arg22 : FVec F S64 .f32) (main_arg23 : FVec F S256x64 .f32) (main_arg24 : FVec F S64 .f32) (main_arg25 : FVec F S192x64 .f32) (main_arg26 : FVec F S64 .f32) (main_arg27 : FVec F S128x64 .f32) (main_arg28 : FVec F S64 .f32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S300000x32 .f32 := Host.absf main_arg2
  let main_cst_0 : FVec F S_ .f32 := constant S_ .f32 0x7F800000#32
  let main_v5 : FVec F S300000x32 .f32 := broadcastInDim S300000x32 ![] bcast_S_S300000x32 main_cst_0
  let main_v6 : IVec S300000x32 1 := cmpf .olt main_v4 main_v5
  let main_c_1 : IVec S_ 1 := constantI S_ 1 1#1
  let main_v7 : IVec S_ 1 := (fun x v => Host.reduce IntOp.andi x v reducesTo_S300000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S30000x64 : Shape := ⟨2, ![30000, 64]⟩
abbrev S2x300000 : Shape := ⟨2, ![2, 300000]⟩
abbrev S300000x32 : Shape := ⟨2, ![300000, 32]⟩
abbrev S64x32 : Shape := ⟨2, ![64, 32]⟩
abbrev S30000 : Shape := ⟨1, ![30000]⟩
abbrev S64 : Shape := ⟨1, ![64]⟩
abbrev S32 : Shape := ⟨1, ![32]⟩
abbrev S192x64 : Shape := ⟨2, ![192, 64]⟩
abbrev S160x64 : Shape := ⟨2, ![160, 64]⟩
abbrev S96x64 : Shape := ⟨2, ![96, 64]⟩
abbrev S256x64 : Shape := ⟨2, ![256, 64]⟩
abbrev S128x64 : Shape := ⟨2, ![128, 64]⟩
abbrev S1x300000 : Shape := ⟨2, ![1, 300000]⟩
abbrev S300000 : Shape := ⟨1, ![300000]⟩
abbrev S1x64 : Shape := ⟨2, ![1, 64]⟩
abbrev S3000x64 : Shape := ⟨2, ![3000, 64]⟩
abbrev S_ : Shape := ⟨0, ![]⟩
abbrev S1x32 : Shape := ⟨2, ![1, 32]⟩
abbrev S6000x32 : Shape := ⟨2, ![6000, 32]⟩
abbrev S300000x1 : Shape := ⟨2, ![300000, 1]⟩
abbrev S300000x64 : Shape := ⟨2, ![300000, 64]⟩
abbrev S64x64 : Shape := ⟨2, ![64, 64]⟩
abbrev S32x64 : Shape := ⟨2, ![32, 64]⟩
abbrev S6000x64 : Shape := ⟨2, ![6000, 64]⟩
abbrev S30000x1 : Shape := ⟨2, ![30000, 1]⟩
abbrev S30000x32 : Shape := ⟨2, ![30000, 32]⟩
abbrev S64x1 : Shape := ⟨2, ![64, 1]⟩

abbrev nBuf : Space → Nat
  | .hbm => 351
  | .vmem => 138
  | .smem => 0
  | _ => 0

abbrev hbmTy0_0 (i : Nat) : BufTy := match i % 128 with
  | 0 => ⟨S30000x64, .f32⟩
  | 1 => ⟨S2x300000, .i32⟩
  | 2 => ⟨S300000x32, .f32⟩
  | 3 => ⟨S64x32, .f32⟩
  | 4 => ⟨S30000, .i32⟩
  | 5 => ⟨S64, .f32⟩
  | 6 => ⟨S64, .f32⟩
  | 7 => ⟨S32, .f32⟩
  | 8 => ⟨S32, .f32⟩
  | 9 => ⟨S32, .f32⟩
  | 10 => ⟨S32, .f32⟩
  | 11 => ⟨S192x64, .f32⟩
  | 12 => ⟨S64, .f32⟩
  | 13 => ⟨S160x64, .f32⟩
  | 14 => ⟨S64, .f32⟩
  | 15 => ⟨S96x64, .f32⟩
  | 16 => ⟨S64, .f32⟩
  | 17 => ⟨S256x64, .f32⟩
  | 18 => ⟨S64, .f32⟩
  | 19 => ⟨S192x64, .f32⟩
  | 20 => ⟨S64, .f32⟩
  | 21 => ⟨S128x64, .f32⟩
  | 22 => ⟨S64, .f32⟩
  | 23 => ⟨S256x64, .f32⟩
  | 24 => ⟨S64, .f32⟩
  | 25 => ⟨S192x64, .f32⟩
  | 26 => ⟨S64, .f32⟩
  | 27 => ⟨S128x64, .f32⟩
  | 28 => ⟨S64, .f32⟩
  | 29 => ⟨S1x300000, .i32⟩
  | 30 => ⟨S300000, .i32⟩
  | 31 => ⟨S1x300000, .i32⟩
  | 32 => ⟨S300000, .i32⟩
  | 33 => ⟨S1x64, .f32⟩
  | 34 => ⟨S1x64, .f32⟩
  | 35 => ⟨S_, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S30000x64, .f32⟩
  | 49 => ⟨S1x32, .f32⟩
  | 50 => ⟨S1x32, .f32⟩
  | 51 => ⟨S_, .f32⟩
  | 52 => ⟨S1x32, .f32⟩
  | 53 => ⟨S1x32, .f32⟩
  | 54 => ⟨S_, .f32⟩
  | 55 => ⟨S1x32, .f32⟩
  | 56 => ⟨S1x32, .f32⟩
  | 57 => ⟨S1x32, .f32⟩
  | 58 => ⟨S1x32, .f32⟩
  | 59 => ⟨S_, .f32⟩
  | 60 => ⟨S1x32, .f32⟩
  | 61 => ⟨S1x32, .f32⟩
  | 62 => ⟨S1x32, .f32⟩
  | 63 => ⟨S1x32, .f32⟩
  | 64 => ⟨S300000x32, .f32⟩
  | 65 => ⟨S1x32, .f32⟩
  | 66 => ⟨S1x32, .f32⟩
  | 67 => ⟨S_, .f32⟩
  | 68 => ⟨S1x32, .f32⟩
  | 69 => ⟨S1x32, .f32⟩
  | 70 => ⟨S_, .f32⟩
  | 71 => ⟨S1x32, .f32⟩
  | 72 => ⟨S1x32, .f32⟩
  | 73 => ⟨S1x32, .f32⟩
  | 74 => ⟨S1x32, .f32⟩
  | 75 => ⟨S_, .f32⟩
  | 76 => ⟨S1x32, .f32⟩
  | 77 => ⟨S1x32, .f32⟩
  | 78 => ⟨S1x32, .f32⟩
  | 79 => ⟨S1x32, .f32⟩
  | 80 => ⟨S64x32, .f32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S300000x64, .f32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S300000x64, .f32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000, .i32⟩
  | 108 => ⟨S_, .i32⟩
  | 109 => ⟨S300000, .i32⟩
  | 110 => ⟨S300000, .i1⟩
  | 111 => ⟨S_, .i32⟩
  | 112 => ⟨S300000, .i32⟩
  | 113 => ⟨S300000, .i32⟩
  | 114 => ⟨S300000, .i32⟩
  | 115 => ⟨S300000x1, .i32⟩
  | 116 => ⟨S300000x32, .f32⟩
  | 117 => ⟨S64x64, .f32⟩
  | 118 => ⟨S64x64, .f32⟩
  | 119 => ⟨S32x64, .f32⟩
  | 120 => ⟨S32x64, .f32⟩
  | 121 => ⟨S1x64, .f32⟩
  | 122 => ⟨S300000x64, .f32⟩
  | 123 => ⟨S_, .f32⟩
  | 124 => ⟨S30000x64, .f32⟩
  | 125 => ⟨S300000x1, .i32⟩
  | 126 => ⟨S30000x64, .f32⟩
  | 127 => ⟨S_, .f32⟩
  | _ => ⟨S30000x64, .f32⟩

abbrev hbmTy0_1 (i : Nat) : BufTy := match i % 128 with
  | 0 => ⟨S300000x1, .f32⟩
  | 1 => ⟨S_, .f32⟩
  | 2 => ⟨S30000x1, .f32⟩
  | 3 => ⟨S300000x1, .i32⟩
  | 4 => ⟨S30000x1, .f32⟩
  | 5 => ⟨S_, .f32⟩
  | 6 => ⟨S30000x1, .f32⟩
  | 7 => ⟨S30000x1, .f32⟩
  | 8 => ⟨S30000x64, .f32⟩
  | 9 => ⟨S30000x64, .f32⟩
  | 10 => ⟨S_, .i32⟩
  | 11 => ⟨S30000, .i32⟩
  | 12 => ⟨S30000, .i1⟩
  | 13 => ⟨S_, .i32⟩
  | 14 => ⟨S30000, .i32⟩
  | 15 => ⟨S30000, .i32⟩
  | 16 => ⟨S30000, .i32⟩
  | 17 => ⟨S30000x1, .i32⟩
  | 18 => ⟨S30000x32, .f32⟩
  | 19 => ⟨S64x64, .f32⟩
  | 20 => ⟨S64x64, .f32⟩
  | 21 => ⟨S32x64, .f32⟩
  | 22 => ⟨S1x64, .f32⟩
  | 23 => ⟨S30000x64, .f32⟩
  | 24 => ⟨S_, .f32⟩
  | 25 => ⟨S64x64, .f32⟩
  | 26 => ⟨S30000x1, .i32⟩
  | 27 => ⟨S64x64, .f32⟩
  | 28 => ⟨S_, .f32⟩
  | 29 => ⟨S30000x1, .f32⟩
  | 30 => ⟨S_, .f32⟩
  | 31 => ⟨S64x1, .f32⟩
  | 32 => ⟨S30000x1, .i32⟩
  | 33 => ⟨S64x1, .f32⟩
  | 34 => ⟨S_, .f32⟩
  | 35 => ⟨S64x1, .f32⟩
  | 36 => ⟨S64x1, .f32⟩
  | 37 => ⟨S64x64, .f32⟩
  | 38 => ⟨S64x64, .f32⟩
  | 39 => ⟨S64x64, .f32⟩
  | 40 => ⟨S32x64, .f32⟩
  | 41 => ⟨S1x64, .f32⟩
  | 42 => ⟨S64x64, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x64, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x64, .f32⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S300000x1, .i32⟩
  | 69 => ⟨S300000, .i32⟩
  | 70 => ⟨S_, .i32⟩
  | 71 => ⟨S300000, .i32⟩
  | 72 => ⟨S300000, .i1⟩
  | 73 => ⟨S_, .i32⟩
  | 74 => ⟨S300000, .i32⟩
  | 75 => ⟨S300000, .i32⟩
  | 76 => ⟨S300000, .i32⟩
  | 77 => ⟨S300000x1, .i32⟩
  | 78 => ⟨S300000x64, .f32⟩
  | 79 => ⟨S64x64, .f32⟩
  | 80 => ⟨S64x64, .f32⟩
  | 81 => ⟨S64x64, .f32⟩
  | 82 => ⟨S64x64, .f32⟩
  | 83 => ⟨S1x64, .f32⟩
  | 84 => ⟨S300000x64, .f32⟩
  | 85 => ⟨S_, .f32⟩
  | 86 => ⟨S30000x64, .f32⟩
  | 87 => ⟨S300000x1, .i32⟩
  | 88 => ⟨S30000x64, .f32⟩
  | 89 => ⟨S_, .f32⟩
  | 90 => ⟨S300000x1, .f32⟩
  | 91 => ⟨S_, .f32⟩
  | 92 => ⟨S30000x1, .f32⟩
  | 93 => ⟨S300000x1, .i32⟩
  | 94 => ⟨S30000x1, .f32⟩
  | 95 => ⟨S_, .f32⟩
  | 96 => ⟨S30000x1, .f32⟩
  | 97 => ⟨S30000x1, .f32⟩
  | 98 => ⟨S30000x64, .f32⟩
  | 99 => ⟨S30000x64, .f32⟩
  | 100 => ⟨S_, .i32⟩
  | 101 => ⟨S30000, .i32⟩
  | 102 => ⟨S30000, .i1⟩
  | 103 => ⟨S_, .i32⟩
  | 104 => ⟨S30000, .i32⟩
  | 105 => ⟨S30000, .i32⟩
  | 106 => ⟨S30000, .i32⟩
  | 107 => ⟨S30000x1, .i32⟩
  | 108 => ⟨S30000x64, .f32⟩
  | 109 => ⟨S64x64, .f32⟩
  | 110 => ⟨S64x64, .f32⟩
  | 111 => ⟨S64x64, .f32⟩
  | 112 => ⟨S1x64, .f32⟩
  | 113 => ⟨S30000x64, .f32⟩
  | 114 => ⟨S_, .f32⟩
  | 115 => ⟨S64x64, .f32⟩
  | 116 => ⟨S30000x1, .i32⟩
  | 117 => ⟨S64x64, .f32⟩
  | 118 => ⟨S_, .f32⟩
  | 119 => ⟨S30000x1, .f32⟩
  | 120 => ⟨S_, .f32⟩
  | 121 => ⟨S64x1, .f32⟩
  | 122 => ⟨S30000x1, .i32⟩
  | 123 => ⟨S64x1, .f32⟩
  | 124 => ⟨S_, .f32⟩
  | 125 => ⟨S64x1, .f32⟩
  | 126 => ⟨S64x1, .f32⟩
  | 127 => ⟨S64x64, .f32⟩
  | _ => ⟨S30000x64, .f32⟩

abbrev hbmTy0_2 (i : Nat) : BufTy := match i % 128 with
  | 0 => ⟨S64x64, .f32⟩
  | 1 => ⟨S64x64, .f32⟩
  | 2 => ⟨S64x64, .f32⟩
  | 3 => ⟨S1x64, .f32⟩
  | 4 => ⟨S64x64, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x64, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S300000x64, .f32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000, .i32⟩
  | 32 => ⟨S_, .i32⟩
  | 33 => ⟨S300000, .i32⟩
  | 34 => ⟨S300000, .i1⟩
  | 35 => ⟨S_, .i32⟩
  | 36 => ⟨S300000, .i32⟩
  | 37 => ⟨S300000, .i32⟩
  | 38 => ⟨S300000, .i32⟩
  | 39 => ⟨S300000x1, .i32⟩
  | 40 => ⟨S300000x64, .f32⟩
  | 41 => ⟨S64x64, .f32⟩
  | 42 => ⟨S64x64, .f32⟩
  | 43 => ⟨S64x64, .f32⟩
  | 44 => ⟨S64x64, .f32⟩
  | 45 => ⟨S1x64, .f32⟩
  | 46 => ⟨S300000x64, .f32⟩
  | 47 => ⟨S_, .f32⟩
  | 48 => ⟨S30000x64, .f32⟩
  | 49 => ⟨S300000x1, .i32⟩
  | 50 => ⟨S30000x64, .f32⟩
  | 51 => ⟨S_, .f32⟩
  | 52 => ⟨S300000x1, .f32⟩
  | 53 => ⟨S_, .f32⟩
  | 54 => ⟨S30000x1, .f32⟩
  | 55 => ⟨S300000x1, .i32⟩
  | 56 => ⟨S30000x1, .f32⟩
  | 57 => ⟨S_, .f32⟩
  | 58 => ⟨S30000x1, .f32⟩
  | 59 => ⟨S30000x1, .f32⟩
  | 60 => ⟨S30000x64, .f32⟩
  | 61 => ⟨S30000x64, .f32⟩
  | 62 => ⟨S_, .i32⟩
  | 63 => ⟨S30000, .i32⟩
  | 64 => ⟨S30000, .i1⟩
  | 65 => ⟨S_, .i32⟩
  | 66 => ⟨S30000, .i32⟩
  | 67 => ⟨S30000, .i32⟩
  | 68 => ⟨S30000, .i32⟩
  | 69 => ⟨S30000x1, .i32⟩
  | 70 => ⟨S30000x64, .f32⟩
  | 71 => ⟨S64x64, .f32⟩
  | 72 => ⟨S64x64, .f32⟩
  | 73 => ⟨S64x64, .f32⟩
  | 74 => ⟨S1x64, .f32⟩
  | 75 => ⟨S30000x64, .f32⟩
  | 76 => ⟨S_, .f32⟩
  | 77 => ⟨S64x64, .f32⟩
  | 78 => ⟨S30000x1, .i32⟩
  | 79 => ⟨S64x64, .f32⟩
  | 80 => ⟨S_, .f32⟩
  | 81 => ⟨S30000x1, .f32⟩
  | 82 => ⟨S_, .f32⟩
  | 83 => ⟨S64x1, .f32⟩
  | 84 => ⟨S30000x1, .i32⟩
  | 85 => ⟨S64x1, .f32⟩
  | 86 => ⟨S_, .f32⟩
  | 87 => ⟨S64x1, .f32⟩
  | 88 => ⟨S64x1, .f32⟩
  | 89 => ⟨S64x64, .f32⟩
  | 90 => ⟨S64x64, .f32⟩
  | 91 => ⟨S64x64, .f32⟩
  | 92 => ⟨S64x64, .f32⟩
  | 93 => ⟨S1x64, .f32⟩
  | 94 => ⟨S64x64, .f32⟩
  | _ => ⟨S30000x64, .f32⟩

abbrev hbmTy (i : Nat) : BufTy := match i / 128 with
  | 0 => hbmTy0_0 i
  | 1 => hbmTy0_1 i
  | 2 => hbmTy0_2 i
  | _ => ⟨S30000x64, .f32⟩

abbrev vmemTy0_0 (i : Nat) : BufTy := match i % 128 with
  | 0 => ⟨S3000x64, .f32⟩
  | 1 => ⟨S3000x64, .f32⟩
  | 2 => ⟨S1x64, .f32⟩
  | 3 => ⟨S1x64, .f32⟩
  | 4 => ⟨S1x64, .f32⟩
  | 5 => ⟨S1x64, .f32⟩
  | 6 => ⟨S3000x64, .f32⟩
  | 7 => ⟨S3000x64, .f32⟩
  | 8 => ⟨S1x64, .f32⟩
  | 9 => ⟨S1x64, .f32⟩
  | 10 => ⟨S1x64, .f32⟩
  | 11 => ⟨S1x64, .f32⟩
  | 12 => ⟨S3000x64, .f32⟩
  | 13 => ⟨S3000x64, .f32⟩
  | 14 => ⟨S6000x32, .f32⟩
  | 15 => ⟨S6000x32, .f32⟩
  | 16 => ⟨S1x32, .f32⟩
  | 17 => ⟨S1x32, .f32⟩
  | 18 => ⟨S1x32, .f32⟩
  | 19 => ⟨S1x32, .f32⟩
  | 20 => ⟨S6000x32, .f32⟩
  | 21 => ⟨S6000x32, .f32⟩
  | 22 => ⟨S1x32, .f32⟩
  | 23 => ⟨S1x32, .f32⟩
  | 24 => ⟨S1x32, .f32⟩
  | 25 => ⟨S1x32, .f32⟩
  | 26 => ⟨S6000x32, .f32⟩
  | 27 => ⟨S6000x32, .f32⟩
  | 28 => ⟨S64x32, .f32⟩
  | 29 => ⟨S1x32, .f32⟩
  | 30 => ⟨S1x32, .f32⟩
  | 31 => ⟨S1x32, .f32⟩
  | 32 => ⟨S1x32, .f32⟩
  | 33 => ⟨S64x32, .f32⟩
  | 34 => ⟨S1x32, .f32⟩
  | 35 => ⟨S1x32, .f32⟩
  | 36 => ⟨S1x32, .f32⟩
  | 37 => ⟨S1x32, .f32⟩
  | 38 => ⟨S64x32, .f32⟩
  | 39 => ⟨S6000x64, .f32⟩
  | 40 => ⟨S6000x64, .f32⟩
  | 41 => ⟨S6000x64, .f32⟩
  | 42 => ⟨S6000x64, .f32⟩
  | 43 => ⟨S6000x32, .f32⟩
  | 44 => ⟨S6000x32, .f32⟩
  | 45 => ⟨S6000x32, .f32⟩
  | 46 => ⟨S6000x32, .f32⟩
  | 47 => ⟨S64x64, .f32⟩
  | 48 => ⟨S64x64, .f32⟩
  | 49 => ⟨S32x64, .f32⟩
  | 50 => ⟨S32x64, .f32⟩
  | 51 => ⟨S1x64, .f32⟩
  | 52 => ⟨S6000x64, .f32⟩
  | 53 => ⟨S6000x64, .f32⟩
  | 54 => ⟨S6000x64, .f32⟩
  | 55 => ⟨S6000x64, .f32⟩
  | 56 => ⟨S6000x64, .f32⟩
  | 57 => ⟨S6000x64, .f32⟩
  | 58 => ⟨S6000x32, .f32⟩
  | 59 => ⟨S6000x32, .f32⟩
  | 60 => ⟨S64x64, .f32⟩
  | 61 => ⟨S64x64, .f32⟩
  | 62 => ⟨S32x64, .f32⟩
  | 63 => ⟨S1x64, .f32⟩
  | 64 => ⟨S6000x64, .f32⟩
  | 65 => ⟨S6000x64, .f32⟩
  | 66 => ⟨S64x64, .f32⟩
  | 67 => ⟨S64x32, .f32⟩
  | 68 => ⟨S64x64, .f32⟩
  | 69 => ⟨S32x64, .f32⟩
  | 70 => ⟨S1x64, .f32⟩
  | 71 => ⟨S64x64, .f32⟩
  | 72 => ⟨S6000x64, .f32⟩
  | 73 => ⟨S6000x64, .f32⟩
  | 74 => ⟨S6000x64, .f32⟩
  | 75 => ⟨S6000x64, .f32⟩
  | 76 => ⟨S6000x64, .f32⟩
  | 77 => ⟨S6000x64, .f32⟩
  | 78 => ⟨S6000x64, .f32⟩
  | 79 => ⟨S6000x64, .f32⟩
  | 80 => ⟨S64x64, .f32⟩
  | 81 => ⟨S64x64, .f32⟩
  | 82 => ⟨S64x64, .f32⟩
  | 83 => ⟨S64x64, .f32⟩
  | 84 => ⟨S1x64, .f32⟩
  | 85 => ⟨S6000x64, .f32⟩
  | 86 => ⟨S6000x64, .f32⟩
  | 87 => ⟨S6000x64, .f32⟩
  | 88 => ⟨S6000x64, .f32⟩
  | 89 => ⟨S6000x64, .f32⟩
  | 90 => ⟨S6000x64, .f32⟩
  | 91 => ⟨S6000x64, .f32⟩
  | 92 => ⟨S6000x64, .f32⟩
  | 93 => ⟨S64x64, .f32⟩
  | 94 => ⟨S64x64, .f32⟩
  | 95 => ⟨S64x64, .f32⟩
  | 96 => ⟨S1x64, .f32⟩
  | 97 => ⟨S6000x64, .f32⟩
  | 98 => ⟨S6000x64, .f32⟩
  | 99 => ⟨S64x64, .f32⟩
  | 100 => ⟨S64x64, .f32⟩
  | 101 => ⟨S64x64, .f32⟩
  | 102 => ⟨S64x64, .f32⟩
  | 103 => ⟨S1x64, .f32⟩
  | 104 => ⟨S64x64, .f32⟩
  | 105 => ⟨S6000x64, .f32⟩
  | 106 => ⟨S6000x64, .f32⟩
  | 107 => ⟨S6000x64, .f32⟩
  | 108 => ⟨S6000x64, .f32⟩
  | 109 => ⟨S6000x64, .f32⟩
  | 110 => ⟨S6000x64, .f32⟩
  | 111 => ⟨S6000x64, .f32⟩
  | 112 => ⟨S6000x64, .f32⟩
  | 113 => ⟨S64x64, .f32⟩
  | 114 => ⟨S64x64, .f32⟩
  | 115 => ⟨S64x64, .f32⟩
  | 116 => ⟨S64x64, .f32⟩
  | 117 => ⟨S1x64, .f32⟩
  | 118 => ⟨S6000x64, .f32⟩
  | 119 => ⟨S6000x64, .f32⟩
  | 120 => ⟨S6000x64, .f32⟩
  | 121 => ⟨S6000x64, .f32⟩
  | 122 => ⟨S6000x64, .f32⟩
  | 123 => ⟨S6000x64, .f32⟩
  | 124 => ⟨S6000x64, .f32⟩
  | 125 => ⟨S6000x64, .f32⟩
  | 126 => ⟨S64x64, .f32⟩
  | 127 => ⟨S64x64, .f32⟩
  | _ => ⟨S30000x64, .f32⟩

abbrev vmemTy0_1 (i : Nat) : BufTy := match i % 128 with
  | 0 => ⟨S64x64, .f32⟩
  | 1 => ⟨S1x64, .f32⟩
  | 2 => ⟨S6000x64, .f32⟩
  | 3 => ⟨S6000x64, .f32⟩
  | 4 => ⟨S64x64, .f32⟩
  | 5 => ⟨S64x64, .f32⟩
  | 6 => ⟨S64x64, .f32⟩
  | 7 => ⟨S64x64, .f32⟩
  | 8 => ⟨S1x64, .f32⟩
  | 9 => ⟨S64x64, .f32⟩
  | _ => ⟨S30000x64, .f32⟩

abbrev vmemTy (i : Nat) : BufTy := match i / 128 with
  | 0 => vmemTy0_0 i
  | 1 => vmemTy0_1 i
  | _ => ⟨S30000x64, .f32⟩

abbrev bufTy : (tb : Table) → Fin (tcTables nBuf tb) → BufTy
  | .hbm, ⟨i, _⟩ => hbmTy i
  | .local _ .vmem, ⟨i, _⟩ => vmemTy i
  | _, _ => ⟨S30000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4_0 : Ref sig .tc := ⟨.hbm, 33, rfl⟩
abbrev main_v4_1 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_cst_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16_0 : Ref sig .tc := ⟨.hbm, 49, rfl⟩
abbrev main_v16_1 : Ref sig .tc := ⟨.hbm, 50, rfl⟩
abbrev main_cst_2 : Ref sig .tc := ⟨.hbm, 51, rfl⟩
abbrev main_v17 : Ref sig .tc := ⟨.hbm, 52, rfl⟩
abbrev main_v18 : Ref sig .tc := ⟨.hbm, 53, rfl⟩
abbrev main_cst_3 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_4 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28_0 : Ref sig .tc := ⟨.hbm, 65, rfl⟩
abbrev main_v28_1 : Ref sig .tc := ⟨.hbm, 66, rfl⟩
abbrev main_cst_5 : Ref sig .tc := ⟨.hbm, 67, rfl⟩
abbrev main_v29 : Ref sig .tc := ⟨.hbm, 68, rfl⟩
abbrev main_v30 : Ref sig .tc := ⟨.hbm, 69, rfl⟩
abbrev main_cst_6 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c : Ref sig .tc := ⟨.hbm, 81, rfl⟩
abbrev main_v40 : Ref sig .tc := ⟨.hbm, 82, rfl⟩
abbrev main_v41 : Ref sig .tc := ⟨.hbm, 83, rfl⟩
abbrev main_c_8 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_9 : Ref sig .tc := ⟨.hbm, 90, rfl⟩
abbrev main_v47 : Ref sig .tc := ⟨.hbm, 91, rfl⟩
abbrev main_v48 : Ref sig .tc := ⟨.hbm, 92, rfl⟩
abbrev main_c_10 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_11 : Ref sig .tc := ⟨.hbm, 99, rfl⟩
abbrev main_v54 : Ref sig .tc := ⟨.hbm, 100, rfl⟩
abbrev main_v55 : Ref sig .tc := ⟨.hbm, 101, rfl⟩
abbrev main_c_12 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_c_13 : Ref sig .tc := ⟨.hbm, 108, rfl⟩
abbrev main_v61 : Ref sig .tc := ⟨.hbm, 109, rfl⟩
abbrev main_v62 : Ref sig .tc := ⟨.hbm, 110, rfl⟩
abbrev main_c_14 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_15 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_16 : Ref sig .tc := ⟨.hbm, 127, rfl⟩
abbrev main_v77 : Ref sig .tc := ⟨.hbm, 128, rfl⟩
abbrev main_cst_17 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_18 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_19 : Ref sig .tc := ⟨.hbm, 138, rfl⟩
abbrev main_v85 : Ref sig .tc := ⟨.hbm, 139, rfl⟩
abbrev main_v86 : Ref sig .tc := ⟨.hbm, 140, rfl⟩
abbrev main_c_20 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_21 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_22 : Ref sig .tc := ⟨.hbm, 156, rfl⟩
abbrev main_v100 : Ref sig .tc := ⟨.hbm, 157, rfl⟩
abbrev main_cst_23 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_cst_24 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_25 : Ref sig .tc := ⟨.hbm, 171, rfl⟩
abbrev main_v112 : Ref sig .tc := ⟨.hbm, 172, rfl⟩
abbrev main_v113 : Ref sig .tc := ⟨.hbm, 173, rfl⟩
abbrev main_c_26 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_c_27 : Ref sig .tc := ⟨.hbm, 180, rfl⟩
abbrev main_v119 : Ref sig .tc := ⟨.hbm, 181, rfl⟩
abbrev main_v120 : Ref sig .tc := ⟨.hbm, 182, rfl⟩
abbrev main_c_28 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_c_29 : Ref sig .tc := ⟨.hbm, 189, rfl⟩
abbrev main_v126 : Ref sig .tc := ⟨.hbm, 190, rfl⟩
abbrev main_v127 : Ref sig .tc := ⟨.hbm, 191, rfl⟩
abbrev main_c_30 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_c_31 : Ref sig .tc := ⟨.hbm, 198, rfl⟩
abbrev main_v133 : Ref sig .tc := ⟨.hbm, 199, rfl⟩
abbrev main_v134 : Ref sig .tc := ⟨.hbm, 200, rfl⟩
abbrev main_c_32 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_33 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_34 : Ref sig .tc := ⟨.hbm, 217, rfl⟩
abbrev main_v149 : Ref sig .tc := ⟨.hbm, 218, rfl⟩
abbrev main_cst_35 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_36 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_c_37 : Ref sig .tc := ⟨.hbm, 228, rfl⟩
abbrev main_v157 : Ref sig .tc := ⟨.hbm, 229, rfl⟩
abbrev main_v158 : Ref sig .tc := ⟨.hbm, 230, rfl⟩
abbrev main_c_38 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_cst_39 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_cst_40 : Ref sig .tc := ⟨.hbm, 246, rfl⟩
abbrev main_v172 : Ref sig .tc := ⟨.hbm, 247, rfl⟩
abbrev main_cst_41 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_cst_42 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_c_43 : Ref sig .tc := ⟨.hbm, 261, rfl⟩
abbrev main_v184 : Ref sig .tc := ⟨.hbm, 262, rfl⟩
abbrev main_v185 : Ref sig .tc := ⟨.hbm, 263, rfl⟩
abbrev main_c_44 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_c_45 : Ref sig .tc := ⟨.hbm, 270, rfl⟩
abbrev main_v191 : Ref sig .tc := ⟨.hbm, 271, rfl⟩
abbrev main_v192 : Ref sig .tc := ⟨.hbm, 272, rfl⟩
abbrev main_c_46 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_c_47 : Ref sig .tc := ⟨.hbm, 279, rfl⟩
abbrev main_v198 : Ref sig .tc := ⟨.hbm, 280, rfl⟩
abbrev main_v199 : Ref sig .tc := ⟨.hbm, 281, rfl⟩
abbrev main_c_48 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_c_49 : Ref sig .tc := ⟨.hbm, 288, rfl⟩
abbrev main_v205 : Ref sig .tc := ⟨.hbm, 289, rfl⟩
abbrev main_v206 : Ref sig .tc := ⟨.hbm, 290, rfl⟩
abbrev main_c_50 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_cst_51 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_cst_52 : Ref sig .tc := ⟨.hbm, 307, rfl⟩
abbrev main_v221 : Ref sig .tc := ⟨.hbm, 308, rfl⟩
abbrev main_cst_53 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_cst_54 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_c_55 : Ref sig .tc := ⟨.hbm, 318, rfl⟩
abbrev main_v229 : Ref sig .tc := ⟨.hbm, 319, rfl⟩
abbrev main_v230 : Ref sig .tc := ⟨.hbm, 320, rfl⟩
abbrev main_c_56 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_cst_57 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_cst_58 : Ref sig .tc := ⟨.hbm, 336, rfl⟩
abbrev main_v244 : Ref sig .tc := ⟨.hbm, 337, rfl⟩
abbrev main_cst_59 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_cst_60 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg3_1 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg7_0 : Ref sig .tc := ⟨.vmem, 50, rfl⟩
abbrev cc6_stg8_0 : Ref sig .tc := ⟨.vmem, 51, rfl⟩
abbrev cc6_stg9_0 : Ref sig .tc := ⟨.vmem, 52, rfl⟩
abbrev cc6_stg9_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg6_0 : Ref sig .tc := ⟨.vmem, 63, rfl⟩
abbrev cc7_stg7_0 : Ref sig .tc := ⟨.vmem, 64, rfl⟩
abbrev cc7_stg7_1 : Ref sig .tc := ⟨.vmem, 65, rfl⟩
abbrev cc8_stg0_0 : Ref sig .tc := ⟨.vmem, 66, rfl⟩
abbrev cc8_stg1_0 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg2_1 : Ref sig .tc := ⟨.vmem, 77, rfl⟩
abbrev cc9_stg3_0 : Ref sig .tc := ⟨.vmem, 78, rfl⟩
abbrev cc9_stg3_1 : Ref sig .tc := ⟨.vmem, 79, rfl⟩
abbrev cc9_stg4_0 : Ref sig .tc := ⟨.vmem, 80, rfl⟩
abbrev cc9_stg5_0 : Ref sig .tc := ⟨.vmem, 81, rfl⟩
abbrev cc9_stg6_0 : Ref sig .tc := ⟨.vmem, 82, rfl⟩
abbrev cc9_stg7_0 : Ref sig .tc := ⟨.vmem, 83, rfl⟩
abbrev cc9_stg8_0 : Ref sig .tc := ⟨.vmem, 84, rfl⟩
abbrev cc9_stg9_0 : Ref sig .tc := ⟨.vmem, 85, rfl⟩
abbrev cc9_stg9_1 : Ref sig .tc := ⟨.vmem, 86, rfl⟩
abbrev cc10_stg0_0 : Ref sig .tc := ⟨.vmem, 87, rfl⟩
abbrev cc10_stg0_1 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg2_1 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc10_stg6_0 : Ref sig .tc := ⟨.vmem, 96, rfl⟩
abbrev cc10_stg7_0 : Ref sig .tc := ⟨.vmem, 97, rfl⟩
abbrev cc10_stg7_1 : Ref sig .tc := ⟨.vmem, 98, rfl⟩
abbrev cc11_stg0_0 : Ref sig .tc := ⟨.vmem, 99, rfl⟩
abbrev cc11_stg1_0 : Ref sig .tc := ⟨.vmem, 100, rfl⟩
abbrev cc11_stg2_0 : Ref sig .tc := ⟨.vmem, 101, rfl⟩
abbrev cc11_stg3_0 : Ref sig .tc := ⟨.vmem, 102, rfl⟩
abbrev cc11_stg4_0 : Ref sig .tc := ⟨.vmem, 103, rfl⟩
abbrev cc11_stg5_0 : Ref sig .tc := ⟨.vmem, 104, rfl⟩
abbrev cc12_stg0_0 : Ref sig .tc := ⟨.vmem, 105, rfl⟩
abbrev cc12_stg0_1 : Ref sig .tc := ⟨.vmem, 106, rfl⟩
abbrev cc12_stg1_0 : Ref sig .tc := ⟨.vmem, 107, rfl⟩
abbrev cc12_stg1_1 : Ref sig .tc := ⟨.vmem, 108, rfl⟩
abbrev cc12_stg2_0 : Ref sig .tc := ⟨.vmem, 109, rfl⟩
abbrev cc12_stg2_1 : Ref sig .tc := ⟨.vmem, 110, rfl⟩
abbrev cc12_stg3_0 : Ref sig .tc := ⟨.vmem, 111, rfl⟩
abbrev cc12_stg3_1 : Ref sig .tc := ⟨.vmem, 112, rfl⟩
abbrev cc12_stg4_0 : Ref sig .tc := ⟨.vmem, 113, rfl⟩
abbrev cc12_stg5_0 : Ref sig .tc := ⟨.vmem, 114, rfl⟩
abbrev cc12_stg6_0 : Ref sig .tc := ⟨.vmem, 115, rfl⟩
abbrev cc12_stg7_0 : Ref sig .tc := ⟨.vmem, 116, rfl⟩
abbrev cc12_stg8_0 : Ref sig .tc := ⟨.vmem, 117, rfl⟩
abbrev cc12_stg9_0 : Ref sig .tc := ⟨.vmem, 118, rfl⟩
abbrev cc12_stg9_1 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg1_1 : Ref sig .tc := ⟨.vmem, 123, rfl⟩
abbrev cc13_stg2_0 : Ref sig .tc := ⟨.vmem, 124, rfl⟩
abbrev cc13_stg2_1 : Ref sig .tc := ⟨.vmem, 125, rfl⟩
abbrev cc13_stg3_0 : Ref sig .tc := ⟨.vmem, 126, rfl⟩
abbrev cc13_stg4_0 : Ref sig .tc := ⟨.vmem, 127, rfl⟩
abbrev cc13_stg5_0 : Ref sig .tc := ⟨.vmem, 128, rfl⟩
abbrev cc13_stg6_0 : Ref sig .tc := ⟨.vmem, 129, rfl⟩
abbrev cc13_stg7_0 : Ref sig .tc := ⟨.vmem, 130, rfl⟩
abbrev cc13_stg7_1 : Ref sig .tc := ⟨.vmem, 131, rfl⟩
abbrev cc14_stg0_0 : Ref sig .tc := ⟨.vmem, 132, rfl⟩
abbrev cc14_stg1_0 : Ref sig .tc := ⟨.vmem, 133, rfl⟩
abbrev cc14_stg2_0 : Ref sig .tc := ⟨.vmem, 134, rfl⟩
abbrev cc14_stg3_0 : Ref sig .tc := ⟨.vmem, 135, rfl⟩
abbrev cc14_stg4_0 : Ref sig .tc := ⟨.vmem, 136, rfl⟩
abbrev cc14_stg5_0 : Ref sig .tc := ⟨.vmem, 137, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23
abbrev cc4_sem0_0 : DmaSem sig := 24
abbrev cc4_sem1_0 : DmaSem sig := 25
abbrev cc4_sem2_0 : DmaSem sig := 26
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc6_sem3_0 : DmaSem sig := 39
abbrev cc6_sem3_1 : DmaSem sig := 40
abbrev cc6_sem4_0 : DmaSem sig := 41
abbrev cc6_sem5_0 : DmaSem sig := 42
abbrev cc6_sem6_0 : DmaSem sig := 43
abbrev cc6_sem7_0 : DmaSem sig := 44
abbrev cc6_sem8_0 : DmaSem sig := 45
abbrev cc6_sem9_0 : DmaSem sig := 46
abbrev cc6_sem9_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem4_0 : DmaSem sig := 55
abbrev cc7_sem5_0 : DmaSem sig := 56
abbrev cc7_sem6_0 : DmaSem sig := 57
abbrev cc7_sem7_0 : DmaSem sig := 58
abbrev cc7_sem7_1 : DmaSem sig := 59
abbrev cc8_sem0_0 : DmaSem sig := 60
abbrev cc8_sem1_0 : DmaSem sig := 61
abbrev cc8_sem2_0 : DmaSem sig := 62
abbrev cc8_sem3_0 : DmaSem sig := 63
abbrev cc8_sem4_0 : DmaSem sig := 64
abbrev cc8_sem5_0 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc9_sem2_1 : DmaSem sig := 71
abbrev cc9_sem3_0 : DmaSem sig := 72
abbrev cc9_sem3_1 : DmaSem sig := 73
abbrev cc9_sem4_0 : DmaSem sig := 74
abbrev cc9_sem5_0 : DmaSem sig := 75
abbrev cc9_sem6_0 : DmaSem sig := 76
abbrev cc9_sem7_0 : DmaSem sig := 77
abbrev cc9_sem8_0 : DmaSem sig := 78
abbrev cc9_sem9_0 : DmaSem sig := 79
abbrev cc9_sem9_1 : DmaSem sig := 80
abbrev cc10_sem0_0 : DmaSem sig := 81
abbrev cc10_sem0_1 : DmaSem sig := 82
abbrev cc10_sem1_0 : DmaSem sig := 83
abbrev cc10_sem1_1 : DmaSem sig := 84
abbrev cc10_sem2_0 : DmaSem sig := 85
abbrev cc10_sem2_1 : DmaSem sig := 86
abbrev cc10_sem3_0 : DmaSem sig := 87
abbrev cc10_sem4_0 : DmaSem sig := 88
abbrev cc10_sem5_0 : DmaSem sig := 89
abbrev cc10_sem6_0 : DmaSem sig := 90
abbrev cc10_sem7_0 : DmaSem sig := 91
abbrev cc10_sem7_1 : DmaSem sig := 92
abbrev cc11_sem0_0 : DmaSem sig := 93
abbrev cc11_sem1_0 : DmaSem sig := 94
abbrev cc11_sem2_0 : DmaSem sig := 95
abbrev cc11_sem3_0 : DmaSem sig := 96
abbrev cc11_sem4_0 : DmaSem sig := 97
abbrev cc11_sem5_0 : DmaSem sig := 98
abbrev cc12_sem0_0 : DmaSem sig := 99
abbrev cc12_sem0_1 : DmaSem sig := 100
abbrev cc12_sem1_0 : DmaSem sig := 101
abbrev cc12_sem1_1 : DmaSem sig := 102
abbrev cc12_sem2_0 : DmaSem sig := 103
abbrev cc12_sem2_1 : DmaSem sig := 104
abbrev cc12_sem3_0 : DmaSem sig := 105
abbrev cc12_sem3_1 : DmaSem sig := 106
abbrev cc12_sem4_0 : DmaSem sig := 107
abbrev cc12_sem5_0 : DmaSem sig := 108
abbrev cc12_sem6_0 : DmaSem sig := 109
abbrev cc12_sem7_0 : DmaSem sig := 110
abbrev cc12_sem8_0 : DmaSem sig := 111
abbrev cc12_sem9_0 : DmaSem sig := 112
abbrev cc12_sem9_1 : DmaSem sig := 113
abbrev cc13_sem0_0 : DmaSem sig := 114
abbrev cc13_sem0_1 : DmaSem sig := 115
abbrev cc13_sem1_0 : DmaSem sig := 116
abbrev cc13_sem1_1 : DmaSem sig := 117
abbrev cc13_sem2_0 : DmaSem sig := 118
abbrev cc13_sem2_1 : DmaSem sig := 119
abbrev cc13_sem3_0 : DmaSem sig := 120
abbrev cc13_sem4_0 : DmaSem sig := 121
abbrev cc13_sem5_0 : DmaSem sig := 122
abbrev cc13_sem6_0 : DmaSem sig := 123
abbrev cc13_sem7_0 : DmaSem sig := 124
abbrev cc13_sem7_1 : DmaSem sig := 125
abbrev cc14_sem0_0 : DmaSem sig := 126
abbrev cc14_sem1_0 : DmaSem sig := 127
abbrev cc14_sem2_0 : DmaSem sig := 128
abbrev cc14_sem3_0 : DmaSem sig := 129
abbrev cc14_sem4_0 : DmaSem sig := 130
abbrev cc14_sem5_0 : DmaSem sig := 131

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S3000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_11 : BitVec 32 := 0#32
  let v21 : BitVec 1 := Scalar.cmpi .ne v20 c0_i32_11
  v21

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S6000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def k4_cond2 (i : grid4.Coords) : BitVec 1 :=
  let arg0 : BitVec 32 := BitVec.ofNat 32 (i 0).val
  let c0_i32_11 : BitVec 32 := 0#32
  let v19 : BitVec 1 := Scalar.cmpi .eq arg0 c0_i32_11
  let v20 : BitVec 32 := Scalar.extui v19
  let c0_i32_12 : BitVec 32 := 0#32
  let v21 : BitVec 1 := Scalar.cmpi .ne v20 c0_i32_12
  v21

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x32 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S6000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S6000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S32x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S6000x64 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S32x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S6000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S64x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S6000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S6000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S6000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S64x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S64x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S6000x64 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S6000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S6000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S64x64 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S6000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S6000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S6000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S6000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S64x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S64x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S64x64 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x64 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S6000x64 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S6000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S6000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S6000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S64x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S64x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S64x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x64 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S6000x64 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S64x64 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S64x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S64x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S64x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S3000x64_S3000x64_0_0 : ∀ a, (![0, 0] : Fin 2 → Nat) a + S3000x64.size a ≤ S3000x64.size a
  h_S3000x64 : 0 < S3000x64.numel
  reduces_S3000x64_S64 : S3000x64.Reduces [0] S64
  shapeCasts_S64_S1x64 : S64.ShapeCasts S1x64
  bcast_S_S1x64 : S_.BroadcastsInDim S1x64 (![] : Fin 0 → Fin S1x64.rank)
  broadcasts_S1x64_S3000x64 : S1x64.Broadcasts S3000x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S6000x32_S6000x32_0_0 : ∀ a, (![0, 0] : Fin 2 → Nat) a + S6000x32.size a ≤ S6000x32.size a
  h_S6000x32 : 0 < S6000x32.numel
  reduces_S6000x32_S32 : S6000x32.Reduces [0] S32
  shapeCasts_S32_S1x32 : S32.ShapeCasts S1x32
  bcast_S_S1x32 : S_.BroadcastsInDim S1x32 (![] : Fin 0 → Fin S1x32.rank)
  broadcasts_S1x32_S6000x32 : S1x32.Broadcasts S6000x32
  inb_S64x32_S64x32_0_0 : ∀ a, (![0, 0] : Fin 2 → Nat) a + S64x32.size a ≤ S64x32.size a
  h_S64x32 : 0 < S64x32.numel
  reduces_S64x32_S32 : S64x32.Reduces [0] S32
  broadcasts_S1x32_S64x32 : S1x32.Broadcasts S64x32
  bcast_S_S300000 : S_.BroadcastsInDim S300000 (![] : Fin 0 → Fin S300000.rank)
  bcast_S300000_S300000x1_0 : S300000.BroadcastsInDim S300000x1 (![0] : Fin 1 → Fin S300000x1.rank)
  slices_S192x64_S64x64_0_0 : S192x64.Slices ![0, 0] S64x64
  slices_S192x64_S64x64_64_0 : S192x64.Slices ![64, 0] S64x64
  slices_S192x64_S32x64_128_0 : S192x64.Slices ![128, 0] S32x64
  slices_S192x64_S32x64_160_0 : S192x64.Slices ![160, 0] S32x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S6000x32_S6000x32 : S6000x32.ShapeCasts S6000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  broadcasts_S1x64_S6000x64 : S1x64.Broadcasts S6000x64
  bcast_S_S30000x64 : S_.BroadcastsInDim S30000x64 (![] : Fin 0 → Fin S30000x64.rank)
  bcast_S_S300000x1 : S_.BroadcastsInDim S300000x1 (![] : Fin 0 → Fin S300000x1.rank)
  bcast_S_S30000x1 : S_.BroadcastsInDim S30000x1 (![] : Fin 0 → Fin S30000x1.rank)
  bcast_S30000x1_S30000x64_0_1 : S30000x1.BroadcastsInDim S30000x64 (![0, 1] : Fin 2 → Fin S30000x64.rank)
  bcast_S_S30000 : S_.BroadcastsInDim S30000 (![] : Fin 0 → Fin S30000.rank)
  bcast_S30000_S30000x1_0 : S30000.BroadcastsInDim S30000x1 (![0] : Fin 1 → Fin S30000x1.rank)
  slices_S160x64_S64x64_0_0 : S160x64.Slices ![0, 0] S64x64
  slices_S160x64_S64x64_64_0 : S160x64.Slices ![64, 0] S64x64
  slices_S160x64_S32x64_128_0 : S160x64.Slices ![128, 0] S32x64
  bcast_S_S64x64 : S_.BroadcastsInDim S64x64 (![] : Fin 0 → Fin S64x64.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  slices_S96x64_S64x64_0_0 : S96x64.Slices ![0, 0] S64x64
  slices_S96x64_S32x64_64_0 : S96x64.Slices ![64, 0] S32x64
  shapeCasts_S64x32_S64x32 : S64x32.ShapeCasts S64x32
  broadcasts_S1x64_S64x64 : S1x64.Broadcasts S64x64
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  slices_S192x64_S64x64_128_0 : S192x64.Slices ![128, 0] S64x64
  slices_S128x64_S64x64_0_0 : S128x64.Slices ![0, 0] S64x64
  slices_S128x64_S64x64_64_0 : S128x64.Slices ![64, 0] S64x64
  gather_S30000x64_S300000x1_S300000x64_1_0_n_n_0_1_164_wf : GatherDims.WF S30000x64 S300000x1 S300000x64 [1] [0] [] [0] [] 1 ![1, 64]
  gather_S30000_S300000x1_S300000_n_0_n_n_0_1_1_wf : GatherDims.WF S30000 S300000x1 S300000 [] [0] [] [0] [] 1 ![1]
  gather_S64x32_S300000x1_S300000x32_1_0_n_n_0_1_132_wf : GatherDims.WF S64x32 S300000x1 S300000x32 [1] [0] [] [0] [] 1 ![1, 32]
  dot_S6000x64_S64x64_S6000x64_1_0_0_1_n_n_wf : DotDims.WF S6000x64 S64x64 S6000x64 [1] [0] [0] [1] [] []
  dot_S6000x32_S32x64_S6000x64_1_0_0_1_n_n_wf : DotDims.WF S6000x32 S32x64 S6000x64 [1] [0] [0] [1] [] []
  scatter_S30000x64_S300000x1_S300000x64_1_0_0_1_wf : ScatterDims.WF S30000x64 S300000x1 S300000x64 [1] [0] [0] 1
  scatter_S30000x1_S300000x1_S300000x1_1_0_0_1_wf : ScatterDims.WF S30000x1 S300000x1 S300000x1 [1] [0] [0] 1
  gather_S64x32_S30000x1_S30000x32_1_0_n_n_0_1_132_wf : GatherDims.WF S64x32 S30000x1 S30000x32 [1] [0] [] [0] [] 1 ![1, 32]
  scatter_S64x64_S30000x1_S30000x64_1_0_0_1_wf : ScatterDims.WF S64x64 S30000x1 S30000x64 [1] [0] [0] 1
  scatter_S64x1_S30000x1_S30000x1_1_0_0_1_wf : ScatterDims.WF S64x1 S30000x1 S30000x1 [1] [0] [0] 1
  dot_S64x64_S64x64_S64x64_1_0_0_1_n_n_wf : DotDims.WF S64x64 S64x64 S64x64 [1] [0] [0] [1] [] []
  dot_S64x32_S32x64_S64x64_1_0_0_1_n_n_wf : DotDims.WF S64x32 S32x64 S64x64 [1] [0] [0] [1] [] []
  gather_S64x64_S300000x1_S300000x64_1_0_n_n_0_1_164_wf : GatherDims.WF S64x64 S300000x1 S300000x64 [1] [0] [] [0] [] 1 ![1, 64]
  gather_S64x64_S30000x1_S30000x64_1_0_n_n_0_1_164_wf : GatherDims.WF S64x64 S30000x1 S30000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S30000x64.size a
  hwx0_0 : ∀ i : grid0.Coords, EltTy.bits .f32 = 32 ∨ (Rect.block (s := S30000x64) S3000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S30000x64.size a
  hwx1_0 : ∀ i : grid1.Coords, EltTy.bits .f32 = 32 ∨ (Rect.block (s := S30000x64) S3000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3000x64.size a ≤ S30000x64.size a
  hwx1_5 : ∀ i : grid1.Coords, EltTy.bits .f32 = 32 ∨ (Rect.block (s := S30000x64) S3000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S300000x32.size a
  hwx2_0 : ∀ i : grid2.Coords, EltTy.bits .f32 = 32 ∨ (Rect.block (s := S300000x32) S6000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x32.size a ≤ S300000x32.size a
  hwx3_0 : ∀ i : grid3.Coords, EltTy.bits .f32 = 32 ∨ (Rect.block (s := S300000x32) S6000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S6000x32.size a ≤ S300000x32.size a
  hwx3_5 : ∀ i : grid3.Coords, EltTy.bits .f32 = 32 ∨ (Rect.block (s := S300000x32) S6000x32.size (cc3_transform_5 i) (hinb3_5 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x32.size a ≤ S64x32.size a
  hwx4_0 : ∀ i : grid4.Coords, EltTy.bits .f32 = 32 ∨ (Rect.block (s := S64x32) S64x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x32.size a ≤ S64x32.size a
  hwx5_0 : ∀ i : grid5.Coords, EltTy.bits .f32 = 32 ∨ (Rect.block (s := S64x32) S64x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 1
  hreads5_5 : ∀ i i' : grid5.Coords, (∀ a, reads5_5 a = true → i a = i' a) → cc5_transform_5 i = cc5_transform_5 i'
  hinb5_5 : ∀ (i : grid5.Coords) a, (cc5_transform_5 i a + 1) * S64x32.size a ≤ S64x32.size a
  hwx5_5 : ∀ i : grid5.Coords, EltTy.bits .f32 = 32 ∨ (Rect.block (s := S64x32) S64x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x64.size a ≤ S300000x64.size a
  hwx6_0 : ∀ i : grid6.Coords, EltTy.bits .f32 = 32 ∨ (Rect.block (s := S300000x64) S6000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S300000x64.size a
  hwx6_1 : ∀ i : grid6.Coords, EltTy.bits .f32 = 32 ∨ (Rect.block (s := S300000x64) S6000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S6000x32.size a ≤ S300000x32.size a
  hwx6_2 : ∀ i : grid6.Coords, EltTy.bits .f32 = 32 ∨ (Rect.block (s := S300000x32) S6000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6000x32.size a ≤ S300000x32.size a
  hwx6_3 : ∀ i : grid6.Coords, EltTy.bits .f32 = 32 ∨ (Rect.block (s := S300000x32) S6000x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S32x64.size a ≤ S32x64.size a
  hwx6_6 : ∀ i : grid6.Coords, EltTy.bits .f32 = 32 ∨ (Rect.block (s := S32x64) S32x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32x64.size a ≤ S32x64.size a
  hwx6_7 : ∀ i : grid6.Coords, EltTy.bits .f32 = 32 ∨ (Rect.block (s := S32x64) S32x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S6000x64.size a ≤ S300000x64.size a
  hwx6_9 : ∀ i : grid6.Coords, EltTy.bits .f32 = 32 ∨ (Rect.block (s := S300000x64) S6000x64.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x64.size a ≤ S30000x64.size a
  hwx7_0 : ∀ i : grid7.Coords, EltTy.bits .f32 = 32 ∨ (Rect.block (s := S30000x64) S6000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6000x64.size a ≤ S30000x64.size a
  hwx7_1 : ∀ i : grid7.Coords, EltTy.bits .f32 = 32 ∨ (Rect.block (s := S30000x64) S6000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6000x32.size a ≤ S30000x32.size a
  hwx7_2 : ∀ i : grid7.Coords, EltTy.bits .f32 = 32 ∨ (Rect.block (s := S30000x32) S6000x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S32x64.size a ≤ S32x64.size a
  hwx7_5 : ∀ i : grid7.Coords, EltTy.bits .f32 = 32 ∨ (Rect.block (s := S32x64) S32x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S6000x64.size a ≤ S30000x64.size a
  hwx7_7 : ∀ i : grid7.Coords, EltTy.bits .f32 = 32 ∨ (Rect.block (s := S30000x64) S6000x64.size (cc7_transform_7 i) (hinb7_7 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S64x64.size a ≤ S64x64.size a
  hwx8_0 : ∀ i : grid8.Coords, EltTy.bits .f32 = 32 ∨ (Rect.block (s := S64x64) S64x64.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x64.size a ≤ S32x64.size a
  hwx8_3 : ∀ i : grid8.Coords, EltTy.bits .f32 = 32 ∨ (Rect.block (s := S32x64) S32x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6000x64.size a ≤ S300000x64.size a
  hwx9_0 : ∀ i : grid9.Coords, EltTy.bits .f32 = 32 ∨ (Rect.block (s := S300000x64) S6000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S6000x64.size a ≤ S300000x64.size a
  hwx9_1 : ∀ i : grid9.Coords, EltTy.bits .f32 = 32 ∨ (Rect.block (s := S300000x64) S6000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S6000x64.size a ≤ S300000x64.size a
  hwx9_2 : ∀ i : grid9.Coords, EltTy.bits .f32 = 32 ∨ (Rect.block (s := S300000x64) S6000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S6000x64.size a ≤ S300000x64.size a
  hwx9_3 : ∀ i : grid9.Coords, EltTy.bits .f32 = 32 ∨ (Rect.block (s := S300000x64) S6000x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S64x64.size a ≤ S64x64.size a
  hwx9_6 : ∀ i : grid9.Coords, EltTy.bits .f32 = 32 ∨ (Rect.block (s := S64x64) S64x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S64x64.size a ≤ S64x64.size a
  hwx9_7 : ∀ i : grid9.Coords, EltTy.bits .f32 = 32 ∨ (Rect.block (s := S64x64) S64x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x64.size a ≤ S1x64.size a
  hwx9_8 : ∀ i : grid9.Coords, EltTy.bits .f32 = 32 ∨ (Rect.block (s := S1x64) S1x64.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S6000x64.size a ≤ S300000x64.size a
  hwx9_9 : ∀ i : grid9.Coords, EltTy.bits .f32 = 32 ∨ (Rect.block (s := S300000x64) S6000x64.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6000x64.size a ≤ S30000x64.size a
  hwx10_0 : ∀ i : grid10.Coords, EltTy.bits .f32 = 32 ∨ (Rect.block (s := S30000x64) S6000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S6000x64.size a ≤ S30000x64.size a
  hwx10_1 : ∀ i : grid10.Coords, EltTy.bits .f32 = 32 ∨ (Rect.block (s := S30000x64) S6000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S6000x64.size a ≤ S30000x64.size a
  hwx10_2 : ∀ i : grid10.Coords, EltTy.bits .f32 = 32 ∨ (Rect.block (s := S30000x64) S6000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x64.size a ≤ S64x64.size a
  hwx10_4 : ∀ i : grid10.Coords, EltTy.bits .f32 = 32 ∨ (Rect.block (s := S64x64) S64x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S6000x64.size a ≤ S30000x64.size a
  hwx10_7 : ∀ i : grid10.Coords, EltTy.bits .f32 = 32 ∨ (Rect.block (s := S30000x64) S6000x64.size (cc10_transform_7 i) (hinb10_7 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S64x64.size a ≤ S64x64.size a
  hwx11_0 : ∀ i : grid11.Coords, EltTy.bits .f32 = 32 ∨ (Rect.block (s := S64x64) S64x64.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S6000x64.size a ≤ S300000x64.size a
  hwx12_0 : ∀ i : grid12.Coords, EltTy.bits .f32 = 32 ∨ (Rect.block (s := S300000x64) S6000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S6000x64.size a ≤ S300000x64.size a
  hwx12_1 : ∀ i : grid12.Coords, EltTy.bits .f32 = 32 ∨ (Rect.block (s := S300000x64) S6000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S6000x64.size a ≤ S300000x64.size a
  hwx12_2 : ∀ i : grid12.Coords, EltTy.bits .f32 = 32 ∨ (Rect.block (s := S300000x64) S6000x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S6000x64.size a ≤ S300000x64.size a
  hwx12_3 : ∀ i : grid12.Coords, EltTy.bits .f32 = 32 ∨ (Rect.block (s := S300000x64) S6000x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S64x64.size a ≤ S64x64.size a
  hwx12_4 : ∀ i : grid12.Coords, EltTy.bits .f32 = 32 ∨ (Rect.block (s := S64x64) S64x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x64.size a ≤ S64x64.size a
  hwx12_5 : ∀ i : grid12.Coords, EltTy.bits .f32 = 32 ∨ (Rect.block (s := S64x64) S64x64.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S64x64.size a ≤ S64x64.size a
  hwx12_6 : ∀ i : grid12.Coords, EltTy.bits .f32 = 32 ∨ (Rect.block (s := S64x64) S64x64.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S64x64.size a ≤ S64x64.size a
  hwx12_7 : ∀ i : grid12.Coords, EltTy.bits .f32 = 32 ∨ (Rect.block (s := S64x64) S64x64.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x64.size a ≤ S1x64.size a
  hwx12_8 : ∀ i : grid12.Coords, EltTy.bits .f32 = 32 ∨ (Rect.block (s := S1x64) S1x64.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S6000x64.size a ≤ S300000x64.size a
  hwx12_9 : ∀ i : grid12.Coords, EltTy.bits .f32 = 32 ∨ (Rect.block (s := S300000x64) S6000x64.size (cc12_transform_9 i) (hinb12_9 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S6000x64.size a ≤ S30000x64.size a
  hwx13_0 : ∀ i : grid13.Coords, EltTy.bits .f32 = 32 ∨ (Rect.block (s := S30000x64) S6000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S6000x64.size a ≤ S30000x64.size a
  hwx13_1 : ∀ i : grid13.Coords, EltTy.bits .f32 = 32 ∨ (Rect.block (s := S30000x64) S6000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S6000x64.size a ≤ S30000x64.size a
  hwx13_2 : ∀ i : grid13.Coords, EltTy.bits .f32 = 32 ∨ (Rect.block (s := S30000x64) S6000x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64x64.size a ≤ S64x64.size a
  hwx13_3 : ∀ i : grid13.Coords, EltTy.bits .f32 = 32 ∨ (Rect.block (s := S64x64) S64x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S64x64.size a ≤ S64x64.size a
  hwx13_4 : ∀ i : grid13.Coords, EltTy.bits .f32 = 32 ∨ (Rect.block (s := S64x64) S64x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S64x64.size a ≤ S64x64.size a
  hwx13_5 : ∀ i : grid13.Coords, EltTy.bits .f32 = 32 ∨ (Rect.block (s := S64x64) S64x64.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x64.size a ≤ S1x64.size a
  hwx13_6 : ∀ i : grid13.Coords, EltTy.bits .f32 = 32 ∨ (Rect.block (s := S1x64) S1x64.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S6000x64.size a ≤ S30000x64.size a
  hwx13_7 : ∀ i : grid13.Coords, EltTy.bits .f32 = 32 ∨ (Rect.block (s := S30000x64) S6000x64.size (cc13_transform_7 i) (hinb13_7 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S64x64.size a ≤ S64x64.size a
  hwx14_0 : ∀ i : grid14.Coords, EltTy.bits .f32 = 32 ∨ (Rect.block (s := S64x64) S64x64.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S64x64.size a ≤ S64x64.size a
  hwx14_1 : ∀ i : grid14.Coords, EltTy.bits .f32 = 32 ∨ (Rect.block (s := S64x64) S64x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64x64.size a ≤ S64x64.size a
  hwx14_2 : ∀ i : grid14.Coords, EltTy.bits .f32 = 32 ∨ (Rect.block (s := S64x64) S64x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S64x64.size a ≤ S64x64.size a
  hwx14_3 : ∀ i : grid14.Coords, EltTy.bits .f32 = 32 ∨ (Rect.block (s := S64x64) S64x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 1
  hreads14_5 : ∀ i i' : grid14.Coords, (∀ a, reads14_5 a = true → i a = i' a) → cc14_transform_5 i = cc14_transform_5 i'
  hinb14_5 : ∀ (i : grid14.Coords) a, (cc14_transform_5 i a + 1) * S64x64.size a ≤ S64x64.size a
  hwx14_5 : ∀ i : grid14.Coords, EltTy.bits .f32 = 32 ∨ (Rect.block (s := S64x64) S64x64.size (cc14_transform_5 i) (hinb14_5 i)).WholeWords (EltTy.packing .f32)

variable [Facts₀]

def gather_S30000x64_S300000x1_S300000x64_1_0_n_n_0_1_164 : GatherDims S30000x64 S300000x1 S300000x64 where
  offsetDims := [1]
  collapsedSliceDims := [0]
  operandBatchingDims := []
  startIndicesBatchingDims := []
  startIndexMap := [0]
  indexVectorDim := 1
  sliceSizes := ![1, 64]
  wf := gather_S30000x64_S300000x1_S300000x64_1_0_n_n_0_1_164_wf
def gather_S30000_S300000x1_S300000_n_0_n_n_0_1_1 : GatherDims S30000 S300000x1 S300000 where
  offsetDims := []
  collapsedSliceDims := [0]
  operandBatchingDims := []
  startIndicesBatchingDims := []
  startIndexMap := [0]
  indexVectorDim := 1
  sliceSizes := ![1]
  wf := gather_S30000_S300000x1_S300000_n_0_n_n_0_1_1_wf
def gather_S64x32_S300000x1_S300000x32_1_0_n_n_0_1_132 : GatherDims S64x32 S300000x1 S300000x32 where
  offsetDims := [1]
  collapsedSliceDims := [0]
  operandBatchingDims := []
  startIndicesBatchingDims := []
  startIndexMap := [0]
  indexVectorDim := 1
  sliceSizes := ![1, 32]
  wf := gather_S64x32_S300000x1_S300000x32_1_0_n_n_0_1_132_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def dot_S6000x32_S32x64_S6000x64_1_0_0_1_n_n : DotDims S6000x32 S32x64 S6000x64 where
  lhsContracting := [1]
  rhsContracting := [0]
  lhsNonContracting := [0]
  rhsNonContracting := [1]
  lhsBatch := []
  rhsBatch := []
  wf := dot_S6000x32_S32x64_S6000x64_1_0_0_1_n_n_wf
def scatter_S30000x64_S300000x1_S300000x64_1_0_0_1 : ScatterDims S30000x64 S300000x1 S300000x64 where
  updateWindowDims := [1]
  insertedWindowDims := [0]
  scatterDimsToOperandDims := [0]
  indexVectorDim := 1
  wf := scatter_S30000x64_S300000x1_S300000x64_1_0_0_1_wf
def scatter_S30000x1_S300000x1_S300000x1_1_0_0_1 : ScatterDims S30000x1 S300000x1 S300000x1 where
  updateWindowDims := [1]
  insertedWindowDims := [0]
  scatterDimsToOperandDims := [0]
  indexVectorDim := 1
  wf := scatter_S30000x1_S300000x1_S300000x1_1_0_0_1_wf
def gather_S64x32_S30000x1_S30000x32_1_0_n_n_0_1_132 : GatherDims S64x32 S30000x1 S30000x32 where
  offsetDims := [1]
  collapsedSliceDims := [0]
  operandBatchingDims := []
  startIndicesBatchingDims := []
  startIndexMap := [0]
  indexVectorDim := 1
  sliceSizes := ![1, 32]
  wf := gather_S64x32_S30000x1_S30000x32_1_0_n_n_0_1_132_wf
def scatter_S64x64_S30000x1_S30000x64_1_0_0_1 : ScatterDims S64x64 S30000x1 S30000x64 where
  updateWindowDims := [1]
  insertedWindowDims := [0]
  scatterDimsToOperandDims := [0]
  indexVectorDim := 1
  wf := scatter_S64x64_S30000x1_S30000x64_1_0_0_1_wf
def scatter_S64x1_S30000x1_S30000x1_1_0_0_1 : ScatterDims S64x1 S30000x1 S30000x1 where
  updateWindowDims := [1]
  insertedWindowDims := [0]
  scatterDimsToOperandDims := [0]
  indexVectorDim := 1
  wf := scatter_S64x1_S30000x1_S30000x1_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def gather_S64x64_S300000x1_S300000x64_1_0_n_n_0_1_164 : GatherDims S64x64 S300000x1 S300000x64 where
  offsetDims := [1]
  collapsedSliceDims := [0]
  operandBatchingDims := []
  startIndicesBatchingDims := []
  startIndexMap := [0]
  indexVectorDim := 1
  sliceSizes := ![1, 64]
  wf := gather_S64x64_S300000x1_S300000x64_1_0_n_n_0_1_164_wf
def gather_S64x64_S30000x1_S30000x64_1_0_n_n_0_1_164 : GatherDims S64x64 S30000x1 S30000x64 where
  offsetDims := [1]
  collapsedSliceDims := [0]
  operandBatchingDims := []
  startIndicesBatchingDims := []
  startIndexMap := [0]
  indexVectorDim := 1
  sliceSizes := ![1, 64]
  wf := gather_S64x64_S30000x1_S30000x64_1_0_n_n_0_1_164_wf

abbrev win0_0 : Pipeline.Window sig grid0 :=
  Pipeline.Window.ofSpec (Memref.whole main_arg0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S3000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S1x32.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16_1) S1x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg2) S6000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S6000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg3) S64x32.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v28_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg3) S64x32.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v30) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v36) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v38) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v39) S64x32.size cc5_transform_5 reads5_5 true false 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v46) S6000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S6000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v27) S6000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v67) S6000x32.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v68) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v69) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v70) S32x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v71) S32x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v72) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v73) S6000x64.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v15) S6000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S6000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v91) S6000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v92) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v94) S32x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v95) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v96) S6000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v107) S64x64.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v39) S64x32.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v108) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v109) S32x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v110) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S64x64.size cc8_transform_5 reads8_5 true false 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v118) S6000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S6000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v73) S6000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v139) S6000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v140) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v141) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v142) S64x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v143) S64x64.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v144) S1x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v145) S6000x64.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v96) S6000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v156) S6000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v163) S6000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v164) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v165) S64x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v166) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v167) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v168) S6000x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v179) S64x64.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v111) S64x64.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v180) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v181) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v182) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v183) S64x64.size cc11_transform_5 reads11_5 true false 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v190) S6000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v197) S6000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v145) S6000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v211) S6000x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v212) S64x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v213) S64x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v214) S64x64.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v215) S64x64.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v216) S1x64.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v217) S6000x64.size cc12_transform_9 reads12_9 true false 2 stage12_9 sem12_9
    hrank12 hreads12_9 hinb12_9 nbuf12_9 (Memref.isWhole_whole _) hwx12_9 hstage12_9

abbrev win12 : Fin 10 → Pipeline.Window sig grid12 := fun | 0 => win12_0 | 1 => win12_1 | 2 => win12_2 | 3 => win12_3 | 4 => win12_4 | 5 => win12_5 | 6 => win12_6 | 7 => win12_7 | 8 => win12_8 | 9 => win12_9 | ⟨_ + 10, h⟩ => absurd h (Nat.not_lt.2 (Nat.le_add_left _ _))
abbrev spec12 : Fin 10 → Pipeline.WinSpec sig grid12.rank := fun w => (win12 w).toWinSpec

abbrev win13_0 : Pipeline.Window sig grid13 :=
  Pipeline.Window.ofSpec (Memref.whole main_v168) S6000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v228) S6000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v235) S6000x64.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v236) S64x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v237) S64x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v238) S64x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v239) S1x64.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v240) S6000x64.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v251) S64x64.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v183) S64x64.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v252) S64x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v253) S64x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v254) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v255) S64x64.size cc14_transform_5 reads14_5 true false 1 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S30000x64 : Shape := ⟨2, ![30000, 64]⟩
abbrev S2x300000 : Shape := ⟨2, ![2, 300000]⟩
abbrev S300000x32 : Shape := ⟨2, ![300000, 32]⟩
abbrev S64x32 : Shape := ⟨2, ![64, 32]⟩
abbrev S30000 : Shape := ⟨1, ![30000]⟩
abbrev S64 : Shape := ⟨1, ![64]⟩
abbrev S32 : Shape := ⟨1, ![32]⟩
abbrev S192x64 : Shape := ⟨2, ![192, 64]⟩
abbrev S160x64 : Shape := ⟨2, ![160, 64]⟩
abbrev S96x64 : Shape := ⟨2, ![96, 64]⟩
abbrev S256x64 : Shape := ⟨2, ![256, 64]⟩
abbrev S128x64 : Shape := ⟨2, ![128, 64]⟩
abbrev S1x300000 : Shape := ⟨2, ![1, 300000]⟩
abbrev S300000 : Shape := ⟨1, ![300000]⟩
abbrev S_ : Shape := ⟨0, ![]⟩
abbrev S1x64 : Shape := ⟨2, ![1, 64]⟩
abbrev S1x32 : Shape := ⟨2, ![1, 32]⟩
abbrev S300000x1 : Shape := ⟨2, ![300000, 1]⟩
abbrev S300000x64 : Shape := ⟨2, ![300000, 64]⟩
abbrev S300000x192 : Shape := ⟨2, ![300000, 192]⟩
abbrev S30000x1 : Shape := ⟨2, ![30000, 1]⟩
abbrev S30000x32 : Shape := ⟨2, ![30000, 32]⟩
abbrev S30000x160 : Shape := ⟨2, ![30000, 160]⟩
abbrev S64x64 : Shape := ⟨2, ![64, 64]⟩
abbrev S64x1 : Shape := ⟨2, ![64, 1]⟩
abbrev S64x96 : Shape := ⟨2, ![64, 96]⟩
abbrev S300000x256 : Shape := ⟨2, ![300000, 256]⟩
abbrev S30000x192 : Shape := ⟨2, ![30000, 192]⟩
abbrev S64x128 : Shape := ⟨2, ![64, 128]⟩

abbrev nBuf : Space → Nat
  | .hbm => 462
  | .vmem => 0
  | .smem => 0
  | _ => 0

abbrev hbmTy0_0 (i : Nat) : BufTy := match i % 128 with
  | 0 => ⟨S30000x64, .f32⟩
  | 1 => ⟨S2x300000, .i32⟩
  | 2 => ⟨S300000x32, .f32⟩
  | 3 => ⟨S64x32, .f32⟩
  | 4 => ⟨S30000, .i32⟩
  | 5 => ⟨S64, .f32⟩
  | 6 => ⟨S64, .f32⟩
  | 7 => ⟨S32, .f32⟩
  | 8 => ⟨S32, .f32⟩
  | 9 => ⟨S32, .f32⟩
  | 10 => ⟨S32, .f32⟩
  | 11 => ⟨S192x64, .f32⟩
  | 12 => ⟨S64, .f32⟩
  | 13 => ⟨S160x64, .f32⟩
  | 14 => ⟨S64, .f32⟩
  | 15 => ⟨S96x64, .f32⟩
  | 16 => ⟨S64, .f32⟩
  | 17 => ⟨S256x64, .f32⟩
  | 18 => ⟨S64, .f32⟩
  | 19 => ⟨S192x64, .f32⟩
  | 20 => ⟨S64, .f32⟩
  | 21 => ⟨S128x64, .f32⟩
  | 22 => ⟨S64, .f32⟩
  | 23 => ⟨S256x64, .f32⟩
  | 24 => ⟨S64, .f32⟩
  | 25 => ⟨S192x64, .f32⟩
  | 26 => ⟨S64, .f32⟩
  | 27 => ⟨S128x64, .f32⟩
  | 28 => ⟨S64, .f32⟩
  | 29 => ⟨S1x300000, .i32⟩
  | 30 => ⟨S300000, .i32⟩
  | 31 => ⟨S1x300000, .i32⟩
  | 32 => ⟨S300000, .i32⟩
  | 33 => ⟨S_, .f32⟩
  | 34 => ⟨S64, .f32⟩
  | 35 => ⟨S_, .f32⟩
  | 36 => ⟨S64, .f32⟩
  | 37 => ⟨S64, .f32⟩
  | 38 => ⟨S_, .i32⟩
  | 39 => ⟨S_, .f32⟩
  | 40 => ⟨S64, .f32⟩
  | 41 => ⟨S1x64, .f32⟩
  | 42 => ⟨S_, .f32⟩
  | 43 => ⟨S1x64, .f32⟩
  | 44 => ⟨S1x64, .f32⟩
  | 45 => ⟨S30000x64, .f32⟩
  | 46 => ⟨S30000x64, .f32⟩
  | 47 => ⟨S30000x64, .f32⟩
  | 48 => ⟨S_, .f32⟩
  | 49 => ⟨S_, .f32⟩
  | 50 => ⟨S_, .f32⟩
  | 51 => ⟨S_, .f32⟩
  | 52 => ⟨S64, .f32⟩
  | 53 => ⟨S64, .f32⟩
  | 54 => ⟨S64, .f32⟩
  | 55 => ⟨S_, .f32⟩
  | 56 => ⟨S_, .i1⟩
  | 57 => ⟨S_, .f32⟩
  | 58 => ⟨S_, .f32⟩
  | 59 => ⟨S64, .f32⟩
  | 60 => ⟨S64, .f32⟩
  | 61 => ⟨S1x64, .f32⟩
  | 62 => ⟨S30000x64, .f32⟩
  | 63 => ⟨S30000x64, .f32⟩
  | 64 => ⟨S1x64, .f32⟩
  | 65 => ⟨S30000x64, .f32⟩
  | 66 => ⟨S30000x64, .f32⟩
  | 67 => ⟨S_, .f32⟩
  | 68 => ⟨S64, .f32⟩
  | 69 => ⟨S64, .f32⟩
  | 70 => ⟨S64, .f32⟩
  | 71 => ⟨S1x64, .f32⟩
  | 72 => ⟨S30000x64, .f32⟩
  | 73 => ⟨S30000x64, .f32⟩
  | 74 => ⟨S1x64, .f32⟩
  | 75 => ⟨S30000x64, .f32⟩
  | 76 => ⟨S30000x64, .f32⟩
  | 77 => ⟨S_, .f32⟩
  | 78 => ⟨S32, .f32⟩
  | 79 => ⟨S_, .f32⟩
  | 80 => ⟨S32, .f32⟩
  | 81 => ⟨S32, .f32⟩
  | 82 => ⟨S_, .i32⟩
  | 83 => ⟨S_, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S300000x32, .f32⟩
  | 90 => ⟨S300000x32, .f32⟩
  | 91 => ⟨S300000x32, .f32⟩
  | 92 => ⟨S_, .f32⟩
  | 93 => ⟨S_, .f32⟩
  | 94 => ⟨S_, .f32⟩
  | 95 => ⟨S_, .f32⟩
  | 96 => ⟨S32, .f32⟩
  | 97 => ⟨S32, .f32⟩
  | 98 => ⟨S32, .f32⟩
  | 99 => ⟨S_, .f32⟩
  | 100 => ⟨S_, .i1⟩
  | 101 => ⟨S_, .f32⟩
  | 102 => ⟨S_, .f32⟩
  | 103 => ⟨S32, .f32⟩
  | 104 => ⟨S32, .f32⟩
  | 105 => ⟨S1x32, .f32⟩
  | 106 => ⟨S300000x32, .f32⟩
  | 107 => ⟨S300000x32, .f32⟩
  | 108 => ⟨S1x32, .f32⟩
  | 109 => ⟨S300000x32, .f32⟩
  | 110 => ⟨S300000x32, .f32⟩
  | 111 => ⟨S_, .f32⟩
  | 112 => ⟨S32, .f32⟩
  | 113 => ⟨S32, .f32⟩
  | 114 => ⟨S32, .f32⟩
  | 115 => ⟨S1x32, .f32⟩
  | 116 => ⟨S300000x32, .f32⟩
  | 117 => ⟨S300000x32, .f32⟩
  | 118 => ⟨S1x32, .f32⟩
  | 119 => ⟨S300000x32, .f32⟩
  | 120 => ⟨S300000x32, .f32⟩
  | 121 => ⟨S_, .f32⟩
  | 122 => ⟨S32, .f32⟩
  | 123 => ⟨S_, .f32⟩
  | 124 => ⟨S32, .f32⟩
  | 125 => ⟨S32, .f32⟩
  | 126 => ⟨S_, .i32⟩
  | 127 => ⟨S_, .f32⟩
  | _ => ⟨S30000x64, .f32⟩

abbrev hbmTy0_1 (i : Nat) : BufTy := match i % 128 with
  | 0 => ⟨S32, .f32⟩
  | 1 => ⟨S1x32, .f32⟩
  | 2 => ⟨S_, .f32⟩
  | 3 => ⟨S1x32, .f32⟩
  | 4 => ⟨S1x32, .f32⟩
  | 5 => ⟨S64x32, .f32⟩
  | 6 => ⟨S64x32, .f32⟩
  | 7 => ⟨S64x32, .f32⟩
  | 8 => ⟨S_, .f32⟩
  | 9 => ⟨S_, .f32⟩
  | 10 => ⟨S_, .f32⟩
  | 11 => ⟨S_, .f32⟩
  | 12 => ⟨S32, .f32⟩
  | 13 => ⟨S32, .f32⟩
  | 14 => ⟨S32, .f32⟩
  | 15 => ⟨S_, .f32⟩
  | 16 => ⟨S_, .i1⟩
  | 17 => ⟨S_, .f32⟩
  | 18 => ⟨S_, .f32⟩
  | 19 => ⟨S32, .f32⟩
  | 20 => ⟨S32, .f32⟩
  | 21 => ⟨S1x32, .f32⟩
  | 22 => ⟨S64x32, .f32⟩
  | 23 => ⟨S64x32, .f32⟩
  | 24 => ⟨S1x32, .f32⟩
  | 25 => ⟨S64x32, .f32⟩
  | 26 => ⟨S64x32, .f32⟩
  | 27 => ⟨S_, .f32⟩
  | 28 => ⟨S32, .f32⟩
  | 29 => ⟨S32, .f32⟩
  | 30 => ⟨S32, .f32⟩
  | 31 => ⟨S1x32, .f32⟩
  | 32 => ⟨S64x32, .f32⟩
  | 33 => ⟨S64x32, .f32⟩
  | 34 => ⟨S1x32, .f32⟩
  | 35 => ⟨S64x32, .f32⟩
  | 36 => ⟨S64x32, .f32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S300000x64, .f32⟩
  | 46 => ⟨S_, .i32⟩
  | 47 => ⟨S300000, .i32⟩
  | 48 => ⟨S300000, .i1⟩
  | 49 => ⟨S_, .i32⟩
  | 50 => ⟨S300000, .i32⟩
  | 51 => ⟨S300000, .i32⟩
  | 52 => ⟨S300000, .i32⟩
  | 53 => ⟨S300000x1, .i32⟩
  | 54 => ⟨S300000x64, .f32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000, .i32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x32, .f32⟩
  | 73 => ⟨S300000x192, .f32⟩
  | 74 => ⟨S300000x64, .f32⟩
  | 75 => ⟨S1x64, .f32⟩
  | 76 => ⟨S300000x64, .f32⟩
  | 77 => ⟨S300000x64, .f32⟩
  | 78 => ⟨S_, .f32⟩
  | 79 => ⟨S300000x64, .f32⟩
  | 80 => ⟨S300000x64, .f32⟩
  | 81 => ⟨S_, .f32⟩
  | 82 => ⟨S30000x64, .f32⟩
  | 83 => ⟨S300000x1, .i32⟩
  | 84 => ⟨S30000x64, .f32⟩
  | 85 => ⟨S_, .f32⟩
  | 86 => ⟨S300000x1, .f32⟩
  | 87 => ⟨S_, .f32⟩
  | 88 => ⟨S30000x1, .f32⟩
  | 89 => ⟨S300000x1, .i32⟩
  | 90 => ⟨S30000x1, .f32⟩
  | 91 => ⟨S_, .f32⟩
  | 92 => ⟨S30000x1, .f32⟩
  | 93 => ⟨S30000x1, .f32⟩
  | 94 => ⟨S30000x64, .f32⟩
  | 95 => ⟨S30000x64, .f32⟩
  | 96 => ⟨S_, .i32⟩
  | 97 => ⟨S30000, .i32⟩
  | 98 => ⟨S30000, .i1⟩
  | 99 => ⟨S_, .i32⟩
  | 100 => ⟨S30000, .i32⟩
  | 101 => ⟨S30000, .i32⟩
  | 102 => ⟨S30000, .i32⟩
  | 103 => ⟨S30000x1, .i32⟩
  | 104 => ⟨S30000x32, .f32⟩
  | 105 => ⟨S30000x160, .f32⟩
  | 106 => ⟨S30000x64, .f32⟩
  | 107 => ⟨S1x64, .f32⟩
  | 108 => ⟨S30000x64, .f32⟩
  | 109 => ⟨S30000x64, .f32⟩
  | 110 => ⟨S_, .f32⟩
  | 111 => ⟨S30000x64, .f32⟩
  | 112 => ⟨S30000x64, .f32⟩
  | 113 => ⟨S_, .f32⟩
  | 114 => ⟨S64x64, .f32⟩
  | 115 => ⟨S30000x1, .i32⟩
  | 116 => ⟨S64x64, .f32⟩
  | 117 => ⟨S_, .f32⟩
  | 118 => ⟨S30000x1, .f32⟩
  | 119 => ⟨S_, .f32⟩
  | 120 => ⟨S64x1, .f32⟩
  | 121 => ⟨S30000x1, .i32⟩
  | 122 => ⟨S64x1, .f32⟩
  | 123 => ⟨S_, .f32⟩
  | 124 => ⟨S64x1, .f32⟩
  | 125 => ⟨S64x1, .f32⟩
  | 126 => ⟨S64x64, .f32⟩
  | 127 => ⟨S64x64, .f32⟩
  | _ => ⟨S30000x64, .f32⟩

abbrev hbmTy0_2 (i : Nat) : BufTy := match i % 128 with
  | 0 => ⟨S64x96, .f32⟩
  | 1 => ⟨S64x64, .f32⟩
  | 2 => ⟨S1x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S300000x64, .f32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000x64, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000, .i32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x64, .f32⟩
  | 44 => ⟨S300000x256, .f32⟩
  | 45 => ⟨S300000x64, .f32⟩
  | 46 => ⟨S1x64, .f32⟩
  | 47 => ⟨S300000x64, .f32⟩
  | 48 => ⟨S300000x64, .f32⟩
  | 49 => ⟨S_, .f32⟩
  | 50 => ⟨S300000x64, .f32⟩
  | 51 => ⟨S300000x64, .f32⟩
  | 52 => ⟨S_, .f32⟩
  | 53 => ⟨S30000x64, .f32⟩
  | 54 => ⟨S300000x1, .i32⟩
  | 55 => ⟨S30000x64, .f32⟩
  | 56 => ⟨S_, .f32⟩
  | 57 => ⟨S300000x1, .f32⟩
  | 58 => ⟨S_, .f32⟩
  | 59 => ⟨S30000x1, .f32⟩
  | 60 => ⟨S300000x1, .i32⟩
  | 61 => ⟨S30000x1, .f32⟩
  | 62 => ⟨S_, .f32⟩
  | 63 => ⟨S30000x1, .f32⟩
  | 64 => ⟨S30000x1, .f32⟩
  | 65 => ⟨S30000x64, .f32⟩
  | 66 => ⟨S30000x64, .f32⟩
  | 67 => ⟨S_, .i32⟩
  | 68 => ⟨S30000, .i32⟩
  | 69 => ⟨S30000, .i1⟩
  | 70 => ⟨S_, .i32⟩
  | 71 => ⟨S30000, .i32⟩
  | 72 => ⟨S30000, .i32⟩
  | 73 => ⟨S30000, .i32⟩
  | 74 => ⟨S30000x1, .i32⟩
  | 75 => ⟨S30000x64, .f32⟩
  | 76 => ⟨S30000x192, .f32⟩
  | 77 => ⟨S30000x64, .f32⟩
  | 78 => ⟨S1x64, .f32⟩
  | 79 => ⟨S30000x64, .f32⟩
  | 80 => ⟨S30000x64, .f32⟩
  | 81 => ⟨S_, .f32⟩
  | 82 => ⟨S30000x64, .f32⟩
  | 83 => ⟨S30000x64, .f32⟩
  | 84 => ⟨S_, .f32⟩
  | 85 => ⟨S64x64, .f32⟩
  | 86 => ⟨S30000x1, .i32⟩
  | 87 => ⟨S64x64, .f32⟩
  | 88 => ⟨S_, .f32⟩
  | 89 => ⟨S30000x1, .f32⟩
  | 90 => ⟨S_, .f32⟩
  | 91 => ⟨S64x1, .f32⟩
  | 92 => ⟨S30000x1, .i32⟩
  | 93 => ⟨S64x1, .f32⟩
  | 94 => ⟨S_, .f32⟩
  | 95 => ⟨S64x1, .f32⟩
  | 96 => ⟨S64x1, .f32⟩
  | 97 => ⟨S64x64, .f32⟩
  | 98 => ⟨S64x64, .f32⟩
  | 99 => ⟨S64x128, .f32⟩
  | 100 => ⟨S64x64, .f32⟩
  | 101 => ⟨S1x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S_, .i32⟩
  | 108 => ⟨S300000, .i32⟩
  | 109 => ⟨S300000, .i1⟩
  | 110 => ⟨S_, .i32⟩
  | 111 => ⟨S300000, .i32⟩
  | 112 => ⟨S300000, .i32⟩
  | 113 => ⟨S300000, .i32⟩
  | 114 => ⟨S300000x1, .i32⟩
  | 115 => ⟨S300000x64, .f32⟩
  | 116 => ⟨S_, .i32⟩
  | 117 => ⟨S300000, .i32⟩
  | 118 => ⟨S300000, .i1⟩
  | 119 => ⟨S_, .i32⟩
  | 120 => ⟨S300000, .i32⟩
  | 121 => ⟨S300000, .i32⟩
  | 122 => ⟨S300000, .i32⟩
  | 123 => ⟨S300000x1, .i32⟩
  | 124 => ⟨S300000x64, .f32⟩
  | 125 => ⟨S_, .i32⟩
  | 126 => ⟨S300000, .i32⟩
  | 127 => ⟨S300000, .i1⟩
  | _ => ⟨S30000x64, .f32⟩

abbrev hbmTy0_3 (i : Nat) : BufTy := match i % 128 with
  | 0 => ⟨S_, .i32⟩
  | 1 => ⟨S300000, .i32⟩
  | 2 => ⟨S300000, .i32⟩
  | 3 => ⟨S300000, .i32⟩
  | 4 => ⟨S300000x1, .i32⟩
  | 5 => ⟨S300000, .i32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x64, .f32⟩
  | 15 => ⟨S300000x256, .f32⟩
  | 16 => ⟨S300000x64, .f32⟩
  | 17 => ⟨S1x64, .f32⟩
  | 18 => ⟨S300000x64, .f32⟩
  | 19 => ⟨S300000x64, .f32⟩
  | 20 => ⟨S_, .f32⟩
  | 21 => ⟨S300000x64, .f32⟩
  | 22 => ⟨S300000x64, .f32⟩
  | 23 => ⟨S_, .f32⟩
  | 24 => ⟨S30000x64, .f32⟩
  | 25 => ⟨S300000x1, .i32⟩
  | 26 => ⟨S30000x64, .f32⟩
  | 27 => ⟨S_, .f32⟩
  | 28 => ⟨S300000x1, .f32⟩
  | 29 => ⟨S_, .f32⟩
  | 30 => ⟨S30000x1, .f32⟩
  | 31 => ⟨S300000x1, .i32⟩
  | 32 => ⟨S30000x1, .f32⟩
  | 33 => ⟨S_, .f32⟩
  | 34 => ⟨S30000x1, .f32⟩
  | 35 => ⟨S30000x1, .f32⟩
  | 36 => ⟨S30000x64, .f32⟩
  | 37 => ⟨S30000x64, .f32⟩
  | 38 => ⟨S_, .i32⟩
  | 39 => ⟨S30000, .i32⟩
  | 40 => ⟨S30000, .i1⟩
  | 41 => ⟨S_, .i32⟩
  | 42 => ⟨S30000, .i32⟩
  | 43 => ⟨S30000, .i32⟩
  | 44 => ⟨S30000, .i32⟩
  | 45 => ⟨S30000x1, .i32⟩
  | 46 => ⟨S30000x64, .f32⟩
  | 47 => ⟨S30000x192, .f32⟩
  | 48 => ⟨S30000x64, .f32⟩
  | 49 => ⟨S1x64, .f32⟩
  | 50 => ⟨S30000x64, .f32⟩
  | 51 => ⟨S30000x64, .f32⟩
  | 52 => ⟨S_, .f32⟩
  | 53 => ⟨S30000x64, .f32⟩
  | 54 => ⟨S30000x64, .f32⟩
  | 55 => ⟨S_, .f32⟩
  | 56 => ⟨S64x64, .f32⟩
  | 57 => ⟨S30000x1, .i32⟩
  | 58 => ⟨S64x64, .f32⟩
  | 59 => ⟨S_, .f32⟩
  | 60 => ⟨S30000x1, .f32⟩
  | 61 => ⟨S_, .f32⟩
  | 62 => ⟨S64x1, .f32⟩
  | 63 => ⟨S30000x1, .i32⟩
  | 64 => ⟨S64x1, .f32⟩
  | 65 => ⟨S_, .f32⟩
  | 66 => ⟨S64x1, .f32⟩
  | 67 => ⟨S64x1, .f32⟩
  | 68 => ⟨S64x64, .f32⟩
  | 69 => ⟨S64x64, .f32⟩
  | 70 => ⟨S64x128, .f32⟩
  | 71 => ⟨S64x64, .f32⟩
  | 72 => ⟨S1x64, .f32⟩
  | 73 => ⟨S64x64, .f32⟩
  | 74 => ⟨S64x64, .f32⟩
  | 75 => ⟨S_, .f32⟩
  | 76 => ⟨S64x64, .f32⟩
  | 77 => ⟨S64x64, .f32⟩
  | _ => ⟨S30000x64, .f32⟩

abbrev hbmTy (i : Nat) : BufTy := match i / 128 with
  | 0 => hbmTy0_0 i
  | 1 => hbmTy0_1 i
  | 2 => hbmTy0_2 i
  | 3 => hbmTy0_3 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_c : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_1 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_2 : Ref sig .tc := ⟨.hbm, 77, rfl⟩
abbrev main_v23 : Ref sig .tc := ⟨.hbm, 78, rfl⟩
abbrev main_cst_3 : Ref sig .tc := ⟨.hbm, 79, rfl⟩
abbrev main_v24 : Ref sig .tc := ⟨.hbm, 80, rfl⟩
abbrev main_v25 : Ref sig .tc := ⟨.hbm, 81, rfl⟩
abbrev main_c_4 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_cst_5 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_cst_6 : Ref sig .tc := ⟨.hbm, 121, rfl⟩
abbrev main_v42 : Ref sig .tc := ⟨.hbm, 122, rfl⟩
abbrev main_cst_7 : Ref sig .tc := ⟨.hbm, 123, rfl⟩
abbrev main_v43 : Ref sig .tc := ⟨.hbm, 124, rfl⟩
abbrev main_v44 : Ref sig .tc := ⟨.hbm, 125, rfl⟩
abbrev main_c_8 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_v7 : Ref sig .tc := ⟨.hbm, 136, rfl⟩
abbrev main_call2_cst_1 : Ref sig .tc := ⟨.hbm, 137, rfl⟩
abbrev main_call2_v8 : Ref sig .tc := ⟨.hbm, 138, rfl⟩
abbrev main_call2_cst_2 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_cst_3 : Ref sig .tc := ⟨.hbm, 143, rfl⟩
abbrev main_call2_v12 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_cst_9 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_c_10 : Ref sig .tc := ⟨.hbm, 165, rfl⟩
abbrev main_v61 : Ref sig .tc := ⟨.hbm, 166, rfl⟩
abbrev main_v62 : Ref sig .tc := ⟨.hbm, 167, rfl⟩
abbrev main_c_11 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_c_12 : Ref sig .tc := ⟨.hbm, 174, rfl⟩
abbrev main_v68 : Ref sig .tc := ⟨.hbm, 175, rfl⟩
abbrev main_v69 : Ref sig .tc := ⟨.hbm, 176, rfl⟩
abbrev main_c_13 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_c_14 : Ref sig .tc := ⟨.hbm, 183, rfl⟩
abbrev main_v75 : Ref sig .tc := ⟨.hbm, 184, rfl⟩
abbrev main_v76 : Ref sig .tc := ⟨.hbm, 185, rfl⟩
abbrev main_c_15 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_c_16 : Ref sig .tc := ⟨.hbm, 192, rfl⟩
abbrev main_v82 : Ref sig .tc := ⟨.hbm, 193, rfl⟩
abbrev main_v83 : Ref sig .tc := ⟨.hbm, 194, rfl⟩
abbrev main_c_17 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_call3_cst : Ref sig .tc := ⟨.hbm, 206, rfl⟩
abbrev main_call3_v0 : Ref sig .tc := ⟨.hbm, 207, rfl⟩
abbrev main_v94 : Ref sig .tc := ⟨.hbm, 208, rfl⟩
abbrev main_cst_18 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_cst_19 : Ref sig .tc := ⟨.hbm, 213, rfl⟩
abbrev main_v98 : Ref sig .tc := ⟨.hbm, 214, rfl⟩
abbrev main_cst_20 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_cst_21 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_c_22 : Ref sig .tc := ⟨.hbm, 224, rfl⟩
abbrev main_v106 : Ref sig .tc := ⟨.hbm, 225, rfl⟩
abbrev main_v107 : Ref sig .tc := ⟨.hbm, 226, rfl⟩
abbrev main_c_23 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_call4_cst : Ref sig .tc := ⟨.hbm, 238, rfl⟩
abbrev main_call4_v0 : Ref sig .tc := ⟨.hbm, 239, rfl⟩
abbrev main_v118 : Ref sig .tc := ⟨.hbm, 240, rfl⟩
abbrev main_cst_24 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_cst_25 : Ref sig .tc := ⟨.hbm, 245, rfl⟩
abbrev main_v122 : Ref sig .tc := ⟨.hbm, 246, rfl⟩
abbrev main_cst_26 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_cst_27 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_call5_cst : Ref sig .tc := ⟨.hbm, 261, rfl⟩
abbrev main_call5_v0 : Ref sig .tc := ⟨.hbm, 262, rfl⟩
abbrev main_v135 : Ref sig .tc := ⟨.hbm, 263, rfl⟩
abbrev main_c_28 : Ref sig .tc := ⟨.hbm, 264, rfl⟩
abbrev main_v136 : Ref sig .tc := ⟨.hbm, 265, rfl⟩
abbrev main_v137 : Ref sig .tc := ⟨.hbm, 266, rfl⟩
abbrev main_c_29 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_v142 : Ref sig .tc := ⟨.hbm, 272, rfl⟩
abbrev main_c_30 : Ref sig .tc := ⟨.hbm, 273, rfl⟩
abbrev main_v143 : Ref sig .tc := ⟨.hbm, 274, rfl⟩
abbrev main_v144 : Ref sig .tc := ⟨.hbm, 275, rfl⟩
abbrev main_c_31 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_c_32 : Ref sig .tc := ⟨.hbm, 282, rfl⟩
abbrev main_v150 : Ref sig .tc := ⟨.hbm, 283, rfl⟩
abbrev main_v151 : Ref sig .tc := ⟨.hbm, 284, rfl⟩
abbrev main_c_33 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_c_34 : Ref sig .tc := ⟨.hbm, 291, rfl⟩
abbrev main_v157 : Ref sig .tc := ⟨.hbm, 292, rfl⟩
abbrev main_v158 : Ref sig .tc := ⟨.hbm, 293, rfl⟩
abbrev main_c_35 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_call6_cst : Ref sig .tc := ⟨.hbm, 305, rfl⟩
abbrev main_call6_v0 : Ref sig .tc := ⟨.hbm, 306, rfl⟩
abbrev main_v169 : Ref sig .tc := ⟨.hbm, 307, rfl⟩
abbrev main_cst_36 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_cst_37 : Ref sig .tc := ⟨.hbm, 312, rfl⟩
abbrev main_v173 : Ref sig .tc := ⟨.hbm, 313, rfl⟩
abbrev main_cst_38 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_cst_39 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_c_40 : Ref sig .tc := ⟨.hbm, 323, rfl⟩
abbrev main_v181 : Ref sig .tc := ⟨.hbm, 324, rfl⟩
abbrev main_v182 : Ref sig .tc := ⟨.hbm, 325, rfl⟩
abbrev main_c_41 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_v192 : Ref sig .tc := ⟨.hbm, 336, rfl⟩
abbrev main_call7_cst : Ref sig .tc := ⟨.hbm, 337, rfl⟩
abbrev main_call7_v0 : Ref sig .tc := ⟨.hbm, 338, rfl⟩
abbrev main_v193 : Ref sig .tc := ⟨.hbm, 339, rfl⟩
abbrev main_cst_42 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_cst_43 : Ref sig .tc := ⟨.hbm, 344, rfl⟩
abbrev main_v197 : Ref sig .tc := ⟨.hbm, 345, rfl⟩
abbrev main_cst_44 : Ref sig .tc := ⟨.hbm, 346, rfl⟩
abbrev main_v198 : Ref sig .tc := ⟨.hbm, 347, rfl⟩
abbrev main_v199 : Ref sig .tc := ⟨.hbm, 348, rfl⟩
abbrev main_v200 : Ref sig .tc := ⟨.hbm, 349, rfl⟩
abbrev main_cst_45 : Ref sig .tc := ⟨.hbm, 350, rfl⟩
abbrev main_v201 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_call8_cst : Ref sig .tc := ⟨.hbm, 360, rfl⟩
abbrev main_call8_v0 : Ref sig .tc := ⟨.hbm, 361, rfl⟩
abbrev main_v210 : Ref sig .tc := ⟨.hbm, 362, rfl⟩
abbrev main_c_46 : Ref sig .tc := ⟨.hbm, 363, rfl⟩
abbrev main_v211 : Ref sig .tc := ⟨.hbm, 364, rfl⟩
abbrev main_v212 : Ref sig .tc := ⟨.hbm, 365, rfl⟩
abbrev main_c_47 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_v217 : Ref sig .tc := ⟨.hbm, 371, rfl⟩
abbrev main_c_48 : Ref sig .tc := ⟨.hbm, 372, rfl⟩
abbrev main_v218 : Ref sig .tc := ⟨.hbm, 373, rfl⟩
abbrev main_v219 : Ref sig .tc := ⟨.hbm, 374, rfl⟩
abbrev main_c_49 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_c_50 : Ref sig .tc := ⟨.hbm, 381, rfl⟩
abbrev main_v225 : Ref sig .tc := ⟨.hbm, 382, rfl⟩
abbrev main_v226 : Ref sig .tc := ⟨.hbm, 383, rfl⟩
abbrev main_c_51 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_c_52 : Ref sig .tc := ⟨.hbm, 390, rfl⟩
abbrev main_v232 : Ref sig .tc := ⟨.hbm, 391, rfl⟩
abbrev main_v233 : Ref sig .tc := ⟨.hbm, 392, rfl⟩
abbrev main_c_53 : Ref sig .tc := ⟨.hbm, 393, rfl⟩
abbrev main_v234 : Ref sig .tc := ⟨.hbm, 394, rfl⟩
abbrev main_v235 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩
abbrev main_v239 : Ref sig .tc := ⟨.hbm, 399, rfl⟩
abbrev main_v240 : Ref sig .tc := ⟨.hbm, 400, rfl⟩
abbrev main_v241 : Ref sig .tc := ⟨.hbm, 401, rfl⟩
abbrev main_v242 : Ref sig .tc := ⟨.hbm, 402, rfl⟩
abbrev main_v243 : Ref sig .tc := ⟨.hbm, 403, rfl⟩
abbrev main_call9_cst : Ref sig .tc := ⟨.hbm, 404, rfl⟩
abbrev main_call9_v0 : Ref sig .tc := ⟨.hbm, 405, rfl⟩
abbrev main_v244 : Ref sig .tc := ⟨.hbm, 406, rfl⟩
abbrev main_cst_54 : Ref sig .tc := ⟨.hbm, 407, rfl⟩
abbrev main_v245 : Ref sig .tc := ⟨.hbm, 408, rfl⟩
abbrev main_v246 : Ref sig .tc := ⟨.hbm, 409, rfl⟩
abbrev main_v247 : Ref sig .tc := ⟨.hbm, 410, rfl⟩
abbrev main_cst_55 : Ref sig .tc := ⟨.hbm, 411, rfl⟩
abbrev main_v248 : Ref sig .tc := ⟨.hbm, 412, rfl⟩
abbrev main_cst_56 : Ref sig .tc := ⟨.hbm, 413, rfl⟩
abbrev main_v249 : Ref sig .tc := ⟨.hbm, 414, rfl⟩
abbrev main_v250 : Ref sig .tc := ⟨.hbm, 415, rfl⟩
abbrev main_v251 : Ref sig .tc := ⟨.hbm, 416, rfl⟩
abbrev main_cst_57 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_v255 : Ref sig .tc := ⟨.hbm, 421, rfl⟩
abbrev main_c_58 : Ref sig .tc := ⟨.hbm, 422, rfl⟩
abbrev main_v256 : Ref sig .tc := ⟨.hbm, 423, rfl⟩
abbrev main_v257 : Ref sig .tc := ⟨.hbm, 424, rfl⟩
abbrev main_c_59 : Ref sig .tc := ⟨.hbm, 425, rfl⟩
abbrev main_v258 : Ref sig .tc := ⟨.hbm, 426, rfl⟩
abbrev main_v259 : Ref sig .tc := ⟨.hbm, 427, rfl⟩
abbrev main_v260 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_v267 : Ref sig .tc := ⟨.hbm, 435, rfl⟩
abbrev main_call10_cst : Ref sig .tc := ⟨.hbm, 436, rfl⟩
abbrev main_call10_v0 : Ref sig .tc := ⟨.hbm, 437, rfl⟩
abbrev main_v268 : Ref sig .tc := ⟨.hbm, 438, rfl⟩
abbrev main_cst_60 : Ref sig .tc := ⟨.hbm, 439, rfl⟩
abbrev main_v269 : Ref sig .tc := ⟨.hbm, 440, rfl⟩
abbrev main_v270 : Ref sig .tc := ⟨.hbm, 441, rfl⟩
abbrev main_v271 : Ref sig .tc := ⟨.hbm, 442, rfl⟩
abbrev main_cst_61 : Ref sig .tc := ⟨.hbm, 443, rfl⟩
abbrev main_v272 : Ref sig .tc := ⟨.hbm, 444, rfl⟩
abbrev main_cst_62 : Ref sig .tc := ⟨.hbm, 445, rfl⟩
abbrev main_v273 : Ref sig .tc := ⟨.hbm, 446, rfl⟩
abbrev main_v274 : Ref sig .tc := ⟨.hbm, 447, rfl⟩
abbrev main_v275 : Ref sig .tc := ⟨.hbm, 448, rfl⟩
abbrev main_cst_63 : Ref sig .tc := ⟨.hbm, 449, rfl⟩
abbrev main_v276 : Ref sig .tc := ⟨.hbm, 450, rfl⟩
abbrev main_v277 : Ref sig .tc := ⟨.hbm, 451, rfl⟩
abbrev main_v278 : Ref sig .tc := ⟨.hbm, 452, rfl⟩
abbrev main_v279 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_v283 : Ref sig .tc := ⟨.hbm, 457, rfl⟩
abbrev main_v284 : Ref sig .tc := ⟨.hbm, 458, rfl⟩
abbrev main_call11_cst : Ref sig .tc := ⟨.hbm, 459, rfl⟩
abbrev main_call11_v0 : Ref sig .tc := ⟨.hbm, 460, rfl⟩
abbrev main_v285 : Ref sig .tc := ⟨.hbm, 461, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  reducesTo_S30000x64_S64_d0 : S30000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S30000x64_0_1 : S1x64.BroadcastsInDim S30000x64 (![0, 1] : Fin 2 → Fin S30000x64.rank)
  reducesTo_S300000x32_S32_d0 : S300000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S300000x32_0_1 : S1x32.BroadcastsInDim S300000x32 (![0, 1] : Fin 2 → Fin S300000x32.rank)
  reducesTo_S64x32_S32_d0 : S64x32.ReducesTo [0] S32
  bcast_S1x32_S64x32_0_1 : S1x32.BroadcastsInDim S64x32 (![0, 1] : Fin 2 → Fin S64x32.rank)
  bcast_S_S300000 : S_.BroadcastsInDim S300000 (![] : Fin 0 → Fin S300000.rank)
  bcast_S300000_S300000x1_0 : S300000.BroadcastsInDim S300000x1 (![0] : Fin 1 → Fin S300000x1.rank)
  concatenates_S300000x64_S300000x64_S300000x32_S300000x32_S300000x192_d1 : Shape.Concatenates [S300000x64, S300000x64, S300000x32, S300000x32] S300000x192 1
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S_S30000x64 : S_.BroadcastsInDim S30000x64 (![] : Fin 0 → Fin S30000x64.rank)
  bcast_S_S300000x1 : S_.BroadcastsInDim S300000x1 (![] : Fin 0 → Fin S300000x1.rank)
  bcast_S_S30000x1 : S_.BroadcastsInDim S30000x1 (![] : Fin 0 → Fin S30000x1.rank)
  bcast_S30000x1_S30000x64_0_1 : S30000x1.BroadcastsInDim S30000x64 (![0, 1] : Fin 2 → Fin S30000x64.rank)
  bcast_S_S30000 : S_.BroadcastsInDim S30000 (![] : Fin 0 → Fin S30000.rank)
  bcast_S30000_S30000x1_0 : S30000.BroadcastsInDim S30000x1 (![0] : Fin 1 → Fin S30000x1.rank)
  concatenates_S30000x64_S30000x64_S30000x32_S30000x160_d1 : Shape.Concatenates [S30000x64, S30000x64, S30000x32] S30000x160 1
  bcast_S_S64x64 : S_.BroadcastsInDim S64x64 (![] : Fin 0 → Fin S64x64.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  concatenates_S64x64_S64x32_S64x96_d1 : Shape.Concatenates [S64x64, S64x32] S64x96 1
  bcast_S1x64_S64x64_0_1 : S1x64.BroadcastsInDim S64x64 (![0, 1] : Fin 2 → Fin S64x64.rank)
  concatenates_S300000x64_S300000x64_S300000x64_S300000x64_S300000x256_d1 : Shape.Concatenates [S300000x64, S300000x64, S300000x64, S300000x64] S300000x256 1
  concatenates_S30000x64_S30000x64_S30000x64_S30000x192_d1 : Shape.Concatenates [S30000x64, S30000x64, S30000x64] S30000x192 1
  concatenates_S64x64_S64x64_S64x128_d1 : Shape.Concatenates [S64x64, S64x64] S64x128 1
  gather_S30000x64_S300000x1_S300000x64_1_0_n_n_0_1_164_wf : GatherDims.WF S30000x64 S300000x1 S300000x64 [1] [0] [] [0] [] 1 ![1, 64]
  gather_S30000_S300000x1_S300000_n_0_n_n_0_1_1_wf : GatherDims.WF S30000 S300000x1 S300000 [] [0] [] [0] [] 1 ![1]
  gather_S64x32_S300000x1_S300000x32_1_0_n_n_0_1_132_wf : GatherDims.WF S64x32 S300000x1 S300000x32 [1] [0] [] [0] [] 1 ![1, 32]
  dot_S300000x192_S192x64_S300000x64_1_0_0_1_n_n_wf : DotDims.WF S300000x192 S192x64 S300000x64 [1] [0] [0] [1] [] []
  scatter_S30000x64_S300000x1_S300000x64_1_0_0_1_wf : ScatterDims.WF S30000x64 S300000x1 S300000x64 [1] [0] [0] 1
  scatter_S30000x1_S300000x1_S300000x1_1_0_0_1_wf : ScatterDims.WF S30000x1 S300000x1 S300000x1 [1] [0] [0] 1
  gather_S64x32_S30000x1_S30000x32_1_0_n_n_0_1_132_wf : GatherDims.WF S64x32 S30000x1 S30000x32 [1] [0] [] [0] [] 1 ![1, 32]
  dot_S30000x160_S160x64_S30000x64_1_0_0_1_n_n_wf : DotDims.WF S30000x160 S160x64 S30000x64 [1] [0] [0] [1] [] []
  scatter_S64x64_S30000x1_S30000x64_1_0_0_1_wf : ScatterDims.WF S64x64 S30000x1 S30000x64 [1] [0] [0] 1
  scatter_S64x1_S30000x1_S30000x1_1_0_0_1_wf : ScatterDims.WF S64x1 S30000x1 S30000x1 [1] [0] [0] 1
  dot_S64x96_S96x64_S64x64_1_0_0_1_n_n_wf : DotDims.WF S64x96 S96x64 S64x64 [1] [0] [0] [1] [] []
  gather_S64x64_S300000x1_S300000x64_1_0_n_n_0_1_164_wf : GatherDims.WF S64x64 S300000x1 S300000x64 [1] [0] [] [0] [] 1 ![1, 64]
  dot_S300000x256_S256x64_S300000x64_1_0_0_1_n_n_wf : DotDims.WF S300000x256 S256x64 S300000x64 [1] [0] [0] [1] [] []
  gather_S64x64_S30000x1_S30000x64_1_0_n_n_0_1_164_wf : GatherDims.WF S64x64 S30000x1 S30000x64 [1] [0] [] [0] [] 1 ![1, 64]
  dot_S30000x192_S192x64_S30000x64_1_0_0_1_n_n_wf : DotDims.WF S30000x192 S192x64 S30000x64 [1] [0] [0] [1] [] []
  dot_S64x128_S128x64_S64x64_1_0_0_1_n_n_wf : DotDims.WF S64x128 S128x64 S64x64 [1] [0] [0] [1] [] []

variable [Facts₀]

def gather_S30000x64_S300000x1_S300000x64_1_0_n_n_0_1_164 : GatherDims S30000x64 S300000x1 S300000x64 where
  offsetDims := [1]
  collapsedSliceDims := [0]
  operandBatchingDims := []
  startIndicesBatchingDims := []
  startIndexMap := [0]
  indexVectorDim := 1
  sliceSizes := ![1, 64]
  wf := gather_S30000x64_S300000x1_S300000x64_1_0_n_n_0_1_164_wf
def gather_S30000_S300000x1_S300000_n_0_n_n_0_1_1 : GatherDims S30000 S300000x1 S300000 where
  offsetDims := []
  collapsedSliceDims := [0]
  operandBatchingDims := []
  startIndicesBatchingDims := []
  startIndexMap := [0]
  indexVectorDim := 1
  sliceSizes := ![1]
  wf := gather_S30000_S300000x1_S300000_n_0_n_n_0_1_1_wf
def gather_S64x32_S300000x1_S300000x32_1_0_n_n_0_1_132 : GatherDims S64x32 S300000x1 S300000x32 where
  offsetDims := [1]
  collapsedSliceDims := [0]
  operandBatchingDims := []
  startIndicesBatchingDims := []
  startIndexMap := [0]
  indexVectorDim := 1
  sliceSizes := ![1, 32]
  wf := gather_S64x32_S300000x1_S300000x32_1_0_n_n_0_1_132_wf
def dot_S300000x192_S192x64_S300000x64_1_0_0_1_n_n : DotDims S300000x192 S192x64 S300000x64 where
  lhsContracting := [1]
  rhsContracting := [0]
  lhsNonContracting := [0]
  rhsNonContracting := [1]
  lhsBatch := []
  rhsBatch := []
  wf := dot_S300000x192_S192x64_S300000x64_1_0_0_1_n_n_wf
def scatter_S30000x64_S300000x1_S300000x64_1_0_0_1 : ScatterDims S30000x64 S300000x1 S300000x64 where
  updateWindowDims := [1]
  insertedWindowDims := [0]
  scatterDimsToOperandDims := [0]
  indexVectorDim := 1
  wf := scatter_S30000x64_S300000x1_S300000x64_1_0_0_1_wf
def scatter_S30000x1_S300000x1_S300000x1_1_0_0_1 : ScatterDims S30000x1 S300000x1 S300000x1 where
  updateWindowDims := [1]
  insertedWindowDims := [0]
  scatterDimsToOperandDims := [0]
  indexVectorDim := 1
  wf := scatter_S30000x1_S300000x1_S300000x1_1_0_0_1_wf
def gather_S64x32_S30000x1_S30000x32_1_0_n_n_0_1_132 : GatherDims S64x32 S30000x1 S30000x32 where
  offsetDims := [1]
  collapsedSliceDims := [0]
  operandBatchingDims := []
  startIndicesBatchingDims := []
  startIndexMap := [0]
  indexVectorDim := 1
  sliceSizes := ![1, 32]
  wf := gather_S64x32_S30000x1_S30000x32_1_0_n_n_0_1_132_wf
def dot_S30000x160_S160x64_S30000x64_1_0_0_1_n_n : DotDims S30000x160 S160x64 S30000x64 where
  lhsContracting := [1]
  rhsContracting := [0]
  lhsNonContracting := [0]
  rhsNonContracting := [1]
  lhsBatch := []
  rhsBatch := []
  wf := dot_S30000x160_S160x64_S30000x64_1_0_0_1_n_n_wf
def scatter_S64x64_S30000x1_S30000x64_1_0_0_1 : ScatterDims S64x64 S30000x1 S30000x64 where
  updateWindowDims := [1]
  insertedWindowDims := [0]
  scatterDimsToOperandDims := [0]
  indexVectorDim := 1
  wf := scatter_S64x64_S30000x1_S30000x64_1_0_0_1_wf
def scatter_S64x1_S30000x1_S30000x1_1_0_0_1 : ScatterDims S64x1 S30000x1 S30000x1 where
  updateWindowDims := [1]
  insertedWindowDims := [0]
  scatterDimsToOperandDims := [0]
  indexVectorDim := 1
  wf := scatter_S64x1_S30000x1_S30000x1_1_0_0_1_wf
def dot_S64x96_S96x64_S64x64_1_0_0_1_n_n : DotDims S64x96 S96x64 S64x64 where
  lhsContracting := [1]
  rhsContracting := [0]
  lhsNonContracting := [0]
  rhsNonContracting := [1]
  lhsBatch := []
  rhsBatch := []
  wf := dot_S64x96_S96x64_S64x64_1_0_0_1_n_n_wf
def gather_S64x64_S300000x1_S300000x64_1_0_n_n_0_1_164 : GatherDims S64x64 S300000x1 S300000x64 where
  offsetDims := [1]
  collapsedSliceDims := [0]
  operandBatchingDims := []
  startIndicesBatchingDims := []
  startIndexMap := [0]
  indexVectorDim := 1
  sliceSizes := ![1, 64]
  wf := gather_S64x64_S300000x1_S300000x64_1_0_n_n_0_1_164_wf
def dot_S300000x256_S256x64_S300000x64_1_0_0_1_n_n : DotDims S300000x256 S256x64 S300000x64 where
  lhsContracting := [1]
  rhsContracting := [0]
  lhsNonContracting := [0]
  rhsNonContracting := [1]
  lhsBatch := []
  rhsBatch := []
  wf := dot_S300000x256_S256x64_S300000x64_1_0_0_1_n_n_wf
def gather_S64x64_S30000x1_S30000x64_1_0_n_n_0_1_164 : GatherDims S64x64 S30000x1 S30000x64 where
  offsetDims := [1]
  collapsedSliceDims := [0]
  operandBatchingDims := []
  startIndicesBatchingDims := []
  startIndexMap := [0]
  indexVectorDim := 1
  sliceSizes := ![1, 64]
  wf := gather_S64x64_S30000x1_S30000x64_1_0_n_n_0_1_164_wf
def dot_S30000x192_S192x64_S30000x64_1_0_0_1_n_n : DotDims S30000x192 S192x64 S30000x64 where
  lhsContracting := [1]
  rhsContracting := [0]
  lhsNonContracting := [0]
  rhsNonContracting := [1]
  lhsBatch := []
  rhsBatch := []
  wf := dot_S30000x192_S192x64_S30000x64_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.K.StatsLib.lean ====
import proofs.«123839_j71768903516633_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a rank-2 rectangle, however spelt. -/
theorem hz2 : (![0, 0] : Fin 2 → Nat) = fun _ => 0 := funext fun a => by fin_cases a <;> rfl

/-- A list of stores whose LAST store (the list's head) goes through the whole-shape rectangle reads back as that
    store's payload, whatever the view, the prior contents and the earlier stores. -/
theorem read_writes_unit {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h inb]

/-- A load through the whole-shape rectangle of what a list of stores left, the LAST of them (the list's head) through
    that rectangle, reads that store's payload. -/
theorem readCov_cons_unit {sg : RefSig} {κ : Kind} {sp : Space} {S : Shape} {e : EltTy} (v : View sg κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

end Cert.Kernel.Hand
end
-- ==== Proof.K.Reg0.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import proofs.«123839_j71768903516633_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg0
-- the TensorCore's buffer contents when the region is entered
variable (V : (c : Dev nD) → (b : Ref sig .tc) → Buf (Elt F) ((c : Thread nD τ).loc b))

/-! # The column-statistics kernel of custom_call 0: running column sums and sums of squares over the row blocks

The kernel keeps two [1, C] accumulators in scratch: zeroed at the first point, increased at every point by the
column sums of the point's row block and of its elementwise square, and copied to the two [1, C] outputs at the last
point. The region's invariant therefore carries the scratch contents from point to point. -/

/-! ## The two conditions on the grid point -/

/-- The first conditional's condition (the grid coordinate is zero), as the kernel computes it. -/
abbrev c0_1 (i : grid0.Coords) : Prop := (Scalar.cmpi .ne (Scalar.extui (Scalar.cmpi .eq (BitVec.ofNat 32 (i 0).val) 0#32)) 0#32) = 1#1

/-- It holds at the first point only. -/
theorem hc0_1 : ∀ t : Fin cfg0.N, c0_1 (grid0.coords t) ↔ t.val = 0 :=
  (by decide +kernel : ∀ t : Fin grid0.N, c0_1 (grid0.coords t) ↔ t.val = 0)
/-- The second conditional's condition holds at the last point only. -/
theorem hc0_2 : ∀ t : Fin cfg0.N, k0_cond2 (grid0.coords t) = 1#1 ↔ t.val = 9 :=
  (by decide +kernel : ∀ t : Fin grid0.N, k0_cond2 (grid0.coords t) = 1#1 ↔ t.val = 9)

/-- The input window is never idle. -/
theorem liveAt0_0 : ∀ t : Fin cfg0.N, cfg0.idle 0 (grid0.coords t) = false := by decide +kernel
/-- The output windows are idle, and not written back, wherever the second condition fails, -/
theorem idleAt0_1 : ∀ t : Fin cfg0.N, ¬ k0_cond2 (grid0.coords t) = 1#1 → cfg0.idle 1 (grid0.coords t) = true := by decide +kernel
theorem idleAt0_2 : ∀ t : Fin cfg0.N, ¬ k0_cond2 (grid0.coords t) = 1#1 → cfg0.idle 2 (grid0.coords t) = true := by decide +kernel
theorem noFlush0_1 : ∀ t : Fin cfg0.N, ¬ k0_cond2 (grid0.coords t) = 1#1 → (cfg0.win 1).flush t = false := by decide +kernel
theorem noFlush0_2 : ∀ t : Fin cfg0.N, ¬ k0_cond2 (grid0.coords t) = 1#1 → (cfg0.win 2).flush t = false := by decide +kernel
/-- and live where it holds. -/
theorem liveAt0_1 : ∀ t : Fin cfg0.N, k0_cond2 (grid0.coords t) = 1#1 → cfg0.idle 1 (grid0.coords t) = false := by decide +kernel
theorem liveAt0_2 : ∀ t : Fin cfg0.N, k0_cond2 (grid0.coords t) = 1#1 → cfg0.idle 2 (grid0.coords t) = false := by decide +kernel

/-! ## The body's triple, case by case -/

set_option maxHeartbeats 1000000 in
/-- FIRST point (first condition holds, second fails): the accumulators, at anything, end at the zero row plus the
    block's column sums (of squares); the outputs are not touched. -/
theorem sound_kernel0_first (c : Dev nD) (E : Set ℕ) (i : grid0.Coords) (hc1 : c0_1 i) (hc2 : ¬ k0_cond2 i = 1#1)
    (arg1 : Memref sig .tc .vmem S3000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (x0 : Vec F S3000x64 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0
            ∗ owns (c : Thread nD τ) arg4 fullShare (k0_pay3 x0 k0_pay1) ∗ owns (c : Thread nD τ) arg5 fullShare (k0_pay4 x0 k0_pay2)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d3, %f3, -, H3⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  · iexists _; isplitr
    swap; · iexact H4
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]

set_option maxHeartbeats 1000000 in
/-- A MIDDLE point (both conditions fail): the accumulators, at `xs` and `xq`, end at `xs` plus the block's column
    sums and `xq` plus those of its square; the outputs are not touched. -/
theorem sound_kernel0_mid (c : Dev nD) (E : Set ℕ) (i : grid0.Coords) (hc1 : ¬ c0_1 i) (hc2 : ¬ k0_cond2 i = 1#1)
    (arg1 : Memref sig .tc .vmem S3000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (x0 : Vec F S3000x64 .f32) (xs xq : Vec F S1x64 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0
            ∗ owns (c : Thread nD τ) arg4 fullShare (k0_pay3 x0 xs) ∗ owns (c : Thread nD τ) arg5 fullShare (k0_pay4 x0 xq)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  · iexists _; isplitr
    swap; · iexact H4
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]

set_option maxHeartbeats 1000000 in
/-- The LAST point (first condition fails, second holds): as a middle point, and the two outputs, at anything, end
    at the accumulators' final contents. -/
theorem sound_kernel0_last (c : Dev nD) (E : Set ℕ) (i : grid0.Coords) (hc1 : ¬ c0_1 i) (hc2 : k0_cond2 i = 1#1)
    (arg1 : Memref sig .tc .vmem S3000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (x0 : Vec F S3000x64 .f32) (xs xq : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs ∗ owns (c : Thread nD τ) arg5 fullShare xq
        ∗ (iprop(owns (c : Thread nD τ) arg1 fullShare x0
            ∗ owns (c : Thread nD τ) arg2 fullShare (k0_pay3 x0 xs) ∗ owns (c : Thread nD τ) arg3 fullShare (k0_pay4 x0 xq)
            ∗ owns (c : Thread nD τ) arg4 fullShare (k0_pay3 x0 xs) ∗ owns (c : Thread nD τ) arg5 fullShare (k0_pay4 x0 xq)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  isplitl [H2]
  · iexists _; isplitr
    swap; · iexact H2
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  isplitl [H3]
  · iexists _; isplitr
    swap; · iexact H3
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  · iexists _; isplitr
    swap; · iexact H4
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- The column-sum accumulator after `n` points: the zero row, then each block's column sums added in point order. -/
def acc0_s (c : Dev nD) : ℕ → Vec F S1x64 .f32
  | 0 => k0_pay1
  | n + 1 => if h : n < cfg0.N then k0_pay3 (iblk0 V c 0 ⟨n, h⟩) (acc0_s c n) else acc0_s c n

/-- The sum-of-squares accumulator after `n` points. -/
def acc0_q (c : Dev nD) : ℕ → Vec F S1x64 .f32
  | 0 => k0_pay2
  | n + 1 => if h : n < cfg0.N then k0_pay4 (iblk0 V c 0 ⟨n, h⟩) (acc0_q c n) else acc0_q c n

theorem acc0_s_succ (c : Dev nD) (t : Fin cfg0.N) : acc0_s V c (t.val + 1) = k0_pay3 (iblk0 V c 0 t) (acc0_s V c t.val) := by
  rw [acc0_s, dif_pos t.isLt]
theorem acc0_q_succ (c : Dev nD) (t : Fin cfg0.N) : acc0_q V c (t.val + 1) = k0_pay4 (iblk0 V c 0 t) (acc0_q V c t.val) := by
  rw [acc0_q, dif_pos t.isLt]
theorem acc0_s_first (c : Dev nD) (t : Fin cfg0.N) (ht : t.val = 0) : acc0_s V c (t.val + 1) = k0_pay3 (iblk0 V c 0 t) k0_pay1 := by
  rw [acc0_s_succ, ht]; rfl
theorem acc0_q_first (c : Dev nD) (t : Fin cfg0.N) (ht : t.val = 0) : acc0_q V c (t.val + 1) = k0_pay4 (iblk0 V c 0 t) k0_pay2 := by
  rw [acc0_q_succ, ht]; rfl

/-! ## The invariant -/

/-- The two scratch accumulators: whole scoped buffers of the kernel's own, passed beside the windows. -/
abbrev scM0_0 : Memref sig .tc .vmem S1x64 .f32 := Memref.whole cc0_scratch0
abbrev scM0_1 : Memref sig .tc .vmem S1x64 .f32 := Memref.whole cc0_scratch1

/-- Every other scoped buffer that is no staging buffer of this call, at some contents each. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The invariant before point `n`: before the first point every scoped buffer at anything; afterwards the two
    accumulators at their contents after `n` points, the other scoped buffers at anything; the generator register at
    some state throughout. -/
def Phi0 (c : Dev nD) : ℕ → sProp 𝕄
  | 0 => Pipeline.ΦA spec0 c
  | n + 1 => iprop(iprop(iprop(owns (c : Thread nD τ) scM0_0 fullShare (acc0_s V c (n + 1)) ∗ owns (c : Thread nD τ) scM0_1 fullShare (acc0_q V c (n + 1))) ∗ rest0 c) ∗ (∃ r, prngReg c r))

theorem Phi0_pos (c : Dev nD) (n : ℕ) (hn : n ≠ 0) :
    Phi0 V c n = iprop(iprop(iprop(owns (c : Thread nD τ) scM0_0 fullShare (acc0_s V c n) ∗ owns (c : Thread nD τ) scM0_1 fullShare (acc0_q V c n)) ∗ rest0 c) ∗ (∃ r, prngReg c r)) := by
  cases n with
  | zero => exact absurd rfl hn
  | succ n => rfl

/-- The class's invariant with the two accumulators split out of the scoped rest. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

/-! ## The pipeline's proof data -/

/-- The proof data on core `c`: the arrays as the region finds them; after the body at point `t` the input's buffer
    at its block and the two outputs' at the accumulators after `t + 1` points (consulted at the last point only: at
    the others the output windows are idle and not written back); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0_s V c (t.val + 1)
    | ⟨2, _⟩ => acc0_q V c (t.val + 1)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0_s V c (t.val + 1) := by dsimp only [dat0]
theorem after0_2 (c : Dev nD) (t : Fin cfg0.N) : (dat0 V c).after 2 t = acc0_q V c (t.val + 1) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the closed forms say which case the point is in; the invariant hands the body the
    accumulators at what the points before left (at anything at the first point) and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [liveAt0_0 t], after0_0]
  rw [show (dat0 V c).Φ t.succ = Phi0 V c (t.val + 1) from rfl, show (dat0 V c).Φ t.castSucc = Phi0 V c t.val from rfl]
  rw [Phi0_pos V c (t.val + 1) (Nat.succ_ne_zero _)]
  have hN : t.val < 10 := lt_of_lt_of_eq t.isLt (show cfg0.N = 10 from N_0)
  by_cases h0 : t.val = 0
  · -- the first point
    have hc1 : c0_1 (grid0.coords t) := (hc0_1 t).mpr h0
    have hc2 : ¬ k0_cond2 (grid0.coords t) = 1#1 := fun h => by have := (hc0_2 t).mp h; omega
    rw [Dat.leavesExact_idle (dat0 V c) 1 t (idleAt0_1 t hc2) (noFlush0_1 t hc2),
      Dat.leavesExact_idle (dat0 V c) 2 t (idleAt0_2 t hc2) (noFlush0_2 t hc2)]
    rw [acc0_s_first V c t h0, acc0_q_first V c t h0, h0]
    rw [show Phi0 V c 0 = Pipeline.ΦA spec0 c from rfl, PhiA0_eq]
    iintro ⟨⟨⟨⟨HS0, HS1⟩, Hrest⟩, Hg⟩, Ho, ⟨%d0, H0⟩, H1, H2⟩
    iapply (sound_kernel0_first c Set.univ (grid0.coords t) hc1 hc2 _ _ _ _ _ _ _ _ _ _ (iblk0 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hc1 : ¬ c0_1 (grid0.coords t) := fun h => h0 ((hc0_1 t).mp h)
    rw [Phi0_pos V c t.val h0, acc0_s_succ, acc0_q_succ]
    by_cases h9 : t.val = 9
    · -- the last point
      have hc2 : k0_cond2 (grid0.coords t) = 1#1 := (hc0_2 t).mpr h9
      rw [show (dat0 V c).leavesExact 1 t = owns (c : Thread nD τ) (st0_1 t) fullShare ((dat0 V c).after 1 t) from by
        unfold Dat.leavesExact; rw [liveAt0_1 t hc2], after0_1, acc0_s_succ]
      rw [show (dat0 V c).leavesExact 2 t = owns (c : Thread nD τ) (st0_2 t) fullShare ((dat0 V c).after 2 t) from by
        unfold Dat.leavesExact; rw [liveAt0_2 t hc2], after0_2, acc0_q_succ]
      iintro ⟨⟨⟨⟨HS0, HS1⟩, Hrest⟩, Hg⟩, Ho, ⟨%d0, H0⟩, ⟨%d1, H1⟩, ⟨%d2, H2⟩⟩
      iapply (sound_kernel0_last c Set.univ (grid0.coords t) hc1 hc2 _ _ _ _ _ _ _ _ _ _ (iblk0 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · -- a middle point
      have hc2 : ¬ k0_cond2 (grid0.coords t) = 1#1 := fun h => h9 ((hc0_2 t).mp h)
      rw [Dat.leavesExact_idle (dat0 V c) 1 t (idleAt0_1 t hc2) (noFlush0_1 t hc2),
        Dat.leavesExact_idle (dat0 V c) 2 t (idleAt0_2 t hc2) (noFlush0_2 t hc2)]
      iintro ⟨⟨⟨⟨HS0, HS1⟩, Hrest⟩, Hg⟩, Ho, ⟨%d0, H0⟩, H1, H2⟩
      iapply (sound_kernel0_mid c Set.univ (grid0.coords t) hc1 hc2 _ _ _ _ _ _ _ _ _ _ (iblk0 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- After any point the invariant gives the class's back: the accumulators' named contents are forgotten. -/
theorem Phi0_out (c : Dev nD) (n : ℕ) (hn : n ≠ 0) : Phi0 V c n ⊢ Pipeline.ΦA spec0 c := by
  rw [PhiA0_eq, Phi0_pos V c n hn]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- What the launch hands the region is the invariant before the first point. -/
theorem hin0 (c : Dev nD) :
    iprop((∃ r, prngReg c r) ∗ Pipeline.prefHeld (Ix := Unit) (Name := ℕ) (U := UR sig nD τ) (Lvl := ℕ) (pcfgs (F := F) 0).pre c (fun _ => fullShare) ((cfgs 0).toPCfg_adm).1
        ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- After the last point the invariant gives back the generator register and the scoped rest. -/
theorem hout0 (c : Dev nD) :
    (dat0 V c).Φ (Fin.last cfg0.N) ⊢ iprop((∃ r, prngReg c r) ∗ Pipeline.ownSems0 (fun k : PEmpty => k.elim) c ∗ Pipeline.scopedRest spec0 c) := by
  have hN : (Fin.last cfg0.N).val ≠ 0 := by rw [Fin.val_last, show cfg0.N = 10 from N_0]; decide
  rw [show (dat0 V c).Φ (Fin.last cfg0.N) = Phi0 V c (Fin.last cfg0.N).val from rfl]
  refine (Phi0_out V c _ hN).trans ?_
  rw [Pipeline.ownSems0_none]; unfold Pipeline.ΦA
  iintro ⟨Hr, Hp⟩
  isplitl [Hp]; · iexact Hp
  isplitr; · iempintro
  iexact Hr

end Reg0
end Cert.Kernel.Hand
end
-- ==== Proof.K.Reg1.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (`cc1__bn_apply_kernel`): the body half at the region-entry contents `V`

The kernel loads each input window's staging buffer whole, computes one value, and stores it whole into the
output window's staging buffer. So what the body leaves in the output buffer is a closed function of the input
blocks at the point (`out1_5`), every input buffer holds its block at every point whether or not it was
fetched there (`before1_w`), and the body obligation follows from the kernel's triple (`sound_kernel1`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S3000x64 := Rect.unit (s := S3000x64) ![0, 0] S3000x64.size inb_S3000x64_S3000x64_0_0
abbrev r1_1 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out1_5 (x0 : Vec F S3000x64 .f32) (x1 : Vec F S1x64 .f32) (x2 : Vec F S1x64 .f32) (x3 : Vec F S1x64 .f32) (x4 : Vec F S1x64 .f32) : Vec F S3000x64 .f32 :=
  View.canon [⟨r1_0, k1_pay1 (View.ld x0 r1_0) (View.ld x1 r1_1) (View.ld x2 r1_1) (View.ld x3 r1_1) (View.ld x4 r1_1)⟩]

/-- The store's rectangle is the whole buffer (checked by evaluation), so it covers it. -/
theorem cover1_5 (p0 : Vec F S3000x64 .f32) (y : S3000x64.Idx) :
    ∃ pc ∈ ([⟨r1_0, p0⟩] : List (View.Piece (Elt F) S3000x64 .f32)), y ∈ pc.1.set :=
  View.cover_of_tiled [⟨r1_0, p0⟩] S3000x64.size (by rfl) y

/-! ## The body's triple -/

set_option maxHeartbeats 1000000 in
/-- The kernel body on whole staging memrefs, the inputs' at read contents `xW` and the output's at anything, runs to
    the continuation holding the inputs' as they were and the output's at `out1_5` of the inputs': the printed
    function is its skeleton of memory operations, which is run operation by operation. -/
theorem sound_kernel1 (c : Dev nD) (E : Set ℕ) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S3000x64 .f32) (harg6 : arg6.IsWhole)
    (x0 : Vec F S3000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_apply_kernel i arg1 harg1 arg2 harg2 arg3 harg3 arg4 harg4 arg5 harg5 arg6 harg6) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the
    invariant keeps the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import proofs.«123839_j71768903516633_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg2
-- the TensorCore's buffer contents when the region is entered
variable (V : (c : Dev nD) → (b : Ref sig .tc) → Buf (Elt F) ((c : Thread nD τ).loc b))

/-! # The column-statistics kernel of custom_call 2: running column sums and sums of squares over the row blocks

The kernel keeps two [1, C] accumulators in scratch: zeroed at the first point, increased at every point by the
column sums of the point's row block and of its elementwise square, and copied to the two [1, C] outputs at the last
point. The region's invariant therefore carries the scratch contents from point to point. -/

/-! ## The two conditions on the grid point -/

/-- The first conditional's condition (the grid coordinate is zero), as the kernel computes it. -/
abbrev c2_1 (i : grid2.Coords) : Prop := (Scalar.cmpi .ne (Scalar.extui (Scalar.cmpi .eq (BitVec.ofNat 32 (i 0).val) 0#32)) 0#32) = 1#1

/-- It holds at the first point only. -/
theorem hc2_1 : ∀ t : Fin cfg2.N, c2_1 (grid2.coords t) ↔ t.val = 0 :=
  (by decide +kernel : ∀ t : Fin grid2.N, c2_1 (grid2.coords t) ↔ t.val = 0)
/-- The second conditional's condition holds at the last point only. -/
theorem hc2_2 : ∀ t : Fin cfg2.N, k2_cond2 (grid2.coords t) = 1#1 ↔ t.val = 49 :=
  (by decide +kernel : ∀ t : Fin grid2.N, k2_cond2 (grid2.coords t) = 1#1 ↔ t.val = 49)

/-- The input window is never idle. -/
theorem liveAt2_0 : ∀ t : Fin cfg2.N, cfg2.idle 0 (grid2.coords t) = false := by decide +kernel
/-- The output windows are idle, and not written back, wherever the second condition fails, -/
theorem idleAt2_1 : ∀ t : Fin cfg2.N, ¬ k2_cond2 (grid2.coords t) = 1#1 → cfg2.idle 1 (grid2.coords t) = true := by decide +kernel
theorem idleAt2_2 : ∀ t : Fin cfg2.N, ¬ k2_cond2 (grid2.coords t) = 1#1 → cfg2.idle 2 (grid2.coords t) = true := by decide +kernel
theorem noFlush2_1 : ∀ t : Fin cfg2.N, ¬ k2_cond2 (grid2.coords t) = 1#1 → (cfg2.win 1).flush t = false := by decide +kernel
theorem noFlush2_2 : ∀ t : Fin cfg2.N, ¬ k2_cond2 (grid2.coords t) = 1#1 → (cfg2.win 2).flush t = false := by decide +kernel
/-- and live where it holds. -/
theorem liveAt2_1 : ∀ t : Fin cfg2.N, k2_cond2 (grid2.coords t) = 1#1 → cfg2.idle 1 (grid2.coords t) = false := by decide +kernel
theorem liveAt2_2 : ∀ t : Fin cfg2.N, k2_cond2 (grid2.coords t) = 1#1 → cfg2.idle 2 (grid2.coords t) = false := by decide +kernel

/-! ## The body's triple, case by case -/

set_option maxHeartbeats 1000000 in
/-- FIRST point (first condition holds, second fails): the accumulators, at anything, end at the zero row plus the
    block's column sums (of squares); the outputs are not touched. -/
theorem sound_kernel2_first (c : Dev nD) (E : Set ℕ) (i : grid2.Coords) (hc1 : c2_1 i) (hc2 : ¬ k2_cond2 i = 1#1)
    (arg1 : Memref sig .tc .vmem S6000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S6000x32 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0
            ∗ owns (c : Thread nD τ) arg4 fullShare (k2_pay3 x0 k2_pay1) ∗ owns (c : Thread nD τ) arg5 fullShare (k2_pay4 x0 k2_pay2)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d3, %f3, -, H3⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]

set_option maxHeartbeats 1000000 in
/-- A MIDDLE point (both conditions fail): the accumulators, at `xs` and `xq`, end at `xs` plus the block's column
    sums and `xq` plus those of its square; the outputs are not touched. -/
theorem sound_kernel2_mid (c : Dev nD) (E : Set ℕ) (i : grid2.Coords) (hc1 : ¬ c2_1 i) (hc2 : ¬ k2_cond2 i = 1#1)
    (arg1 : Memref sig .tc .vmem S6000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S6000x32 .f32) (xs xq : Vec F S1x32 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0
            ∗ owns (c : Thread nD τ) arg4 fullShare (k2_pay3 x0 xs) ∗ owns (c : Thread nD τ) arg5 fullShare (k2_pay4 x0 xq)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]

set_option maxHeartbeats 1000000 in
/-- The LAST point (first condition fails, second holds): as a middle point, and the two outputs, at anything, end
    at the accumulators' final contents. -/
theorem sound_kernel2_last (c : Dev nD) (E : Set ℕ) (i : grid2.Coords) (hc1 : ¬ c2_1 i) (hc2 : k2_cond2 i = 1#1)
    (arg1 : Memref sig .tc .vmem S6000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S6000x32 .f32) (xs xq : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs ∗ owns (c : Thread nD τ) arg5 fullShare xq
        ∗ (iprop(owns (c : Thread nD τ) arg1 fullShare x0
            ∗ owns (c : Thread nD τ) arg2 fullShare (k2_pay3 x0 xs) ∗ owns (c : Thread nD τ) arg3 fullShare (k2_pay4 x0 xq)
            ∗ owns (c : Thread nD τ) arg4 fullShare (k2_pay3 x0 xs) ∗ owns (c : Thread nD τ) arg5 fullShare (k2_pay4 x0 xq)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  isplitl [H2]
  · iexists _; isplitr
    swap; · iexact H2
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The accumulators, point by point -/

/-- The column-sum accumulator after `n` points: the zero row, then each block's column sums added in point order. -/
def acc2_s (c : Dev nD) : ℕ → Vec F S1x32 .f32
  | 0 => k2_pay1
  | n + 1 => if h : n < cfg2.N then k2_pay3 (iblk2 V c 0 ⟨n, h⟩) (acc2_s c n) else acc2_s c n

/-- The sum-of-squares accumulator after `n` points. -/
def acc2_q (c : Dev nD) : ℕ → Vec F S1x32 .f32
  | 0 => k2_pay2
  | n + 1 => if h : n < cfg2.N then k2_pay4 (iblk2 V c 0 ⟨n, h⟩) (acc2_q c n) else acc2_q c n

theorem acc2_s_succ (c : Dev nD) (t : Fin cfg2.N) : acc2_s V c (t.val + 1) = k2_pay3 (iblk2 V c 0 t) (acc2_s V c t.val) := by
  rw [acc2_s, dif_pos t.isLt]
theorem acc2_q_succ (c : Dev nD) (t : Fin cfg2.N) : acc2_q V c (t.val + 1) = k2_pay4 (iblk2 V c 0 t) (acc2_q V c t.val) := by
  rw [acc2_q, dif_pos t.isLt]
theorem acc2_s_first (c : Dev nD) (t : Fin cfg2.N) (ht : t.val = 0) : acc2_s V c (t.val + 1) = k2_pay3 (iblk2 V c 0 t) k2_pay1 := by
  rw [acc2_s_succ, ht]; rfl
theorem acc2_q_first (c : Dev nD) (t : Fin cfg2.N) (ht : t.val = 0) : acc2_q V c (t.val + 1) = k2_pay4 (iblk2 V c 0 t) k2_pay2 := by
  rw [acc2_q_succ, ht]; rfl

/-! ## The invariant -/

/-- The two scratch accumulators: whole scoped buffers of the kernel's own, passed beside the windows. -/
abbrev scM2_0 : Memref sig .tc .vmem S1x32 .f32 := Memref.whole cc2_scratch0
abbrev scM2_1 : Memref sig .tc .vmem S1x32 .f32 := Memref.whole cc2_scratch1

/-- Every other scoped buffer that is no staging buffer of this call, at some contents each. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The invariant before point `n`: before the first point every scoped buffer at anything; afterwards the two
    accumulators at their contents after `n` points, the other scoped buffers at anything; the generator register at
    some state throughout. -/
def Phi2 (c : Dev nD) : ℕ → sProp 𝕄
  | 0 => Pipeline.ΦA spec2 c
  | n + 1 => iprop(iprop(iprop(owns (c : Thread nD τ) scM2_0 fullShare (acc2_s V c (n + 1)) ∗ owns (c : Thread nD τ) scM2_1 fullShare (acc2_q V c (n + 1))) ∗ rest2 c) ∗ (∃ r, prngReg c r))

theorem Phi2_pos (c : Dev nD) (n : ℕ) (hn : n ≠ 0) :
    Phi2 V c n = iprop(iprop(iprop(owns (c : Thread nD τ) scM2_0 fullShare (acc2_s V c n) ∗ owns (c : Thread nD τ) scM2_1 fullShare (acc2_q V c n)) ∗ rest2 c) ∗ (∃ r, prngReg c r)) := by
  cases n with
  | zero => exact absurd rfl hn
  | succ n => rfl

/-- The class's invariant with the two accumulators split out of the scoped rest. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-! ## The pipeline's proof data -/

/-- The proof data on core `c`: the arrays as the region finds them; after the body at point `t` the input's buffer
    at its block and the two outputs' at the accumulators after `t + 1` points (consulted at the last point only: at
    the others the output windows are idle and not written back); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => acc2_s V c (t.val + 1)
    | ⟨2, _⟩ => acc2_q V c (t.val + 1)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = acc2_s V c (t.val + 1) := by dsimp only [dat2]
theorem after2_2 (c : Dev nD) (t : Fin cfg2.N) : (dat2 V c).after 2 t = acc2_q V c (t.val + 1) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the closed forms say which case the point is in; the invariant hands the body the
    accumulators at what the points before left (at anything at the first point) and takes them back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).leavesExact 0 t = owns (c : Thread nD τ) (st2_0 t) fullShare ((dat2 V c).after 0 t) from by
    unfold Dat.leavesExact; rw [liveAt2_0 t], after2_0]
  rw [show (dat2 V c).Φ t.succ = Phi2 V c (t.val + 1) from rfl, show (dat2 V c).Φ t.castSucc = Phi2 V c t.val from rfl]
  rw [Phi2_pos V c (t.val + 1) (Nat.succ_ne_zero _)]
  have hN : t.val < 50 := lt_of_lt_of_eq t.isLt (show cfg2.N = 50 from N_2)
  by_cases h0 : t.val = 0
  · -- the first point
    have hc1 : c2_1 (grid2.coords t) := (hc2_1 t).mpr h0
    have hc2 : ¬ k2_cond2 (grid2.coords t) = 1#1 := fun h => by have := (hc2_2 t).mp h; omega
    rw [Dat.leavesExact_idle (dat2 V c) 1 t (idleAt2_1 t hc2) (noFlush2_1 t hc2),
      Dat.leavesExact_idle (dat2 V c) 2 t (idleAt2_2 t hc2) (noFlush2_2 t hc2)]
    rw [acc2_s_first V c t h0, acc2_q_first V c t h0, h0]
    rw [show Phi2 V c 0 = Pipeline.ΦA spec2 c from rfl, PhiA2_eq]
    iintro ⟨⟨⟨⟨HS0, HS1⟩, Hrest⟩, Hg⟩, Ho, ⟨%d0, H0⟩, H1, H2⟩
    iapply (sound_kernel2_first c Set.univ (grid2.coords t) hc1 hc2 _ _ _ _ _ _ _ _ _ _ (iblk2 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hc1 : ¬ c2_1 (grid2.coords t) := fun h => h0 ((hc2_1 t).mp h)
    rw [Phi2_pos V c t.val h0, acc2_s_succ, acc2_q_succ]
    by_cases h9 : t.val = 49
    · -- the last point
      have hc2 : k2_cond2 (grid2.coords t) = 1#1 := (hc2_2 t).mpr h9
      rw [show (dat2 V c).leavesExact 1 t = owns (c : Thread nD τ) (st2_1 t) fullShare ((dat2 V c).after 1 t) from by
        unfold Dat.leavesExact; rw [liveAt2_1 t hc2], after2_1, acc2_s_succ]
      rw [show (dat2 V c).leavesExact 2 t = owns (c : Thread nD τ) (st2_2 t) fullShare ((dat2 V c).after 2 t) from by
        unfold Dat.leavesExact; rw [liveAt2_2 t hc2], after2_2, acc2_q_succ]
      iintro ⟨⟨⟨⟨HS0, HS1⟩, Hrest⟩, Hg⟩, Ho, ⟨%d0, H0⟩, ⟨%d1, H1⟩, ⟨%d2, H2⟩⟩
      iapply (sound_kernel2_last c Set.univ (grid2.coords t) hc1 hc2 _ _ _ _ _ _ _ _ _ _ (iblk2 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · -- a middle point
      have hc2 : ¬ k2_cond2 (grid2.coords t) = 1#1 := fun h => h9 ((hc2_2 t).mp h)
      rw [Dat.leavesExact_idle (dat2 V c) 1 t (idleAt2_1 t hc2) (noFlush2_1 t hc2),
        Dat.leavesExact_idle (dat2 V c) 2 t (idleAt2_2 t hc2) (noFlush2_2 t hc2)]
      iintro ⟨⟨⟨⟨HS0, HS1⟩, Hrest⟩, Hg⟩, Ho, ⟨%d0, H0⟩, H1, H2⟩
      iapply (sound_kernel2_mid c Set.univ (grid2.coords t) hc1 hc2 _ _ _ _ _ _ _ _ _ _ (iblk2 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- After any point the invariant gives the class's back: the accumulators' named contents are forgotten. -/
theorem Phi2_out (c : Dev nD) (n : ℕ) (hn : n ≠ 0) : Phi2 V c n ⊢ Pipeline.ΦA spec2 c := by
  rw [PhiA2_eq, Phi2_pos V c n hn]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- What the launch hands the region is the invariant before the first point. -/
theorem hin2 (c : Dev nD) :
    iprop((∃ r, prngReg c r) ∗ Pipeline.prefHeld (Ix := Unit) (Name := ℕ) (U := UR sig nD τ) (Lvl := ℕ) (pcfgs (F := F) 2).pre c (fun _ => fullShare) ((cfgs 2).toPCfg_adm).1
        ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the invariant gives back the generator register and the scoped rest. -/
theorem hout2 (c : Dev nD) :
    (dat2 V c).Φ (Fin.last cfg2.N) ⊢ iprop((∃ r, prngReg c r) ∗ Pipeline.ownSems0 (fun k : PEmpty => k.elim) c ∗ Pipeline.scopedRest spec2 c) := by
  have hN : (Fin.last cfg2.N).val ≠ 0 := by rw [Fin.val_last, show cfg2.N = 50 from N_2]; decide
  rw [show (dat2 V c).Φ (Fin.last cfg2.N) = Phi2 V c (Fin.last cfg2.N).val from rfl]
  refine (Phi2_out V c _ hN).trans ?_
  rw [Pipeline.ownSems0_none]; unfold Pipeline.ΦA
  iintro ⟨Hr, Hp⟩
  isplitl [Hp]; · iexact Hp
  isplitr; · iempintro
  iexact Hr

end Reg2
end Cert.Kernel.Hand
end
-- ==== Proof.K.Reg3.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (`cc3__bn_apply_kernel`): the body half at the region-entry contents `V`

The kernel loads each input window's staging buffer whole, computes one value, and stores it whole into the
output window's staging buffer. So what the body leaves in the output buffer is a closed function of the input
blocks at the point (`out3_5`), every input buffer holds its block at every point whether or not it was
fetched there (`before3_w`), and the body obligation follows from the kernel's triple (`sound_kernel3`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): where the window is not
    fetched its block index has not moved, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): where the window is not
    fetched its block index has not moved, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S6000x32 := Rect.unit (s := S6000x32) ![0, 0] S6000x32.size inb_S6000x32_S6000x32_0_0
abbrev r3_1 : Rect S1x32 := Rect.unit (s := S1x32) ![0, 0] S1x32.size inb_S1x32_S1x32_0_0

/-! ## What the body leaves in the output window's buffer -/

/-- Window 5's staging buffer after the body, from the input windows' blocks: its one store, of the value
    computed from the loaded blocks, over the whole buffer. -/
def out3_5 (x0 : Vec F S6000x32 .f32) (x1 : Vec F S1x32 .f32) (x2 : Vec F S1x32 .f32) (x3 : Vec F S1x32 .f32) (x4 : Vec F S1x32 .f32) : Vec F S6000x32 .f32 :=
  View.canon [⟨r3_0, k3_pay1 (View.ld x0 r3_0) (View.ld x1 r3_1) (View.ld x2 r3_1) (View.ld x3 r3_1) (View.ld x4 r3_1)⟩]

/-- The store's rectangle is the whole buffer (checked by evaluation), so it covers it. -/
theorem cover3_5 (p0 : Vec F S6000x32 .f32) (y : S6000x32.Idx) :
    ∃ pc ∈ ([⟨r3_0, p0⟩] : List (View.Piece (Elt F) S6000x32 .f32)), y ∈ pc.1.set :=
  View.cover_of_tiled [⟨r3_0, p0⟩] S6000x32.size (by rfl) y

/-! ## The body's triple -/

set_option maxHeartbeats 1000000 in
/-- The kernel body on whole staging memrefs, the inputs' at read contents `xW` and the output's at anything, runs to
    the continuation holding the inputs' as they were and the output's at `out3_5` of the inputs': the printed
    function is its skeleton of memory operations, which is run operation by operation. -/
theorem sound_kernel3 (c : Dev nD) (E : Set ℕ) (i : grid3.Coords) (arg1 : Memref sig .tc .vmem S6000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S6000x32 .f32) (harg6 : arg6.IsWhole)
    (x0 : Vec F S6000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the
    invariant keeps the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_w`), so `sound_kernel3` applies; the
    invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import proofs.«123839_j71768903516633_2_alg».proof.Proof.K.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg4
variable (V : (c : Dev nD) → (b : Ref sig .tc) → Buf (Elt F) ((c : Thread nD τ).loc b))

abbrev c4_1 (i : grid4.Coords) : Prop := (Scalar.cmpi .ne (Scalar.extui (Scalar.cmpi .eq (BitVec.ofNat 32 (i 0).val) 0#32)) 0#32) = 1#1

set_option maxHeartbeats 1000000 in
theorem sound_kernel4_only (c : Dev nD) (E : Set ℕ) (i : grid4.Coords) (hc1 : c4_1 i) (hc2 : k4_cond2 i = 1#1)
    (arg1 : Memref sig .tc .vmem S64x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S64x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0
            ∗ owns (c : Thread nD τ) arg2 fullShare (k4_pay3 x0 k4_pay1) ∗ owns (c : Thread nD τ) arg3 fullShare (k4_pay4 x0 k4_pay2)
            ∗ owns (c : Thread nD τ) arg4 fullShare (k4_pay3 x0 k4_pay1) ∗ owns (c : Thread nD τ) arg5 fullShare (k4_pay4 x0 k4_pay2)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]
  isplitl [H2]
  · iexists _; isplitr
    swap; · iexact H2
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]

/-! ## The windows' blocks -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The accumulators -/

def acc4_s (c : Dev nD) : ℕ → Vec F S1x32 .f32
  | 0 => k4_pay1
  | n + 1 => if h : n < cfg4.N then k4_pay3 (iblk4 V c 0 ⟨n, h⟩) (acc4_s c n) else acc4_s c n

def acc4_q (c : Dev nD) : ℕ → Vec F S1x32 .f32
  | 0 => k4_pay2
  | n + 1 => if h : n < cfg4.N then k4_pay4 (iblk4 V c 0 ⟨n, h⟩) (acc4_q c n) else acc4_q c n

theorem acc4_s_succ (c : Dev nD) (t : Fin cfg4.N) : acc4_s V c (t.val + 1) = k4_pay3 (iblk4 V c 0 t) (acc4_s V c t.val) := by
  rw [acc4_s, dif_pos t.isLt]
theorem acc4_q_succ (c : Dev nD) (t : Fin cfg4.N) : acc4_q V c (t.val + 1) = k4_pay4 (iblk4 V c 0 t) (acc4_q V c t.val) := by
  rw [acc4_q, dif_pos t.isLt]

/-! ## The invariant -/

abbrev scM4_0 : Memref sig .tc .vmem S1x32 .f32 := Memref.whole cc4_scratch0
abbrev scM4_1 : Memref sig .tc .vmem S1x32 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

def Phi4 (c : Dev nD) : ℕ → sProp 𝕄
  | 0 => Pipeline.ΦA spec4 c
  | n + 1 => iprop(iprop(iprop(owns (c : Thread nD τ) scM4_0 fullShare (acc4_s V c (n + 1)) ∗ owns (c : Thread nD τ) scM4_1 fullShare (acc4_q V c (n + 1))) ∗ rest4 c) ∗ (∃ r, prngReg c r))

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4_s V c (t.val + 1)
    | ⟨2, _⟩ => acc4_q V c (t.val + 1)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = acc4_s V c (t.val + 1) := by dsimp only [dat4]
theorem after4_2 (c : Dev nD) (t : Fin cfg4.N) : (dat4 V c).after 2 t = acc4_q V c (t.val + 1) := by dsimp only [dat4]

theorem before4_0 (c : Dev nD) (t : Fin cfg4.N) (d) : (dat4 V c).before 0 t d = iblk4 V c 0 t :=
  before4_0_of V (dat4 V c) (A_eq4 V c 0) (after4_0 V c) t d

theorem hc4_1 : ∀ t : Fin cfg4.N, c4_1 (grid4.coords t) :=
  (by decide +kernel : ∀ t : Fin grid4.N, c4_1 (grid4.coords t))
theorem hc4_2 : ∀ t : Fin cfg4.N, k4_cond2 (grid4.coords t) = 1#1 :=
  (by decide +kernel : ∀ t : Fin grid4.N, k4_cond2 (grid4.coords t) = 1#1)
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have ht : t.val = 0 := by have := t.isLt; have hN : cfg4.N = 1 := N_4; omega
  rw [show (dat4 V c).Φ t.succ = Phi4 V c (t.val + 1) from rfl, show (dat4 V c).Φ t.castSucc = Phi4 V c t.val from rfl]
  rw [acc4_s_succ, acc4_q_succ, ht]
  rw [show Phi4 V c 0 = Pipeline.ΦA spec4 c from rfl, PhiA4_eq]
  rw [show Phi4 V c (0 + 1) = iprop(iprop(iprop(owns (c : Thread nD τ) scM4_0 fullShare (acc4_s V c (0 + 1)) ∗ owns (c : Thread nD τ) scM4_1 fullShare (acc4_q V c (0 + 1))) ∗ rest4 c) ∗ (∃ r, prngReg c r)) from rfl]
  rw [show acc4_s V c (0 + 1) = k4_pay3 (iblk4 V c 0 t) (acc4_s V c 0) from by rw [← ht, acc4_s_succ]]
  rw [show acc4_q V c (0 + 1) = k4_pay4 (iblk4 V c 0 t) (acc4_q V c 0) from by rw [← ht, acc4_q_succ]]
  rw [show acc4_s V c 0 = k4_pay1 from rfl, show acc4_q V c 0 = k4_pay2 from rfl]
  iintro ⟨⟨⟨⟨HS0, HS1⟩, Hrest⟩, Hg⟩, Ho, ⟨%d0, H0⟩, ⟨%d1, H1⟩, ⟨%d2, H2⟩⟩
  iapply (sound_kernel4_only c Set.univ (grid4.coords t) (hc4_1 t) (hc4_2 t) _ _ _ _ _ _ _ _ _ _ (iblk4 V c 0 t) _)
  isplitl [H0]; · iexact H0
  isplitl [H1]; · iexists _; iexact H1
  isplitl [H2]; · iexists _; iexact H2
  isplitl [HS0]; · iexact HS0
  isplitl [HS1]; · iexact HS1
  iintro ⟨H0, H1, H2, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

/-! ## The invariant's two ends -/

theorem Phi4_out (c : Dev nD) (n : ℕ) : Phi4 V c (n + 1) ⊢ Pipeline.ΦA spec4 c := by
  rw [PhiA4_eq]
  show iprop(iprop(iprop(owns (c : Thread nD τ) scM4_0 fullShare (acc4_s V c (n + 1)) ∗ owns (c : Thread nD τ) scM4_1 fullShare (acc4_q V c (n + 1))) ∗ rest4 c) ∗ (∃ r, prngReg c r)) ⊢ _
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hin4 (c : Dev nD) :
    iprop((∃ r, prngReg c r) ∗ Pipeline.prefHeld (Ix := Unit) (Name := ℕ) (U := UR sig nD τ) (Lvl := ℕ) (pcfgs (F := F) 4).pre c (fun _ => fullShare) ((cfgs 4).toPCfg_adm).1
        ∗ Pipeline.scopedRest spec4 c) ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

theorem hout4 (c : Dev nD) :
    (dat4 V c).Φ (Fin.last cfg4.N) ⊢ iprop((∃ r, prngReg c r) ∗ Pipeline.ownSems0 (fun k : PEmpty => k.elim) c ∗ Pipeline.scopedRest spec4 c) := by
  have hN : (Fin.last cfg4.N).val = 0 + 1 := by rw [Fin.val_last]; exact N_4
  rw [show (dat4 V c).Φ (Fin.last cfg4.N) = Phi4 V c (Fin.last cfg4.N).val from rfl, hN]
  refine (Phi4_out V c 0).trans ?_
  rw [Pipeline.ownSems0_none]; unfold Pipeline.ΦA
  iintro ⟨Hr, Hp⟩
  isplitl [Hp]; · iexact Hp
  isplitr; · iempintro
  iexact Hr

end Reg4
end Cert.Kernel.Hand
end
-- ==== Proof.K.Reg5.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 (`cc5__bn_apply_kernel`): the body half at the region-entry contents `V`

The kernel loads each input window's staging buffer whole, computes one value, and stores it whole into the
output window's staging buffer. So what the body leaves in the output buffer is a closed function of the input
blocks at the point (`out5_5`), every input buffer holds its block at every point whether or not it was
fetched there (`before5_w`), and the body obligation follows from the kernel's triple (`sound_kernel5`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S64x32 := Rect.unit (s := S64x32) ![0, 0] S64x32.size inb_S64x32_S64x32_0_0
abbrev r5_1 : Rect S1x32 := Rect.unit (s := S1x32) ![0, 0] S1x32.size inb_S1x32_S1x32_0_0

/-! ## What the body leaves in the output window's buffer -/

/-- Window 5's staging buffer after the body, from the input windows' blocks: its one store, of the value
    computed from the loaded blocks, over the whole buffer. -/
def out5_5 (x0 : Vec F S64x32 .f32) (x1 : Vec F S1x32 .f32) (x2 : Vec F S1x32 .f32) (x3 : Vec F S1x32 .f32) (x4 : Vec F S1x32 .f32) : Vec F S64x32 .f32 :=
  View.canon [⟨r5_0, k5_pay1 (View.ld x0 r5_0) (View.ld x1 r5_1) (View.ld x2 r5_1) (View.ld x3 r5_1) (View.ld x4 r5_1)⟩]

/-- The store's rectangle is the whole buffer (checked by evaluation), so it covers it. -/
theorem cover5_5 (p0 : Vec F S64x32 .f32) (y : S64x32.Idx) :
    ∃ pc ∈ ([⟨r5_0, p0⟩] : List (View.Piece (Elt F) S64x32 .f32)), y ∈ pc.1.set :=
  View.cover_of_tiled [⟨r5_0, p0⟩] S64x32.size (by rfl) y

/-! ## The body's triple -/

set_option maxHeartbeats 1000000 in
/-- The kernel body on whole staging memrefs, the inputs' at read contents `xW` and the output's at anything, runs to
    the continuation holding the inputs' as they were and the output's at `out5_5` of the inputs': the printed
    function is its skeleton of memory operations, which is run operation by operation. -/
theorem sound_kernel5 (c : Dev nD) (E : Set ℕ) (i : grid5.Coords) (arg1 : Memref sig .tc .vmem S64x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S64x32 .f32) (harg6 : arg6.IsWhole)
    (x0 : Vec F S64x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the
    invariant keeps the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_w`), so `sound_kernel5` applies; the
    invariant and the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 (`cc6_kernel`): the body half at the region-entry contents `V`

The kernel loads each input window's staging buffer whole, computes one value, and stores it whole into the
output window's staging buffer. So what the body leaves in the output buffer is a closed function of the input
blocks at the point (`out6_9`), every input buffer holds its block at every point whether or not it was
fetched there (`before6_w`), and the body obligation follows from the kernel's triple (`sound_kernel6`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): where the window is not
    fetched its block index has not moved, the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): where the window is not
    fetched its block index has not moved, the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): where the window is not
    fetched its block index has not moved, the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): where the window is not
    fetched its block index has not moved, the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): where the window is not
    fetched its block index has not moved, the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s (`hA`) and whose body leaves the block in place (`hafter`): where the window is not
    fetched its block index has not moved, the window is uncut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s (`hA`) and whose body leaves the block in place (`hafter`): where the window is not
    fetched its block index has not moved, the window is uncut and never idle. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not, for any proof
    data whose array is `V`'s (`hA`) and whose body leaves the block in place (`hafter`): where the window is not
    fetched its block index has not moved, the window is uncut and never idle. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S6000x64 := Rect.unit (s := S6000x64) ![0, 0] S6000x64.size inb_S6000x64_S6000x64_0_0
abbrev r6_1 : Rect S6000x32 := Rect.unit (s := S6000x32) ![0, 0] S6000x32.size inb_S6000x32_S6000x32_0_0
abbrev r6_2 : Rect S64x64 := Rect.unit (s := S64x64) ![0, 0] S64x64.size inb_S64x64_S64x64_0_0
abbrev r6_3 : Rect S32x64 := Rect.unit (s := S32x64) ![0, 0] S32x64.size inb_S32x64_S32x64_0_0
abbrev r6_4 : Rect S1x64 := Rect.unit (s := S1x64) ![0, 0] S1x64.size inb_S1x64_S1x64_0_0

/-! ## What the body leaves in the output window's buffer -/

/-- Window 9's staging buffer after the body, from the input windows' blocks: its one store, of the value
    computed from the loaded blocks, over the whole buffer. -/
def out6_9 (x0 : Vec F S6000x64 .f32) (x1 : Vec F S6000x64 .f32) (x2 : Vec F S6000x32 .f32) (x3 : Vec F S6000x32 .f32) (x4 : Vec F S64x64 .f32) (x5 : Vec F S64x64 .f32) (x6 : Vec F S32x64 .f32) (x7 : Vec F S32x64 .f32) (x8 : Vec F S1x64 .f32) : Vec F S6000x64 .f32 :=
  View.canon [⟨r6_0, k6_pay1 (k6_pay2 (View.ld x0 r6_0) (View.ld x4 r6_2) (View.ld x1 r6_0) (View.ld x5 r6_2) (View.ld x2 r6_1) (View.ld x6 r6_3) (View.ld x3 r6_1) (View.ld x7 r6_3) (View.ld x8 r6_4)) (k6_pay3 (F := F))⟩]

/-- The store's rectangle is the whole buffer (checked by evaluation), so it covers it. -/
theorem cover6_9 (p0 : Vec F S6000x64 .f32) (y : S6000x64.Idx) :
    ∃ pc ∈ ([⟨r6_0, p0⟩] : List (View.Piece (Elt F) S6000x64 .f32)), y ∈ pc.1.set :=
  View.cover_of_tiled [⟨r6_0, p0⟩] S6000x64.size (by rfl) y

/-! ## The body's triple -/

set_option maxHeartbeats 1000000 in
/-- The kernel body on whole staging memrefs, the inputs' at read contents `xW` and the output's at anything, runs to
    the continuation holding the inputs' as they were and the output's at `out6_9` of the inputs': the printed
    function is its skeleton of memory operations, which is run operation by operation. -/
theorem sound_kernel6 (c : Dev nD) (E : Set ℕ) (i : grid6.Coords) (arg1 : Memref sig .tc .vmem S6000x64 .f32) (harg1 : arg1.IsWhole) (arg2 : Memref sig .tc .vmem S6000x64 .f32) (harg2 : arg2.IsWhole) (arg3 : Memref sig .tc .vmem S6000x32 .f32) (harg3 : arg3.IsWhole) (arg4 : Memref sig .tc .vmem S6000x32 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S32x64 .f32) (harg7 : arg7.IsWhole) (arg8 : Memref sig .tc .vmem S32x64 .f32) (harg8 : arg8.IsWhole) (arg9 : Memref sig .tc .vmem S1x64 .f32) (harg9 : arg9.IsWhole) (arg10 : Memref sig .tc .vmem S6000x64 .f32) (harg10 : arg10.IsWhole)
    (x0 : Vec F S6000x64 .f32) (x1 : Vec F S6000x64 .f32) (x2 : Vec F S6000x32 .f32) (x3 : Vec F S6000x32 .f32) (x4 : Vec F S64x64 .f32) (x5 : Vec F S64x64 .f32) (x6 : Vec F S32x64 .f32) (x7 : Vec F S32x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9 arg10 harg10) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-! ## The pipeline's proof data -/

/-- The proof data of pipeline 6 on core `c`: the arrays as the region finds them (`V`); after the body at
    point `t` each input's buffer at its block and the output's at `out6_9` of the input blocks; the
    invariant keeps the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

/-- The body at any point: the inputs' memrefs hold their blocks (`before6_w`), so `sound_kernel6` applies; the
    invariant and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7 (`cc7_kernel`): the body half at the region-entry contents `V`

The kernel loads each input window's staging buffer whole, computes one value, and stores it whole into the
output window's staging buffer. So what the body leaves in the output buffer is a closed function of the input
blocks at the point (`out7_7`), every input buffer holds its block at every point whether or not it was
fetched there (`before7_w`), and the body obligation follows from the kernel's triple (`sound_kernel7`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): where the window is not
    fetched its block index has not moved, the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): where the window is not
    fetched its block index has not moved, the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): where the window is not
    fetched its block index has not moved, the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): where the window is not
    fetched its block index has not moved, the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): where the window is not
    fetched its block index has not moved, the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is `V`'s (`hA`) and whose body leaves the block in place (`hafter`): where the window is not
    fetched its block index has not moved, the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof
    data whose array is `V`'s (`hA`) and whose body leaves the block in place (`hafter`): where the window is not
    fetched its block index has not moved, the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S6000x64 := Rect.unit (s := S6000x64) ![0, 0] S6000x64.size inb_S6000x64_S6000x64_0_0
abbrev r7_1 : Rect S6000x32 := Rect.unit (s := S6000x32) ![0, 0] S6000x32.size inb_S6000x32_S6000x32_0_0
abbrev r7_2 : Rect S64x64 := Rect.unit (s := S64x64) ![0, 0] S64x64.size inb_S64x64_S64x64_0_0
abbrev r7_3 : Rect S32x64 := Rect.unit (s := S32x64) ![0, 0] S32x64.size inb_S32x64_S32x64_0_0
abbrev r7_4 : Rect S1x64 := Rect.unit (s := S1x64) ![0, 0] S1x64.size inb_S1x64_S1x64_0_0

/-! ## What the body leaves in the output window's buffer -/

/-- Window 7's staging buffer after the body, from the input windows' blocks: its one store, of the value
    computed from the loaded blocks, over the whole buffer. -/
def out7_7 (x0 : Vec F S6000x64 .f32) (x1 : Vec F S6000x64 .f32) (x2 : Vec F S6000x32 .f32) (x3 : Vec F S64x64 .f32) (x4 : Vec F S64x64 .f32) (x5 : Vec F S32x64 .f32) (x6 : Vec F S1x64 .f32) : Vec F S6000x64 .f32 :=
  View.canon [⟨r7_0, k7_pay1 (View.ld x0 r7_0) (View.ld x3 r7_2) (View.ld x1 r7_0) (View.ld x4 r7_2) (View.ld x2 r7_1) (View.ld x5 r7_3) (View.ld x6 r7_4)⟩]

/-- The store's rectangle is the whole buffer (checked by evaluation), so it covers it. -/
theorem cover7_7 (p0 : Vec F S6000x64 .f32) (y : S6000x64.Idx) :
    ∃ pc ∈ ([⟨r7_0, p0⟩] : List (View.Piece (Elt F) S6000x64 .f32)), y ∈ pc.1.set :=
  View.cover_of_tiled [⟨r7_0, p0⟩] S6000x64.size (by rfl) y

/-! ## The body's triple -/

set_option maxHeartbeats 1000000 in
/-- The kernel body on whole staging memrefs, the inputs' at read contents `xW` and the output's at anything, runs to
    the continuation holding the inputs' as they were and the output's at `out7_7` of the inputs': the printed
    function is its skeleton of memory operations, which is run operation by operation. -/
theorem sound_kernel7 (c : Dev nD) (E : Set ℕ) (i : grid7.Coords) (arg1 : Memref sig .tc .vmem S6000x64 .f32) (harg1 : arg1.IsWhole) (arg2 : Memref sig .tc .vmem S6000x64 .f32) (harg2 : arg2.IsWhole) (arg3 : Memref sig .tc .vmem S6000x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S32x64 .f32) (harg6 : arg6.IsWhole) (arg7 : Memref sig .tc .vmem S1x64 .f32) (harg7 : arg7.IsWhole) (arg8 : Memref sig .tc .vmem S6000x64 .f32) (harg8 : arg8.IsWhole)
    (x0 : Vec F S6000x64 .f32) (x1 : Vec F S6000x64 .f32) (x2 : Vec F S6000x32 .f32) (x3 : Vec F S64x64 .f32) (x4 : Vec F S64x64 .f32) (x5 : Vec F S32x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7_kernel i arg1 harg1 arg2 harg2 arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core `c`: the arrays as the region finds them (`V`); after the body at
    point `t` each input's buffer at its block and the output's at `out7_7` of the input blocks; the
    invariant keeps the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks (`before7_w`), so `sound_kernel7` applies; the
    invariant and the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 (`cc8_kernel`): the body half at the region-entry contents `V`

The kernel loads each input window's staging buffer whole, computes one value, and stores it whole into the
output window's staging buffer. So what the body leaves in the output buffer is a closed function of the input
blocks at the point (`out8_5`), every input buffer holds its block at every point whether or not it was
fetched there (`before8_w`), and the body obligation follows from the kernel's triple (`sound_kernel8`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): where the window is not
    fetched its block index has not moved, the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s (`hA`) and whose body leaves the block in place (`hafter`): where the window is not
    fetched its block index has not moved, the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s (`hA`) and whose body leaves the block in place (`hafter`): where the window is not
    fetched its block index has not moved, the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s (`hA`) and whose body leaves the block in place (`hafter`): where the window is not
    fetched its block index has not moved, the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S64x64 := Rect.unit (s := S64x64) ![0, 0] S64x64.size inb_S64x64_S64x64_0_0
abbrev r8_1 : Rect S64x32 := Rect.unit (s := S64x32) ![0, 0] S64x32.size inb_S64x32_S64x32_0_0
abbrev r8_2 : Rect S32x64 := Rect.unit (s := S32x64) ![0, 0] S32x64.size inb_S32x64_S32x64_0_0
abbrev r8_3 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out8_5 (x0 : Vec F S64x64 .f32) (x1 : Vec F S64x32 .f32) (x2 : Vec F S64x64 .f32) (x3 : Vec F S32x64 .f32) (x4 : Vec F S1x64 .f32) : Vec F S64x64 .f32 :=
  View.canon [⟨r8_0, k8_pay1 (View.ld x0 r8_0) (View.ld x2 r8_0) (View.ld x1 r8_1) (View.ld x3 r8_2) (View.ld x4 r8_3)⟩]

/-- The store's rectangle is the whole buffer (checked by evaluation), so it covers it. -/
theorem cover8_5 (p0 : Vec F S64x64 .f32) (y : S64x64.Idx) :
    ∃ pc ∈ ([⟨r8_0, p0⟩] : List (View.Piece (Elt F) S64x64 .f32)), y ∈ pc.1.set :=
  View.cover_of_tiled [⟨r8_0, p0⟩] S64x64.size (by rfl) y

/-! ## The body's triple -/

set_option maxHeartbeats 1000000 in
/-- The kernel body on whole staging memrefs, the inputs' at read contents `xW` and the output's at anything, runs to
    the continuation holding the inputs' as they were and the output's at `out8_5` of the inputs': the printed
    function is its skeleton of memory operations, which is run operation by operation. -/
theorem sound_kernel8 (c : Dev nD) (E : Set ℕ) (i : grid8.Coords) (arg1 : Memref sig .tc .vmem S64x64 .f32) (harg1 : arg1.IsWhole) (arg2 : Memref sig .tc .vmem S64x32 .f32) (harg2 : arg2.IsWhole) (arg3 : Memref sig .tc .vmem S64x64 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole)
    (x0 : Vec F S64x64 .f32) (x1 : Vec F S64x32 .f32) (x2 : Vec F S64x64 .f32) (x3 : Vec F S32x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at
    point `t` each input's buffer at its block and the output's at `out8_5` of the input blocks; the
    invariant keeps the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_w`), so `sound_kernel8` applies; the
    invariant and the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9 (`cc9_kernel`): the body half at the region-entry contents `V`

The kernel loads each input window's staging buffer whole, computes one value, and stores it whole into the
output window's staging buffer. So what the body leaves in the output buffer is a closed function of the input
blocks at the point (`out9_9`), every input buffer holds its block at every point whether or not it was
fetched there (`before9_w`), and the body obligation follows from the kernel's triple (`sound_kernel9`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): where the window is not
    fetched its block index has not moved, the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): where the window is not
    fetched its block index has not moved, the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): where the window is not
    fetched its block index has not moved, the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): where the window is not
    fetched its block index has not moved, the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s (`hA`) and whose body leaves the block in place (`hafter`): where the window is not
    fetched its block index has not moved, the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for any proof
    data whose array is `V`'s (`hA`) and whose body leaves the block in place (`hafter`): where the window is not
    fetched its block index has not moved, the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not, for any proof
    data whose array is `V`'s (`hA`) and whose body leaves the block in place (`hafter`): where the window is not
    fetched its block index has not moved, the window is uncut and never idle. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Input window 7's current staging buffer holds its block at every point, fetched there or not, for any proof
    data whose array is `V`'s (`hA`) and whose body leaves the block in place (`hafter`): where the window is not
    fetched its block index has not moved, the window is uncut and never idle. -/
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-- Input window 8's current staging buffer holds its block at every point, fetched there or not, for any proof
    data whose array is `V`'s (`hA`) and whose body leaves the block in place (`hafter`): where the window is not
    fetched its block index has not moved, the window is uncut and never idle. -/
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S6000x64 := Rect.unit (s := S6000x64) ![0, 0] S6000x64.size inb_S6000x64_S6000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0

/-! ## What the body leaves in the output window's buffer -/

/-- Window 9's staging buffer after the body, from the input windows' blocks: its one store, of the value
    computed from the loaded blocks, over the whole buffer. -/
def out9_9 (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) : Vec F S6000x64 .f32 :=
  View.canon [⟨r9_0, k9_pay1 (k9_pay2 (View.ld x0 r9_0) (View.ld x4 r9_1) (View.ld x1 r9_0) (View.ld x5 r9_1) (View.ld x2 r9_0) (View.ld x6 r9_1) (View.ld x3 r9_0) (View.ld x7 r9_1) (View.ld x8 r9_2)) (k9_pay3 (F := F))⟩]

/-- The store's rectangle is the whole buffer (checked by evaluation), so it covers it. -/
theorem cover9_9 (p0 : Vec F S6000x64 .f32) (y : S6000x64.Idx) :
    ∃ pc ∈ ([⟨r9_0, p0⟩] : List (View.Piece (Elt F) S6000x64 .f32)), y ∈ pc.1.set :=
  View.cover_of_tiled [⟨r9_0, p0⟩] S6000x64.size (by rfl) y

/-! ## The body's triple -/

set_option maxHeartbeats 1000000 in
/-- The kernel body on whole staging memrefs, the inputs' at read contents `xW` and the output's at anything, runs to
    the continuation holding the inputs' as they were and the output's at `out9_9` of the inputs': the printed
    function is its skeleton of memory operations, which is run operation by operation. -/
theorem sound_kernel9 (c : Dev nD) (E : Set ℕ) (i : grid9.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S6000x64 .f32) (harg10 : arg10.IsWhole)
    (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9_9 x0 x1 x2 x3 x4 x5 x6 x7 x8)) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9 arg10 harg10) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9_9 _)

/-! ## The pipeline's proof data -/

/-- The proof data of pipeline 9 on core `c`: the arrays as the region finds them (`V`); after the body at
    point `t` each input's buffer at its block and the output's at `out9_9` of the input blocks; the
    invariant keeps the scoped rest and the generator register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out9_9 (iblk9 V c 0 t) (iblk9 V c 1 t) (iblk9 V c 2 t) (iblk9 V c 3 t) (iblk9 V c 4 t) (iblk9 V c 5 t) (iblk9 V c 6 t) (iblk9 V c 7 t) (iblk9 V c 8 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = out9_9 (iblk9 V c 0 t) (iblk9 V c 1 t) (iblk9 V c 2 t) (iblk9 V c 3 t) (iblk9 V c 4 t) (iblk9 V c 5 t) (iblk9 V c 6 t) (iblk9 V c 7 t) (iblk9 V c 8 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t))

/-- The body at any point: the inputs' memrefs hold their blocks (`before9_w`), so `sound_kernel9` applies; the
    invariant and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel9 c Set.univ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 10 (`cc10_kernel`): the body half at the region-entry contents `V`

The kernel loads each input window's staging buffer whole, computes one value, and stores it whole into the
output window's staging buffer. So what the body leaves in the output buffer is a closed function of the input
blocks at the point (`out10_7`), every input buffer holds its block at every point whether or not it was
fetched there (`before10_w`), and the body obligation follows from the kernel's triple (`sound_kernel10`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): where the window is not
    fetched its block index has not moved, the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): where the window is not
    fetched its block index has not moved, the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): where the window is not
    fetched its block index has not moved, the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): where the window is not
    fetched its block index has not moved, the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): where the window is not
    fetched its block index has not moved, the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): where the window is not
    fetched its block index has not moved, the window is uncut and never idle. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s (`hA`) and whose body leaves the block in place (`hafter`): where the window is not
    fetched its block index has not moved, the window is uncut and never idle. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer whole -/

abbrev r10_0 : Rect S6000x64 := Rect.unit (s := S6000x64) ![0, 0] S6000x64.size inb_S6000x64_S6000x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0

/-! ## What the body leaves in the output window's buffer -/

/-- Window 7's staging buffer after the body, from the input windows' blocks: its one store, of the value
    computed from the loaded blocks, over the whole buffer. -/
def out10_7 (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) : Vec F S6000x64 .f32 :=
  View.canon [⟨r10_0, k10_pay1 (View.ld x0 r10_0) (View.ld x3 r10_1) (View.ld x1 r10_0) (View.ld x4 r10_1) (View.ld x2 r10_0) (View.ld x5 r10_1) (View.ld x6 r10_2)⟩]

/-- The store's rectangle is the whole buffer (checked by evaluation), so it covers it. -/
theorem cover10_7 (p0 : Vec F S6000x64 .f32) (y : S6000x64.Idx) :
    ∃ pc ∈ ([⟨r10_0, p0⟩] : List (View.Piece (Elt F) S6000x64 .f32)), y ∈ pc.1.set :=
  View.cover_of_tiled [⟨r10_0, p0⟩] S6000x64.size (by rfl) y

/-! ## The body's triple -/

set_option maxHeartbeats 1000000 in
/-- The kernel body on whole staging memrefs, the inputs' at read contents `xW` and the output's at anything, runs to
    the continuation holding the inputs' as they were and the output's at `out10_7` of the inputs': the printed
    function is its skeleton of memory operations, which is run operation by operation. -/
theorem sound_kernel10 (c : Dev nD) (E : Set ℕ) (i : grid10.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S6000x64 .f32) (harg8 : arg8.IsWhole)
    (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The pipeline's proof data -/

/-- The proof data of pipeline 10 on core `c`: the arrays as the region finds them (`V`); after the body at
    point `t` each input's buffer at its block and the output's at `out10_7` of the input blocks; the
    invariant keeps the scoped rest and the generator register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' memrefs hold their blocks (`before10_w`), so `sound_kernel10` applies; the
    invariant and the core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Reg11.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11 (`cc11_kernel`): the body half at the region-entry contents `V`

The kernel loads each input window's staging buffer whole, computes one value, and stores it whole into the
output window's staging buffer. So what the body leaves in the output buffer is a closed function of the input
blocks at the point (`out11_5`), every input buffer holds its block at every point whether or not it was
fetched there (`before11_w`), and the body obligation follows from the kernel's triple (`sound_kernel11`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): where the window is not
    fetched its block index has not moved, the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): where the window is not
    fetched its block index has not moved, the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): where the window is not
    fetched its block index has not moved, the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s (`hA`) and whose body leaves the block in place (`hafter`): where the window is not
    fetched its block index has not moved, the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s (`hA`) and whose body leaves the block in place (`hafter`): where the window is not
    fetched its block index has not moved, the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev r11_0 : Rect S64x64 := Rect.unit (s := S64x64) ![0, 0] S64x64.size inb_S64x64_S64x64_0_0
abbrev r11_1 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out11_5 (x0 : Vec F S64x64 .f32) (x1 : Vec F S64x64 .f32) (x2 : Vec F S64x64 .f32) (x3 : Vec F S64x64 .f32) (x4 : Vec F S1x64 .f32) : Vec F S64x64 .f32 :=
  View.canon [⟨r11_0, k11_pay1 (View.ld x0 r11_0) (View.ld x2 r11_0) (View.ld x1 r11_0) (View.ld x3 r11_0) (View.ld x4 r11_1)⟩]

/-- The store's rectangle is the whole buffer (checked by evaluation), so it covers it. -/
theorem cover11_5 (p0 : Vec F S64x64 .f32) (y : S64x64.Idx) :
    ∃ pc ∈ ([⟨r11_0, p0⟩] : List (View.Piece (Elt F) S64x64 .f32)), y ∈ pc.1.set :=
  View.cover_of_tiled [⟨r11_0, p0⟩] S64x64.size (by rfl) y

/-! ## The body's triple -/

set_option maxHeartbeats 1000000 in
/-- The kernel body on whole staging memrefs, the inputs' at read contents `xW` and the output's at anything, runs to
    the continuation holding the inputs' as they were and the output's at `out11_5` of the inputs': the printed
    function is its skeleton of memory operations, which is run operation by operation. -/
theorem sound_kernel11 (c : Dev nD) (E : Set ℕ) (i : grid11.Coords) (arg1 : Memref sig .tc .vmem S64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole)
    (x0 : Vec F S64x64 .f32) (x1 : Vec F S64x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of pipeline 11 on core `c`: the arrays as the region finds them (`V`); after the body at
    point `t` each input's buffer at its block and the output's at `out11_5` of the input blocks; the
    invariant keeps the scoped rest and the generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks (`before11_w`), so `sound_kernel11` applies; the
    invariant and the core's debt pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Reg12.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12 (`cc12_kernel`): the body half at the region-entry contents `V`

The kernel loads each input window's staging buffer whole, computes one value, and stores it whole into the
output window's staging buffer. So what the body leaves in the output buffer is a closed function of the input
blocks at the point (`out12_9`), every input buffer holds its block at every point whether or not it was
fetched there (`before12_w`), and the body obligation follows from the kernel's triple (`sound_kernel12`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): where the window is not
    fetched its block index has not moved, the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is `V`'s (`hA`) and whose body leaves the block in place (`hafter`): where the window is not
    fetched its block index has not moved, the window is uncut and never idle. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is `V`'s (`hA`) and whose body leaves the block in place (`hafter`): where the window is not
    fetched its block index has not moved, the window is uncut and never idle. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is `V`'s (`hA`) and whose body leaves the block in place (`hafter`): where the window is not
    fetched its block index has not moved, the window is uncut and never idle. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for any proof
    data whose array is `V`'s (`hA`) and whose body leaves the block in place (`hafter`): where the window is not
    fetched its block index has not moved, the window is uncut and never idle. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not, for any proof
    data whose array is `V`'s (`hA`) and whose body leaves the block in place (`hafter`): where the window is not
    fetched its block index has not moved, the window is uncut and never idle. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not, for any proof
    data whose array is `V`'s (`hA`) and whose body leaves the block in place (`hafter`): where the window is not
    fetched its block index has not moved, the window is uncut and never idle. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-- Input window 7's current staging buffer holds its block at every point, fetched there or not, for any proof
    data whose array is `V`'s (`hA`) and whose body leaves the block in place (`hafter`): where the window is not
    fetched its block index has not moved, the window is uncut and never idle. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- Input window 8's current staging buffer holds its block at every point, fetched there or not, for any proof
    data whose array is `V`'s (`hA`) and whose body leaves the block in place (`hafter`): where the window is not
    fetched its block index has not moved, the window is uncut and never idle. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S6000x64 := Rect.unit (s := S6000x64) ![0, 0] S6000x64.size inb_S6000x64_S6000x64_0_0
abbrev r12_1 : Rect S64x64 := Rect.unit (s := S64x64) ![0, 0] S64x64.size inb_S64x64_S64x64_0_0
abbrev r12_2 : Rect S1x64 := Rect.unit (s := S1x64) ![0, 0] S1x64.size inb_S1x64_S1x64_0_0

/-! ## What the body leaves in the output window's buffer -/

/-- Window 9's staging buffer after the body, from the input windows' blocks: its one store, of the value
    computed from the loaded blocks, over the whole buffer. -/
def out12_9 (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) : Vec F S6000x64 .f32 :=
  View.canon [⟨r12_0, k12_pay1 (k12_pay2 (View.ld x0 r12_0) (View.ld x4 r12_1) (View.ld x1 r12_0) (View.ld x5 r12_1) (View.ld x2 r12_0) (View.ld x6 r12_1) (View.ld x3 r12_0) (View.ld x7 r12_1) (View.ld x8 r12_2)) (k12_pay3 (F := F))⟩]

/-- The store's rectangle is the whole buffer (checked by evaluation), so it covers it. -/
theorem cover12_9 (p0 : Vec F S6000x64 .f32) (y : S6000x64.Idx) :
    ∃ pc ∈ ([⟨r12_0, p0⟩] : List (View.Piece (Elt F) S6000x64 .f32)), y ∈ pc.1.set :=
  View.cover_of_tiled [⟨r12_0, p0⟩] S6000x64.size (by rfl) y

/-! ## The body's triple -/

set_option maxHeartbeats 1000000 in
/-- The kernel body on whole staging memrefs, the inputs' at read contents `xW` and the output's at anything, runs to
    the continuation holding the inputs' as they were and the output's at `out12_9` of the inputs': the printed
    function is its skeleton of memory operations, which is run operation by operation. -/
theorem sound_kernel12 (c : Dev nD) (E : Set ℕ) (i : grid12.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S6000x64 .f32) (harg10 : arg10.IsWhole)
    (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out12_9 x0 x1 x2 x3 x4 x5 x6 x7 x8)) -∗ K ⟨⟩))
      ⊢ wp frame (wpE (defs₀ (F := F)) Variants.none c none) E (cc12_kernel i arg1 harg1 arg2 harg2 arg3 harg3 arg4 harg4 arg5 harg5 arg6 harg6 arg7 harg7 arg8 harg8 arg9 harg9 arg10 harg10) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover12_9 _)

/-! ## The pipeline's proof data -/

/-- The proof data of pipeline 12 on core `c`: the arrays as the region finds them (`V`); after the body at
    point `t` each input's buffer at its block and the output's at `out12_9` of the input blocks; the
    invariant keeps the scoped rest and the generator register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t) (iblk12 V c 6 t) (iblk12 V c 7 t) (iblk12 V c 8 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = out12_9 (iblk12 V c 0 t) (iblk12 V c 1 t) (iblk12 V c 2 t) (iblk12 V c 3 t) (iblk12 V c 4 t) (iblk12 V c 5 t) (iblk12 V c 6 t) (iblk12 V c 7 t) (iblk12 V c 8 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t))

/-- The body at any point: the inputs' memrefs hold their blocks (`before12_w`), so `sound_kernel12` applies; the
    invariant and the core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel12 c Set.univ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Reg13.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 13 (`cc13_kernel`): the body half at the region-entry contents `V`

The kernel loads each input window's staging buffer whole, computes one value, and stores it whole into the
output window's staging buffer. So what the body leaves in the output buffer is a closed function of the input
blocks at the point (`out13_7`), every input buffer holds its block at every point whether or not it was
fetched there (`before13_w`), and the body obligation follows from the kernel's triple (`sound_kernel13`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is `V`'s (`hA`) and whose body leaves the block in place (`hafter`): where the window is not
    fetched its block index has not moved, the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is `V`'s (`hA`) and whose body leaves the block in place (`hafter`): where the window is not
    fetched its block index has not moved, the window is uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is `V`'s (`hA`) and whose body leaves the block in place (`hafter`): where the window is not
    fetched its block index has not moved, the window is uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is `V`'s (`hA`) and whose body leaves the block in place (`hafter`): where the window is not
    fetched its block index has not moved, the window is uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for any proof
    data whose array is `V`'s (`hA`) and whose body leaves the block in place (`hafter`): where the window is not
    fetched its block index has not moved, the window is uncut and never idle. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not, for any proof
    data whose array is `V`'s (`hA`) and whose body leaves the block in place (`hafter`): where the window is not
    fetched its block index has not moved, the window is uncut and never idle. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, fetched there or not, for any proof
    data whose array is `V`'s (`hA`) and whose body leaves the block in place (`hafter`): where the window is not
    fetched its block index has not moved, the window is uncut and never idle. -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer whole -/

abbrev r13_0 : Rect S6000x64 := Rect.unit (s := S6000x64) ![0, 0] S6000x64.size inb_S6000x64_S6000x64_0_0
abbrev r13_1 : Rect S64x64 := Rect.unit (s := S64x64) ![0, 0] S64x64.size inb_S64x64_S64x64_0_0
abbrev r13_2 : Rect S1x64 := Rect.unit (s := S1x64) ![0, 0] S1x64.size inb_S1x64_S1x64_0_0

/-! ## What the body leaves in the output window's buffer -/

/-- Window 7's staging buffer after the body, from the input windows' blocks: its one store, of the value
    computed from the loaded blocks, over the whole buffer. -/
def out13_7 (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) : Vec F S6000x64 .f32 :=
  View.canon [⟨r13_0, k13_pay1 (View.ld x0 r13_0) (View.ld x3 r13_1) (View.ld x1 r13_0) (View.ld x4 r13_1) (View.ld x2 r13_0) (View.ld x5 r13_1) (View.ld x6 r13_2)⟩]

/-- The store's rectangle is the whole buffer (checked by evaluation), so it covers it. -/
theorem cover13_7 (p0 : Vec F S6000x64 .f32) (y : S6000x64.Idx) :
    ∃ pc ∈ ([⟨r13_0, p0⟩] : List (View.Piece (Elt F) S6000x64 .f32)), y ∈ pc.1.set :=
  View.cover_of_tiled [⟨r13_0, p0⟩] S6000x64.size (by rfl) y

/-! ## The body's triple -/

set_option maxHeartbeats 1000000 in
/-- The kernel body on whole staging memrefs, the inputs' at read contents `xW` and the output's at anything, runs to
    the continuation holding the inputs' as they were and the output's at `out13_7` of the inputs': the printed
    function is its skeleton of memory operations, which is run operation by operation. -/
theorem sound_kernel13 (c : Dev nD) (E : Set ℕ) (i : grid13.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S6000x64 .f32) (harg8 : arg8.IsWhole)
    (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E (cc13_kernel i arg1 harg1 arg2 harg2 arg3 harg3 arg4 harg4 arg5 harg5 arg6 harg6 arg7 harg7 arg8 harg8) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

/-! ## The pipeline's proof data -/

/-- The proof data of pipeline 13 on core `c`: the arrays as the region finds them (`V`); after the body at
    point `t` each input's buffer at its block and the output's at `out13_7` of the input blocks; the
    invariant keeps the scoped rest and the generator register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

/-- The body at any point: the inputs' memrefs hold their blocks (`before13_w`), so `sound_kernel13` applies; the
    invariant and the core's debt pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Reg14.lean ====
import proofs.«123839_j71768903516633_2_alg».proof.Proof.Gen.Kernel.Launch
import proofs.«123839_j71768903516633_2_alg».proof.Proof.Gen.Kernel.Skeleton
import proofs.«123839_j71768903516633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 14 (`cc14_kernel`): the body half at the region-entry contents `V`

The kernel loads each input window's staging buffer whole, computes one value, and stores it whole into the
output window's staging buffer. So what the body leaves in the output buffer is a closed function of the input
blocks at the point (`out14_5`), every input buffer holds its block at every point whether or not it was
fetched there (`before14_w`), and the body obligation follows from the kernel's triple (`sound_kernel14`). -/

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): where the window is not
    fetched its block index has not moved, the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s (`hA`) and whose body leaves the block in place (`hafter`): where the window is not
    fetched its block index has not moved, the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s (`hA`) and whose body leaves the block in place (`hafter`): where the window is not
    fetched its block index has not moved, the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s (`hA`) and whose body leaves the block in place (`hafter`): where the window is not
    fetched its block index has not moved, the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s (`hA`) and whose body leaves the block in place (`hafter`): where the window is not
    fetched its block index has not moved, the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each buffer whole -/

abbrev r14_0 : Rect S64x64 := Rect.unit (s := S64x64) ![0, 0] S64x64.size inb_S64x64_S64x64_0_0
abbrev r14_1 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out14_5 (x0 : Vec F S64x64 .f32) (x1 : Vec F S64x64 .f32) (x2 : Vec F S64x64 .f32) (x3 : Vec F S64x64 .f32) (x4 : Vec F S1x64 .f32) : Vec F S64x64 .f32 :=
  View.canon [⟨r14_0, k14_pay1 (View.ld x0 r14_0) (View.ld x2 r14_0) (View.ld x1 r14_0) (View.ld x3 r14_0) (View.ld x4 r14_1)⟩]

/-- The store's rectangle is the whole buffer (checked by evaluation), so it covers it. -/
theorem cover14_5 (p0 : Vec F S64x64 .f32) (y : S64x64.Idx) :
    ∃ pc ∈ ([⟨r14_0, p0⟩] : List (View.Piece (Elt F) S64x64 .f32)), y ∈ pc.1.set :=
  View.cover_of_tiled [⟨r14_0, p0⟩] S64x64.size (by rfl) y

/-! ## The body's triple -/

set_option maxHeartbeats 1000000 in
/-- The kernel body on whole staging memrefs, the inputs' at read contents `xW` and the output's at anything, runs to
    the continuation holding the inputs' as they were and the output's at `out14_5` of the inputs': the printed
    function is its skeleton of memory operations, which is run operation by operation. -/
theorem sound_kernel14 (c : Dev nD) (E : Set ℕ) (i : grid14.Coords) (arg1 : Memref sig .tc .vmem S64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole)
    (x0 : Vec F S64x64 .f32) (x1 : Vec F S64x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14_kernel i arg1 harg1 arg2 harg2 arg3 harg3 arg4 harg4 arg5 harg5 arg6 harg6) K := by
  simp only [cc14_kernel_eq_skeleton]; unfold cc14_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at
    point `t` each input's buffer at its block and the output's at `out14_5` of the input blocks; the
    invariant keeps the scoped rest and the generator register untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks (`before14_w`), so `sound_kernel14` applies; the
    invariant and the core's debt pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Run.lean ====
/-
  The run of @main as its 28 segments: the buffer contents at every segment boundary as a fold from the launch memory
  (a host stretch applies its operations; a kernel region leaves its arrays at what its write-backs leave and every other
  buffer as entered), the proof data of every pipeline at its region's entry contents, one segment record per item, and
  the run: every weakly fair execution terminates and every unscoped buffer ends at the last boundary's contents.
-/
import proofs.«123839_j71768903516633_2_alg».proof.Proof.K.Reg0
import proofs.«123839_j71768903516633_2_alg».proof.Proof.K.Reg1
import proofs.«123839_j71768903516633_2_alg».proof.Proof.K.Reg2
import proofs.«123839_j71768903516633_2_alg».proof.Proof.K.Reg3
import proofs.«123839_j71768903516633_2_alg».proof.Proof.K.Reg4
import proofs.«123839_j71768903516633_2_alg».proof.Proof.K.Reg5
import proofs.«123839_j71768903516633_2_alg».proof.Proof.K.Reg6
import proofs.«123839_j71768903516633_2_alg».proof.Proof.K.Reg7
import proofs.«123839_j71768903516633_2_alg».proof.Proof.K.Reg8
import proofs.«123839_j71768903516633_2_alg».proof.Proof.K.Reg9
import proofs.«123839_j71768903516633_2_alg».proof.Proof.K.Reg10
import proofs.«123839_j71768903516633_2_alg».proof.Proof.K.Reg11
import proofs.«123839_j71768903516633_2_alg».proof.Proof.K.Reg12
import proofs.«123839_j71768903516633_2_alg».proof.Proof.K.Reg13
import proofs.«123839_j71768903516633_2_alg».proof.Proof.K.Reg14
import proofs.«123839_j71768903516633_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- A core's buffers at launch. -/
abbrev W0 : Dev nD → Valuation τ sig (Elt F) := fun c b => m (c, b)
abbrev U0 : (c : Dev nD) → (b : Ref sig .tc) → Buf (Elt F) ((c : Thread nD τ).loc b) := fun c b => W0 m c b
/-- After host stretch 0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
theorem W1_keep (c : Dev nD) (b : Ref sig .tc) (hb : b ∉ hostOps0_W) :
    W1 m c (Proc.devRef .tc b) = W0 m c (Proc.devRef .tc b) :=
  StableHlo.after_of_writes_sub hostOps0 _ hostOps0_writes hb

/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A region changes only its output arrays: an input window's array ends as entered, any other buffer is bypassed. -/
theorem W2_keep (c : Dev nD) (b : Ref sig .tc) (hb : b ∉ ([main_v4_0, main_v4_1] : List (Ref sig .tc))) :
    W2 m c (Proc.devRef .tc b) = W1 m c (Proc.devRef .tc b) := by
  by_cases h : ∃ w, Pipeline.arrRef spec0 w = b
  · obtain ⟨w, rfl⟩ := h
    fin_cases w
    · exact (W2_arr m c 0).trans (((dat0 (U1 m) c).arrAt_in 0 rfl _).trans (A_eq0 (U1 m) c 0))
    · exact absurd (by decide) hb
    · exact absurd (by decide) hb
  · exact W2_of_ne m c b fun w e => h ⟨w, e⟩

/-- After host stretch 1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
theorem W3_keep (c : Dev nD) (b : Ref sig .tc) (hb : b ∉ hostOps1_W) :
    W3 m c (Proc.devRef .tc b) = W2 m c (Proc.devRef .tc b) :=
  StableHlo.after_of_writes_sub hostOps1 _ hostOps1_writes hb

/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- A region changes only its output arrays: an input window's array ends as entered, any other buffer is bypassed. -/
theorem W4_keep (c : Dev nD) (b : Ref sig .tc) (hb : b ∉ ([main_v15] : List (Ref sig .tc))) :
    W4 m c (Proc.devRef .tc b) = W3 m c (Proc.devRef .tc b) := by
  by_cases h : ∃ w, Pipeline.arrRef spec1 w = b
  · obtain ⟨w, rfl⟩ := h
    fin_cases w
    · exact (W4_arr m c 0).trans (((dat1 (U3 m) c).arrAt_in 0 rfl _).trans (A_eq1 (U3 m) c 0))
    · exact (W4_arr m c 1).trans (((dat1 (U3 m) c).arrAt_in 1 rfl _).trans (A_eq1 (U3 m) c 1))
    · exact (W4_arr m c 2).trans (((dat1 (U3 m) c).arrAt_in 2 rfl _).trans (A_eq1 (U3 m) c 2))
    · exact (W4_arr m c 3).trans (((dat1 (U3 m) c).arrAt_in 3 rfl _).trans (A_eq1 (U3 m) c 3))
    · exact (W4_arr m c 4).trans (((dat1 (U3 m) c).arrAt_in 4 rfl _).trans (A_eq1 (U3 m) c 4))
    · exact absurd (by decide) hb
  · exact W4_of_ne m c b fun w e => h ⟨w, e⟩

/-- At region 2's exit: its arrays at what the pipeline leaves, every other buffer as entered. -/
def W5 (c : Dev nD) : Valuation τ sig (Elt F) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5 : (c : Dev nD) → (b : Ref sig .tc) → Buf (Elt F) ((c : Thread nD τ).loc b) := fun c b => W5 m c b
theorem hF2 (c : Dev nD) (w : Fin cfg2.W) : (dat2 (U4 m) c).arrAt w cfg2.N = U5 m c (Pipeline.arrRef spec2 w) :=
  (W5_arr m c w).symm
theorem hrest2 (c : Dev nD) : ∀ b, b ∉ Finset.univ.image (Pipeline.arrRef spec2) → U5 m c b = U4 m c b :=
  fun b hb => W5_of_ne m c b fun w e => hb (Finset.mem_image.mpr ⟨w, Finset.mem_univ _, e⟩)
/-- A region changes only its output arrays: an input window's array ends as entered, any other buffer is bypassed. -/
theorem W5_keep (c : Dev nD) (b : Ref sig .tc) (hb : b ∉ ([main_v16_0, main_v16_1] : List (Ref sig .tc))) :
    W5 m c (Proc.devRef .tc b) = W4 m c (Proc.devRef .tc b) := by
  by_cases h : ∃ w, Pipeline.arrRef spec2 w = b
  · obtain ⟨w, rfl⟩ := h
    fin_cases w
    · exact (W5_arr m c 0).trans (((dat2 (U4 m) c).arrAt_in 0 rfl _).trans (A_eq2 (U4 m) c 0))
    · exact absurd (by decide) hb
    · exact absurd (by decide) hb
  · exact W5_of_ne m c b fun w e => h ⟨w, e⟩

/-- After host stretch 3. -/
abbrev W6 : Dev nD → Valuation τ sig (Elt F) := fun c => StableHlo.after hostOps3 (W5 m c)
abbrev U6 : (c : Dev nD) → (b : Ref sig .tc) → Buf (Elt F) ((c : Thread nD τ).loc b) := fun c b => W6 m c b
theorem W6_keep (c : Dev nD) (b : Ref sig .tc) (hb : b ∉ hostOps3_W) :
    W6 m c (Proc.devRef .tc b) = W5 m c (Proc.devRef .tc b) :=
  StableHlo.after_of_writes_sub hostOps3 _ hostOps3_writes hb

/-- At region 3's exit: its arrays at what the pipeline leaves, every other buffer as entered. -/
def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev U7 : (c : Dev nD) → (b : Ref sig .tc) → Buf (Elt F) ((c : Thread nD τ).loc b) := fun c b => W7 m c b
theorem hF3 (c : Dev nD) (w : Fin cfg3.W) : (dat3 (U6 m) c).arrAt w cfg3.N = U7 m c (Pipeline.arrRef spec3 w) :=
  (W7_arr m c w).symm
theorem hrest3 (c : Dev nD) : ∀ b, b ∉ Finset.univ.image (Pipeline.arrRef spec3) → U7 m c b = U6 m c b :=
  fun b hb => W7_of_ne m c b fun w e => hb (Finset.mem_image.mpr ⟨w, Finset.mem_univ _, e⟩)
/-- A region changes only its output arrays: an input window's array ends as entered, any other buffer is bypassed. -/
theorem W7_keep (c : Dev nD) (b : Ref sig .tc) (hb : b ∉ ([main_v27] : List (Ref sig .tc))) :
    W7 m c (Proc.devRef .tc b) = W6 m c (Proc.devRef .tc b) := by
  by_cases h : ∃ w, Pipeline.arrRef spec3 w = b
  · obtain ⟨w, rfl⟩ := h
    fin_cases w
    · exact (W7_arr m c 0).trans (((dat3 (U6 m) c).arrAt_in 0 rfl _).trans (A_eq3 (U6 m) c 0))
    · exact (W7_arr m c 1).trans (((dat3 (U6 m) c).arrAt_in 1 rfl _).trans (A_eq3 (U6 m) c 1))
    · exact (W7_arr m c 2).trans (((dat3 (U6 m) c).arrAt_in 2 rfl _).trans (A_eq3 (U6 m) c 2))
    · exact (W7_arr m c 3).trans (((dat3 (U6 m) c).arrAt_in 3 rfl _).trans (A_eq3 (U6 m) c 3))
    · exact (W7_arr m c 4).trans (((dat3 (U6 m) c).arrAt_in 4 rfl _).trans (A_eq3 (U6 m) c 4))
    · exact absurd (by decide) hb
  · exact W7_of_ne m c b fun w e => h ⟨w, e⟩

/-- At region 4's exit: its arrays at what the pipeline leaves, every other buffer as entered. -/
def W8 (c : Dev nD) : Valuation τ sig (Elt F) :=
  Pipeline.withArrays spec4 c (W7 m c) fun w => (dat4 (U7 m) c).arrAt w cfg4.N
theorem W8_arr (c : Dev nD) (w : Fin cfg4.W) :
    W8 m c (Proc.devRef .tc (Pipeline.arrRef spec4 w)) = (dat4 (U7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev U8 : (c : Dev nD) → (b : Ref sig .tc) → Buf (Elt F) ((c : Thread nD τ).loc b) := fun c b => W8 m c b
theorem hF4 (c : Dev nD) (w : Fin cfg4.W) : (dat4 (U7 m) c).arrAt w cfg4.N = U8 m c (Pipeline.arrRef spec4 w) :=
  (W8_arr m c w).symm
theorem hrest4 (c : Dev nD) : ∀ b, b ∉ Finset.univ.image (Pipeline.arrRef spec4) → U8 m c b = U7 m c b :=
  fun b hb => W8_of_ne m c b fun w e => hb (Finset.mem_image.mpr ⟨w, Finset.mem_univ _, e⟩)
/-- A region changes only its output arrays: an input window's array ends as entered, any other buffer is bypassed. -/
theorem W8_keep (c : Dev nD) (b : Ref sig .tc) (hb : b ∉ ([main_v28_0, main_v28_1] : List (Ref sig .tc))) :
    W8 m c (Proc.devRef .tc b) = W7 m c (Proc.devRef .tc b) := by
  by_cases h : ∃ w, Pipeline.arrRef spec4 w = b
  · obtain ⟨w, rfl⟩ := h
    fin_cases w
    · exact (W8_arr m c 0).trans (((dat4 (U7 m) c).arrAt_in 0 rfl _).trans (A_eq4 (U7 m) c 0))
    · exact absurd (by decide) hb
    · exact absurd (by decide) hb
  · exact W8_of_ne m c b fun w e => h ⟨w, e⟩

/-- After host stretch 5. -/
abbrev W9 : Dev nD → Valuation τ sig (Elt F) := fun c => StableHlo.after hostOps5 (W8 m c)
abbrev U9 : (c : Dev nD) → (b : Ref sig .tc) → Buf (Elt F) ((c : Thread nD τ).loc b) := fun c b => W9 m c b
theorem W9_keep (c : Dev nD) (b : Ref sig .tc) (hb : b ∉ hostOps5_W) :
    W9 m c (Proc.devRef .tc b) = W8 m c (Proc.devRef .tc b) :=
  StableHlo.after_of_writes_sub hostOps5 _ hostOps5_writes hb

/-- At region 5's exit: its arrays at what the pipeline leaves, every other buffer as entered. -/
def W10 (c : Dev nD) : Valuation τ sig (Elt F) :=
  Pipeline.withArrays spec5 c (W9 m c) fun w => (dat5 (U9 m) c).arrAt w cfg5.N
theorem W10_arr (c : Dev nD) (w : Fin cfg5.W) :
    W10 m c (Proc.devRef .tc (Pipeline.arrRef spec5 w)) = (dat5 (U9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
abbrev U10 : (c : Dev nD) → (b : Ref sig .tc) → Buf (Elt F) ((c : Thread nD τ).loc b) := fun c b => W10 m c b
theorem hF5 (c : Dev nD) (w : Fin cfg5.W) : (dat5 (U9 m) c).arrAt w cfg5.N = U10 m c (Pipeline.arrRef spec5 w) :=
  (W10_arr m c w).symm
theorem hrest5 (c : Dev nD) : ∀ b, b ∉ Finset.univ.image (Pipeline.arrRef spec5) → U10 m c b = U9 m c b :=
  fun b hb => W10_of_ne m c b fun w e => hb (Finset.mem_image.mpr ⟨w, Finset.mem_univ _, e⟩)
/-- A region changes only its output arrays: an input window's array ends as entered, any other buffer is bypassed. -/
theorem W10_keep (c : Dev nD) (b : Ref sig .tc) (hb : b ∉ ([main_v39] : List (Ref sig .tc))) :
    W10 m c (Proc.devRef .tc b) = W9 m c (Proc.devRef .tc b) := by
  by_cases h : ∃ w, Pipeline.arrRef spec5 w = b
  · obtain ⟨w, rfl⟩ := h
    fin_cases w
    · exact (W10_arr m c 0).trans (((dat5 (U9 m) c).arrAt_in 0 rfl _).trans (A_eq5 (U9 m) c 0))
    · exact (W10_arr m c 1).trans (((dat5 (U9 m) c).arrAt_in 1 rfl _).trans (A_eq5 (U9 m) c 1))
    · exact (W10_arr m c 2).trans (((dat5 (U9 m) c).arrAt_in 2 rfl _).trans (A_eq5 (U9 m) c 2))
    · exact (W10_arr m c 3).trans (((dat5 (U9 m) c).arrAt_in 3 rfl _).trans (A_eq5 (U9 m) c 3))
    · exact (W10_arr m c 4).trans (((dat5 (U9 m) c).arrAt_in 4 rfl _).trans (A_eq5 (U9 m) c 4))
    · exact absurd (by decide) hb
  · exact W10_of_ne m c b fun w e => h ⟨w, e⟩

/-- After host stretch 6. -/
abbrev W11 : Dev nD → Valuation τ sig (Elt F) := fun c => StableHlo.after hostOps6 (W10 m c)
abbrev U11 : (c : Dev nD) → (b : Ref sig .tc) → Buf (Elt F) ((c : Thread nD τ).loc b) := fun c b => W11 m c b
theorem W11_keep (c : Dev nD) (b : Ref sig .tc) (hb : b ∉ hostOps6_W) :
    W11 m c (Proc.devRef .tc b) = W10 m c (Proc.devRef .tc b) :=
  StableHlo.after_of_writes_sub hostOps6 _ hostOps6_writes hb

/-- At region 6's exit: its arrays at what the pipeline leaves, every other buffer as entered. -/
def W12 (c : Dev nD) : Valuation τ sig (Elt F) :=
  Pipeline.withArrays spec6 c (W11 m c) fun w => (dat6 (U11 m) c).arrAt w cfg6.N
theorem W12_arr (c : Dev nD) (w : Fin cfg6.W) :
    W12 m c (Proc.devRef .tc (Pipeline.arrRef spec6 w)) = (dat6 (U11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
abbrev U12 : (c : Dev nD) → (b : Ref sig .tc) → Buf (Elt F) ((c : Thread nD τ).loc b) := fun c b => W12 m c b
theorem hF6 (c : Dev nD) (w : Fin cfg6.W) : (dat6 (U11 m) c).arrAt w cfg6.N = U12 m c (Pipeline.arrRef spec6 w) :=
  (W12_arr m c w).symm
theorem hrest6 (c : Dev nD) : ∀ b, b ∉ Finset.univ.image (Pipeline.arrRef spec6) → U12 m c b = U11 m c b :=
  fun b hb => W12_of_ne m c b fun w e => hb (Finset.mem_image.mpr ⟨w, Finset.mem_univ _, e⟩)
/-- A region changes only its output arrays: an input window's array ends as entered, any other buffer is bypassed. -/
theorem W12_keep (c : Dev nD) (b : Ref sig .tc) (hb : b ∉ ([main_v73] : List (Ref sig .tc))) :
    W12 m c (Proc.devRef .tc b) = W11 m c (Proc.devRef .tc b) := by
  by_cases h : ∃ w, Pipeline.arrRef spec6 w = b
  · obtain ⟨w, rfl⟩ := h
    fin_cases w
    · exact (W12_arr m c 0).trans (((dat6 (U11 m) c).arrAt_in 0 rfl _).trans (A_eq6 (U11 m) c 0))
    · exact (W12_arr m c 1).trans (((dat6 (U11 m) c).arrAt_in 1 rfl _).trans (A_eq6 (U11 m) c 1))
    · exact (W12_arr m c 2).trans (((dat6 (U11 m) c).arrAt_in 2 rfl _).trans (A_eq6 (U11 m) c 2))
    · exact (W12_arr m c 3).trans (((dat6 (U11 m) c).arrAt_in 3 rfl _).trans (A_eq6 (U11 m) c 3))
    · exact (W12_arr m c 4).trans (((dat6 (U11 m) c).arrAt_in 4 rfl _).trans (A_eq6 (U11 m) c 4))
    · exact (W12_arr m c 5).trans (((dat6 (U11 m) c).arrAt_in 5 rfl _).trans (A_eq6 (U11 m) c 5))
    · exact (W12_arr m c 6).trans (((dat6 (U11 m) c).arrAt_in 6 rfl _).trans (A_eq6 (U11 m) c 6))
    · exact (W12_arr m c 7).trans (((dat6 (U11 m) c).arrAt_in 7 rfl _).trans (A_eq6 (U11 m) c 7))
    · exact (W12_arr m c 8).trans (((dat6 (U11 m) c).arrAt_in 8 rfl _).trans (A_eq6 (U11 m) c 8))
    · exact absurd (by decide) hb
  · exact W12_of_ne m c b fun w e => h ⟨w, e⟩

/-- After host stretch 7. -/
abbrev W13 : Dev nD → Valuation τ sig (Elt F) := fun c => StableHlo.after hostOps7 (W12 m c)
abbrev U13 : (c : Dev nD) → (b : Ref sig .tc) → Buf (Elt F) ((c : Thread nD τ).loc b) := fun c b => W13 m c b
theorem W13_keep (c : Dev nD) (b : Ref sig .tc) (hb : b ∉ hostOps7_W) :
    W13 m c (Proc.devRef .tc b) = W12 m c (Proc.devRef .tc b) :=
  StableHlo.after_of_writes_sub hostOps7 _ hostOps7_writes hb

/-- At region 7's exit: its arrays at what the pipeline leaves, every other buffer as entered. -/
def W14 (c : Dev nD) : Valuation τ sig (Elt F) :=
  Pipeline.withArrays spec7 c (W13 m c) fun w => (dat7 (U13 m) c).arrAt w cfg7.N
theorem W14_arr (c : Dev nD) (w : Fin cfg7.W) :
    W14 m c (Proc.devRef .tc (Pipeline.arrRef spec7 w)) = (dat7 (U13 m) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m c (Proc.devRef .tc b) = W13 m c (Proc.devRef .tc b) := by
  unfold W14; exact Pipeline.withArrays_of_ne spec7 c _ _ b hb
abbrev U14 : (c : Dev nD) → (b : Ref sig .tc) → Buf (Elt F) ((c : Thread nD τ).loc b) := fun c b => W14 m c b
theorem hF7 (c : Dev nD) (w : Fin cfg7.W) : (dat7 (U13 m) c).arrAt w cfg7.N = U14 m c (Pipeline.arrRef spec7 w) :=
  (W14_arr m c w).symm
theorem hrest7 (c : Dev nD) : ∀ b, b ∉ Finset.univ.image (Pipeline.arrRef spec7) → U14 m c b = U13 m c b :=
  fun b hb => W14_of_ne m c b fun w e => hb (Finset.mem_image.mpr ⟨w, Finset.mem_univ _, e⟩)
/-- A region changes only its output arrays: an input window's array ends as entered, any other buffer is bypassed. -/
theorem W14_keep (c : Dev nD) (b : Ref sig .tc) (hb : b ∉ ([main_v96] : List (Ref sig .tc))) :
    W14 m c (Proc.devRef .tc b) = W13 m c (Proc.devRef .tc b) := by
  by_cases h : ∃ w, Pipeline.arrRef spec7 w = b
  · obtain ⟨w, rfl⟩ := h
    fin_cases w
    · exact (W14_arr m c 0).trans (((dat7 (U13 m) c).arrAt_in 0 rfl _).trans (A_eq7 (U13 m) c 0))
    · exact (W14_arr m c 1).trans (((dat7 (U13 m) c).arrAt_in 1 rfl _).trans (A_eq7 (U13 m) c 1))
    · exact (W14_arr m c 2).trans (((dat7 (U13 m) c).arrAt_in 2 rfl _).trans (A_eq7 (U13 m) c 2))
    · exact (W14_arr m c 3).trans (((dat7 (U13 m) c).arrAt_in 3 rfl _).trans (A_eq7 (U13 m) c 3))
    · exact (W14_arr m c 4).trans (((dat7 (U13 m) c).arrAt_in 4 rfl _).trans (A_eq7 (U13 m) c 4))
    · exact (W14_arr m c 5).trans (((dat7 (U13 m) c).arrAt_in 5 rfl _).trans (A_eq7 (U13 m) c 5))
    · exact (W14_arr m c 6).trans (((dat7 (U13 m) c).arrAt_in 6 rfl _).trans (A_eq7 (U13 m) c 6))
    · exact absurd (by decide) hb
  · exact W14_of_ne m c b fun w e => h ⟨w, e⟩

/-- After host stretch 8. -/
abbrev W15 : Dev nD → Valuation τ sig (Elt F) := fun c => StableHlo.after hostOps8 (W14 m c)
abbrev U15 : (c : Dev nD) → (b : Ref sig .tc) → Buf (Elt F) ((c : Thread nD τ).loc b) := fun c b => W15 m c b
theorem W15_keep (c : Dev nD) (b : Ref sig .tc) (hb : b ∉ hostOps8_W) :
    W15 m c (Proc.devRef .tc b) = W14 m c (Proc.devRef .tc b) :=
  StableHlo.after_of_writes_sub hostOps8 _ hostOps8_writes hb

/-- At region 8's exit: its arrays at what the pipeline leaves, every other buffer as entered. -/
def W16 (c : Dev nD) : Valuation τ sig (Elt F) :=
  Pipeline.withArrays spec8 c (W15 m c) fun w => (dat8 (U15 m) c).arrAt w cfg8.N
theorem W16_arr (c : Dev nD) (w : Fin cfg8.W) :
    W16 m c (Proc.devRef .tc (Pipeline.arrRef spec8 w)) = (dat8 (U15 m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m c (Proc.devRef .tc b) = W15 m c (Proc.devRef .tc b) := by
  unfold W16; exact Pipeline.withArrays_of_ne spec8 c _ _ b hb
abbrev U16 : (c : Dev nD) → (b : Ref sig .tc) → Buf (Elt F) ((c : Thread nD τ).loc b) := fun c b => W16 m c b
theorem hF8 (c : Dev nD) (w : Fin cfg8.W) : (dat8 (U15 m) c).arrAt w cfg8.N = U16 m c (Pipeline.arrRef spec8 w) :=
  (W16_arr m c w).symm
theorem hrest8 (c : Dev nD) : ∀ b, b ∉ Finset.univ.image (Pipeline.arrRef spec8) → U16 m c b = U15 m c b :=
  fun b hb => W16_of_ne m c b fun w e => hb (Finset.mem_image.mpr ⟨w, Finset.mem_univ _, e⟩)
/-- A region changes only its output arrays: an input window's array ends as entered, any other buffer is bypassed. -/
theorem W16_keep (c : Dev nD) (b : Ref sig .tc) (hb : b ∉ ([main_v111] : List (Ref sig .tc))) :
    W16 m c (Proc.devRef .tc b) = W15 m c (Proc.devRef .tc b) := by
  by_cases h : ∃ w, Pipeline.arrRef spec8 w = b
  · obtain ⟨w, rfl⟩ := h
    fin_cases w
    · exact (W16_arr m c 0).trans (((dat8 (U15 m) c).arrAt_in 0 rfl _).trans (A_eq8 (U15 m) c 0))
    · exact (W16_arr m c 1).trans (((dat8 (U15 m) c).arrAt_in 1 rfl _).trans (A_eq8 (U15 m) c 1))
    · exact (W16_arr m c 2).trans (((dat8 (U15 m) c).arrAt_in 2 rfl _).trans (A_eq8 (U15 m) c 2))
    · exact (W16_arr m c 3).trans (((dat8 (U15 m) c).arrAt_in 3 rfl _).trans (A_eq8 (U15 m) c 3))
    · exact (W16_arr m c 4).trans (((dat8 (U15 m) c).arrAt_in 4 rfl _).trans (A_eq8 (U15 m) c 4))
    · exact absurd (by decide) hb
  · exact W16_of_ne m c b fun w e => h ⟨w, e⟩

/-- After host stretch 9. -/
abbrev W17 : Dev nD → Valuation τ sig (Elt F) := fun c => StableHlo.after hostOps9 (W16 m c)
abbrev U17 : (c : Dev nD) → (b : Ref sig .tc) → Buf (Elt F) ((c : Thread nD τ).loc b) := fun c b => W17 m c b
theorem W17_keep (c : Dev nD) (b : Ref sig .tc) (hb : b ∉ hostOps9_W) :
    W17 m c (Proc.devRef .tc b) = W16 m c (Proc.devRef .tc b) :=
  StableHlo.after_of_writes_sub hostOps9 _ hostOps9_writes hb

/-- At region 9's exit: its arrays at what the pipeline leaves, every other buffer as entered. -/
def W18 (c : Dev nD) : Valuation τ sig (Elt F) :=
  Pipeline.withArrays spec9 c (W17 m c) fun w => (dat9 (U17 m) c).arrAt w cfg9.N
theorem W18_arr (c : Dev nD) (w : Fin cfg9.W) :
    W18 m c (Proc.devRef .tc (Pipeline.arrRef spec9 w)) = (dat9 (U17 m) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m c (Proc.devRef .tc b) = W17 m c (Proc.devRef .tc b) := by
  unfold W18; exact Pipeline.withArrays_of_ne spec9 c _ _ b hb
abbrev U18 : (c : Dev nD) → (b : Ref sig .tc) → Buf (Elt F) ((c : Thread nD τ).loc b) := fun c b => W18 m c b
theorem hF9 (c : Dev nD) (w : Fin cfg9.W) : (dat9 (U17 m) c).arrAt w cfg9.N = U18 m c (Pipeline.arrRef spec9 w) :=
  (W18_arr m c w).symm
theorem hrest9 (c : Dev nD) : ∀ b, b ∉ Finset.univ.image (Pipeline.arrRef spec9) → U18 m c b = U17 m c b :=
  fun b hb => W18_of_ne m c b fun w e => hb (Finset.mem_image.mpr ⟨w, Finset.mem_univ _, e⟩)
/-- A region changes only its output arrays: an input window's array ends as entered, any other buffer is bypassed. -/
theorem W18_keep (c : Dev nD) (b : Ref sig .tc) (hb : b ∉ ([main_v145] : List (Ref sig .tc))) :
    W18 m c (Proc.devRef .tc b) = W17 m c (Proc.devRef .tc b) := by
  by_cases h : ∃ w, Pipeline.arrRef spec9 w = b
  · obtain ⟨w, rfl⟩ := h
    fin_cases w
    · exact (W18_arr m c 0).trans (((dat9 (U17 m) c).arrAt_in 0 rfl _).trans (A_eq9 (U17 m) c 0))
    · exact (W18_arr m c 1).trans (((dat9 (U17 m) c).arrAt_in 1 rfl _).trans (A_eq9 (U17 m) c 1))
    · exact (W18_arr m c 2).trans (((dat9 (U17 m) c).arrAt_in 2 rfl _).trans (A_eq9 (U17 m) c 2))
    · exact (W18_arr m c 3).trans (((dat9 (U17 m) c).arrAt_in 3 rfl _).trans (A_eq9 (U17 m) c 3))
    · exact (W18_arr m c 4).trans (((dat9 (U17 m) c).arrAt_in 4 rfl _).trans (A_eq9 (U17 m) c 4))
    · exact (W18_arr m c 5).trans (((dat9 (U17 m) c).arrAt_in 5 rfl _).trans (A_eq9 (U17 m) c 5))
    · exact (W18_arr m c 6).trans (((dat9 (U17 m) c).arrAt_in 6 rfl _).trans (A_eq9 (U17 m) c 6))
    · exact (W18_arr m c 7).trans (((dat9 (U17 m) c).arrAt_in 7 rfl _).trans (A_eq9 (U17 m) c 7))
    · exact (W18_arr m c 8).trans (((dat9 (U17 m) c).arrAt_in 8 rfl _).trans (A_eq9 (U17 m) c 8))
    · exact absurd (by decide) hb
  · exact W18_of_ne m c b fun w e => h ⟨w, e⟩

/-- After host stretch 10. -/
abbrev W19 : Dev nD → Valuation τ sig (Elt F) := fun c => StableHlo.after hostOps10 (W18 m c)
abbrev U19 : (c : Dev nD) → (b : Ref sig .tc) → Buf (Elt F) ((c : Thread nD τ).loc b) := fun c b => W19 m c b
theorem W19_keep (c : Dev nD) (b : Ref sig .tc) (hb : b ∉ hostOps10_W) :
    W19 m c (Proc.devRef .tc b) = W18 m c (Proc.devRef .tc b) :=
  StableHlo.after_of_writes_sub hostOps10 _ hostOps10_writes hb

/-- At region 10's exit: its arrays at what the pipeline leaves, every other buffer as entered. -/
def W20 (c : Dev nD) : Valuation τ sig (Elt F) :=
  Pipeline.withArrays spec10 c (W19 m c) fun w => (dat10 (U19 m) c).arrAt w cfg10.N
theorem W20_arr (c : Dev nD) (w : Fin cfg10.W) :
    W20 m c (Proc.devRef .tc (Pipeline.arrRef spec10 w)) = (dat10 (U19 m) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 m c (Proc.devRef .tc b) = W19 m c (Proc.devRef .tc b) := by
  unfold W20; exact Pipeline.withArrays_of_ne spec10 c _ _ b hb
abbrev U20 : (c : Dev nD) → (b : Ref sig .tc) → Buf (Elt F) ((c : Thread nD τ).loc b) := fun c b => W20 m c b
theorem hF10 (c : Dev nD) (w : Fin cfg10.W) : (dat10 (U19 m) c).arrAt w cfg10.N = U20 m c (Pipeline.arrRef spec10 w) :=
  (W20_arr m c w).symm
theorem hrest10 (c : Dev nD) : ∀ b, b ∉ Finset.univ.image (Pipeline.arrRef spec10) → U20 m c b = U19 m c b :=
  fun b hb => W20_of_ne m c b fun w e => hb (Finset.mem_image.mpr ⟨w, Finset.mem_univ _, e⟩)
/-- A region changes only its output arrays: an input window's array ends as entered, any other buffer is bypassed. -/
theorem W20_keep (c : Dev nD) (b : Ref sig .tc) (hb : b ∉ ([main_v168] : List (Ref sig .tc))) :
    W20 m c (Proc.devRef .tc b) = W19 m c (Proc.devRef .tc b) := by
  by_cases h : ∃ w, Pipeline.arrRef spec10 w = b
  · obtain ⟨w, rfl⟩ := h
    fin_cases w
    · exact (W20_arr m c 0).trans (((dat10 (U19 m) c).arrAt_in 0 rfl _).trans (A_eq10 (U19 m) c 0))
    · exact (W20_arr m c 1).trans (((dat10 (U19 m) c).arrAt_in 1 rfl _).trans (A_eq10 (U19 m) c 1))
    · exact (W20_arr m c 2).trans (((dat10 (U19 m) c).arrAt_in 2 rfl _).trans (A_eq10 (U19 m) c 2))
    · exact (W20_arr m c 3).trans (((dat10 (U19 m) c).arrAt_in 3 rfl _).trans (A_eq10 (U19 m) c 3))
    · exact (W20_arr m c 4).trans (((dat10 (U19 m) c).arrAt_in 4 rfl _).trans (A_eq10 (U19 m) c 4))
    · exact (W20_arr m c 5).trans (((dat10 (U19 m) c).arrAt_in 5 rfl _).trans (A_eq10 (U19 m) c 5))
    · exact (W20_arr m c 6).trans (((dat10 (U19 m) c).arrAt_in 6 rfl _).trans (A_eq10 (U19 m) c 6))
    · exact absurd (by decide) hb
  · exact W20_of_ne m c b fun w e => h ⟨w, e⟩

/-- After host stretch 11. -/
abbrev W21 : Dev nD → Valuation τ sig (Elt F) := fun c => StableHlo.after hostOps11 (W20 m c)
abbrev U21 : (c : Dev nD) → (b : Ref sig .tc) → Buf (Elt F) ((c : Thread nD τ).loc b) := fun c b => W21 m c b
theorem W21_keep (c : Dev nD) (b : Ref sig .tc) (hb : b ∉ hostOps11_W) :
    W21 m c (Proc.devRef .tc b) = W20 m c (Proc.devRef .tc b) :=
  StableHlo.after_of_writes_sub hostOps11 _ hostOps11_writes hb

/-- At region 11's exit: its arrays at what the pipeline leaves, every other buffer as entered. -/
def W22 (c : Dev nD) : Valuation τ sig (Elt F) :=
  Pipeline.withArrays spec11 c (W21 m c) fun w => (dat11 (U21 m) c).arrAt w cfg11.N
theorem W22_arr (c : Dev nD) (w : Fin cfg11.W) :
    W22 m c (Proc.devRef .tc (Pipeline.arrRef spec11 w)) = (dat11 (U21 m) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m c (Proc.devRef .tc b) = W21 m c (Proc.devRef .tc b) := by
  unfold W22; exact Pipeline.withArrays_of_ne spec11 c _ _ b hb
abbrev U22 : (c : Dev nD) → (b : Ref sig .tc) → Buf (Elt F) ((c : Thread nD τ).loc b) := fun c b => W22 m c b
theorem hF11 (c : Dev nD) (w : Fin cfg11.W) : (dat11 (U21 m) c).arrAt w cfg11.N = U22 m c (Pipeline.arrRef spec11 w) :=
  (W22_arr m c w).symm
theorem hrest11 (c : Dev nD) : ∀ b, b ∉ Finset.univ.image (Pipeline.arrRef spec11) → U22 m c b = U21 m c b :=
  fun b hb => W22_of_ne m c b fun w e => hb (Finset.mem_image.mpr ⟨w, Finset.mem_univ _, e⟩)
/-- A region changes only its output arrays: an input window's array ends as entered, any other buffer is bypassed. -/
theorem W22_keep (c : Dev nD) (b : Ref sig .tc) (hb : b ∉ ([main_v183] : List (Ref sig .tc))) :
    W22 m c (Proc.devRef .tc b) = W21 m c (Proc.devRef .tc b) := by
  by_cases h : ∃ w, Pipeline.arrRef spec11 w = b
  · obtain ⟨w, rfl⟩ := h
    fin_cases w
    · exact (W22_arr m c 0).trans (((dat11 (U21 m) c).arrAt_in 0 rfl _).trans (A_eq11 (U21 m) c 0))
    · exact (W22_arr m c 1).trans (((dat11 (U21 m) c).arrAt_in 1 rfl _).trans (A_eq11 (U21 m) c 1))
    · exact (W22_arr m c 2).trans (((dat11 (U21 m) c).arrAt_in 2 rfl _).trans (A_eq11 (U21 m) c 2))
    · exact (W22_arr m c 3).trans (((dat11 (U21 m) c).arrAt_in 3 rfl _).trans (A_eq11 (U21 m) c 3))
    · exact (W22_arr m c 4).trans (((dat11 (U21 m) c).arrAt_in 4 rfl _).trans (A_eq11 (U21 m) c 4))
    · exact absurd (by decide) hb
  · exact W22_of_ne m c b fun w e => h ⟨w, e⟩

/-- After host stretch 12. -/
abbrev W23 : Dev nD → Valuation τ sig (Elt F) := fun c => StableHlo.after hostOps12 (W22 m c)
abbrev U23 : (c : Dev nD) → (b : Ref sig .tc) → Buf (Elt F) ((c : Thread nD τ).loc b) := fun c b => W23 m c b
theorem W23_keep (c : Dev nD) (b : Ref sig .tc) (hb : b ∉ hostOps12_W) :
    W23 m c (Proc.devRef .tc b) = W22 m c (Proc.devRef .tc b) :=
  StableHlo.after_of_writes_sub hostOps12 _ hostOps12_writes hb

/-- At region 12's exit: its arrays at what the pipeline leaves, every other buffer as entered. -/
def W24 (c : Dev nD) : Valuation τ sig (Elt F) :=
  Pipeline.withArrays spec12 c (W23 m c) fun w => (dat12 (U23 m) c).arrAt w cfg12.N
theorem W24_arr (c : Dev nD) (w : Fin cfg12.W) :
    W24 m c (Proc.devRef .tc (Pipeline.arrRef spec12 w)) = (dat12 (U23 m) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 m c (Proc.devRef .tc b) = W23 m c (Proc.devRef .tc b) := by
  unfold W24; exact Pipeline.withArrays_of_ne spec12 c _ _ b hb
abbrev U24 : (c : Dev nD) → (b : Ref sig .tc) → Buf (Elt F) ((c : Thread nD τ).loc b) := fun c b => W24 m c b
theorem hF12 (c : Dev nD) (w : Fin cfg12.W) : (dat12 (U23 m) c).arrAt w cfg12.N = U24 m c (Pipeline.arrRef spec12 w) :=
  (W24_arr m c w).symm
theorem hrest12 (c : Dev nD) : ∀ b, b ∉ Finset.univ.image (Pipeline.arrRef spec12) → U24 m c b = U23 m c b :=
  fun b hb => W24_of_ne m c b fun w e => hb (Finset.mem_image.mpr ⟨w, Finset.mem_univ _, e⟩)
/-- A region changes only its output arrays: an input window's array ends as entered, any other buffer is bypassed. -/
theorem W24_keep (c : Dev nD) (b : Ref sig .tc) (hb : b ∉ ([main_v217] : List (Ref sig .tc))) :
    W24 m c (Proc.devRef .tc b) = W23 m c (Proc.devRef .tc b) := by
  by_cases h : ∃ w, Pipeline.arrRef spec12 w = b
  · obtain ⟨w, rfl⟩ := h
    fin_cases w
    · exact (W24_arr m c 0).trans (((dat12 (U23 m) c).arrAt_in 0 rfl _).trans (A_eq12 (U23 m) c 0))
    · exact (W24_arr m c 1).trans (((dat12 (U23 m) c).arrAt_in 1 rfl _).trans (A_eq12 (U23 m) c 1))
    · exact (W24_arr m c 2).trans (((dat12 (U23 m) c).arrAt_in 2 rfl _).trans (A_eq12 (U23 m) c 2))
    · exact (W24_arr m c 3).trans (((dat12 (U23 m) c).arrAt_in 3 rfl _).trans (A_eq12 (U23 m) c 3))
    · exact (W24_arr m c 4).trans (((dat12 (U23 m) c).arrAt_in 4 rfl _).trans (A_eq12 (U23 m) c 4))
    · exact (W24_arr m c 5).trans (((dat12 (U23 m) c).arrAt_in 5 rfl _).trans (A_eq12 (U23 m) c 5))
    · exact (W24_arr m c 6).trans (((dat12 (U23 m) c).arrAt_in 6 rfl _).trans (A_eq12 (U23 m) c 6))
    · exact (W24_arr m c 7).trans (((dat12 (U23 m) c).arrAt_in 7 rfl _).trans (A_eq12 (U23 m) c 7))
    · exact (W24_arr m c 8).trans (((dat12 (U23 m) c).arrAt_in 8 rfl _).trans (A_eq12 (U23 m) c 8))
    · exact absurd (by decide) hb
  · exact W24_of_ne m c b fun w e => h ⟨w, e⟩

/-- After host stretch 13. -/
abbrev W25 : Dev nD → Valuation τ sig (Elt F) := fun c => StableHlo.after hostOps13 (W24 m c)
abbrev U25 : (c : Dev nD) → (b : Ref sig .tc) → Buf (Elt F) ((c : Thread nD τ).loc b) := fun c b => W25 m c b
theorem W25_keep (c : Dev nD) (b : Ref sig .tc) (hb : b ∉ hostOps13_W) :
    W25 m c (Proc.devRef .tc b) = W24 m c (Proc.devRef .tc b) :=
  StableHlo.after_of_writes_sub hostOps13 _ hostOps13_writes hb

/-- At region 13's exit: its arrays at what the pipeline leaves, every other buffer as entered. -/
def W26 (c : Dev nD) : Valuation τ sig (Elt F) :=
  Pipeline.withArrays spec13 c (W25 m c) fun w => (dat13 (U25 m) c).arrAt w cfg13.N
theorem W26_arr (c : Dev nD) (w : Fin cfg13.W) :
    W26 m c (Proc.devRef .tc (Pipeline.arrRef spec13 w)) = (dat13 (U25 m) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 m c (Proc.devRef .tc b) = W25 m c (Proc.devRef .tc b) := by
  unfold W26; exact Pipeline.withArrays_of_ne spec13 c _ _ b hb
abbrev U26 : (c : Dev nD) → (b : Ref sig .tc) → Buf (Elt F) ((c : Thread nD τ).loc b) := fun c b => W26 m c b
theorem hF13 (c : Dev nD) (w : Fin cfg13.W) : (dat13 (U25 m) c).arrAt w cfg13.N = U26 m c (Pipeline.arrRef spec13 w) :=
  (W26_arr m c w).symm
theorem hrest13 (c : Dev nD) : ∀ b, b ∉ Finset.univ.image (Pipeline.arrRef spec13) → U26 m c b = U25 m c b :=
  fun b hb => W26_of_ne m c b fun w e => hb (Finset.mem_image.mpr ⟨w, Finset.mem_univ _, e⟩)
/-- A region changes only its output arrays: an input window's array ends as entered, any other buffer is bypassed. -/
theorem W26_keep (c : Dev nD) (b : Ref sig .tc) (hb : b ∉ ([main_v240] : List (Ref sig .tc))) :
    W26 m c (Proc.devRef .tc b) = W25 m c (Proc.devRef .tc b) := by
  by_cases h : ∃ w, Pipeline.arrRef spec13 w = b
  · obtain ⟨w, rfl⟩ := h
    fin_cases w
    · exact (W26_arr m c 0).trans (((dat13 (U25 m) c).arrAt_in 0 rfl _).trans (A_eq13 (U25 m) c 0))
    · exact (W26_arr m c 1).trans (((dat13 (U25 m) c).arrAt_in 1 rfl _).trans (A_eq13 (U25 m) c 1))
    · exact (W26_arr m c 2).trans (((dat13 (U25 m) c).arrAt_in 2 rfl _).trans (A_eq13 (U25 m) c 2))
    · exact (W26_arr m c 3).trans (((dat13 (U25 m) c).arrAt_in 3 rfl _).trans (A_eq13 (U25 m) c 3))
    · exact (W26_arr m c 4).trans (((dat13 (U25 m) c).arrAt_in 4 rfl _).trans (A_eq13 (U25 m) c 4))
    · exact (W26_arr m c 5).trans (((dat13 (U25 m) c).arrAt_in 5 rfl _).trans (A_eq13 (U25 m) c 5))
    · exact (W26_arr m c 6).trans (((dat13 (U25 m) c).arrAt_in 6 rfl _).trans (A_eq13 (U25 m) c 6))
    · exact absurd (by decide) hb
  · exact W26_of_ne m c b fun w e => h ⟨w, e⟩

/-- After host stretch 14. -/
abbrev W27 : Dev nD → Valuation τ sig (Elt F) := fun c => StableHlo.after hostOps14 (W26 m c)
abbrev U27 : (c : Dev nD) → (b : Ref sig .tc) → Buf (Elt F) ((c : Thread nD τ).loc b) := fun c b => W27 m c b
theorem W27_keep (c : Dev nD) (b : Ref sig .tc) (hb : b ∉ hostOps14_W) :
    W27 m c (Proc.devRef .tc b) = W26 m c (Proc.devRef .tc b) :=
  StableHlo.after_of_writes_sub hostOps14 _ hostOps14_writes hb

/-- At region 14's exit: its arrays at what the pipeline leaves, every other buffer as entered. -/
def W28 (c : Dev nD) : Valuation τ sig (Elt F) :=
  Pipeline.withArrays spec14 c (W27 m c) fun w => (dat14 (U27 m) c).arrAt w cfg14.N
theorem W28_arr (c : Dev nD) (w : Fin cfg14.W) :
    W28 m c (Proc.devRef .tc (Pipeline.arrRef spec14 w)) = (dat14 (U27 m) c).arrAt w cfg14.N := by
  unfold W28; exact Pipeline.withArrays_arr spec14 launch14.win.arr_inj c _ _ w
theorem W28_of_ne (c : Dev nD) (b : Ref sig .tc) (hb : ∀ w, Pipeline.arrRef spec14 w ≠ b) :
    W28 m c (Proc.devRef .tc b) = W27 m c (Proc.devRef .tc b) := by
  unfold W28; exact Pipeline.withArrays_of_ne spec14 c _ _ b hb
abbrev U28 : (c : Dev nD) → (b : Ref sig .tc) → Buf (Elt F) ((c : Thread nD τ).loc b) := fun c b => W28 m c b
theorem hF14 (c : Dev nD) (w : Fin cfg14.W) : (dat14 (U27 m) c).arrAt w cfg14.N = U28 m c (Pipeline.arrRef spec14 w) :=
  (W28_arr m c w).symm
theorem hrest14 (c : Dev nD) : ∀ b, b ∉ Finset.univ.image (Pipeline.arrRef spec14) → U28 m c b = U27 m c b :=
  fun b hb => W28_of_ne m c b fun w e => hb (Finset.mem_image.mpr ⟨w, Finset.mem_univ _, e⟩)
/-- A region changes only its output arrays: an input window's array ends as entered, any other buffer is bypassed. -/
theorem W28_keep (c : Dev nD) (b : Ref sig .tc) (hb : b ∉ ([main_v255] : List (Ref sig .tc))) :
    W28 m c (Proc.devRef .tc b) = W27 m c (Proc.devRef .tc b) := by
  by_cases h : ∃ w, Pipeline.arrRef spec14 w = b
  · obtain ⟨w, rfl⟩ := h
    fin_cases w
    · exact (W28_arr m c 0).trans (((dat14 (U27 m) c).arrAt_in 0 rfl _).trans (A_eq14 (U27 m) c 0))
    · exact (W28_arr m c 1).trans (((dat14 (U27 m) c).arrAt_in 1 rfl _).trans (A_eq14 (U27 m) c 1))
    · exact (W28_arr m c 2).trans (((dat14 (U27 m) c).arrAt_in 2 rfl _).trans (A_eq14 (U27 m) c 2))
    · exact (W28_arr m c 3).trans (((dat14 (U27 m) c).arrAt_in 3 rfl _).trans (A_eq14 (U27 m) c 3))
    · exact (W28_arr m c 4).trans (((dat14 (U27 m) c).arrAt_in 4 rfl _).trans (A_eq14 (U27 m) c 4))
    · exact absurd (by decide) hb
  · exact W28_of_ne m c b fun w e => h ⟨w, e⟩

/-! ## The arguments end as launched: no item writes one -/

theorem W28_main_arg0 (c : Dev nD) : W28 m c (Proc.devRef .tc main_arg0) = m ((c : Thread nD τ).loc main_arg0) :=
  (W28_keep m c main_arg0 (by decide)).trans ((W27_keep m c main_arg0 (by decide)).trans ((W26_keep m c main_arg0 (by decide)).trans ((W25_keep m c main_arg0 (by decide)).trans ((W24_keep m c main_arg0 (by decide)).trans ((W23_keep m c main_arg0 (by decide)).trans ((W22_keep m c main_arg0 (by decide)).trans ((W21_keep m c main_arg0 (by decide)).trans ((W20_keep m c main_arg0 (by decide)).trans ((W19_keep m c main_arg0 (by decide)).trans ((W18_keep m c main_arg0 (by decide)).trans ((W17_keep m c main_arg0 (by decide)).trans ((W16_keep m c main_arg0 (by decide)).trans ((W15_keep m c main_arg0 (by decide)).trans ((W14_keep m c main_arg0 (by decide)).trans ((W13_keep m c main_arg0 (by decide)).trans ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans ((W1_keep m c main_arg0 (by decide)).trans (rfl))))))))))))))))))))))))))))
theorem W28_main_arg1 (c : Dev nD) : W28 m c (Proc.devRef .tc main_arg1) = m ((c : Thread nD τ).loc main_arg1) :=
  (W28_keep m c main_arg1 (by decide)).trans ((W27_keep m c main_arg1 (by decide)).trans ((W26_keep m c main_arg1 (by decide)).trans ((W25_keep m c main_arg1 (by decide)).trans ((W24_keep m c main_arg1 (by decide)).trans ((W23_keep m c main_arg1 (by decide)).trans ((W22_keep m c main_arg1 (by decide)).trans ((W21_keep m c main_arg1 (by decide)).trans ((W20_keep m c main_arg1 (by decide)).trans ((W19_keep m c main_arg1 (by decide)).trans ((W18_keep m c main_arg1 (by decide)).trans ((W17_keep m c main_arg1 (by decide)).trans ((W16_keep m c main_arg1 (by decide)).trans ((W15_keep m c main_arg1 (by decide)).trans ((W14_keep m c main_arg1 (by decide)).trans ((W13_keep m c main_arg1 (by decide)).trans ((W12_keep m c main_arg1 (by decide)).trans ((W11_keep m c main_arg1 (by decide)).trans ((W10_keep m c main_arg1 (by decide)).trans ((W9_keep m c main_arg1 (by decide)).trans ((W8_keep m c main_arg1 (by decide)).trans ((W7_keep m c main_arg1 (by decide)).trans ((W6_keep m c main_arg1 (by decide)).trans ((W5_keep m c main_arg1 (by decide)).trans ((W4_keep m c main_arg1 (by decide)).trans ((W3_keep m c main_arg1 (by decide)).trans ((W2_keep m c main_arg1 (by decide)).trans ((W1_keep m c main_arg1 (by decide)).trans (rfl))))))))))))))))))))))))))))
theorem W28_main_arg2 (c : Dev nD) : W28 m c (Proc.devRef .tc main_arg2) = m ((c : Thread nD τ).loc main_arg2) :=
  (W28_keep m c main_arg2 (by decide)).trans ((W27_keep m c main_arg2 (by decide)).trans ((W26_keep m c main_arg2 (by decide)).trans ((W25_keep m c main_arg2 (by decide)).trans ((W24_keep m c main_arg2 (by decide)).trans ((W23_keep m c main_arg2 (by decide)).trans ((W22_keep m c main_arg2 (by decide)).trans ((W21_keep m c main_arg2 (by decide)).trans ((W20_keep m c main_arg2 (by decide)).trans ((W19_keep m c main_arg2 (by decide)).trans ((W18_keep m c main_arg2 (by decide)).trans ((W17_keep m c main_arg2 (by decide)).trans ((W16_keep m c main_arg2 (by decide)).trans ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans ((W1_keep m c main_arg2 (by decide)).trans (rfl))))))))))))))))))))))))))))
theorem W28_main_arg3 (c : Dev nD) : W28 m c (Proc.devRef .tc main_arg3) = m ((c : Thread nD τ).loc main_arg3) :=
  (W28_keep m c main_arg3 (by decide)).trans ((W27_keep m c main_arg3 (by decide)).trans ((W26_keep m c main_arg3 (by decide)).trans ((W25_keep m c main_arg3 (by decide)).trans ((W24_keep m c main_arg3 (by decide)).trans ((W23_keep m c main_arg3 (by decide)).trans ((W22_keep m c main_arg3 (by decide)).trans ((W21_keep m c main_arg3 (by decide)).trans ((W20_keep m c main_arg3 (by decide)).trans ((W19_keep m c main_arg3 (by decide)).trans ((W18_keep m c main_arg3 (by decide)).trans ((W17_keep m c main_arg3 (by decide)).trans ((W16_keep m c main_arg3 (by decide)).trans ((W15_keep m c main_arg3 (by decide)).trans ((W14_keep m c main_arg3 (by decide)).trans ((W13_keep m c main_arg3 (by decide)).trans ((W12_keep m c main_arg3 (by decide)).trans ((W11_keep m c main_arg3 (by decide)).trans ((W10_keep m c main_arg3 (by decide)).trans ((W9_keep m c main_arg3 (by decide)).trans ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans ((W1_keep m c main_arg3 (by decide)).trans (rfl))))))))))))))))))))))))))))
theorem W28_main_arg4 (c : Dev nD) : W28 m c (Proc.devRef .tc main_arg4) = m ((c : Thread nD τ).loc main_arg4) :=
  (W28_keep m c main_arg4 (by decide)).trans ((W27_keep m c main_arg4 (by decide)).trans ((W26_keep m c main_arg4 (by decide)).trans ((W25_keep m c main_arg4 (by decide)).trans ((W24_keep m c main_arg4 (by decide)).trans ((W23_keep m c main_arg4 (by decide)).trans ((W22_keep m c main_arg4 (by decide)).trans ((W21_keep m c main_arg4 (by decide)).trans ((W20_keep m c main_arg4 (by decide)).trans ((W19_keep m c main_arg4 (by decide)).trans ((W18_keep m c main_arg4 (by decide)).trans ((W17_keep m c main_arg4 (by decide)).trans ((W16_keep m c main_arg4 (by decide)).trans ((W15_keep m c main_arg4 (by decide)).trans ((W14_keep m c main_arg4 (by decide)).trans ((W13_keep m c main_arg4 (by decide)).trans ((W12_keep m c main_arg4 (by decide)).trans ((W11_keep m c main_arg4 (by decide)).trans ((W10_keep m c main_arg4 (by decide)).trans ((W9_keep m c main_arg4 (by decide)).trans ((W8_keep m c main_arg4 (by decide)).trans ((W7_keep m c main_arg4 (by decide)).trans ((W6_keep m c main_arg4 (by decide)).trans ((W5_keep m c main_arg4 (by decide)).trans ((W4_keep m c main_arg4 (by decide)).trans ((W3_keep m c main_arg4 (by decide)).trans ((W2_keep m c main_arg4 (by decide)).trans ((W1_keep m c main_arg4 (by decide)).trans (rfl))))))))))))))))))))))))))))
theorem W28_main_arg5 (c : Dev nD) : W28 m c (Proc.devRef .tc main_arg5) = m ((c : Thread nD τ).loc main_arg5) :=
  (W28_keep m c main_arg5 (by decide)).trans ((W27_keep m c main_arg5 (by decide)).trans ((W26_keep m c main_arg5 (by decide)).trans ((W25_keep m c main_arg5 (by decide)).trans ((W24_keep m c main_arg5 (by decide)).trans ((W23_keep m c main_arg5 (by decide)).trans ((W22_keep m c main_arg5 (by decide)).trans ((W21_keep m c main_arg5 (by decide)).trans ((W20_keep m c main_arg5 (by decide)).trans ((W19_keep m c main_arg5 (by decide)).trans ((W18_keep m c main_arg5 (by decide)).trans ((W17_keep m c main_arg5 (by decide)).trans ((W16_keep m c main_arg5 (by decide)).trans ((W15_keep m c main_arg5 (by decide)).trans ((W14_keep m c main_arg5 (by decide)).trans ((W13_keep m c main_arg5 (by decide)).trans ((W12_keep m c main_arg5 (by decide)).trans ((W11_keep m c main_arg5 (by decide)).trans ((W10_keep m c main_arg5 (by decide)).trans ((W9_keep m c main_arg5 (by decide)).trans ((W8_keep m c main_arg5 (by decide)).trans ((W7_keep m c main_arg5 (by decide)).trans ((W6_keep m c main_arg5 (by decide)).trans ((W5_keep m c main_arg5 (by decide)).trans ((W4_keep m c main_arg5 (by decide)).trans ((W3_keep m c main_arg5 (by decide)).trans ((W2_keep m c main_arg5 (by decide)).trans ((W1_keep m c main_arg5 (by decide)).trans (rfl))))))))))))))))))))))))))))
theorem W28_main_arg6 (c : Dev nD) : W28 m c (Proc.devRef .tc main_arg6) = m ((c : Thread nD τ).loc main_arg6) :=
  (W28_keep m c main_arg6 (by decide)).trans ((W27_keep m c main_arg6 (by decide)).trans ((W26_keep m c main_arg6 (by decide)).trans ((W25_keep m c main_arg6 (by decide)).trans ((W24_keep m c main_arg6 (by decide)).trans ((W23_keep m c main_arg6 (by decide)).trans ((W22_keep m c main_arg6 (by decide)).trans ((W21_keep m c main_arg6 (by decide)).trans ((W20_keep m c main_arg6 (by decide)).trans ((W19_keep m c main_arg6 (by decide)).trans ((W18_keep m c main_arg6 (by decide)).trans ((W17_keep m c main_arg6 (by decide)).trans ((W16_keep m c main_arg6 (by decide)).trans ((W15_keep m c main_arg6 (by decide)).trans ((W14_keep m c main_arg6 (by decide)).trans ((W13_keep m c main_arg6 (by decide)).trans ((W12_keep m c main_arg6 (by decide)).trans ((W11_keep m c main_arg6 (by decide)).trans ((W10_keep m c main_arg6 (by decide)).trans ((W9_keep m c main_arg6 (by decide)).trans ((W8_keep m c main_arg6 (by decide)).trans ((W7_keep m c main_arg6 (by decide)).trans ((W6_keep m c main_arg6 (by decide)).trans ((W5_keep m c main_arg6 (by decide)).trans ((W4_keep m c main_arg6 (by decide)).trans ((W3_keep m c main_arg6 (by decide)).trans ((W2_keep m c main_arg6 (by decide)).trans ((W1_keep m c main_arg6 (by decide)).trans (rfl))))))))))))))))))))))))))))
theorem W28_main_arg7 (c : Dev nD) : W28 m c (Proc.devRef .tc main_arg7) = m ((c : Thread nD τ).loc main_arg7) :=
  (W28_keep m c main_arg7 (by decide)).trans ((W27_keep m c main_arg7 (by decide)).trans ((W26_keep m c main_arg7 (by decide)).trans ((W25_keep m c main_arg7 (by decide)).trans ((W24_keep m c main_arg7 (by decide)).trans ((W23_keep m c main_arg7 (by decide)).trans ((W22_keep m c main_arg7 (by decide)).trans ((W21_keep m c main_arg7 (by decide)).trans ((W20_keep m c main_arg7 (by decide)).trans ((W19_keep m c main_arg7 (by decide)).trans ((W18_keep m c main_arg7 (by decide)).trans ((W17_keep m c main_arg7 (by decide)).trans ((W16_keep m c main_arg7 (by decide)).trans ((W15_keep m c main_arg7 (by decide)).trans ((W14_keep m c main_arg7 (by decide)).trans ((W13_keep m c main_arg7 (by decide)).trans ((W12_keep m c main_arg7 (by decide)).trans ((W11_keep m c main_arg7 (by decide)).trans ((W10_keep m c main_arg7 (by decide)).trans ((W9_keep m c main_arg7 (by decide)).trans ((W8_keep m c main_arg7 (by decide)).trans ((W7_keep m c main_arg7 (by decide)).trans ((W6_keep m c main_arg7 (by decide)).trans ((W5_keep m c main_arg7 (by decide)).trans ((W4_keep m c main_arg7 (by decide)).trans ((W3_keep m c main_arg7 (by decide)).trans ((W2_keep m c main_arg7 (by decide)).trans ((W1_keep m c main_arg7 (by decide)).trans (rfl))))))))))))))))))))))))))))
theorem W28_main_arg8 (c : Dev nD) : W28 m c (Proc.devRef .tc main_arg8) = m ((c : Thread nD τ).loc main_arg8) :=
  (W28_keep m c main_arg8 (by decide)).trans ((W27_keep m c main_arg8 (by decide)).trans ((W26_keep m c main_arg8 (by decide)).trans ((W25_keep m c main_arg8 (by decide)).trans ((W24_keep m c main_arg8 (by decide)).trans ((W23_keep m c main_arg8 (by decide)).trans ((W22_keep m c main_arg8 (by decide)).trans ((W21_keep m c main_arg8 (by decide)).trans ((W20_keep m c main_arg8 (by decide)).trans ((W19_keep m c main_arg8 (by decide)).trans ((W18_keep m c main_arg8 (by decide)).trans ((W17_keep m c main_arg8 (by decide)).trans ((W16_keep m c main_arg8 (by decide)).trans ((W15_keep m c main_arg8 (by decide)).trans ((W14_keep m c main_arg8 (by decide)).trans ((W13_keep m c main_arg8 (by decide)).trans ((W12_keep m c main_arg8 (by decide)).trans ((W11_keep m c main_arg8 (by decide)).trans ((W10_keep m c main_arg8 (by decide)).trans ((W9_keep m c main_arg8 (by decide)).trans ((W8_keep m c main_arg8 (by decide)).trans ((W7_keep m c main_arg8 (by decide)).trans ((W6_keep m c main_arg8 (by decide)).trans ((W5_keep m c main_arg8 (by decide)).trans ((W4_keep m c main_arg8 (by decide)).trans ((W3_keep m c main_arg8 (by decide)).trans ((W2_keep m c main_arg8 (by decide)).trans ((W1_keep m c main_arg8 (by decide)).trans (rfl))))))))))))))))))))))))))))
theorem W28_main_arg9 (c : Dev nD) : W28 m c (Proc.devRef .tc main_arg9) = m ((c : Thread nD τ).loc main_arg9) :=
  (W28_keep m c main_arg9 (by decide)).trans ((W27_keep m c main_arg9 (by decide)).trans ((W26_keep m c main_arg9 (by decide)).trans ((W25_keep m c main_arg9 (by decide)).trans ((W24_keep m c main_arg9 (by decide)).trans ((W23_keep m c main_arg9 (by decide)).trans ((W22_keep m c main_arg9 (by decide)).trans ((W21_keep m c main_arg9 (by decide)).trans ((W20_keep m c main_arg9 (by decide)).trans ((W19_keep m c main_arg9 (by decide)).trans ((W18_keep m c main_arg9 (by decide)).trans ((W17_keep m c main_arg9 (by decide)).trans ((W16_keep m c main_arg9 (by decide)).trans ((W15_keep m c main_arg9 (by decide)).trans ((W14_keep m c main_arg9 (by decide)).trans ((W13_keep m c main_arg9 (by decide)).trans ((W12_keep m c main_arg9 (by decide)).trans ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans ((W1_keep m c main_arg9 (by decide)).trans (rfl))))))))))))))))))))))))))))
theorem W28_main_arg10 (c : Dev nD) : W28 m c (Proc.devRef .tc main_arg10) = m ((c : Thread nD τ).loc main_arg10) :=
  (W28_keep m c main_arg10 (by decide)).trans ((W27_keep m c main_arg10 (by decide)).trans ((W26_keep m c main_arg10 (by decide)).trans ((W25_keep m c main_arg10 (by decide)).trans ((W24_keep m c main_arg10 (by decide)).trans ((W23_keep m c main_arg10 (by decide)).trans ((W22_keep m c main_arg10 (by decide)).trans ((W21_keep m c main_arg10 (by decide)).trans ((W20_keep m c main_arg10 (by decide)).trans ((W19_keep m c main_arg10 (by decide)).trans ((W18_keep m c main_arg10 (by decide)).trans ((W17_keep m c main_arg10 (by decide)).trans ((W16_keep m c main_arg10 (by decide)).trans ((W15_keep m c main_arg10 (by decide)).trans ((W14_keep m c main_arg10 (by decide)).trans ((W13_keep m c main_arg10 (by decide)).trans ((W12_keep m c main_arg10 (by decide)).trans ((W11_keep m c main_arg10 (by decide)).trans ((W10_keep m c main_arg10 (by decide)).trans ((W9_keep m c main_arg10 (by decide)).trans ((W8_keep m c main_arg10 (by decide)).trans ((W7_keep m c main_arg10 (by decide)).trans ((W6_keep m c main_arg10 (by decide)).trans ((W5_keep m c main_arg10 (by decide)).trans ((W4_keep m c main_arg10 (by decide)).trans ((W3_keep m c main_arg10 (by decide)).trans ((W2_keep m c main_arg10 (by decide)).trans ((W1_keep m c main_arg10 (by decide)).trans (rfl))))))))))))))))))))))))))))
theorem W28_main_arg11 (c : Dev nD) : W28 m c (Proc.devRef .tc main_arg11) = m ((c : Thread nD τ).loc main_arg11) :=
  (W28_keep m c main_arg11 (by decide)).trans ((W27_keep m c main_arg11 (by decide)).trans ((W26_keep m c main_arg11 (by decide)).trans ((W25_keep m c main_arg11 (by decide)).trans ((W24_keep m c main_arg11 (by decide)).trans ((W23_keep m c main_arg11 (by decide)).trans ((W22_keep m c main_arg11 (by decide)).trans ((W21_keep m c main_arg11 (by decide)).trans ((W20_keep m c main_arg11 (by decide)).trans ((W19_keep m c main_arg11 (by decide)).trans ((W18_keep m c main_arg11 (by decide)).trans ((W17_keep m c main_arg11 (by decide)).trans ((W16_keep m c main_arg11 (by decide)).trans ((W15_keep m c main_arg11 (by decide)).trans ((W14_keep m c main_arg11 (by decide)).trans ((W13_keep m c main_arg11 (by decide)).trans ((W12_keep m c main_arg11 (by decide)).trans ((W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans ((W1_keep m c main_arg11 (by decide)).trans (rfl))))))))))))))))))))))))))))
theorem W28_main_arg12 (c : Dev nD) : W28 m c (Proc.devRef .tc main_arg12) = m ((c : Thread nD τ).loc main_arg12) :=
  (W28_keep m c main_arg12 (by decide)).trans ((W27_keep m c main_arg12 (by decide)).trans ((W26_keep m c main_arg12 (by decide)).trans ((W25_keep m c main_arg12 (by decide)).trans ((W24_keep m c main_arg12 (by decide)).trans ((W23_keep m c main_arg12 (by decide)).trans ((W22_keep m c main_arg12 (by decide)).trans ((W21_keep m c main_arg12 (by decide)).trans ((W20_keep m c main_arg12 (by decide)).trans ((W19_keep m c main_arg12 (by decide)).trans ((W18_keep m c main_arg12 (by decide)).trans ((W17_keep m c main_arg12 (by decide)).trans ((W16_keep m c main_arg12 (by decide)).trans ((W15_keep m c main_arg12 (by decide)).trans ((W14_keep m c main_arg12 (by decide)).trans ((W13_keep m c main_arg12 (by decide)).trans ((W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans ((W1_keep m c main_arg12 (by decide)).trans (rfl))))))))))))))))))))))))))))
theorem W28_main_arg13 (c : Dev nD) : W28 m c (Proc.devRef .tc main_arg13) = m ((c : Thread nD τ).loc main_arg13) :=
  (W28_keep m c main_arg13 (by decide)).trans ((W27_keep m c main_arg13 (by decide)).trans ((W26_keep m c main_arg13 (by decide)).trans ((W25_keep m c main_arg13 (by decide)).trans ((W24_keep m c main_arg13 (by decide)).trans ((W23_keep m c main_arg13 (by decide)).trans ((W22_keep m c main_arg13 (by decide)).trans ((W21_keep m c main_arg13 (by decide)).trans ((W20_keep m c main_arg13 (by decide)).trans ((W19_keep m c main_arg13 (by decide)).trans ((W18_keep m c main_arg13 (by decide)).trans ((W17_keep m c main_arg13 (by decide)).trans ((W16_keep m c main_arg13 (by decide)).trans ((W15_keep m c main_arg13 (by decide)).trans ((W14_keep m c main_arg13 (by decide)).trans ((W13_keep m c main_arg13 (by decide)).trans ((W12_keep m c main_arg13 (by decide)).trans ((W11_keep m c main_arg13 (by decide)).trans ((W10_keep m c main_arg13 (by decide)).trans ((W9_keep m c main_arg13 (by decide)).trans ((W8_keep m c main_arg13 (by decide)).trans ((W7_keep m c main_arg13 (by decide)).trans ((W6_keep m c main_arg13 (by decide)).trans ((W5_keep m c main_arg13 (by decide)).trans ((W4_keep m c main_arg13 (by decide)).trans ((W3_keep m c main_arg13 (by decide)).trans ((W2_keep m c main_arg13 (by decide)).trans ((W1_keep m c main_arg13 (by decide)).trans (rfl))))))))))))))))))))))))))))
theorem W28_main_arg14 (c : Dev nD) : W28 m c (Proc.devRef .tc main_arg14) = m ((c : Thread nD τ).loc main_arg14) :=
  (W28_keep m c main_arg14 (by decide)).trans ((W27_keep m c main_arg14 (by decide)).trans ((W26_keep m c main_arg14 (by decide)).trans ((W25_keep m c main_arg14 (by decide)).trans ((W24_keep m c main_arg14 (by decide)).trans ((W23_keep m c main_arg14 (by decide)).trans ((W22_keep m c main_arg14 (by decide)).trans ((W21_keep m c main_arg14 (by decide)).trans ((W20_keep m c main_arg14 (by decide)).trans ((W19_keep m c main_arg14 (by decide)).trans ((W18_keep m c main_arg14 (by decide)).trans ((W17_keep m c main_arg14 (by decide)).trans ((W16_keep m c main_arg14 (by decide)).trans ((W15_keep m c main_arg14 (by decide)).trans ((W14_keep m c main_arg14 (by decide)).trans ((W13_keep m c main_arg14 (by decide)).trans ((W12_keep m c main_arg14 (by decide)).trans ((W11_keep m c main_arg14 (by decide)).trans ((W10_keep m c main_arg14 (by decide)).trans ((W9_keep m c main_arg14 (by decide)).trans ((W8_keep m c main_arg14 (by decide)).trans ((W7_keep m c main_arg14 (by decide)).trans ((W6_keep m c main_arg14 (by decide)).trans ((W5_keep m c main_arg14 (by decide)).trans ((W4_keep m c main_arg14 (by decide)).trans ((W3_keep m c main_arg14 (by decide)).trans ((W2_keep m c main_arg14 (by decide)).trans ((W1_keep m c main_arg14 (by decide)).trans (rfl))))))))))))))))))))))))))))
theorem W28_main_arg15 (c : Dev nD) : W28 m c (Proc.devRef .tc main_arg15) = m ((c : Thread nD τ).loc main_arg15) :=
  (W28_keep m c main_arg15 (by decide)).trans ((W27_keep m c main_arg15 (by decide)).trans ((W26_keep m c main_arg15 (by decide)).trans ((W25_keep m c main_arg15 (by decide)).trans ((W24_keep m c main_arg15 (by decide)).trans ((W23_keep m c main_arg15 (by decide)).trans ((W22_keep m c main_arg15 (by decide)).trans ((W21_keep m c main_arg15 (by decide)).trans ((W20_keep m c main_arg15 (by decide)).trans ((W19_keep m c main_arg15 (by decide)).trans ((W18_keep m c main_arg15 (by decide)).trans ((W17_keep m c main_arg15 (by decide)).trans ((W16_keep m c main_arg15 (by decide)).trans ((W15_keep m c main_arg15 (by decide)).trans ((W14_keep m c main_arg15 (by decide)).trans ((W13_keep m c main_arg15 (by decide)).trans ((W12_keep m c main_arg15 (by decide)).trans ((W11_keep m c main_arg15 (by decide)).trans ((W10_keep m c main_arg15 (by decide)).trans ((W9_keep m c main_arg15 (by decide)).trans ((W8_keep m c main_arg15 (by decide)).trans ((W7_keep m c main_arg15 (by decide)).trans ((W6_keep m c main_arg15 (by decide)).trans ((W5_keep m c main_arg15 (by decide)).trans ((W4_keep m c main_arg15 (by decide)).trans ((W3_keep m c main_arg15 (by decide)).trans ((W2_keep m c main_arg15 (by decide)).trans ((W1_keep m c main_arg15 (by decide)).trans (rfl))))))))))))))))))))))))))))
theorem W28_main_arg16 (c : Dev nD) : W28 m c (Proc.devRef .tc main_arg16) = m ((c : Thread nD τ).loc main_arg16) :=
  (W28_keep m c main_arg16 (by decide)).trans ((W27_keep m c main_arg16 (by decide)).trans ((W26_keep m c main_arg16 (by decide)).trans ((W25_keep m c main_arg16 (by decide)).trans ((W24_keep m c main_arg16 (by decide)).trans ((W23_keep m c main_arg16 (by decide)).trans ((W22_keep m c main_arg16 (by decide)).trans ((W21_keep m c main_arg16 (by decide)).trans ((W20_keep m c main_arg16 (by decide)).trans ((W19_keep m c main_arg16 (by decide)).trans ((W18_keep m c main_arg16 (by decide)).trans ((W17_keep m c main_arg16 (by decide)).trans ((W16_keep m c main_arg16 (by decide)).trans ((W15_keep m c main_arg16 (by decide)).trans ((W14_keep m c main_arg16 (by decide)).trans ((W13_keep m c main_arg16 (by decide)).trans ((W12_keep m c main_arg16 (by decide)).trans ((W11_keep m c main_arg16 (by decide)).trans ((W10_keep m c main_arg16 (by decide)).trans ((W9_keep m c main_arg16 (by decide)).trans ((W8_keep m c main_arg16 (by decide)).trans ((W7_keep m c main_arg16 (by decide)).trans ((W6_keep m c main_arg16 (by decide)).trans ((W5_keep m c main_arg16 (by decide)).trans ((W4_keep m c main_arg16 (by decide)).trans ((W3_keep m c main_arg16 (by decide)).trans ((W2_keep m c main_arg16 (by decide)).trans ((W1_keep m c main_arg16 (by decide)).trans (rfl))))))))))))))))))))))))))))
theorem W28_main_arg17 (c : Dev nD) : W28 m c (Proc.devRef .tc main_arg17) = m ((c : Thread nD τ).loc main_arg17) :=
  (W28_keep m c main_arg17 (by decide)).trans ((W27_keep m c main_arg17 (by decide)).trans ((W26_keep m c main_arg17 (by decide)).trans ((W25_keep m c main_arg17 (by decide)).trans ((W24_keep m c main_arg17 (by decide)).trans ((W23_keep m c main_arg17 (by decide)).trans ((W22_keep m c main_arg17 (by decide)).trans ((W21_keep m c main_arg17 (by decide)).trans ((W20_keep m c main_arg17 (by decide)).trans ((W19_keep m c main_arg17 (by decide)).trans ((W18_keep m c main_arg17 (by decide)).trans ((W17_keep m c main_arg17 (by decide)).trans ((W16_keep m c main_arg17 (by decide)).trans ((W15_keep m c main_arg17 (by decide)).trans ((W14_keep m c main_arg17 (by decide)).trans ((W13_keep m c main_arg17 (by decide)).trans ((W12_keep m c main_arg17 (by decide)).trans ((W11_keep m c main_arg17 (by decide)).trans ((W10_keep m c main_arg17 (by decide)).trans ((W9_keep m c main_arg17 (by decide)).trans ((W8_keep m c main_arg17 (by decide)).trans ((W7_keep m c main_arg17 (by decide)).trans ((W6_keep m c main_arg17 (by decide)).trans ((W5_keep m c main_arg17 (by decide)).trans ((W4_keep m c main_arg17 (by decide)).trans ((W3_keep m c main_arg17 (by decide)).trans ((W2_keep m c main_arg17 (by decide)).trans ((W1_keep m c main_arg17 (by decide)).trans (rfl))))))))))))))))))))))))))))
theorem W28_main_arg18 (c : Dev nD) : W28 m c (Proc.devRef .tc main_arg18) = m ((c : Thread nD τ).loc main_arg18) :=
  (W28_keep m c main_arg18 (by decide)).trans ((W27_keep m c main_arg18 (by decide)).trans ((W26_keep m c main_arg18 (by decide)).trans ((W25_keep m c main_arg18 (by decide)).trans ((W24_keep m c main_arg18 (by decide)).trans ((W23_keep m c main_arg18 (by decide)).trans ((W22_keep m c main_arg18 (by decide)).trans ((W21_keep m c main_arg18 (by decide)).trans ((W20_keep m c main_arg18 (by decide)).trans ((W19_keep m c main_arg18 (by decide)).trans ((W18_keep m c main_arg18 (by decide)).trans ((W17_keep m c main_arg18 (by decide)).trans ((W16_keep m c main_arg18 (by decide)).trans ((W15_keep m c main_arg18 (by decide)).trans ((W14_keep m c main_arg18 (by decide)).trans ((W13_keep m c main_arg18 (by decide)).trans ((W12_keep m c main_arg18 (by decide)).trans ((W11_keep m c main_arg18 (by decide)).trans ((W10_keep m c main_arg18 (by decide)).trans ((W9_keep m c main_arg18 (by decide)).trans ((W8_keep m c main_arg18 (by decide)).trans ((W7_keep m c main_arg18 (by decide)).trans ((W6_keep m c main_arg18 (by decide)).trans ((W5_keep m c main_arg18 (by decide)).trans ((W4_keep m c main_arg18 (by decide)).trans ((W3_keep m c main_arg18 (by decide)).trans ((W2_keep m c main_arg18 (by decide)).trans ((W1_keep m c main_arg18 (by decide)).trans (rfl))))))))))))))))))))))))))))
theorem W28_main_arg19 (c : Dev nD) : W28 m c (Proc.devRef .tc main_arg19) = m ((c : Thread nD τ).loc main_arg19) :=
  (W28_keep m c main_arg19 (by decide)).trans ((W27_keep m c main_arg19 (by decide)).trans ((W26_keep m c main_arg19 (by decide)).trans ((W25_keep m c main_arg19 (by decide)).trans ((W24_keep m c main_arg19 (by decide)).trans ((W23_keep m c main_arg19 (by decide)).trans ((W22_keep m c main_arg19 (by decide)).trans ((W21_keep m c main_arg19 (by decide)).trans ((W20_keep m c main_arg19 (by decide)).trans ((W19_keep m c main_arg19 (by decide)).trans ((W18_keep m c main_arg19 (by decide)).trans ((W17_keep m c main_arg19 (by decide)).trans ((W16_keep m c main_arg19 (by decide)).trans ((W15_keep m c main_arg19 (by decide)).trans ((W14_keep m c main_arg19 (by decide)).trans ((W13_keep m c main_arg19 (by decide)).trans ((W12_keep m c main_arg19 (by decide)).trans ((W11_keep m c main_arg19 (by decide)).trans ((W10_keep m c main_arg19 (by decide)).trans ((W9_keep m c main_arg19 (by decide)).trans ((W8_keep m c main_arg19 (by decide)).trans ((W7_keep m c main_arg19 (by decide)).trans ((W6_keep m c main_arg19 (by decide)).trans ((W5_keep m c main_arg19 (by decide)).trans ((W4_keep m c main_arg19 (by decide)).trans ((W3_keep m c main_arg19 (by decide)).trans ((W2_keep m c main_arg19 (by decide)).trans ((W1_keep m c main_arg19 (by decide)).trans (rfl))))))))))))))))))))))))))))
theorem W28_main_arg20 (c : Dev nD) : W28 m c (Proc.devRef .tc main_arg20) = m ((c : Thread nD τ).loc main_arg20) :=
  (W28_keep m c main_arg20 (by decide)).trans ((W27_keep m c main_arg20 (by decide)).trans ((W26_keep m c main_arg20 (by decide)).trans ((W25_keep m c main_arg20 (by decide)).trans ((W24_keep m c main_arg20 (by decide)).trans ((W23_keep m c main_arg20 (by decide)).trans ((W22_keep m c main_arg20 (by decide)).trans ((W21_keep m c main_arg20 (by decide)).trans ((W20_keep m c main_arg20 (by decide)).trans ((W19_keep m c main_arg20 (by decide)).trans ((W18_keep m c main_arg20 (by decide)).trans ((W17_keep m c main_arg20 (by decide)).trans ((W16_keep m c main_arg20 (by decide)).trans ((W15_keep m c main_arg20 (by decide)).trans ((W14_keep m c main_arg20 (by decide)).trans ((W13_keep m c main_arg20 (by decide)).trans ((W12_keep m c main_arg20 (by decide)).trans ((W11_keep m c main_arg20 (by decide)).trans ((W10_keep m c main_arg20 (by decide)).trans ((W9_keep m c main_arg20 (by decide)).trans ((W8_keep m c main_arg20 (by decide)).trans ((W7_keep m c main_arg20 (by decide)).trans ((W6_keep m c main_arg20 (by decide)).trans ((W5_keep m c main_arg20 (by decide)).trans ((W4_keep m c main_arg20 (by decide)).trans ((W3_keep m c main_arg20 (by decide)).trans ((W2_keep m c main_arg20 (by decide)).trans ((W1_keep m c main_arg20 (by decide)).trans (rfl))))))))))))))))))))))))))))
theorem W28_main_arg21 (c : Dev nD) : W28 m c (Proc.devRef .tc main_arg21) = m ((c : Thread nD τ).loc main_arg21) :=
  (W28_keep m c main_arg21 (by decide)).trans ((W27_keep m c main_arg21 (by decide)).trans ((W26_keep m c main_arg21 (by decide)).trans ((W25_keep m c main_arg21 (by decide)).trans ((W24_keep m c main_arg21 (by decide)).trans ((W23_keep m c main_arg21 (by decide)).trans ((W22_keep m c main_arg21 (by decide)).trans ((W21_keep m c main_arg21 (by decide)).trans ((W20_keep m c main_arg21 (by decide)).trans ((W19_keep m c main_arg21 (by decide)).trans ((W18_keep m c main_arg21 (by decide)).trans ((W17_keep m c main_arg21 (by decide)).trans ((W16_keep m c main_arg21 (by decide)).trans ((W15_keep m c main_arg21 (by decide)).trans ((W14_keep m c main_arg21 (by decide)).trans ((W13_keep m c main_arg21 (by decide)).trans ((W12_keep m c main_arg21 (by decide)).trans ((W11_keep m c main_arg21 (by decide)).trans ((W10_keep m c main_arg21 (by decide)).trans ((W9_keep m c main_arg21 (by decide)).trans ((W8_keep m c main_arg21 (by decide)).trans ((W7_keep m c main_arg21 (by decide)).trans ((W6_keep m c main_arg21 (by decide)).trans ((W5_keep m c main_arg21 (by decide)).trans ((W4_keep m c main_arg21 (by decide)).trans ((W3_keep m c main_arg21 (by decide)).trans ((W2_keep m c main_arg21 (by decide)).trans ((W1_keep m c main_arg21 (by decide)).trans (rfl))))))))))))))))))))))))))))
theorem W28_main_arg22 (c : Dev nD) : W28 m c (Proc.devRef .tc main_arg22) = m ((c : Thread nD τ).loc main_arg22) :=
  (W28_keep m c main_arg22 (by decide)).trans ((W27_keep m c main_arg22 (by decide)).trans ((W26_keep m c main_arg22 (by decide)).trans ((W25_keep m c main_arg22 (by decide)).trans ((W24_keep m c main_arg22 (by decide)).trans ((W23_keep m c main_arg22 (by decide)).trans ((W22_keep m c main_arg22 (by decide)).trans ((W21_keep m c main_arg22 (by decide)).trans ((W20_keep m c main_arg22 (by decide)).trans ((W19_keep m c main_arg22 (by decide)).trans ((W18_keep m c main_arg22 (by decide)).trans ((W17_keep m c main_arg22 (by decide)).trans ((W16_keep m c main_arg22 (by decide)).trans ((W15_keep m c main_arg22 (by decide)).trans ((W14_keep m c main_arg22 (by decide)).trans ((W13_keep m c main_arg22 (by decide)).trans ((W12_keep m c main_arg22 (by decide)).trans ((W11_keep m c main_arg22 (by decide)).trans ((W10_keep m c main_arg22 (by decide)).trans ((W9_keep m c main_arg22 (by decide)).trans ((W8_keep m c main_arg22 (by decide)).trans ((W7_keep m c main_arg22 (by decide)).trans ((W6_keep m c main_arg22 (by decide)).trans ((W5_keep m c main_arg22 (by decide)).trans ((W4_keep m c main_arg22 (by decide)).trans ((W3_keep m c main_arg22 (by decide)).trans ((W2_keep m c main_arg22 (by decide)).trans ((W1_keep m c main_arg22 (by decide)).trans (rfl))))))))))))))))))))))))))))
theorem W28_main_arg23 (c : Dev nD) : W28 m c (Proc.devRef .tc main_arg23) = m ((c : Thread nD τ).loc main_arg23) :=
  (W28_keep m c main_arg23 (by decide)).trans ((W27_keep m c main_arg23 (by decide)).trans ((W26_keep m c main_arg23 (by decide)).trans ((W25_keep m c main_arg23 (by decide)).trans ((W24_keep m c main_arg23 (by decide)).trans ((W23_keep m c main_arg23 (by decide)).trans ((W22_keep m c main_arg23 (by decide)).trans ((W21_keep m c main_arg23 (by decide)).trans ((W20_keep m c main_arg23 (by decide)).trans ((W19_keep m c main_arg23 (by decide)).trans ((W18_keep m c main_arg23 (by decide)).trans ((W17_keep m c main_arg23 (by decide)).trans ((W16_keep m c main_arg23 (by decide)).trans ((W15_keep m c main_arg23 (by decide)).trans ((W14_keep m c main_arg23 (by decide)).trans ((W13_keep m c main_arg23 (by decide)).trans ((W12_keep m c main_arg23 (by decide)).trans ((W11_keep m c main_arg23 (by decide)).trans ((W10_keep m c main_arg23 (by decide)).trans ((W9_keep m c main_arg23 (by decide)).trans ((W8_keep m c main_arg23 (by decide)).trans ((W7_keep m c main_arg23 (by decide)).trans ((W6_keep m c main_arg23 (by decide)).trans ((W5_keep m c main_arg23 (by decide)).trans ((W4_keep m c main_arg23 (by decide)).trans ((W3_keep m c main_arg23 (by decide)).trans ((W2_keep m c main_arg23 (by decide)).trans ((W1_keep m c main_arg23 (by decide)).trans (rfl))))))))))))))))))))))))))))
theorem W28_main_arg24 (c : Dev nD) : W28 m c (Proc.devRef .tc main_arg24) = m ((c : Thread nD τ).loc main_arg24) :=
  (W28_keep m c main_arg24 (by decide)).trans ((W27_keep m c main_arg24 (by decide)).trans ((W26_keep m c main_arg24 (by decide)).trans ((W25_keep m c main_arg24 (by decide)).trans ((W24_keep m c main_arg24 (by decide)).trans ((W23_keep m c main_arg24 (by decide)).trans ((W22_keep m c main_arg24 (by decide)).trans ((W21_keep m c main_arg24 (by decide)).trans ((W20_keep m c main_arg24 (by decide)).trans ((W19_keep m c main_arg24 (by decide)).trans ((W18_keep m c main_arg24 (by decide)).trans ((W17_keep m c main_arg24 (by decide)).trans ((W16_keep m c main_arg24 (by decide)).trans ((W15_keep m c main_arg24 (by decide)).trans ((W14_keep m c main_arg24 (by decide)).trans ((W13_keep m c main_arg24 (by decide)).trans ((W12_keep m c main_arg24 (by decide)).trans ((W11_keep m c main_arg24 (by decide)).trans ((W10_keep m c main_arg24 (by decide)).trans ((W9_keep m c main_arg24 (by decide)).trans ((W8_keep m c main_arg24 (by decide)).trans ((W7_keep m c main_arg24 (by decide)).trans ((W6_keep m c main_arg24 (by decide)).trans ((W5_keep m c main_arg24 (by decide)).trans ((W4_keep m c main_arg24 (by decide)).trans ((W3_keep m c main_arg24 (by decide)).trans ((W2_keep m c main_arg24 (by decide)).trans ((W1_keep m c main_arg24 (by decide)).trans (rfl))))))))))))))))))))))))))))
theorem W28_main_arg25 (c : Dev nD) : W28 m c (Proc.devRef .tc main_arg25) = m ((c : Thread nD τ).loc main_arg25) :=
  (W28_keep m c main_arg25 (by decide)).trans ((W27_keep m c main_arg25 (by decide)).trans ((W26_keep m c main_arg25 (by decide)).trans ((W25_keep m c main_arg25 (by decide)).trans ((W24_keep m c main_arg25 (by decide)).trans ((W23_keep m c main_arg25 (by decide)).trans ((W22_keep m c main_arg25 (by decide)).trans ((W21_keep m c main_arg25 (by decide)).trans ((W20_keep m c main_arg25 (by decide)).trans ((W19_keep m c main_arg25 (by decide)).trans ((W18_keep m c main_arg25 (by decide)).trans ((W17_keep m c main_arg25 (by decide)).trans ((W16_keep m c main_arg25 (by decide)).trans ((W15_keep m c main_arg25 (by decide)).trans ((W14_keep m c main_arg25 (by decide)).trans ((W13_keep m c main_arg25 (by decide)).trans ((W12_keep m c main_arg25 (by decide)).trans ((W11_keep m c main_arg25 (by decide)).trans ((W10_keep m c main_arg25 (by decide)).trans ((W9_keep m c main_arg25 (by decide)).trans ((W8_keep m c main_arg25 (by decide)).trans ((W7_keep m c main_arg25 (by decide)).trans ((W6_keep m c main_arg25 (by decide)).trans ((W5_keep m c main_arg25 (by decide)).trans ((W4_keep m c main_arg25 (by decide)).trans ((W3_keep m c main_arg25 (by decide)).trans ((W2_keep m c main_arg25 (by decide)).trans ((W1_keep m c main_arg25 (by decide)).trans (rfl))))))))))))))))))))))))))))
theorem W28_main_arg26 (c : Dev nD) : W28 m c (Proc.devRef .tc main_arg26) = m ((c : Thread nD τ).loc main_arg26) :=
  (W28_keep m c main_arg26 (by decide)).trans ((W27_keep m c main_arg26 (by decide)).trans ((W26_keep m c main_arg26 (by decide)).trans ((W25_keep m c main_arg26 (by decide)).trans ((W24_keep m c main_arg26 (by decide)).trans ((W23_keep m c main_arg26 (by decide)).trans ((W22_keep m c main_arg26 (by decide)).trans ((W21_keep m c main_arg26 (by decide)).trans ((W20_keep m c main_arg26 (by decide)).trans ((W19_keep m c main_arg26 (by decide)).trans ((W18_keep m c main_arg26 (by decide)).trans ((W17_keep m c main_arg26 (by decide)).trans ((W16_keep m c main_arg26 (by decide)).trans ((W15_keep m c main_arg26 (by decide)).trans ((W14_keep m c main_arg26 (by decide)).trans ((W13_keep m c main_arg26 (by decide)).trans ((W12_keep m c main_arg26 (by decide)).trans ((W11_keep m c main_arg26 (by decide)).trans ((W10_keep m c main_arg26 (by decide)).trans ((W9_keep m c main_arg26 (by decide)).trans ((W8_keep m c main_arg26 (by decide)).trans ((W7_keep m c main_arg26 (by decide)).trans ((W6_keep m c main_arg26 (by decide)).trans ((W5_keep m c main_arg26 (by decide)).trans ((W4_keep m c main_arg26 (by decide)).trans ((W3_keep m c main_arg26 (by decide)).trans ((W2_keep m c main_arg26 (by decide)).trans ((W1_keep m c main_arg26 (by decide)).trans (rfl))))))))))))))))))))))))))))
theorem W28_main_arg27 (c : Dev nD) : W28 m c (Proc.devRef .tc main_arg27) = m ((c : Thread nD τ).loc main_arg27) :=
  (W28_keep m c main_arg27 (by decide)).trans ((W27_keep m c main_arg27 (by decide)).trans ((W26_keep m c main_arg27 (by decide)).trans ((W25_keep m c main_arg27 (by decide)).trans ((W24_keep m c main_arg27 (by decide)).trans ((W23_keep m c main_arg27 (by decide)).trans ((W22_keep m c main_arg27 (by decide)).trans ((W21_keep m c main_arg27 (by decide)).trans ((W20_keep m c main_arg27 (by decide)).trans ((W19_keep m c main_arg27 (by decide)).trans ((W18_keep m c main_arg27 (by decide)).trans ((W17_keep m c main_arg27 (by decide)).trans ((W16_keep m c main_arg27 (by decide)).trans ((W15_keep m c main_arg27 (by decide)).trans ((W14_keep m c main_arg27 (by decide)).trans ((W13_keep m c main_arg27 (by decide)).trans ((W12_keep m c main_arg27 (by decide)).trans ((W11_keep m c main_arg27 (by decide)).trans ((W10_keep m c main_arg27 (by decide)).trans ((W9_keep m c main_arg27 (by decide)).trans ((W8_keep m c main_arg27 (by decide)).trans ((W7_keep m c main_arg27 (by decide)).trans ((W6_keep m c main_arg27 (by decide)).trans ((W5_keep m c main_arg27 (by decide)).trans ((W4_keep m c main_arg27 (by decide)).trans ((W3_keep m c main_arg27 (by decide)).trans ((W2_keep m c main_arg27 (by decide)).trans ((W1_keep m c main_arg27 (by decide)).trans (rfl))))))))))))))))))))))))))))
theorem W28_main_arg28 (c : Dev nD) : W28 m c (Proc.devRef .tc main_arg28) = m ((c : Thread nD τ).loc main_arg28) :=
  (W28_keep m c main_arg28 (by decide)).trans ((W27_keep m c main_arg28 (by decide)).trans ((W26_keep m c main_arg28 (by decide)).trans ((W25_keep m c main_arg28 (by decide)).trans ((W24_keep m c main_arg28 (by decide)).trans ((W23_keep m c main_arg28 (by decide)).trans ((W22_keep m c main_arg28 (by decide)).trans ((W21_keep m c main_arg28 (by decide)).trans ((W20_keep m c main_arg28 (by decide)).trans ((W19_keep m c main_arg28 (by decide)).trans ((W18_keep m c main_arg28 (by decide)).trans ((W17_keep m c main_arg28 (by decide)).trans ((W16_keep m c main_arg28 (by decide)).trans ((W15_keep m c main_arg28 (by decide)).trans ((W14_keep m c main_arg28 (by decide)).trans ((W13_keep m c main_arg28 (by decide)).trans ((W12_keep m c main_arg28 (by decide)).trans ((W11_keep m c main_arg28 (by decide)).trans ((W10_keep m c main_arg28 (by decide)).trans ((W9_keep m c main_arg28 (by decide)).trans ((W8_keep m c main_arg28 (by decide)).trans ((W7_keep m c main_arg28 (by decide)).trans ((W6_keep m c main_arg28 (by decide)).trans ((W5_keep m c main_arg28 (by decide)).trans ((W4_keep m c main_arg28 (by decide)).trans ((W3_keep m c main_arg28 (by decide)).trans ((W2_keep m c main_arg28 (by decide)).trans ((W1_keep m c main_arg28 (by decide)).trans (rfl))))))))))))))))))))))))))))

/-! ## The proof data family and the thread state -/

abbrev adm : (p : Fin 15) → (pcfgs (F := F) p).Adm := fun p => (cfgs p).toPCfg_adm
/-- Every pipeline's proof data, each at its region's entry contents. -/
def pdats : (p : Fin 15) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U4 m) c
  | ⟨3, _⟩ => fun c => dat3 (U6 m) c
  | ⟨4, _⟩ => fun c => dat4 (U7 m) c
  | ⟨5, _⟩ => fun c => dat5 (U9 m) c
  | ⟨6, _⟩ => fun c => dat6 (U11 m) c
  | ⟨7, _⟩ => fun c => dat7 (U13 m) c
  | ⟨8, _⟩ => fun c => dat8 (U15 m) c
  | ⟨9, _⟩ => fun c => dat9 (U17 m) c
  | ⟨10, _⟩ => fun c => dat10 (U19 m) c
  | ⟨11, _⟩ => fun c => dat11 (U21 m) c
  | ⟨12, _⟩ => fun c => dat12 (U23 m) c
  | ⟨13, _⟩ => fun c => dat13 (U25 m) c
  | ⟨14, _⟩ => fun c => dat14 (U27 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W28 m c) ∗ ∃ r, prngReg c r)

/-! ## The regions as segments -/

set_option backward.isDefEq.respectTransparency.types false in
/-- Region 0: entered from every unscoped buffer at boundary 1's contents, left at boundary 2's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (U1 m) c
  hout c := hout0 (U1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at boundary 3's contents, left at boundary 4's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at boundary 4's contents, left at boundary 5's. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (U4 m) c
  hout c := hout2 (U4 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at boundary 6's contents, left at boundary 7's. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U6 m c) (U7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at boundary 7's contents, left at boundary 8's. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (U7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (U7 m) c
  hout c := hout4 (U7 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U7 m c) (U8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at boundary 9's contents, left at boundary 10's. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (U9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U9 m c) (U10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at boundary 11's contents, left at boundary 12's. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec6 c (U11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (U11 m c) (U12 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at boundary 13's contents, left at boundary 14's. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U13 m) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec7 c (U13 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (U13 m c) (U14 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at boundary 15's contents, left at boundary 16's. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U15 m) c).loose
  hwaits := Pipeline.hwaits_of_owed_zero _ _ _ _ L lv 8 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec8 c (U15 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (U15 m c) (U16 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at boundary 17's contents, left at boundary 18's. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U17 m) c).loose
  hwaits := Pipeline.hwaits_of_owed_zero _ _ _ _ L lv 9 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec9 c (U17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (U17 m c) (U18 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at boundary 19's contents, left at boundary 20's. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (U19 m) c).loose
  hwaits := Pipeline.hwaits_of_owed_zero _ _ _ _ L lv 10 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec10 c (U19 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (U19 m c) (U20 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at boundary 21's contents, left at boundary 22's. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (U21 m) c).loose
  hwaits := Pipeline.hwaits_of_owed_zero _ _ _ _ L lv 11 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec11 c (U21 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (U21 m c) (U22 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from every unscoped buffer at boundary 23's contents, left at boundary 24's. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (U23 m) c).loose
  hwaits := Pipeline.hwaits_of_owed_zero _ _ _ _ L lv 12 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec12 c (U23 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (U23 m c) (U24 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13: entered from every unscoped buffer at boundary 25's contents, left at boundary 26's. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (U25 m) c).loose
  hwaits := Pipeline.hwaits_of_owed_zero _ _ _ _ L lv 13 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec13 c (U25 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (U25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (U25 m c) (U26 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14: entered from every unscoped buffer at boundary 27's contents, left at boundary 28's. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (U27 m) c).loose
  hwaits := Pipeline.hwaits_of_owed_zero _ _ _ _ L lv 14 fun _ _ => rfl
  pre c := iprop(StableHlo.held (c : Thread nD τ) (Pipeline.ucRefs τ sig) (W27 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec14 c (U27 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (U27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (U27 m c) (U28 m c) ((pdats m 14 c).arrAt · cfg14.N) (hF14 m c) (hrest14 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m),
    .host (hseg hostOps7 hostOps7_sub hostOps7_fresh (W12 m)),
    .region (reg7 m),
    .host (hseg hostOps8 hostOps8_sub hostOps8_fresh (W14 m)),
    .region (reg8 m),
    .host (hseg hostOps9 hostOps9_sub hostOps9_fresh (W16 m)),
    .region (reg9 m),
    .host (hseg hostOps10 hostOps10_sub hostOps10_fresh (W18 m)),
    .region (reg10 m),
    .host (hseg hostOps11 hostOps11_sub hostOps11_fresh (W20 m)),
    .region (reg11 m),
    .host (hseg hostOps12 hostOps12_sub hostOps12_fresh (W22 m)),
    .region (reg12 m),
    .host (hseg hostOps13 hostOps13_sub hostOps13_fresh (W24 m)),
    .region (reg13 m),
    .host (hseg hostOps14 hostOps14_sub hostOps14_fresh (W26 m)),
    .region (reg14 m) ]

set_option backward.isDefEq.respectTransparency.types false in
/-- THE RUN: from any memory with zero counters every weakly fair execution of @main terminates, nothing faulting, and
    every final state holds every unscoped buffer of every core at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W28 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m c b)
    (hfin := fun c s' => by
      iintro ⟨⟨Hh, -⟩, HSI⟩
      unfold StableHlo.held
      imodintro
      iapply (pointsTo_read_all (Pipeline.ucRefs τ sig) (fun b => (((c : Thread nD τ)).1, b)) (W28 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨(h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c),
    (h c _ (mem_uc main_arg10 (by decide))).trans (W28_main_arg10 m c),
    (h c _ (mem_uc main_arg11 (by decide))).trans (W28_main_arg11 m c),
    (h c _ (mem_uc main_arg12 (by decide))).trans (W28_main_arg12 m c),
    (h c _ (mem_uc main_arg13 (by decide))).trans (W28_main_arg13 m c),
    (h c _ (mem_uc main_arg14 (by decide))).trans (W28_main_arg14 m c),
    (h c _ (mem_uc main_arg15 (by decide))).trans (W28_main_arg15 m c),
    (h c _ (mem_uc main_arg16 (by decide))).trans (W28_main_arg16 m c),
    (h c _ (mem_uc main_arg17 (by decide))).trans (W28_main_arg17 m c),
    (h c _ (mem_uc main_arg18 (by decide))).trans (W28_main_arg18 m c),
    (h c _ (mem_uc main_arg19 (by decide))).trans (W28_main_arg19 m c),
    (h c _ (mem_uc main_arg20 (by decide))).trans (W28_main_arg20 m c),
    (h c _ (mem_uc main_arg21 (by decide))).trans (W28_main_arg21 m c),
    (h c _ (mem_uc main_arg22 (by decide))).trans (W28_main_arg22 m c),
    (h c _ (mem_uc main_arg23 (by decide))).trans (W28_main_arg23 m c),
    (h c _ (mem_uc main_arg24 (by decide))).trans (W28_main_arg24 m c),
    (h c _ (mem_uc main_arg25 (by decide))).trans (W28_main_arg25 m c),
    (h c _ (mem_uc main_arg26 (by decide))).trans (W28_main_arg26 m c),
    (h c _ (mem_uc main_arg27 (by decide))).trans (W28_main_arg27 m c),
    (h c _ (mem_uc main_arg28 (by decide))).trans (W28_main_arg28 m c)⟩) (run_main m ρ)

/-- THE RESULTS: the three result arrays end at the last boundary's contents, beside the frame. -/
theorem run_results (ρ : Dev nD → PrngReg) : θ_run defs (onTc (τ := τ) (main (F := F))) ⟨m, fun _ => 0, ρ⟩ (fun r => ∀ c : Dev nD,
      r.2.mem ((c.tc : Thread nD τ).loc main_v240) = W28 m c (Proc.devRef .tc main_v240)
      ∧ r.2.mem ((c.tc : Thread nD τ).loc main_v217) = W28 m c (Proc.devRef .tc main_v217)
      ∧ r.2.mem ((c.tc : Thread nD τ).loc main_v255) = W28 m c (Proc.devRef .tc main_v255)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨h c _ (mem_uc main_v240 (by decide)),
    h c _ (mem_uc main_v217 (by decide)),
    h c _ (mem_uc main_v255 (by decide)),
    (h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c),
    (h c _ (mem_uc main_arg10 (by decide))).trans (W28_main_arg10 m c),
    (h c _ (mem_uc main_arg11 (by decide))).trans (W28_main_arg11 m c),
    (h c _ (mem_uc main_arg12 (by decide))).trans (W28_main_arg12 m c),
    (h c _ (mem_uc main_arg13 (by decide))).trans (W28_main_arg13 m c),
    (h c _ (mem_uc main_arg14 (by decide))).trans (W28_main_arg14 m c),
    (h c _ (mem_uc main_arg15 (by decide))).trans (W28_main_arg15 m c),
    (h c _ (mem_uc main_arg16 (by decide))).trans (W28_main_arg16 m c),
    (h c _ (mem_uc main_arg17 (by decide))).trans (W28_main_arg17 m c),
    (h c _ (mem_uc main_arg18 (by decide))).trans (W28_main_arg18 m c),
    (h c _ (mem_uc main_arg19 (by decide))).trans (W28_main_arg19 m c),
    (h c _ (mem_uc main_arg20 (by decide))).trans (W28_main_arg20 m c),
    (h c _ (mem_uc main_arg21 (by decide))).trans (W28_main_arg21 m c),
    (h c _ (mem_uc main_arg22 (by decide))).trans (W28_main_arg22 m c),
    (h c _ (mem_uc main_arg23 (by decide))).trans (W28_main_arg23 m c),
    (h c _ (mem_uc main_arg24 (by decide))).trans (W28_main_arg24 m c),
    (h c _ (mem_uc main_arg25 (by decide))).trans (W28_main_arg25 m c),
    (h c _ (mem_uc main_arg26 (by decide))).trans (W28_main_arg26 m c),
    (h c _ (mem_uc main_arg27 (by decide))).trans (W28_main_arg27 m c),
    (h c _ (mem_uc main_arg28 (by decide))).trans (W28_main_arg28 m c)⟩) (run_main m ρ)

end Cert.Kernel.Hand

end
-- ==== Proof.KI.StatsLib.lean ====
import proofs.«123839_j71768903516633_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a rank-2 rectangle, however spelt. -/
theorem hz2 : (![0, 0] : Fin 2 → Nat) = fun _ => 0 := funext fun a => by fin_cases a <;> rfl

/-- A list of stores whose LAST store (the list's head) goes through the whole-shape rectangle reads back as that
    store's payload, whatever the view, the prior contents and the earlier stores. -/
theorem read_writes_unit {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h inb]

/-- A load through the whole-shape rectangle of what a list of stores left, the LAST of them (the list's head) through
    that rectangle, reads that store's payload. -/
theorem readCov_cons_unit {sg : RefSig} {κ : Kind} {sp : Space} {S : Shape} {e : EltTy} (v : View sg κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

end Cert.KernelIdeal.Hand
end
-- ==== Proof.KI.Reg0.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg0
-- the TensorCore's buffer contents when the region is entered
variable (V : (c : Dev nD) → (b : Ref sig .tc) → Buf (Elt F) ((c : Thread nD τ).loc b))

/-! # The column-statistics kernel of custom_call 0: running column sums and sums of squares over the row blocks

The kernel keeps two [1, C] accumulators in scratch: zeroed at the first point, increased at every point by the
column sums of the point's row block and of its elementwise square, and copied to the two [1, C] outputs at the last
point. The region's invariant therefore carries the scratch contents from point to point. -/

/-! ## The two conditions on the grid point -/

/-- The first conditional's condition (the grid coordinate is zero), as the kernel computes it. -/
abbrev c0_1 (i : grid0.Coords) : Prop := (Scalar.cmpi .ne (Scalar.extui (Scalar.cmpi .eq (BitVec.ofNat 32 (i 0).val) 0#32)) 0#32) = 1#1

/-- It holds at the first point only. -/
theorem hc0_1 : ∀ t : Fin cfg0.N, c0_1 (grid0.coords t) ↔ t.val = 0 :=
  (by decide +kernel : ∀ t : Fin grid0.N, c0_1 (grid0.coords t) ↔ t.val = 0)
/-- The second conditional's condition holds at the last point only. -/
theorem hc0_2 : ∀ t : Fin cfg0.N, k0_cond2 (grid0.coords t) = 1#1 ↔ t.val = 9 :=
  (by decide +kernel : ∀ t : Fin grid0.N, k0_cond2 (grid0.coords t) = 1#1 ↔ t.val = 9)

/-- The input window is never idle. -/
theorem liveAt0_0 : ∀ t : Fin cfg0.N, cfg0.idle 0 (grid0.coords t) = false := by decide +kernel
/-- The output windows are idle, and not written back, wherever the second condition fails, -/
theorem idleAt0_1 : ∀ t : Fin cfg0.N, ¬ k0_cond2 (grid0.coords t) = 1#1 → cfg0.idle 1 (grid0.coords t) = true := by decide +kernel
theorem idleAt0_2 : ∀ t : Fin cfg0.N, ¬ k0_cond2 (grid0.coords t) = 1#1 → cfg0.idle 2 (grid0.coords t) = true := by decide +kernel
theorem noFlush0_1 : ∀ t : Fin cfg0.N, ¬ k0_cond2 (grid0.coords t) = 1#1 → (cfg0.win 1).flush t = false := by decide +kernel
theorem noFlush0_2 : ∀ t : Fin cfg0.N, ¬ k0_cond2 (grid0.coords t) = 1#1 → (cfg0.win 2).flush t = false := by decide +kernel
/-- and live where it holds. -/
theorem liveAt0_1 : ∀ t : Fin cfg0.N, k0_cond2 (grid0.coords t) = 1#1 → cfg0.idle 1 (grid0.coords t) = false := by decide +kernel
theorem liveAt0_2 : ∀ t : Fin cfg0.N, k0_cond2 (grid0.coords t) = 1#1 → cfg0.idle 2 (grid0.coords t) = false := by decide +kernel

/-! ## The body's triple, case by case -/

set_option maxHeartbeats 1000000 in
/-- FIRST point (first condition holds, second fails): the accumulators, at anything, end at the zero row plus the
    block's column sums (of squares); the outputs are not touched. -/
theorem sound_kernel0_first (c : Dev nD) (E : Set ℕ) (i : grid0.Coords) (hc1 : c0_1 i) (hc2 : ¬ k0_cond2 i = 1#1)
    (arg1 : Memref sig .tc .vmem S3000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (x0 : Vec F S3000x64 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0
            ∗ owns (c : Thread nD τ) arg4 fullShare (k0_pay3 x0 k0_pay1) ∗ owns (c : Thread nD τ) arg5 fullShare (k0_pay4 x0 k0_pay2)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d3, %f3, -, H3⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  · iexists _; isplitr
    swap; · iexact H4
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]

set_option maxHeartbeats 1000000 in
/-- A MIDDLE point (both conditions fail): the accumulators, at `xs` and `xq`, end at `xs` plus the block's column
    sums and `xq` plus those of its square; the outputs are not touched. -/
theorem sound_kernel0_mid (c : Dev nD) (E : Set ℕ) (i : grid0.Coords) (hc1 : ¬ c0_1 i) (hc2 : ¬ k0_cond2 i = 1#1)
    (arg1 : Memref sig .tc .vmem S3000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (x0 : Vec F S3000x64 .f32) (xs xq : Vec F S1x64 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0
            ∗ owns (c : Thread nD τ) arg4 fullShare (k0_pay3 x0 xs) ∗ owns (c : Thread nD τ) arg5 fullShare (k0_pay4 x0 xq)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  · iexists _; isplitr
    swap; · iexact H4
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]

set_option maxHeartbeats 1000000 in
/-- The LAST point (first condition fails, second holds): as a middle point, and the two outputs, at anything, end
    at the accumulators' final contents. -/
theorem sound_kernel0_last (c : Dev nD) (E : Set ℕ) (i : grid0.Coords) (hc1 : ¬ c0_1 i) (hc2 : k0_cond2 i = 1#1)
    (arg1 : Memref sig .tc .vmem S3000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (x0 : Vec F S3000x64 .f32) (xs xq : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs ∗ owns (c : Thread nD τ) arg5 fullShare xq
        ∗ (iprop(owns (c : Thread nD τ) arg1 fullShare x0
            ∗ owns (c : Thread nD τ) arg2 fullShare (k0_pay3 x0 xs) ∗ owns (c : Thread nD τ) arg3 fullShare (k0_pay4 x0 xq)
            ∗ owns (c : Thread nD τ) arg4 fullShare (k0_pay3 x0 xs) ∗ owns (c : Thread nD τ) arg5 fullShare (k0_pay4 x0 xq)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  isplitl [H2]
  · iexists _; isplitr
    swap; · iexact H2
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  isplitl [H3]
  · iexists _; isplitr
    swap; · iexact H3
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]
  · iexists _; isplitr
    swap; · iexact H4
    ipureintro
    sl_unfold_run_names
    simp only [read_writes_unit (S := S1x64) _ _ hz2, readCov_cons_unit (S := S1x64) _ hz2, View.readAt_eq_ld, View.ld_unit_zero (S := S3000x64) hz2, View.ld_unit_zero (S := S1x64) hz2]

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- The column-sum accumulator after `n` points: the zero row, then each block's column sums added in point order. -/
def acc0_s (c : Dev nD) : ℕ → Vec F S1x64 .f32
  | 0 => k0_pay1
  | n + 1 => if h : n < cfg0.N then k0_pay3 (iblk0 V c 0 ⟨n, h⟩) (acc0_s c n) else acc0_s c n

/-- The sum-of-squares accumulator after `n` points. -/
def acc0_q (c : Dev nD) : ℕ → Vec F S1x64 .f32
  | 0 => k0_pay2
  | n + 1 => if h : n < cfg0.N then k0_pay4 (iblk0 V c 0 ⟨n, h⟩) (acc0_q c n) else acc0_q c n

theorem acc0_s_succ (c : Dev nD) (t : Fin cfg0.N) : acc0_s V c (t.val + 1) = k0_pay3 (iblk0 V c 0 t) (acc0_s V c t.val) := by
  rw [acc0_s, dif_pos t.isLt]
theorem acc0_q_succ (c : Dev nD) (t : Fin cfg0.N) : acc0_q V c (t.val + 1) = k0_pay4 (iblk0 V c 0 t) (acc0_q V c t.val) := by
  rw [acc0_q, dif_pos t.isLt]
theorem acc0_s_first (c : Dev nD) (t : Fin cfg0.N) (ht : t.val = 0) : acc0_s V c (t.val + 1) = k0_pay3 (iblk0 V c 0 t) k0_pay1 := by
  rw [acc0_s_succ, ht]; rfl
theorem acc0_q_first (c : Dev nD) (t : Fin cfg0.N) (ht : t.val = 0) : acc0_q V c (t.val + 1) = k0_pay4 (iblk0 V c 0 t) k0_pay2 := by
  rw [acc0_q_succ, ht]; rfl

/-! ## The invariant -/

/-- The two scratch accumulators: whole scoped buffers of the kernel's own, passed beside the windows. -/
abbrev scM0_0 : Memref sig .tc .vmem S1x64 .f32 := Memref.whole cc0_scratch0
abbrev scM0_1 : Memref sig .tc .vmem S1x64 .f32 := Memref.whole cc0_scratch1

/-- Every other scoped buffer that is no staging buffer of this call, at some contents each. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The invariant before point `n`: before the first point every scoped buffer at anything; afterwards the two
    accumulators at their contents after `n` points, the other scoped buffers at anything; the generator register at
    some state throughout. -/
def Phi0 (c : Dev nD) : ℕ → sProp 𝕄
  | 0 => Pipeline.ΦA spec0 c
  | n + 1 => iprop(iprop(iprop(owns (c : Thread nD τ) scM0_0 fullShare (acc0_s V c (n + 1)) ∗ owns (c : Thread nD τ) scM0_1 fullShare (acc0_q V c (n + 1))) ∗ rest0 c) ∗ (∃ r, prngReg c r))

theorem Phi0_pos (c : Dev nD) (n : ℕ) (hn : n ≠ 0) :
    Phi0 V c n = iprop(iprop(iprop(owns (c : Thread nD τ) scM0_0 fullShare (acc0_s V c n) ∗ owns (c : Thread nD τ) scM0_1 fullShare (acc0_q V c n)) ∗ rest0 c) ∗ (∃ r, prngReg c r)) := by
  cases n with
  | zero => exact absurd rfl hn
  | succ n => rfl

/-- The class's invariant with the two accumulators split out of the scoped rest. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

/-! ## The pipeline's proof data -/

/-- The proof data on core `c`: the arrays as the region finds them; after the body at point `t` the input's buffer
    at its block and the two outputs' at the accumulators after `t + 1` points (consulted at the last point only: at
    the others the output windows are idle and not written back); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0_s V c (t.val + 1)
    | ⟨2, _⟩ => acc0_q V c (t.val + 1)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0_s V c (t.val + 1) := by dsimp only [dat0]
theorem after0_2 (c : Dev nD) (t : Fin cfg0.N) : (dat0 V c).after 2 t = acc0_q V c (t.val + 1) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the closed forms say which case the point is in; the invariant hands the body the
    accumulators at what the points before left (at anything at the first point) and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [liveAt0_0 t], after0_0]
  rw [show (dat0 V c).Φ t.succ = Phi0 V c (t.val + 1) from rfl, show (dat0 V c).Φ t.castSucc = Phi0 V c t.val from rfl]
  rw [Phi0_pos V c (t.val + 1) (Nat.succ_ne_zero _)]
  have hN : t.val < 10 := lt_of_lt_of_eq t.isLt (show cfg0.N = 10 from N_0)
  by_cases h0 : t.val = 0
  · -- the first point
    have hc1 : c0_1 (grid0.coords t) := (hc0_1 t).mpr h0
    have hc2 : ¬ k0_cond2 (grid0.coords t) = 1#1 := fun h => by have := (hc0_2 t).mp h; omega
    rw [Dat.leavesExact_idle (dat0 V c) 1 t (idleAt0_1 t hc2) (noFlush0_1 t hc2),
      Dat.leavesExact_idle (dat0 V c) 2 t (idleAt0_2 t hc2) (noFlush0_2 t hc2)]
    rw [acc0_s_first V c t h0, acc0_q_first V c t h0, h0]
    rw [show Phi0 V c 0 = Pipeline.ΦA spec0 c from rfl, PhiA0_eq]
    iintro ⟨⟨⟨⟨HS0, HS1⟩, Hrest⟩, Hg⟩, Ho, ⟨%d0, H0⟩, H1, H2⟩
    iapply (sound_kernel0_first c Set.univ (grid0.coords t) hc1 hc2 _ _ _ _ _ _ _ _ _ _ (iblk0 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hc1 : ¬ c0_1 (grid0.coords t) := fun h => h0 ((hc0_1 t).mp h)
    rw [Phi0_pos V c t.val h0, acc0_s_succ, acc0_q_succ]
    by_cases h9 : t.val = 9
    · -- the last point
      have hc2 : k0_cond2 (grid0.coords t) = 1#1 := (hc0_2 t).mpr h9
      rw [show (dat0 V c).leavesExact 1 t = owns (c : Thread nD τ) (st0_1 t) fullShare ((dat0 V c).after 1 t) from by
        unfold Dat.leavesExact; rw [liveAt0_1 t hc2], after0_1, acc0_s_succ]
      rw [show (dat0 V c).leavesExact 2 t = owns (c : Thread nD τ) (st0_2 t) fullShare ((dat0 V c).after 2 t) from by
        unfold Dat.leavesExact; rw [liveAt0_2 t hc2], after0_2, acc0_q_succ]
      iintro ⟨⟨⟨⟨HS0, HS1⟩, Hrest⟩, Hg⟩, Ho, ⟨%d0, H0⟩, ⟨%d1, H1⟩, ⟨%d2, H2⟩⟩
      iapply (sound_kernel0_last c Set.univ (grid0.coords t) hc1 hc2 _ _ _ _ _ _ _ _ _ _ (iblk0 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · -- a middle point
      have hc2 : ¬ k0_cond2 (grid0.coords t) = 1#1 := fun h => h9 ((hc0_2 t).mp h)
      rw [Dat.leavesExact_idle (dat0 V c) 1 t (idleAt0_1 t hc2) (noFlush0_1 t hc2),
        Dat.leavesExact_idle (dat0 V c) 2 t (idleAt0_2 t hc2) (noFlush0_2 t hc2)]
      iintro ⟨⟨⟨⟨HS0, HS1⟩, Hrest⟩, Hg⟩, Ho, ⟨%d0, H0⟩, H1, H2⟩
      iapply (sound_kernel0_mid c Set.univ (grid0.coords t) hc1 hc2 _ _ _ _ _ _ _ _ _ _ (iblk0 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- After any point the invariant gives the class's back: the accumulators' named contents are forgotten. -/
theorem Phi0_out (c : Dev nD) (n : ℕ) (hn : n ≠ 0) : Phi0 V c n ⊢ Pipeline.ΦA spec0 c := by
  rw [PhiA0_eq, Phi0_pos V c n hn]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- What the launch hands the region is the invariant before the first point. -/
theorem hin0 (c : Dev nD) :
    iprop((∃ r, prngReg c r) ∗ Pipeline.prefHeld (Ix := Unit) (Name := ℕ) (U := UR sig nD τ) (Lvl := ℕ) (pcfgs (F := F) 0).pre c (fun _ => fullShare) ((cfgs 0).toPCfg_adm).1
        ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- After the last point the invariant gives back the generator register and the scoped rest. -/
theorem hout0 (c : Dev nD) :
    (dat0 V c).Φ (Fin.last cfg0.N) ⊢ iprop((∃ r, prngReg c r) ∗ Pipeline.ownSems0 (fun k : PEmpty => k.elim) c ∗ Pipeline.scopedRest spec0 c) := by
  have hN : (Fin.last cfg0.N).val ≠ 0 := by rw [Fin.val_last, show cfg0.N = 10 from N_0]; decide
  rw [show (dat0 V c).Φ (Fin.last cfg0.N) = Phi0 V c (Fin.last cfg0.N).val from rfl]
  refine (Phi0_out V c _ hN).trans ?_
  rw [Pipeline.ownSems0_none]; unfold Pipeline.ΦA
  iintro ⟨Hr, Hp⟩
  isplitl [Hp]; · iexact Hp
  isplitr; · iempintro
  iexact Hr

end Reg0
end Cert.KernelIdeal.Hand
end
-- ==== Proof.KI.Reg1.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (`cc1__bn_apply_kernel`): the body half at the region-entry contents `V`

The kernel loads each input window's staging buffer whole, computes one value, and stores it whole into the
output window's staging buffer. So what the body leaves in the output buffer is a closed function of the input
blocks at the point (`out1_5`), every input buffer holds its block at every point whether or not it was
fetched there (`before1_w`), and the body obligation follows from the kernel's triple (`sound_kernel1`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S3000x64 := Rect.unit (s := S3000x64) ![0, 0] S3000x64.size inb_S3000x64_S3000x64_0_0
abbrev r1_1 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out1_5 (x0 : Vec F S3000x64 .f32) (x1 : Vec F S1x64 .f32) (x2 : Vec F S1x64 .f32) (x3 : Vec F S1x64 .f32) (x4 : Vec F S1x64 .f32) : Vec F S3000x64 .f32 :=
  View.canon [⟨r1_0, k1_pay1 (View.ld x0 r1_0) (View.ld x1 r1_1) (View.ld x2 r1_1) (View.ld x3 r1_1) (View.ld x4 r1_1)⟩]

/-- The store's rectangle is the whole buffer (checked by evaluation), so it covers it. -/
theorem cover1_5 (p0 : Vec F S3000x64 .f32) (y : S3000x64.Idx) :
    ∃ pc ∈ ([⟨r1_0, p0⟩] : List (View.Piece (Elt F) S3000x64 .f32)), y ∈ pc.1.set :=
  View.cover_of_tiled [⟨r1_0, p0⟩] S3000x64.size (by rfl) y

/-! ## The body's triple -/

set_option maxHeartbeats 1000000 in
/-- The kernel body on whole staging memrefs, the inputs' at read contents `xW` and the output's at anything, runs to
    the continuation holding the inputs' as they were and the output's at `out1_5` of the inputs': the printed
    function is its skeleton of memory operations, which is run operation by operation. -/
theorem sound_kernel1 (c : Dev nD) (E : Set ℕ) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S3000x64 .f32) (harg6 : arg6.IsWhole)
    (x0 : Vec F S3000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_apply_kernel i arg1 harg1 arg2 harg2 arg3 harg3 arg4 harg4 arg5 harg5 arg6 harg6) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the
    invariant keeps the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg2
-- the TensorCore's buffer contents when the region is entered
variable (V : (c : Dev nD) → (b : Ref sig .tc) → Buf (Elt F) ((c : Thread nD τ).loc b))

/-! # The column-statistics kernel of custom_call 2: running column sums and sums of squares over the row blocks

The kernel keeps two [1, C] accumulators in scratch: zeroed at the first point, increased at every point by the
column sums of the point's row block and of its elementwise square, and copied to the two [1, C] outputs at the last
point. The region's invariant therefore carries the scratch contents from point to point. -/

/-! ## The two conditions on the grid point -/

/-- The first conditional's condition (the grid coordinate is zero), as the kernel computes it. -/
abbrev c2_1 (i : grid2.Coords) : Prop := (Scalar.cmpi .ne (Scalar.extui (Scalar.cmpi .eq (BitVec.ofNat 32 (i 0).val) 0#32)) 0#32) = 1#1

/-- It holds at the first point only. -/
theorem hc2_1 : ∀ t : Fin cfg2.N, c2_1 (grid2.coords t) ↔ t.val = 0 :=
  (by decide +kernel : ∀ t : Fin grid2.N, c2_1 (grid2.coords t) ↔ t.val = 0)
/-- The second conditional's condition holds at the last point only. -/
theorem hc2_2 : ∀ t : Fin cfg2.N, k2_cond2 (grid2.coords t) = 1#1 ↔ t.val = 49 :=
  (by decide +kernel : ∀ t : Fin grid2.N, k2_cond2 (grid2.coords t) = 1#1 ↔ t.val = 49)

/-- The input window is never idle. -/
theorem liveAt2_0 : ∀ t : Fin cfg2.N, cfg2.idle 0 (grid2.coords t) = false := by decide +kernel
/-- The output windows are idle, and not written back, wherever the second condition fails, -/
theorem idleAt2_1 : ∀ t : Fin cfg2.N, ¬ k2_cond2 (grid2.coords t) = 1#1 → cfg2.idle 1 (grid2.coords t) = true := by decide +kernel
theorem idleAt2_2 : ∀ t : Fin cfg2.N, ¬ k2_cond2 (grid2.coords t) = 1#1 → cfg2.idle 2 (grid2.coords t) = true := by decide +kernel
theorem noFlush2_1 : ∀ t : Fin cfg2.N, ¬ k2_cond2 (grid2.coords t) = 1#1 → (cfg2.win 1).flush t = false := by decide +kernel
theorem noFlush2_2 : ∀ t : Fin cfg2.N, ¬ k2_cond2 (grid2.coords t) = 1#1 → (cfg2.win 2).flush t = false := by decide +kernel
/-- and live where it holds. -/
theorem liveAt2_1 : ∀ t : Fin cfg2.N, k2_cond2 (grid2.coords t) = 1#1 → cfg2.idle 1 (grid2.coords t) = false := by decide +kernel
theorem liveAt2_2 : ∀ t : Fin cfg2.N, k2_cond2 (grid2.coords t) = 1#1 → cfg2.idle 2 (grid2.coords t) = false := by decide +kernel

/-! ## The body's triple, case by case -/

set_option maxHeartbeats 1000000 in
/-- FIRST point (first condition holds, second fails): the accumulators, at anything, end at the zero row plus the
    block's column sums (of squares); the outputs are not touched. -/
theorem sound_kernel2_first (c : Dev nD) (E : Set ℕ) (i : grid2.Coords) (hc1 : c2_1 i) (hc2 : ¬ k2_cond2 i = 1#1)
    (arg1 : Memref sig .tc .vmem S6000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S6000x32 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0
            ∗ owns (c : Thread nD τ) arg4 fullShare (k2_pay3 x0 k2_pay1) ∗ owns (c : Thread nD τ) arg5 fullShare (k2_pay4 x0 k2_pay2)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d3, %f3, -, H3⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]

set_option maxHeartbeats 1000000 in
/-- A MIDDLE point (both conditions fail): the accumulators, at `xs` and `xq`, end at `xs` plus the block's column
    sums and `xq` plus those of its square; the outputs are not touched. -/
theorem sound_kernel2_mid (c : Dev nD) (E : Set ℕ) (i : grid2.Coords) (hc1 : ¬ c2_1 i) (hc2 : ¬ k2_cond2 i = 1#1)
    (arg1 : Memref sig .tc .vmem S6000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S6000x32 .f32) (xs xq : Vec F S1x32 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0
            ∗ owns (c : Thread nD τ) arg4 fullShare (k2_pay3 x0 xs) ∗ owns (c : Thread nD τ) arg5 fullShare (k2_pay4 x0 xq)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]

set_option maxHeartbeats 1000000 in
/-- The LAST point (first condition fails, second holds): as a middle point, and the two outputs, at anything, end
    at the accumulators' final contents. -/
theorem sound_kernel2_last (c : Dev nD) (E : Set ℕ) (i : grid2.Coords) (hc1 : ¬ c2_1 i) (hc2 : k2_cond2 i = 1#1)
    (arg1 : Memref sig .tc .vmem S6000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S6000x32 .f32) (xs xq : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs ∗ owns (c : Thread nD τ) arg5 fullShare xq
        ∗ (iprop(owns (c : Thread nD τ) arg1 fullShare x0
            ∗ owns (c : Thread nD τ) arg2 fullShare (k2_pay3 x0 xs) ∗ owns (c : Thread nD τ) arg3 fullShare (k2_pay4 x0 xq)
            ∗ owns (c : Thread nD τ) arg4 fullShare (k2_pay3 x0 xs) ∗ owns (c : Thread nD τ) arg5 fullShare (k2_pay4 x0 xq)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  isplitl [H2]
  · iexists _; isplitr
    swap; · iexact H2
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S6000x32) hz2, View.ld_unit_zero (S := S1x32) hz2]

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The accumulators, point by point -/

/-- The column-sum accumulator after `n` points: the zero row, then each block's column sums added in point order. -/
def acc2_s (c : Dev nD) : ℕ → Vec F S1x32 .f32
  | 0 => k2_pay1
  | n + 1 => if h : n < cfg2.N then k2_pay3 (iblk2 V c 0 ⟨n, h⟩) (acc2_s c n) else acc2_s c n

/-- The sum-of-squares accumulator after `n` points. -/
def acc2_q (c : Dev nD) : ℕ → Vec F S1x32 .f32
  | 0 => k2_pay2
  | n + 1 => if h : n < cfg2.N then k2_pay4 (iblk2 V c 0 ⟨n, h⟩) (acc2_q c n) else acc2_q c n

theorem acc2_s_succ (c : Dev nD) (t : Fin cfg2.N) : acc2_s V c (t.val + 1) = k2_pay3 (iblk2 V c 0 t) (acc2_s V c t.val) := by
  rw [acc2_s, dif_pos t.isLt]
theorem acc2_q_succ (c : Dev nD) (t : Fin cfg2.N) : acc2_q V c (t.val + 1) = k2_pay4 (iblk2 V c 0 t) (acc2_q V c t.val) := by
  rw [acc2_q, dif_pos t.isLt]
theorem acc2_s_first (c : Dev nD) (t : Fin cfg2.N) (ht : t.val = 0) : acc2_s V c (t.val + 1) = k2_pay3 (iblk2 V c 0 t) k2_pay1 := by
  rw [acc2_s_succ, ht]; rfl
theorem acc2_q_first (c : Dev nD) (t : Fin cfg2.N) (ht : t.val = 0) : acc2_q V c (t.val + 1) = k2_pay4 (iblk2 V c 0 t) k2_pay2 := by
  rw [acc2_q_succ, ht]; rfl

/-! ## The invariant -/

/-- The two scratch accumulators: whole scoped buffers of the kernel's own, passed beside the windows. -/
abbrev scM2_0 : Memref sig .tc .vmem S1x32 .f32 := Memref.whole cc2_scratch0
abbrev scM2_1 : Memref sig .tc .vmem S1x32 .f32 := Memref.whole cc2_scratch1

/-- Every other scoped buffer that is no staging buffer of this call, at some contents each. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The invariant before point `n`: before the first point every scoped buffer at anything; afterwards the two
    accumulators at their contents after `n` points, the other scoped buffers at anything; the generator register at
    some state throughout. -/
def Phi2 (c : Dev nD) : ℕ → sProp 𝕄
  | 0 => Pipeline.ΦA spec2 c
  | n + 1 => iprop(iprop(iprop(owns (c : Thread nD τ) scM2_0 fullShare (acc2_s V c (n + 1)) ∗ owns (c : Thread nD τ) scM2_1 fullShare (acc2_q V c (n + 1))) ∗ rest2 c) ∗ (∃ r, prngReg c r))

theorem Phi2_pos (c : Dev nD) (n : ℕ) (hn : n ≠ 0) :
    Phi2 V c n = iprop(iprop(iprop(owns (c : Thread nD τ) scM2_0 fullShare (acc2_s V c n) ∗ owns (c : Thread nD τ) scM2_1 fullShare (acc2_q V c n)) ∗ rest2 c) ∗ (∃ r, prngReg c r)) := by
  cases n with
  | zero => exact absurd rfl hn
  | succ n => rfl

/-- The class's invariant with the two accumulators split out of the scoped rest. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-! ## The pipeline's proof data -/

/-- The proof data on core `c`: the arrays as the region finds them; after the body at point `t` the input's buffer
    at its block and the two outputs' at the accumulators after `t + 1` points (consulted at the last point only: at
    the others the output windows are idle and not written back); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => acc2_s V c (t.val + 1)
    | ⟨2, _⟩ => acc2_q V c (t.val + 1)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = acc2_s V c (t.val + 1) := by dsimp only [dat2]
theorem after2_2 (c : Dev nD) (t : Fin cfg2.N) : (dat2 V c).after 2 t = acc2_q V c (t.val + 1) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the closed forms say which case the point is in; the invariant hands the body the
    accumulators at what the points before left (at anything at the first point) and takes them back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).leavesExact 0 t = owns (c : Thread nD τ) (st2_0 t) fullShare ((dat2 V c).after 0 t) from by
    unfold Dat.leavesExact; rw [liveAt2_0 t], after2_0]
  rw [show (dat2 V c).Φ t.succ = Phi2 V c (t.val + 1) from rfl, show (dat2 V c).Φ t.castSucc = Phi2 V c t.val from rfl]
  rw [Phi2_pos V c (t.val + 1) (Nat.succ_ne_zero _)]
  have hN : t.val < 50 := lt_of_lt_of_eq t.isLt (show cfg2.N = 50 from N_2)
  by_cases h0 : t.val = 0
  · -- the first point
    have hc1 : c2_1 (grid2.coords t) := (hc2_1 t).mpr h0
    have hc2 : ¬ k2_cond2 (grid2.coords t) = 1#1 := fun h => by have := (hc2_2 t).mp h; omega
    rw [Dat.leavesExact_idle (dat2 V c) 1 t (idleAt2_1 t hc2) (noFlush2_1 t hc2),
      Dat.leavesExact_idle (dat2 V c) 2 t (idleAt2_2 t hc2) (noFlush2_2 t hc2)]
    rw [acc2_s_first V c t h0, acc2_q_first V c t h0, h0]
    rw [show Phi2 V c 0 = Pipeline.ΦA spec2 c from rfl, PhiA2_eq]
    iintro ⟨⟨⟨⟨HS0, HS1⟩, Hrest⟩, Hg⟩, Ho, ⟨%d0, H0⟩, H1, H2⟩
    iapply (sound_kernel2_first c Set.univ (grid2.coords t) hc1 hc2 _ _ _ _ _ _ _ _ _ _ (iblk2 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hc1 : ¬ c2_1 (grid2.coords t) := fun h => h0 ((hc2_1 t).mp h)
    rw [Phi2_pos V c t.val h0, acc2_s_succ, acc2_q_succ]
    by_cases h9 : t.val = 49
    · -- the last point
      have hc2 : k2_cond2 (grid2.coords t) = 1#1 := (hc2_2 t).mpr h9
      rw [show (dat2 V c).leavesExact 1 t = owns (c : Thread nD τ) (st2_1 t) fullShare ((dat2 V c).after 1 t) from by
        unfold Dat.leavesExact; rw [liveAt2_1 t hc2], after2_1, acc2_s_succ]
      rw [show (dat2 V c).leavesExact 2 t = owns (c : Thread nD τ) (st2_2 t) fullShare ((dat2 V c).after 2 t) from by
        unfold Dat.leavesExact; rw [liveAt2_2 t hc2], after2_2, acc2_q_succ]
      iintro ⟨⟨⟨⟨HS0, HS1⟩, Hrest⟩, Hg⟩, Ho, ⟨%d0, H0⟩, ⟨%d1, H1⟩, ⟨%d2, H2⟩⟩
      iapply (sound_kernel2_last c Set.univ (grid2.coords t) hc1 hc2 _ _ _ _ _ _ _ _ _ _ (iblk2 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · -- a middle point
      have hc2 : ¬ k2_cond2 (grid2.coords t) = 1#1 := fun h => h9 ((hc2_2 t).mp h)
      rw [Dat.leavesExact_idle (dat2 V c) 1 t (idleAt2_1 t hc2) (noFlush2_1 t hc2),
        Dat.leavesExact_idle (dat2 V c) 2 t (idleAt2_2 t hc2) (noFlush2_2 t hc2)]
      iintro ⟨⟨⟨⟨HS0, HS1⟩, Hrest⟩, Hg⟩, Ho, ⟨%d0, H0⟩, H1, H2⟩
      iapply (sound_kernel2_mid c Set.univ (grid2.coords t) hc1 hc2 _ _ _ _ _ _ _ _ _ _ (iblk2 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- After any point the invariant gives the class's back: the accumulators' named contents are forgotten. -/
theorem Phi2_out (c : Dev nD) (n : ℕ) (hn : n ≠ 0) : Phi2 V c n ⊢ Pipeline.ΦA spec2 c := by
  rw [PhiA2_eq, Phi2_pos V c n hn]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- What the launch hands the region is the invariant before the first point. -/
theorem hin2 (c : Dev nD) :
    iprop((∃ r, prngReg c r) ∗ Pipeline.prefHeld (Ix := Unit) (Name := ℕ) (U := UR sig nD τ) (Lvl := ℕ) (pcfgs (F := F) 2).pre c (fun _ => fullShare) ((cfgs 2).toPCfg_adm).1
        ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the invariant gives back the generator register and the scoped rest. -/
theorem hout2 (c : Dev nD) :
    (dat2 V c).Φ (Fin.last cfg2.N) ⊢ iprop((∃ r, prngReg c r) ∗ Pipeline.ownSems0 (fun k : PEmpty => k.elim) c ∗ Pipeline.scopedRest spec2 c) := by
  have hN : (Fin.last cfg2.N).val ≠ 0 := by rw [Fin.val_last, show cfg2.N = 50 from N_2]; decide
  rw [show (dat2 V c).Φ (Fin.last cfg2.N) = Phi2 V c (Fin.last cfg2.N).val from rfl]
  refine (Phi2_out V c _ hN).trans ?_
  rw [Pipeline.ownSems0_none]; unfold Pipeline.ΦA
  iintro ⟨Hr, Hp⟩
  isplitl [Hp]; · iexact Hp
  isplitr; · iempintro
  iexact Hr

end Reg2
end Cert.KernelIdeal.Hand
end
-- ==== Proof.KI.Reg3.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (`cc3__bn_apply_kernel`): the body half at the region-entry contents `V`

The kernel loads each input window's staging buffer whole, computes one value, and stores it whole into the
output window's staging buffer. So what the body leaves in the output buffer is a closed function of the input
blocks at the point (`out3_5`), every input buffer holds its block at every point whether or not it was
fetched there (`before3_w`), and the body obligation follows from the kernel's triple (`sound_kernel3`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): where the window is not
    fetched its block index has not moved, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): where the window is not
    fetched its block index has not moved, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S6000x32 := Rect.unit (s := S6000x32) ![0, 0] S6000x32.size inb_S6000x32_S6000x32_0_0
abbrev r3_1 : Rect S1x32 := Rect.unit (s := S1x32) ![0, 0] S1x32.size inb_S1x32_S1x32_0_0

/-! ## What the body leaves in the output window's buffer -/

/-- Window 5's staging buffer after the body, from the input windows' blocks: its one store, of the value
    computed from the loaded blocks, over the whole buffer. -/
def out3_5 (x0 : Vec F S6000x32 .f32) (x1 : Vec F S1x32 .f32) (x2 : Vec F S1x32 .f32) (x3 : Vec F S1x32 .f32) (x4 : Vec F S1x32 .f32) : Vec F S6000x32 .f32 :=
  View.canon [⟨r3_0, k3_pay1 (View.ld x0 r3_0) (View.ld x1 r3_1) (View.ld x2 r3_1) (View.ld x3 r3_1) (View.ld x4 r3_1)⟩]

/-- The store's rectangle is the whole buffer (checked by evaluation), so it covers it. -/
theorem cover3_5 (p0 : Vec F S6000x32 .f32) (y : S6000x32.Idx) :
    ∃ pc ∈ ([⟨r3_0, p0⟩] : List (View.Piece (Elt F) S6000x32 .f32)), y ∈ pc.1.set :=
  View.cover_of_tiled [⟨r3_0, p0⟩] S6000x32.size (by rfl) y

/-! ## The body's triple -/

set_option maxHeartbeats 1000000 in
/-- The kernel body on whole staging memrefs, the inputs' at read contents `xW` and the output's at anything, runs to
    the continuation holding the inputs' as they were and the output's at `out3_5` of the inputs': the printed
    function is its skeleton of memory operations, which is run operation by operation. -/
theorem sound_kernel3 (c : Dev nD) (E : Set ℕ) (i : grid3.Coords) (arg1 : Memref sig .tc .vmem S6000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S6000x32 .f32) (harg6 : arg6.IsWhole)
    (x0 : Vec F S6000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the
    invariant keeps the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_w`), so `sound_kernel3` applies; the
    invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.StatsLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg4
variable (V : (c : Dev nD) → (b : Ref sig .tc) → Buf (Elt F) ((c : Thread nD τ).loc b))

abbrev c4_1 (i : grid4.Coords) : Prop := (Scalar.cmpi .ne (Scalar.extui (Scalar.cmpi .eq (BitVec.ofNat 32 (i 0).val) 0#32)) 0#32) = 1#1

set_option maxHeartbeats 1000000 in
theorem sound_kernel4_only (c : Dev nD) (E : Set ℕ) (i : grid4.Coords) (hc1 : c4_1 i) (hc2 : k4_cond2 i = 1#1)
    (arg1 : Memref sig .tc .vmem S64x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (x0 : Vec F S64x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0
            ∗ owns (c : Thread nD τ) arg2 fullShare (k4_pay3 x0 k4_pay1) ∗ owns (c : Thread nD τ) arg3 fullShare (k4_pay4 x0 k4_pay2)
            ∗ owns (c : Thread nD τ) arg4 fullShare (k4_pay3 x0 k4_pay1) ∗ owns (c : Thread nD τ) arg5 fullShare (k4_pay4 x0 k4_pay2)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]
  isplitl [H2]
  · iexists _; isplitr
    swap; · iexact H2
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]
  isplitl [H3]
  · iexists _; isplitr
    swap; · iexact H3
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]
  · iexists _; isplitr
    swap; · iexact H4
    ipureintro
    sl_unfold_run_names
    simp only [read_writes_unit (S := S1x32) _ _ hz2, readCov_cons_unit (S := S1x32) _ hz2, View.readAt_eq_ld, View.ld_unit_zero (S := S64x32) hz2, View.ld_unit_zero (S := S1x32) hz2]

/-! ## The windows' blocks -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The accumulators -/

def acc4_s (c : Dev nD) : ℕ → Vec F S1x32 .f32
  | 0 => k4_pay1
  | n + 1 => if h : n < cfg4.N then k4_pay3 (iblk4 V c 0 ⟨n, h⟩) (acc4_s c n) else acc4_s c n

def acc4_q (c : Dev nD) : ℕ → Vec F S1x32 .f32
  | 0 => k4_pay2
  | n + 1 => if h : n < cfg4.N then k4_pay4 (iblk4 V c 0 ⟨n, h⟩) (acc4_q c n) else acc4_q c n

theorem acc4_s_succ (c : Dev nD) (t : Fin cfg4.N) : acc4_s V c (t.val + 1) = k4_pay3 (iblk4 V c 0 t) (acc4_s V c t.val) := by
  rw [acc4_s, dif_pos t.isLt]
theorem acc4_q_succ (c : Dev nD) (t : Fin cfg4.N) : acc4_q V c (t.val + 1) = k4_pay4 (iblk4 V c 0 t) (acc4_q V c t.val) := by
  rw [acc4_q, dif_pos t.isLt]

/-! ## The invariant -/

abbrev scM4_0 : Memref sig .tc .vmem S1x32 .f32 := Memref.whole cc4_scratch0
abbrev scM4_1 : Memref sig .tc .vmem S1x32 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

def Phi4 (c : Dev nD) : ℕ → sProp 𝕄
  | 0 => Pipeline.ΦA spec4 c
  | n + 1 => iprop(iprop(iprop(owns (c : Thread nD τ) scM4_0 fullShare (acc4_s V c (n + 1)) ∗ owns (c : Thread nD τ) scM4_1 fullShare (acc4_q V c (n + 1))) ∗ rest4 c) ∗ (∃ r, prngReg c r))

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4_s V c (t.val + 1)
    | ⟨2, _⟩ => acc4_q V c (t.val + 1)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = acc4_s V c (t.val + 1) := by dsimp only [dat4]
theorem after4_2 (c : Dev nD) (t : Fin cfg4.N) : (dat4 V c).after 2 t = acc4_q V c (t.val + 1) := by dsimp only [dat4]

theorem before4_0 (c : Dev nD) (t : Fin cfg4.N) (d) : (dat4 V c).before 0 t d = iblk4 V c 0 t :=
  before4_0_of V (dat4 V c) (A_eq4 V c 0) (after4_0 V c) t d

theorem hc4_1 : ∀ t : Fin cfg4.N, c4_1 (grid4.coords t) :=
  (by decide +kernel : ∀ t : Fin grid4.N, c4_1 (grid4.coords t))
theorem hc4_2 : ∀ t : Fin cfg4.N, k4_cond2 (grid4.coords t) = 1#1 :=
  (by decide +kernel : ∀ t : Fin grid4.N, k4_cond2 (grid4.coords t) = 1#1)
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have ht : t.val = 0 := by have := t.isLt; have hN : cfg4.N = 1 := N_4; omega
  rw [show (dat4 V c).Φ t.succ = Phi4 V c (t.val + 1) from rfl, show (dat4 V c).Φ t.castSucc = Phi4 V c t.val from rfl]
  rw [acc4_s_succ, acc4_q_succ, ht]
  rw [show Phi4 V c 0 = Pipeline.ΦA spec4 c from rfl, PhiA4_eq]
  rw [show Phi4 V c (0 + 1) = iprop(iprop(iprop(owns (c : Thread nD τ) scM4_0 fullShare (acc4_s V c (0 + 1)) ∗ owns (c : Thread nD τ) scM4_1 fullShare (acc4_q V c (0 + 1))) ∗ rest4 c) ∗ (∃ r, prngReg c r)) from rfl]
  rw [show acc4_s V c (0 + 1) = k4_pay3 (iblk4 V c 0 t) (acc4_s V c 0) from by rw [← ht, acc4_s_succ]]
  rw [show acc4_q V c (0 + 1) = k4_pay4 (iblk4 V c 0 t) (acc4_q V c 0) from by rw [← ht, acc4_q_succ]]
  rw [show acc4_s V c 0 = k4_pay1 from rfl, show acc4_q V c 0 = k4_pay2 from rfl]
  iintro ⟨⟨⟨⟨HS0, HS1⟩, Hrest⟩, Hg⟩, Ho, ⟨%d0, H0⟩, ⟨%d1, H1⟩, ⟨%d2, H2⟩⟩
  iapply (sound_kernel4_only c Set.univ (grid4.coords t) (hc4_1 t) (hc4_2 t) _ _ _ _ _ _ _ _ _ _ (iblk4 V c 0 t) _)
  isplitl [H0]; · iexact H0
  isplitl [H1]; · iexists _; iexact H1
  isplitl [H2]; · iexists _; iexact H2
  isplitl [HS0]; · iexact HS0
  isplitl [HS1]; · iexact HS1
  iintro ⟨H0, H1, H2, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

/-! ## The invariant's two ends -/

theorem Phi4_out (c : Dev nD) (n : ℕ) : Phi4 V c (n + 1) ⊢ Pipeline.ΦA spec4 c := by
  rw [PhiA4_eq]
  show iprop(iprop(iprop(owns (c : Thread nD τ) scM4_0 fullShare (acc4_s V c (n + 1)) ∗ owns (c : Thread nD τ) scM4_1 fullShare (acc4_q V c (n + 1))) ∗ rest4 c) ∗ (∃ r, prngReg c r)) ⊢ _
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hin4 (c : Dev nD) :
    iprop((∃ r, prngReg c r) ∗ Pipeline.prefHeld (Ix := Unit) (Name := ℕ) (U := UR sig nD τ) (Lvl := ℕ) (pcfgs (F := F) 4).pre c (fun _ => fullShare) ((cfgs 4).toPCfg_adm).1
        ∗ Pipeline.scopedRest spec4 c) ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

theorem hout4 (c : Dev nD) :
    (dat4 V c).Φ (Fin.last cfg4.N) ⊢ iprop((∃ r, prngReg c r) ∗ Pipeline.ownSems0 (fun k : PEmpty => k.elim) c ∗ Pipeline.scopedRest spec4 c) := by
  have hN : (Fin.last cfg4.N).val = 0 + 1 := by rw [Fin.val_last]; exact N_4
  rw [show (dat4 V c).Φ (Fin.last cfg4.N) = Phi4 V c (Fin.last cfg4.N).val from rfl, hN]
  refine (Phi4_out V c 0).trans ?_
  rw [Pipeline.ownSems0_none]; unfold Pipeline.ΦA
  iintro ⟨Hr, Hp⟩
  isplitl [Hp]; · iexact Hp
  isplitr; · iempintro
  iexact Hr

end Reg4
end Cert.KernelIdeal.Hand
end
-- ==== Proof.KI.Reg5.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 (`cc5__bn_apply_kernel`): the body half at the region-entry contents `V`

The kernel loads each input window's staging buffer whole, computes one value, and stores it whole into the
output window's staging buffer. So what the body leaves in the output buffer is a closed function of the input
blocks at the point (`out5_5`), every input buffer holds its block at every point whether or not it was
fetched there (`before5_w`), and the body obligation follows from the kernel's triple (`sound_kernel5`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S64x32 := Rect.unit (s := S64x32) ![0, 0] S64x32.size inb_S64x32_S64x32_0_0
abbrev r5_1 : Rect S1x32 := Rect.unit (s := S1x32) ![0, 0] S1x32.size inb_S1x32_S1x32_0_0

/-! ## What the body leaves in the output window's buffer -/

/-- Window 5's staging buffer after the body, from the input windows' blocks: its one store, of the value
    computed from the loaded blocks, over the whole buffer. -/
def out5_5 (x0 : Vec F S64x32 .f32) (x1 : Vec F S1x32 .f32) (x2 : Vec F S1x32 .f32) (x3 : Vec F S1x32 .f32) (x4 : Vec F S1x32 .f32) : Vec F S64x32 .f32 :=
  View.canon [⟨r5_0, k5_pay1 (View.ld x0 r5_0) (View.ld x1 r5_1) (View.ld x2 r5_1) (View.ld x3 r5_1) (View.ld x4 r5_1)⟩]

/-- The store's rectangle is the whole buffer (checked by evaluation), so it covers it. -/
theorem cover5_5 (p0 : Vec F S64x32 .f32) (y : S64x32.Idx) :
    ∃ pc ∈ ([⟨r5_0, p0⟩] : List (View.Piece (Elt F) S64x32 .f32)), y ∈ pc.1.set :=
  View.cover_of_tiled [⟨r5_0, p0⟩] S64x32.size (by rfl) y

/-! ## The body's triple -/

set_option maxHeartbeats 1000000 in
/-- The kernel body on whole staging memrefs, the inputs' at read contents `xW` and the output's at anything, runs to
    the continuation holding the inputs' as they were and the output's at `out5_5` of the inputs': the printed
    function is its skeleton of memory operations, which is run operation by operation. -/
theorem sound_kernel5 (c : Dev nD) (E : Set ℕ) (i : grid5.Coords) (arg1 : Memref sig .tc .vmem S64x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S64x32 .f32) (harg6 : arg6.IsWhole)
    (x0 : Vec F S64x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the
    invariant keeps the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_w`), so `sound_kernel5` applies; the
    invariant and the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 (`cc6_kernel`): the body half at the region-entry contents `V`

The kernel loads each input window's staging buffer whole, computes one value, and stores it whole into the
output window's staging buffer. So what the body leaves in the output buffer is a closed function of the input
blocks at the point (`out6_9`), every input buffer holds its block at every point whether or not it was
fetched there (`before6_w`), and the body obligation follows from the kernel's triple (`sound_kernel6`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): where the window is not
    fetched its block index has not moved, the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): where the window is not
    fetched its block index has not moved, the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): where the window is not
    fetched its block index has not moved, the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): where the window is not
    fetched its block index has not moved, the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): where the window is not
    fetched its block index has not moved, the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s (`hA`) and whose body leaves the block in place (`hafter`): where the window is not
    fetched its block index has not moved, the window is uncut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s (`hA`) and whose body leaves the block in place (`hafter`): where the window is not
    fetched its block index has not moved, the window is uncut and never idle. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not, for any proof
    data whose array is `V`'s (`hA`) and whose body leaves the block in place (`hafter`): where the window is not
    fetched its block index has not moved, the window is uncut and never idle. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S6000x64 := Rect.unit (s := S6000x64) ![0, 0] S6000x64.size inb_S6000x64_S6000x64_0_0
abbrev r6_1 : Rect S6000x32 := Rect.unit (s := S6000x32) ![0, 0] S6000x32.size inb_S6000x32_S6000x32_0_0
abbrev r6_2 : Rect S64x64 := Rect.unit (s := S64x64) ![0, 0] S64x64.size inb_S64x64_S64x64_0_0
abbrev r6_3 : Rect S32x64 := Rect.unit (s := S32x64) ![0, 0] S32x64.size inb_S32x64_S32x64_0_0
abbrev r6_4 : Rect S1x64 := Rect.unit (s := S1x64) ![0, 0] S1x64.size inb_S1x64_S1x64_0_0

/-! ## What the body leaves in the output window's buffer -/

/-- Window 9's staging buffer after the body, from the input windows' blocks: its one store, of the value
    computed from the loaded blocks, over the whole buffer. -/
def out6_9 (x0 : Vec F S6000x64 .f32) (x1 : Vec F S6000x64 .f32) (x2 : Vec F S6000x32 .f32) (x3 : Vec F S6000x32 .f32) (x4 : Vec F S64x64 .f32) (x5 : Vec F S64x64 .f32) (x6 : Vec F S32x64 .f32) (x7 : Vec F S32x64 .f32) (x8 : Vec F S1x64 .f32) : Vec F S6000x64 .f32 :=
  View.canon [⟨r6_0, k6_pay1 (k6_pay2 (View.ld x0 r6_0) (View.ld x4 r6_2) (View.ld x1 r6_0) (View.ld x5 r6_2) (View.ld x2 r6_1) (View.ld x6 r6_3) (View.ld x3 r6_1) (View.ld x7 r6_3) (View.ld x8 r6_4)) (k6_pay3 (F := F))⟩]

/-- The store's rectangle is the whole buffer (checked by evaluation), so it covers it. -/
theorem cover6_9 (p0 : Vec F S6000x64 .f32) (y : S6000x64.Idx) :
    ∃ pc ∈ ([⟨r6_0, p0⟩] : List (View.Piece (Elt F) S6000x64 .f32)), y ∈ pc.1.set :=
  View.cover_of_tiled [⟨r6_0, p0⟩] S6000x64.size (by rfl) y

/-! ## The body's triple -/

set_option maxHeartbeats 1000000 in
/-- The kernel body on whole staging memrefs, the inputs' at read contents `xW` and the output's at anything, runs to
    the continuation holding the inputs' as they were and the output's at `out6_9` of the inputs': the printed
    function is its skeleton of memory operations, which is run operation by operation. -/
theorem sound_kernel6 (c : Dev nD) (E : Set ℕ) (i : grid6.Coords) (arg1 : Memref sig .tc .vmem S6000x64 .f32) (harg1 : arg1.IsWhole) (arg2 : Memref sig .tc .vmem S6000x64 .f32) (harg2 : arg2.IsWhole) (arg3 : Memref sig .tc .vmem S6000x32 .f32) (harg3 : arg3.IsWhole) (arg4 : Memref sig .tc .vmem S6000x32 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S32x64 .f32) (harg7 : arg7.IsWhole) (arg8 : Memref sig .tc .vmem S32x64 .f32) (harg8 : arg8.IsWhole) (arg9 : Memref sig .tc .vmem S1x64 .f32) (harg9 : arg9.IsWhole) (arg10 : Memref sig .tc .vmem S6000x64 .f32) (harg10 : arg10.IsWhole)
    (x0 : Vec F S6000x64 .f32) (x1 : Vec F S6000x64 .f32) (x2 : Vec F S6000x32 .f32) (x3 : Vec F S6000x32 .f32) (x4 : Vec F S64x64 .f32) (x5 : Vec F S64x64 .f32) (x6 : Vec F S32x64 .f32) (x7 : Vec F S32x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9 arg10 harg10) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-! ## The pipeline's proof data -/

/-- The proof data of pipeline 6 on core `c`: the arrays as the region finds them (`V`); after the body at
    point `t` each input's buffer at its block and the output's at `out6_9` of the input blocks; the
    invariant keeps the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

/-- The body at any point: the inputs' memrefs hold their blocks (`before6_w`), so `sound_kernel6` applies; the
    invariant and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7 (`cc7_kernel`): the body half at the region-entry contents `V`

The kernel loads each input window's staging buffer whole, computes one value, and stores it whole into the
output window's staging buffer. So what the body leaves in the output buffer is a closed function of the input
blocks at the point (`out7_7`), every input buffer holds its block at every point whether or not it was
fetched there (`before7_w`), and the body obligation follows from the kernel's triple (`sound_kernel7`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): where the window is not
    fetched its block index has not moved, the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): where the window is not
    fetched its block index has not moved, the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): where the window is not
    fetched its block index has not moved, the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): where the window is not
    fetched its block index has not moved, the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): where the window is not
    fetched its block index has not moved, the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is `V`'s (`hA`) and whose body leaves the block in place (`hafter`): where the window is not
    fetched its block index has not moved, the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof
    data whose array is `V`'s (`hA`) and whose body leaves the block in place (`hafter`): where the window is not
    fetched its block index has not moved, the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S6000x64 := Rect.unit (s := S6000x64) ![0, 0] S6000x64.size inb_S6000x64_S6000x64_0_0
abbrev r7_1 : Rect S6000x32 := Rect.unit (s := S6000x32) ![0, 0] S6000x32.size inb_S6000x32_S6000x32_0_0
abbrev r7_2 : Rect S64x64 := Rect.unit (s := S64x64) ![0, 0] S64x64.size inb_S64x64_S64x64_0_0
abbrev r7_3 : Rect S32x64 := Rect.unit (s := S32x64) ![0, 0] S32x64.size inb_S32x64_S32x64_0_0
abbrev r7_4 : Rect S1x64 := Rect.unit (s := S1x64) ![0, 0] S1x64.size inb_S1x64_S1x64_0_0

/-! ## What the body leaves in the output window's buffer -/

/-- Window 7's staging buffer after the body, from the input windows' blocks: its one store, of the value
    computed from the loaded blocks, over the whole buffer. -/
def out7_7 (x0 : Vec F S6000x64 .f32) (x1 : Vec F S6000x64 .f32) (x2 : Vec F S6000x32 .f32) (x3 : Vec F S64x64 .f32) (x4 : Vec F S64x64 .f32) (x5 : Vec F S32x64 .f32) (x6 : Vec F S1x64 .f32) : Vec F S6000x64 .f32 :=
  View.canon [⟨r7_0, k7_pay1 (View.ld x0 r7_0) (View.ld x3 r7_2) (View.ld x1 r7_0) (View.ld x4 r7_2) (View.ld x2 r7_1) (View.ld x5 r7_3) (View.ld x6 r7_4)⟩]

/-- The store's rectangle is the whole buffer (checked by evaluation), so it covers it. -/
theorem cover7_7 (p0 : Vec F S6000x64 .f32) (y : S6000x64.Idx) :
    ∃ pc ∈ ([⟨r7_0, p0⟩] : List (View.Piece (Elt F) S6000x64 .f32)), y ∈ pc.1.set :=
  View.cover_of_tiled [⟨r7_0, p0⟩] S6000x64.size (by rfl) y

/-! ## The body's triple -/

set_option maxHeartbeats 1000000 in
/-- The kernel body on whole staging memrefs, the inputs' at read contents `xW` and the output's at anything, runs to
    the continuation holding the inputs' as they were and the output's at `out7_7` of the inputs': the printed
    function is its skeleton of memory operations, which is run operation by operation. -/
theorem sound_kernel7 (c : Dev nD) (E : Set ℕ) (i : grid7.Coords) (arg1 : Memref sig .tc .vmem S6000x64 .f32) (harg1 : arg1.IsWhole) (arg2 : Memref sig .tc .vmem S6000x64 .f32) (harg2 : arg2.IsWhole) (arg3 : Memref sig .tc .vmem S6000x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S32x64 .f32) (harg6 : arg6.IsWhole) (arg7 : Memref sig .tc .vmem S1x64 .f32) (harg7 : arg7.IsWhole) (arg8 : Memref sig .tc .vmem S6000x64 .f32) (harg8 : arg8.IsWhole)
    (x0 : Vec F S6000x64 .f32) (x1 : Vec F S6000x64 .f32) (x2 : Vec F S6000x32 .f32) (x3 : Vec F S64x64 .f32) (x4 : Vec F S64x64 .f32) (x5 : Vec F S32x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7_kernel i arg1 harg1 arg2 harg2 arg3 harg3 arg4 harg4 arg5 harg5 arg6 harg6 arg7 harg7 arg8 harg8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core `c`: the arrays as the region finds them (`V`); after the body at
    point `t` each input's buffer at its block and the output's at `out7_7` of the input blocks; the
    invariant keeps the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks (`before7_w`), so `sound_kernel7` applies; the
    invariant and the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 (`cc8_kernel`): the body half at the region-entry contents `V`

The kernel loads each input window's staging buffer whole, computes one value, and stores it whole into the
output window's staging buffer. So what the body leaves in the output buffer is a closed function of the input
blocks at the point (`out8_5`), every input buffer holds its block at every point whether or not it was
fetched there (`before8_w`), and the body obligation follows from the kernel's triple (`sound_kernel8`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): where the window is not
    fetched its block index has not moved, the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s (`hA`) and whose body leaves the block in place (`hafter`): where the window is not
    fetched its block index has not moved, the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s (`hA`) and whose body leaves the block in place (`hafter`): where the window is not
    fetched its block index has not moved, the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s (`hA`) and whose body leaves the block in place (`hafter`): where the window is not
    fetched its block index has not moved, the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S64x64 := Rect.unit (s := S64x64) ![0, 0] S64x64.size inb_S64x64_S64x64_0_0
abbrev r8_1 : Rect S64x32 := Rect.unit (s := S64x32) ![0, 0] S64x32.size inb_S64x32_S64x32_0_0
abbrev r8_2 : Rect S32x64 := Rect.unit (s := S32x64) ![0, 0] S32x64.size inb_S32x64_S32x64_0_0
abbrev r8_3 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out8_5 (x0 : Vec F S64x64 .f32) (x1 : Vec F S64x32 .f32) (x2 : Vec F S64x64 .f32) (x3 : Vec F S32x64 .f32) (x4 : Vec F S1x64 .f32) : Vec F S64x64 .f32 :=
  View.canon [⟨r8_0, k8_pay1 (View.ld x0 r8_0) (View.ld x2 r8_0) (View.ld x1 r8_1) (View.ld x3 r8_2) (View.ld x4 r8_3)⟩]

/-- The store's rectangle is the whole buffer (checked by evaluation), so it covers it. -/
theorem cover8_5 (p0 : Vec F S64x64 .f32) (y : S64x64.Idx) :
    ∃ pc ∈ ([⟨r8_0, p0⟩] : List (View.Piece (Elt F) S64x64 .f32)), y ∈ pc.1.set :=
  View.cover_of_tiled [⟨r8_0, p0⟩] S64x64.size (by rfl) y

/-! ## The body's triple -/

set_option maxHeartbeats 1000000 in
/-- The kernel body on whole staging memrefs, the inputs' at read contents `xW` and the output's at anything, runs to
    the continuation holding the inputs' as they were and the output's at `out8_5` of the inputs': the printed
    function is its skeleton of memory operations, which is run operation by operation. -/
theorem sound_kernel8 (c : Dev nD) (E : Set ℕ) (i : grid8.Coords) (arg1 : Memref sig .tc .vmem S64x64 .f32) (harg1 : arg1.IsWhole) (arg2 : Memref sig .tc .vmem S64x32 .f32) (harg2 : arg2.IsWhole) (arg3 : Memref sig .tc .vmem S64x64 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole)
    (x0 : Vec F S64x64 .f32) (x1 : Vec F S64x32 .f32) (x2 : Vec F S64x64 .f32) (x3 : Vec F S32x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at
    point `t` each input's buffer at its block and the output's at `out8_5` of the input blocks; the
    invariant keeps the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_w`), so `sound_kernel8` applies; the
    invariant and the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9 (`cc9_kernel`): the body half at the region-entry contents `V`

The kernel loads each input window's staging buffer whole, computes one value, and stores it whole into the
output window's staging buffer. So what the body leaves in the output buffer is a closed function of the input
blocks at the point (`out9_9`), every input buffer holds its block at every point whether or not it was
fetched there (`before9_w`), and the body obligation follows from the kernel's triple (`sound_kernel9`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): where the window is not
    fetched its block index has not moved, the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): where the window is not
    fetched its block index has not moved, the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): where the window is not
    fetched its block index has not moved, the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): where the window is not
    fetched its block index has not moved, the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s (`hA`) and whose body leaves the block in place (`hafter`): where the window is not
    fetched its block index has not moved, the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for any proof
    data whose array is `V`'s (`hA`) and whose body leaves the block in place (`hafter`): where the window is not
    fetched its block index has not moved, the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not, for any proof
    data whose array is `V`'s (`hA`) and whose body leaves the block in place (`hafter`): where the window is not
    fetched its block index has not moved, the window is uncut and never idle. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Input window 7's current staging buffer holds its block at every point, fetched there or not, for any proof
    data whose array is `V`'s (`hA`) and whose body leaves the block in place (`hafter`): where the window is not
    fetched its block index has not moved, the window is uncut and never idle. -/
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-- Input window 8's current staging buffer holds its block at every point, fetched there or not, for any proof
    data whose array is `V`'s (`hA`) and whose body leaves the block in place (`hafter`): where the window is not
    fetched its block index has not moved, the window is uncut and never idle. -/
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S6000x64 := Rect.unit (s := S6000x64) ![0, 0] S6000x64.size inb_S6000x64_S6000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0

/-! ## What the body leaves in the output window's buffer -/

/-- Window 9's staging buffer after the body, from the input windows' blocks: its one store, of the value
    computed from the loaded blocks, over the whole buffer. -/
def out9_9 (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) : Vec F S6000x64 .f32 :=
  View.canon [⟨r9_0, k9_pay1 (k9_pay2 (View.ld x0 r9_0) (View.ld x4 r9_1) (View.ld x1 r9_0) (View.ld x5 r9_1) (View.ld x2 r9_0) (View.ld x6 r9_1) (View.ld x3 r9_0) (View.ld x7 r9_1) (View.ld x8 r9_2)) (k9_pay3 (F := F))⟩]

/-- The store's rectangle is the whole buffer (checked by evaluation), so it covers it. -/
theorem cover9_9 (p0 : Vec F S6000x64 .f32) (y : S6000x64.Idx) :
    ∃ pc ∈ ([⟨r9_0, p0⟩] : List (View.Piece (Elt F) S6000x64 .f32)), y ∈ pc.1.set :=
  View.cover_of_tiled [⟨r9_0, p0⟩] S6000x64.size (by rfl) y

/-! ## The body's triple -/

set_option maxHeartbeats 1000000 in
/-- The kernel body on whole staging memrefs, the inputs' at read contents `xW` and the output's at anything, runs to
    the continuation holding the inputs' as they were and the output's at `out9_9` of the inputs': the printed
    function is its skeleton of memory operations, which is run operation by operation. -/
theorem sound_kernel9 (c : Dev nD) (E : Set ℕ) (i : grid9.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S6000x64 .f32) (harg10 : arg10.IsWhole)
    (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9_9 x0 x1 x2 x3 x4 x5 x6 x7 x8)) -∗ K ⟨⟩))
      ⊢ wp frame (wpE (defs₀ (F := F)) Variants.none c none) E (cc9_kernel i arg1 harg1 arg2 harg2 arg3 harg3 arg4 harg4 arg5 harg5 arg6 harg6 arg7 harg7 arg8 harg8 arg9 harg9 arg10 harg10) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9_9 _)

/-! ## The pipeline's proof data -/

/-- The proof data of pipeline 9 on core `c`: the arrays as the region finds them (`V`); after the body at
    point `t` each input's buffer at its block and the output's at `out9_9` of the input blocks; the
    invariant keeps the scoped rest and the generator register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out9_9 (iblk9 V c 0 t) (iblk9 V c 1 t) (iblk9 V c 2 t) (iblk9 V c 3 t) (iblk9 V c 4 t) (iblk9 V c 5 t) (iblk9 V c 6 t) (iblk9 V c 7 t) (iblk9 V c 8 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = out9_9 (iblk9 V c 0 t) (iblk9 V c 1 t) (iblk9 V c 2 t) (iblk9 V c 3 t) (iblk9 V c 4 t) (iblk9 V c 5 t) (iblk9 V c 6 t) (iblk9 V c 7 t) (iblk9 V c 8 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t))

/-- The body at any point: the inputs' memrefs hold their blocks (`before9_w`), so `sound_kernel9` applies; the
    invariant and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel9 c Set.univ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 10 (`cc10_kernel`): the body half at the region-entry contents `V`

The kernel loads each input window's staging buffer whole, computes one value, and stores it whole into the
output window's staging buffer. So what the body leaves in the output buffer is a closed function of the input
blocks at the point (`out10_7`), every input buffer holds its block at every point whether or not it was
fetched there (`before10_w`), and the body obligation follows from the kernel's triple (`sound_kernel10`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): where the window is not
    fetched its block index has not moved, the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): where the window is not
    fetched its block index has not moved, the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): where the window is not
    fetched its block index has not moved, the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): where the window is not
    fetched its block index has not moved, the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): where the window is not
    fetched its block index has not moved, the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): where the window is not
    fetched its block index has not moved, the window is uncut and never idle. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s (`hA`) and whose body leaves the block in place (`hafter`): where the window is not
    fetched its block index has not moved, the window is uncut and never idle. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer whole -/

abbrev r10_0 : Rect S6000x64 := Rect.unit (s := S6000x64) ![0, 0] S6000x64.size inb_S6000x64_S6000x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0

/-! ## What the body leaves in the output window's buffer -/

/-- Window 7's staging buffer after the body, from the input windows' blocks: its one store, of the value
    computed from the loaded blocks, over the whole buffer. -/
def out10_7 (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) : Vec F S6000x64 .f32 :=
  View.canon [⟨r10_0, k10_pay1 (View.ld x0 r10_0) (View.ld x3 r10_1) (View.ld x1 r10_0) (View.ld x4 r10_1) (View.ld x2 r10_0) (View.ld x5 r10_1) (View.ld x6 r10_2)⟩]

/-- The store's rectangle is the whole buffer (checked by evaluation), so it covers it. -/
theorem cover10_7 (p0 : Vec F S6000x64 .f32) (y : S6000x64.Idx) :
    ∃ pc ∈ ([⟨r10_0, p0⟩] : List (View.Piece (Elt F) S6000x64 .f32)), y ∈ pc.1.set :=
  View.cover_of_tiled [⟨r10_0, p0⟩] S6000x64.size (by rfl) y

/-! ## The body's triple -/

set_option maxHeartbeats 1000000 in
/-- The kernel body on whole staging memrefs, the inputs' at read contents `xW` and the output's at anything, runs to
    the continuation holding the inputs' as they were and the output's at `out10_7` of the inputs': the printed
    function is its skeleton of memory operations, which is run operation by operation. -/
theorem sound_kernel10 (c : Dev nD) (E : Set ℕ) (i : grid10.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S6000x64 .f32) (harg8 : arg8.IsWhole)
    (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The pipeline's proof data -/

/-- The proof data of pipeline 10 on core `c`: the arrays as the region finds them (`V`); after the body at
    point `t` each input's buffer at its block and the output's at `out10_7` of the input blocks; the
    invariant keeps the scoped rest and the generator register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' memrefs hold their blocks (`before10_w`), so `sound_kernel10` applies; the
    invariant and the core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Reg11.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11 (`cc11_kernel`): the body half at the region-entry contents `V`

The kernel loads each input window's staging buffer whole, computes one value, and stores it whole into the
output window's staging buffer. So what the body leaves in the output buffer is a closed function of the input
blocks at the point (`out11_5`), every input buffer holds its block at every point whether or not it was
fetched there (`before11_w`), and the body obligation follows from the kernel's triple (`sound_kernel11`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): where the window is not
    fetched its block index has not moved, the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): where the window is not
    fetched its block index has not moved, the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): where the window is not
    fetched its block index has not moved, the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s (`hA`) and whose body leaves the block in place (`hafter`): where the window is not
    fetched its block index has not moved, the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s (`hA`) and whose body leaves the block in place (`hafter`): where the window is not
    fetched its block index has not moved, the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev r11_0 : Rect S64x64 := Rect.unit (s := S64x64) ![0, 0] S64x64.size inb_S64x64_S64x64_0_0
abbrev r11_1 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out11_5 (x0 : Vec F S64x64 .f32) (x1 : Vec F S64x64 .f32) (x2 : Vec F S64x64 .f32) (x3 : Vec F S64x64 .f32) (x4 : Vec F S1x64 .f32) : Vec F S64x64 .f32 :=
  View.canon [⟨r11_0, k11_pay1 (View.ld x0 r11_0) (View.ld x2 r11_0) (View.ld x1 r11_0) (View.ld x3 r11_0) (View.ld x4 r11_1)⟩]

/-- The store's rectangle is the whole buffer (checked by evaluation), so it covers it. -/
theorem cover11_5 (p0 : Vec F S64x64 .f32) (y : S64x64.Idx) :
    ∃ pc ∈ ([⟨r11_0, p0⟩] : List (View.Piece (Elt F) S64x64 .f32)), y ∈ pc.1.set :=
  View.cover_of_tiled [⟨r11_0, p0⟩] S64x64.size (by rfl) y

/-! ## The body's triple -/

set_option maxHeartbeats 1000000 in
/-- The kernel body on whole staging memrefs, the inputs' at read contents `xW` and the output's at anything, runs to
    the continuation holding the inputs' as they were and the output's at `out11_5` of the inputs': the printed
    function is its skeleton of memory operations, which is run operation by operation. -/
theorem sound_kernel11 (c : Dev nD) (E : Set ℕ) (i : grid11.Coords) (arg1 : Memref sig .tc .vmem S64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole)
    (x0 : Vec F S64x64 .f32) (x1 : Vec F S64x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of pipeline 11 on core `c`: the arrays as the region finds them (`V`); after the body at
    point `t` each input's buffer at its block and the output's at `out11_5` of the input blocks; the
    invariant keeps the scoped rest and the generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks (`before11_w`), so `sound_kernel11` applies; the
    invariant and the core's debt pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg12.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12 (`cc12_kernel`): the body half at the region-entry contents `V`

The kernel loads each input window's staging buffer whole, computes one value, and stores it whole into the
output window's staging buffer. So what the body leaves in the output buffer is a closed function of the input
blocks at the point (`out12_9`), every input buffer holds its block at every point whether or not it was
fetched there (`before12_w`), and the body obligation follows from the kernel's triple (`sound_kernel12`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): where the window is not
    fetched its block index has not moved, the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is `V`'s (`hA`) and whose body leaves the block in place (`hafter`): where the window is not
    fetched its block index has not moved, the window is uncut and never idle. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is `V`'s (`hA`) and whose body leaves the block in place (`hafter`): where the window is not
    fetched its block index has not moved, the window is uncut and never idle. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is `V`'s (`hA`) and whose body leaves the block in place (`hafter`): where the window is not
    fetched its block index has not moved, the window is uncut and never idle. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for any proof
    data whose array is `V`'s (`hA`) and whose body leaves the block in place (`hafter`): where the window is not
    fetched its block index has not moved, the window is uncut and never idle. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not, for any proof
    data whose array is `V`'s (`hA`) and whose body leaves the block in place (`hafter`): where the window is not
    fetched its block index has not moved, the window is uncut and never idle. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not, for any proof
    data whose array is `V`'s (`hA`) and whose body leaves the block in place (`hafter`): where the window is not
    fetched its block index has not moved, the window is uncut and never idle. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-- Input window 7's current staging buffer holds its block at every point, fetched there or not, for any proof
    data whose array is `V`'s (`hA`) and whose body leaves the block in place (`hafter`): where the window is not
    fetched its block index has not moved, the window is uncut and never idle. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- Input window 8's current staging buffer holds its block at every point, fetched there or not, for any proof
    data whose array is `V`'s (`hA`) and whose body leaves the block in place (`hafter`): where the window is not
    fetched its block index has not moved, the window is uncut and never idle. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S6000x64 := Rect.unit (s := S6000x64) ![0, 0] S6000x64.size inb_S6000x64_S6000x64_0_0
abbrev r12_1 : Rect S64x64 := Rect.unit (s := S64x64) ![0, 0] S64x64.size inb_S64x64_S64x64_0_0
abbrev r12_2 : Rect S1x64 := Rect.unit (s := S1x64) ![0, 0] S1x64.size inb_S1x64_S1x64_0_0

/-! ## What the body leaves in the output window's buffer -/

/-- Window 9's staging buffer after the body, from the input windows' blocks: its one store, of the value
    computed from the loaded blocks, over the whole buffer. -/
def out12_9 (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) : Vec F S6000x64 .f32 :=
  View.canon [⟨r12_0, k12_pay1 (k12_pay2 (View.ld x0 r12_0) (View.ld x4 r12_1) (View.ld x1 r12_0) (View.ld x5 r12_1) (View.ld x2 r12_0) (View.ld x6 r12_1) (View.ld x3 r12_0) (View.ld x7 r12_1) (View.ld x8 r12_2)) (k12_pay3 (F := F))⟩]

/-- The store's rectangle is the whole buffer (checked by evaluation), so it covers it. -/
theorem cover12_9 (p0 : Vec F S6000x64 .f32) (y : S6000x64.Idx) :
    ∃ pc ∈ ([⟨r12_0, p0⟩] : List (View.Piece (Elt F) S6000x64 .f32)), y ∈ pc.1.set :=
  View.cover_of_tiled [⟨r12_0, p0⟩] S6000x64.size (by rfl) y

/-! ## The body's triple -/

set_option maxHeartbeats 1000000 in
/-- The kernel body on whole staging memrefs, the inputs' at read contents `xW` and the output's at anything, runs to
    the continuation holding the inputs' as they were and the output's at `out12_9` of the inputs': the printed
    function is its skeleton of memory operations, which is run operation by operation. -/
theorem sound_kernel12 (c : Dev nD) (E : Set ℕ) (i : grid12.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S6000x64 .f32) (harg10 : arg10.IsWhole)
    (x0 : Vec F S6000x64 .f32) (x1 : Vec F S6000x64 .f32) (x2 : Vec F S6000x64 .f32) (x3 : Vec F S6000x64 .f32) (x4 : Vec F S64x64 .f32) (x5 : Vec F S64x64 .f32) (x6 : Vec F S64x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out12_9 x0 x1 x2 x3 x4 x5 x6 x7 x8)) -∗ K ⟨⟩))
      ⊢ wp frame (wpE (defs₀ (F := F)) Variants.none c none) E (cc12_kernel i arg1 harg1 arg2 harg2 arg3 harg3 arg4 harg4 arg5 harg5 arg6 harg6 arg7 harg7 arg8 harg8 arg9 harg9 arg10 harg10) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover12_9 _)

/-! ## The pipeline's proof data -/

/-- The proof data of pipeline 12 on core `c`: the arrays as the region finds them (`V`); after the body at
    point `t` each input's buffer at its block and the output's at `out12_9` of the input blocks; the
    invariant keeps the scoped rest and the generator register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t) (iblk12 V c 6 t) (iblk12 V c 7 t) (iblk12 V c 8 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = out12_9 (iblk12 V c 0 t) (iblk12 V c 1 t) (iblk12 V c 2 t) (iblk12 V c 3 t) (iblk12 V c 4 t) (iblk12 V c 5 t) (iblk12 V c 6 t) (iblk12 V c 7 t) (iblk12 V c 8 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t))

/-- The body at any point: the inputs' memrefs hold their blocks (`before12_w`), so `sound_kernel12` applies; the
    invariant and the core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel12 c Set.univ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Reg13.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 13 (`cc13_kernel`): the body half at the region-entry contents `V`

The kernel loads each input window's staging buffer whole, computes one value, and stores it whole into the
output window's staging buffer. So what the body leaves in the output buffer is a closed function of the input
blocks at the point (`out13_7`), every input buffer holds its block at every point whether or not it was
fetched there (`before13_w`), and the body obligation follows from the kernel's triple (`sound_kernel13`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is `V`'s (`hA`) and whose body leaves the block in place (`hafter`): where the window is not
    fetched its block index has not moved, the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is `V`'s (`hA`) and whose body leaves the block in place (`hafter`): where the window is not
    fetched its block index has not moved, the window is uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is `V`'s (`hA`) and whose body leaves the block in place (`hafter`): where the window is not
    fetched its block index has not moved, the window is uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is `V`'s (`hA`) and whose body leaves the block in place (`hafter`): where the window is not
    fetched its block index has not moved, the window is uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for any proof
    data whose array is `V`'s (`hA`) and whose body leaves the block in place (`hafter`): where the window is not
    fetched its block index has not moved, the window is uncut and never idle. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not, for any proof
    data whose array is `V`'s (`hA`) and whose body leaves the block in place (`hafter`): where the window is not
    fetched its block index has not moved, the window is uncut and never idle. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, fetched there or not, for any proof
    data whose array is `V`'s (`hA`) and whose body leaves the block in place (`hafter`): where the window is not
    fetched its block index has not moved, the window is uncut and never idle. -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer whole -/

abbrev r13_0 : Rect S6000x64 := Rect.unit (s := S6000x64) ![0, 0] S6000x64.size inb_S6000x64_S6000x64_0_0
abbrev r13_1 : Rect S64x64 := Rect.unit (s := S64x64) ![0, 0] S64x64.size inb_S64x64_S64x64_0_0
abbrev r13_2 : Rect S1x64 := Rect.unit (s := S1x64) ![0, 0] S1x64.size inb_S1x64_S1x64_0_0

/-! ## What the body leaves in the output window's buffer -/

/-- Window 7's staging buffer after the body, from the input windows' blocks: its one store, of the value
    computed from the loaded blocks, over the whole buffer. -/
def out13_7 (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) : Vec F S6000x64 .f32 :=
  View.canon [⟨r13_0, k13_pay1 (View.ld x0 r13_0) (View.ld x3 r13_1) (View.ld x1 r13_0) (View.ld x4 r13_1) (View.ld x2 r13_0) (View.ld x5 r13_1) (View.ld x6 r13_2)⟩]

/-- The store's rectangle is the whole buffer (checked by evaluation), so it covers it. -/
theorem cover13_7 (p0 : Vec F S6000x64 .f32) (y : S6000x64.Idx) :
    ∃ pc ∈ ([⟨r13_0, p0⟩] : List (View.Piece (Elt F) S6000x64 .f32)), y ∈ pc.1.set :=
  View.cover_of_tiled [⟨r13_0, p0⟩] S6000x64.size (by rfl) y

/-! ## The body's triple -/

set_option maxHeartbeats 1000000 in
/-- The kernel body on whole staging memrefs, the inputs' at read contents `xW` and the output's at anything, runs to
    the continuation holding the inputs' as they were and the output's at `out13_7` of the inputs': the printed
    function is its skeleton of memory operations, which is run operation by operation. -/
theorem sound_kernel13 (c : Dev nD) (E : Set ℕ) (i : grid13.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S6000x64 .f32) (harg8 : arg8.IsWhole)
    (x0 : Vec F S6000x64 .f32) (x1 : Vec F S6000x64 .f32) (x2 : Vec F S6000x64 .f32) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E (cc13_kernel i arg1 harg1 arg2 harg2 arg3 harg3 arg4 harg4 arg5 harg5 arg6 harg6 arg7 harg7 arg8 harg8) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

/-! ## The pipeline's proof data -/

/-- The proof data of pipeline 13 on core `c`: the arrays as the region finds them (`V`); after the body at
    point `t` each input's buffer at its block and the output's at `out13_7` of the input blocks; the
    invariant keeps the scoped rest and the generator register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

/-- The body at any point: the inputs' memrefs hold their blocks (`before13_w`), so `sound_kernel13` applies; the
    invariant and the core's debt pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Reg14.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 14 (`cc14_kernel`): the body half at the region-entry contents `V`

The kernel loads each input window's staging buffer whole, computes one value, and stores it whole into the
output window's staging buffer. So what the body leaves in the output buffer is a closed function of the input
blocks at the point (`out14_5`), every input buffer holds its block at every point whether or not it was
fetched there (`before14_w`), and the body obligation follows from the kernel's triple (`sound_kernel14`). -/

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): where the window is not
    fetched its block index has not moved, the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s (`hA`) and whose body leaves the block in place (`hafter`): where the window is not
    fetched its block index has not moved, the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s (`hA`) and whose body leaves the block in place (`hafter`): where the window is not
    fetched its block index has not moved, the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s (`hA`) and whose body leaves the block in place (`hafter`): where the window is not
    fetched its block index has not moved, the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s (`hA`) and whose body leaves the block in place (`hafter`): where the window is not
    fetched its block index has not moved, the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each buffer whole -/

abbrev r14_0 : Rect S64x64 := Rect.unit (s := S64x64) ![0, 0] S64x64.size inb_S64x64_S64x64_0_0
abbrev r14_1 : Rect S1x64 := Rect.unit (s := S1x64) ![0, 0] S1x64.size inb_S1x64_S1x64_0_0

/-! ## What the body leaves in the output window's buffer -/

/-- Window 5's staging buffer after the body, from the input windows' blocks: its one store, of the value
    computed from the loaded blocks, over the whole buffer. -/
def out14_5 (x0 : Vec F S64x64 .f32) (x1 : Vec F S64x64 .f32) (x2 : Vec F S64x64 .f32) (x3 : Vec F S64x64 .f32) (x4 : Vec F S1x64 .f32) : Vec F S64x64 .f32 :=
  View.canon [⟨r14_0, k14_pay1 (View.ld x0 r14_0) (View.ld x2 r14_0) (View.ld x1 r14_0) (View.ld x3 r14_0) (View.ld x4 r14_1)⟩]

/-- The store's rectangle is the whole buffer (checked by evaluation), so it covers it. -/
theorem cover14_5 (p0 : Vec F S64x64 .f32) (y : S64x64.Idx) :
    ∃ pc ∈ ([⟨r14_0, p0⟩] : List (View.Piece (Elt F) S64x64 .f32)), y ∈ pc.1.set :=
  View.cover_of_tiled [⟨r14_0, p0⟩] S64x64.size (by rfl) y

/-! ## The body's triple -/

set_option maxHeartbeats 1000000 in
/-- The kernel body on whole staging memrefs, the inputs' at read contents `xW` and the output's at anything, runs to
    the continuation holding the inputs' as they were and the output's at `out14_5` of the inputs': the printed
    function is its skeleton of memory operations, which is run operation by operation. -/
theorem sound_kernel14 (c : Dev nD) (E : Set ℕ) (i : grid14.Coords) (arg1 : Memref sig .tc .vmem S64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole)
    (x0 : Vec F S64x64 .f32) (x1 : Vec F S64x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14_kernel i arg1 harg1 arg2 harg2 arg3 harg3 arg4 harg4 arg5 harg5 arg6 harg6) K := by
  simp only [cc14_kernel_eq_skeleton]; unfold cc14_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at
    point `t` each input's buffer at its block and the output's at `out14_5` of the input blocks; the
    invariant keeps the scoped rest and the generator register untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks (`before14_w`), so `sound_kernel14` applies; the
    invariant and the core's debt pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Run.lean ====
/-
  The run of @main as its 28 segments: the buffer contents at every segment boundary as a fold from the launch memory
  (a host stretch applies its operations; a kernel region leaves its arrays at what its write-backs leave and every other
  buffer as entered), the proof data of every pipeline at its region's entry contents, one segment record per item, and
  the run: every weakly fair execution terminates and every unscoped buffer ends at the last boundary's contents.
-/
import proofs.«123839_j71768903516633_2_alg».proof.Proof.KI.Reg0
import proofs.«123839_j71768903516633_2_alg».proof.Proof.KI.Reg1
import proofs.«123839_j71768903516633_2_alg».proof.Proof.KI.Reg2
import proofs.«123839_j71768903516633_2_alg».proof.Proof.KI.Reg3
import proofs.«123839_j71768903516633_2_alg».proof.Proof.KI.Reg4
import proofs.«123839_j71768903516633_2_alg».proof.Proof.KI.Reg5
import proofs.«123839_j71768903516633_2_alg».proof.Proof.KI.Reg6
import proofs.«123839_j71768903516633_2_alg».proof.Proof.KI.Reg7
import proofs.«123839_j71768903516633_2_alg».proof.Proof.KI.Reg8
import proofs.«123839_j71768903516633_2_alg».proof.Proof.KI.Reg9
import proofs.«123839_j71768903516633_2_alg».proof.Proof.KI.Reg10
import proofs.«123839_j71768903516633_2_alg».proof.Proof.KI.Reg11
import proofs.«123839_j71768903516633_2_alg».proof.Proof.KI.Reg12
import proofs.«123839_j71768903516633_2_alg».proof.Proof.KI.Reg13
import proofs.«123839_j71768903516633_2_alg».proof.Proof.KI.Reg14
import proofs.«123839_j71768903516633_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- A core's buffers at launch. -/
abbrev W0 : Dev nD → Valuation τ sig (Elt F) := fun c b => m (c, b)
abbrev U0 : (c : Dev nD) → (b : Ref sig .tc) → Buf (Elt F) ((c : Thread nD τ).loc b) := fun c b => W0 m c b
/-- After host stretch 0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
theorem W1_keep (c : Dev nD) (b : Ref sig .tc) (hb : b ∉ hostOps0_W) :
    W1 m c (Proc.devRef .tc b) = W0 m c (Proc.devRef .tc b) :=
  StableHlo.after_of_writes_sub hostOps0 _ hostOps0_writes hb

/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A region changes only its output arrays: an input window's array ends as entered, any other buffer is bypassed. -/
theorem W2_keep (c : Dev nD) (b : Ref sig .tc) (hb : b ∉ ([main_v4_0, main_v4_1] : List (Ref sig .tc))) :
    W2 m c (Proc.devRef .tc b) = W1 m c (Proc.devRef .tc b) := by
  by_cases h : ∃ w, Pipeline.arrRef spec0 w = b
  · obtain ⟨w, rfl⟩ := h
    fin_cases w
    · exact (W2_arr m c 0).trans (((dat0 (U1 m) c).arrAt_in 0 rfl _).trans (A_eq0 (U1 m) c 0))
    · exact absurd (by decide) hb
    · exact absurd (by decide) hb
  · exact W2_of_ne m c b fun w e => h ⟨w, e⟩

/-- After host stretch 1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
theorem W3_keep (c : Dev nD) (b : Ref sig .tc) (hb : b ∉ hostOps1_W) :
    W3 m c (Proc.devRef .tc b) = W2 m c (Proc.devRef .tc b) :=
  StableHlo.after_of_writes_sub hostOps1 _ hostOps1_writes hb

/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- A region changes only its output arrays: an input window's array ends as entered, any other buffer is bypassed. -/
theorem W4_keep (c : Dev nD) (b : Ref sig .tc) (hb : b ∉ ([main_v15] : List (Ref sig .tc))) :
    W4 m c (Proc.devRef .tc b) = W3 m c (Proc.devRef .tc b) := by
  by_cases h : ∃ w, Pipeline.arrRef spec1 w = b
  · obtain ⟨w, rfl⟩ := h
    fin_cases w
    · exact (W4_arr m c 0).trans (((dat1 (U3 m) c).arrAt_in 0 rfl _).trans (A_eq1 (U3 m) c 0))
    · exact (W4_arr m c 1).trans (((dat1 (U3 m) c).arrAt_in 1 rfl _).trans (A_eq1 (U3 m) c 1))
    · exact (W4_arr m c 2).trans (((dat1 (U3 m) c).arrAt_in 2 rfl _).trans (A_eq1 (U3 m) c 2))
    · exact (W4_arr m c 3).trans (((dat1 (U3 m) c).arrAt_in 3 rfl _).trans (A_eq1 (U3 m) c 3))
    · exact (W4_arr m c 4).trans (((dat1 (U3 m) c).arrAt_in 4 rfl _).trans (A_eq1 (U3 m) c 4))
    · exact absurd (by decide) hb
  · exact W4_of_ne m c b fun w e => h ⟨w, e⟩

/-- At region 2's exit: its arrays at what the pipeline leaves, every other buffer as entered. -/
def W5 (c : Dev nD) : Valuation τ sig (Elt F) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5 : (c : Dev nD) → (b : Ref sig .tc) → Buf (Elt F) ((c : Thread nD τ).loc b) := fun c b => W5 m c b
theorem hF2 (c : Dev nD) (w : Fin cfg2.W) : (dat2 (U4 m) c).arrAt w cfg2.N = U5 m c (Pipeline.arrRef spec2 w) :=
  (W5_arr m c w).symm
theorem hrest2 (c : Dev nD) : ∀ b, b ∉ Finset.univ.image (Pipeline.arrRef spec2) → U5 m c b = U4 m c b :=
  fun b hb => W5_of_ne m c b fun w e => hb (Finset.mem_image.mpr ⟨w, Finset.mem_univ _, e⟩)
/-- A region changes only its output arrays: an input window's array ends as entered, any other buffer is bypassed. -/
theorem W5_keep (c : Dev nD) (b : Ref sig .tc) (hb : b ∉ ([main_v16_0, main_v16_1] : List (Ref sig .tc))) :
    W5 m c (Proc.devRef .tc b) = W4 m c (Proc.devRef .tc b) := by
  by_cases h : ∃ w, Pipeline.arrRef spec2 w = b
  · obtain ⟨w, rfl⟩ := h
    fin_cases w
    · exact (W5_arr m c 0).trans (((dat2 (U4 m) c).arrAt_in 0 rfl _).trans (A_eq2 (U4 m) c 0))
    · exact absurd (by decide) hb
    · exact absurd (by decide) hb
  · exact W5_of_ne m c b fun w e => h ⟨w, e⟩

/-- After host stretch 3. -/
abbrev W6 : Dev nD → Valuation τ sig (Elt F) := fun c => StableHlo.after hostOps3 (W5 m c)
abbrev U6 : (c : Dev nD) → (b : Ref sig .tc) → Buf (Elt F) ((c : Thread nD τ).loc b) := fun c b => W6 m c b
theorem W6_keep (c : Dev nD) (b : Ref sig .tc) (hb : b ∉ hostOps3_W) :
    W6 m c (Proc.devRef .tc b) = W5 m c (Proc.devRef .tc b) :=
  StableHlo.after_of_writes_sub hostOps3 _ hostOps3_writes hb

/-- At region 3's exit: its arrays at what the pipeline leaves, every other buffer as entered. -/
def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev U7 : (c : Dev nD) → (b : Ref sig .tc) → Buf (Elt F) ((c : Thread nD τ).loc b) := fun c b => W7 m c b
theorem hF3 (c : Dev nD) (w : Fin cfg3.W) : (dat3 (U6 m) c).arrAt w cfg3.N = U7 m c (Pipeline.arrRef spec3 w) :=
  (W7_arr m c w).symm
theorem hrest3 (c : Dev nD) : ∀ b, b ∉ Finset.univ.image (Pipeline.arrRef spec3) → U7 m c b = U6 m c b :=
  fun b hb => W7_of_ne m c b fun w e => hb (Finset.mem_image.mpr ⟨w, Finset.mem_univ _, e⟩)
/-- A region changes only its output arrays: an input window's array ends as entered, any other buffer is bypassed. -/
theorem W7_keep (c : Dev nD) (b : Ref sig .tc) (hb : b ∉ ([main_v27] : List (Ref sig .tc))) :
    W7 m c (Proc.devRef .tc b) = W6 m c (Proc.devRef .tc b) := by
  by_cases h : ∃ w, Pipeline.arrRef spec3 w = b
  · obtain ⟨w, rfl⟩ := h
    fin_cases w
    · exact (W7_arr m c 0).trans (((dat3 (U6 m) c).arrAt_in 0 rfl _).trans (A_eq3 (U6 m) c 0))
    · exact (W7_arr m c 1).trans (((dat3 (U6 m) c).arrAt_in 1 rfl _).trans (A_eq3 (U6 m) c 1))
    · exact (W7_arr m c 2).trans (((dat3 (U6 m) c).arrAt_in 2 rfl _).trans (A_eq3 (U6 m) c 2))
    · exact (W7_arr m c 3).trans (((dat3 (U6 m) c).arrAt_in 3 rfl _).trans (A_eq3 (U6 m) c 3))
    · exact (W7_arr m c 4).trans (((dat3 (U6 m) c).arrAt_in 4 rfl _).trans (A_eq3 (U6 m) c 4))
    · exact absurd (by decide) hb
  · exact W7_of_ne m c b fun w e => h ⟨w, e⟩

/-- At region 4's exit: its arrays at what the pipeline leaves, every other buffer as entered. -/
def W8 (c : Dev nD) : Valuation τ sig (Elt F) :=
  Pipeline.withArrays spec4 c (W7 m c) fun w => (dat4 (U7 m) c).arrAt w cfg4.N
theorem W8_arr (c : Dev nD) (w : Fin cfg4.W) :
    W8 m c (Proc.devRef .tc (Pipeline.arrRef spec4 w)) = (dat4 (U7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev U8 : (c : Dev nD) → (b : Ref sig .tc) → Buf (Elt F) ((c : Thread nD τ).loc b) := fun c b => W8 m c b
theorem hF4 (c : Dev nD) (w : Fin cfg4.W) : (dat4 (U7 m) c).arrAt w cfg4.N = U8 m c (Pipeline.arrRef spec4 w) :=
  (W8_arr m c w).symm
theorem hrest4 (c : Dev nD) : ∀ b, b ∉ Finset.univ.image (Pipeline.arrRef spec4) → U8 m c b = U7 m c b :=
  fun b hb => W8_of_ne m c b fun w e => hb (Finset.mem_image.mpr ⟨w, Finset.mem_univ _, e⟩)
/-- A region changes only its output arrays: an input window's array ends as entered, any other buffer is bypassed. -/
theorem W8_keep (c : Dev nD) (b : Ref sig .tc) (hb : b ∉ ([main_v28_0, main_v28_1] : List (Ref sig .tc))) :
    W8 m c (Proc.devRef .tc b) = W7 m c (Proc.devRef .tc b) := by
  by_cases h : ∃ w, Pipeline.arrRef spec4 w = b
  · obtain ⟨w, rfl⟩ := h
    fin_cases w
    · exact (W8_arr m c 0).trans (((dat4 (U7 m) c).arrAt_in 0 rfl _).trans (A_eq4 (U7 m) c 0))
    · exact absurd (by decide) hb
    · exact absurd (by decide) hb
  · exact W8_of_ne m c b fun w e => h ⟨w, e⟩

/-- After host stretch 5. -/
abbrev W9 : Dev nD → Valuation τ sig (Elt F) := fun c => StableHlo.after hostOps5 (W8 m c)
abbrev U9 : (c : Dev nD) → (b : Ref sig .tc) → Buf (Elt F) ((c : Thread nD τ).loc b) := fun c b => W9 m c b
theorem W9_keep (c : Dev nD) (b : Ref sig .tc) (hb : b ∉ hostOps5_W) :
    W9 m c (Proc.devRef .tc b) = W8 m c (Proc.devRef .tc b) :=
  StableHlo.after_of_writes_sub hostOps5 _ hostOps5_writes hb

/-- At region 5's exit: its arrays at what the pipeline leaves, every other buffer as entered. -/
def W10 (c : Dev nD) : Valuation τ sig (Elt F) :=
  Pipeline.withArrays spec5 c (W9 m c) fun w => (dat5 (U9 m) c).arrAt w cfg5.N
theorem W10_arr (c : Dev nD) (w : Fin cfg5.W) :
    W10 m c (Proc.devRef .tc (Pipeline.arrRef spec5 w)) = (dat5 (U9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
abbrev U10 : (c : Dev nD) → (b : Ref sig .tc) → Buf (Elt F) ((c : Thread nD τ).loc b) := fun c b => W10 m c b
theorem hF5 (c : Dev nD) (w : Fin cfg5.W) : (dat5 (U9 m) c).arrAt w cfg5.N = U10 m c (Pipeline.arrRef spec5 w) :=
  (W10_arr m c w).symm
theorem hrest5 (c : Dev nD) : ∀ b, b ∉ Finset.univ.image (Pipeline.arrRef spec5) → U10 m c b = U9 m c b :=
  fun b hb => W10_of_ne m c b fun w e => hb (Finset.mem_image.mpr ⟨w, Finset.mem_univ _, e⟩)
/-- A region changes only its output arrays: an input window's array ends as entered, any other buffer is bypassed. -/
theorem W10_keep (c : Dev nD) (b : Ref sig .tc) (hb : b ∉ ([main_v39] : List (Ref sig .tc))) :
    W10 m c (Proc.devRef .tc b) = W9 m c (Proc.devRef .tc b) := by
  by_cases h : ∃ w, Pipeline.arrRef spec5 w = b
  · obtain ⟨w, rfl⟩ := h
    fin_cases w
    · exact (W10_arr m c 0).trans (((dat5 (U9 m) c).arrAt_in 0 rfl _).trans (A_eq5 (U9 m) c 0))
    · exact (W10_arr m c 1).trans (((dat5 (U9 m) c).arrAt_in 1 rfl _).trans (A_eq5 (U9 m) c 1))
    · exact (W10_arr m c 2).trans (((dat5 (U9 m) c).arrAt_in 2 rfl _).trans (A_eq5 (U9 m) c 2))
    · exact (W10_arr m c 3).trans (((dat5 (U9 m) c).arrAt_in 3 rfl _).trans (A_eq5 (U9 m) c 3))
    · exact (W10_arr m c 4).trans (((dat5 (U9 m) c).arrAt_in 4 rfl _).trans (A_eq5 (U9 m) c 4))
    · exact absurd (by decide) hb
  · exact W10_of_ne m c b fun w e => h ⟨w, e⟩

/-- After host stretch 6. -/
abbrev W11 : Dev nD → Valuation τ sig (Elt F) := fun c => StableHlo.after hostOps6 (W10 m c)
abbrev U11 : (c : Dev nD) → (b : Ref sig .tc) → Buf (Elt F) ((c : Thread nD τ).loc b) := fun c b => W11 m c b
theorem W11_keep (c : Dev nD) (b : Ref sig .tc) (hb : b ∉ hostOps6_W) :
    W11 m c (Proc.devRef .tc b) = W10 m c (Proc.devRef .tc b) :=
  StableHlo.after_of_writes_sub hostOps6 _ hostOps6_writes hb

/-- At region 6's exit: its arrays at what the pipeline leaves, every other buffer as entered. -/
def W12 (c : Dev nD) : Valuation τ sig (Elt F) :=
  Pipeline.withArrays spec6 c (W11 m c) fun w => (dat6 (U11 m) c).arrAt w cfg6.N
theorem W12_arr (c : Dev nD) (w : Fin cfg6.W) :
    W12 m c (Proc.devRef .tc (Pipeline.arrRef spec6 w)) = (dat6 (U11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
abbrev U12 : (c : Dev nD) → (b : Ref sig .tc) → Buf (Elt F) ((c : Thread nD τ).loc b) := fun c b => W12 m c b
theorem hF6 (c : Dev nD) (w : Fin cfg6.W) : (dat6 (U11 m) c).arrAt w cfg6.N = U12 m c (Pipeline.arrRef spec6 w) :=
  (W12_arr m c w).symm
theorem hrest6 (c : Dev nD) : ∀ b, b ∉ Finset.univ.image (Pipeline.arrRef spec6) → U12 m c b = U11 m c b :=
  fun b hb => W12_of_ne m c b fun w e => hb (Finset.mem_image.mpr ⟨w, Finset.mem_univ _, e⟩)
/-- A region changes only its output arrays: an input window's array ends as entered, any other buffer is bypassed. -/
theorem W12_keep (c : Dev nD) (b : Ref sig .tc) (hb : b ∉ ([main_v73] : List (Ref sig .tc))) :
    W12 m c (Proc.devRef .tc b) = W11 m c (Proc.devRef .tc b) := by
  by_cases h : ∃ w, Pipeline.arrRef spec6 w = b
  · obtain ⟨w, rfl⟩ := h
    fin_cases w
    · exact (W12_arr m c 0).trans (((dat6 (U11 m) c).arrAt_in 0 rfl _).trans (A_eq6 (U11 m) c 0))
    · exact (W12_arr m c 1).trans (((dat6 (U11 m) c).arrAt_in 1 rfl _).trans (A_eq6 (U11 m) c 1))
    · exact (W12_arr m c 2).trans (((dat6 (U11 m) c).arrAt_in 2 rfl _).trans (A_eq6 (U11 m) c 2))
    · exact (W12_arr m c 3).trans (((dat6 (U11 m) c).arrAt_in 3 rfl _).trans (A_eq6 (U11 m) c 3))
    · exact (W12_arr m c 4).trans (((dat6 (U11 m) c).arrAt_in 4 rfl _).trans (A_eq6 (U11 m) c 4))
    · exact (W12_arr m c 5).trans (((dat6 (U11 m) c).arrAt_in 5 rfl _).trans (A_eq6 (U11 m) c 5))
    · exact (W12_arr m c 6).trans (((dat6 (U11 m) c).arrAt_in 6 rfl _).trans (A_eq6 (U11 m) c 6))
    · exact (W12_arr m c 7).trans (((dat6 (U11 m) c).arrAt_in 7 rfl _).trans (A_eq6 (U11 m) c 7))
    · exact (W12_arr m c 8).trans (((dat6 (U11 m) c).arrAt_in 8 rfl _).trans (A_eq6 (U11 m) c 8))
    · exact absurd (by decide) hb
  · exact W12_of_ne m c b fun w e => h ⟨w, e⟩

/-- After host stretch 7. -/
abbrev W13 : Dev nD → Valuation τ sig (Elt F) := fun c => StableHlo.after hostOps7 (W12 m c)
abbrev U13 : (c : Dev nD) → (b : Ref sig .tc) → Buf (Elt F) ((c : Thread nD τ).loc b) := fun c b => W13 m c b
theorem W13_keep (c : Dev nD) (b : Ref sig .tc) (hb : b ∉ hostOps7_W) :
    W13 m c (Proc.devRef .tc b) = W12 m c (Proc.devRef .tc b) :=
  StableHlo.after_of_writes_sub hostOps7 _ hostOps7_writes hb

/-- At region 7's exit: its arrays at what the pipeline leaves, every other buffer as entered. -/
def W14 (c : Dev nD) : Valuation τ sig (Elt F) :=
  Pipeline.withArrays spec7 c (W13 m c) fun w => (dat7 (U13 m) c).arrAt w cfg7.N
theorem W14_arr (c : Dev nD) (w : Fin cfg7.W) :
    W14 m c (Proc.devRef .tc (Pipeline.arrRef spec7 w)) = (dat7 (U13 m) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m c (Proc.devRef .tc b) = W13 m c (Proc.devRef .tc b) := by
  unfold W14; exact Pipeline.withArrays_of_ne spec7 c _ _ b hb
abbrev U14 : (c : Dev nD) → (b : Ref sig .tc) → Buf (Elt F) ((c : Thread nD τ).loc b) := fun c b => W14 m c b
theorem hF7 (c : Dev nD) (w : Fin cfg7.W) : (dat7 (U13 m) c).arrAt w cfg7.N = U14 m c (Pipeline.arrRef spec7 w) :=
  (W14_arr m c w).symm
theorem hrest7 (c : Dev nD) : ∀ b, b ∉ Finset.univ.image (Pipeline.arrRef spec7) → U14 m c b = U13 m c b :=
  fun b hb => W14_of_ne m c b fun w e => hb (Finset.mem_image.mpr ⟨w, Finset.mem_univ _, e⟩)
/-- A region changes only its output arrays: an input window's array ends as entered, any other buffer is bypassed. -/
theorem W14_keep (c : Dev nD) (b : Ref sig .tc) (hb : b ∉ ([main_v96] : List (Ref sig .tc))) :
    W14 m c (Proc.devRef .tc b) = W13 m c (Proc.devRef .tc b) := by
  by_cases h : ∃ w, Pipeline.arrRef spec7 w = b
  · obtain ⟨w, rfl⟩ := h
    fin_cases w
    · exact (W14_arr m c 0).trans (((dat7 (U13 m) c).arrAt_in 0 rfl _).trans (A_eq7 (U13 m) c 0))
    · exact (W14_arr m c 1).trans (((dat7 (U13 m) c).arrAt_in 1 rfl _).trans (A_eq7 (U13 m) c 1))
    · exact (W14_arr m c 2).trans (((dat7 (U13 m) c).arrAt_in 2 rfl _).trans (A_eq7 (U13 m) c 2))
    · exact (W14_arr m c 3).trans (((dat7 (U13 m) c).arrAt_in 3 rfl _).trans (A_eq7 (U13 m) c 3))
    · exact (W14_arr m c 4).trans (((dat7 (U13 m) c).arrAt_in 4 rfl _).trans (A_eq7 (U13 m) c 4))
    · exact (W14_arr m c 5).trans (((dat7 (U13 m) c).arrAt_in 5 rfl _).trans (A_eq7 (U13 m) c 5))
    · exact (W14_arr m c 6).trans (((dat7 (U13 m) c).arrAt_in 6 rfl _).trans (A_eq7 (U13 m) c 6))
    · exact absurd (by decide) hb
  · exact W14_of_ne m c b fun w e => h ⟨w, e⟩

/-- After host stretch 8. -/
abbrev W15 : Dev nD → Valuation τ sig (Elt F) := fun c => StableHlo.after hostOps8 (W14 m c)
abbrev U15 : (c : Dev nD) → (b : Ref sig .tc) → Buf (Elt F) ((c : Thread nD τ).loc b) := fun c b => W15 m c b
theorem W15_keep (c : Dev nD) (b : Ref sig .tc) (hb : b ∉ hostOps8_W) :
    W15 m c (Proc.devRef .tc b) = W14 m c (Proc.devRef .tc b) :=
  StableHlo.after_of_writes_sub hostOps8 _ hostOps8_writes hb

/-- At region 8's exit: its arrays at what the pipeline leaves, every other buffer as entered. -/
def W16 (c : Dev nD) : Valuation τ sig (Elt F) :=
  Pipeline.withArrays spec8 c (W15 m c) fun w => (dat8 (U15 m) c).arrAt w cfg8.N
theorem W16_arr (c : Dev nD) (w : Fin cfg8.W) :
    W16 m c (Proc.devRef .tc (Pipeline.arrRef spec8 w)) = (dat8 (U15 m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m c (Proc.devRef .tc b) = W15 m c (Proc.devRef .tc b) := by
  unfold W16; exact Pipeline.withArrays_of_ne spec8 c _ _ b hb
abbrev U16 : (c : Dev nD) → (b : Ref sig .tc) → Buf (Elt F) ((c : Thread nD τ).loc b) := fun c b => W16 m c b
theorem hF8 (c : Dev nD) (w : Fin cfg8.W) : (dat8 (U15 m) c).arrAt w cfg8.N = U16 m c (Pipeline.arrRef spec8 w) :=
  (W16_arr m c w).symm
theorem hrest8 (c : Dev nD) : ∀ b, b ∉ Finset.univ.image (Pipeline.arrRef spec8) → U16 m c b = U15 m c b :=
  fun b hb => W16_of_ne m c b fun w e => hb (Finset.mem_image.mpr ⟨w, Finset.mem_univ _, e⟩)
/-- A region changes only its output arrays: an input window's array ends as entered, any other buffer is bypassed. -/
theorem W16_keep (c : Dev nD) (b : Ref sig .tc) (hb : b ∉ ([main_v111] : List (Ref sig .tc))) :
    W16 m c (Proc.devRef .tc b) = W15 m c (Proc.devRef .tc b) := by
  by_cases h : ∃ w, Pipeline.arrRef spec8 w = b
  · obtain ⟨w, rfl⟩ := h
    fin_cases w
    · exact (W16_arr m c 0).trans (((dat8 (U15 m) c).arrAt_in 0 rfl _).trans (A_eq8 (U15 m) c 0))
    · exact (W16_arr m c 1).trans (((dat8 (U15 m) c).arrAt_in 1 rfl _).trans (A_eq8 (U15 m) c 1))
    · exact (W16_arr m c 2).trans (((dat8 (U15 m) c).arrAt_in 2 rfl _).trans (A_eq8 (U15 m) c 2))
    · exact (W16_arr m c 3).trans (((dat8 (U15 m) c).arrAt_in 3 rfl _).trans (A_eq8 (U15 m) c 3))
    · exact (W16_arr m c 4).trans (((dat8 (U15 m) c).arrAt_in 4 rfl _).trans (A_eq8 (U15 m) c 4))
    · exact absurd (by decide) hb
  · exact W16_of_ne m c b fun w e => h ⟨w, e⟩

/-- After host stretch 9. -/
abbrev W17 : Dev nD → Valuation τ sig (Elt F) := fun c => StableHlo.after hostOps9 (W16 m c)
abbrev U17 : (c : Dev nD) → (b : Ref sig .tc) → Buf (Elt F) ((c : Thread nD τ).loc b) := fun c b => W17 m c b
theorem W17_keep (c : Dev nD) (b : Ref sig .tc) (hb : b ∉ hostOps9_W) :
    W17 m c (Proc.devRef .tc b) = W16 m c (Proc.devRef .tc b) :=
  StableHlo.after_of_writes_sub hostOps9 _ hostOps9_writes hb

/-- At region 9's exit: its arrays at what the pipeline leaves, every other buffer as entered. -/
def W18 (c : Dev nD) : Valuation τ sig (Elt F) :=
  Pipeline.withArrays spec9 c (W17 m c) fun w => (dat9 (U17 m) c).arrAt w cfg9.N
theorem W18_arr (c : Dev nD) (w : Fin cfg9.W) :
    W18 m c (Proc.devRef .tc (Pipeline.arrRef spec9 w)) = (dat9 (U17 m) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m c (Proc.devRef .tc b) = W17 m c (Proc.devRef .tc b) := by
  unfold W18; exact Pipeline.withArrays_of_ne spec9 c _ _ b hb
abbrev U18 : (c : Dev nD) → (b : Ref sig .tc) → Buf (Elt F) ((c : Thread nD τ).loc b) := fun c b => W18 m c b
theorem hF9 (c : Dev nD) (w : Fin cfg9.W) : (dat9 (U17 m) c).arrAt w cfg9.N = U18 m c (Pipeline.arrRef spec9 w) :=
  (W18_arr m c w).symm
theorem hrest9 (c : Dev nD) : ∀ b, b ∉ Finset.univ.image (Pipeline.arrRef spec9) → U18 m c b = U17 m c b :=
  fun b hb => W18_of_ne m c b fun w e => hb (Finset.mem_image.mpr ⟨w, Finset.mem_univ _, e⟩)
/-- A region changes only its output arrays: an input window's array ends as entered, any other buffer is bypassed. -/
theorem W18_keep (c : Dev nD) (b : Ref sig .tc) (hb : b ∉ ([main_v145] : List (Ref sig .tc))) :
    W18 m c (Proc.devRef .tc b) = W17 m c (Proc.devRef .tc b) := by
  by_cases h : ∃ w, Pipeline.arrRef spec9 w = b
  · obtain ⟨w, rfl⟩ := h
    fin_cases w
    · exact (W18_arr m c 0).trans (((dat9 (U17 m) c).arrAt_in 0 rfl _).trans (A_eq9 (U17 m) c 0))
    · exact (W18_arr m c 1).trans (((dat9 (U17 m) c).arrAt_in 1 rfl _).trans (A_eq9 (U17 m) c 1))
    · exact (W18_arr m c 2).trans (((dat9 (U17 m) c).arrAt_in 2 rfl _).trans (A_eq9 (U17 m) c 2))
    · exact (W18_arr m c 3).trans (((dat9 (U17 m) c).arrAt_in 3 rfl _).trans (A_eq9 (U17 m) c 3))
    · exact (W18_arr m c 4).trans (((dat9 (U17 m) c).arrAt_in 4 rfl _).trans (A_eq9 (U17 m) c 4))
    · exact (W18_arr m c 5).trans (((dat9 (U17 m) c).arrAt_in 5 rfl _).trans (A_eq9 (U17 m) c 5))
    · exact (W18_arr m c 6).trans (((dat9 (U17 m) c).arrAt_in 6 rfl _).trans (A_eq9 (U17 m) c 6))
    · exact (W18_arr m c 7).trans (((dat9 (U17 m) c).arrAt_in 7 rfl _).trans (A_eq9 (U17 m) c 7))
    · exact (W18_arr m c 8).trans (((dat9 (U17 m) c).arrAt_in 8 rfl _).trans (A_eq9 (U17 m) c 8))
    · exact absurd (by decide) hb
  · exact W18_of_ne m c b fun w e => h ⟨w, e⟩

/-- After host stretch 10. -/
abbrev W19 : Dev nD → Valuation τ sig (Elt F) := fun c => StableHlo.after hostOps10 (W18 m c)
abbrev U19 : (c : Dev nD) → (b : Ref sig .tc) → Buf (Elt F) ((c : Thread nD τ).loc b) := fun c b => W19 m c b
theorem W19_keep (c : Dev nD) (b : Ref sig .tc) (hb : b ∉ hostOps10_W) :
    W19 m c (Proc.devRef .tc b) = W18 m c (Proc.devRef .tc b) :=
  StableHlo.after_of_writes_sub hostOps10 _ hostOps10_writes hb

/-- At region 10's exit: its arrays at what the pipeline leaves, every other buffer as entered. -/
def W20 (c : Dev nD) : Valuation τ sig (Elt F) :=
  Pipeline.withArrays spec10 c (W19 m c) fun w => (dat10 (U19 m) c).arrAt w cfg10.N
theorem W20_arr (c : Dev nD) (w : Fin cfg10.W) :
    W20 m c (Proc.devRef .tc (Pipeline.arrRef spec10 w)) = (dat10 (U19 m) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 m c (Proc.devRef .tc b) = W19 m c (Proc.devRef .tc b) := by
  unfold W20; exact Pipeline.withArrays_of_ne spec10 c _ _ b hb
abbrev U20 : (c : Dev nD) → (b : Ref sig .tc) → Buf (Elt F) ((c : Thread nD τ).loc b) := fun c b => W20 m c b
theorem hF10 (c : Dev nD) (w : Fin cfg10.W) : (dat10 (U19 m) c).arrAt w cfg10.N = U20 m c (Pipeline.arrRef spec10 w) :=
  (W20_arr m c w).symm
theorem hrest10 (c : Dev nD) : ∀ b, b ∉ Finset.univ.image (Pipeline.arrRef spec10) → U20 m c b = U19 m c b :=
  fun b hb => W20_of_ne m c b fun w e => hb (Finset.mem_image.mpr ⟨w, Finset.mem_univ _, e⟩)
/-- A region changes only its output arrays: an input window's array ends as entered, any other buffer is bypassed. -/
theorem W20_keep (c : Dev nD) (b : Ref sig .tc) (hb : b ∉ ([main_v168] : List (Ref sig .tc))) :
    W20 m c (Proc.devRef .tc b) = W19 m c (Proc.devRef .tc b) := by
  by_cases h : ∃ w, Pipeline.arrRef spec10 w = b
  · obtain ⟨w, rfl⟩ := h
    fin_cases w
    · exact (W20_arr m c 0).trans (((dat10 (U19 m) c).arrAt_in 0 rfl _).trans (A_eq10 (U19 m) c 0))
    · exact (W20_arr m c 1).trans (((dat10 (U19 m) c).arrAt_in 1 rfl _).trans (A_eq10 (U19 m) c 1))
    · exact (W20_arr m c 2).trans (((dat10 (U19 m) c).arrAt_in 2 rfl _).trans (A_eq10 (U19 m) c 2))
    · exact (W20_arr m c 3).trans (((dat10 (U19 m) c).arrAt_in 3 rfl _).trans (A_eq10 (U19 m) c 3))
    · exact (W20_arr m c 4).trans (((dat10 (U19 m) c).arrAt_in 4 rfl _).trans (A_eq10 (U19 m) c 4))
    · exact (W20_arr m c 5).trans (((dat10 (U19 m) c).arrAt_in 5 rfl _).trans (A_eq10 (U19 m) c 5))
    · exact (W20_arr m c 6).trans (((dat10 (U19 m) c).arrAt_in 6 rfl _).trans (A_eq10 (U19 m) c 6))
    · exact absurd (by decide) hb
  · exact W20_of_ne m c b fun w e => h ⟨w, e⟩

/-- After host stretch 11. -/
abbrev W21 : Dev nD → Valuation τ sig (Elt F) := fun c => StableHlo.after hostOps11 (W20 m c)
abbrev U21 : (c : Dev nD) → (b : Ref sig .tc) → Buf (Elt F) ((c : Thread nD τ).loc b) := fun c b => W21 m c b
theorem W21_keep (c : Dev nD) (b : Ref sig .tc) (hb : b ∉ hostOps11_W) :
    W21 m c (Proc.devRef .tc b) = W20 m c (Proc.devRef .tc b) :=
  StableHlo.after_of_writes_sub hostOps11 _ hostOps11_writes hb

/-- At region 11's exit: its arrays at what the pipeline leaves, every other buffer as entered. -/
def W22 (c : Dev nD) : Valuation τ sig (Elt F) :=
  Pipeline.withArrays spec11 c (W21 m c) fun w => (dat11 (U21 m) c).arrAt w cfg11.N
theorem W22_arr (c : Dev nD) (w : Fin cfg11.W) :
    W22 m c (Proc.devRef .tc (Pipeline.arrRef spec11 w)) = (dat11 (U21 m) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m c (Proc.devRef .tc b) = W21 m c (Proc.devRef .tc b) := by
  unfold W22; exact Pipeline.withArrays_of_ne spec11 c _ _ b hb
abbrev U22 : (c : Dev nD) → (b : Ref sig .tc) → Buf (Elt F) ((c : Thread nD τ).loc b) := fun c b => W22 m c b
theorem hF11 (c : Dev nD) (w : Fin cfg11.W) : (dat11 (U21 m) c).arrAt w cfg11.N = U22 m c (Pipeline.arrRef spec11 w) :=
  (W22_arr m c w).symm
theorem hrest11 (c : Dev nD) : ∀ b, b ∉ Finset.univ.image (Pipeline.arrRef spec11) → U22 m c b = U21 m c b :=
  fun b hb => W22_of_ne m c b fun w e => hb (Finset.mem_image.mpr ⟨w, Finset.mem_univ _, e⟩)
/-- A region changes only its output arrays: an input window's array ends as entered, any other buffer is bypassed. -/
theorem W22_keep (c : Dev nD) (b : Ref sig .tc) (hb : b ∉ ([main_v183] : List (Ref sig .tc))) :
    W22 m c (Proc.devRef .tc b) = W21 m c (Proc.devRef .tc b) := by
  by_cases h : ∃ w, Pipeline.arrRef spec11 w = b
  · obtain ⟨w, rfl⟩ := h
    fin_cases w
    · exact (W22_arr m c 0).trans (((dat11 (U21 m) c).arrAt_in 0 rfl _).trans (A_eq11 (U21 m) c 0))
    · exact (W22_arr m c 1).trans (((dat11 (U21 m) c).arrAt_in 1 rfl _).trans (A_eq11 (U21 m) c 1))
    · exact (W22_arr m c 2).trans (((dat11 (U21 m) c).arrAt_in 2 rfl _).trans (A_eq11 (U21 m) c 2))
    · exact (W22_arr m c 3).trans (((dat11 (U21 m) c).arrAt_in 3 rfl _).trans (A_eq11 (U21 m) c 3))
    · exact (W22_arr m c 4).trans (((dat11 (U21 m) c).arrAt_in 4 rfl _).trans (A_eq11 (U21 m) c 4))
    · exact absurd (by decide) hb
  · exact W22_of_ne m c b fun w e => h ⟨w, e⟩

/-- After host stretch 12. -/
abbrev W23 : Dev nD → Valuation τ sig (Elt F) := fun c => StableHlo.after hostOps12 (W22 m c)
abbrev U23 : (c : Dev nD) → (b : Ref sig .tc) → Buf (Elt F) ((c : Thread nD τ).loc b) := fun c b => W23 m c b
theorem W23_keep (c : Dev nD) (b : Ref sig .tc) (hb : b ∉ hostOps12_W) :
    W23 m c (Proc.devRef .tc b) = W22 m c (Proc.devRef .tc b) :=
  StableHlo.after_of_writes_sub hostOps12 _ hostOps12_writes hb

/-- At region 12's exit: its arrays at what the pipeline leaves, every other buffer as entered. -/
def W24 (c : Dev nD) : Valuation τ sig (Elt F) :=
  Pipeline.withArrays spec12 c (W23 m c) fun w => (dat12 (U23 m) c).arrAt w cfg12.N
theorem W24_arr (c : Dev nD) (w : Fin cfg12.W) :
    W24 m c (Proc.devRef .tc (Pipeline.arrRef spec12 w)) = (dat12 (U23 m) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 m c (Proc.devRef .tc b) = W23 m c (Proc.devRef .tc b) := by
  unfold W24; exact Pipeline.withArrays_of_ne spec12 c _ _ b hb
abbrev U24 : (c : Dev nD) → (b : Ref sig .tc) → Buf (Elt F) ((c : Thread nD τ).loc b) := fun c b => W24 m c b
theorem hF12 (c : Dev nD) (w : Fin cfg12.W) : (dat12 (U23 m) c).arrAt w cfg12.N = U24 m c (Pipeline.arrRef spec12 w) :=
  (W24_arr m c w).symm
theorem hrest12 (c : Dev nD) : ∀ b, b ∉ Finset.univ.image (Pipeline.arrRef spec12) → U24 m c b = U23 m c b :=
  fun b hb => W24_of_ne m c b fun w e => hb (Finset.mem_image.mpr ⟨w, Finset.mem_univ _, e⟩)
/-- A region changes only its output arrays: an input window's array ends as entered, any other buffer is bypassed. -/
theorem W24_keep (c : Dev nD) (b : Ref sig .tc) (hb : b ∉ ([main_v217] : List (Ref sig .tc))) :
    W24 m c (Proc.devRef .tc b) = W23 m c (Proc.devRef .tc b) := by
  by_cases h : ∃ w, Pipeline.arrRef spec12 w = b
  · obtain ⟨w, rfl⟩ := h
    fin_cases w
    · exact (W24_arr m c 0).trans (((dat12 (U23 m) c).arrAt_in 0 rfl _).trans (A_eq12 (U23 m) c 0))
    · exact (W24_arr m c 1).trans (((dat12 (U23 m) c).arrAt_in 1 rfl _).trans (A_eq12 (U23 m) c 1))
    · exact (W24_arr m c 2).trans (((dat12 (U23 m) c).arrAt_in 2 rfl _).trans (A_eq12 (U23 m) c 2))
    · exact (W24_arr m c 3).trans (((dat12 (U23 m) c).arrAt_in 3 rfl _).trans (A_eq12 (U23 m) c 3))
    · exact (W24_arr m c 4).trans (((dat12 (U23 m) c).arrAt_in 4 rfl _).trans (A_eq12 (U23 m) c 4))
    · exact (W24_arr m c 5).trans (((dat12 (U23 m) c).arrAt_in 5 rfl _).trans (A_eq12 (U23 m) c 5))
    · exact (W24_arr m c 6).trans (((dat12 (U23 m) c).arrAt_in 6 rfl _).trans (A_eq12 (U23 m) c 6))
    · exact (W24_arr m c 7).trans (((dat12 (U23 m) c).arrAt_in 7 rfl _).trans (A_eq12 (U23 m) c 7))
    · exact (W24_arr m c 8).trans (((dat12 (U23 m) c).arrAt_in 8 rfl _).trans (A_eq12 (U23 m) c 8))
    · exact absurd (by decide) hb
  · exact W24_of_ne m c b fun w e => h ⟨w, e⟩

/-- After host stretch 13. -/
abbrev W25 : Dev nD → Valuation τ sig (Elt F) := fun c => StableHlo.after hostOps13 (W24 m c)
abbrev U25 : (c : Dev nD) → (b : Ref sig .tc) → Buf (Elt F) ((c : Thread nD τ).loc b) := fun c b => W25 m c b
theorem W25_keep (c : Dev nD) (b : Ref sig .tc) (hb : b ∉ hostOps13_W) :
    W25 m c (Proc.devRef .tc b) = W24 m c (Proc.devRef .tc b) :=
  StableHlo.after_of_writes_sub hostOps13 _ hostOps13_writes hb

/-- At region 13's exit: its arrays at what the pipeline leaves, every other buffer as entered. -/
def W26 (c : Dev nD) : Valuation τ sig (Elt F) :=
  Pipeline.withArrays spec13 c (W25 m c) fun w => (dat13 (U25 m) c).arrAt w cfg13.N
theorem W26_arr (c : Dev nD) (w : Fin cfg13.W) :
    W26 m c (Proc.devRef .tc (Pipeline.arrRef spec13 w)) = (dat13 (U25 m) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 m c (Proc.devRef .tc b) = W25 m c (Proc.devRef .tc b) := by
  unfold W26; exact Pipeline.withArrays_of_ne spec13 c _ _ b hb
abbrev U26 : (c : Dev nD) → (b : Ref sig .tc) → Buf (Elt F) ((c : Thread nD τ).loc b) := fun c b => W26 m c b
theorem hF13 (c : Dev nD) (w : Fin cfg13.W) : (dat13 (U25 m) c).arrAt w cfg13.N = U26 m c (Pipeline.arrRef spec13 w) :=
  (W26_arr m c w).symm
theorem hrest13 (c : Dev nD) : ∀ b, b ∉ Finset.univ.image (Pipeline.arrRef spec13) → U26 m c b = U25 m c b :=
  fun b hb => W26_of_ne m c b fun w e => hb (Finset.mem_image.mpr ⟨w, Finset.mem_univ _, e⟩)
/-- A region changes only its output arrays: an input window's array ends as entered, any other buffer is bypassed. -/
theorem W26_keep (c : Dev nD) (b : Ref sig .tc) (hb : b ∉ ([main_v240] : List (Ref sig .tc))) :
    W26 m c (Proc.devRef .tc b) = W25 m c (Proc.devRef .tc b) := by
  by_cases h : ∃ w, Pipeline.arrRef spec13 w = b
  · obtain ⟨w, rfl⟩ := h
    fin_cases w
    · exact (W26_arr m c 0).trans (((dat13 (U25 m) c).arrAt_in 0 rfl _).trans (A_eq13 (U25 m) c 0))
    · exact (W26_arr m c 1).trans (((dat13 (U25 m) c).arrAt_in 1 rfl _).trans (A_eq13 (U25 m) c 1))
    · exact (W26_arr m c 2).trans (((dat13 (U25 m) c).arrAt_in 2 rfl _).trans (A_eq13 (U25 m) c 2))
    · exact (W26_arr m c 3).trans (((dat13 (U25 m) c).arrAt_in 3 rfl _).trans (A_eq13 (U25 m) c 3))
    · exact (W26_arr m c 4).trans (((dat13 (U25 m) c).arrAt_in 4 rfl _).trans (A_eq13 (U25 m) c 4))
    · exact (W26_arr m c 5).trans (((dat13 (U25 m) c).arrAt_in 5 rfl _).trans (A_eq13 (U25 m) c 5))
    · exact (W26_arr m c 6).trans (((dat13 (U25 m) c).arrAt_in 6 rfl _).trans (A_eq13 (U25 m) c 6))
    · exact absurd (by decide) hb
  · exact W26_of_ne m c b fun w e => h ⟨w, e⟩

/-- After host stretch 14. -/
abbrev W27 : Dev nD → Valuation τ sig (Elt F) := fun c => StableHlo.after hostOps14 (W26 m c)
abbrev U27 : (c : Dev nD) → (b : Ref sig .tc) → Buf (Elt F) ((c : Thread nD τ).loc b) := fun c b => W27 m c b
theorem W27_keep (c : Dev nD) (b : Ref sig .tc) (hb : b ∉ hostOps14_W) :
    W27 m c (Proc.devRef .tc b) = W26 m c (Proc.devRef .tc b) :=
  StableHlo.after_of_writes_sub hostOps14 _ hostOps14_writes hb

/-- At region 14's exit: its arrays at what the pipeline leaves, every other buffer as entered. -/
def W28 (c : Dev nD) : Valuation τ sig (Elt F) :=
  Pipeline.withArrays spec14 c (W27 m c) fun w => (dat14 (U27 m) c).arrAt w cfg14.N
theorem W28_arr (c : Dev nD) (w : Fin cfg14.W) :
    W28 m c (Proc.devRef .tc (Pipeline.arrRef spec14 w)) = (dat14 (U27 m) c).arrAt w cfg14.N := by
  unfold W28; exact Pipeline.withArrays_arr spec14 launch14.win.arr_inj c _ _ w
theorem W28_of_ne (c : Dev nD) (b : Ref sig .tc) (hb : ∀ w, Pipeline.arrRef spec14 w ≠ b) :
    W28 m c (Proc.devRef .tc b) = W27 m c (Proc.devRef .tc b) := by
  unfold W28; exact Pipeline.withArrays_of_ne spec14 c _ _ b hb
abbrev U28 : (c : Dev nD) → (b : Ref sig .tc) → Buf (Elt F) ((c : Thread nD τ).loc b) := fun c b => W28 m c b
theorem hF14 (c : Dev nD) (w : Fin cfg14.W) : (dat14 (U27 m) c).arrAt w cfg14.N = U28 m c (Pipeline.arrRef spec14 w) :=
  (W28_arr m c w).symm
theorem hrest14 (c : Dev nD) : ∀ b, b ∉ Finset.univ.image (Pipeline.arrRef spec14) → U28 m c b = U27 m c b :=
  fun b hb => W28_of_ne m c b fun w e => hb (Finset.mem_image.mpr ⟨w, Finset.mem_univ _, e⟩)
/-- A region changes only its output arrays: an input window's array ends as entered, any other buffer is bypassed. -/
theorem W28_keep (c : Dev nD) (b : Ref sig .tc) (hb : b ∉ ([main_v255] : List (Ref sig .tc))) :
    W28 m c (Proc.devRef .tc b) = W27 m c (Proc.devRef .tc b) := by
  by_cases h : ∃ w, Pipeline.arrRef spec14 w = b
  · obtain ⟨w, rfl⟩ := h
    fin_cases w
    · exact (W28_arr m c 0).trans (((dat14 (U27 m) c).arrAt_in 0 rfl _).trans (A_eq14 (U27 m) c 0))
    · exact (W28_arr m c 1).trans (((dat14 (U27 m) c).arrAt_in 1 rfl _).trans (A_eq14 (U27 m) c 1))
    · exact (W28_arr m c 2).trans (((dat14 (U27 m) c).arrAt_in 2 rfl _).trans (A_eq14 (U27 m) c 2))
    · exact (W28_arr m c 3).trans (((dat14 (U27 m) c).arrAt_in 3 rfl _).trans (A_eq14 (U27 m) c 3))
    · exact (W28_arr m c 4).trans (((dat14 (U27 m) c).arrAt_in 4 rfl _).trans (A_eq14 (U27 m) c 4))
    · exact absurd (by decide) hb
  · exact W28_of_ne m c b fun w e => h ⟨w, e⟩

/-! ## The arguments end as launched: no item writes one -/

theorem W28_main_arg0 (c : Dev nD) : W28 m c (Proc.devRef .tc main_arg0) = m ((c : Thread nD τ).loc main_arg0) :=
  (W28_keep m c main_arg0 (by decide)).trans ((W27_keep m c main_arg0 (by decide)).trans ((W26_keep m c main_arg0 (by decide)).trans ((W25_keep m c main_arg0 (by decide)).trans ((W24_keep m c main_arg0 (by decide)).trans ((W23_keep m c main_arg0 (by decide)).trans ((W22_keep m c main_arg0 (by decide)).trans ((W21_keep m c main_arg0 (by decide)).trans ((W20_keep m c main_arg0 (by decide)).trans ((W19_keep m c main_arg0 (by decide)).trans ((W18_keep m c main_arg0 (by decide)).trans ((W17_keep m c main_arg0 (by decide)).trans ((W16_keep m c main_arg0 (by decide)).trans ((W15_keep m c main_arg0 (by decide)).trans ((W14_keep m c main_arg0 (by decide)).trans ((W13_keep m c main_arg0 (by decide)).trans ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans ((W1_keep m c main_arg0 (by decide)).trans (rfl))))))))))))))))))))))))))))
theorem W28_main_arg1 (c : Dev nD) : W28 m c (Proc.devRef .tc main_arg1) = m ((c : Thread nD τ).loc main_arg1) :=
  (W28_keep m c main_arg1 (by decide)).trans ((W27_keep m c main_arg1 (by decide)).trans ((W26_keep m c main_arg1 (by decide)).trans ((W25_keep m c main_arg1 (by decide)).trans ((W24_keep m c main_arg1 (by decide)).trans ((W23_keep m c main_arg1 (by decide)).trans ((W22_keep m c main_arg1 (by decide)).trans ((W21_keep m c main_arg1 (by decide)).trans ((W20_keep m c main_arg1 (by decide)).trans ((W19_keep m c main_arg1 (by decide)).trans ((W18_keep m c main_arg1 (by decide)).trans ((W17_keep m c main_arg1 (by decide)).trans ((W16_keep m c main_arg1 (by decide)).trans ((W15_keep m c main_arg1 (by decide)).trans ((W14_keep m c main_arg1 (by decide)).trans ((W13_keep m c main_arg1 (by decide)).trans ((W12_keep m c main_arg1 (by decide)).trans ((W11_keep m c main_arg1 (by decide)).trans ((W10_keep m c main_arg1 (by decide)).trans ((W9_keep m c main_arg1 (by decide)).trans ((W8_keep m c main_arg1 (by decide)).trans ((W7_keep m c main_arg1 (by decide)).trans ((W6_keep m c main_arg1 (by decide)).trans ((W5_keep m c main_arg1 (by decide)).trans ((W4_keep m c main_arg1 (by decide)).trans ((W3_keep m c main_arg1 (by decide)).trans ((W2_keep m c main_arg1 (by decide)).trans ((W1_keep m c main_arg1 (by decide)).trans (rfl))))))))))))))))))))))))))))
theorem W28_main_arg2 (c : Dev nD) : W28 m c (Proc.devRef .tc main_arg2) = m ((c : Thread nD τ).loc main_arg2) :=
  (W28_keep m c main_arg2 (by decide)).trans ((W27_keep m c main_arg2 (by decide)).trans ((W26_keep m c main_arg2 (by decide)).trans ((W25_keep m c main_arg2 (by decide)).trans ((W24_keep m c main_arg2 (by decide)).trans ((W23_keep m c main_arg2 (by decide)).trans ((W22_keep m c main_arg2 (by decide)).trans ((W21_keep m c main_arg2 (by decide)).trans ((W20_keep m c main_arg2 (by decide)).trans ((W19_keep m c main_arg2 (by decide)).trans ((W18_keep m c main_arg2 (by decide)).trans ((W17_keep m c main_arg2 (by decide)).trans ((W16_keep m c main_arg2 (by decide)).trans ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans ((W1_keep m c main_arg2 (by decide)).trans (rfl))))))))))))))))))))))))))))
theorem W28_main_arg3 (c : Dev nD) : W28 m c (Proc.devRef .tc main_arg3) = m ((c : Thread nD τ).loc main_arg3) :=
  (W28_keep m c main_arg3 (by decide)).trans ((W27_keep m c main_arg3 (by decide)).trans ((W26_keep m c main_arg3 (by decide)).trans ((W25_keep m c main_arg3 (by decide)).trans ((W24_keep m c main_arg3 (by decide)).trans ((W23_keep m c main_arg3 (by decide)).trans ((W22_keep m c main_arg3 (by decide)).trans ((W21_keep m c main_arg3 (by decide)).trans ((W20_keep m c main_arg3 (by decide)).trans ((W19_keep m c main_arg3 (by decide)).trans ((W18_keep m c main_arg3 (by decide)).trans ((W17_keep m c main_arg3 (by decide)).trans ((W16_keep m c main_arg3 (by decide)).trans ((W15_keep m c main_arg3 (by decide)).trans ((W14_keep m c main_arg3 (by decide)).trans ((W13_keep m c main_arg3 (by decide)).trans ((W12_keep m c main_arg3 (by decide)).trans ((W11_keep m c main_arg3 (by decide)).trans ((W10_keep m c main_arg3 (by decide)).trans ((W9_keep m c main_arg3 (by decide)).trans ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans ((W1_keep m c main_arg3 (by decide)).trans (rfl))))))))))))))))))))))))))))
theorem W28_main_arg4 (c : Dev nD) : W28 m c (Proc.devRef .tc main_arg4) = m ((c : Thread nD τ).loc main_arg4) :=
  (W28_keep m c main_arg4 (by decide)).trans ((W27_keep m c main_arg4 (by decide)).trans ((W26_keep m c main_arg4 (by decide)).trans ((W25_keep m c main_arg4 (by decide)).trans ((W24_keep m c main_arg4 (by decide)).trans ((W23_keep m c main_arg4 (by decide)).trans ((W22_keep m c main_arg4 (by decide)).trans ((W21_keep m c main_arg4 (by decide)).trans ((W20_keep m c main_arg4 (by decide)).trans ((W19_keep m c main_arg4 (by decide)).trans ((W18_keep m c main_arg4 (by decide)).trans ((W17_keep m c main_arg4 (by decide)).trans ((W16_keep m c main_arg4 (by decide)).trans ((W15_keep m c main_arg4 (by decide)).trans ((W14_keep m c main_arg4 (by decide)).trans ((W13_keep m c main_arg4 (by decide)).trans ((W12_keep m c main_arg4 (by decide)).trans ((W11_keep m c main_arg4 (by decide)).trans ((W10_keep m c main_arg4 (by decide)).trans ((W9_keep m c main_arg4 (by decide)).trans ((W8_keep m c main_arg4 (by decide)).trans ((W7_keep m c main_arg4 (by decide)).trans ((W6_keep m c main_arg4 (by decide)).trans ((W5_keep m c main_arg4 (by decide)).trans ((W4_keep m c main_arg4 (by decide)).trans ((W3_keep m c main_arg4 (by decide)).trans ((W2_keep m c main_arg4 (by decide)).trans ((W1_keep m c main_arg4 (by decide)).trans (rfl))))))))))))))))))))))))))))
theorem W28_main_arg5 (c : Dev nD) : W28 m c (Proc.devRef .tc main_arg5) = m ((c : Thread nD τ).loc main_arg5) :=
  (W28_keep m c main_arg5 (by decide)).trans ((W27_keep m c main_arg5 (by decide)).trans ((W26_keep m c main_arg5 (by decide)).trans ((W25_keep m c main_arg5 (by decide)).trans ((W24_keep m c main_arg5 (by decide)).trans ((W23_keep m c main_arg5 (by decide)).trans ((W22_keep m c main_arg5 (by decide)).trans ((W21_keep m c main_arg5 (by decide)).trans ((W20_keep m c main_arg5 (by decide)).trans ((W19_keep m c main_arg5 (by decide)).trans ((W18_keep m c main_arg5 (by decide)).trans ((W17_keep m c main_arg5 (by decide)).trans ((W16_keep m c main_arg5 (by decide)).trans ((W15_keep m c main_arg5 (by decide)).trans ((W14_keep m c main_arg5 (by decide)).trans ((W13_keep m c main_arg5 (by decide)).trans ((W12_keep m c main_arg5 (by decide)).trans ((W11_keep m c main_arg5 (by decide)).trans ((W10_keep m c main_arg5 (by decide)).trans ((W9_keep m c main_arg5 (by decide)).trans ((W8_keep m c main_arg5 (by decide)).trans ((W7_keep m c main_arg5 (by decide)).trans ((W6_keep m c main_arg5 (by decide)).trans ((W5_keep m c main_arg5 (by decide)).trans ((W4_keep m c main_arg5 (by decide)).trans ((W3_keep m c main_arg5 (by decide)).trans ((W2_keep m c main_arg5 (by decide)).trans ((W1_keep m c main_arg5 (by decide)).trans (rfl))))))))))))))))))))))))))))
theorem W28_main_arg6 (c : Dev nD) : W28 m c (Proc.devRef .tc main_arg6) = m ((c : Thread nD τ).loc main_arg6) :=
  (W28_keep m c main_arg6 (by decide)).trans ((W27_keep m c main_arg6 (by decide)).trans ((W26_keep m c main_arg6 (by decide)).trans ((W25_keep m c main_arg6 (by decide)).trans ((W24_keep m c main_arg6 (by decide)).trans ((W23_keep m c main_arg6 (by decide)).trans ((W22_keep m c main_arg6 (by decide)).trans ((W21_keep m c main_arg6 (by decide)).trans ((W20_keep m c main_arg6 (by decide)).trans ((W19_keep m c main_arg6 (by decide)).trans ((W18_keep m c main_arg6 (by decide)).trans ((W17_keep m c main_arg6 (by decide)).trans ((W16_keep m c main_arg6 (by decide)).trans ((W15_keep m c main_arg6 (by decide)).trans ((W14_keep m c main_arg6 (by decide)).trans ((W13_keep m c main_arg6 (by decide)).trans ((W12_keep m c main_arg6 (by decide)).trans ((W11_keep m c main_arg6 (by decide)).trans ((W10_keep m c main_arg6 (by decide)).trans ((W9_keep m c main_arg6 (by decide)).trans ((W8_keep m c main_arg6 (by decide)).trans ((W7_keep m c main_arg6 (by decide)).trans ((W6_keep m c main_arg6 (by decide)).trans ((W5_keep m c main_arg6 (by decide)).trans ((W4_keep m c main_arg6 (by decide)).trans ((W3_keep m c main_arg6 (by decide)).trans ((W2_keep m c main_arg6 (by decide)).trans ((W1_keep m c main_arg6 (by decide)).trans (rfl))))))))))))))))))))))))))))
theorem W28_main_arg7 (c : Dev nD) : W28 m c (Proc.devRef .tc main_arg7) = m ((c : Thread nD τ).loc main_arg7) :=
  (W28_keep m c main_arg7 (by decide)).trans ((W27_keep m c main_arg7 (by decide)).trans ((W26_keep m c main_arg7 (by decide)).trans ((W25_keep m c main_arg7 (by decide)).trans ((W24_keep m c main_arg7 (by decide)).trans ((W23_keep m c main_arg7 (by decide)).trans ((W22_keep m c main_arg7 (by decide)).trans ((W21_keep m c main_arg7 (by decide)).trans ((W20_keep m c main_arg7 (by decide)).trans ((W19_keep m c main_arg7 (by decide)).trans ((W18_keep m c main_arg7 (by decide)).trans ((W17_keep m c main_arg7 (by decide)).trans ((W16_keep m c main_arg7 (by decide)).trans ((W15_keep m c main_arg7 (by decide)).trans ((W14_keep m c main_arg7 (by decide)).trans ((W13_keep m c main_arg7 (by decide)).trans ((W12_keep m c main_arg7 (by decide)).trans ((W11_keep m c main_arg7 (by decide)).trans ((W10_keep m c main_arg7 (by decide)).trans ((W9_keep m c main_arg7 (by decide)).trans ((W8_keep m c main_arg7 (by decide)).trans ((W7_keep m c main_arg7 (by decide)).trans ((W6_keep m c main_arg7 (by decide)).trans ((W5_keep m c main_arg7 (by decide)).trans ((W4_keep m c main_arg7 (by decide)).trans ((W3_keep m c main_arg7 (by decide)).trans ((W2_keep m c main_arg7 (by decide)).trans ((W1_keep m c main_arg7 (by decide)).trans (rfl))))))))))))))))))))))))))))
theorem W28_main_arg8 (c : Dev nD) : W28 m c (Proc.devRef .tc main_arg8) = m ((c : Thread nD τ).loc main_arg8) :=
  (W28_keep m c main_arg8 (by decide)).trans ((W27_keep m c main_arg8 (by decide)).trans ((W26_keep m c main_arg8 (by decide)).trans ((W25_keep m c main_arg8 (by decide)).trans ((W24_keep m c main_arg8 (by decide)).trans ((W23_keep m c main_arg8 (by decide)).trans ((W22_keep m c main_arg8 (by decide)).trans ((W21_keep m c main_arg8 (by decide)).trans ((W20_keep m c main_arg8 (by decide)).trans ((W19_keep m c main_arg8 (by decide)).trans ((W18_keep m c main_arg8 (by decide)).trans ((W17_keep m c main_arg8 (by decide)).trans ((W16_keep m c main_arg8 (by decide)).trans ((W15_keep m c main_arg8 (by decide)).trans ((W14_keep m c main_arg8 (by decide)).trans ((W13_keep m c main_arg8 (by decide)).trans ((W12_keep m c main_arg8 (by decide)).trans ((W11_keep m c main_arg8 (by decide)).trans ((W10_keep m c main_arg8 (by decide)).trans ((W9_keep m c main_arg8 (by decide)).trans ((W8_keep m c main_arg8 (by decide)).trans ((W7_keep m c main_arg8 (by decide)).trans ((W6_keep m c main_arg8 (by decide)).trans ((W5_keep m c main_arg8 (by decide)).trans ((W4_keep m c main_arg8 (by decide)).trans ((W3_keep m c main_arg8 (by decide)).trans ((W2_keep m c main_arg8 (by decide)).trans ((W1_keep m c main_arg8 (by decide)).trans (rfl))))))))))))))))))))))))))))
theorem W28_main_arg9 (c : Dev nD) : W28 m c (Proc.devRef .tc main_arg9) = m ((c : Thread nD τ).loc main_arg9) :=
  (W28_keep m c main_arg9 (by decide)).trans ((W27_keep m c main_arg9 (by decide)).trans ((W26_keep m c main_arg9 (by decide)).trans ((W25_keep m c main_arg9 (by decide)).trans ((W24_keep m c main_arg9 (by decide)).trans ((W23_keep m c main_arg9 (by decide)).trans ((W22_keep m c main_arg9 (by decide)).trans ((W21_keep m c main_arg9 (by decide)).trans ((W20_keep m c main_arg9 (by decide)).trans ((W19_keep m c main_arg9 (by decide)).trans ((W18_keep m c main_arg9 (by decide)).trans ((W17_keep m c main_arg9 (by decide)).trans ((W16_keep m c main_arg9 (by decide)).trans ((W15_keep m c main_arg9 (by decide)).trans ((W14_keep m c main_arg9 (by decide)).trans ((W13_keep m c main_arg9 (by decide)).trans ((W12_keep m c main_arg9 (by decide)).trans ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans ((W1_keep m c main_arg9 (by decide)).trans (rfl))))))))))))))))))))))))))))
theorem W28_main_arg10 (c : Dev nD) : W28 m c (Proc.devRef .tc main_arg10) = m ((c : Thread nD τ).loc main_arg10) :=
  (W28_keep m c main_arg10 (by decide)).trans ((W27_keep m c main_arg10 (by decide)).trans ((W26_keep m c main_arg10 (by decide)).trans ((W25_keep m c main_arg10 (by decide)).trans ((W24_keep m c main_arg10 (by decide)).trans ((W23_keep m c main_arg10 (by decide)).trans ((W22_keep m c main_arg10 (by decide)).trans ((W21_keep m c main_arg10 (by decide)).trans ((W20_keep m c main_arg10 (by decide)).trans ((W19_keep m c main_arg10 (by decide)).trans ((W18_keep m c main_arg10 (by decide)).trans ((W17_keep m c main_arg10 (by decide)).trans ((W16_keep m c main_arg10 (by decide)).trans ((W15_keep m c main_arg10 (by decide)).trans ((W14_keep m c main_arg10 (by decide)).trans ((W13_keep m c main_arg10 (by decide)).trans ((W12_keep m c main_arg10 (by decide)).trans ((W11_keep m c main_arg10 (by decide)).trans ((W10_keep m c main_arg10 (by decide)).trans ((W9_keep m c main_arg10 (by decide)).trans ((W8_keep m c main_arg10 (by decide)).trans ((W7_keep m c main_arg10 (by decide)).trans ((W6_keep m c main_arg10 (by decide)).trans ((W5_keep m c main_arg10 (by decide)).trans ((W4_keep m c main_arg10 (by decide)).trans ((W3_keep m c main_arg10 (by decide)).trans ((W2_keep m c main_arg10 (by decide)).trans ((W1_keep m c main_arg10 (by decide)).trans (rfl))))))))))))))))))))))))))))
theorem W28_main_arg11 (c : Dev nD) : W28 m c (Proc.devRef .tc main_arg11) = m ((c : Thread nD τ).loc main_arg11) :=
  (W28_keep m c main_arg11 (by decide)).trans ((W27_keep m c main_arg11 (by decide)).trans ((W26_keep m c main_arg11 (by decide)).trans ((W25_keep m c main_arg11 (by decide)).trans ((W24_keep m c main_arg11 (by decide)).trans ((W23_keep m c main_arg11 (by decide)).trans ((W22_keep m c main_arg11 (by decide)).trans ((W21_keep m c main_arg11 (by decide)).trans ((W20_keep m c main_arg11 (by decide)).trans ((W19_keep m c main_arg11 (by decide)).trans ((W18_keep m c main_arg11 (by decide)).trans ((W17_keep m c main_arg11 (by decide)).trans ((W16_keep m c main_arg11 (by decide)).trans ((W15_keep m c main_arg11 (by decide)).trans ((W14_keep m c main_arg11 (by decide)).trans ((W13_keep m c main_arg11 (by decide)).trans ((W12_keep m c main_arg11 (by decide)).trans ((W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans ((W1_keep m c main_arg11 (by decide)).trans (rfl))))))))))))))))))))))))))))
theorem W28_main_arg12 (c : Dev nD) : W28 m c (Proc.devRef .tc main_arg12) = m ((c : Thread nD τ).loc main_arg12) :=
  (W28_keep m c main_arg12 (by decide)).trans ((W27_keep m c main_arg12 (by decide)).trans ((W26_keep m c main_arg12 (by decide)).trans ((W25_keep m c main_arg12 (by decide)).trans ((W24_keep m c main_arg12 (by decide)).trans ((W23_keep m c main_arg12 (by decide)).trans ((W22_keep m c main_arg12 (by decide)).trans ((W21_keep m c main_arg12 (by decide)).trans ((W20_keep m c main_arg12 (by decide)).trans ((W19_keep m c main_arg12 (by decide)).trans ((W18_keep m c main_arg12 (by decide)).trans ((W17_keep m c main_arg12 (by decide)).trans ((W16_keep m c main_arg12 (by decide)).trans ((W15_keep m c main_arg12 (by decide)).trans ((W14_keep m c main_arg12 (by decide)).trans ((W13_keep m c main_arg12 (by decide)).trans ((W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans ((W1_keep m c main_arg12 (by decide)).trans (rfl))))))))))))))))))))))))))))
theorem W28_main_arg13 (c : Dev nD) : W28 m c (Proc.devRef .tc main_arg13) = m ((c : Thread nD τ).loc main_arg13) :=
  (W28_keep m c main_arg13 (by decide)).trans ((W27_keep m c main_arg13 (by decide)).trans ((W26_keep m c main_arg13 (by decide)).trans ((W25_keep m c main_arg13 (by decide)).trans ((W24_keep m c main_arg13 (by decide)).trans ((W23_keep m c main_arg13 (by decide)).trans ((W22_keep m c main_arg13 (by decide)).trans ((W21_keep m c main_arg13 (by decide)).trans ((W20_keep m c main_arg13 (by decide)).trans ((W19_keep m c main_arg13 (by decide)).trans ((W18_keep m c main_arg13 (by decide)).trans ((W17_keep m c main_arg13 (by decide)).trans ((W16_keep m c main_arg13 (by decide)).trans ((W15_keep m c main_arg13 (by decide)).trans ((W14_keep m c main_arg13 (by decide)).trans ((W13_keep m c main_arg13 (by decide)).trans ((W12_keep m c main_arg13 (by decide)).trans ((W11_keep m c main_arg13 (by decide)).trans ((W10_keep m c main_arg13 (by decide)).trans ((W9_keep m c main_arg13 (by decide)).trans ((W8_keep m c main_arg13 (by decide)).trans ((W7_keep m c main_arg13 (by decide)).trans ((W6_keep m c main_arg13 (by decide)).trans ((W5_keep m c main_arg13 (by decide)).trans ((W4_keep m c main_arg13 (by decide)).trans ((W3_keep m c main_arg13 (by decide)).trans ((W2_keep m c main_arg13 (by decide)).trans ((W1_keep m c main_arg13 (by decide)).trans (rfl))))))))))))))))))))))))))))
theorem W28_main_arg14 (c : Dev nD) : W28 m c (Proc.devRef .tc main_arg14) = m ((c : Thread nD τ).loc main_arg14) :=
  (W28_keep m c main_arg14 (by decide)).trans ((W27_keep m c main_arg14 (by decide)).trans ((W26_keep m c main_arg14 (by decide)).trans ((W25_keep m c main_arg14 (by decide)).trans ((W24_keep m c main_arg14 (by decide)).trans ((W23_keep m c main_arg14 (by decide)).trans ((W22_keep m c main_arg14 (by decide)).trans ((W21_keep m c main_arg14 (by decide)).trans ((W20_keep m c main_arg14 (by decide)).trans ((W19_keep m c main_arg14 (by decide)).trans ((W18_keep m c main_arg14 (by decide)).trans ((W17_keep m c main_arg14 (by decide)).trans ((W16_keep m c main_arg14 (by decide)).trans ((W15_keep m c main_arg14 (by decide)).trans ((W14_keep m c main_arg14 (by decide)).trans ((W13_keep m c main_arg14 (by decide)).trans ((W12_keep m c main_arg14 (by decide)).trans ((W11_keep m c main_arg14 (by decide)).trans ((W10_keep m c main_arg14 (by decide)).trans ((W9_keep m c main_arg14 (by decide)).trans ((W8_keep m c main_arg14 (by decide)).trans ((W7_keep m c main_arg14 (by decide)).trans ((W6_keep m c main_arg14 (by decide)).trans ((W5_keep m c main_arg14 (by decide)).trans ((W4_keep m c main_arg14 (by decide)).trans ((W3_keep m c main_arg14 (by decide)).trans ((W2_keep m c main_arg14 (by decide)).trans ((W1_keep m c main_arg14 (by decide)).trans (rfl))))))))))))))))))))))))))))
theorem W28_main_arg15 (c : Dev nD) : W28 m c (Proc.devRef .tc main_arg15) = m ((c : Thread nD τ).loc main_arg15) :=
  (W28_keep m c main_arg15 (by decide)).trans ((W27_keep m c main_arg15 (by decide)).trans ((W26_keep m c main_arg15 (by decide)).trans ((W25_keep m c main_arg15 (by decide)).trans ((W24_keep m c main_arg15 (by decide)).trans ((W23_keep m c main_arg15 (by decide)).trans ((W22_keep m c main_arg15 (by decide)).trans ((W21_keep m c main_arg15 (by decide)).trans ((W20_keep m c main_arg15 (by decide)).trans ((W19_keep m c main_arg15 (by decide)).trans ((W18_keep m c main_arg15 (by decide)).trans ((W17_keep m c main_arg15 (by decide)).trans ((W16_keep m c main_arg15 (by decide)).trans ((W15_keep m c main_arg15 (by decide)).trans ((W14_keep m c main_arg15 (by decide)).trans ((W13_keep m c main_arg15 (by decide)).trans ((W12_keep m c main_arg15 (by decide)).trans ((W11_keep m c main_arg15 (by decide)).trans ((W10_keep m c main_arg15 (by decide)).trans ((W9_keep m c main_arg15 (by decide)).trans ((W8_keep m c main_arg15 (by decide)).trans ((W7_keep m c main_arg15 (by decide)).trans ((W6_keep m c main_arg15 (by decide)).trans ((W5_keep m c main_arg15 (by decide)).trans ((W4_keep m c main_arg15 (by decide)).trans ((W3_keep m c main_arg15 (by decide)).trans ((W2_keep m c main_arg15 (by decide)).trans ((W1_keep m c main_arg15 (by decide)).trans (rfl))))))))))))))))))))))))))))
theorem W28_main_arg16 (c : Dev nD) : W28 m c (Proc.devRef .tc main_arg16) = m ((c : Thread nD τ).loc main_arg16) :=
  (W28_keep m c main_arg16 (by decide)).trans ((W27_keep m c main_arg16 (by decide)).trans ((W26_keep m c main_arg16 (by decide)).trans ((W25_keep m c main_arg16 (by decide)).trans ((W24_keep m c main_arg16 (by decide)).trans ((W23_keep m c main_arg16 (by decide)).trans ((W22_keep m c main_arg16 (by decide)).trans ((W21_keep m c main_arg16 (by decide)).trans ((W20_keep m c main_arg16 (by decide)).trans ((W19_keep m c main_arg16 (by decide)).trans ((W18_keep m c main_arg16 (by decide)).trans ((W17_keep m c main_arg16 (by decide)).trans ((W16_keep m c main_arg16 (by decide)).trans ((W15_keep m c main_arg16 (by decide)).trans ((W14_keep m c main_arg16 (by decide)).trans ((W13_keep m c main_arg16 (by decide)).trans ((W12_keep m c main_arg16 (by decide)).trans ((W11_keep m c main_arg16 (by decide)).trans ((W10_keep m c main_arg16 (by decide)).trans ((W9_keep m c main_arg16 (by decide)).trans ((W8_keep m c main_arg16 (by decide)).trans ((W7_keep m c main_arg16 (by decide)).trans ((W6_keep m c main_arg16 (by decide)).trans ((W5_keep m c main_arg16 (by decide)).trans ((W4_keep m c main_arg16 (by decide)).trans ((W3_keep m c main_arg16 (by decide)).trans ((W2_keep m c main_arg16 (by decide)).trans ((W1_keep m c main_arg16 (by decide)).trans (rfl))))))))))))))))))))))))))))
theorem W28_main_arg17 (c : Dev nD) : W28 m c (Proc.devRef .tc main_arg17) = m ((c : Thread nD τ).loc main_arg17) :=
  (W28_keep m c main_arg17 (by decide)).trans ((W27_keep m c main_arg17 (by decide)).trans ((W26_keep m c main_arg17 (by decide)).trans ((W25_keep m c main_arg17 (by decide)).trans ((W24_keep m c main_arg17 (by decide)).trans ((W23_keep m c main_arg17 (by decide)).trans ((W22_keep m c main_arg17 (by decide)).trans ((W21_keep m c main_arg17 (by decide)).trans ((W20_keep m c main_arg17 (by decide)).trans ((W19_keep m c main_arg17 (by decide)).trans ((W18_keep m c main_arg17 (by decide)).trans ((W17_keep m c main_arg17 (by decide)).trans ((W16_keep m c main_arg17 (by decide)).trans ((W15_keep m c main_arg17 (by decide)).trans ((W14_keep m c main_arg17 (by decide)).trans ((W13_keep m c main_arg17 (by decide)).trans ((W12_keep m c main_arg17 (by decide)).trans ((W11_keep m c main_arg17 (by decide)).trans ((W10_keep m c main_arg17 (by decide)).trans ((W9_keep m c main_arg17 (by decide)).trans ((W8_keep m c main_arg17 (by decide)).trans ((W7_keep m c main_arg17 (by decide)).trans ((W6_keep m c main_arg17 (by decide)).trans ((W5_keep m c main_arg17 (by decide)).trans ((W4_keep m c main_arg17 (by decide)).trans ((W3_keep m c main_arg17 (by decide)).trans ((W2_keep m c main_arg17 (by decide)).trans ((W1_keep m c main_arg17 (by decide)).trans (rfl))))))))))))))))))))))))))))
theorem W28_main_arg18 (c : Dev nD) : W28 m c (Proc.devRef .tc main_arg18) = m ((c : Thread nD τ).loc main_arg18) :=
  (W28_keep m c main_arg18 (by decide)).trans ((W27_keep m c main_arg18 (by decide)).trans ((W26_keep m c main_arg18 (by decide)).trans ((W25_keep m c main_arg18 (by decide)).trans ((W24_keep m c main_arg18 (by decide)).trans ((W23_keep m c main_arg18 (by decide)).trans ((W22_keep m c main_arg18 (by decide)).trans ((W21_keep m c main_arg18 (by decide)).trans ((W20_keep m c main_arg18 (by decide)).trans ((W19_keep m c main_arg18 (by decide)).trans ((W18_keep m c main_arg18 (by decide)).trans ((W17_keep m c main_arg18 (by decide)).trans ((W16_keep m c main_arg18 (by decide)).trans ((W15_keep m c main_arg18 (by decide)).trans ((W14_keep m c main_arg18 (by decide)).trans ((W13_keep m c main_arg18 (by decide)).trans ((W12_keep m c main_arg18 (by decide)).trans ((W11_keep m c main_arg18 (by decide)).trans ((W10_keep m c main_arg18 (by decide)).trans ((W9_keep m c main_arg18 (by decide)).trans ((W8_keep m c main_arg18 (by decide)).trans ((W7_keep m c main_arg18 (by decide)).trans ((W6_keep m c main_arg18 (by decide)).trans ((W5_keep m c main_arg18 (by decide)).trans ((W4_keep m c main_arg18 (by decide)).trans ((W3_keep m c main_arg18 (by decide)).trans ((W2_keep m c main_arg18 (by decide)).trans ((W1_keep m c main_arg18 (by decide)).trans (rfl))))))))))))))))))))))))))))
theorem W28_main_arg19 (c : Dev nD) : W28 m c (Proc.devRef .tc main_arg19) = m ((c : Thread nD τ).loc main_arg19) :=
  (W28_keep m c main_arg19 (by decide)).trans ((W27_keep m c main_arg19 (by decide)).trans ((W26_keep m c main_arg19 (by decide)).trans ((W25_keep m c main_arg19 (by decide)).trans ((W24_keep m c main_arg19 (by decide)).trans ((W23_keep m c main_arg19 (by decide)).trans ((W22_keep m c main_arg19 (by decide)).trans ((W21_keep m c main_arg19 (by decide)).trans ((W20_keep m c main_arg19 (by decide)).trans ((W19_keep m c main_arg19 (by decide)).trans ((W18_keep m c main_arg19 (by decide)).trans ((W17_keep m c main_arg19 (by decide)).trans ((W16_keep m c main_arg19 (by decide)).trans ((W15_keep m c main_arg19 (by decide)).trans ((W14_keep m c main_arg19 (by decide)).trans ((W13_keep m c main_arg19 (by decide)).trans ((W12_keep m c main_arg19 (by decide)).trans ((W11_keep m c main_arg19 (by decide)).trans ((W10_keep m c main_arg19 (by decide)).trans ((W9_keep m c main_arg19 (by decide)).trans ((W8_keep m c main_arg19 (by decide)).trans ((W7_keep m c main_arg19 (by decide)).trans ((W6_keep m c main_arg19 (by decide)).trans ((W5_keep m c main_arg19 (by decide)).trans ((W4_keep m c main_arg19 (by decide)).trans ((W3_keep m c main_arg19 (by decide)).trans ((W2_keep m c main_arg19 (by decide)).trans ((W1_keep m c main_arg19 (by decide)).trans (rfl))))))))))))))))))))))))))))
theorem W28_main_arg20 (c : Dev nD) : W28 m c (Proc.devRef .tc main_arg20) = m ((c : Thread nD τ).loc main_arg20) :=
  (W28_keep m c main_arg20 (by decide)).trans ((W27_keep m c main_arg20 (by decide)).trans ((W26_keep m c main_arg20 (by decide)).trans ((W25_keep m c main_arg20 (by decide)).trans ((W24_keep m c main_arg20 (by decide)).trans ((W23_keep m c main_arg20 (by decide)).trans ((W22_keep m c main_arg20 (by decide)).trans ((W21_keep m c main_arg20 (by decide)).trans ((W20_keep m c main_arg20 (by decide)).trans ((W19_keep m c main_arg20 (by decide)).trans ((W18_keep m c main_arg20 (by decide)).trans ((W17_keep m c main_arg20 (by decide)).trans ((W16_keep m c main_arg20 (by decide)).trans ((W15_keep m c main_arg20 (by decide)).trans ((W14_keep m c main_arg20 (by decide)).trans ((W13_keep m c main_arg20 (by decide)).trans ((W12_keep m c main_arg20 (by decide)).trans ((W11_keep m c main_arg20 (by decide)).trans ((W10_keep m c main_arg20 (by decide)).trans ((W9_keep m c main_arg20 (by decide)).trans ((W8_keep m c main_arg20 (by decide)).trans ((W7_keep m c main_arg20 (by decide)).trans ((W6_keep m c main_arg20 (by decide)).trans ((W5_keep m c main_arg20 (by decide)).trans ((W4_keep m c main_arg20 (by decide)).trans ((W3_keep m c main_arg20 (by decide)).trans ((W2_keep m c main_arg20 (by decide)).trans ((W1_keep m c main_arg20 (by decide)).trans (rfl))))))))))))))))))))))))))))
theorem W28_main_arg21 (c : Dev nD) : W28 m c (Proc.devRef .tc main_arg21) = m ((c : Thread nD τ).loc main_arg21) :=
  (W28_keep m c main_arg21 (by decide)).trans ((W27_keep m c main_arg21 (by decide)).trans ((W26_keep m c main_arg21 (by decide)).trans ((W25_keep m c main_arg21 (by decide)).trans ((W24_keep m c main_arg21 (by decide)).trans ((W23_keep m c main_arg21 (by decide)).trans ((W22_keep m c main_arg21 (by decide)).trans ((W21_keep m c main_arg21 (by decide)).trans ((W20_keep m c main_arg21 (by decide)).trans ((W19_keep m c main_arg21 (by decide)).trans ((W18_keep m c main_arg21 (by decide)).trans ((W17_keep m c main_arg21 (by decide)).trans ((W16_keep m c main_arg21 (by decide)).trans ((W15_keep m c main_arg21 (by decide)).trans ((W14_keep m c main_arg21 (by decide)).trans ((W13_keep m c main_arg21 (by decide)).trans ((W12_keep m c main_arg21 (by decide)).trans ((W11_keep m c main_arg21 (by decide)).trans ((W10_keep m c main_arg21 (by decide)).trans ((W9_keep m c main_arg21 (by decide)).trans ((W8_keep m c main_arg21 (by decide)).trans ((W7_keep m c main_arg21 (by decide)).trans ((W6_keep m c main_arg21 (by decide)).trans ((W5_keep m c main_arg21 (by decide)).trans ((W4_keep m c main_arg21 (by decide)).trans ((W3_keep m c main_arg21 (by decide)).trans ((W2_keep m c main_arg21 (by decide)).trans ((W1_keep m c main_arg21 (by decide)).trans (rfl))))))))))))))))))))))))))))
theorem W28_main_arg22 (c : Dev nD) : W28 m c (Proc.devRef .tc main_arg22) = m ((c : Thread nD τ).loc main_arg22) :=
  (W28_keep m c main_arg22 (by decide)).trans ((W27_keep m c main_arg22 (by decide)).trans ((W26_keep m c main_arg22 (by decide)).trans ((W25_keep m c main_arg22 (by decide)).trans ((W24_keep m c main_arg22 (by decide)).trans ((W23_keep m c main_arg22 (by decide)).trans ((W22_keep m c main_arg22 (by decide)).trans ((W21_keep m c main_arg22 (by decide)).trans ((W20_keep m c main_arg22 (by decide)).trans ((W19_keep m c main_arg22 (by decide)).trans ((W18_keep m c main_arg22 (by decide)).trans ((W17_keep m c main_arg22 (by decide)).trans ((W16_keep m c main_arg22 (by decide)).trans ((W15_keep m c main_arg22 (by decide)).trans ((W14_keep m c main_arg22 (by decide)).trans ((W13_keep m c main_arg22 (by decide)).trans ((W12_keep m c main_arg22 (by decide)).trans ((W11_keep m c main_arg22 (by decide)).trans ((W10_keep m c main_arg22 (by decide)).trans ((W9_keep m c main_arg22 (by decide)).trans ((W8_keep m c main_arg22 (by decide)).trans ((W7_keep m c main_arg22 (by decide)).trans ((W6_keep m c main_arg22 (by decide)).trans ((W5_keep m c main_arg22 (by decide)).trans ((W4_keep m c main_arg22 (by decide)).trans ((W3_keep m c main_arg22 (by decide)).trans ((W2_keep m c main_arg22 (by decide)).trans ((W1_keep m c main_arg22 (by decide)).trans (rfl))))))))))))))))))))))))))))
theorem W28_main_arg23 (c : Dev nD) : W28 m c (Proc.devRef .tc main_arg23) = m ((c : Thread nD τ).loc main_arg23) :=
  (W28_keep m c main_arg23 (by decide)).trans ((W27_keep m c main_arg23 (by decide)).trans ((W26_keep m c main_arg23 (by decide)).trans ((W25_keep m c main_arg23 (by decide)).trans ((W24_keep m c main_arg23 (by decide)).trans ((W23_keep m c main_arg23 (by decide)).trans ((W22_keep m c main_arg23 (by decide)).trans ((W21_keep m c main_arg23 (by decide)).trans ((W20_keep m c main_arg23 (by decide)).trans ((W19_keep m c main_arg23 (by decide)).trans ((W18_keep m c main_arg23 (by decide)).trans ((W17_keep m c main_arg23 (by decide)).trans ((W16_keep m c main_arg23 (by decide)).trans ((W15_keep m c main_arg23 (by decide)).trans ((W14_keep m c main_arg23 (by decide)).trans ((W13_keep m c main_arg23 (by decide)).trans ((W12_keep m c main_arg23 (by decide)).trans ((W11_keep m c main_arg23 (by decide)).trans ((W10_keep m c main_arg23 (by decide)).trans ((W9_keep m c main_arg23 (by decide)).trans ((W8_keep m c main_arg23 (by decide)).trans ((W7_keep m c main_arg23 (by decide)).trans ((W6_keep m c main_arg23 (by decide)).trans ((W5_keep m c main_arg23 (by decide)).trans ((W4_keep m c main_arg23 (by decide)).trans ((W3_keep m c main_arg23 (by decide)).trans ((W2_keep m c main_arg23 (by decide)).trans ((W1_keep m c main_arg23 (by decide)).trans (rfl))))))))))))))))))))))))))))
theorem W28_main_arg24 (c : Dev nD) : W28 m c (Proc.devRef .tc main_arg24) = m ((c : Thread nD τ).loc main_arg24) :=
  (W28_keep m c main_arg24 (by decide)).trans ((W27_keep m c main_arg24 (by decide)).trans ((W26_keep m c main_arg24 (by decide)).trans ((W25_keep m c main_arg24 (by decide)).trans ((W24_keep m c main_arg24 (by decide)).trans ((W23_keep m c main_arg24 (by decide)).trans ((W22_keep m c main_arg24 (by decide)).trans ((W21_keep m c main_arg24 (by decide)).trans ((W20_keep m c main_arg24 (by decide)).trans ((W19_keep m c main_arg24 (by decide)).trans ((W18_keep m c main_arg24 (by decide)).trans ((W17_keep m c main_arg24 (by decide)).trans ((W16_keep m c main_arg24 (by decide)).trans ((W15_keep m c main_arg24 (by decide)).trans ((W14_keep m c main_arg24 (by decide)).trans ((W13_keep m c main_arg24 (by decide)).trans ((W12_keep m c main_arg24 (by decide)).trans ((W11_keep m c main_arg24 (by decide)).trans ((W10_keep m c main_arg24 (by decide)).trans ((W9_keep m c main_arg24 (by decide)).trans ((W8_keep m c main_arg24 (by decide)).trans ((W7_keep m c main_arg24 (by decide)).trans ((W6_keep m c main_arg24 (by decide)).trans ((W5_keep m c main_arg24 (by decide)).trans ((W4_keep m c main_arg24 (by decide)).trans ((W3_keep m c main_arg24 (by decide)).trans ((W2_keep m c main_arg24 (by decide)).trans ((W1_keep m c main_arg24 (by decide)).trans (rfl))))))))))))))))))))))))))))
theorem W28_main_arg25 (c : Dev nD) : W28 m c (Proc.devRef .tc main_arg25) = m ((c : Thread nD τ).loc main_arg25) :=
  (W28_keep m c main_arg25 (by decide)).trans ((W27_keep m c main_arg25 (by decide)).trans ((W26_keep m c main_arg25 (by decide)).trans ((W25_keep m c main_arg25 (by decide)).trans ((W24_keep m c main_arg25 (by decide)).trans ((W23_keep m c main_arg25 (by decide)).trans ((W22_keep m c main_arg25 (by decide)).trans ((W21_keep m c main_arg25 (by decide)).trans ((W20_keep m c main_arg25 (by decide)).trans ((W19_keep m c main_arg25 (by decide)).trans ((W18_keep m c main_arg25 (by decide)).trans ((W17_keep m c main_arg25 (by decide)).trans ((W16_keep m c main_arg25 (by decide)).trans ((W15_keep m c main_arg25 (by decide)).trans ((W14_keep m c main_arg25 (by decide)).trans ((W13_keep m c main_arg25 (by decide)).trans ((W12_keep m c main_arg25 (by decide)).trans ((W11_keep m c main_arg25 (by decide)).trans ((W10_keep m c main_arg25 (by decide)).trans ((W9_keep m c main_arg25 (by decide)).trans ((W8_keep m c main_arg25 (by decide)).trans ((W7_keep m c main_arg25 (by decide)).trans ((W6_keep m c main_arg25 (by decide)).trans ((W5_keep m c main_arg25 (by decide)).trans ((W4_keep m c main_arg25 (by decide)).trans ((W3_keep m c main_arg25 (by decide)).trans ((W2_keep m c main_arg25 (by decide)).trans ((W1_keep m c main_arg25 (by decide)).trans (rfl))))))))))))))))))))))))))))
theorem W28_main_arg26 (c : Dev nD) : W28 m c (Proc.devRef .tc main_arg26) = m ((c : Thread nD τ).loc main_arg26) :=
  (W28_keep m c main_arg26 (by decide)).trans ((W27_keep m c main_arg26 (by decide)).trans ((W26_keep m c main_arg26 (by decide)).trans ((W25_keep m c main_arg26 (by decide)).trans ((W24_keep m c main_arg26 (by decide)).trans ((W23_keep m c main_arg26 (by decide)).trans ((W22_keep m c main_arg26 (by decide)).trans ((W21_keep m c main_arg26 (by decide)).trans ((W20_keep m c main_arg26 (by decide)).trans ((W19_keep m c main_arg26 (by decide)).trans ((W18_keep m c main_arg26 (by decide)).trans ((W17_keep m c main_arg26 (by decide)).trans ((W16_keep m c main_arg26 (by decide)).trans ((W15_keep m c main_arg26 (by decide)).trans ((W14_keep m c main_arg26 (by decide)).trans ((W13_keep m c main_arg26 (by decide)).trans ((W12_keep m c main_arg26 (by decide)).trans ((W11_keep m c main_arg26 (by decide)).trans ((W10_keep m c main_arg26 (by decide)).trans ((W9_keep m c main_arg26 (by decide)).trans ((W8_keep m c main_arg26 (by decide)).trans ((W7_keep m c main_arg26 (by decide)).trans ((W6_keep m c main_arg26 (by decide)).trans ((W5_keep m c main_arg26 (by decide)).trans ((W4_keep m c main_arg26 (by decide)).trans ((W3_keep m c main_arg26 (by decide)).trans ((W2_keep m c main_arg26 (by decide)).trans ((W1_keep m c main_arg26 (by decide)).trans (rfl))))))))))))))))))))))))))))
theorem W28_main_arg27 (c : Dev nD) : W28 m c (Proc.devRef .tc main_arg27) = m ((c : Thread nD τ).loc main_arg27) :=
  (W28_keep m c main_arg27 (by decide)).trans ((W27_keep m c main_arg27 (by decide)).trans ((W26_keep m c main_arg27 (by decide)).trans ((W25_keep m c main_arg27 (by decide)).trans ((W24_keep m c main_arg27 (by decide)).trans ((W23_keep m c main_arg27 (by decide)).trans ((W22_keep m c main_arg27 (by decide)).trans ((W21_keep m c main_arg27 (by decide)).trans ((W20_keep m c main_arg27 (by decide)).trans ((W19_keep m c main_arg27 (by decide)).trans ((W18_keep m c main_arg27 (by decide)).trans ((W17_keep m c main_arg27 (by decide)).trans ((W16_keep m c main_arg27 (by decide)).trans ((W15_keep m c main_arg27 (by decide)).trans ((W14_keep m c main_arg27 (by decide)).trans ((W13_keep m c main_arg27 (by decide)).trans ((W12_keep m c main_arg27 (by decide)).trans ((W11_keep m c main_arg27 (by decide)).trans ((W10_keep m c main_arg27 (by decide)).trans ((W9_keep m c main_arg27 (by decide)).trans ((W8_keep m c main_arg27 (by decide)).trans ((W7_keep m c main_arg27 (by decide)).trans ((W6_keep m c main_arg27 (by decide)).trans ((W5_keep m c main_arg27 (by decide)).trans ((W4_keep m c main_arg27 (by decide)).trans ((W3_keep m c main_arg27 (by decide)).trans ((W2_keep m c main_arg27 (by decide)).trans ((W1_keep m c main_arg27 (by decide)).trans (rfl))))))))))))))))))))))))))))
theorem W28_main_arg28 (c : Dev nD) : W28 m c (Proc.devRef .tc main_arg28) = m ((c : Thread nD τ).loc main_arg28) :=
  (W28_keep m c main_arg28 (by decide)).trans ((W27_keep m c main_arg28 (by decide)).trans ((W26_keep m c main_arg28 (by decide)).trans ((W25_keep m c main_arg28 (by decide)).trans ((W24_keep m c main_arg28 (by decide)).trans ((W23_keep m c main_arg28 (by decide)).trans ((W22_keep m c main_arg28 (by decide)).trans ((W21_keep m c main_arg28 (by decide)).trans ((W20_keep m c main_arg28 (by decide)).trans ((W19_keep m c main_arg28 (by decide)).trans ((W18_keep m c main_arg28 (by decide)).trans ((W17_keep m c main_arg28 (by decide)).trans ((W16_keep m c main_arg28 (by decide)).trans ((W15_keep m c main_arg28 (by decide)).trans ((W14_keep m c main_arg28 (by decide)).trans ((W13_keep m c main_arg28 (by decide)).trans ((W12_keep m c main_arg28 (by decide)).trans ((W11_keep m c main_arg28 (by decide)).trans ((W10_keep m c main_arg28 (by decide)).trans ((W9_keep m c main_arg28 (by decide)).trans ((W8_keep m c main_arg28 (by decide)).trans ((W7_keep m c main_arg28 (by decide)).trans ((W6_keep m c main_arg28 (by decide)).trans ((W5_keep m c main_arg28 (by decide)).trans ((W4_keep m c main_arg28 (by decide)).trans ((W3_keep m c main_arg28 (by decide)).trans ((W2_keep m c main_arg28 (by decide)).trans ((W1_keep m c main_arg28 (by decide)).trans (rfl))))))))))))))))))))))))))))

/-! ## The proof data family and the thread state -/

abbrev adm : (p : Fin 15) → (pcfgs (F := F) p).Adm := fun p => (cfgs p).toPCfg_adm
/-- Every pipeline's proof data, each at its region's entry contents. -/
def pdats : (p : Fin 15) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U4 m) c
  | ⟨3, _⟩ => fun c => dat3 (U6 m) c
  | ⟨4, _⟩ => fun c => dat4 (U7 m) c
  | ⟨5, _⟩ => fun c => dat5 (U9 m) c
  | ⟨6, _⟩ => fun c => dat6 (U11 m) c
  | ⟨7, _⟩ => fun c => dat7 (U13 m) c
  | ⟨8, _⟩ => fun c => dat8 (U15 m) c
  | ⟨9, _⟩ => fun c => dat9 (U17 m) c
  | ⟨10, _⟩ => fun c => dat10 (U19 m) c
  | ⟨11, _⟩ => fun c => dat11 (U21 m) c
  | ⟨12, _⟩ => fun c => dat12 (U23 m) c
  | ⟨13, _⟩ => fun c => dat13 (U25 m) c
  | ⟨14, _⟩ => fun c => dat14 (U27 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W28 m c) ∗ ∃ r, prngReg c r)

/-! ## The regions as segments -/

set_option backward.isDefEq.respectTransparency.types false in
/-- Region 0: entered from every unscoped buffer at boundary 1's contents, left at boundary 2's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (U1 m) c
  hout c := hout0 (U1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at boundary 3's contents, left at boundary 4's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at boundary 4's contents, left at boundary 5's. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (U4 m) c
  hout c := hout2 (U4 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at boundary 6's contents, left at boundary 7's. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U6 m c) (U7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at boundary 7's contents, left at boundary 8's. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (U7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (U7 m) c
  hout c := hout4 (U7 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U7 m c) (U8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at boundary 9's contents, left at boundary 10's. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (U9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U9 m c) (U10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at boundary 11's contents, left at boundary 12's. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec6 c (U11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (U11 m c) (U12 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at boundary 13's contents, left at boundary 14's. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U13 m) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec7 c (U13 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (U13 m c) (U14 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at boundary 15's contents, left at boundary 16's. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U15 m) c).loose
  hwaits := Pipeline.hwaits_of_owed_zero _ _ _ _ L lv 8 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec8 c (U15 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (U15 m c) (U16 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at boundary 17's contents, left at boundary 18's. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U17 m) c).loose
  hwaits := Pipeline.hwaits_of_owed_zero _ _ _ _ L lv 9 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec9 c (U17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (U17 m c) (U18 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at boundary 19's contents, left at boundary 20's. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (U19 m) c).loose
  hwaits := Pipeline.hwaits_of_owed_zero _ _ _ _ L lv 10 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec10 c (U19 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (U19 m c) (U20 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at boundary 21's contents, left at boundary 22's. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (U21 m) c).loose
  hwaits := Pipeline.hwaits_of_owed_zero _ _ _ _ L lv 11 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec11 c (U21 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (U21 m c) (U22 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from every unscoped buffer at boundary 23's contents, left at boundary 24's. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (U23 m) c).loose
  hwaits := Pipeline.hwaits_of_owed_zero _ _ _ _ L lv 12 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec12 c (U23 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (U23 m c) (U24 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13: entered from every unscoped buffer at boundary 25's contents, left at boundary 26's. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (U25 m) c).loose
  hwaits := Pipeline.hwaits_of_owed_zero _ _ _ _ L lv 13 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec13 c (U25 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (U25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (U25 m c) (U26 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14: entered from every unscoped buffer at boundary 27's contents, left at boundary 28's. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (U27 m) c).loose
  hwaits := Pipeline.hwaits_of_owed_zero _ _ _ _ L lv 14 fun _ _ => rfl
  pre c := iprop(StableHlo.held (c : Thread nD τ) (Pipeline.ucRefs τ sig) (W27 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec14 c (U27 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (U27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (U27 m c) (U28 m c) ((pdats m 14 c).arrAt · cfg14.N) (hF14 m c) (hrest14 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m),
    .host (hseg hostOps7 hostOps7_sub hostOps7_fresh (W12 m)),
    .region (reg7 m),
    .host (hseg hostOps8 hostOps8_sub hostOps8_fresh (W14 m)),
    .region (reg8 m),
    .host (hseg hostOps9 hostOps9_sub hostOps9_fresh (W16 m)),
    .region (reg9 m),
    .host (hseg hostOps10 hostOps10_sub hostOps10_fresh (W18 m)),
    .region (reg10 m),
    .host (hseg hostOps11 hostOps11_sub hostOps11_fresh (W20 m)),
    .region (reg11 m),
    .host (hseg hostOps12 hostOps12_sub hostOps12_fresh (W22 m)),
    .region (reg12 m),
    .host (hseg hostOps13 hostOps13_sub hostOps13_fresh (W24 m)),
    .region (reg13 m),
    .host (hseg hostOps14 hostOps14_sub hostOps14_fresh (W26 m)),
    .region (reg14 m) ]

set_option backward.isDefEq.respectTransparency.types false in
/-- THE RUN: from any memory with zero counters every weakly fair execution of @main terminates, nothing faulting, and
    every final state holds every unscoped buffer of every core at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W28 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m c b)
    (hfin := fun c s' => by
      iintro ⟨⟨Hh, -⟩, HSI⟩
      unfold StableHlo.held
      imodintro
      iapply (pointsTo_read_all (Pipeline.ucRefs τ sig) (fun b => (((c : Thread nD τ)).1, b)) (W28 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨(h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c),
    (h c _ (mem_uc main_arg10 (by decide))).trans (W28_main_arg10 m c),
    (h c _ (mem_uc main_arg11 (by decide))).trans (W28_main_arg11 m c),
    (h c _ (mem_uc main_arg12 (by decide))).trans (W28_main_arg12 m c),
    (h c _ (mem_uc main_arg13 (by decide))).trans (W28_main_arg13 m c),
    (h c _ (mem_uc main_arg14 (by decide))).trans (W28_main_arg14 m c),
    (h c _ (mem_uc main_arg15 (by decide))).trans (W28_main_arg15 m c),
    (h c _ (mem_uc main_arg16 (by decide))).trans (W28_main_arg16 m c),
    (h c _ (mem_uc main_arg17 (by decide))).trans (W28_main_arg17 m c),
    (h c _ (mem_uc main_arg18 (by decide))).trans (W28_main_arg18 m c),
    (h c _ (mem_uc main_arg19 (by decide))).trans (W28_main_arg19 m c),
    (h c _ (mem_uc main_arg20 (by decide))).trans (W28_main_arg20 m c),
    (h c _ (mem_uc main_arg21 (by decide))).trans (W28_main_arg21 m c),
    (h c _ (mem_uc main_arg22 (by decide))).trans (W28_main_arg22 m c),
    (h c _ (mem_uc main_arg23 (by decide))).trans (W28_main_arg23 m c),
    (h c _ (mem_uc main_arg24 (by decide))).trans (W28_main_arg24 m c),
    (h c _ (mem_uc main_arg25 (by decide))).trans (W28_main_arg25 m c),
    (h c _ (mem_uc main_arg26 (by decide))).trans (W28_main_arg26 m c),
    (h c _ (mem_uc main_arg27 (by decide))).trans (W28_main_arg27 m c),
    (h c _ (mem_uc main_arg28 (by decide))).trans (W28_main_arg28 m c)⟩) (run_main m ρ)

/-- THE RESULTS: the three result arrays end at the last boundary's contents, beside the frame. -/
theorem run_results (ρ : Dev nD → PrngReg) : θ_run defs (onTc (τ := τ) (main (F := F))) ⟨m, fun _ => 0, ρ⟩ (fun r => ∀ c : Dev nD,
      r.2.mem ((c.tc : Thread nD τ).loc main_v240) = W28 m c (Proc.devRef .tc main_v240)
      ∧ r.2.mem ((c.tc : Thread nD τ).loc main_v217) = W28 m c (Proc.devRef .tc main_v217)
      ∧ r.2.mem ((c.tc : Thread nD τ).loc main_v255) = W28 m c (Proc.devRef .tc main_v255)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨h c _ (mem_uc main_v240 (by decide)),
    h c _ (mem_uc main_v217 (by decide)),
    h c _ (mem_uc main_v255 (by decide)),
    (h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c),
    (h c _ (mem_uc main_arg10 (by decide))).trans (W28_main_arg10 m c),
    (h c _ (mem_uc main_arg11 (by decide))).trans (W28_main_arg11 m c),
    (h c _ (mem_uc main_arg12 (by decide))).trans (W28_main_arg12 m c),
    (h c _ (mem_uc main_arg13 (by decide))).trans (W28_main_arg13 m c),
    (h c _ (mem_uc main_arg14 (by decide))).trans (W28_main_arg14 m c),
    (h c _ (mem_uc main_arg15 (by decide))).trans (W28_main_arg15 m c),
    (h c _ (mem_uc main_arg16 (by decide))).trans (W28_main_arg16 m c),
    (h c _ (mem_uc main_arg17 (by decide))).trans (W28_main_arg17 m c),
    (h c _ (mem_uc main_arg18 (by decide))).trans (W28_main_arg18 m c),
    (h c _ (mem_uc main_arg19 (by decide))).trans (W28_main_arg19 m c),
    (h c _ (mem_uc main_arg20 (by decide))).trans (W28_main_arg20 m c),
    (h c _ (mem_uc main_arg21 (by decide))).trans (W28_main_arg21 m c),
    (h c _ (mem_uc main_arg22 (by decide))).trans (W28_main_arg22 m c),
    (h c _ (mem_uc main_arg23 (by decide))).trans (W28_main_arg23 m c),
    (h c _ (mem_uc main_arg24 (by decide))).trans (W28_main_arg24 m c),
    (h c _ (mem_uc main_arg25 (by decide))).trans (W28_main_arg25 m c),
    (h c _ (mem_uc main_arg26 (by decide))).trans (W28_main_arg26 m c),
    (h c _ (mem_uc main_arg27 (by decide))).trans (W28_main_arg27 m c),
    (h c _ (mem_uc main_arg28 (by decide))).trans (W28_main_arg28 m c)⟩) (run_main m ρ)

end Cert.KernelIdeal.Hand

end
-- ==== Proof.Ref.Ops0.lean ====
-- written by: gen_ref.js <unit directory>
/- The reference program's @main, window 0 of its six: the window's host operations in order as a list, each call of an
   outlined function listed inline at its call site (the callee's operations over the call's buffer record),
   the window's program as that straight line, and what the list writes, needs and leaves alone. -/
import proofs.«123839_j71768903516633_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- Window 0's 123 operations, in program order. -/
abbrev ops0 : List (HloOp τ sig (Elt F)) :=
  [ StableHlo.unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v2 main_v3 rfl shapeCasts_S1x300000_S300000,
    StableHlo.nullary main_cst (constant S_ .f32 0x00000000#32),
    StableHlo.binary main_arg0 main_cst main_v4 ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)),
    StableHlo.nullary main_cst_0 (constant S_ .f32 0x46EA6000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S30000x64_S64_d0 h_S_),
    StableHlo.TRef.unary main_call0.v0 main_call0.v1 (broadcastInDim S1x64 ![1] bcast_S64_S1x64_1),
    StableHlo.TRef.nullary main_call0.cst_0 (constant S_ .f32 0x46EA6000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S30000x64 ![0, 1] bcast_S1x64_S30000x64_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x46EA6000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S30000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S30000x64 ![0, 1] bcast_S1x64_S30000x64_0_1 : (⟨S1x64, .f32⟩ : BufTy).Contents (Elt F) → (⟨S30000x64, .f32⟩ : BufTy).Contents (Elt F)),
    StableHlo.binary main_arg0 main_v9 main_v10 (subf : (⟨S30000x64, .f32⟩ : BufTy).Contents (Elt F) → (⟨S30000x64, .f32⟩ : BufTy).Contents (Elt F) → (⟨S30000x64, .f32⟩ : BufTy).Contents (Elt F)),
    StableHlo.unary main_arg5 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S30000x64 ![0, 1] bcast_S1x64_S30000x64_0_1 : (⟨S1x64, .f32⟩ : BufTy).Contents (Elt F) → (⟨S30000x64, .f32⟩ : BufTy).Contents (Elt F)),
    StableHlo.binary main_v12 main_v10 main_v13 (mulf : (⟨S30000x64, .f32⟩ : BufTy).Contents (Elt F) → (⟨S30000x64, .f32⟩ : BufTy).Contents (Elt F) → (⟨S30000x64, .f32⟩ : BufTy).Contents (Elt F)),
    StableHlo.nullary main_cst_1 (constant S_ .f32 0x3727C5AC#32),
    StableHlo.unary main_cst_1 main_v14 (broadcastInDim S64 ![] bcast_S_S64 : (⟨S_, .f32⟩ : BufTy).Contents (Elt F) → (⟨S64, .f32⟩ : BufTy).Contents (Elt F)),
    StableHlo.binary main_v7 main_v14 main_v15 (addf : (⟨S64, .f32⟩ : BufTy).Contents (Elt F) → (⟨S64, .f32⟩ : BufTy).Contents (Elt F) → (⟨S64, .f32⟩ : BufTy).Contents (Elt F)),
    StableHlo.unary main_v15 main_v16 (Host.rsqrt : (⟨S64, .f32⟩ : BufTy).Contents (Elt F) → (⟨S64, .f32⟩ : BufTy).Contents (Elt F)),
    StableHlo.unary main_v16 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S30000x64 ![0, 1] bcast_S1x64_S30000x64_0_1 : (⟨S1x64, .f32⟩ : BufTy).Contents (Elt F) → (⟨S30000x64, .f32⟩ : BufTy).Contents (Elt F)),
    StableHlo.binary main_v13 main_v18 main_v19 (mulf : (⟨S30000x64, .f32⟩ : BufTy).Contents (Elt F) → (⟨S30000x64, .f32⟩ : BufTy).Contents (Elt F) → (⟨S30000x64, .f32⟩ : BufTy).Contents (Elt F)),
    StableHlo.unary main_arg6 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S30000x64 ![0, 1] bcast_S1x64_S30000x64_0_1 : (⟨S1x64, .f32⟩ : BufTy).Contents (Elt F) → (⟨S30000x64, .f32⟩ : BufTy).Contents (Elt F)),
    StableHlo.binary main_v19 main_v21 main_v22 (addf : (⟨S30000x64, .f32⟩ : BufTy).Contents (Elt F) → (⟨S30000x64, .f32⟩ : BufTy).Contents (Elt F) → (⟨S30000x64, .f32⟩ : BufTy).Contents (Elt F)),
    StableHlo.nullary main_cst_2 (constant S_ .f32 0x00000000#32),
    StableHlo.binary main_arg2 main_cst_2 main_v23 ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)),
    StableHlo.nullary main_cst_3 (constant S_ .f32 0x48927C00#32),
    StableHlo.unary main_cst_3 main_v24 (broadcastInDim S32 ![] bcast_S_S32 : (⟨S_, .f32⟩ : BufTy).Contents (Elt F) → (⟨S32, .f32⟩ : BufTy).Contents (Elt F)),
    StableHlo.binary main_v23 main_v24 main_v25 (Host.divf : (⟨S32, .f32⟩ : BufTy).Contents (Elt F) → (⟨S32, .f32⟩ : BufTy).Contents (Elt F) → (⟨S32, .f32⟩ : BufTy).Contents (Elt F)),
    StableHlo.nullary main_c_4 (constantI S_ 32 0#32),
    StableHlo.TRef.nullary main_call1.cst (constant S_ .f32 0x00000000#32),
    StableHlo.TRef.binary (.of main_arg2) main_call1.cst main_call1.v0 (fun x v => Host.reduceAdd x v reducesTo_S300000x32_S32_d0 h_S_),
    StableHlo.TRef.unary main_call1.v0 main_call1.v1 (broadcastInDim S1x32 ![1] bcast_S32_S1x32_1),
    StableHlo.TRef.nullary main_call1.cst_0 (constant S_ .f32 0x48927C00#32),
    StableHlo.TRef.unary main_call1.cst_0 main_call1.v2 (broadcastInDim S1x32 ![] bcast_S_S1x32),
    StableHlo.TRef.binary main_call1.v1 main_call1.v2 main_call1.v3 Host.divf,
    StableHlo.TRef.unary main_call1.v3 main_call1.v4 (broadcastInDim S300000x32 ![0, 1] bcast_S1x32_S300000x32_0_1),
    StableHlo.TRef.binary (.of main_arg2) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x48927C00#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S300000x32_S32_d0 h_S_),
    StableHlo.TRef.unary main_call1.v8 main_call1.v10 (broadcastInDim S32 ![] bcast_S_S32),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32 ![] bcast_S_S32),
    StableHlo.TRef.ternary main_call1.v12 main_call1.v11 main_call1.call0.v1 main_call1.call0.v2 (fun p a b => select (broadcastInDim S32 ![] bcast_S_S32 p) a b),
    StableHlo.unary main_v25 main_v27 (broadcastInDim S1x32 ![1] bcast_S32_S1x32_1 : (⟨S32, .f32⟩ : BufTy).Contents (Elt F) → (⟨S1x32, .f32⟩ : BufTy).Contents (Elt F)),
    StableHlo.unary main_v27 main_v28 (broadcastInDim S300000x32 ![0, 1] bcast_S1x32_S300000x32_0_1 : (⟨S1x32, .f32⟩ : BufTy).Contents (Elt F) → (⟨S300000x32, .f32⟩ : BufTy).Contents (Elt F)),
    StableHlo.binary main_arg2 main_v28 main_v29 (subf : (⟨S300000x32, .f32⟩ : BufTy).Contents (Elt F) → (⟨S300000x32, .f32⟩ : BufTy).Contents (Elt F) → (⟨S300000x32, .f32⟩ : BufTy).Contents (Elt F)),
    StableHlo.unary main_arg7 main_v30 (broadcastInDim S1x32 ![1] bcast_S32_S1x32_1 : (⟨S32, .f32⟩ : BufTy).Contents (Elt F) → (⟨S1x32, .f32⟩ : BufTy).Contents (Elt F)),
    StableHlo.unary main_v30 main_v31 (broadcastInDim S300000x32 ![0, 1] bcast_S1x32_S300000x32_0_1 : (⟨S1x32, .f32⟩ : BufTy).Contents (Elt F) → (⟨S300000x32, .f32⟩ : BufTy).Contents (Elt F)),
    StableHlo.binary main_v31 main_v29 main_v32 (mulf : (⟨S300000x32, .f32⟩ : BufTy).Contents (Elt F) → (⟨S300000x32, .f32⟩ : BufTy).Contents (Elt F) → (⟨S300000x32, .f32⟩ : BufTy).Contents (Elt F)),
    StableHlo.nullary main_cst_5 (constant S_ .f32 0x3727C5AC#32),
    StableHlo.unary main_cst_5 main_v33 (broadcastInDim S32 ![] bcast_S_S32 : (⟨S_, .f32⟩ : BufTy).Contents (Elt F) → (⟨S32, .f32⟩ : BufTy).Contents (Elt F)),
    StableHlo.binary main_v26 main_v33 main_v34 (addf : (⟨S32, .f32⟩ : BufTy).Contents (Elt F) → (⟨S32, .f32⟩ : BufTy).Contents (Elt F) → (⟨S32, .f32⟩ : BufTy).Contents (Elt F)),
    StableHlo.unary main_v34 main_v35 (Host.rsqrt : (⟨S32, .f32⟩ : BufTy).Contents (Elt F) → (⟨S32, .f32⟩ : BufTy).Contents (Elt F)),
    StableHlo.unary main_v35 main_v36 (broadcastInDim S1x32 ![1] bcast_S32_S1x32_1 : (⟨S32, .f32⟩ : BufTy).Contents (Elt F) → (⟨S1x32, .f32⟩ : BufTy).Contents (Elt F)),
    StableHlo.unary main_v36 main_v37 (broadcastInDim S300000x32 ![0, 1] bcast_S1x32_S300000x32_0_1 : (⟨S1x32, .f32⟩ : BufTy).Contents (Elt F) → (⟨S300000x32, .f32⟩ : BufTy).Contents (Elt F)),
    StableHlo.binary main_v32 main_v37 main_v38 (mulf : (⟨S300000x32, .f32⟩ : BufTy).Contents (Elt F) → (⟨S300000x32, .f32⟩ : BufTy).Contents (Elt F) → (⟨S300000x32, .f32⟩ : BufTy).Contents (Elt F)),
    StableHlo.unary main_arg8 main_v39 (broadcastInDim S1x32 ![1] bcast_S32_S1x32_1 : (⟨S32, .f32⟩ : BufTy).Contents (Elt F) → (⟨S1x32, .f32⟩ : BufTy).Contents (Elt F)),
    StableHlo.unary main_v39 main_v40 (broadcastInDim S300000x32 ![0, 1] bcast_S1x32_S300000x32_0_1 : (⟨S1x32, .f32⟩ : BufTy).Contents (Elt F) → (⟨S300000x32, .f32⟩ : BufTy).Contents (Elt F)),
    StableHlo.binary main_v38 main_v40 main_v41 (addf : (⟨S300000x32, .f32⟩ : BufTy).Contents (Elt F) → (⟨S300000x32, .f32⟩ : BufTy).Contents (Elt F) → (⟨S300000x32, .f32⟩ : BufTy).Contents (Elt F)),
    StableHlo.nullary main_cst_6 (constant S_ .f32 0x00000000#32),
    StableHlo.binary main_arg3 main_cst_6 main_v42 ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)),
    StableHlo.nullary main_cst_7 (constant S_ .f32 0x42800000#32),
    StableHlo.unary main_cst_7 main_v43 (broadcastInDim S32 ![] bcast_S_S32 : (⟨S_, .f32⟩ : BufTy).Contents (Elt F) → (⟨S32, .f32⟩ : BufTy).Contents (Elt F)),
    StableHlo.binary main_v42 main_v43 main_v44 (Host.divf : (⟨S32, .f32⟩ : BufTy).Contents (Elt F) → (⟨S32, .f32⟩ : BufTy).Contents (Elt F) → (⟨S32, .f32⟩ : BufTy).Contents (Elt F)),
    StableHlo.nullary main_c_8 (constantI S_ 32 0#32),
    StableHlo.TRef.nullary main_call2.cst (constant S_ .f32 0x00000000#32),
    StableHlo.TRef.binary (.of main_arg3) main_call2.cst main_call2.v0 (fun x v => Host.reduceAdd x v reducesTo_S64x32_S32_d0 h_S_),
    StableHlo.TRef.unary main_call2.v0 main_call2.v1 (broadcastInDim S1x32 ![1] bcast_S32_S1x32_1),
    StableHlo.TRef.nullary main_call2.cst_0 (constant S_ .f32 0x42800000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S64x32 ![0, 1] bcast_S1x32_S64x32_0_1),
    StableHlo.TRef.binary (.of main_arg3) main_call2.v4 main_call2.v5 subf,
    StableHlo.TRef.binary main_call2.v5 main_call2.v5 main_call2.v6 mulf,
    StableHlo.TRef.unary (.of main_c_8) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S64x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v44 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S64x32 ![0, 1] bcast_S1x32_S64x32_0_1 : (⟨S1x32, .f32⟩ : BufTy).Contents (Elt F) → (⟨S64x32, .f32⟩ : BufTy).Contents (Elt F)),
    StableHlo.binary main_arg3 main_v47 main_v48 (subf : (⟨S64x32, .f32⟩ : BufTy).Contents (Elt F) → (⟨S64x32, .f32⟩ : BufTy).Contents (Elt F) → (⟨S64x32, .f32⟩ : BufTy).Contents (Elt F)) ]

set_option maxRecDepth 8192 in
set_option maxHeartbeats 1600000 in
/-- The window is that straight line: the callees unfolded at their calls and the records at their fields, both sides
    are one chain of host steps once sequencing is re-associated. -/
theorem part0_eq (c : Dev nD) : main_part0 (F := F) c = seq ops0 := by
  simp only [main_part0, fn_var.body, fn_where.body, fn_var_0.body, fn_where_1.body, fn_var_2.body, seq, bind_assoc, pure_bind, bind_pure_unit]

/-- Every operation of the window touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩

/-- No operation of the window allocates: each determines what it writes. -/
theorem ops0_fresh : (ops0 : List (HloOp τ sig (Elt F))).Forall fun op => op.fresh = ∅ := by
  simp only [List.Forall]; repeat' constructor

/-- The buffers window 0 writes: one per operation, none of them an argument of @main. -/
abbrev ops0_W : List (Ref sig .tc) := [main_v0, main_v1, main_v2, main_v3, main_cst, main_v4, main_cst_0, main_v5, main_v6, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v8, main_v9, main_v10, main_v11, main_v12, main_v13, main_cst_1, main_v14, main_v15, main_v16, main_v17, main_v18, main_v19, main_v20, main_v21, main_v22, main_cst_2, main_v23, main_cst_3, main_v24, main_v25, main_c_4, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v27, main_v28, main_v29, main_v30, main_v31, main_v32, main_cst_5, main_v33, main_v34, main_v35, main_v36, main_v37, main_v38, main_v39, main_v40, main_v41, main_cst_6, main_v42, main_cst_7, main_v43, main_v44, main_c_8, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v46, main_v47, main_v48]

set_option maxRecDepth 8192 in
theorem ops0_writes : (ops0 : List (HloOp τ sig (Elt F))).Forall fun op => op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))

end Cert.ReferenceIdeal.Hand

end
-- ==== Proof.Ref.Ops1.lean ====
-- written by: gen_ref.js <unit directory>
/- The reference program's @main, window 1 of its six: the window's host operations in order as a list, each call of an
   outlined function listed inline at its call site (the callee's operations over the call's buffer record),
   the window's program as that straight line, and what the list writes, needs and leaves alone. -/
import proofs.«123839_j71768903516633_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- Window 1's 62 operations, in program order. -/
abbrev ops1 : List (HloOp τ sig (Elt F)) :=
  [ StableHlo.unary main_arg9 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S64x32 ![0, 1] bcast_S1x32_S64x32_0_1 : (⟨S1x32, .f32⟩ : BufTy).Contents (Elt F) → (⟨S64x32, .f32⟩ : BufTy).Contents (Elt F)),
    StableHlo.binary main_v50 main_v48 main_v51 (mulf : (⟨S64x32, .f32⟩ : BufTy).Contents (Elt F) → (⟨S64x32, .f32⟩ : BufTy).Contents (Elt F) → (⟨S64x32, .f32⟩ : BufTy).Contents (Elt F)),
    StableHlo.nullary main_cst_9 (constant S_ .f32 0x3727C5AC#32),
    StableHlo.unary main_cst_9 main_v52 (broadcastInDim S32 ![] bcast_S_S32 : (⟨S_, .f32⟩ : BufTy).Contents (Elt F) → (⟨S32, .f32⟩ : BufTy).Contents (Elt F)),
    StableHlo.binary main_v45 main_v52 main_v53 (addf : (⟨S32, .f32⟩ : BufTy).Contents (Elt F) → (⟨S32, .f32⟩ : BufTy).Contents (Elt F) → (⟨S32, .f32⟩ : BufTy).Contents (Elt F)),
    StableHlo.unary main_v53 main_v54 (Host.rsqrt : (⟨S32, .f32⟩ : BufTy).Contents (Elt F) → (⟨S32, .f32⟩ : BufTy).Contents (Elt F)),
    StableHlo.unary main_v54 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S64x32 ![0, 1] bcast_S1x32_S64x32_0_1 : (⟨S1x32, .f32⟩ : BufTy).Contents (Elt F) → (⟨S64x32, .f32⟩ : BufTy).Contents (Elt F)),
    StableHlo.binary main_v51 main_v56 main_v57 (mulf : (⟨S64x32, .f32⟩ : BufTy).Contents (Elt F) → (⟨S64x32, .f32⟩ : BufTy).Contents (Elt F) → (⟨S64x32, .f32⟩ : BufTy).Contents (Elt F)),
    StableHlo.unary main_arg10 main_v58 (broadcastInDim S1x32 ![1] bcast_S32_S1x32_1 : (⟨S32, .f32⟩ : BufTy).Contents (Elt F) → (⟨S1x32, .f32⟩ : BufTy).Contents (Elt F)),
    StableHlo.unary main_v58 main_v59 (broadcastInDim S64x32 ![0, 1] bcast_S1x32_S64x32_0_1 : (⟨S1x32, .f32⟩ : BufTy).Contents (Elt F) → (⟨S64x32, .f32⟩ : BufTy).Contents (Elt F)),
    StableHlo.binary main_v57 main_v59 main_v60 (addf : (⟨S64x32, .f32⟩ : BufTy).Contents (Elt F) → (⟨S64x32, .f32⟩ : BufTy).Contents (Elt F) → (⟨S64x32, .f32⟩ : BufTy).Contents (Elt F)),
    StableHlo.nullary main_c_10 (constantI S_ 32 0#32),
    StableHlo.unary main_c_10 main_v61 (broadcastInDim S300000 ![] bcast_S_S300000 : (⟨S_, .i32⟩ : BufTy).Contents (Elt F) → (⟨S300000, .i32⟩ : BufTy).Contents (Elt F)),
    StableHlo.binary main_v1 main_v61 main_v62 (cmpi .slt : (⟨S300000, .i32⟩ : BufTy).Contents (Elt F) → (⟨S300000, .i32⟩ : BufTy).Contents (Elt F) → (⟨S300000, .i1⟩ : BufTy).Contents (Elt F)),
    StableHlo.nullary main_c_11 (constantI S_ 32 30000#32),
    StableHlo.unary main_c_11 main_v63 (broadcastInDim S300000 ![] bcast_S_S300000 : (⟨S_, .i32⟩ : BufTy).Contents (Elt F) → (⟨S300000, .i32⟩ : BufTy).Contents (Elt F)),
    StableHlo.binary main_v1 main_v63 main_v64 (addi : (⟨S300000, .i32⟩ : BufTy).Contents (Elt F) → (⟨S300000, .i32⟩ : BufTy).Contents (Elt F) → (⟨S300000, .i32⟩ : BufTy).Contents (Elt F)),
    StableHlo.ternary main_v62 main_v64 main_v1 main_v65 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v65 main_v66 (broadcastInDim S300000x1 ![0] bcast_S300000_S300000x1_0 : (⟨S300000, .i32⟩ : BufTy).Contents (Elt F) → (⟨S300000x1, .i32⟩ : BufTy).Contents (Elt F)),
    StableHlo.binary main_v22 main_v66 main_v67 ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)),
    StableHlo.nullary main_c_12 (constantI S_ 32 0#32),
    StableHlo.unary main_c_12 main_v68 (broadcastInDim S300000 ![] bcast_S_S300000 : (⟨S_, .i32⟩ : BufTy).Contents (Elt F) → (⟨S300000, .i32⟩ : BufTy).Contents (Elt F)),
    StableHlo.binary main_v3 main_v68 main_v69 (cmpi .slt : (⟨S300000, .i32⟩ : BufTy).Contents (Elt F) → (⟨S300000, .i32⟩ : BufTy).Contents (Elt F) → (⟨S300000, .i1⟩ : BufTy).Contents (Elt F)),
    StableHlo.nullary main_c_13 (constantI S_ 32 30000#32),
    StableHlo.unary main_c_13 main_v70 (broadcastInDim S300000 ![] bcast_S_S300000 : (⟨S_, .i32⟩ : BufTy).Contents (Elt F) → (⟨S300000, .i32⟩ : BufTy).Contents (Elt F)),
    StableHlo.binary main_v3 main_v70 main_v71 (addi : (⟨S300000, .i32⟩ : BufTy).Contents (Elt F) → (⟨S300000, .i32⟩ : BufTy).Contents (Elt F) → (⟨S300000, .i32⟩ : BufTy).Contents (Elt F)),
    StableHlo.ternary main_v69 main_v71 main_v3 main_v72 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v72 main_v73 (broadcastInDim S300000x1 ![0] bcast_S300000_S300000x1_0 : (⟨S300000, .i32⟩ : BufTy).Contents (Elt F) → (⟨S300000x1, .i32⟩ : BufTy).Contents (Elt F)),
    StableHlo.binary main_v22 main_v73 main_v74 ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)),
    StableHlo.nullary main_c_14 (constantI S_ 32 0#32),
    StableHlo.unary main_c_14 main_v75 (broadcastInDim S300000 ![] bcast_S_S300000 : (⟨S_, .i32⟩ : BufTy).Contents (Elt F) → (⟨S300000, .i32⟩ : BufTy).Contents (Elt F)),
    StableHlo.binary main_v1 main_v75 main_v76 (cmpi .slt : (⟨S300000, .i32⟩ : BufTy).Contents (Elt F) → (⟨S300000, .i32⟩ : BufTy).Contents (Elt F) → (⟨S300000, .i1⟩ : BufTy).Contents (Elt F)),
    StableHlo.nullary main_c_15 (constantI S_ 32 30000#32),
    StableHlo.unary main_c_15 main_v77 (broadcastInDim S300000 ![] bcast_S_S300000 : (⟨S_, .i32⟩ : BufTy).Contents (Elt F) → (⟨S300000, .i32⟩ : BufTy).Contents (Elt F)),
    StableHlo.binary main_v1 main_v77 main_v78 (addi : (⟨S300000, .i32⟩ : BufTy).Contents (Elt F) → (⟨S300000, .i32⟩ : BufTy).Contents (Elt F) → (⟨S300000, .i32⟩ : BufTy).Contents (Elt F)),
    StableHlo.ternary main_v76 main_v78 main_v1 main_v79 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v79 main_v80 (broadcastInDim S300000x1 ![0] bcast_S300000_S300000x1_0 : (⟨S300000, .i32⟩ : BufTy).Contents (Elt F) → (⟨S300000x1, .i32⟩ : BufTy).Contents (Elt F)),
    StableHlo.binary main_arg4 main_v80 main_v81 ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)),
    StableHlo.nullary main_c_16 (constantI S_ 32 0#32),
    StableHlo.unary main_c_16 main_v82 (broadcastInDim S300000 ![] bcast_S_S300000 : (⟨S_, .i32⟩ : BufTy).Contents (Elt F) → (⟨S300000, .i32⟩ : BufTy).Contents (Elt F)),
    StableHlo.binary main_v81 main_v82 main_v83 (cmpi .slt : (⟨S300000, .i32⟩ : BufTy).Contents (Elt F) → (⟨S300000, .i32⟩ : BufTy).Contents (Elt F) → (⟨S300000, .i1⟩ : BufTy).Contents (Elt F)),
    StableHlo.nullary main_c_17 (constantI S_ 32 64#32),
    StableHlo.unary main_c_17 main_v84 (broadcastInDim S300000 ![] bcast_S_S300000 : (⟨S_, .i32⟩ : BufTy).Contents (Elt F) → (⟨S300000, .i32⟩ : BufTy).Contents (Elt F)),
    StableHlo.binary main_v81 main_v84 main_v85 (addi : (⟨S300000, .i32⟩ : BufTy).Contents (Elt F) → (⟨S300000, .i32⟩ : BufTy).Contents (Elt F) → (⟨S300000, .i32⟩ : BufTy).Contents (Elt F)),
    StableHlo.ternary main_v83 main_v85 main_v81 main_v86 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v86 main_v87 (broadcastInDim S300000x1 ![0] bcast_S300000_S300000x1_0 : (⟨S300000, .i32⟩ : BufTy).Contents (Elt F) → (⟨S300000x1, .i32⟩ : BufTy).Contents (Elt F)),
    StableHlo.binary main_v60 main_v87 main_v88 ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)),
    StableHlo.nary ![main_v67, main_v74, main_v41, main_v88] main_v89 (fun u => concatenate S300000x192 1 [⟨S300000x64, u 0⟩, ⟨S300000x64, u 1⟩, ⟨S300000x32, u 2⟩, ⟨S300000x32, u 3⟩] concatenates_S300000x64_S300000x64_S300000x32_S300000x32_S300000x192_d1),
    StableHlo.binary main_v89 main_arg11 main_v90 ((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)),
    StableHlo.unary main_arg12 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S300000x64 ![0, 1] bcast_S1x64_S300000x64_0_1 : (⟨S1x64, .f32⟩ : BufTy).Contents (Elt F) → (⟨S300000x64, .f32⟩ : BufTy).Contents (Elt F)),
    StableHlo.binary main_v90 main_v92 main_v93 (addf : (⟨S300000x64, .f32⟩ : BufTy).Contents (Elt F) → (⟨S300000x64, .f32⟩ : BufTy).Contents (Elt F) → (⟨S300000x64, .f32⟩ : BufTy).Contents (Elt F)),
    StableHlo.TRef.nullary main_call3.cst (constant S_ .f32 0x00000000#32),
    StableHlo.TRef.unary main_call3.cst main_call3.v0 (broadcastInDim S300000x64 ![] bcast_S_S300000x64),
    StableHlo.TRef.binary (.of main_v93) main_call3.v0 main_call3.v1 maximumf,
    StableHlo.nullary main_cst_18 (constant S_ .f32 0x00000000#32),
    StableHlo.unary main_cst_18 main_v95 (broadcastInDim S30000x64 ![] bcast_S_S30000x64 : (⟨S_, .f32⟩ : BufTy).Contents (Elt F) → (⟨S30000x64, .f32⟩ : BufTy).Contents (Elt F)),
    StableHlo.unary main_v3 main_v96 (broadcastInDim S300000x1 ![0] bcast_S300000_S300000x1_0 : (⟨S300000, .i32⟩ : BufTy).Contents (Elt F) → (⟨S300000x1, .i32⟩ : BufTy).Contents (Elt F)),
    StableHlo.ternary main_v95 main_v96 main_v94 main_v97 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)),
    StableHlo.nullary main_cst_19 (constant S_ .f32 0x3F800000#32) ]

set_option maxRecDepth 8192 in
set_option maxHeartbeats 1600000 in
/-- The window is that straight line: the callees unfolded at their calls and the records at their fields, both sides
    are one chain of host steps once sequencing is re-associated. -/
theorem part1_eq (c : Dev nD) : main_part1 (F := F) c = seq ops1 := by
  simp only [main_part1, fn_relu.body, seq, bind_assoc, pure_bind, bind_pure_unit]

/-- Every operation of the window touches TensorCore buffers only. -/
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub ..⟩

/-- No operation of the window allocates: each determines what it writes. -/
theorem ops1_fresh : (ops1 : List (HloOp τ sig (Elt F))).Forall fun op => op.fresh = ∅ := by
  simp only [List.Forall]; repeat' constructor

/-- The buffers window 1 writes: one per operation, none of them an argument of @main. -/
abbrev ops1_W : List (Ref sig .tc) := [main_v49, main_v50, main_v51, main_cst_9, main_v52, main_v53, main_v54, main_v55, main_v56, main_v57, main_v58, main_v59, main_v60, main_c_10, main_v61, main_v62, main_c_11, main_v63, main_v64, main_v65, main_v66, main_v67, main_c_12, main_v68, main_v69, main_c_13, main_v70, main_v71, main_v72, main_v73, main_v74, main_c_14, main_v75, main_v76, main_c_15, main_v77, main_v78, main_v79, main_v80, main_v81, main_c_16, main_v82, main_v83, main_c_17, main_v84, main_v85, main_v86, main_v87, main_v88, main_v89, main_v90, main_v91, main_v92, main_v93, main_call3.cst.ref, main_call3.v0.ref, main_call3.v1.ref, main_cst_18, main_v95, main_v96, main_v97, main_cst_19]

set_option maxRecDepth 8192 in
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))

end Cert.ReferenceIdeal.Hand

end
-- ==== Proof.Ref.Ops2.lean ====
-- written by: gen_ref.js <unit directory>
/- The reference program's @main, window 2 of its six: the window's host operations in order as a list, each call of an
   outlined function listed inline at its call site (the callee's operations over the call's buffer record),
   the window's program as that straight line, and what the list writes, needs and leaves alone. -/
import proofs.«123839_j71768903516633_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- Window 2's 64 operations, in program order. -/
abbrev ops2 : List (HloOp τ sig (Elt F)) :=
  [ StableHlo.unary main_cst_19 main_v98 (broadcastInDim S300000x1 ![] bcast_S_S300000x1 : (⟨S_, .f32⟩ : BufTy).Contents (Elt F) → (⟨S300000x1, .f32⟩ : BufTy).Contents (Elt F)),
    StableHlo.nullary main_cst_20 (constant S_ .f32 0x00000000#32),
    StableHlo.unary main_cst_20 main_v99 (broadcastInDim S30000x1 ![] bcast_S_S30000x1 : (⟨S_, .f32⟩ : BufTy).Contents (Elt F) → (⟨S30000x1, .f32⟩ : BufTy).Contents (Elt F)),
    StableHlo.unary main_v3 main_v100 (broadcastInDim S300000x1 ![0] bcast_S300000_S300000x1_0 : (⟨S300000, .i32⟩ : BufTy).Contents (Elt F) → (⟨S300000x1, .i32⟩ : BufTy).Contents (Elt F)),
    StableHlo.ternary main_v99 main_v100 main_v98 main_v101 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)),
    StableHlo.nullary main_cst_21 (constant S_ .f32 0x3F800000#32),
    StableHlo.unary main_cst_21 main_v102 (broadcastInDim S30000x1 ![] bcast_S_S30000x1 : (⟨S_, .f32⟩ : BufTy).Contents (Elt F) → (⟨S30000x1, .f32⟩ : BufTy).Contents (Elt F)),
    StableHlo.binary main_v101 main_v102 main_v103 (maximumf : (⟨S30000x1, .f32⟩ : BufTy).Contents (Elt F) → (⟨S30000x1, .f32⟩ : BufTy).Contents (Elt F) → (⟨S30000x1, .f32⟩ : BufTy).Contents (Elt F)),
    StableHlo.unary main_v103 main_v104 (broadcastInDim S30000x64 ![0, 1] bcast_S30000x1_S30000x64_0_1 : (⟨S30000x1, .f32⟩ : BufTy).Contents (Elt F) → (⟨S30000x64, .f32⟩ : BufTy).Contents (Elt F)),
    StableHlo.binary main_v97 main_v104 main_v105 (Host.divf : (⟨S30000x64, .f32⟩ : BufTy).Contents (Elt F) → (⟨S30000x64, .f32⟩ : BufTy).Contents (Elt F) → (⟨S30000x64, .f32⟩ : BufTy).Contents (Elt F)),
    StableHlo.nullary main_c_22 (constantI S_ 32 0#32),
    StableHlo.unary main_c_22 main_v106 (broadcastInDim S30000 ![] bcast_S_S30000 : (⟨S_, .i32⟩ : BufTy).Contents (Elt F) → (⟨S30000, .i32⟩ : BufTy).Contents (Elt F)),
    StableHlo.binary main_arg4 main_v106 main_v107 (cmpi .slt : (⟨S30000, .i32⟩ : BufTy).Contents (Elt F) → (⟨S30000, .i32⟩ : BufTy).Contents (Elt F) → (⟨S30000, .i1⟩ : BufTy).Contents (Elt F)),
    StableHlo.nullary main_c_23 (constantI S_ 32 64#32),
    StableHlo.unary main_c_23 main_v108 (broadcastInDim S30000 ![] bcast_S_S30000 : (⟨S_, .i32⟩ : BufTy).Contents (Elt F) → (⟨S30000, .i32⟩ : BufTy).Contents (Elt F)),
    StableHlo.binary main_arg4 main_v108 main_v109 (addi : (⟨S30000, .i32⟩ : BufTy).Contents (Elt F) → (⟨S30000, .i32⟩ : BufTy).Contents (Elt F) → (⟨S30000, .i32⟩ : BufTy).Contents (Elt F)),
    StableHlo.ternary main_v107 main_v109 main_arg4 main_v110 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v110 main_v111 (broadcastInDim S30000x1 ![0] bcast_S30000_S30000x1_0 : (⟨S30000, .i32⟩ : BufTy).Contents (Elt F) → (⟨S30000x1, .i32⟩ : BufTy).Contents (Elt F)),
    StableHlo.binary main_v60 main_v111 main_v112 ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)),
    StableHlo.nary ![main_v22, main_v105, main_v112] main_v113 (fun u => concatenate S30000x160 1 [⟨S30000x64, u 0⟩, ⟨S30000x64, u 1⟩, ⟨S30000x32, u 2⟩] concatenates_S30000x64_S30000x64_S30000x32_S30000x160_d1),
    StableHlo.binary main_v113 main_arg13 main_v114 ((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)),
    StableHlo.unary main_arg14 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S30000x64 ![0, 1] bcast_S1x64_S30000x64_0_1 : (⟨S1x64, .f32⟩ : BufTy).Contents (Elt F) → (⟨S30000x64, .f32⟩ : BufTy).Contents (Elt F)),
    StableHlo.binary main_v114 main_v116 main_v117 (addf : (⟨S30000x64, .f32⟩ : BufTy).Contents (Elt F) → (⟨S30000x64, .f32⟩ : BufTy).Contents (Elt F) → (⟨S30000x64, .f32⟩ : BufTy).Contents (Elt F)),
    StableHlo.TRef.nullary main_call4.cst (constant S_ .f32 0x00000000#32),
    StableHlo.TRef.unary main_call4.cst main_call4.v0 (broadcastInDim S30000x64 ![] bcast_S_S30000x64),
    StableHlo.TRef.binary (.of main_v117) main_call4.v0 main_call4.v1 maximumf,
    StableHlo.nullary main_cst_24 (constant S_ .f32 0x00000000#32),
    StableHlo.unary main_cst_24 main_v119 (broadcastInDim S64x64 ![] bcast_S_S64x64 : (⟨S_, .f32⟩ : BufTy).Contents (Elt F) → (⟨S64x64, .f32⟩ : BufTy).Contents (Elt F)),
    StableHlo.unary main_arg4 main_v120 (broadcastInDim S30000x1 ![0] bcast_S30000_S30000x1_0 : (⟨S30000, .i32⟩ : BufTy).Contents (Elt F) → (⟨S30000x1, .i32⟩ : BufTy).Contents (Elt F)),
    StableHlo.ternary main_v119 main_v120 main_v118 main_v121 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)),
    StableHlo.nullary main_cst_25 (constant S_ .f32 0x3F800000#32),
    StableHlo.unary main_cst_25 main_v122 (broadcastInDim S30000x1 ![] bcast_S_S30000x1 : (⟨S_, .f32⟩ : BufTy).Contents (Elt F) → (⟨S30000x1, .f32⟩ : BufTy).Contents (Elt F)),
    StableHlo.nullary main_cst_26 (constant S_ .f32 0x00000000#32),
    StableHlo.unary main_cst_26 main_v123 (broadcastInDim S64x1 ![] bcast_S_S64x1 : (⟨S_, .f32⟩ : BufTy).Contents (Elt F) → (⟨S64x1, .f32⟩ : BufTy).Contents (Elt F)),
    StableHlo.unary main_arg4 main_v124 (broadcastInDim S30000x1 ![0] bcast_S30000_S30000x1_0 : (⟨S30000, .i32⟩ : BufTy).Contents (Elt F) → (⟨S30000x1, .i32⟩ : BufTy).Contents (Elt F)),
    StableHlo.ternary main_v123 main_v124 main_v122 main_v125 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)),
    StableHlo.nullary main_cst_27 (constant S_ .f32 0x3F800000#32),
    StableHlo.unary main_cst_27 main_v126 (broadcastInDim S64x1 ![] bcast_S_S64x1 : (⟨S_, .f32⟩ : BufTy).Contents (Elt F) → (⟨S64x1, .f32⟩ : BufTy).Contents (Elt F)),
    StableHlo.binary main_v125 main_v126 main_v127 (maximumf : (⟨S64x1, .f32⟩ : BufTy).Contents (Elt F) → (⟨S64x1, .f32⟩ : BufTy).Contents (Elt F) → (⟨S64x1, .f32⟩ : BufTy).Contents (Elt F)),
    StableHlo.unary main_v127 main_v128 (broadcastInDim S64x64 ![0, 1] bcast_S64x1_S64x64_0_1 : (⟨S64x1, .f32⟩ : BufTy).Contents (Elt F) → (⟨S64x64, .f32⟩ : BufTy).Contents (Elt F)),
    StableHlo.binary main_v121 main_v128 main_v129 (Host.divf : (⟨S64x64, .f32⟩ : BufTy).Contents (Elt F) → (⟨S64x64, .f32⟩ : BufTy).Contents (Elt F) → (⟨S64x64, .f32⟩ : BufTy).Contents (Elt F)),
    StableHlo.binary main_v129 main_v60 main_v130 ((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)),
    StableHlo.binary main_v130 main_arg15 main_v131 ((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)),
    StableHlo.unary main_arg16 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S64x64 ![0, 1] bcast_S1x64_S64x64_0_1 : (⟨S1x64, .f32⟩ : BufTy).Contents (Elt F) → (⟨S64x64, .f32⟩ : BufTy).Contents (Elt F)),
    StableHlo.binary main_v131 main_v133 main_v134 (addf : (⟨S64x64, .f32⟩ : BufTy).Contents (Elt F) → (⟨S64x64, .f32⟩ : BufTy).Contents (Elt F) → (⟨S64x64, .f32⟩ : BufTy).Contents (Elt F)),
    StableHlo.TRef.nullary main_call5.cst (constant S_ .f32 0x00000000#32),
    StableHlo.TRef.unary main_call5.cst main_call5.v0 (broadcastInDim S64x64 ![] bcast_S_S64x64),
    StableHlo.TRef.binary (.of main_v134) main_call5.v0 main_call5.v1 maximumf,
    StableHlo.nullary main_c_28 (constantI S_ 32 0#32),
    StableHlo.unary main_c_28 main_v136 (broadcastInDim S300000 ![] bcast_S_S300000 : (⟨S_, .i32⟩ : BufTy).Contents (Elt F) → (⟨S300000, .i32⟩ : BufTy).Contents (Elt F)),
    StableHlo.binary main_v1 main_v136 main_v137 (cmpi .slt : (⟨S300000, .i32⟩ : BufTy).Contents (Elt F) → (⟨S300000, .i32⟩ : BufTy).Contents (Elt F) → (⟨S300000, .i1⟩ : BufTy).Contents (Elt F)),
    StableHlo.nullary main_c_29 (constantI S_ 32 30000#32),
    StableHlo.unary main_c_29 main_v138 (broadcastInDim S300000 ![] bcast_S_S300000 : (⟨S_, .i32⟩ : BufTy).Contents (Elt F) → (⟨S300000, .i32⟩ : BufTy).Contents (Elt F)),
    StableHlo.binary main_v1 main_v138 main_v139 (addi : (⟨S300000, .i32⟩ : BufTy).Contents (Elt F) → (⟨S300000, .i32⟩ : BufTy).Contents (Elt F) → (⟨S300000, .i32⟩ : BufTy).Contents (Elt F)),
    StableHlo.ternary main_v137 main_v139 main_v1 main_v140 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v140 main_v141 (broadcastInDim S300000x1 ![0] bcast_S300000_S300000x1_0 : (⟨S300000, .i32⟩ : BufTy).Contents (Elt F) → (⟨S300000x1, .i32⟩ : BufTy).Contents (Elt F)),
    StableHlo.binary main_v118 main_v141 main_v142 ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)),
    StableHlo.nullary main_c_30 (constantI S_ 32 0#32),
    StableHlo.unary main_c_30 main_v143 (broadcastInDim S300000 ![] bcast_S_S300000 : (⟨S_, .i32⟩ : BufTy).Contents (Elt F) → (⟨S300000, .i32⟩ : BufTy).Contents (Elt F)),
    StableHlo.binary main_v3 main_v143 main_v144 (cmpi .slt : (⟨S300000, .i32⟩ : BufTy).Contents (Elt F) → (⟨S300000, .i32⟩ : BufTy).Contents (Elt F) → (⟨S300000, .i1⟩ : BufTy).Contents (Elt F)),
    StableHlo.nullary main_c_31 (constantI S_ 32 30000#32),
    StableHlo.unary main_c_31 main_v145 (broadcastInDim S300000 ![] bcast_S_S300000 : (⟨S_, .i32⟩ : BufTy).Contents (Elt F) → (⟨S300000, .i32⟩ : BufTy).Contents (Elt F)) ]

set_option maxRecDepth 8192 in
set_option maxHeartbeats 1600000 in
/-- The window is that straight line: the callees unfolded at their calls and the records at their fields, both sides
    are one chain of host steps once sequencing is re-associated. -/
theorem part2_eq (c : Dev nD) : main_part2 (F := F) c = seq ops2 := by
  simp only [main_part2, fn_relu_3.body, fn_relu_4.body, seq, bind_assoc, pure_bind, bind_pure_unit]

/-- Every operation of the window touches TensorCore buffers only. -/
theorem ops2_sub : (ops2 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩

/-- No operation of the window allocates: each determines what it writes. -/
theorem ops2_fresh : (ops2 : List (HloOp τ sig (Elt F))).Forall fun op => op.fresh = ∅ := by
  simp only [List.Forall]; repeat' constructor

/-- The buffers window 2 writes: one per operation, none of them an argument of @main. -/
abbrev ops2_W : List (Ref sig .tc) := [main_v98, main_cst_20, main_v99, main_v100, main_v101, main_cst_21, main_v102, main_v103, main_v104, main_v105, main_c_22, main_v106, main_v107, main_c_23, main_v108, main_v109, main_v110, main_v111, main_v112, main_v113, main_v114, main_v115, main_v116, main_v117, main_call4.cst.ref, main_call4.v0.ref, main_call4.v1.ref, main_cst_24, main_v119, main_v120, main_v121, main_cst_25, main_v122, main_cst_26, main_v123, main_v124, main_v125, main_cst_27, main_v126, main_v127, main_v128, main_v129, main_v130, main_v131, main_v132, main_v133, main_v134, main_call5.cst.ref, main_call5.v0.ref, main_call5.v1.ref, main_c_28, main_v136, main_v137, main_c_29, main_v138, main_v139, main_v140, main_v141, main_v142, main_c_30, main_v143, main_v144, main_c_31, main_v145]

set_option maxRecDepth 8192 in
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))

end Cert.ReferenceIdeal.Hand

end
-- ==== Proof.Ref.Ops3.lean ====
-- written by: gen_ref.js <unit directory>
/- The reference program's @main, window 3 of its six: the window's host operations in order as a list, each call of an
   outlined function listed inline at its call site (the callee's operations over the call's buffer record),
   the window's program as that straight line, and what the list writes, needs and leaves alone. -/
import proofs.«123839_j71768903516633_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- Window 3's 64 operations, in program order. -/
abbrev ops3 : List (HloOp τ sig (Elt F)) :=
  [ StableHlo.binary main_v3 main_v145 main_v146 (addi : (⟨S300000, .i32⟩ : BufTy).Contents (Elt F) → (⟨S300000, .i32⟩ : BufTy).Contents (Elt F) → (⟨S300000, .i32⟩ : BufTy).Contents (Elt F)),
    StableHlo.ternary main_v144 main_v146 main_v3 main_v147 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v147 main_v148 (broadcastInDim S300000x1 ![0] bcast_S300000_S300000x1_0 : (⟨S300000, .i32⟩ : BufTy).Contents (Elt F) → (⟨S300000x1, .i32⟩ : BufTy).Contents (Elt F)),
    StableHlo.binary main_v118 main_v148 main_v149 ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)),
    StableHlo.nullary main_c_32 (constantI S_ 32 0#32),
    StableHlo.unary main_c_32 main_v150 (broadcastInDim S300000 ![] bcast_S_S300000 : (⟨S_, .i32⟩ : BufTy).Contents (Elt F) → (⟨S300000, .i32⟩ : BufTy).Contents (Elt F)),
    StableHlo.binary main_v1 main_v150 main_v151 (cmpi .slt : (⟨S300000, .i32⟩ : BufTy).Contents (Elt F) → (⟨S300000, .i32⟩ : BufTy).Contents (Elt F) → (⟨S300000, .i1⟩ : BufTy).Contents (Elt F)),
    StableHlo.nullary main_c_33 (constantI S_ 32 30000#32),
    StableHlo.unary main_c_33 main_v152 (broadcastInDim S300000 ![] bcast_S_S300000 : (⟨S_, .i32⟩ : BufTy).Contents (Elt F) → (⟨S300000, .i32⟩ : BufTy).Contents (Elt F)),
    StableHlo.binary main_v1 main_v152 main_v153 (addi : (⟨S300000, .i32⟩ : BufTy).Contents (Elt F) → (⟨S300000, .i32⟩ : BufTy).Contents (Elt F) → (⟨S300000, .i32⟩ : BufTy).Contents (Elt F)),
    StableHlo.ternary main_v151 main_v153 main_v1 main_v154 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v154 main_v155 (broadcastInDim S300000x1 ![0] bcast_S300000_S300000x1_0 : (⟨S300000, .i32⟩ : BufTy).Contents (Elt F) → (⟨S300000x1, .i32⟩ : BufTy).Contents (Elt F)),
    StableHlo.binary main_arg4 main_v155 main_v156 ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)),
    StableHlo.nullary main_c_34 (constantI S_ 32 0#32),
    StableHlo.unary main_c_34 main_v157 (broadcastInDim S300000 ![] bcast_S_S300000 : (⟨S_, .i32⟩ : BufTy).Contents (Elt F) → (⟨S300000, .i32⟩ : BufTy).Contents (Elt F)),
    StableHlo.binary main_v156 main_v157 main_v158 (cmpi .slt : (⟨S300000, .i32⟩ : BufTy).Contents (Elt F) → (⟨S300000, .i32⟩ : BufTy).Contents (Elt F) → (⟨S300000, .i1⟩ : BufTy).Contents (Elt F)),
    StableHlo.nullary main_c_35 (constantI S_ 32 64#32),
    StableHlo.unary main_c_35 main_v159 (broadcastInDim S300000 ![] bcast_S_S300000 : (⟨S_, .i32⟩ : BufTy).Contents (Elt F) → (⟨S300000, .i32⟩ : BufTy).Contents (Elt F)),
    StableHlo.binary main_v156 main_v159 main_v160 (addi : (⟨S300000, .i32⟩ : BufTy).Contents (Elt F) → (⟨S300000, .i32⟩ : BufTy).Contents (Elt F) → (⟨S300000, .i32⟩ : BufTy).Contents (Elt F)),
    StableHlo.ternary main_v158 main_v160 main_v156 main_v161 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v161 main_v162 (broadcastInDim S300000x1 ![0] bcast_S300000_S300000x1_0 : (⟨S300000, .i32⟩ : BufTy).Contents (Elt F) → (⟨S300000x1, .i32⟩ : BufTy).Contents (Elt F)),
    StableHlo.binary main_v135 main_v162 main_v163 ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)),
    StableHlo.nary ![main_v142, main_v149, main_v94, main_v163] main_v164 (fun u => concatenate S300000x256 1 [⟨S300000x64, u 0⟩, ⟨S300000x64, u 1⟩, ⟨S300000x64, u 2⟩, ⟨S300000x64, u 3⟩] concatenates_S300000x64_S300000x64_S300000x64_S300000x64_S300000x256_d1),
    StableHlo.binary main_v164 main_arg17 main_v165 ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)),
    StableHlo.unary main_arg18 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S300000x64 ![0, 1] bcast_S1x64_S300000x64_0_1 : (⟨S1x64, .f32⟩ : BufTy).Contents (Elt F) → (⟨S300000x64, .f32⟩ : BufTy).Contents (Elt F)),
    StableHlo.binary main_v165 main_v167 main_v168 (addf : (⟨S300000x64, .f32⟩ : BufTy).Contents (Elt F) → (⟨S300000x64, .f32⟩ : BufTy).Contents (Elt F) → (⟨S300000x64, .f32⟩ : BufTy).Contents (Elt F)),
    StableHlo.TRef.nullary main_call6.cst (constant S_ .f32 0x00000000#32),
    StableHlo.TRef.unary main_call6.cst main_call6.v0 (broadcastInDim S300000x64 ![] bcast_S_S300000x64),
    StableHlo.TRef.binary (.of main_v168) main_call6.v0 main_call6.v1 maximumf,
    StableHlo.nullary main_cst_36 (constant S_ .f32 0x00000000#32),
    StableHlo.unary main_cst_36 main_v170 (broadcastInDim S30000x64 ![] bcast_S_S30000x64 : (⟨S_, .f32⟩ : BufTy).Contents (Elt F) → (⟨S30000x64, .f32⟩ : BufTy).Contents (Elt F)),
    StableHlo.unary main_v3 main_v171 (broadcastInDim S300000x1 ![0] bcast_S300000_S300000x1_0 : (⟨S300000, .i32⟩ : BufTy).Contents (Elt F) → (⟨S300000x1, .i32⟩ : BufTy).Contents (Elt F)),
    StableHlo.ternary main_v170 main_v171 main_v169 main_v172 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)),
    StableHlo.nullary main_cst_37 (constant S_ .f32 0x3F800000#32),
    StableHlo.unary main_cst_37 main_v173 (broadcastInDim S300000x1 ![] bcast_S_S300000x1 : (⟨S_, .f32⟩ : BufTy).Contents (Elt F) → (⟨S300000x1, .f32⟩ : BufTy).Contents (Elt F)),
    StableHlo.nullary main_cst_38 (constant S_ .f32 0x00000000#32),
    StableHlo.unary main_cst_38 main_v174 (broadcastInDim S30000x1 ![] bcast_S_S30000x1 : (⟨S_, .f32⟩ : BufTy).Contents (Elt F) → (⟨S30000x1, .f32⟩ : BufTy).Contents (Elt F)),
    StableHlo.unary main_v3 main_v175 (broadcastInDim S300000x1 ![0] bcast_S300000_S300000x1_0 : (⟨S300000, .i32⟩ : BufTy).Contents (Elt F) → (⟨S300000x1, .i32⟩ : BufTy).Contents (Elt F)),
    StableHlo.ternary main_v174 main_v175 main_v173 main_v176 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)),
    StableHlo.nullary main_cst_39 (constant S_ .f32 0x3F800000#32),
    StableHlo.unary main_cst_39 main_v177 (broadcastInDim S30000x1 ![] bcast_S_S30000x1 : (⟨S_, .f32⟩ : BufTy).Contents (Elt F) → (⟨S30000x1, .f32⟩ : BufTy).Contents (Elt F)),
    StableHlo.binary main_v176 main_v177 main_v178 (maximumf : (⟨S30000x1, .f32⟩ : BufTy).Contents (Elt F) → (⟨S30000x1, .f32⟩ : BufTy).Contents (Elt F) → (⟨S30000x1, .f32⟩ : BufTy).Contents (Elt F)),
    StableHlo.unary main_v178 main_v179 (broadcastInDim S30000x64 ![0, 1] bcast_S30000x1_S30000x64_0_1 : (⟨S30000x1, .f32⟩ : BufTy).Contents (Elt F) → (⟨S30000x64, .f32⟩ : BufTy).Contents (Elt F)),
    StableHlo.binary main_v172 main_v179 main_v180 (Host.divf : (⟨S30000x64, .f32⟩ : BufTy).Contents (Elt F) → (⟨S30000x64, .f32⟩ : BufTy).Contents (Elt F) → (⟨S30000x64, .f32⟩ : BufTy).Contents (Elt F)),
    StableHlo.nullary main_c_40 (constantI S_ 32 0#32),
    StableHlo.unary main_c_40 main_v181 (broadcastInDim S30000 ![] bcast_S_S30000 : (⟨S_, .i32⟩ : BufTy).Contents (Elt F) → (⟨S30000, .i32⟩ : BufTy).Contents (Elt F)),
    StableHlo.binary main_arg4 main_v181 main_v182 (cmpi .slt : (⟨S30000, .i32⟩ : BufTy).Contents (Elt F) → (⟨S30000, .i32⟩ : BufTy).Contents (Elt F) → (⟨S30000, .i1⟩ : BufTy).Contents (Elt F)),
    StableHlo.nullary main_c_41 (constantI S_ 32 64#32),
    StableHlo.unary main_c_41 main_v183 (broadcastInDim S30000 ![] bcast_S_S30000 : (⟨S_, .i32⟩ : BufTy).Contents (Elt F) → (⟨S30000, .i32⟩ : BufTy).Contents (Elt F)),
    StableHlo.binary main_arg4 main_v183 main_v184 (addi : (⟨S30000, .i32⟩ : BufTy).Contents (Elt F) → (⟨S30000, .i32⟩ : BufTy).Contents (Elt F) → (⟨S30000, .i32⟩ : BufTy).Contents (Elt F)),
    StableHlo.ternary main_v182 main_v184 main_arg4 main_v185 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v185 main_v186 (broadcastInDim S30000x1 ![0] bcast_S30000_S30000x1_0 : (⟨S30000, .i32⟩ : BufTy).Contents (Elt F) → (⟨S30000x1, .i32⟩ : BufTy).Contents (Elt F)),
    StableHlo.binary main_v135 main_v186 main_v187 ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)),
    StableHlo.nary ![main_v118, main_v180, main_v187] main_v188 (fun u => concatenate S30000x192 1 [⟨S30000x64, u 0⟩, ⟨S30000x64, u 1⟩, ⟨S30000x64, u 2⟩] concatenates_S30000x64_S30000x64_S30000x64_S30000x192_d1),
    StableHlo.binary main_v188 main_arg19 main_v189 ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)),
    StableHlo.unary main_arg20 main_v190 (broadcastInDim S1x64 ![1] bcast_S64_S1x64_1 : (⟨S64, .f32⟩ : BufTy).Contents (Elt F) → (⟨S1x64, .f32⟩ : BufTy).Contents (Elt F)),
    StableHlo.unary main_v190 main_v191 (broadcastInDim S30000x64 ![0, 1] bcast_S1x64_S30000x64_0_1 : (⟨S1x64, .f32⟩ : BufTy).Contents (Elt F) → (⟨S30000x64, .f32⟩ : BufTy).Contents (Elt F)),
    StableHlo.binary main_v189 main_v191 main_v192 (addf : (⟨S30000x64, .f32⟩ : BufTy).Contents (Elt F) → (⟨S30000x64, .f32⟩ : BufTy).Contents (Elt F) → (⟨S30000x64, .f32⟩ : BufTy).Contents (Elt F)),
    StableHlo.TRef.nullary main_call7.cst (constant S_ .f32 0x00000000#32),
    StableHlo.TRef.unary main_call7.cst main_call7.v0 (broadcastInDim S30000x64 ![] bcast_S_S30000x64),
    StableHlo.TRef.binary (.of main_v192) main_call7.v0 main_call7.v1 maximumf,
    StableHlo.nullary main_cst_42 (constant S_ .f32 0x00000000#32),
    StableHlo.unary main_cst_42 main_v194 (broadcastInDim S64x64 ![] bcast_S_S64x64 : (⟨S_, .f32⟩ : BufTy).Contents (Elt F) → (⟨S64x64, .f32⟩ : BufTy).Contents (Elt F)) ]

set_option maxRecDepth 8192 in
set_option maxHeartbeats 1600000 in
/-- The window is that straight line: the callees unfolded at their calls and the records at their fields, both sides
    are one chain of host steps once sequencing is re-associated. -/
theorem part3_eq (c : Dev nD) : main_part3 (F := F) c = seq ops3 := by
  simp only [main_part3, fn_relu.body, fn_relu_3.body, seq, bind_assoc, pure_bind, bind_pure_unit]

/-- Every operation of the window touches TensorCore buffers only. -/
theorem ops3_sub : (ops3 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub ..⟩

/-- No operation of the window allocates: each determines what it writes. -/
theorem ops3_fresh : (ops3 : List (HloOp τ sig (Elt F))).Forall fun op => op.fresh = ∅ := by
  simp only [List.Forall]; repeat' constructor

/-- The buffers window 3 writes: one per operation, none of them an argument of @main. -/
abbrev ops3_W : List (Ref sig .tc) := [main_v146, main_v147, main_v148, main_v149, main_c_32, main_v150, main_v151, main_c_33, main_v152, main_v153, main_v154, main_v155, main_v156, main_c_34, main_v157, main_v158, main_c_35, main_v159, main_v160, main_v161, main_v162, main_v163, main_v164, main_v165, main_v166, main_v167, main_v168, main_call6.cst.ref, main_call6.v0.ref, main_call6.v1.ref, main_cst_36, main_v170, main_v171, main_v172, main_cst_37, main_v173, main_cst_38, main_v174, main_v175, main_v176, main_cst_39, main_v177, main_v178, main_v179, main_v180, main_c_40, main_v181, main_v182, main_c_41, main_v183, main_v184, main_v185, main_v186, main_v187, main_v188, main_v189, main_v190, main_v191, main_v192, main_call7.cst.ref, main_call7.v0.ref, main_call7.v1.ref, main_cst_42, main_v194]

set_option maxRecDepth 8192 in
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))

end Cert.ReferenceIdeal.Hand

end
-- ==== Proof.Ref.Ops4.lean ====
-- written by: gen_ref.js <unit directory>
/- The reference program's @main, window 4 of its six: the window's host operations in order as a list, each call of an
   outlined function listed inline at its call site (the callee's operations over the call's buffer record),
   the window's program as that straight line, and what the list writes, needs and leaves alone. -/
import proofs.«123839_j71768903516633_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- Window 4's 62 operations, in program order. -/
abbrev ops4 : List (HloOp τ sig (Elt F)) :=
  [ StableHlo.unary main_arg4 main_v195 (broadcastInDim S30000x1 ![0] bcast_S30000_S30000x1_0 : (⟨S30000, .i32⟩ : BufTy).Contents (Elt F) → (⟨S30000x1, .i32⟩ : BufTy).Contents (Elt F)),
    StableHlo.ternary main_v194 main_v195 main_v193 main_v196 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)),
    StableHlo.nullary main_cst_43 (constant S_ .f32 0x3F800000#32),
    StableHlo.unary main_cst_43 main_v197 (broadcastInDim S30000x1 ![] bcast_S_S30000x1 : (⟨S_, .f32⟩ : BufTy).Contents (Elt F) → (⟨S30000x1, .f32⟩ : BufTy).Contents (Elt F)),
    StableHlo.nullary main_cst_44 (constant S_ .f32 0x00000000#32),
    StableHlo.unary main_cst_44 main_v198 (broadcastInDim S64x1 ![] bcast_S_S64x1 : (⟨S_, .f32⟩ : BufTy).Contents (Elt F) → (⟨S64x1, .f32⟩ : BufTy).Contents (Elt F)),
    StableHlo.unary main_arg4 main_v199 (broadcastInDim S30000x1 ![0] bcast_S30000_S30000x1_0 : (⟨S30000, .i32⟩ : BufTy).Contents (Elt F) → (⟨S30000x1, .i32⟩ : BufTy).Contents (Elt F)),
    StableHlo.ternary main_v198 main_v199 main_v197 main_v200 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)),
    StableHlo.nullary main_cst_45 (constant S_ .f32 0x3F800000#32),
    StableHlo.unary main_cst_45 main_v201 (broadcastInDim S64x1 ![] bcast_S_S64x1 : (⟨S_, .f32⟩ : BufTy).Contents (Elt F) → (⟨S64x1, .f32⟩ : BufTy).Contents (Elt F)),
    StableHlo.binary main_v200 main_v201 main_v202 (maximumf : (⟨S64x1, .f32⟩ : BufTy).Contents (Elt F) → (⟨S64x1, .f32⟩ : BufTy).Contents (Elt F) → (⟨S64x1, .f32⟩ : BufTy).Contents (Elt F)),
    StableHlo.unary main_v202 main_v203 (broadcastInDim S64x64 ![0, 1] bcast_S64x1_S64x64_0_1 : (⟨S64x1, .f32⟩ : BufTy).Contents (Elt F) → (⟨S64x64, .f32⟩ : BufTy).Contents (Elt F)),
    StableHlo.binary main_v196 main_v203 main_v204 (Host.divf : (⟨S64x64, .f32⟩ : BufTy).Contents (Elt F) → (⟨S64x64, .f32⟩ : BufTy).Contents (Elt F) → (⟨S64x64, .f32⟩ : BufTy).Contents (Elt F)),
    StableHlo.binary main_v204 main_v135 main_v205 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    StableHlo.binary main_v205 main_arg21 main_v206 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg22 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S64x64 ![0, 1] bcast_S1x64_S64x64_0_1 : (⟨S1x64, .f32⟩ : BufTy).Contents (Elt F) → (⟨S64x64, .f32⟩ : BufTy).Contents (Elt F)),
    StableHlo.binary main_v206 main_v208 main_v209 (addf : (⟨S64x64, .f32⟩ : BufTy).Contents (Elt F) → (⟨S64x64, .f32⟩ : BufTy).Contents (Elt F) → (⟨S64x64, .f32⟩ : BufTy).Contents (Elt F)),
    StableHlo.TRef.nullary main_call8.cst (constant S_ .f32 0x00000000#32),
    StableHlo.TRef.unary main_call8.cst main_call8.v0 (broadcastInDim S64x64 ![] bcast_S_S64x64),
    StableHlo.TRef.binary (.of main_v209) main_call8.v0 main_call8.v1 maximumf,
    StableHlo.nullary main_c_46 (constantI S_ 32 0#32),
    StableHlo.unary main_c_46 main_v211 (broadcastInDim S300000 ![] bcast_S_S300000 : (⟨S_, .i32⟩ : BufTy).Contents (Elt F) → (⟨S300000, .i32⟩ : BufTy).Contents (Elt F)),
    StableHlo.binary main_v1 main_v211 main_v212 (cmpi .slt : (⟨S300000, .i32⟩ : BufTy).Contents (Elt F) → (⟨S300000, .i32⟩ : BufTy).Contents (Elt F) → (⟨S300000, .i1⟩ : BufTy).Contents (Elt F)),
    StableHlo.nullary main_c_47 (constantI S_ 32 30000#32),
    StableHlo.unary main_c_47 main_v213 (broadcastInDim S300000 ![] bcast_S_S300000 : (⟨S_, .i32⟩ : BufTy).Contents (Elt F) → (⟨S300000, .i32⟩ : BufTy).Contents (Elt F)),
    StableHlo.binary main_v1 main_v213 main_v214 (addi : (⟨S300000, .i32⟩ : BufTy).Contents (Elt F) → (⟨S300000, .i32⟩ : BufTy).Contents (Elt F) → (⟨S300000, .i32⟩ : BufTy).Contents (Elt F)),
    StableHlo.ternary main_v212 main_v214 main_v1 main_v215 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v215 main_v216 (broadcastInDim S300000x1 ![0] bcast_S300000_S300000x1_0 : (⟨S300000, .i32⟩ : BufTy).Contents (Elt F) → (⟨S300000x1, .i32⟩ : BufTy).Contents (Elt F)),
    StableHlo.binary main_v193 main_v216 main_v217 ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)),
    StableHlo.nullary main_c_48 (constantI S_ 32 0#32),
    StableHlo.unary main_c_48 main_v218 (broadcastInDim S300000 ![] bcast_S_S300000 : (⟨S_, .i32⟩ : BufTy).Contents (Elt F) → (⟨S300000, .i32⟩ : BufTy).Contents (Elt F)),
    StableHlo.binary main_v3 main_v218 main_v219 (cmpi .slt : (⟨S300000, .i32⟩ : BufTy).Contents (Elt F) → (⟨S300000, .i32⟩ : BufTy).Contents (Elt F) → (⟨S300000, .i1⟩ : BufTy).Contents (Elt F)),
    StableHlo.nullary main_c_49 (constantI S_ 32 30000#32),
    StableHlo.unary main_c_49 main_v220 (broadcastInDim S300000 ![] bcast_S_S300000 : (⟨S_, .i32⟩ : BufTy).Contents (Elt F) → (⟨S300000, .i32⟩ : BufTy).Contents (Elt F)),
    StableHlo.binary main_v3 main_v220 main_v221 (addi : (⟨S300000, .i32⟩ : BufTy).Contents (Elt F) → (⟨S300000, .i32⟩ : BufTy).Contents (Elt F) → (⟨S300000, .i32⟩ : BufTy).Contents (Elt F)),
    StableHlo.ternary main_v219 main_v221 main_v3 main_v222 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v222 main_v223 (broadcastInDim S300000x1 ![0] bcast_S300000_S300000x1_0 : (⟨S300000, .i32⟩ : BufTy).Contents (Elt F) → (⟨S300000x1, .i32⟩ : BufTy).Contents (Elt F)),
    StableHlo.binary main_v193 main_v223 main_v224 ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)),
    StableHlo.nullary main_c_50 (constantI S_ 32 0#32),
    StableHlo.unary main_c_50 main_v225 (broadcastInDim S300000 ![] bcast_S_S300000 : (⟨S_, .i32⟩ : BufTy).Contents (Elt F) → (⟨S300000, .i32⟩ : BufTy).Contents (Elt F)),
    StableHlo.binary main_v1 main_v225 main_v226 (cmpi .slt : (⟨S300000, .i32⟩ : BufTy).Contents (Elt F) → (⟨S300000, .i32⟩ : BufTy).Contents (Elt F) → (⟨S300000, .i1⟩ : BufTy).Contents (Elt F)),
    StableHlo.nullary main_c_51 (constantI S_ 32 30000#32),
    StableHlo.unary main_c_51 main_v227 (broadcastInDim S300000 ![] bcast_S_S300000 : (⟨S_, .i32⟩ : BufTy).Contents (Elt F) → (⟨S300000, .i32⟩ : BufTy).Contents (Elt F)),
    StableHlo.binary main_v1 main_v227 main_v228 (addi : (⟨S300000, .i32⟩ : BufTy).Contents (Elt F) → (⟨S300000, .i32⟩ : BufTy).Contents (Elt F) → (⟨S300000, .i32⟩ : BufTy).Contents (Elt F)),
    StableHlo.ternary main_v226 main_v228 main_v1 main_v229 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v229 main_v230 (broadcastInDim S300000x1 ![0] bcast_S300000_S300000x1_0 : (⟨S300000, .i32⟩ : BufTy).Contents (Elt F) → (⟨S300000x1, .i32⟩ : BufTy).Contents (Elt F)),
    StableHlo.binary main_arg4 main_v230 main_v231 ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)),
    StableHlo.nullary main_c_52 (constantI S_ 32 0#32),
    StableHlo.unary main_c_52 main_v232 (broadcastInDim S300000 ![] bcast_S_S300000 : (⟨S_, .i32⟩ : BufTy).Contents (Elt F) → (⟨S300000, .i32⟩ : BufTy).Contents (Elt F)),
    StableHlo.binary main_v231 main_v232 main_v233 (cmpi .slt : (⟨S300000, .i32⟩ : BufTy).Contents (Elt F) → (⟨S300000, .i32⟩ : BufTy).Contents (Elt F) → (⟨S300000, .i1⟩ : BufTy).Contents (Elt F)),
    StableHlo.nullary main_c_53 (constantI S_ 32 64#32),
    StableHlo.unary main_c_53 main_v234 (broadcastInDim S300000 ![] bcast_S_S300000 : (⟨S_, .i32⟩ : BufTy).Contents (Elt F) → (⟨S300000, .i32⟩ : BufTy).Contents (Elt F)),
    StableHlo.binary main_v231 main_v234 main_v235 (addi : (⟨S300000, .i32⟩ : BufTy).Contents (Elt F) → (⟨S300000, .i32⟩ : BufTy).Contents (Elt F) → (⟨S300000, .i32⟩ : BufTy).Contents (Elt F)),
    StableHlo.ternary main_v233 main_v235 main_v231 main_v236 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v236 main_v237 (broadcastInDim S300000x1 ![0] bcast_S300000_S300000x1_0 : (⟨S300000, .i32⟩ : BufTy).Contents (Elt F) → (⟨S300000x1, .i32⟩ : BufTy).Contents (Elt F)),
    StableHlo.binary main_v210 main_v237 main_v238 ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)),
    StableHlo.nary ![main_v217, main_v224, main_v169, main_v238] main_v239 (fun u => concatenate S300000x256 1 [⟨S300000x64, u 0⟩, ⟨S300000x64, u 1⟩, ⟨S300000x64, u 2⟩, ⟨S300000x64, u 3⟩] concatenates_S300000x64_S300000x64_S300000x64_S300000x64_S300000x256_d1),
    StableHlo.binary main_v239 main_arg23 main_v240 ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)),
    StableHlo.unary main_arg24 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S300000x64 ![0, 1] bcast_S1x64_S300000x64_0_1 : (⟨S1x64, .f32⟩ : BufTy).Contents (Elt F) → (⟨S300000x64, .f32⟩ : BufTy).Contents (Elt F)),
    StableHlo.binary main_v240 main_v242 main_v243 (addf : (⟨S300000x64, .f32⟩ : BufTy).Contents (Elt F) → (⟨S300000x64, .f32⟩ : BufTy).Contents (Elt F) → (⟨S300000x64, .f32⟩ : BufTy).Contents (Elt F)) ]

set_option maxRecDepth 8192 in
set_option maxHeartbeats 1600000 in
/-- The window is that straight line: the callees unfolded at their calls and the records at their fields, both sides
    are one chain of host steps once sequencing is re-associated. -/
theorem part4_eq (c : Dev nD) : main_part4 (F := F) c = seq ops4 := by
  simp only [main_part4, fn_relu_4.body, seq, bind_assoc, pure_bind, bind_pure_unit]

/-- Every operation of the window touches TensorCore buffers only. -/
theorem ops4_sub : (ops4 : List (HloOp τ sig (Elt F))).Forall fun op => op.bufs ⊆ tcRefs τ sig :=
  ⟨unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub ..⟩

/-- No operation of the window allocates: each determines what it writes. -/
theorem ops4_fresh : (ops4 : List (HloOp τ sig (Elt F))).Forall fun op => op.fresh = ∅ := by
  simp only [List.Forall]; repeat' constructor

/-- The buffers window 4 writes: one per operation, none of them an argument of @main. -/
abbrev ops4_W : List (Ref sig .tc) := [main_v195, main_v196, main_cst_43, main_v197, main_cst_44, main_v198, main_v199, main_v200, main_cst_45, main_v201, main_v202, main_v203, main_v204, main_v205, main_v206, main_v207, main_v208, main_v209, main_call8.cst.ref, main_call8.v0.ref, main_call8.v1.ref, main_c_46, main_v211, main_v212, main_c_47, main_v213, main_v214, main_v215, main_v216, main_v217, main_c_48, main_v218, main_v219, main_c_49, main_v220, main_v221, main_v222, main_v223, main_v224, main_c_50, main_v225, main_v226, main_c_51, main_v227, main_v228, main_v229, main_v230, main_v231, main_c_52, main_v232, main_v233, main_c_53, main_v234, main_v235, main_v236, main_v237, main_v238, main_v239, main_v240, main_v241, main_v242, main_v243]

set_option maxRecDepth 8192 in
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))

end Cert.ReferenceIdeal.Hand

end
-- ==== Proof.Ref.Ops5.lean ====
-- written by: gen_ref.js <unit directory>
/- The reference program's @main, window 5 of its six: the window's host operations in order as a list, each call of an
   outlined function listed inline at its call site (the callee's operations over the call's buffer record),
   the window's program as that straight line, and what the list writes, needs and leaves alone. -/
import proofs.«123839_j71768903516633_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- Window 5's 58 operations, in program order. -/
abbrev ops5 : List (HloOp τ sig (Elt F)) :=
  [ StableHlo.TRef.nullary main_call9.cst (constant S_ .f32 0x00000000#32),
    StableHlo.TRef.unary main_call9.cst main_call9.v0 (broadcastInDim S300000x64 ![] bcast_S_S300000x64),
    StableHlo.TRef.binary (.of main_v243) main_call9.v0 main_call9.v1 maximumf,
    StableHlo.nullary main_cst_54 (constant S_ .f32 0x00000000#32),
    StableHlo.unary main_cst_54 main_v245 (broadcastInDim S30000x64 ![] bcast_S_S30000x64 : (⟨S_, .f32⟩ : BufTy).Contents (Elt F) → (⟨S30000x64, .f32⟩ : BufTy).Contents (Elt F)),
    StableHlo.unary main_v3 main_v246 (broadcastInDim S300000x1 ![0] bcast_S300000_S300000x1_0 : (⟨S300000, .i32⟩ : BufTy).Contents (Elt F) → (⟨S300000x1, .i32⟩ : BufTy).Contents (Elt F)),
    StableHlo.ternary main_v245 main_v246 main_v244 main_v247 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)),
    StableHlo.nullary main_cst_55 (constant S_ .f32 0x3F800000#32),
    StableHlo.unary main_cst_55 main_v248 (broadcastInDim S300000x1 ![] bcast_S_S300000x1 : (⟨S_, .f32⟩ : BufTy).Contents (Elt F) → (⟨S300000x1, .f32⟩ : BufTy).Contents (Elt F)),
    StableHlo.nullary main_cst_56 (constant S_ .f32 0x00000000#32),
    StableHlo.unary main_cst_56 main_v249 (broadcastInDim S30000x1 ![] bcast_S_S30000x1 : (⟨S_, .f32⟩ : BufTy).Contents (Elt F) → (⟨S30000x1, .f32⟩ : BufTy).Contents (Elt F)),
    StableHlo.unary main_v3 main_v250 (broadcastInDim S300000x1 ![0] bcast_S300000_S300000x1_0 : (⟨S300000, .i32⟩ : BufTy).Contents (Elt F) → (⟨S300000x1, .i32⟩ : BufTy).Contents (Elt F)),
    StableHlo.ternary main_v249 main_v250 main_v248 main_v251 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)),
    StableHlo.nullary main_cst_57 (constant S_ .f32 0x3F800000#32),
    StableHlo.unary main_cst_57 main_v252 (broadcastInDim S30000x1 ![] bcast_S_S30000x1 : (⟨S_, .f32⟩ : BufTy).Contents (Elt F) → (⟨S30000x1, .f32⟩ : BufTy).Contents (Elt F)),
    StableHlo.binary main_v251 main_v252 main_v253 (maximumf : (⟨S30000x1, .f32⟩ : BufTy).Contents (Elt F) → (⟨S30000x1, .f32⟩ : BufTy).Contents (Elt F) → (⟨S30000x1, .f32⟩ : BufTy).Contents (Elt F)),
    StableHlo.unary main_v253 main_v254 (broadcastInDim S30000x64 ![0, 1] bcast_S30000x1_S30000x64_0_1 : (⟨S30000x1, .f32⟩ : BufTy).Contents (Elt F) → (⟨S30000x64, .f32⟩ : BufTy).Contents (Elt F)),
    StableHlo.binary main_v247 main_v254 main_v255 (Host.divf : (⟨S30000x64, .f32⟩ : BufTy).Contents (Elt F) → (⟨S30000x64, .f32⟩ : BufTy).Contents (Elt F) → (⟨S30000x64, .f32⟩ : BufTy).Contents (Elt F)),
    StableHlo.nullary main_c_58 (constantI S_ 32 0#32),
    StableHlo.unary main_c_58 main_v256 (broadcastInDim S30000 ![] bcast_S_S30000 : (⟨S_, .i32⟩ : BufTy).Contents (Elt F) → (⟨S30000, .i32⟩ : BufTy).Contents (Elt F)),
    StableHlo.binary main_arg4 main_v256 main_v257 (cmpi .slt : (⟨S30000, .i32⟩ : BufTy).Contents (Elt F) → (⟨S30000, .i32⟩ : BufTy).Contents (Elt F) → (⟨S30000, .i1⟩ : BufTy).Contents (Elt F)),
    StableHlo.nullary main_c_59 (constantI S_ 32 64#32),
    StableHlo.unary main_c_59 main_v258 (broadcastInDim S30000 ![] bcast_S_S30000 : (⟨S_, .i32⟩ : BufTy).Contents (Elt F) → (⟨S30000, .i32⟩ : BufTy).Contents (Elt F)),
    StableHlo.binary main_arg4 main_v258 main_v259 (addi : (⟨S30000, .i32⟩ : BufTy).Contents (Elt F) → (⟨S30000, .i32⟩ : BufTy).Contents (Elt F) → (⟨S30000, .i32⟩ : BufTy).Contents (Elt F)),
    StableHlo.ternary main_v257 main_v259 main_arg4 main_v260 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)),
    StableHlo.unary main_v260 main_v261 (broadcastInDim S30000x1 ![0] bcast_S30000_S30000x1_0 : (⟨S30000, .i32⟩ : BufTy).Contents (Elt F) → (⟨S30000x1, .i32⟩ : BufTy).Contents (Elt F)),
    StableHlo.binary main_v210 main_v261 main_v262 ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)),
    StableHlo.nary ![main_v193, main_v255, main_v262] main_v263 (fun u => concatenate S30000x192 1 [⟨S30000x64, u 0⟩, ⟨S30000x64, u 1⟩, ⟨S30000x64, u 2⟩] concatenates_S30000x64_S30000x64_S30000x64_S30000x192_d1),
    StableHlo.binary main_v263 main_arg25 main_v264 ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)),
    StableHlo.unary main_arg26 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S30000x64 ![0, 1] bcast_S1x64_S30000x64_0_1 : (⟨S1x64, .f32⟩ : BufTy).Contents (Elt F) → (⟨S30000x64, .f32⟩ : BufTy).Contents (Elt F)),
    StableHlo.binary main_v264 main_v266 main_v267 (addf : (⟨S30000x64, .f32⟩ : BufTy).Contents (Elt F) → (⟨S30000x64, .f32⟩ : BufTy).Contents (Elt F) → (⟨S30000x64, .f32⟩ : BufTy).Contents (Elt F)),
    StableHlo.TRef.nullary main_call10.cst (constant S_ .f32 0x00000000#32),
    StableHlo.TRef.unary main_call10.cst main_call10.v0 (broadcastInDim S30000x64 ![] bcast_S_S30000x64),
    StableHlo.TRef.binary (.of main_v267) main_call10.v0 main_call10.v1 maximumf,
    StableHlo.nullary main_cst_60 (constant S_ .f32 0x00000000#32),
    StableHlo.unary main_cst_60 main_v269 (broadcastInDim S64x64 ![] bcast_S_S64x64 : (⟨S_, .f32⟩ : BufTy).Contents (Elt F) → (⟨S64x64, .f32⟩ : BufTy).Contents (Elt F)),
    StableHlo.unary main_arg4 main_v270 (broadcastInDim S30000x1 ![0] bcast_S30000_S30000x1_0 : (⟨S30000, .i32⟩ : BufTy).Contents (Elt F) → (⟨S30000x1, .i32⟩ : BufTy).Contents (Elt F)),
    StableHlo.ternary main_v269 main_v270 main_v268 main_v271 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)),
    StableHlo.nullary main_cst_61 (constant S_ .f32 0x3F800000#32),
    StableHlo.unary main_cst_61 main_v272 (broadcastInDim S30000x1 ![] bcast_S_S30000x1 : (⟨S_, .f32⟩ : BufTy).Contents (Elt F) → (⟨S30000x1, .f32⟩ : BufTy).Contents (Elt F)),
    StableHlo.nullary main_cst_62 (constant S_ .f32 0x00000000#32),
    StableHlo.unary main_cst_62 main_v273 (broadcastInDim S64x1 ![] bcast_S_S64x1 : (⟨S_, .f32⟩ : BufTy).Contents (Elt F) → (⟨S64x1, .f32⟩ : BufTy).Contents (Elt F)),
    StableHlo.unary main_arg4 main_v274 (broadcastInDim S30000x1 ![0] bcast_S30000_S30000x1_0 : (⟨S30000, .i32⟩ : BufTy).Contents (Elt F) → (⟨S30000x1, .i32⟩ : BufTy).Contents (Elt F)),
    StableHlo.ternary main_v273 main_v274 main_v272 main_v275 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)),
    StableHlo.nullary main_cst_63 (constant S_ .f32 0x3F800000#32),
    StableHlo.unary main_cst_63 main_v276 (broadcastInDim S64x1 ![] bcast_S_S64x1 : (⟨S_, .f32⟩ : BufTy).Contents (Elt F) → (⟨S64x1, .f32⟩ : BufTy).Contents (Elt F)),
    StableHlo.binary main_v275 main_v276 main_v277 (maximumf : (⟨S64x1, .f32⟩ : BufTy).Contents (Elt F) → (⟨S64x1, .f32⟩ : BufTy).Contents (Elt F) → (⟨S64x1, .f32⟩ : BufTy).Contents (Elt F)),
    StableHlo.unary main_v277 main_v278 (broadcastInDim S64x64 ![0, 1] bcast_S64x1_S64x64_0_1 : (⟨S64x1, .f32⟩ : BufTy).Contents (Elt F) → (⟨S64x64, .f32⟩ : BufTy).Contents (Elt F)),
    StableHlo.binary main_v271 main_v278 main_v279 (Host.divf : (⟨S64x64, .f32⟩ : BufTy).Contents (Elt F) → (⟨S64x64, .f32⟩ : BufTy).Contents (Elt F) → (⟨S64x64, .f32⟩ : BufTy).Contents (Elt F)),
    StableHlo.binary main_v279 main_v210 main_v280 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    StableHlo.binary main_v280 main_arg27 main_v281 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg28 main_v282 (broadcastInDim S1x64 ![1] bcast_S64_S1x64_1 : (⟨S64, .f32⟩ : BufTy).Contents (Elt F) → (⟨S1x64, .f32⟩ : BufTy).Contents (Elt F)),
    StableHlo.unary main_v282 main_v283 (broadcastInDim S64x64 ![0, 1] bcast_S1x64_S64x64_0_1 : (⟨S1x64, .f32⟩ : BufTy).Contents (Elt F) → (⟨S64x64, .f32⟩ : BufTy).Contents (Elt F)),
    StableHlo.binary main_v281 main_v283 main_v284 (addf : (⟨S64x64, .f32⟩ : BufTy).Contents (Elt F) → (⟨S64x64, .f32⟩ : BufTy).Contents (Elt F) → (⟨S64x64, .f32⟩ : BufTy).Contents (Elt F)),
    StableHlo.TRef.nullary main_call11.cst (constant S_ .f32 0x00000000#32),
    StableHlo.TRef.unary main_call11.cst main_call11.v0 (broadcastInDim S64x64 ![] bcast_S_S64x64),
    StableHlo.TRef.binary (.of main_v284) main_call11.v0 main_call11.v1 maximumf ]

set_option maxRecDepth 8192 in
set_option maxHeartbeats 1600000 in
/-- The window is that straight line: the callees unfolded at their calls and the records at their fields, both sides
    are one chain of host steps once sequencing is re-associated. -/
theorem part5_eq (c : Dev nD) : main_part5 (F := F) c = seq ops5 := by
  simp only [main_part5, fn_relu.body, fn_relu_3.body, fn_relu_4.body, seq, bind_assoc, pure_bind, bind_pure_unit]

/-- Every operation of the window touches TensorCore buffers only. -/
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the window allocates: each determines what it writes. -/
theorem ops5_fresh : (ops5 : List (HloOp τ sig (Elt F))).Forall fun op => op.fresh = ∅ := by
  simp only [List.Forall]; repeat' constructor

/-- The buffers window 5 writes: one per operation, none of them an argument of @main. -/
abbrev ops5_W : List (Ref sig .tc) := [main_call9.cst.ref, main_call9.v0.ref, main_call9.v1.ref, main_cst_54, main_v245, main_v246, main_v247, main_cst_55, main_v248, main_cst_56, main_v249, main_v250, main_v251, main_cst_57, main_v252, main_v253, main_v254, main_v255, main_c_58, main_v256, main_v257, main_c_59, main_v258, main_v259, main_v260, main_v261, main_v262, main_v263, main_v264, main_v265, main_v266, main_v267, main_call10.cst.ref, main_call10.v0.ref, main_call10.v1.ref, main_cst_60, main_v269, main_v270, main_v271, main_cst_61, main_v272, main_cst_62, main_v273, main_v274, main_v275, main_cst_63, main_v276, main_v277, main_v278, main_v279, main_v280, main_v281, main_v282, main_v283, main_v284, main_call11.cst.ref, main_call11.v0.ref, main_call11.v1.ref]

set_option maxRecDepth 8192 in
theorem ops5_writes : (ops5 : List (HloOp τ sig (Elt F))).Forall fun op => op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))

end Cert.ReferenceIdeal.Hand

end
-- ==== Proof.Ref.Run.lean ====
-- written by: gen_ref.js <unit directory>
/- The reference program's @main as ONE list of host operations — its six windows' lists in program order —, the
   program as that straight line, and its run: from any memory with zero counters every weakly fair execution
   terminates, each TensorCore buffer ends at the fold of the operations' results over the launch contents, and no
   operation writes an argument, so each argument array ends as launched. -/
import proofs.«123839_j71768903516633_2_alg».proof.Proof.Ref.Ops0
import proofs.«123839_j71768903516633_2_alg».proof.Proof.Ref.Ops1
import proofs.«123839_j71768903516633_2_alg».proof.Proof.Ref.Ops2
import proofs.«123839_j71768903516633_2_alg».proof.Proof.Ref.Ops3
import proofs.«123839_j71768903516633_2_alg».proof.Proof.Ref.Ops4
import proofs.«123839_j71768903516633_2_alg».proof.Proof.Ref.Ops5
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- @main's 433 operations, in program order: the six windows one after the other. -/
abbrev ops : List (HloOp τ sig (Elt F)) := ops0 ++ (ops1 ++ (ops2 ++ (ops3 ++ (ops4 ++ ops5))))

/-- @main runs its windows in order, each the straight line of its list: together the straight line of the whole list. -/
theorem main_eq (c : Dev nD) : main (F := F) c = seq ops := by
  simp only [main, part0_eq, part1_eq, part2_eq, part3_eq, part4_eq, part5_eq, seq_append]

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, List.forall_append.2 ⟨ops4_sub, ops5_sub⟩⟩⟩⟩⟩

theorem ops_fresh : (ops : List (HloOp τ sig (Elt F))).Forall fun op => op.fresh = ∅ :=
  List.forall_append.2 ⟨ops0_fresh, List.forall_append.2 ⟨ops1_fresh, List.forall_append.2 ⟨ops2_fresh,
    List.forall_append.2 ⟨ops3_fresh, List.forall_append.2 ⟨ops4_fresh, ops5_fresh⟩⟩⟩⟩⟩

/-- A buffer none of the six windows writes holds after @main what it held before. -/
theorem after_ops_keep (V : Valuation τ sig (Elt F)) {r : Ref sig .tc} (h0 : r ∉ ops0_W) (h1 : r ∉ ops1_W) (h2 : r ∉ ops2_W)
    (h3 : r ∉ ops3_W) (h4 : r ∉ ops4_W) (h5 : r ∉ ops5_W) :
    after (ops (F := F)) V (Proc.devRef .tc r) = V (Proc.devRef .tc r) := by
  show after (ops0 ++ (ops1 ++ (ops2 ++ (ops3 ++ (ops4 ++ ops5))))) V (Proc.devRef .tc r) = V (Proc.devRef .tc r)
  rw [after_append, after_append, after_append, after_append, after_append,
    after_of_writes_sub ops5 _ ops5_writes h5, after_of_writes_sub ops4 _ ops4_writes h4,
    after_of_writes_sub ops3 _ ops3_writes h3, after_of_writes_sub ops2 _ ops2_writes h2,
    after_of_writes_sub ops1 _ ops1_writes h1, after_of_writes_sub ops0 _ ops0_writes h0]

/-- From any memory with zero counters: every weakly fair execution of @main on the TensorCores terminates, and every
    final state has each TensorCore buffer at the operations' fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.1 ops_fresh)

set_option maxRecDepth 8192 in
/-- The run read back: on every device each TensorCore buffer ends at the operations' fold over the launch contents —
    the three results `main_v268`, `main_v244`, `main_v285` among them —, and each of the 29 argument arrays ends
    holding its launch contents (no operation writes one). -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (∀ b : Ref sig .tc, r.2.mem ((c.tc : Thread nD τ).loc b) = after (ops (F := F)) (launchContents m c) (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨h c,
      (h c main_arg0).trans (after_ops_keep _ (by decide) (by decide) (by decide) (by decide) (by decide) (by decide)),
      (h c main_arg1).trans (after_ops_keep _ (by decide) (by decide) (by decide) (by decide) (by decide) (by decide)),
      (h c main_arg2).trans (after_ops_keep _ (by decide) (by decide) (by decide) (by decide) (by decide) (by decide)),
      (h c main_arg3).trans (after_ops_keep _ (by decide) (by decide) (by decide) (by decide) (by decide) (by decide)),
      (h c main_arg4).trans (after_ops_keep _ (by decide) (by decide) (by decide) (by decide) (by decide) (by decide)),
      (h c main_arg5).trans (after_ops_keep _ (by decide) (by decide) (by decide) (by decide) (by decide) (by decide)),
      (h c main_arg6).trans (after_ops_keep _ (by decide) (by decide) (by decide) (by decide) (by decide) (by decide)),
      (h c main_arg7).trans (after_ops_keep _ (by decide) (by decide) (by decide) (by decide) (by decide) (by decide)),
      (h c main_arg8).trans (after_ops_keep _ (by decide) (by decide) (by decide) (by decide) (by decide) (by decide)),
      (h c main_arg9).trans (after_ops_keep _ (by decide) (by decide) (by decide) (by decide) (by decide) (by decide)),
      (h c main_arg10).trans (after_ops_keep _ (by decide) (by decide) (by decide) (by decide) (by decide) (by decide)),
      (h c main_arg11).trans (after_ops_keep _ (by decide) (by decide) (by decide) (by decide) (by decide) (by decide)),
      (h c main_arg12).trans (after_ops_keep _ (by decide) (by decide) (by decide) (by decide) (by decide) (by decide)),
      (h c main_arg13).trans (after_ops_keep _ (by decide) (by decide) (by decide) (by decide) (by decide) (by decide)),
      (h c main_arg14).trans (after_ops_keep _ (by decide) (by decide) (by decide) (by decide) (by decide) (by decide)),
      (h c main_arg15).trans (after_ops_keep _ (by decide) (by decide) (by decide) (by decide) (by decide) (by decide)),
      (h c main_arg16).trans (after_ops_keep _ (by decide) (by decide) (by decide) (by decide) (by decide) (by decide)),
      (h c main_arg17).trans (after_ops_keep _ (by decide) (by decide) (by decide) (by decide) (by decide) (by decide)),
      (h c main_arg18).trans (after_ops_keep _ (by decide) (by decide) (by decide) (by decide) (by decide) (by decide)),
      (h c main_arg19).trans (after_ops_keep _ (by decide) (by decide) (by decide) (by decide) (by decide) (by decide)),
      (h c main_arg20).trans (after_ops_keep _ (by decide) (by decide) (by decide) (by decide) (by decide) (by decide)),
      (h c main_arg21).trans (after_ops_keep _ (by decide) (by decide) (by decide) (by decide) (by decide) (by decide)),
      (h c main_arg22).trans (after_ops_keep _ (by decide) (by decide) (by decide) (by decide) (by decide) (by decide)),
      (h c main_arg23).trans (after_ops_keep _ (by decide) (by decide) (by decide) (by decide) (by decide) (by decide)),
      (h c main_arg24).trans (after_ops_keep _ (by decide) (by decide) (by decide) (by decide) (by decide) (by decide)),
      (h c main_arg25).trans (after_ops_keep _ (by decide) (by decide) (by decide) (by decide) (by decide) (by decide)),
      (h c main_arg26).trans (after_ops_keep _ (by decide) (by decide) (by decide) (by decide) (by decide) (by decide)),
      (h c main_arg27).trans (after_ops_keep _ (by decide) (by decide) (by decide) (by decide) (by decide) (by decide)),
      (h c main_arg28).trans (after_ops_keep _ (by decide) (by decide) (by decide) (by decide) (by decide) (by decide))⟩)
    (run_all m ρ)

end Cert.ReferenceIdeal.Hand

end
-- ==== Proof.Ref.Frame.lean ====
-- written by: gen_ref.js <unit directory>
/- The reference program's frame claim: it runs (terminates, no fault) and its argument arrays end unchanged — the
   argument conjuncts of its run, at the ideal float instance. -/
import proofs.«123839_j71768903516633_2_alg».proof.Proof.Ref.Run
import proofs.«123839_j71768903516633_2_alg».proof.Defs

noncomputable section

namespace Cert.ReferenceIdeal.Hand

open Cert.ReferenceIdeal Idealize.ShloMosaic Idealize.SL.Sem

theorem frame_ri [Cert.ReferenceIdeal.Facts] [Cert.Pre_finite_inputs.Facts] : Cert.frame_ReferenceIdeal :=
  fun m ρ _ => (θ_run (Cert.ReferenceIdeal.defs (F := Ideal)) _ _).mono (fun _ h c => (h c).2) (run (F := Ideal) m ρ)

end Cert.ReferenceIdeal.Hand

end
-- ==== Proof.Bridge.Names.lean ====
/-
  Every buffer the two programs' results are compared through, named once at its plain contents type (its shape and
  element type): for the reference, what the buffer holds when the reference's run ends (or, for an argument, at launch);
  for the kernel program, what it holds at the segment boundary after the region that writes it (or at launch).  An
  equation between a reference buffer and a kernel-program buffer is stated between these names, so that both sides
  have one literal type.
-/
import proofs.«123839_j71768903516633_2_alg».proof.Defs
import proofs.«123839_j71768903516633_2_alg».proof.Proof.KI.Run
import proofs.«123839_j71768903516633_2_alg».proof.Proof.Ref.Run
import Idealize.ShloMosaic.Lib.ValueLayout

set_option maxRecDepth 100000

noncomputable section

namespace Cert.Proof.Bridge

open Idealize.ShloMosaic Idealize.ShloMosaic.TcCoe Idealize.SL.Sem Idealize.ShloMosaic.StableHlo Idealize.ShloMosaic.ValueIdx

variable [Cert.KernelIdeal.Facts] [Cert.ReferenceIdeal.Facts]

/-! ## The launch arguments -/

abbrev rArg0 (m' : (ℓ : Loc Cert.ReferenceIdeal.nD Cert.ReferenceIdeal.τ Cert.ReferenceIdeal.sig) → Buf (Elt Ideal) ℓ) (c : Dev Cert.KernelIdeal.nD) : (⟨Cert.ReferenceIdeal.S30000x64, .f32⟩ : BufTy).Contents (Elt Ideal) :=
  launchContents m' c (Proc.devRef .tc Cert.ReferenceIdeal.main_arg0)
abbrev kArg0 (m : (ℓ : Loc Cert.KernelIdeal.nD Cert.KernelIdeal.τ Cert.KernelIdeal.sig) → Buf (Elt Ideal) ℓ) (c : Dev Cert.KernelIdeal.nD) : (⟨Cert.KernelIdeal.S30000x64, .f32⟩ : BufTy).Contents (Elt Ideal) :=
  Cert.KernelIdeal.Hand.U0 m c Cert.KernelIdeal.main_arg0
abbrev rArg1 (m' : (ℓ : Loc Cert.ReferenceIdeal.nD Cert.ReferenceIdeal.τ Cert.ReferenceIdeal.sig) → Buf (Elt Ideal) ℓ) (c : Dev Cert.KernelIdeal.nD) : (⟨Cert.ReferenceIdeal.S2x300000, .i32⟩ : BufTy).Contents (Elt Ideal) :=
  launchContents m' c (Proc.devRef .tc Cert.ReferenceIdeal.main_arg1)
abbrev kArg1 (m : (ℓ : Loc Cert.KernelIdeal.nD Cert.KernelIdeal.τ Cert.KernelIdeal.sig) → Buf (Elt Ideal) ℓ) (c : Dev Cert.KernelIdeal.nD) : (⟨Cert.KernelIdeal.S2x300000, .i32⟩ : BufTy).Contents (Elt Ideal) :=
  Cert.KernelIdeal.Hand.U0 m c Cert.KernelIdeal.main_arg1
abbrev rArg2 (m' : (ℓ : Loc Cert.ReferenceIdeal.nD Cert.ReferenceIdeal.τ Cert.ReferenceIdeal.sig) → Buf (Elt Ideal) ℓ) (c : Dev Cert.KernelIdeal.nD) : (⟨Cert.ReferenceIdeal.S300000x32, .f32⟩ : BufTy).Contents (Elt Ideal) :=
  launchContents m' c (Proc.devRef .tc Cert.ReferenceIdeal.main_arg2)
abbrev kArg2 (m : (ℓ : Loc Cert.KernelIdeal.nD Cert.KernelIdeal.τ Cert.KernelIdeal.sig) → Buf (Elt Ideal) ℓ) (c : Dev Cert.KernelIdeal.nD) : (⟨Cert.KernelIdeal.S300000x32, .f32⟩ : BufTy).Contents (Elt Ideal) :=
  Cert.KernelIdeal.Hand.U0 m c Cert.KernelIdeal.main_arg2
abbrev rArg3 (m' : (ℓ : Loc Cert.ReferenceIdeal.nD Cert.ReferenceIdeal.τ Cert.ReferenceIdeal.sig) → Buf (Elt Ideal) ℓ) (c : Dev Cert.KernelIdeal.nD) : (⟨Cert.ReferenceIdeal.S64x32, .f32⟩ : BufTy).Contents (Elt Ideal) :=
  launchContents m' c (Proc.devRef .tc Cert.ReferenceIdeal.main_arg3)
abbrev kArg3 (m : (ℓ : Loc Cert.KernelIdeal.nD Cert.KernelIdeal.τ Cert.KernelIdeal.sig) → Buf (Elt Ideal) ℓ) (c : Dev Cert.KernelIdeal.nD) : (⟨Cert.KernelIdeal.S64x32, .f32⟩ : BufTy).Contents (Elt Ideal) :=
  Cert.KernelIdeal.Hand.U0 m c Cert.KernelIdeal.main_arg3
abbrev rArg4 (m' : (ℓ : Loc Cert.ReferenceIdeal.nD Cert.ReferenceIdeal.τ Cert.ReferenceIdeal.sig) → Buf (Elt Ideal) ℓ) (c : Dev Cert.KernelIdeal.nD) : (⟨Cert.ReferenceIdeal.S30000, .i32⟩ : BufTy).Contents (Elt Ideal) :=
  launchContents m' c (Proc.devRef .tc Cert.ReferenceIdeal.main_arg4)
abbrev kArg4 (m : (ℓ : Loc Cert.KernelIdeal.nD Cert.KernelIdeal.τ Cert.KernelIdeal.sig) → Buf (Elt Ideal) ℓ) (c : Dev Cert.KernelIdeal.nD) : (⟨Cert.KernelIdeal.S30000, .i32⟩ : BufTy).Contents (Elt Ideal) :=
  Cert.KernelIdeal.Hand.U0 m c Cert.KernelIdeal.main_arg4
abbrev rArg5 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg5)
abbrev kArg5 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg5
abbrev rArg6 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg6)
abbrev kArg6 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg6
abbrev rArg7 (m' : (ℓ : Loc Cert.ReferenceIdeal.nD Cert.ReferenceIdeal.τ Cert.ReferenceIdeal.sig) → Buf (Elt Ideal) ℓ) (c : Dev Cert.KernelIdeal.nD) : (⟨Cert.ReferenceIdeal.S32, .f32⟩ : BufTy).Contents (Elt Ideal) :=
  launchContents m' c (Proc.devRef .tc Cert.ReferenceIdeal.main_arg7)
abbrev kArg7 (m : (ℓ : Loc Cert.KernelIdeal.nD Cert.KernelIdeal.τ Cert.KernelIdeal.sig) → Buf (Elt Ideal) ℓ) (c : Dev Cert.KernelIdeal.nD) : (⟨Cert.KernelIdeal.S32, .f32⟩ : BufTy).Contents (Elt Ideal) :=
  Cert.KernelIdeal.Hand.U0 m c Cert.KernelIdeal.main_arg7
abbrev rArg8 (m' : (ℓ : Loc Cert.ReferenceIdeal.nD Cert.ReferenceIdeal.τ Cert.ReferenceIdeal.sig) → Buf (Elt Ideal) ℓ) (c : Dev Cert.KernelIdeal.nD) : (⟨Cert.ReferenceIdeal.S32, .f32⟩ : BufTy).Contents (Elt Ideal) :=
  launchContents m' c (Proc.devRef .tc Cert.ReferenceIdeal.main_arg8)
abbrev kArg8 (m : (ℓ : Loc Cert.KernelIdeal.nD Cert.KernelIdeal.τ Cert.KernelIdeal.sig) → Buf (Elt Ideal) ℓ) (c : Dev Cert.KernelIdeal.nD) : (⟨Cert.KernelIdeal.S32, .f32⟩ : BufTy).Contents (Elt Ideal) :=
  Cert.KernelIdeal.Hand.U0 m c Cert.KernelIdeal.main_arg8
abbrev rArg9 (m' : (ℓ : Loc Cert.ReferenceIdeal.nD Cert.ReferenceIdeal.τ Cert.ReferenceIdeal.sig) → Buf (Elt Ideal) ℓ) (c : Dev Cert.KernelIdeal.nD) : (⟨Cert.ReferenceIdeal.S32, .f32⟩ : BufTy).Contents (Elt Ideal) :=
  launchContents m' c (Proc.devRef .tc Cert.ReferenceIdeal.main_arg9)
abbrev kArg9 (m : (ℓ : Loc Cert.KernelIdeal.nD Cert.KernelIdeal.τ Cert.KernelIdeal.sig) → Buf (Elt Ideal) ℓ) (c : Dev Cert.KernelIdeal.nD) : (⟨Cert.KernelIdeal.S32, .f32⟩ : BufTy).Contents (Elt Ideal) :=
  Cert.KernelIdeal.Hand.U0 m c Cert.KernelIdeal.main_arg9
abbrev rArg10 (m' : (ℓ : Loc Cert.ReferenceIdeal.nD Cert.ReferenceIdeal.τ Cert.ReferenceIdeal.sig) → Buf (Elt Ideal) ℓ) (c : Dev Cert.KernelIdeal.nD) : (⟨Cert.ReferenceIdeal.S32, .f32⟩ : BufTy).Contents (Elt Ideal) :=
  launchContents m' c (Proc.devRef .tc Cert.ReferenceIdeal.main_arg10)
abbrev kArg10 (m : (ℓ : Loc Cert.KernelIdeal.nD Cert.KernelIdeal.τ Cert.KernelIdeal.sig) → Buf (Elt Ideal) ℓ) (c : Dev Cert.KernelIdeal.nD) : (⟨Cert.KernelIdeal.S32, .f32⟩ : BufTy).Contents (Elt Ideal) :=
  Cert.KernelIdeal.Hand.U0 m c Cert.KernelIdeal.main_arg10
abbrev rArg11 (m' : (ℓ : Loc Cert.ReferenceIdeal.nD Cert.ReferenceIdeal.τ Cert.ReferenceIdeal.sig) → Buf (Elt Ideal) ℓ) (c : Dev Cert.KernelIdeal.nD) : (⟨Cert.ReferenceIdeal.S192x64, .f32⟩ : BufTy).Contents (Elt Ideal) :=
  launchContents m' c (Proc.devRef .tc Cert.ReferenceIdeal.main_arg11)
abbrev kArg11 (m : (ℓ : Loc Cert.KernelIdeal.nD Cert.KernelIdeal.τ Cert.KernelIdeal.sig) → Buf (Elt Ideal) ℓ) (c : Dev Cert.KernelIdeal.nD) : (⟨Cert.KernelIdeal.S192x64, .f32⟩ : BufTy).Contents (Elt Ideal) :=
  Cert.KernelIdeal.Hand.U0 m c Cert.KernelIdeal.main_arg11
abbrev rArg12 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg12)
abbrev kArg12 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg12
abbrev rArg13 (m' : (ℓ : Loc Cert.ReferenceIdeal.nD Cert.ReferenceIdeal.τ Cert.ReferenceIdeal.sig) → Buf (Elt Ideal) ℓ) (c : Dev Cert.KernelIdeal.nD) : (⟨Cert.ReferenceIdeal.S160x64, .f32⟩ : BufTy).Contents (Elt Ideal) :=
  launchContents m' c (Proc.devRef .tc Cert.ReferenceIdeal.main_arg13)
abbrev kArg13 (m : (ℓ : Loc Cert.KernelIdeal.nD Cert.KernelIdeal.τ Cert.KernelIdeal.sig) → Buf (Elt Ideal) ℓ) (c : Dev Cert.KernelIdeal.nD) : (⟨Cert.KernelIdeal.S160x64, .f32⟩ : BufTy).Contents (Elt Ideal) :=
  Cert.KernelIdeal.Hand.U0 m c Cert.KernelIdeal.main_arg13
abbrev rArg14 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg14)
abbrev kArg14 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg14
abbrev rArg15 (m' : (ℓ : Loc Cert.ReferenceIdeal.nD Cert.ReferenceIdeal.τ Cert.ReferenceIdeal.sig) → Buf (Elt Ideal) ℓ) (c : Dev Cert.KernelIdeal.nD) : (⟨Cert.ReferenceIdeal.S96x64, .f32⟩ : BufTy).Contents (Elt Ideal) :=
  launchContents m' c (Proc.devRef .tc Cert.ReferenceIdeal.main_arg15)
abbrev kArg15 (m : (ℓ : Loc Cert.KernelIdeal.nD Cert.KernelIdeal.τ Cert.KernelIdeal.sig) → Buf (Elt Ideal) ℓ) (c : Dev Cert.KernelIdeal.nD) : (⟨Cert.KernelIdeal.S96x64, .f32⟩ : BufTy).Contents (Elt Ideal) :=
  Cert.KernelIdeal.Hand.U0 m c Cert.KernelIdeal.main_arg15
abbrev rArg16 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg16)
abbrev kArg16 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg16
abbrev rArg17 (m' : (ℓ : Loc Cert.ReferenceIdeal.nD Cert.ReferenceIdeal.τ Cert.ReferenceIdeal.sig) → Buf (Elt Ideal) ℓ) (c : Dev Cert.KernelIdeal.nD) : (⟨Cert.ReferenceIdeal.S256x64, .f32⟩ : BufTy).Contents (Elt Ideal) :=
  launchContents m' c (Proc.devRef .tc Cert.ReferenceIdeal.main_arg17)
abbrev kArg17 (m : (ℓ : Loc Cert.KernelIdeal.nD Cert.KernelIdeal.τ Cert.KernelIdeal.sig) → Buf (Elt Ideal) ℓ) (c : Dev Cert.KernelIdeal.nD) : (⟨Cert.KernelIdeal.S256x64, .f32⟩ : BufTy).Contents (Elt Ideal) :=
  Cert.KernelIdeal.Hand.U0 m c Cert.KernelIdeal.main_arg17
abbrev rArg18 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg18)
abbrev kArg18 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg18
abbrev rArg19 (m' : (ℓ : Loc Cert.ReferenceIdeal.nD Cert.ReferenceIdeal.τ Cert.ReferenceIdeal.sig) → Buf (Elt Ideal) ℓ) (c : Dev Cert.KernelIdeal.nD) : (⟨Cert.ReferenceIdeal.S192x64, .f32⟩ : BufTy).Contents (Elt Ideal) :=
  launchContents m' c (Proc.devRef .tc Cert.ReferenceIdeal.main_arg19)
abbrev kArg19 (m : (ℓ : Loc Cert.KernelIdeal.nD Cert.KernelIdeal.τ Cert.KernelIdeal.sig) → Buf (Elt Ideal) ℓ) (c : Dev Cert.KernelIdeal.nD) : (⟨Cert.KernelIdeal.S192x64, .f32⟩ : BufTy).Contents (Elt Ideal) :=
  Cert.KernelIdeal.Hand.U0 m c Cert.KernelIdeal.main_arg19
abbrev rArg20 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg20)
abbrev kArg20 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg20
abbrev rArg21 (m' : (ℓ : Loc Cert.ReferenceIdeal.nD Cert.ReferenceIdeal.τ Cert.ReferenceIdeal.sig) → Buf (Elt Ideal) ℓ) (c : Dev Cert.KernelIdeal.nD) : (⟨Cert.ReferenceIdeal.S128x64, .f32⟩ : BufTy).Contents (Elt Ideal) :=
  launchContents m' c (Proc.devRef .tc Cert.ReferenceIdeal.main_arg21)
abbrev kArg21 (m : (ℓ : Loc Cert.KernelIdeal.nD Cert.KernelIdeal.τ Cert.KernelIdeal.sig) → Buf (Elt Ideal) ℓ) (c : Dev Cert.KernelIdeal.nD) : (⟨Cert.KernelIdeal.S128x64, .f32⟩ : BufTy).Contents (Elt Ideal) :=
  Cert.KernelIdeal.Hand.U0 m c Cert.KernelIdeal.main_arg21
abbrev rArg22 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg22)
abbrev kArg22 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg22
abbrev rArg23 (m' : (ℓ : Loc Cert.ReferenceIdeal.nD Cert.ReferenceIdeal.τ Cert.ReferenceIdeal.sig) → Buf (Elt Ideal) ℓ) (c : Dev Cert.KernelIdeal.nD) : (⟨Cert.ReferenceIdeal.S256x64, .f32⟩ : BufTy).Contents (Elt Ideal) :=
  launchContents m' c (Proc.devRef .tc Cert.ReferenceIdeal.main_arg23)
abbrev kArg23 (m : (ℓ : Loc Cert.KernelIdeal.nD Cert.KernelIdeal.τ Cert.KernelIdeal.sig) → Buf (Elt Ideal) ℓ) (c : Dev Cert.KernelIdeal.nD) : (⟨Cert.KernelIdeal.S256x64, .f32⟩ : BufTy).Contents (Elt Ideal) :=
  Cert.KernelIdeal.Hand.U0 m c Cert.KernelIdeal.main_arg23
abbrev rArg24 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg24)
abbrev kArg24 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg24
abbrev rArg25 (m' : (ℓ : Loc Cert.ReferenceIdeal.nD Cert.ReferenceIdeal.τ Cert.ReferenceIdeal.sig) → Buf (Elt Ideal) ℓ) (c : Dev Cert.KernelIdeal.nD) : (⟨Cert.ReferenceIdeal.S192x64, .f32⟩ : BufTy).Contents (Elt Ideal) :=
  launchContents m' c (Proc.devRef .tc Cert.ReferenceIdeal.main_arg25)
abbrev kArg25 (m : (ℓ : Loc Cert.KernelIdeal.nD Cert.KernelIdeal.τ Cert.KernelIdeal.sig) → Buf (Elt Ideal) ℓ) (c : Dev Cert.KernelIdeal.nD) : (⟨Cert.KernelIdeal.S192x64, .f32⟩ : BufTy).Contents (Elt Ideal) :=
  Cert.KernelIdeal.Hand.U0 m c Cert.KernelIdeal.main_arg25
abbrev rArg26 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg26)
abbrev kArg26 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg26
abbrev rArg27 (m' : (ℓ : Loc Cert.ReferenceIdeal.nD Cert.ReferenceIdeal.τ Cert.ReferenceIdeal.sig) → Buf (Elt Ideal) ℓ) (c : Dev Cert.KernelIdeal.nD) : (⟨Cert.ReferenceIdeal.S128x64, .f32⟩ : BufTy).Contents (Elt Ideal) :=
  launchContents m' c (Proc.devRef .tc Cert.ReferenceIdeal.main_arg27)
abbrev kArg27 (m : (ℓ : Loc Cert.KernelIdeal.nD Cert.KernelIdeal.τ Cert.KernelIdeal.sig) → Buf (Elt Ideal) ℓ) (c : Dev Cert.KernelIdeal.nD) : (⟨Cert.KernelIdeal.S128x64, .f32⟩ : BufTy).Contents (Elt Ideal) :=
  Cert.KernelIdeal.Hand.U0 m c Cert.KernelIdeal.main_arg27
abbrev rArg28 (m' : (ℓ : Loc Cert.ReferenceIdeal.nD Cert.ReferenceIdeal.τ Cert.ReferenceIdeal.sig) → Buf (Elt Ideal) ℓ) (c : Dev Cert.KernelIdeal.nD) : (⟨Cert.ReferenceIdeal.S64, .f32⟩ : BufTy).Contents (Elt Ideal) :=
  launchContents m' c (Proc.devRef .tc Cert.ReferenceIdeal.main_arg28)
abbrev kArg28 (m : (ℓ : Loc Cert.KernelIdeal.nD Cert.KernelIdeal.τ Cert.KernelIdeal.sig) → Buf (Elt Ideal) ℓ) (c : Dev Cert.KernelIdeal.nD) : (⟨Cert.KernelIdeal.S64, .f32⟩ : BufTy).Contents (Elt Ideal) :=
  Cert.KernelIdeal.Hand.U0 m c Cert.KernelIdeal.main_arg28

/-! ## The three normalised inputs -/

abbrev rBnX (m' : (ℓ : Loc Cert.ReferenceIdeal.nD Cert.ReferenceIdeal.τ Cert.ReferenceIdeal.sig) → Buf (Elt Ideal) ℓ) (c : Dev Cert.KernelIdeal.nD) : (⟨Cert.ReferenceIdeal.S30000x64, .f32⟩ : BufTy).Contents (Elt Ideal) :=
  after (Cert.ReferenceIdeal.Hand.ops (F := Ideal)) (launchContents m' c) (Proc.devRef .tc Cert.ReferenceIdeal.main_v22)
abbrev kBnX (m : (ℓ : Loc Cert.KernelIdeal.nD Cert.KernelIdeal.τ Cert.KernelIdeal.sig) → Buf (Elt Ideal) ℓ) (c : Dev Cert.KernelIdeal.nD) : (⟨Cert.KernelIdeal.S30000x64, .f32⟩ : BufTy).Contents (Elt Ideal) :=
  Cert.KernelIdeal.Hand.U4 m c Cert.KernelIdeal.main_v15
abbrev rBnE (m' : (ℓ : Loc Cert.ReferenceIdeal.nD Cert.ReferenceIdeal.τ Cert.ReferenceIdeal.sig) → Buf (Elt Ideal) ℓ) (c : Dev Cert.KernelIdeal.nD) : (⟨Cert.ReferenceIdeal.S300000x32, .f32⟩ : BufTy).Contents (Elt Ideal) :=
  after (Cert.ReferenceIdeal.Hand.ops (F := Ideal)) (launchContents m' c) (Proc.devRef .tc Cert.ReferenceIdeal.main_v41)
abbrev kBnE (m : (ℓ : Loc Cert.KernelIdeal.nD Cert.KernelIdeal.τ Cert.KernelIdeal.sig) → Buf (Elt Ideal) ℓ) (c : Dev Cert.KernelIdeal.nD) : (⟨Cert.KernelIdeal.S300000x32, .f32⟩ : BufTy).Contents (Elt Ideal) :=
  Cert.KernelIdeal.Hand.U7 m c Cert.KernelIdeal.main_v27
abbrev rBnU (m' : (ℓ : Loc Cert.ReferenceIdeal.nD Cert.ReferenceIdeal.τ Cert.ReferenceIdeal.sig) → Buf (Elt Ideal) ℓ) (c : Dev Cert.KernelIdeal.nD) : (⟨Cert.ReferenceIdeal.S64x32, .f32⟩ : BufTy).Contents (Elt Ideal) :=
  after (Cert.ReferenceIdeal.Hand.ops (F := Ideal)) (launchContents m' c) (Proc.devRef .tc Cert.ReferenceIdeal.main_v60)
abbrev kBnU (m : (ℓ : Loc Cert.KernelIdeal.nD Cert.KernelIdeal.τ Cert.KernelIdeal.sig) → Buf (Elt Ideal) ℓ) (c : Dev Cert.KernelIdeal.nD) : (⟨Cert.KernelIdeal.S64x32, .f32⟩ : BufTy).Contents (Elt Ideal) :=
  Cert.KernelIdeal.Hand.U10 m c Cert.KernelIdeal.main_v39

/-! ## The nine dense layers' outputs -/

abbrev rL6 (m' : (ℓ : Loc Cert.ReferenceIdeal.nD Cert.ReferenceIdeal.τ Cert.ReferenceIdeal.sig) → Buf (Elt Ideal) ℓ) (c : Dev Cert.KernelIdeal.nD) : (⟨Cert.ReferenceIdeal.S300000x64, .f32⟩ : BufTy).Contents (Elt Ideal) :=
  after (Cert.ReferenceIdeal.Hand.ops (F := Ideal)) (launchContents m' c) (Proc.devRef .tc Cert.ReferenceIdeal.main_v94)
abbrev kL6 (m : (ℓ : Loc Cert.KernelIdeal.nD Cert.KernelIdeal.τ Cert.KernelIdeal.sig) → Buf (Elt Ideal) ℓ) (c : Dev Cert.KernelIdeal.nD) : (⟨Cert.KernelIdeal.S300000x64, .f32⟩ : BufTy).Contents (Elt Ideal) :=
  Cert.KernelIdeal.Hand.U12 m c Cert.KernelIdeal.main_v73
abbrev rL7 (m' : (ℓ : Loc Cert.ReferenceIdeal.nD Cert.ReferenceIdeal.τ Cert.ReferenceIdeal.sig) → Buf (Elt Ideal) ℓ) (c : Dev Cert.KernelIdeal.nD) : (⟨Cert.ReferenceIdeal.S30000x64, .f32⟩ : BufTy).Contents (Elt Ideal) :=
  after (Cert.ReferenceIdeal.Hand.ops (F := Ideal)) (launchContents m' c) (Proc.devRef .tc Cert.ReferenceIdeal.main_v118)
abbrev kL7 (m : (ℓ : Loc Cert.KernelIdeal.nD Cert.KernelIdeal.τ Cert.KernelIdeal.sig) → Buf (Elt Ideal) ℓ) (c : Dev Cert.KernelIdeal.nD) : (⟨Cert.KernelIdeal.S30000x64, .f32⟩ : BufTy).Contents (Elt Ideal) :=
  Cert.KernelIdeal.Hand.U14 m c Cert.KernelIdeal.main_v96
abbrev rL8 (m' : (ℓ : Loc Cert.ReferenceIdeal.nD Cert.ReferenceIdeal.τ Cert.ReferenceIdeal.sig) → Buf (Elt Ideal) ℓ) (c : Dev Cert.KernelIdeal.nD) : (⟨Cert.ReferenceIdeal.S64x64, .f32⟩ : BufTy).Contents (Elt Ideal) :=
  after (Cert.ReferenceIdeal.Hand.ops (F := Ideal)) (launchContents m' c) (Proc.devRef .tc Cert.ReferenceIdeal.main_v135)
abbrev kL8 (m : (ℓ : Loc Cert.KernelIdeal.nD Cert.KernelIdeal.τ Cert.KernelIdeal.sig) → Buf (Elt Ideal) ℓ) (c : Dev Cert.KernelIdeal.nD) : (⟨Cert.KernelIdeal.S64x64, .f32⟩ : BufTy).Contents (Elt Ideal) :=
  Cert.KernelIdeal.Hand.U16 m c Cert.KernelIdeal.main_v111
abbrev rL9 (m' : (ℓ : Loc Cert.ReferenceIdeal.nD Cert.ReferenceIdeal.τ Cert.ReferenceIdeal.sig) → Buf (Elt Ideal) ℓ) (c : Dev Cert.KernelIdeal.nD) : (⟨Cert.ReferenceIdeal.S300000x64, .f32⟩ : BufTy).Contents (Elt Ideal) :=
  after (Cert.ReferenceIdeal.Hand.ops (F := Ideal)) (launchContents m' c) (Proc.devRef .tc Cert.ReferenceIdeal.main_v169)
abbrev kL9 (m : (ℓ : Loc Cert.KernelIdeal.nD Cert.KernelIdeal.τ Cert.KernelIdeal.sig) → Buf (Elt Ideal) ℓ) (c : Dev Cert.KernelIdeal.nD) : (⟨Cert.KernelIdeal.S300000x64, .f32⟩ : BufTy).Contents (Elt Ideal) :=
  Cert.KernelIdeal.Hand.U18 m c Cert.KernelIdeal.main_v145
abbrev rL10 (m' : (ℓ : Loc Cert.ReferenceIdeal.nD Cert.ReferenceIdeal.τ Cert.ReferenceIdeal.sig) → Buf (Elt Ideal) ℓ) (c : Dev Cert.KernelIdeal.nD) : (⟨Cert.ReferenceIdeal.S30000x64, .f32⟩ : BufTy).Contents (Elt Ideal) :=
  after (Cert.ReferenceIdeal.Hand.ops (F := Ideal)) (launchContents m' c) (Proc.devRef .tc Cert.ReferenceIdeal.main_v193)
abbrev kL10 (m : (ℓ : Loc Cert.KernelIdeal.nD Cert.KernelIdeal.τ Cert.KernelIdeal.sig) → Buf (Elt Ideal) ℓ) (c : Dev Cert.KernelIdeal.nD) : (⟨Cert.KernelIdeal.S30000x64, .f32⟩ : BufTy).Contents (Elt Ideal) :=
  Cert.KernelIdeal.Hand.U20 m c Cert.KernelIdeal.main_v168
abbrev rL11 (m' : (ℓ : Loc Cert.ReferenceIdeal.nD Cert.ReferenceIdeal.τ Cert.ReferenceIdeal.sig) → Buf (Elt Ideal) ℓ) (c : Dev Cert.KernelIdeal.nD) : (⟨Cert.ReferenceIdeal.S64x64, .f32⟩ : BufTy).Contents (Elt Ideal) :=
  after (Cert.ReferenceIdeal.Hand.ops (F := Ideal)) (launchContents m' c) (Proc.devRef .tc Cert.ReferenceIdeal.main_v210)
abbrev kL11 (m : (ℓ : Loc Cert.KernelIdeal.nD Cert.KernelIdeal.τ Cert.KernelIdeal.sig) → Buf (Elt Ideal) ℓ) (c : Dev Cert.KernelIdeal.nD) : (⟨Cert.KernelIdeal.S64x64, .f32⟩ : BufTy).Contents (Elt Ideal) :=
  Cert.KernelIdeal.Hand.U22 m c Cert.KernelIdeal.main_v183
abbrev rL12 (m' : (ℓ : Loc Cert.ReferenceIdeal.nD Cert.ReferenceIdeal.τ Cert.ReferenceIdeal.sig) → Buf (Elt Ideal) ℓ) (c : Dev Cert.KernelIdeal.nD) : (⟨Cert.ReferenceIdeal.S300000x64, .f32⟩ : BufTy).Contents (Elt Ideal) :=
  after (Cert.ReferenceIdeal.Hand.ops (F := Ideal)) (launchContents m' c) (Proc.devRef .tc Cert.ReferenceIdeal.main_v244)
abbrev kL12 (m : (ℓ : Loc Cert.KernelIdeal.nD Cert.KernelIdeal.τ Cert.KernelIdeal.sig) → Buf (Elt Ideal) ℓ) (c : Dev Cert.KernelIdeal.nD) : (⟨Cert.KernelIdeal.S300000x64, .f32⟩ : BufTy).Contents (Elt Ideal) :=
  Cert.KernelIdeal.Hand.U24 m c Cert.KernelIdeal.main_v217
abbrev rL13 (m' : (ℓ : Loc Cert.ReferenceIdeal.nD Cert.ReferenceIdeal.τ Cert.ReferenceIdeal.sig) → Buf (Elt Ideal) ℓ) (c : Dev Cert.KernelIdeal.nD) : (⟨Cert.ReferenceIdeal.S30000x64, .f32⟩ : BufTy).Contents (Elt Ideal) :=
  after (Cert.ReferenceIdeal.Hand.ops (F := Ideal)) (launchContents m' c) (Proc.devRef .tc Cert.ReferenceIdeal.main_v268)
abbrev kL13 (m : (ℓ : Loc Cert.KernelIdeal.nD Cert.KernelIdeal.τ Cert.KernelIdeal.sig) → Buf (Elt Ideal) ℓ) (c : Dev Cert.KernelIdeal.nD) : (⟨Cert.KernelIdeal.S30000x64, .f32⟩ : BufTy).Contents (Elt Ideal) :=
  Cert.KernelIdeal.Hand.U26 m c Cert.KernelIdeal.main_v240
abbrev rL14 (m' : (ℓ : Loc Cert.ReferenceIdeal.nD Cert.ReferenceIdeal.τ Cert.ReferenceIdeal.sig) → Buf (Elt Ideal) ℓ) (c : Dev Cert.KernelIdeal.nD) : (⟨Cert.ReferenceIdeal.S64x64, .f32⟩ : BufTy).Contents (Elt Ideal) :=
  after (Cert.ReferenceIdeal.Hand.ops (F := Ideal)) (launchContents m' c) (Proc.devRef .tc Cert.ReferenceIdeal.main_v285)
abbrev kL14 (m : (ℓ : Loc Cert.KernelIdeal.nD Cert.KernelIdeal.τ Cert.KernelIdeal.sig) → Buf (Elt Ideal) ℓ) (c : Dev Cert.KernelIdeal.nD) : (⟨Cert.KernelIdeal.S64x64, .f32⟩ : BufTy).Contents (Elt Ideal) :=
  Cert.KernelIdeal.Hand.U28 m c Cert.KernelIdeal.main_v255

end Cert.Proof.Bridge

end
-- ==== Proof.Bridge.Args.lean ====
/-
  The two programs are launched on equal arguments: each argument of the reference holds at launch what the kernel
  program's holds, by the agreement hypothesis stated between the plain names.
-/
import proofs.«123839_j71768903516633_2_alg».proof.Proof.Bridge.Names
import Idealize.ShloMosaic.Lib.ValueLayout

set_option maxRecDepth 100000

noncomputable section

namespace Cert.Proof.Bridge

open Idealize.ShloMosaic Idealize.ShloMosaic.TcCoe Idealize.SL.Sem Idealize.ShloMosaic.StableHlo Idealize.ShloMosaic.ValueIdx

variable [Cert.KernelIdeal.Facts] [Cert.ReferenceIdeal.Facts]

/-! ## The agreement of the launch arguments, at the plain names -/

/-- The two launch memories hold equal arguments on every core, each equation between the plain names (the claim's
    hypothesis is this proposition by unfolding the names). -/
def AgreeP (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD, rArg0 m' c = kArg0 m c ∧ rArg1 m' c = kArg1 m c ∧ rArg2 m' c = kArg2 m c ∧ rArg3 m' c = kArg3 m c ∧ rArg4 m' c = kArg4 m c ∧ rArg5 m' c = kArg5 m c ∧ rArg6 m' c = kArg6 m c ∧ rArg7 m' c = kArg7 m c ∧ rArg8 m' c = kArg8 m c ∧ rArg9 m' c = kArg9 m c ∧ rArg10 m' c = kArg10 m c ∧ rArg11 m' c = kArg11 m c ∧ rArg12 m' c = kArg12 m c ∧ rArg13 m' c = kArg13 m c ∧ rArg14 m' c = kArg14 m c ∧ rArg15 m' c = kArg15 m c ∧ rArg16 m' c = kArg16 m c ∧ rArg17 m' c = kArg17 m c ∧ rArg18 m' c = kArg18 m c ∧ rArg19 m' c = kArg19 m c ∧ rArg20 m' c = kArg20 m c ∧ rArg21 m' c = kArg21 m c ∧ rArg22 m' c = kArg22 m c ∧ rArg23 m' c = kArg23 m c ∧ rArg24 m' c = kArg24 m c ∧ rArg25 m' c = kArg25 m c ∧ rArg26 m' c = kArg26 m c ∧ rArg27 m' c = kArg27 m c ∧ rArg28 m' c = kArg28 m c

/-! ## The arguments agree -/

theorem harg0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg0 m' c = kArg0 m c := (hagree c).1
theorem harg1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg1 m' c = kArg1 m c := (hagree c).2.1
theorem harg2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg2 m' c = kArg2 m c := (hagree c).2.2.1
theorem harg3 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg3 m' c = kArg3 m c := (hagree c).2.2.2.1
theorem harg4 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg4 m' c = kArg4 m c := (hagree c).2.2.2.2.1
theorem harg5 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg5 m' c = kArg5 m c := (hagree c).2.2.2.2.2.1
theorem harg6 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg6 m' c = kArg6 m c := (hagree c).2.2.2.2.2.2.1
theorem harg7 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg7 m' c = kArg7 m c := (hagree c).2.2.2.2.2.2.2.1
theorem harg8 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg8 m' c = kArg8 m c := (hagree c).2.2.2.2.2.2.2.2.1
theorem harg9 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg9 m' c = kArg9 m c := (hagree c).2.2.2.2.2.2.2.2.2.1
theorem harg10 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg10 m' c = kArg10 m c := (hagree c).2.2.2.2.2.2.2.2.2.2.1
theorem harg11 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg11 m' c = kArg11 m c := (hagree c).2.2.2.2.2.2.2.2.2.2.2.1
theorem harg12 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg12 m' c = kArg12 m c := (hagree c).2.2.2.2.2.2.2.2.2.2.2.2.1
theorem harg13 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg13 m' c = kArg13 m c := (hagree c).2.2.2.2.2.2.2.2.2.2.2.2.2.1
theorem harg14 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg14 m' c = kArg14 m c := (hagree c).2.2.2.2.2.2.2.2.2.2.2.2.2.2.1
theorem harg15 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg15 m' c = kArg15 m c := (hagree c).2.2.2.2.2.2.2.2.2.2.2.2.2.2.2.1
theorem harg16 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg16 m' c = kArg16 m c := (hagree c).2.2.2.2.2.2.2.2.2.2.2.2.2.2.2.2.1
theorem harg17 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg17 m' c = kArg17 m c := (hagree c).2.2.2.2.2.2.2.2.2.2.2.2.2.2.2.2.2.1
theorem harg18 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg18 m' c = kArg18 m c := (hagree c).2.2.2.2.2.2.2.2.2.2.2.2.2.2.2.2.2.2.1
theorem harg19 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg19 m' c = kArg19 m c := (hagree c).2.2.2.2.2.2.2.2.2.2.2.2.2.2.2.2.2.2.2.1
theorem harg20 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg20 m' c = kArg20 m c := (hagree c).2.2.2.2.2.2.2.2.2.2.2.2.2.2.2.2.2.2.2.2.1
theorem harg21 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg21 m' c = kArg21 m c := (hagree c).2.2.2.2.2.2.2.2.2.2.2.2.2.2.2.2.2.2.2.2.2.1
theorem harg22 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg22 m' c = kArg22 m c := (hagree c).2.2.2.2.2.2.2.2.2.2.2.2.2.2.2.2.2.2.2.2.2.2.1
theorem harg23 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg23 m' c = kArg23 m c := (hagree c).2.2.2.2.2.2.2.2.2.2.2.2.2.2.2.2.2.2.2.2.2.2.2.1
theorem harg24 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg24 m' c = kArg24 m c := (hagree c).2.2.2.2.2.2.2.2.2.2.2.2.2.2.2.2.2.2.2.2.2.2.2.2.1
theorem harg25 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg25 m' c = kArg25 m c := (hagree c).2.2.2.2.2.2.2.2.2.2.2.2.2.2.2.2.2.2.2.2.2.2.2.2.2.1
theorem harg26 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg26 m' c = kArg26 m c := (hagree c).2.2.2.2.2.2.2.2.2.2.2.2.2.2.2.2.2.2.2.2.2.2.2.2.2.2.1
theorem harg27 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg27 m' c = kArg27 m c := (hagree c).2.2.2.2.2.2.2.2.2.2.2.2.2.2.2.2.2.2.2.2.2.2.2.2.2.2.2.1
theorem harg28 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : AgreeP m m') (c : Dev Cert.KernelIdeal.nD) : rArg28 m' c = kArg28 m c := (hagree c).2.2.2.2.2.2.2.2.2.2.2.2.2.2.2.2.2.2.2.2.2.2.2.2.2.2.2.2

end Cert.Proof.Bridge

end
-- ==== Proof.Lib.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.Lib.LibReadFinal.lean ====
/-
  Reading a single-assignment line of host operations at its end, with nothing after it: the buffer the operation at
  position `n` wrote holds that operation's function of what its operands hold at the end.  These are the forms of the
  single-assignment reading lemmas for a line followed by nothing, stated directly over `after l U` so that a line
  named by a definition is matched by name and never unfolded.
-/
import proofs.«123839_j71768903516633_2_alg».proof.Proof.Lib.LibSingleAssignment

namespace Cert.Lib.ReadFinal

open Idealize.ShloMosaic Idealize.ShloMosaic.StableHlo Cert.Lib.SingleAssignment

variable {τ : Topo} {sig : RefSig} {Val : EltTy → Type}
variable {l : List (HloOp τ sig Val)} {Wl : List (Ref sig .tc)}

private theorem nm {a : Ref sig .tc} {L : List (Ref sig .tc)} (h : a ∉ L) : a ∉ L ++ ([] : List (Ref sig .tc)) := by
  rw [List.append_nil]; exact h

theorem nullary (hl : Writes l Wl) (n : Nat) {y : Ref sig .tc} {v : y.ty.Contents Val} {hy}
    (hop : l[n]? = some (StableHlo.nullary (τ := τ) y v hy)) (ny : y ∉ Wl.drop (n + 1)) (U : Valuation τ sig Val) :
    after l U (Proc.devRef .tc y) = v :=
  read_nullary (t := []) hl List.Forall₂.nil n hop (nm ny) U

theorem unary (hl : Writes l Wl) (n : Nat) {x y : Ref sig .tc} {f : x.ty.Contents Val → y.ty.Contents Val} {hx hy}
    (hop : l[n]? = some (StableHlo.unary (τ := τ) x y f hx hy)) (nx : x ∉ Wl.drop n) (ny : y ∉ Wl.drop (n + 1))
    (U : Valuation τ sig Val) :
    after l U (Proc.devRef .tc y) = f (after l U (Proc.devRef .tc x)) :=
  read_unary (t := []) hl List.Forall₂.nil n hop (nm nx) (nm ny) U

theorem binary (hl : Writes l Wl) (n : Nat) {a b y : Ref sig .tc}
    {f : a.ty.Contents Val → b.ty.Contents Val → y.ty.Contents Val} {ha hb hy}
    (hop : l[n]? = some (StableHlo.binary (τ := τ) a b y f ha hb hy)) (na : a ∉ Wl.drop n) (nb : b ∉ Wl.drop n)
    (ny : y ∉ Wl.drop (n + 1)) (U : Valuation τ sig Val) :
    after l U (Proc.devRef .tc y) = f (after l U (Proc.devRef .tc a)) (after l U (Proc.devRef .tc b)) :=
  read_binary (t := []) hl List.Forall₂.nil n hop (nm na) (nm nb) (nm ny) U

theorem ternary (hl : Writes l Wl) (n : Nat) {c a b y : Ref sig .tc}
    {f : c.ty.Contents Val → a.ty.Contents Val → b.ty.Contents Val → y.ty.Contents Val} {hc ha hb hy}
    (hop : l[n]? = some (StableHlo.ternary (τ := τ) c a b y f hc ha hb hy)) (nc : c ∉ Wl.drop n) (na : a ∉ Wl.drop n)
    (nb : b ∉ Wl.drop n) (ny : y ∉ Wl.drop (n + 1)) (U : Valuation τ sig Val) :
    after l U (Proc.devRef .tc y)
      = f (after l U (Proc.devRef .tc c)) (after l U (Proc.devRef .tc a)) (after l U (Proc.devRef .tc b)) :=
  read_ternary (t := []) hl List.Forall₂.nil n hop (nm nc) (nm na) (nm nb) (nm ny) U

theorem reshape (hl : Writes l Wl) (n : Nat) {x y : Ref sig .tc} {he hn hx hy}
    (hop : l[n]? = some (StableHlo.reshape (τ := τ) (Val := Val) x y he hn hx hy)) (nx : x ∉ Wl.drop n)
    (ny : y ∉ Wl.drop (n + 1)) (U : Valuation τ sig Val) :
    after l U (Proc.devRef .tc y) = fun i => he ▸ shapeCast y.ty.shape (after l U (Proc.devRef .tc x)) hn i :=
  read_reshape (t := []) hl List.Forall₂.nil n hop (nm nx) (nm ny) U

end Cert.Lib.ReadFinal
-- ==== Proof.KI.Stage.lean ====
/-
  What every buffer holds at each segment boundary of @main, read without running anything: a host operation's result
  buffer holds the operation's function of its operands' contents (every buffer of a stretch is written once), and a
  buffer nobody writes afterwards keeps what it held.  So each buffer a kernel region reads is a closed term in the
  launch arguments and the earlier regions' output arrays.
-/
import proofs.«123839_j71768903516633_2_alg».proof.Proof.KI.Run
import proofs.«123839_j71768903516633_2_alg».proof.Proof.Lib.LibReadFinal

set_option maxRecDepth 16384

noncomputable section

namespace Cert.KernelIdeal.Hand

open Idealize.ShloMosaic Idealize.ShloMosaic.TcCoe
open Idealize.SL.Sem
open Cert.KernelIdeal Cert.KernelIdeal.Gen Cert.Lib.SingleAssignment

variable {F : FTy → Type} [FloatOps F]

theorem congr3 {α β γ δ : Sort _} (f : α → β → γ → δ) {a a' : α} {b b' : β} {c c' : γ} (ha : a = a') (hb : b = b') (hc : c = c') :
    f a b c = f a' b' c' := by subst ha; subst hb; subst hc; rfl

/-! ## One reading lemma per host operation -/

theorem writes0 : Writes (hostOps0 : List (HloOp τ sig (Elt F))) hostOps0_W := by
  unfold hostOps0 hostOps0_W; repeat' constructor
theorem s0_main_v0 (U : Valuation τ sig (Elt F)) : StableHlo.after hostOps0 U (Proc.devRef .tc main_v0) = ((extractStridedSlice S1x300000 ![0, 0] · slices_S2x300000_S1x300000_0_0) : (⟨S2x300000, .i32⟩ : BufTy).Contents (Elt F) → (⟨S1x300000, .i32⟩ : BufTy).Contents (Elt F)) (StableHlo.after hostOps0 U (Proc.devRef .tc main_arg1)) :=
  Cert.Lib.ReadFinal.unary writes0 0 rfl (by decide) (by decide) U
theorem s0_main_v1 (U : Valuation τ sig (Elt F)) : StableHlo.after hostOps0 U (Proc.devRef .tc main_v1) = shapeCast S300000 (StableHlo.after hostOps0 U (Proc.devRef .tc main_v0)) shapeCasts_S1x300000_S300000 :=
  (Cert.Lib.ReadFinal.reshape writes0 1 rfl (by decide) (by decide) U).trans rfl
theorem s0_main_v2 (U : Valuation τ sig (Elt F)) : StableHlo.after hostOps0 U (Proc.devRef .tc main_v2) = ((extractStridedSlice S1x300000 ![1, 0] · slices_S2x300000_S1x300000_1_0) : (⟨S2x300000, .i32⟩ : BufTy).Contents (Elt F) → (⟨S1x300000, .i32⟩ : BufTy).Contents (Elt F)) (StableHlo.after hostOps0 U (Proc.devRef .tc main_arg1)) :=
  Cert.Lib.ReadFinal.unary writes0 2 rfl (by decide) (by decide) U
theorem s0_main_v3 (U : Valuation τ sig (Elt F)) : StableHlo.after hostOps0 U (Proc.devRef .tc main_v3) = shapeCast S300000 (StableHlo.after hostOps0 U (Proc.devRef .tc main_v2)) shapeCasts_S1x300000_S300000 :=
  (Cert.Lib.ReadFinal.reshape writes0 3 rfl (by decide) (by decide) U).trans rfl

theorem writes1 : Writes (hostOps1 : List (HloOp τ sig (Elt F))) hostOps1_W := by
  unfold hostOps1 hostOps1_W; repeat' constructor
theorem s1_main_cst (U : Valuation τ sig (Elt F)) : StableHlo.after hostOps1 U (Proc.devRef .tc main_cst) = (constant (F := F) S_ .f32 0x46EA6000#32) :=
  Cert.Lib.ReadFinal.nullary writes1 0 rfl (by decide) U
theorem s1_main_v5 (U : Valuation τ sig (Elt F)) : StableHlo.after hostOps1 U (Proc.devRef .tc main_v5) = (broadcastInDim S1x64 ![] bcast_S_S1x64 : (⟨S_, .f32⟩ : BufTy).Contents (Elt F) → (⟨S1x64, .f32⟩ : BufTy).Contents (Elt F)) (StableHlo.after hostOps1 U (Proc.devRef .tc main_cst)) :=
  Cert.Lib.ReadFinal.unary writes1 1 rfl (by decide) (by decide) U
theorem s1_main_v6 (U : Valuation τ sig (Elt F)) : StableHlo.after hostOps1 U (Proc.devRef .tc main_v6) = (Host.divf : (⟨S1x64, .f32⟩ : BufTy).Contents (Elt F) → (⟨S1x64, .f32⟩ : BufTy).Contents (Elt F) → (⟨S1x64, .f32⟩ : BufTy).Contents (Elt F)) (StableHlo.after hostOps1 U (Proc.devRef .tc main_v4_0)) (StableHlo.after hostOps1 U (Proc.devRef .tc main_v5)) :=
  Cert.Lib.ReadFinal.binary writes1 2 rfl (by decide) (by decide) (by decide) U
theorem s1_main_cst_0 (U : Valuation τ sig (Elt F)) : StableHlo.after hostOps1 U (Proc.devRef .tc main_cst_0) = (constant (F := F) S_ .f32 0x46EA6000#32) :=
  Cert.Lib.ReadFinal.nullary writes1 3 rfl (by decide) U
theorem s1_main_v7 (U : Valuation τ sig (Elt F)) : StableHlo.after hostOps1 U (Proc.devRef .tc main_v7) = (broadcastInDim S1x64 ![] bcast_S_S1x64 : (⟨S_, .f32⟩ : BufTy).Contents (Elt F) → (⟨S1x64, .f32⟩ : BufTy).Contents (Elt F)) (StableHlo.after hostOps1 U (Proc.devRef .tc main_cst_0)) :=
  Cert.Lib.ReadFinal.unary writes1 4 rfl (by decide) (by decide) U
theorem s1_main_v8 (U : Valuation τ sig (Elt F)) : StableHlo.after hostOps1 U (Proc.devRef .tc main_v8) = (Host.divf : (⟨S1x64, .f32⟩ : BufTy).Contents (Elt F) → (⟨S1x64, .f32⟩ : BufTy).Contents (Elt F) → (⟨S1x64, .f32⟩ : BufTy).Contents (Elt F)) (StableHlo.after hostOps1 U (Proc.devRef .tc main_v4_1)) (StableHlo.after hostOps1 U (Proc.devRef .tc main_v7)) :=
  Cert.Lib.ReadFinal.binary writes1 5 rfl (by decide) (by decide) (by decide) U
theorem s1_main_v9 (U : Valuation τ sig (Elt F)) : StableHlo.after hostOps1 U (Proc.devRef .tc main_v9) = (mulf : (⟨S1x64, .f32⟩ : BufTy).Contents (Elt F) → (⟨S1x64, .f32⟩ : BufTy).Contents (Elt F) → (⟨S1x64, .f32⟩ : BufTy).Contents (Elt F)) (StableHlo.after hostOps1 U (Proc.devRef .tc main_v6)) (StableHlo.after hostOps1 U (Proc.devRef .tc main_v6)) :=
  Cert.Lib.ReadFinal.binary writes1 6 rfl (by decide) (by decide) (by decide) U
theorem s1_main_v10 (U : Valuation τ sig (Elt F)) : StableHlo.after hostOps1 U (Proc.devRef .tc main_v10) = (subf : (⟨S1x64, .f32⟩ : BufTy).Contents (Elt F) → (⟨S1x64, .f32⟩ : BufTy).Contents (Elt F) → (⟨S1x64, .f32⟩ : BufTy).Contents (Elt F)) (StableHlo.after hostOps1 U (Proc.devRef .tc main_v8)) (StableHlo.after hostOps1 U (Proc.devRef .tc main_v9)) :=
  Cert.Lib.ReadFinal.binary writes1 7 rfl (by decide) (by decide) (by decide) U
theorem s1_main_cst_1 (U : Valuation τ sig (Elt F)) : StableHlo.after hostOps1 U (Proc.devRef .tc main_cst_1) = (constant (F := F) S_ .f32 0x00000000#32) :=
  Cert.Lib.ReadFinal.nullary writes1 8 rfl (by decide) U
theorem s1_main_v11 (U : Valuation τ sig (Elt F)) : StableHlo.after hostOps1 U (Proc.devRef .tc main_v11) = (broadcastInDim S1x64 ![] bcast_S_S1x64 : (⟨S_, .f32⟩ : BufTy).Contents (Elt F) → (⟨S1x64, .f32⟩ : BufTy).Contents (Elt F)) (StableHlo.after hostOps1 U (Proc.devRef .tc main_cst_1)) :=
  Cert.Lib.ReadFinal.unary writes1 9 rfl (by decide) (by decide) U
theorem s1_main_v12 (U : Valuation τ sig (Elt F)) : StableHlo.after hostOps1 U (Proc.devRef .tc main_v12) = (maximumf : (⟨S1x64, .f32⟩ : BufTy).Contents (Elt F) → (⟨S1x64, .f32⟩ : BufTy).Contents (Elt F) → (⟨S1x64, .f32⟩ : BufTy).Contents (Elt F)) (StableHlo.after hostOps1 U (Proc.devRef .tc main_v10)) (StableHlo.after hostOps1 U (Proc.devRef .tc main_v11)) :=
  Cert.Lib.ReadFinal.binary writes1 10 rfl (by decide) (by decide) (by decide) U
theorem s1_main_v13 (U : Valuation τ sig (Elt F)) : StableHlo.after hostOps1 U (Proc.devRef .tc main_v13) = shapeCast S1x64 (StableHlo.after hostOps1 U (Proc.devRef .tc main_arg5)) shapeCasts_S64_S1x64 :=
  (Cert.Lib.ReadFinal.reshape writes1 11 rfl (by decide) (by decide) U).trans rfl
theorem s1_main_v14 (U : Valuation τ sig (Elt F)) : StableHlo.after hostOps1 U (Proc.devRef .tc main_v14) = shapeCast S1x64 (StableHlo.after hostOps1 U (Proc.devRef .tc main_arg6)) shapeCasts_S64_S1x64 :=
  (Cert.Lib.ReadFinal.reshape writes1 12 rfl (by decide) (by decide) U).trans rfl

theorem writes3 : Writes (hostOps3 : List (HloOp τ sig (Elt F))) hostOps3_W := by
  unfold hostOps3 hostOps3_W; repeat' constructor
theorem s3_main_cst_2 (U : Valuation τ sig (Elt F)) : StableHlo.after hostOps3 U (Proc.devRef .tc main_cst_2) = (constant (F := F) S_ .f32 0x48927C00#32) :=
  Cert.Lib.ReadFinal.nullary writes3 0 rfl (by decide) U
theorem s3_main_v17 (U : Valuation τ sig (Elt F)) : StableHlo.after hostOps3 U (Proc.devRef .tc main_v17) = (broadcastInDim S1x32 ![] bcast_S_S1x32 : (⟨S_, .f32⟩ : BufTy).Contents (Elt F) → (⟨S1x32, .f32⟩ : BufTy).Contents (Elt F)) (StableHlo.after hostOps3 U (Proc.devRef .tc main_cst_2)) :=
  Cert.Lib.ReadFinal.unary writes3 1 rfl (by decide) (by decide) U
theorem s3_main_v18 (U : Valuation τ sig (Elt F)) : StableHlo.after hostOps3 U (Proc.devRef .tc main_v18) = (Host.divf : (⟨S1x32, .f32⟩ : BufTy).Contents (Elt F) → (⟨S1x32, .f32⟩ : BufTy).Contents (Elt F) → (⟨S1x32, .f32⟩ : BufTy).Contents (Elt F)) (StableHlo.after hostOps3 U (Proc.devRef .tc main_v16_0)) (StableHlo.after hostOps3 U (Proc.devRef .tc main_v17)) :=
  Cert.Lib.ReadFinal.binary writes3 2 rfl (by decide) (by decide) (by decide) U
theorem s3_main_cst_3 (U : Valuation τ sig (Elt F)) : StableHlo.after hostOps3 U (Proc.devRef .tc main_cst_3) = (constant (F := F) S_ .f32 0x48927C00#32) :=
  Cert.Lib.ReadFinal.nullary writes3 3 rfl (by decide) U
theorem s3_main_v19 (U : Valuation τ sig (Elt F)) : StableHlo.after hostOps3 U (Proc.devRef .tc main_v19) = (broadcastInDim S1x32 ![] bcast_S_S1x32 : (⟨S_, .f32⟩ : BufTy).Contents (Elt F) → (⟨S1x32, .f32⟩ : BufTy).Contents (Elt F)) (StableHlo.after hostOps3 U (Proc.devRef .tc main_cst_3)) :=
  Cert.Lib.ReadFinal.unary writes3 4 rfl (by decide) (by decide) U
theorem s3_main_v20 (U : Valuation τ sig (Elt F)) : StableHlo.after hostOps3 U (Proc.devRef .tc main_v20) = (Host.divf : (⟨S1x32, .f32⟩ : BufTy).Contents (Elt F) → (⟨S1x32, .f32⟩ : BufTy).Contents (Elt F) → (⟨S1x32, .f32⟩ : BufTy).Contents (Elt F)) (StableHlo.after hostOps3 U (Proc.devRef .tc main_v16_1)) (StableHlo.after hostOps3 U (Proc.devRef .tc main_v19)) :=
  Cert.Lib.ReadFinal.binary writes3 5 rfl (by decide) (by decide) (by decide) U
theorem s3_main_v21 (U : Valuation τ sig (Elt F)) : StableHlo.after hostOps3 U (Proc.devRef .tc main_v21) = (mulf : (⟨S1x32, .f32⟩ : BufTy).Contents (Elt F) → (⟨S1x32, .f32⟩ : BufTy).Contents (Elt F) → (⟨S1x32, .f32⟩ : BufTy).Contents (Elt F)) (StableHlo.after hostOps3 U (Proc.devRef .tc main_v18)) (StableHlo.after hostOps3 U (Proc.devRef .tc main_v18)) :=
  Cert.Lib.ReadFinal.binary writes3 6 rfl (by decide) (by decide) (by decide) U
theorem s3_main_v22 (U : Valuation τ sig (Elt F)) : StableHlo.after hostOps3 U (Proc.devRef .tc main_v22) = (subf : (⟨S1x32, .f32⟩ : BufTy).Contents (Elt F) → (⟨S1x32, .f32⟩ : BufTy).Contents (Elt F) → (⟨S1x32, .f32⟩ : BufTy).Contents (Elt F)) (StableHlo.after hostOps3 U (Proc.devRef .tc main_v20)) (StableHlo.after hostOps3 U (Proc.devRef .tc main_v21)) :=
  Cert.Lib.ReadFinal.binary writes3 7 rfl (by decide) (by decide) (by decide) U
theorem s3_main_cst_4 (U : Valuation τ sig (Elt F)) : StableHlo.after hostOps3 U (Proc.devRef .tc main_cst_4) = (constant (F := F) S_ .f32 0x00000000#32) :=
  Cert.Lib.ReadFinal.nullary writes3 8 rfl (by decide) U
theorem s3_main_v23 (U : Valuation τ sig (Elt F)) : StableHlo.after hostOps3 U (Proc.devRef .tc main_v23) = (broadcastInDim S1x32 ![] bcast_S_S1x32 : (⟨S_, .f32⟩ : BufTy).Contents (Elt F) → (⟨S1x32, .f32⟩ : BufTy).Contents (Elt F)) (StableHlo.after hostOps3 U (Proc.devRef .tc main_cst_4)) :=
  Cert.Lib.ReadFinal.unary writes3 9 rfl (by decide) (by decide) U
theorem s3_main_v24 (U : Valuation τ sig (Elt F)) : StableHlo.after hostOps3 U (Proc.devRef .tc main_v24) = (maximumf : (⟨S1x32, .f32⟩ : BufTy).Contents (Elt F) → (⟨S1x32, .f32⟩ : BufTy).Contents (Elt F) → (⟨S1x32, .f32⟩ : BufTy).Contents (Elt F)) (StableHlo.after hostOps3 U (Proc.devRef .tc main_v22)) (StableHlo.after hostOps3 U (Proc.devRef .tc main_v23)) :=
  Cert.Lib.ReadFinal.binary writes3 10 rfl (by decide) (by decide) (by decide) U
theorem s3_main_v25 (U : Valuation τ sig (Elt F)) : StableHlo.after hostOps3 U (Proc.devRef .tc main_v25) = shapeCast S1x32 (StableHlo.after hostOps3 U (Proc.devRef .tc main_arg7)) shapeCasts_S32_S1x32 :=
  (Cert.Lib.ReadFinal.reshape writes3 11 rfl (by decide) (by decide) U).trans rfl
theorem s3_main_v26 (U : Valuation τ sig (Elt F)) : StableHlo.after hostOps3 U (Proc.devRef .tc main_v26) = shapeCast S1x32 (StableHlo.after hostOps3 U (Proc.devRef .tc main_arg8)) shapeCasts_S32_S1x32 :=
  (Cert.Lib.ReadFinal.reshape writes3 12 rfl (by decide) (by decide) U).trans rfl

theorem writes5 : Writes (hostOps5 : List (HloOp τ sig (Elt F))) hostOps5_W := by
  unfold hostOps5 hostOps5_W; repeat' constructor
theorem s5_main_cst_5 (U : Valuation τ sig (Elt F)) : StableHlo.after hostOps5 U (Proc.devRef .tc main_cst_5) = (constant (F := F) S_ .f32 0x42800000#32) :=
  Cert.Lib.ReadFinal.nullary writes5 0 rfl (by decide) U
theorem s5_main_v29 (U : Valuation τ sig (Elt F)) : StableHlo.after hostOps5 U (Proc.devRef .tc main_v29) = (broadcastInDim S1x32 ![] bcast_S_S1x32 : (⟨S_, .f32⟩ : BufTy).Contents (Elt F) → (⟨S1x32, .f32⟩ : BufTy).Contents (Elt F)) (StableHlo.after hostOps5 U (Proc.devRef .tc main_cst_5)) :=
  Cert.Lib.ReadFinal.unary writes5 1 rfl (by decide) (by decide) U
theorem s5_main_v30 (U : Valuation τ sig (Elt F)) : StableHlo.after hostOps5 U (Proc.devRef .tc main_v30) = (Host.divf : (⟨S1x32, .f32⟩ : BufTy).Contents (Elt F) → (⟨S1x32, .f32⟩ : BufTy).Contents (Elt F) → (⟨S1x32, .f32⟩ : BufTy).Contents (Elt F)) (StableHlo.after hostOps5 U (Proc.devRef .tc main_v28_0)) (StableHlo.after hostOps5 U (Proc.devRef .tc main_v29)) :=
  Cert.Lib.ReadFinal.binary writes5 2 rfl (by decide) (by decide) (by decide) U
theorem s5_main_cst_6 (U : Valuation τ sig (Elt F)) : StableHlo.after hostOps5 U (Proc.devRef .tc main_cst_6) = (constant (F := F) S_ .f32 0x42800000#32) :=
  Cert.Lib.ReadFinal.nullary writes5 3 rfl (by decide) U
theorem s5_main_v31 (U : Valuation τ sig (Elt F)) : StableHlo.after hostOps5 U (Proc.devRef .tc main_v31) = (broadcastInDim S1x32 ![] bcast_S_S1x32 : (⟨S_, .f32⟩ : BufTy).Contents (Elt F) → (⟨S1x32, .f32⟩ : BufTy).Contents (Elt F)) (StableHlo.after hostOps5 U (Proc.devRef .tc main_cst_6)) :=
  Cert.Lib.ReadFinal.unary writes5 4 rfl (by decide) (by decide) U
theorem s5_main_v32 (U : Valuation τ sig (Elt F)) : StableHlo.after hostOps5 U (Proc.devRef .tc main_v32) = (Host.divf : (⟨S1x32, .f32⟩ : BufTy).Contents (Elt F) → (⟨S1x32, .f32⟩ : BufTy).Contents (Elt F) → (⟨S1x32, .f32⟩ : BufTy).Contents (Elt F)) (StableHlo.after hostOps5 U (Proc.devRef .tc main_v28_1)) (StableHlo.after hostOps5 U (Proc.devRef .tc main_v31)) :=
  Cert.Lib.ReadFinal.binary writes5 5 rfl (by decide) (by decide) (by decide) U
theorem s5_main_v33 (U : Valuation τ sig (Elt F)) : StableHlo.after hostOps5 U (Proc.devRef .tc main_v33) = (mulf : (⟨S1x32, .f32⟩ : BufTy).Contents (Elt F) → (⟨S1x32, .f32⟩ : BufTy).Contents (Elt F) → (⟨S1x32, .f32⟩ : BufTy).Contents (Elt F)) (StableHlo.after hostOps5 U (Proc.devRef .tc main_v30)) (StableHlo.after hostOps5 U (Proc.devRef .tc main_v30)) :=
  Cert.Lib.ReadFinal.binary writes5 6 rfl (by decide) (by decide) (by decide) U
theorem s5_main_v34 (U : Valuation τ sig (Elt F)) : StableHlo.after hostOps5 U (Proc.devRef .tc main_v34) = (subf : (⟨S1x32, .f32⟩ : BufTy).Contents (Elt F) → (⟨S1x32, .f32⟩ : BufTy).Contents (Elt F) → (⟨S1x32, .f32⟩ : BufTy).Contents (Elt F)) (StableHlo.after hostOps5 U (Proc.devRef .tc main_v32)) (StableHlo.after hostOps5 U (Proc.devRef .tc main_v33)) :=
  Cert.Lib.ReadFinal.binary writes5 7 rfl (by decide) (by decide) (by decide) U
theorem s5_main_cst_7 (U : Valuation τ sig (Elt F)) : StableHlo.after hostOps5 U (Proc.devRef .tc main_cst_7) = (constant (F := F) S_ .f32 0x00000000#32) :=
  Cert.Lib.ReadFinal.nullary writes5 8 rfl (by decide) U
theorem s5_main_v35 (U : Valuation τ sig (Elt F)) : StableHlo.after hostOps5 U (Proc.devRef .tc main_v35) = (broadcastInDim S1x32 ![] bcast_S_S1x32 : (⟨S_, .f32⟩ : BufTy).Contents (Elt F) → (⟨S1x32, .f32⟩ : BufTy).Contents (Elt F)) (StableHlo.after hostOps5 U (Proc.devRef .tc main_cst_7)) :=
  Cert.Lib.ReadFinal.unary writes5 9 rfl (by decide) (by decide) U
theorem s5_main_v36 (U : Valuation τ sig (Elt F)) : StableHlo.after hostOps5 U (Proc.devRef .tc main_v36) = (maximumf : (⟨S1x32, .f32⟩ : BufTy).Contents (Elt F) → (⟨S1x32, .f32⟩ : BufTy).Contents (Elt F) → (⟨S1x32, .f32⟩ : BufTy).Contents (Elt F)) (StableHlo.after hostOps5 U (Proc.devRef .tc main_v34)) (StableHlo.after hostOps5 U (Proc.devRef .tc main_v35)) :=
  Cert.Lib.ReadFinal.binary writes5 10 rfl (by decide) (by decide) (by decide) U
theorem s5_main_v37 (U : Valuation τ sig (Elt F)) : StableHlo.after hostOps5 U (Proc.devRef .tc main_v37) = shapeCast S1x32 (StableHlo.after hostOps5 U (Proc.devRef .tc main_arg9)) shapeCasts_S32_S1x32 :=
  (Cert.Lib.ReadFinal.reshape writes5 11 rfl (by decide) (by decide) U).trans rfl
theorem s5_main_v38 (U : Valuation τ sig (Elt F)) : StableHlo.after hostOps5 U (Proc.devRef .tc main_v38) = shapeCast S1x32 (StableHlo.after hostOps5 U (Proc.devRef .tc main_arg10)) shapeCasts_S32_S1x32 :=
  (Cert.Lib.ReadFinal.reshape writes5 12 rfl (by decide) (by decide) U).trans rfl

theorem writes6 : Writes (hostOps6 : List (HloOp τ sig (Elt F))) hostOps6_W := by
  unfold hostOps6 hostOps6_W; repeat' constructor
theorem s6_main_c (U : Valuation τ sig (Elt F)) : StableHlo.after hostOps6 U (Proc.devRef .tc main_c) = (constantI S_ 32 0#32) :=
  Cert.Lib.ReadFinal.nullary writes6 0 rfl (by decide) U
theorem s6_main_v40 (U : Valuation τ sig (Elt F)) : StableHlo.after hostOps6 U (Proc.devRef .tc main_v40) = (broadcastInDim S300000 ![] bcast_S_S300000 : (⟨S_, .i32⟩ : BufTy).Contents (Elt F) → (⟨S300000, .i32⟩ : BufTy).Contents (Elt F)) (StableHlo.after hostOps6 U (Proc.devRef .tc main_c)) :=
  Cert.Lib.ReadFinal.unary writes6 1 rfl (by decide) (by decide) U
theorem s6_main_v41 (U : Valuation τ sig (Elt F)) : StableHlo.after hostOps6 U (Proc.devRef .tc main_v41) = (cmpi .slt : (⟨S300000, .i32⟩ : BufTy).Contents (Elt F) → (⟨S300000, .i32⟩ : BufTy).Contents (Elt F) → (⟨S300000, .i1⟩ : BufTy).Contents (Elt F)) (StableHlo.after hostOps6 U (Proc.devRef .tc main_v1)) (StableHlo.after hostOps6 U (Proc.devRef .tc main_v40)) :=
  Cert.Lib.ReadFinal.binary writes6 2 rfl (by decide) (by decide) (by decide) U
theorem s6_main_c_8 (U : Valuation τ sig (Elt F)) : StableHlo.after hostOps6 U (Proc.devRef .tc main_c_8) = (constantI S_ 32 30000#32) :=
  Cert.Lib.ReadFinal.nullary writes6 3 rfl (by decide) U
theorem s6_main_v42 (U : Valuation τ sig (Elt F)) : StableHlo.after hostOps6 U (Proc.devRef .tc main_v42) = (broadcastInDim S300000 ![] bcast_S_S300000 : (⟨S_, .i32⟩ : BufTy).Contents (Elt F) → (⟨S300000, .i32⟩ : BufTy).Contents (Elt F)) (StableHlo.after hostOps6 U (Proc.devRef .tc main_c_8)) :=
  Cert.Lib.ReadFinal.unary writes6 4 rfl (by decide) (by decide) U
theorem s6_main_v43 (U : Valuation τ sig (Elt F)) : StableHlo.after hostOps6 U (Proc.devRef .tc main_v43) = (addi : (⟨S300000, .i32⟩ : BufTy).Contents (Elt F) → (⟨S300000, .i32⟩ : BufTy).Contents (Elt F) → (⟨S300000, .i32⟩ : BufTy).Contents (Elt F)) (StableHlo.after hostOps6 U (Proc.devRef .tc main_v1)) (StableHlo.after hostOps6 U (Proc.devRef .tc main_v42)) :=
  Cert.Lib.ReadFinal.binary writes6 5 rfl (by decide) (by decide) (by decide) U
theorem s6_main_v44 (U : Valuation τ sig (Elt F)) : StableHlo.after hostOps6 U (Proc.devRef .tc main_v44) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps6 U (Proc.devRef .tc main_v41)) (StableHlo.after hostOps6 U (Proc.devRef .tc main_v43)) (StableHlo.after hostOps6 U (Proc.devRef .tc main_v1)) :=
  Cert.Lib.ReadFinal.ternary writes6 6 rfl (by decide) (by decide) (by decide) (by decide) U
theorem s6_main_v45 (U : Valuation τ sig (Elt F)) : StableHlo.after hostOps6 U (Proc.devRef .tc main_v45) = (broadcastInDim S300000x1 ![0] bcast_S300000_S300000x1_0 : (⟨S300000, .i32⟩ : BufTy).Contents (Elt F) → (⟨S300000x1, .i32⟩ : BufTy).Contents (Elt F)) (StableHlo.after hostOps6 U (Proc.devRef .tc main_v44)) :=
  Cert.Lib.ReadFinal.unary writes6 7 rfl (by decide) (by decide) U
theorem s6_main_v46 (U : Valuation τ sig (Elt F)) : StableHlo.after hostOps6 U (Proc.devRef .tc main_v46) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (StableHlo.after hostOps6 U (Proc.devRef .tc main_v15)) (StableHlo.after hostOps6 U (Proc.devRef .tc main_v45)) :=
  Cert.Lib.ReadFinal.binary writes6 8 rfl (by decide) (by decide) (by decide) U
theorem s6_main_c_9 (U : Valuation τ sig (Elt F)) : StableHlo.after hostOps6 U (Proc.devRef .tc main_c_9) = (constantI S_ 32 0#32) :=
  Cert.Lib.ReadFinal.nullary writes6 9 rfl (by decide) U
theorem s6_main_v47 (U : Valuation τ sig (Elt F)) : StableHlo.after hostOps6 U (Proc.devRef .tc main_v47) = (broadcastInDim S300000 ![] bcast_S_S300000 : (⟨S_, .i32⟩ : BufTy).Contents (Elt F) → (⟨S300000, .i32⟩ : BufTy).Contents (Elt F)) (StableHlo.after hostOps6 U (Proc.devRef .tc main_c_9)) :=
  Cert.Lib.ReadFinal.unary writes6 10 rfl (by decide) (by decide) U
theorem s6_main_v48 (U : Valuation τ sig (Elt F)) : StableHlo.after hostOps6 U (Proc.devRef .tc main_v48) = (cmpi .slt : (⟨S300000, .i32⟩ : BufTy).Contents (Elt F) → (⟨S300000, .i32⟩ : BufTy).Contents (Elt F) → (⟨S300000, .i1⟩ : BufTy).Contents (Elt F)) (StableHlo.after hostOps6 U (Proc.devRef .tc main_v3)) (StableHlo.after hostOps6 U (Proc.devRef .tc main_v47)) :=
  Cert.Lib.ReadFinal.binary writes6 11 rfl (by decide) (by decide) (by decide) U
theorem s6_main_c_10 (U : Valuation τ sig (Elt F)) : StableHlo.after hostOps6 U (Proc.devRef .tc main_c_10) = (constantI S_ 32 30000#32) :=
  Cert.Lib.ReadFinal.nullary writes6 12 rfl (by decide) U
theorem s6_main_v49 (U : Valuation τ sig (Elt F)) : StableHlo.after hostOps6 U (Proc.devRef .tc main_v49) = (broadcastInDim S300000 ![] bcast_S_S300000 : (⟨S_, .i32⟩ : BufTy).Contents (Elt F) → (⟨S300000, .i32⟩ : BufTy).Contents (Elt F)) (StableHlo.after hostOps6 U (Proc.devRef .tc main_c_10)) :=
  Cert.Lib.ReadFinal.unary writes6 13 rfl (by decide) (by decide) U
theorem s6_main_v50 (U : Valuation τ sig (Elt F)) : StableHlo.after hostOps6 U (Proc.devRef .tc main_v50) = (addi : (⟨S300000, .i32⟩ : BufTy).Contents (Elt F) → (⟨S300000, .i32⟩ : BufTy).Contents (Elt F) → (⟨S300000, .i32⟩ : BufTy).Contents (Elt F)) (StableHlo.after hostOps6 U (Proc.devRef .tc main_v3)) (StableHlo.after hostOps6 U (Proc.devRef .tc main_v49)) :=
  Cert.Lib.ReadFinal.binary writes6 14 rfl (by decide) (by decide) (by decide) U
theorem s6_main_v51 (U : Valuation τ sig (Elt F)) : StableHlo.after hostOps6 U (Proc.devRef .tc main_v51) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps6 U (Proc.devRef .tc main_v48)) (StableHlo.after hostOps6 U (Proc.devRef .tc main_v50)) (StableHlo.after hostOps6 U (Proc.devRef .tc main_v3)) :=
  Cert.Lib.ReadFinal.ternary writes6 15 rfl (by decide) (by decide) (by decide) (by decide) U
theorem s6_main_v52 (U : Valuation τ sig (Elt F)) : StableHlo.after hostOps6 U (Proc.devRef .tc main_v52) = (broadcastInDim S300000x1 ![0] bcast_S300000_S300000x1_0 : (⟨S300000, .i32⟩ : BufTy).Contents (Elt F) → (⟨S300000x1, .i32⟩ : BufTy).Contents (Elt F)) (StableHlo.after hostOps6 U (Proc.devRef .tc main_v51)) :=
  Cert.Lib.ReadFinal.unary writes6 16 rfl (by decide) (by decide) U
theorem s6_main_v53 (U : Valuation τ sig (Elt F)) : StableHlo.after hostOps6 U (Proc.devRef .tc main_v53) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (StableHlo.after hostOps6 U (Proc.devRef .tc main_v15)) (StableHlo.after hostOps6 U (Proc.devRef .tc main_v52)) :=
  Cert.Lib.ReadFinal.binary writes6 17 rfl (by decide) (by decide) (by decide) U
theorem s6_main_c_11 (U : Valuation τ sig (Elt F)) : StableHlo.after hostOps6 U (Proc.devRef .tc main_c_11) = (constantI S_ 32 0#32) :=
  Cert.Lib.ReadFinal.nullary writes6 18 rfl (by decide) U
theorem s6_main_v54 (U : Valuation τ sig (Elt F)) : StableHlo.after hostOps6 U (Proc.devRef .tc main_v54) = (broadcastInDim S300000 ![] bcast_S_S300000 : (⟨S_, .i32⟩ : BufTy).Contents (Elt F) → (⟨S300000, .i32⟩ : BufTy).Contents (Elt F)) (StableHlo.after hostOps6 U (Proc.devRef .tc main_c_11)) :=
  Cert.Lib.ReadFinal.unary writes6 19 rfl (by decide) (by decide) U
theorem s6_main_v55 (U : Valuation τ sig (Elt F)) : StableHlo.after hostOps6 U (Proc.devRef .tc main_v55) = (cmpi .slt : (⟨S300000, .i32⟩ : BufTy).Contents (Elt F) → (⟨S300000, .i32⟩ : BufTy).Contents (Elt F) → (⟨S300000, .i1⟩ : BufTy).Contents (Elt F)) (StableHlo.after hostOps6 U (Proc.devRef .tc main_v1)) (StableHlo.after hostOps6 U (Proc.devRef .tc main_v54)) :=
  Cert.Lib.ReadFinal.binary writes6 20 rfl (by decide) (by decide) (by decide) U
theorem s6_main_c_12 (U : Valuation τ sig (Elt F)) : StableHlo.after hostOps6 U (Proc.devRef .tc main_c_12) = (constantI S_ 32 30000#32) :=
  Cert.Lib.ReadFinal.nullary writes6 21 rfl (by decide) U
theorem s6_main_v56 (U : Valuation τ sig (Elt F)) : StableHlo.after hostOps6 U (Proc.devRef .tc main_v56) = (broadcastInDim S300000 ![] bcast_S_S300000 : (⟨S_, .i32⟩ : BufTy).Contents (Elt F) → (⟨S300000, .i32⟩ : BufTy).Contents (Elt F)) (StableHlo.after hostOps6 U (Proc.devRef .tc main_c_12)) :=
  Cert.Lib.ReadFinal.unary writes6 22 rfl (by decide) (by decide) U
theorem s6_main_v57 (U : Valuation τ sig (Elt F)) : StableHlo.after hostOps6 U (Proc.devRef .tc main_v57) = (addi : (⟨S300000, .i32⟩ : BufTy).Contents (Elt F) → (⟨S300000, .i32⟩ : BufTy).Contents (Elt F) → (⟨S300000, .i32⟩ : BufTy).Contents (Elt F)) (StableHlo.after hostOps6 U (Proc.devRef .tc main_v1)) (StableHlo.after hostOps6 U (Proc.devRef .tc main_v56)) :=
  Cert.Lib.ReadFinal.binary writes6 23 rfl (by decide) (by decide) (by decide) U
theorem s6_main_v58 (U : Valuation τ sig (Elt F)) : StableHlo.after hostOps6 U (Proc.devRef .tc main_v58) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps6 U (Proc.devRef .tc main_v55)) (StableHlo.after hostOps6 U (Proc.devRef .tc main_v57)) (StableHlo.after hostOps6 U (Proc.devRef .tc main_v1)) :=
  Cert.Lib.ReadFinal.ternary writes6 24 rfl (by decide) (by decide) (by decide) (by decide) U
theorem s6_main_v59 (U : Valuation τ sig (Elt F)) : StableHlo.after hostOps6 U (Proc.devRef .tc main_v59) = (broadcastInDim S300000x1 ![0] bcast_S300000_S300000x1_0 : (⟨S300000, .i32⟩ : BufTy).Contents (Elt F) → (⟨S300000x1, .i32⟩ : BufTy).Contents (Elt F)) (StableHlo.after hostOps6 U (Proc.devRef .tc main_v58)) :=
  Cert.Lib.ReadFinal.unary writes6 25 rfl (by decide) (by decide) U
theorem s6_main_v60 (U : Valuation τ sig (Elt F)) : StableHlo.after hostOps6 U (Proc.devRef .tc main_v60) = ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (StableHlo.after hostOps6 U (Proc.devRef .tc main_arg4)) (StableHlo.after hostOps6 U (Proc.devRef .tc main_v59)) :=
  Cert.Lib.ReadFinal.binary writes6 26 rfl (by decide) (by decide) (by decide) U
theorem s6_main_c_13 (U : Valuation τ sig (Elt F)) : StableHlo.after hostOps6 U (Proc.devRef .tc main_c_13) = (constantI S_ 32 0#32) :=
  Cert.Lib.ReadFinal.nullary writes6 27 rfl (by decide) U
theorem s6_main_v61 (U : Valuation τ sig (Elt F)) : StableHlo.after hostOps6 U (Proc.devRef .tc main_v61) = (broadcastInDim S300000 ![] bcast_S_S300000 : (⟨S_, .i32⟩ : BufTy).Contents (Elt F) → (⟨S300000, .i32⟩ : BufTy).Contents (Elt F)) (StableHlo.after hostOps6 U (Proc.devRef .tc main_c_13)) :=
  Cert.Lib.ReadFinal.unary writes6 28 rfl (by decide) (by decide) U
theorem s6_main_v62 (U : Valuation τ sig (Elt F)) : StableHlo.after hostOps6 U (Proc.devRef .tc main_v62) = (cmpi .slt : (⟨S300000, .i32⟩ : BufTy).Contents (Elt F) → (⟨S300000, .i32⟩ : BufTy).Contents (Elt F) → (⟨S300000, .i1⟩ : BufTy).Contents (Elt F)) (StableHlo.after hostOps6 U (Proc.devRef .tc main_v60)) (StableHlo.after hostOps6 U (Proc.devRef .tc main_v61)) :=
  Cert.Lib.ReadFinal.binary writes6 29 rfl (by decide) (by decide) (by decide) U
theorem s6_main_c_14 (U : Valuation τ sig (Elt F)) : StableHlo.after hostOps6 U (Proc.devRef .tc main_c_14) = (constantI S_ 32 64#32) :=
  Cert.Lib.ReadFinal.nullary writes6 30 rfl (by decide) U
theorem s6_main_v63 (U : Valuation τ sig (Elt F)) : StableHlo.after hostOps6 U (Proc.devRef .tc main_v63) = (broadcastInDim S300000 ![] bcast_S_S300000 : (⟨S_, .i32⟩ : BufTy).Contents (Elt F) → (⟨S300000, .i32⟩ : BufTy).Contents (Elt F)) (StableHlo.after hostOps6 U (Proc.devRef .tc main_c_14)) :=
  Cert.Lib.ReadFinal.unary writes6 31 rfl (by decide) (by decide) U
theorem s6_main_v64 (U : Valuation τ sig (Elt F)) : StableHlo.after hostOps6 U (Proc.devRef .tc main_v64) = (addi : (⟨S300000, .i32⟩ : BufTy).Contents (Elt F) → (⟨S300000, .i32⟩ : BufTy).Contents (Elt F) → (⟨S300000, .i32⟩ : BufTy).Contents (Elt F)) (StableHlo.after hostOps6 U (Proc.devRef .tc main_v60)) (StableHlo.after hostOps6 U (Proc.devRef .tc main_v63)) :=
  Cert.Lib.ReadFinal.binary writes6 32 rfl (by decide) (by decide) (by decide) U
theorem s6_main_v65 (U : Valuation τ sig (Elt F)) : StableHlo.after hostOps6 U (Proc.devRef .tc main_v65) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps6 U (Proc.devRef .tc main_v62)) (StableHlo.after hostOps6 U (Proc.devRef .tc main_v64)) (StableHlo.after hostOps6 U (Proc.devRef .tc main_v60)) :=
  Cert.Lib.ReadFinal.ternary writes6 33 rfl (by decide) (by decide) (by decide) (by decide) U
theorem s6_main_v66 (U : Valuation τ sig (Elt F)) : StableHlo.after hostOps6 U (Proc.devRef .tc main_v66) = (broadcastInDim S300000x1 ![0] bcast_S300000_S300000x1_0 : (⟨S300000, .i32⟩ : BufTy).Contents (Elt F) → (⟨S300000x1, .i32⟩ : BufTy).Contents (Elt F)) (StableHlo.after hostOps6 U (Proc.devRef .tc main_v65)) :=
  Cert.Lib.ReadFinal.unary writes6 34 rfl (by decide) (by decide) U
theorem s6_main_v67 (U : Valuation τ sig (Elt F)) : StableHlo.after hostOps6 U (Proc.devRef .tc main_v67) = ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (StableHlo.after hostOps6 U (Proc.devRef .tc main_v39)) (StableHlo.after hostOps6 U (Proc.devRef .tc main_v66)) :=
  Cert.Lib.ReadFinal.binary writes6 35 rfl (by decide) (by decide) (by decide) U
theorem s6_main_v68 (U : Valuation τ sig (Elt F)) : StableHlo.after hostOps6 U (Proc.devRef .tc main_v68) = ((extractStridedSlice S64x64 ![0, 0] · slices_S192x64_S64x64_0_0) : (⟨S192x64, .f32⟩ : BufTy).Contents (Elt F) → (⟨S64x64, .f32⟩ : BufTy).Contents (Elt F)) (StableHlo.after hostOps6 U (Proc.devRef .tc main_arg11)) :=
  Cert.Lib.ReadFinal.unary writes6 36 rfl (by decide) (by decide) U
theorem s6_main_v69 (U : Valuation τ sig (Elt F)) : StableHlo.after hostOps6 U (Proc.devRef .tc main_v69) = ((extractStridedSlice S64x64 ![64, 0] · slices_S192x64_S64x64_64_0) : (⟨S192x64, .f32⟩ : BufTy).Contents (Elt F) → (⟨S64x64, .f32⟩ : BufTy).Contents (Elt F)) (StableHlo.after hostOps6 U (Proc.devRef .tc main_arg11)) :=
  Cert.Lib.ReadFinal.unary writes6 37 rfl (by decide) (by decide) U
theorem s6_main_v70 (U : Valuation τ sig (Elt F)) : StableHlo.after hostOps6 U (Proc.devRef .tc main_v70) = ((extractStridedSlice S32x64 ![128, 0] · slices_S192x64_S32x64_128_0) : (⟨S192x64, .f32⟩ : BufTy).Contents (Elt F) → (⟨S32x64, .f32⟩ : BufTy).Contents (Elt F)) (StableHlo.after hostOps6 U (Proc.devRef .tc main_arg11)) :=
  Cert.Lib.ReadFinal.unary writes6 38 rfl (by decide) (by decide) U
theorem s6_main_v71 (U : Valuation τ sig (Elt F)) : StableHlo.after hostOps6 U (Proc.devRef .tc main_v71) = ((extractStridedSlice S32x64 ![160, 0] · slices_S192x64_S32x64_160_0) : (⟨S192x64, .f32⟩ : BufTy).Contents (Elt F) → (⟨S32x64, .f32⟩ : BufTy).Contents (Elt F)) (StableHlo.after hostOps6 U (Proc.devRef .tc main_arg11)) :=
  Cert.Lib.ReadFinal.unary writes6 39 rfl (by decide) (by decide) U
theorem s6_main_v72 (U : Valuation τ sig (Elt F)) : StableHlo.after hostOps6 U (Proc.devRef .tc main_v72) = shapeCast S1x64 (StableHlo.after hostOps6 U (Proc.devRef .tc main_arg12)) shapeCasts_S64_S1x64 :=
  (Cert.Lib.ReadFinal.reshape writes6 40 rfl (by decide) (by decide) U).trans rfl

theorem writes7 : Writes (hostOps7 : List (HloOp τ sig (Elt F))) hostOps7_W := by
  unfold hostOps7 hostOps7_W; repeat' constructor
theorem s7_main_cst_15 (U : Valuation τ sig (Elt F)) : StableHlo.after hostOps7 U (Proc.devRef .tc main_cst_15) = (constant (F := F) S_ .f32 0x00000000#32) :=
  Cert.Lib.ReadFinal.nullary writes7 0 rfl (by decide) U
theorem s7_main_v74 (U : Valuation τ sig (Elt F)) : StableHlo.after hostOps7 U (Proc.devRef .tc main_v74) = (broadcastInDim S30000x64 ![] bcast_S_S30000x64 : (⟨S_, .f32⟩ : BufTy).Contents (Elt F) → (⟨S30000x64, .f32⟩ : BufTy).Contents (Elt F)) (StableHlo.after hostOps7 U (Proc.devRef .tc main_cst_15)) :=
  Cert.Lib.ReadFinal.unary writes7 1 rfl (by decide) (by decide) U
theorem s7_main_v75 (U : Valuation τ sig (Elt F)) : StableHlo.after hostOps7 U (Proc.devRef .tc main_v75) = (broadcastInDim S300000x1 ![0] bcast_S300000_S300000x1_0 : (⟨S300000, .i32⟩ : BufTy).Contents (Elt F) → (⟨S300000x1, .i32⟩ : BufTy).Contents (Elt F)) (StableHlo.after hostOps7 U (Proc.devRef .tc main_v3)) :=
  Cert.Lib.ReadFinal.unary writes7 2 rfl (by decide) (by decide) U
theorem s7_main_v76 (U : Valuation τ sig (Elt F)) : StableHlo.after hostOps7 U (Proc.devRef .tc main_v76) = ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (StableHlo.after hostOps7 U (Proc.devRef .tc main_v74)) (StableHlo.after hostOps7 U (Proc.devRef .tc main_v75)) (StableHlo.after hostOps7 U (Proc.devRef .tc main_v73)) :=
  Cert.Lib.ReadFinal.ternary writes7 3 rfl (by decide) (by decide) (by decide) (by decide) U
theorem s7_main_cst_16 (U : Valuation τ sig (Elt F)) : StableHlo.after hostOps7 U (Proc.devRef .tc main_cst_16) = (constant (F := F) S_ .f32 0x3F800000#32) :=
  Cert.Lib.ReadFinal.nullary writes7 4 rfl (by decide) U
theorem s7_main_v77 (U : Valuation τ sig (Elt F)) : StableHlo.after hostOps7 U (Proc.devRef .tc main_v77) = (broadcastInDim S300000x1 ![] bcast_S_S300000x1 : (⟨S_, .f32⟩ : BufTy).Contents (Elt F) → (⟨S300000x1, .f32⟩ : BufTy).Contents (Elt F)) (StableHlo.after hostOps7 U (Proc.devRef .tc main_cst_16)) :=
  Cert.Lib.ReadFinal.unary writes7 5 rfl (by decide) (by decide) U
theorem s7_main_cst_17 (U : Valuation τ sig (Elt F)) : StableHlo.after hostOps7 U (Proc.devRef .tc main_cst_17) = (constant (F := F) S_ .f32 0x00000000#32) :=
  Cert.Lib.ReadFinal.nullary writes7 6 rfl (by decide) U
theorem s7_main_v78 (U : Valuation τ sig (Elt F)) : StableHlo.after hostOps7 U (Proc.devRef .tc main_v78) = (broadcastInDim S30000x1 ![] bcast_S_S30000x1 : (⟨S_, .f32⟩ : BufTy).Contents (Elt F) → (⟨S30000x1, .f32⟩ : BufTy).Contents (Elt F)) (StableHlo.after hostOps7 U (Proc.devRef .tc main_cst_17)) :=
  Cert.Lib.ReadFinal.unary writes7 7 rfl (by decide) (by decide) U
theorem s7_main_v79 (U : Valuation τ sig (Elt F)) : StableHlo.after hostOps7 U (Proc.devRef .tc main_v79) = (broadcastInDim S300000x1 ![0] bcast_S300000_S300000x1_0 : (⟨S300000, .i32⟩ : BufTy).Contents (Elt F) → (⟨S300000x1, .i32⟩ : BufTy).Contents (Elt F)) (StableHlo.after hostOps7 U (Proc.devRef .tc main_v3)) :=
  Cert.Lib.ReadFinal.unary writes7 8 rfl (by decide) (by decide) U
theorem s7_main_v80 (U : Valuation τ sig (Elt F)) : StableHlo.after hostOps7 U (Proc.devRef .tc main_v80) = ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (StableHlo.after hostOps7 U (Proc.devRef .tc main_v78)) (StableHlo.after hostOps7 U (Proc.devRef .tc main_v79)) (StableHlo.after hostOps7 U (Proc.devRef .tc main_v77)) :=
  Cert.Lib.ReadFinal.ternary writes7 9 rfl (by decide) (by decide) (by decide) (by decide) U
theorem s7_main_cst_18 (U : Valuation τ sig (Elt F)) : StableHlo.after hostOps7 U (Proc.devRef .tc main_cst_18) = (constant (F := F) S_ .f32 0x3F800000#32) :=
  Cert.Lib.ReadFinal.nullary writes7 10 rfl (by decide) U
theorem s7_main_v81 (U : Valuation τ sig (Elt F)) : StableHlo.after hostOps7 U (Proc.devRef .tc main_v81) = (broadcastInDim S30000x1 ![] bcast_S_S30000x1 : (⟨S_, .f32⟩ : BufTy).Contents (Elt F) → (⟨S30000x1, .f32⟩ : BufTy).Contents (Elt F)) (StableHlo.after hostOps7 U (Proc.devRef .tc main_cst_18)) :=
  Cert.Lib.ReadFinal.unary writes7 11 rfl (by decide) (by decide) U
theorem s7_main_v82 (U : Valuation τ sig (Elt F)) : StableHlo.after hostOps7 U (Proc.devRef .tc main_v82) = (maximumf : (⟨S30000x1, .f32⟩ : BufTy).Contents (Elt F) → (⟨S30000x1, .f32⟩ : BufTy).Contents (Elt F) → (⟨S30000x1, .f32⟩ : BufTy).Contents (Elt F)) (StableHlo.after hostOps7 U (Proc.devRef .tc main_v80)) (StableHlo.after hostOps7 U (Proc.devRef .tc main_v81)) :=
  Cert.Lib.ReadFinal.binary writes7 12 rfl (by decide) (by decide) (by decide) U
theorem s7_main_v83 (U : Valuation τ sig (Elt F)) : StableHlo.after hostOps7 U (Proc.devRef .tc main_v83) = (broadcastInDim S30000x64 ![0, 1] bcast_S30000x1_S30000x64_0_1 : (⟨S30000x1, .f32⟩ : BufTy).Contents (Elt F) → (⟨S30000x64, .f32⟩ : BufTy).Contents (Elt F)) (StableHlo.after hostOps7 U (Proc.devRef .tc main_v82)) :=
  Cert.Lib.ReadFinal.unary writes7 13 rfl (by decide) (by decide) U
theorem s7_main_v84 (U : Valuation τ sig (Elt F)) : StableHlo.after hostOps7 U (Proc.devRef .tc main_v84) = (Host.divf : (⟨S30000x64, .f32⟩ : BufTy).Contents (Elt F) → (⟨S30000x64, .f32⟩ : BufTy).Contents (Elt F) → (⟨S30000x64, .f32⟩ : BufTy).Contents (Elt F)) (StableHlo.after hostOps7 U (Proc.devRef .tc main_v76)) (StableHlo.after hostOps7 U (Proc.devRef .tc main_v83)) :=
  Cert.Lib.ReadFinal.binary writes7 14 rfl (by decide) (by decide) (by decide) U
theorem s7_main_c_19 (U : Valuation τ sig (Elt F)) : StableHlo.after hostOps7 U (Proc.devRef .tc main_c_19) = (constantI S_ 32 0#32) :=
  Cert.Lib.ReadFinal.nullary writes7 15 rfl (by decide) U
theorem s7_main_v85 (U : Valuation τ sig (Elt F)) : StableHlo.after hostOps7 U (Proc.devRef .tc main_v85) = (broadcastInDim S30000 ![] bcast_S_S30000 : (⟨S_, .i32⟩ : BufTy).Contents (Elt F) → (⟨S30000, .i32⟩ : BufTy).Contents (Elt F)) (StableHlo.after hostOps7 U (Proc.devRef .tc main_c_19)) :=
  Cert.Lib.ReadFinal.unary writes7 16 rfl (by decide) (by decide) U
theorem s7_main_v86 (U : Valuation τ sig (Elt F)) : StableHlo.after hostOps7 U (Proc.devRef .tc main_v86) = (cmpi .slt : (⟨S30000, .i32⟩ : BufTy).Contents (Elt F) → (⟨S30000, .i32⟩ : BufTy).Contents (Elt F) → (⟨S30000, .i1⟩ : BufTy).Contents (Elt F)) (StableHlo.after hostOps7 U (Proc.devRef .tc main_arg4)) (StableHlo.after hostOps7 U (Proc.devRef .tc main_v85)) :=
  Cert.Lib.ReadFinal.binary writes7 17 rfl (by decide) (by decide) (by decide) U
theorem s7_main_c_20 (U : Valuation τ sig (Elt F)) : StableHlo.after hostOps7 U (Proc.devRef .tc main_c_20) = (constantI S_ 32 64#32) :=
  Cert.Lib.ReadFinal.nullary writes7 18 rfl (by decide) U
theorem s7_main_v87 (U : Valuation τ sig (Elt F)) : StableHlo.after hostOps7 U (Proc.devRef .tc main_v87) = (broadcastInDim S30000 ![] bcast_S_S30000 : (⟨S_, .i32⟩ : BufTy).Contents (Elt F) → (⟨S30000, .i32⟩ : BufTy).Contents (Elt F)) (StableHlo.after hostOps7 U (Proc.devRef .tc main_c_20)) :=
  Cert.Lib.ReadFinal.unary writes7 19 rfl (by decide) (by decide) U
theorem s7_main_v88 (U : Valuation τ sig (Elt F)) : StableHlo.after hostOps7 U (Proc.devRef .tc main_v88) = (addi : (⟨S30000, .i32⟩ : BufTy).Contents (Elt F) → (⟨S30000, .i32⟩ : BufTy).Contents (Elt F) → (⟨S30000, .i32⟩ : BufTy).Contents (Elt F)) (StableHlo.after hostOps7 U (Proc.devRef .tc main_arg4)) (StableHlo.after hostOps7 U (Proc.devRef .tc main_v87)) :=
  Cert.Lib.ReadFinal.binary writes7 20 rfl (by decide) (by decide) (by decide) U
theorem s7_main_v89 (U : Valuation τ sig (Elt F)) : StableHlo.after hostOps7 U (Proc.devRef .tc main_v89) = (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (StableHlo.after hostOps7 U (Proc.devRef .tc main_v86)) (StableHlo.after hostOps7 U (Proc.devRef .tc main_v88)) (StableHlo.after hostOps7 U (Proc.devRef .tc main_arg4)) :=
  Cert.Lib.ReadFinal.ternary writes7 21 rfl (by decide) (by decide) (by decide) (by decide) U
theorem s7_main_v90 (U : Valuation τ sig (Elt F)) : StableHlo.after hostOps7 U (Proc.devRef .tc main_v90) = (broadcastInDim S30000x1 ![0] bcast_S30000_S30000x1_0 : (⟨S30000, .i32⟩ : BufTy).Contents (Elt F) → (⟨S30000x1, .i32⟩ : BufTy).Contents (Elt F)) (StableHlo.after hostOps7 U (Proc.devRef .tc main_v89)) :=
  Cert.Lib.ReadFinal.unary writes7 22 rfl (by decide) (by decide) U
theorem s7_main_v91 (U : Valuation τ sig (Elt F)) : StableHlo.after hostOps7 U (Proc.devRef .tc main_v91) = ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (StableHlo.after hostOps7 U (Proc.devRef .tc main_v39)) (StableHlo.after hostOps7 U (Proc.devRef .tc main_v90)) :=
  Cert.Lib.ReadFinal.binary writes7 23 rfl (by decide) (by decide) (by decide) U
theorem s7_main_v92 (U : Valuation τ sig (Elt F)) : StableHlo.after hostOps7 U (Proc.devRef .tc main_v92) = ((extractStridedSlice S64x64 ![0, 0] · slices_S160x64_S64x64_0_0) : (⟨S160x64, .f32⟩ : BufTy).Contents (Elt F) → (⟨S64x64, .f32⟩ : BufTy).Contents (Elt F)) (StableHlo.after hostOps7 U (Proc.devRef .tc main_arg13)) :=
  Cert.Lib.ReadFinal.unary writes7 24 rfl (by decide) (by decide) U
theorem s7_main_v93 (U : Valuation τ sig (Elt F)) : StableHlo.after hostOps7 U (Proc.devRef .tc main_v93) = ((extractStridedSlice S64x64 ![64, 0] · slices_S160x64_S64x64_64_0) : (⟨S160x64, .f32⟩ : BufTy).Contents (Elt F) → (⟨S64x64, .f32⟩ : BufTy).Contents (Elt F)) (StableHlo.after hostOps7 U (Proc.devRef .tc main_arg13)) :=
  Cert.Lib.ReadFinal.unary writes7 25 rfl (by decide) (by decide) U
theorem s7_main_v94 (U : Valuation τ sig (Elt F)) : StableHlo.after hostOps7 U (Proc.devRef .tc main_v94) = ((extractStridedSlice S32x64 ![128, 0] · slices_S160x64_S32x64_128_0) : (⟨S160x64, .f32⟩ : BufTy).Contents (Elt F) → (⟨S32x64, .f32⟩ : BufTy).Contents (Elt F)) (StableHlo.after hostOps7 U (Proc.devRef .tc main_arg13)) :=
  Cert.Lib.ReadFinal.unary writes7 26 rfl (by decide) (by decide) U
theorem s7_main_v95 (U : Valuation τ sig (Elt F)) : StableHlo.after hostOps7 U (Proc.devRef .tc main_v95) = shapeCast S1x64 (StableHlo.after hostOps7 U (Proc.devRef .tc main_arg14)) shapeCasts_S64_S1x64 :=
  (Cert.Lib.ReadFinal.reshape writes7 27 rfl (by decide) (by decide) U).trans rfl

theorem writes8 : Writes (hostOps8 : List (HloOp τ sig (Elt F))) hostOps8_W := by
  unfold hostOps8 hostOps8_W; repeat' constructor
theorem s8_main_cst_21 (U : Valuation τ sig (Elt F)) : StableHlo.after hostOps8 U (Proc.devRef .tc main_cst_21) = (constant (F := F) S_ .f32 0x00000000#32) :=
  Cert.Lib.ReadFinal.nullary writes8 0 rfl (by decide) U
theorem s8_main_v97 (U : Valuation τ sig (Elt F)) : StableHlo.after hostOps8 U (Proc.devRef .tc main_v97) = (broadcastInDim S64x64 ![] bcast_S_S64x64 : (⟨S_, .f32⟩ : BufTy).Contents (Elt F) → (⟨S64x64, .f32⟩ : BufTy).Contents (Elt F)) (StableHlo.after hostOps8 U (Proc.devRef .tc main_cst_21)) :=
  Cert.Lib.ReadFinal.unary writes8 1 rfl (by decide) (by decide) U
theorem s8_main_v98 (U : Valuation τ sig (Elt F)) : StableHlo.after hostOps8 U (Proc.devRef .tc main_v98) = (broadcastInDim S30000x1 ![0] bcast_S30000_S30000x1_0 : (⟨S30000, .i32⟩ : BufTy).Contents (Elt F) → (⟨S30000x1, .i32⟩ : BufTy).Contents (Elt F)) (StableHlo.after hostOps8 U (Proc.devRef .tc main_arg4)) :=
  Cert.Lib.ReadFinal.unary writes8 2 rfl (by decide) (by decide) U
theorem s8_main_v99 (U : Valuation τ sig (Elt F)) : StableHlo.after hostOps8 U (Proc.devRef .tc main_v99) = ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (StableHlo.after hostOps8 U (Proc.devRef .tc main_v97)) (StableHlo.after hostOps8 U (Proc.devRef .tc main_v98)) (StableHlo.after hostOps8 U (Proc.devRef .tc main_v96)) :=
  Cert.Lib.ReadFinal.ternary writes8 3 rfl (by decide) (by decide) (by decide) (by decide) U
theorem s8_main_cst_22 (U : Valuation τ sig (Elt F)) : StableHlo.after hostOps8 U (Proc.devRef .tc main_cst_22) = (constant (F := F) S_ .f32 0x3F800000#32) :=
  Cert.Lib.ReadFinal.nullary writes8 4 rfl (by decide) U
theorem s8_main_v100 (U : Valuation τ sig (Elt F)) : StableHlo.after hostOps8 U (Proc.devRef .tc main_v100) = (broadcastInDim S30000x1 ![] bcast_S_S30000x1 : (⟨S_, .f32⟩ : BufTy).Contents (Elt F) → (⟨S30000x1, .f32⟩ : BufTy).Contents (Elt F)) (StableHlo.after hostOps8 U (Proc.devRef .tc main_cst_22)) :=
  Cert.Lib.ReadFinal.unary writes8 5 rfl (by decide) (by decide) U
theorem s8_main_cst_23 (U : Valuation τ sig (Elt F)) : StableHlo.after hostOps8 U (Proc.devRef .tc main_cst_23) = (constant (F := F) S_ .f32 0x00000000#32) :=
  Cert.Lib.ReadFinal.nullary writes8 6 rfl (by decide) U
theorem s8_main_v101 (U : Valuation τ sig (Elt F)) : StableHlo.after hostOps8 U (Proc.devRef .tc main_v101) = (broadcastInDim S64x1 ![] bcast_S_S64x1 : (⟨S_, .f32⟩ : BufTy).Contents (Elt F) → (⟨S64x1, .f32⟩ : BufTy).Contents (Elt F)) (StableHlo.after hostOps8 U (Proc.devRef .tc main_cst_23)) :=
  Cert.Lib.ReadFinal.unary writes8 7 rfl (by decide) (by decide) U
theorem s8_main_v102 (U : Valuation τ sig (Elt F)) : StableHlo.after hostOps8 U (Proc.devRef .tc main_v102) = (broadcastInDim S30000x1 ![0] bcast_S30000_S30000x1_0 : (⟨S30000, .i32⟩ : BufTy).Contents (Elt F) → (⟨S30000x1, .i32⟩ : BufTy).Contents (Elt F)) (StableHlo.after hostOps8 U (Proc.devRef .tc main_arg4)) :=
  Cert.Lib.ReadFinal.unary writes8 8 rfl (by decide) (by decide) U
theorem s8_main_v103 (U : Valuation τ sig (Elt F)) : StableHlo.after hostOps8 U (Proc.devRef .tc main_v103) = ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (StableHlo.after hostOps8 U (Proc.devRef .tc main_v101)) (StableHlo.after hostOps8 U (Proc.devRef .tc main_v102)) (StableHlo.after hostOps8 U (Proc.devRef .tc main_v100)) :=
  Cert.Lib.ReadFinal.ternary writes8 9 rfl (by decide) (by decide) (by decide) (by decide) U
theorem s8_main_cst_24 (U : Valuation τ sig (Elt F)) : StableHlo.after hostOps8 U (Proc.devRef .tc main_cst_24) = (constant (F := F) S_ .f32 0x3F800000#32) :=
  Cert.Lib.ReadFinal.nullary writes8 10 rfl (by decide) U
theorem s8_main_v104 (U : Valuation τ sig (Elt F)) : StableHlo.after hostOps8 U (Proc.devRef .tc main_v104) = (broadcastInDim S64x1 ![] bcast_S_S64x1 : (⟨S_, .f32⟩ : BufTy).Contents (Elt F) → (⟨S64x1, .f32⟩ : BufTy).Contents (Elt F)) (StableHlo.after hostOps8 U (Proc.devRef .tc main_cst_24)) :=
  Cert.Lib.ReadFinal.unary writes8 11 rfl (by decide) (by decide) U
theorem s8_main_v105 (U : Valuation τ sig (Elt F)) : StableHlo.after hostOps8 U (Proc.devRef .tc main_v105) = (maximumf : (⟨S64x1, .f32⟩ : BufTy).Contents (Elt F) → (⟨S64x1, .f32⟩ : BufTy).Contents (Elt F) → (⟨S64x1, .f32⟩ : BufTy).Contents (Elt F)) (StableHlo.after hostOps8 U (Proc.devRef .tc main_v103)) (StableHlo.after hostOps8 U (Proc.devRef .tc main_v104)) :=
  Cert.Lib.ReadFinal.binary writes8 12 rfl (by decide) (by decide) (by decide) U
theorem s8_main_v106 (U : Valuation τ sig (Elt F)) : StableHlo.after hostOps8 U (Proc.devRef .tc main_v106) = (broadcastInDim S64x64 ![0, 1] bcast_S64x1_S64x64_0_1 : (⟨S64x1, .f32⟩ : BufTy).Contents (Elt F) → (⟨S64x64, .f32⟩ : BufTy).Contents (Elt F)) (StableHlo.after hostOps8 U (Proc.devRef .tc main_v105)) :=
  Cert.Lib.ReadFinal.unary writes8 13 rfl (by decide) (by decide) U
theorem s8_main_v107 (U : Valuation τ sig (Elt F)) : StableHlo.after hostOps8 U (Proc.devRef .tc main_v107) = (Host.divf : (⟨S64x64, .f32⟩ : BufTy).Contents (Elt F) → (⟨S64x64, .f32⟩ : BufTy).Contents (Elt F) → (⟨S64x64, .f32⟩ : BufTy).Contents (Elt F)) (StableHlo.after hostOps8 U (Proc.devRef .tc main_v99)) (StableHlo.after hostOps8 U (Proc.devRef .tc main_v106)) :=
  Cert.Lib.ReadFinal.binary writes8 14 rfl (by decide) (by decide) (by decide) U
theorem s8_main_v108 (U : Valuation τ sig (Elt F)) : StableHlo.after hostOps8 U (Proc.devRef .tc main_v108) = ((extractStridedSlice S64x64 ![0, 0] · slices_S96x64_S64x64_0_0) : (⟨S96x64, .f32⟩ : BufTy).Contents (Elt F) → (⟨S64x64, .f32⟩ : BufTy).Contents (Elt F)) (StableHlo.after hostOps8 U (Proc.devRef .tc main_arg15)) :=
  Cert.Lib.ReadFinal.unary writes8 15 rfl (by decide) (by decide) U
theorem s8_main_v109 (U : Valuation τ sig (Elt F)) : StableHlo.after hostOps8 U (Proc.devRef .tc main_v109) = ((extractStridedSlice S32x64 ![64, 0] · slices_S96x64_S32x64_64_0) : (⟨S96x64, .f32⟩ : BufTy).Contents (Elt F) → (⟨S32x64, .f32⟩ : BufTy).Contents (Elt F)) (StableHlo.after hostOps8 U (Proc.devRef .tc main_arg15)) :=
  Cert.Lib.ReadFinal.unary writes8 16 rfl (by decide) (by decide) U
theorem s8_main_v110 (U : Valuation τ sig (Elt F)) : StableHlo.after hostOps8 U (Proc.devRef .tc main_v110) = shapeCast S1x64 (StableHlo.after hostOps8 U (Proc.devRef .tc main_arg16)) shapeCasts_S64_S1x64 :=
  (Cert.Lib.ReadFinal.reshape writes8 17 rfl (by decide) (by decide) U).trans rfl

theorem writes9 : Writes (hostOps9 : List (HloOp τ sig (Elt F))) hostOps9_W := by
  unfold hostOps9 hostOps9_W; repeat' constructor
theorem s9_main_c_25 (U : Valuation τ sig (Elt F)) : StableHlo.after hostOps9 U (Proc.devRef .tc main_c_25) = (constantI S_ 32 0#32) :=
  Cert.Lib.ReadFinal.nullary writes9 0 rfl (by decide) U
theorem s9_main_v112 (U : Valuation τ sig (Elt F)) : StableHlo.after hostOps9 U (Proc.devRef .tc main_v112) = (broadcastInDim S300000 ![] bcast_S_S300000 : (⟨S_, .i32⟩ : BufTy).Contents (Elt F) → (⟨S300000, .i32⟩ : BufTy).Contents (Elt F)) (StableHlo.after hostOps9 U (Proc.devRef .tc main_c_25)) :=
  Cert.Lib.ReadFinal.unary writes9 1 rfl (by decide) (by decide) U
theorem s9_main_v113 (U : Valuation τ sig (Elt F)) : StableHlo.after hostOps9 U (Proc.devRef .tc main_v113) = (cmpi .slt : (⟨S300000, .i32⟩ : BufTy).Contents (Elt F) → (⟨S300000, .i32⟩ : BufTy).Contents (Elt F) → (⟨S300000, .i1⟩ : BufTy).Contents (Elt F)) (StableHlo.after hostOps9 U (Proc.devRef .tc main_v1)) (StableHlo.after hostOps9 U (Proc.devRef .tc main_v112)) :=
  Cert.Lib.ReadFinal.binary writes9 2 rfl (by decide) (by decide) (by decide) U
theorem s9_main_c_26 (U : Valuation τ sig (Elt F)) : StableHlo.after hostOps9 U (Proc.devRef .tc main_c_26) = (constantI S_ 32 30000#32) :=
  Cert.Lib.ReadFinal.nullary writes9 3 rfl (by decide) U
theorem s9_main_v114 (U : Valuation τ sig (Elt F)) : StableHlo.after hostOps9 U (Proc.devRef .tc main_v114) = (broadcastInDim S300000 ![] bcast_S_S300000 : (⟨S_, .i32⟩ : BufTy).Contents (Elt F) → (⟨S300000, .i32⟩ : BufTy).Contents (Elt F)) (StableHlo.after hostOps9 U (Proc.devRef .tc main_c_26)) :=
  Cert.Lib.ReadFinal.unary writes9 4 rfl (by decide) (by decide) U
theorem s9_main_v115 (U : Valuation τ sig (Elt F)) : StableHlo.after hostOps9 U (Proc.devRef .tc main_v115) = (addi : (⟨S300000, .i32⟩ : BufTy).Contents (Elt F) → (⟨S300000, .i32⟩ : BufTy).Contents (Elt F) → (⟨S300000, .i32⟩ : BufTy).Contents (Elt F)) (StableHlo.after hostOps9 U (Proc.devRef .tc main_v1)) (StableHlo.after hostOps9 U (Proc.devRef .tc main_v114)) :=
  Cert.Lib.ReadFinal.binary writes9 5 rfl (by decide) (by decide) (by decide) U
theorem s9_main_v116 (U : Valuation τ sig (Elt F)) : StableHlo.after hostOps9 U (Proc.devRef .tc main_v116) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps9 U (Proc.devRef .tc main_v113)) (StableHlo.after hostOps9 U (Proc.devRef .tc main_v115)) (StableHlo.after hostOps9 U (Proc.devRef .tc main_v1)) :=
  Cert.Lib.ReadFinal.ternary writes9 6 rfl (by decide) (by decide) (by decide) (by decide) U
theorem s9_main_v117 (U : Valuation τ sig (Elt F)) : StableHlo.after hostOps9 U (Proc.devRef .tc main_v117) = (broadcastInDim S300000x1 ![0] bcast_S300000_S300000x1_0 : (⟨S300000, .i32⟩ : BufTy).Contents (Elt F) → (⟨S300000x1, .i32⟩ : BufTy).Contents (Elt F)) (StableHlo.after hostOps9 U (Proc.devRef .tc main_v116)) :=
  Cert.Lib.ReadFinal.unary writes9 7 rfl (by decide) (by decide) U
theorem s9_main_v118 (U : Valuation τ sig (Elt F)) : StableHlo.after hostOps9 U (Proc.devRef .tc main_v118) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (StableHlo.after hostOps9 U (Proc.devRef .tc main_v96)) (StableHlo.after hostOps9 U (Proc.devRef .tc main_v117)) :=
  Cert.Lib.ReadFinal.binary writes9 8 rfl (by decide) (by decide) (by decide) U
theorem s9_main_c_27 (U : Valuation τ sig (Elt F)) : StableHlo.after hostOps9 U (Proc.devRef .tc main_c_27) = (constantI S_ 32 0#32) :=
  Cert.Lib.ReadFinal.nullary writes9 9 rfl (by decide) U
theorem s9_main_v119 (U : Valuation τ sig (Elt F)) : StableHlo.after hostOps9 U (Proc.devRef .tc main_v119) = (broadcastInDim S300000 ![] bcast_S_S300000 : (⟨S_, .i32⟩ : BufTy).Contents (Elt F) → (⟨S300000, .i32⟩ : BufTy).Contents (Elt F)) (StableHlo.after hostOps9 U (Proc.devRef .tc main_c_27)) :=
  Cert.Lib.ReadFinal.unary writes9 10 rfl (by decide) (by decide) U
theorem s9_main_v120 (U : Valuation τ sig (Elt F)) : StableHlo.after hostOps9 U (Proc.devRef .tc main_v120) = (cmpi .slt : (⟨S300000, .i32⟩ : BufTy).Contents (Elt F) → (⟨S300000, .i32⟩ : BufTy).Contents (Elt F) → (⟨S300000, .i1⟩ : BufTy).Contents (Elt F)) (StableHlo.after hostOps9 U (Proc.devRef .tc main_v3)) (StableHlo.after hostOps9 U (Proc.devRef .tc main_v119)) :=
  Cert.Lib.ReadFinal.binary writes9 11 rfl (by decide) (by decide) (by decide) U
theorem s9_main_c_28 (U : Valuation τ sig (Elt F)) : StableHlo.after hostOps9 U (Proc.devRef .tc main_c_28) = (constantI S_ 32 30000#32) :=
  Cert.Lib.ReadFinal.nullary writes9 12 rfl (by decide) U
theorem s9_main_v121 (U : Valuation τ sig (Elt F)) : StableHlo.after hostOps9 U (Proc.devRef .tc main_v121) = (broadcastInDim S300000 ![] bcast_S_S300000 : (⟨S_, .i32⟩ : BufTy).Contents (Elt F) → (⟨S300000, .i32⟩ : BufTy).Contents (Elt F)) (StableHlo.after hostOps9 U (Proc.devRef .tc main_c_28)) :=
  Cert.Lib.ReadFinal.unary writes9 13 rfl (by decide) (by decide) U
theorem s9_main_v122 (U : Valuation τ sig (Elt F)) : StableHlo.after hostOps9 U (Proc.devRef .tc main_v122) = (addi : (⟨S300000, .i32⟩ : BufTy).Contents (Elt F) → (⟨S300000, .i32⟩ : BufTy).Contents (Elt F) → (⟨S300000, .i32⟩ : BufTy).Contents (Elt F)) (StableHlo.after hostOps9 U (Proc.devRef .tc main_v3)) (StableHlo.after hostOps9 U (Proc.devRef .tc main_v121)) :=
  Cert.Lib.ReadFinal.binary writes9 14 rfl (by decide) (by decide) (by decide) U
theorem s9_main_v123 (U : Valuation τ sig (Elt F)) : StableHlo.after hostOps9 U (Proc.devRef .tc main_v123) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps9 U (Proc.devRef .tc main_v120)) (StableHlo.after hostOps9 U (Proc.devRef .tc main_v122)) (StableHlo.after hostOps9 U (Proc.devRef .tc main_v3)) :=
  Cert.Lib.ReadFinal.ternary writes9 15 rfl (by decide) (by decide) (by decide) (by decide) U
theorem s9_main_v124 (U : Valuation τ sig (Elt F)) : StableHlo.after hostOps9 U (Proc.devRef .tc main_v124) = (broadcastInDim S300000x1 ![0] bcast_S300000_S300000x1_0 : (⟨S300000, .i32⟩ : BufTy).Contents (Elt F) → (⟨S300000x1, .i32⟩ : BufTy).Contents (Elt F)) (StableHlo.after hostOps9 U (Proc.devRef .tc main_v123)) :=
  Cert.Lib.ReadFinal.unary writes9 16 rfl (by decide) (by decide) U
theorem s9_main_v125 (U : Valuation τ sig (Elt F)) : StableHlo.after hostOps9 U (Proc.devRef .tc main_v125) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (StableHlo.after hostOps9 U (Proc.devRef .tc main_v96)) (StableHlo.after hostOps9 U (Proc.devRef .tc main_v124)) :=
  Cert.Lib.ReadFinal.binary writes9 17 rfl (by decide) (by decide) (by decide) U
theorem s9_main_c_29 (U : Valuation τ sig (Elt F)) : StableHlo.after hostOps9 U (Proc.devRef .tc main_c_29) = (constantI S_ 32 0#32) :=
  Cert.Lib.ReadFinal.nullary writes9 18 rfl (by decide) U
theorem s9_main_v126 (U : Valuation τ sig (Elt F)) : StableHlo.after hostOps9 U (Proc.devRef .tc main_v126) = (broadcastInDim S300000 ![] bcast_S_S300000 : (⟨S_, .i32⟩ : BufTy).Contents (Elt F) → (⟨S300000, .i32⟩ : BufTy).Contents (Elt F)) (StableHlo.after hostOps9 U (Proc.devRef .tc main_c_29)) :=
  Cert.Lib.ReadFinal.unary writes9 19 rfl (by decide) (by decide) U
theorem s9_main_v127 (U : Valuation τ sig (Elt F)) : StableHlo.after hostOps9 U (Proc.devRef .tc main_v127) = (cmpi .slt : (⟨S300000, .i32⟩ : BufTy).Contents (Elt F) → (⟨S300000, .i32⟩ : BufTy).Contents (Elt F) → (⟨S300000, .i1⟩ : BufTy).Contents (Elt F)) (StableHlo.after hostOps9 U (Proc.devRef .tc main_v1)) (StableHlo.after hostOps9 U (Proc.devRef .tc main_v126)) :=
  Cert.Lib.ReadFinal.binary writes9 20 rfl (by decide) (by decide) (by decide) U
theorem s9_main_c_30 (U : Valuation τ sig (Elt F)) : StableHlo.after hostOps9 U (Proc.devRef .tc main_c_30) = (constantI S_ 32 30000#32) :=
  Cert.Lib.ReadFinal.nullary writes9 21 rfl (by decide) U
theorem s9_main_v128 (U : Valuation τ sig (Elt F)) : StableHlo.after hostOps9 U (Proc.devRef .tc main_v128) = (broadcastInDim S300000 ![] bcast_S_S300000 : (⟨S_, .i32⟩ : BufTy).Contents (Elt F) → (⟨S300000, .i32⟩ : BufTy).Contents (Elt F)) (StableHlo.after hostOps9 U (Proc.devRef .tc main_c_30)) :=
  Cert.Lib.ReadFinal.unary writes9 22 rfl (by decide) (by decide) U
theorem s9_main_v129 (U : Valuation τ sig (Elt F)) : StableHlo.after hostOps9 U (Proc.devRef .tc main_v129) = (addi : (⟨S300000, .i32⟩ : BufTy).Contents (Elt F) → (⟨S300000, .i32⟩ : BufTy).Contents (Elt F) → (⟨S300000, .i32⟩ : BufTy).Contents (Elt F)) (StableHlo.after hostOps9 U (Proc.devRef .tc main_v1)) (StableHlo.after hostOps9 U (Proc.devRef .tc main_v128)) :=
  Cert.Lib.ReadFinal.binary writes9 23 rfl (by decide) (by decide) (by decide) U
theorem s9_main_v130 (U : Valuation τ sig (Elt F)) : StableHlo.after hostOps9 U (Proc.devRef .tc main_v130) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps9 U (Proc.devRef .tc main_v127)) (StableHlo.after hostOps9 U (Proc.devRef .tc main_v129)) (StableHlo.after hostOps9 U (Proc.devRef .tc main_v1)) :=
  Cert.Lib.ReadFinal.ternary writes9 24 rfl (by decide) (by decide) (by decide) (by decide) U
theorem s9_main_v131 (U : Valuation τ sig (Elt F)) : StableHlo.after hostOps9 U (Proc.devRef .tc main_v131) = (broadcastInDim S300000x1 ![0] bcast_S300000_S300000x1_0 : (⟨S300000, .i32⟩ : BufTy).Contents (Elt F) → (⟨S300000x1, .i32⟩ : BufTy).Contents (Elt F)) (StableHlo.after hostOps9 U (Proc.devRef .tc main_v130)) :=
  Cert.Lib.ReadFinal.unary writes9 25 rfl (by decide) (by decide) U
theorem s9_main_v132 (U : Valuation τ sig (Elt F)) : StableHlo.after hostOps9 U (Proc.devRef .tc main_v132) = ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (StableHlo.after hostOps9 U (Proc.devRef .tc main_arg4)) (StableHlo.after hostOps9 U (Proc.devRef .tc main_v131)) :=
  Cert.Lib.ReadFinal.binary writes9 26 rfl (by decide) (by decide) (by decide) U
theorem s9_main_c_31 (U : Valuation τ sig (Elt F)) : StableHlo.after hostOps9 U (Proc.devRef .tc main_c_31) = (constantI S_ 32 0#32) :=
  Cert.Lib.ReadFinal.nullary writes9 27 rfl (by decide) U
theorem s9_main_v133 (U : Valuation τ sig (Elt F)) : StableHlo.after hostOps9 U (Proc.devRef .tc main_v133) = (broadcastInDim S300000 ![] bcast_S_S300000 : (⟨S_, .i32⟩ : BufTy).Contents (Elt F) → (⟨S300000, .i32⟩ : BufTy).Contents (Elt F)) (StableHlo.after hostOps9 U (Proc.devRef .tc main_c_31)) :=
  Cert.Lib.ReadFinal.unary writes9 28 rfl (by decide) (by decide) U
theorem s9_main_v134 (U : Valuation τ sig (Elt F)) : StableHlo.after hostOps9 U (Proc.devRef .tc main_v134) = (cmpi .slt : (⟨S300000, .i32⟩ : BufTy).Contents (Elt F) → (⟨S300000, .i32⟩ : BufTy).Contents (Elt F) → (⟨S300000, .i1⟩ : BufTy).Contents (Elt F)) (StableHlo.after hostOps9 U (Proc.devRef .tc main_v132)) (StableHlo.after hostOps9 U (Proc.devRef .tc main_v133)) :=
  Cert.Lib.ReadFinal.binary writes9 29 rfl (by decide) (by decide) (by decide) U
theorem s9_main_c_32 (U : Valuation τ sig (Elt F)) : StableHlo.after hostOps9 U (Proc.devRef .tc main_c_32) = (constantI S_ 32 64#32) :=
  Cert.Lib.ReadFinal.nullary writes9 30 rfl (by decide) U
theorem s9_main_v135 (U : Valuation τ sig (Elt F)) : StableHlo.after hostOps9 U (Proc.devRef .tc main_v135) = (broadcastInDim S300000 ![] bcast_S_S300000 : (⟨S_, .i32⟩ : BufTy).Contents (Elt F) → (⟨S300000, .i32⟩ : BufTy).Contents (Elt F)) (StableHlo.after hostOps9 U (Proc.devRef .tc main_c_32)) :=
  Cert.Lib.ReadFinal.unary writes9 31 rfl (by decide) (by decide) U
theorem s9_main_v136 (U : Valuation τ sig (Elt F)) : StableHlo.after hostOps9 U (Proc.devRef .tc main_v136) = (addi : (⟨S300000, .i32⟩ : BufTy).Contents (Elt F) → (⟨S300000, .i32⟩ : BufTy).Contents (Elt F) → (⟨S300000, .i32⟩ : BufTy).Contents (Elt F)) (StableHlo.after hostOps9 U (Proc.devRef .tc main_v132)) (StableHlo.after hostOps9 U (Proc.devRef .tc main_v135)) :=
  Cert.Lib.ReadFinal.binary writes9 32 rfl (by decide) (by decide) (by decide) U
theorem s9_main_v137 (U : Valuation τ sig (Elt F)) : StableHlo.after hostOps9 U (Proc.devRef .tc main_v137) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps9 U (Proc.devRef .tc main_v134)) (StableHlo.after hostOps9 U (Proc.devRef .tc main_v136)) (StableHlo.after hostOps9 U (Proc.devRef .tc main_v132)) :=
  Cert.Lib.ReadFinal.ternary writes9 33 rfl (by decide) (by decide) (by decide) (by decide) U
theorem s9_main_v138 (U : Valuation τ sig (Elt F)) : StableHlo.after hostOps9 U (Proc.devRef .tc main_v138) = (broadcastInDim S300000x1 ![0] bcast_S300000_S300000x1_0 : (⟨S300000, .i32⟩ : BufTy).Contents (Elt F) → (⟨S300000x1, .i32⟩ : BufTy).Contents (Elt F)) (StableHlo.after hostOps9 U (Proc.devRef .tc main_v137)) :=
  Cert.Lib.ReadFinal.unary writes9 34 rfl (by decide) (by decide) U
theorem s9_main_v139 (U : Valuation τ sig (Elt F)) : StableHlo.after hostOps9 U (Proc.devRef .tc main_v139) = ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (StableHlo.after hostOps9 U (Proc.devRef .tc main_v111)) (StableHlo.after hostOps9 U (Proc.devRef .tc main_v138)) :=
  Cert.Lib.ReadFinal.binary writes9 35 rfl (by decide) (by decide) (by decide) U
theorem s9_main_v140 (U : Valuation τ sig (Elt F)) : StableHlo.after hostOps9 U (Proc.devRef .tc main_v140) = ((extractStridedSlice S64x64 ![0, 0] · slices_S256x64_S64x64_0_0) : (⟨S256x64, .f32⟩ : BufTy).Contents (Elt F) → (⟨S64x64, .f32⟩ : BufTy).Contents (Elt F)) (StableHlo.after hostOps9 U (Proc.devRef .tc main_arg17)) :=
  Cert.Lib.ReadFinal.unary writes9 36 rfl (by decide) (by decide) U
theorem s9_main_v141 (U : Valuation τ sig (Elt F)) : StableHlo.after hostOps9 U (Proc.devRef .tc main_v141) = ((extractStridedSlice S64x64 ![64, 0] · slices_S256x64_S64x64_64_0) : (⟨S256x64, .f32⟩ : BufTy).Contents (Elt F) → (⟨S64x64, .f32⟩ : BufTy).Contents (Elt F)) (StableHlo.after hostOps9 U (Proc.devRef .tc main_arg17)) :=
  Cert.Lib.ReadFinal.unary writes9 37 rfl (by decide) (by decide) U
theorem s9_main_v142 (U : Valuation τ sig (Elt F)) : StableHlo.after hostOps9 U (Proc.devRef .tc main_v142) = ((extractStridedSlice S64x64 ![128, 0] · slices_S256x64_S64x64_128_0) : (⟨S256x64, .f32⟩ : BufTy).Contents (Elt F) → (⟨S64x64, .f32⟩ : BufTy).Contents (Elt F)) (StableHlo.after hostOps9 U (Proc.devRef .tc main_arg17)) :=
  Cert.Lib.ReadFinal.unary writes9 38 rfl (by decide) (by decide) U
theorem s9_main_v143 (U : Valuation τ sig (Elt F)) : StableHlo.after hostOps9 U (Proc.devRef .tc main_v143) = ((extractStridedSlice S64x64 ![192, 0] · slices_S256x64_S64x64_192_0) : (⟨S256x64, .f32⟩ : BufTy).Contents (Elt F) → (⟨S64x64, .f32⟩ : BufTy).Contents (Elt F)) (StableHlo.after hostOps9 U (Proc.devRef .tc main_arg17)) :=
  Cert.Lib.ReadFinal.unary writes9 39 rfl (by decide) (by decide) U
theorem s9_main_v144 (U : Valuation τ sig (Elt F)) : StableHlo.after hostOps9 U (Proc.devRef .tc main_v144) = shapeCast S1x64 (StableHlo.after hostOps9 U (Proc.devRef .tc main_arg18)) shapeCasts_S64_S1x64 :=
  (Cert.Lib.ReadFinal.reshape writes9 40 rfl (by decide) (by decide) U).trans rfl

theorem writes10 : Writes (hostOps10 : List (HloOp τ sig (Elt F))) hostOps10_W := by
  unfold hostOps10 hostOps10_W; repeat' constructor
theorem s10_main_cst_33 (U : Valuation τ sig (Elt F)) : StableHlo.after hostOps10 U (Proc.devRef .tc main_cst_33) = (constant (F := F) S_ .f32 0x00000000#32) :=
  Cert.Lib.ReadFinal.nullary writes10 0 rfl (by decide) U
theorem s10_main_v146 (U : Valuation τ sig (Elt F)) : StableHlo.after hostOps10 U (Proc.devRef .tc main_v146) = (broadcastInDim S30000x64 ![] bcast_S_S30000x64 : (⟨S_, .f32⟩ : BufTy).Contents (Elt F) → (⟨S30000x64, .f32⟩ : BufTy).Contents (Elt F)) (StableHlo.after hostOps10 U (Proc.devRef .tc main_cst_33)) :=
  Cert.Lib.ReadFinal.unary writes10 1 rfl (by decide) (by decide) U
theorem s10_main_v147 (U : Valuation τ sig (Elt F)) : StableHlo.after hostOps10 U (Proc.devRef .tc main_v147) = (broadcastInDim S300000x1 ![0] bcast_S300000_S300000x1_0 : (⟨S300000, .i32⟩ : BufTy).Contents (Elt F) → (⟨S300000x1, .i32⟩ : BufTy).Contents (Elt F)) (StableHlo.after hostOps10 U (Proc.devRef .tc main_v3)) :=
  Cert.Lib.ReadFinal.unary writes10 2 rfl (by decide) (by decide) U
theorem s10_main_v148 (U : Valuation τ sig (Elt F)) : StableHlo.after hostOps10 U (Proc.devRef .tc main_v148) = ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (StableHlo.after hostOps10 U (Proc.devRef .tc main_v146)) (StableHlo.after hostOps10 U (Proc.devRef .tc main_v147)) (StableHlo.after hostOps10 U (Proc.devRef .tc main_v145)) :=
  Cert.Lib.ReadFinal.ternary writes10 3 rfl (by decide) (by decide) (by decide) (by decide) U
theorem s10_main_cst_34 (U : Valuation τ sig (Elt F)) : StableHlo.after hostOps10 U (Proc.devRef .tc main_cst_34) = (constant (F := F) S_ .f32 0x3F800000#32) :=
  Cert.Lib.ReadFinal.nullary writes10 4 rfl (by decide) U
theorem s10_main_v149 (U : Valuation τ sig (Elt F)) : StableHlo.after hostOps10 U (Proc.devRef .tc main_v149) = (broadcastInDim S300000x1 ![] bcast_S_S300000x1 : (⟨S_, .f32⟩ : BufTy).Contents (Elt F) → (⟨S300000x1, .f32⟩ : BufTy).Contents (Elt F)) (StableHlo.after hostOps10 U (Proc.devRef .tc main_cst_34)) :=
  Cert.Lib.ReadFinal.unary writes10 5 rfl (by decide) (by decide) U
theorem s10_main_cst_35 (U : Valuation τ sig (Elt F)) : StableHlo.after hostOps10 U (Proc.devRef .tc main_cst_35) = (constant (F := F) S_ .f32 0x00000000#32) :=
  Cert.Lib.ReadFinal.nullary writes10 6 rfl (by decide) U
theorem s10_main_v150 (U : Valuation τ sig (Elt F)) : StableHlo.after hostOps10 U (Proc.devRef .tc main_v150) = (broadcastInDim S30000x1 ![] bcast_S_S30000x1 : (⟨S_, .f32⟩ : BufTy).Contents (Elt F) → (⟨S30000x1, .f32⟩ : BufTy).Contents (Elt F)) (StableHlo.after hostOps10 U (Proc.devRef .tc main_cst_35)) :=
  Cert.Lib.ReadFinal.unary writes10 7 rfl (by decide) (by decide) U
theorem s10_main_v151 (U : Valuation τ sig (Elt F)) : StableHlo.after hostOps10 U (Proc.devRef .tc main_v151) = (broadcastInDim S300000x1 ![0] bcast_S300000_S300000x1_0 : (⟨S300000, .i32⟩ : BufTy).Contents (Elt F) → (⟨S300000x1, .i32⟩ : BufTy).Contents (Elt F)) (StableHlo.after hostOps10 U (Proc.devRef .tc main_v3)) :=
  Cert.Lib.ReadFinal.unary writes10 8 rfl (by decide) (by decide) U
theorem s10_main_v152 (U : Valuation τ sig (Elt F)) : StableHlo.after hostOps10 U (Proc.devRef .tc main_v152) = ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (StableHlo.after hostOps10 U (Proc.devRef .tc main_v150)) (StableHlo.after hostOps10 U (Proc.devRef .tc main_v151)) (StableHlo.after hostOps10 U (Proc.devRef .tc main_v149)) :=
  Cert.Lib.ReadFinal.ternary writes10 9 rfl (by decide) (by decide) (by decide) (by decide) U
theorem s10_main_cst_36 (U : Valuation τ sig (Elt F)) : StableHlo.after hostOps10 U (Proc.devRef .tc main_cst_36) = (constant (F := F) S_ .f32 0x3F800000#32) :=
  Cert.Lib.ReadFinal.nullary writes10 10 rfl (by decide) U
theorem s10_main_v153 (U : Valuation τ sig (Elt F)) : StableHlo.after hostOps10 U (Proc.devRef .tc main_v153) = (broadcastInDim S30000x1 ![] bcast_S_S30000x1 : (⟨S_, .f32⟩ : BufTy).Contents (Elt F) → (⟨S30000x1, .f32⟩ : BufTy).Contents (Elt F)) (StableHlo.after hostOps10 U (Proc.devRef .tc main_cst_36)) :=
  Cert.Lib.ReadFinal.unary writes10 11 rfl (by decide) (by decide) U
theorem s10_main_v154 (U : Valuation τ sig (Elt F)) : StableHlo.after hostOps10 U (Proc.devRef .tc main_v154) = (maximumf : (⟨S30000x1, .f32⟩ : BufTy).Contents (Elt F) → (⟨S30000x1, .f32⟩ : BufTy).Contents (Elt F) → (⟨S30000x1, .f32⟩ : BufTy).Contents (Elt F)) (StableHlo.after hostOps10 U (Proc.devRef .tc main_v152)) (StableHlo.after hostOps10 U (Proc.devRef .tc main_v153)) :=
  Cert.Lib.ReadFinal.binary writes10 12 rfl (by decide) (by decide) (by decide) U
theorem s10_main_v155 (U : Valuation τ sig (Elt F)) : StableHlo.after hostOps10 U (Proc.devRef .tc main_v155) = (broadcastInDim S30000x64 ![0, 1] bcast_S30000x1_S30000x64_0_1 : (⟨S30000x1, .f32⟩ : BufTy).Contents (Elt F) → (⟨S30000x64, .f32⟩ : BufTy).Contents (Elt F)) (StableHlo.after hostOps10 U (Proc.devRef .tc main_v154)) :=
  Cert.Lib.ReadFinal.unary writes10 13 rfl (by decide) (by decide) U
theorem s10_main_v156 (U : Valuation τ sig (Elt F)) : StableHlo.after hostOps10 U (Proc.devRef .tc main_v156) = (Host.divf : (⟨S30000x64, .f32⟩ : BufTy).Contents (Elt F) → (⟨S30000x64, .f32⟩ : BufTy).Contents (Elt F) → (⟨S30000x64, .f32⟩ : BufTy).Contents (Elt F)) (StableHlo.after hostOps10 U (Proc.devRef .tc main_v148)) (StableHlo.after hostOps10 U (Proc.devRef .tc main_v155)) :=
  Cert.Lib.ReadFinal.binary writes10 14 rfl (by decide) (by decide) (by decide) U
theorem s10_main_c_37 (U : Valuation τ sig (Elt F)) : StableHlo.after hostOps10 U (Proc.devRef .tc main_c_37) = (constantI S_ 32 0#32) :=
  Cert.Lib.ReadFinal.nullary writes10 15 rfl (by decide) U
theorem s10_main_v157 (U : Valuation τ sig (Elt F)) : StableHlo.after hostOps10 U (Proc.devRef .tc main_v157) = (broadcastInDim S30000 ![] bcast_S_S30000 : (⟨S_, .i32⟩ : BufTy).Contents (Elt F) → (⟨S30000, .i32⟩ : BufTy).Contents (Elt F)) (StableHlo.after hostOps10 U (Proc.devRef .tc main_c_37)) :=
  Cert.Lib.ReadFinal.unary writes10 16 rfl (by decide) (by decide) U
theorem s10_main_v158 (U : Valuation τ sig (Elt F)) : StableHlo.after hostOps10 U (Proc.devRef .tc main_v158) = (cmpi .slt : (⟨S30000, .i32⟩ : BufTy).Contents (Elt F) → (⟨S30000, .i32⟩ : BufTy).Contents (Elt F) → (⟨S30000, .i1⟩ : BufTy).Contents (Elt F)) (StableHlo.after hostOps10 U (Proc.devRef .tc main_arg4)) (StableHlo.after hostOps10 U (Proc.devRef .tc main_v157)) :=
  Cert.Lib.ReadFinal.binary writes10 17 rfl (by decide) (by decide) (by decide) U
theorem s10_main_c_38 (U : Valuation τ sig (Elt F)) : StableHlo.after hostOps10 U (Proc.devRef .tc main_c_38) = (constantI S_ 32 64#32) :=
  Cert.Lib.ReadFinal.nullary writes10 18 rfl (by decide) U
theorem s10_main_v159 (U : Valuation τ sig (Elt F)) : StableHlo.after hostOps10 U (Proc.devRef .tc main_v159) = (broadcastInDim S30000 ![] bcast_S_S30000 : (⟨S_, .i32⟩ : BufTy).Contents (Elt F) → (⟨S30000, .i32⟩ : BufTy).Contents (Elt F)) (StableHlo.after hostOps10 U (Proc.devRef .tc main_c_38)) :=
  Cert.Lib.ReadFinal.unary writes10 19 rfl (by decide) (by decide) U
theorem s10_main_v160 (U : Valuation τ sig (Elt F)) : StableHlo.after hostOps10 U (Proc.devRef .tc main_v160) = (addi : (⟨S30000, .i32⟩ : BufTy).Contents (Elt F) → (⟨S30000, .i32⟩ : BufTy).Contents (Elt F) → (⟨S30000, .i32⟩ : BufTy).Contents (Elt F)) (StableHlo.after hostOps10 U (Proc.devRef .tc main_arg4)) (StableHlo.after hostOps10 U (Proc.devRef .tc main_v159)) :=
  Cert.Lib.ReadFinal.binary writes10 20 rfl (by decide) (by decide) (by decide) U
theorem s10_main_v161 (U : Valuation τ sig (Elt F)) : StableHlo.after hostOps10 U (Proc.devRef .tc main_v161) = (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (StableHlo.after hostOps10 U (Proc.devRef .tc main_v158)) (StableHlo.after hostOps10 U (Proc.devRef .tc main_v160)) (StableHlo.after hostOps10 U (Proc.devRef .tc main_arg4)) :=
  Cert.Lib.ReadFinal.ternary writes10 21 rfl (by decide) (by decide) (by decide) (by decide) U
theorem s10_main_v162 (U : Valuation τ sig (Elt F)) : StableHlo.after hostOps10 U (Proc.devRef .tc main_v162) = (broadcastInDim S30000x1 ![0] bcast_S30000_S30000x1_0 : (⟨S30000, .i32⟩ : BufTy).Contents (Elt F) → (⟨S30000x1, .i32⟩ : BufTy).Contents (Elt F)) (StableHlo.after hostOps10 U (Proc.devRef .tc main_v161)) :=
  Cert.Lib.ReadFinal.unary writes10 22 rfl (by decide) (by decide) U
theorem s10_main_v163 (U : Valuation τ sig (Elt F)) : StableHlo.after hostOps10 U (Proc.devRef .tc main_v163) = ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (StableHlo.after hostOps10 U (Proc.devRef .tc main_v111)) (StableHlo.after hostOps10 U (Proc.devRef .tc main_v162)) :=
  Cert.Lib.ReadFinal.binary writes10 23 rfl (by decide) (by decide) (by decide) U
theorem s10_main_v164 (U : Valuation τ sig (Elt F)) : StableHlo.after hostOps10 U (Proc.devRef .tc main_v164) = ((extractStridedSlice S64x64 ![0, 0] · slices_S192x64_S64x64_0_0) : (⟨S192x64, .f32⟩ : BufTy).Contents (Elt F) → (⟨S64x64, .f32⟩ : BufTy).Contents (Elt F)) (StableHlo.after hostOps10 U (Proc.devRef .tc main_arg19)) :=
  Cert.Lib.ReadFinal.unary writes10 24 rfl (by decide) (by decide) U
theorem s10_main_v165 (U : Valuation τ sig (Elt F)) : StableHlo.after hostOps10 U (Proc.devRef .tc main_v165) = ((extractStridedSlice S64x64 ![64, 0] · slices_S192x64_S64x64_64_0) : (⟨S192x64, .f32⟩ : BufTy).Contents (Elt F) → (⟨S64x64, .f32⟩ : BufTy).Contents (Elt F)) (StableHlo.after hostOps10 U (Proc.devRef .tc main_arg19)) :=
  Cert.Lib.ReadFinal.unary writes10 25 rfl (by decide) (by decide) U
theorem s10_main_v166 (U : Valuation τ sig (Elt F)) : StableHlo.after hostOps10 U (Proc.devRef .tc main_v166) = ((extractStridedSlice S64x64 ![128, 0] · slices_S192x64_S64x64_128_0) : (⟨S192x64, .f32⟩ : BufTy).Contents (Elt F) → (⟨S64x64, .f32⟩ : BufTy).Contents (Elt F)) (StableHlo.after hostOps10 U (Proc.devRef .tc main_arg19)) :=
  Cert.Lib.ReadFinal.unary writes10 26 rfl (by decide) (by decide) U
theorem s10_main_v167 (U : Valuation τ sig (Elt F)) : StableHlo.after hostOps10 U (Proc.devRef .tc main_v167) = shapeCast S1x64 (StableHlo.after hostOps10 U (Proc.devRef .tc main_arg20)) shapeCasts_S64_S1x64 :=
  (Cert.Lib.ReadFinal.reshape writes10 27 rfl (by decide) (by decide) U).trans rfl

theorem writes11 : Writes (hostOps11 : List (HloOp τ sig (Elt F))) hostOps11_W := by
  unfold hostOps11 hostOps11_W; repeat' constructor
theorem s11_main_cst_39 (U : Valuation τ sig (Elt F)) : StableHlo.after hostOps11 U (Proc.devRef .tc main_cst_39) = (constant (F := F) S_ .f32 0x00000000#32) :=
  Cert.Lib.ReadFinal.nullary writes11 0 rfl (by decide) U
theorem s11_main_v169 (U : Valuation τ sig (Elt F)) : StableHlo.after hostOps11 U (Proc.devRef .tc main_v169) = (broadcastInDim S64x64 ![] bcast_S_S64x64 : (⟨S_, .f32⟩ : BufTy).Contents (Elt F) → (⟨S64x64, .f32⟩ : BufTy).Contents (Elt F)) (StableHlo.after hostOps11 U (Proc.devRef .tc main_cst_39)) :=
  Cert.Lib.ReadFinal.unary writes11 1 rfl (by decide) (by decide) U
theorem s11_main_v170 (U : Valuation τ sig (Elt F)) : StableHlo.after hostOps11 U (Proc.devRef .tc main_v170) = (broadcastInDim S30000x1 ![0] bcast_S30000_S30000x1_0 : (⟨S30000, .i32⟩ : BufTy).Contents (Elt F) → (⟨S30000x1, .i32⟩ : BufTy).Contents (Elt F)) (StableHlo.after hostOps11 U (Proc.devRef .tc main_arg4)) :=
  Cert.Lib.ReadFinal.unary writes11 2 rfl (by decide) (by decide) U
theorem s11_main_v171 (U : Valuation τ sig (Elt F)) : StableHlo.after hostOps11 U (Proc.devRef .tc main_v171) = ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (StableHlo.after hostOps11 U (Proc.devRef .tc main_v169)) (StableHlo.after hostOps11 U (Proc.devRef .tc main_v170)) (StableHlo.after hostOps11 U (Proc.devRef .tc main_v168)) :=
  Cert.Lib.ReadFinal.ternary writes11 3 rfl (by decide) (by decide) (by decide) (by decide) U
theorem s11_main_cst_40 (U : Valuation τ sig (Elt F)) : StableHlo.after hostOps11 U (Proc.devRef .tc main_cst_40) = (constant (F := F) S_ .f32 0x3F800000#32) :=
  Cert.Lib.ReadFinal.nullary writes11 4 rfl (by decide) U
theorem s11_main_v172 (U : Valuation τ sig (Elt F)) : StableHlo.after hostOps11 U (Proc.devRef .tc main_v172) = (broadcastInDim S30000x1 ![] bcast_S_S30000x1 : (⟨S_, .f32⟩ : BufTy).Contents (Elt F) → (⟨S30000x1, .f32⟩ : BufTy).Contents (Elt F)) (StableHlo.after hostOps11 U (Proc.devRef .tc main_cst_40)) :=
  Cert.Lib.ReadFinal.unary writes11 5 rfl (by decide) (by decide) U
theorem s11_main_cst_41 (U : Valuation τ sig (Elt F)) : StableHlo.after hostOps11 U (Proc.devRef .tc main_cst_41) = (constant (F := F) S_ .f32 0x00000000#32) :=
  Cert.Lib.ReadFinal.nullary writes11 6 rfl (by decide) U
theorem s11_main_v173 (U : Valuation τ sig (Elt F)) : StableHlo.after hostOps11 U (Proc.devRef .tc main_v173) = (broadcastInDim S64x1 ![] bcast_S_S64x1 : (⟨S_, .f32⟩ : BufTy).Contents (Elt F) → (⟨S64x1, .f32⟩ : BufTy).Contents (Elt F)) (StableHlo.after hostOps11 U (Proc.devRef .tc main_cst_41)) :=
  Cert.Lib.ReadFinal.unary writes11 7 rfl (by decide) (by decide) U
theorem s11_main_v174 (U : Valuation τ sig (Elt F)) : StableHlo.after hostOps11 U (Proc.devRef .tc main_v174) = (broadcastInDim S30000x1 ![0] bcast_S30000_S30000x1_0 : (⟨S30000, .i32⟩ : BufTy).Contents (Elt F) → (⟨S30000x1, .i32⟩ : BufTy).Contents (Elt F)) (StableHlo.after hostOps11 U (Proc.devRef .tc main_arg4)) :=
  Cert.Lib.ReadFinal.unary writes11 8 rfl (by decide) (by decide) U
theorem s11_main_v175 (U : Valuation τ sig (Elt F)) : StableHlo.after hostOps11 U (Proc.devRef .tc main_v175) = ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (StableHlo.after hostOps11 U (Proc.devRef .tc main_v173)) (StableHlo.after hostOps11 U (Proc.devRef .tc main_v174)) (StableHlo.after hostOps11 U (Proc.devRef .tc main_v172)) :=
  Cert.Lib.ReadFinal.ternary writes11 9 rfl (by decide) (by decide) (by decide) (by decide) U
theorem s11_main_cst_42 (U : Valuation τ sig (Elt F)) : StableHlo.after hostOps11 U (Proc.devRef .tc main_cst_42) = (constant (F := F) S_ .f32 0x3F800000#32) :=
  Cert.Lib.ReadFinal.nullary writes11 10 rfl (by decide) U
theorem s11_main_v176 (U : Valuation τ sig (Elt F)) : StableHlo.after hostOps11 U (Proc.devRef .tc main_v176) = (broadcastInDim S64x1 ![] bcast_S_S64x1 : (⟨S_, .f32⟩ : BufTy).Contents (Elt F) → (⟨S64x1, .f32⟩ : BufTy).Contents (Elt F)) (StableHlo.after hostOps11 U (Proc.devRef .tc main_cst_42)) :=
  Cert.Lib.ReadFinal.unary writes11 11 rfl (by decide) (by decide) U
theorem s11_main_v177 (U : Valuation τ sig (Elt F)) : StableHlo.after hostOps11 U (Proc.devRef .tc main_v177) = (maximumf : (⟨S64x1, .f32⟩ : BufTy).Contents (Elt F) → (⟨S64x1, .f32⟩ : BufTy).Contents (Elt F) → (⟨S64x1, .f32⟩ : BufTy).Contents (Elt F)) (StableHlo.after hostOps11 U (Proc.devRef .tc main_v175)) (StableHlo.after hostOps11 U (Proc.devRef .tc main_v176)) :=
  Cert.Lib.ReadFinal.binary writes11 12 rfl (by decide) (by decide) (by decide) U
theorem s11_main_v178 (U : Valuation τ sig (Elt F)) : StableHlo.after hostOps11 U (Proc.devRef .tc main_v178) = (broadcastInDim S64x64 ![0, 1] bcast_S64x1_S64x64_0_1 : (⟨S64x1, .f32⟩ : BufTy).Contents (Elt F) → (⟨S64x64, .f32⟩ : BufTy).Contents (Elt F)) (StableHlo.after hostOps11 U (Proc.devRef .tc main_v177)) :=
  Cert.Lib.ReadFinal.unary writes11 13 rfl (by decide) (by decide) U
theorem s11_main_v179 (U : Valuation τ sig (Elt F)) : StableHlo.after hostOps11 U (Proc.devRef .tc main_v179) = (Host.divf : (⟨S64x64, .f32⟩ : BufTy).Contents (Elt F) → (⟨S64x64, .f32⟩ : BufTy).Contents (Elt F) → (⟨S64x64, .f32⟩ : BufTy).Contents (Elt F)) (StableHlo.after hostOps11 U (Proc.devRef .tc main_v171)) (StableHlo.after hostOps11 U (Proc.devRef .tc main_v178)) :=
  Cert.Lib.ReadFinal.binary writes11 14 rfl (by decide) (by decide) (by decide) U
theorem s11_main_v180 (U : Valuation τ sig (Elt F)) : StableHlo.after hostOps11 U (Proc.devRef .tc main_v180) = ((extractStridedSlice S64x64 ![0, 0] · slices_S128x64_S64x64_0_0) : (⟨S128x64, .f32⟩ : BufTy).Contents (Elt F) → (⟨S64x64, .f32⟩ : BufTy).Contents (Elt F)) (StableHlo.after hostOps11 U (Proc.devRef .tc main_arg21)) :=
  Cert.Lib.ReadFinal.unary writes11 15 rfl (by decide) (by decide) U
theorem s11_main_v181 (U : Valuation τ sig (Elt F)) : StableHlo.after hostOps11 U (Proc.devRef .tc main_v181) = ((extractStridedSlice S64x64 ![64, 0] · slices_S128x64_S64x64_64_0) : (⟨S128x64, .f32⟩ : BufTy).Contents (Elt F) → (⟨S64x64, .f32⟩ : BufTy).Contents (Elt F)) (StableHlo.after hostOps11 U (Proc.devRef .tc main_arg21)) :=
  Cert.Lib.ReadFinal.unary writes11 16 rfl (by decide) (by decide) U
theorem s11_main_v182 (U : Valuation τ sig (Elt F)) : StableHlo.after hostOps11 U (Proc.devRef .tc main_v182) = shapeCast S1x64 (StableHlo.after hostOps11 U (Proc.devRef .tc main_arg22)) shapeCasts_S64_S1x64 :=
  (Cert.Lib.ReadFinal.reshape writes11 17 rfl (by decide) (by decide) U).trans rfl

theorem writes12 : Writes (hostOps12 : List (HloOp τ sig (Elt F))) hostOps12_W := by
  unfold hostOps12 hostOps12_W; repeat' constructor
theorem s12_main_c_43 (U : Valuation τ sig (Elt F)) : StableHlo.after hostOps12 U (Proc.devRef .tc main_c_43) = (constantI S_ 32 0#32) :=
  Cert.Lib.ReadFinal.nullary writes12 0 rfl (by decide) U
theorem s12_main_v184 (U : Valuation τ sig (Elt F)) : StableHlo.after hostOps12 U (Proc.devRef .tc main_v184) = (broadcastInDim S300000 ![] bcast_S_S300000 : (⟨S_, .i32⟩ : BufTy).Contents (Elt F) → (⟨S300000, .i32⟩ : BufTy).Contents (Elt F)) (StableHlo.after hostOps12 U (Proc.devRef .tc main_c_43)) :=
  Cert.Lib.ReadFinal.unary writes12 1 rfl (by decide) (by decide) U
theorem s12_main_v185 (U : Valuation τ sig (Elt F)) : StableHlo.after hostOps12 U (Proc.devRef .tc main_v185) = (cmpi .slt : (⟨S300000, .i32⟩ : BufTy).Contents (Elt F) → (⟨S300000, .i32⟩ : BufTy).Contents (Elt F) → (⟨S300000, .i1⟩ : BufTy).Contents (Elt F)) (StableHlo.after hostOps12 U (Proc.devRef .tc main_v1)) (StableHlo.after hostOps12 U (Proc.devRef .tc main_v184)) :=
  Cert.Lib.ReadFinal.binary writes12 2 rfl (by decide) (by decide) (by decide) U
theorem s12_main_c_44 (U : Valuation τ sig (Elt F)) : StableHlo.after hostOps12 U (Proc.devRef .tc main_c_44) = (constantI S_ 32 30000#32) :=
  Cert.Lib.ReadFinal.nullary writes12 3 rfl (by decide) U
theorem s12_main_v186 (U : Valuation τ sig (Elt F)) : StableHlo.after hostOps12 U (Proc.devRef .tc main_v186) = (broadcastInDim S300000 ![] bcast_S_S300000 : (⟨S_, .i32⟩ : BufTy).Contents (Elt F) → (⟨S300000, .i32⟩ : BufTy).Contents (Elt F)) (StableHlo.after hostOps12 U (Proc.devRef .tc main_c_44)) :=
  Cert.Lib.ReadFinal.unary writes12 4 rfl (by decide) (by decide) U
theorem s12_main_v187 (U : Valuation τ sig (Elt F)) : StableHlo.after hostOps12 U (Proc.devRef .tc main_v187) = (addi : (⟨S300000, .i32⟩ : BufTy).Contents (Elt F) → (⟨S300000, .i32⟩ : BufTy).Contents (Elt F) → (⟨S300000, .i32⟩ : BufTy).Contents (Elt F)) (StableHlo.after hostOps12 U (Proc.devRef .tc main_v1)) (StableHlo.after hostOps12 U (Proc.devRef .tc main_v186)) :=
  Cert.Lib.ReadFinal.binary writes12 5 rfl (by decide) (by decide) (by decide) U
theorem s12_main_v188 (U : Valuation τ sig (Elt F)) : StableHlo.after hostOps12 U (Proc.devRef .tc main_v188) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps12 U (Proc.devRef .tc main_v185)) (StableHlo.after hostOps12 U (Proc.devRef .tc main_v187)) (StableHlo.after hostOps12 U (Proc.devRef .tc main_v1)) :=
  Cert.Lib.ReadFinal.ternary writes12 6 rfl (by decide) (by decide) (by decide) (by decide) U
theorem s12_main_v189 (U : Valuation τ sig (Elt F)) : StableHlo.after hostOps12 U (Proc.devRef .tc main_v189) = (broadcastInDim S300000x1 ![0] bcast_S300000_S300000x1_0 : (⟨S300000, .i32⟩ : BufTy).Contents (Elt F) → (⟨S300000x1, .i32⟩ : BufTy).Contents (Elt F)) (StableHlo.after hostOps12 U (Proc.devRef .tc main_v188)) :=
  Cert.Lib.ReadFinal.unary writes12 7 rfl (by decide) (by decide) U
theorem s12_main_v190 (U : Valuation τ sig (Elt F)) : StableHlo.after hostOps12 U (Proc.devRef .tc main_v190) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (StableHlo.after hostOps12 U (Proc.devRef .tc main_v168)) (StableHlo.after hostOps12 U (Proc.devRef .tc main_v189)) :=
  Cert.Lib.ReadFinal.binary writes12 8 rfl (by decide) (by decide) (by decide) U
theorem s12_main_c_45 (U : Valuation τ sig (Elt F)) : StableHlo.after hostOps12 U (Proc.devRef .tc main_c_45) = (constantI S_ 32 0#32) :=
  Cert.Lib.ReadFinal.nullary writes12 9 rfl (by decide) U
theorem s12_main_v191 (U : Valuation τ sig (Elt F)) : StableHlo.after hostOps12 U (Proc.devRef .tc main_v191) = (broadcastInDim S300000 ![] bcast_S_S300000 : (⟨S_, .i32⟩ : BufTy).Contents (Elt F) → (⟨S300000, .i32⟩ : BufTy).Contents (Elt F)) (StableHlo.after hostOps12 U (Proc.devRef .tc main_c_45)) :=
  Cert.Lib.ReadFinal.unary writes12 10 rfl (by decide) (by decide) U
theorem s12_main_v192 (U : Valuation τ sig (Elt F)) : StableHlo.after hostOps12 U (Proc.devRef .tc main_v192) = (cmpi .slt : (⟨S300000, .i32⟩ : BufTy).Contents (Elt F) → (⟨S300000, .i32⟩ : BufTy).Contents (Elt F) → (⟨S300000, .i1⟩ : BufTy).Contents (Elt F)) (StableHlo.after hostOps12 U (Proc.devRef .tc main_v3)) (StableHlo.after hostOps12 U (Proc.devRef .tc main_v191)) :=
  Cert.Lib.ReadFinal.binary writes12 11 rfl (by decide) (by decide) (by decide) U
theorem s12_main_c_46 (U : Valuation τ sig (Elt F)) : StableHlo.after hostOps12 U (Proc.devRef .tc main_c_46) = (constantI S_ 32 30000#32) :=
  Cert.Lib.ReadFinal.nullary writes12 12 rfl (by decide) U
theorem s12_main_v193 (U : Valuation τ sig (Elt F)) : StableHlo.after hostOps12 U (Proc.devRef .tc main_v193) = (broadcastInDim S300000 ![] bcast_S_S300000 : (⟨S_, .i32⟩ : BufTy).Contents (Elt F) → (⟨S300000, .i32⟩ : BufTy).Contents (Elt F)) (StableHlo.after hostOps12 U (Proc.devRef .tc main_c_46)) :=
  Cert.Lib.ReadFinal.unary writes12 13 rfl (by decide) (by decide) U
theorem s12_main_v194 (U : Valuation τ sig (Elt F)) : StableHlo.after hostOps12 U (Proc.devRef .tc main_v194) = (addi : (⟨S300000, .i32⟩ : BufTy).Contents (Elt F) → (⟨S300000, .i32⟩ : BufTy).Contents (Elt F) → (⟨S300000, .i32⟩ : BufTy).Contents (Elt F)) (StableHlo.after hostOps12 U (Proc.devRef .tc main_v3)) (StableHlo.after hostOps12 U (Proc.devRef .tc main_v193)) :=
  Cert.Lib.ReadFinal.binary writes12 14 rfl (by decide) (by decide) (by decide) U
theorem s12_main_v195 (U : Valuation τ sig (Elt F)) : StableHlo.after hostOps12 U (Proc.devRef .tc main_v195) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps12 U (Proc.devRef .tc main_v192)) (StableHlo.after hostOps12 U (Proc.devRef .tc main_v194)) (StableHlo.after hostOps12 U (Proc.devRef .tc main_v3)) :=
  Cert.Lib.ReadFinal.ternary writes12 15 rfl (by decide) (by decide) (by decide) (by decide) U
theorem s12_main_v196 (U : Valuation τ sig (Elt F)) : StableHlo.after hostOps12 U (Proc.devRef .tc main_v196) = (broadcastInDim S300000x1 ![0] bcast_S300000_S300000x1_0 : (⟨S300000, .i32⟩ : BufTy).Contents (Elt F) → (⟨S300000x1, .i32⟩ : BufTy).Contents (Elt F)) (StableHlo.after hostOps12 U (Proc.devRef .tc main_v195)) :=
  Cert.Lib.ReadFinal.unary writes12 16 rfl (by decide) (by decide) U
theorem s12_main_v197 (U : Valuation τ sig (Elt F)) : StableHlo.after hostOps12 U (Proc.devRef .tc main_v197) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (StableHlo.after hostOps12 U (Proc.devRef .tc main_v168)) (StableHlo.after hostOps12 U (Proc.devRef .tc main_v196)) :=
  Cert.Lib.ReadFinal.binary writes12 17 rfl (by decide) (by decide) (by decide) U
theorem s12_main_c_47 (U : Valuation τ sig (Elt F)) : StableHlo.after hostOps12 U (Proc.devRef .tc main_c_47) = (constantI S_ 32 0#32) :=
  Cert.Lib.ReadFinal.nullary writes12 18 rfl (by decide) U
theorem s12_main_v198 (U : Valuation τ sig (Elt F)) : StableHlo.after hostOps12 U (Proc.devRef .tc main_v198) = (broadcastInDim S300000 ![] bcast_S_S300000 : (⟨S_, .i32⟩ : BufTy).Contents (Elt F) → (⟨S300000, .i32⟩ : BufTy).Contents (Elt F)) (StableHlo.after hostOps12 U (Proc.devRef .tc main_c_47)) :=
  Cert.Lib.ReadFinal.unary writes12 19 rfl (by decide) (by decide) U
theorem s12_main_v199 (U : Valuation τ sig (Elt F)) : StableHlo.after hostOps12 U (Proc.devRef .tc main_v199) = (cmpi .slt : (⟨S300000, .i32⟩ : BufTy).Contents (Elt F) → (⟨S300000, .i32⟩ : BufTy).Contents (Elt F) → (⟨S300000, .i1⟩ : BufTy).Contents (Elt F)) (StableHlo.after hostOps12 U (Proc.devRef .tc main_v1)) (StableHlo.after hostOps12 U (Proc.devRef .tc main_v198)) :=
  Cert.Lib.ReadFinal.binary writes12 20 rfl (by decide) (by decide) (by decide) U
theorem s12_main_c_48 (U : Valuation τ sig (Elt F)) : StableHlo.after hostOps12 U (Proc.devRef .tc main_c_48) = (constantI S_ 32 30000#32) :=
  Cert.Lib.ReadFinal.nullary writes12 21 rfl (by decide) U
theorem s12_main_v200 (U : Valuation τ sig (Elt F)) : StableHlo.after hostOps12 U (Proc.devRef .tc main_v200) = (broadcastInDim S300000 ![] bcast_S_S300000 : (⟨S_, .i32⟩ : BufTy).Contents (Elt F) → (⟨S300000, .i32⟩ : BufTy).Contents (Elt F)) (StableHlo.after hostOps12 U (Proc.devRef .tc main_c_48)) :=
  Cert.Lib.ReadFinal.unary writes12 22 rfl (by decide) (by decide) U
theorem s12_main_v201 (U : Valuation τ sig (Elt F)) : StableHlo.after hostOps12 U (Proc.devRef .tc main_v201) = (addi : (⟨S300000, .i32⟩ : BufTy).Contents (Elt F) → (⟨S300000, .i32⟩ : BufTy).Contents (Elt F) → (⟨S300000, .i32⟩ : BufTy).Contents (Elt F)) (StableHlo.after hostOps12 U (Proc.devRef .tc main_v1)) (StableHlo.after hostOps12 U (Proc.devRef .tc main_v200)) :=
  Cert.Lib.ReadFinal.binary writes12 23 rfl (by decide) (by decide) (by decide) U
theorem s12_main_v202 (U : Valuation τ sig (Elt F)) : StableHlo.after hostOps12 U (Proc.devRef .tc main_v202) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps12 U (Proc.devRef .tc main_v199)) (StableHlo.after hostOps12 U (Proc.devRef .tc main_v201)) (StableHlo.after hostOps12 U (Proc.devRef .tc main_v1)) :=
  Cert.Lib.ReadFinal.ternary writes12 24 rfl (by decide) (by decide) (by decide) (by decide) U
theorem s12_main_v203 (U : Valuation τ sig (Elt F)) : StableHlo.after hostOps12 U (Proc.devRef .tc main_v203) = (broadcastInDim S300000x1 ![0] bcast_S300000_S300000x1_0 : (⟨S300000, .i32⟩ : BufTy).Contents (Elt F) → (⟨S300000x1, .i32⟩ : BufTy).Contents (Elt F)) (StableHlo.after hostOps12 U (Proc.devRef .tc main_v202)) :=
  Cert.Lib.ReadFinal.unary writes12 25 rfl (by decide) (by decide) U
theorem s12_main_v204 (U : Valuation τ sig (Elt F)) : StableHlo.after hostOps12 U (Proc.devRef .tc main_v204) = ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (StableHlo.after hostOps12 U (Proc.devRef .tc main_arg4)) (StableHlo.after hostOps12 U (Proc.devRef .tc main_v203)) :=
  Cert.Lib.ReadFinal.binary writes12 26 rfl (by decide) (by decide) (by decide) U
theorem s12_main_c_49 (U : Valuation τ sig (Elt F)) : StableHlo.after hostOps12 U (Proc.devRef .tc main_c_49) = (constantI S_ 32 0#32) :=
  Cert.Lib.ReadFinal.nullary writes12 27 rfl (by decide) U
theorem s12_main_v205 (U : Valuation τ sig (Elt F)) : StableHlo.after hostOps12 U (Proc.devRef .tc main_v205) = (broadcastInDim S300000 ![] bcast_S_S300000 : (⟨S_, .i32⟩ : BufTy).Contents (Elt F) → (⟨S300000, .i32⟩ : BufTy).Contents (Elt F)) (StableHlo.after hostOps12 U (Proc.devRef .tc main_c_49)) :=
  Cert.Lib.ReadFinal.unary writes12 28 rfl (by decide) (by decide) U
theorem s12_main_v206 (U : Valuation τ sig (Elt F)) : StableHlo.after hostOps12 U (Proc.devRef .tc main_v206) = (cmpi .slt : (⟨S300000, .i32⟩ : BufTy).Contents (Elt F) → (⟨S300000, .i32⟩ : BufTy).Contents (Elt F) → (⟨S300000, .i1⟩ : BufTy).Contents (Elt F)) (StableHlo.after hostOps12 U (Proc.devRef .tc main_v204)) (StableHlo.after hostOps12 U (Proc.devRef .tc main_v205)) :=
  Cert.Lib.ReadFinal.binary writes12 29 rfl (by decide) (by decide) (by decide) U
theorem s12_main_c_50 (U : Valuation τ sig (Elt F)) : StableHlo.after hostOps12 U (Proc.devRef .tc main_c_50) = (constantI S_ 32 64#32) :=
  Cert.Lib.ReadFinal.nullary writes12 30 rfl (by decide) U
theorem s12_main_v207 (U : Valuation τ sig (Elt F)) : StableHlo.after hostOps12 U (Proc.devRef .tc main_v207) = (broadcastInDim S300000 ![] bcast_S_S300000 : (⟨S_, .i32⟩ : BufTy).Contents (Elt F) → (⟨S300000, .i32⟩ : BufTy).Contents (Elt F)) (StableHlo.after hostOps12 U (Proc.devRef .tc main_c_50)) :=
  Cert.Lib.ReadFinal.unary writes12 31 rfl (by decide) (by decide) U
theorem s12_main_v208 (U : Valuation τ sig (Elt F)) : StableHlo.after hostOps12 U (Proc.devRef .tc main_v208) = (addi : (⟨S300000, .i32⟩ : BufTy).Contents (Elt F) → (⟨S300000, .i32⟩ : BufTy).Contents (Elt F) → (⟨S300000, .i32⟩ : BufTy).Contents (Elt F)) (StableHlo.after hostOps12 U (Proc.devRef .tc main_v204)) (StableHlo.after hostOps12 U (Proc.devRef .tc main_v207)) :=
  Cert.Lib.ReadFinal.binary writes12 32 rfl (by decide) (by decide) (by decide) U
theorem s12_main_v209 (U : Valuation τ sig (Elt F)) : StableHlo.after hostOps12 U (Proc.devRef .tc main_v209) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (StableHlo.after hostOps12 U (Proc.devRef .tc main_v206)) (StableHlo.after hostOps12 U (Proc.devRef .tc main_v208)) (StableHlo.after hostOps12 U (Proc.devRef .tc main_v204)) :=
  Cert.Lib.ReadFinal.ternary writes12 33 rfl (by decide) (by decide) (by decide) (by decide) U
theorem s12_main_v210 (U : Valuation τ sig (Elt F)) : StableHlo.after hostOps12 U (Proc.devRef .tc main_v210) = (broadcastInDim S300000x1 ![0] bcast_S300000_S300000x1_0 : (⟨S300000, .i32⟩ : BufTy).Contents (Elt F) → (⟨S300000x1, .i32⟩ : BufTy).Contents (Elt F)) (StableHlo.after hostOps12 U (Proc.devRef .tc main_v209)) :=
  Cert.Lib.ReadFinal.unary writes12 34 rfl (by decide) (by decide) U
theorem s12_main_v211 (U : Valuation τ sig (Elt F)) : StableHlo.after hostOps12 U (Proc.devRef .tc main_v211) = ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (StableHlo.after hostOps12 U (Proc.devRef .tc main_v183)) (StableHlo.after hostOps12 U (Proc.devRef .tc main_v210)) :=
  Cert.Lib.ReadFinal.binary writes12 35 rfl (by decide) (by decide) (by decide) U
theorem s12_main_v212 (U : Valuation τ sig (Elt F)) : StableHlo.after hostOps12 U (Proc.devRef .tc main_v212) = ((extractStridedSlice S64x64 ![0, 0] · slices_S256x64_S64x64_0_0) : (⟨S256x64, .f32⟩ : BufTy).Contents (Elt F) → (⟨S64x64, .f32⟩ : BufTy).Contents (Elt F)) (StableHlo.after hostOps12 U (Proc.devRef .tc main_arg23)) :=
  Cert.Lib.ReadFinal.unary writes12 36 rfl (by decide) (by decide) U
theorem s12_main_v213 (U : Valuation τ sig (Elt F)) : StableHlo.after hostOps12 U (Proc.devRef .tc main_v213) = ((extractStridedSlice S64x64 ![64, 0] · slices_S256x64_S64x64_64_0) : (⟨S256x64, .f32⟩ : BufTy).Contents (Elt F) → (⟨S64x64, .f32⟩ : BufTy).Contents (Elt F)) (StableHlo.after hostOps12 U (Proc.devRef .tc main_arg23)) :=
  Cert.Lib.ReadFinal.unary writes12 37 rfl (by decide) (by decide) U
theorem s12_main_v214 (U : Valuation τ sig (Elt F)) : StableHlo.after hostOps12 U (Proc.devRef .tc main_v214) = ((extractStridedSlice S64x64 ![128, 0] · slices_S256x64_S64x64_128_0) : (⟨S256x64, .f32⟩ : BufTy).Contents (Elt F) → (⟨S64x64, .f32⟩ : BufTy).Contents (Elt F)) (StableHlo.after hostOps12 U (Proc.devRef .tc main_arg23)) :=
  Cert.Lib.ReadFinal.unary writes12 38 rfl (by decide) (by decide) U
theorem s12_main_v215 (U : Valuation τ sig (Elt F)) : StableHlo.after hostOps12 U (Proc.devRef .tc main_v215) = ((extractStridedSlice S64x64 ![192, 0] · slices_S256x64_S64x64_192_0) : (⟨S256x64, .f32⟩ : BufTy).Contents (Elt F) → (⟨S64x64, .f32⟩ : BufTy).Contents (Elt F)) (StableHlo.after hostOps12 U (Proc.devRef .tc main_arg23)) :=
  Cert.Lib.ReadFinal.unary writes12 39 rfl (by decide) (by decide) U
theorem s12_main_v216 (U : Valuation τ sig (Elt F)) : StableHlo.after hostOps12 U (Proc.devRef .tc main_v216) = shapeCast S1x64 (StableHlo.after hostOps12 U (Proc.devRef .tc main_arg24)) shapeCasts_S64_S1x64 :=
  (Cert.Lib.ReadFinal.reshape writes12 40 rfl (by decide) (by decide) U).trans rfl

theorem writes13 : Writes (hostOps13 : List (HloOp τ sig (Elt F))) hostOps13_W := by
  unfold hostOps13 hostOps13_W; repeat' constructor
theorem s13_main_cst_51 (U : Valuation τ sig (Elt F)) : StableHlo.after hostOps13 U (Proc.devRef .tc main_cst_51) = (constant (F := F) S_ .f32 0x00000000#32) :=
  Cert.Lib.ReadFinal.nullary writes13 0 rfl (by decide) U
theorem s13_main_v218 (U : Valuation τ sig (Elt F)) : StableHlo.after hostOps13 U (Proc.devRef .tc main_v218) = (broadcastInDim S30000x64 ![] bcast_S_S30000x64 : (⟨S_, .f32⟩ : BufTy).Contents (Elt F) → (⟨S30000x64, .f32⟩ : BufTy).Contents (Elt F)) (StableHlo.after hostOps13 U (Proc.devRef .tc main_cst_51)) :=
  Cert.Lib.ReadFinal.unary writes13 1 rfl (by decide) (by decide) U
theorem s13_main_v219 (U : Valuation τ sig (Elt F)) : StableHlo.after hostOps13 U (Proc.devRef .tc main_v219) = (broadcastInDim S300000x1 ![0] bcast_S300000_S300000x1_0 : (⟨S300000, .i32⟩ : BufTy).Contents (Elt F) → (⟨S300000x1, .i32⟩ : BufTy).Contents (Elt F)) (StableHlo.after hostOps13 U (Proc.devRef .tc main_v3)) :=
  Cert.Lib.ReadFinal.unary writes13 2 rfl (by decide) (by decide) U
theorem s13_main_v220 (U : Valuation τ sig (Elt F)) : StableHlo.after hostOps13 U (Proc.devRef .tc main_v220) = ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (StableHlo.after hostOps13 U (Proc.devRef .tc main_v218)) (StableHlo.after hostOps13 U (Proc.devRef .tc main_v219)) (StableHlo.after hostOps13 U (Proc.devRef .tc main_v217)) :=
  Cert.Lib.ReadFinal.ternary writes13 3 rfl (by decide) (by decide) (by decide) (by decide) U
theorem s13_main_cst_52 (U : Valuation τ sig (Elt F)) : StableHlo.after hostOps13 U (Proc.devRef .tc main_cst_52) = (constant (F := F) S_ .f32 0x3F800000#32) :=
  Cert.Lib.ReadFinal.nullary writes13 4 rfl (by decide) U
theorem s13_main_v221 (U : Valuation τ sig (Elt F)) : StableHlo.after hostOps13 U (Proc.devRef .tc main_v221) = (broadcastInDim S300000x1 ![] bcast_S_S300000x1 : (⟨S_, .f32⟩ : BufTy).Contents (Elt F) → (⟨S300000x1, .f32⟩ : BufTy).Contents (Elt F)) (StableHlo.after hostOps13 U (Proc.devRef .tc main_cst_52)) :=
  Cert.Lib.ReadFinal.unary writes13 5 rfl (by decide) (by decide) U
theorem s13_main_cst_53 (U : Valuation τ sig (Elt F)) : StableHlo.after hostOps13 U (Proc.devRef .tc main_cst_53) = (constant (F := F) S_ .f32 0x00000000#32) :=
  Cert.Lib.ReadFinal.nullary writes13 6 rfl (by decide) U
theorem s13_main_v222 (U : Valuation τ sig (Elt F)) : StableHlo.after hostOps13 U (Proc.devRef .tc main_v222) = (broadcastInDim S30000x1 ![] bcast_S_S30000x1 : (⟨S_, .f32⟩ : BufTy).Contents (Elt F) → (⟨S30000x1, .f32⟩ : BufTy).Contents (Elt F)) (StableHlo.after hostOps13 U (Proc.devRef .tc main_cst_53)) :=
  Cert.Lib.ReadFinal.unary writes13 7 rfl (by decide) (by decide) U
theorem s13_main_v223 (U : Valuation τ sig (Elt F)) : StableHlo.after hostOps13 U (Proc.devRef .tc main_v223) = (broadcastInDim S300000x1 ![0] bcast_S300000_S300000x1_0 : (⟨S300000, .i32⟩ : BufTy).Contents (Elt F) → (⟨S300000x1, .i32⟩ : BufTy).Contents (Elt F)) (StableHlo.after hostOps13 U (Proc.devRef .tc main_v3)) :=
  Cert.Lib.ReadFinal.unary writes13 8 rfl (by decide) (by decide) U
theorem s13_main_v224 (U : Valuation τ sig (Elt F)) : StableHlo.after hostOps13 U (Proc.devRef .tc main_v224) = ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (StableHlo.after hostOps13 U (Proc.devRef .tc main_v222)) (StableHlo.after hostOps13 U (Proc.devRef .tc main_v223)) (StableHlo.after hostOps13 U (Proc.devRef .tc main_v221)) :=
  Cert.Lib.ReadFinal.ternary writes13 9 rfl (by decide) (by decide) (by decide) (by decide) U
theorem s13_main_cst_54 (U : Valuation τ sig (Elt F)) : StableHlo.after hostOps13 U (Proc.devRef .tc main_cst_54) = (constant (F := F) S_ .f32 0x3F800000#32) :=
  Cert.Lib.ReadFinal.nullary writes13 10 rfl (by decide) U
theorem s13_main_v225 (U : Valuation τ sig (Elt F)) : StableHlo.after hostOps13 U (Proc.devRef .tc main_v225) = (broadcastInDim S30000x1 ![] bcast_S_S30000x1 : (⟨S_, .f32⟩ : BufTy).Contents (Elt F) → (⟨S30000x1, .f32⟩ : BufTy).Contents (Elt F)) (StableHlo.after hostOps13 U (Proc.devRef .tc main_cst_54)) :=
  Cert.Lib.ReadFinal.unary writes13 11 rfl (by decide) (by decide) U
theorem s13_main_v226 (U : Valuation τ sig (Elt F)) : StableHlo.after hostOps13 U (Proc.devRef .tc main_v226) = (maximumf : (⟨S30000x1, .f32⟩ : BufTy).Contents (Elt F) → (⟨S30000x1, .f32⟩ : BufTy).Contents (Elt F) → (⟨S30000x1, .f32⟩ : BufTy).Contents (Elt F)) (StableHlo.after hostOps13 U (Proc.devRef .tc main_v224)) (StableHlo.after hostOps13 U (Proc.devRef .tc main_v225)) :=
  Cert.Lib.ReadFinal.binary writes13 12 rfl (by decide) (by decide) (by decide) U
theorem s13_main_v227 (U : Valuation τ sig (Elt F)) : StableHlo.after hostOps13 U (Proc.devRef .tc main_v227) = (broadcastInDim S30000x64 ![0, 1] bcast_S30000x1_S30000x64_0_1 : (⟨S30000x1, .f32⟩ : BufTy).Contents (Elt F) → (⟨S30000x64, .f32⟩ : BufTy).Contents (Elt F)) (StableHlo.after hostOps13 U (Proc.devRef .tc main_v226)) :=
  Cert.Lib.ReadFinal.unary writes13 13 rfl (by decide) (by decide) U
theorem s13_main_v228 (U : Valuation τ sig (Elt F)) : StableHlo.after hostOps13 U (Proc.devRef .tc main_v228) = (Host.divf : (⟨S30000x64, .f32⟩ : BufTy).Contents (Elt F) → (⟨S30000x64, .f32⟩ : BufTy).Contents (Elt F) → (⟨S30000x64, .f32⟩ : BufTy).Contents (Elt F)) (StableHlo.after hostOps13 U (Proc.devRef .tc main_v220)) (StableHlo.after hostOps13 U (Proc.devRef .tc main_v227)) :=
  Cert.Lib.ReadFinal.binary writes13 14 rfl (by decide) (by decide) (by decide) U
theorem s13_main_c_55 (U : Valuation τ sig (Elt F)) : StableHlo.after hostOps13 U (Proc.devRef .tc main_c_55) = (constantI S_ 32 0#32) :=
  Cert.Lib.ReadFinal.nullary writes13 15 rfl (by decide) U
theorem s13_main_v229 (U : Valuation τ sig (Elt F)) : StableHlo.after hostOps13 U (Proc.devRef .tc main_v229) = (broadcastInDim S30000 ![] bcast_S_S30000 : (⟨S_, .i32⟩ : BufTy).Contents (Elt F) → (⟨S30000, .i32⟩ : BufTy).Contents (Elt F)) (StableHlo.after hostOps13 U (Proc.devRef .tc main_c_55)) :=
  Cert.Lib.ReadFinal.unary writes13 16 rfl (by decide) (by decide) U
theorem s13_main_v230 (U : Valuation τ sig (Elt F)) : StableHlo.after hostOps13 U (Proc.devRef .tc main_v230) = (cmpi .slt : (⟨S30000, .i32⟩ : BufTy).Contents (Elt F) → (⟨S30000, .i32⟩ : BufTy).Contents (Elt F) → (⟨S30000, .i1⟩ : BufTy).Contents (Elt F)) (StableHlo.after hostOps13 U (Proc.devRef .tc main_arg4)) (StableHlo.after hostOps13 U (Proc.devRef .tc main_v229)) :=
  Cert.Lib.ReadFinal.binary writes13 17 rfl (by decide) (by decide) (by decide) U
theorem s13_main_c_56 (U : Valuation τ sig (Elt F)) : StableHlo.after hostOps13 U (Proc.devRef .tc main_c_56) = (constantI S_ 32 64#32) :=
  Cert.Lib.ReadFinal.nullary writes13 18 rfl (by decide) U
theorem s13_main_v231 (U : Valuation τ sig (Elt F)) : StableHlo.after hostOps13 U (Proc.devRef .tc main_v231) = (broadcastInDim S30000 ![] bcast_S_S30000 : (⟨S_, .i32⟩ : BufTy).Contents (Elt F) → (⟨S30000, .i32⟩ : BufTy).Contents (Elt F)) (StableHlo.after hostOps13 U (Proc.devRef .tc main_c_56)) :=
  Cert.Lib.ReadFinal.unary writes13 19 rfl (by decide) (by decide) U
theorem s13_main_v232 (U : Valuation τ sig (Elt F)) : StableHlo.after hostOps13 U (Proc.devRef .tc main_v232) = (addi : (⟨S30000, .i32⟩ : BufTy).Contents (Elt F) → (⟨S30000, .i32⟩ : BufTy).Contents (Elt F) → (⟨S30000, .i32⟩ : BufTy).Contents (Elt F)) (StableHlo.after hostOps13 U (Proc.devRef .tc main_arg4)) (StableHlo.after hostOps13 U (Proc.devRef .tc main_v231)) :=
  Cert.Lib.ReadFinal.binary writes13 20 rfl (by decide) (by decide) (by decide) U
theorem s13_main_v233 (U : Valuation τ sig (Elt F)) : StableHlo.after hostOps13 U (Proc.devRef .tc main_v233) = (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (StableHlo.after hostOps13 U (Proc.devRef .tc main_v230)) (StableHlo.after hostOps13 U (Proc.devRef .tc main_v232)) (StableHlo.after hostOps13 U (Proc.devRef .tc main_arg4)) :=
  Cert.Lib.ReadFinal.ternary writes13 21 rfl (by decide) (by decide) (by decide) (by decide) U
theorem s13_main_v234 (U : Valuation τ sig (Elt F)) : StableHlo.after hostOps13 U (Proc.devRef .tc main_v234) = (broadcastInDim S30000x1 ![0] bcast_S30000_S30000x1_0 : (⟨S30000, .i32⟩ : BufTy).Contents (Elt F) → (⟨S30000x1, .i32⟩ : BufTy).Contents (Elt F)) (StableHlo.after hostOps13 U (Proc.devRef .tc main_v233)) :=
  Cert.Lib.ReadFinal.unary writes13 22 rfl (by decide) (by decide) U
theorem s13_main_v235 (U : Valuation τ sig (Elt F)) : StableHlo.after hostOps13 U (Proc.devRef .tc main_v235) = ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (StableHlo.after hostOps13 U (Proc.devRef .tc main_v183)) (StableHlo.after hostOps13 U (Proc.devRef .tc main_v234)) :=
  Cert.Lib.ReadFinal.binary writes13 23 rfl (by decide) (by decide) (by decide) U
theorem s13_main_v236 (U : Valuation τ sig (Elt F)) : StableHlo.after hostOps13 U (Proc.devRef .tc main_v236) = ((extractStridedSlice S64x64 ![0, 0] · slices_S192x64_S64x64_0_0) : (⟨S192x64, .f32⟩ : BufTy).Contents (Elt F) → (⟨S64x64, .f32⟩ : BufTy).Contents (Elt F)) (StableHlo.after hostOps13 U (Proc.devRef .tc main_arg25)) :=
  Cert.Lib.ReadFinal.unary writes13 24 rfl (by decide) (by decide) U
theorem s13_main_v237 (U : Valuation τ sig (Elt F)) : StableHlo.after hostOps13 U (Proc.devRef .tc main_v237) = ((extractStridedSlice S64x64 ![64, 0] · slices_S192x64_S64x64_64_0) : (⟨S192x64, .f32⟩ : BufTy).Contents (Elt F) → (⟨S64x64, .f32⟩ : BufTy).Contents (Elt F)) (StableHlo.after hostOps13 U (Proc.devRef .tc main_arg25)) :=
  Cert.Lib.ReadFinal.unary writes13 25 rfl (by decide) (by decide) U
theorem s13_main_v238 (U : Valuation τ sig (Elt F)) : StableHlo.after hostOps13 U (Proc.devRef .tc main_v238) = ((extractStridedSlice S64x64 ![128, 0] · slices_S192x64_S64x64_128_0) : (⟨S192x64, .f32⟩ : BufTy).Contents (Elt F) → (⟨S64x64, .f32⟩ : BufTy).Contents (Elt F)) (StableHlo.after hostOps13 U (Proc.devRef .tc main_arg25)) :=
  Cert.Lib.ReadFinal.unary writes13 26 rfl (by decide) (by decide) U
theorem s13_main_v239 (U : Valuation τ sig (Elt F)) : StableHlo.after hostOps13 U (Proc.devRef .tc main_v239) = shapeCast S1x64 (StableHlo.after hostOps13 U (Proc.devRef .tc main_arg26)) shapeCasts_S64_S1x64 :=
  (Cert.Lib.ReadFinal.reshape writes13 27 rfl (by decide) (by decide) U).trans rfl

theorem writes14 : Writes (hostOps14 : List (HloOp τ sig (Elt F))) hostOps14_W := by
  unfold hostOps14 hostOps14_W; repeat' constructor
theorem s14_main_cst_57 (U : Valuation τ sig (Elt F)) : StableHlo.after hostOps14 U (Proc.devRef .tc main_cst_57) = (constant (F := F) S_ .f32 0x00000000#32) :=
  Cert.Lib.ReadFinal.nullary writes14 0 rfl (by decide) U
theorem s14_main_v241 (U : Valuation τ sig (Elt F)) : StableHlo.after hostOps14 U (Proc.devRef .tc main_v241) = (broadcastInDim S64x64 ![] bcast_S_S64x64 : (⟨S_, .f32⟩ : BufTy).Contents (Elt F) → (⟨S64x64, .f32⟩ : BufTy).Contents (Elt F)) (StableHlo.after hostOps14 U (Proc.devRef .tc main_cst_57)) :=
  Cert.Lib.ReadFinal.unary writes14 1 rfl (by decide) (by decide) U
theorem s14_main_v242 (U : Valuation τ sig (Elt F)) : StableHlo.after hostOps14 U (Proc.devRef .tc main_v242) = (broadcastInDim S30000x1 ![0] bcast_S30000_S30000x1_0 : (⟨S30000, .i32⟩ : BufTy).Contents (Elt F) → (⟨S30000x1, .i32⟩ : BufTy).Contents (Elt F)) (StableHlo.after hostOps14 U (Proc.devRef .tc main_arg4)) :=
  Cert.Lib.ReadFinal.unary writes14 2 rfl (by decide) (by decide) U
theorem s14_main_v243 (U : Valuation τ sig (Elt F)) : StableHlo.after hostOps14 U (Proc.devRef .tc main_v243) = ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (StableHlo.after hostOps14 U (Proc.devRef .tc main_v241)) (StableHlo.after hostOps14 U (Proc.devRef .tc main_v242)) (StableHlo.after hostOps14 U (Proc.devRef .tc main_v240)) :=
  Cert.Lib.ReadFinal.ternary writes14 3 rfl (by decide) (by decide) (by decide) (by decide) U
theorem s14_main_cst_58 (U : Valuation τ sig (Elt F)) : StableHlo.after hostOps14 U (Proc.devRef .tc main_cst_58) = (constant (F := F) S_ .f32 0x3F800000#32) :=
  Cert.Lib.ReadFinal.nullary writes14 4 rfl (by decide) U
theorem s14_main_v244 (U : Valuation τ sig (Elt F)) : StableHlo.after hostOps14 U (Proc.devRef .tc main_v244) = (broadcastInDim S30000x1 ![] bcast_S_S30000x1 : (⟨S_, .f32⟩ : BufTy).Contents (Elt F) → (⟨S30000x1, .f32⟩ : BufTy).Contents (Elt F)) (StableHlo.after hostOps14 U (Proc.devRef .tc main_cst_58)) :=
  Cert.Lib.ReadFinal.unary writes14 5 rfl (by decide) (by decide) U
theorem s14_main_cst_59 (U : Valuation τ sig (Elt F)) : StableHlo.after hostOps14 U (Proc.devRef .tc main_cst_59) = (constant (F := F) S_ .f32 0x00000000#32) :=
  Cert.Lib.ReadFinal.nullary writes14 6 rfl (by decide) U
theorem s14_main_v245 (U : Valuation τ sig (Elt F)) : StableHlo.after hostOps14 U (Proc.devRef .tc main_v245) = (broadcastInDim S64x1 ![] bcast_S_S64x1 : (⟨S_, .f32⟩ : BufTy).Contents (Elt F) → (⟨S64x1, .f32⟩ : BufTy).Contents (Elt F)) (StableHlo.after hostOps14 U (Proc.devRef .tc main_cst_59)) :=
  Cert.Lib.ReadFinal.unary writes14 7 rfl (by decide) (by decide) U
theorem s14_main_v246 (U : Valuation τ sig (Elt F)) : StableHlo.after hostOps14 U (Proc.devRef .tc main_v246) = (broadcastInDim S30000x1 ![0] bcast_S30000_S30000x1_0 : (⟨S30000, .i32⟩ : BufTy).Contents (Elt F) → (⟨S30000x1, .i32⟩ : BufTy).Contents (Elt F)) (StableHlo.after hostOps14 U (Proc.devRef .tc main_arg4)) :=
  Cert.Lib.ReadFinal.unary writes14 8 rfl (by decide) (by decide) U
theorem s14_main_v247 (U : Valuation τ sig (Elt F)) : StableHlo.after hostOps14 U (Proc.devRef .tc main_v247) = ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (StableHlo.after hostOps14 U (Proc.devRef .tc main_v245)) (StableHlo.after hostOps14 U (Proc.devRef .tc main_v246)) (StableHlo.after hostOps14 U (Proc.devRef .tc main_v244)) :=
  Cert.Lib.ReadFinal.ternary writes14 9 rfl (by decide) (by decide) (by decide) (by decide) U
theorem s14_main_cst_60 (U : Valuation τ sig (Elt F)) : StableHlo.after hostOps14 U (Proc.devRef .tc main_cst_60) = (constant (F := F) S_ .f32 0x3F800000#32) :=
  Cert.Lib.ReadFinal.nullary writes14 10 rfl (by decide) U
theorem s14_main_v248 (U : Valuation τ sig (Elt F)) : StableHlo.after hostOps14 U (Proc.devRef .tc main_v248) = (broadcastInDim S64x1 ![] bcast_S_S64x1 : (⟨S_, .f32⟩ : BufTy).Contents (Elt F) → (⟨S64x1, .f32⟩ : BufTy).Contents (Elt F)) (StableHlo.after hostOps14 U (Proc.devRef .tc main_cst_60)) :=
  Cert.Lib.ReadFinal.unary writes14 11 rfl (by decide) (by decide) U
theorem s14_main_v249 (U : Valuation τ sig (Elt F)) : StableHlo.after hostOps14 U (Proc.devRef .tc main_v249) = (maximumf : (⟨S64x1, .f32⟩ : BufTy).Contents (Elt F) → (⟨S64x1, .f32⟩ : BufTy).Contents (Elt F) → (⟨S64x1, .f32⟩ : BufTy).Contents (Elt F)) (StableHlo.after hostOps14 U (Proc.devRef .tc main_v247)) (StableHlo.after hostOps14 U (Proc.devRef .tc main_v248)) :=
  Cert.Lib.ReadFinal.binary writes14 12 rfl (by decide) (by decide) (by decide) U
theorem s14_main_v250 (U : Valuation τ sig (Elt F)) : StableHlo.after hostOps14 U (Proc.devRef .tc main_v250) = (broadcastInDim S64x64 ![0, 1] bcast_S64x1_S64x64_0_1 : (⟨S64x1, .f32⟩ : BufTy).Contents (Elt F) → (⟨S64x64, .f32⟩ : BufTy).Contents (Elt F)) (StableHlo.after hostOps14 U (Proc.devRef .tc main_v249)) :=
  Cert.Lib.ReadFinal.unary writes14 13 rfl (by decide) (by decide) U
theorem s14_main_v251 (U : Valuation τ sig (Elt F)) : StableHlo.after hostOps14 U (Proc.devRef .tc main_v251) = (Host.divf : (⟨S64x64, .f32⟩ : BufTy).Contents (Elt F) → (⟨S64x64, .f32⟩ : BufTy).Contents (Elt F) → (⟨S64x64, .f32⟩ : BufTy).Contents (Elt F)) (StableHlo.after hostOps14 U (Proc.devRef .tc main_v243)) (StableHlo.after hostOps14 U (Proc.devRef .tc main_v250)) :=
  Cert.Lib.ReadFinal.binary writes14 14 rfl (by decide) (by decide) (by decide) U
theorem s14_main_v252 (U : Valuation τ sig (Elt F)) : StableHlo.after hostOps14 U (Proc.devRef .tc main_v252) = ((extractStridedSlice S64x64 ![0, 0] · slices_S128x64_S64x64_0_0) : (⟨S128x64, .f32⟩ : BufTy).Contents (Elt F) → (⟨S64x64, .f32⟩ : BufTy).Contents (Elt F)) (StableHlo.after hostOps14 U (Proc.devRef .tc main_arg27)) :=
  Cert.Lib.ReadFinal.unary writes14 15 rfl (by decide) (by decide) U
theorem s14_main_v253 (U : Valuation τ sig (Elt F)) : StableHlo.after hostOps14 U (Proc.devRef .tc main_v253) = ((extractStridedSlice S64x64 ![64, 0] · slices_S128x64_S64x64_64_0) : (⟨S128x64, .f32⟩ : BufTy).Contents (Elt F) → (⟨S64x64, .f32⟩ : BufTy).Contents (Elt F)) (StableHlo.after hostOps14 U (Proc.devRef .tc main_arg27)) :=
  Cert.Lib.ReadFinal.unary writes14 16 rfl (by decide) (by decide) U
theorem s14_main_v254 (U : Valuation τ sig (Elt F)) : StableHlo.after hostOps14 U (Proc.devRef .tc main_v254) = shapeCast S1x64 (StableHlo.after hostOps14 U (Proc.devRef .tc main_arg28)) shapeCasts_S64_S1x64 :=
  (Cert.Lib.ReadFinal.reshape writes14 17 rfl (by decide) (by decide) U).trans rfl

variable (m : (ℓ : Loc nD τ sig) → Buf (Elt F) ℓ)

/-! ## Each buffer as a closed term -/

theorem v_main_cst (c : Dev nD) : U3 m c main_cst = (constant (F := F) S_ .f32 0x46EA6000#32) :=
  s1_main_cst (W2 m c)
theorem v_main_v5 (c : Dev nD) : U3 m c main_v5 = ((broadcastInDim S1x64 ![] bcast_S_S1x64 : (⟨S_, .f32⟩ : BufTy).Contents (Elt F) → (⟨S1x64, .f32⟩ : BufTy).Contents (Elt F)) (constant (F := F) S_ .f32 0x46EA6000#32)) :=
  (s1_main_v5 (W2 m c)).trans (congrArg (broadcastInDim S1x64 ![] bcast_S_S1x64 : (⟨S_, .f32⟩ : BufTy).Contents (Elt F) → (⟨S1x64, .f32⟩ : BufTy).Contents (Elt F)) (v_main_cst m c))
theorem v_main_v6 (c : Dev nD) : U3 m c main_v6 = ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))) :=
  (s1_main_v6 (W2 m c)).trans (congrArg₂ (Host.divf : (⟨S1x64, .f32⟩ : BufTy).Contents (Elt F) → (⟨S1x64, .f32⟩ : BufTy).Contents (Elt F) → (⟨S1x64, .f32⟩ : BufTy).Contents (Elt F)) ((W3_keep m c main_v4_0 (by decide))) (v_main_v5 m c))
theorem v_main_cst_0 (c : Dev nD) : U3 m c main_cst_0 = (constant (F := F) S_ .f32 0x46EA6000#32) :=
  s1_main_cst_0 (W2 m c)
theorem v_main_v7 (c : Dev nD) : U3 m c main_v7 = ((broadcastInDim S1x64 ![] bcast_S_S1x64 : (⟨S_, .f32⟩ : BufTy).Contents (Elt F) → (⟨S1x64, .f32⟩ : BufTy).Contents (Elt F)) (constant (F := F) S_ .f32 0x46EA6000#32)) :=
  (s1_main_v7 (W2 m c)).trans (congrArg (broadcastInDim S1x64 ![] bcast_S_S1x64 : (⟨S_, .f32⟩ : BufTy).Contents (Elt F) → (⟨S1x64, .f32⟩ : BufTy).Contents (Elt F)) (v_main_cst_0 m c))
theorem v_main_v8 (c : Dev nD) : U3 m c main_v8 = ((Host.divf : (⟨S1x64, .f32⟩ : BufTy).Contents (Elt F) → (⟨S1x64, .f32⟩ : BufTy).Contents (Elt F) → (⟨S1x64, .f32⟩ : BufTy).Contents (Elt F)) (U2 m c main_v4_1) ((broadcastInDim S1x64 ![] bcast_S_S1x64 : (⟨S_, .f32⟩ : BufTy).Contents (Elt F) → (⟨S1x64, .f32⟩ : BufTy).Contents (Elt F)) (constant (F := F) S_ .f32 0x46EA6000#32))) :=
  (s1_main_v8 (W2 m c)).trans (congrArg₂ (Host.divf : (⟨S1x64, .f32⟩ : BufTy).Contents (Elt F) → (⟨S1x64, .f32⟩ : BufTy).Contents (Elt F) → (⟨S1x64, .f32⟩ : BufTy).Contents (Elt F)) ((W3_keep m c main_v4_1 (by decide))) (v_main_v7 m c))
theorem v_main_v9 (c : Dev nD) : U3 m c main_v9 = ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32)))) :=
  (s1_main_v9 (W2 m c)).trans (congrArg₂ (mulf : (⟨S1x64, .f32⟩ : BufTy).Contents (Elt F) → (⟨S1x64, .f32⟩ : BufTy).Contents (Elt F) → (⟨S1x64, .f32⟩ : BufTy).Contents (Elt F)) (v_main_v6 m c) (v_main_v6 m c))
theorem v_main_v10 (c : Dev nD) : U3 m c main_v10 = ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_1) ((broadcastInDim S1x64 ![] bcast_S_S1x64 : (⟨S_, .f32⟩ : BufTy).Contents (Elt F) → (⟨S1x64, .f32⟩ : BufTy).Contents (Elt F)) (constant (F := F) S_ .f32 0x46EA6000#32))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))))) :=
  (s1_main_v10 (W2 m c)).trans (congrArg₂ (subf : (⟨S1x64, .f32⟩ : BufTy).Contents (Elt F) → (⟨S1x64, .f32⟩ : BufTy).Contents (Elt F) → (⟨S1x64, .f32⟩ : BufTy).Contents (Elt F)) (v_main_v8 m c) (v_main_v9 m c))
theorem v_main_cst_1 (c : Dev nD) : U3 m c main_cst_1 = (constant (F := F) S_ .f32 0x00000000#32) :=
  s1_main_cst_1 (W2 m c)
theorem v_main_v11 (c : Dev nD) : U3 m c main_v11 = ((broadcastInDim S1x64 ![] bcast_S_S1x64 : (⟨S_, .f32⟩ : BufTy).Contents (Elt F) → (⟨S1x64, .f32⟩ : BufTy).Contents (Elt F)) (constant (F := F) S_ .f32 0x00000000#32)) :=
  (s1_main_v11 (W2 m c)).trans (congrArg (broadcastInDim S1x64 ![] bcast_S_S1x64 : (⟨S_, .f32⟩ : BufTy).Contents (Elt F) → (⟨S1x64, .f32⟩ : BufTy).Contents (Elt F)) (v_main_cst_1 m c))
theorem v_main_v12 (c : Dev nD) : U3 m c main_v12 = ((maximumf : (⟨S1x64, .f32⟩ : BufTy).Contents (Elt F) → (⟨S1x64, .f32⟩ : BufTy).Contents (Elt F) → (⟨S1x64, .f32⟩ : BufTy).Contents (Elt F)) ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_1) ((broadcastInDim S1x64 ![] bcast_S_S1x64 : (⟨S_, .f32⟩ : BufTy).Contents (Elt F) → (⟨S1x64, .f32⟩ : BufTy).Contents (Elt F)) (constant (F := F) S_ .f32 0x46EA6000#32))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))))) ((broadcastInDim S1x64 ![] bcast_S_S1x64 : (⟨S_, .f32⟩ : BufTy).Contents (Elt F) → (⟨S1x64, .f32⟩ : BufTy).Contents (Elt F)) (constant (F := F) S_ .f32 0x00000000#32))) :=
  (s1_main_v12 (W2 m c)).trans (congrArg₂ (maximumf : (⟨S1x64, .f32⟩ : BufTy).Contents (Elt F) → (⟨S1x64, .f32⟩ : BufTy).Contents (Elt F) → (⟨S1x64, .f32⟩ : BufTy).Contents (Elt F)) (v_main_v10 m c) (v_main_v11 m c))
theorem v_main_v13 (c : Dev nD) : U3 m c main_v13 = (shapeCast S1x64 (U0 m c main_arg5) shapeCasts_S64_S1x64) :=
  (s1_main_v13 (W2 m c)).trans (congrArg (fun z => shapeCast S1x64 z shapeCasts_S64_S1x64) ((W3_keep m c main_arg5 (by decide)) |>.trans <| (W2_keep m c main_arg5 (by decide)) |>.trans <| (W1_keep m c main_arg5 (by decide))))
theorem v_main_v14 (c : Dev nD) : U3 m c main_v14 = (shapeCast S1x64 (U0 m c main_arg6) shapeCasts_S64_S1x64) :=
  (s1_main_v14 (W2 m c)).trans (congrArg (fun z => shapeCast S1x64 z shapeCasts_S64_S1x64) ((W3_keep m c main_arg6 (by decide)) |>.trans <| (W2_keep m c main_arg6 (by decide)) |>.trans <| (W1_keep m c main_arg6 (by decide))))
theorem v_main_cst_2 (c : Dev nD) : U6 m c main_cst_2 = (constant (F := F) S_ .f32 0x48927C00#32) :=
  s3_main_cst_2 (W5 m c)
theorem v_main_v17 (c : Dev nD) : U6 m c main_v17 = ((broadcastInDim S1x32 ![] bcast_S_S1x32 : (⟨S_, .f32⟩ : BufTy).Contents (Elt F) → (⟨S1x32, .f32⟩ : BufTy).Contents (Elt F)) (constant (F := F) S_ .f32 0x48927C00#32)) :=
  (s3_main_v17 (W5 m c)).trans (congrArg (broadcastInDim S1x32 ![] bcast_S_S1x32 : (⟨S_, .f32⟩ : BufTy).Contents (Elt F) → (⟨S1x32, .f32⟩ : BufTy).Contents (Elt F)) (v_main_cst_2 m c))
theorem v_main_v18 (c : Dev nD) : U6 m c main_v18 = ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))) :=
  (s3_main_v18 (W5 m c)).trans (congrArg₂ (Host.divf : (⟨S1x32, .f32⟩ : BufTy).Contents (Elt F) → (⟨S1x32, .f32⟩ : BufTy).Contents (Elt F) → (⟨S1x32, .f32⟩ : BufTy).Contents (Elt F)) ((W6_keep m c main_v16_0 (by decide))) (v_main_v17 m c))
theorem v_main_cst_3 (c : Dev nD) : U6 m c main_cst_3 = (constant (F := F) S_ .f32 0x48927C00#32) :=
  s3_main_cst_3 (W5 m c)
theorem v_main_v19 (c : Dev nD) : U6 m c main_v19 = ((broadcastInDim S1x32 ![] bcast_S_S1x32 : (⟨S_, .f32⟩ : BufTy).Contents (Elt F) → (⟨S1x32, .f32⟩ : BufTy).Contents (Elt F)) (constant (F := F) S_ .f32 0x48927C00#32)) :=
  (s3_main_v19 (W5 m c)).trans (congrArg (broadcastInDim S1x32 ![] bcast_S_S1x32 : (⟨S_, .f32⟩ : BufTy).Contents (Elt F) → (⟨S1x32, .f32⟩ : BufTy).Contents (Elt F)) (v_main_cst_3 m c))
theorem v_main_v20 (c : Dev nD) : U6 m c main_v20 = ((Host.divf : (⟨S1x32, .f32⟩ : BufTy).Contents (Elt F) → (⟨S1x32, .f32⟩ : BufTy).Contents (Elt F) → (⟨S1x32, .f32⟩ : BufTy).Contents (Elt F)) (U5 m c main_v16_1) ((broadcastInDim S1x32 ![] bcast_S_S1x32 : (⟨S_, .f32⟩ : BufTy).Contents (Elt F) → (⟨S1x32, .f32⟩ : BufTy).Contents (Elt F)) (constant (F := F) S_ .f32 0x48927C00#32))) :=
  (s3_main_v20 (W5 m c)).trans (congrArg₂ (Host.divf : (⟨S1x32, .f32⟩ : BufTy).Contents (Elt F) → (⟨S1x32, .f32⟩ : BufTy).Contents (Elt F) → (⟨S1x32, .f32⟩ : BufTy).Contents (Elt F)) ((W6_keep m c main_v16_1 (by decide))) (v_main_v19 m c))
theorem v_main_v21 (c : Dev nD) : U6 m c main_v21 = ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32)))) :=
  (s3_main_v21 (W5 m c)).trans (congrArg₂ (mulf : (⟨S1x32, .f32⟩ : BufTy).Contents (Elt F) → (⟨S1x32, .f32⟩ : BufTy).Contents (Elt F) → (⟨S1x32, .f32⟩ : BufTy).Contents (Elt F)) (v_main_v18 m c) (v_main_v18 m c))
theorem v_main_v22 (c : Dev nD) : U6 m c main_v22 = ((subf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_1) ((broadcastInDim S1x32 ![] bcast_S_S1x32 : (⟨S_, .f32⟩ : BufTy).Contents (Elt F) → (⟨S1x32, .f32⟩ : BufTy).Contents (Elt F)) (constant (F := F) S_ .f32 0x48927C00#32))) ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))))) :=
  (s3_main_v22 (W5 m c)).trans (congrArg₂ (subf : (⟨S1x32, .f32⟩ : BufTy).Contents (Elt F) → (⟨S1x32, .f32⟩ : BufTy).Contents (Elt F) → (⟨S1x32, .f32⟩ : BufTy).Contents (Elt F)) (v_main_v20 m c) (v_main_v21 m c))
theorem v_main_cst_4 (c : Dev nD) : U6 m c main_cst_4 = (constant (F := F) S_ .f32 0x00000000#32) :=
  s3_main_cst_4 (W5 m c)
theorem v_main_v23 (c : Dev nD) : U6 m c main_v23 = ((broadcastInDim S1x32 ![] bcast_S_S1x32 : (⟨S_, .f32⟩ : BufTy).Contents (Elt F) → (⟨S1x32, .f32⟩ : BufTy).Contents (Elt F)) (constant (F := F) S_ .f32 0x00000000#32)) :=
  (s3_main_v23 (W5 m c)).trans (congrArg (broadcastInDim S1x32 ![] bcast_S_S1x32 : (⟨S_, .f32⟩ : BufTy).Contents (Elt F) → (⟨S1x32, .f32⟩ : BufTy).Contents (Elt F)) (v_main_cst_4 m c))
theorem v_main_v24 (c : Dev nD) : U6 m c main_v24 = ((maximumf : (⟨S1x32, .f32⟩ : BufTy).Contents (Elt F) → (⟨S1x32, .f32⟩ : BufTy).Contents (Elt F) → (⟨S1x32, .f32⟩ : BufTy).Contents (Elt F)) ((subf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_1) ((broadcastInDim S1x32 ![] bcast_S_S1x32 : (⟨S_, .f32⟩ : BufTy).Contents (Elt F) → (⟨S1x32, .f32⟩ : BufTy).Contents (Elt F)) (constant (F := F) S_ .f32 0x48927C00#32))) ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))))) ((broadcastInDim S1x32 ![] bcast_S_S1x32 : (⟨S_, .f32⟩ : BufTy).Contents (Elt F) → (⟨S1x32, .f32⟩ : BufTy).Contents (Elt F)) (constant (F := F) S_ .f32 0x00000000#32))) :=
  (s3_main_v24 (W5 m c)).trans (congrArg₂ (maximumf : (⟨S1x32, .f32⟩ : BufTy).Contents (Elt F) → (⟨S1x32, .f32⟩ : BufTy).Contents (Elt F) → (⟨S1x32, .f32⟩ : BufTy).Contents (Elt F)) (v_main_v22 m c) (v_main_v23 m c))
theorem v_main_v25 (c : Dev nD) : U6 m c main_v25 = (shapeCast S1x32 (U0 m c main_arg7) shapeCasts_S32_S1x32) :=
  (s3_main_v25 (W5 m c)).trans (congrArg (fun z => shapeCast S1x32 z shapeCasts_S32_S1x32) ((W6_keep m c main_arg7 (by decide)) |>.trans <| (W5_keep m c main_arg7 (by decide)) |>.trans <| (W4_keep m c main_arg7 (by decide)) |>.trans <| (W3_keep m c main_arg7 (by decide)) |>.trans <| (W2_keep m c main_arg7 (by decide)) |>.trans <| (W1_keep m c main_arg7 (by decide))))
theorem v_main_v26 (c : Dev nD) : U6 m c main_v26 = (shapeCast S1x32 (U0 m c main_arg8) shapeCasts_S32_S1x32) :=
  (s3_main_v26 (W5 m c)).trans (congrArg (fun z => shapeCast S1x32 z shapeCasts_S32_S1x32) ((W6_keep m c main_arg8 (by decide)) |>.trans <| (W5_keep m c main_arg8 (by decide)) |>.trans <| (W4_keep m c main_arg8 (by decide)) |>.trans <| (W3_keep m c main_arg8 (by decide)) |>.trans <| (W2_keep m c main_arg8 (by decide)) |>.trans <| (W1_keep m c main_arg8 (by decide))))
theorem v_main_cst_5 (c : Dev nD) : U9 m c main_cst_5 = (constant (F := F) S_ .f32 0x42800000#32) :=
  s5_main_cst_5 (W8 m c)
theorem v_main_v29 (c : Dev nD) : U9 m c main_v29 = ((broadcastInDim S1x32 ![] bcast_S_S1x32 : (⟨S_, .f32⟩ : BufTy).Contents (Elt F) → (⟨S1x32, .f32⟩ : BufTy).Contents (Elt F)) (constant (F := F) S_ .f32 0x42800000#32)) :=
  (s5_main_v29 (W8 m c)).trans (congrArg (broadcastInDim S1x32 ![] bcast_S_S1x32 : (⟨S_, .f32⟩ : BufTy).Contents (Elt F) → (⟨S1x32, .f32⟩ : BufTy).Contents (Elt F)) (v_main_cst_5 m c))
theorem v_main_v30 (c : Dev nD) : U9 m c main_v30 = ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))) :=
  (s5_main_v30 (W8 m c)).trans (congrArg₂ (Host.divf : (⟨S1x32, .f32⟩ : BufTy).Contents (Elt F) → (⟨S1x32, .f32⟩ : BufTy).Contents (Elt F) → (⟨S1x32, .f32⟩ : BufTy).Contents (Elt F)) ((W9_keep m c main_v28_0 (by decide))) (v_main_v29 m c))
theorem v_main_cst_6 (c : Dev nD) : U9 m c main_cst_6 = (constant (F := F) S_ .f32 0x42800000#32) :=
  s5_main_cst_6 (W8 m c)
theorem v_main_v31 (c : Dev nD) : U9 m c main_v31 = ((broadcastInDim S1x32 ![] bcast_S_S1x32 : (⟨S_, .f32⟩ : BufTy).Contents (Elt F) → (⟨S1x32, .f32⟩ : BufTy).Contents (Elt F)) (constant (F := F) S_ .f32 0x42800000#32)) :=
  (s5_main_v31 (W8 m c)).trans (congrArg (broadcastInDim S1x32 ![] bcast_S_S1x32 : (⟨S_, .f32⟩ : BufTy).Contents (Elt F) → (⟨S1x32, .f32⟩ : BufTy).Contents (Elt F)) (v_main_cst_6 m c))
theorem v_main_v32 (c : Dev nD) : U9 m c main_v32 = ((Host.divf : (⟨S1x32, .f32⟩ : BufTy).Contents (Elt F) → (⟨S1x32, .f32⟩ : BufTy).Contents (Elt F) → (⟨S1x32, .f32⟩ : BufTy).Contents (Elt F)) (U8 m c main_v28_1) ((broadcastInDim S1x32 ![] bcast_S_S1x32 : (⟨S_, .f32⟩ : BufTy).Contents (Elt F) → (⟨S1x32, .f32⟩ : BufTy).Contents (Elt F)) (constant (F := F) S_ .f32 0x42800000#32))) :=
  (s5_main_v32 (W8 m c)).trans (congrArg₂ (Host.divf : (⟨S1x32, .f32⟩ : BufTy).Contents (Elt F) → (⟨S1x32, .f32⟩ : BufTy).Contents (Elt F) → (⟨S1x32, .f32⟩ : BufTy).Contents (Elt F)) ((W9_keep m c main_v28_1 (by decide))) (v_main_v31 m c))
theorem v_main_v33 (c : Dev nD) : U9 m c main_v33 = ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32)))) :=
  (s5_main_v33 (W8 m c)).trans (congrArg₂ (mulf : (⟨S1x32, .f32⟩ : BufTy).Contents (Elt F) → (⟨S1x32, .f32⟩ : BufTy).Contents (Elt F) → (⟨S1x32, .f32⟩ : BufTy).Contents (Elt F)) (v_main_v30 m c) (v_main_v30 m c))
theorem v_main_v34 (c : Dev nD) : U9 m c main_v34 = ((subf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_1) ((broadcastInDim S1x32 ![] bcast_S_S1x32 : (⟨S_, .f32⟩ : BufTy).Contents (Elt F) → (⟨S1x32, .f32⟩ : BufTy).Contents (Elt F)) (constant (F := F) S_ .f32 0x42800000#32))) ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))))) :=
  (s5_main_v34 (W8 m c)).trans (congrArg₂ (subf : (⟨S1x32, .f32⟩ : BufTy).Contents (Elt F) → (⟨S1x32, .f32⟩ : BufTy).Contents (Elt F) → (⟨S1x32, .f32⟩ : BufTy).Contents (Elt F)) (v_main_v32 m c) (v_main_v33 m c))
theorem v_main_cst_7 (c : Dev nD) : U9 m c main_cst_7 = (constant (F := F) S_ .f32 0x00000000#32) :=
  s5_main_cst_7 (W8 m c)
theorem v_main_v35 (c : Dev nD) : U9 m c main_v35 = ((broadcastInDim S1x32 ![] bcast_S_S1x32 : (⟨S_, .f32⟩ : BufTy).Contents (Elt F) → (⟨S1x32, .f32⟩ : BufTy).Contents (Elt F)) (constant (F := F) S_ .f32 0x00000000#32)) :=
  (s5_main_v35 (W8 m c)).trans (congrArg (broadcastInDim S1x32 ![] bcast_S_S1x32 : (⟨S_, .f32⟩ : BufTy).Contents (Elt F) → (⟨S1x32, .f32⟩ : BufTy).Contents (Elt F)) (v_main_cst_7 m c))
theorem v_main_v36 (c : Dev nD) : U9 m c main_v36 = ((maximumf : (⟨S1x32, .f32⟩ : BufTy).Contents (Elt F) → (⟨S1x32, .f32⟩ : BufTy).Contents (Elt F) → (⟨S1x32, .f32⟩ : BufTy).Contents (Elt F)) ((subf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_1) ((broadcastInDim S1x32 ![] bcast_S_S1x32 : (⟨S_, .f32⟩ : BufTy).Contents (Elt F) → (⟨S1x32, .f32⟩ : BufTy).Contents (Elt F)) (constant (F := F) S_ .f32 0x42800000#32))) ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))))) ((broadcastInDim S1x32 ![] bcast_S_S1x32 : (⟨S_, .f32⟩ : BufTy).Contents (Elt F) → (⟨S1x32, .f32⟩ : BufTy).Contents (Elt F)) (constant (F := F) S_ .f32 0x00000000#32))) :=
  (s5_main_v36 (W8 m c)).trans (congrArg₂ (maximumf : (⟨S1x32, .f32⟩ : BufTy).Contents (Elt F) → (⟨S1x32, .f32⟩ : BufTy).Contents (Elt F) → (⟨S1x32, .f32⟩ : BufTy).Contents (Elt F)) (v_main_v34 m c) (v_main_v35 m c))
theorem v_main_v37 (c : Dev nD) : U9 m c main_v37 = (shapeCast S1x32 (U0 m c main_arg9) shapeCasts_S32_S1x32) :=
  (s5_main_v37 (W8 m c)).trans (congrArg (fun z => shapeCast S1x32 z shapeCasts_S32_S1x32) ((W9_keep m c main_arg9 (by decide)) |>.trans <| (W8_keep m c main_arg9 (by decide)) |>.trans <| (W7_keep m c main_arg9 (by decide)) |>.trans <| (W6_keep m c main_arg9 (by decide)) |>.trans <| (W5_keep m c main_arg9 (by decide)) |>.trans <| (W4_keep m c main_arg9 (by decide)) |>.trans <| (W3_keep m c main_arg9 (by decide)) |>.trans <| (W2_keep m c main_arg9 (by decide)) |>.trans <| (W1_keep m c main_arg9 (by decide))))
theorem v_main_v38 (c : Dev nD) : U9 m c main_v38 = (shapeCast S1x32 (U0 m c main_arg10) shapeCasts_S32_S1x32) :=
  (s5_main_v38 (W8 m c)).trans (congrArg (fun z => shapeCast S1x32 z shapeCasts_S32_S1x32) ((W9_keep m c main_arg10 (by decide)) |>.trans <| (W8_keep m c main_arg10 (by decide)) |>.trans <| (W7_keep m c main_arg10 (by decide)) |>.trans <| (W6_keep m c main_arg10 (by decide)) |>.trans <| (W5_keep m c main_arg10 (by decide)) |>.trans <| (W4_keep m c main_arg10 (by decide)) |>.trans <| (W3_keep m c main_arg10 (by decide)) |>.trans <| (W2_keep m c main_arg10 (by decide)) |>.trans <| (W1_keep m c main_arg10 (by decide))))
theorem v_main_v0 (c : Dev nD) : U1 m c main_v0 = (((extractStridedSlice S1x300000 ![0, 0] · slices_S2x300000_S1x300000_0_0) : (⟨S2x300000, .i32⟩ : BufTy).Contents (Elt F) → (⟨S1x300000, .i32⟩ : BufTy).Contents (Elt F)) (U0 m c main_arg1)) :=
  (s0_main_v0 (W0 m c)).trans (congrArg ((extractStridedSlice S1x300000 ![0, 0] · slices_S2x300000_S1x300000_0_0) : (⟨S2x300000, .i32⟩ : BufTy).Contents (Elt F) → (⟨S1x300000, .i32⟩ : BufTy).Contents (Elt F)) ((W1_keep m c main_arg1 (by decide))))
theorem v_main_v1 (c : Dev nD) : U1 m c main_v1 = (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) :=
  (s0_main_v1 (W0 m c)).trans (congrArg (fun z => shapeCast S300000 z shapeCasts_S1x300000_S300000) (v_main_v0 m c))
theorem v_main_c (c : Dev nD) : U11 m c main_c = (constantI S_ 32 0#32) :=
  s6_main_c (W10 m c)
theorem v_main_v40 (c : Dev nD) : U11 m c main_v40 = ((broadcastInDim S300000 ![] bcast_S_S300000 : (⟨S_, .i32⟩ : BufTy).Contents (Elt F) → (⟨S300000, .i32⟩ : BufTy).Contents (Elt F)) (constantI S_ 32 0#32)) :=
  (s6_main_v40 (W10 m c)).trans (congrArg (broadcastInDim S300000 ![] bcast_S_S300000 : (⟨S_, .i32⟩ : BufTy).Contents (Elt F) → (⟨S300000, .i32⟩ : BufTy).Contents (Elt F)) (v_main_c m c))
theorem v_main_v41 (c : Dev nD) : U11 m c main_v41 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s6_main_v41 (W10 m c)).trans (congrArg₂ (cmpi .slt : (⟨S300000, .i32⟩ : BufTy).Contents (Elt F) → (⟨S300000, .i32⟩ : BufTy).Contents (Elt F) → (⟨S300000, .i1⟩ : BufTy).Contents (Elt F)) ((((W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v40 m c))
theorem v_main_c_8 (c : Dev nD) : U11 m c main_c_8 = (constantI S_ 32 30000#32) :=
  s6_main_c_8 (W10 m c)
theorem v_main_v42 (c : Dev nD) : U11 m c main_v42 = ((broadcastInDim S300000 ![] bcast_S_S300000 : (⟨S_, .i32⟩ : BufTy).Contents (Elt F) → (⟨S300000, .i32⟩ : BufTy).Contents (Elt F)) (constantI S_ 32 30000#32)) :=
  (s6_main_v42 (W10 m c)).trans (congrArg (broadcastInDim S300000 ![] bcast_S_S300000 : (⟨S_, .i32⟩ : BufTy).Contents (Elt F) → (⟨S300000, .i32⟩ : BufTy).Contents (Elt F)) (v_main_c_8 m c))
theorem v_main_v43 (c : Dev nD) : U11 m c main_v43 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s6_main_v43 (W10 m c)).trans (congrArg₂ (addi : (⟨S300000, .i32⟩ : BufTy).Contents (Elt F) → (⟨S300000, .i32⟩ : BufTy).Contents (Elt F) → (⟨S300000, .i32⟩ : BufTy).Contents (Elt F)) ((((W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v42 m c))
theorem v_main_v44 (c : Dev nD) : U11 m c main_v44 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)) :=
  (s6_main_v44 (W10 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v41 m c) (v_main_v43 m c) ((((W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)))
theorem v_main_v45 (c : Dev nD) : U11 m c main_v45 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))) :=
  (s6_main_v45 (W10 m c)).trans (congrArg (broadcastInDim S300000x1 ![0] bcast_S300000_S300000x1_0 : (⟨S300000, .i32⟩ : BufTy).Contents (Elt F) → (⟨S300000x1, .i32⟩ : BufTy).Contents (Elt F)) (v_main_v44 m c))
theorem v_main_v46 (c : Dev nD) : U11 m c main_v46 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U4 m c main_v15) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  (s6_main_v46 (W10 m c)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) ((W11_keep m c main_v15 (by decide)) |>.trans <| (W10_keep m c main_v15 (by decide)) |>.trans <| (W9_keep m c main_v15 (by decide)) |>.trans <| (W8_keep m c main_v15 (by decide)) |>.trans <| (W7_keep m c main_v15 (by decide)) |>.trans <| (W6_keep m c main_v15 (by decide)) |>.trans <| (W5_keep m c main_v15 (by decide))) (v_main_v45 m c))
theorem v_main_v2 (c : Dev nD) : U1 m c main_v2 = (((extractStridedSlice S1x300000 ![1, 0] · slices_S2x300000_S1x300000_1_0) : (⟨S2x300000, .i32⟩ : BufTy).Contents (Elt F) → (⟨S1x300000, .i32⟩ : BufTy).Contents (Elt F)) (U0 m c main_arg1)) :=
  (s0_main_v2 (W0 m c)).trans (congrArg ((extractStridedSlice S1x300000 ![1, 0] · slices_S2x300000_S1x300000_1_0) : (⟨S2x300000, .i32⟩ : BufTy).Contents (Elt F) → (⟨S1x300000, .i32⟩ : BufTy).Contents (Elt F)) ((W1_keep m c main_arg1 (by decide))))
theorem v_main_v3 (c : Dev nD) : U1 m c main_v3 = (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) :=
  (s0_main_v3 (W0 m c)).trans (congrArg (fun z => shapeCast S300000 z shapeCasts_S1x300000_S300000) (v_main_v2 m c))
theorem v_main_c_9 (c : Dev nD) : U11 m c main_c_9 = (constantI S_ 32 0#32) :=
  s6_main_c_9 (W10 m c)
theorem v_main_v47 (c : Dev nD) : U11 m c main_v47 = ((broadcastInDim S300000 ![] bcast_S_S300000 : (⟨S_, .i32⟩ : BufTy).Contents (Elt F) → (⟨S300000, .i32⟩ : BufTy).Contents (Elt F)) (constantI S_ 32 0#32)) :=
  (s6_main_v47 (W10 m c)).trans (congrArg (broadcastInDim S300000 ![] bcast_S_S300000 : (⟨S_, .i32⟩ : BufTy).Contents (Elt F) → (⟨S300000, .i32⟩ : BufTy).Contents (Elt F)) (v_main_c_9 m c))
theorem v_main_v48 (c : Dev nD) : U11 m c main_v48 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s6_main_v48 (W10 m c)).trans (congrArg₂ (cmpi .slt : (⟨S300000, .i32⟩ : BufTy).Contents (Elt F) → (⟨S300000, .i32⟩ : BufTy).Contents (Elt F) → (⟨S300000, .i1⟩ : BufTy).Contents (Elt F)) ((((W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)) (v_main_v47 m c))
theorem v_main_c_10 (c : Dev nD) : U11 m c main_c_10 = (constantI S_ 32 30000#32) :=
  s6_main_c_10 (W10 m c)
theorem v_main_v49 (c : Dev nD) : U11 m c main_v49 = ((broadcastInDim S300000 ![] bcast_S_S300000 : (⟨S_, .i32⟩ : BufTy).Contents (Elt F) → (⟨S300000, .i32⟩ : BufTy).Contents (Elt F)) (constantI S_ 32 30000#32)) :=
  (s6_main_v49 (W10 m c)).trans (congrArg (broadcastInDim S300000 ![] bcast_S_S300000 : (⟨S_, .i32⟩ : BufTy).Contents (Elt F) → (⟨S300000, .i32⟩ : BufTy).Contents (Elt F)) (v_main_c_10 m c))
theorem v_main_v50 (c : Dev nD) : U11 m c main_v50 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s6_main_v50 (W10 m c)).trans (congrArg₂ (addi : (⟨S300000, .i32⟩ : BufTy).Contents (Elt F) → (⟨S300000, .i32⟩ : BufTy).Contents (Elt F) → (⟨S300000, .i32⟩ : BufTy).Contents (Elt F)) ((((W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)) (v_main_v49 m c))
theorem v_main_v51 (c : Dev nD) : U11 m c main_v51 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s6_main_v51 (W10 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v48 m c) (v_main_v50 m c) ((((W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_v52 (c : Dev nD) : U11 m c main_v52 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000))) :=
  (s6_main_v52 (W10 m c)).trans (congrArg (broadcastInDim S300000x1 ![0] bcast_S300000_S300000x1_0 : (⟨S300000, .i32⟩ : BufTy).Contents (Elt F) → (⟨S300000x1, .i32⟩ : BufTy).Contents (Elt F)) (v_main_v51 m c))
theorem v_main_v53 (c : Dev nD) : U11 m c main_v53 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U4 m c main_v15) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)))) :=
  (s6_main_v53 (W10 m c)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) ((W11_keep m c main_v15 (by decide)) |>.trans <| (W10_keep m c main_v15 (by decide)) |>.trans <| (W9_keep m c main_v15 (by decide)) |>.trans <| (W8_keep m c main_v15 (by decide)) |>.trans <| (W7_keep m c main_v15 (by decide)) |>.trans <| (W6_keep m c main_v15 (by decide)) |>.trans <| (W5_keep m c main_v15 (by decide))) (v_main_v52 m c))
theorem v_main_c_11 (c : Dev nD) : U11 m c main_c_11 = (constantI S_ 32 0#32) :=
  s6_main_c_11 (W10 m c)
theorem v_main_v54 (c : Dev nD) : U11 m c main_v54 = ((broadcastInDim S300000 ![] bcast_S_S300000 : (⟨S_, .i32⟩ : BufTy).Contents (Elt F) → (⟨S300000, .i32⟩ : BufTy).Contents (Elt F)) (constantI S_ 32 0#32)) :=
  (s6_main_v54 (W10 m c)).trans (congrArg (broadcastInDim S300000 ![] bcast_S_S300000 : (⟨S_, .i32⟩ : BufTy).Contents (Elt F) → (⟨S300000, .i32⟩ : BufTy).Contents (Elt F)) (v_main_c_11 m c))
theorem v_main_v55 (c : Dev nD) : U11 m c main_v55 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s6_main_v55 (W10 m c)).trans (congrArg₂ (cmpi .slt : (⟨S300000, .i32⟩ : BufTy).Contents (Elt F) → (⟨S300000, .i32⟩ : BufTy).Contents (Elt F) → (⟨S300000, .i1⟩ : BufTy).Contents (Elt F)) ((((W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v54 m c))
theorem v_main_c_12 (c : Dev nD) : U11 m c main_c_12 = (constantI S_ 32 30000#32) :=
  s6_main_c_12 (W10 m c)
theorem v_main_v56 (c : Dev nD) : U11 m c main_v56 = ((broadcastInDim S300000 ![] bcast_S_S300000 : (⟨S_, .i32⟩ : BufTy).Contents (Elt F) → (⟨S300000, .i32⟩ : BufTy).Contents (Elt F)) (constantI S_ 32 30000#32)) :=
  (s6_main_v56 (W10 m c)).trans (congrArg (broadcastInDim S300000 ![] bcast_S_S300000 : (⟨S_, .i32⟩ : BufTy).Contents (Elt F) → (⟨S300000, .i32⟩ : BufTy).Contents (Elt F)) (v_main_c_12 m c))
theorem v_main_v57 (c : Dev nD) : U11 m c main_v57 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s6_main_v57 (W10 m c)).trans (congrArg₂ (addi : (⟨S300000, .i32⟩ : BufTy).Contents (Elt F) → (⟨S300000, .i32⟩ : BufTy).Contents (Elt F) → (⟨S300000, .i32⟩ : BufTy).Contents (Elt F)) ((((W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v56 m c))
theorem v_main_v58 (c : Dev nD) : U11 m c main_v58 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)) :=
  (s6_main_v58 (W10 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v55 m c) (v_main_v57 m c) ((((W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)))
theorem v_main_v59 (c : Dev nD) : U11 m c main_v59 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))) :=
  (s6_main_v59 (W10 m c)).trans (congrArg (broadcastInDim S300000x1 ![0] bcast_S300000_S300000x1_0 : (⟨S300000, .i32⟩ : BufTy).Contents (Elt F) → (⟨S300000x1, .i32⟩ : BufTy).Contents (Elt F)) (v_main_v58 m c))
theorem v_main_v60 (c : Dev nD) : U11 m c main_v60 = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  (s6_main_v60 (W10 m c)).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) ((W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v59 m c))
theorem v_main_c_13 (c : Dev nD) : U11 m c main_c_13 = (constantI S_ 32 0#32) :=
  s6_main_c_13 (W10 m c)
theorem v_main_v61 (c : Dev nD) : U11 m c main_v61 = ((broadcastInDim S300000 ![] bcast_S_S300000 : (⟨S_, .i32⟩ : BufTy).Contents (Elt F) → (⟨S300000, .i32⟩ : BufTy).Contents (Elt F)) (constantI S_ 32 0#32)) :=
  (s6_main_v61 (W10 m c)).trans (congrArg (broadcastInDim S300000 ![] bcast_S_S300000 : (⟨S_, .i32⟩ : BufTy).Contents (Elt F) → (⟨S300000, .i32⟩ : BufTy).Contents (Elt F)) (v_main_c_13 m c))
theorem v_main_v62 (c : Dev nD) : U11 m c main_v62 = ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) :=
  (s6_main_v62 (W10 m c)).trans (congrArg₂ (cmpi .slt : (⟨S300000, .i32⟩ : BufTy).Contents (Elt F) → (⟨S300000, .i32⟩ : BufTy).Contents (Elt F) → (⟨S300000, .i1⟩ : BufTy).Contents (Elt F)) (v_main_v60 m c) (v_main_v61 m c))
theorem v_main_c_14 (c : Dev nD) : U11 m c main_c_14 = (constantI S_ 32 64#32) :=
  s6_main_c_14 (W10 m c)
theorem v_main_v63 (c : Dev nD) : U11 m c main_v63 = ((broadcastInDim S300000 ![] bcast_S_S300000 : (⟨S_, .i32⟩ : BufTy).Contents (Elt F) → (⟨S300000, .i32⟩ : BufTy).Contents (Elt F)) (constantI S_ 32 64#32)) :=
  (s6_main_v63 (W10 m c)).trans (congrArg (broadcastInDim S300000 ![] bcast_S_S300000 : (⟨S_, .i32⟩ : BufTy).Contents (Elt F) → (⟨S300000, .i32⟩ : BufTy).Contents (Elt F)) (v_main_c_14 m c))
theorem v_main_v64 (c : Dev nD) : U11 m c main_v64 = ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) :=
  (s6_main_v64 (W10 m c)).trans (congrArg₂ (addi : (⟨S300000, .i32⟩ : BufTy).Contents (Elt F) → (⟨S300000, .i32⟩ : BufTy).Contents (Elt F) → (⟨S300000, .i32⟩ : BufTy).Contents (Elt F)) (v_main_v60 m c) (v_main_v63 m c))
theorem v_main_v65 (c : Dev nD) : U11 m c main_v65 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))) :=
  (s6_main_v65 (W10 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v62 m c) (v_main_v64 m c) (v_main_v60 m c))
theorem v_main_v66 (c : Dev nD) : U11 m c main_v66 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))))) :=
  (s6_main_v66 (W10 m c)).trans (congrArg (broadcastInDim S300000x1 ![0] bcast_S300000_S300000x1_0 : (⟨S300000, .i32⟩ : BufTy).Contents (Elt F) → (⟨S300000x1, .i32⟩ : BufTy).Contents (Elt F)) (v_main_v65 m c))
theorem v_main_v67 (c : Dev nD) : U11 m c main_v67 = (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (U10 m c main_v39) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))))) :=
  (s6_main_v67 (W10 m c)).trans (congrArg₂ ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) ((W11_keep m c main_v39 (by decide))) (v_main_v66 m c))
theorem v_main_v68 (c : Dev nD) : U11 m c main_v68 = (((extractStridedSlice S64x64 ![0, 0] · slices_S192x64_S64x64_0_0) : (⟨S192x64, .f32⟩ : BufTy).Contents (Elt F) → (⟨S64x64, .f32⟩ : BufTy).Contents (Elt F)) (U0 m c main_arg11)) :=
  (s6_main_v68 (W10 m c)).trans (congrArg ((extractStridedSlice S64x64 ![0, 0] · slices_S192x64_S64x64_0_0) : (⟨S192x64, .f32⟩ : BufTy).Contents (Elt F) → (⟨S64x64, .f32⟩ : BufTy).Contents (Elt F)) ((W11_keep m c main_arg11 (by decide)) |>.trans <| (W10_keep m c main_arg11 (by decide)) |>.trans <| (W9_keep m c main_arg11 (by decide)) |>.trans <| (W8_keep m c main_arg11 (by decide)) |>.trans <| (W7_keep m c main_arg11 (by decide)) |>.trans <| (W6_keep m c main_arg11 (by decide)) |>.trans <| (W5_keep m c main_arg11 (by decide)) |>.trans <| (W4_keep m c main_arg11 (by decide)) |>.trans <| (W3_keep m c main_arg11 (by decide)) |>.trans <| (W2_keep m c main_arg11 (by decide)) |>.trans <| (W1_keep m c main_arg11 (by decide))))
theorem v_main_v69 (c : Dev nD) : U11 m c main_v69 = (((extractStridedSlice S64x64 ![64, 0] · slices_S192x64_S64x64_64_0) : (⟨S192x64, .f32⟩ : BufTy).Contents (Elt F) → (⟨S64x64, .f32⟩ : BufTy).Contents (Elt F)) (U0 m c main_arg11)) :=
  (s6_main_v69 (W10 m c)).trans (congrArg ((extractStridedSlice S64x64 ![64, 0] · slices_S192x64_S64x64_64_0) : (⟨S192x64, .f32⟩ : BufTy).Contents (Elt F) → (⟨S64x64, .f32⟩ : BufTy).Contents (Elt F)) ((W11_keep m c main_arg11 (by decide)) |>.trans <| (W10_keep m c main_arg11 (by decide)) |>.trans <| (W9_keep m c main_arg11 (by decide)) |>.trans <| (W8_keep m c main_arg11 (by decide)) |>.trans <| (W7_keep m c main_arg11 (by decide)) |>.trans <| (W6_keep m c main_arg11 (by decide)) |>.trans <| (W5_keep m c main_arg11 (by decide)) |>.trans <| (W4_keep m c main_arg11 (by decide)) |>.trans <| (W3_keep m c main_arg11 (by decide)) |>.trans <| (W2_keep m c main_arg11 (by decide)) |>.trans <| (W1_keep m c main_arg11 (by decide))))
theorem v_main_v70 (c : Dev nD) : U11 m c main_v70 = (((extractStridedSlice S32x64 ![128, 0] · slices_S192x64_S32x64_128_0) : (⟨S192x64, .f32⟩ : BufTy).Contents (Elt F) → (⟨S32x64, .f32⟩ : BufTy).Contents (Elt F)) (U0 m c main_arg11)) :=
  (s6_main_v70 (W10 m c)).trans (congrArg ((extractStridedSlice S32x64 ![128, 0] · slices_S192x64_S32x64_128_0) : (⟨S192x64, .f32⟩ : BufTy).Contents (Elt F) → (⟨S32x64, .f32⟩ : BufTy).Contents (Elt F)) ((W11_keep m c main_arg11 (by decide)) |>.trans <| (W10_keep m c main_arg11 (by decide)) |>.trans <| (W9_keep m c main_arg11 (by decide)) |>.trans <| (W8_keep m c main_arg11 (by decide)) |>.trans <| (W7_keep m c main_arg11 (by decide)) |>.trans <| (W6_keep m c main_arg11 (by decide)) |>.trans <| (W5_keep m c main_arg11 (by decide)) |>.trans <| (W4_keep m c main_arg11 (by decide)) |>.trans <| (W3_keep m c main_arg11 (by decide)) |>.trans <| (W2_keep m c main_arg11 (by decide)) |>.trans <| (W1_keep m c main_arg11 (by decide))))
theorem v_main_v71 (c : Dev nD) : U11 m c main_v71 = (((extractStridedSlice S32x64 ![160, 0] · slices_S192x64_S32x64_160_0) : (⟨S192x64, .f32⟩ : BufTy).Contents (Elt F) → (⟨S32x64, .f32⟩ : BufTy).Contents (Elt F)) (U0 m c main_arg11)) :=
  (s6_main_v71 (W10 m c)).trans (congrArg ((extractStridedSlice S32x64 ![160, 0] · slices_S192x64_S32x64_160_0) : (⟨S192x64, .f32⟩ : BufTy).Contents (Elt F) → (⟨S32x64, .f32⟩ : BufTy).Contents (Elt F)) ((W11_keep m c main_arg11 (by decide)) |>.trans <| (W10_keep m c main_arg11 (by decide)) |>.trans <| (W9_keep m c main_arg11 (by decide)) |>.trans <| (W8_keep m c main_arg11 (by decide)) |>.trans <| (W7_keep m c main_arg11 (by decide)) |>.trans <| (W6_keep m c main_arg11 (by decide)) |>.trans <| (W5_keep m c main_arg11 (by decide)) |>.trans <| (W4_keep m c main_arg11 (by decide)) |>.trans <| (W3_keep m c main_arg11 (by decide)) |>.trans <| (W2_keep m c main_arg11 (by decide)) |>.trans <| (W1_keep m c main_arg11 (by decide))))
theorem v_main_v72 (c : Dev nD) : U11 m c main_v72 = (shapeCast S1x64 (U0 m c main_arg12) shapeCasts_S64_S1x64) :=
  (s6_main_v72 (W10 m c)).trans (congrArg (fun z => shapeCast S1x64 z shapeCasts_S64_S1x64) ((W11_keep m c main_arg12 (by decide)) |>.trans <| (W10_keep m c main_arg12 (by decide)) |>.trans <| (W9_keep m c main_arg12 (by decide)) |>.trans <| (W8_keep m c main_arg12 (by decide)) |>.trans <| (W7_keep m c main_arg12 (by decide)) |>.trans <| (W6_keep m c main_arg12 (by decide)) |>.trans <| (W5_keep m c main_arg12 (by decide)) |>.trans <| (W4_keep m c main_arg12 (by decide)) |>.trans <| (W3_keep m c main_arg12 (by decide)) |>.trans <| (W2_keep m c main_arg12 (by decide)) |>.trans <| (W1_keep m c main_arg12 (by decide))))
theorem v_main_cst_15 (c : Dev nD) : U13 m c main_cst_15 = (constant (F := F) S_ .f32 0x00000000#32) :=
  s7_main_cst_15 (W12 m c)
theorem v_main_v74 (c : Dev nD) : U13 m c main_v74 = ((broadcastInDim S30000x64 ![] bcast_S_S30000x64 : (⟨S_, .f32⟩ : BufTy).Contents (Elt F) → (⟨S30000x64, .f32⟩ : BufTy).Contents (Elt F)) (constant (F := F) S_ .f32 0x00000000#32)) :=
  (s7_main_v74 (W12 m c)).trans (congrArg (broadcastInDim S30000x64 ![] bcast_S_S30000x64 : (⟨S_, .f32⟩ : BufTy).Contents (Elt F) → (⟨S30000x64, .f32⟩ : BufTy).Contents (Elt F)) (v_main_cst_15 m c))
theorem v_main_v75 (c : Dev nD) : U13 m c main_v75 = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s7_main_v75 (W12 m c)).trans (congrArg (broadcastInDim S300000x1 ![0] bcast_S300000_S300000x1_0 : (⟨S300000, .i32⟩ : BufTy).Contents (Elt F) → (⟨S300000x1, .i32⟩ : BufTy).Contents (Elt F)) ((((W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_v76 (c : Dev nD) : U13 m c main_v76 = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U12 m c main_v73)) :=
  (s7_main_v76 (W12 m c)).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (v_main_v74 m c) (v_main_v75 m c) ((W13_keep m c main_v73 (by decide))))
theorem v_main_cst_17 (c : Dev nD) : U13 m c main_cst_17 = (constant (F := F) S_ .f32 0x00000000#32) :=
  s7_main_cst_17 (W12 m c)
theorem v_main_v78 (c : Dev nD) : U13 m c main_v78 = ((broadcastInDim S30000x1 ![] bcast_S_S30000x1 : (⟨S_, .f32⟩ : BufTy).Contents (Elt F) → (⟨S30000x1, .f32⟩ : BufTy).Contents (Elt F)) (constant (F := F) S_ .f32 0x00000000#32)) :=
  (s7_main_v78 (W12 m c)).trans (congrArg (broadcastInDim S30000x1 ![] bcast_S_S30000x1 : (⟨S_, .f32⟩ : BufTy).Contents (Elt F) → (⟨S30000x1, .f32⟩ : BufTy).Contents (Elt F)) (v_main_cst_17 m c))
theorem v_main_v79 (c : Dev nD) : U13 m c main_v79 = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s7_main_v79 (W12 m c)).trans (congrArg (broadcastInDim S300000x1 ![0] bcast_S300000_S300000x1_0 : (⟨S300000, .i32⟩ : BufTy).Contents (Elt F) → (⟨S300000x1, .i32⟩ : BufTy).Contents (Elt F)) ((((W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_cst_16 (c : Dev nD) : U13 m c main_cst_16 = (constant (F := F) S_ .f32 0x3F800000#32) :=
  s7_main_cst_16 (W12 m c)
theorem v_main_v77 (c : Dev nD) : U13 m c main_v77 = ((broadcastInDim S300000x1 ![] bcast_S_S300000x1 : (⟨S_, .f32⟩ : BufTy).Contents (Elt F) → (⟨S300000x1, .f32⟩ : BufTy).Contents (Elt F)) (constant (F := F) S_ .f32 0x3F800000#32)) :=
  (s7_main_v77 (W12 m c)).trans (congrArg (broadcastInDim S300000x1 ![] bcast_S_S300000x1 : (⟨S_, .f32⟩ : BufTy).Contents (Elt F) → (⟨S300000x1, .f32⟩ : BufTy).Contents (Elt F)) (v_main_cst_16 m c))
theorem v_main_v80 (c : Dev nD) : U13 m c main_v80 = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) :=
  (s7_main_v80 (W12 m c)).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (v_main_v78 m c) (v_main_v79 m c) (v_main_v77 m c))
theorem v_main_cst_18 (c : Dev nD) : U13 m c main_cst_18 = (constant (F := F) S_ .f32 0x3F800000#32) :=
  s7_main_cst_18 (W12 m c)
theorem v_main_v81 (c : Dev nD) : U13 m c main_v81 = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (s7_main_v81 (W12 m c)).trans (congrArg (broadcastInDim S30000x1 ![] bcast_S_S30000x1 : (⟨S_, .f32⟩ : BufTy).Contents (Elt F) → (⟨S30000x1, .f32⟩ : BufTy).Contents (Elt F)) (v_main_cst_18 m c))
theorem v_main_v82 (c : Dev nD) : U13 m c main_v82 = ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (s7_main_v82 (W12 m c)).trans (congrArg₂ (maximumf : (⟨S30000x1, .f32⟩ : BufTy).Contents (Elt F) → (⟨S30000x1, .f32⟩ : BufTy).Contents (Elt F) → (⟨S30000x1, .f32⟩ : BufTy).Contents (Elt F)) (v_main_v80 m c) (v_main_v81 m c))
theorem v_main_v83 (c : Dev nD) : U13 m c main_v83 = ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))) :=
  (s7_main_v83 (W12 m c)).trans (congrArg (broadcastInDim S30000x64 ![0, 1] bcast_S30000x1_S30000x64_0_1 : (⟨S30000x1, .f32⟩ : BufTy).Contents (Elt F) → (⟨S30000x64, .f32⟩ : BufTy).Contents (Elt F)) (v_main_v82 m c))
theorem v_main_v84 (c : Dev nD) : U13 m c main_v84 = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U12 m c main_v73)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  (s7_main_v84 (W12 m c)).trans (congrArg₂ (Host.divf : (⟨S30000x64, .f32⟩ : BufTy).Contents (Elt F) → (⟨S30000x64, .f32⟩ : BufTy).Contents (Elt F) → (⟨S30000x64, .f32⟩ : BufTy).Contents (Elt F)) (v_main_v76 m c) (v_main_v83 m c))
theorem v_main_c_19 (c : Dev nD) : U13 m c main_c_19 = (constantI S_ 32 0#32) :=
  s7_main_c_19 (W12 m c)
theorem v_main_v85 (c : Dev nD) : U13 m c main_v85 = ((broadcastInDim S30000 ![] bcast_S_S30000 : (⟨S_, .i32⟩ : BufTy).Contents (Elt F) → (⟨S30000, .i32⟩ : BufTy).Contents (Elt F)) (constantI S_ 32 0#32)) :=
  (s7_main_v85 (W12 m c)).trans (congrArg (broadcastInDim S30000 ![] bcast_S_S30000 : (⟨S_, .i32⟩ : BufTy).Contents (Elt F) → (⟨S30000, .i32⟩ : BufTy).Contents (Elt F)) (v_main_c_19 m c))
theorem v_main_v86 (c : Dev nD) : U13 m c main_v86 = ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) :=
  (s7_main_v86 (W12 m c)).trans (congrArg₂ (cmpi .slt : (⟨S30000, .i32⟩ : BufTy).Contents (Elt F) → (⟨S30000, .i32⟩ : BufTy).Contents (Elt F) → (⟨S30000, .i1⟩ : BufTy).Contents (Elt F)) ((W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v85 m c))
theorem v_main_c_20 (c : Dev nD) : U13 m c main_c_20 = (constantI S_ 32 64#32) :=
  s7_main_c_20 (W12 m c)
theorem v_main_v87 (c : Dev nD) : U13 m c main_v87 = ((broadcastInDim S30000 ![] bcast_S_S30000 : (⟨S_, .i32⟩ : BufTy).Contents (Elt F) → (⟨S30000, .i32⟩ : BufTy).Contents (Elt F)) (constantI S_ 32 64#32)) :=
  (s7_main_v87 (W12 m c)).trans (congrArg (broadcastInDim S30000 ![] bcast_S_S30000 : (⟨S_, .i32⟩ : BufTy).Contents (Elt F) → (⟨S30000, .i32⟩ : BufTy).Contents (Elt F)) (v_main_c_20 m c))
theorem v_main_v88 (c : Dev nD) : U13 m c main_v88 = ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) :=
  (s7_main_v88 (W12 m c)).trans (congrArg₂ (addi : (⟨S30000, .i32⟩ : BufTy).Contents (Elt F) → (⟨S30000, .i32⟩ : BufTy).Contents (Elt F) → (⟨S30000, .i32⟩ : BufTy).Contents (Elt F)) ((W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v87 m c))
theorem v_main_v89 (c : Dev nD) : U13 m c main_v89 = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)) :=
  (s7_main_v89 (W12 m c)).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (v_main_v86 m c) (v_main_v88 m c) ((W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_v90 (c : Dev nD) : U13 m c main_v90 = ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4))) :=
  (s7_main_v90 (W12 m c)).trans (congrArg (broadcastInDim S30000x1 ![0] bcast_S30000_S30000x1_0 : (⟨S30000, .i32⟩ : BufTy).Contents (Elt F) → (⟨S30000x1, .i32⟩ : BufTy).Contents (Elt F)) (v_main_v89 m c))
theorem v_main_v91 (c : Dev nD) : U13 m c main_v91 = (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (U10 m c main_v39) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)))) :=
  (s7_main_v91 (W12 m c)).trans (congrArg₂ ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) ((W13_keep m c main_v39 (by decide)) |>.trans <| (W12_keep m c main_v39 (by decide)) |>.trans <| (W11_keep m c main_v39 (by decide))) (v_main_v90 m c))
theorem v_main_v92 (c : Dev nD) : U13 m c main_v92 = (((extractStridedSlice S64x64 ![0, 0] · slices_S160x64_S64x64_0_0) : (⟨S160x64, .f32⟩ : BufTy).Contents (Elt F) → (⟨S64x64, .f32⟩ : BufTy).Contents (Elt F)) (U0 m c main_arg13)) :=
  (s7_main_v92 (W12 m c)).trans (congrArg ((extractStridedSlice S64x64 ![0, 0] · slices_S160x64_S64x64_0_0) : (⟨S160x64, .f32⟩ : BufTy).Contents (Elt F) → (⟨S64x64, .f32⟩ : BufTy).Contents (Elt F)) ((W13_keep m c main_arg13 (by decide)) |>.trans <| (W12_keep m c main_arg13 (by decide)) |>.trans <| (W11_keep m c main_arg13 (by decide)) |>.trans <| (W10_keep m c main_arg13 (by decide)) |>.trans <| (W9_keep m c main_arg13 (by decide)) |>.trans <| (W8_keep m c main_arg13 (by decide)) |>.trans <| (W7_keep m c main_arg13 (by decide)) |>.trans <| (W6_keep m c main_arg13 (by decide)) |>.trans <| (W5_keep m c main_arg13 (by decide)) |>.trans <| (W4_keep m c main_arg13 (by decide)) |>.trans <| (W3_keep m c main_arg13 (by decide)) |>.trans <| (W2_keep m c main_arg13 (by decide)) |>.trans <| (W1_keep m c main_arg13 (by decide))))
theorem v_main_v93 (c : Dev nD) : U13 m c main_v93 = (((extractStridedSlice S64x64 ![64, 0] · slices_S160x64_S64x64_64_0) : (⟨S160x64, .f32⟩ : BufTy).Contents (Elt F) → (⟨S64x64, .f32⟩ : BufTy).Contents (Elt F)) (U0 m c main_arg13)) :=
  (s7_main_v93 (W12 m c)).trans (congrArg ((extractStridedSlice S64x64 ![64, 0] · slices_S160x64_S64x64_64_0) : (⟨S160x64, .f32⟩ : BufTy).Contents (Elt F) → (⟨S64x64, .f32⟩ : BufTy).Contents (Elt F)) ((W13_keep m c main_arg13 (by decide)) |>.trans <| (W12_keep m c main_arg13 (by decide)) |>.trans <| (W11_keep m c main_arg13 (by decide)) |>.trans <| (W10_keep m c main_arg13 (by decide)) |>.trans <| (W9_keep m c main_arg13 (by decide)) |>.trans <| (W8_keep m c main_arg13 (by decide)) |>.trans <| (W7_keep m c main_arg13 (by decide)) |>.trans <| (W6_keep m c main_arg13 (by decide)) |>.trans <| (W5_keep m c main_arg13 (by decide)) |>.trans <| (W4_keep m c main_arg13 (by decide)) |>.trans <| (W3_keep m c main_arg13 (by decide)) |>.trans <| (W2_keep m c main_arg13 (by decide)) |>.trans <| (W1_keep m c main_arg13 (by decide))))
theorem v_main_v94 (c : Dev nD) : U13 m c main_v94 = (((extractStridedSlice S32x64 ![128, 0] · slices_S160x64_S32x64_128_0) : (⟨S160x64, .f32⟩ : BufTy).Contents (Elt F) → (⟨S32x64, .f32⟩ : BufTy).Contents (Elt F)) (U0 m c main_arg13)) :=
  (s7_main_v94 (W12 m c)).trans (congrArg ((extractStridedSlice S32x64 ![128, 0] · slices_S160x64_S32x64_128_0) : (⟨S160x64, .f32⟩ : BufTy).Contents (Elt F) → (⟨S32x64, .f32⟩ : BufTy).Contents (Elt F)) ((W13_keep m c main_arg13 (by decide)) |>.trans <| (W12_keep m c main_arg13 (by decide)) |>.trans <| (W11_keep m c main_arg13 (by decide)) |>.trans <| (W10_keep m c main_arg13 (by decide)) |>.trans <| (W9_keep m c main_arg13 (by decide)) |>.trans <| (W8_keep m c main_arg13 (by decide)) |>.trans <| (W7_keep m c main_arg13 (by decide)) |>.trans <| (W6_keep m c main_arg13 (by decide)) |>.trans <| (W5_keep m c main_arg13 (by decide)) |>.trans <| (W4_keep m c main_arg13 (by decide)) |>.trans <| (W3_keep m c main_arg13 (by decide)) |>.trans <| (W2_keep m c main_arg13 (by decide)) |>.trans <| (W1_keep m c main_arg13 (by decide))))
theorem v_main_v95 (c : Dev nD) : U13 m c main_v95 = (shapeCast S1x64 (U0 m c main_arg14) shapeCasts_S64_S1x64) :=
  (s7_main_v95 (W12 m c)).trans (congrArg (fun z => shapeCast S1x64 z shapeCasts_S64_S1x64) ((W13_keep m c main_arg14 (by decide)) |>.trans <| (W12_keep m c main_arg14 (by decide)) |>.trans <| (W11_keep m c main_arg14 (by decide)) |>.trans <| (W10_keep m c main_arg14 (by decide)) |>.trans <| (W9_keep m c main_arg14 (by decide)) |>.trans <| (W8_keep m c main_arg14 (by decide)) |>.trans <| (W7_keep m c main_arg14 (by decide)) |>.trans <| (W6_keep m c main_arg14 (by decide)) |>.trans <| (W5_keep m c main_arg14 (by decide)) |>.trans <| (W4_keep m c main_arg14 (by decide)) |>.trans <| (W3_keep m c main_arg14 (by decide)) |>.trans <| (W2_keep m c main_arg14 (by decide)) |>.trans <| (W1_keep m c main_arg14 (by decide))))
theorem v_main_cst_21 (c : Dev nD) : U15 m c main_cst_21 = (constant (F := F) S_ .f32 0x00000000#32) :=
  s8_main_cst_21 (W14 m c)
theorem v_main_v97 (c : Dev nD) : U15 m c main_v97 = ((broadcastInDim S64x64 ![] bcast_S_S64x64 : (⟨S_, .f32⟩ : BufTy).Contents (Elt F) → (⟨S64x64, .f32⟩ : BufTy).Contents (Elt F)) (constant (F := F) S_ .f32 0x00000000#32)) :=
  (s8_main_v97 (W14 m c)).trans (congrArg (broadcastInDim S64x64 ![] bcast_S_S64x64 : (⟨S_, .f32⟩ : BufTy).Contents (Elt F) → (⟨S64x64, .f32⟩ : BufTy).Contents (Elt F)) (v_main_cst_21 m c))
theorem v_main_v98 (c : Dev nD) : U15 m c main_v98 = ((broadcastInDim S30000x1 ![0] bcast_S30000_S30000x1_0 : (⟨S30000, .i32⟩ : BufTy).Contents (Elt F) → (⟨S30000x1, .i32⟩ : BufTy).Contents (Elt F)) (U0 m c main_arg4)) :=
  (s8_main_v98 (W14 m c)).trans (congrArg (broadcastInDim S30000x1 ![0] bcast_S30000_S30000x1_0 : (⟨S30000, .i32⟩ : BufTy).Contents (Elt F) → (⟨S30000x1, .i32⟩ : BufTy).Contents (Elt F)) ((W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_v99 (c : Dev nD) : U15 m c main_v99 = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U14 m c main_v96)) :=
  (s8_main_v99 (W14 m c)).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (v_main_v97 m c) (v_main_v98 m c) ((W15_keep m c main_v96 (by decide))))
theorem v_main_cst_23 (c : Dev nD) : U15 m c main_cst_23 = (constant (F := F) S_ .f32 0x00000000#32) :=
  s8_main_cst_23 (W14 m c)
theorem v_main_v101 (c : Dev nD) : U15 m c main_v101 = ((broadcastInDim S64x1 ![] bcast_S_S64x1 : (⟨S_, .f32⟩ : BufTy).Contents (Elt F) → (⟨S64x1, .f32⟩ : BufTy).Contents (Elt F)) (constant (F := F) S_ .f32 0x00000000#32)) :=
  (s8_main_v101 (W14 m c)).trans (congrArg (broadcastInDim S64x1 ![] bcast_S_S64x1 : (⟨S_, .f32⟩ : BufTy).Contents (Elt F) → (⟨S64x1, .f32⟩ : BufTy).Contents (Elt F)) (v_main_cst_23 m c))
theorem v_main_v102 (c : Dev nD) : U15 m c main_v102 = ((broadcastInDim S30000x1 ![0] bcast_S30000_S30000x1_0 : (⟨S30000, .i32⟩ : BufTy).Contents (Elt F) → (⟨S30000x1, .i32⟩ : BufTy).Contents (Elt F)) (U0 m c main_arg4)) :=
  (s8_main_v102 (W14 m c)).trans (congrArg (broadcastInDim S30000x1 ![0] bcast_S30000_S30000x1_0 : (⟨S30000, .i32⟩ : BufTy).Contents (Elt F) → (⟨S30000x1, .i32⟩ : BufTy).Contents (Elt F)) ((W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_cst_22 (c : Dev nD) : U15 m c main_cst_22 = (constant (F := F) S_ .f32 0x3F800000#32) :=
  s8_main_cst_22 (W14 m c)
theorem v_main_v100 (c : Dev nD) : U15 m c main_v100 = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (s8_main_v100 (W14 m c)).trans (congrArg (broadcastInDim S30000x1 ![] bcast_S_S30000x1 : (⟨S_, .f32⟩ : BufTy).Contents (Elt F) → (⟨S30000x1, .f32⟩ : BufTy).Contents (Elt F)) (v_main_cst_22 m c))
theorem v_main_v103 (c : Dev nD) : U15 m c main_v103 = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (s8_main_v103 (W14 m c)).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (v_main_v101 m c) (v_main_v102 m c) (v_main_v100 m c))
theorem v_main_cst_24 (c : Dev nD) : U15 m c main_cst_24 = (constant (F := F) S_ .f32 0x3F800000#32) :=
  s8_main_cst_24 (W14 m c)
theorem v_main_v104 (c : Dev nD) : U15 m c main_v104 = ((broadcastInDim S64x1 ![] bcast_S_S64x1 : (⟨S_, .f32⟩ : BufTy).Contents (Elt F) → (⟨S64x1, .f32⟩ : BufTy).Contents (Elt F)) (constant (F := F) S_ .f32 0x3F800000#32)) :=
  (s8_main_v104 (W14 m c)).trans (congrArg (broadcastInDim S64x1 ![] bcast_S_S64x1 : (⟨S_, .f32⟩ : BufTy).Contents (Elt F) → (⟨S64x1, .f32⟩ : BufTy).Contents (Elt F)) (v_main_cst_24 m c))
theorem v_main_v105 (c : Dev nD) : U15 m c main_v105 = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))) :=
  (s8_main_v105 (W14 m c)).trans (congrArg₂ (maximumf : (⟨S64x1, .f32⟩ : BufTy).Contents (Elt F) → (⟨S64x1, .f32⟩ : BufTy).Contents (Elt F) → (⟨S64x1, .f32⟩ : BufTy).Contents (Elt F)) (v_main_v103 m c) (v_main_v104 m c))
theorem v_main_v106 (c : Dev nD) : U15 m c main_v106 = ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))) :=
  (s8_main_v106 (W14 m c)).trans (congrArg (broadcastInDim S64x64 ![0, 1] bcast_S64x1_S64x64_0_1 : (⟨S64x1, .f32⟩ : BufTy).Contents (Elt F) → (⟨S64x64, .f32⟩ : BufTy).Contents (Elt F)) (v_main_v105 m c))
theorem v_main_v107 (c : Dev nD) : U15 m c main_v107 = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U14 m c main_v96)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  (s8_main_v107 (W14 m c)).trans (congrArg₂ (Host.divf : (⟨S64x64, .f32⟩ : BufTy).Contents (Elt F) → (⟨S64x64, .f32⟩ : BufTy).Contents (Elt F) → (⟨S64x64, .f32⟩ : BufTy).Contents (Elt F)) (v_main_v99 m c) (v_main_v106 m c))
theorem v_main_v108 (c : Dev nD) : U15 m c main_v108 = (((extractStridedSlice S64x64 ![0, 0] · slices_S96x64_S64x64_0_0) : (⟨S96x64, .f32⟩ : BufTy).Contents (Elt F) → (⟨S64x64, .f32⟩ : BufTy).Contents (Elt F)) (U0 m c main_arg15)) :=
  (s8_main_v108 (W14 m c)).trans (congrArg ((extractStridedSlice S64x64 ![0, 0] · slices_S96x64_S64x64_0_0) : (⟨S96x64, .f32⟩ : BufTy).Contents (Elt F) → (⟨S64x64, .f32⟩ : BufTy).Contents (Elt F)) ((W15_keep m c main_arg15 (by decide)) |>.trans <| (W14_keep m c main_arg15 (by decide)) |>.trans <| (W13_keep m c main_arg15 (by decide)) |>.trans <| (W12_keep m c main_arg15 (by decide)) |>.trans <| (W11_keep m c main_arg15 (by decide)) |>.trans <| (W10_keep m c main_arg15 (by decide)) |>.trans <| (W9_keep m c main_arg15 (by decide)) |>.trans <| (W8_keep m c main_arg15 (by decide)) |>.trans <| (W7_keep m c main_arg15 (by decide)) |>.trans <| (W6_keep m c main_arg15 (by decide)) |>.trans <| (W5_keep m c main_arg15 (by decide)) |>.trans <| (W4_keep m c main_arg15 (by decide)) |>.trans <| (W3_keep m c main_arg15 (by decide)) |>.trans <| (W2_keep m c main_arg15 (by decide)) |>.trans <| (W1_keep m c main_arg15 (by decide))))
theorem v_main_v109 (c : Dev nD) : U15 m c main_v109 = (((extractStridedSlice S32x64 ![64, 0] · slices_S96x64_S32x64_64_0) : (⟨S96x64, .f32⟩ : BufTy).Contents (Elt F) → (⟨S32x64, .f32⟩ : BufTy).Contents (Elt F)) (U0 m c main_arg15)) :=
  (s8_main_v109 (W14 m c)).trans (congrArg ((extractStridedSlice S32x64 ![64, 0] · slices_S96x64_S32x64_64_0) : (⟨S96x64, .f32⟩ : BufTy).Contents (Elt F) → (⟨S32x64, .f32⟩ : BufTy).Contents (Elt F)) ((W15_keep m c main_arg15 (by decide)) |>.trans <| (W14_keep m c main_arg15 (by decide)) |>.trans <| (W13_keep m c main_arg15 (by decide)) |>.trans <| (W12_keep m c main_arg15 (by decide)) |>.trans <| (W11_keep m c main_arg15 (by decide)) |>.trans <| (W10_keep m c main_arg15 (by decide)) |>.trans <| (W9_keep m c main_arg15 (by decide)) |>.trans <| (W8_keep m c main_arg15 (by decide)) |>.trans <| (W7_keep m c main_arg15 (by decide)) |>.trans <| (W6_keep m c main_arg15 (by decide)) |>.trans <| (W5_keep m c main_arg15 (by decide)) |>.trans <| (W4_keep m c main_arg15 (by decide)) |>.trans <| (W3_keep m c main_arg15 (by decide)) |>.trans <| (W2_keep m c main_arg15 (by decide)) |>.trans <| (W1_keep m c main_arg15 (by decide))))
theorem v_main_v110 (c : Dev nD) : U15 m c main_v110 = (shapeCast S1x64 (U0 m c main_arg16) shapeCasts_S64_S1x64) :=
  (s8_main_v110 (W14 m c)).trans (congrArg (fun z => shapeCast S1x64 z shapeCasts_S64_S1x64) ((W15_keep m c main_arg16 (by decide)) |>.trans <| (W14_keep m c main_arg16 (by decide)) |>.trans <| (W13_keep m c main_arg16 (by decide)) |>.trans <| (W12_keep m c main_arg16 (by decide)) |>.trans <| (W11_keep m c main_arg16 (by decide)) |>.trans <| (W10_keep m c main_arg16 (by decide)) |>.trans <| (W9_keep m c main_arg16 (by decide)) |>.trans <| (W8_keep m c main_arg16 (by decide)) |>.trans <| (W7_keep m c main_arg16 (by decide)) |>.trans <| (W6_keep m c main_arg16 (by decide)) |>.trans <| (W5_keep m c main_arg16 (by decide)) |>.trans <| (W4_keep m c main_arg16 (by decide)) |>.trans <| (W3_keep m c main_arg16 (by decide)) |>.trans <| (W2_keep m c main_arg16 (by decide)) |>.trans <| (W1_keep m c main_arg16 (by decide))))
theorem v_main_c_25 (c : Dev nD) : U17 m c main_c_25 = (constantI S_ 32 0#32) :=
  s9_main_c_25 (W16 m c)
theorem v_main_v112 (c : Dev nD) : U17 m c main_v112 = ((broadcastInDim S300000 ![] bcast_S_S300000 : (⟨S_, .i32⟩ : BufTy).Contents (Elt F) → (⟨S300000, .i32⟩ : BufTy).Contents (Elt F)) (constantI S_ 32 0#32)) :=
  (s9_main_v112 (W16 m c)).trans (congrArg (broadcastInDim S300000 ![] bcast_S_S300000 : (⟨S_, .i32⟩ : BufTy).Contents (Elt F) → (⟨S300000, .i32⟩ : BufTy).Contents (Elt F)) (v_main_c_25 m c))
theorem v_main_v113 (c : Dev nD) : U17 m c main_v113 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s9_main_v113 (W16 m c)).trans (congrArg₂ (cmpi .slt : (⟨S300000, .i32⟩ : BufTy).Contents (Elt F) → (⟨S300000, .i32⟩ : BufTy).Contents (Elt F) → (⟨S300000, .i1⟩ : BufTy).Contents (Elt F)) ((((W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v112 m c))
theorem v_main_c_26 (c : Dev nD) : U17 m c main_c_26 = (constantI S_ 32 30000#32) :=
  s9_main_c_26 (W16 m c)
theorem v_main_v114 (c : Dev nD) : U17 m c main_v114 = ((broadcastInDim S300000 ![] bcast_S_S300000 : (⟨S_, .i32⟩ : BufTy).Contents (Elt F) → (⟨S300000, .i32⟩ : BufTy).Contents (Elt F)) (constantI S_ 32 30000#32)) :=
  (s9_main_v114 (W16 m c)).trans (congrArg (broadcastInDim S300000 ![] bcast_S_S300000 : (⟨S_, .i32⟩ : BufTy).Contents (Elt F) → (⟨S300000, .i32⟩ : BufTy).Contents (Elt F)) (v_main_c_26 m c))
theorem v_main_v115 (c : Dev nD) : U17 m c main_v115 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s9_main_v115 (W16 m c)).trans (congrArg₂ (addi : (⟨S300000, .i32⟩ : BufTy).Contents (Elt F) → (⟨S300000, .i32⟩ : BufTy).Contents (Elt F) → (⟨S300000, .i32⟩ : BufTy).Contents (Elt F)) ((((W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v114 m c))
theorem v_main_v116 (c : Dev nD) : U17 m c main_v116 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)) :=
  (s9_main_v116 (W16 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v113 m c) (v_main_v115 m c) ((((W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)))
theorem v_main_v117 (c : Dev nD) : U17 m c main_v117 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))) :=
  (s9_main_v117 (W16 m c)).trans (congrArg (broadcastInDim S300000x1 ![0] bcast_S300000_S300000x1_0 : (⟨S300000, .i32⟩ : BufTy).Contents (Elt F) → (⟨S300000x1, .i32⟩ : BufTy).Contents (Elt F)) (v_main_v116 m c))
theorem v_main_v118 (c : Dev nD) : U17 m c main_v118 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U14 m c main_v96) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  (s9_main_v118 (W16 m c)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) ((W17_keep m c main_v96 (by decide)) |>.trans <| (W16_keep m c main_v96 (by decide)) |>.trans <| (W15_keep m c main_v96 (by decide))) (v_main_v117 m c))
theorem v_main_c_27 (c : Dev nD) : U17 m c main_c_27 = (constantI S_ 32 0#32) :=
  s9_main_c_27 (W16 m c)
theorem v_main_v119 (c : Dev nD) : U17 m c main_v119 = ((broadcastInDim S300000 ![] bcast_S_S300000 : (⟨S_, .i32⟩ : BufTy).Contents (Elt F) → (⟨S300000, .i32⟩ : BufTy).Contents (Elt F)) (constantI S_ 32 0#32)) :=
  (s9_main_v119 (W16 m c)).trans (congrArg (broadcastInDim S300000 ![] bcast_S_S300000 : (⟨S_, .i32⟩ : BufTy).Contents (Elt F) → (⟨S300000, .i32⟩ : BufTy).Contents (Elt F)) (v_main_c_27 m c))
theorem v_main_v120 (c : Dev nD) : U17 m c main_v120 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s9_main_v120 (W16 m c)).trans (congrArg₂ (cmpi .slt : (⟨S300000, .i32⟩ : BufTy).Contents (Elt F) → (⟨S300000, .i32⟩ : BufTy).Contents (Elt F) → (⟨S300000, .i1⟩ : BufTy).Contents (Elt F)) ((((W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)) (v_main_v119 m c))
theorem v_main_c_28 (c : Dev nD) : U17 m c main_c_28 = (constantI S_ 32 30000#32) :=
  s9_main_c_28 (W16 m c)
theorem v_main_v121 (c : Dev nD) : U17 m c main_v121 = ((broadcastInDim S300000 ![] bcast_S_S300000 : (⟨S_, .i32⟩ : BufTy).Contents (Elt F) → (⟨S300000, .i32⟩ : BufTy).Contents (Elt F)) (constantI S_ 32 30000#32)) :=
  (s9_main_v121 (W16 m c)).trans (congrArg (broadcastInDim S300000 ![] bcast_S_S300000 : (⟨S_, .i32⟩ : BufTy).Contents (Elt F) → (⟨S300000, .i32⟩ : BufTy).Contents (Elt F)) (v_main_c_28 m c))
theorem v_main_v122 (c : Dev nD) : U17 m c main_v122 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s9_main_v122 (W16 m c)).trans (congrArg₂ (addi : (⟨S300000, .i32⟩ : BufTy).Contents (Elt F) → (⟨S300000, .i32⟩ : BufTy).Contents (Elt F) → (⟨S300000, .i32⟩ : BufTy).Contents (Elt F)) ((((W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)) (v_main_v121 m c))
theorem v_main_v123 (c : Dev nD) : U17 m c main_v123 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s9_main_v123 (W16 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v120 m c) (v_main_v122 m c) ((((W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_v124 (c : Dev nD) : U17 m c main_v124 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000))) :=
  (s9_main_v124 (W16 m c)).trans (congrArg (broadcastInDim S300000x1 ![0] bcast_S300000_S300000x1_0 : (⟨S300000, .i32⟩ : BufTy).Contents (Elt F) → (⟨S300000x1, .i32⟩ : BufTy).Contents (Elt F)) (v_main_v123 m c))
theorem v_main_v125 (c : Dev nD) : U17 m c main_v125 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U14 m c main_v96) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)))) :=
  (s9_main_v125 (W16 m c)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) ((W17_keep m c main_v96 (by decide)) |>.trans <| (W16_keep m c main_v96 (by decide)) |>.trans <| (W15_keep m c main_v96 (by decide))) (v_main_v124 m c))
theorem v_main_c_29 (c : Dev nD) : U17 m c main_c_29 = (constantI S_ 32 0#32) :=
  s9_main_c_29 (W16 m c)
theorem v_main_v126 (c : Dev nD) : U17 m c main_v126 = ((broadcastInDim S300000 ![] bcast_S_S300000 : (⟨S_, .i32⟩ : BufTy).Contents (Elt F) → (⟨S300000, .i32⟩ : BufTy).Contents (Elt F)) (constantI S_ 32 0#32)) :=
  (s9_main_v126 (W16 m c)).trans (congrArg (broadcastInDim S300000 ![] bcast_S_S300000 : (⟨S_, .i32⟩ : BufTy).Contents (Elt F) → (⟨S300000, .i32⟩ : BufTy).Contents (Elt F)) (v_main_c_29 m c))
theorem v_main_v127 (c : Dev nD) : U17 m c main_v127 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s9_main_v127 (W16 m c)).trans (congrArg₂ (cmpi .slt : (⟨S300000, .i32⟩ : BufTy).Contents (Elt F) → (⟨S300000, .i32⟩ : BufTy).Contents (Elt F) → (⟨S300000, .i1⟩ : BufTy).Contents (Elt F)) ((((W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v126 m c))
theorem v_main_c_30 (c : Dev nD) : U17 m c main_c_30 = (constantI S_ 32 30000#32) :=
  s9_main_c_30 (W16 m c)
theorem v_main_v128 (c : Dev nD) : U17 m c main_v128 = ((broadcastInDim S300000 ![] bcast_S_S300000 : (⟨S_, .i32⟩ : BufTy).Contents (Elt F) → (⟨S300000, .i32⟩ : BufTy).Contents (Elt F)) (constantI S_ 32 30000#32)) :=
  (s9_main_v128 (W16 m c)).trans (congrArg (broadcastInDim S300000 ![] bcast_S_S300000 : (⟨S_, .i32⟩ : BufTy).Contents (Elt F) → (⟨S300000, .i32⟩ : BufTy).Contents (Elt F)) (v_main_c_30 m c))
theorem v_main_v129 (c : Dev nD) : U17 m c main_v129 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s9_main_v129 (W16 m c)).trans (congrArg₂ (addi : (⟨S300000, .i32⟩ : BufTy).Contents (Elt F) → (⟨S300000, .i32⟩ : BufTy).Contents (Elt F) → (⟨S300000, .i32⟩ : BufTy).Contents (Elt F)) ((((W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v128 m c))
theorem v_main_v130 (c : Dev nD) : U17 m c main_v130 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)) :=
  (s9_main_v130 (W16 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v127 m c) (v_main_v129 m c) ((((W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)))
theorem v_main_v131 (c : Dev nD) : U17 m c main_v131 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))) :=
  (s9_main_v131 (W16 m c)).trans (congrArg (broadcastInDim S300000x1 ![0] bcast_S300000_S300000x1_0 : (⟨S300000, .i32⟩ : BufTy).Contents (Elt F) → (⟨S300000x1, .i32⟩ : BufTy).Contents (Elt F)) (v_main_v130 m c))
theorem v_main_v132 (c : Dev nD) : U17 m c main_v132 = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  (s9_main_v132 (W16 m c)).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) ((W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v131 m c))
theorem v_main_c_31 (c : Dev nD) : U17 m c main_c_31 = (constantI S_ 32 0#32) :=
  s9_main_c_31 (W16 m c)
theorem v_main_v133 (c : Dev nD) : U17 m c main_v133 = ((broadcastInDim S300000 ![] bcast_S_S300000 : (⟨S_, .i32⟩ : BufTy).Contents (Elt F) → (⟨S300000, .i32⟩ : BufTy).Contents (Elt F)) (constantI S_ 32 0#32)) :=
  (s9_main_v133 (W16 m c)).trans (congrArg (broadcastInDim S300000 ![] bcast_S_S300000 : (⟨S_, .i32⟩ : BufTy).Contents (Elt F) → (⟨S300000, .i32⟩ : BufTy).Contents (Elt F)) (v_main_c_31 m c))
theorem v_main_v134 (c : Dev nD) : U17 m c main_v134 = ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) :=
  (s9_main_v134 (W16 m c)).trans (congrArg₂ (cmpi .slt : (⟨S300000, .i32⟩ : BufTy).Contents (Elt F) → (⟨S300000, .i32⟩ : BufTy).Contents (Elt F) → (⟨S300000, .i1⟩ : BufTy).Contents (Elt F)) (v_main_v132 m c) (v_main_v133 m c))
theorem v_main_c_32 (c : Dev nD) : U17 m c main_c_32 = (constantI S_ 32 64#32) :=
  s9_main_c_32 (W16 m c)
theorem v_main_v135 (c : Dev nD) : U17 m c main_v135 = ((broadcastInDim S300000 ![] bcast_S_S300000 : (⟨S_, .i32⟩ : BufTy).Contents (Elt F) → (⟨S300000, .i32⟩ : BufTy).Contents (Elt F)) (constantI S_ 32 64#32)) :=
  (s9_main_v135 (W16 m c)).trans (congrArg (broadcastInDim S300000 ![] bcast_S_S300000 : (⟨S_, .i32⟩ : BufTy).Contents (Elt F) → (⟨S300000, .i32⟩ : BufTy).Contents (Elt F)) (v_main_c_32 m c))
theorem v_main_v136 (c : Dev nD) : U17 m c main_v136 = ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) :=
  (s9_main_v136 (W16 m c)).trans (congrArg₂ (addi : (⟨S300000, .i32⟩ : BufTy).Contents (Elt F) → (⟨S300000, .i32⟩ : BufTy).Contents (Elt F) → (⟨S300000, .i32⟩ : BufTy).Contents (Elt F)) (v_main_v132 m c) (v_main_v135 m c))
theorem v_main_v137 (c : Dev nD) : U17 m c main_v137 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))) :=
  (s9_main_v137 (W16 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v134 m c) (v_main_v136 m c) (v_main_v132 m c))
theorem v_main_v138 (c : Dev nD) : U17 m c main_v138 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))))) :=
  (s9_main_v138 (W16 m c)).trans (congrArg (broadcastInDim S300000x1 ![0] bcast_S300000_S300000x1_0 : (⟨S300000, .i32⟩ : BufTy).Contents (Elt F) → (⟨S300000x1, .i32⟩ : BufTy).Contents (Elt F)) (v_main_v137 m c))
theorem v_main_v139 (c : Dev nD) : U17 m c main_v139 = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (U16 m c main_v111) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))))) :=
  (s9_main_v139 (W16 m c)).trans (congrArg₂ ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) ((W17_keep m c main_v111 (by decide))) (v_main_v138 m c))
theorem v_main_v140 (c : Dev nD) : U17 m c main_v140 = (((extractStridedSlice S64x64 ![0, 0] · slices_S256x64_S64x64_0_0) : (⟨S256x64, .f32⟩ : BufTy).Contents (Elt F) → (⟨S64x64, .f32⟩ : BufTy).Contents (Elt F)) (U0 m c main_arg17)) :=
  (s9_main_v140 (W16 m c)).trans (congrArg ((extractStridedSlice S64x64 ![0, 0] · slices_S256x64_S64x64_0_0) : (⟨S256x64, .f32⟩ : BufTy).Contents (Elt F) → (⟨S64x64, .f32⟩ : BufTy).Contents (Elt F)) ((W17_keep m c main_arg17 (by decide)) |>.trans <| (W16_keep m c main_arg17 (by decide)) |>.trans <| (W15_keep m c main_arg17 (by decide)) |>.trans <| (W14_keep m c main_arg17 (by decide)) |>.trans <| (W13_keep m c main_arg17 (by decide)) |>.trans <| (W12_keep m c main_arg17 (by decide)) |>.trans <| (W11_keep m c main_arg17 (by decide)) |>.trans <| (W10_keep m c main_arg17 (by decide)) |>.trans <| (W9_keep m c main_arg17 (by decide)) |>.trans <| (W8_keep m c main_arg17 (by decide)) |>.trans <| (W7_keep m c main_arg17 (by decide)) |>.trans <| (W6_keep m c main_arg17 (by decide)) |>.trans <| (W5_keep m c main_arg17 (by decide)) |>.trans <| (W4_keep m c main_arg17 (by decide)) |>.trans <| (W3_keep m c main_arg17 (by decide)) |>.trans <| (W2_keep m c main_arg17 (by decide)) |>.trans <| (W1_keep m c main_arg17 (by decide))))
theorem v_main_v141 (c : Dev nD) : U17 m c main_v141 = (((extractStridedSlice S64x64 ![64, 0] · slices_S256x64_S64x64_64_0) : (⟨S256x64, .f32⟩ : BufTy).Contents (Elt F) → (⟨S64x64, .f32⟩ : BufTy).Contents (Elt F)) (U0 m c main_arg17)) :=
  (s9_main_v141 (W16 m c)).trans (congrArg ((extractStridedSlice S64x64 ![64, 0] · slices_S256x64_S64x64_64_0) : (⟨S256x64, .f32⟩ : BufTy).Contents (Elt F) → (⟨S64x64, .f32⟩ : BufTy).Contents (Elt F)) ((W17_keep m c main_arg17 (by decide)) |>.trans <| (W16_keep m c main_arg17 (by decide)) |>.trans <| (W15_keep m c main_arg17 (by decide)) |>.trans <| (W14_keep m c main_arg17 (by decide)) |>.trans <| (W13_keep m c main_arg17 (by decide)) |>.trans <| (W12_keep m c main_arg17 (by decide)) |>.trans <| (W11_keep m c main_arg17 (by decide)) |>.trans <| (W10_keep m c main_arg17 (by decide)) |>.trans <| (W9_keep m c main_arg17 (by decide)) |>.trans <| (W8_keep m c main_arg17 (by decide)) |>.trans <| (W7_keep m c main_arg17 (by decide)) |>.trans <| (W6_keep m c main_arg17 (by decide)) |>.trans <| (W5_keep m c main_arg17 (by decide)) |>.trans <| (W4_keep m c main_arg17 (by decide)) |>.trans <| (W3_keep m c main_arg17 (by decide)) |>.trans <| (W2_keep m c main_arg17 (by decide)) |>.trans <| (W1_keep m c main_arg17 (by decide))))
theorem v_main_v142 (c : Dev nD) : U17 m c main_v142 = (((extractStridedSlice S64x64 ![128, 0] · slices_S256x64_S64x64_128_0) : (⟨S256x64, .f32⟩ : BufTy).Contents (Elt F) → (⟨S64x64, .f32⟩ : BufTy).Contents (Elt F)) (U0 m c main_arg17)) :=
  (s9_main_v142 (W16 m c)).trans (congrArg ((extractStridedSlice S64x64 ![128, 0] · slices_S256x64_S64x64_128_0) : (⟨S256x64, .f32⟩ : BufTy).Contents (Elt F) → (⟨S64x64, .f32⟩ : BufTy).Contents (Elt F)) ((W17_keep m c main_arg17 (by decide)) |>.trans <| (W16_keep m c main_arg17 (by decide)) |>.trans <| (W15_keep m c main_arg17 (by decide)) |>.trans <| (W14_keep m c main_arg17 (by decide)) |>.trans <| (W13_keep m c main_arg17 (by decide)) |>.trans <| (W12_keep m c main_arg17 (by decide)) |>.trans <| (W11_keep m c main_arg17 (by decide)) |>.trans <| (W10_keep m c main_arg17 (by decide)) |>.trans <| (W9_keep m c main_arg17 (by decide)) |>.trans <| (W8_keep m c main_arg17 (by decide)) |>.trans <| (W7_keep m c main_arg17 (by decide)) |>.trans <| (W6_keep m c main_arg17 (by decide)) |>.trans <| (W5_keep m c main_arg17 (by decide)) |>.trans <| (W4_keep m c main_arg17 (by decide)) |>.trans <| (W3_keep m c main_arg17 (by decide)) |>.trans <| (W2_keep m c main_arg17 (by decide)) |>.trans <| (W1_keep m c main_arg17 (by decide))))
theorem v_main_v143 (c : Dev nD) : U17 m c main_v143 = (((extractStridedSlice S64x64 ![192, 0] · slices_S256x64_S64x64_192_0) : (⟨S256x64, .f32⟩ : BufTy).Contents (Elt F) → (⟨S64x64, .f32⟩ : BufTy).Contents (Elt F)) (U0 m c main_arg17)) :=
  (s9_main_v143 (W16 m c)).trans (congrArg ((extractStridedSlice S64x64 ![192, 0] · slices_S256x64_S64x64_192_0) : (⟨S256x64, .f32⟩ : BufTy).Contents (Elt F) → (⟨S64x64, .f32⟩ : BufTy).Contents (Elt F)) ((W17_keep m c main_arg17 (by decide)) |>.trans <| (W16_keep m c main_arg17 (by decide)) |>.trans <| (W15_keep m c main_arg17 (by decide)) |>.trans <| (W14_keep m c main_arg17 (by decide)) |>.trans <| (W13_keep m c main_arg17 (by decide)) |>.trans <| (W12_keep m c main_arg17 (by decide)) |>.trans <| (W11_keep m c main_arg17 (by decide)) |>.trans <| (W10_keep m c main_arg17 (by decide)) |>.trans <| (W9_keep m c main_arg17 (by decide)) |>.trans <| (W8_keep m c main_arg17 (by decide)) |>.trans <| (W7_keep m c main_arg17 (by decide)) |>.trans <| (W6_keep m c main_arg17 (by decide)) |>.trans <| (W5_keep m c main_arg17 (by decide)) |>.trans <| (W4_keep m c main_arg17 (by decide)) |>.trans <| (W3_keep m c main_arg17 (by decide)) |>.trans <| (W2_keep m c main_arg17 (by decide)) |>.trans <| (W1_keep m c main_arg17 (by decide))))
theorem v_main_v144 (c : Dev nD) : U17 m c main_v144 = (shapeCast S1x64 (U0 m c main_arg18) shapeCasts_S64_S1x64) :=
  (s9_main_v144 (W16 m c)).trans (congrArg (fun z => shapeCast S1x64 z shapeCasts_S64_S1x64) ((W17_keep m c main_arg18 (by decide)) |>.trans <| (W16_keep m c main_arg18 (by decide)) |>.trans <| (W15_keep m c main_arg18 (by decide)) |>.trans <| (W14_keep m c main_arg18 (by decide)) |>.trans <| (W13_keep m c main_arg18 (by decide)) |>.trans <| (W12_keep m c main_arg18 (by decide)) |>.trans <| (W11_keep m c main_arg18 (by decide)) |>.trans <| (W10_keep m c main_arg18 (by decide)) |>.trans <| (W9_keep m c main_arg18 (by decide)) |>.trans <| (W8_keep m c main_arg18 (by decide)) |>.trans <| (W7_keep m c main_arg18 (by decide)) |>.trans <| (W6_keep m c main_arg18 (by decide)) |>.trans <| (W5_keep m c main_arg18 (by decide)) |>.trans <| (W4_keep m c main_arg18 (by decide)) |>.trans <| (W3_keep m c main_arg18 (by decide)) |>.trans <| (W2_keep m c main_arg18 (by decide)) |>.trans <| (W1_keep m c main_arg18 (by decide))))
theorem v_main_cst_33 (c : Dev nD) : U19 m c main_cst_33 = (constant (F := F) S_ .f32 0x00000000#32) :=
  s10_main_cst_33 (W18 m c)
theorem v_main_v146 (c : Dev nD) : U19 m c main_v146 = ((broadcastInDim S30000x64 ![] bcast_S_S30000x64 : (⟨S_, .f32⟩ : BufTy).Contents (Elt F) → (⟨S30000x64, .f32⟩ : BufTy).Contents (Elt F)) (constant (F := F) S_ .f32 0x00000000#32)) :=
  (s10_main_v146 (W18 m c)).trans (congrArg (broadcastInDim S30000x64 ![] bcast_S_S30000x64 : (⟨S_, .f32⟩ : BufTy).Contents (Elt F) → (⟨S30000x64, .f32⟩ : BufTy).Contents (Elt F)) (v_main_cst_33 m c))
theorem v_main_v147 (c : Dev nD) : U19 m c main_v147 = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s10_main_v147 (W18 m c)).trans (congrArg (broadcastInDim S300000x1 ![0] bcast_S300000_S300000x1_0 : (⟨S300000, .i32⟩ : BufTy).Contents (Elt F) → (⟨S300000x1, .i32⟩ : BufTy).Contents (Elt F)) ((((W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_v148 (c : Dev nD) : U19 m c main_v148 = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U18 m c main_v145)) :=
  (s10_main_v148 (W18 m c)).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (v_main_v146 m c) (v_main_v147 m c) ((W19_keep m c main_v145 (by decide))))
theorem v_main_cst_35 (c : Dev nD) : U19 m c main_cst_35 = (constant (F := F) S_ .f32 0x00000000#32) :=
  s10_main_cst_35 (W18 m c)
theorem v_main_v150 (c : Dev nD) : U19 m c main_v150 = ((broadcastInDim S30000x1 ![] bcast_S_S30000x1 : (⟨S_, .f32⟩ : BufTy).Contents (Elt F) → (⟨S30000x1, .f32⟩ : BufTy).Contents (Elt F)) (constant (F := F) S_ .f32 0x00000000#32)) :=
  (s10_main_v150 (W18 m c)).trans (congrArg (broadcastInDim S30000x1 ![] bcast_S_S30000x1 : (⟨S_, .f32⟩ : BufTy).Contents (Elt F) → (⟨S30000x1, .f32⟩ : BufTy).Contents (Elt F)) (v_main_cst_35 m c))
theorem v_main_v151 (c : Dev nD) : U19 m c main_v151 = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s10_main_v151 (W18 m c)).trans (congrArg (broadcastInDim S300000x1 ![0] bcast_S300000_S300000x1_0 : (⟨S300000, .i32⟩ : BufTy).Contents (Elt F) → (⟨S300000x1, .i32⟩ : BufTy).Contents (Elt F)) ((((W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_cst_34 (c : Dev nD) : U19 m c main_cst_34 = (constant (F := F) S_ .f32 0x3F800000#32) :=
  s10_main_cst_34 (W18 m c)
theorem v_main_v149 (c : Dev nD) : U19 m c main_v149 = ((broadcastInDim S300000x1 ![] bcast_S_S300000x1 : (⟨S_, .f32⟩ : BufTy).Contents (Elt F) → (⟨S300000x1, .f32⟩ : BufTy).Contents (Elt F)) (constant (F := F) S_ .f32 0x3F800000#32)) :=
  (s10_main_v149 (W18 m c)).trans (congrArg (broadcastInDim S300000x1 ![] bcast_S_S300000x1 : (⟨S_, .f32⟩ : BufTy).Contents (Elt F) → (⟨S300000x1, .f32⟩ : BufTy).Contents (Elt F)) (v_main_cst_34 m c))
theorem v_main_v152 (c : Dev nD) : U19 m c main_v152 = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) :=
  (s10_main_v152 (W18 m c)).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (v_main_v150 m c) (v_main_v151 m c) (v_main_v149 m c))
theorem v_main_cst_36 (c : Dev nD) : U19 m c main_cst_36 = (constant (F := F) S_ .f32 0x3F800000#32) :=
  s10_main_cst_36 (W18 m c)
theorem v_main_v153 (c : Dev nD) : U19 m c main_v153 = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (s10_main_v153 (W18 m c)).trans (congrArg (broadcastInDim S30000x1 ![] bcast_S_S30000x1 : (⟨S_, .f32⟩ : BufTy).Contents (Elt F) → (⟨S30000x1, .f32⟩ : BufTy).Contents (Elt F)) (v_main_cst_36 m c))
theorem v_main_v154 (c : Dev nD) : U19 m c main_v154 = ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (s10_main_v154 (W18 m c)).trans (congrArg₂ (maximumf : (⟨S30000x1, .f32⟩ : BufTy).Contents (Elt F) → (⟨S30000x1, .f32⟩ : BufTy).Contents (Elt F) → (⟨S30000x1, .f32⟩ : BufTy).Contents (Elt F)) (v_main_v152 m c) (v_main_v153 m c))
theorem v_main_v155 (c : Dev nD) : U19 m c main_v155 = ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))) :=
  (s10_main_v155 (W18 m c)).trans (congrArg (broadcastInDim S30000x64 ![0, 1] bcast_S30000x1_S30000x64_0_1 : (⟨S30000x1, .f32⟩ : BufTy).Contents (Elt F) → (⟨S30000x64, .f32⟩ : BufTy).Contents (Elt F)) (v_main_v154 m c))
theorem v_main_v156 (c : Dev nD) : U19 m c main_v156 = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U18 m c main_v145)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  (s10_main_v156 (W18 m c)).trans (congrArg₂ (Host.divf : (⟨S30000x64, .f32⟩ : BufTy).Contents (Elt F) → (⟨S30000x64, .f32⟩ : BufTy).Contents (Elt F) → (⟨S30000x64, .f32⟩ : BufTy).Contents (Elt F)) (v_main_v148 m c) (v_main_v155 m c))
theorem v_main_c_37 (c : Dev nD) : U19 m c main_c_37 = (constantI S_ 32 0#32) :=
  s10_main_c_37 (W18 m c)
theorem v_main_v157 (c : Dev nD) : U19 m c main_v157 = ((broadcastInDim S30000 ![] bcast_S_S30000 : (⟨S_, .i32⟩ : BufTy).Contents (Elt F) → (⟨S30000, .i32⟩ : BufTy).Contents (Elt F)) (constantI S_ 32 0#32)) :=
  (s10_main_v157 (W18 m c)).trans (congrArg (broadcastInDim S30000 ![] bcast_S_S30000 : (⟨S_, .i32⟩ : BufTy).Contents (Elt F) → (⟨S30000, .i32⟩ : BufTy).Contents (Elt F)) (v_main_c_37 m c))
theorem v_main_v158 (c : Dev nD) : U19 m c main_v158 = ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) :=
  (s10_main_v158 (W18 m c)).trans (congrArg₂ (cmpi .slt : (⟨S30000, .i32⟩ : BufTy).Contents (Elt F) → (⟨S30000, .i32⟩ : BufTy).Contents (Elt F) → (⟨S30000, .i1⟩ : BufTy).Contents (Elt F)) ((W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v157 m c))
theorem v_main_c_38 (c : Dev nD) : U19 m c main_c_38 = (constantI S_ 32 64#32) :=
  s10_main_c_38 (W18 m c)
theorem v_main_v159 (c : Dev nD) : U19 m c main_v159 = ((broadcastInDim S30000 ![] bcast_S_S30000 : (⟨S_, .i32⟩ : BufTy).Contents (Elt F) → (⟨S30000, .i32⟩ : BufTy).Contents (Elt F)) (constantI S_ 32 64#32)) :=
  (s10_main_v159 (W18 m c)).trans (congrArg (broadcastInDim S30000 ![] bcast_S_S30000 : (⟨S_, .i32⟩ : BufTy).Contents (Elt F) → (⟨S30000, .i32⟩ : BufTy).Contents (Elt F)) (v_main_c_38 m c))
theorem v_main_v160 (c : Dev nD) : U19 m c main_v160 = ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) :=
  (s10_main_v160 (W18 m c)).trans (congrArg₂ (addi : (⟨S30000, .i32⟩ : BufTy).Contents (Elt F) → (⟨S30000, .i32⟩ : BufTy).Contents (Elt F) → (⟨S30000, .i32⟩ : BufTy).Contents (Elt F)) ((W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v159 m c))
theorem v_main_v161 (c : Dev nD) : U19 m c main_v161 = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)) :=
  (s10_main_v161 (W18 m c)).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (v_main_v158 m c) (v_main_v160 m c) ((W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_v162 (c : Dev nD) : U19 m c main_v162 = ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4))) :=
  (s10_main_v162 (W18 m c)).trans (congrArg (broadcastInDim S30000x1 ![0] bcast_S30000_S30000x1_0 : (⟨S30000, .i32⟩ : BufTy).Contents (Elt F) → (⟨S30000x1, .i32⟩ : BufTy).Contents (Elt F)) (v_main_v161 m c))
theorem v_main_v163 (c : Dev nD) : U19 m c main_v163 = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (U16 m c main_v111) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)))) :=
  (s10_main_v163 (W18 m c)).trans (congrArg₂ ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) ((W19_keep m c main_v111 (by decide)) |>.trans <| (W18_keep m c main_v111 (by decide)) |>.trans <| (W17_keep m c main_v111 (by decide))) (v_main_v162 m c))
theorem v_main_v164 (c : Dev nD) : U19 m c main_v164 = (((extractStridedSlice S64x64 ![0, 0] · slices_S192x64_S64x64_0_0) : (⟨S192x64, .f32⟩ : BufTy).Contents (Elt F) → (⟨S64x64, .f32⟩ : BufTy).Contents (Elt F)) (U0 m c main_arg19)) :=
  (s10_main_v164 (W18 m c)).trans (congrArg ((extractStridedSlice S64x64 ![0, 0] · slices_S192x64_S64x64_0_0) : (⟨S192x64, .f32⟩ : BufTy).Contents (Elt F) → (⟨S64x64, .f32⟩ : BufTy).Contents (Elt F)) ((W19_keep m c main_arg19 (by decide)) |>.trans <| (W18_keep m c main_arg19 (by decide)) |>.trans <| (W17_keep m c main_arg19 (by decide)) |>.trans <| (W16_keep m c main_arg19 (by decide)) |>.trans <| (W15_keep m c main_arg19 (by decide)) |>.trans <| (W14_keep m c main_arg19 (by decide)) |>.trans <| (W13_keep m c main_arg19 (by decide)) |>.trans <| (W12_keep m c main_arg19 (by decide)) |>.trans <| (W11_keep m c main_arg19 (by decide)) |>.trans <| (W10_keep m c main_arg19 (by decide)) |>.trans <| (W9_keep m c main_arg19 (by decide)) |>.trans <| (W8_keep m c main_arg19 (by decide)) |>.trans <| (W7_keep m c main_arg19 (by decide)) |>.trans <| (W6_keep m c main_arg19 (by decide)) |>.trans <| (W5_keep m c main_arg19 (by decide)) |>.trans <| (W4_keep m c main_arg19 (by decide)) |>.trans <| (W3_keep m c main_arg19 (by decide)) |>.trans <| (W2_keep m c main_arg19 (by decide)) |>.trans <| (W1_keep m c main_arg19 (by decide))))
theorem v_main_v165 (c : Dev nD) : U19 m c main_v165 = (((extractStridedSlice S64x64 ![64, 0] · slices_S192x64_S64x64_64_0) : (⟨S192x64, .f32⟩ : BufTy).Contents (Elt F) → (⟨S64x64, .f32⟩ : BufTy).Contents (Elt F)) (U0 m c main_arg19)) :=
  (s10_main_v165 (W18 m c)).trans (congrArg ((extractStridedSlice S64x64 ![64, 0] · slices_S192x64_S64x64_64_0) : (⟨S192x64, .f32⟩ : BufTy).Contents (Elt F) → (⟨S64x64, .f32⟩ : BufTy).Contents (Elt F)) ((W19_keep m c main_arg19 (by decide)) |>.trans <| (W18_keep m c main_arg19 (by decide)) |>.trans <| (W17_keep m c main_arg19 (by decide)) |>.trans <| (W16_keep m c main_arg19 (by decide)) |>.trans <| (W15_keep m c main_arg19 (by decide)) |>.trans <| (W14_keep m c main_arg19 (by decide)) |>.trans <| (W13_keep m c main_arg19 (by decide)) |>.trans <| (W12_keep m c main_arg19 (by decide)) |>.trans <| (W11_keep m c main_arg19 (by decide)) |>.trans <| (W10_keep m c main_arg19 (by decide)) |>.trans <| (W9_keep m c main_arg19 (by decide)) |>.trans <| (W8_keep m c main_arg19 (by decide)) |>.trans <| (W7_keep m c main_arg19 (by decide)) |>.trans <| (W6_keep m c main_arg19 (by decide)) |>.trans <| (W5_keep m c main_arg19 (by decide)) |>.trans <| (W4_keep m c main_arg19 (by decide)) |>.trans <| (W3_keep m c main_arg19 (by decide)) |>.trans <| (W2_keep m c main_arg19 (by decide)) |>.trans <| (W1_keep m c main_arg19 (by decide))))
theorem v_main_v166 (c : Dev nD) : U19 m c main_v166 = (((extractStridedSlice S64x64 ![128, 0] · slices_S192x64_S64x64_128_0) : (⟨S192x64, .f32⟩ : BufTy).Contents (Elt F) → (⟨S64x64, .f32⟩ : BufTy).Contents (Elt F)) (U0 m c main_arg19)) :=
  (s10_main_v166 (W18 m c)).trans (congrArg ((extractStridedSlice S64x64 ![128, 0] · slices_S192x64_S64x64_128_0) : (⟨S192x64, .f32⟩ : BufTy).Contents (Elt F) → (⟨S64x64, .f32⟩ : BufTy).Contents (Elt F)) ((W19_keep m c main_arg19 (by decide)) |>.trans <| (W18_keep m c main_arg19 (by decide)) |>.trans <| (W17_keep m c main_arg19 (by decide)) |>.trans <| (W16_keep m c main_arg19 (by decide)) |>.trans <| (W15_keep m c main_arg19 (by decide)) |>.trans <| (W14_keep m c main_arg19 (by decide)) |>.trans <| (W13_keep m c main_arg19 (by decide)) |>.trans <| (W12_keep m c main_arg19 (by decide)) |>.trans <| (W11_keep m c main_arg19 (by decide)) |>.trans <| (W10_keep m c main_arg19 (by decide)) |>.trans <| (W9_keep m c main_arg19 (by decide)) |>.trans <| (W8_keep m c main_arg19 (by decide)) |>.trans <| (W7_keep m c main_arg19 (by decide)) |>.trans <| (W6_keep m c main_arg19 (by decide)) |>.trans <| (W5_keep m c main_arg19 (by decide)) |>.trans <| (W4_keep m c main_arg19 (by decide)) |>.trans <| (W3_keep m c main_arg19 (by decide)) |>.trans <| (W2_keep m c main_arg19 (by decide)) |>.trans <| (W1_keep m c main_arg19 (by decide))))
theorem v_main_v167 (c : Dev nD) : U19 m c main_v167 = (shapeCast S1x64 (U0 m c main_arg20) shapeCasts_S64_S1x64) :=
  (s10_main_v167 (W18 m c)).trans (congrArg (fun z => shapeCast S1x64 z shapeCasts_S64_S1x64) ((W19_keep m c main_arg20 (by decide)) |>.trans <| (W18_keep m c main_arg20 (by decide)) |>.trans <| (W17_keep m c main_arg20 (by decide)) |>.trans <| (W16_keep m c main_arg20 (by decide)) |>.trans <| (W15_keep m c main_arg20 (by decide)) |>.trans <| (W14_keep m c main_arg20 (by decide)) |>.trans <| (W13_keep m c main_arg20 (by decide)) |>.trans <| (W12_keep m c main_arg20 (by decide)) |>.trans <| (W11_keep m c main_arg20 (by decide)) |>.trans <| (W10_keep m c main_arg20 (by decide)) |>.trans <| (W9_keep m c main_arg20 (by decide)) |>.trans <| (W8_keep m c main_arg20 (by decide)) |>.trans <| (W7_keep m c main_arg20 (by decide)) |>.trans <| (W6_keep m c main_arg20 (by decide)) |>.trans <| (W5_keep m c main_arg20 (by decide)) |>.trans <| (W4_keep m c main_arg20 (by decide)) |>.trans <| (W3_keep m c main_arg20 (by decide)) |>.trans <| (W2_keep m c main_arg20 (by decide)) |>.trans <| (W1_keep m c main_arg20 (by decide))))
theorem v_main_cst_39 (c : Dev nD) : U21 m c main_cst_39 = (constant (F := F) S_ .f32 0x00000000#32) :=
  s11_main_cst_39 (W20 m c)
theorem v_main_v169 (c : Dev nD) : U21 m c main_v169 = ((broadcastInDim S64x64 ![] bcast_S_S64x64 : (⟨S_, .f32⟩ : BufTy).Contents (Elt F) → (⟨S64x64, .f32⟩ : BufTy).Contents (Elt F)) (constant (F := F) S_ .f32 0x00000000#32)) :=
  (s11_main_v169 (W20 m c)).trans (congrArg (broadcastInDim S64x64 ![] bcast_S_S64x64 : (⟨S_, .f32⟩ : BufTy).Contents (Elt F) → (⟨S64x64, .f32⟩ : BufTy).Contents (Elt F)) (v_main_cst_39 m c))
theorem v_main_v170 (c : Dev nD) : U21 m c main_v170 = ((broadcastInDim S30000x1 ![0] bcast_S30000_S30000x1_0 : (⟨S30000, .i32⟩ : BufTy).Contents (Elt F) → (⟨S30000x1, .i32⟩ : BufTy).Contents (Elt F)) (U0 m c main_arg4)) :=
  (s11_main_v170 (W20 m c)).trans (congrArg (broadcastInDim S30000x1 ![0] bcast_S30000_S30000x1_0 : (⟨S30000, .i32⟩ : BufTy).Contents (Elt F) → (⟨S30000x1, .i32⟩ : BufTy).Contents (Elt F)) ((W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_v171 (c : Dev nD) : U21 m c main_v171 = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U20 m c main_v168)) :=
  (s11_main_v171 (W20 m c)).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (v_main_v169 m c) (v_main_v170 m c) ((W21_keep m c main_v168 (by decide))))
theorem v_main_cst_41 (c : Dev nD) : U21 m c main_cst_41 = (constant (F := F) S_ .f32 0x00000000#32) :=
  s11_main_cst_41 (W20 m c)
theorem v_main_v173 (c : Dev nD) : U21 m c main_v173 = ((broadcastInDim S64x1 ![] bcast_S_S64x1 : (⟨S_, .f32⟩ : BufTy).Contents (Elt F) → (⟨S64x1, .f32⟩ : BufTy).Contents (Elt F)) (constant (F := F) S_ .f32 0x00000000#32)) :=
  (s11_main_v173 (W20 m c)).trans (congrArg (broadcastInDim S64x1 ![] bcast_S_S64x1 : (⟨S_, .f32⟩ : BufTy).Contents (Elt F) → (⟨S64x1, .f32⟩ : BufTy).Contents (Elt F)) (v_main_cst_41 m c))
theorem v_main_v174 (c : Dev nD) : U21 m c main_v174 = ((broadcastInDim S30000x1 ![0] bcast_S30000_S30000x1_0 : (⟨S30000, .i32⟩ : BufTy).Contents (Elt F) → (⟨S30000x1, .i32⟩ : BufTy).Contents (Elt F)) (U0 m c main_arg4)) :=
  (s11_main_v174 (W20 m c)).trans (congrArg (broadcastInDim S30000x1 ![0] bcast_S30000_S30000x1_0 : (⟨S30000, .i32⟩ : BufTy).Contents (Elt F) → (⟨S30000x1, .i32⟩ : BufTy).Contents (Elt F)) ((W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_cst_40 (c : Dev nD) : U21 m c main_cst_40 = (constant (F := F) S_ .f32 0x3F800000#32) :=
  s11_main_cst_40 (W20 m c)
theorem v_main_v172 (c : Dev nD) : U21 m c main_v172 = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (s11_main_v172 (W20 m c)).trans (congrArg (broadcastInDim S30000x1 ![] bcast_S_S30000x1 : (⟨S_, .f32⟩ : BufTy).Contents (Elt F) → (⟨S30000x1, .f32⟩ : BufTy).Contents (Elt F)) (v_main_cst_40 m c))
theorem v_main_v175 (c : Dev nD) : U21 m c main_v175 = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (s11_main_v175 (W20 m c)).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (v_main_v173 m c) (v_main_v174 m c) (v_main_v172 m c))
theorem v_main_cst_42 (c : Dev nD) : U21 m c main_cst_42 = (constant (F := F) S_ .f32 0x3F800000#32) :=
  s11_main_cst_42 (W20 m c)
theorem v_main_v176 (c : Dev nD) : U21 m c main_v176 = ((broadcastInDim S64x1 ![] bcast_S_S64x1 : (⟨S_, .f32⟩ : BufTy).Contents (Elt F) → (⟨S64x1, .f32⟩ : BufTy).Contents (Elt F)) (constant (F := F) S_ .f32 0x3F800000#32)) :=
  (s11_main_v176 (W20 m c)).trans (congrArg (broadcastInDim S64x1 ![] bcast_S_S64x1 : (⟨S_, .f32⟩ : BufTy).Contents (Elt F) → (⟨S64x1, .f32⟩ : BufTy).Contents (Elt F)) (v_main_cst_42 m c))
theorem v_main_v177 (c : Dev nD) : U21 m c main_v177 = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))) :=
  (s11_main_v177 (W20 m c)).trans (congrArg₂ (maximumf : (⟨S64x1, .f32⟩ : BufTy).Contents (Elt F) → (⟨S64x1, .f32⟩ : BufTy).Contents (Elt F) → (⟨S64x1, .f32⟩ : BufTy).Contents (Elt F)) (v_main_v175 m c) (v_main_v176 m c))
theorem v_main_v178 (c : Dev nD) : U21 m c main_v178 = ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))) :=
  (s11_main_v178 (W20 m c)).trans (congrArg (broadcastInDim S64x64 ![0, 1] bcast_S64x1_S64x64_0_1 : (⟨S64x1, .f32⟩ : BufTy).Contents (Elt F) → (⟨S64x64, .f32⟩ : BufTy).Contents (Elt F)) (v_main_v177 m c))
theorem v_main_v179 (c : Dev nD) : U21 m c main_v179 = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U20 m c main_v168)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  (s11_main_v179 (W20 m c)).trans (congrArg₂ (Host.divf : (⟨S64x64, .f32⟩ : BufTy).Contents (Elt F) → (⟨S64x64, .f32⟩ : BufTy).Contents (Elt F) → (⟨S64x64, .f32⟩ : BufTy).Contents (Elt F)) (v_main_v171 m c) (v_main_v178 m c))
theorem v_main_v180 (c : Dev nD) : U21 m c main_v180 = (((extractStridedSlice S64x64 ![0, 0] · slices_S128x64_S64x64_0_0) : (⟨S128x64, .f32⟩ : BufTy).Contents (Elt F) → (⟨S64x64, .f32⟩ : BufTy).Contents (Elt F)) (U0 m c main_arg21)) :=
  (s11_main_v180 (W20 m c)).trans (congrArg ((extractStridedSlice S64x64 ![0, 0] · slices_S128x64_S64x64_0_0) : (⟨S128x64, .f32⟩ : BufTy).Contents (Elt F) → (⟨S64x64, .f32⟩ : BufTy).Contents (Elt F)) ((W21_keep m c main_arg21 (by decide)) |>.trans <| (W20_keep m c main_arg21 (by decide)) |>.trans <| (W19_keep m c main_arg21 (by decide)) |>.trans <| (W18_keep m c main_arg21 (by decide)) |>.trans <| (W17_keep m c main_arg21 (by decide)) |>.trans <| (W16_keep m c main_arg21 (by decide)) |>.trans <| (W15_keep m c main_arg21 (by decide)) |>.trans <| (W14_keep m c main_arg21 (by decide)) |>.trans <| (W13_keep m c main_arg21 (by decide)) |>.trans <| (W12_keep m c main_arg21 (by decide)) |>.trans <| (W11_keep m c main_arg21 (by decide)) |>.trans <| (W10_keep m c main_arg21 (by decide)) |>.trans <| (W9_keep m c main_arg21 (by decide)) |>.trans <| (W8_keep m c main_arg21 (by decide)) |>.trans <| (W7_keep m c main_arg21 (by decide)) |>.trans <| (W6_keep m c main_arg21 (by decide)) |>.trans <| (W5_keep m c main_arg21 (by decide)) |>.trans <| (W4_keep m c main_arg21 (by decide)) |>.trans <| (W3_keep m c main_arg21 (by decide)) |>.trans <| (W2_keep m c main_arg21 (by decide)) |>.trans <| (W1_keep m c main_arg21 (by decide))))
theorem v_main_v181 (c : Dev nD) : U21 m c main_v181 = (((extractStridedSlice S64x64 ![64, 0] · slices_S128x64_S64x64_64_0) : (⟨S128x64, .f32⟩ : BufTy).Contents (Elt F) → (⟨S64x64, .f32⟩ : BufTy).Contents (Elt F)) (U0 m c main_arg21)) :=
  (s11_main_v181 (W20 m c)).trans (congrArg ((extractStridedSlice S64x64 ![64, 0] · slices_S128x64_S64x64_64_0) : (⟨S128x64, .f32⟩ : BufTy).Contents (Elt F) → (⟨S64x64, .f32⟩ : BufTy).Contents (Elt F)) ((W21_keep m c main_arg21 (by decide)) |>.trans <| (W20_keep m c main_arg21 (by decide)) |>.trans <| (W19_keep m c main_arg21 (by decide)) |>.trans <| (W18_keep m c main_arg21 (by decide)) |>.trans <| (W17_keep m c main_arg21 (by decide)) |>.trans <| (W16_keep m c main_arg21 (by decide)) |>.trans <| (W15_keep m c main_arg21 (by decide)) |>.trans <| (W14_keep m c main_arg21 (by decide)) |>.trans <| (W13_keep m c main_arg21 (by decide)) |>.trans <| (W12_keep m c main_arg21 (by decide)) |>.trans <| (W11_keep m c main_arg21 (by decide)) |>.trans <| (W10_keep m c main_arg21 (by decide)) |>.trans <| (W9_keep m c main_arg21 (by decide)) |>.trans <| (W8_keep m c main_arg21 (by decide)) |>.trans <| (W7_keep m c main_arg21 (by decide)) |>.trans <| (W6_keep m c main_arg21 (by decide)) |>.trans <| (W5_keep m c main_arg21 (by decide)) |>.trans <| (W4_keep m c main_arg21 (by decide)) |>.trans <| (W3_keep m c main_arg21 (by decide)) |>.trans <| (W2_keep m c main_arg21 (by decide)) |>.trans <| (W1_keep m c main_arg21 (by decide))))
theorem v_main_v182 (c : Dev nD) : U21 m c main_v182 = (shapeCast S1x64 (U0 m c main_arg22) shapeCasts_S64_S1x64) :=
  (s11_main_v182 (W20 m c)).trans (congrArg (fun z => shapeCast S1x64 z shapeCasts_S64_S1x64) ((W21_keep m c main_arg22 (by decide)) |>.trans <| (W20_keep m c main_arg22 (by decide)) |>.trans <| (W19_keep m c main_arg22 (by decide)) |>.trans <| (W18_keep m c main_arg22 (by decide)) |>.trans <| (W17_keep m c main_arg22 (by decide)) |>.trans <| (W16_keep m c main_arg22 (by decide)) |>.trans <| (W15_keep m c main_arg22 (by decide)) |>.trans <| (W14_keep m c main_arg22 (by decide)) |>.trans <| (W13_keep m c main_arg22 (by decide)) |>.trans <| (W12_keep m c main_arg22 (by decide)) |>.trans <| (W11_keep m c main_arg22 (by decide)) |>.trans <| (W10_keep m c main_arg22 (by decide)) |>.trans <| (W9_keep m c main_arg22 (by decide)) |>.trans <| (W8_keep m c main_arg22 (by decide)) |>.trans <| (W7_keep m c main_arg22 (by decide)) |>.trans <| (W6_keep m c main_arg22 (by decide)) |>.trans <| (W5_keep m c main_arg22 (by decide)) |>.trans <| (W4_keep m c main_arg22 (by decide)) |>.trans <| (W3_keep m c main_arg22 (by decide)) |>.trans <| (W2_keep m c main_arg22 (by decide)) |>.trans <| (W1_keep m c main_arg22 (by decide))))
theorem v_main_c_43 (c : Dev nD) : U23 m c main_c_43 = (constantI S_ 32 0#32) :=
  s12_main_c_43 (W22 m c)
theorem v_main_v184 (c : Dev nD) : U23 m c main_v184 = ((broadcastInDim S300000 ![] bcast_S_S300000 : (⟨S_, .i32⟩ : BufTy).Contents (Elt F) → (⟨S300000, .i32⟩ : BufTy).Contents (Elt F)) (constantI S_ 32 0#32)) :=
  (s12_main_v184 (W22 m c)).trans (congrArg (broadcastInDim S300000 ![] bcast_S_S300000 : (⟨S_, .i32⟩ : BufTy).Contents (Elt F) → (⟨S300000, .i32⟩ : BufTy).Contents (Elt F)) (v_main_c_43 m c))
theorem v_main_v185 (c : Dev nD) : U23 m c main_v185 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s12_main_v185 (W22 m c)).trans (congrArg₂ (cmpi .slt : (⟨S300000, .i32⟩ : BufTy).Contents (Elt F) → (⟨S300000, .i32⟩ : BufTy).Contents (Elt F) → (⟨S300000, .i1⟩ : BufTy).Contents (Elt F)) ((((W23_keep m c main_v1 (by decide)) |>.trans <| (W22_keep m c main_v1 (by decide)) |>.trans <| (W21_keep m c main_v1 (by decide)) |>.trans <| (W20_keep m c main_v1 (by decide)) |>.trans <| (W19_keep m c main_v1 (by decide)) |>.trans <| (W18_keep m c main_v1 (by decide)) |>.trans <| (W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v184 m c))
theorem v_main_c_44 (c : Dev nD) : U23 m c main_c_44 = (constantI S_ 32 30000#32) :=
  s12_main_c_44 (W22 m c)
theorem v_main_v186 (c : Dev nD) : U23 m c main_v186 = ((broadcastInDim S300000 ![] bcast_S_S300000 : (⟨S_, .i32⟩ : BufTy).Contents (Elt F) → (⟨S300000, .i32⟩ : BufTy).Contents (Elt F)) (constantI S_ 32 30000#32)) :=
  (s12_main_v186 (W22 m c)).trans (congrArg (broadcastInDim S300000 ![] bcast_S_S300000 : (⟨S_, .i32⟩ : BufTy).Contents (Elt F) → (⟨S300000, .i32⟩ : BufTy).Contents (Elt F)) (v_main_c_44 m c))
theorem v_main_v187 (c : Dev nD) : U23 m c main_v187 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s12_main_v187 (W22 m c)).trans (congrArg₂ (addi : (⟨S300000, .i32⟩ : BufTy).Contents (Elt F) → (⟨S300000, .i32⟩ : BufTy).Contents (Elt F) → (⟨S300000, .i32⟩ : BufTy).Contents (Elt F)) ((((W23_keep m c main_v1 (by decide)) |>.trans <| (W22_keep m c main_v1 (by decide)) |>.trans <| (W21_keep m c main_v1 (by decide)) |>.trans <| (W20_keep m c main_v1 (by decide)) |>.trans <| (W19_keep m c main_v1 (by decide)) |>.trans <| (W18_keep m c main_v1 (by decide)) |>.trans <| (W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v186 m c))
theorem v_main_v188 (c : Dev nD) : U23 m c main_v188 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)) :=
  (s12_main_v188 (W22 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v185 m c) (v_main_v187 m c) ((((W23_keep m c main_v1 (by decide)) |>.trans <| (W22_keep m c main_v1 (by decide)) |>.trans <| (W21_keep m c main_v1 (by decide)) |>.trans <| (W20_keep m c main_v1 (by decide)) |>.trans <| (W19_keep m c main_v1 (by decide)) |>.trans <| (W18_keep m c main_v1 (by decide)) |>.trans <| (W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)))
theorem v_main_v189 (c : Dev nD) : U23 m c main_v189 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))) :=
  (s12_main_v189 (W22 m c)).trans (congrArg (broadcastInDim S300000x1 ![0] bcast_S300000_S300000x1_0 : (⟨S300000, .i32⟩ : BufTy).Contents (Elt F) → (⟨S300000x1, .i32⟩ : BufTy).Contents (Elt F)) (v_main_v188 m c))
theorem v_main_v190 (c : Dev nD) : U23 m c main_v190 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U20 m c main_v168) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  (s12_main_v190 (W22 m c)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) ((W23_keep m c main_v168 (by decide)) |>.trans <| (W22_keep m c main_v168 (by decide)) |>.trans <| (W21_keep m c main_v168 (by decide))) (v_main_v189 m c))
theorem v_main_c_45 (c : Dev nD) : U23 m c main_c_45 = (constantI S_ 32 0#32) :=
  s12_main_c_45 (W22 m c)
theorem v_main_v191 (c : Dev nD) : U23 m c main_v191 = ((broadcastInDim S300000 ![] bcast_S_S300000 : (⟨S_, .i32⟩ : BufTy).Contents (Elt F) → (⟨S300000, .i32⟩ : BufTy).Contents (Elt F)) (constantI S_ 32 0#32)) :=
  (s12_main_v191 (W22 m c)).trans (congrArg (broadcastInDim S300000 ![] bcast_S_S300000 : (⟨S_, .i32⟩ : BufTy).Contents (Elt F) → (⟨S300000, .i32⟩ : BufTy).Contents (Elt F)) (v_main_c_45 m c))
theorem v_main_v192 (c : Dev nD) : U23 m c main_v192 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s12_main_v192 (W22 m c)).trans (congrArg₂ (cmpi .slt : (⟨S300000, .i32⟩ : BufTy).Contents (Elt F) → (⟨S300000, .i32⟩ : BufTy).Contents (Elt F) → (⟨S300000, .i1⟩ : BufTy).Contents (Elt F)) ((((W23_keep m c main_v3 (by decide)) |>.trans <| (W22_keep m c main_v3 (by decide)) |>.trans <| (W21_keep m c main_v3 (by decide)) |>.trans <| (W20_keep m c main_v3 (by decide)) |>.trans <| (W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)) (v_main_v191 m c))
theorem v_main_c_46 (c : Dev nD) : U23 m c main_c_46 = (constantI S_ 32 30000#32) :=
  s12_main_c_46 (W22 m c)
theorem v_main_v193 (c : Dev nD) : U23 m c main_v193 = ((broadcastInDim S300000 ![] bcast_S_S300000 : (⟨S_, .i32⟩ : BufTy).Contents (Elt F) → (⟨S300000, .i32⟩ : BufTy).Contents (Elt F)) (constantI S_ 32 30000#32)) :=
  (s12_main_v193 (W22 m c)).trans (congrArg (broadcastInDim S300000 ![] bcast_S_S300000 : (⟨S_, .i32⟩ : BufTy).Contents (Elt F) → (⟨S300000, .i32⟩ : BufTy).Contents (Elt F)) (v_main_c_46 m c))
theorem v_main_v194 (c : Dev nD) : U23 m c main_v194 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s12_main_v194 (W22 m c)).trans (congrArg₂ (addi : (⟨S300000, .i32⟩ : BufTy).Contents (Elt F) → (⟨S300000, .i32⟩ : BufTy).Contents (Elt F) → (⟨S300000, .i32⟩ : BufTy).Contents (Elt F)) ((((W23_keep m c main_v3 (by decide)) |>.trans <| (W22_keep m c main_v3 (by decide)) |>.trans <| (W21_keep m c main_v3 (by decide)) |>.trans <| (W20_keep m c main_v3 (by decide)) |>.trans <| (W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)) (v_main_v193 m c))
theorem v_main_v195 (c : Dev nD) : U23 m c main_v195 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s12_main_v195 (W22 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v192 m c) (v_main_v194 m c) ((((W23_keep m c main_v3 (by decide)) |>.trans <| (W22_keep m c main_v3 (by decide)) |>.trans <| (W21_keep m c main_v3 (by decide)) |>.trans <| (W20_keep m c main_v3 (by decide)) |>.trans <| (W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_v196 (c : Dev nD) : U23 m c main_v196 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000))) :=
  (s12_main_v196 (W22 m c)).trans (congrArg (broadcastInDim S300000x1 ![0] bcast_S300000_S300000x1_0 : (⟨S300000, .i32⟩ : BufTy).Contents (Elt F) → (⟨S300000x1, .i32⟩ : BufTy).Contents (Elt F)) (v_main_v195 m c))
theorem v_main_v197 (c : Dev nD) : U23 m c main_v197 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U20 m c main_v168) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)))) :=
  (s12_main_v197 (W22 m c)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) ((W23_keep m c main_v168 (by decide)) |>.trans <| (W22_keep m c main_v168 (by decide)) |>.trans <| (W21_keep m c main_v168 (by decide))) (v_main_v196 m c))
theorem v_main_c_47 (c : Dev nD) : U23 m c main_c_47 = (constantI S_ 32 0#32) :=
  s12_main_c_47 (W22 m c)
theorem v_main_v198 (c : Dev nD) : U23 m c main_v198 = ((broadcastInDim S300000 ![] bcast_S_S300000 : (⟨S_, .i32⟩ : BufTy).Contents (Elt F) → (⟨S300000, .i32⟩ : BufTy).Contents (Elt F)) (constantI S_ 32 0#32)) :=
  (s12_main_v198 (W22 m c)).trans (congrArg (broadcastInDim S300000 ![] bcast_S_S300000 : (⟨S_, .i32⟩ : BufTy).Contents (Elt F) → (⟨S300000, .i32⟩ : BufTy).Contents (Elt F)) (v_main_c_47 m c))
theorem v_main_v199 (c : Dev nD) : U23 m c main_v199 = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (s12_main_v199 (W22 m c)).trans (congrArg₂ (cmpi .slt : (⟨S300000, .i32⟩ : BufTy).Contents (Elt F) → (⟨S300000, .i32⟩ : BufTy).Contents (Elt F) → (⟨S300000, .i1⟩ : BufTy).Contents (Elt F)) ((((W23_keep m c main_v1 (by decide)) |>.trans <| (W22_keep m c main_v1 (by decide)) |>.trans <| (W21_keep m c main_v1 (by decide)) |>.trans <| (W20_keep m c main_v1 (by decide)) |>.trans <| (W19_keep m c main_v1 (by decide)) |>.trans <| (W18_keep m c main_v1 (by decide)) |>.trans <| (W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v198 m c))
theorem v_main_c_48 (c : Dev nD) : U23 m c main_c_48 = (constantI S_ 32 30000#32) :=
  s12_main_c_48 (W22 m c)
theorem v_main_v200 (c : Dev nD) : U23 m c main_v200 = ((broadcastInDim S300000 ![] bcast_S_S300000 : (⟨S_, .i32⟩ : BufTy).Contents (Elt F) → (⟨S300000, .i32⟩ : BufTy).Contents (Elt F)) (constantI S_ 32 30000#32)) :=
  (s12_main_v200 (W22 m c)).trans (congrArg (broadcastInDim S300000 ![] bcast_S_S300000 : (⟨S_, .i32⟩ : BufTy).Contents (Elt F) → (⟨S300000, .i32⟩ : BufTy).Contents (Elt F)) (v_main_c_48 m c))
theorem v_main_v201 (c : Dev nD) : U23 m c main_v201 = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (s12_main_v201 (W22 m c)).trans (congrArg₂ (addi : (⟨S300000, .i32⟩ : BufTy).Contents (Elt F) → (⟨S300000, .i32⟩ : BufTy).Contents (Elt F) → (⟨S300000, .i32⟩ : BufTy).Contents (Elt F)) ((((W23_keep m c main_v1 (by decide)) |>.trans <| (W22_keep m c main_v1 (by decide)) |>.trans <| (W21_keep m c main_v1 (by decide)) |>.trans <| (W20_keep m c main_v1 (by decide)) |>.trans <| (W19_keep m c main_v1 (by decide)) |>.trans <| (W18_keep m c main_v1 (by decide)) |>.trans <| (W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)) (v_main_v200 m c))
theorem v_main_v202 (c : Dev nD) : U23 m c main_v202 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)) :=
  (s12_main_v202 (W22 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v199 m c) (v_main_v201 m c) ((((W23_keep m c main_v1 (by decide)) |>.trans <| (W22_keep m c main_v1 (by decide)) |>.trans <| (W21_keep m c main_v1 (by decide)) |>.trans <| (W20_keep m c main_v1 (by decide)) |>.trans <| (W19_keep m c main_v1 (by decide)) |>.trans <| (W18_keep m c main_v1 (by decide)) |>.trans <| (W17_keep m c main_v1 (by decide)) |>.trans <| (W16_keep m c main_v1 (by decide)) |>.trans <| (W15_keep m c main_v1 (by decide)) |>.trans <| (W14_keep m c main_v1 (by decide)) |>.trans <| (W13_keep m c main_v1 (by decide)) |>.trans <| (W12_keep m c main_v1 (by decide)) |>.trans <| (W11_keep m c main_v1 (by decide)) |>.trans <| (W10_keep m c main_v1 (by decide)) |>.trans <| (W9_keep m c main_v1 (by decide)) |>.trans <| (W8_keep m c main_v1 (by decide)) |>.trans <| (W7_keep m c main_v1 (by decide)) |>.trans <| (W6_keep m c main_v1 (by decide)) |>.trans <| (W5_keep m c main_v1 (by decide)) |>.trans <| (W4_keep m c main_v1 (by decide)) |>.trans <| (W3_keep m c main_v1 (by decide)) |>.trans <| (W2_keep m c main_v1 (by decide)))).trans (v_main_v1 m c)))
theorem v_main_v203 (c : Dev nD) : U23 m c main_v203 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))) :=
  (s12_main_v203 (W22 m c)).trans (congrArg (broadcastInDim S300000x1 ![0] bcast_S300000_S300000x1_0 : (⟨S300000, .i32⟩ : BufTy).Contents (Elt F) → (⟨S300000x1, .i32⟩ : BufTy).Contents (Elt F)) (v_main_v202 m c))
theorem v_main_v204 (c : Dev nD) : U23 m c main_v204 = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  (s12_main_v204 (W22 m c)).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) ((W23_keep m c main_arg4 (by decide)) |>.trans <| (W22_keep m c main_arg4 (by decide)) |>.trans <| (W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v203 m c))
theorem v_main_c_49 (c : Dev nD) : U23 m c main_c_49 = (constantI S_ 32 0#32) :=
  s12_main_c_49 (W22 m c)
theorem v_main_v205 (c : Dev nD) : U23 m c main_v205 = ((broadcastInDim S300000 ![] bcast_S_S300000 : (⟨S_, .i32⟩ : BufTy).Contents (Elt F) → (⟨S300000, .i32⟩ : BufTy).Contents (Elt F)) (constantI S_ 32 0#32)) :=
  (s12_main_v205 (W22 m c)).trans (congrArg (broadcastInDim S300000 ![] bcast_S_S300000 : (⟨S_, .i32⟩ : BufTy).Contents (Elt F) → (⟨S300000, .i32⟩ : BufTy).Contents (Elt F)) (v_main_c_49 m c))
theorem v_main_v206 (c : Dev nD) : U23 m c main_v206 = ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) :=
  (s12_main_v206 (W22 m c)).trans (congrArg₂ (cmpi .slt : (⟨S300000, .i32⟩ : BufTy).Contents (Elt F) → (⟨S300000, .i32⟩ : BufTy).Contents (Elt F) → (⟨S300000, .i1⟩ : BufTy).Contents (Elt F)) (v_main_v204 m c) (v_main_v205 m c))
theorem v_main_c_50 (c : Dev nD) : U23 m c main_c_50 = (constantI S_ 32 64#32) :=
  s12_main_c_50 (W22 m c)
theorem v_main_v207 (c : Dev nD) : U23 m c main_v207 = ((broadcastInDim S300000 ![] bcast_S_S300000 : (⟨S_, .i32⟩ : BufTy).Contents (Elt F) → (⟨S300000, .i32⟩ : BufTy).Contents (Elt F)) (constantI S_ 32 64#32)) :=
  (s12_main_v207 (W22 m c)).trans (congrArg (broadcastInDim S300000 ![] bcast_S_S300000 : (⟨S_, .i32⟩ : BufTy).Contents (Elt F) → (⟨S300000, .i32⟩ : BufTy).Contents (Elt F)) (v_main_c_50 m c))
theorem v_main_v208 (c : Dev nD) : U23 m c main_v208 = ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) :=
  (s12_main_v208 (W22 m c)).trans (congrArg₂ (addi : (⟨S300000, .i32⟩ : BufTy).Contents (Elt F) → (⟨S300000, .i32⟩ : BufTy).Contents (Elt F) → (⟨S300000, .i32⟩ : BufTy).Contents (Elt F)) (v_main_v204 m c) (v_main_v207 m c))
theorem v_main_v209 (c : Dev nD) : U23 m c main_v209 = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))) :=
  (s12_main_v209 (W22 m c)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (v_main_v206 m c) (v_main_v208 m c) (v_main_v204 m c))
theorem v_main_v210 (c : Dev nD) : U23 m c main_v210 = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))))) :=
  (s12_main_v210 (W22 m c)).trans (congrArg (broadcastInDim S300000x1 ![0] bcast_S300000_S300000x1_0 : (⟨S300000, .i32⟩ : BufTy).Contents (Elt F) → (⟨S300000x1, .i32⟩ : BufTy).Contents (Elt F)) (v_main_v209 m c))
theorem v_main_v211 (c : Dev nD) : U23 m c main_v211 = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (U22 m c main_v183) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))))) :=
  (s12_main_v211 (W22 m c)).trans (congrArg₂ ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) ((W23_keep m c main_v183 (by decide))) (v_main_v210 m c))
theorem v_main_v212 (c : Dev nD) : U23 m c main_v212 = (((extractStridedSlice S64x64 ![0, 0] · slices_S256x64_S64x64_0_0) : (⟨S256x64, .f32⟩ : BufTy).Contents (Elt F) → (⟨S64x64, .f32⟩ : BufTy).Contents (Elt F)) (U0 m c main_arg23)) :=
  (s12_main_v212 (W22 m c)).trans (congrArg ((extractStridedSlice S64x64 ![0, 0] · slices_S256x64_S64x64_0_0) : (⟨S256x64, .f32⟩ : BufTy).Contents (Elt F) → (⟨S64x64, .f32⟩ : BufTy).Contents (Elt F)) ((W23_keep m c main_arg23 (by decide)) |>.trans <| (W22_keep m c main_arg23 (by decide)) |>.trans <| (W21_keep m c main_arg23 (by decide)) |>.trans <| (W20_keep m c main_arg23 (by decide)) |>.trans <| (W19_keep m c main_arg23 (by decide)) |>.trans <| (W18_keep m c main_arg23 (by decide)) |>.trans <| (W17_keep m c main_arg23 (by decide)) |>.trans <| (W16_keep m c main_arg23 (by decide)) |>.trans <| (W15_keep m c main_arg23 (by decide)) |>.trans <| (W14_keep m c main_arg23 (by decide)) |>.trans <| (W13_keep m c main_arg23 (by decide)) |>.trans <| (W12_keep m c main_arg23 (by decide)) |>.trans <| (W11_keep m c main_arg23 (by decide)) |>.trans <| (W10_keep m c main_arg23 (by decide)) |>.trans <| (W9_keep m c main_arg23 (by decide)) |>.trans <| (W8_keep m c main_arg23 (by decide)) |>.trans <| (W7_keep m c main_arg23 (by decide)) |>.trans <| (W6_keep m c main_arg23 (by decide)) |>.trans <| (W5_keep m c main_arg23 (by decide)) |>.trans <| (W4_keep m c main_arg23 (by decide)) |>.trans <| (W3_keep m c main_arg23 (by decide)) |>.trans <| (W2_keep m c main_arg23 (by decide)) |>.trans <| (W1_keep m c main_arg23 (by decide))))
theorem v_main_v213 (c : Dev nD) : U23 m c main_v213 = (((extractStridedSlice S64x64 ![64, 0] · slices_S256x64_S64x64_64_0) : (⟨S256x64, .f32⟩ : BufTy).Contents (Elt F) → (⟨S64x64, .f32⟩ : BufTy).Contents (Elt F)) (U0 m c main_arg23)) :=
  (s12_main_v213 (W22 m c)).trans (congrArg ((extractStridedSlice S64x64 ![64, 0] · slices_S256x64_S64x64_64_0) : (⟨S256x64, .f32⟩ : BufTy).Contents (Elt F) → (⟨S64x64, .f32⟩ : BufTy).Contents (Elt F)) ((W23_keep m c main_arg23 (by decide)) |>.trans <| (W22_keep m c main_arg23 (by decide)) |>.trans <| (W21_keep m c main_arg23 (by decide)) |>.trans <| (W20_keep m c main_arg23 (by decide)) |>.trans <| (W19_keep m c main_arg23 (by decide)) |>.trans <| (W18_keep m c main_arg23 (by decide)) |>.trans <| (W17_keep m c main_arg23 (by decide)) |>.trans <| (W16_keep m c main_arg23 (by decide)) |>.trans <| (W15_keep m c main_arg23 (by decide)) |>.trans <| (W14_keep m c main_arg23 (by decide)) |>.trans <| (W13_keep m c main_arg23 (by decide)) |>.trans <| (W12_keep m c main_arg23 (by decide)) |>.trans <| (W11_keep m c main_arg23 (by decide)) |>.trans <| (W10_keep m c main_arg23 (by decide)) |>.trans <| (W9_keep m c main_arg23 (by decide)) |>.trans <| (W8_keep m c main_arg23 (by decide)) |>.trans <| (W7_keep m c main_arg23 (by decide)) |>.trans <| (W6_keep m c main_arg23 (by decide)) |>.trans <| (W5_keep m c main_arg23 (by decide)) |>.trans <| (W4_keep m c main_arg23 (by decide)) |>.trans <| (W3_keep m c main_arg23 (by decide)) |>.trans <| (W2_keep m c main_arg23 (by decide)) |>.trans <| (W1_keep m c main_arg23 (by decide))))
theorem v_main_v214 (c : Dev nD) : U23 m c main_v214 = (((extractStridedSlice S64x64 ![128, 0] · slices_S256x64_S64x64_128_0) : (⟨S256x64, .f32⟩ : BufTy).Contents (Elt F) → (⟨S64x64, .f32⟩ : BufTy).Contents (Elt F)) (U0 m c main_arg23)) :=
  (s12_main_v214 (W22 m c)).trans (congrArg ((extractStridedSlice S64x64 ![128, 0] · slices_S256x64_S64x64_128_0) : (⟨S256x64, .f32⟩ : BufTy).Contents (Elt F) → (⟨S64x64, .f32⟩ : BufTy).Contents (Elt F)) ((W23_keep m c main_arg23 (by decide)) |>.trans <| (W22_keep m c main_arg23 (by decide)) |>.trans <| (W21_keep m c main_arg23 (by decide)) |>.trans <| (W20_keep m c main_arg23 (by decide)) |>.trans <| (W19_keep m c main_arg23 (by decide)) |>.trans <| (W18_keep m c main_arg23 (by decide)) |>.trans <| (W17_keep m c main_arg23 (by decide)) |>.trans <| (W16_keep m c main_arg23 (by decide)) |>.trans <| (W15_keep m c main_arg23 (by decide)) |>.trans <| (W14_keep m c main_arg23 (by decide)) |>.trans <| (W13_keep m c main_arg23 (by decide)) |>.trans <| (W12_keep m c main_arg23 (by decide)) |>.trans <| (W11_keep m c main_arg23 (by decide)) |>.trans <| (W10_keep m c main_arg23 (by decide)) |>.trans <| (W9_keep m c main_arg23 (by decide)) |>.trans <| (W8_keep m c main_arg23 (by decide)) |>.trans <| (W7_keep m c main_arg23 (by decide)) |>.trans <| (W6_keep m c main_arg23 (by decide)) |>.trans <| (W5_keep m c main_arg23 (by decide)) |>.trans <| (W4_keep m c main_arg23 (by decide)) |>.trans <| (W3_keep m c main_arg23 (by decide)) |>.trans <| (W2_keep m c main_arg23 (by decide)) |>.trans <| (W1_keep m c main_arg23 (by decide))))
theorem v_main_v215 (c : Dev nD) : U23 m c main_v215 = (((extractStridedSlice S64x64 ![192, 0] · slices_S256x64_S64x64_192_0) : (⟨S256x64, .f32⟩ : BufTy).Contents (Elt F) → (⟨S64x64, .f32⟩ : BufTy).Contents (Elt F)) (U0 m c main_arg23)) :=
  (s12_main_v215 (W22 m c)).trans (congrArg ((extractStridedSlice S64x64 ![192, 0] · slices_S256x64_S64x64_192_0) : (⟨S256x64, .f32⟩ : BufTy).Contents (Elt F) → (⟨S64x64, .f32⟩ : BufTy).Contents (Elt F)) ((W23_keep m c main_arg23 (by decide)) |>.trans <| (W22_keep m c main_arg23 (by decide)) |>.trans <| (W21_keep m c main_arg23 (by decide)) |>.trans <| (W20_keep m c main_arg23 (by decide)) |>.trans <| (W19_keep m c main_arg23 (by decide)) |>.trans <| (W18_keep m c main_arg23 (by decide)) |>.trans <| (W17_keep m c main_arg23 (by decide)) |>.trans <| (W16_keep m c main_arg23 (by decide)) |>.trans <| (W15_keep m c main_arg23 (by decide)) |>.trans <| (W14_keep m c main_arg23 (by decide)) |>.trans <| (W13_keep m c main_arg23 (by decide)) |>.trans <| (W12_keep m c main_arg23 (by decide)) |>.trans <| (W11_keep m c main_arg23 (by decide)) |>.trans <| (W10_keep m c main_arg23 (by decide)) |>.trans <| (W9_keep m c main_arg23 (by decide)) |>.trans <| (W8_keep m c main_arg23 (by decide)) |>.trans <| (W7_keep m c main_arg23 (by decide)) |>.trans <| (W6_keep m c main_arg23 (by decide)) |>.trans <| (W5_keep m c main_arg23 (by decide)) |>.trans <| (W4_keep m c main_arg23 (by decide)) |>.trans <| (W3_keep m c main_arg23 (by decide)) |>.trans <| (W2_keep m c main_arg23 (by decide)) |>.trans <| (W1_keep m c main_arg23 (by decide))))
theorem v_main_v216 (c : Dev nD) : U23 m c main_v216 = (shapeCast S1x64 (U0 m c main_arg24) shapeCasts_S64_S1x64) :=
  (s12_main_v216 (W22 m c)).trans (congrArg (fun z => shapeCast S1x64 z shapeCasts_S64_S1x64) ((W23_keep m c main_arg24 (by decide)) |>.trans <| (W22_keep m c main_arg24 (by decide)) |>.trans <| (W21_keep m c main_arg24 (by decide)) |>.trans <| (W20_keep m c main_arg24 (by decide)) |>.trans <| (W19_keep m c main_arg24 (by decide)) |>.trans <| (W18_keep m c main_arg24 (by decide)) |>.trans <| (W17_keep m c main_arg24 (by decide)) |>.trans <| (W16_keep m c main_arg24 (by decide)) |>.trans <| (W15_keep m c main_arg24 (by decide)) |>.trans <| (W14_keep m c main_arg24 (by decide)) |>.trans <| (W13_keep m c main_arg24 (by decide)) |>.trans <| (W12_keep m c main_arg24 (by decide)) |>.trans <| (W11_keep m c main_arg24 (by decide)) |>.trans <| (W10_keep m c main_arg24 (by decide)) |>.trans <| (W9_keep m c main_arg24 (by decide)) |>.trans <| (W8_keep m c main_arg24 (by decide)) |>.trans <| (W7_keep m c main_arg24 (by decide)) |>.trans <| (W6_keep m c main_arg24 (by decide)) |>.trans <| (W5_keep m c main_arg24 (by decide)) |>.trans <| (W4_keep m c main_arg24 (by decide)) |>.trans <| (W3_keep m c main_arg24 (by decide)) |>.trans <| (W2_keep m c main_arg24 (by decide)) |>.trans <| (W1_keep m c main_arg24 (by decide))))
theorem v_main_cst_51 (c : Dev nD) : U25 m c main_cst_51 = (constant (F := F) S_ .f32 0x00000000#32) :=
  s13_main_cst_51 (W24 m c)
theorem v_main_v218 (c : Dev nD) : U25 m c main_v218 = ((broadcastInDim S30000x64 ![] bcast_S_S30000x64 : (⟨S_, .f32⟩ : BufTy).Contents (Elt F) → (⟨S30000x64, .f32⟩ : BufTy).Contents (Elt F)) (constant (F := F) S_ .f32 0x00000000#32)) :=
  (s13_main_v218 (W24 m c)).trans (congrArg (broadcastInDim S30000x64 ![] bcast_S_S30000x64 : (⟨S_, .f32⟩ : BufTy).Contents (Elt F) → (⟨S30000x64, .f32⟩ : BufTy).Contents (Elt F)) (v_main_cst_51 m c))
theorem v_main_v219 (c : Dev nD) : U25 m c main_v219 = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s13_main_v219 (W24 m c)).trans (congrArg (broadcastInDim S300000x1 ![0] bcast_S300000_S300000x1_0 : (⟨S300000, .i32⟩ : BufTy).Contents (Elt F) → (⟨S300000x1, .i32⟩ : BufTy).Contents (Elt F)) ((((W25_keep m c main_v3 (by decide)) |>.trans <| (W24_keep m c main_v3 (by decide)) |>.trans <| (W23_keep m c main_v3 (by decide)) |>.trans <| (W22_keep m c main_v3 (by decide)) |>.trans <| (W21_keep m c main_v3 (by decide)) |>.trans <| (W20_keep m c main_v3 (by decide)) |>.trans <| (W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_v220 (c : Dev nD) : U25 m c main_v220 = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U24 m c main_v217)) :=
  (s13_main_v220 (W24 m c)).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (v_main_v218 m c) (v_main_v219 m c) ((W25_keep m c main_v217 (by decide))))
theorem v_main_cst_53 (c : Dev nD) : U25 m c main_cst_53 = (constant (F := F) S_ .f32 0x00000000#32) :=
  s13_main_cst_53 (W24 m c)
theorem v_main_v222 (c : Dev nD) : U25 m c main_v222 = ((broadcastInDim S30000x1 ![] bcast_S_S30000x1 : (⟨S_, .f32⟩ : BufTy).Contents (Elt F) → (⟨S30000x1, .f32⟩ : BufTy).Contents (Elt F)) (constant (F := F) S_ .f32 0x00000000#32)) :=
  (s13_main_v222 (W24 m c)).trans (congrArg (broadcastInDim S30000x1 ![] bcast_S_S30000x1 : (⟨S_, .f32⟩ : BufTy).Contents (Elt F) → (⟨S30000x1, .f32⟩ : BufTy).Contents (Elt F)) (v_main_cst_53 m c))
theorem v_main_v223 (c : Dev nD) : U25 m c main_v223 = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) :=
  (s13_main_v223 (W24 m c)).trans (congrArg (broadcastInDim S300000x1 ![0] bcast_S300000_S300000x1_0 : (⟨S300000, .i32⟩ : BufTy).Contents (Elt F) → (⟨S300000x1, .i32⟩ : BufTy).Contents (Elt F)) ((((W25_keep m c main_v3 (by decide)) |>.trans <| (W24_keep m c main_v3 (by decide)) |>.trans <| (W23_keep m c main_v3 (by decide)) |>.trans <| (W22_keep m c main_v3 (by decide)) |>.trans <| (W21_keep m c main_v3 (by decide)) |>.trans <| (W20_keep m c main_v3 (by decide)) |>.trans <| (W19_keep m c main_v3 (by decide)) |>.trans <| (W18_keep m c main_v3 (by decide)) |>.trans <| (W17_keep m c main_v3 (by decide)) |>.trans <| (W16_keep m c main_v3 (by decide)) |>.trans <| (W15_keep m c main_v3 (by decide)) |>.trans <| (W14_keep m c main_v3 (by decide)) |>.trans <| (W13_keep m c main_v3 (by decide)) |>.trans <| (W12_keep m c main_v3 (by decide)) |>.trans <| (W11_keep m c main_v3 (by decide)) |>.trans <| (W10_keep m c main_v3 (by decide)) |>.trans <| (W9_keep m c main_v3 (by decide)) |>.trans <| (W8_keep m c main_v3 (by decide)) |>.trans <| (W7_keep m c main_v3 (by decide)) |>.trans <| (W6_keep m c main_v3 (by decide)) |>.trans <| (W5_keep m c main_v3 (by decide)) |>.trans <| (W4_keep m c main_v3 (by decide)) |>.trans <| (W3_keep m c main_v3 (by decide)) |>.trans <| (W2_keep m c main_v3 (by decide)))).trans (v_main_v3 m c)))
theorem v_main_cst_52 (c : Dev nD) : U25 m c main_cst_52 = (constant (F := F) S_ .f32 0x3F800000#32) :=
  s13_main_cst_52 (W24 m c)
theorem v_main_v221 (c : Dev nD) : U25 m c main_v221 = ((broadcastInDim S300000x1 ![] bcast_S_S300000x1 : (⟨S_, .f32⟩ : BufTy).Contents (Elt F) → (⟨S300000x1, .f32⟩ : BufTy).Contents (Elt F)) (constant (F := F) S_ .f32 0x3F800000#32)) :=
  (s13_main_v221 (W24 m c)).trans (congrArg (broadcastInDim S300000x1 ![] bcast_S_S300000x1 : (⟨S_, .f32⟩ : BufTy).Contents (Elt F) → (⟨S300000x1, .f32⟩ : BufTy).Contents (Elt F)) (v_main_cst_52 m c))
theorem v_main_v224 (c : Dev nD) : U25 m c main_v224 = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) :=
  (s13_main_v224 (W24 m c)).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (v_main_v222 m c) (v_main_v223 m c) (v_main_v221 m c))
theorem v_main_cst_54 (c : Dev nD) : U25 m c main_cst_54 = (constant (F := F) S_ .f32 0x3F800000#32) :=
  s13_main_cst_54 (W24 m c)
theorem v_main_v225 (c : Dev nD) : U25 m c main_v225 = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (s13_main_v225 (W24 m c)).trans (congrArg (broadcastInDim S30000x1 ![] bcast_S_S30000x1 : (⟨S_, .f32⟩ : BufTy).Contents (Elt F) → (⟨S30000x1, .f32⟩ : BufTy).Contents (Elt F)) (v_main_cst_54 m c))
theorem v_main_v226 (c : Dev nD) : U25 m c main_v226 = ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (s13_main_v226 (W24 m c)).trans (congrArg₂ (maximumf : (⟨S30000x1, .f32⟩ : BufTy).Contents (Elt F) → (⟨S30000x1, .f32⟩ : BufTy).Contents (Elt F) → (⟨S30000x1, .f32⟩ : BufTy).Contents (Elt F)) (v_main_v224 m c) (v_main_v225 m c))
theorem v_main_v227 (c : Dev nD) : U25 m c main_v227 = ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))) :=
  (s13_main_v227 (W24 m c)).trans (congrArg (broadcastInDim S30000x64 ![0, 1] bcast_S30000x1_S30000x64_0_1 : (⟨S30000x1, .f32⟩ : BufTy).Contents (Elt F) → (⟨S30000x64, .f32⟩ : BufTy).Contents (Elt F)) (v_main_v226 m c))
theorem v_main_v228 (c : Dev nD) : U25 m c main_v228 = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U24 m c main_v217)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  (s13_main_v228 (W24 m c)).trans (congrArg₂ (Host.divf : (⟨S30000x64, .f32⟩ : BufTy).Contents (Elt F) → (⟨S30000x64, .f32⟩ : BufTy).Contents (Elt F) → (⟨S30000x64, .f32⟩ : BufTy).Contents (Elt F)) (v_main_v220 m c) (v_main_v227 m c))
theorem v_main_c_55 (c : Dev nD) : U25 m c main_c_55 = (constantI S_ 32 0#32) :=
  s13_main_c_55 (W24 m c)
theorem v_main_v229 (c : Dev nD) : U25 m c main_v229 = ((broadcastInDim S30000 ![] bcast_S_S30000 : (⟨S_, .i32⟩ : BufTy).Contents (Elt F) → (⟨S30000, .i32⟩ : BufTy).Contents (Elt F)) (constantI S_ 32 0#32)) :=
  (s13_main_v229 (W24 m c)).trans (congrArg (broadcastInDim S30000 ![] bcast_S_S30000 : (⟨S_, .i32⟩ : BufTy).Contents (Elt F) → (⟨S30000, .i32⟩ : BufTy).Contents (Elt F)) (v_main_c_55 m c))
theorem v_main_v230 (c : Dev nD) : U25 m c main_v230 = ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) :=
  (s13_main_v230 (W24 m c)).trans (congrArg₂ (cmpi .slt : (⟨S30000, .i32⟩ : BufTy).Contents (Elt F) → (⟨S30000, .i32⟩ : BufTy).Contents (Elt F) → (⟨S30000, .i1⟩ : BufTy).Contents (Elt F)) ((W25_keep m c main_arg4 (by decide)) |>.trans <| (W24_keep m c main_arg4 (by decide)) |>.trans <| (W23_keep m c main_arg4 (by decide)) |>.trans <| (W22_keep m c main_arg4 (by decide)) |>.trans <| (W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v229 m c))
theorem v_main_c_56 (c : Dev nD) : U25 m c main_c_56 = (constantI S_ 32 64#32) :=
  s13_main_c_56 (W24 m c)
theorem v_main_v231 (c : Dev nD) : U25 m c main_v231 = ((broadcastInDim S30000 ![] bcast_S_S30000 : (⟨S_, .i32⟩ : BufTy).Contents (Elt F) → (⟨S30000, .i32⟩ : BufTy).Contents (Elt F)) (constantI S_ 32 64#32)) :=
  (s13_main_v231 (W24 m c)).trans (congrArg (broadcastInDim S30000 ![] bcast_S_S30000 : (⟨S_, .i32⟩ : BufTy).Contents (Elt F) → (⟨S30000, .i32⟩ : BufTy).Contents (Elt F)) (v_main_c_56 m c))
theorem v_main_v232 (c : Dev nD) : U25 m c main_v232 = ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) :=
  (s13_main_v232 (W24 m c)).trans (congrArg₂ (addi : (⟨S30000, .i32⟩ : BufTy).Contents (Elt F) → (⟨S30000, .i32⟩ : BufTy).Contents (Elt F) → (⟨S30000, .i32⟩ : BufTy).Contents (Elt F)) ((W25_keep m c main_arg4 (by decide)) |>.trans <| (W24_keep m c main_arg4 (by decide)) |>.trans <| (W23_keep m c main_arg4 (by decide)) |>.trans <| (W22_keep m c main_arg4 (by decide)) |>.trans <| (W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))) (v_main_v231 m c))
theorem v_main_v233 (c : Dev nD) : U25 m c main_v233 = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)) :=
  (s13_main_v233 (W24 m c)).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (v_main_v230 m c) (v_main_v232 m c) ((W25_keep m c main_arg4 (by decide)) |>.trans <| (W24_keep m c main_arg4 (by decide)) |>.trans <| (W23_keep m c main_arg4 (by decide)) |>.trans <| (W22_keep m c main_arg4 (by decide)) |>.trans <| (W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_v234 (c : Dev nD) : U25 m c main_v234 = ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4))) :=
  (s13_main_v234 (W24 m c)).trans (congrArg (broadcastInDim S30000x1 ![0] bcast_S30000_S30000x1_0 : (⟨S30000, .i32⟩ : BufTy).Contents (Elt F) → (⟨S30000x1, .i32⟩ : BufTy).Contents (Elt F)) (v_main_v233 m c))
theorem v_main_v235 (c : Dev nD) : U25 m c main_v235 = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (U22 m c main_v183) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)))) :=
  (s13_main_v235 (W24 m c)).trans (congrArg₂ ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) ((W25_keep m c main_v183 (by decide)) |>.trans <| (W24_keep m c main_v183 (by decide)) |>.trans <| (W23_keep m c main_v183 (by decide))) (v_main_v234 m c))
theorem v_main_v236 (c : Dev nD) : U25 m c main_v236 = (((extractStridedSlice S64x64 ![0, 0] · slices_S192x64_S64x64_0_0) : (⟨S192x64, .f32⟩ : BufTy).Contents (Elt F) → (⟨S64x64, .f32⟩ : BufTy).Contents (Elt F)) (U0 m c main_arg25)) :=
  (s13_main_v236 (W24 m c)).trans (congrArg ((extractStridedSlice S64x64 ![0, 0] · slices_S192x64_S64x64_0_0) : (⟨S192x64, .f32⟩ : BufTy).Contents (Elt F) → (⟨S64x64, .f32⟩ : BufTy).Contents (Elt F)) ((W25_keep m c main_arg25 (by decide)) |>.trans <| (W24_keep m c main_arg25 (by decide)) |>.trans <| (W23_keep m c main_arg25 (by decide)) |>.trans <| (W22_keep m c main_arg25 (by decide)) |>.trans <| (W21_keep m c main_arg25 (by decide)) |>.trans <| (W20_keep m c main_arg25 (by decide)) |>.trans <| (W19_keep m c main_arg25 (by decide)) |>.trans <| (W18_keep m c main_arg25 (by decide)) |>.trans <| (W17_keep m c main_arg25 (by decide)) |>.trans <| (W16_keep m c main_arg25 (by decide)) |>.trans <| (W15_keep m c main_arg25 (by decide)) |>.trans <| (W14_keep m c main_arg25 (by decide)) |>.trans <| (W13_keep m c main_arg25 (by decide)) |>.trans <| (W12_keep m c main_arg25 (by decide)) |>.trans <| (W11_keep m c main_arg25 (by decide)) |>.trans <| (W10_keep m c main_arg25 (by decide)) |>.trans <| (W9_keep m c main_arg25 (by decide)) |>.trans <| (W8_keep m c main_arg25 (by decide)) |>.trans <| (W7_keep m c main_arg25 (by decide)) |>.trans <| (W6_keep m c main_arg25 (by decide)) |>.trans <| (W5_keep m c main_arg25 (by decide)) |>.trans <| (W4_keep m c main_arg25 (by decide)) |>.trans <| (W3_keep m c main_arg25 (by decide)) |>.trans <| (W2_keep m c main_arg25 (by decide)) |>.trans <| (W1_keep m c main_arg25 (by decide))))
theorem v_main_v237 (c : Dev nD) : U25 m c main_v237 = (((extractStridedSlice S64x64 ![64, 0] · slices_S192x64_S64x64_64_0) : (⟨S192x64, .f32⟩ : BufTy).Contents (Elt F) → (⟨S64x64, .f32⟩ : BufTy).Contents (Elt F)) (U0 m c main_arg25)) :=
  (s13_main_v237 (W24 m c)).trans (congrArg ((extractStridedSlice S64x64 ![64, 0] · slices_S192x64_S64x64_64_0) : (⟨S192x64, .f32⟩ : BufTy).Contents (Elt F) → (⟨S64x64, .f32⟩ : BufTy).Contents (Elt F)) ((W25_keep m c main_arg25 (by decide)) |>.trans <| (W24_keep m c main_arg25 (by decide)) |>.trans <| (W23_keep m c main_arg25 (by decide)) |>.trans <| (W22_keep m c main_arg25 (by decide)) |>.trans <| (W21_keep m c main_arg25 (by decide)) |>.trans <| (W20_keep m c main_arg25 (by decide)) |>.trans <| (W19_keep m c main_arg25 (by decide)) |>.trans <| (W18_keep m c main_arg25 (by decide)) |>.trans <| (W17_keep m c main_arg25 (by decide)) |>.trans <| (W16_keep m c main_arg25 (by decide)) |>.trans <| (W15_keep m c main_arg25 (by decide)) |>.trans <| (W14_keep m c main_arg25 (by decide)) |>.trans <| (W13_keep m c main_arg25 (by decide)) |>.trans <| (W12_keep m c main_arg25 (by decide)) |>.trans <| (W11_keep m c main_arg25 (by decide)) |>.trans <| (W10_keep m c main_arg25 (by decide)) |>.trans <| (W9_keep m c main_arg25 (by decide)) |>.trans <| (W8_keep m c main_arg25 (by decide)) |>.trans <| (W7_keep m c main_arg25 (by decide)) |>.trans <| (W6_keep m c main_arg25 (by decide)) |>.trans <| (W5_keep m c main_arg25 (by decide)) |>.trans <| (W4_keep m c main_arg25 (by decide)) |>.trans <| (W3_keep m c main_arg25 (by decide)) |>.trans <| (W2_keep m c main_arg25 (by decide)) |>.trans <| (W1_keep m c main_arg25 (by decide))))
theorem v_main_v238 (c : Dev nD) : U25 m c main_v238 = (((extractStridedSlice S64x64 ![128, 0] · slices_S192x64_S64x64_128_0) : (⟨S192x64, .f32⟩ : BufTy).Contents (Elt F) → (⟨S64x64, .f32⟩ : BufTy).Contents (Elt F)) (U0 m c main_arg25)) :=
  (s13_main_v238 (W24 m c)).trans (congrArg ((extractStridedSlice S64x64 ![128, 0] · slices_S192x64_S64x64_128_0) : (⟨S192x64, .f32⟩ : BufTy).Contents (Elt F) → (⟨S64x64, .f32⟩ : BufTy).Contents (Elt F)) ((W25_keep m c main_arg25 (by decide)) |>.trans <| (W24_keep m c main_arg25 (by decide)) |>.trans <| (W23_keep m c main_arg25 (by decide)) |>.trans <| (W22_keep m c main_arg25 (by decide)) |>.trans <| (W21_keep m c main_arg25 (by decide)) |>.trans <| (W20_keep m c main_arg25 (by decide)) |>.trans <| (W19_keep m c main_arg25 (by decide)) |>.trans <| (W18_keep m c main_arg25 (by decide)) |>.trans <| (W17_keep m c main_arg25 (by decide)) |>.trans <| (W16_keep m c main_arg25 (by decide)) |>.trans <| (W15_keep m c main_arg25 (by decide)) |>.trans <| (W14_keep m c main_arg25 (by decide)) |>.trans <| (W13_keep m c main_arg25 (by decide)) |>.trans <| (W12_keep m c main_arg25 (by decide)) |>.trans <| (W11_keep m c main_arg25 (by decide)) |>.trans <| (W10_keep m c main_arg25 (by decide)) |>.trans <| (W9_keep m c main_arg25 (by decide)) |>.trans <| (W8_keep m c main_arg25 (by decide)) |>.trans <| (W7_keep m c main_arg25 (by decide)) |>.trans <| (W6_keep m c main_arg25 (by decide)) |>.trans <| (W5_keep m c main_arg25 (by decide)) |>.trans <| (W4_keep m c main_arg25 (by decide)) |>.trans <| (W3_keep m c main_arg25 (by decide)) |>.trans <| (W2_keep m c main_arg25 (by decide)) |>.trans <| (W1_keep m c main_arg25 (by decide))))
theorem v_main_v239 (c : Dev nD) : U25 m c main_v239 = (shapeCast S1x64 (U0 m c main_arg26) shapeCasts_S64_S1x64) :=
  (s13_main_v239 (W24 m c)).trans (congrArg (fun z => shapeCast S1x64 z shapeCasts_S64_S1x64) ((W25_keep m c main_arg26 (by decide)) |>.trans <| (W24_keep m c main_arg26 (by decide)) |>.trans <| (W23_keep m c main_arg26 (by decide)) |>.trans <| (W22_keep m c main_arg26 (by decide)) |>.trans <| (W21_keep m c main_arg26 (by decide)) |>.trans <| (W20_keep m c main_arg26 (by decide)) |>.trans <| (W19_keep m c main_arg26 (by decide)) |>.trans <| (W18_keep m c main_arg26 (by decide)) |>.trans <| (W17_keep m c main_arg26 (by decide)) |>.trans <| (W16_keep m c main_arg26 (by decide)) |>.trans <| (W15_keep m c main_arg26 (by decide)) |>.trans <| (W14_keep m c main_arg26 (by decide)) |>.trans <| (W13_keep m c main_arg26 (by decide)) |>.trans <| (W12_keep m c main_arg26 (by decide)) |>.trans <| (W11_keep m c main_arg26 (by decide)) |>.trans <| (W10_keep m c main_arg26 (by decide)) |>.trans <| (W9_keep m c main_arg26 (by decide)) |>.trans <| (W8_keep m c main_arg26 (by decide)) |>.trans <| (W7_keep m c main_arg26 (by decide)) |>.trans <| (W6_keep m c main_arg26 (by decide)) |>.trans <| (W5_keep m c main_arg26 (by decide)) |>.trans <| (W4_keep m c main_arg26 (by decide)) |>.trans <| (W3_keep m c main_arg26 (by decide)) |>.trans <| (W2_keep m c main_arg26 (by decide)) |>.trans <| (W1_keep m c main_arg26 (by decide))))
theorem v_main_cst_57 (c : Dev nD) : U27 m c main_cst_57 = (constant (F := F) S_ .f32 0x00000000#32) :=
  s14_main_cst_57 (W26 m c)
theorem v_main_v241 (c : Dev nD) : U27 m c main_v241 = ((broadcastInDim S64x64 ![] bcast_S_S64x64 : (⟨S_, .f32⟩ : BufTy).Contents (Elt F) → (⟨S64x64, .f32⟩ : BufTy).Contents (Elt F)) (constant (F := F) S_ .f32 0x00000000#32)) :=
  (s14_main_v241 (W26 m c)).trans (congrArg (broadcastInDim S64x64 ![] bcast_S_S64x64 : (⟨S_, .f32⟩ : BufTy).Contents (Elt F) → (⟨S64x64, .f32⟩ : BufTy).Contents (Elt F)) (v_main_cst_57 m c))
theorem v_main_v242 (c : Dev nD) : U27 m c main_v242 = ((broadcastInDim S30000x1 ![0] bcast_S30000_S30000x1_0 : (⟨S30000, .i32⟩ : BufTy).Contents (Elt F) → (⟨S30000x1, .i32⟩ : BufTy).Contents (Elt F)) (U0 m c main_arg4)) :=
  (s14_main_v242 (W26 m c)).trans (congrArg (broadcastInDim S30000x1 ![0] bcast_S30000_S30000x1_0 : (⟨S30000, .i32⟩ : BufTy).Contents (Elt F) → (⟨S30000x1, .i32⟩ : BufTy).Contents (Elt F)) ((W27_keep m c main_arg4 (by decide)) |>.trans <| (W26_keep m c main_arg4 (by decide)) |>.trans <| (W25_keep m c main_arg4 (by decide)) |>.trans <| (W24_keep m c main_arg4 (by decide)) |>.trans <| (W23_keep m c main_arg4 (by decide)) |>.trans <| (W22_keep m c main_arg4 (by decide)) |>.trans <| (W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_v243 (c : Dev nD) : U27 m c main_v243 = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U26 m c main_v240)) :=
  (s14_main_v243 (W26 m c)).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (v_main_v241 m c) (v_main_v242 m c) ((W27_keep m c main_v240 (by decide))))
theorem v_main_cst_59 (c : Dev nD) : U27 m c main_cst_59 = (constant (F := F) S_ .f32 0x00000000#32) :=
  s14_main_cst_59 (W26 m c)
theorem v_main_v245 (c : Dev nD) : U27 m c main_v245 = ((broadcastInDim S64x1 ![] bcast_S_S64x1 : (⟨S_, .f32⟩ : BufTy).Contents (Elt F) → (⟨S64x1, .f32⟩ : BufTy).Contents (Elt F)) (constant (F := F) S_ .f32 0x00000000#32)) :=
  (s14_main_v245 (W26 m c)).trans (congrArg (broadcastInDim S64x1 ![] bcast_S_S64x1 : (⟨S_, .f32⟩ : BufTy).Contents (Elt F) → (⟨S64x1, .f32⟩ : BufTy).Contents (Elt F)) (v_main_cst_59 m c))
theorem v_main_v246 (c : Dev nD) : U27 m c main_v246 = ((broadcastInDim S30000x1 ![0] bcast_S30000_S30000x1_0 : (⟨S30000, .i32⟩ : BufTy).Contents (Elt F) → (⟨S30000x1, .i32⟩ : BufTy).Contents (Elt F)) (U0 m c main_arg4)) :=
  (s14_main_v246 (W26 m c)).trans (congrArg (broadcastInDim S30000x1 ![0] bcast_S30000_S30000x1_0 : (⟨S30000, .i32⟩ : BufTy).Contents (Elt F) → (⟨S30000x1, .i32⟩ : BufTy).Contents (Elt F)) ((W27_keep m c main_arg4 (by decide)) |>.trans <| (W26_keep m c main_arg4 (by decide)) |>.trans <| (W25_keep m c main_arg4 (by decide)) |>.trans <| (W24_keep m c main_arg4 (by decide)) |>.trans <| (W23_keep m c main_arg4 (by decide)) |>.trans <| (W22_keep m c main_arg4 (by decide)) |>.trans <| (W21_keep m c main_arg4 (by decide)) |>.trans <| (W20_keep m c main_arg4 (by decide)) |>.trans <| (W19_keep m c main_arg4 (by decide)) |>.trans <| (W18_keep m c main_arg4 (by decide)) |>.trans <| (W17_keep m c main_arg4 (by decide)) |>.trans <| (W16_keep m c main_arg4 (by decide)) |>.trans <| (W15_keep m c main_arg4 (by decide)) |>.trans <| (W14_keep m c main_arg4 (by decide)) |>.trans <| (W13_keep m c main_arg4 (by decide)) |>.trans <| (W12_keep m c main_arg4 (by decide)) |>.trans <| (W11_keep m c main_arg4 (by decide)) |>.trans <| (W10_keep m c main_arg4 (by decide)) |>.trans <| (W9_keep m c main_arg4 (by decide)) |>.trans <| (W8_keep m c main_arg4 (by decide)) |>.trans <| (W7_keep m c main_arg4 (by decide)) |>.trans <| (W6_keep m c main_arg4 (by decide)) |>.trans <| (W5_keep m c main_arg4 (by decide)) |>.trans <| (W4_keep m c main_arg4 (by decide)) |>.trans <| (W3_keep m c main_arg4 (by decide)) |>.trans <| (W2_keep m c main_arg4 (by decide)) |>.trans <| (W1_keep m c main_arg4 (by decide))))
theorem v_main_cst_58 (c : Dev nD) : U27 m c main_cst_58 = (constant (F := F) S_ .f32 0x3F800000#32) :=
  s14_main_cst_58 (W26 m c)
theorem v_main_v244 (c : Dev nD) : U27 m c main_v244 = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (s14_main_v244 (W26 m c)).trans (congrArg (broadcastInDim S30000x1 ![] bcast_S_S30000x1 : (⟨S_, .f32⟩ : BufTy).Contents (Elt F) → (⟨S30000x1, .f32⟩ : BufTy).Contents (Elt F)) (v_main_cst_58 m c))
theorem v_main_v247 (c : Dev nD) : U27 m c main_v247 = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (s14_main_v247 (W26 m c)).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (v_main_v245 m c) (v_main_v246 m c) (v_main_v244 m c))
theorem v_main_cst_60 (c : Dev nD) : U27 m c main_cst_60 = (constant (F := F) S_ .f32 0x3F800000#32) :=
  s14_main_cst_60 (W26 m c)
theorem v_main_v248 (c : Dev nD) : U27 m c main_v248 = ((broadcastInDim S64x1 ![] bcast_S_S64x1 : (⟨S_, .f32⟩ : BufTy).Contents (Elt F) → (⟨S64x1, .f32⟩ : BufTy).Contents (Elt F)) (constant (F := F) S_ .f32 0x3F800000#32)) :=
  (s14_main_v248 (W26 m c)).trans (congrArg (broadcastInDim S64x1 ![] bcast_S_S64x1 : (⟨S_, .f32⟩ : BufTy).Contents (Elt F) → (⟨S64x1, .f32⟩ : BufTy).Contents (Elt F)) (v_main_cst_60 m c))
theorem v_main_v249 (c : Dev nD) : U27 m c main_v249 = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))) :=
  (s14_main_v249 (W26 m c)).trans (congrArg₂ (maximumf : (⟨S64x1, .f32⟩ : BufTy).Contents (Elt F) → (⟨S64x1, .f32⟩ : BufTy).Contents (Elt F) → (⟨S64x1, .f32⟩ : BufTy).Contents (Elt F)) (v_main_v247 m c) (v_main_v248 m c))
theorem v_main_v250 (c : Dev nD) : U27 m c main_v250 = ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))) :=
  (s14_main_v250 (W26 m c)).trans (congrArg (broadcastInDim S64x64 ![0, 1] bcast_S64x1_S64x64_0_1 : (⟨S64x1, .f32⟩ : BufTy).Contents (Elt F) → (⟨S64x64, .f32⟩ : BufTy).Contents (Elt F)) (v_main_v249 m c))
theorem v_main_v251 (c : Dev nD) : U27 m c main_v251 = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U26 m c main_v240)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  (s14_main_v251 (W26 m c)).trans (congrArg₂ (Host.divf : (⟨S64x64, .f32⟩ : BufTy).Contents (Elt F) → (⟨S64x64, .f32⟩ : BufTy).Contents (Elt F) → (⟨S64x64, .f32⟩ : BufTy).Contents (Elt F)) (v_main_v243 m c) (v_main_v250 m c))
theorem v_main_v252 (c : Dev nD) : U27 m c main_v252 = (((extractStridedSlice S64x64 ![0, 0] · slices_S128x64_S64x64_0_0) : (⟨S128x64, .f32⟩ : BufTy).Contents (Elt F) → (⟨S64x64, .f32⟩ : BufTy).Contents (Elt F)) (U0 m c main_arg27)) :=
  (s14_main_v252 (W26 m c)).trans (congrArg ((extractStridedSlice S64x64 ![0, 0] · slices_S128x64_S64x64_0_0) : (⟨S128x64, .f32⟩ : BufTy).Contents (Elt F) → (⟨S64x64, .f32⟩ : BufTy).Contents (Elt F)) ((W27_keep m c main_arg27 (by decide)) |>.trans <| (W26_keep m c main_arg27 (by decide)) |>.trans <| (W25_keep m c main_arg27 (by decide)) |>.trans <| (W24_keep m c main_arg27 (by decide)) |>.trans <| (W23_keep m c main_arg27 (by decide)) |>.trans <| (W22_keep m c main_arg27 (by decide)) |>.trans <| (W21_keep m c main_arg27 (by decide)) |>.trans <| (W20_keep m c main_arg27 (by decide)) |>.trans <| (W19_keep m c main_arg27 (by decide)) |>.trans <| (W18_keep m c main_arg27 (by decide)) |>.trans <| (W17_keep m c main_arg27 (by decide)) |>.trans <| (W16_keep m c main_arg27 (by decide)) |>.trans <| (W15_keep m c main_arg27 (by decide)) |>.trans <| (W14_keep m c main_arg27 (by decide)) |>.trans <| (W13_keep m c main_arg27 (by decide)) |>.trans <| (W12_keep m c main_arg27 (by decide)) |>.trans <| (W11_keep m c main_arg27 (by decide)) |>.trans <| (W10_keep m c main_arg27 (by decide)) |>.trans <| (W9_keep m c main_arg27 (by decide)) |>.trans <| (W8_keep m c main_arg27 (by decide)) |>.trans <| (W7_keep m c main_arg27 (by decide)) |>.trans <| (W6_keep m c main_arg27 (by decide)) |>.trans <| (W5_keep m c main_arg27 (by decide)) |>.trans <| (W4_keep m c main_arg27 (by decide)) |>.trans <| (W3_keep m c main_arg27 (by decide)) |>.trans <| (W2_keep m c main_arg27 (by decide)) |>.trans <| (W1_keep m c main_arg27 (by decide))))
theorem v_main_v253 (c : Dev nD) : U27 m c main_v253 = (((extractStridedSlice S64x64 ![64, 0] · slices_S128x64_S64x64_64_0) : (⟨S128x64, .f32⟩ : BufTy).Contents (Elt F) → (⟨S64x64, .f32⟩ : BufTy).Contents (Elt F)) (U0 m c main_arg27)) :=
  (s14_main_v253 (W26 m c)).trans (congrArg ((extractStridedSlice S64x64 ![64, 0] · slices_S128x64_S64x64_64_0) : (⟨S128x64, .f32⟩ : BufTy).Contents (Elt F) → (⟨S64x64, .f32⟩ : BufTy).Contents (Elt F)) ((W27_keep m c main_arg27 (by decide)) |>.trans <| (W26_keep m c main_arg27 (by decide)) |>.trans <| (W25_keep m c main_arg27 (by decide)) |>.trans <| (W24_keep m c main_arg27 (by decide)) |>.trans <| (W23_keep m c main_arg27 (by decide)) |>.trans <| (W22_keep m c main_arg27 (by decide)) |>.trans <| (W21_keep m c main_arg27 (by decide)) |>.trans <| (W20_keep m c main_arg27 (by decide)) |>.trans <| (W19_keep m c main_arg27 (by decide)) |>.trans <| (W18_keep m c main_arg27 (by decide)) |>.trans <| (W17_keep m c main_arg27 (by decide)) |>.trans <| (W16_keep m c main_arg27 (by decide)) |>.trans <| (W15_keep m c main_arg27 (by decide)) |>.trans <| (W14_keep m c main_arg27 (by decide)) |>.trans <| (W13_keep m c main_arg27 (by decide)) |>.trans <| (W12_keep m c main_arg27 (by decide)) |>.trans <| (W11_keep m c main_arg27 (by decide)) |>.trans <| (W10_keep m c main_arg27 (by decide)) |>.trans <| (W9_keep m c main_arg27 (by decide)) |>.trans <| (W8_keep m c main_arg27 (by decide)) |>.trans <| (W7_keep m c main_arg27 (by decide)) |>.trans <| (W6_keep m c main_arg27 (by decide)) |>.trans <| (W5_keep m c main_arg27 (by decide)) |>.trans <| (W4_keep m c main_arg27 (by decide)) |>.trans <| (W3_keep m c main_arg27 (by decide)) |>.trans <| (W2_keep m c main_arg27 (by decide)) |>.trans <| (W1_keep m c main_arg27 (by decide))))
theorem v_main_v254 (c : Dev nD) : U27 m c main_v254 = (shapeCast S1x64 (U0 m c main_arg28) shapeCasts_S64_S1x64) :=
  (s14_main_v254 (W26 m c)).trans (congrArg (fun z => shapeCast S1x64 z shapeCasts_S64_S1x64) ((W27_keep m c main_arg28 (by decide)) |>.trans <| (W26_keep m c main_arg28 (by decide)) |>.trans <| (W25_keep m c main_arg28 (by decide)) |>.trans <| (W24_keep m c main_arg28 (by decide)) |>.trans <| (W23_keep m c main_arg28 (by decide)) |>.trans <| (W22_keep m c main_arg28 (by decide)) |>.trans <| (W21_keep m c main_arg28 (by decide)) |>.trans <| (W20_keep m c main_arg28 (by decide)) |>.trans <| (W19_keep m c main_arg28 (by decide)) |>.trans <| (W18_keep m c main_arg28 (by decide)) |>.trans <| (W17_keep m c main_arg28 (by decide)) |>.trans <| (W16_keep m c main_arg28 (by decide)) |>.trans <| (W15_keep m c main_arg28 (by decide)) |>.trans <| (W14_keep m c main_arg28 (by decide)) |>.trans <| (W13_keep m c main_arg28 (by decide)) |>.trans <| (W12_keep m c main_arg28 (by decide)) |>.trans <| (W11_keep m c main_arg28 (by decide)) |>.trans <| (W10_keep m c main_arg28 (by decide)) |>.trans <| (W9_keep m c main_arg28 (by decide)) |>.trans <| (W8_keep m c main_arg28 (by decide)) |>.trans <| (W7_keep m c main_arg28 (by decide)) |>.trans <| (W6_keep m c main_arg28 (by decide)) |>.trans <| (W5_keep m c main_arg28 (by decide)) |>.trans <| (W4_keep m c main_arg28 (by decide)) |>.trans <| (W3_keep m c main_arg28 (by decide)) |>.trans <| (W2_keep m c main_arg28 (by decide)) |>.trans <| (W1_keep m c main_arg28 (by decide))))

/-! ## What each kernel region reads: its windows' arrays at entry -/

theorem in0_0 (c : Dev nD) : U1 m c main_arg0 = (U0 m c main_arg0) :=
  ((W1_keep m c main_arg0 (by decide)))
theorem in1_0 (c : Dev nD) : U3 m c main_arg0 = (U0 m c main_arg0) :=
  ((W3_keep m c main_arg0 (by decide)) |>.trans <| (W2_keep m c main_arg0 (by decide)) |>.trans <| (W1_keep m c main_arg0 (by decide)))
theorem in1_1 (c : Dev nD) : U3 m c main_v6 = ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))) :=
  v_main_v6 m c
theorem in1_2 (c : Dev nD) : U3 m c main_v12 = ((maximumf : (⟨S1x64, .f32⟩ : BufTy).Contents (Elt F) → (⟨S1x64, .f32⟩ : BufTy).Contents (Elt F) → (⟨S1x64, .f32⟩ : BufTy).Contents (Elt F)) ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_1) ((broadcastInDim S1x64 ![] bcast_S_S1x64 : (⟨S_, .f32⟩ : BufTy).Contents (Elt F) → (⟨S1x64, .f32⟩ : BufTy).Contents (Elt F)) (constant (F := F) S_ .f32 0x46EA6000#32))) ((mulf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))) ((Host.divf : (⟨S1x64, .f32⟩ : BufTy).Contents (Elt F) → (⟨S1x64, .f32⟩ : BufTy).Contents (Elt F) → (⟨S1x64, .f32⟩ : BufTy).Contents (Elt F)) (U2 m c main_v4_0) ((broadcastInDim S1x64 ![] bcast_S_S1x64 : (⟨S_, .f32⟩ : BufTy).Contents (Elt F) → (⟨S1x64, .f32⟩ : BufTy).Contents (Elt F)) (constant (F := F) S_ .f32 0x46EA6000#32))))) ((broadcastInDim S1x64 ![] bcast_S_S1x64 : (⟨S_, .f32⟩ : BufTy).Contents (Elt F) → (⟨S1x64, .f32⟩ : BufTy).Contents (Elt F)) (constant (F := F) S_ .f32 0x00000000#32))) :=
  v_main_v12 m c
theorem in1_3 (c : Dev nD) : U3 m c main_v13 = (shapeCast S1x64 (U0 m c main_arg5) shapeCasts_S64_S1x64) :=
  v_main_v13 m c
theorem in1_4 (c : Dev nD) : U3 m c main_v14 = (shapeCast S1x64 (U0 m c main_arg6) shapeCasts_S64_S1x64) :=
  v_main_v14 m c
theorem in2_0 (c : Dev nD) : U4 m c main_arg2 = (U0 m c main_arg2) :=
  ((W4_keep m c main_arg2 (by decide)) |>.trans <| (W3_keep m c main_arg2 (by decide)) |>.trans <| (W2_keep m c main_arg2 (by decide)) |>.trans <| (W1_keep m c main_arg2 (by decide)))
theorem in3_0 (c : Dev nD) : U6 m c main_arg2 = (U0 m c main_arg2) :=
  ((W6_keep m c main_arg2 (by decide)) |>.trans <| (W5_keep m c main_arg2 (by decide)) |>.trans <| (W4_keep m c main_arg2 (by decide)) |>.trans <| (W3_keep m c main_arg2 (by decide)) |>.trans <| (W2_keep m c main_arg2 (by decide)) |>.trans <| (W1_keep m c main_arg2 (by decide)))
theorem in3_1 (c : Dev nD) : U6 m c main_v18 = ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))) :=
  v_main_v18 m c
theorem in3_2 (c : Dev nD) : U6 m c main_v24 = ((maximumf : (⟨S1x32, .f32⟩ : BufTy).Contents (Elt F) → (⟨S1x32, .f32⟩ : BufTy).Contents (Elt F) → (⟨S1x32, .f32⟩ : BufTy).Contents (Elt F)) ((subf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_1) ((broadcastInDim S1x32 ![] bcast_S_S1x32 : (⟨S_, .f32⟩ : BufTy).Contents (Elt F) → (⟨S1x32, .f32⟩ : BufTy).Contents (Elt F)) (constant (F := F) S_ .f32 0x48927C00#32))) ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))) ((Host.divf : (⟨S1x32, .f32⟩ : BufTy).Contents (Elt F) → (⟨S1x32, .f32⟩ : BufTy).Contents (Elt F) → (⟨S1x32, .f32⟩ : BufTy).Contents (Elt F)) (U5 m c main_v16_0) ((broadcastInDim S1x32 ![] bcast_S_S1x32 : (⟨S_, .f32⟩ : BufTy).Contents (Elt F) → (⟨S1x32, .f32⟩ : BufTy).Contents (Elt F)) (constant (F := F) S_ .f32 0x48927C00#32))))) ((broadcastInDim S1x32 ![] bcast_S_S1x32 : (⟨S_, .f32⟩ : BufTy).Contents (Elt F) → (⟨S1x32, .f32⟩ : BufTy).Contents (Elt F)) (constant (F := F) S_ .f32 0x00000000#32))) :=
  v_main_v24 m c
theorem in3_3 (c : Dev nD) : U6 m c main_v25 = (shapeCast S1x32 (U0 m c main_arg7) shapeCasts_S32_S1x32) :=
  v_main_v25 m c
theorem in3_4 (c : Dev nD) : U6 m c main_v26 = (shapeCast S1x32 (U0 m c main_arg8) shapeCasts_S32_S1x32) :=
  v_main_v26 m c
theorem in4_0 (c : Dev nD) : U7 m c main_arg3 = (U0 m c main_arg3) :=
  ((W7_keep m c main_arg3 (by decide)) |>.trans <| (W6_keep m c main_arg3 (by decide)) |>.trans <| (W5_keep m c main_arg3 (by decide)) |>.trans <| (W4_keep m c main_arg3 (by decide)) |>.trans <| (W3_keep m c main_arg3 (by decide)) |>.trans <| (W2_keep m c main_arg3 (by decide)) |>.trans <| (W1_keep m c main_arg3 (by decide)))
theorem in5_0 (c : Dev nD) : U9 m c main_arg3 = (U0 m c main_arg3) :=
  ((W9_keep m c main_arg3 (by decide)) |>.trans <| (W8_keep m c main_arg3 (by decide)) |>.trans <| (W7_keep m c main_arg3 (by decide)) |>.trans <| (W6_keep m c main_arg3 (by decide)) |>.trans <| (W5_keep m c main_arg3 (by decide)) |>.trans <| (W4_keep m c main_arg3 (by decide)) |>.trans <| (W3_keep m c main_arg3 (by decide)) |>.trans <| (W2_keep m c main_arg3 (by decide)) |>.trans <| (W1_keep m c main_arg3 (by decide)))
theorem in5_1 (c : Dev nD) : U9 m c main_v30 = ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))) :=
  v_main_v30 m c
theorem in5_2 (c : Dev nD) : U9 m c main_v36 = ((maximumf : (⟨S1x32, .f32⟩ : BufTy).Contents (Elt F) → (⟨S1x32, .f32⟩ : BufTy).Contents (Elt F) → (⟨S1x32, .f32⟩ : BufTy).Contents (Elt F)) ((subf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_1) ((broadcastInDim S1x32 ![] bcast_S_S1x32 : (⟨S_, .f32⟩ : BufTy).Contents (Elt F) → (⟨S1x32, .f32⟩ : BufTy).Contents (Elt F)) (constant (F := F) S_ .f32 0x42800000#32))) ((mulf : (⟨S1x32, .f32⟩ : BufTy).Contents (Elt F) → (⟨S1x32, .f32⟩ : BufTy).Contents (Elt F) → (⟨S1x32, .f32⟩ : BufTy).Contents (Elt F)) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))) ((Host.divf : (⟨S1x32, .f32⟩ : BufTy).Contents (Elt F) → (⟨S1x32, .f32⟩ : BufTy).Contents (Elt F) → (⟨S1x32, .f32⟩ : BufTy).Contents (Elt F)) (U8 m c main_v28_0) ((broadcastInDim S1x32 ![] bcast_S_S1x32 : (⟨S_, .f32⟩ : BufTy).Contents (Elt F) → (⟨S1x32, .f32⟩ : BufTy).Contents (Elt F)) (constant (F := F) S_ .f32 0x42800000#32))))) ((broadcastInDim S1x32 ![] bcast_S_S1x32 : (⟨S_, .f32⟩ : BufTy).Contents (Elt F) → (⟨S1x32, .f32⟩ : BufTy).Contents (Elt F)) (constant (F := F) S_ .f32 0x00000000#32))) :=
  v_main_v36 m c
theorem in5_3 (c : Dev nD) : U9 m c main_v37 = (shapeCast S1x32 (U0 m c main_arg9) shapeCasts_S32_S1x32) :=
  v_main_v37 m c
theorem in5_4 (c : Dev nD) : U9 m c main_v38 = (shapeCast S1x32 (U0 m c main_arg10) shapeCasts_S32_S1x32) :=
  v_main_v38 m c
theorem in6_0 (c : Dev nD) : U11 m c main_v46 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U4 m c main_v15) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  v_main_v46 m c
theorem in6_1 (c : Dev nD) : U11 m c main_v53 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U4 m c main_v15) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)))) :=
  v_main_v53 m c
theorem in6_2 (c : Dev nD) : U11 m c main_v27 = (U7 m c main_v27) :=
  ((W11_keep m c main_v27 (by decide)) |>.trans <| (W10_keep m c main_v27 (by decide)) |>.trans <| (W9_keep m c main_v27 (by decide)) |>.trans <| (W8_keep m c main_v27 (by decide)))
theorem in6_3 (c : Dev nD) : U11 m c main_v67 = (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (U10 m c main_v39) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))))) :=
  v_main_v67 m c
theorem in6_4 (c : Dev nD) : U11 m c main_v68 = (((extractStridedSlice S64x64 ![0, 0] · slices_S192x64_S64x64_0_0) : (⟨S192x64, .f32⟩ : BufTy).Contents (Elt F) → (⟨S64x64, .f32⟩ : BufTy).Contents (Elt F)) (U0 m c main_arg11)) :=
  v_main_v68 m c
theorem in6_5 (c : Dev nD) : U11 m c main_v69 = (((extractStridedSlice S64x64 ![64, 0] · slices_S192x64_S64x64_64_0) : (⟨S192x64, .f32⟩ : BufTy).Contents (Elt F) → (⟨S64x64, .f32⟩ : BufTy).Contents (Elt F)) (U0 m c main_arg11)) :=
  v_main_v69 m c
theorem in6_6 (c : Dev nD) : U11 m c main_v70 = (((extractStridedSlice S32x64 ![128, 0] · slices_S192x64_S32x64_128_0) : (⟨S192x64, .f32⟩ : BufTy).Contents (Elt F) → (⟨S32x64, .f32⟩ : BufTy).Contents (Elt F)) (U0 m c main_arg11)) :=
  v_main_v70 m c
theorem in6_7 (c : Dev nD) : U11 m c main_v71 = (((extractStridedSlice S32x64 ![160, 0] · slices_S192x64_S32x64_160_0) : (⟨S192x64, .f32⟩ : BufTy).Contents (Elt F) → (⟨S32x64, .f32⟩ : BufTy).Contents (Elt F)) (U0 m c main_arg11)) :=
  v_main_v71 m c
theorem in6_8 (c : Dev nD) : U11 m c main_v72 = (shapeCast S1x64 (U0 m c main_arg12) shapeCasts_S64_S1x64) :=
  v_main_v72 m c
theorem in7_0 (c : Dev nD) : U13 m c main_v15 = (U4 m c main_v15) :=
  ((W13_keep m c main_v15 (by decide)) |>.trans <| (W12_keep m c main_v15 (by decide)) |>.trans <| (W11_keep m c main_v15 (by decide)) |>.trans <| (W10_keep m c main_v15 (by decide)) |>.trans <| (W9_keep m c main_v15 (by decide)) |>.trans <| (W8_keep m c main_v15 (by decide)) |>.trans <| (W7_keep m c main_v15 (by decide)) |>.trans <| (W6_keep m c main_v15 (by decide)) |>.trans <| (W5_keep m c main_v15 (by decide)))
theorem in7_1 (c : Dev nD) : U13 m c main_v84 = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U12 m c main_v73)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  v_main_v84 m c
theorem in7_2 (c : Dev nD) : U13 m c main_v91 = (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (U10 m c main_v39) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)))) :=
  v_main_v91 m c
theorem in7_3 (c : Dev nD) : U13 m c main_v92 = (((extractStridedSlice S64x64 ![0, 0] · slices_S160x64_S64x64_0_0) : (⟨S160x64, .f32⟩ : BufTy).Contents (Elt F) → (⟨S64x64, .f32⟩ : BufTy).Contents (Elt F)) (U0 m c main_arg13)) :=
  v_main_v92 m c
theorem in7_4 (c : Dev nD) : U13 m c main_v93 = (((extractStridedSlice S64x64 ![64, 0] · slices_S160x64_S64x64_64_0) : (⟨S160x64, .f32⟩ : BufTy).Contents (Elt F) → (⟨S64x64, .f32⟩ : BufTy).Contents (Elt F)) (U0 m c main_arg13)) :=
  v_main_v93 m c
theorem in7_5 (c : Dev nD) : U13 m c main_v94 = (((extractStridedSlice S32x64 ![128, 0] · slices_S160x64_S32x64_128_0) : (⟨S160x64, .f32⟩ : BufTy).Contents (Elt F) → (⟨S32x64, .f32⟩ : BufTy).Contents (Elt F)) (U0 m c main_arg13)) :=
  v_main_v94 m c
theorem in7_6 (c : Dev nD) : U13 m c main_v95 = (shapeCast S1x64 (U0 m c main_arg14) shapeCasts_S64_S1x64) :=
  v_main_v95 m c
theorem in8_0 (c : Dev nD) : U15 m c main_v107 = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U14 m c main_v96)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  v_main_v107 m c
theorem in8_1 (c : Dev nD) : U15 m c main_v39 = (U10 m c main_v39) :=
  ((W15_keep m c main_v39 (by decide)) |>.trans <| (W14_keep m c main_v39 (by decide)) |>.trans <| (W13_keep m c main_v39 (by decide)) |>.trans <| (W12_keep m c main_v39 (by decide)) |>.trans <| (W11_keep m c main_v39 (by decide)))
theorem in8_2 (c : Dev nD) : U15 m c main_v108 = (((extractStridedSlice S64x64 ![0, 0] · slices_S96x64_S64x64_0_0) : (⟨S96x64, .f32⟩ : BufTy).Contents (Elt F) → (⟨S64x64, .f32⟩ : BufTy).Contents (Elt F)) (U0 m c main_arg15)) :=
  v_main_v108 m c
theorem in8_3 (c : Dev nD) : U15 m c main_v109 = (((extractStridedSlice S32x64 ![64, 0] · slices_S96x64_S32x64_64_0) : (⟨S96x64, .f32⟩ : BufTy).Contents (Elt F) → (⟨S32x64, .f32⟩ : BufTy).Contents (Elt F)) (U0 m c main_arg15)) :=
  v_main_v109 m c
theorem in8_4 (c : Dev nD) : U15 m c main_v110 = (shapeCast S1x64 (U0 m c main_arg16) shapeCasts_S64_S1x64) :=
  v_main_v110 m c
theorem in9_0 (c : Dev nD) : U17 m c main_v118 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U14 m c main_v96) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  v_main_v118 m c
theorem in9_1 (c : Dev nD) : U17 m c main_v125 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U14 m c main_v96) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)))) :=
  v_main_v125 m c
theorem in9_2 (c : Dev nD) : U17 m c main_v73 = (U12 m c main_v73) :=
  ((W17_keep m c main_v73 (by decide)) |>.trans <| (W16_keep m c main_v73 (by decide)) |>.trans <| (W15_keep m c main_v73 (by decide)) |>.trans <| (W14_keep m c main_v73 (by decide)) |>.trans <| (W13_keep m c main_v73 (by decide)))
theorem in9_3 (c : Dev nD) : U17 m c main_v139 = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (U16 m c main_v111) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))))) :=
  v_main_v139 m c
theorem in9_4 (c : Dev nD) : U17 m c main_v140 = (((extractStridedSlice S64x64 ![0, 0] · slices_S256x64_S64x64_0_0) : (⟨S256x64, .f32⟩ : BufTy).Contents (Elt F) → (⟨S64x64, .f32⟩ : BufTy).Contents (Elt F)) (U0 m c main_arg17)) :=
  v_main_v140 m c
theorem in9_5 (c : Dev nD) : U17 m c main_v141 = (((extractStridedSlice S64x64 ![64, 0] · slices_S256x64_S64x64_64_0) : (⟨S256x64, .f32⟩ : BufTy).Contents (Elt F) → (⟨S64x64, .f32⟩ : BufTy).Contents (Elt F)) (U0 m c main_arg17)) :=
  v_main_v141 m c
theorem in9_6 (c : Dev nD) : U17 m c main_v142 = (((extractStridedSlice S64x64 ![128, 0] · slices_S256x64_S64x64_128_0) : (⟨S256x64, .f32⟩ : BufTy).Contents (Elt F) → (⟨S64x64, .f32⟩ : BufTy).Contents (Elt F)) (U0 m c main_arg17)) :=
  v_main_v142 m c
theorem in9_7 (c : Dev nD) : U17 m c main_v143 = (((extractStridedSlice S64x64 ![192, 0] · slices_S256x64_S64x64_192_0) : (⟨S256x64, .f32⟩ : BufTy).Contents (Elt F) → (⟨S64x64, .f32⟩ : BufTy).Contents (Elt F)) (U0 m c main_arg17)) :=
  v_main_v143 m c
theorem in9_8 (c : Dev nD) : U17 m c main_v144 = (shapeCast S1x64 (U0 m c main_arg18) shapeCasts_S64_S1x64) :=
  v_main_v144 m c
theorem in10_0 (c : Dev nD) : U19 m c main_v96 = (U14 m c main_v96) :=
  ((W19_keep m c main_v96 (by decide)) |>.trans <| (W18_keep m c main_v96 (by decide)) |>.trans <| (W17_keep m c main_v96 (by decide)) |>.trans <| (W16_keep m c main_v96 (by decide)) |>.trans <| (W15_keep m c main_v96 (by decide)))
theorem in10_1 (c : Dev nD) : U19 m c main_v156 = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U18 m c main_v145)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  v_main_v156 m c
theorem in10_2 (c : Dev nD) : U19 m c main_v163 = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (U16 m c main_v111) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)))) :=
  v_main_v163 m c
theorem in10_3 (c : Dev nD) : U19 m c main_v164 = (((extractStridedSlice S64x64 ![0, 0] · slices_S192x64_S64x64_0_0) : (⟨S192x64, .f32⟩ : BufTy).Contents (Elt F) → (⟨S64x64, .f32⟩ : BufTy).Contents (Elt F)) (U0 m c main_arg19)) :=
  v_main_v164 m c
theorem in10_4 (c : Dev nD) : U19 m c main_v165 = (((extractStridedSlice S64x64 ![64, 0] · slices_S192x64_S64x64_64_0) : (⟨S192x64, .f32⟩ : BufTy).Contents (Elt F) → (⟨S64x64, .f32⟩ : BufTy).Contents (Elt F)) (U0 m c main_arg19)) :=
  v_main_v165 m c
theorem in10_5 (c : Dev nD) : U19 m c main_v166 = (((extractStridedSlice S64x64 ![128, 0] · slices_S192x64_S64x64_128_0) : (⟨S192x64, .f32⟩ : BufTy).Contents (Elt F) → (⟨S64x64, .f32⟩ : BufTy).Contents (Elt F)) (U0 m c main_arg19)) :=
  v_main_v166 m c
theorem in10_6 (c : Dev nD) : U19 m c main_v167 = (shapeCast S1x64 (U0 m c main_arg20) shapeCasts_S64_S1x64) :=
  v_main_v167 m c
theorem in11_0 (c : Dev nD) : U21 m c main_v179 = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U20 m c main_v168)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  v_main_v179 m c
theorem in11_1 (c : Dev nD) : U21 m c main_v111 = (U16 m c main_v111) :=
  ((W21_keep m c main_v111 (by decide)) |>.trans <| (W20_keep m c main_v111 (by decide)) |>.trans <| (W19_keep m c main_v111 (by decide)) |>.trans <| (W18_keep m c main_v111 (by decide)) |>.trans <| (W17_keep m c main_v111 (by decide)))
theorem in11_2 (c : Dev nD) : U21 m c main_v180 = (((extractStridedSlice S64x64 ![0, 0] · slices_S128x64_S64x64_0_0) : (⟨S128x64, .f32⟩ : BufTy).Contents (Elt F) → (⟨S64x64, .f32⟩ : BufTy).Contents (Elt F)) (U0 m c main_arg21)) :=
  v_main_v180 m c
theorem in11_3 (c : Dev nD) : U21 m c main_v181 = (((extractStridedSlice S64x64 ![64, 0] · slices_S128x64_S64x64_64_0) : (⟨S128x64, .f32⟩ : BufTy).Contents (Elt F) → (⟨S64x64, .f32⟩ : BufTy).Contents (Elt F)) (U0 m c main_arg21)) :=
  v_main_v181 m c
theorem in11_4 (c : Dev nD) : U21 m c main_v182 = (shapeCast S1x64 (U0 m c main_arg22) shapeCasts_S64_S1x64) :=
  v_main_v182 m c
theorem in12_0 (c : Dev nD) : U23 m c main_v190 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U20 m c main_v168) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) :=
  v_main_v190 m c
theorem in12_1 (c : Dev nD) : U23 m c main_v197 = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (U20 m c main_v168) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)))) :=
  v_main_v197 m c
theorem in12_2 (c : Dev nD) : U23 m c main_v145 = (U18 m c main_v145) :=
  ((W23_keep m c main_v145 (by decide)) |>.trans <| (W22_keep m c main_v145 (by decide)) |>.trans <| (W21_keep m c main_v145 (by decide)) |>.trans <| (W20_keep m c main_v145 (by decide)) |>.trans <| (W19_keep m c main_v145 (by decide)))
theorem in12_3 (c : Dev nD) : U23 m c main_v211 = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (U22 m c main_v183) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (U0 m c main_arg4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (U0 m c main_arg1)) shapeCasts_S1x300000_S300000))))))) :=
  v_main_v211 m c
theorem in12_4 (c : Dev nD) : U23 m c main_v212 = (((extractStridedSlice S64x64 ![0, 0] · slices_S256x64_S64x64_0_0) : (⟨S256x64, .f32⟩ : BufTy).Contents (Elt F) → (⟨S64x64, .f32⟩ : BufTy).Contents (Elt F)) (U0 m c main_arg23)) :=
  v_main_v212 m c
theorem in12_5 (c : Dev nD) : U23 m c main_v213 = (((extractStridedSlice S64x64 ![64, 0] · slices_S256x64_S64x64_64_0) : (⟨S256x64, .f32⟩ : BufTy).Contents (Elt F) → (⟨S64x64, .f32⟩ : BufTy).Contents (Elt F)) (U0 m c main_arg23)) :=
  v_main_v213 m c
theorem in12_6 (c : Dev nD) : U23 m c main_v214 = (((extractStridedSlice S64x64 ![128, 0] · slices_S256x64_S64x64_128_0) : (⟨S256x64, .f32⟩ : BufTy).Contents (Elt F) → (⟨S64x64, .f32⟩ : BufTy).Contents (Elt F)) (U0 m c main_arg23)) :=
  v_main_v214 m c
theorem in12_7 (c : Dev nD) : U23 m c main_v215 = (((extractStridedSlice S64x64 ![192, 0] · slices_S256x64_S64x64_192_0) : (⟨S256x64, .f32⟩ : BufTy).Contents (Elt F) → (⟨S64x64, .f32⟩ : BufTy).Contents (Elt F)) (U0 m c main_arg23)) :=
  v_main_v215 m c
theorem in12_8 (c : Dev nD) : U23 m c main_v216 = (shapeCast S1x64 (U0 m c main_arg24) shapeCasts_S64_S1x64) :=
  v_main_v216 m c
theorem in13_0 (c : Dev nD) : U25 m c main_v168 = (U20 m c main_v168) :=
  ((W25_keep m c main_v168 (by decide)) |>.trans <| (W24_keep m c main_v168 (by decide)) |>.trans <| (W23_keep m c main_v168 (by decide)) |>.trans <| (W22_keep m c main_v168 (by decide)) |>.trans <| (W21_keep m c main_v168 (by decide)))
theorem in13_1 (c : Dev nD) : U25 m c main_v228 = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) (U24 m c main_v217)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (U0 m c main_arg1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  v_main_v228 m c
theorem in13_2 (c : Dev nD) : U25 m c main_v235 = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (U22 m c main_v183) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (U0 m c main_arg4) ((broadcastInDim S30000 ![] bcast_S_S30000 : (⟨S_, .i32⟩ : BufTy).Contents (Elt F) → (⟨S30000, .i32⟩ : BufTy).Contents (Elt F)) (constantI S_ 32 64#32))) (U0 m c main_arg4)))) :=
  v_main_v235 m c
theorem in13_3 (c : Dev nD) : U25 m c main_v236 = (((extractStridedSlice S64x64 ![0, 0] · slices_S192x64_S64x64_0_0) : (⟨S192x64, .f32⟩ : BufTy).Contents (Elt F) → (⟨S64x64, .f32⟩ : BufTy).Contents (Elt F)) (U0 m c main_arg25)) :=
  v_main_v236 m c
theorem in13_4 (c : Dev nD) : U25 m c main_v237 = (((extractStridedSlice S64x64 ![64, 0] · slices_S192x64_S64x64_64_0) : (⟨S192x64, .f32⟩ : BufTy).Contents (Elt F) → (⟨S64x64, .f32⟩ : BufTy).Contents (Elt F)) (U0 m c main_arg25)) :=
  v_main_v237 m c
theorem in13_5 (c : Dev nD) : U25 m c main_v238 = (((extractStridedSlice S64x64 ![128, 0] · slices_S192x64_S64x64_128_0) : (⟨S192x64, .f32⟩ : BufTy).Contents (Elt F) → (⟨S64x64, .f32⟩ : BufTy).Contents (Elt F)) (U0 m c main_arg25)) :=
  v_main_v238 m c
theorem in13_6 (c : Dev nD) : U25 m c main_v239 = (shapeCast S1x64 (U0 m c main_arg26) shapeCasts_S64_S1x64) :=
  v_main_v239 m c
theorem in14_0 (c : Dev nD) : U27 m c main_v251 = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) (U26 m c main_v240)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (U0 m c main_arg4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  v_main_v251 m c
theorem in14_1 (c : Dev nD) : U27 m c main_v183 = (U22 m c main_v183) :=
  ((W27_keep m c main_v183 (by decide)) |>.trans <| (W26_keep m c main_v183 (by decide)) |>.trans <| (W25_keep m c main_v183 (by decide)) |>.trans <| (W24_keep m c main_v183 (by decide)) |>.trans <| (W23_keep m c main_v183 (by decide)))
theorem in14_2 (c : Dev nD) : U27 m c main_v252 = (((extractStridedSlice S64x64 ![0, 0] · slices_S128x64_S64x64_0_0) : (⟨S128x64, .f32⟩ : BufTy).Contents (Elt F) → (⟨S64x64, .f32⟩ : BufTy).Contents (Elt F)) (U0 m c main_arg27)) :=
  v_main_v252 m c
theorem in14_3 (c : Dev nD) : U27 m c main_v253 = (((extractStridedSlice S64x64 ![64, 0] · slices_S128x64_S64x64_64_0) : (⟨S128x64, .f32⟩ : BufTy).Contents (Elt F) → (⟨S64x64, .f32⟩ : BufTy).Contents (Elt F)) (U0 m c main_arg27)) :=
  v_main_v253 m c
theorem in14_4 (c : Dev nD) : U27 m c main_v254 = (shapeCast S1x64 (U0 m c main_arg28) shapeCasts_S64_S1x64) :=
  v_main_v254 m c

end Cert.KernelIdeal.Hand

end
-- ==== Proof.KI.Reg0Arr.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg0
-- the TensorCore's buffer contents when the region is entered
variable (V : (c : Dev nD) → (b : Ref sig .tc) → Buf (Elt F) ((c : Thread nD τ).loc b))

/-! ## What the two output arrays hold after the region -/

/-- The grid's last point. -/
def tl0 : Fin grid0.N := ⟨9, by rw [N_0]; decide⟩

/-- The one write-back of output window 1, after the last point, writes the accumulator after all 10 points: its
    block is the whole [1, 64] array. -/
theorem flushed0_1 (c : Dev nD) (t : Fin cfg0.N) (hf : (cfg0.win 1).flush t = true) :
    (dat0 V c).flushed 1 t = ((cfg0.win 1).blk t).view.read (Elt F) (acc0_s V c cfg0.N : Buf (Elt F) ((c : Thread nD τ).loc main_v4_0)) := by
  have hN : cfg0.N = 10 := N_0
  have h9 : t.val + 1 = cfg0.N := by have := (flush0_1 t).mp hf; have := t.isLt; omega
  show (cfg0.win 1).cut (grid0.coords t) ((dat0 V c).after 1 t) = _
  rw [after0_1, h9]
  have hz' : (fun a => win0_1.index t a * main_v4_0.ty.shape.size a) = fun _ => 0 := funext fun a => by fin_cases a <;> rfl
  exact (Memref.read_access_unit_zero (Elt F) main_v4_0 hz' (fun a => by rw [congrFun hz' a]; simp) _).symm

/-- So the array ends holding that accumulator. -/
theorem arr0_1 (c : Dev nD) :
    (dat0 V c).arrAt 1 cfg0.N = (acc0_s V c cfg0.N : Buf (Elt F) ((c : Thread nD τ).loc main_v4_0)) :=
  (dat0 V c).arrAt_eq_of_cover 1 _ (flushed0_1 V c) fun i =>
    ⟨tl0, (flush0_1 tl0).mpr rfl, by
      show i ∈ ((View.whole main_v4_0).slice (win0_1.rect tl0)).set
      rw [View.set_slice_whole, Rect.mem_set_unit]
      intro a
      have h0 : (i 0 : Nat) < 1 := (i 0).isLt
      have h1 : (i 1 : Nat) < 64 := (i 1).isLt
      match a with
      | ⟨0, _⟩ => show win0_1.index tl0 0 * win0_1.size 0 ≤ (i 0 : Nat) ∧ (i 0 : Nat) < win0_1.index tl0 0 * win0_1.size 0 + win0_1.xsize (grid0.coords tl0) 0
                  rw [show win0_1.index tl0 0 * win0_1.size 0 = 0 from rfl, show win0_1.xsize (grid0.coords tl0) 0 = 1 from rfl]; omega
      | ⟨1, _⟩ => show win0_1.index tl0 1 * win0_1.size 1 ≤ (i 1 : Nat) ∧ (i 1 : Nat) < win0_1.index tl0 1 * win0_1.size 1 + win0_1.xsize (grid0.coords tl0) 1
                  rw [show win0_1.index tl0 1 * win0_1.size 1 = 0 from rfl, show win0_1.xsize (grid0.coords tl0) 1 = 64 from rfl]; omega⟩

/-- The one write-back of output window 2, after the last point, writes the accumulator after all 10 points: its
    block is the whole [1, 64] array. -/
theorem flushed0_2 (c : Dev nD) (t : Fin cfg0.N) (hf : (cfg0.win 2).flush t = true) :
    (dat0 V c).flushed 2 t = ((cfg0.win 2).blk t).view.read (Elt F) (acc0_q V c cfg0.N : Buf (Elt F) ((c : Thread nD τ).loc main_v4_1)) := by
  have hN : cfg0.N = 10 := N_0
  have h9 : t.val + 1 = cfg0.N := by have := (flush0_2 t).mp hf; have := t.isLt; omega
  show (cfg0.win 2).cut (grid0.coords t) ((dat0 V c).after 2 t) = _
  rw [after0_2, h9]
  have hz' : (fun a => win0_2.index t a * main_v4_1.ty.shape.size a) = fun _ => 0 := funext fun a => by fin_cases a <;> rfl
  exact (Memref.read_access_unit_zero (Elt F) main_v4_1 hz' (fun a => by rw [congrFun hz' a]; simp) _).symm

/-- So the array ends holding that accumulator. -/
theorem arr0_2 (c : Dev nD) :
    (dat0 V c).arrAt 2 cfg0.N = (acc0_q V c cfg0.N : Buf (Elt F) ((c : Thread nD τ).loc main_v4_1)) :=
  (dat0 V c).arrAt_eq_of_cover 2 _ (flushed0_2 V c) fun i =>
    ⟨tl0, (flush0_2 tl0).mpr rfl, by
      show i ∈ ((View.whole main_v4_1).slice (win0_2.rect tl0)).set
      rw [View.set_slice_whole, Rect.mem_set_unit]
      intro a
      have h0 : (i 0 : Nat) < 1 := (i 0).isLt
      have h1 : (i 1 : Nat) < 64 := (i 1).isLt
      match a with
      | ⟨0, _⟩ => show win0_2.index tl0 0 * win0_2.size 0 ≤ (i 0 : Nat) ∧ (i 0 : Nat) < win0_2.index tl0 0 * win0_2.size 0 + win0_2.xsize (grid0.coords tl0) 0
                  rw [show win0_2.index tl0 0 * win0_2.size 0 = 0 from rfl, show win0_2.xsize (grid0.coords tl0) 0 = 1 from rfl]; omega
      | ⟨1, _⟩ => show win0_2.index tl0 1 * win0_2.size 1 ≤ (i 1 : Nat) ∧ (i 1 : Nat) < win0_2.index tl0 1 * win0_2.size 1 + win0_2.xsize (grid0.coords tl0) 1
                  rw [show win0_2.index tl0 1 * win0_2.size 1 = 0 from rfl, show win0_2.xsize (grid0.coords tl0) 1 = 64 from rfl]; omega⟩

end Reg0
end Cert.KernelIdeal.Hand
end
-- ==== Proof.KI.Reg2Arr.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg2
-- the TensorCore's buffer contents when the region is entered
variable (V : (c : Dev nD) → (b : Ref sig .tc) → Buf (Elt F) ((c : Thread nD τ).loc b))

/-! ## What the two output arrays hold after the region -/

/-- The grid's last point. -/
def tl2 : Fin grid2.N := ⟨49, by rw [N_2]; decide⟩

/-- The one write-back of output window 1, after the last point, writes the accumulator after all 50 points: its
    block is the whole [1, 32] array. -/
theorem flushed2_1 (c : Dev nD) (t : Fin cfg2.N) (hf : (cfg2.win 1).flush t = true) :
    (dat2 V c).flushed 1 t = ((cfg2.win 1).blk t).view.read (Elt F) (acc2_s V c cfg2.N : Buf (Elt F) ((c : Thread nD τ).loc main_v16_0)) := by
  have hN : cfg2.N = 50 := N_2
  have h9 : t.val + 1 = cfg2.N := by have := (flush2_1 t).mp hf; have := t.isLt; omega
  show (cfg2.win 1).cut (grid2.coords t) ((dat2 V c).after 1 t) = _
  rw [after2_1, h9]
  have hz' : (fun a => win2_1.index t a * main_v16_0.ty.shape.size a) = fun _ => 0 := funext fun a => by fin_cases a <;> rfl
  exact (Memref.read_access_unit_zero (Elt F) main_v16_0 hz' (fun a => by rw [congrFun hz' a]; simp) _).symm

/-- So the array ends holding that accumulator. -/
theorem arr2_1 (c : Dev nD) :
    (dat2 V c).arrAt 1 cfg2.N = (acc2_s V c cfg2.N : Buf (Elt F) ((c : Thread nD τ).loc main_v16_0)) :=
  (dat2 V c).arrAt_eq_of_cover 1 _ (flushed2_1 V c) fun i =>
    ⟨tl2, (flush2_1 tl2).mpr rfl, by
      show i ∈ ((View.whole main_v16_0).slice (win2_1.rect tl2)).set
      rw [View.set_slice_whole, Rect.mem_set_unit]
      intro a
      have h0 : (i 0 : Nat) < 1 := (i 0).isLt
      have h1 : (i 1 : Nat) < 32 := (i 1).isLt
      match a with
      | ⟨0, _⟩ => show win2_1.index tl2 0 * win2_1.size 0 ≤ (i 0 : Nat) ∧ (i 0 : Nat) < win2_1.index tl2 0 * win2_1.size 0 + win2_1.xsize (grid2.coords tl2) 0
                  rw [show win2_1.index tl2 0 * win2_1.size 0 = 0 from rfl, show win2_1.xsize (grid2.coords tl2) 0 = 1 from rfl]; omega
      | ⟨1, _⟩ => show win2_1.index tl2 1 * win2_1.size 1 ≤ (i 1 : Nat) ∧ (i 1 : Nat) < win2_1.index tl2 1 * win2_1.size 1 + win2_1.xsize (grid2.coords tl2) 1
                  rw [show win2_1.index tl2 1 * win2_1.size 1 = 0 from rfl, show win2_1.xsize (grid2.coords tl2) 1 = 32 from rfl]; omega⟩

/-- The one write-back of output window 2, after the last point, writes the accumulator after all 50 points: its
    block is the whole [1, 32] array. -/
theorem flushed2_2 (c : Dev nD) (t : Fin cfg2.N) (hf : (cfg2.win 2).flush t = true) :
    (dat2 V c).flushed 2 t = ((cfg2.win 2).blk t).view.read (Elt F) (acc2_q V c cfg2.N : Buf (Elt F) ((c : Thread nD τ).loc main_v16_1)) := by
  have hN : cfg2.N = 50 := N_2
  have h9 : t.val + 1 = cfg2.N := by have := (flush2_2 t).mp hf; have := t.isLt; omega
  show (cfg2.win 2).cut (grid2.coords t) ((dat2 V c).after 2 t) = _
  rw [after2_2, h9]
  have hz' : (fun a => win2_2.index t a * main_v16_1.ty.shape.size a) = fun _ => 0 := funext fun a => by fin_cases a <;> rfl
  exact (Memref.read_access_unit_zero (Elt F) main_v16_1 hz' (fun a => by rw [congrFun hz' a]; simp) _).symm

/-- So the array ends holding that accumulator. -/
theorem arr2_2 (c : Dev nD) :
    (dat2 V c).arrAt 2 cfg2.N = (acc2_q V c cfg2.N : Buf (Elt F) ((c : Thread nD τ).loc main_v16_1)) :=
  (dat2 V c).arrAt_eq_of_cover 2 _ (flushed2_2 V c) fun i =>
    ⟨tl2, (flush2_2 tl2).mpr rfl, by
      show i ∈ ((View.whole main_v16_1).slice (win2_2.rect tl2)).set
      rw [View.set_slice_whole, Rect.mem_set_unit]
      intro a
      have h0 : (i 0 : Nat) < 1 := (i 0).isLt
      have h1 : (i 1 : Nat) < 32 := (i 1).isLt
      match a with
      | ⟨0, _⟩ => show win2_2.index tl2 0 * win2_2.size 0 ≤ (i 0 : Nat) ∧ (i 0 : Nat) < win2_2.index tl2 0 * win2_2.size 0 + win2_2.xsize (grid2.coords tl2) 0
                  rw [show win2_2.index tl2 0 * win2_2.size 0 = 0 from rfl, show win2_2.xsize (grid2.coords tl2) 0 = 1 from rfl]; omega
      | ⟨1, _⟩ => show win2_2.index tl2 1 * win2_2.size 1 ≤ (i 1 : Nat) ∧ (i 1 : Nat) < win2_2.index tl2 1 * win2_2.size 1 + win2_2.xsize (grid2.coords tl2) 1
                  rw [show win2_2.index tl2 1 * win2_2.size 1 = 0 from rfl, show win2_2.xsize (grid2.coords tl2) 1 = 32 from rfl]; omega⟩

end Reg2
end Cert.KernelIdeal.Hand
end
-- ==== Proof.KI.Reg4Arr.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg4
-- the TensorCore's buffer contents when the region is entered
variable (V : (c : Dev nD) → (b : Ref sig .tc) → Buf (Elt F) ((c : Thread nD τ).loc b))

/-! ## What the two output arrays hold after the region -/

/-- The grid's last point. -/
def tl4 : Fin grid4.N := ⟨0, by rw [N_4]; decide⟩

/-- The one write-back of output window 1, after the last point, writes the accumulator after all 1 points: its
    block is the whole [1, 32] array. -/
theorem flushed4_1 (c : Dev nD) (t : Fin cfg4.N) (hf : (cfg4.win 1).flush t = true) :
    (dat4 V c).flushed 1 t = ((cfg4.win 1).blk t).view.read (Elt F) (acc4_s V c cfg4.N : Buf (Elt F) ((c : Thread nD τ).loc main_v28_0)) := by
  have hN : cfg4.N = 1 := N_4
  have h9 : t.val + 1 = cfg4.N := by have := (flush4_1 t); have := t.isLt; omega
  show (cfg4.win 1).cut (grid4.coords t) ((dat4 V c).after 1 t) = _
  rw [after4_1, h9]
  have hz' : (fun a => win4_1.index t a * main_v28_0.ty.shape.size a) = fun _ => 0 := funext fun a => by fin_cases a <;> rfl
  exact (Memref.read_access_unit_zero (Elt F) main_v28_0 hz' (fun a => by rw [congrFun hz' a]; simp) _).symm

/-- So the array ends holding that accumulator. -/
theorem arr4_1 (c : Dev nD) :
    (dat4 V c).arrAt 1 cfg4.N = (acc4_s V c cfg4.N : Buf (Elt F) ((c : Thread nD τ).loc main_v28_0)) :=
  (dat4 V c).arrAt_eq_of_cover 1 _ (flushed4_1 V c) fun i =>
    ⟨tl4, (flush4_1 tl4), by
      show i ∈ ((View.whole main_v28_0).slice (win4_1.rect tl4)).set
      rw [View.set_slice_whole, Rect.mem_set_unit]
      intro a
      have h0 : (i 0 : Nat) < 1 := (i 0).isLt
      have h1 : (i 1 : Nat) < 32 := (i 1).isLt
      match a with
      | ⟨0, _⟩ => show win4_1.index tl4 0 * win4_1.size 0 ≤ (i 0 : Nat) ∧ (i 0 : Nat) < win4_1.index tl4 0 * win4_1.size 0 + win4_1.xsize (grid4.coords tl4) 0
                  rw [show win4_1.index tl4 0 * win4_1.size 0 = 0 from rfl, show win4_1.xsize (grid4.coords tl4) 0 = 1 from rfl]; omega
      | ⟨1, _⟩ => show win4_1.index tl4 1 * win4_1.size 1 ≤ (i 1 : Nat) ∧ (i 1 : Nat) < win4_1.index tl4 1 * win4_1.size 1 + win4_1.xsize (grid4.coords tl4) 1
                  rw [show win4_1.index tl4 1 * win4_1.size 1 = 0 from rfl, show win4_1.xsize (grid4.coords tl4) 1 = 32 from rfl]; omega⟩

/-- The one write-back of output window 2, after the last point, writes the accumulator after all 1 points: its
    block is the whole [1, 32] array. -/
theorem flushed4_2 (c : Dev nD) (t : Fin cfg4.N) (hf : (cfg4.win 2).flush t = true) :
    (dat4 V c).flushed 2 t = ((cfg4.win 2).blk t).view.read (Elt F) (acc4_q V c cfg4.N : Buf (Elt F) ((c : Thread nD τ).loc main_v28_1)) := by
  have hN : cfg4.N = 1 := N_4
  have h9 : t.val + 1 = cfg4.N := by have := (flush4_2 t); have := t.isLt; omega
  show (cfg4.win 2).cut (grid4.coords t) ((dat4 V c).after 2 t) = _
  rw [after4_2, h9]
  have hz' : (fun a => win4_2.index t a * main_v28_1.ty.shape.size a) = fun _ => 0 := funext fun a => by fin_cases a <;> rfl
  exact (Memref.read_access_unit_zero (Elt F) main_v28_1 hz' (fun a => by rw [congrFun hz' a]; simp) _).symm

/-- So the array ends holding that accumulator. -/
theorem arr4_2 (c : Dev nD) :
    (dat4 V c).arrAt 2 cfg4.N = (acc4_q V c cfg4.N : Buf (Elt F) ((c : Thread nD τ).loc main_v28_1)) :=
  (dat4 V c).arrAt_eq_of_cover 2 _ (flushed4_2 V c) fun i =>
    ⟨tl4, (flush4_2 tl4), by
      show i ∈ ((View.whole main_v28_1).slice (win4_2.rect tl4)).set
      rw [View.set_slice_whole, Rect.mem_set_unit]
      intro a
      have h0 : (i 0 : Nat) < 1 := (i 0).isLt
      have h1 : (i 1 : Nat) < 32 := (i 1).isLt
      match a with
      | ⟨0, _⟩ => show win4_2.index tl4 0 * win4_2.size 0 ≤ (i 0 : Nat) ∧ (i 0 : Nat) < win4_2.index tl4 0 * win4_2.size 0 + win4_2.xsize (grid4.coords tl4) 0
                  rw [show win4_2.index tl4 0 * win4_2.size 0 = 0 from rfl, show win4_2.xsize (grid4.coords tl4) 0 = 1 from rfl]; omega
      | ⟨1, _⟩ => show win4_2.index tl4 1 * win4_2.size 1 ≤ (i 1 : Nat) ∧ (i 1 : Nat) < win4_2.index tl4 1 * win4_2.size 1 + win4_2.xsize (grid4.coords tl4) 1
                  rw [show win4_2.index tl4 1 * win4_2.size 1 = 0 from rfl, show win4_2.xsize (grid4.coords tl4) 1 = 32 from rfl]; omega⟩

end Reg4
end Cert.KernelIdeal.Hand
end
-- ==== Proof.KI.Reg0Val.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.Reg0
import Idealize.ShloMosaic.PureOps.Ideal.Laws
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Reg0Val

/-! # The accumulators of custom_call 0 at the ideal values: plain column sums

At `Ideal` the zero word denotes 0 and the lane reduction over the row axis is a finite sum, so the column-sum
accumulator after `n` points is, at column `q`, the sum of the input array's first `3000·n` rows at `q`, and the
sum-of-squares accumulator the sum of their squares; after all 10 points, the sums over all 30000 rows. -/

/-- The zero word denotes zero. -/
theorem zero_f32_0 : (Scalar.ofBits (F := Ideal) .f32 0x00000000#32 : Ideal .f32) = 0 := by
  show Ideal.ofBits .f32 0x00000000#32 = 0
  simp [Ideal.ofBits, Ideal.ieee]

/-- The rows the first store writes are zero. -/
theorem pay1_apply0 (j : S1x64.Idx) : k0_pay1 (F := Ideal) j = 0 := by
  unfold k0_pay1
  simp only [shapeCast_self, broadcast_apply, zero_f32_0]
theorem pay2_apply0 (j : S1x64.Idx) : k0_pay2 (F := Ideal) j = 0 := by
  unfold k0_pay2
  simp only [shapeCast_self, broadcast_apply, zero_f32_0]

/-- The reduced index with the row coordinate put back is the index (row, column). -/
theorem lift_eq0 (k : Fin 3000) (q : Fin 64) :
    reduces_S3000x64_S64.lift (fun a => ix2 (0 : Fin 1) q a.succ) k = ix2 k q :=
  funext fun a => Fin.ext (by
    match a with
    | ⟨0, _⟩ => rfl
    | ⟨1, _⟩ => rfl)

/-- One step of the column-sum accumulator at a column: the block's column sum is added. -/
theorem pay3_apply0 (v3 : Vec Ideal S3000x64 .f32) (v4 : Vec Ideal S1x64 .f32) (q : Fin 64) :
    k0_pay3 (F := Ideal) v3 v4 (ix2 (0 : Fin 1) q) = v4 (ix2 0 q) + ∑ k : Fin 3000, v3 (ix2 k q) := by
  unfold k0_pay3
  simp only [shapeCast_self]
  rw [addf_apply]
  congr 1
  refine (shapeCast_addUnit_apply ![64] _ _ _).trans ?_
  refine (Ideal.multiReduction_add_single _ _ _ _ _ _).trans ?_
  exact Finset.sum_congr rfl fun k _ => congrArg v3 (lift_eq0 k q)

/-- One step of the sum-of-squares accumulator at a column: the column sum of the block's squares is added. -/
theorem pay4_apply0 (v3 : Vec Ideal S3000x64 .f32) (v11 : Vec Ideal S1x64 .f32) (q : Fin 64) :
    k0_pay4 (F := Ideal) v3 v11 (ix2 (0 : Fin 1) q) = v11 (ix2 0 q) + ∑ k : Fin 3000, v3 (ix2 k q) * v3 (ix2 k q) := by
  unfold k0_pay4
  simp only [shapeCast_self]
  rw [addf_apply]
  congr 1
  refine (shapeCast_addUnit_apply ![64] _ _ _).trans ?_
  refine (Ideal.multiReduction_add_single _ _ _ _ _ _).trans ?_
  refine Finset.sum_congr rfl fun k _ => ?_
  rw [mulf_apply, lift_eq0 k q]

variable (V : (c : Dev nD) → (b : Ref sig .tc) → Buf (Elt Ideal) ((c : Thread nD τ).loc b))

/-- The input array as the region finds it, as a [30000, 64] matrix of extended reals. -/
abbrev inp0 (c : Dev nD) : Vec Ideal S30000x64 .f32 := V c main_arg0

/-- The input window's block index at point `t` is (t, 0). -/
theorem index0_0 : ∀ t : Fin cfg0.N, win0_0.index t 0 = t.val ∧ win0_0.index t 1 = 0 :=
  (by decide +kernel : ∀ t : Fin grid0.N, win0_0.index t 0 = t.val ∧ win0_0.index t 1 = 0)

/-- The input block at point `t`, at (k, q), is the input array at row `3000·t + k`. -/
theorem iblk0_apply (c : Dev nD) (t : Fin cfg0.N) (k : Fin 3000) (q : Fin 64) :
    (iblk0 V c 0 t : Vec Ideal S3000x64 .f32) (ix2 k q)
      = inp0 V c (ix2 (⟨3000 * t.val + k.val, by have := t.isLt; have hN : cfg0.N = 10 := N_0; omega⟩ : Fin 30000) q) := by
  have hi := index0_0 t
  unfold iblk0
  rw [View.read_apply]
  show V c main_arg0 _ = V c main_arg0 _
  congr 1
  funext a
  apply Fin.ext
  match a with
  | ⟨0, _⟩ => show win0_0.index t 0 * 3000 + 1 * k.val = 3000 * t.val + k.val; rw [hi.1]; omega
  | ⟨1, _⟩ => show win0_0.index t 1 * 64 + 1 * q.val = q.val; rw [hi.2]; omega

/-- Row `r` of the input array at column `q` (zero past the array). -/
def rowv0 (c : Dev nD) (q : Fin 64) (r : ℕ) : EReal :=
  if h : r < 30000 then inp0 V c (ix2 (⟨r, h⟩ : Fin 30000) q) else 0

/-- The block's column sum at point `n` is the sum of rows `3000·n … 3000·n + 2999`. -/
theorem blk_sum0 (c : Dev nD) (q : Fin 64) (n : ℕ) (h : n < cfg0.N) (g : EReal → EReal) (hg : g 0 = 0) :
    ∑ k : Fin 3000, g ((iblk0 V c 0 ⟨n, h⟩ : Vec Ideal S3000x64 .f32) (ix2 k q))
      = ∑ x ∈ Finset.range 3000, g (rowv0 V c q (3000 * n + x)) := by
  rw [Finset.sum_range]
  refine Finset.sum_congr rfl fun k _ => ?_
  have hN : cfg0.N = 10 := N_0
  rw [iblk0_apply V c ⟨n, h⟩ k q, rowv0, dif_pos (by have := k.isLt; omega)]

/-- THE COLUMN SUMS, point by point: after `n` points the accumulator at column `q` is the sum of the first `3000·n` rows. -/
theorem acc0_s_apply (c : Dev nD) (q : Fin 64) : ∀ n, n ≤ cfg0.N →
    acc0_s (F := Ideal) V c n (ix2 (0 : Fin 1) q) = ∑ r ∈ Finset.range (3000 * n), rowv0 V c q r
  | 0, _ => by
    show (k0_pay1 (F := Ideal) : Vec Ideal S1x64 .f32) (ix2 (0 : Fin 1) q) = _
    rw [pay1_apply0, Nat.mul_zero, Finset.range_zero, Finset.sum_empty]
  | n + 1, hn => by
    have h : n < cfg0.N := hn
    rw [acc0_s_succ V c ⟨n, h⟩, pay3_apply0, acc0_s_apply c q n (Nat.le_of_lt h), Nat.mul_succ, Finset.sum_range_add]
    congr 1
    exact blk_sum0 V c q n h id rfl

/-- THE COLUMN SUMS OF SQUARES, point by point. -/
theorem acc0_q_apply (c : Dev nD) (q : Fin 64) : ∀ n, n ≤ cfg0.N →
    acc0_q (F := Ideal) V c n (ix2 (0 : Fin 1) q) = ∑ r ∈ Finset.range (3000 * n), rowv0 V c q r * rowv0 V c q r
  | 0, _ => by
    show (k0_pay2 (F := Ideal) : Vec Ideal S1x64 .f32) (ix2 (0 : Fin 1) q) = _
    rw [pay2_apply0, Nat.mul_zero, Finset.range_zero, Finset.sum_empty]
  | n + 1, hn => by
    have h : n < cfg0.N := hn
    rw [acc0_q_succ V c ⟨n, h⟩, pay4_apply0, acc0_q_apply c q n (Nat.le_of_lt h), Nat.mul_succ, Finset.sum_range_add]
    congr 1
    exact blk_sum0 V c q n h (fun x => x * x) (by simp)

/-- After all 10 points: the column's sum over all 30000 rows of the input array. -/
theorem acc0_s_final (c : Dev nD) (q : Fin 64) :
    acc0_s (F := Ideal) V c cfg0.N (ix2 (0 : Fin 1) q) = ∑ r : Fin 30000, inp0 V c (ix2 r q) := by
  rw [acc0_s_apply V c q _ le_rfl, show cfg0.N = 10 from N_0, Finset.sum_fin_eq_sum_range]
  rfl

/-- After all 10 points: the column's sum of squares over all 30000 rows. -/
theorem acc0_q_final (c : Dev nD) (q : Fin 64) :
    acc0_q (F := Ideal) V c cfg0.N (ix2 (0 : Fin 1) q) = ∑ r : Fin 30000, inp0 V c (ix2 r q) * inp0 V c (ix2 r q) := by
  rw [acc0_q_apply V c q _ le_rfl, show cfg0.N = 10 from N_0, Finset.sum_fin_eq_sum_range]
  refine Finset.sum_congr rfl fun r _ => ?_
  unfold rowv0
  by_cases h : r < 30000
  · rw [dif_pos h, dif_pos h]
  · rw [dif_neg h, dif_neg h]; simp

end Reg0Val
end Cert.KernelIdeal.Hand
end
-- ==== Proof.KI.Reg2Val.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.Reg2
import Idealize.ShloMosaic.PureOps.Ideal.Laws
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Reg2Val

/-! # The accumulators of custom_call 2 at the ideal values: plain column sums

At `Ideal` the zero word denotes 0 and the lane reduction over the row axis is a finite sum, so the column-sum
accumulator after `n` points is, at column `q`, the sum of the input array's first `6000·n` rows at `q`, and the
sum-of-squares accumulator the sum of their squares; after all 50 points, the sums over all 300000 rows. -/

/-- The zero word denotes zero. -/
theorem zero_f32_2 : (Scalar.ofBits (F := Ideal) .f32 0x00000000#32 : Ideal .f32) = 0 := by
  show Ideal.ofBits .f32 0x00000000#32 = 0
  simp [Ideal.ofBits, Ideal.ieee]

/-- The rows the first store writes are zero. -/
theorem pay1_apply2 (j : S1x32.Idx) : k2_pay1 (F := Ideal) j = 0 := by
  unfold k2_pay1
  simp only [shapeCast_self, broadcast_apply, zero_f32_2]
theorem pay2_apply2 (j : S1x32.Idx) : k2_pay2 (F := Ideal) j = 0 := by
  unfold k2_pay2
  simp only [shapeCast_self, broadcast_apply, zero_f32_2]

/-- The reduced index with the row coordinate put back is the index (row, column). -/
theorem lift_eq2 (k : Fin 6000) (q : Fin 32) :
    reduces_S6000x32_S32.lift (fun a => ix2 (0 : Fin 1) q a.succ) k = ix2 k q :=
  funext fun a => Fin.ext (by
    match a with
    | ⟨0, _⟩ => rfl
    | ⟨1, _⟩ => rfl)

/-- One step of the column-sum accumulator at a column: the block's column sum is added. -/
theorem pay3_apply2 (v3 : Vec Ideal S6000x32 .f32) (v4 : Vec Ideal S1x32 .f32) (q : Fin 32) :
    k2_pay3 (F := Ideal) v3 v4 (ix2 (0 : Fin 1) q) = v4 (ix2 0 q) + ∑ k : Fin 6000, v3 (ix2 k q) := by
  unfold k2_pay3
  simp only [shapeCast_self]
  rw [addf_apply]
  congr 1
  refine (shapeCast_addUnit_apply ![32] _ _ _).trans ?_
  refine (Ideal.multiReduction_add_single _ _ _ _ _ _).trans ?_
  exact Finset.sum_congr rfl fun k _ => congrArg v3 (lift_eq2 k q)

/-- One step of the sum-of-squares accumulator at a column: the column sum of the block's squares is added. -/
theorem pay4_apply2 (v3 : Vec Ideal S6000x32 .f32) (v11 : Vec Ideal S1x32 .f32) (q : Fin 32) :
    k2_pay4 (F := Ideal) v3 v11 (ix2 (0 : Fin 1) q) = v11 (ix2 0 q) + ∑ k : Fin 6000, v3 (ix2 k q) * v3 (ix2 k q) := by
  unfold k2_pay4
  simp only [shapeCast_self]
  rw [addf_apply]
  congr 1
  refine (shapeCast_addUnit_apply ![32] _ _ _).trans ?_
  refine (Ideal.multiReduction_add_single _ _ _ _ _ _).trans ?_
  refine Finset.sum_congr rfl fun k _ => ?_
  rw [mulf_apply, lift_eq2 k q]

variable (V : (c : Dev nD) → (b : Ref sig .tc) → Buf (Elt Ideal) ((c : Thread nD τ).loc b))

/-- The input array as the region finds it, as a [300000, 32] matrix of extended reals. -/
abbrev inp2 (c : Dev nD) : Vec Ideal S300000x32 .f32 := V c main_arg2

/-- The input window's block index at point `t` is (t, 0). -/
theorem index2_0 : ∀ t : Fin cfg2.N, win2_0.index t 0 = t.val ∧ win2_0.index t 1 = 0 :=
  (by decide +kernel : ∀ t : Fin grid2.N, win2_0.index t 0 = t.val ∧ win2_0.index t 1 = 0)

/-- The input block at point `t`, at (k, q), is the input array at row `6000·t + k`. -/
theorem iblk2_apply (c : Dev nD) (t : Fin cfg2.N) (k : Fin 6000) (q : Fin 32) :
    (iblk2 V c 0 t : Vec Ideal S6000x32 .f32) (ix2 k q)
      = inp2 V c (ix2 (⟨6000 * t.val + k.val, by have := t.isLt; have hN : cfg2.N = 50 := N_2; omega⟩ : Fin 300000) q) := by
  have hi := index2_0 t
  unfold iblk2
  rw [View.read_apply]
  show V c main_arg2 _ = V c main_arg2 _
  congr 1
  funext a
  apply Fin.ext
  match a with
  | ⟨0, _⟩ => show win2_0.index t 0 * 6000 + 1 * k.val = 6000 * t.val + k.val; rw [hi.1]; omega
  | ⟨1, _⟩ => show win2_0.index t 1 * 32 + 1 * q.val = q.val; rw [hi.2]; omega

/-- Row `r` of the input array at column `q` (zero past the array). -/
def rowv2 (c : Dev nD) (q : Fin 32) (r : ℕ) : EReal :=
  if h : r < 300000 then inp2 V c (ix2 (⟨r, h⟩ : Fin 300000) q) else 0

/-- The block's column sum at point `n` is the sum of rows `6000·n … 6000·n + 5999`. -/
theorem blk_sum2 (c : Dev nD) (q : Fin 32) (n : ℕ) (h : n < cfg2.N) (g : EReal → EReal) (hg : g 0 = 0) :
    ∑ k : Fin 6000, g ((iblk2 V c 0 ⟨n, h⟩ : Vec Ideal S6000x32 .f32) (ix2 k q))
      = ∑ x ∈ Finset.range 6000, g (rowv2 V c q (6000 * n + x)) := by
  rw [Finset.sum_range]
  refine Finset.sum_congr rfl fun k _ => ?_
  have hN : cfg2.N = 50 := N_2
  rw [iblk2_apply V c ⟨n, h⟩ k q, rowv2, dif_pos (by have := k.isLt; omega)]

/-- THE COLUMN SUMS, point by point: after `n` points the accumulator at column `q` is the sum of the first `6000·n` rows. -/
theorem acc2_s_apply (c : Dev nD) (q : Fin 32) : ∀ n, n ≤ cfg2.N →
    acc2_s (F := Ideal) V c n (ix2 (0 : Fin 1) q) = ∑ r ∈ Finset.range (6000 * n), rowv2 V c q r
  | 0, _ => by
    show (k2_pay1 (F := Ideal) : Vec Ideal S1x32 .f32) (ix2 (0 : Fin 1) q) = _
    rw [pay1_apply2, Nat.mul_zero, Finset.range_zero, Finset.sum_empty]
  | n + 1, hn => by
    have h : n < cfg2.N := hn
    rw [acc2_s_succ V c ⟨n, h⟩, pay3_apply2, acc2_s_apply c q n (Nat.le_of_lt h), Nat.mul_succ, Finset.sum_range_add]
    congr 1
    exact blk_sum2 V c q n h id rfl

/-- THE COLUMN SUMS OF SQUARES, point by point. -/
theorem acc2_q_apply (c : Dev nD) (q : Fin 32) : ∀ n, n ≤ cfg2.N →
    acc2_q (F := Ideal) V c n (ix2 (0 : Fin 1) q) = ∑ r ∈ Finset.range (6000 * n), rowv2 V c q r * rowv2 V c q r
  | 0, _ => by
    show (k2_pay2 (F := Ideal) : Vec Ideal S1x32 .f32) (ix2 (0 : Fin 1) q) = _
    rw [pay2_apply2, Nat.mul_zero, Finset.range_zero, Finset.sum_empty]
  | n + 1, hn => by
    have h : n < cfg2.N := hn
    rw [acc2_q_succ V c ⟨n, h⟩, pay4_apply2, acc2_q_apply c q n (Nat.le_of_lt h), Nat.mul_succ, Finset.sum_range_add]
    congr 1
    exact blk_sum2 V c q n h (fun x => x * x) (by simp)

/-- After all 50 points: the column's sum over all 300000 rows of the input array. -/
theorem acc2_s_final (c : Dev nD) (q : Fin 32) :
    acc2_s (F := Ideal) V c cfg2.N (ix2 (0 : Fin 1) q) = ∑ r : Fin 300000, inp2 V c (ix2 r q) := by
  rw [acc2_s_apply V c q _ le_rfl, show cfg2.N = 50 from N_2, Finset.sum_fin_eq_sum_range]
  rfl

/-- After all 50 points: the column's sum of squares over all 300000 rows. -/
theorem acc2_q_final (c : Dev nD) (q : Fin 32) :
    acc2_q (F := Ideal) V c cfg2.N (ix2 (0 : Fin 1) q) = ∑ r : Fin 300000, inp2 V c (ix2 r q) * inp2 V c (ix2 r q) := by
  rw [acc2_q_apply V c q _ le_rfl, show cfg2.N = 50 from N_2, Finset.sum_fin_eq_sum_range]
  refine Finset.sum_congr rfl fun r _ => ?_
  unfold rowv2
  by_cases h : r < 300000
  · rw [dif_pos h, dif_pos h]
  · rw [dif_neg h, dif_neg h]; simp

end Reg2Val
end Cert.KernelIdeal.Hand
end
-- ==== Proof.KI.Reg4Val.lean ====
import proofs.«123839_j71768903516633_2_alg».proof.Proof.Gen.KernelIdeal.Launch
import proofs.«123839_j71768903516633_2_alg».proof.Proof.Gen.KernelIdeal.Skeleton
import proofs.«123839_j71768903516633_2_alg».proof.Proof.Gen.KernelIdeal.Points
import proofs.«123839_j71768903516633_2_alg».proof.Proof.KI.Reg4
import Idealize.ShloMosaic.PureOps.Ideal.Laws
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Reg4Val

/-! # The accumulators of custom_call 4 at the ideal values: plain column sums

At `Ideal` the zero word denotes 0 and the lane reduction over the row axis is a finite sum, so the column-sum
accumulator after `n` points is, at column `q`, the sum of the input array's first `64·n` rows at `q`, and the
sum-of-squares accumulator the sum of their squares; after all 1 points, the sums over all 64 rows. -/

/-- The zero word denotes zero. -/
theorem zero_f32_4 : (Scalar.ofBits (F := Ideal) .f32 0x00000000#32 : Ideal .f32) = 0 := by
  show Ideal.ofBits .f32 0x00000000#32 = 0
  simp [Ideal.ofBits, Ideal.ieee]

/-- The rows the first store writes are zero. -/
theorem pay1_apply4 (j : S1x32.Idx) : k4_pay1 (F := Ideal) j = 0 := by
  unfold k4_pay1
  simp only [shapeCast_self, broadcast_apply, zero_f32_4]
theorem pay2_apply4 (j : S1x32.Idx) : k4_pay2 (F := Ideal) j = 0 := by
  unfold k4_pay2
  simp only [shapeCast_self, broadcast_apply, zero_f32_4]

/-- The reduced index with the row coordinate put back is the index (row, column). -/
theorem lift_eq4 (k : Fin 64) (q : Fin 32) :
    reduces_S64x32_S32.lift (fun a => ix2 (0 : Fin 1) q a.succ) k = ix2 k q :=
  funext fun a => Fin.ext (by
    match a with
    | ⟨0, _⟩ => rfl
    | ⟨1, _⟩ => rfl)

/-- One step of the column-sum accumulator at a column: the block's column sum is added. -/
theorem pay3_apply4 (v3 : Vec Ideal S64x32 .f32) (v4 : Vec Ideal S1x32 .f32) (q : Fin 32) :
    k4_pay3 (F := Ideal) v3 v4 (ix2 (0 : Fin 1) q) = v4 (ix2 0 q) + ∑ k : Fin 64, v3 (ix2 k q) := by
  unfold k4_pay3
  simp only [shapeCast_self]
  rw [addf_apply]
  congr 1
  refine (shapeCast_addUnit_apply ![32] _ _ _).trans ?_
  refine (Ideal.multiReduction_add_single _ _ _ _ _ _).trans ?_
  exact Finset.sum_congr rfl fun k _ => congrArg v3 (lift_eq4 k q)

/-- One step of the sum-of-squares accumulator at a column: the column sum of the block's squares is added. -/
theorem pay4_apply4 (v3 : Vec Ideal S64x32 .f32) (v11 : Vec Ideal S1x32 .f32) (q : Fin 32) :
    k4_pay4 (F := Ideal) v3 v11 (ix2 (0 : Fin 1) q) = v11 (ix2 0 q) + ∑ k : Fin 64, v3 (ix2 k q) * v3 (ix2 k q) := by
  unfold k4_pay4
  simp only [shapeCast_self]
  rw [addf_apply]
  congr 1
  refine (shapeCast_addUnit_apply ![32] _ _ _).trans ?_
  refine (Ideal.multiReduction_add_single _ _ _ _ _ _).trans ?_
  refine Finset.sum_congr rfl fun k _ => ?_
  rw [mulf_apply, lift_eq4 k q]

variable (V : (c : Dev nD) → (b : Ref sig .tc) → Buf (Elt Ideal) ((c : Thread nD τ).loc b))

/-- The input array as the region finds it, as a [64, 32] matrix of extended reals. -/
abbrev inp4 (c : Dev nD) : Vec Ideal S64x32 .f32 := V c main_arg3

/-- The input window's block index at point `t` is (t, 0). -/
theorem index4_0 : ∀ t : Fin cfg4.N, win4_0.index t 0 = t.val ∧ win4_0.index t 1 = 0 :=
  (by decide +kernel : ∀ t : Fin grid4.N, win4_0.index t 0 = t.val ∧ win4_0.index t 1 = 0)

/-- The input block at point `t`, at (k, q), is the input array at row `64·t + k`. -/
theorem iblk4_apply (c : Dev nD) (t : Fin cfg4.N) (k : Fin 64) (q : Fin 32) :
    (iblk4 V c 0 t : Vec Ideal S64x32 .f32) (ix2 k q)
      = inp4 V c (ix2 (⟨64 * t.val + k.val, by have := t.isLt; have hN : cfg4.N = 1 := N_4; omega⟩ : Fin 64) q) := by
  have hi := index4_0 t
  unfold iblk4
  rw [View.read_apply]
  show V c main_arg3 _ = V c main_arg3 _
  congr 1
  funext a
  apply Fin.ext
  match a with
  | ⟨0, _⟩ => show win4_0.index t 0 * 64 + 1 * k.val = 64 * t.val + k.val; rw [hi.1]; omega
  | ⟨1, _⟩ => show win4_0.index t 1 * 32 + 1 * q.val = q.val; rw [hi.2]; omega

/-- Row `r` of the input array at column `q` (zero past the array). -/
def rowv4 (c : Dev nD) (q : Fin 32) (r : ℕ) : EReal :=
  if h : r < 64 then inp4 V c (ix2 (⟨r, h⟩ : Fin 64) q) else 0

/-- The block's column sum at point `n` is the sum of rows `64·n … 64·n + 63`. -/
theorem blk_sum4 (c : Dev nD) (q : Fin 32) (n : ℕ) (h : n < cfg4.N) (g : EReal → EReal) (hg : g 0 = 0) :
    ∑ k : Fin 64, g ((iblk4 V c 0 ⟨n, h⟩ : Vec Ideal S64x32 .f32) (ix2 k q))
      = ∑ x ∈ Finset.range 64, g (rowv4 V c q (64 * n + x)) := by
  rw [Finset.sum_range]
  refine Finset.sum_congr rfl fun k _ => ?_
  have hN : cfg4.N = 1 := N_4
  rw [iblk4_apply V c ⟨n, h⟩ k q, rowv4, dif_pos (by have := k.isLt; omega)]

/-- THE COLUMN SUMS, point by point: after `n` points the accumulator at column `q` is the sum of the first `64·n` rows. -/
theorem acc4_s_apply (c : Dev nD) (q : Fin 32) : ∀ n, n ≤ cfg4.N →
    acc4_s (F := Ideal) V c n (ix2 (0 : Fin 1) q) = ∑ r ∈ Finset.range (64 * n), rowv4 V c q r
  | 0, _ => by
    show (k4_pay1 (F := Ideal) : Vec Ideal S1x32 .f32) (ix2 (0 : Fin 1) q) = _
    rw [pay1_apply4, Nat.mul_zero, Finset.range_zero, Finset.sum_empty]
  | n + 1, hn => by
    have h : n < cfg4.N := hn
    rw [acc4_s_succ V c ⟨n, h⟩, pay3_apply4, acc4_s_apply c q n (Nat.le_of_lt h), Nat.mul_succ, Finset.sum_range_add]
    congr 1
    exact blk_sum4 V c q n h id rfl

/-- THE COLUMN SUMS OF SQUARES, point by point. -/
theorem acc4_q_apply (c : Dev nD) (q : Fin 32) : ∀ n, n ≤ cfg4.N →
    acc4_q (F := Ideal) V c n (ix2 (0 : Fin 1) q) = ∑ r ∈ Finset.range (64 * n), rowv4 V c q r * rowv4 V c q r
  | 0, _ => by
    show (k4_pay2 (F := Ideal) : Vec Ideal S1x32 .f32) (ix2 (0 : Fin 1) q) = _
    rw [pay2_apply4, Nat.mul_zero, Finset.range_zero, Finset.sum_empty]
  | n + 1, hn => by
    have h : n < cfg4.N := hn
    rw [acc4_q_succ V c ⟨n, h⟩, pay4_apply4, acc4_q_apply c q n (Nat.le_of_lt h), Nat.mul_succ, Finset.sum_range_add]
    congr 1
    exact blk_sum4 V c q n h (fun x => x * x) (by simp)

/-- After all 1 points: the column's sum over all 64 rows of the input array. -/
theorem acc4_s_final (c : Dev nD) (q : Fin 32) :
    acc4_s (F := Ideal) V c cfg4.N (ix2 (0 : Fin 1) q) = ∑ r : Fin 64, inp4 V c (ix2 r q) := by
  rw [acc4_s_apply V c q _ le_rfl, show cfg4.N = 1 from N_4, Finset.sum_fin_eq_sum_range]
  rfl

/-- After all 1 points: the column's sum of squares over all 64 rows. -/
theorem acc4_q_final (c : Dev nD) (q : Fin 32) :
    acc4_q (F := Ideal) V c cfg4.N (ix2 (0 : Fin 1) q) = ∑ r : Fin 64, inp4 V c (ix2 r q) * inp4 V c (ix2 r q) := by
  rw [acc4_q_apply V c q _ le_rfl, show cfg4.N = 1 from N_4, Finset.sum_fin_eq_sum_range]
  refine Finset.sum_congr rfl fun r _ => ?_
  unfold rowv4
  by_cases h : r < 64
  · rw [dif_pos h, dif_pos h]
  · rw [dif_neg h, dif_neg h]; simp

end Reg4Val
end Cert.KernelIdeal.Hand
end
-- ==== Proof.Lib.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.Lib.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.Lib.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«123839_j71768903516633_2_alg».proof.Proof.Lib.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.Math.BnApply.lean ====
/-
  The normalising step of a batch normalisation as one function of whole arrays, on the extended reals.

  Given an r×n array t and four 1×n rows (a mean, a variance, a scale and a shift), entry (p, q) of the result is
  scale(0,q) · (t(p,q) − mean(0,q)) · rsqrt(variance(0,q) + ε) + shift(0,q), with ε the value of a fixed
  single-precision word. Every entry depends on one entry of t, so a block of rows of the result is the
  result on that block of rows. Nothing here mentions a program.
-/
import Idealize.ShloMosaic.PureOps.Ideal.Laws
import Idealize.ShloMosaic.Lib.ValueIdx
import Idealize.ShloMosaic.Lib.Pipeline.Value
import proofs.«123839_j71768903516633_2_alg».proof.Proof.Lib.LibBlockReads
import proofs.«123839_j71768903516633_2_alg».proof.Proof.Lib.LibRowVector

noncomputable section

namespace Cert.Lib.BatchNorm

open Idealize.ShloMosaic Idealize.ShloMosaic.ValueIdx

variable {r r' n : Nat}

/-- Entry (p, q) is gamma(0,q) · (t(p,q) − mean(0,q)) · rsqrt (var(0,q) + ε) + beta(0,q). -/
def bnApply (t : (⟨2, ![r, n]⟩ : Shape).Idx → EReal) (mean var gamma beta : (⟨2, ![1, n]⟩ : Shape).Idx → EReal) :
    (⟨2, ![r, n]⟩ : Shape).Idx → EReal :=
  fun i =>
    gamma (ix2 (0 : Fin 1) (⟨(i 1).val, idx2_lt1 i⟩ : Fin n))
        * (t i - mean (ix2 (0 : Fin 1) (⟨(i 1).val, idx2_lt1 i⟩ : Fin n)))
        * Ideal.rsqrt (var (ix2 (0 : Fin 1) (⟨(i 1).val, idx2_lt1 i⟩ : Fin n)) + Ideal.ofBits .f32 0x3727C5AC#32)
      + beta (ix2 (0 : Fin 1) (⟨(i 1).val, idx2_lt1 i⟩ : Fin n))

theorem bnApply_apply (t : (⟨2, ![r, n]⟩ : Shape).Idx → EReal) (mean var gamma beta : (⟨2, ![1, n]⟩ : Shape).Idx → EReal)
    (p : Fin r) (q : Fin n) :
    bnApply t mean var gamma beta (ix2 p q)
      = gamma (ix2 0 q) * (t (ix2 p q) - mean (ix2 0 q)) * Ideal.rsqrt (var (ix2 0 q) + Ideal.ofBits .f32 0x3727C5AC#32)
        + beta (ix2 0 q) := rfl

/-- An entry depends on one entry of the array: equal entries give equal results. -/
theorem bnApply_rows (t : (⟨2, ![r, n]⟩ : Shape).Idx → EReal) (t' : (⟨2, ![r', n]⟩ : Shape).Idx → EReal)
    (mean var gamma beta : (⟨2, ![1, n]⟩ : Shape).Idx → EReal) (p' : Fin r') (p : Fin r) (q : Fin n)
    (h : t' (ix2 p' q) = t (ix2 p q)) :
    bnApply t' mean var gamma beta (ix2 p' q) = bnApply t mean var gamma beta (ix2 p q) := by
  rw [bnApply_apply, bnApply_apply, h]

/-- The rows' values matter only through their entries: equal rows give equal results. -/
theorem bnApply_congr (t : (⟨2, ![r, n]⟩ : Shape).Idx → EReal)
    (mean var gamma beta mean' var' gamma' beta' : (⟨2, ![1, n]⟩ : Shape).Idx → EReal)
    (hm : ∀ q : Fin n, mean (ix2 0 q) = mean' (ix2 0 q)) (hv : ∀ q : Fin n, var (ix2 0 q) = var' (ix2 0 q))
    (hg : ∀ q : Fin n, gamma (ix2 0 q) = gamma' (ix2 0 q)) (hb : ∀ q : Fin n, beta (ix2 0 q) = beta' (ix2 0 q)) :
    bnApply t mean var gamma beta = bnApply t mean' var' gamma' beta' := by
  funext i
  obtain ⟨p, q, rfl⟩ : ∃ (p : Fin r) (q : Fin n), i = ix2 p q := ⟨i 0, i 1, eq_ix2 i⟩
  rw [bnApply_apply, bnApply_apply, hm, hv, hg, hb]

/-- A kernel body's spelling: the four rows re-shaped in place and broadcast down the rows, the stabiliser a splat
    of its word added to the variance row before the reciprocal square root. -/
theorem body_eq (v0 : FVec Ideal ⟨2, ![r, n]⟩ .f32) (v1 v3 v5 v7 : FVec Ideal ⟨2, ![1, n]⟩ .f32)
    (hc : (⟨2, ![1, n]⟩ : Shape).ShapeCasts ⟨2, ![1, n]⟩) (hb : (⟨2, ![1, n]⟩ : Shape).Broadcasts ⟨2, ![r, n]⟩) :
    addf
        (mulf
          (mulf (broadcastTo ⟨2, ![r, n]⟩ (shapeCast ⟨2, ![1, n]⟩ v5 hc) hb)
            (subf v0 (broadcastTo ⟨2, ![r, n]⟩ (shapeCast ⟨2, ![1, n]⟩ v1 hc) hb)))
          (broadcastTo ⟨2, ![r, n]⟩
            (rsqrt (addf (shapeCast ⟨2, ![1, n]⟩ v3 hc)
              (broadcast ⟨2, ![1, n]⟩ (Scalar.ofBits (F := Ideal) .f32 0x3727C5AC#32)))) hb))
        (broadcastTo ⟨2, ![r, n]⟩ (shapeCast ⟨2, ![1, n]⟩ v7 hc) hb)
      = bnApply v0 v1 v3 v5 v7 := by
  funext i
  obtain ⟨p, q, rfl⟩ : ∃ (p : Fin r) (q : Fin n), i = ix2 p q := ⟨i 0, i 1, eq_ix2 i⟩
  rw [addf_apply, mulf_apply, mulf_apply, subf_apply, shapeCast_self, shapeCast_self, shapeCast_self, shapeCast_self,
    Cert.Lib.BlockReads.broadcast_row_apply, Cert.Lib.BlockReads.broadcast_row_apply,
    Cert.Lib.BlockReads.broadcast_row_apply, Cert.Lib.BlockReads.broadcast_row_apply]
  rfl

end Cert.Lib.BatchNorm

end
-- ==== Proof.Math.BnPayload.lean ====
/-
  The normalising kernels' stored values are the normalising step of the batch normalisation: each of the three
  bodies stores, of the block of rows and the four rows it loaded, the function `bnApply` of them.
-/
import proofs.«123839_j71768903516633_2_alg».proof.Proof.Gen.KernelIdeal.Skeleton
import proofs.«123839_j71768903516633_2_alg».proof.Proof.Math.BnApply

noncomputable section

namespace Cert.KernelIdeal.Hand

open Cert.KernelIdeal Cert.KernelIdeal.Gen
open Idealize.ShloMosaic Cert.Lib.BatchNorm

/-- The 3000×64 blocks of the node features. -/
theorem k1_pay1_eq (v0 : Vec Ideal S3000x64 .f32) (v1 v3 v5 v7 : Vec Ideal S1x64 .f32) :
    k1_pay1 (F := Ideal) v0 v1 v3 v5 v7 = bnApply v0 v1 v3 v5 v7 := by
  unfold Gen.k1_pay1
  exact body_eq v0 v1 v3 v5 v7 _ _

/-- The 6000×32 blocks of the edge features. -/
theorem k3_pay1_eq (v0 : Vec Ideal S6000x32 .f32) (v1 v3 v5 v7 : Vec Ideal S1x32 .f32) :
    k3_pay1 (F := Ideal) v0 v1 v3 v5 v7 = bnApply v0 v1 v3 v5 v7 := by
  unfold Gen.k3_pay1
  exact body_eq v0 v1 v3 v5 v7 _ _

/-- The one 64×32 block of the global features. -/
theorem k5_pay1_eq (v0 : Vec Ideal S64x32 .f32) (v1 v3 v5 v7 : Vec Ideal S1x32 .f32) :
    k5_pay1 (F := Ideal) v0 v1 v3 v5 v7 = bnApply v0 v1 v3 v5 v7 := by
  unfold Gen.k5_pay1
  exact body_eq v0 v1 v3 v5 v7 _ _

end Cert.KernelIdeal.Hand

end
-- ==== Proof.KI.Val1.lean ====
import proofs.«123839_j71768903516633_2_alg».proof.Proof.KI.Reg1
import proofs.«123839_j71768903516633_2_alg».proof.Proof.Math.BnPayload
import Idealize.ShloMosaic.Lib.Pipeline.Value
import Idealize.ShloMosaic.Lib.Tactic

/-! # Region 1: the output array after the region, on the extended reals

Every point of the grid writes back, into its block of rows of the output array, `bnApply` of the input blocks at
the point. An entry of `bnApply` depends only on its own row of the row-blocked inputs and on the whole of the
others, and a block's row `p` at point `t` is row `3000·t + p` of its array, so what point `t` writes is block `t`
of `bnApply` of the WHOLE input arrays (`flushed1_eq`). The blocks cover the output array (`cover1`), so the
array ends holding `bnApply` of the input arrays as the region found them (`value1`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.BatchNorm

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-! ## What the body leaves is `bnApply` of the loaded blocks -/

theorem out1_eq (x0 : Vec Ideal S3000x64 .f32) (x1 : Vec Ideal S1x64 .f32) (x2 : Vec Ideal S1x64 .f32) (x3 : Vec Ideal S1x64 .f32) (x4 : Vec Ideal S1x64 .f32) :
    out1_5 (F := Ideal) x0 x1 x2 x3 x4 = bnApply x0 x1 x2 x3 x4 := by
  unfold out1_5
  rw [View.canon_unit_zero hz1]
  simp only [View.ld_unit_zero (S := S3000x64) hz1, View.ld_unit_zero (S := S1x64) hz1]
  exact k1_pay1_eq _ _ _ _ _

/-! ## The index maps, decided over the grid -/

/-- The row-blocked windows are at block `t` of their rows at point `t`; every other block index is 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Block reads: an input block's entry is the array's entry at block index × block size + the coordinate -/

theorem blk1_0 (c : Dev nD) (t : Fin cfg1.N) (x : S3000x64.Idx) (i : S30000x64.Idx)
    (h0 : (i 0).val = win1_0.index t (0 : Fin 2) * 3000 + (x 0).val)
    (h1 : (i 1).val = win1_0.index t (1 : Fin 2) * 64 + (x 1).val) :
    (iblk1 V c 0 t : Vec Ideal S3000x64 .f32) x = (V c (Pipeline.arrRef spec1 0) : Vec Ideal S30000x64 .f32) i := by
  unfold iblk1
  rw [View.read_apply]
  show V c (Pipeline.arrRef spec1 0) _ = V c (Pipeline.arrRef spec1 0) _
  refine congrArg (V c (Pipeline.arrRef spec1 0) : Vec Ideal S30000x64 .f32) ?_
  funext a; apply Fin.ext
  match a with
  | ⟨0, _⟩ => show win1_0.index t (0 : Fin 2) * 3000 + 1 * (x 0).val = (i 0).val; omega
  | ⟨1, _⟩ => show win1_0.index t (1 : Fin 2) * 64 + 1 * (x 1).val = (i 1).val; omega

theorem blk1_1 (c : Dev nD) (t : Fin cfg1.N) (x : S1x64.Idx) (i : S1x64.Idx)
    (h0 : (i 0).val = win1_1.index t (0 : Fin 2) * 1 + (x 0).val)
    (h1 : (i 1).val = win1_1.index t (1 : Fin 2) * 64 + (x 1).val) :
    (iblk1 V c 1 t : Vec Ideal S1x64 .f32) x = (V c (Pipeline.arrRef spec1 1) : Vec Ideal S1x64 .f32) i := by
  unfold iblk1
  rw [View.read_apply]
  show V c (Pipeline.arrRef spec1 1) _ = V c (Pipeline.arrRef spec1 1) _
  refine congrArg (V c (Pipeline.arrRef spec1 1) : Vec Ideal S1x64 .f32) ?_
  funext a; apply Fin.ext
  match a with
  | ⟨0, _⟩ => show win1_1.index t (0 : Fin 2) * 1 + 1 * (x 0).val = (i 0).val; omega
  | ⟨1, _⟩ => show win1_1.index t (1 : Fin 2) * 64 + 1 * (x 1).val = (i 1).val; omega

theorem blk1_2 (c : Dev nD) (t : Fin cfg1.N) (x : S1x64.Idx) (i : S1x64.Idx)
    (h0 : (i 0).val = win1_2.index t (0 : Fin 2) * 1 + (x 0).val)
    (h1 : (i 1).val = win1_2.index t (1 : Fin 2) * 64 + (x 1).val) :
    (iblk1 V c 2 t : Vec Ideal S1x64 .f32) x = (V c (Pipeline.arrRef spec1 2) : Vec Ideal S1x64 .f32) i := by
  unfold iblk1
  rw [View.read_apply]
  show V c (Pipeline.arrRef spec1 2) _ = V c (Pipeline.arrRef spec1 2) _
  refine congrArg (V c (Pipeline.arrRef spec1 2) : Vec Ideal S1x64 .f32) ?_
  funext a; apply Fin.ext
  match a with
  | ⟨0, _⟩ => show win1_2.index t (0 : Fin 2) * 1 + 1 * (x 0).val = (i 0).val; omega
  | ⟨1, _⟩ => show win1_2.index t (1 : Fin 2) * 64 + 1 * (x 1).val = (i 1).val; omega

theorem blk1_3 (c : Dev nD) (t : Fin cfg1.N) (x : S1x64.Idx) (i : S1x64.Idx)
    (h0 : (i 0).val = win1_3.index t (0 : Fin 2) * 1 + (x 0).val)
    (h1 : (i 1).val = win1_3.index t (1 : Fin 2) * 64 + (x 1).val) :
    (iblk1 V c 3 t : Vec Ideal S1x64 .f32) x = (V c (Pipeline.arrRef spec1 3) : Vec Ideal S1x64 .f32) i := by
  unfold iblk1
  rw [View.read_apply]
  show V c (Pipeline.arrRef spec1 3) _ = V c (Pipeline.arrRef spec1 3) _
  refine congrArg (V c (Pipeline.arrRef spec1 3) : Vec Ideal S1x64 .f32) ?_
  funext a; apply Fin.ext
  match a with
  | ⟨0, _⟩ => show win1_3.index t (0 : Fin 2) * 1 + 1 * (x 0).val = (i 0).val; omega
  | ⟨1, _⟩ => show win1_3.index t (1 : Fin 2) * 64 + 1 * (x 1).val = (i 1).val; omega

theorem blk1_4 (c : Dev nD) (t : Fin cfg1.N) (x : S1x64.Idx) (i : S1x64.Idx)
    (h0 : (i 0).val = win1_4.index t (0 : Fin 2) * 1 + (x 0).val)
    (h1 : (i 1).val = win1_4.index t (1 : Fin 2) * 64 + (x 1).val) :
    (iblk1 V c 4 t : Vec Ideal S1x64 .f32) x = (V c (Pipeline.arrRef spec1 4) : Vec Ideal S1x64 .f32) i := by
  unfold iblk1
  rw [View.read_apply]
  show V c (Pipeline.arrRef spec1 4) _ = V c (Pipeline.arrRef spec1 4) _
  refine congrArg (V c (Pipeline.arrRef spec1 4) : Vec Ideal S1x64 .f32) ?_
  funext a; apply Fin.ext
  match a with
  | ⟨0, _⟩ => show win1_4.index t (0 : Fin 2) * 1 + 1 * (x 0).val = (i 0).val; omega
  | ⟨1, _⟩ => show win1_4.index t (1 : Fin 2) * 64 + 1 * (x 1).val = (i 1).val; omega

/-! ## One entry: `bnApply` of the blocks at a block coordinate is `bnApply` of the arrays at the array coordinate -/

theorem point1 (A0 : Vec Ideal S30000x64 .f32) (A1 : Vec Ideal S1x64 .f32) (A2 : Vec Ideal S1x64 .f32) (A3 : Vec Ideal S1x64 .f32) (A4 : Vec Ideal S1x64 .f32)
    (x0 : Vec Ideal S3000x64 .f32) (x1 : Vec Ideal S1x64 .f32) (x2 : Vec Ideal S1x64 .f32) (x3 : Vec Ideal S1x64 .f32) (x4 : Vec Ideal S1x64 .f32)
    (y : S3000x64.Idx) (i : S30000x64.Idx) (hq : (i 1).val = (y 1).val)
    (h0 : x0 (ix2 (y 0) (y 1)) = A0 (ix2 (i 0) (y 1)))
    (h1 : x1 = A1) (h2 : x2 = A2) (h3 : x3 = A3) (h4 : x4 = A4) :
    bnApply x0 x1 x2 x3 x4 y = bnApply A0 A1 A2 A3 A4 i := by
  subst h1
  subst h2
  subst h3
  subst h4
  calc bnApply x0 x1 x2 x3 x4 y = bnApply x0 x1 x2 x3 x4 (ix2 (y 0) (y 1)) := congrArg _ (eq_ix2 y)
    _ = bnApply A0 x1 x2 x3 x4 (ix2 (i 0) (y 1)) :=
        bnApply_rows A0 x0 x1 x2 x3 x4 (y 0) (i 0) (y 1) h0
    _ = bnApply A0 x1 x2 x3 x4 i := congrArg _ (by
        funext a
        match a with
        | ⟨0, _⟩ => rfl
        | ⟨1, _⟩ => exact (Fin.ext hq).symm)

/-! ## What point `t` writes back is block `t` of `bnApply` of the input arrays -/

-- stating the equation unfolds the output window's block among the region's 6 windows on its grid of 10: the larger regions need more than the default budget
set_option maxHeartbeats 4000000 in
theorem flushed1_eq (c : Dev nD) (t : Fin cfg1.N) :
    (dat1 (F := Ideal) V c).flushed 5 t = ((cfg1.win 5).blk t).view.read (Elt Ideal)
      (bnApply (V c (Pipeline.arrRef spec1 0) : Vec Ideal S30000x64 .f32) (V c (Pipeline.arrRef spec1 1) : Vec Ideal S1x64 .f32) (V c (Pipeline.arrRef spec1 2) : Vec Ideal S1x64 .f32) (V c (Pipeline.arrRef spec1 3) : Vec Ideal S1x64 .f32) (V c (Pipeline.arrRef spec1 4) : Vec Ideal S1x64 .f32)) := by
  show (cfg1.win 5).cut (grid1.coords t) ((dat1 (F := Ideal) V c).after 5 t) = _
  rw [after1_5, out1_eq (iblk1 V c 0 t) (iblk1 V c 1 t) (iblk1 V c 2 t) (iblk1 V c 3 t) (iblk1 V c 4 t)]
  obtain ⟨e0_0, e0_1, e1_0, e1_1, e2_0, e2_1, e3_0, e3_1, e4_0, e4_1, e5_0, e5_1⟩ := idx_facts1 t
  funext y
  show bnApply (iblk1 V c 0 t) (iblk1 V c 1 t) (iblk1 V c 2 t) (iblk1 V c 3 t) (iblk1 V c 4 t) y
    = bnApply (V c (Pipeline.arrRef spec1 0) : Vec Ideal S30000x64 .f32) (V c (Pipeline.arrRef spec1 1) : Vec Ideal S1x64 .f32) (V c (Pipeline.arrRef spec1 2) : Vec Ideal S1x64 .f32) (V c (Pipeline.arrRef spec1 3) : Vec Ideal S1x64 .f32) (V c (Pipeline.arrRef spec1 4) : Vec Ideal S1x64 .f32) (((cfg1.win 5).blk t).view.emb y)
  refine point1 (V c (Pipeline.arrRef spec1 0) : Vec Ideal S30000x64 .f32) (V c (Pipeline.arrRef spec1 1) : Vec Ideal S1x64 .f32) (V c (Pipeline.arrRef spec1 2) : Vec Ideal S1x64 .f32) (V c (Pipeline.arrRef spec1 3) : Vec Ideal S1x64 .f32) (V c (Pipeline.arrRef spec1 4) : Vec Ideal S1x64 .f32) (iblk1 V c 0 t) (iblk1 V c 1 t) (iblk1 V c 2 t) (iblk1 V c 3 t) (iblk1 V c 4 t) y _ ?_ ?_ ?_ ?_ ?_ ?_
  · show win1_5.index t (1 : Fin 2) * 64 + 1 * (y 1).val = (y 1).val
    omega
  · refine blk1_0 V c t _ _ ?_ ?_
    · show win1_5.index t (0 : Fin 2) * 3000 + 1 * (y 0).val = win1_0.index t (0 : Fin 2) * 3000 + (y 0).val
      omega
    · show (y 1).val = win1_0.index t (1 : Fin 2) * 64 + (y 1).val
      omega
  · funext x
    exact blk1_1 V c t x x (by omega) (by omega)
  · funext x
    exact blk1_2 V c t x x (by omega) (by omega)
  · funext x
    exact blk1_3 V c t x x (by omega) (by omega)
  · funext x
    exact blk1_4 V c t x x (by omega) (by omega)

/-! ## The blocks cover the output array -/

/-- An index of the array is in point `t`'s block iff each coordinate is in the block's range on its axis. -/
theorem mem_blk1 (t : Fin cfg1.N) (i : S30000x64.Idx) :
    i ∈ ((cfg1.win 5).blk t).view.set ↔ ∀ a : Fin 2, win1_5.index t a * S3000x64.size a ≤ (i a).val ∧ (i a).val < win1_5.index t a * S3000x64.size a + S3000x64.size a := by
  show i ∈ ((View.whole main_v15).slice (win1_5.rect t)).set ↔ _
  rw [View.set_slice_whole, Rect.mem_set_unit]
  exact Iff.rfl

/-- Row `r` of the array is in the block of point `r / 3000`, which is written back. -/
theorem cover1 (i : S30000x64.Idx) :
    ∃ t : Fin cfg1.N, (cfg1.win 5).flush t = true ∧ i ∈ ((cfg1.win 5).blk t).view.set := by
  have hi0 : (i 0).val < 30000 := (i 0).isLt
  have hi1 : (i 1).val < 64 := (i 1).isLt
  have hN : cfg1.N = 10 := N_1
  have ht : (i 0).val / 3000 < cfg1.N := by rw [hN]; omega
  obtain ⟨e0_0, e0_1, e1_0, e1_1, e2_0, e2_1, e3_0, e3_1, e4_0, e4_1, e5_0, e5_1⟩ := idx_facts1 ⟨(i 0).val / 3000, ht⟩
  have hv : (⟨(i 0).val / 3000, ht⟩ : Fin cfg1.N).val = (i 0).val / 3000 := rfl
  refine ⟨⟨(i 0).val / 3000, ht⟩, flush1_5 _, ?_⟩
  rw [mem_blk1]
  intro a
  match a with
  | ⟨0, _⟩ =>
    show win1_5.index ⟨(i 0).val / 3000, ht⟩ (0 : Fin 2) * 3000 ≤ (i 0).val ∧ (i 0).val < win1_5.index ⟨(i 0).val / 3000, ht⟩ (0 : Fin 2) * 3000 + 3000
    omega
  | ⟨1, _⟩ =>
    show win1_5.index ⟨(i 0).val / 3000, ht⟩ (1 : Fin 2) * 64 ≤ (i 1).val ∧ (i 1).val < win1_5.index ⟨(i 0).val / 3000, ht⟩ (1 : Fin 2) * 64 + 64
    omega

/-! ## The array after the region -/

set_option maxHeartbeats 4000000 in
/-- The output array after the region's run is `bnApply` of the region's input arrays as entered. -/
theorem value1 (c : Dev nD) :
    (dat1 (F := Ideal) V c).arrAt 5 cfg1.N = bnApply (V c (Pipeline.arrRef spec1 0) : Vec Ideal S30000x64 .f32) (V c (Pipeline.arrRef spec1 1) : Vec Ideal S1x64 .f32) (V c (Pipeline.arrRef spec1 2) : Vec Ideal S1x64 .f32) (V c (Pipeline.arrRef spec1 3) : Vec Ideal S1x64 .f32) (V c (Pipeline.arrRef spec1 4) : Vec Ideal S1x64 .f32) :=
  (dat1 (F := Ideal) V c).arrAt_eq_of_cover 5 (bnApply (V c (Pipeline.arrRef spec1 0) : Vec Ideal S30000x64 .f32) (V c (Pipeline.arrRef spec1 1) : Vec Ideal S1x64 .f32) (V c (Pipeline.arrRef spec1 2) : Vec Ideal S1x64 .f32) (V c (Pipeline.arrRef spec1 3) : Vec Ideal S1x64 .f32) (V c (Pipeline.arrRef spec1 4) : Vec Ideal S1x64 .f32))
    (fun t _ => flushed1_eq V c t) (cover1)

end Cert.KernelIdeal.Hand

end
-- ==== Proof.KI.Val3.lean ====
import proofs.«123839_j71768903516633_2_alg».proof.Proof.KI.Reg3
import proofs.«123839_j71768903516633_2_alg».proof.Proof.Math.BnPayload
import Idealize.ShloMosaic.Lib.Pipeline.Value
import Idealize.ShloMosaic.Lib.Tactic

/-! # Region 3: the output array after the region, on the extended reals

Every point of the grid writes back, into its block of rows of the output array, `bnApply` of the input blocks at
the point. An entry of `bnApply` depends only on its own row of the row-blocked inputs and on the whole of the
others, and a block's row `p` at point `t` is row `6000·t + p` of its array, so what point `t` writes is block `t`
of `bnApply` of the WHOLE input arrays (`flushed3_eq`). The blocks cover the output array (`cover3`), so the
array ends holding `bnApply` of the input arrays as the region found them (`value3`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.BatchNorm

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-! ## What the body leaves is `bnApply` of the loaded blocks -/

theorem out3_eq (x0 : Vec Ideal S6000x32 .f32) (x1 : Vec Ideal S1x32 .f32) (x2 : Vec Ideal S1x32 .f32) (x3 : Vec Ideal S1x32 .f32) (x4 : Vec Ideal S1x32 .f32) :
    out3_5 (F := Ideal) x0 x1 x2 x3 x4 = bnApply x0 x1 x2 x3 x4 := by
  unfold out3_5
  rw [View.canon_unit_zero hz3]
  simp only [View.ld_unit_zero (S := S6000x32) hz3, View.ld_unit_zero (S := S1x32) hz3]
  exact k3_pay1_eq _ _ _ _ _

/-! ## The index maps, decided over the grid -/

/-- The row-blocked windows are at block `t` of their rows at point `t`; every other block index is 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## Block reads: an input block's entry is the array's entry at block index × block size + the coordinate -/

theorem blk3_0 (c : Dev nD) (t : Fin cfg3.N) (x : S6000x32.Idx) (i : S300000x32.Idx)
    (h0 : (i 0).val = win3_0.index t (0 : Fin 2) * 6000 + (x 0).val)
    (h1 : (i 1).val = win3_0.index t (1 : Fin 2) * 32 + (x 1).val) :
    (iblk3 V c 0 t : Vec Ideal S6000x32 .f32) x = (V c (Pipeline.arrRef spec3 0) : Vec Ideal S300000x32 .f32) i := by
  unfold iblk3
  rw [View.read_apply]
  show V c (Pipeline.arrRef spec3 0) _ = V c (Pipeline.arrRef spec3 0) _
  refine congrArg (V c (Pipeline.arrRef spec3 0) : Vec Ideal S300000x32 .f32) ?_
  funext a; apply Fin.ext
  match a with
  | ⟨0, _⟩ => show win3_0.index t (0 : Fin 2) * 6000 + 1 * (x 0).val = (i 0).val; omega
  | ⟨1, _⟩ => show win3_0.index t (1 : Fin 2) * 32 + 1 * (x 1).val = (i 1).val; omega

theorem blk3_1 (c : Dev nD) (t : Fin cfg3.N) (x : S1x32.Idx) (i : S1x32.Idx)
    (h0 : (i 0).val = win3_1.index t (0 : Fin 2) * 1 + (x 0).val)
    (h1 : (i 1).val = win3_1.index t (1 : Fin 2) * 32 + (x 1).val) :
    (iblk3 V c 1 t : Vec Ideal S1x32 .f32) x = (V c (Pipeline.arrRef spec3 1) : Vec Ideal S1x32 .f32) i := by
  unfold iblk3
  rw [View.read_apply]
  show V c (Pipeline.arrRef spec3 1) _ = V c (Pipeline.arrRef spec3 1) _
  refine congrArg (V c (Pipeline.arrRef spec3 1) : Vec Ideal S1x32 .f32) ?_
  funext a; apply Fin.ext
  match a with
  | ⟨0, _⟩ => show win3_1.index t (0 : Fin 2) * 1 + 1 * (x 0).val = (i 0).val; omega
  | ⟨1, _⟩ => show win3_1.index t (1 : Fin 2) * 32 + 1 * (x 1).val = (i 1).val; omega

theorem blk3_2 (c : Dev nD) (t : Fin cfg3.N) (x : S1x32.Idx) (i : S1x32.Idx)
    (h0 : (i 0).val = win3_2.index t (0 : Fin 2) * 1 + (x 0).val)
    (h1 : (i 1).val = win3_2.index t (1 : Fin 2) * 32 + (x 1).val) :
    (iblk3 V c 2 t : Vec Ideal S1x32 .f32) x = (V c (Pipeline.arrRef spec3 2) : Vec Ideal S1x32 .f32) i := by
  unfold iblk3
  rw [View.read_apply]
  show V c (Pipeline.arrRef spec3 2) _ = V c (Pipeline.arrRef spec3 2) _
  refine congrArg (V c (Pipeline.arrRef spec3 2) : Vec Ideal S1x32 .f32) ?_
  funext a; apply Fin.ext
  match a with
  | ⟨0, _⟩ => show win3_2.index t (0 : Fin 2) * 1 + 1 * (x 0).val = (i 0).val; omega
  | ⟨1, _⟩ => show win3_2.index t (1 : Fin 2) * 32 + 1 * (x 1).val = (i 1).val; omega

theorem blk3_3 (c : Dev nD) (t : Fin cfg3.N) (x : S1x32.Idx) (i : S1x32.Idx)
    (h0 : (i 0).val = win3_3.index t (0 : Fin 2) * 1 + (x 0).val)
    (h1 : (i 1).val = win3_3.index t (1 : Fin 2) * 32 + (x 1).val) :
    (iblk3 V c 3 t : Vec Ideal S1x32 .f32) x = (V c (Pipeline.arrRef spec3 3) : Vec Ideal S1x32 .f32) i := by
  unfold iblk3
  rw [View.read_apply]
  show V c (Pipeline.arrRef spec3 3) _ = V c (Pipeline.arrRef spec3 3) _
  refine congrArg (V c (Pipeline.arrRef spec3 3) : Vec Ideal S1x32 .f32) ?_
  funext a; apply Fin.ext
  match a with
  | ⟨0, _⟩ => show win3_3.index t (0 : Fin 2) * 1 + 1 * (x 0).val = (i 0).val; omega
  | ⟨1, _⟩ => show win3_3.index t (1 : Fin 2) * 32 + 1 * (x 1).val = (i 1).val; omega

theorem blk3_4 (c : Dev nD) (t : Fin cfg3.N) (x : S1x32.Idx) (i : S1x32.Idx)
    (h0 : (i 0).val = win3_4.index t (0 : Fin 2) * 1 + (x 0).val)
    (h1 : (i 1).val = win3_4.index t (1 : Fin 2) * 32 + (x 1).val) :
    (iblk3 V c 4 t : Vec Ideal S1x32 .f32) x = (V c (Pipeline.arrRef spec3 4) : Vec Ideal S1x32 .f32) i := by
  unfold iblk3
  rw [View.read_apply]
  show V c (Pipeline.arrRef spec3 4) _ = V c (Pipeline.arrRef spec3 4) _
  refine congrArg (V c (Pipeline.arrRef spec3 4) : Vec Ideal S1x32 .f32) ?_
  funext a; apply Fin.ext
  match a with
  | ⟨0, _⟩ => show win3_4.index t (0 : Fin 2) * 1 + 1 * (x 0).val = (i 0).val; omega
  | ⟨1, _⟩ => show win3_4.index t (1 : Fin 2) * 32 + 1 * (x 1).val = (i 1).val; omega

/-! ## One entry: `bnApply` of the blocks at a block coordinate is `bnApply` of the arrays at the array coordinate -/

theorem point3 (A0 : Vec Ideal S300000x32 .f32) (A1 : Vec Ideal S1x32 .f32) (A2 : Vec Ideal S1x32 .f32) (A3 : Vec Ideal S1x32 .f32) (A4 : Vec Ideal S1x32 .f32)
    (x0 : Vec Ideal S6000x32 .f32) (x1 : Vec Ideal S1x32 .f32) (x2 : Vec Ideal S1x32 .f32) (x3 : Vec Ideal S1x32 .f32) (x4 : Vec Ideal S1x32 .f32)
    (y : S6000x32.Idx) (i : S300000x32.Idx) (hq : (i 1).val = (y 1).val)
    (h0 : x0 (ix2 (y 0) (y 1)) = A0 (ix2 (i 0) (y 1)))
    (h1 : x1 = A1) (h2 : x2 = A2) (h3 : x3 = A3) (h4 : x4 = A4) :
    bnApply x0 x1 x2 x3 x4 y = bnApply A0 A1 A2 A3 A4 i := by
  subst h1
  subst h2
  subst h3
  subst h4
  calc bnApply x0 x1 x2 x3 x4 y = bnApply x0 x1 x2 x3 x4 (ix2 (y 0) (y 1)) := congrArg _ (eq_ix2 y)
    _ = bnApply A0 x1 x2 x3 x4 (ix2 (i 0) (y 1)) :=
        bnApply_rows A0 x0 x1 x2 x3 x4 (y 0) (i 0) (y 1) h0
    _ = bnApply A0 x1 x2 x3 x4 i := congrArg _ (by
        funext a
        match a with
        | ⟨0, _⟩ => rfl
        | ⟨1, _⟩ => exact (Fin.ext hq).symm)

/-! ## What point `t` writes back is block `t` of `bnApply` of the input arrays -/

-- stating the equation unfolds the output window's block among the region's 6 windows on its grid of 50: the larger regions need more than the default budget
set_option maxHeartbeats 4000000 in
theorem flushed3_eq (c : Dev nD) (t : Fin cfg3.N) :
    (dat3 (F := Ideal) V c).flushed 5 t = ((cfg3.win 5).blk t).view.read (Elt Ideal)
      (bnApply (V c (Pipeline.arrRef spec3 0) : Vec Ideal S300000x32 .f32) (V c (Pipeline.arrRef spec3 1) : Vec Ideal S1x32 .f32) (V c (Pipeline.arrRef spec3 2) : Vec Ideal S1x32 .f32) (V c (Pipeline.arrRef spec3 3) : Vec Ideal S1x32 .f32) (V c (Pipeline.arrRef spec3 4) : Vec Ideal S1x32 .f32)) := by
  show (cfg3.win 5).cut (grid3.coords t) ((dat3 (F := Ideal) V c).after 5 t) = _
  rw [after3_5, out3_eq (iblk3 V c 0 t) (iblk3 V c 1 t) (iblk3 V c 2 t) (iblk3 V c 3 t) (iblk3 V c 4 t)]
  obtain ⟨e0_0, e0_1, e1_0, e1_1, e2_0, e2_1, e3_0, e3_1, e4_0, e4_1, e5_0, e5_1⟩ := idx_facts3 t
  funext y
  show bnApply (iblk3 V c 0 t) (iblk3 V c 1 t) (iblk3 V c 2 t) (iblk3 V c 3 t) (iblk3 V c 4 t) y
    = bnApply (V c (Pipeline.arrRef spec3 0) : Vec Ideal S300000x32 .f32) (V c (Pipeline.arrRef spec3 1) : Vec Ideal S1x32 .f32) (V c (Pipeline.arrRef spec3 2) : Vec Ideal S1x32 .f32) (V c (Pipeline.arrRef spec3 3) : Vec Ideal S1x32 .f32) (V c (Pipeline.arrRef spec3 4) : Vec Ideal S1x32 .f32) (((cfg3.win 5).blk t).view.emb y)
  refine point3 (V c (Pipeline.arrRef spec3 0) : Vec Ideal S300000x32 .f32) (V c (Pipeline.arrRef spec3 1) : Vec Ideal S1x32 .f32) (V c (Pipeline.arrRef spec3 2) : Vec Ideal S1x32 .f32) (V c (Pipeline.arrRef spec3 3) : Vec Ideal S1x32 .f32) (V c (Pipeline.arrRef spec3 4) : Vec Ideal S1x32 .f32) (iblk3 V c 0 t) (iblk3 V c 1 t) (iblk3 V c 2 t) (iblk3 V c 3 t) (iblk3 V c 4 t) y _ ?_ ?_ ?_ ?_ ?_ ?_
  · show win3_5.index t (1 : Fin 2) * 32 + 1 * (y 1).val = (y 1).val
    omega
  · refine blk3_0 V c t _ _ ?_ ?_
    · show win3_5.index t (0 : Fin 2) * 6000 + 1 * (y 0).val = win3_0.index t (0 : Fin 2) * 6000 + (y 0).val
      omega
    · show (y 1).val = win3_0.index t (1 : Fin 2) * 32 + (y 1).val
      omega
  · funext x
    exact blk3_1 V c t x x (by omega) (by omega)
  · funext x
    exact blk3_2 V c t x x (by omega) (by omega)
  · funext x
    exact blk3_3 V c t x x (by omega) (by omega)
  · funext x
    exact blk3_4 V c t x x (by omega) (by omega)

/-! ## The blocks cover the output array -/

/-- An index of the array is in point `t`'s block iff each coordinate is in the block's range on its axis. -/
theorem mem_blk3 (t : Fin cfg3.N) (i : S300000x32.Idx) :
    i ∈ ((cfg3.win 5).blk t).view.set ↔ ∀ a : Fin 2, win3_5.index t a * S6000x32.size a ≤ (i a).val ∧ (i a).val < win3_5.index t a * S6000x32.size a + S6000x32.size a := by
  show i ∈ ((View.whole main_v27).slice (win3_5.rect t)).set ↔ _
  rw [View.set_slice_whole, Rect.mem_set_unit]
  exact Iff.rfl

/-- Row `r` of the array is in the block of point `r / 6000`, which is written back. -/
theorem cover3 (i : S300000x32.Idx) :
    ∃ t : Fin cfg3.N, (cfg3.win 5).flush t = true ∧ i ∈ ((cfg3.win 5).blk t).view.set := by
  have hi0 : (i 0).val < 300000 := (i 0).isLt
  have hi1 : (i 1).val < 32 := (i 1).isLt
  have hN : cfg3.N = 50 := N_3
  have ht : (i 0).val / 6000 < cfg3.N := by rw [hN]; omega
  obtain ⟨e0_0, e0_1, e1_0, e1_1, e2_0, e2_1, e3_0, e3_1, e4_0, e4_1, e5_0, e5_1⟩ := idx_facts3 ⟨(i 0).val / 6000, ht⟩
  have hv : (⟨(i 0).val / 6000, ht⟩ : Fin cfg3.N).val = (i 0).val / 6000 := rfl
  refine ⟨⟨(i 0).val / 6000, ht⟩, flush3_5 _, ?_⟩
  rw [mem_blk3]
  intro a
  match a with
  | ⟨0, _⟩ =>
    show win3_5.index ⟨(i 0).val / 6000, ht⟩ (0 : Fin 2) * 6000 ≤ (i 0).val ∧ (i 0).val < win3_5.index ⟨(i 0).val / 6000, ht⟩ (0 : Fin 2) * 6000 + 6000
    omega
  | ⟨1, _⟩ =>
    show win3_5.index ⟨(i 0).val / 6000, ht⟩ (1 : Fin 2) * 32 ≤ (i 1).val ∧ (i 1).val < win3_5.index ⟨(i 0).val / 6000, ht⟩ (1 : Fin 2) * 32 + 32
    omega

/-! ## The array after the region -/

set_option maxHeartbeats 4000000 in
/-- The output array after the region's run is `bnApply` of the region's input arrays as entered. -/
theorem value3 (c : Dev nD) :
    (dat3 (F := Ideal) V c).arrAt 5 cfg3.N = bnApply (V c (Pipeline.arrRef spec3 0) : Vec Ideal S300000x32 .f32) (V c (Pipeline.arrRef spec3 1) : Vec Ideal S1x32 .f32) (V c (Pipeline.arrRef spec3 2) : Vec Ideal S1x32 .f32) (V c (Pipeline.arrRef spec3 3) : Vec Ideal S1x32 .f32) (V c (Pipeline.arrRef spec3 4) : Vec Ideal S1x32 .f32) :=
  (dat3 (F := Ideal) V c).arrAt_eq_of_cover 5 (bnApply (V c (Pipeline.arrRef spec3 0) : Vec Ideal S300000x32 .f32) (V c (Pipeline.arrRef spec3 1) : Vec Ideal S1x32 .f32) (V c (Pipeline.arrRef spec3 2) : Vec Ideal S1x32 .f32) (V c (Pipeline.arrRef spec3 3) : Vec Ideal S1x32 .f32) (V c (Pipeline.arrRef spec3 4) : Vec Ideal S1x32 .f32))
    (fun t _ => flushed3_eq V c t) (cover3)

end Cert.KernelIdeal.Hand

end
-- ==== Proof.KI.Val5.lean ====
import proofs.«123839_j71768903516633_2_alg».proof.Proof.KI.Reg5
import proofs.«123839_j71768903516633_2_alg».proof.Proof.Math.BnPayload
import Idealize.ShloMosaic.Lib.Pipeline.Value
import Idealize.ShloMosaic.Lib.Tactic

/-! # Region 5: the output array after the region, on the extended reals

Every point of the grid writes back, into its block of rows of the output array, `bnApply` of the input blocks at
the point. An entry of `bnApply` depends only on its own row of the row-blocked inputs and on the whole of the
others, and a block's row `p` at point `t` is row `64·t + p` of its array, so what point `t` writes is block `t`
of `bnApply` of the WHOLE input arrays (`flushed5_eq`). The blocks cover the output array (`cover5`), so the
array ends holding `bnApply` of the input arrays as the region found them (`value5`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.BatchNorm

-- the TensorCore's buffer contents when the region is entered
variable (V : (c : Dev nD) → (b : Ref sig .tc) → Buf (Elt Ideal) ((c : Thread nD τ).loc b))

theorem hz5 : (![0, 0] : Fin 2 → Nat) = fun _ => 0 := funext fun a => by fin_cases a <;> rfl

/-! ## What the body leaves is `bnApply` of the loaded blocks -/

theorem out5_eq (x0 : Vec Ideal S64x32 .f32) (x1 : Vec Ideal S1x32 .f32) (x2 : Vec Ideal S1x32 .f32) (x3 : Vec Ideal S1x32 .f32) (x4 : Vec Ideal S1x32 .f32) :
    out5_5 (F := Ideal) x0 x1 x2 x3 x4 = bnApply x0 x1 x2 x3 x4 := by
  unfold out5_5
  rw [View.canon_unit_zero hz5]
  simp only [View.ld_unit_zero (S := S64x32) hz5, View.ld_unit_zero (S := S1x32) hz5]
  exact k5_pay1_eq _ _ _ _ _

/-! ## The index maps, decided over the grid -/

/-- The row-blocked windows are at block `t` of their rows at point `t`; every other block index is 0. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-! ## Block reads: an input block's entry is the array's entry at block index × block size + the coordinate -/

theorem blk5_0 (c : Dev nD) (t : Fin cfg5.N) (x : S64x32.Idx) (i : S64x32.Idx)
    (h0 : (i 0).val = win5_0.index t (0 : Fin 2) * 64 + (x 0).val)
    (h1 : (i 1).val = win5_0.index t (1 : Fin 2) * 32 + (x 1).val) :
    (iblk5 V c 0 t : Vec Ideal S64x32 .f32) x = (V c (Pipeline.arrRef spec5 0) : Vec Ideal S64x32 .f32) i := by
  unfold iblk5
  rw [View.read_apply]
  show V c (Pipeline.arrRef spec5 0) _ = V c (Pipeline.arrRef spec5 0) _
  refine congrArg (V c (Pipeline.arrRef spec5 0) : Vec Ideal S64x32 .f32) ?_
  funext a; apply Fin.ext
  match a with
  | ⟨0, _⟩ => show win5_0.index t (0 : Fin 2) * 64 + 1 * (x 0).val = (i 0).val; omega
  | ⟨1, _⟩ => show win5_0.index t (1 : Fin 2) * 32 + 1 * (x 1).val = (i 1).val; omega

theorem blk5_1 (c : Dev nD) (t : Fin cfg5.N) (x : S1x32.Idx) (i : S1x32.Idx)
    (h0 : (i 0).val = win5_1.index t (0 : Fin 2) * 1 + (x 0).val)
    (h1 : (i 1).val = win5_1.index t (1 : Fin 2) * 32 + (x 1).val) :
    (iblk5 V c 1 t : Vec Ideal S1x32 .f32) x = (V c (Pipeline.arrRef spec5 1) : Vec Ideal S1x32 .f32) i := by
  unfold iblk5
  rw [View.read_apply]
  show V c (Pipeline.arrRef spec5 1) _ = V c (Pipeline.arrRef spec5 1) _
  refine congrArg (V c (Pipeline.arrRef spec5 1) : Vec Ideal S1x32 .f32) ?_
  funext a; apply Fin.ext
  match a with
  | ⟨0, _⟩ => show win5_1.index t (0 : Fin 2) * 1 + 1 * (x 0).val = (i 0).val; omega
  | ⟨1, _⟩ => show win5_1.index t (1 : Fin 2) * 32 + 1 * (x 1).val = (i 1).val; omega

theorem blk5_2 (c : Dev nD) (t : Fin cfg5.N) (x : S1x32.Idx) (i : S1x32.Idx)
    (h0 : (i 0).val = win5_2.index t (0 : Fin 2) * 1 + (x 0).val)
    (h1 : (i 1).val = win5_2.index t (1 : Fin 2) * 32 + (x 1).val) :
    (iblk5 V c 2 t : Vec Ideal S1x32 .f32) x = (V c (Pipeline.arrRef spec5 2) : Vec Ideal S1x32 .f32) i := by
  unfold iblk5
  rw [View.read_apply]
  show V c (Pipeline.arrRef spec5 2) _ = V c (Pipeline.arrRef spec5 2) _
  refine congrArg (V c (Pipeline.arrRef spec5 2) : Vec Ideal S1x32 .f32) ?_
  funext a; apply Fin.ext
  match a with
  | ⟨0, _⟩ => show win5_2.index t (0 : Fin 2) * 1 + 1 * (x 0).val = (i 0).val; omega
  | ⟨1, _⟩ => show win5_2.index t (1 : Fin 2) * 32 + 1 * (x 1).val = (i 1).val; omega

theorem blk5_3 (c : Dev nD) (t : Fin cfg5.N) (x : S1x32.Idx) (i : S1x32.Idx)
    (h0 : (i 0).val = win5_3.index t (0 : Fin 2) * 1 + (x 0).val)
    (h1 : (i 1).val = win5_3.index t (1 : Fin 2) * 32 + (x 1).val) :
    (iblk5 V c 3 t : Vec Ideal S1x32 .f32) x = (V c (Pipeline.arrRef spec5 3) : Vec Ideal S1x32 .f32) i := by
  unfold iblk5
  rw [View.read_apply]
  show V c (Pipeline.arrRef spec5 3) _ = V c (Pipeline.arrRef spec5 3) _
  refine congrArg (V c (Pipeline.arrRef spec5 3) : Vec Ideal S1x32 .f32) ?_
  funext a; apply Fin.ext
  match a with
  | ⟨0, _⟩ => show win5_3.index t (0 : Fin 2) * 1 + 1 * (x 0).val = (i 0).val; omega
  | ⟨1, _⟩ => show win5_3.index t (1 : Fin 2) * 32 + 1 * (x 1).val = (i 1).val; omega

theorem blk5_4 (c : Dev nD) (t : Fin cfg5.N) (x : S1x32.Idx) (i : S1x32.Idx)
    (h0 : (i 0).val = win5_4.index t (0 : Fin 2) * 1 + (x 0).val)
    (h1 : (i 1).val = win5_4.index t (1 : Fin 2) * 32 + (x 1).val) :
    (iblk5 V c 4 t : Vec Ideal S1x32 .f32) x = (V c (Pipeline.arrRef spec5 4) : Vec Ideal S1x32 .f32) i := by
  unfold iblk5
  rw [View.read_apply]
  show V c (Pipeline.arrRef spec5 4) _ = V c (Pipeline.arrRef spec5 4) _
  refine congrArg (V c (Pipeline.arrRef spec5 4) : Vec Ideal S1x32 .f32) ?_
  funext a; apply Fin.ext
  match a with
  | ⟨0, _⟩ => show win5_4.index t (0 : Fin 2) * 1 + 1 * (x 0).val = (i 0).val; omega
  | ⟨1, _⟩ => show win5_4.index t (1 : Fin 2) * 32 + 1 * (x 1).val = (i 1).val; omega

/-! ## One entry: `bnApply` of the blocks at a block coordinate is `bnApply` of the arrays at the array coordinate -/

theorem point5 (A0 : Vec Ideal S64x32 .f32) (A1 : Vec Ideal S1x32 .f32) (A2 : Vec Ideal S1x32 .f32) (A3 : Vec Ideal S1x32 .f32) (A4 : Vec Ideal S1x32 .f32)
    (x0 : Vec Ideal S64x32 .f32) (x1 : Vec Ideal S1x32 .f32) (x2 : Vec Ideal S1x32 .f32) (x3 : Vec Ideal S1x32 .f32) (x4 : Vec Ideal S1x32 .f32)
    (y : S64x32.Idx) (i : S64x32.Idx) (hq : (i 1).val = (y 1).val)
    (h0 : x0 (ix2 (y 0) (y 1)) = A0 (ix2 (i 0) (y 1)))
    (h1 : x1 = A1) (h2 : x2 = A2) (h3 : x3 = A3) (h4 : x4 = A4) :
    bnApply x0 x1 x2 x3 x4 y = bnApply A0 A1 A2 A3 A4 i := by
  subst h1
  subst h2
  subst h3
  subst h4
  calc bnApply x0 x1 x2 x3 x4 y = bnApply x0 x1 x2 x3 x4 (ix2 (y 0) (y 1)) := congrArg _ (eq_ix2 y)
    _ = bnApply A0 x1 x2 x3 x4 (ix2 (i 0) (y 1)) :=
        bnApply_rows A0 x0 x1 x2 x3 x4 (y 0) (i 0) (y 1) h0
    _ = bnApply A0 x1 x2 x3 x4 i := congrArg _ (by
        funext a
        match a with
        | ⟨0, _⟩ => rfl
        | ⟨1, _⟩ => exact (Fin.ext hq).symm)

/-! ## What point `t` writes back is block `t` of `bnApply` of the input arrays -/

-- stating the equation unfolds the output window's block among the region's 6 windows on its grid of 1: the larger regions need more than the default budget
set_option maxHeartbeats 4000000 in
theorem flushed5_eq (c : Dev nD) (t : Fin cfg5.N) :
    (dat5 (F := Ideal) V c).flushed 5 t = ((cfg5.win 5).blk t).view.read (Elt Ideal)
      (bnApply (V c (Pipeline.arrRef spec5 0) : Vec Ideal S64x32 .f32) (V c (Pipeline.arrRef spec5 1) : Vec Ideal S1x32 .f32) (V c (Pipeline.arrRef spec5 2) : Vec Ideal S1x32 .f32) (V c (Pipeline.arrRef spec5 3) : Vec Ideal S1x32 .f32) (V c (Pipeline.arrRef spec5 4) : Vec Ideal S1x32 .f32)) := by
  show (cfg5.win 5).cut (grid5.coords t) ((dat5 (F := Ideal) V c).after 5 t) = _
  rw [after5_5, out5_eq (iblk5 V c 0 t) (iblk5 V c 1 t) (iblk5 V c 2 t) (iblk5 V c 3 t) (iblk5 V c 4 t)]
  obtain ⟨e0_0, e0_1, e1_0, e1_1, e2_0, e2_1, e3_0, e3_1, e4_0, e4_1, e5_0, e5_1⟩ := idx_facts5 t
  funext y
  show bnApply (iblk5 V c 0 t) (iblk5 V c 1 t) (iblk5 V c 2 t) (iblk5 V c 3 t) (iblk5 V c 4 t) y
    = bnApply (V c (Pipeline.arrRef spec5 0) : Vec Ideal S64x32 .f32) (V c (Pipeline.arrRef spec5 1) : Vec Ideal S1x32 .f32) (V c (Pipeline.arrRef spec5 2) : Vec Ideal S1x32 .f32) (V c (Pipeline.arrRef spec5 3) : Vec Ideal S1x32 .f32) (V c (Pipeline.arrRef spec5 4) : Vec Ideal S1x32 .f32) (((cfg5.win 5).blk t).view.emb y)
  refine point5 (V c (Pipeline.arrRef spec5 0) : Vec Ideal S64x32 .f32) (V c (Pipeline.arrRef spec5 1) : Vec Ideal S1x32 .f32) (V c (Pipeline.arrRef spec5 2) : Vec Ideal S1x32 .f32) (V c (Pipeline.arrRef spec5 3) : Vec Ideal S1x32 .f32) (V c (Pipeline.arrRef spec5 4) : Vec Ideal S1x32 .f32) (iblk5 V c 0 t) (iblk5 V c 1 t) (iblk5 V c 2 t) (iblk5 V c 3 t) (iblk5 V c 4 t) y _ ?_ ?_ ?_ ?_ ?_ ?_
  · show win5_5.index t (1 : Fin 2) * 32 + 1 * (y 1).val = (y 1).val
    omega
  · refine blk5_0 V c t _ _ ?_ ?_
    · show win5_5.index t (0 : Fin 2) * 64 + 1 * (y 0).val = win5_0.index t (0 : Fin 2) * 64 + (y 0).val
      omega
    · show (y 1).val = win5_0.index t (1 : Fin 2) * 32 + (y 1).val
      omega
  · funext x
    exact blk5_1 V c t x x (by omega) (by omega)
  · funext x
    exact blk5_2 V c t x x (by omega) (by omega)
  · funext x
    exact blk5_3 V c t x x (by omega) (by omega)
  · funext x
    exact blk5_4 V c t x x (by omega) (by omega)

/-! ## The blocks cover the output array -/

/-- An index of the array is in point `t`'s block iff each coordinate is in the block's range on its axis. -/
theorem mem_blk5 (t : Fin cfg5.N) (i : S64x32.Idx) :
    i ∈ ((cfg5.win 5).blk t).view.set ↔ ∀ a : Fin 2, win5_5.index t a * S64x32.size a ≤ (i a).val ∧ (i a).val < win5_5.index t a * S64x32.size a + S64x32.size a := by
  show i ∈ ((View.whole main_v39).slice (win5_5.rect t)).set ↔ _
  rw [View.set_slice_whole, Rect.mem_set_unit]
  exact Iff.rfl

/-- Row `r` of the array is in the block of point `r / 64`, which is written back. -/
theorem cover5 (i : S64x32.Idx) :
    ∃ t : Fin cfg5.N, (cfg5.win 5).flush t = true ∧ i ∈ ((cfg5.win 5).blk t).view.set := by
  have hi0 : (i 0).val < 64 := (i 0).isLt
  have hi1 : (i 1).val < 32 := (i 1).isLt
  have hN : cfg5.N = 1 := N_5
  have ht : (i 0).val / 64 < cfg5.N := by rw [hN]; omega
  obtain ⟨e0_0, e0_1, e1_0, e1_1, e2_0, e2_1, e3_0, e3_1, e4_0, e4_1, e5_0, e5_1⟩ := idx_facts5 ⟨(i 0).val / 64, ht⟩
  have hv : (⟨(i 0).val / 64, ht⟩ : Fin cfg5.N).val = (i 0).val / 64 := rfl
  refine ⟨⟨(i 0).val / 64, ht⟩, flush5_5 _, ?_⟩
  rw [mem_blk5]
  intro a
  match a with
  | ⟨0, _⟩ =>
    show win5_5.index ⟨(i 0).val / 64, ht⟩ (0 : Fin 2) * 64 ≤ (i 0).val ∧ (i 0).val < win5_5.index ⟨(i 0).val / 64, ht⟩ (0 : Fin 2) * 64 + 64
    omega
  | ⟨1, _⟩ =>
    show win5_5.index ⟨(i 0).val / 64, ht⟩ (1 : Fin 2) * 32 ≤ (i 1).val ∧ (i 1).val < win5_5.index ⟨(i 0).val / 64, ht⟩ (1 : Fin 2) * 32 + 32
    omega

/-! ## The array after the region -/

set_option maxHeartbeats 4000000 in
/-- The output array after the region's run is `bnApply` of the region's input arrays as entered. -/
theorem value5 (c : Dev nD) :
    (dat5 (F := Ideal) V c).arrAt 5 cfg5.N = bnApply (V c (Pipeline.arrRef spec5 0) : Vec Ideal S64x32 .f32) (V c (Pipeline.arrRef spec5 1) : Vec Ideal S1x32 .f32) (V c (Pipeline.arrRef spec5 2) : Vec Ideal S1x32 .f32) (V c (Pipeline.arrRef spec5 3) : Vec Ideal S1x32 .f32) (V c (Pipeline.arrRef spec5 4) : Vec Ideal S1x32 .f32) :=
  (dat5 (F := Ideal) V c).arrAt_eq_of_cover 5 (bnApply (V c (Pipeline.arrRef spec5 0) : Vec Ideal S64x32 .f32) (V c (Pipeline.arrRef spec5 1) : Vec Ideal S1x32 .f32) (V c (Pipeline.arrRef spec5 2) : Vec Ideal S1x32 .f32) (V c (Pipeline.arrRef spec5 3) : Vec Ideal S1x32 .f32) (V c (Pipeline.arrRef spec5 4) : Vec Ideal S1x32 .f32))
    (fun t _ => flushed5_eq V c t) (cover5)

end Cert.KernelIdeal.Hand

end
-- ==== Proof.Math.BnLaw.lean ====
/-
  The batch normalisation's two spellings of the column statistics agree on finite columns.

  For a column of R real numbers x, with S = Σ x and Q = Σ x², one program computes the mean S / R
  and the variance max (Q / R - (S / R)²) 0; the other the mean (0 + S) / R and the variance
  (0 + Σ (x - mean)²) / (R - 0). Over the reals Q / R - (S / R)² = Σ (x - S / R)² / R, which is a
  sum of squares over a positive number and so not negative: the maximum with zero changes nothing.
  On the extended reals the same holds once every entry is known to be a real, by pushing the
  coercion out of the sums, products and differences.
-/
import Idealize.ShloMosaic.PureOps.Ideal.Laws
import Idealize.ShloMosaic.Lib.IdealHost

namespace Cert.Lib.BatchNorm

open Idealize.ShloMosaic
open scoped BigOperators

/-- A finite sum of reals read in the extended reals is the sum of the terms read there. -/
theorem coe_sum {ι : Type} (s : Finset ι) (y : ι → ℝ) :
    ((∑ r ∈ s, y r : ℝ) : EReal) = ∑ r ∈ s, (y r : EReal) := by
  classical
  induction s using Finset.induction_on with
  | empty => simp
  | insert a s ha ih => rw [Finset.sum_insert ha, Finset.sum_insert ha, EReal.coe_add, ih]

/-- The variance identity over the reals: the mean of the squares less the square of the mean is the
    mean of the squared deviations, when `n` is the number of terms. -/
theorem real_var {ι : Type} [Fintype ι] (y : ι → ℝ) (n : ℝ) (hn : n = (Fintype.card ι : ℝ)) (hpos : 0 < n) :
    (∑ r, y r * y r) * (1 / n) - (∑ r, y r) * (1 / n) * ((∑ r, y r) * (1 / n))
      = (∑ r, (y r - (∑ r, y r) * (1 / n)) * (y r - (∑ r, y r) * (1 / n))) * (1 / n) := by
  have hne : n ≠ 0 := ne_of_gt hpos
  generalize hm : (∑ r, y r) * (1 / n) = m
  have hS : ∑ r, y r = m * n := by rw [← hm]; field_simp
  have h1 : ∀ r, (y r - m) * (y r - m) = y r * y r - 2 * m * y r + m * m := fun r => by ring
  simp_rw [h1]
  rw [Finset.sum_add_distrib, Finset.sum_sub_distrib, ← Finset.mul_sum, Finset.sum_const, Finset.card_univ,
    nsmul_eq_mul, ← hn, hS]
  field_simp; ring

/-- The mean of the squared deviations is not negative. -/
theorem real_var_nonneg {ι : Type} [Fintype ι] (y : ι → ℝ) (m n : ℝ) (hpos : 0 < n) :
    0 ≤ (∑ r, (y r - m) * (y r - m)) * (1 / n) :=
  mul_nonneg (Finset.sum_nonneg fun r _ => mul_self_nonneg _) (by positivity)

variable {ι : Type} [Fintype ι]

/-- The two means agree: a sum from the initial value zero is the sum. -/
theorem mean_agree (x : ι → EReal) (N : EReal) :
    Ideal.div (∑ r, x r) N = Ideal.div (0 + ∑ r, x r) N := by rw [zero_add]

/-- The two variances agree on a column of reals. -/
theorem var_agree (x : ι → EReal) (hx : ∀ r, ∃ y : ℝ, x r = (y : EReal)) (N : EReal) (n : ℝ)
    (hN : N = (n : EReal)) (hn : n = (Fintype.card ι : ℝ)) (hpos : 0 < n) :
    max (Ideal.div (∑ r, x r * x r) N - Ideal.div (∑ r, x r) N * Ideal.div (∑ r, x r) N) 0
      = Ideal.div (0 + ∑ r, (x r - Ideal.div (0 + ∑ r, x r) N) * (x r - Ideal.div (0 + ∑ r, x r) N)) (N - 0) := by
  choose y hy using hx
  have hx' : x = fun r => (y r : EReal) := funext hy
  have hne : n ≠ 0 := ne_of_gt hpos
  subst hx' hN
  simp only [zero_add, sub_zero, Ideal.div_coe hne, ← EReal.coe_mul, ← coe_sum, ← EReal.coe_sub]
  rw [real_var y n hn hpos]
  exact max_eq_left (EReal.coe_nonneg.mpr (real_var_nonneg y _ n hpos))

/-- One entry of the normalised array: the two programs' formulas agree on a column of reals,
    whatever the scale, the shift and the stabiliser are. -/
theorem bn_entry (x : ι → EReal) (hx : ∀ r, ∃ y : ℝ, x r = (y : EReal)) (N : EReal) (n : ℝ)
    (hN : N = (n : EReal)) (hn : n = (Fintype.card ι : ℝ)) (hpos : 0 < n) (g b eps : EReal) (r : ι) :
    g * (x r - Ideal.div (∑ r, x r) N)
        * Ideal.rsqrt (max (Ideal.div (∑ r, x r * x r) N - Ideal.div (∑ r, x r) N * Ideal.div (∑ r, x r) N) 0 + eps) + b
      = g * (x r - Ideal.div (0 + ∑ r, x r) N)
        * Ideal.rsqrt (Ideal.div (0 + ∑ r, (x r - Ideal.div (0 + ∑ r, x r) N) * (x r - Ideal.div (0 + ∑ r, x r) N)) (N - 0) + eps) + b := by
  rw [var_agree x hx N n hN hn hpos, ← mean_agree x N]

end Cert.Lib.BatchNorm
-- ==== Proof.Math.BnHost.lean ====
/-
  The batch normalisation of an r×n array on the host, in two spellings, and their agreement on finite inputs.

  One program is handed the column sums s and the column sums of squares sq (two 1×n rows), forms the mean row
  s / R and the variance row max (sq / R − mean · mean) 0 on the host, and normalises with them (`bnApply`).
  The other computes everything from the array: the mean vector (0 + Σ t) / R, the variance vector
  (0 + Σ (t − mean)²) / (R − 0) kept where R − 0 > 0 (it is), and the normalised array with every vector made a
  row and then repeated down the rows. Here R is the value of a single-precision word equal to the number of rows.
  When every entry of t is a real the two arrays are equal.
-/
import proofs.«123839_j71768903516633_2_alg».proof.Proof.Math.BnLaw
import proofs.«123839_j71768903516633_2_alg».proof.Proof.Math.BnApply
import proofs.«123839_j71768903516633_2_alg».proof.Proof.Lib.LibRowReductions

open scoped BigOperators

noncomputable section

namespace Cert.Lib.BatchNorm

open Idealize.ShloMosaic Idealize.ShloMosaic.ValueIdx Cert.Lib.RowVector

variable {r n : Nat}

/-! ## A column sum on the host -/

/-- The index a column's coordinate k lifts to. -/
theorem lift_col (h : (⟨2, ![r, n]⟩ : Shape).Reduces [0] ⟨1, ![n]⟩) (q : Fin n)
    (k : Fin ((⟨2, ![r, n]⟩ : Shape).size 0)) : h.lift (ix1 q) k = ix2 (⟨k.val, k.isLt⟩ : Fin r) q := by
  funext ax; apply Fin.ext
  match ax with
  | ⟨0, _⟩ => rfl
  | ⟨1, _⟩ => rfl

/-- The host's sum over the rows, at column q: the initial value plus the sum of the column's entries. -/
theorem host_colsum_apply {u : Shape} (x : FVec Ideal ⟨2, ![r, n]⟩ .f32) (init : u.Idx → Ideal .f32)
    (h' : (⟨2, ![r, n]⟩ : Shape).ReducesTo [0] ⟨1, ![n]⟩) (hu : 0 < u.numel) (q : Fin n) :
    Host.reduceAdd (F := Ideal) x init h' hu (ix1 q) = init (Shape.Idx.first hu) + ∑ k : Fin r, x (ix2 k q) := by
  have h : (⟨2, ![r, n]⟩ : Shape).Reduces [0] ⟨1, ![n]⟩ := ⟨h'.1, Nat.one_pos, h'.2⟩
  rw [hostReduceAdd_apply, Ideal.hostReduceAdd_single h' h]
  exact congrArg _ (Finset.sum_congr rfl fun k _ => congrArg x (lift_col h q k))

/-! ## The host terms of the program that is handed the sums -/

/-- A row divided by the row count: s / R. -/
def rowOverCount (N : BitVec 32) (hb : (⟨0, ![]⟩ : Shape).BroadcastsInDim ⟨2, ![1, n]⟩ ![])
    (s : FVec Ideal ⟨2, ![1, n]⟩ .f32) : FVec Ideal ⟨2, ![1, n]⟩ .f32 :=
  Host.divf (F := Ideal) s (broadcastInDim ⟨2, ![1, n]⟩ ![] hb (constant (F := Ideal) ⟨0, ![]⟩ .f32 N))

/-- The variance row: max (sq / R − mean · mean) 0. -/
def varRow (N : BitVec 32) (hb : (⟨0, ![]⟩ : Shape).BroadcastsInDim ⟨2, ![1, n]⟩ ![])
    (s sq : FVec Ideal ⟨2, ![1, n]⟩ .f32) : FVec Ideal ⟨2, ![1, n]⟩ .f32 :=
  maximumf (subf (rowOverCount N hb sq) (mulf (rowOverCount N hb s) (rowOverCount N hb s)))
    (broadcastInDim ⟨2, ![1, n]⟩ ![] hb (constant (F := Ideal) ⟨0, ![]⟩ .f32 0x00000000#32))

theorem rowOverCount_apply (N : BitVec 32) (hb : (⟨0, ![]⟩ : Shape).BroadcastsInDim ⟨2, ![1, n]⟩ ![])
    (s : FVec Ideal ⟨2, ![1, n]⟩ .f32) (q : Fin n) :
    rowOverCount N hb s (ix2 0 q) = Ideal.div (s (ix2 0 q)) (Ideal.ofBits .f32 N) := by
  unfold rowOverCount
  rw [hostDivf_apply, bcastInDim_scalar_apply]; rfl

theorem varRow_apply (N : BitVec 32) (hb : (⟨0, ![]⟩ : Shape).BroadcastsInDim ⟨2, ![1, n]⟩ ![])
    (s sq : FVec Ideal ⟨2, ![1, n]⟩ .f32) (q : Fin n) :
    varRow N hb s sq (ix2 0 q)
      = max (Ideal.div (sq (ix2 0 q)) (Ideal.ofBits .f32 N)
              - Ideal.div (s (ix2 0 q)) (Ideal.ofBits .f32 N) * Ideal.div (s (ix2 0 q)) (Ideal.ofBits .f32 N)) 0 := by
  unfold varRow
  rw [maximumf_apply, subf_apply, mulf_apply, rowOverCount_apply, rowOverCount_apply, bcastInDim_scalar_apply,
    constant_apply, Ideal.ofBits_zero_f32]

/-! ## The host terms of the program that computes everything from the array -/

section Reference

variable (N : BitVec 32)
  (hR : (⟨2, ![r, n]⟩ : Shape).ReducesTo [0] ⟨1, ![n]⟩) (hS : 0 < (⟨0, ![]⟩ : Shape).numel)
  (b0 : (⟨0, ![]⟩ : Shape).BroadcastsInDim ⟨1, ![n]⟩ ![])
  (b1 : (⟨1, ![n]⟩ : Shape).BroadcastsInDim ⟨2, ![1, n]⟩ ![1])
  (b01 : (⟨0, ![]⟩ : Shape).BroadcastsInDim ⟨2, ![1, n]⟩ ![])
  (b2 : (⟨2, ![1, n]⟩ : Shape).BroadcastsInDim ⟨2, ![r, n]⟩ ![0, 1])

/-- The mean vector: (0 + Σ t) / R. -/
def meanVec (t : FVec Ideal ⟨2, ![r, n]⟩ .f32) : FVec Ideal ⟨1, ![n]⟩ .f32 :=
  Host.divf (F := Ideal)
    (Host.reduceAdd (F := Ideal) t (constant (F := Ideal) ⟨0, ![]⟩ .f32 0x00000000#32) hR hS)
    (broadcastInDim ⟨1, ![n]⟩ ![] b0 (constant (F := Ideal) ⟨0, ![]⟩ .f32 N))

/-- The row count less the degrees of freedom taken off, a scalar: R − 0. -/
def countLess : FVec Ideal ⟨0, ![]⟩ .f32 :=
  subf (constant (F := Ideal) ⟨0, ![]⟩ .f32 N) (sitofp (F := Ideal) .f32 (constantI ⟨0, ![]⟩ 32 0#32))

/-- The deviations from the mean row, squared. -/
def sqDev (t : FVec Ideal ⟨2, ![r, n]⟩ .f32) : FVec Ideal ⟨2, ![r, n]⟩ .f32 :=
  mulf
    (subf t (broadcastInDim ⟨2, ![r, n]⟩ ![0, 1] b2
      (Host.divf (F := Ideal)
        (broadcastInDim ⟨2, ![1, n]⟩ ![1] b1
          (Host.reduceAdd (F := Ideal) t (constant (F := Ideal) ⟨0, ![]⟩ .f32 0x00000000#32) hR hS))
        (broadcastInDim ⟨2, ![1, n]⟩ ![] b01 (constant (F := Ideal) ⟨0, ![]⟩ .f32 N)))))
    (subf t (broadcastInDim ⟨2, ![r, n]⟩ ![0, 1] b2
      (Host.divf (F := Ideal)
        (broadcastInDim ⟨2, ![1, n]⟩ ![1] b1
          (Host.reduceAdd (F := Ideal) t (constant (F := Ideal) ⟨0, ![]⟩ .f32 0x00000000#32) hR hS))
        (broadcastInDim ⟨2, ![1, n]⟩ ![] b01 (constant (F := Ideal) ⟨0, ![]⟩ .f32 N)))))

/-- The variance vector: (0 + Σ (t − mean)²) / (R − 0) where R − 0 > 0, the value of a fixed word elsewhere. -/
def varVec (t : FVec Ideal ⟨2, ![r, n]⟩ .f32) : FVec Ideal ⟨1, ![n]⟩ .f32 :=
  select
    (broadcastInDim ⟨1, ![n]⟩ ![] b0
      (cmpf (F := Ideal) .ogt (countLess N) (constant (F := Ideal) ⟨0, ![]⟩ .f32 0x00000000#32)))
    (Host.divf (F := Ideal)
      (Host.reduceAdd (F := Ideal) (sqDev N hR hS b1 b01 b2 t)
        (constant (F := Ideal) ⟨0, ![]⟩ .f32 0x00000000#32) hR hS)
      (broadcastInDim ⟨1, ![n]⟩ ![] b0 (countLess N)))
    (broadcastInDim ⟨1, ![n]⟩ ![] b0 (id (constant (F := Ideal) ⟨0, ![]⟩ .f32 0x7FC00000#32)))

/-- The normalised array: every vector made a row, the row repeated down the rows. -/
def bnHost (t : FVec Ideal ⟨2, ![r, n]⟩ .f32) (gamma beta : FVec Ideal ⟨1, ![n]⟩ .f32) :
    FVec Ideal ⟨2, ![r, n]⟩ .f32 :=
  addf
    (mulf
      (mulf
        (broadcastInDim ⟨2, ![r, n]⟩ ![0, 1] b2 (broadcastInDim ⟨2, ![1, n]⟩ ![1] b1 gamma))
        (subf t (broadcastInDim ⟨2, ![r, n]⟩ ![0, 1] b2
          (broadcastInDim ⟨2, ![1, n]⟩ ![1] b1 (meanVec N hR hS b0 t)))))
      (broadcastInDim ⟨2, ![r, n]⟩ ![0, 1] b2 (broadcastInDim ⟨2, ![1, n]⟩ ![1] b1
        (Host.rsqrt (F := Ideal)
          (addf (varVec N hR hS b0 b1 b01 b2 t)
            (broadcastInDim ⟨1, ![n]⟩ ![] b0 (constant (F := Ideal) ⟨0, ![]⟩ .f32 0x3727C5AC#32)))))))
    (broadcastInDim ⟨2, ![r, n]⟩ ![0, 1] b2 (broadcastInDim ⟨2, ![1, n]⟩ ![1] b1 beta))

theorem meanVec_apply (t : FVec Ideal ⟨2, ![r, n]⟩ .f32) (q : Fin n) :
    meanVec N hR hS b0 t (ix1 q) = Ideal.div (0 + ∑ k : Fin r, t (ix2 k q)) (Ideal.ofBits .f32 N) := by
  unfold meanVec
  rw [hostDivf_apply, host_colsum_apply, bcastInDim_scalar_apply, constant_apply, constant_apply,
    Ideal.ofBits_zero_f32]

theorem countLess_apply (i : (⟨0, ![]⟩ : Shape).Idx) : countLess N i = Ideal.ofBits .f32 N - 0 := by
  unfold countLess
  rw [subf_apply, constant_apply, sitofp_apply, constantI_apply]
  show Ideal.ofBits .f32 N - (((0#32 : BitVec 32).toInt : ℝ) : EReal) = _
  simp

theorem sqDev_apply (t : FVec Ideal ⟨2, ![r, n]⟩ .f32) (p : Fin r) (q : Fin n) :
    sqDev N hR hS b1 b01 b2 t (ix2 p q)
      = (t (ix2 p q) - Ideal.div (0 + ∑ k : Fin r, t (ix2 k q)) (Ideal.ofBits .f32 N))
        * (t (ix2 p q) - Ideal.div (0 + ∑ k : Fin r, t (ix2 k q)) (Ideal.ofBits .f32 N)) := by
  unfold sqDev
  rw [mulf_apply, subf_apply, bcastInDim_rows_apply, hostDivf_apply, bcastInDim_eq_asRow, asRow_apply,
    host_colsum_apply, bcastInDim_scalar_apply, constant_apply, constant_apply, Ideal.ofBits_zero_f32]

theorem varVec_apply (t : FVec Ideal ⟨2, ![r, n]⟩ .f32) (q : Fin n)
    (hpos : (0 : EReal) < Ideal.ofBits .f32 N - 0) :
    varVec N hR hS b0 b1 b01 b2 t (ix1 q)
      = Ideal.div
          (0 + ∑ k : Fin r,
            (t (ix2 k q) - Ideal.div (0 + ∑ k : Fin r, t (ix2 k q)) (Ideal.ofBits .f32 N))
              * (t (ix2 k q) - Ideal.div (0 + ∑ k : Fin r, t (ix2 k q)) (Ideal.ofBits .f32 N)))
          (Ideal.ofBits .f32 N - 0) := by
  have hc : Ideal.cmp .ogt (Ideal.ofBits .f32 N - 0) 0 = 1#1 := by
    show BitVec.ofBool (decide ((0 : EReal) < Ideal.ofBits .f32 N - 0)) = 1#1
    rw [decide_eq_true hpos]; rfl
  unfold varVec
  rw [select_apply, bcastInDim_scalar_apply, cmpf_apply, Ideal.cmpf_def, countLess_apply, constant_apply,
    Ideal.ofBits_zero_f32, hc, select_one, hostDivf_apply, host_colsum_apply, bcastInDim_scalar_apply,
    countLess_apply, constant_apply, Ideal.ofBits_zero_f32]
  simp only [sqDev_apply]

theorem bnHost_apply (t : FVec Ideal ⟨2, ![r, n]⟩ .f32) (gamma beta : FVec Ideal ⟨1, ![n]⟩ .f32)
    (p : Fin r) (q : Fin n) :
    bnHost N hR hS b0 b1 b01 b2 t gamma beta (ix2 p q)
      = gamma (ix1 q) * (t (ix2 p q) - meanVec N hR hS b0 t (ix1 q))
          * Ideal.rsqrt (varVec N hR hS b0 b1 b01 b2 t (ix1 q) + Ideal.ofBits .f32 0x3727C5AC#32)
        + beta (ix1 q) := by
  unfold bnHost
  rw [addf_apply, mulf_apply, mulf_apply, subf_apply]
  rw [bcastInDim_rows_apply, bcastInDim_rows_apply, bcastInDim_rows_apply, bcastInDim_rows_apply,
    bcastInDim_eq_asRow, bcastInDim_eq_asRow, bcastInDim_eq_asRow, bcastInDim_eq_asRow,
    asRow_apply, asRow_apply, asRow_apply, asRow_apply]
  rfl

/-- The two programs' normalised arrays are equal when every entry of the array is a real, the first program's two
    rows are the column sums and the column sums of squares, its scale and shift rows are the vectors as rows, and the
    row-count word's value is the number of rows. -/
theorem bnApply_eq_bnHost (nn : ℝ) (hN : Ideal.ofBits .f32 N = (nn : EReal)) (hn : nn = (r : ℝ)) (hpos : 0 < nn)
    (hb : (⟨0, ![]⟩ : Shape).BroadcastsInDim ⟨2, ![1, n]⟩ ![])
    (t : FVec Ideal ⟨2, ![r, n]⟩ .f32) (ht : ∀ (p : Fin r) (q : Fin n), ∃ y : ℝ, t (ix2 p q) = (y : EReal))
    (gamma beta : FVec Ideal ⟨1, ![n]⟩ .f32) (s sq g2 be2 : FVec Ideal ⟨2, ![1, n]⟩ .f32)
    (hs : ∀ q : Fin n, s (ix2 0 q) = ∑ k : Fin r, t (ix2 k q))
    (hsq : ∀ q : Fin n, sq (ix2 0 q) = ∑ k : Fin r, t (ix2 k q) * t (ix2 k q))
    (hg : ∀ q : Fin n, g2 (ix2 0 q) = gamma (ix1 q)) (hbe : ∀ q : Fin n, be2 (ix2 0 q) = beta (ix1 q)) :
    bnApply t (rowOverCount N hb s) (varRow N hb s sq) g2 be2 = bnHost N hR hS b0 b1 b01 b2 t gamma beta := by
  have hpos' : (0 : EReal) < Ideal.ofBits .f32 N - 0 := by
    rw [hN, sub_zero]; exact EReal.coe_pos.mpr hpos
  funext i
  obtain ⟨p, q, rfl⟩ : ∃ (p : Fin r) (q : Fin n), i = ix2 p q := ⟨i 0, i 1, eq_ix2 i⟩
  rw [bnApply_apply, bnHost_apply, rowOverCount_apply, varRow_apply, meanVec_apply,
    varVec_apply N hR hS b0 b1 b01 b2 t q hpos', hs, hsq, hg, hbe]
  exact bn_entry (fun k => t (ix2 k q)) (fun k => ht k q) (Ideal.ofBits .f32 N) nn hN
    (by rw [Fintype.card_fin]; exact hn) hpos _ _ _ p

end Reference

/-! ## The three row counts -/

theorem ofBits_30000 : Ideal.ofBits .f32 0x46EA6000#32 = ((30000 : ℝ) : EReal) := by
  simp [Ideal.ofBits, Ideal.ieee, -EReal.coe_mul]; norm_num

theorem ofBits_300000 : Ideal.ofBits .f32 0x48927C00#32 = ((300000 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

/-! ## The three arrays of this network -/

/-- The node features: 30000 rows of 64. -/
theorem bn_x
    (hR : (⟨2, ![30000, 64]⟩ : Shape).ReducesTo [0] ⟨1, ![64]⟩) (hS : 0 < (⟨0, ![]⟩ : Shape).numel)
    (b0 : (⟨0, ![]⟩ : Shape).BroadcastsInDim ⟨1, ![64]⟩ ![])
    (b1 : (⟨1, ![64]⟩ : Shape).BroadcastsInDim ⟨2, ![1, 64]⟩ ![1])
    (b01 : (⟨0, ![]⟩ : Shape).BroadcastsInDim ⟨2, ![1, 64]⟩ ![])
    (b2 : (⟨2, ![1, 64]⟩ : Shape).BroadcastsInDim ⟨2, ![30000, 64]⟩ ![0, 1])
    (hb : (⟨0, ![]⟩ : Shape).BroadcastsInDim ⟨2, ![1, 64]⟩ ![])
    (t : FVec Ideal ⟨2, ![30000, 64]⟩ .f32)
    (ht : ∀ (p : Fin 30000) (q : Fin 64), ∃ y : ℝ, t (ix2 p q) = (y : EReal))
    (gamma beta : FVec Ideal ⟨1, ![64]⟩ .f32) (s sq g2 be2 : FVec Ideal ⟨2, ![1, 64]⟩ .f32)
    (hs : ∀ q : Fin 64, s (ix2 0 q) = ∑ k : Fin 30000, t (ix2 k q))
    (hsq : ∀ q : Fin 64, sq (ix2 0 q) = ∑ k : Fin 30000, t (ix2 k q) * t (ix2 k q))
    (hg : ∀ q : Fin 64, g2 (ix2 0 q) = gamma (ix1 q)) (hbe : ∀ q : Fin 64, be2 (ix2 0 q) = beta (ix1 q)) :
    bnApply t (rowOverCount 0x46EA6000#32 hb s) (varRow 0x46EA6000#32 hb s sq) g2 be2
      = bnHost 0x46EA6000#32 hR hS b0 b1 b01 b2 t gamma beta :=
  bnApply_eq_bnHost 0x46EA6000#32 hR hS b0 b1 b01 b2 30000 ofBits_30000 (by norm_num) (by norm_num) hb t ht gamma beta s sq g2 be2
    hs hsq hg hbe

/-- The edge features: 300000 rows of 32. -/
theorem bn_e
    (hR : (⟨2, ![300000, 32]⟩ : Shape).ReducesTo [0] ⟨1, ![32]⟩) (hS : 0 < (⟨0, ![]⟩ : Shape).numel)
    (b0 : (⟨0, ![]⟩ : Shape).BroadcastsInDim ⟨1, ![32]⟩ ![])
    (b1 : (⟨1, ![32]⟩ : Shape).BroadcastsInDim ⟨2, ![1, 32]⟩ ![1])
    (b01 : (⟨0, ![]⟩ : Shape).BroadcastsInDim ⟨2, ![1, 32]⟩ ![])
    (b2 : (⟨2, ![1, 32]⟩ : Shape).BroadcastsInDim ⟨2, ![300000, 32]⟩ ![0, 1])
    (hb : (⟨0, ![]⟩ : Shape).BroadcastsInDim ⟨2, ![1, 32]⟩ ![])
    (t : FVec Ideal ⟨2, ![300000, 32]⟩ .f32)
    (ht : ∀ (p : Fin 300000) (q : Fin 32), ∃ y : ℝ, t (ix2 p q) = (y : EReal))
    (gamma beta : FVec Ideal ⟨1, ![32]⟩ .f32) (s sq g2 be2 : FVec Ideal ⟨2, ![1, 32]⟩ .f32)
    (hs : ∀ q : Fin 32, s (ix2 0 q) = ∑ k : Fin 300000, t (ix2 k q))
    (hsq : ∀ q : Fin 32, sq (ix2 0 q) = ∑ k : Fin 300000, t (ix2 k q) * t (ix2 k q))
    (hg : ∀ q : Fin 32, g2 (ix2 0 q) = gamma (ix1 q)) (hbe : ∀ q : Fin 32, be2 (ix2 0 q) = beta (ix1 q)) :
    bnApply t (rowOverCount 0x48927C00#32 hb s) (varRow 0x48927C00#32 hb s sq) g2 be2
      = bnHost 0x48927C00#32 hR hS b0 b1 b01 b2 t gamma beta :=
  bnApply_eq_bnHost 0x48927C00#32 hR hS b0 b1 b01 b2 300000 ofBits_300000 (by norm_num) (by norm_num) hb t ht gamma beta s sq g2 be2
    hs hsq hg hbe

/-- The global features: 64 rows of 32. -/
theorem bn_u
    (hR : (⟨2, ![64, 32]⟩ : Shape).ReducesTo [0] ⟨1, ![32]⟩) (hS : 0 < (⟨0, ![]⟩ : Shape).numel)
    (b0 : (⟨0, ![]⟩ : Shape).BroadcastsInDim ⟨1, ![32]⟩ ![])
    (b1 : (⟨1, ![32]⟩ : Shape).BroadcastsInDim ⟨2, ![1, 32]⟩ ![1])
    (b01 : (⟨0, ![]⟩ : Shape).BroadcastsInDim ⟨2, ![1, 32]⟩ ![])
    (b2 : (⟨2, ![1, 32]⟩ : Shape).BroadcastsInDim ⟨2, ![64, 32]⟩ ![0, 1])
    (hb : (⟨0, ![]⟩ : Shape).BroadcastsInDim ⟨2, ![1, 32]⟩ ![])
    (t : FVec Ideal ⟨2, ![64, 32]⟩ .f32)
    (ht : ∀ (p : Fin 64) (q : Fin 32), ∃ y : ℝ, t (ix2 p q) = (y : EReal))
    (gamma beta : FVec Ideal ⟨1, ![32]⟩ .f32) (s sq g2 be2 : FVec Ideal ⟨2, ![1, 32]⟩ .f32)
    (hs : ∀ q : Fin 32, s (ix2 0 q) = ∑ k : Fin 64, t (ix2 k q))
    (hsq : ∀ q : Fin 32, sq (ix2 0 q) = ∑ k : Fin 64, t (ix2 k q) * t (ix2 k q))
    (hg : ∀ q : Fin 32, g2 (ix2 0 q) = gamma (ix1 q)) (hbe : ∀ q : Fin 32, be2 (ix2 0 q) = beta (ix1 q)) :
    bnApply t (rowOverCount 0x42800000#32 hb s) (varRow 0x42800000#32 hb s sq) g2 be2
      = bnHost 0x42800000#32 hR hS b0 b1 b01 b2 t gamma beta :=
  bnApply_eq_bnHost 0x42800000#32 hR hS b0 b1 b01 b2 64 ofBits_64 (by norm_num) (by norm_num) hb t ht gamma beta s sq g2 be2
    hs hsq hg hbe

end Cert.Lib.BatchNorm

end
-- ==== Proof.KI.AnchorBn.lean ====
import proofs.«123839_j71768903516633_2_alg».proof.Proof.KI.Stage
import proofs.«123839_j71768903516633_2_alg».proof.Proof.KI.Reg0Arr
import proofs.«123839_j71768903516633_2_alg».proof.Proof.KI.Reg2Arr
import proofs.«123839_j71768903516633_2_alg».proof.Proof.KI.Reg4Arr
import proofs.«123839_j71768903516633_2_alg».proof.Proof.KI.Reg0Val
import proofs.«123839_j71768903516633_2_alg».proof.Proof.KI.Reg2Val
import proofs.«123839_j71768903516633_2_alg».proof.Proof.KI.Reg4Val
import proofs.«123839_j71768903516633_2_alg».proof.Proof.KI.Val1
import proofs.«123839_j71768903516633_2_alg».proof.Proof.KI.Val3
import proofs.«123839_j71768903516633_2_alg».proof.Proof.KI.Val5
import proofs.«123839_j71768903516633_2_alg».proof.Proof.Math.BnApply
import proofs.«123839_j71768903516633_2_alg».proof.Proof.Math.BnHost

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Cert.Lib.BatchNorm
open scoped BigOperators

-- the launch memory, at the ideal values
variable (m : (ℓ : Loc nD τ sig) → Buf (Elt Ideal) ℓ)

/-! # The three batch normalisations of the kernel program, at the ideal values

Each input (node features x, edge features e, global features u) is normalised by two regions: the first leaves
the column sums and the column sums of squares of the input in two [1, C] arrays; host operations turn them into a
mean row and a variance row; the second applies the normalisation. Here: what the two sum arrays hold, as plain
sums over the launch contents of the input, and the normalised array as `bnApply` of the launch contents, the mean
and variance rows spelt over the sum arrays, and the re-shaped scale and shift vectors. -/

/-! ## x: the column sums -/

/-- The launch contents of the input, as a [30000, 64] matrix of extended reals. -/
abbrev in_x (c : Dev nD) : FVec Ideal ⟨2, ![30000, 64]⟩ .f32 := U0 m c main_arg0
/-- The column-sum array and the sum-of-squares array after region 0, as [1, 64] rows of extended reals. -/
abbrev sum_x (c : Dev nD) : FVec Ideal ⟨2, ![1, 64]⟩ .f32 := U2 m c main_v4_0
abbrev sq_x (c : Dev nD) : FVec Ideal ⟨2, ![1, 64]⟩ .f32 := U2 m c main_v4_1

set_option maxRecDepth 100000 in
/-- The column-sum array after region 0: at column `q`, the sum of the launch input's column `q`. -/
theorem sums_x_s (c : Dev nD) (q : Fin 64) :
    sum_x m c (ix2 0 q) = ∑ k : Fin 30000, in_x m c (ix2 k q) := by
  have e : sum_x m c = acc0_s (U1 m) c cfg0.N :=
    (hF0 m c 1).symm.trans (arr0_1 (U1 m) c)
  refine (congrFun e (ix2 0 q)).trans ((acc0_s_final (U1 m) c q).trans ?_)
  exact Finset.sum_congr rfl fun k _ => congrFun (in0_0 m c) (ix2 k q)

set_option maxRecDepth 100000 in
/-- The sum-of-squares array after region 0: at column `q`, the sum of the squares of the launch input's column `q`. -/
theorem sums_x_q (c : Dev nD) (q : Fin 64) :
    sq_x m c (ix2 0 q) = ∑ k : Fin 30000, in_x m c (ix2 k q) * in_x m c (ix2 k q) := by
  have e : sq_x m c = acc0_q (U1 m) c cfg0.N :=
    (hF0 m c 2).symm.trans (arr0_2 (U1 m) c)
  refine (congrFun e (ix2 0 q)).trans ((acc0_q_final (U1 m) c q).trans ?_)
  refine Finset.sum_congr rfl fun k _ => ?_
  have h : inp0 (U1 m) c (ix2 k q) = in_x m c (ix2 k q) := congrFun (in0_0 m c) (ix2 k q)
  rw [h]

/-! ## x: the normalised array -/

set_option maxRecDepth 100000 in
/-- The normalised array after region 1: `bnApply` of the launch input, the mean row (sum over count), the
    variance row (mean of squares less the squared mean, floored at zero) and the re-shaped scale and shift. -/
theorem anchor_x (c : Dev nD) :
    U4 m c main_v15
      = bnApply (in_x m c) (rowOverCount 0x46EA6000#32 bcast_S_S1x64 (sum_x m c))
          (varRow 0x46EA6000#32 bcast_S_S1x64 (sum_x m c) (sq_x m c))
          (shapeCast S1x64 (U0 m c main_arg5) shapeCasts_S64_S1x64) (shapeCast S1x64 (U0 m c main_arg6) shapeCasts_S64_S1x64) := by
  refine ((hF1 m c 5).symm.trans ((value1 (U3 m) c).trans ?_))
  show bnApply (U3 m c main_arg0) (U3 m c main_v6) (U3 m c main_v12) (U3 m c main_v13) (U3 m c main_v14) = _
  rw [in1_0 m c, in1_1 m c, in1_2 m c, in1_3 m c, in1_4 m c]
  rfl

/-! ## e: the column sums -/

/-- The launch contents of the input, as a [300000, 32] matrix of extended reals. -/
abbrev in_e (c : Dev nD) : FVec Ideal ⟨2, ![300000, 32]⟩ .f32 := U0 m c main_arg2
/-- The column-sum array and the sum-of-squares array after region 2, as [1, 32] rows of extended reals. -/
abbrev sum_e (c : Dev nD) : FVec Ideal ⟨2, ![1, 32]⟩ .f32 := U5 m c main_v16_0
abbrev sq_e (c : Dev nD) : FVec Ideal ⟨2, ![1, 32]⟩ .f32 := U5 m c main_v16_1

set_option maxRecDepth 100000 in
/-- The column-sum array after region 2: at column `q`, the sum of the launch input's column `q`. -/
theorem sums_e_s (c : Dev nD) (q : Fin 32) :
    sum_e m c (ix2 0 q) = ∑ k : Fin 300000, in_e m c (ix2 k q) := by
  have e : sum_e m c = acc2_s (U4 m) c cfg2.N :=
    (hF2 m c 1).symm.trans (arr2_1 (U4 m) c)
  refine (congrFun e (ix2 0 q)).trans ((acc2_s_final (U4 m) c q).trans ?_)
  exact Finset.sum_congr rfl fun k _ => congrFun (in2_0 m c) (ix2 k q)

set_option maxRecDepth 100000 in
/-- The sum-of-squares array after region 2: at column `q`, the sum of the squares of the launch input's column `q`. -/
theorem sums_e_q (c : Dev nD) (q : Fin 32) :
    sq_e m c (ix2 0 q) = ∑ k : Fin 300000, in_e m c (ix2 k q) * in_e m c (ix2 k q) := by
  have e : sq_e m c = acc2_q (U4 m) c cfg2.N :=
    (hF2 m c 2).symm.trans (arr2_2 (U4 m) c)
  refine (congrFun e (ix2 0 q)).trans ((acc2_q_final (U4 m) c q).trans ?_)
  refine Finset.sum_congr rfl fun k _ => ?_
  have h : inp2 (U4 m) c (ix2 k q) = in_e m c (ix2 k q) := congrFun (in2_0 m c) (ix2 k q)
  rw [h]

/-! ## e: the normalised array -/

set_option maxRecDepth 100000 in
/-- The normalised array after region 3: `bnApply` of the launch input, the mean row (sum over count), the
    variance row (mean of squares less the squared mean, floored at zero) and the re-shaped scale and shift. -/
theorem anchor_e (c : Dev nD) :
    U7 m c main_v27
      = bnApply (in_e m c) (rowOverCount 0x48927C00#32 bcast_S_S1x32 (sum_e m c))
          (varRow 0x48927C00#32 bcast_S_S1x32 (sum_e m c) (sq_e m c))
          (shapeCast S1x32 (U0 m c main_arg7) shapeCasts_S32_S1x32) (shapeCast S1x32 (U0 m c main_arg8) shapeCasts_S32_S1x32) := by
  refine ((hF3 m c 5).symm.trans ((value3 (U6 m) c).trans ?_))
  show bnApply (U6 m c main_arg2) (U6 m c main_v18) (U6 m c main_v24) (U6 m c main_v25) (U6 m c main_v26) = _
  rw [in3_0 m c, in3_1 m c, in3_2 m c, in3_3 m c, in3_4 m c]
  rfl

/-! ## u: the column sums -/

/-- The launch contents of the input, as a [64, 32] matrix of extended reals. -/
abbrev in_u (c : Dev nD) : FVec Ideal ⟨2, ![64, 32]⟩ .f32 := U0 m c main_arg3
/-- The column-sum array and the sum-of-squares array after region 4, as [1, 32] rows of extended reals. -/
abbrev sum_u (c : Dev nD) : FVec Ideal ⟨2, ![1, 32]⟩ .f32 := U8 m c main_v28_0
abbrev sq_u (c : Dev nD) : FVec Ideal ⟨2, ![1, 32]⟩ .f32 := U8 m c main_v28_1

set_option maxRecDepth 100000 in
/-- The column-sum array after region 4: at column `q`, the sum of the launch input's column `q`. -/
theorem sums_u_s (c : Dev nD) (q : Fin 32) :
    sum_u m c (ix2 0 q) = ∑ k : Fin 64, in_u m c (ix2 k q) := by
  have e : sum_u m c = acc4_s (U7 m) c cfg4.N :=
    (hF4 m c 1).symm.trans (arr4_1 (U7 m) c)
  refine (congrFun e (ix2 0 q)).trans ((acc4_s_final (U7 m) c q).trans ?_)
  exact Finset.sum_congr rfl fun k _ => congrFun (in4_0 m c) (ix2 k q)

set_option maxRecDepth 100000 in
/-- The sum-of-squares array after region 4: at column `q`, the sum of the squares of the launch input's column `q`. -/
theorem sums_u_q (c : Dev nD) (q : Fin 32) :
    sq_u m c (ix2 0 q) = ∑ k : Fin 64, in_u m c (ix2 k q) * in_u m c (ix2 k q) := by
  have e : sq_u m c = acc4_q (U7 m) c cfg4.N :=
    (hF4 m c 2).symm.trans (arr4_2 (U7 m) c)
  refine (congrFun e (ix2 0 q)).trans ((acc4_q_final (U7 m) c q).trans ?_)
  refine Finset.sum_congr rfl fun k _ => ?_
  have h : inp4 (U7 m) c (ix2 k q) = in_u m c (ix2 k q) := congrFun (in4_0 m c) (ix2 k q)
  rw [h]

/-! ## u: the normalised array -/

set_option maxRecDepth 100000 in
/-- The normalised array after region 5: `bnApply` of the launch input, the mean row (sum over count), the
    variance row (mean of squares less the squared mean, floored at zero) and the re-shaped scale and shift. -/
theorem anchor_u (c : Dev nD) :
    U10 m c main_v39
      = bnApply (in_u m c) (rowOverCount 0x42800000#32 bcast_S_S1x32 (sum_u m c))
          (varRow 0x42800000#32 bcast_S_S1x32 (sum_u m c) (sq_u m c))
          (shapeCast S1x32 (U0 m c main_arg9) shapeCasts_S32_S1x32) (shapeCast S1x32 (U0 m c main_arg10) shapeCasts_S32_S1x32) := by
  refine ((hF5 m c 5).symm.trans ((value5 (U9 m) c).trans ?_))
  show bnApply (U9 m c main_arg3) (U9 m c main_v30) (U9 m c main_v36) (U9 m c main_v37) (U9 m c main_v38) = _
  rw [in5_0 m c, in5_1 m c, in5_2 m c, in5_3 m c, in5_4 m c]
  rfl

end Cert.KernelIdeal.Hand
end
-- ==== Proof.Ref.Writes.lean ====
-- written by: gen_ref.js <unit directory>
/- Every operation of the reference program's @main writes exactly one buffer, the k-th operation the k-th buffer of the
   list of written buffers: the six windows' lists in order. -/
import proofs.«123839_j71768903516633_2_alg».proof.Proof.Ref.Run
import proofs.«123839_j71768903516633_2_alg».proof.Proof.Lib.LibSingleAssignment

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem writes0 : Writes (ops0 : List (HloOp τ sig (Elt F))) ops0_W := by
  unfold Writes; repeat' (first | exact List.Forall₂.nil | refine List.Forall₂.cons ?_ ?_ | rfl)
theorem writes1 : Writes (ops1 : List (HloOp τ sig (Elt F))) ops1_W := by
  unfold Writes; repeat' (first | exact List.Forall₂.nil | refine List.Forall₂.cons ?_ ?_ | rfl)
theorem writes2 : Writes (ops2 : List (HloOp τ sig (Elt F))) ops2_W := by
  unfold Writes; repeat' (first | exact List.Forall₂.nil | refine List.Forall₂.cons ?_ ?_ | rfl)
theorem writes3 : Writes (ops3 : List (HloOp τ sig (Elt F))) ops3_W := by
  unfold Writes; repeat' (first | exact List.Forall₂.nil | refine List.Forall₂.cons ?_ ?_ | rfl)
theorem writes4 : Writes (ops4 : List (HloOp τ sig (Elt F))) ops4_W := by
  unfold Writes; repeat' (first | exact List.Forall₂.nil | refine List.Forall₂.cons ?_ ?_ | rfl)
theorem writes5 : Writes (ops5 : List (HloOp τ sig (Elt F))) ops5_W := by
  unfold Writes; repeat' (first | exact List.Forall₂.nil | refine List.Forall₂.cons ?_ ?_ | rfl)

/-- The buffers @main's 433 operations write, in program order. -/
abbrev opsW : List (Ref sig .tc) := ops0_W ++ (ops1_W ++ (ops2_W ++ (ops3_W ++ (ops4_W ++ ops5_W))))

theorem writes_all : Writes (ops (F := F)) opsW :=
  writes0.append (writes1.append (writes2.append (writes3.append (writes4.append writes5))))

end Cert.ReferenceIdeal.Hand

end
-- ==== Proof.Lib.LibSingleAssignmentNary.lean ====
/-
  SINGLE ASSIGNMENT, the operation over a family of operands (a concatenation): in a straight line in which every
  buffer is written once and nothing is read before it is written, the result buffer of an operation over the
  operands `xs 0, …, xs (k-1)` holds, at the end, the operation's function of the FINAL contents of those operands —
  none of them is written again, and neither is the result. Same shape as the one-, two- and three-operand statements
  it sits beside; the side conditions are memberships in literal lists of references. Program-free.
-/
import proofs.«123839_j71768903516633_2_alg».proof.Proof.Lib.LibSingleAssignment

namespace Cert.Lib.SingleAssignment

open Idealize.ShloMosaic Idealize.ShloMosaic.StableHlo

variable {τ : Topo} {sig : RefSig} {Val : EltTy → Type}

section Read

variable {l t : List (HloOp τ sig Val)} {Wl Wt : List (Ref sig .tc)}

/-- An operation over a family of operands: its buffer holds its function of the operands' final contents. -/
theorem read_nary (hl : Writes l Wl) (ht : Writes t Wt) (n : Nat) {k : Nat} {xs : Fin k → Ref sig .tc} {y : Ref sig .tc}
    {f : ((i : Fin k) → (xs i).ty.Contents Val) → y.ty.Contents Val} {hxs hy}
    (hop : l[n]? = some (nary (τ := τ) xs y f hxs hy)) (nxs : ∀ i, xs i ∉ Wl.drop n ++ Wt)
    (ny : y ∉ Wl.drop (n + 1) ++ Wt) (U : Valuation τ sig Val) :
    after t (after l U) (Proc.devRef .tc y) = f (fun i => after t (after l U) (Proc.devRef .tc (xs i))) := by
  rw [final_of_at hl ht n hop ny, nary_result]
  refine congrArg f ?_
  funext i
  exact (final_of_before hl ht n (nxs i) U).symm

end Read

/-- The whole line read at its end: nothing follows it. -/
theorem Writes.nil : Writes ([] : List (HloOp τ sig Val)) [] := List.Forall₂.nil

end Cert.Lib.SingleAssignment
-- ==== Proof.Ref.S0.lean ====
-- written by: gen_ref.js <unit directory>
/- Window 0 of the reference program's @main read one operation at a time: every buffer of the window is written once, so at the window's end each operation's result buffer holds the operation's function of its operands' contents there. -/
import proofs.«123839_j71768903516633_2_alg».proof.Proof.Ref.Writes
import proofs.«123839_j71768903516633_2_alg».proof.Proof.Lib.LibReadFinal
import proofs.«123839_j71768903516633_2_alg».proof.Proof.Lib.LibSingleAssignmentNary

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem s_main_v0 (U : Valuation τ sig (Elt F)) : (after (ops0 (F := F)) U (Proc.devRef .tc main_v0)) = ((extractStridedSlice S1x300000 ![0, 0] · slices_S2x300000_S1x300000_0_0) : (⟨S2x300000, .i32⟩ : BufTy).Contents (Elt F) → (⟨S1x300000, .i32⟩ : BufTy).Contents (Elt F)) (after (ops0 (F := F)) U (Proc.devRef .tc main_arg1)) :=
  Cert.Lib.ReadFinal.unary (x := main_arg1) (y := main_v0) (f := ((extractStridedSlice S1x300000 ![0, 0] · slices_S2x300000_S1x300000_0_0) : (⟨S2x300000, .i32⟩ : BufTy).Contents (Elt F) → (⟨S1x300000, .i32⟩ : BufTy).Contents (Elt F))) writes0 0 rfl (by decide) (by decide) U
theorem s_main_v1 (U : Valuation τ sig (Elt F)) : (after (ops0 (F := F)) U (Proc.devRef .tc main_v1)) = shapeCast S300000 (after (ops0 (F := F)) U (Proc.devRef .tc main_v0)) shapeCasts_S1x300000_S300000 :=
  (Cert.Lib.ReadFinal.reshape (x := main_v0) (y := main_v1) writes0 1 rfl (by decide) (by decide) U).trans rfl
theorem s_main_v2 (U : Valuation τ sig (Elt F)) : (after (ops0 (F := F)) U (Proc.devRef .tc main_v2)) = ((extractStridedSlice S1x300000 ![1, 0] · slices_S2x300000_S1x300000_1_0) : (⟨S2x300000, .i32⟩ : BufTy).Contents (Elt F) → (⟨S1x300000, .i32⟩ : BufTy).Contents (Elt F)) (after (ops0 (F := F)) U (Proc.devRef .tc main_arg1)) :=
  Cert.Lib.ReadFinal.unary (x := main_arg1) (y := main_v2) (f := ((extractStridedSlice S1x300000 ![1, 0] · slices_S2x300000_S1x300000_1_0) : (⟨S2x300000, .i32⟩ : BufTy).Contents (Elt F) → (⟨S1x300000, .i32⟩ : BufTy).Contents (Elt F))) writes0 2 rfl (by decide) (by decide) U
theorem s_main_v3 (U : Valuation τ sig (Elt F)) : (after (ops0 (F := F)) U (Proc.devRef .tc main_v3)) = shapeCast S300000 (after (ops0 (F := F)) U (Proc.devRef .tc main_v2)) shapeCasts_S1x300000_S300000 :=
  (Cert.Lib.ReadFinal.reshape (x := main_v2) (y := main_v3) writes0 3 rfl (by decide) (by decide) U).trans rfl
theorem s_main_cst (U : Valuation τ sig (Elt F)) : (after (ops0 (F := F)) U (Proc.devRef .tc main_cst)) = (constant (F := F) S_ .f32 0x00000000#32) :=
  Cert.Lib.ReadFinal.nullary (y := main_cst) (v := (constant (F := F) S_ .f32 0x00000000#32)) writes0 4 rfl (by decide) U
theorem s_main_v4 (U : Valuation τ sig (Elt F)) : (after (ops0 (F := F)) U (Proc.devRef .tc main_v4)) = ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (after (ops0 (F := F)) U (Proc.devRef .tc main_arg0)) (after (ops0 (F := F)) U (Proc.devRef .tc main_cst)) :=
  Cert.Lib.ReadFinal.binary (a := main_arg0) (b := main_cst) (y := main_v4) (f := ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F))) writes0 5 rfl (by decide) (by decide) (by decide) U
theorem s_main_cst_0 (U : Valuation τ sig (Elt F)) : (after (ops0 (F := F)) U (Proc.devRef .tc main_cst_0)) = (constant (F := F) S_ .f32 0x46EA6000#32) :=
  Cert.Lib.ReadFinal.nullary (y := main_cst_0) (v := (constant (F := F) S_ .f32 0x46EA6000#32)) writes0 6 rfl (by decide) U
theorem s_main_v5 (U : Valuation τ sig (Elt F)) : (after (ops0 (F := F)) U (Proc.devRef .tc main_v5)) = (broadcastInDim S64 ![] bcast_S_S64 : (⟨S_, .f32⟩ : BufTy).Contents (Elt F) → (⟨S64, .f32⟩ : BufTy).Contents (Elt F)) (after (ops0 (F := F)) U (Proc.devRef .tc main_cst_0)) :=
  Cert.Lib.ReadFinal.unary (x := main_cst_0) (y := main_v5) (f := (broadcastInDim S64 ![] bcast_S_S64 : (⟨S_, .f32⟩ : BufTy).Contents (Elt F) → (⟨S64, .f32⟩ : BufTy).Contents (Elt F))) writes0 7 rfl (by decide) (by decide) U
theorem s_main_v6 (U : Valuation τ sig (Elt F)) : (after (ops0 (F := F)) U (Proc.devRef .tc main_v6)) = (Host.divf : (⟨S64, .f32⟩ : BufTy).Contents (Elt F) → (⟨S64, .f32⟩ : BufTy).Contents (Elt F) → (⟨S64, .f32⟩ : BufTy).Contents (Elt F)) (after (ops0 (F := F)) U (Proc.devRef .tc main_v4)) (after (ops0 (F := F)) U (Proc.devRef .tc main_v5)) :=
  Cert.Lib.ReadFinal.binary (a := main_v4) (b := main_v5) (y := main_v6) (f := (Host.divf : (⟨S64, .f32⟩ : BufTy).Contents (Elt F) → (⟨S64, .f32⟩ : BufTy).Contents (Elt F) → (⟨S64, .f32⟩ : BufTy).Contents (Elt F))) writes0 8 rfl (by decide) (by decide) (by decide) U
theorem s_main_c (U : Valuation τ sig (Elt F)) : (after (ops0 (F := F)) U (Proc.devRef .tc main_c)) = (constantI S_ 32 0#32) :=
  Cert.Lib.ReadFinal.nullary (y := main_c) (v := (constantI S_ 32 0#32)) writes0 9 rfl (by decide) U
theorem s_main_call0_cst (U : Valuation τ sig (Elt F)) : (after (ops0 (F := F)) U (Proc.devRef .tc main_call0_cst)) = (constant (F := F) S_ .f32 0x00000000#32) :=
  Cert.Lib.ReadFinal.nullary (y := main_call0_cst) (v := (constant (F := F) S_ .f32 0x00000000#32)) writes0 10 rfl (by decide) U
theorem s_main_call0_v0 (U : Valuation τ sig (Elt F)) : (after (ops0 (F := F)) U (Proc.devRef .tc main_call0_v0)) = ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (after (ops0 (F := F)) U (Proc.devRef .tc main_arg0)) (after (ops0 (F := F)) U (Proc.devRef .tc main_call0_cst)) :=
  Cert.Lib.ReadFinal.binary (a := main_arg0) (b := main_call0_cst) (y := main_call0_v0) (f := ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F))) writes0 11 rfl (by decide) (by decide) (by decide) U
theorem s_main_call0_v1 (U : Valuation τ sig (Elt F)) : (after (ops0 (F := F)) U (Proc.devRef .tc main_call0_v1)) = ((broadcastInDim S1x64 ![1] bcast_S64_S1x64_1) : (⟨S64, .f32⟩ : BufTy).Contents (Elt F) → (⟨S1x64, .f32⟩ : BufTy).Contents (Elt F)) (after (ops0 (F := F)) U (Proc.devRef .tc main_call0_v0)) :=
  Cert.Lib.ReadFinal.unary (x := main_call0_v0) (y := main_call0_v1) (f := ((broadcastInDim S1x64 ![1] bcast_S64_S1x64_1) : (⟨S64, .f32⟩ : BufTy).Contents (Elt F) → (⟨S1x64, .f32⟩ : BufTy).Contents (Elt F))) writes0 12 rfl (by decide) (by decide) U
theorem s_main_call0_cst_0 (U : Valuation τ sig (Elt F)) : (after (ops0 (F := F)) U (Proc.devRef .tc main_call0_cst_0)) = (constant (F := F) S_ .f32 0x46EA6000#32) :=
  Cert.Lib.ReadFinal.nullary (y := main_call0_cst_0) (v := (constant (F := F) S_ .f32 0x46EA6000#32)) writes0 13 rfl (by decide) U
theorem s_main_call0_v2 (U : Valuation τ sig (Elt F)) : (after (ops0 (F := F)) U (Proc.devRef .tc main_call0_v2)) = ((broadcastInDim S1x64 ![] bcast_S_S1x64) : (⟨S_, .f32⟩ : BufTy).Contents (Elt F) → (⟨S1x64, .f32⟩ : BufTy).Contents (Elt F)) (after (ops0 (F := F)) U (Proc.devRef .tc main_call0_cst_0)) :=
  Cert.Lib.ReadFinal.unary (x := main_call0_cst_0) (y := main_call0_v2) (f := ((broadcastInDim S1x64 ![] bcast_S_S1x64) : (⟨S_, .f32⟩ : BufTy).Contents (Elt F) → (⟨S1x64, .f32⟩ : BufTy).Contents (Elt F))) writes0 14 rfl (by decide) (by decide) U
theorem s_main_call0_v3 (U : Valuation τ sig (Elt F)) : (after (ops0 (F := F)) U (Proc.devRef .tc main_call0_v3)) = (Host.divf : (⟨S1x64, .f32⟩ : BufTy).Contents (Elt F) → (⟨S1x64, .f32⟩ : BufTy).Contents (Elt F) → (⟨S1x64, .f32⟩ : BufTy).Contents (Elt F)) (after (ops0 (F := F)) U (Proc.devRef .tc main_call0_v1)) (after (ops0 (F := F)) U (Proc.devRef .tc main_call0_v2)) :=
  Cert.Lib.ReadFinal.binary (a := main_call0_v1) (b := main_call0_v2) (y := main_call0_v3) (f := (Host.divf : (⟨S1x64, .f32⟩ : BufTy).Contents (Elt F) → (⟨S1x64, .f32⟩ : BufTy).Contents (Elt F) → (⟨S1x64, .f32⟩ : BufTy).Contents (Elt F))) writes0 15 rfl (by decide) (by decide) (by decide) U
theorem s_main_call0_v4 (U : Valuation τ sig (Elt F)) : (after (ops0 (F := F)) U (Proc.devRef .tc main_call0_v4)) = ((broadcastInDim S30000x64 ![0, 1] bcast_S1x64_S30000x64_0_1) : (⟨S1x64, .f32⟩ : BufTy).Contents (Elt F) → (⟨S30000x64, .f32⟩ : BufTy).Contents (Elt F)) (after (ops0 (F := F)) U (Proc.devRef .tc main_call0_v3)) :=
  Cert.Lib.ReadFinal.unary (x := main_call0_v3) (y := main_call0_v4) (f := ((broadcastInDim S30000x64 ![0, 1] bcast_S1x64_S30000x64_0_1) : (⟨S1x64, .f32⟩ : BufTy).Contents (Elt F) → (⟨S30000x64, .f32⟩ : BufTy).Contents (Elt F))) writes0 16 rfl (by decide) (by decide) U
theorem s_main_call0_v5 (U : Valuation τ sig (Elt F)) : (after (ops0 (F := F)) U (Proc.devRef .tc main_call0_v5)) = (subf : (⟨S30000x64, .f32⟩ : BufTy).Contents (Elt F) → (⟨S30000x64, .f32⟩ : BufTy).Contents (Elt F) → (⟨S30000x64, .f32⟩ : BufTy).Contents (Elt F)) (after (ops0 (F := F)) U (Proc.devRef .tc main_arg0)) (after (ops0 (F := F)) U (Proc.devRef .tc main_call0_v4)) :=
  Cert.Lib.ReadFinal.binary (a := main_arg0) (b := main_call0_v4) (y := main_call0_v5) (f := (subf : (⟨S30000x64, .f32⟩ : BufTy).Contents (Elt F) → (⟨S30000x64, .f32⟩ : BufTy).Contents (Elt F) → (⟨S30000x64, .f32⟩ : BufTy).Contents (Elt F))) writes0 17 rfl (by decide) (by decide) (by decide) U
theorem s_main_call0_v6 (U : Valuation τ sig (Elt F)) : (after (ops0 (F := F)) U (Proc.devRef .tc main_call0_v6)) = (mulf : (⟨S30000x64, .f32⟩ : BufTy).Contents (Elt F) → (⟨S30000x64, .f32⟩ : BufTy).Contents (Elt F) → (⟨S30000x64, .f32⟩ : BufTy).Contents (Elt F)) (after (ops0 (F := F)) U (Proc.devRef .tc main_call0_v5)) (after (ops0 (F := F)) U (Proc.devRef .tc main_call0_v5)) :=
  Cert.Lib.ReadFinal.binary (a := main_call0_v5) (b := main_call0_v5) (y := main_call0_v6) (f := (mulf : (⟨S30000x64, .f32⟩ : BufTy).Contents (Elt F) → (⟨S30000x64, .f32⟩ : BufTy).Contents (Elt F) → (⟨S30000x64, .f32⟩ : BufTy).Contents (Elt F))) writes0 18 rfl (by decide) (by decide) (by decide) U
theorem s_main_call0_v7 (U : Valuation τ sig (Elt F)) : (after (ops0 (F := F)) U (Proc.devRef .tc main_call0_v7)) = ((sitofp .f32) : (⟨S_, .i32⟩ : BufTy).Contents (Elt F) → (⟨S_, .f32⟩ : BufTy).Contents (Elt F)) (after (ops0 (F := F)) U (Proc.devRef .tc main_c)) :=
  Cert.Lib.ReadFinal.unary (x := main_c) (y := main_call0_v7) (f := ((sitofp .f32) : (⟨S_, .i32⟩ : BufTy).Contents (Elt F) → (⟨S_, .f32⟩ : BufTy).Contents (Elt F))) writes0 19 rfl (by decide) (by decide) U
theorem s_main_call0_cst_1 (U : Valuation τ sig (Elt F)) : (after (ops0 (F := F)) U (Proc.devRef .tc main_call0_cst_1)) = (constant (F := F) S_ .f32 0x46EA6000#32) :=
  Cert.Lib.ReadFinal.nullary (y := main_call0_cst_1) (v := (constant (F := F) S_ .f32 0x46EA6000#32)) writes0 20 rfl (by decide) U
theorem s_main_call0_v8 (U : Valuation τ sig (Elt F)) : (after (ops0 (F := F)) U (Proc.devRef .tc main_call0_v8)) = (subf : (⟨S_, .f32⟩ : BufTy).Contents (Elt F) → (⟨S_, .f32⟩ : BufTy).Contents (Elt F) → (⟨S_, .f32⟩ : BufTy).Contents (Elt F)) (after (ops0 (F := F)) U (Proc.devRef .tc main_call0_cst_1)) (after (ops0 (F := F)) U (Proc.devRef .tc main_call0_v7)) :=
  Cert.Lib.ReadFinal.binary (a := main_call0_cst_1) (b := main_call0_v7) (y := main_call0_v8) (f := (subf : (⟨S_, .f32⟩ : BufTy).Contents (Elt F) → (⟨S_, .f32⟩ : BufTy).Contents (Elt F) → (⟨S_, .f32⟩ : BufTy).Contents (Elt F))) writes0 21 rfl (by decide) (by decide) (by decide) U
theorem s_main_call0_cst_2 (U : Valuation τ sig (Elt F)) : (after (ops0 (F := F)) U (Proc.devRef .tc main_call0_cst_2)) = (constant (F := F) S_ .f32 0x00000000#32) :=
  Cert.Lib.ReadFinal.nullary (y := main_call0_cst_2) (v := (constant (F := F) S_ .f32 0x00000000#32)) writes0 22 rfl (by decide) U
theorem s_main_call0_v9 (U : Valuation τ sig (Elt F)) : (after (ops0 (F := F)) U (Proc.devRef .tc main_call0_v9)) = ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (after (ops0 (F := F)) U (Proc.devRef .tc main_call0_v6)) (after (ops0 (F := F)) U (Proc.devRef .tc main_call0_cst_2)) :=
  Cert.Lib.ReadFinal.binary (a := main_call0_v6) (b := main_call0_cst_2) (y := main_call0_v9) (f := ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F))) writes0 23 rfl (by decide) (by decide) (by decide) U
theorem s_main_call0_v10 (U : Valuation τ sig (Elt F)) : (after (ops0 (F := F)) U (Proc.devRef .tc main_call0_v10)) = ((broadcastInDim S64 ![] bcast_S_S64) : (⟨S_, .f32⟩ : BufTy).Contents (Elt F) → (⟨S64, .f32⟩ : BufTy).Contents (Elt F)) (after (ops0 (F := F)) U (Proc.devRef .tc main_call0_v8)) :=
  Cert.Lib.ReadFinal.unary (x := main_call0_v8) (y := main_call0_v10) (f := ((broadcastInDim S64 ![] bcast_S_S64) : (⟨S_, .f32⟩ : BufTy).Contents (Elt F) → (⟨S64, .f32⟩ : BufTy).Contents (Elt F))) writes0 24 rfl (by decide) (by decide) U
theorem s_main_call0_v11 (U : Valuation τ sig (Elt F)) : (after (ops0 (F := F)) U (Proc.devRef .tc main_call0_v11)) = (Host.divf : (⟨S64, .f32⟩ : BufTy).Contents (Elt F) → (⟨S64, .f32⟩ : BufTy).Contents (Elt F) → (⟨S64, .f32⟩ : BufTy).Contents (Elt F)) (after (ops0 (F := F)) U (Proc.devRef .tc main_call0_v9)) (after (ops0 (F := F)) U (Proc.devRef .tc main_call0_v10)) :=
  Cert.Lib.ReadFinal.binary (a := main_call0_v9) (b := main_call0_v10) (y := main_call0_v11) (f := (Host.divf : (⟨S64, .f32⟩ : BufTy).Contents (Elt F) → (⟨S64, .f32⟩ : BufTy).Contents (Elt F) → (⟨S64, .f32⟩ : BufTy).Contents (Elt F))) writes0 25 rfl (by decide) (by decide) (by decide) U
theorem s_main_call0_cst_3 (U : Valuation τ sig (Elt F)) : (after (ops0 (F := F)) U (Proc.devRef .tc main_call0_cst_3)) = (constant (F := F) S_ .f32 0x00000000#32) :=
  Cert.Lib.ReadFinal.nullary (y := main_call0_cst_3) (v := (constant (F := F) S_ .f32 0x00000000#32)) writes0 26 rfl (by decide) U
theorem s_main_call0_v12 (U : Valuation τ sig (Elt F)) : (after (ops0 (F := F)) U (Proc.devRef .tc main_call0_v12)) = ((cmpf .ogt) : (⟨S_, .f32⟩ : BufTy).Contents (Elt F) → (⟨S_, .f32⟩ : BufTy).Contents (Elt F) → (⟨S_, .i1⟩ : BufTy).Contents (Elt F)) (after (ops0 (F := F)) U (Proc.devRef .tc main_call0_v8)) (after (ops0 (F := F)) U (Proc.devRef .tc main_call0_cst_3)) :=
  Cert.Lib.ReadFinal.binary (a := main_call0_v8) (b := main_call0_cst_3) (y := main_call0_v12) (f := ((cmpf .ogt) : (⟨S_, .f32⟩ : BufTy).Contents (Elt F) → (⟨S_, .f32⟩ : BufTy).Contents (Elt F) → (⟨S_, .i1⟩ : BufTy).Contents (Elt F))) writes0 27 rfl (by decide) (by decide) (by decide) U
theorem s_main_call0_cst_4 (U : Valuation τ sig (Elt F)) : (after (ops0 (F := F)) U (Proc.devRef .tc main_call0_cst_4)) = (constant (F := F) S_ .f32 0x7FC00000#32) :=
  Cert.Lib.ReadFinal.nullary (y := main_call0_cst_4) (v := (constant (F := F) S_ .f32 0x7FC00000#32)) writes0 28 rfl (by decide) U
theorem s_main_call0_call0_v0 (U : Valuation τ sig (Elt F)) : (after (ops0 (F := F)) U (Proc.devRef .tc main_call0_call0_v0)) = (id : (⟨S_, .f32⟩ : BufTy).Contents (Elt F) → (⟨S_, .f32⟩ : BufTy).Contents (Elt F)) (after (ops0 (F := F)) U (Proc.devRef .tc main_call0_cst_4)) :=
  Cert.Lib.ReadFinal.unary (x := main_call0_cst_4) (y := main_call0_call0_v0) (f := (id : (⟨S_, .f32⟩ : BufTy).Contents (Elt F) → (⟨S_, .f32⟩ : BufTy).Contents (Elt F))) writes0 29 rfl (by decide) (by decide) U
theorem s_main_call0_call0_v1 (U : Valuation τ sig (Elt F)) : (after (ops0 (F := F)) U (Proc.devRef .tc main_call0_call0_v1)) = ((broadcastInDim S64 ![] bcast_S_S64) : (⟨S_, .f32⟩ : BufTy).Contents (Elt F) → (⟨S64, .f32⟩ : BufTy).Contents (Elt F)) (after (ops0 (F := F)) U (Proc.devRef .tc main_call0_call0_v0)) :=
  Cert.Lib.ReadFinal.unary (x := main_call0_call0_v0) (y := main_call0_call0_v1) (f := ((broadcastInDim S64 ![] bcast_S_S64) : (⟨S_, .f32⟩ : BufTy).Contents (Elt F) → (⟨S64, .f32⟩ : BufTy).Contents (Elt F))) writes0 30 rfl (by decide) (by decide) U
theorem s_main_v7 (U : Valuation τ sig (Elt F)) : (after (ops0 (F := F)) U (Proc.devRef .tc main_v7)) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after (ops0 (F := F)) U (Proc.devRef .tc main_call0_v12)) (after (ops0 (F := F)) U (Proc.devRef .tc main_call0_v11)) (after (ops0 (F := F)) U (Proc.devRef .tc main_call0_call0_v1)) :=
  Cert.Lib.ReadFinal.ternary (c := main_call0_v12) (a := main_call0_v11) (b := main_call0_call0_v1) (y := main_v7) (f := ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F))) writes0 31 rfl (by decide) (by decide) (by decide) (by decide) U
theorem s_main_v8 (U : Valuation τ sig (Elt F)) : (after (ops0 (F := F)) U (Proc.devRef .tc main_v8)) = (broadcastInDim S1x64 ![1] bcast_S64_S1x64_1 : (⟨S64, .f32⟩ : BufTy).Contents (Elt F) → (⟨S1x64, .f32⟩ : BufTy).Contents (Elt F)) (after (ops0 (F := F)) U (Proc.devRef .tc main_v6)) :=
  Cert.Lib.ReadFinal.unary (x := main_v6) (y := main_v8) (f := (broadcastInDim S1x64 ![1] bcast_S64_S1x64_1 : (⟨S64, .f32⟩ : BufTy).Contents (Elt F) → (⟨S1x64, .f32⟩ : BufTy).Contents (Elt F))) writes0 32 rfl (by decide) (by decide) U
theorem s_main_v9 (U : Valuation τ sig (Elt F)) : (after (ops0 (F := F)) U (Proc.devRef .tc main_v9)) = (broadcastInDim S30000x64 ![0, 1] bcast_S1x64_S30000x64_0_1 : (⟨S1x64, .f32⟩ : BufTy).Contents (Elt F) → (⟨S30000x64, .f32⟩ : BufTy).Contents (Elt F)) (after (ops0 (F := F)) U (Proc.devRef .tc main_v8)) :=
  Cert.Lib.ReadFinal.unary (x := main_v8) (y := main_v9) (f := (broadcastInDim S30000x64 ![0, 1] bcast_S1x64_S30000x64_0_1 : (⟨S1x64, .f32⟩ : BufTy).Contents (Elt F) → (⟨S30000x64, .f32⟩ : BufTy).Contents (Elt F))) writes0 33 rfl (by decide) (by decide) U
theorem s_main_v10 (U : Valuation τ sig (Elt F)) : (after (ops0 (F := F)) U (Proc.devRef .tc main_v10)) = (subf : (⟨S30000x64, .f32⟩ : BufTy).Contents (Elt F) → (⟨S30000x64, .f32⟩ : BufTy).Contents (Elt F) → (⟨S30000x64, .f32⟩ : BufTy).Contents (Elt F)) (after (ops0 (F := F)) U (Proc.devRef .tc main_arg0)) (after (ops0 (F := F)) U (Proc.devRef .tc main_v9)) :=
  Cert.Lib.ReadFinal.binary (a := main_arg0) (b := main_v9) (y := main_v10) (f := (subf : (⟨S30000x64, .f32⟩ : BufTy).Contents (Elt F) → (⟨S30000x64, .f32⟩ : BufTy).Contents (Elt F) → (⟨S30000x64, .f32⟩ : BufTy).Contents (Elt F))) writes0 34 rfl (by decide) (by decide) (by decide) U
theorem s_main_v11 (U : Valuation τ sig (Elt F)) : (after (ops0 (F := F)) U (Proc.devRef .tc main_v11)) = (broadcastInDim S1x64 ![1] bcast_S64_S1x64_1 : (⟨S64, .f32⟩ : BufTy).Contents (Elt F) → (⟨S1x64, .f32⟩ : BufTy).Contents (Elt F)) (after (ops0 (F := F)) U (Proc.devRef .tc main_arg5)) :=
  Cert.Lib.ReadFinal.unary (x := main_arg5) (y := main_v11) (f := (broadcastInDim S1x64 ![1] bcast_S64_S1x64_1 : (⟨S64, .f32⟩ : BufTy).Contents (Elt F) → (⟨S1x64, .f32⟩ : BufTy).Contents (Elt F))) writes0 35 rfl (by decide) (by decide) U
theorem s_main_v12 (U : Valuation τ sig (Elt F)) : (after (ops0 (F := F)) U (Proc.devRef .tc main_v12)) = (broadcastInDim S30000x64 ![0, 1] bcast_S1x64_S30000x64_0_1 : (⟨S1x64, .f32⟩ : BufTy).Contents (Elt F) → (⟨S30000x64, .f32⟩ : BufTy).Contents (Elt F)) (after (ops0 (F := F)) U (Proc.devRef .tc main_v11)) :=
  Cert.Lib.ReadFinal.unary (x := main_v11) (y := main_v12) (f := (broadcastInDim S30000x64 ![0, 1] bcast_S1x64_S30000x64_0_1 : (⟨S1x64, .f32⟩ : BufTy).Contents (Elt F) → (⟨S30000x64, .f32⟩ : BufTy).Contents (Elt F))) writes0 36 rfl (by decide) (by decide) U
theorem s_main_v13 (U : Valuation τ sig (Elt F)) : (after (ops0 (F := F)) U (Proc.devRef .tc main_v13)) = (mulf : (⟨S30000x64, .f32⟩ : BufTy).Contents (Elt F) → (⟨S30000x64, .f32⟩ : BufTy).Contents (Elt F) → (⟨S30000x64, .f32⟩ : BufTy).Contents (Elt F)) (after (ops0 (F := F)) U (Proc.devRef .tc main_v12)) (after (ops0 (F := F)) U (Proc.devRef .tc main_v10)) :=
  Cert.Lib.ReadFinal.binary (a := main_v12) (b := main_v10) (y := main_v13) (f := (mulf : (⟨S30000x64, .f32⟩ : BufTy).Contents (Elt F) → (⟨S30000x64, .f32⟩ : BufTy).Contents (Elt F) → (⟨S30000x64, .f32⟩ : BufTy).Contents (Elt F))) writes0 37 rfl (by decide) (by decide) (by decide) U
theorem s_main_cst_1 (U : Valuation τ sig (Elt F)) : (after (ops0 (F := F)) U (Proc.devRef .tc main_cst_1)) = (constant (F := F) S_ .f32 0x3727C5AC#32) :=
  Cert.Lib.ReadFinal.nullary (y := main_cst_1) (v := (constant (F := F) S_ .f32 0x3727C5AC#32)) writes0 38 rfl (by decide) U
theorem s_main_v14 (U : Valuation τ sig (Elt F)) : (after (ops0 (F := F)) U (Proc.devRef .tc main_v14)) = (broadcastInDim S64 ![] bcast_S_S64 : (⟨S_, .f32⟩ : BufTy).Contents (Elt F) → (⟨S64, .f32⟩ : BufTy).Contents (Elt F)) (after (ops0 (F := F)) U (Proc.devRef .tc main_cst_1)) :=
  Cert.Lib.ReadFinal.unary (x := main_cst_1) (y := main_v14) (f := (broadcastInDim S64 ![] bcast_S_S64 : (⟨S_, .f32⟩ : BufTy).Contents (Elt F) → (⟨S64, .f32⟩ : BufTy).Contents (Elt F))) writes0 39 rfl (by decide) (by decide) U
theorem s_main_v15 (U : Valuation τ sig (Elt F)) : (after (ops0 (F := F)) U (Proc.devRef .tc main_v15)) = (addf : (⟨S64, .f32⟩ : BufTy).Contents (Elt F) → (⟨S64, .f32⟩ : BufTy).Contents (Elt F) → (⟨S64, .f32⟩ : BufTy).Contents (Elt F)) (after (ops0 (F := F)) U (Proc.devRef .tc main_v7)) (after (ops0 (F := F)) U (Proc.devRef .tc main_v14)) :=
  Cert.Lib.ReadFinal.binary (a := main_v7) (b := main_v14) (y := main_v15) (f := (addf : (⟨S64, .f32⟩ : BufTy).Contents (Elt F) → (⟨S64, .f32⟩ : BufTy).Contents (Elt F) → (⟨S64, .f32⟩ : BufTy).Contents (Elt F))) writes0 40 rfl (by decide) (by decide) (by decide) U
theorem s_main_v16 (U : Valuation τ sig (Elt F)) : (after (ops0 (F := F)) U (Proc.devRef .tc main_v16)) = (Host.rsqrt : (⟨S64, .f32⟩ : BufTy).Contents (Elt F) → (⟨S64, .f32⟩ : BufTy).Contents (Elt F)) (after (ops0 (F := F)) U (Proc.devRef .tc main_v15)) :=
  Cert.Lib.ReadFinal.unary (x := main_v15) (y := main_v16) (f := (Host.rsqrt : (⟨S64, .f32⟩ : BufTy).Contents (Elt F) → (⟨S64, .f32⟩ : BufTy).Contents (Elt F))) writes0 41 rfl (by decide) (by decide) U
theorem s_main_v17 (U : Valuation τ sig (Elt F)) : (after (ops0 (F := F)) U (Proc.devRef .tc main_v17)) = (broadcastInDim S1x64 ![1] bcast_S64_S1x64_1 : (⟨S64, .f32⟩ : BufTy).Contents (Elt F) → (⟨S1x64, .f32⟩ : BufTy).Contents (Elt F)) (after (ops0 (F := F)) U (Proc.devRef .tc main_v16)) :=
  Cert.Lib.ReadFinal.unary (x := main_v16) (y := main_v17) (f := (broadcastInDim S1x64 ![1] bcast_S64_S1x64_1 : (⟨S64, .f32⟩ : BufTy).Contents (Elt F) → (⟨S1x64, .f32⟩ : BufTy).Contents (Elt F))) writes0 42 rfl (by decide) (by decide) U
theorem s_main_v18 (U : Valuation τ sig (Elt F)) : (after (ops0 (F := F)) U (Proc.devRef .tc main_v18)) = (broadcastInDim S30000x64 ![0, 1] bcast_S1x64_S30000x64_0_1 : (⟨S1x64, .f32⟩ : BufTy).Contents (Elt F) → (⟨S30000x64, .f32⟩ : BufTy).Contents (Elt F)) (after (ops0 (F := F)) U (Proc.devRef .tc main_v17)) :=
  Cert.Lib.ReadFinal.unary (x := main_v17) (y := main_v18) (f := (broadcastInDim S30000x64 ![0, 1] bcast_S1x64_S30000x64_0_1 : (⟨S1x64, .f32⟩ : BufTy).Contents (Elt F) → (⟨S30000x64, .f32⟩ : BufTy).Contents (Elt F))) writes0 43 rfl (by decide) (by decide) U
theorem s_main_v19 (U : Valuation τ sig (Elt F)) : (after (ops0 (F := F)) U (Proc.devRef .tc main_v19)) = (mulf : (⟨S30000x64, .f32⟩ : BufTy).Contents (Elt F) → (⟨S30000x64, .f32⟩ : BufTy).Contents (Elt F) → (⟨S30000x64, .f32⟩ : BufTy).Contents (Elt F)) (after (ops0 (F := F)) U (Proc.devRef .tc main_v13)) (after (ops0 (F := F)) U (Proc.devRef .tc main_v18)) :=
  Cert.Lib.ReadFinal.binary (a := main_v13) (b := main_v18) (y := main_v19) (f := (mulf : (⟨S30000x64, .f32⟩ : BufTy).Contents (Elt F) → (⟨S30000x64, .f32⟩ : BufTy).Contents (Elt F) → (⟨S30000x64, .f32⟩ : BufTy).Contents (Elt F))) writes0 44 rfl (by decide) (by decide) (by decide) U
theorem s_main_v20 (U : Valuation τ sig (Elt F)) : (after (ops0 (F := F)) U (Proc.devRef .tc main_v20)) = (broadcastInDim S1x64 ![1] bcast_S64_S1x64_1 : (⟨S64, .f32⟩ : BufTy).Contents (Elt F) → (⟨S1x64, .f32⟩ : BufTy).Contents (Elt F)) (after (ops0 (F := F)) U (Proc.devRef .tc main_arg6)) :=
  Cert.Lib.ReadFinal.unary (x := main_arg6) (y := main_v20) (f := (broadcastInDim S1x64 ![1] bcast_S64_S1x64_1 : (⟨S64, .f32⟩ : BufTy).Contents (Elt F) → (⟨S1x64, .f32⟩ : BufTy).Contents (Elt F))) writes0 45 rfl (by decide) (by decide) U
theorem s_main_v21 (U : Valuation τ sig (Elt F)) : (after (ops0 (F := F)) U (Proc.devRef .tc main_v21)) = (broadcastInDim S30000x64 ![0, 1] bcast_S1x64_S30000x64_0_1 : (⟨S1x64, .f32⟩ : BufTy).Contents (Elt F) → (⟨S30000x64, .f32⟩ : BufTy).Contents (Elt F)) (after (ops0 (F := F)) U (Proc.devRef .tc main_v20)) :=
  Cert.Lib.ReadFinal.unary (x := main_v20) (y := main_v21) (f := (broadcastInDim S30000x64 ![0, 1] bcast_S1x64_S30000x64_0_1 : (⟨S1x64, .f32⟩ : BufTy).Contents (Elt F) → (⟨S30000x64, .f32⟩ : BufTy).Contents (Elt F))) writes0 46 rfl (by decide) (by decide) U
theorem s_main_v22 (U : Valuation τ sig (Elt F)) : (after (ops0 (F := F)) U (Proc.devRef .tc main_v22)) = (addf : (⟨S30000x64, .f32⟩ : BufTy).Contents (Elt F) → (⟨S30000x64, .f32⟩ : BufTy).Contents (Elt F) → (⟨S30000x64, .f32⟩ : BufTy).Contents (Elt F)) (after (ops0 (F := F)) U (Proc.devRef .tc main_v19)) (after (ops0 (F := F)) U (Proc.devRef .tc main_v21)) :=
  Cert.Lib.ReadFinal.binary (a := main_v19) (b := main_v21) (y := main_v22) (f := (addf : (⟨S30000x64, .f32⟩ : BufTy).Contents (Elt F) → (⟨S30000x64, .f32⟩ : BufTy).Contents (Elt F) → (⟨S30000x64, .f32⟩ : BufTy).Contents (Elt F))) writes0 47 rfl (by decide) (by decide) (by decide) U
theorem s_main_cst_2 (U : Valuation τ sig (Elt F)) : (after (ops0 (F := F)) U (Proc.devRef .tc main_cst_2)) = (constant (F := F) S_ .f32 0x00000000#32) :=
  Cert.Lib.ReadFinal.nullary (y := main_cst_2) (v := (constant (F := F) S_ .f32 0x00000000#32)) writes0 48 rfl (by decide) U
theorem s_main_v23 (U : Valuation τ sig (Elt F)) : (after (ops0 (F := F)) U (Proc.devRef .tc main_v23)) = ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (after (ops0 (F := F)) U (Proc.devRef .tc main_arg2)) (after (ops0 (F := F)) U (Proc.devRef .tc main_cst_2)) :=
  Cert.Lib.ReadFinal.binary (a := main_arg2) (b := main_cst_2) (y := main_v23) (f := ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F))) writes0 49 rfl (by decide) (by decide) (by decide) U
theorem s_main_cst_3 (U : Valuation τ sig (Elt F)) : (after (ops0 (F := F)) U (Proc.devRef .tc main_cst_3)) = (constant (F := F) S_ .f32 0x48927C00#32) :=
  Cert.Lib.ReadFinal.nullary (y := main_cst_3) (v := (constant (F := F) S_ .f32 0x48927C00#32)) writes0 50 rfl (by decide) U
theorem s_main_v24 (U : Valuation τ sig (Elt F)) : (after (ops0 (F := F)) U (Proc.devRef .tc main_v24)) = (broadcastInDim S32 ![] bcast_S_S32 : (⟨S_, .f32⟩ : BufTy).Contents (Elt F) → (⟨S32, .f32⟩ : BufTy).Contents (Elt F)) (after (ops0 (F := F)) U (Proc.devRef .tc main_cst_3)) :=
  Cert.Lib.ReadFinal.unary (x := main_cst_3) (y := main_v24) (f := (broadcastInDim S32 ![] bcast_S_S32 : (⟨S_, .f32⟩ : BufTy).Contents (Elt F) → (⟨S32, .f32⟩ : BufTy).Contents (Elt F))) writes0 51 rfl (by decide) (by decide) U
theorem s_main_v25 (U : Valuation τ sig (Elt F)) : (after (ops0 (F := F)) U (Proc.devRef .tc main_v25)) = (Host.divf : (⟨S32, .f32⟩ : BufTy).Contents (Elt F) → (⟨S32, .f32⟩ : BufTy).Contents (Elt F) → (⟨S32, .f32⟩ : BufTy).Contents (Elt F)) (after (ops0 (F := F)) U (Proc.devRef .tc main_v23)) (after (ops0 (F := F)) U (Proc.devRef .tc main_v24)) :=
  Cert.Lib.ReadFinal.binary (a := main_v23) (b := main_v24) (y := main_v25) (f := (Host.divf : (⟨S32, .f32⟩ : BufTy).Contents (Elt F) → (⟨S32, .f32⟩ : BufTy).Contents (Elt F) → (⟨S32, .f32⟩ : BufTy).Contents (Elt F))) writes0 52 rfl (by decide) (by decide) (by decide) U
theorem s_main_c_4 (U : Valuation τ sig (Elt F)) : (after (ops0 (F := F)) U (Proc.devRef .tc main_c_4)) = (constantI S_ 32 0#32) :=
  Cert.Lib.ReadFinal.nullary (y := main_c_4) (v := (constantI S_ 32 0#32)) writes0 53 rfl (by decide) U
theorem s_main_call1_cst (U : Valuation τ sig (Elt F)) : (after (ops0 (F := F)) U (Proc.devRef .tc main_call1_cst)) = (constant (F := F) S_ .f32 0x00000000#32) :=
  Cert.Lib.ReadFinal.nullary (y := main_call1_cst) (v := (constant (F := F) S_ .f32 0x00000000#32)) writes0 54 rfl (by decide) U
theorem s_main_call1_v0 (U : Valuation τ sig (Elt F)) : (after (ops0 (F := F)) U (Proc.devRef .tc main_call1_v0)) = ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (after (ops0 (F := F)) U (Proc.devRef .tc main_arg2)) (after (ops0 (F := F)) U (Proc.devRef .tc main_call1_cst)) :=
  Cert.Lib.ReadFinal.binary (a := main_arg2) (b := main_call1_cst) (y := main_call1_v0) (f := ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F))) writes0 55 rfl (by decide) (by decide) (by decide) U
theorem s_main_call1_v1 (U : Valuation τ sig (Elt F)) : (after (ops0 (F := F)) U (Proc.devRef .tc main_call1_v1)) = ((broadcastInDim S1x32 ![1] bcast_S32_S1x32_1) : (⟨S32, .f32⟩ : BufTy).Contents (Elt F) → (⟨S1x32, .f32⟩ : BufTy).Contents (Elt F)) (after (ops0 (F := F)) U (Proc.devRef .tc main_call1_v0)) :=
  Cert.Lib.ReadFinal.unary (x := main_call1_v0) (y := main_call1_v1) (f := ((broadcastInDim S1x32 ![1] bcast_S32_S1x32_1) : (⟨S32, .f32⟩ : BufTy).Contents (Elt F) → (⟨S1x32, .f32⟩ : BufTy).Contents (Elt F))) writes0 56 rfl (by decide) (by decide) U
theorem s_main_call1_cst_0 (U : Valuation τ sig (Elt F)) : (after (ops0 (F := F)) U (Proc.devRef .tc main_call1_cst_0)) = (constant (F := F) S_ .f32 0x48927C00#32) :=
  Cert.Lib.ReadFinal.nullary (y := main_call1_cst_0) (v := (constant (F := F) S_ .f32 0x48927C00#32)) writes0 57 rfl (by decide) U
theorem s_main_call1_v2 (U : Valuation τ sig (Elt F)) : (after (ops0 (F := F)) U (Proc.devRef .tc main_call1_v2)) = ((broadcastInDim S1x32 ![] bcast_S_S1x32) : (⟨S_, .f32⟩ : BufTy).Contents (Elt F) → (⟨S1x32, .f32⟩ : BufTy).Contents (Elt F)) (after (ops0 (F := F)) U (Proc.devRef .tc main_call1_cst_0)) :=
  Cert.Lib.ReadFinal.unary (x := main_call1_cst_0) (y := main_call1_v2) (f := ((broadcastInDim S1x32 ![] bcast_S_S1x32) : (⟨S_, .f32⟩ : BufTy).Contents (Elt F) → (⟨S1x32, .f32⟩ : BufTy).Contents (Elt F))) writes0 58 rfl (by decide) (by decide) U
theorem s_main_call1_v3 (U : Valuation τ sig (Elt F)) : (after (ops0 (F := F)) U (Proc.devRef .tc main_call1_v3)) = (Host.divf : (⟨S1x32, .f32⟩ : BufTy).Contents (Elt F) → (⟨S1x32, .f32⟩ : BufTy).Contents (Elt F) → (⟨S1x32, .f32⟩ : BufTy).Contents (Elt F)) (after (ops0 (F := F)) U (Proc.devRef .tc main_call1_v1)) (after (ops0 (F := F)) U (Proc.devRef .tc main_call1_v2)) :=
  Cert.Lib.ReadFinal.binary (a := main_call1_v1) (b := main_call1_v2) (y := main_call1_v3) (f := (Host.divf : (⟨S1x32, .f32⟩ : BufTy).Contents (Elt F) → (⟨S1x32, .f32⟩ : BufTy).Contents (Elt F) → (⟨S1x32, .f32⟩ : BufTy).Contents (Elt F))) writes0 59 rfl (by decide) (by decide) (by decide) U
theorem s_main_call1_v4 (U : Valuation τ sig (Elt F)) : (after (ops0 (F := F)) U (Proc.devRef .tc main_call1_v4)) = ((broadcastInDim S300000x32 ![0, 1] bcast_S1x32_S300000x32_0_1) : (⟨S1x32, .f32⟩ : BufTy).Contents (Elt F) → (⟨S300000x32, .f32⟩ : BufTy).Contents (Elt F)) (after (ops0 (F := F)) U (Proc.devRef .tc main_call1_v3)) :=
  Cert.Lib.ReadFinal.unary (x := main_call1_v3) (y := main_call1_v4) (f := ((broadcastInDim S300000x32 ![0, 1] bcast_S1x32_S300000x32_0_1) : (⟨S1x32, .f32⟩ : BufTy).Contents (Elt F) → (⟨S300000x32, .f32⟩ : BufTy).Contents (Elt F))) writes0 60 rfl (by decide) (by decide) U
theorem s_main_call1_v5 (U : Valuation τ sig (Elt F)) : (after (ops0 (F := F)) U (Proc.devRef .tc main_call1_v5)) = (subf : (⟨S300000x32, .f32⟩ : BufTy).Contents (Elt F) → (⟨S300000x32, .f32⟩ : BufTy).Contents (Elt F) → (⟨S300000x32, .f32⟩ : BufTy).Contents (Elt F)) (after (ops0 (F := F)) U (Proc.devRef .tc main_arg2)) (after (ops0 (F := F)) U (Proc.devRef .tc main_call1_v4)) :=
  Cert.Lib.ReadFinal.binary (a := main_arg2) (b := main_call1_v4) (y := main_call1_v5) (f := (subf : (⟨S300000x32, .f32⟩ : BufTy).Contents (Elt F) → (⟨S300000x32, .f32⟩ : BufTy).Contents (Elt F) → (⟨S300000x32, .f32⟩ : BufTy).Contents (Elt F))) writes0 61 rfl (by decide) (by decide) (by decide) U
theorem s_main_call1_v6 (U : Valuation τ sig (Elt F)) : (after (ops0 (F := F)) U (Proc.devRef .tc main_call1_v6)) = (mulf : (⟨S300000x32, .f32⟩ : BufTy).Contents (Elt F) → (⟨S300000x32, .f32⟩ : BufTy).Contents (Elt F) → (⟨S300000x32, .f32⟩ : BufTy).Contents (Elt F)) (after (ops0 (F := F)) U (Proc.devRef .tc main_call1_v5)) (after (ops0 (F := F)) U (Proc.devRef .tc main_call1_v5)) :=
  Cert.Lib.ReadFinal.binary (a := main_call1_v5) (b := main_call1_v5) (y := main_call1_v6) (f := (mulf : (⟨S300000x32, .f32⟩ : BufTy).Contents (Elt F) → (⟨S300000x32, .f32⟩ : BufTy).Contents (Elt F) → (⟨S300000x32, .f32⟩ : BufTy).Contents (Elt F))) writes0 62 rfl (by decide) (by decide) (by decide) U
theorem s_main_call1_v7 (U : Valuation τ sig (Elt F)) : (after (ops0 (F := F)) U (Proc.devRef .tc main_call1_v7)) = ((sitofp .f32) : (⟨S_, .i32⟩ : BufTy).Contents (Elt F) → (⟨S_, .f32⟩ : BufTy).Contents (Elt F)) (after (ops0 (F := F)) U (Proc.devRef .tc main_c_4)) :=
  Cert.Lib.ReadFinal.unary (x := main_c_4) (y := main_call1_v7) (f := ((sitofp .f32) : (⟨S_, .i32⟩ : BufTy).Contents (Elt F) → (⟨S_, .f32⟩ : BufTy).Contents (Elt F))) writes0 63 rfl (by decide) (by decide) U
theorem s_main_call1_cst_1 (U : Valuation τ sig (Elt F)) : (after (ops0 (F := F)) U (Proc.devRef .tc main_call1_cst_1)) = (constant (F := F) S_ .f32 0x48927C00#32) :=
  Cert.Lib.ReadFinal.nullary (y := main_call1_cst_1) (v := (constant (F := F) S_ .f32 0x48927C00#32)) writes0 64 rfl (by decide) U
theorem s_main_call1_v8 (U : Valuation τ sig (Elt F)) : (after (ops0 (F := F)) U (Proc.devRef .tc main_call1_v8)) = (subf : (⟨S_, .f32⟩ : BufTy).Contents (Elt F) → (⟨S_, .f32⟩ : BufTy).Contents (Elt F) → (⟨S_, .f32⟩ : BufTy).Contents (Elt F)) (after (ops0 (F := F)) U (Proc.devRef .tc main_call1_cst_1)) (after (ops0 (F := F)) U (Proc.devRef .tc main_call1_v7)) :=
  Cert.Lib.ReadFinal.binary (a := main_call1_cst_1) (b := main_call1_v7) (y := main_call1_v8) (f := (subf : (⟨S_, .f32⟩ : BufTy).Contents (Elt F) → (⟨S_, .f32⟩ : BufTy).Contents (Elt F) → (⟨S_, .f32⟩ : BufTy).Contents (Elt F))) writes0 65 rfl (by decide) (by decide) (by decide) U
theorem s_main_call1_cst_2 (U : Valuation τ sig (Elt F)) : (after (ops0 (F := F)) U (Proc.devRef .tc main_call1_cst_2)) = (constant (F := F) S_ .f32 0x00000000#32) :=
  Cert.Lib.ReadFinal.nullary (y := main_call1_cst_2) (v := (constant (F := F) S_ .f32 0x00000000#32)) writes0 66 rfl (by decide) U
theorem s_main_call1_v9 (U : Valuation τ sig (Elt F)) : (after (ops0 (F := F)) U (Proc.devRef .tc main_call1_v9)) = ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (after (ops0 (F := F)) U (Proc.devRef .tc main_call1_v6)) (after (ops0 (F := F)) U (Proc.devRef .tc main_call1_cst_2)) :=
  Cert.Lib.ReadFinal.binary (a := main_call1_v6) (b := main_call1_cst_2) (y := main_call1_v9) (f := ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F))) writes0 67 rfl (by decide) (by decide) (by decide) U
theorem s_main_call1_v10 (U : Valuation τ sig (Elt F)) : (after (ops0 (F := F)) U (Proc.devRef .tc main_call1_v10)) = ((broadcastInDim S32 ![] bcast_S_S32) : (⟨S_, .f32⟩ : BufTy).Contents (Elt F) → (⟨S32, .f32⟩ : BufTy).Contents (Elt F)) (after (ops0 (F := F)) U (Proc.devRef .tc main_call1_v8)) :=
  Cert.Lib.ReadFinal.unary (x := main_call1_v8) (y := main_call1_v10) (f := ((broadcastInDim S32 ![] bcast_S_S32) : (⟨S_, .f32⟩ : BufTy).Contents (Elt F) → (⟨S32, .f32⟩ : BufTy).Contents (Elt F))) writes0 68 rfl (by decide) (by decide) U
theorem s_main_call1_v11 (U : Valuation τ sig (Elt F)) : (after (ops0 (F := F)) U (Proc.devRef .tc main_call1_v11)) = (Host.divf : (⟨S32, .f32⟩ : BufTy).Contents (Elt F) → (⟨S32, .f32⟩ : BufTy).Contents (Elt F) → (⟨S32, .f32⟩ : BufTy).Contents (Elt F)) (after (ops0 (F := F)) U (Proc.devRef .tc main_call1_v9)) (after (ops0 (F := F)) U (Proc.devRef .tc main_call1_v10)) :=
  Cert.Lib.ReadFinal.binary (a := main_call1_v9) (b := main_call1_v10) (y := main_call1_v11) (f := (Host.divf : (⟨S32, .f32⟩ : BufTy).Contents (Elt F) → (⟨S32, .f32⟩ : BufTy).Contents (Elt F) → (⟨S32, .f32⟩ : BufTy).Contents (Elt F))) writes0 69 rfl (by decide) (by decide) (by decide) U
theorem s_main_call1_cst_3 (U : Valuation τ sig (Elt F)) : (after (ops0 (F := F)) U (Proc.devRef .tc main_call1_cst_3)) = (constant (F := F) S_ .f32 0x00000000#32) :=
  Cert.Lib.ReadFinal.nullary (y := main_call1_cst_3) (v := (constant (F := F) S_ .f32 0x00000000#32)) writes0 70 rfl (by decide) U
theorem s_main_call1_v12 (U : Valuation τ sig (Elt F)) : (after (ops0 (F := F)) U (Proc.devRef .tc main_call1_v12)) = ((cmpf .ogt) : (⟨S_, .f32⟩ : BufTy).Contents (Elt F) → (⟨S_, .f32⟩ : BufTy).Contents (Elt F) → (⟨S_, .i1⟩ : BufTy).Contents (Elt F)) (after (ops0 (F := F)) U (Proc.devRef .tc main_call1_v8)) (after (ops0 (F := F)) U (Proc.devRef .tc main_call1_cst_3)) :=
  Cert.Lib.ReadFinal.binary (a := main_call1_v8) (b := main_call1_cst_3) (y := main_call1_v12) (f := ((cmpf .ogt) : (⟨S_, .f32⟩ : BufTy).Contents (Elt F) → (⟨S_, .f32⟩ : BufTy).Contents (Elt F) → (⟨S_, .i1⟩ : BufTy).Contents (Elt F))) writes0 71 rfl (by decide) (by decide) (by decide) U
theorem s_main_call1_cst_4 (U : Valuation τ sig (Elt F)) : (after (ops0 (F := F)) U (Proc.devRef .tc main_call1_cst_4)) = (constant (F := F) S_ .f32 0x7FC00000#32) :=
  Cert.Lib.ReadFinal.nullary (y := main_call1_cst_4) (v := (constant (F := F) S_ .f32 0x7FC00000#32)) writes0 72 rfl (by decide) U
theorem s_main_call1_call0_v0 (U : Valuation τ sig (Elt F)) : (after (ops0 (F := F)) U (Proc.devRef .tc main_call1_call0_v0)) = (id : (⟨S_, .f32⟩ : BufTy).Contents (Elt F) → (⟨S_, .f32⟩ : BufTy).Contents (Elt F)) (after (ops0 (F := F)) U (Proc.devRef .tc main_call1_cst_4)) :=
  Cert.Lib.ReadFinal.unary (x := main_call1_cst_4) (y := main_call1_call0_v0) (f := (id : (⟨S_, .f32⟩ : BufTy).Contents (Elt F) → (⟨S_, .f32⟩ : BufTy).Contents (Elt F))) writes0 73 rfl (by decide) (by decide) U
theorem s_main_call1_call0_v1 (U : Valuation τ sig (Elt F)) : (after (ops0 (F := F)) U (Proc.devRef .tc main_call1_call0_v1)) = ((broadcastInDim S32 ![] bcast_S_S32) : (⟨S_, .f32⟩ : BufTy).Contents (Elt F) → (⟨S32, .f32⟩ : BufTy).Contents (Elt F)) (after (ops0 (F := F)) U (Proc.devRef .tc main_call1_call0_v0)) :=
  Cert.Lib.ReadFinal.unary (x := main_call1_call0_v0) (y := main_call1_call0_v1) (f := ((broadcastInDim S32 ![] bcast_S_S32) : (⟨S_, .f32⟩ : BufTy).Contents (Elt F) → (⟨S32, .f32⟩ : BufTy).Contents (Elt F))) writes0 74 rfl (by decide) (by decide) U
theorem s_main_v26 (U : Valuation τ sig (Elt F)) : (after (ops0 (F := F)) U (Proc.devRef .tc main_v26)) = ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (after (ops0 (F := F)) U (Proc.devRef .tc main_call1_v12)) (after (ops0 (F := F)) U (Proc.devRef .tc main_call1_v11)) (after (ops0 (F := F)) U (Proc.devRef .tc main_call1_call0_v1)) :=
  Cert.Lib.ReadFinal.ternary (c := main_call1_v12) (a := main_call1_v11) (b := main_call1_call0_v1) (y := main_v26) (f := ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F))) writes0 75 rfl (by decide) (by decide) (by decide) (by decide) U
theorem s_main_v27 (U : Valuation τ sig (Elt F)) : (after (ops0 (F := F)) U (Proc.devRef .tc main_v27)) = (broadcastInDim S1x32 ![1] bcast_S32_S1x32_1 : (⟨S32, .f32⟩ : BufTy).Contents (Elt F) → (⟨S1x32, .f32⟩ : BufTy).Contents (Elt F)) (after (ops0 (F := F)) U (Proc.devRef .tc main_v25)) :=
  Cert.Lib.ReadFinal.unary (x := main_v25) (y := main_v27) (f := (broadcastInDim S1x32 ![1] bcast_S32_S1x32_1 : (⟨S32, .f32⟩ : BufTy).Contents (Elt F) → (⟨S1x32, .f32⟩ : BufTy).Contents (Elt F))) writes0 76 rfl (by decide) (by decide) U
theorem s_main_v28 (U : Valuation τ sig (Elt F)) : (after (ops0 (F := F)) U (Proc.devRef .tc main_v28)) = (broadcastInDim S300000x32 ![0, 1] bcast_S1x32_S300000x32_0_1 : (⟨S1x32, .f32⟩ : BufTy).Contents (Elt F) → (⟨S300000x32, .f32⟩ : BufTy).Contents (Elt F)) (after (ops0 (F := F)) U (Proc.devRef .tc main_v27)) :=
  Cert.Lib.ReadFinal.unary (x := main_v27) (y := main_v28) (f := (broadcastInDim S300000x32 ![0, 1] bcast_S1x32_S300000x32_0_1 : (⟨S1x32, .f32⟩ : BufTy).Contents (Elt F) → (⟨S300000x32, .f32⟩ : BufTy).Contents (Elt F))) writes0 77 rfl (by decide) (by decide) U
theorem s_main_v29 (U : Valuation τ sig (Elt F)) : (after (ops0 (F := F)) U (Proc.devRef .tc main_v29)) = (subf : (⟨S300000x32, .f32⟩ : BufTy).Contents (Elt F) → (⟨S300000x32, .f32⟩ : BufTy).Contents (Elt F) → (⟨S300000x32, .f32⟩ : BufTy).Contents (Elt F)) (after (ops0 (F := F)) U (Proc.devRef .tc main_arg2)) (after (ops0 (F := F)) U (Proc.devRef .tc main_v28)) :=
  Cert.Lib.ReadFinal.binary (a := main_arg2) (b := main_v28) (y := main_v29) (f := (subf : (⟨S300000x32, .f32⟩ : BufTy).Contents (Elt F) → (⟨S300000x32, .f32⟩ : BufTy).Contents (Elt F) → (⟨S300000x32, .f32⟩ : BufTy).Contents (Elt F))) writes0 78 rfl (by decide) (by decide) (by decide) U
theorem s_main_v30 (U : Valuation τ sig (Elt F)) : (after (ops0 (F := F)) U (Proc.devRef .tc main_v30)) = (broadcastInDim S1x32 ![1] bcast_S32_S1x32_1 : (⟨S32, .f32⟩ : BufTy).Contents (Elt F) → (⟨S1x32, .f32⟩ : BufTy).Contents (Elt F)) (after (ops0 (F := F)) U (Proc.devRef .tc main_arg7)) :=
  Cert.Lib.ReadFinal.unary (x := main_arg7) (y := main_v30) (f := (broadcastInDim S1x32 ![1] bcast_S32_S1x32_1 : (⟨S32, .f32⟩ : BufTy).Contents (Elt F) → (⟨S1x32, .f32⟩ : BufTy).Contents (Elt F))) writes0 79 rfl (by decide) (by decide) U
theorem s_main_v31 (U : Valuation τ sig (Elt F)) : (after (ops0 (F := F)) U (Proc.devRef .tc main_v31)) = (broadcastInDim S300000x32 ![0, 1] bcast_S1x32_S300000x32_0_1 : (⟨S1x32, .f32⟩ : BufTy).Contents (Elt F) → (⟨S300000x32, .f32⟩ : BufTy).Contents (Elt F)) (after (ops0 (F := F)) U (Proc.devRef .tc main_v30)) :=
  Cert.Lib.ReadFinal.unary (x := main_v30) (y := main_v31) (f := (broadcastInDim S300000x32 ![0, 1] bcast_S1x32_S300000x32_0_1 : (⟨S1x32, .f32⟩ : BufTy).Contents (Elt F) → (⟨S300000x32, .f32⟩ : BufTy).Contents (Elt F))) writes0 80 rfl (by decide) (by decide) U
theorem s_main_v32 (U : Valuation τ sig (Elt F)) : (after (ops0 (F := F)) U (Proc.devRef .tc main_v32)) = (mulf : (⟨S300000x32, .f32⟩ : BufTy).Contents (Elt F) → (⟨S300000x32, .f32⟩ : BufTy).Contents (Elt F) → (⟨S300000x32, .f32⟩ : BufTy).Contents (Elt F)) (after (ops0 (F := F)) U (Proc.devRef .tc main_v31)) (after (ops0 (F := F)) U (Proc.devRef .tc main_v29)) :=
  Cert.Lib.ReadFinal.binary (a := main_v31) (b := main_v29) (y := main_v32) (f := (mulf : (⟨S300000x32, .f32⟩ : BufTy).Contents (Elt F) → (⟨S300000x32, .f32⟩ : BufTy).Contents (Elt F) → (⟨S300000x32, .f32⟩ : BufTy).Contents (Elt F))) writes0 81 rfl (by decide) (by decide) (by decide) U
theorem s_main_cst_5 (U : Valuation τ sig (Elt F)) : (after (ops0 (F := F)) U (Proc.devRef .tc main_cst_5)) = (constant (F := F) S_ .f32 0x3727C5AC#32) :=
  Cert.Lib.ReadFinal.nullary (y := main_cst_5) (v := (constant (F := F) S_ .f32 0x3727C5AC#32)) writes0 82 rfl (by decide) U
theorem s_main_v33 (U : Valuation τ sig (Elt F)) : (after (ops0 (F := F)) U (Proc.devRef .tc main_v33)) = (broadcastInDim S32 ![] bcast_S_S32 : (⟨S_, .f32⟩ : BufTy).Contents (Elt F) → (⟨S32, .f32⟩ : BufTy).Contents (Elt F)) (after (ops0 (F := F)) U (Proc.devRef .tc main_cst_5)) :=
  Cert.Lib.ReadFinal.unary (x := main_cst_5) (y := main_v33) (f := (broadcastInDim S32 ![] bcast_S_S32 : (⟨S_, .f32⟩ : BufTy).Contents (Elt F) → (⟨S32, .f32⟩ : BufTy).Contents (Elt F))) writes0 83 rfl (by decide) (by decide) U
theorem s_main_v34 (U : Valuation τ sig (Elt F)) : (after (ops0 (F := F)) U (Proc.devRef .tc main_v34)) = (addf : (⟨S32, .f32⟩ : BufTy).Contents (Elt F) → (⟨S32, .f32⟩ : BufTy).Contents (Elt F) → (⟨S32, .f32⟩ : BufTy).Contents (Elt F)) (after (ops0 (F := F)) U (Proc.devRef .tc main_v26)) (after (ops0 (F := F)) U (Proc.devRef .tc main_v33)) :=
  Cert.Lib.ReadFinal.binary (a := main_v26) (b := main_v33) (y := main_v34) (f := (addf : (⟨S32, .f32⟩ : BufTy).Contents (Elt F) → (⟨S32, .f32⟩ : BufTy).Contents (Elt F) → (⟨S32, .f32⟩ : BufTy).Contents (Elt F))) writes0 84 rfl (by decide) (by decide) (by decide) U
theorem s_main_v35 (U : Valuation τ sig (Elt F)) : (after (ops0 (F := F)) U (Proc.devRef .tc main_v35)) = (Host.rsqrt : (⟨S32, .f32⟩ : BufTy).Contents (Elt F) → (⟨S32, .f32⟩ : BufTy).Contents (Elt F)) (after (ops0 (F := F)) U (Proc.devRef .tc main_v34)) :=
  Cert.Lib.ReadFinal.unary (x := main_v34) (y := main_v35) (f := (Host.rsqrt : (⟨S32, .f32⟩ : BufTy).Contents (Elt F) → (⟨S32, .f32⟩ : BufTy).Contents (Elt F))) writes0 85 rfl (by decide) (by decide) U
theorem s_main_v36 (U : Valuation τ sig (Elt F)) : (after (ops0 (F := F)) U (Proc.devRef .tc main_v36)) = (broadcastInDim S1x32 ![1] bcast_S32_S1x32_1 : (⟨S32, .f32⟩ : BufTy).Contents (Elt F) → (⟨S1x32, .f32⟩ : BufTy).Contents (Elt F)) (after (ops0 (F := F)) U (Proc.devRef .tc main_v35)) :=
  Cert.Lib.ReadFinal.unary (x := main_v35) (y := main_v36) (f := (broadcastInDim S1x32 ![1] bcast_S32_S1x32_1 : (⟨S32, .f32⟩ : BufTy).Contents (Elt F) → (⟨S1x32, .f32⟩ : BufTy).Contents (Elt F))) writes0 86 rfl (by decide) (by decide) U
theorem s_main_v37 (U : Valuation τ sig (Elt F)) : (after (ops0 (F := F)) U (Proc.devRef .tc main_v37)) = (broadcastInDim S300000x32 ![0, 1] bcast_S1x32_S300000x32_0_1 : (⟨S1x32, .f32⟩ : BufTy).Contents (Elt F) → (⟨S300000x32, .f32⟩ : BufTy).Contents (Elt F)) (after (ops0 (F := F)) U (Proc.devRef .tc main_v36)) :=
  Cert.Lib.ReadFinal.unary (x := main_v36) (y := main_v37) (f := (broadcastInDim S300000x32 ![0, 1] bcast_S1x32_S300000x32_0_1 : (⟨S1x32, .f32⟩ : BufTy).Contents (Elt F) → (⟨S300000x32, .f32⟩ : BufTy).Contents (Elt F))) writes0 87 rfl (by decide) (by decide) U
theorem s_main_v38 (U : Valuation τ sig (Elt F)) : (after (ops0 (F := F)) U (Proc.devRef .tc main_v38)) = (mulf : (⟨S300000x32, .f32⟩ : BufTy).Contents (Elt F) → (⟨S300000x32, .f32⟩ : BufTy).Contents (Elt F) → (⟨S300000x32, .f32⟩ : BufTy).Contents (Elt F)) (after (ops0 (F := F)) U (Proc.devRef .tc main_v32)) (after (ops0 (F := F)) U (Proc.devRef .tc main_v37)) :=
  Cert.Lib.ReadFinal.binary (a := main_v32) (b := main_v37) (y := main_v38) (f := (mulf : (⟨S300000x32, .f32⟩ : BufTy).Contents (Elt F) → (⟨S300000x32, .f32⟩ : BufTy).Contents (Elt F) → (⟨S300000x32, .f32⟩ : BufTy).Contents (Elt F))) writes0 88 rfl (by decide) (by decide) (by decide) U
theorem s_main_v39 (U : Valuation τ sig (Elt F)) : (after (ops0 (F := F)) U (Proc.devRef .tc main_v39)) = (broadcastInDim S1x32 ![1] bcast_S32_S1x32_1 : (⟨S32, .f32⟩ : BufTy).Contents (Elt F) → (⟨S1x32, .f32⟩ : BufTy).Contents (Elt F)) (after (ops0 (F := F)) U (Proc.devRef .tc main_arg8)) :=
  Cert.Lib.ReadFinal.unary (x := main_arg8) (y := main_v39) (f := (broadcastInDim S1x32 ![1] bcast_S32_S1x32_1 : (⟨S32, .f32⟩ : BufTy).Contents (Elt F) → (⟨S1x32, .f32⟩ : BufTy).Contents (Elt F))) writes0 89 rfl (by decide) (by decide) U
theorem s_main_v40 (U : Valuation τ sig (Elt F)) : (after (ops0 (F := F)) U (Proc.devRef .tc main_v40)) = (broadcastInDim S300000x32 ![0, 1] bcast_S1x32_S300000x32_0_1 : (⟨S1x32, .f32⟩ : BufTy).Contents (Elt F) → (⟨S300000x32, .f32⟩ : BufTy).Contents (Elt F)) (after (ops0 (F := F)) U (Proc.devRef .tc main_v39)) :=
  Cert.Lib.ReadFinal.unary (x := main_v39) (y := main_v40) (f := (broadcastInDim S300000x32 ![0, 1] bcast_S1x32_S300000x32_0_1 : (⟨S1x32, .f32⟩ : BufTy).Contents (Elt F) → (⟨S300000x32, .f32⟩ : BufTy).Contents (Elt F))) writes0 90 rfl (by decide) (by decide) U
theorem s_main_v41 (U : Valuation τ sig (Elt F)) : (after (ops0 (F := F)) U (Proc.devRef .tc main_v41)) = (addf : (⟨S300000x32, .f32⟩ : BufTy).Contents (Elt F) → (⟨S300000x32, .f32⟩ : BufTy).Contents (Elt F) → (⟨S300000x32, .f32⟩ : BufTy).Contents (Elt F)) (after (ops0 (F := F)) U (Proc.devRef .tc main_v38)) (after (ops0 (F := F)) U (Proc.devRef .tc main_v40)) :=
  Cert.Lib.ReadFinal.binary (a := main_v38) (b := main_v40) (y := main_v41) (f := (addf : (⟨S300000x32, .f32⟩ : BufTy).Contents (Elt F) → (⟨S300000x32, .f32⟩ : BufTy).Contents (Elt F) → (⟨S300000x32, .f32⟩ : BufTy).Contents (Elt F))) writes0 91 rfl (by decide) (by decide) (by decide) U
theorem s_main_cst_6 (U : Valuation τ sig (Elt F)) : (after (ops0 (F := F)) U (Proc.devRef .tc main_cst_6)) = (constant (F := F) S_ .f32 0x00000000#32) :=
  Cert.Lib.ReadFinal.nullary (y := main_cst_6) (v := (constant (F := F) S_ .f32 0x00000000#32)) writes0 92 rfl (by decide) U
theorem s_main_v42 (U : Valuation τ sig (Elt F)) : (after (ops0 (F := F)) U (Proc.devRef .tc main_v42)) = ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (after (ops0 (F := F)) U (Proc.devRef .tc main_arg3)) (after (ops0 (F := F)) U (Proc.devRef .tc main_cst_6)) :=
  Cert.Lib.ReadFinal.binary (a := main_arg3) (b := main_cst_6) (y := main_v42) (f := ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F))) writes0 93 rfl (by decide) (by decide) (by decide) U
theorem s_main_cst_7 (U : Valuation τ sig (Elt F)) : (after (ops0 (F := F)) U (Proc.devRef .tc main_cst_7)) = (constant (F := F) S_ .f32 0x42800000#32) :=
  Cert.Lib.ReadFinal.nullary (y := main_cst_7) (v := (constant (F := F) S_ .f32 0x42800000#32)) writes0 94 rfl (by decide) U
theorem s_main_v43 (U : Valuation τ sig (Elt F)) : (after (ops0 (F := F)) U (Proc.devRef .tc main_v43)) = (broadcastInDim S32 ![] bcast_S_S32 : (⟨S_, .f32⟩ : BufTy).Contents (Elt F) → (⟨S32, .f32⟩ : BufTy).Contents (Elt F)) (after (ops0 (F := F)) U (Proc.devRef .tc main_cst_7)) :=
  Cert.Lib.ReadFinal.unary (x := main_cst_7) (y := main_v43) (f := (broadcastInDim S32 ![] bcast_S_S32 : (⟨S_, .f32⟩ : BufTy).Contents (Elt F) → (⟨S32, .f32⟩ : BufTy).Contents (Elt F))) writes0 95 rfl (by decide) (by decide) U
theorem s_main_v44 (U : Valuation τ sig (Elt F)) : (after (ops0 (F := F)) U (Proc.devRef .tc main_v44)) = (Host.divf : (⟨S32, .f32⟩ : BufTy).Contents (Elt F) → (⟨S32, .f32⟩ : BufTy).Contents (Elt F) → (⟨S32, .f32⟩ : BufTy).Contents (Elt F)) (after (ops0 (F := F)) U (Proc.devRef .tc main_v42)) (after (ops0 (F := F)) U (Proc.devRef .tc main_v43)) :=
  Cert.Lib.ReadFinal.binary (a := main_v42) (b := main_v43) (y := main_v44) (f := (Host.divf : (⟨S32, .f32⟩ : BufTy).Contents (Elt F) → (⟨S32, .f32⟩ : BufTy).Contents (Elt F) → (⟨S32, .f32⟩ : BufTy).Contents (Elt F))) writes0 96 rfl (by decide) (by decide) (by decide) U
theorem s_main_c_8 (U : Valuation τ sig (Elt F)) : (after (ops0 (F := F)) U (Proc.devRef .tc main_c_8)) = (constantI S_ 32 0#32) :=
  Cert.Lib.ReadFinal.nullary (y := main_c_8) (v := (constantI S_ 32 0#32)) writes0 97 rfl (by decide) U
theorem s_main_call2_cst (U : Valuation τ sig (Elt F)) : (after (ops0 (F := F)) U (Proc.devRef .tc main_call2_cst)) = (constant (F := F) S_ .f32 0x00000000#32) :=
  Cert.Lib.ReadFinal.nullary (y := main_call2_cst) (v := (constant (F := F) S_ .f32 0x00000000#32)) writes0 98 rfl (by decide) U
theorem s_main_call2_v0 (U : Valuation τ sig (Elt F)) : (after (ops0 (F := F)) U (Proc.devRef .tc main_call2_v0)) = ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (after (ops0 (F := F)) U (Proc.devRef .tc main_arg3)) (after (ops0 (F := F)) U (Proc.devRef .tc main_call2_cst)) :=
  Cert.Lib.ReadFinal.binary (a := main_arg3) (b := main_call2_cst) (y := main_call2_v0) (f := ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F))) writes0 99 rfl (by decide) (by decide) (by decide) U
theorem s_main_call2_v1 (U : Valuation τ sig (Elt F)) : (after (ops0 (F := F)) U (Proc.devRef .tc main_call2_v1)) = ((broadcastInDim S1x32 ![1] bcast_S32_S1x32_1) : (⟨S32, .f32⟩ : BufTy).Contents (Elt F) → (⟨S1x32, .f32⟩ : BufTy).Contents (Elt F)) (after (ops0 (F := F)) U (Proc.devRef .tc main_call2_v0)) :=
  Cert.Lib.ReadFinal.unary (x := main_call2_v0) (y := main_call2_v1) (f := ((broadcastInDim S1x32 ![1] bcast_S32_S1x32_1) : (⟨S32, .f32⟩ : BufTy).Contents (Elt F) → (⟨S1x32, .f32⟩ : BufTy).Contents (Elt F))) writes0 100 rfl (by decide) (by decide) U
theorem s_main_call2_cst_0 (U : Valuation τ sig (Elt F)) : (after (ops0 (F := F)) U (Proc.devRef .tc main_call2_cst_0)) = (constant (F := F) S_ .f32 0x42800000#32) :=
  Cert.Lib.ReadFinal.nullary (y := main_call2_cst_0) (v := (constant (F := F) S_ .f32 0x42800000#32)) writes0 101 rfl (by decide) U
theorem s_main_call2_v2 (U : Valuation τ sig (Elt F)) : (after (ops0 (F := F)) U (Proc.devRef .tc main_call2_v2)) = ((broadcastInDim S1x32 ![] bcast_S_S1x32) : (⟨S_, .f32⟩ : BufTy).Contents (Elt F) → (⟨S1x32, .f32⟩ : BufTy).Contents (Elt F)) (after (ops0 (F := F)) U (Proc.devRef .tc main_call2_cst_0)) :=
  Cert.Lib.ReadFinal.unary (x := main_call2_cst_0) (y := main_call2_v2) (f := ((broadcastInDim S1x32 ![] bcast_S_S1x32) : (⟨S_, .f32⟩ : BufTy).Contents (Elt F) → (⟨S1x32, .f32⟩ : BufTy).Contents (Elt F))) writes0 102 rfl (by decide) (by decide) U
theorem s_main_call2_v3 (U : Valuation τ sig (Elt F)) : (after (ops0 (F := F)) U (Proc.devRef .tc main_call2_v3)) = (Host.divf : (⟨S1x32, .f32⟩ : BufTy).Contents (Elt F) → (⟨S1x32, .f32⟩ : BufTy).Contents (Elt F) → (⟨S1x32, .f32⟩ : BufTy).Contents (Elt F)) (after (ops0 (F := F)) U (Proc.devRef .tc main_call2_v1)) (after (ops0 (F := F)) U (Proc.devRef .tc main_call2_v2)) :=
  Cert.Lib.ReadFinal.binary (a := main_call2_v1) (b := main_call2_v2) (y := main_call2_v3) (f := (Host.divf : (⟨S1x32, .f32⟩ : BufTy).Contents (Elt F) → (⟨S1x32, .f32⟩ : BufTy).Contents (Elt F) → (⟨S1x32, .f32⟩ : BufTy).Contents (Elt F))) writes0 103 rfl (by decide) (by decide) (by decide) U
theorem s_main_call2_v4 (U : Valuation τ sig (Elt F)) : (after (ops0 (F := F)) U (Proc.devRef .tc main_call2_v4)) = ((broadcastInDim S64x32 ![0, 1] bcast_S1x32_S64x32_0_1) : (⟨S1x32, .f32⟩ : BufTy).Contents (Elt F) → (⟨S64x32, .f32⟩ : BufTy).Contents (Elt F)) (after (ops0 (F := F)) U (Proc.devRef .tc main_call2_v3)) :=
  Cert.Lib.ReadFinal.unary (x := main_call2_v3) (y := main_call2_v4) (f := ((broadcastInDim S64x32 ![0, 1] bcast_S1x32_S64x32_0_1) : (⟨S1x32, .f32⟩ : BufTy).Contents (Elt F) → (⟨S64x32, .f32⟩ : BufTy).Contents (Elt F))) writes0 104 rfl (by decide) (by decide) U
theorem s_main_call2_v5 (U : Valuation τ sig (Elt F)) : (after (ops0 (F := F)) U (Proc.devRef .tc main_call2_v5)) = (subf : (⟨S64x32, .f32⟩ : BufTy).Contents (Elt F) → (⟨S64x32, .f32⟩ : BufTy).Contents (Elt F) → (⟨S64x32, .f32⟩ : BufTy).Contents (Elt F)) (after (ops0 (F := F)) U (Proc.devRef .tc main_arg3)) (after (ops0 (F := F)) U (Proc.devRef .tc main_call2_v4)) :=
  Cert.Lib.ReadFinal.binary (a := main_arg3) (b := main_call2_v4) (y := main_call2_v5) (f := (subf : (⟨S64x32, .f32⟩ : BufTy).Contents (Elt F) → (⟨S64x32, .f32⟩ : BufTy).Contents (Elt F) → (⟨S64x32, .f32⟩ : BufTy).Contents (Elt F))) writes0 105 rfl (by decide) (by decide) (by decide) U
theorem s_main_call2_v6 (U : Valuation τ sig (Elt F)) : (after (ops0 (F := F)) U (Proc.devRef .tc main_call2_v6)) = (mulf : (⟨S64x32, .f32⟩ : BufTy).Contents (Elt F) → (⟨S64x32, .f32⟩ : BufTy).Contents (Elt F) → (⟨S64x32, .f32⟩ : BufTy).Contents (Elt F)) (after (ops0 (F := F)) U (Proc.devRef .tc main_call2_v5)) (after (ops0 (F := F)) U (Proc.devRef .tc main_call2_v5)) :=
  Cert.Lib.ReadFinal.binary (a := main_call2_v5) (b := main_call2_v5) (y := main_call2_v6) (f := (mulf : (⟨S64x32, .f32⟩ : BufTy).Contents (Elt F) → (⟨S64x32, .f32⟩ : BufTy).Contents (Elt F) → (⟨S64x32, .f32⟩ : BufTy).Contents (Elt F))) writes0 106 rfl (by decide) (by decide) (by decide) U
theorem s_main_call2_v7 (U : Valuation τ sig (Elt F)) : (after (ops0 (F := F)) U (Proc.devRef .tc main_call2_v7)) = ((sitofp .f32) : (⟨S_, .i32⟩ : BufTy).Contents (Elt F) → (⟨S_, .f32⟩ : BufTy).Contents (Elt F)) (after (ops0 (F := F)) U (Proc.devRef .tc main_c_8)) :=
  Cert.Lib.ReadFinal.unary (x := main_c_8) (y := main_call2_v7) (f := ((sitofp .f32) : (⟨S_, .i32⟩ : BufTy).Contents (Elt F) → (⟨S_, .f32⟩ : BufTy).Contents (Elt F))) writes0 107 rfl (by decide) (by decide) U
theorem s_main_call2_cst_1 (U : Valuation τ sig (Elt F)) : (after (ops0 (F := F)) U (Proc.devRef .tc main_call2_cst_1)) = (constant (F := F) S_ .f32 0x42800000#32) :=
  Cert.Lib.ReadFinal.nullary (y := main_call2_cst_1) (v := (constant (F := F) S_ .f32 0x42800000#32)) writes0 108 rfl (by decide) U
theorem s_main_call2_v8 (U : Valuation τ sig (Elt F)) : (after (ops0 (F := F)) U (Proc.devRef .tc main_call2_v8)) = (subf : (⟨S_, .f32⟩ : BufTy).Contents (Elt F) → (⟨S_, .f32⟩ : BufTy).Contents (Elt F) → (⟨S_, .f32⟩ : BufTy).Contents (Elt F)) (after (ops0 (F := F)) U (Proc.devRef .tc main_call2_cst_1)) (after (ops0 (F := F)) U (Proc.devRef .tc main_call2_v7)) :=
  Cert.Lib.ReadFinal.binary (a := main_call2_cst_1) (b := main_call2_v7) (y := main_call2_v8) (f := (subf : (⟨S_, .f32⟩ : BufTy).Contents (Elt F) → (⟨S_, .f32⟩ : BufTy).Contents (Elt F) → (⟨S_, .f32⟩ : BufTy).Contents (Elt F))) writes0 109 rfl (by decide) (by decide) (by decide) U
theorem s_main_call2_cst_2 (U : Valuation τ sig (Elt F)) : (after (ops0 (F := F)) U (Proc.devRef .tc main_call2_cst_2)) = (constant (F := F) S_ .f32 0x00000000#32) :=
  Cert.Lib.ReadFinal.nullary (y := main_call2_cst_2) (v := (constant (F := F) S_ .f32 0x00000000#32)) writes0 110 rfl (by decide) U
theorem s_main_call2_v9 (U : Valuation τ sig (Elt F)) : (after (ops0 (F := F)) U (Proc.devRef .tc main_call2_v9)) = ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (after (ops0 (F := F)) U (Proc.devRef .tc main_call2_v6)) (after (ops0 (F := F)) U (Proc.devRef .tc main_call2_cst_2)) :=
  Cert.Lib.ReadFinal.binary (a := main_call2_v6) (b := main_call2_cst_2) (y := main_call2_v9) (f := ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F))) writes0 111 rfl (by decide) (by decide) (by decide) U
theorem s_main_call2_v10 (U : Valuation τ sig (Elt F)) : (after (ops0 (F := F)) U (Proc.devRef .tc main_call2_v10)) = ((broadcastInDim S32 ![] bcast_S_S32) : (⟨S_, .f32⟩ : BufTy).Contents (Elt F) → (⟨S32, .f32⟩ : BufTy).Contents (Elt F)) (after (ops0 (F := F)) U (Proc.devRef .tc main_call2_v8)) :=
  Cert.Lib.ReadFinal.unary (x := main_call2_v8) (y := main_call2_v10) (f := ((broadcastInDim S32 ![] bcast_S_S32) : (⟨S_, .f32⟩ : BufTy).Contents (Elt F) → (⟨S32, .f32⟩ : BufTy).Contents (Elt F))) writes0 112 rfl (by decide) (by decide) U
theorem s_main_call2_v11 (U : Valuation τ sig (Elt F)) : (after (ops0 (F := F)) U (Proc.devRef .tc main_call2_v11)) = (Host.divf : (⟨S32, .f32⟩ : BufTy).Contents (Elt F) → (⟨S32, .f32⟩ : BufTy).Contents (Elt F) → (⟨S32, .f32⟩ : BufTy).Contents (Elt F)) (after (ops0 (F := F)) U (Proc.devRef .tc main_call2_v9)) (after (ops0 (F := F)) U (Proc.devRef .tc main_call2_v10)) :=
  Cert.Lib.ReadFinal.binary (a := main_call2_v9) (b := main_call2_v10) (y := main_call2_v11) (f := (Host.divf : (⟨S32, .f32⟩ : BufTy).Contents (Elt F) → (⟨S32, .f32⟩ : BufTy).Contents (Elt F) → (⟨S32, .f32⟩ : BufTy).Contents (Elt F))) writes0 113 rfl (by decide) (by decide) (by decide) U
theorem s_main_call2_cst_3 (U : Valuation τ sig (Elt F)) : (after (ops0 (F := F)) U (Proc.devRef .tc main_call2_cst_3)) = (constant (F := F) S_ .f32 0x00000000#32) :=
  Cert.Lib.ReadFinal.nullary (y := main_call2_cst_3) (v := (constant (F := F) S_ .f32 0x00000000#32)) writes0 114 rfl (by decide) U
theorem s_main_call2_v12 (U : Valuation τ sig (Elt F)) : (after (ops0 (F := F)) U (Proc.devRef .tc main_call2_v12)) = ((cmpf .ogt) : (⟨S_, .f32⟩ : BufTy).Contents (Elt F) → (⟨S_, .f32⟩ : BufTy).Contents (Elt F) → (⟨S_, .i1⟩ : BufTy).Contents (Elt F)) (after (ops0 (F := F)) U (Proc.devRef .tc main_call2_v8)) (after (ops0 (F := F)) U (Proc.devRef .tc main_call2_cst_3)) :=
  Cert.Lib.ReadFinal.binary (a := main_call2_v8) (b := main_call2_cst_3) (y := main_call2_v12) (f := ((cmpf .ogt) : (⟨S_, .f32⟩ : BufTy).Contents (Elt F) → (⟨S_, .f32⟩ : BufTy).Contents (Elt F) → (⟨S_, .i1⟩ : BufTy).Contents (Elt F))) writes0 115 rfl (by decide) (by decide) (by decide) U
theorem s_main_call2_cst_4 (U : Valuation τ sig (Elt F)) : (after (ops0 (F := F)) U (Proc.devRef .tc main_call2_cst_4)) = (constant (F := F) S_ .f32 0x7FC00000#32) :=
  Cert.Lib.ReadFinal.nullary (y := main_call2_cst_4) (v := (constant (F := F) S_ .f32 0x7FC00000#32)) writes0 116 rfl (by decide) U
theorem s_main_call2_call0_v0 (U : Valuation τ sig (Elt F)) : (after (ops0 (F := F)) U (Proc.devRef .tc main_call2_call0_v0)) = (id : (⟨S_, .f32⟩ : BufTy).Contents (Elt F) → (⟨S_, .f32⟩ : BufTy).Contents (Elt F)) (after (ops0 (F := F)) U (Proc.devRef .tc main_call2_cst_4)) :=
  Cert.Lib.ReadFinal.unary (x := main_call2_cst_4) (y := main_call2_call0_v0) (f := (id : (⟨S_, .f32⟩ : BufTy).Contents (Elt F) → (⟨S_, .f32⟩ : BufTy).Contents (Elt F))) writes0 117 rfl (by decide) (by decide) U
theorem s_main_call2_call0_v1 (U : Valuation τ sig (Elt F)) : (after (ops0 (F := F)) U (Proc.devRef .tc main_call2_call0_v1)) = ((broadcastInDim S32 ![] bcast_S_S32) : (⟨S_, .f32⟩ : BufTy).Contents (Elt F) → (⟨S32, .f32⟩ : BufTy).Contents (Elt F)) (after (ops0 (F := F)) U (Proc.devRef .tc main_call2_call0_v0)) :=
  Cert.Lib.ReadFinal.unary (x := main_call2_call0_v0) (y := main_call2_call0_v1) (f := ((broadcastInDim S32 ![] bcast_S_S32) : (⟨S_, .f32⟩ : BufTy).Contents (Elt F) → (⟨S32, .f32⟩ : BufTy).Contents (Elt F))) writes0 118 rfl (by decide) (by decide) U
theorem s_main_v45 (U : Valuation τ sig (Elt F)) : (after (ops0 (F := F)) U (Proc.devRef .tc main_v45)) = ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (after (ops0 (F := F)) U (Proc.devRef .tc main_call2_v12)) (after (ops0 (F := F)) U (Proc.devRef .tc main_call2_v11)) (after (ops0 (F := F)) U (Proc.devRef .tc main_call2_call0_v1)) :=
  Cert.Lib.ReadFinal.ternary (c := main_call2_v12) (a := main_call2_v11) (b := main_call2_call0_v1) (y := main_v45) (f := ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F))) writes0 119 rfl (by decide) (by decide) (by decide) (by decide) U
theorem s_main_v46 (U : Valuation τ sig (Elt F)) : (after (ops0 (F := F)) U (Proc.devRef .tc main_v46)) = (broadcastInDim S1x32 ![1] bcast_S32_S1x32_1 : (⟨S32, .f32⟩ : BufTy).Contents (Elt F) → (⟨S1x32, .f32⟩ : BufTy).Contents (Elt F)) (after (ops0 (F := F)) U (Proc.devRef .tc main_v44)) :=
  Cert.Lib.ReadFinal.unary (x := main_v44) (y := main_v46) (f := (broadcastInDim S1x32 ![1] bcast_S32_S1x32_1 : (⟨S32, .f32⟩ : BufTy).Contents (Elt F) → (⟨S1x32, .f32⟩ : BufTy).Contents (Elt F))) writes0 120 rfl (by decide) (by decide) U
theorem s_main_v47 (U : Valuation τ sig (Elt F)) : (after (ops0 (F := F)) U (Proc.devRef .tc main_v47)) = (broadcastInDim S64x32 ![0, 1] bcast_S1x32_S64x32_0_1 : (⟨S1x32, .f32⟩ : BufTy).Contents (Elt F) → (⟨S64x32, .f32⟩ : BufTy).Contents (Elt F)) (after (ops0 (F := F)) U (Proc.devRef .tc main_v46)) :=
  Cert.Lib.ReadFinal.unary (x := main_v46) (y := main_v47) (f := (broadcastInDim S64x32 ![0, 1] bcast_S1x32_S64x32_0_1 : (⟨S1x32, .f32⟩ : BufTy).Contents (Elt F) → (⟨S64x32, .f32⟩ : BufTy).Contents (Elt F))) writes0 121 rfl (by decide) (by decide) U
theorem s_main_v48 (U : Valuation τ sig (Elt F)) : (after (ops0 (F := F)) U (Proc.devRef .tc main_v48)) = (subf : (⟨S64x32, .f32⟩ : BufTy).Contents (Elt F) → (⟨S64x32, .f32⟩ : BufTy).Contents (Elt F) → (⟨S64x32, .f32⟩ : BufTy).Contents (Elt F)) (after (ops0 (F := F)) U (Proc.devRef .tc main_arg3)) (after (ops0 (F := F)) U (Proc.devRef .tc main_v47)) :=
  Cert.Lib.ReadFinal.binary (a := main_arg3) (b := main_v47) (y := main_v48) (f := (subf : (⟨S64x32, .f32⟩ : BufTy).Contents (Elt F) → (⟨S64x32, .f32⟩ : BufTy).Contents (Elt F) → (⟨S64x32, .f32⟩ : BufTy).Contents (Elt F))) writes0 122 rfl (by decide) (by decide) (by decide) U

end Cert.ReferenceIdeal.Hand

end
-- ==== Proof.Ref.Bound.lean ====
-- written by: gen_ref.js <unit directory>
/- The buffers' contents at the window boundaries of the reference program's @main: after each window in turn, from
   contents V. The whole program's fold is the last of them. -/
import proofs.«123839_j71768903516633_2_alg».proof.Proof.Ref.Writes

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

abbrev U0 (V : Valuation τ sig (Elt F)) : Valuation τ sig (Elt F) := V
abbrev U1 (V : Valuation τ sig (Elt F)) : Valuation τ sig (Elt F) := after (ops0 (F := F)) V
abbrev U2 (V : Valuation τ sig (Elt F)) : Valuation τ sig (Elt F) := after (ops1 (F := F)) (U1 V)
abbrev U3 (V : Valuation τ sig (Elt F)) : Valuation τ sig (Elt F) := after (ops2 (F := F)) (U2 V)
abbrev U4 (V : Valuation τ sig (Elt F)) : Valuation τ sig (Elt F) := after (ops3 (F := F)) (U3 V)
abbrev U5 (V : Valuation τ sig (Elt F)) : Valuation τ sig (Elt F) := after (ops4 (F := F)) (U4 V)
abbrev U6 (V : Valuation τ sig (Elt F)) : Valuation τ sig (Elt F) := after (ops5 (F := F)) (U5 V)

/-- The fold over the whole list is the six windows' folds in turn. -/
theorem after_ops_eq (V : Valuation τ sig (Elt F)) : after (ops (F := F)) V = U6 V := by
  show after (ops0 ++ (ops1 ++ (ops2 ++ (ops3 ++ (ops4 ++ ops5))))) V = _
  rw [StableHlo.after_append, StableHlo.after_append, StableHlo.after_append, StableHlo.after_append, StableHlo.after_append]

theorem congr3 {α β γ δ : Sort _} (f : α → β → γ → δ) {a a' : α} {b b' : β} {c c' : γ} (ha : a = a') (hb : b = b') (hc : c = c') :
    f a b c = f a' b' c' := by subst ha; subst hb; subst hc; rfl
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha; subst hb; subst hc; subst hd; rfl

end Cert.ReferenceIdeal.Hand

end
-- ==== Proof.Ref.Lift0.lean ====
-- written by: gen_ref.js <unit directory>
/- The buffers window 0 of the reference program's @main writes are written by no later window: each holds at the end of @main what it held at every boundary after window 0. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_v0 (V : Valuation τ sig (Elt F)) : (after (ops (F := F)) V (Proc.devRef .tc main_v0)) = (U6 V (Proc.devRef .tc main_v0)) := congrFun (after_ops_eq V) _
theorem lift5_main_v0 (V : Valuation τ sig (Elt F)) : (after (ops (F := F)) V (Proc.devRef .tc main_v0)) = (U5 V (Proc.devRef .tc main_v0)) :=
  (lift6_main_v0 V).trans (after_of_not_mem writes5 (by decide) (U5 V))
theorem lift4_main_v0 (V : Valuation τ sig (Elt F)) : (after (ops (F := F)) V (Proc.devRef .tc main_v0)) = (U4 V (Proc.devRef .tc main_v0)) :=
  (lift5_main_v0 V).trans (after_of_not_mem writes4 (by decide) (U4 V))
theorem lift3_main_v0 (V : Valuation τ sig (Elt F)) : (after (ops (F := F)) V (Proc.devRef .tc main_v0)) = (U3 V (Proc.devRef .tc main_v0)) :=
  (lift4_main_v0 V).trans (after_of_not_mem writes3 (by decide) (U3 V))
theorem lift2_main_v0 (V : Valuation τ sig (Elt F)) : (after (ops (F := F)) V (Proc.devRef .tc main_v0)) = (U2 V (Proc.devRef .tc main_v0)) :=
  (lift3_main_v0 V).trans (after_of_not_mem writes2 (by decide) (U2 V))
theorem lift1_main_v0 (V : Valuation τ sig (Elt F)) : (after (ops (F := F)) V (Proc.devRef .tc main_v0)) = (U1 V (Proc.devRef .tc main_v0)) :=
  (lift2_main_v0 V).trans (after_of_not_mem writes1 (by decide) (U1 V))
theorem lift6_main_v1 (V : Valuation τ sig (Elt F)) : (after (ops (F := F)) V (Proc.devRef .tc main_v1)) = (U6 V (Proc.devRef .tc main_v1)) := congrFun (after_ops_eq V) _
theorem lift5_main_v1 (V : Valuation τ sig (Elt F)) : (after (ops (F := F)) V (Proc.devRef .tc main_v1)) = (U5 V (Proc.devRef .tc main_v1)) :=
  (lift6_main_v1 V).trans (after_of_not_mem writes5 (by decide) (U5 V))
theorem lift4_main_v1 (V : Valuation τ sig (Elt F)) : (after (ops (F := F)) V (Proc.devRef .tc main_v1)) = (U4 V (Proc.devRef .tc main_v1)) :=
  (lift5_main_v1 V).trans (after_of_not_mem writes4 (by decide) (U4 V))
theorem lift3_main_v1 (V : Valuation τ sig (Elt F)) : (after (ops (F := F)) V (Proc.devRef .tc main_v1)) = (U3 V (Proc.devRef .tc main_v1)) :=
  (lift4_main_v1 V).trans (after_of_not_mem writes3 (by decide) (U3 V))
theorem lift2_main_v1 (V : Valuation τ sig (Elt F)) : (after (ops (F := F)) V (Proc.devRef .tc main_v1)) = (U2 V (Proc.devRef .tc main_v1)) :=
  (lift3_main_v1 V).trans (after_of_not_mem writes2 (by decide) (U2 V))
theorem lift1_main_v1 (V : Valuation τ sig (Elt F)) : (after (ops (F := F)) V (Proc.devRef .tc main_v1)) = (U1 V (Proc.devRef .tc main_v1)) :=
  (lift2_main_v1 V).trans (after_of_not_mem writes1 (by decide) (U1 V))
theorem lift6_main_v2 (V : Valuation τ sig (Elt F)) : (after (ops (F := F)) V (Proc.devRef .tc main_v2)) = (U6 V (Proc.devRef .tc main_v2)) := congrFun (after_ops_eq V) _
theorem lift5_main_v2 (V : Valuation τ sig (Elt F)) : (after (ops (F := F)) V (Proc.devRef .tc main_v2)) = (U5 V (Proc.devRef .tc main_v2)) :=
  (lift6_main_v2 V).trans (after_of_not_mem writes5 (by decide) (U5 V))
theorem lift4_main_v2 (V : Valuation τ sig (Elt F)) : (after (ops (F := F)) V (Proc.devRef .tc main_v2)) = (U4 V (Proc.devRef .tc main_v2)) :=
  (lift5_main_v2 V).trans (after_of_not_mem writes4 (by decide) (U4 V))
theorem lift3_main_v2 (V : Valuation τ sig (Elt F)) : (after (ops (F := F)) V (Proc.devRef .tc main_v2)) = (U3 V (Proc.devRef .tc main_v2)) :=
  (lift4_main_v2 V).trans (after_of_not_mem writes3 (by decide) (U3 V))
theorem lift2_main_v2 (V : Valuation τ sig (Elt F)) : (after (ops (F := F)) V (Proc.devRef .tc main_v2)) = (U2 V (Proc.devRef .tc main_v2)) :=
  (lift3_main_v2 V).trans (after_of_not_mem writes2 (by decide) (U2 V))
theorem lift1_main_v2 (V : Valuation τ sig (Elt F)) : (after (ops (F := F)) V (Proc.devRef .tc main_v2)) = (U1 V (Proc.devRef .tc main_v2)) :=
  (lift2_main_v2 V).trans (after_of_not_mem writes1 (by decide) (U1 V))
theorem lift6_main_v3 (V : Valuation τ sig (Elt F)) : (after (ops (F := F)) V (Proc.devRef .tc main_v3)) = (U6 V (Proc.devRef .tc main_v3)) := congrFun (after_ops_eq V) _
theorem lift5_main_v3 (V : Valuation τ sig (Elt F)) : (after (ops (F := F)) V (Proc.devRef .tc main_v3)) = (U5 V (Proc.devRef .tc main_v3)) :=
  (lift6_main_v3 V).trans (after_of_not_mem writes5 (by decide) (U5 V))
theorem lift4_main_v3 (V : Valuation τ sig (Elt F)) : (after (ops (F := F)) V (Proc.devRef .tc main_v3)) = (U4 V (Proc.devRef .tc main_v3)) :=
  (lift5_main_v3 V).trans (after_of_not_mem writes4 (by decide) (U4 V))
theorem lift3_main_v3 (V : Valuation τ sig (Elt F)) : (after (ops (F := F)) V (Proc.devRef .tc main_v3)) = (U3 V (Proc.devRef .tc main_v3)) :=
  (lift4_main_v3 V).trans (after_of_not_mem writes3 (by decide) (U3 V))
theorem lift2_main_v3 (V : Valuation τ sig (Elt F)) : (after (ops (F := F)) V (Proc.devRef .tc main_v3)) = (U2 V (Proc.devRef .tc main_v3)) :=
  (lift3_main_v3 V).trans (after_of_not_mem writes2 (by decide) (U2 V))
theorem lift1_main_v3 (V : Valuation τ sig (Elt F)) : (after (ops (F := F)) V (Proc.devRef .tc main_v3)) = (U1 V (Proc.devRef .tc main_v3)) :=
  (lift2_main_v3 V).trans (after_of_not_mem writes1 (by decide) (U1 V))
theorem lift6_main_cst (V : Valuation τ sig (Elt F)) : (after (ops (F := F)) V (Proc.devRef .tc main_cst)) = (U6 V (Proc.devRef .tc main_cst)) := congrFun (after_ops_eq V) _
theorem lift5_main_cst (V : Valuation τ sig (Elt F)) : (after (ops (F := F)) V (Proc.devRef .tc main_cst)) = (U5 V (Proc.devRef .tc main_cst)) :=
  (lift6_main_cst V).trans (after_of_not_mem writes5 (by decide) (U5 V))
theorem lift4_main_cst (V : Valuation τ sig (Elt F)) : (after (ops (F := F)) V (Proc.devRef .tc main_cst)) = (U4 V (Proc.devRef .tc main_cst)) :=
  (lift5_main_cst V).trans (after_of_not_mem writes4 (by decide) (U4 V))
theorem lift3_main_cst (V : Valuation τ sig (Elt F)) : (after (ops (F := F)) V (Proc.devRef .tc main_cst)) = (U3 V (Proc.devRef .tc main_cst)) :=
  (lift4_main_cst V).trans (after_of_not_mem writes3 (by decide) (U3 V))
theorem lift2_main_cst (V : Valuation τ sig (Elt F)) : (after (ops (F := F)) V (Proc.devRef .tc main_cst)) = (U2 V (Proc.devRef .tc main_cst)) :=
  (lift3_main_cst V).trans (after_of_not_mem writes2 (by decide) (U2 V))
theorem lift1_main_cst (V : Valuation τ sig (Elt F)) : (after (ops (F := F)) V (Proc.devRef .tc main_cst)) = (U1 V (Proc.devRef .tc main_cst)) :=
  (lift2_main_cst V).trans (after_of_not_mem writes1 (by decide) (U1 V))
theorem lift6_main_v4 (V : Valuation τ sig (Elt F)) : (after (ops (F := F)) V (Proc.devRef .tc main_v4)) = (U6 V (Proc.devRef .tc main_v4)) := congrFun (after_ops_eq V) _
theorem lift5_main_v4 (V : Valuation τ sig (Elt F)) : (after (ops (F := F)) V (Proc.devRef .tc main_v4)) = (U5 V (Proc.devRef .tc main_v4)) :=
  (lift6_main_v4 V).trans (after_of_not_mem writes5 (by decide) (U5 V))
theorem lift4_main_v4 (V : Valuation τ sig (Elt F)) : (after (ops (F := F)) V (Proc.devRef .tc main_v4)) = (U4 V (Proc.devRef .tc main_v4)) :=
  (lift5_main_v4 V).trans (after_of_not_mem writes4 (by decide) (U4 V))
theorem lift3_main_v4 (V : Valuation τ sig (Elt F)) : (after (ops (F := F)) V (Proc.devRef .tc main_v4)) = (U3 V (Proc.devRef .tc main_v4)) :=
  (lift4_main_v4 V).trans (after_of_not_mem writes3 (by decide) (U3 V))
theorem lift2_main_v4 (V : Valuation τ sig (Elt F)) : (after (ops (F := F)) V (Proc.devRef .tc main_v4)) = (U2 V (Proc.devRef .tc main_v4)) :=
  (lift3_main_v4 V).trans (after_of_not_mem writes2 (by decide) (U2 V))
theorem lift1_main_v4 (V : Valuation τ sig (Elt F)) : (after (ops (F := F)) V (Proc.devRef .tc main_v4)) = (U1 V (Proc.devRef .tc main_v4)) :=
  (lift2_main_v4 V).trans (after_of_not_mem writes1 (by decide) (U1 V))
theorem lift6_main_cst_0 (V : Valuation τ sig (Elt F)) : (after (ops (F := F)) V (Proc.devRef .tc main_cst_0)) = (U6 V (Proc.devRef .tc main_cst_0)) := congrFun (after_ops_eq V) _
theorem lift5_main_cst_0 (V : Valuation τ sig (Elt F)) : (after (ops (F := F)) V (Proc.devRef .tc main_cst_0)) = (U5 V (Proc.devRef .tc main_cst_0)) :=
  (lift6_main_cst_0 V).trans (after_of_not_mem writes5 (by decide) (U5 V))
theorem lift4_main_cst_0 (V : Valuation τ sig (Elt F)) : (after (ops (F := F)) V (Proc.devRef .tc main_cst_0)) = (U4 V (Proc.devRef .tc main_cst_0)) :=
  (lift5_main_cst_0 V).trans (after_of_not_mem writes4 (by decide) (U4 V))
theorem lift3_main_cst_0 (V : Valuation τ sig (Elt F)) : (after (ops (F := F)) V (Proc.devRef .tc main_cst_0)) = (U3 V (Proc.devRef .tc main_cst_0)) :=
  (lift4_main_cst_0 V).trans (after_of_not_mem writes3 (by decide) (U3 V))
theorem lift2_main_cst_0 (V : Valuation τ sig (Elt F)) : (after (ops (F := F)) V (Proc.devRef .tc main_cst_0)) = (U2 V (Proc.devRef .tc main_cst_0)) :=
  (lift3_main_cst_0 V).trans (after_of_not_mem writes2 (by decide) (U2 V))
theorem lift1_main_cst_0 (V : Valuation τ sig (Elt F)) : (after (ops (F := F)) V (Proc.devRef .tc main_cst_0)) = (U1 V (Proc.devRef .tc main_cst_0)) :=
  (lift2_main_cst_0 V).trans (after_of_not_mem writes1 (by decide) (U1 V))
theorem lift6_main_v5 (V : Valuation τ sig (Elt F)) : (after (ops (F := F)) V (Proc.devRef .tc main_v5)) = (U6 V (Proc.devRef .tc main_v5)) := congrFun (after_ops_eq V) _
theorem lift5_main_v5 (V : Valuation τ sig (Elt F)) : (after (ops (F := F)) V (Proc.devRef .tc main_v5)) = (U5 V (Proc.devRef .tc main_v5)) :=
  (lift6_main_v5 V).trans (after_of_not_mem writes5 (by decide) (U5 V))
theorem lift4_main_v5 (V : Valuation τ sig (Elt F)) : (after (ops (F := F)) V (Proc.devRef .tc main_v5)) = (U4 V (Proc.devRef .tc main_v5)) :=
  (lift5_main_v5 V).trans (after_of_not_mem writes4 (by decide) (U4 V))
theorem lift3_main_v5 (V : Valuation τ sig (Elt F)) : (after (ops (F := F)) V (Proc.devRef .tc main_v5)) = (U3 V (Proc.devRef .tc main_v5)) :=
  (lift4_main_v5 V).trans (after_of_not_mem writes3 (by decide) (U3 V))
theorem lift2_main_v5 (V : Valuation τ sig (Elt F)) : (after (ops (F := F)) V (Proc.devRef .tc main_v5)) = (U2 V (Proc.devRef .tc main_v5)) :=
  (lift3_main_v5 V).trans (after_of_not_mem writes2 (by decide) (U2 V))
theorem lift1_main_v5 (V : Valuation τ sig (Elt F)) : (after (ops (F := F)) V (Proc.devRef .tc main_v5)) = (U1 V (Proc.devRef .tc main_v5)) :=
  (lift2_main_v5 V).trans (after_of_not_mem writes1 (by decide) (U1 V))
theorem lift6_main_v6 (V : Valuation τ sig (Elt F)) : (after (ops (F := F)) V (Proc.devRef .tc main_v6)) = (U6 V (Proc.devRef .tc main_v6)) := congrFun (after_ops_eq V) _
theorem lift5_main_v6 (V : Valuation τ sig (Elt F)) : (after (ops (F := F)) V (Proc.devRef .tc main_v6)) = (U5 V (Proc.devRef .tc main_v6)) :=
  (lift6_main_v6 V).trans (after_of_not_mem writes5 (by decide) (U5 V))
theorem lift4_main_v6 (V : Valuation τ sig (Elt F)) : (after (ops (F := F)) V (Proc.devRef .tc main_v6)) = (U4 V (Proc.devRef .tc main_v6)) :=
  (lift5_main_v6 V).trans (after_of_not_mem writes4 (by decide) (U4 V))
theorem lift3_main_v6 (V : Valuation τ sig (Elt F)) : (after (ops (F := F)) V (Proc.devRef .tc main_v6)) = (U3 V (Proc.devRef .tc main_v6)) :=
  (lift4_main_v6 V).trans (after_of_not_mem writes3 (by decide) (U3 V))
theorem lift2_main_v6 (V : Valuation τ sig (Elt F)) : (after (ops (F := F)) V (Proc.devRef .tc main_v6)) = (U2 V (Proc.devRef .tc main_v6)) :=
  (lift3_main_v6 V).trans (after_of_not_mem writes2 (by decide) (U2 V))
theorem lift1_main_v6 (V : Valuation τ sig (Elt F)) : (after (ops (F := F)) V (Proc.devRef .tc main_v6)) = (U1 V (Proc.devRef .tc main_v6)) :=
  (lift2_main_v6 V).trans (after_of_not_mem writes1 (by decide) (U1 V))
theorem lift6_main_c (V : Valuation τ sig (Elt F)) : (after (ops (F := F)) V (Proc.devRef .tc main_c)) = (U6 V (Proc.devRef .tc main_c)) := congrFun (after_ops_eq V) _
theorem lift5_main_c (V : Valuation τ sig (Elt F)) : (after (ops (F := F)) V (Proc.devRef .tc main_c)) = (U5 V (Proc.devRef .tc main_c)) :=
  (lift6_main_c V).trans (after_of_not_mem writes5 (by decide) (U5 V))
theorem lift4_main_c (V : Valuation τ sig (Elt F)) : (after (ops (F := F)) V (Proc.devRef .tc main_c)) = (U4 V (Proc.devRef .tc main_c)) :=
  (lift5_main_c V).trans (after_of_not_mem writes4 (by decide) (U4 V))
theorem lift3_main_c (V : Valuation τ sig (Elt F)) : (after (ops (F := F)) V (Proc.devRef .tc main_c)) = (U3 V (Proc.devRef .tc main_c)) :=
  (lift4_main_c V).trans (after_of_not_mem writes3 (by decide) (U3 V))
theorem lift2_main_c (V : Valuation τ sig (Elt F)) : (after (ops (F := F)) V (Proc.devRef .tc main_c)) = (U2 V (Proc.devRef .tc main_c)) :=
  (lift3_main_c V).trans (after_of_not_mem writes2 (by decide) (U2 V))
theorem lift1_main_c (V : Valuation τ sig (Elt F)) : (after (ops (F := F)) V (Proc.devRef .tc main_c)) = (U1 V (Proc.devRef .tc main_c)) :=
  (lift2_main_c V).trans (after_of_not_mem writes1 (by decide) (U1 V))
theorem lift6_main_call0_cst (V : Valuation τ sig (Elt F)) : (after (ops (F := F)) V (Proc.devRef .tc main_call0_cst)) = (U6 V (Proc.devRef .tc main_call0_cst)) := congrFun (after_ops_eq V) _
theorem lift5_main_call0_cst (V : Valuation τ sig (Elt F)) : (after (ops (F := F)) V (Proc.devRef .tc main_call0_cst)) = (U5 V (Proc.devRef .tc main_call0_cst)) :=
  (lift6_main_call0_cst V).trans (after_of_not_mem writes5 (by decide) (U5 V))
theorem lift4_main_call0_cst (V : Valuation τ sig (Elt F)) : (after (ops (F := F)) V (Proc.devRef .tc main_call0_cst)) = (U4 V (Proc.devRef .tc main_call0_cst)) :=
  (lift5_main_call0_cst V).trans (after_of_not_mem writes4 (by decide) (U4 V))
theorem lift3_main_call0_cst (V : Valuation τ sig (Elt F)) : (after (ops (F := F)) V (Proc.devRef .tc main_call0_cst)) = (U3 V (Proc.devRef .tc main_call0_cst)) :=
  (lift4_main_call0_cst V).trans (after_of_not_mem writes3 (by decide) (U3 V))
theorem lift2_main_call0_cst (V : Valuation τ sig (Elt F)) : (after (ops (F := F)) V (Proc.devRef .tc main_call0_cst)) = (U2 V (Proc.devRef .tc main_call0_cst)) :=
  (lift3_main_call0_cst V).trans (after_of_not_mem writes2 (by decide) (U2 V))
theorem lift1_main_call0_cst (V : Valuation τ sig (Elt F)) : (after (ops (F := F)) V (Proc.devRef .tc main_call0_cst)) = (U1 V (Proc.devRef .tc main_call0_cst)) :=
  (lift2_main_call0_cst V).trans (after_of_not_mem writes1 (by decide) (U1 V))
theorem lift6_main_call0_v0 (V : Valuation τ sig (Elt F)) : (after (ops (F := F)) V (Proc.devRef .tc main_call0_v0)) = (U6 V (Proc.devRef .tc main_call0_v0)) := congrFun (after_ops_eq V) _
theorem lift5_main_call0_v0 (V : Valuation τ sig (Elt F)) : (after (ops (F := F)) V (Proc.devRef .tc main_call0_v0)) = (U5 V (Proc.devRef .tc main_call0_v0)) :=
  (lift6_main_call0_v0 V).trans (after_of_not_mem writes5 (by decide) (U5 V))
theorem lift4_main_call0_v0 (V : Valuation τ sig (Elt F)) : (after (ops (F := F)) V (Proc.devRef .tc main_call0_v0)) = (U4 V (Proc.devRef .tc main_call0_v0)) :=
  (lift5_main_call0_v0 V).trans (after_of_not_mem writes4 (by decide) (U4 V))
theorem lift3_main_call0_v0 (V : Valuation τ sig (Elt F)) : (after (ops (F := F)) V (Proc.devRef .tc main_call0_v0)) = (U3 V (Proc.devRef .tc main_call0_v0)) :=
  (lift4_main_call0_v0 V).trans (after_of_not_mem writes3 (by decide) (U3 V))
theorem lift2_main_call0_v0 (V : Valuation τ sig (Elt F)) : (after (ops (F := F)) V (Proc.devRef .tc main_call0_v0)) = (U2 V (Proc.devRef .tc main_call0_v0)) :=
  (lift3_main_call0_v0 V).trans (after_of_not_mem writes2 (by decide) (U2 V))
theorem lift1_main_call0_v0 (V : Valuation τ sig (Elt F)) : (after (ops (F := F)) V (Proc.devRef .tc main_call0_v0)) = (U1 V (Proc.devRef .tc main_call0_v0)) :=
  (lift2_main_call0_v0 V).trans (after_of_not_mem writes1 (by decide) (U1 V))
theorem lift6_main_call0_v1 (V : Valuation τ sig (Elt F)) : (after (ops (F := F)) V (Proc.devRef .tc main_call0_v1)) = (U6 V (Proc.devRef .tc main_call0_v1)) := congrFun (after_ops_eq V) _
theorem lift5_main_call0_v1 (V : Valuation τ sig (Elt F)) : (after (ops (F := F)) V (Proc.devRef .tc main_call0_v1)) = (U5 V (Proc.devRef .tc main_call0_v1)) :=
  (lift6_main_call0_v1 V).trans (after_of_not_mem writes5 (by decide) (U5 V))
theorem lift4_main_call0_v1 (V : Valuation τ sig (Elt F)) : (after (ops (F := F)) V (Proc.devRef .tc main_call0_v1)) = (U4 V (Proc.devRef .tc main_call0_v1)) :=
  (lift5_main_call0_v1 V).trans (after_of_not_mem writes4 (by decide) (U4 V))
theorem lift3_main_call0_v1 (V : Valuation τ sig (Elt F)) : (after (ops (F := F)) V (Proc.devRef .tc main_call0_v1)) = (U3 V (Proc.devRef .tc main_call0_v1)) :=
  (lift4_main_call0_v1 V).trans (after_of_not_mem writes3 (by decide) (U3 V))
theorem lift2_main_call0_v1 (V : Valuation τ sig (Elt F)) : (after (ops (F := F)) V (Proc.devRef .tc main_call0_v1)) = (U2 V (Proc.devRef .tc main_call0_v1)) :=
  (lift3_main_call0_v1 V).trans (after_of_not_mem writes2 (by decide) (U2 V))
theorem lift1_main_call0_v1 (V : Valuation τ sig (Elt F)) : (after (ops (F := F)) V (Proc.devRef .tc main_call0_v1)) = (U1 V (Proc.devRef .tc main_call0_v1)) :=
  (lift2_main_call0_v1 V).trans (after_of_not_mem writes1 (by decide) (U1 V))
theorem lift6_main_call0_cst_0 (V : Valuation τ sig (Elt F)) : (after (ops (F := F)) V (Proc.devRef .tc main_call0_cst_0)) = (U6 V (Proc.devRef .tc main_call0_cst_0)) := congrFun (after_ops_eq V) _
theorem lift5_main_call0_cst_0 (V : Valuation τ sig (Elt F)) : (after (ops (F := F)) V (Proc.devRef .tc main_call0_cst_0)) = (U5 V (Proc.devRef .tc main_call0_cst_0)) :=
  (lift6_main_call0_cst_0 V).trans (after_of_not_mem writes5 (by decide) (U5 V))
theorem lift4_main_call0_cst_0 (V : Valuation τ sig (Elt F)) : (after (ops (F := F)) V (Proc.devRef .tc main_call0_cst_0)) = (U4 V (Proc.devRef .tc main_call0_cst_0)) :=
  (lift5_main_call0_cst_0 V).trans (after_of_not_mem writes4 (by decide) (U4 V))
theorem lift3_main_call0_cst_0 (V : Valuation τ sig (Elt F)) : (after (ops (F := F)) V (Proc.devRef .tc main_call0_cst_0)) = (U3 V (Proc.devRef .tc main_call0_cst_0)) :=
  (lift4_main_call0_cst_0 V).trans (after_of_not_mem writes3 (by decide) (U3 V))
theorem lift2_main_call0_cst_0 (V : Valuation τ sig (Elt F)) : (after (ops (F := F)) V (Proc.devRef .tc main_call0_cst_0)) = (U2 V (Proc.devRef .tc main_call0_cst_0)) :=
  (lift3_main_call0_cst_0 V).trans (after_of_not_mem writes2 (by decide) (U2 V))
theorem lift1_main_call0_cst_0 (V : Valuation τ sig (Elt F)) : (after (ops (F := F)) V (Proc.devRef .tc main_call0_cst_0)) = (U1 V (Proc.devRef .tc main_call0_cst_0)) :=
  (lift2_main_call0_cst_0 V).trans (after_of_not_mem writes1 (by decide) (U1 V))
theorem lift6_main_call0_v2 (V : Valuation τ sig (Elt F)) : (after (ops (F := F)) V (Proc.devRef .tc main_call0_v2)) = (U6 V (Proc.devRef .tc main_call0_v2)) := congrFun (after_ops_eq V) _
theorem lift5_main_call0_v2 (V : Valuation τ sig (Elt F)) : (after (ops (F := F)) V (Proc.devRef .tc main_call0_v2)) = (U5 V (Proc.devRef .tc main_call0_v2)) :=
  (lift6_main_call0_v2 V).trans (after_of_not_mem writes5 (by decide) (U5 V))
theorem lift4_main_call0_v2 (V : Valuation τ sig (Elt F)) : (after (ops (F := F)) V (Proc.devRef .tc main_call0_v2)) = (U4 V (Proc.devRef .tc main_call0_v2)) :=
  (lift5_main_call0_v2 V).trans (after_of_not_mem writes4 (by decide) (U4 V))
theorem lift3_main_call0_v2 (V : Valuation τ sig (Elt F)) : (after (ops (F := F)) V (Proc.devRef .tc main_call0_v2)) = (U3 V (Proc.devRef .tc main_call0_v2)) :=
  (lift4_main_call0_v2 V).trans (after_of_not_mem writes3 (by decide) (U3 V))
theorem lift2_main_call0_v2 (V : Valuation τ sig (Elt F)) : (after (ops (F := F)) V (Proc.devRef .tc main_call0_v2)) = (U2 V (Proc.devRef .tc main_call0_v2)) :=
  (lift3_main_call0_v2 V).trans (after_of_not_mem writes2 (by decide) (U2 V))
theorem lift1_main_call0_v2 (V : Valuation τ sig (Elt F)) : (after (ops (F := F)) V (Proc.devRef .tc main_call0_v2)) = (U1 V (Proc.devRef .tc main_call0_v2)) :=
  (lift2_main_call0_v2 V).trans (after_of_not_mem writes1 (by decide) (U1 V))
theorem lift6_main_call0_v3 (V : Valuation τ sig (Elt F)) : (after (ops (F := F)) V (Proc.devRef .tc main_call0_v3)) = (U6 V (Proc.devRef .tc main_call0_v3)) := congrFun (after_ops_eq V) _
theorem lift5_main_call0_v3 (V : Valuation τ sig (Elt F)) : (after (ops (F := F)) V (Proc.devRef .tc main_call0_v3)) = (U5 V (Proc.devRef .tc main_call0_v3)) :=
  (lift6_main_call0_v3 V).trans (after_of_not_mem writes5 (by decide) (U5 V))
theorem lift4_main_call0_v3 (V : Valuation τ sig (Elt F)) : (after (ops (F := F)) V (Proc.devRef .tc main_call0_v3)) = (U4 V (Proc.devRef .tc main_call0_v3)) :=
  (lift5_main_call0_v3 V).trans (after_of_not_mem writes4 (by decide) (U4 V))
theorem lift3_main_call0_v3 (V : Valuation τ sig (Elt F)) : (after (ops (F := F)) V (Proc.devRef .tc main_call0_v3)) = (U3 V (Proc.devRef .tc main_call0_v3)) :=
  (lift4_main_call0_v3 V).trans (after_of_not_mem writes3 (by decide) (U3 V))
theorem lift2_main_call0_v3 (V : Valuation τ sig (Elt F)) : (after (ops (F := F)) V (Proc.devRef .tc main_call0_v3)) = (U2 V (Proc.devRef .tc main_call0_v3)) :=
  (lift3_main_call0_v3 V).trans (after_of_not_mem writes2 (by decide) (U2 V))
theorem lift1_main_call0_v3 (V : Valuation τ sig (Elt F)) : (after (ops (F := F)) V (Proc.devRef .tc main_call0_v3)) = (U1 V (Proc.devRef .tc main_call0_v3)) :=
  (lift2_main_call0_v3 V).trans (after_of_not_mem writes1 (by decide) (U1 V))
theorem lift6_main_call0_v4 (V : Valuation τ sig (Elt F)) : (after (ops (F := F)) V (Proc.devRef .tc main_call0_v4)) = (U6 V (Proc.devRef .tc main_call0_v4)) := congrFun (after_ops_eq V) _
theorem lift5_main_call0_v4 (V : Valuation τ sig (Elt F)) : (after (ops (F := F)) V (Proc.devRef .tc main_call0_v4)) = (U5 V (Proc.devRef .tc main_call0_v4)) :=
  (lift6_main_call0_v4 V).trans (after_of_not_mem writes5 (by decide) (U5 V))
theorem lift4_main_call0_v4 (V : Valuation τ sig (Elt F)) : (after (ops (F := F)) V (Proc.devRef .tc main_call0_v4)) = (U4 V (Proc.devRef .tc main_call0_v4)) :=
  (lift5_main_call0_v4 V).trans (after_of_not_mem writes4 (by decide) (U4 V))
theorem lift3_main_call0_v4 (V : Valuation τ sig (Elt F)) : (after (ops (F := F)) V (Proc.devRef .tc main_call0_v4)) = (U3 V (Proc.devRef .tc main_call0_v4)) :=
  (lift4_main_call0_v4 V).trans (after_of_not_mem writes3 (by decide) (U3 V))
theorem lift2_main_call0_v4 (V : Valuation τ sig (Elt F)) : (after (ops (F := F)) V (Proc.devRef .tc main_call0_v4)) = (U2 V (Proc.devRef .tc main_call0_v4)) :=
  (lift3_main_call0_v4 V).trans (after_of_not_mem writes2 (by decide) (U2 V))
theorem lift1_main_call0_v4 (V : Valuation τ sig (Elt F)) : (after (ops (F := F)) V (Proc.devRef .tc main_call0_v4)) = (U1 V (Proc.devRef .tc main_call0_v4)) :=
  (lift2_main_call0_v4 V).trans (after_of_not_mem writes1 (by decide) (U1 V))
theorem lift6_main_call0_v5 (V : Valuation τ sig (Elt F)) : (after (ops (F := F)) V (Proc.devRef .tc main_call0_v5)) = (U6 V (Proc.devRef .tc main_call0_v5)) := congrFun (after_ops_eq V) _
theorem lift5_main_call0_v5 (V : Valuation τ sig (Elt F)) : (after (ops (F := F)) V (Proc.devRef .tc main_call0_v5)) = (U5 V (Proc.devRef .tc main_call0_v5)) :=
  (lift6_main_call0_v5 V).trans (after_of_not_mem writes5 (by decide) (U5 V))
theorem lift4_main_call0_v5 (V : Valuation τ sig (Elt F)) : (after (ops (F := F)) V (Proc.devRef .tc main_call0_v5)) = (U4 V (Proc.devRef .tc main_call0_v5)) :=
  (lift5_main_call0_v5 V).trans (after_of_not_mem writes4 (by decide) (U4 V))
theorem lift3_main_call0_v5 (V : Valuation τ sig (Elt F)) : (after (ops (F := F)) V (Proc.devRef .tc main_call0_v5)) = (U3 V (Proc.devRef .tc main_call0_v5)) :=
  (lift4_main_call0_v5 V).trans (after_of_not_mem writes3 (by decide) (U3 V))
theorem lift2_main_call0_v5 (V : Valuation τ sig (Elt F)) : (after (ops (F := F)) V (Proc.devRef .tc main_call0_v5)) = (U2 V (Proc.devRef .tc main_call0_v5)) :=
  (lift3_main_call0_v5 V).trans (after_of_not_mem writes2 (by decide) (U2 V))
theorem lift1_main_call0_v5 (V : Valuation τ sig (Elt F)) : (after (ops (F := F)) V (Proc.devRef .tc main_call0_v5)) = (U1 V (Proc.devRef .tc main_call0_v5)) :=
  (lift2_main_call0_v5 V).trans (after_of_not_mem writes1 (by decide) (U1 V))
theorem lift6_main_call0_v6 (V : Valuation τ sig (Elt F)) : (after (ops (F := F)) V (Proc.devRef .tc main_call0_v6)) = (U6 V (Proc.devRef .tc main_call0_v6)) := congrFun (after_ops_eq V) _
theorem lift5_main_call0_v6 (V : Valuation τ sig (Elt F)) : (after (ops (F := F)) V (Proc.devRef .tc main_call0_v6)) = (U5 V (Proc.devRef .tc main_call0_v6)) :=
  (lift6_main_call0_v6 V).trans (after_of_not_mem writes5 (by decide) (U5 V))
theorem lift4_main_call0_v6 (V : Valuation τ sig (Elt F)) : (after (ops (F := F)) V (Proc.devRef .tc main_call0_v6)) = (U4 V (Proc.devRef .tc main_call0_v6)) :=
  (lift5_main_call0_v6 V).trans (after_of_not_mem writes4 (by decide) (U4 V))
theorem lift3_main_call0_v6 (V : Valuation τ sig (Elt F)) : (after (ops (F := F)) V (Proc.devRef .tc main_call0_v6)) = (U3 V (Proc.devRef .tc main_call0_v6)) :=
  (lift4_main_call0_v6 V).trans (after_of_not_mem writes3 (by decide) (U3 V))
theorem lift2_main_call0_v6 (V : Valuation τ sig (Elt F)) : (after (ops (F := F)) V (Proc.devRef .tc main_call0_v6)) = (U2 V (Proc.devRef .tc main_call0_v6)) :=
  (lift3_main_call0_v6 V).trans (after_of_not_mem writes2 (by decide) (U2 V))
theorem lift1_main_call0_v6 (V : Valuation τ sig (Elt F)) : (after (ops (F := F)) V (Proc.devRef .tc main_call0_v6)) = (U1 V (Proc.devRef .tc main_call0_v6)) :=
  (lift2_main_call0_v6 V).trans (after_of_not_mem writes1 (by decide) (U1 V))
theorem lift6_main_call0_v7 (V : Valuation τ sig (Elt F)) : (after (ops (F := F)) V (Proc.devRef .tc main_call0_v7)) = (U6 V (Proc.devRef .tc main_call0_v7)) := congrFun (after_ops_eq V) _
theorem lift5_main_call0_v7 (V : Valuation τ sig (Elt F)) : (after (ops (F := F)) V (Proc.devRef .tc main_call0_v7)) = (U5 V (Proc.devRef .tc main_call0_v7)) :=
  (lift6_main_call0_v7 V).trans (after_of_not_mem writes5 (by decide) (U5 V))
theorem lift4_main_call0_v7 (V : Valuation τ sig (Elt F)) : (after (ops (F := F)) V (Proc.devRef .tc main_call0_v7)) = (U4 V (Proc.devRef .tc main_call0_v7)) :=
  (lift5_main_call0_v7 V).trans (after_of_not_mem writes4 (by decide) (U4 V))
theorem lift3_main_call0_v7 (V : Valuation τ sig (Elt F)) : (after (ops (F := F)) V (Proc.devRef .tc main_call0_v7)) = (U3 V (Proc.devRef .tc main_call0_v7)) :=
  (lift4_main_call0_v7 V).trans (after_of_not_mem writes3 (by decide) (U3 V))
theorem lift2_main_call0_v7 (V : Valuation τ sig (Elt F)) : (after (ops (F := F)) V (Proc.devRef .tc main_call0_v7)) = (U2 V (Proc.devRef .tc main_call0_v7)) :=
  (lift3_main_call0_v7 V).trans (after_of_not_mem writes2 (by decide) (U2 V))
theorem lift1_main_call0_v7 (V : Valuation τ sig (Elt F)) : (after (ops (F := F)) V (Proc.devRef .tc main_call0_v7)) = (U1 V (Proc.devRef .tc main_call0_v7)) :=
  (lift2_main_call0_v7 V).trans (after_of_not_mem writes1 (by decide) (U1 V))
theorem lift6_main_call0_cst_1 (V : Valuation τ sig (Elt F)) : (after (ops (F := F)) V (Proc.devRef .tc main_call0_cst_1)) = (U6 V (Proc.devRef .tc main_call0_cst_1)) := congrFun (after_ops_eq V) _
theorem lift5_main_call0_cst_1 (V : Valuation τ sig (Elt F)) : (after (ops (F := F)) V (Proc.devRef .tc main_call0_cst_1)) = (U5 V (Proc.devRef .tc main_call0_cst_1)) :=
  (lift6_main_call0_cst_1 V).trans (after_of_not_mem writes5 (by decide) (U5 V))
theorem lift4_main_call0_cst_1 (V : Valuation τ sig (Elt F)) : (after (ops (F := F)) V (Proc.devRef .tc main_call0_cst_1)) = (U4 V (Proc.devRef .tc main_call0_cst_1)) :=
  (lift5_main_call0_cst_1 V).trans (after_of_not_mem writes4 (by decide) (U4 V))
theorem lift3_main_call0_cst_1 (V : Valuation τ sig (Elt F)) : (after (ops (F := F)) V (Proc.devRef .tc main_call0_cst_1)) = (U3 V (Proc.devRef .tc main_call0_cst_1)) :=
  (lift4_main_call0_cst_1 V).trans (after_of_not_mem writes3 (by decide) (U3 V))
theorem lift2_main_call0_cst_1 (V : Valuation τ sig (Elt F)) : (after (ops (F := F)) V (Proc.devRef .tc main_call0_cst_1)) = (U2 V (Proc.devRef .tc main_call0_cst_1)) :=
  (lift3_main_call0_cst_1 V).trans (after_of_not_mem writes2 (by decide) (U2 V))
theorem lift1_main_call0_cst_1 (V : Valuation τ sig (Elt F)) : (after (ops (F := F)) V (Proc.devRef .tc main_call0_cst_1)) = (U1 V (Proc.devRef .tc main_call0_cst_1)) :=
  (lift2_main_call0_cst_1 V).trans (after_of_not_mem writes1 (by decide) (U1 V))
theorem lift6_main_call0_v8 (V : Valuation τ sig (Elt F)) : (after (ops (F := F)) V (Proc.devRef .tc main_call0_v8)) = (U6 V (Proc.devRef .tc main_call0_v8)) := congrFun (after_ops_eq V) _
theorem lift5_main_call0_v8 (V : Valuation τ sig (Elt F)) : (after (ops (F := F)) V (Proc.devRef .tc main_call0_v8)) = (U5 V (Proc.devRef .tc main_call0_v8)) :=
  (lift6_main_call0_v8 V).trans (after_of_not_mem writes5 (by decide) (U5 V))
theorem lift4_main_call0_v8 (V : Valuation τ sig (Elt F)) : (after (ops (F := F)) V (Proc.devRef .tc main_call0_v8)) = (U4 V (Proc.devRef .tc main_call0_v8)) :=
  (lift5_main_call0_v8 V).trans (after_of_not_mem writes4 (by decide) (U4 V))
theorem lift3_main_call0_v8 (V : Valuation τ sig (Elt F)) : (after (ops (F := F)) V (Proc.devRef .tc main_call0_v8)) = (U3 V (Proc.devRef .tc main_call0_v8)) :=
  (lift4_main_call0_v8 V).trans (after_of_not_mem writes3 (by decide) (U3 V))
theorem lift2_main_call0_v8 (V : Valuation τ sig (Elt F)) : (after (ops (F := F)) V (Proc.devRef .tc main_call0_v8)) = (U2 V (Proc.devRef .tc main_call0_v8)) :=
  (lift3_main_call0_v8 V).trans (after_of_not_mem writes2 (by decide) (U2 V))
theorem lift1_main_call0_v8 (V : Valuation τ sig (Elt F)) : (after (ops (F := F)) V (Proc.devRef .tc main_call0_v8)) = (U1 V (Proc.devRef .tc main_call0_v8)) :=
  (lift2_main_call0_v8 V).trans (after_of_not_mem writes1 (by decide) (U1 V))
theorem lift6_main_call0_cst_2 (V : Valuation τ sig (Elt F)) : (after (ops (F := F)) V (Proc.devRef .tc main_call0_cst_2)) = (U6 V (Proc.devRef .tc main_call0_cst_2)) := congrFun (after_ops_eq V) _
theorem lift5_main_call0_cst_2 (V : Valuation τ sig (Elt F)) : (after (ops (F := F)) V (Proc.devRef .tc main_call0_cst_2)) = (U5 V (Proc.devRef .tc main_call0_cst_2)) :=
  (lift6_main_call0_cst_2 V).trans (after_of_not_mem writes5 (by decide) (U5 V))
theorem lift4_main_call0_cst_2 (V : Valuation τ sig (Elt F)) : (after (ops (F := F)) V (Proc.devRef .tc main_call0_cst_2)) = (U4 V (Proc.devRef .tc main_call0_cst_2)) :=
  (lift5_main_call0_cst_2 V).trans (after_of_not_mem writes4 (by decide) (U4 V))
theorem lift3_main_call0_cst_2 (V : Valuation τ sig (Elt F)) : (after (ops (F := F)) V (Proc.devRef .tc main_call0_cst_2)) = (U3 V (Proc.devRef .tc main_call0_cst_2)) :=
  (lift4_main_call0_cst_2 V).trans (after_of_not_mem writes3 (by decide) (U3 V))
theorem lift2_main_call0_cst_2 (V : Valuation τ sig (Elt F)) : (after (ops (F := F)) V (Proc.devRef .tc main_call0_cst_2)) = (U2 V (Proc.devRef .tc main_call0_cst_2)) :=
  (lift3_main_call0_cst_2 V).trans (after_of_not_mem writes2 (by decide) (U2 V))
theorem lift1_main_call0_cst_2 (V : Valuation τ sig (Elt F)) : (after (ops (F := F)) V (Proc.devRef .tc main_call0_cst_2)) = (U1 V (Proc.devRef .tc main_call0_cst_2)) :=
  (lift2_main_call0_cst_2 V).trans (after_of_not_mem writes1 (by decide) (U1 V))
theorem lift6_main_call0_v9 (V : Valuation τ sig (Elt F)) : (after (ops (F := F)) V (Proc.devRef .tc main_call0_v9)) = (U6 V (Proc.devRef .tc main_call0_v9)) := congrFun (after_ops_eq V) _
theorem lift5_main_call0_v9 (V : Valuation τ sig (Elt F)) : (after (ops (F := F)) V (Proc.devRef .tc main_call0_v9)) = (U5 V (Proc.devRef .tc main_call0_v9)) :=
  (lift6_main_call0_v9 V).trans (after_of_not_mem writes5 (by decide) (U5 V))
theorem lift4_main_call0_v9 (V : Valuation τ sig (Elt F)) : (after (ops (F := F)) V (Proc.devRef .tc main_call0_v9)) = (U4 V (Proc.devRef .tc main_call0_v9)) :=
  (lift5_main_call0_v9 V).trans (after_of_not_mem writes4 (by decide) (U4 V))
theorem lift3_main_call0_v9 (V : Valuation τ sig (Elt F)) : (after (ops (F := F)) V (Proc.devRef .tc main_call0_v9)) = (U3 V (Proc.devRef .tc main_call0_v9)) :=
  (lift4_main_call0_v9 V).trans (after_of_not_mem writes3 (by decide) (U3 V))
theorem lift2_main_call0_v9 (V : Valuation τ sig (Elt F)) : (after (ops (F := F)) V (Proc.devRef .tc main_call0_v9)) = (U2 V (Proc.devRef .tc main_call0_v9)) :=
  (lift3_main_call0_v9 V).trans (after_of_not_mem writes2 (by decide) (U2 V))
theorem lift1_main_call0_v9 (V : Valuation τ sig (Elt F)) : (after (ops (F := F)) V (Proc.devRef .tc main_call0_v9)) = (U1 V (Proc.devRef .tc main_call0_v9)) :=
  (lift2_main_call0_v9 V).trans (after_of_not_mem writes1 (by decide) (U1 V))
theorem lift6_main_call0_v10 (V : Valuation τ sig (Elt F)) : (after (ops (F := F)) V (Proc.devRef .tc main_call0_v10)) = (U6 V (Proc.devRef .tc main_call0_v10)) := congrFun (after_ops_eq V) _
theorem lift5_main_call0_v10 (V : Valuation τ sig (Elt F)) : (after (ops (F := F)) V (Proc.devRef .tc main_call0_v10)) = (U5 V (Proc.devRef .tc main_call0_v10)) :=
  (lift6_main_call0_v10 V).trans (after_of_not_mem writes5 (by decide) (U5 V))
theorem lift4_main_call0_v10 (V : Valuation τ sig (Elt F)) : (after (ops (F := F)) V (Proc.devRef .tc main_call0_v10)) = (U4 V (Proc.devRef .tc main_call0_v10)) :=
  (lift5_main_call0_v10 V).trans (after_of_not_mem writes4 (by decide) (U4 V))
theorem lift3_main_call0_v10 (V : Valuation τ sig (Elt F)) : (after (ops (F := F)) V (Proc.devRef .tc main_call0_v10)) = (U3 V (Proc.devRef .tc main_call0_v10)) :=
  (lift4_main_call0_v10 V).trans (after_of_not_mem writes3 (by decide) (U3 V))
theorem lift2_main_call0_v10 (V : Valuation τ sig (Elt F)) : (after (ops (F := F)) V (Proc.devRef .tc main_call0_v10)) = (U2 V (Proc.devRef .tc main_call0_v10)) :=
  (lift3_main_call0_v10 V).trans (after_of_not_mem writes2 (by decide) (U2 V))
theorem lift1_main_call0_v10 (V : Valuation τ sig (Elt F)) : (after (ops (F := F)) V (Proc.devRef .tc main_call0_v10)) = (U1 V (Proc.devRef .tc main_call0_v10)) :=
  (lift2_main_call0_v10 V).trans (after_of_not_mem writes1 (by decide) (U1 V))
theorem lift6_main_call0_v11 (V : Valuation τ sig (Elt F)) : (after (ops (F := F)) V (Proc.devRef .tc main_call0_v11)) = (U6 V (Proc.devRef .tc main_call0_v11)) := congrFun (after_ops_eq V) _
theorem lift5_main_call0_v11 (V : Valuation τ sig (Elt F)) : (after (ops (F := F)) V (Proc.devRef .tc main_call0_v11)) = (U5 V (Proc.devRef .tc main_call0_v11)) :=
  (lift6_main_call0_v11 V).trans (after_of_not_mem writes5 (by decide) (U5 V))
theorem lift4_main_call0_v11 (V : Valuation τ sig (Elt F)) : (after (ops (F := F)) V (Proc.devRef .tc main_call0_v11)) = (U4 V (Proc.devRef .tc main_call0_v11)) :=
  (lift5_main_call0_v11 V).trans (after_of_not_mem writes4 (by decide) (U4 V))
theorem lift3_main_call0_v11 (V : Valuation τ sig (Elt F)) : (after (ops (F := F)) V (Proc.devRef .tc main_call0_v11)) = (U3 V (Proc.devRef .tc main_call0_v11)) :=
  (lift4_main_call0_v11 V).trans (after_of_not_mem writes3 (by decide) (U3 V))
theorem lift2_main_call0_v11 (V : Valuation τ sig (Elt F)) : (after (ops (F := F)) V (Proc.devRef .tc main_call0_v11)) = (U2 V (Proc.devRef .tc main_call0_v11)) :=
  (lift3_main_call0_v11 V).trans (after_of_not_mem writes2 (by decide) (U2 V))
theorem lift1_main_call0_v11 (V : Valuation τ sig (Elt F)) : (after (ops (F := F)) V (Proc.devRef .tc main_call0_v11)) = (U1 V (Proc.devRef .tc main_call0_v11)) :=
  (lift2_main_call0_v11 V).trans (after_of_not_mem writes1 (by decide) (U1 V))
theorem lift6_main_call0_cst_3 (V : Valuation τ sig (Elt F)) : (after (ops (F := F)) V (Proc.devRef .tc main_call0_cst_3)) = (U6 V (Proc.devRef .tc main_call0_cst_3)) := congrFun (after_ops_eq V) _
theorem lift5_main_call0_cst_3 (V : Valuation τ sig (Elt F)) : (after (ops (F := F)) V (Proc.devRef .tc main_call0_cst_3)) = (U5 V (Proc.devRef .tc main_call0_cst_3)) :=
  (lift6_main_call0_cst_3 V).trans (after_of_not_mem writes5 (by decide) (U5 V))
theorem lift4_main_call0_cst_3 (V : Valuation τ sig (Elt F)) : (after (ops (F := F)) V (Proc.devRef .tc main_call0_cst_3)) = (U4 V (Proc.devRef .tc main_call0_cst_3)) :=
  (lift5_main_call0_cst_3 V).trans (after_of_not_mem writes4 (by decide) (U4 V))
theorem lift3_main_call0_cst_3 (V : Valuation τ sig (Elt F)) : (after (ops (F := F)) V (Proc.devRef .tc main_call0_cst_3)) = (U3 V (Proc.devRef .tc main_call0_cst_3)) :=
  (lift4_main_call0_cst_3 V).trans (after_of_not_mem writes3 (by decide) (U3 V))
theorem lift2_main_call0_cst_3 (V : Valuation τ sig (Elt F)) : (after (ops (F := F)) V (Proc.devRef .tc main_call0_cst_3)) = (U2 V (Proc.devRef .tc main_call0_cst_3)) :=
  (lift3_main_call0_cst_3 V).trans (after_of_not_mem writes2 (by decide) (U2 V))
theorem lift1_main_call0_cst_3 (V : Valuation τ sig (Elt F)) : (after (ops (F := F)) V (Proc.devRef .tc main_call0_cst_3)) = (U1 V (Proc.devRef .tc main_call0_cst_3)) :=
  (lift2_main_call0_cst_3 V).trans (after_of_not_mem writes1 (by decide) (U1 V))
theorem lift6_main_call0_v12 (V : Valuation τ sig (Elt F)) : (after (ops (F := F)) V (Proc.devRef .tc main_call0_v12)) = (U6 V (Proc.devRef .tc main_call0_v12)) := congrFun (after_ops_eq V) _
theorem lift5_main_call0_v12 (V : Valuation τ sig (Elt F)) : (after (ops (F := F)) V (Proc.devRef .tc main_call0_v12)) = (U5 V (Proc.devRef .tc main_call0_v12)) :=
  (lift6_main_call0_v12 V).trans (after_of_not_mem writes5 (by decide) (U5 V))
theorem lift4_main_call0_v12 (V : Valuation τ sig (Elt F)) : (after (ops (F := F)) V (Proc.devRef .tc main_call0_v12)) = (U4 V (Proc.devRef .tc main_call0_v12)) :=
  (lift5_main_call0_v12 V).trans (after_of_not_mem writes4 (by decide) (U4 V))
theorem lift3_main_call0_v12 (V : Valuation τ sig (Elt F)) : (after (ops (F := F)) V (Proc.devRef .tc main_call0_v12)) = (U3 V (Proc.devRef .tc main_call0_v12)) :=
  (lift4_main_call0_v12 V).trans (after_of_not_mem writes3 (by decide) (U3 V))
theorem lift2_main_call0_v12 (V : Valuation τ sig (Elt F)) : (after (ops (F := F)) V (Proc.devRef .tc main_call0_v12)) = (U2 V (Proc.devRef .tc main_call0_v12)) :=
  (lift3_main_call0_v12 V).trans (after_of_not_mem writes2 (by decide) (U2 V))
theorem lift1_main_call0_v12 (V : Valuation τ sig (Elt F)) : (after (ops (F := F)) V (Proc.devRef .tc main_call0_v12)) = (U1 V (Proc.devRef .tc main_call0_v12)) :=
  (lift2_main_call0_v12 V).trans (after_of_not_mem writes1 (by decide) (U1 V))
theorem lift6_main_call0_cst_4 (V : Valuation τ sig (Elt F)) : (after (ops (F := F)) V (Proc.devRef .tc main_call0_cst_4)) = (U6 V (Proc.devRef .tc main_call0_cst_4)) := congrFun (after_ops_eq V) _
theorem lift5_main_call0_cst_4 (V : Valuation τ sig (Elt F)) : (after (ops (F := F)) V (Proc.devRef .tc main_call0_cst_4)) = (U5 V (Proc.devRef .tc main_call0_cst_4)) :=
  (lift6_main_call0_cst_4 V).trans (after_of_not_mem writes5 (by decide) (U5 V))
theorem lift4_main_call0_cst_4 (V : Valuation τ sig (Elt F)) : (after (ops (F := F)) V (Proc.devRef .tc main_call0_cst_4)) = (U4 V (Proc.devRef .tc main_call0_cst_4)) :=
  (lift5_main_call0_cst_4 V).trans (after_of_not_mem writes4 (by decide) (U4 V))
theorem lift3_main_call0_cst_4 (V : Valuation τ sig (Elt F)) : (after (ops (F := F)) V (Proc.devRef .tc main_call0_cst_4)) = (U3 V (Proc.devRef .tc main_call0_cst_4)) :=
  (lift4_main_call0_cst_4 V).trans (after_of_not_mem writes3 (by decide) (U3 V))
theorem lift2_main_call0_cst_4 (V : Valuation τ sig (Elt F)) : (after (ops (F := F)) V (Proc.devRef .tc main_call0_cst_4)) = (U2 V (Proc.devRef .tc main_call0_cst_4)) :=
  (lift3_main_call0_cst_4 V).trans (after_of_not_mem writes2 (by decide) (U2 V))
theorem lift1_main_call0_cst_4 (V : Valuation τ sig (Elt F)) : (after (ops (F := F)) V (Proc.devRef .tc main_call0_cst_4)) = (U1 V (Proc.devRef .tc main_call0_cst_4)) :=
  (lift2_main_call0_cst_4 V).trans (after_of_not_mem writes1 (by decide) (U1 V))
theorem lift6_main_call0_call0_v0 (V : Valuation τ sig (Elt F)) : (after (ops (F := F)) V (Proc.devRef .tc main_call0_call0_v0)) = (U6 V (Proc.devRef .tc main_call0_call0_v0)) := congrFun (after_ops_eq V) _
theorem lift5_main_call0_call0_v0 (V : Valuation τ sig (Elt F)) : (after (ops (F := F)) V (Proc.devRef .tc main_call0_call0_v0)) = (U5 V (Proc.devRef .tc main_call0_call0_v0)) :=
  (lift6_main_call0_call0_v0 V).trans (after_of_not_mem writes5 (by decide) (U5 V))
theorem lift4_main_call0_call0_v0 (V : Valuation τ sig (Elt F)) : (after (ops (F := F)) V (Proc.devRef .tc main_call0_call0_v0)) = (U4 V (Proc.devRef .tc main_call0_call0_v0)) :=
  (lift5_main_call0_call0_v0 V).trans (after_of_not_mem writes4 (by decide) (U4 V))
theorem lift3_main_call0_call0_v0 (V : Valuation τ sig (Elt F)) : (after (ops (F := F)) V (Proc.devRef .tc main_call0_call0_v0)) = (U3 V (Proc.devRef .tc main_call0_call0_v0)) :=
  (lift4_main_call0_call0_v0 V).trans (after_of_not_mem writes3 (by decide) (U3 V))
theorem lift2_main_call0_call0_v0 (V : Valuation τ sig (Elt F)) : (after (ops (F := F)) V (Proc.devRef .tc main_call0_call0_v0)) = (U2 V (Proc.devRef .tc main_call0_call0_v0)) :=
  (lift3_main_call0_call0_v0 V).trans (after_of_not_mem writes2 (by decide) (U2 V))
theorem lift1_main_call0_call0_v0 (V : Valuation τ sig (Elt F)) : (after (ops (F := F)) V (Proc.devRef .tc main_call0_call0_v0)) = (U1 V (Proc.devRef .tc main_call0_call0_v0)) :=
  (lift2_main_call0_call0_v0 V).trans (after_of_not_mem writes1 (by decide) (U1 V))
theorem lift6_main_call0_call0_v1 (V : Valuation τ sig (Elt F)) : (after (ops (F := F)) V (Proc.devRef .tc main_call0_call0_v1)) = (U6 V (Proc.devRef .tc main_call0_call0_v1)) := congrFun (after_ops_eq V) _
theorem lift5_main_call0_call0_v1 (V : Valuation τ sig (Elt F)) : (after (ops (F := F)) V (Proc.devRef .tc main_call0_call0_v1)) = (U5 V (Proc.devRef .tc main_call0_call0_v1)) :=
  (lift6_main_call0_call0_v1 V).trans (after_of_not_mem writes5 (by decide) (U5 V))
theorem lift4_main_call0_call0_v1 (V : Valuation τ sig (Elt F)) : (after (ops (F := F)) V (Proc.devRef .tc main_call0_call0_v1)) = (U4 V (Proc.devRef .tc main_call0_call0_v1)) :=
  (lift5_main_call0_call0_v1 V).trans (after_of_not_mem writes4 (by decide) (U4 V))
theorem lift3_main_call0_call0_v1 (V : Valuation τ sig (Elt F)) : (after (ops (F := F)) V (Proc.devRef .tc main_call0_call0_v1)) = (U3 V (Proc.devRef .tc main_call0_call0_v1)) :=
  (lift4_main_call0_call0_v1 V).trans (after_of_not_mem writes3 (by decide) (U3 V))
theorem lift2_main_call0_call0_v1 (V : Valuation τ sig (Elt F)) : (after (ops (F := F)) V (Proc.devRef .tc main_call0_call0_v1)) = (U2 V (Proc.devRef .tc main_call0_call0_v1)) :=
  (lift3_main_call0_call0_v1 V).trans (after_of_not_mem writes2 (by decide) (U2 V))
theorem lift1_main_call0_call0_v1 (V : Valuation τ sig (Elt F)) : (after (ops (F := F)) V (Proc.devRef .tc main_call0_call0_v1)) = (U1 V (Proc.devRef .tc main_call0_call0_v1)) :=
  (lift2_main_call0_call0_v1 V).trans (after_of_not_mem writes1 (by decide) (U1 V))
theorem lift6_main_v7 (V : Valuation τ sig (Elt F)) : (after (ops (F := F)) V (Proc.devRef .tc main_v7)) = (U6 V (Proc.devRef .tc main_v7)) := congrFun (after_ops_eq V) _
theorem lift5_main_v7 (V : Valuation τ sig (Elt F)) : (after (ops (F := F)) V (Proc.devRef .tc main_v7)) = (U5 V (Proc.devRef .tc main_v7)) :=
  (lift6_main_v7 V).trans (after_of_not_mem writes5 (by decide) (U5 V))
theorem lift4_main_v7 (V : Valuation τ sig (Elt F)) : (after (ops (F := F)) V (Proc.devRef .tc main_v7)) = (U4 V (Proc.devRef .tc main_v7)) :=
  (lift5_main_v7 V).trans (after_of_not_mem writes4 (by decide) (U4 V))
theorem lift3_main_v7 (V : Valuation τ sig (Elt F)) : (after (ops (F := F)) V (Proc.devRef .tc main_v7)) = (U3 V (Proc.devRef .tc main_v7)) :=
  (lift4_main_v7 V).trans (after_of_not_mem writes3 (by decide) (U3 V))
theorem lift2_main_v7 (V : Valuation τ sig (Elt F)) : (after (ops (F := F)) V (Proc.devRef .tc main_v7)) = (U2 V (Proc.devRef .tc main_v7)) :=
  (lift3_main_v7 V).trans (after_of_not_mem writes2 (by decide) (U2 V))
theorem lift1_main_v7 (V : Valuation τ sig (Elt F)) : (after (ops (F := F)) V (Proc.devRef .tc main_v7)) = (U1 V (Proc.devRef .tc main_v7)) :=
  (lift2_main_v7 V).trans (after_of_not_mem writes1 (by decide) (U1 V))
theorem lift6_main_v8 (V : Valuation τ sig (Elt F)) : (after (ops (F := F)) V (Proc.devRef .tc main_v8)) = (U6 V (Proc.devRef .tc main_v8)) := congrFun (after_ops_eq V) _
theorem lift5_main_v8 (V : Valuation τ sig (Elt F)) : (after (ops (F := F)) V (Proc.devRef .tc main_v8)) = (U5 V (Proc.devRef .tc main_v8)) :=
  (lift6_main_v8 V).trans (after_of_not_mem writes5 (by decide) (U5 V))
theorem lift4_main_v8 (V : Valuation τ sig (Elt F)) : (after (ops (F := F)) V (Proc.devRef .tc main_v8)) = (U4 V (Proc.devRef .tc main_v8)) :=
  (lift5_main_v8 V).trans (after_of_not_mem writes4 (by decide) (U4 V))
theorem lift3_main_v8 (V : Valuation τ sig (Elt F)) : (after (ops (F := F)) V (Proc.devRef .tc main_v8)) = (U3 V (Proc.devRef .tc main_v8)) :=
  (lift4_main_v8 V).trans (after_of_not_mem writes3 (by decide) (U3 V))
theorem lift2_main_v8 (V : Valuation τ sig (Elt F)) : (after (ops (F := F)) V (Proc.devRef .tc main_v8)) = (U2 V (Proc.devRef .tc main_v8)) :=
  (lift3_main_v8 V).trans (after_of_not_mem writes2 (by decide) (U2 V))
theorem lift1_main_v8 (V : Valuation τ sig (Elt F)) : (after (ops (F := F)) V (Proc.devRef .tc main_v8)) = (U1 V (Proc.devRef .tc main_v8)) :=
  (lift2_main_v8 V).trans (after_of_not_mem writes1 (by decide) (U1 V))
theorem lift6_main_v9 (V : Valuation τ sig (Elt F)) : (after (ops (F := F)) V (Proc.devRef .tc main_v9)) = (U6 V (Proc.devRef .tc main_v9)) := congrFun (after_ops_eq V) _
theorem lift5_main_v9 (V : Valuation τ sig (Elt F)) : (after (ops (F := F)) V (Proc.devRef .tc main_v9)) = (U5 V (Proc.devRef .tc main_v9)) :=
  (lift6_main_v9 V).trans (after_of_not_mem writes5 (by decide) (U5 V))
theorem lift4_main_v9 (V : Valuation τ sig (Elt F)) : (after (ops (F := F)) V (Proc.devRef .tc main_v9)) = (U4 V (Proc.devRef .tc main_v9)) :=
  (lift5_main_v9 V).trans (after_of_not_mem writes4 (by decide) (U4 V))
theorem lift3_main_v9 (V : Valuation τ sig (Elt F)) : (after (ops (F := F)) V (Proc.devRef .tc main_v9)) = (U3 V (Proc.devRef .tc main_v9)) :=
  (lift4_main_v9 V).trans (after_of_not_mem writes3 (by decide) (U3 V))
theorem lift2_main_v9 (V : Valuation τ sig (Elt F)) : (after (ops (F := F)) V (Proc.devRef .tc main_v9)) = (U2 V (Proc.devRef .tc main_v9)) :=
  (lift3_main_v9 V).trans (after_of_not_mem writes2 (by decide) (U2 V))
theorem lift1_main_v9 (V : Valuation τ sig (Elt F)) : (after (ops (F := F)) V (Proc.devRef .tc main_v9)) = (U1 V (Proc.devRef .tc main_v9)) :=
  (lift2_main_v9 V).trans (after_of_not_mem writes1 (by decide) (U1 V))
theorem lift6_main_v10 (V : Valuation τ sig (Elt F)) : (after (ops (F := F)) V (Proc.devRef .tc main_v10)) = (U6 V (Proc.devRef .tc main_v10)) := congrFun (after_ops_eq V) _
theorem lift5_main_v10 (V : Valuation τ sig (Elt F)) : (after (ops (F := F)) V (Proc.devRef .tc main_v10)) = (U5 V (Proc.devRef .tc main_v10)) :=
  (lift6_main_v10 V).trans (after_of_not_mem writes5 (by decide) (U5 V))
theorem lift4_main_v10 (V : Valuation τ sig (Elt F)) : (after (ops (F := F)) V (Proc.devRef .tc main_v10)) = (U4 V (Proc.devRef .tc main_v10)) :=
  (lift5_main_v10 V).trans (after_of_not_mem writes4 (by decide) (U4 V))
theorem lift3_main_v10 (V : Valuation τ sig (Elt F)) : (after (ops (F := F)) V (Proc.devRef .tc main_v10)) = (U3 V (Proc.devRef .tc main_v10)) :=
  (lift4_main_v10 V).trans (after_of_not_mem writes3 (by decide) (U3 V))
theorem lift2_main_v10 (V : Valuation τ sig (Elt F)) : (after (ops (F := F)) V (Proc.devRef .tc main_v10)) = (U2 V (Proc.devRef .tc main_v10)) :=
  (lift3_main_v10 V).trans (after_of_not_mem writes2 (by decide) (U2 V))
theorem lift1_main_v10 (V : Valuation τ sig (Elt F)) : (after (ops (F := F)) V (Proc.devRef .tc main_v10)) = (U1 V (Proc.devRef .tc main_v10)) :=
  (lift2_main_v10 V).trans (after_of_not_mem writes1 (by decide) (U1 V))
theorem lift6_main_v11 (V : Valuation τ sig (Elt F)) : (after (ops (F := F)) V (Proc.devRef .tc main_v11)) = (U6 V (Proc.devRef .tc main_v11)) := congrFun (after_ops_eq V) _
theorem lift5_main_v11 (V : Valuation τ sig (Elt F)) : (after (ops (F := F)) V (Proc.devRef .tc main_v11)) = (U5 V (Proc.devRef .tc main_v11)) :=
  (lift6_main_v11 V).trans (after_of_not_mem writes5 (by decide) (U5 V))
theorem lift4_main_v11 (V : Valuation τ sig (Elt F)) : (after (ops (F := F)) V (Proc.devRef .tc main_v11)) = (U4 V (Proc.devRef .tc main_v11)) :=
  (lift5_main_v11 V).trans (after_of_not_mem writes4 (by decide) (U4 V))
theorem lift3_main_v11 (V : Valuation τ sig (Elt F)) : (after (ops (F := F)) V (Proc.devRef .tc main_v11)) = (U3 V (Proc.devRef .tc main_v11)) :=
  (lift4_main_v11 V).trans (after_of_not_mem writes3 (by decide) (U3 V))
theorem lift2_main_v11 (V : Valuation τ sig (Elt F)) : (after (ops (F := F)) V (Proc.devRef .tc main_v11)) = (U2 V (Proc.devRef .tc main_v11)) :=
  (lift3_main_v11 V).trans (after_of_not_mem writes2 (by decide) (U2 V))
theorem lift1_main_v11 (V : Valuation τ sig (Elt F)) : (after (ops (F := F)) V (Proc.devRef .tc main_v11)) = (U1 V (Proc.devRef .tc main_v11)) :=
  (lift2_main_v11 V).trans (after_of_not_mem writes1 (by decide) (U1 V))
theorem lift6_main_v12 (V : Valuation τ sig (Elt F)) : (after (ops (F := F)) V (Proc.devRef .tc main_v12)) = (U6 V (Proc.devRef .tc main_v12)) := congrFun (after_ops_eq V) _
theorem lift5_main_v12 (V : Valuation τ sig (Elt F)) : (after (ops (F := F)) V (Proc.devRef .tc main_v12)) = (U5 V (Proc.devRef .tc main_v12)) :=
  (lift6_main_v12 V).trans (after_of_not_mem writes5 (by decide) (U5 V))
theorem lift4_main_v12 (V : Valuation τ sig (Elt F)) : (after (ops (F := F)) V (Proc.devRef .tc main_v12)) = (U4 V (Proc.devRef .tc main_v12)) :=
  (lift5_main_v12 V).trans (after_of_not_mem writes4 (by decide) (U4 V))
theorem lift3_main_v12 (V : Valuation τ sig (Elt F)) : (after (ops (F := F)) V (Proc.devRef .tc main_v12)) = (U3 V (Proc.devRef .tc main_v12)) :=
  (lift4_main_v12 V).trans (after_of_not_mem writes3 (by decide) (U3 V))
theorem lift2_main_v12 (V : Valuation τ sig (Elt F)) : (after (ops (F := F)) V (Proc.devRef .tc main_v12)) = (U2 V (Proc.devRef .tc main_v12)) :=
  (lift3_main_v12 V).trans (after_of_not_mem writes2 (by decide) (U2 V))
theorem lift1_main_v12 (V : Valuation τ sig (Elt F)) : (after (ops (F := F)) V (Proc.devRef .tc main_v12)) = (U1 V (Proc.devRef .tc main_v12)) :=
  (lift2_main_v12 V).trans (after_of_not_mem writes1 (by decide) (U1 V))
theorem lift6_main_v13 (V : Valuation τ sig (Elt F)) : (after (ops (F := F)) V (Proc.devRef .tc main_v13)) = (U6 V (Proc.devRef .tc main_v13)) := congrFun (after_ops_eq V) _
theorem lift5_main_v13 (V : Valuation τ sig (Elt F)) : (after (ops (F := F)) V (Proc.devRef .tc main_v13)) = (U5 V (Proc.devRef .tc main_v13)) :=
  (lift6_main_v13 V).trans (after_of_not_mem writes5 (by decide) (U5 V))
theorem lift4_main_v13 (V : Valuation τ sig (Elt F)) : (after (ops (F := F)) V (Proc.devRef .tc main_v13)) = (U4 V (Proc.devRef .tc main_v13)) :=
  (lift5_main_v13 V).trans (after_of_not_mem writes4 (by decide) (U4 V))
theorem lift3_main_v13 (V : Valuation τ sig (Elt F)) : (after (ops (F := F)) V (Proc.devRef .tc main_v13)) = (U3 V (Proc.devRef .tc main_v13)) :=
  (lift4_main_v13 V).trans (after_of_not_mem writes3 (by decide) (U3 V))
theorem lift2_main_v13 (V : Valuation τ sig (Elt F)) : (after (ops (F := F)) V (Proc.devRef .tc main_v13)) = (U2 V (Proc.devRef .tc main_v13)) :=
  (lift3_main_v13 V).trans (after_of_not_mem writes2 (by decide) (U2 V))
theorem lift1_main_v13 (V : Valuation τ sig (Elt F)) : (after (ops (F := F)) V (Proc.devRef .tc main_v13)) = (U1 V (Proc.devRef .tc main_v13)) :=
  (lift2_main_v13 V).trans (after_of_not_mem writes1 (by decide) (U1 V))
theorem lift6_main_cst_1 (V : Valuation τ sig (Elt F)) : (after (ops (F := F)) V (Proc.devRef .tc main_cst_1)) = (U6 V (Proc.devRef .tc main_cst_1)) := congrFun (after_ops_eq V) _
theorem lift5_main_cst_1 (V : Valuation τ sig (Elt F)) : (after (ops (F := F)) V (Proc.devRef .tc main_cst_1)) = (U5 V (Proc.devRef .tc main_cst_1)) :=
  (lift6_main_cst_1 V).trans (after_of_not_mem writes5 (by decide) (U5 V))
theorem lift4_main_cst_1 (V : Valuation τ sig (Elt F)) : (after (ops (F := F)) V (Proc.devRef .tc main_cst_1)) = (U4 V (Proc.devRef .tc main_cst_1)) :=
  (lift5_main_cst_1 V).trans (after_of_not_mem writes4 (by decide) (U4 V))
theorem lift3_main_cst_1 (V : Valuation τ sig (Elt F)) : (after (ops (F := F)) V (Proc.devRef .tc main_cst_1)) = (U3 V (Proc.devRef .tc main_cst_1)) :=
  (lift4_main_cst_1 V).trans (after_of_not_mem writes3 (by decide) (U3 V))
theorem lift2_main_cst_1 (V : Valuation τ sig (Elt F)) : (after (ops (F := F)) V (Proc.devRef .tc main_cst_1)) = (U2 V (Proc.devRef .tc main_cst_1)) :=
  (lift3_main_cst_1 V).trans (after_of_not_mem writes2 (by decide) (U2 V))
theorem lift1_main_cst_1 (V : Valuation τ sig (Elt F)) : (after (ops (F := F)) V (Proc.devRef .tc main_cst_1)) = (U1 V (Proc.devRef .tc main_cst_1)) :=
  (lift2_main_cst_1 V).trans (after_of_not_mem writes1 (by decide) (U1 V))
theorem lift6_main_v14 (V : Valuation τ sig (Elt F)) : (after (ops (F := F)) V (Proc.devRef .tc main_v14)) = (U6 V (Proc.devRef .tc main_v14)) := congrFun (after_ops_eq V) _
theorem lift5_main_v14 (V : Valuation τ sig (Elt F)) : (after (ops (F := F)) V (Proc.devRef .tc main_v14)) = (U5 V (Proc.devRef .tc main_v14)) :=
  (lift6_main_v14 V).trans (after_of_not_mem writes5 (by decide) (U5 V))
theorem lift4_main_v14 (V : Valuation τ sig (Elt F)) : (after (ops (F := F)) V (Proc.devRef .tc main_v14)) = (U4 V (Proc.devRef .tc main_v14)) :=
  (lift5_main_v14 V).trans (after_of_not_mem writes4 (by decide) (U4 V))
theorem lift3_main_v14 (V : Valuation τ sig (Elt F)) : (after (ops (F := F)) V (Proc.devRef .tc main_v14)) = (U3 V (Proc.devRef .tc main_v14)) :=
  (lift4_main_v14 V).trans (after_of_not_mem writes3 (by decide) (U3 V))
theorem lift2_main_v14 (V : Valuation τ sig (Elt F)) : (after (ops (F := F)) V (Proc.devRef .tc main_v14)) = (U2 V (Proc.devRef .tc main_v14)) :=
  (lift3_main_v14 V).trans (after_of_not_mem writes2 (by decide) (U2 V))
theorem lift1_main_v14 (V : Valuation τ sig (Elt F)) : (after (ops (F := F)) V (Proc.devRef .tc main_v14)) = (U1 V (Proc.devRef .tc main_v14)) :=
  (lift2_main_v14 V).trans (after_of_not_mem writes1 (by decide) (U1 V))
theorem lift6_main_v15 (V : Valuation τ sig (Elt F)) : (after (ops (F := F)) V (Proc.devRef .tc main_v15)) = (U6 V (Proc.devRef .tc main_v15)) := congrFun (after_ops_eq V) _
theorem lift5_main_v15 (V : Valuation τ sig (Elt F)) : (after (ops (F := F)) V (Proc.devRef .tc main_v15)) = (U5 V (Proc.devRef .tc main_v15)) :=
  (lift6_main_v15 V).trans (after_of_not_mem writes5 (by decide) (U5 V))
theorem lift4_main_v15 (V : Valuation τ sig (Elt F)) : (after (ops (F := F)) V (Proc.devRef .tc main_v15)) = (U4 V (Proc.devRef .tc main_v15)) :=
  (lift5_main_v15 V).trans (after_of_not_mem writes4 (by decide) (U4 V))
theorem lift3_main_v15 (V : Valuation τ sig (Elt F)) : (after (ops (F := F)) V (Proc.devRef .tc main_v15)) = (U3 V (Proc.devRef .tc main_v15)) :=
  (lift4_main_v15 V).trans (after_of_not_mem writes3 (by decide) (U3 V))
theorem lift2_main_v15 (V : Valuation τ sig (Elt F)) : (after (ops (F := F)) V (Proc.devRef .tc main_v15)) = (U2 V (Proc.devRef .tc main_v15)) :=
  (lift3_main_v15 V).trans (after_of_not_mem writes2 (by decide) (U2 V))
theorem lift1_main_v15 (V : Valuation τ sig (Elt F)) : (after (ops (F := F)) V (Proc.devRef .tc main_v15)) = (U1 V (Proc.devRef .tc main_v15)) :=
  (lift2_main_v15 V).trans (after_of_not_mem writes1 (by decide) (U1 V))
theorem lift6_main_v16 (V : Valuation τ sig (Elt F)) : (after (ops (F := F)) V (Proc.devRef .tc main_v16)) = (U6 V (Proc.devRef .tc main_v16)) := congrFun (after_ops_eq V) _
theorem lift5_main_v16 (V : Valuation τ sig (Elt F)) : (after (ops (F := F)) V (Proc.devRef .tc main_v16)) = (U5 V (Proc.devRef .tc main_v16)) :=
  (lift6_main_v16 V).trans (after_of_not_mem writes5 (by decide) (U5 V))
theorem lift4_main_v16 (V : Valuation τ sig (Elt F)) : (after (ops (F := F)) V (Proc.devRef .tc main_v16)) = (U4 V (Proc.devRef .tc main_v16)) :=
  (lift5_main_v16 V).trans (after_of_not_mem writes4 (by decide) (U4 V))
theorem lift3_main_v16 (V : Valuation τ sig (Elt F)) : (after (ops (F := F)) V (Proc.devRef .tc main_v16)) = (U3 V (Proc.devRef .tc main_v16)) :=
  (lift4_main_v16 V).trans (after_of_not_mem writes3 (by decide) (U3 V))
theorem lift2_main_v16 (V : Valuation τ sig (Elt F)) : (after (ops (F := F)) V (Proc.devRef .tc main_v16)) = (U2 V (Proc.devRef .tc main_v16)) :=
  (lift3_main_v16 V).trans (after_of_not_mem writes2 (by decide) (U2 V))
theorem lift1_main_v16 (V : Valuation τ sig (Elt F)) : (after (ops (F := F)) V (Proc.devRef .tc main_v16)) = (U1 V (Proc.devRef .tc main_v16)) :=
  (lift2_main_v16 V).trans (after_of_not_mem writes1 (by decide) (U1 V))
theorem lift6_main_v17 (V : Valuation τ sig (Elt F)) : (after (ops (F := F)) V (Proc.devRef .tc main_v17)) = (U6 V (Proc.devRef .tc main_v17)) := congrFun (after_ops_eq V) _
theorem lift5_main_v17 (V : Valuation τ sig (Elt F)) : (after (ops (F := F)) V (Proc.devRef .tc main_v17)) = (U5 V (Proc.devRef .tc main_v17)) :=
  (lift6_main_v17 V).trans (after_of_not_mem writes5 (by decide) (U5 V))
theorem lift4_main_v17 (V : Valuation τ sig (Elt F)) : (after (ops (F := F)) V (Proc.devRef .tc main_v17)) = (U4 V (Proc.devRef .tc main_v17)) :=
  (lift5_main_v17 V).trans (after_of_not_mem writes4 (by decide) (U4 V))
theorem lift3_main_v17 (V : Valuation τ sig (Elt F)) : (after (ops (F := F)) V (Proc.devRef .tc main_v17)) = (U3 V (Proc.devRef .tc main_v17)) :=
  (lift4_main_v17 V).trans (after_of_not_mem writes3 (by decide) (U3 V))
theorem lift2_main_v17 (V : Valuation τ sig (Elt F)) : (after (ops (F := F)) V (Proc.devRef .tc main_v17)) = (U2 V (Proc.devRef .tc main_v17)) :=
  (lift3_main_v17 V).trans (after_of_not_mem writes2 (by decide) (U2 V))
theorem lift1_main_v17 (V : Valuation τ sig (Elt F)) : (after (ops (F := F)) V (Proc.devRef .tc main_v17)) = (U1 V (Proc.devRef .tc main_v17)) :=
  (lift2_main_v17 V).trans (after_of_not_mem writes1 (by decide) (U1 V))
theorem lift6_main_v18 (V : Valuation τ sig (Elt F)) : (after (ops (F := F)) V (Proc.devRef .tc main_v18)) = (U6 V (Proc.devRef .tc main_v18)) := congrFun (after_ops_eq V) _
theorem lift5_main_v18 (V : Valuation τ sig (Elt F)) : (after (ops (F := F)) V (Proc.devRef .tc main_v18)) = (U5 V (Proc.devRef .tc main_v18)) :=
  (lift6_main_v18 V).trans (after_of_not_mem writes5 (by decide) (U5 V))
theorem lift4_main_v18 (V : Valuation τ sig (Elt F)) : (after (ops (F := F)) V (Proc.devRef .tc main_v18)) = (U4 V (Proc.devRef .tc main_v18)) :=
  (lift5_main_v18 V).trans (after_of_not_mem writes4 (by decide) (U4 V))
theorem lift3_main_v18 (V : Valuation τ sig (Elt F)) : (after (ops (F := F)) V (Proc.devRef .tc main_v18)) = (U3 V (Proc.devRef .tc main_v18)) :=
  (lift4_main_v18 V).trans (after_of_not_mem writes3 (by decide) (U3 V))
theorem lift2_main_v18 (V : Valuation τ sig (Elt F)) : (after (ops (F := F)) V (Proc.devRef .tc main_v18)) = (U2 V (Proc.devRef .tc main_v18)) :=
  (lift3_main_v18 V).trans (after_of_not_mem writes2 (by decide) (U2 V))
theorem lift1_main_v18 (V : Valuation τ sig (Elt F)) : (after (ops (F := F)) V (Proc.devRef .tc main_v18)) = (U1 V (Proc.devRef .tc main_v18)) :=
  (lift2_main_v18 V).trans (after_of_not_mem writes1 (by decide) (U1 V))
theorem lift6_main_v19 (V : Valuation τ sig (Elt F)) : (after (ops (F := F)) V (Proc.devRef .tc main_v19)) = (U6 V (Proc.devRef .tc main_v19)) := congrFun (after_ops_eq V) _
theorem lift5_main_v19 (V : Valuation τ sig (Elt F)) : (after (ops (F := F)) V (Proc.devRef .tc main_v19)) = (U5 V (Proc.devRef .tc main_v19)) :=
  (lift6_main_v19 V).trans (after_of_not_mem writes5 (by decide) (U5 V))
theorem lift4_main_v19 (V : Valuation τ sig (Elt F)) : (after (ops (F := F)) V (Proc.devRef .tc main_v19)) = (U4 V (Proc.devRef .tc main_v19)) :=
  (lift5_main_v19 V).trans (after_of_not_mem writes4 (by decide) (U4 V))
theorem lift3_main_v19 (V : Valuation τ sig (Elt F)) : (after (ops (F := F)) V (Proc.devRef .tc main_v19)) = (U3 V (Proc.devRef .tc main_v19)) :=
  (lift4_main_v19 V).trans (after_of_not_mem writes3 (by decide) (U3 V))
theorem lift2_main_v19 (V : Valuation τ sig (Elt F)) : (after (ops (F := F)) V (Proc.devRef .tc main_v19)) = (U2 V (Proc.devRef .tc main_v19)) :=
  (lift3_main_v19 V).trans (after_of_not_mem writes2 (by decide) (U2 V))
theorem lift1_main_v19 (V : Valuation τ sig (Elt F)) : (after (ops (F := F)) V (Proc.devRef .tc main_v19)) = (U1 V (Proc.devRef .tc main_v19)) :=
  (lift2_main_v19 V).trans (after_of_not_mem writes1 (by decide) (U1 V))
theorem lift6_main_v20 (V : Valuation τ sig (Elt F)) : (after (ops (F := F)) V (Proc.devRef .tc main_v20)) = (U6 V (Proc.devRef .tc main_v20)) := congrFun (after_ops_eq V) _
theorem lift5_main_v20 (V : Valuation τ sig (Elt F)) : (after (ops (F := F)) V (Proc.devRef .tc main_v20)) = (U5 V (Proc.devRef .tc main_v20)) :=
  (lift6_main_v20 V).trans (after_of_not_mem writes5 (by decide) (U5 V))
theorem lift4_main_v20 (V : Valuation τ sig (Elt F)) : (after (ops (F := F)) V (Proc.devRef .tc main_v20)) = (U4 V (Proc.devRef .tc main_v20)) :=
  (lift5_main_v20 V).trans (after_of_not_mem writes4 (by decide) (U4 V))
theorem lift3_main_v20 (V : Valuation τ sig (Elt F)) : (after (ops (F := F)) V (Proc.devRef .tc main_v20)) = (U3 V (Proc.devRef .tc main_v20)) :=
  (lift4_main_v20 V).trans (after_of_not_mem writes3 (by decide) (U3 V))
theorem lift2_main_v20 (V : Valuation τ sig (Elt F)) : (after (ops (F := F)) V (Proc.devRef .tc main_v20)) = (U2 V (Proc.devRef .tc main_v20)) :=
  (lift3_main_v20 V).trans (after_of_not_mem writes2 (by decide) (U2 V))
theorem lift1_main_v20 (V : Valuation τ sig (Elt F)) : (after (ops (F := F)) V (Proc.devRef .tc main_v20)) = (U1 V (Proc.devRef .tc main_v20)) :=
  (lift2_main_v20 V).trans (after_of_not_mem writes1 (by decide) (U1 V))
theorem lift6_main_v21 (V : Valuation τ sig (Elt F)) : (after (ops (F := F)) V (Proc.devRef .tc main_v21)) = (U6 V (Proc.devRef .tc main_v21)) := congrFun (after_ops_eq V) _
theorem lift5_main_v21 (V : Valuation τ sig (Elt F)) : (after (ops (F := F)) V (Proc.devRef .tc main_v21)) = (U5 V (Proc.devRef .tc main_v21)) :=
  (lift6_main_v21 V).trans (after_of_not_mem writes5 (by decide) (U5 V))
theorem lift4_main_v21 (V : Valuation τ sig (Elt F)) : (after (ops (F := F)) V (Proc.devRef .tc main_v21)) = (U4 V (Proc.devRef .tc main_v21)) :=
  (lift5_main_v21 V).trans (after_of_not_mem writes4 (by decide) (U4 V))
theorem lift3_main_v21 (V : Valuation τ sig (Elt F)) : (after (ops (F := F)) V (Proc.devRef .tc main_v21)) = (U3 V (Proc.devRef .tc main_v21)) :=
  (lift4_main_v21 V).trans (after_of_not_mem writes3 (by decide) (U3 V))
theorem lift2_main_v21 (V : Valuation τ sig (Elt F)) : (after (ops (F := F)) V (Proc.devRef .tc main_v21)) = (U2 V (Proc.devRef .tc main_v21)) :=
  (lift3_main_v21 V).trans (after_of_not_mem writes2 (by decide) (U2 V))
theorem lift1_main_v21 (V : Valuation τ sig (Elt F)) : (after (ops (F := F)) V (Proc.devRef .tc main_v21)) = (U1 V (Proc.devRef .tc main_v21)) :=
  (lift2_main_v21 V).trans (after_of_not_mem writes1 (by decide) (U1 V))
theorem lift6_main_v22 (V : Valuation τ sig (Elt F)) : (after (ops (F := F)) V (Proc.devRef .tc main_v22)) = (U6 V (Proc.devRef .tc main_v22)) := congrFun (after_ops_eq V) _
theorem lift5_main_v22 (V : Valuation τ sig (Elt F)) : (after (ops (F := F)) V (Proc.devRef .tc main_v22)) = (U5 V (Proc.devRef .tc main_v22)) :=
  (lift6_main_v22 V).trans (after_of_not_mem writes5 (by decide) (U5 V))
theorem lift4_main_v22 (V : Valuation τ sig (Elt F)) : (after (ops (F := F)) V (Proc.devRef .tc main_v22)) = (U4 V (Proc.devRef .tc main_v22)) :=
  (lift5_main_v22 V).trans (after_of_not_mem writes4 (by decide) (U4 V))
theorem lift3_main_v22 (V : Valuation τ sig (Elt F)) : (after (ops (F := F)) V (Proc.devRef .tc main_v22)) = (U3 V (Proc.devRef .tc main_v22)) :=
  (lift4_main_v22 V).trans (after_of_not_mem writes3 (by decide) (U3 V))
theorem lift2_main_v22 (V : Valuation τ sig (Elt F)) : (after (ops (F := F)) V (Proc.devRef .tc main_v22)) = (U2 V (Proc.devRef .tc main_v22)) :=
  (lift3_main_v22 V).trans (after_of_not_mem writes2 (by decide) (U2 V))
theorem lift1_main_v22 (V : Valuation τ sig (Elt F)) : (after (ops (F := F)) V (Proc.devRef .tc main_v22)) = (U1 V (Proc.devRef .tc main_v22)) :=
  (lift2_main_v22 V).trans (after_of_not_mem writes1 (by decide) (U1 V))
theorem lift6_main_cst_2 (V : Valuation τ sig (Elt F)) : (after (ops (F := F)) V (Proc.devRef .tc main_cst_2)) = (U6 V (Proc.devRef .tc main_cst_2)) := congrFun (after_ops_eq V) _
theorem lift5_main_cst_2 (V : Valuation τ sig (Elt F)) : (after (ops (F := F)) V (Proc.devRef .tc main_cst_2)) = (U5 V (Proc.devRef .tc main_cst_2)) :=
  (lift6_main_cst_2 V).trans (after_of_not_mem writes5 (by decide) (U5 V))
theorem lift4_main_cst_2 (V : Valuation τ sig (Elt F)) : (after (ops (F := F)) V (Proc.devRef .tc main_cst_2)) = (U4 V (Proc.devRef .tc main_cst_2)) :=
  (lift5_main_cst_2 V).trans (after_of_not_mem writes4 (by decide) (U4 V))
theorem lift3_main_cst_2 (V : Valuation τ sig (Elt F)) : (after (ops (F := F)) V (Proc.devRef .tc main_cst_2)) = (U3 V (Proc.devRef .tc main_cst_2)) :=
  (lift4_main_cst_2 V).trans (after_of_not_mem writes3 (by decide) (U3 V))
theorem lift2_main_cst_2 (V : Valuation τ sig (Elt F)) : (after (ops (F := F)) V (Proc.devRef .tc main_cst_2)) = (U2 V (Proc.devRef .tc main_cst_2)) :=
  (lift3_main_cst_2 V).trans (after_of_not_mem writes2 (by decide) (U2 V))
theorem lift1_main_cst_2 (V : Valuation τ sig (Elt F)) : (after (ops (F := F)) V (Proc.devRef .tc main_cst_2)) = (U1 V (Proc.devRef .tc main_cst_2)) :=
  (lift2_main_cst_2 V).trans (after_of_not_mem writes1 (by decide) (U1 V))
theorem lift6_main_v23 (V : Valuation τ sig (Elt F)) : (after (ops (F := F)) V (Proc.devRef .tc main_v23)) = (U6 V (Proc.devRef .tc main_v23)) := congrFun (after_ops_eq V) _
theorem lift5_main_v23 (V : Valuation τ sig (Elt F)) : (after (ops (F := F)) V (Proc.devRef .tc main_v23)) = (U5 V (Proc.devRef .tc main_v23)) :=
  (lift6_main_v23 V).trans (after_of_not_mem writes5 (by decide) (U5 V))
theorem lift4_main_v23 (V : Valuation τ sig (Elt F)) : (after (ops (F := F)) V (Proc.devRef .tc main_v23)) = (U4 V (Proc.devRef .tc main_v23)) :=
  (lift5_main_v23 V).trans (after_of_not_mem writes4 (by decide) (U4 V))
theorem lift3_main_v23 (V : Valuation τ sig (Elt F)) : (after (ops (F := F)) V (Proc.devRef .tc main_v23)) = (U3 V (Proc.devRef .tc main_v23)) :=
  (lift4_main_v23 V).trans (after_of_not_mem writes3 (by decide) (U3 V))
theorem lift2_main_v23 (V : Valuation τ sig (Elt F)) : (after (ops (F := F)) V (Proc.devRef .tc main_v23)) = (U2 V (Proc.devRef .tc main_v23)) :=
  (lift3_main_v23 V).trans (after_of_not_mem writes2 (by decide) (U2 V))
theorem lift1_main_v23 (V : Valuation τ sig (Elt F)) : (after (ops (F := F)) V (Proc.devRef .tc main_v23)) = (U1 V (Proc.devRef .tc main_v23)) :=
  (lift2_main_v23 V).trans (after_of_not_mem writes1 (by decide) (U1 V))
theorem lift6_main_cst_3 (V : Valuation τ sig (Elt F)) : (after (ops (F := F)) V (Proc.devRef .tc main_cst_3)) = (U6 V (Proc.devRef .tc main_cst_3)) := congrFun (after_ops_eq V) _
theorem lift5_main_cst_3 (V : Valuation τ sig (Elt F)) : (after (ops (F := F)) V (Proc.devRef .tc main_cst_3)) = (U5 V (Proc.devRef .tc main_cst_3)) :=
  (lift6_main_cst_3 V).trans (after_of_not_mem writes5 (by decide) (U5 V))
theorem lift4_main_cst_3 (V : Valuation τ sig (Elt F)) : (after (ops (F := F)) V (Proc.devRef .tc main_cst_3)) = (U4 V (Proc.devRef .tc main_cst_3)) :=
  (lift5_main_cst_3 V).trans (after_of_not_mem writes4 (by decide) (U4 V))
theorem lift3_main_cst_3 (V : Valuation τ sig (Elt F)) : (after (ops (F := F)) V (Proc.devRef .tc main_cst_3)) = (U3 V (Proc.devRef .tc main_cst_3)) :=
  (lift4_main_cst_3 V).trans (after_of_not_mem writes3 (by decide) (U3 V))
theorem lift2_main_cst_3 (V : Valuation τ sig (Elt F)) : (after (ops (F := F)) V (Proc.devRef .tc main_cst_3)) = (U2 V (Proc.devRef .tc main_cst_3)) :=
  (lift3_main_cst_3 V).trans (after_of_not_mem writes2 (by decide) (U2 V))
theorem lift1_main_cst_3 (V : Valuation τ sig (Elt F)) : (after (ops (F := F)) V (Proc.devRef .tc main_cst_3)) = (U1 V (Proc.devRef .tc main_cst_3)) :=
  (lift2_main_cst_3 V).trans (after_of_not_mem writes1 (by decide) (U1 V))
theorem lift6_main_v24 (V : Valuation τ sig (Elt F)) : (after (ops (F := F)) V (Proc.devRef .tc main_v24)) = (U6 V (Proc.devRef .tc main_v24)) := congrFun (after_ops_eq V) _
theorem lift5_main_v24 (V : Valuation τ sig (Elt F)) : (after (ops (F := F)) V (Proc.devRef .tc main_v24)) = (U5 V (Proc.devRef .tc main_v24)) :=
  (lift6_main_v24 V).trans (after_of_not_mem writes5 (by decide) (U5 V))
theorem lift4_main_v24 (V : Valuation τ sig (Elt F)) : (after (ops (F := F)) V (Proc.devRef .tc main_v24)) = (U4 V (Proc.devRef .tc main_v24)) :=
  (lift5_main_v24 V).trans (after_of_not_mem writes4 (by decide) (U4 V))
theorem lift3_main_v24 (V : Valuation τ sig (Elt F)) : (after (ops (F := F)) V (Proc.devRef .tc main_v24)) = (U3 V (Proc.devRef .tc main_v24)) :=
  (lift4_main_v24 V).trans (after_of_not_mem writes3 (by decide) (U3 V))
theorem lift2_main_v24 (V : Valuation τ sig (Elt F)) : (after (ops (F := F)) V (Proc.devRef .tc main_v24)) = (U2 V (Proc.devRef .tc main_v24)) :=
  (lift3_main_v24 V).trans (after_of_not_mem writes2 (by decide) (U2 V))
theorem lift1_main_v24 (V : Valuation τ sig (Elt F)) : (after (ops (F := F)) V (Proc.devRef .tc main_v24)) = (U1 V (Proc.devRef .tc main_v24)) :=
  (lift2_main_v24 V).trans (after_of_not_mem writes1 (by decide) (U1 V))
theorem lift6_main_v25 (V : Valuation τ sig (Elt F)) : (after (ops (F := F)) V (Proc.devRef .tc main_v25)) = (U6 V (Proc.devRef .tc main_v25)) := congrFun (after_ops_eq V) _
theorem lift5_main_v25 (V : Valuation τ sig (Elt F)) : (after (ops (F := F)) V (Proc.devRef .tc main_v25)) = (U5 V (Proc.devRef .tc main_v25)) :=
  (lift6_main_v25 V).trans (after_of_not_mem writes5 (by decide) (U5 V))
theorem lift4_main_v25 (V : Valuation τ sig (Elt F)) : (after (ops (F := F)) V (Proc.devRef .tc main_v25)) = (U4 V (Proc.devRef .tc main_v25)) :=
  (lift5_main_v25 V).trans (after_of_not_mem writes4 (by decide) (U4 V))
theorem lift3_main_v25 (V : Valuation τ sig (Elt F)) : (after (ops (F := F)) V (Proc.devRef .tc main_v25)) = (U3 V (Proc.devRef .tc main_v25)) :=
  (lift4_main_v25 V).trans (after_of_not_mem writes3 (by decide) (U3 V))
theorem lift2_main_v25 (V : Valuation τ sig (Elt F)) : (after (ops (F := F)) V (Proc.devRef .tc main_v25)) = (U2 V (Proc.devRef .tc main_v25)) :=
  (lift3_main_v25 V).trans (after_of_not_mem writes2 (by decide) (U2 V))
theorem lift1_main_v25 (V : Valuation τ sig (Elt F)) : (after (ops (F := F)) V (Proc.devRef .tc main_v25)) = (U1 V (Proc.devRef .tc main_v25)) :=
  (lift2_main_v25 V).trans (after_of_not_mem writes1 (by decide) (U1 V))
theorem lift6_main_c_4 (V : Valuation τ sig (Elt F)) : (after (ops (F := F)) V (Proc.devRef .tc main_c_4)) = (U6 V (Proc.devRef .tc main_c_4)) := congrFun (after_ops_eq V) _
theorem lift5_main_c_4 (V : Valuation τ sig (Elt F)) : (after (ops (F := F)) V (Proc.devRef .tc main_c_4)) = (U5 V (Proc.devRef .tc main_c_4)) :=
  (lift6_main_c_4 V).trans (after_of_not_mem writes5 (by decide) (U5 V))
theorem lift4_main_c_4 (V : Valuation τ sig (Elt F)) : (after (ops (F := F)) V (Proc.devRef .tc main_c_4)) = (U4 V (Proc.devRef .tc main_c_4)) :=
  (lift5_main_c_4 V).trans (after_of_not_mem writes4 (by decide) (U4 V))
theorem lift3_main_c_4 (V : Valuation τ sig (Elt F)) : (after (ops (F := F)) V (Proc.devRef .tc main_c_4)) = (U3 V (Proc.devRef .tc main_c_4)) :=
  (lift4_main_c_4 V).trans (after_of_not_mem writes3 (by decide) (U3 V))
theorem lift2_main_c_4 (V : Valuation τ sig (Elt F)) : (after (ops (F := F)) V (Proc.devRef .tc main_c_4)) = (U2 V (Proc.devRef .tc main_c_4)) :=
  (lift3_main_c_4 V).trans (after_of_not_mem writes2 (by decide) (U2 V))
theorem lift1_main_c_4 (V : Valuation τ sig (Elt F)) : (after (ops (F := F)) V (Proc.devRef .tc main_c_4)) = (U1 V (Proc.devRef .tc main_c_4)) :=
  (lift2_main_c_4 V).trans (after_of_not_mem writes1 (by decide) (U1 V))
theorem lift6_main_call1_cst (V : Valuation τ sig (Elt F)) : (after (ops (F := F)) V (Proc.devRef .tc main_call1_cst)) = (U6 V (Proc.devRef .tc main_call1_cst)) := congrFun (after_ops_eq V) _
theorem lift5_main_call1_cst (V : Valuation τ sig (Elt F)) : (after (ops (F := F)) V (Proc.devRef .tc main_call1_cst)) = (U5 V (Proc.devRef .tc main_call1_cst)) :=
  (lift6_main_call1_cst V).trans (after_of_not_mem writes5 (by decide) (U5 V))
theorem lift4_main_call1_cst (V : Valuation τ sig (Elt F)) : (after (ops (F := F)) V (Proc.devRef .tc main_call1_cst)) = (U4 V (Proc.devRef .tc main_call1_cst)) :=
  (lift5_main_call1_cst V).trans (after_of_not_mem writes4 (by decide) (U4 V))
theorem lift3_main_call1_cst (V : Valuation τ sig (Elt F)) : (after (ops (F := F)) V (Proc.devRef .tc main_call1_cst)) = (U3 V (Proc.devRef .tc main_call1_cst)) :=
  (lift4_main_call1_cst V).trans (after_of_not_mem writes3 (by decide) (U3 V))
theorem lift2_main_call1_cst (V : Valuation τ sig (Elt F)) : (after (ops (F := F)) V (Proc.devRef .tc main_call1_cst)) = (U2 V (Proc.devRef .tc main_call1_cst)) :=
  (lift3_main_call1_cst V).trans (after_of_not_mem writes2 (by decide) (U2 V))
theorem lift1_main_call1_cst (V : Valuation τ sig (Elt F)) : (after (ops (F := F)) V (Proc.devRef .tc main_call1_cst)) = (U1 V (Proc.devRef .tc main_call1_cst)) :=
  (lift2_main_call1_cst V).trans (after_of_not_mem writes1 (by decide) (U1 V))
theorem lift6_main_call1_v0 (V : Valuation τ sig (Elt F)) : (after (ops (F := F)) V (Proc.devRef .tc main_call1_v0)) = (U6 V (Proc.devRef .tc main_call1_v0)) := congrFun (after_ops_eq V) _
theorem lift5_main_call1_v0 (V : Valuation τ sig (Elt F)) : (after (ops (F := F)) V (Proc.devRef .tc main_call1_v0)) = (U5 V (Proc.devRef .tc main_call1_v0)) :=
  (lift6_main_call1_v0 V).trans (after_of_not_mem writes5 (by decide) (U5 V))
theorem lift4_main_call1_v0 (V : Valuation τ sig (Elt F)) : (after (ops (F := F)) V (Proc.devRef .tc main_call1_v0)) = (U4 V (Proc.devRef .tc main_call1_v0)) :=
  (lift5_main_call1_v0 V).trans (after_of_not_mem writes4 (by decide) (U4 V))
theorem lift3_main_call1_v0 (V : Valuation τ sig (Elt F)) : (after (ops (F := F)) V (Proc.devRef .tc main_call1_v0)) = (U3 V (Proc.devRef .tc main_call1_v0)) :=
  (lift4_main_call1_v0 V).trans (after_of_not_mem writes3 (by decide) (U3 V))
theorem lift2_main_call1_v0 (V : Valuation τ sig (Elt F)) : (after (ops (F := F)) V (Proc.devRef .tc main_call1_v0)) = (U2 V (Proc.devRef .tc main_call1_v0)) :=
  (lift3_main_call1_v0 V).trans (after_of_not_mem writes2 (by decide) (U2 V))
theorem lift1_main_call1_v0 (V : Valuation τ sig (Elt F)) : (after (ops (F := F)) V (Proc.devRef .tc main_call1_v0)) = (U1 V (Proc.devRef .tc main_call1_v0)) :=
  (lift2_main_call1_v0 V).trans (after_of_not_mem writes1 (by decide) (U1 V))
theorem lift6_main_call1_v1 (V : Valuation τ sig (Elt F)) : (after (ops (F := F)) V (Proc.devRef .tc main_call1_v1)) = (U6 V (Proc.devRef .tc main_call1_v1)) := congrFun (after_ops_eq V) _
theorem lift5_main_call1_v1 (V : Valuation τ sig (Elt F)) : (after (ops (F := F)) V (Proc.devRef .tc main_call1_v1)) = (U5 V (Proc.devRef .tc main_call1_v1)) :=
  (lift6_main_call1_v1 V).trans (after_of_not_mem writes5 (by decide) (U5 V))
theorem lift4_main_call1_v1 (V : Valuation τ sig (Elt F)) : (after (ops (F := F)) V (Proc.devRef .tc main_call1_v1)) = (U4 V (Proc.devRef .tc main_call1_v1)) :=
  (lift5_main_call1_v1 V).trans (after_of_not_mem writes4 (by decide) (U4 V))
theorem lift3_main_call1_v1 (V : Valuation τ sig (Elt F)) : (after (ops (F := F)) V (Proc.devRef .tc main_call1_v1)) = (U3 V (Proc.devRef .tc main_call1_v1)) :=
  (lift4_main_call1_v1 V).trans (after_of_not_mem writes3 (by decide) (U3 V))
theorem lift2_main_call1_v1 (V : Valuation τ sig (Elt F)) : (after (ops (F := F)) V (Proc.devRef .tc main_call1_v1)) = (U2 V (Proc.devRef .tc main_call1_v1)) :=
  (lift3_main_call1_v1 V).trans (after_of_not_mem writes2 (by decide) (U2 V))
theorem lift1_main_call1_v1 (V : Valuation τ sig (Elt F)) : (after (ops (F := F)) V (Proc.devRef .tc main_call1_v1)) = (U1 V (Proc.devRef .tc main_call1_v1)) :=
  (lift2_main_call1_v1 V).trans (after_of_not_mem writes1 (by decide) (U1 V))
theorem lift6_main_call1_cst_0 (V : Valuation τ sig (Elt F)) : (after (ops (F := F)) V (Proc.devRef .tc main_call1_cst_0)) = (U6 V (Proc.devRef .tc main_call1_cst_0)) := congrFun (after_ops_eq V) _
theorem lift5_main_call1_cst_0 (V : Valuation τ sig (Elt F)) : (after (ops (F := F)) V (Proc.devRef .tc main_call1_cst_0)) = (U5 V (Proc.devRef .tc main_call1_cst_0)) :=
  (lift6_main_call1_cst_0 V).trans (after_of_not_mem writes5 (by decide) (U5 V))
theorem lift4_main_call1_cst_0 (V : Valuation τ sig (Elt F)) : (after (ops (F := F)) V (Proc.devRef .tc main_call1_cst_0)) = (U4 V (Proc.devRef .tc main_call1_cst_0)) :=
  (lift5_main_call1_cst_0 V).trans (after_of_not_mem writes4 (by decide) (U4 V))
theorem lift3_main_call1_cst_0 (V : Valuation τ sig (Elt F)) : (after (ops (F := F)) V (Proc.devRef .tc main_call1_cst_0)) = (U3 V (Proc.devRef .tc main_call1_cst_0)) :=
  (lift4_main_call1_cst_0 V).trans (after_of_not_mem writes3 (by decide) (U3 V))
theorem lift2_main_call1_cst_0 (V : Valuation τ sig (Elt F)) : (after (ops (F := F)) V (Proc.devRef .tc main_call1_cst_0)) = (U2 V (Proc.devRef .tc main_call1_cst_0)) :=
  (lift3_main_call1_cst_0 V).trans (after_of_not_mem writes2 (by decide) (U2 V))
theorem lift1_main_call1_cst_0 (V : Valuation τ sig (Elt F)) : (after (ops (F := F)) V (Proc.devRef .tc main_call1_cst_0)) = (U1 V (Proc.devRef .tc main_call1_cst_0)) :=
  (lift2_main_call1_cst_0 V).trans (after_of_not_mem writes1 (by decide) (U1 V))
theorem lift6_main_call1_v2 (V : Valuation τ sig (Elt F)) : (after (ops (F := F)) V (Proc.devRef .tc main_call1_v2)) = (U6 V (Proc.devRef .tc main_call1_v2)) := congrFun (after_ops_eq V) _
theorem lift5_main_call1_v2 (V : Valuation τ sig (Elt F)) : (after (ops (F := F)) V (Proc.devRef .tc main_call1_v2)) = (U5 V (Proc.devRef .tc main_call1_v2)) :=
  (lift6_main_call1_v2 V).trans (after_of_not_mem writes5 (by decide) (U5 V))
theorem lift4_main_call1_v2 (V : Valuation τ sig (Elt F)) : (after (ops (F := F)) V (Proc.devRef .tc main_call1_v2)) = (U4 V (Proc.devRef .tc main_call1_v2)) :=
  (lift5_main_call1_v2 V).trans (after_of_not_mem writes4 (by decide) (U4 V))
theorem lift3_main_call1_v2 (V : Valuation τ sig (Elt F)) : (after (ops (F := F)) V (Proc.devRef .tc main_call1_v2)) = (U3 V (Proc.devRef .tc main_call1_v2)) :=
  (lift4_main_call1_v2 V).trans (after_of_not_mem writes3 (by decide) (U3 V))
theorem lift2_main_call1_v2 (V : Valuation τ sig (Elt F)) : (after (ops (F := F)) V (Proc.devRef .tc main_call1_v2)) = (U2 V (Proc.devRef .tc main_call1_v2)) :=
  (lift3_main_call1_v2 V).trans (after_of_not_mem writes2 (by decide) (U2 V))
theorem lift1_main_call1_v2 (V : Valuation τ sig (Elt F)) : (after (ops (F := F)) V (Proc.devRef .tc main_call1_v2)) = (U1 V (Proc.devRef .tc main_call1_v2)) :=
  (lift2_main_call1_v2 V).trans (after_of_not_mem writes1 (by decide) (U1 V))
theorem lift6_main_call1_v3 (V : Valuation τ sig (Elt F)) : (after (ops (F := F)) V (Proc.devRef .tc main_call1_v3)) = (U6 V (Proc.devRef .tc main_call1_v3)) := congrFun (after_ops_eq V) _
theorem lift5_main_call1_v3 (V : Valuation τ sig (Elt F)) : (after (ops (F := F)) V (Proc.devRef .tc main_call1_v3)) = (U5 V (Proc.devRef .tc main_call1_v3)) :=
  (lift6_main_call1_v3 V).trans (after_of_not_mem writes5 (by decide) (U5 V))
theorem lift4_main_call1_v3 (V : Valuation τ sig (Elt F)) : (after (ops (F := F)) V (Proc.devRef .tc main_call1_v3)) = (U4 V (Proc.devRef .tc main_call1_v3)) :=
  (lift5_main_call1_v3 V).trans (after_of_not_mem writes4 (by decide) (U4 V))
theorem lift3_main_call1_v3 (V : Valuation τ sig (Elt F)) : (after (ops (F := F)) V (Proc.devRef .tc main_call1_v3)) = (U3 V (Proc.devRef .tc main_call1_v3)) :=
  (lift4_main_call1_v3 V).trans (after_of_not_mem writes3 (by decide) (U3 V))
theorem lift2_main_call1_v3 (V : Valuation τ sig (Elt F)) : (after (ops (F := F)) V (Proc.devRef .tc main_call1_v3)) = (U2 V (Proc.devRef .tc main_call1_v3)) :=
  (lift3_main_call1_v3 V).trans (after_of_not_mem writes2 (by decide) (U2 V))
theorem lift1_main_call1_v3 (V : Valuation τ sig (Elt F)) : (after (ops (F := F)) V (Proc.devRef .tc main_call1_v3)) = (U1 V (Proc.devRef .tc main_call1_v3)) :=
  (lift2_main_call1_v3 V).trans (after_of_not_mem writes1 (by decide) (U1 V))
theorem lift6_main_call1_v4 (V : Valuation τ sig (Elt F)) : (after (ops (F := F)) V (Proc.devRef .tc main_call1_v4)) = (U6 V (Proc.devRef .tc main_call1_v4)) := congrFun (after_ops_eq V) _
theorem lift5_main_call1_v4 (V : Valuation τ sig (Elt F)) : (after (ops (F := F)) V (Proc.devRef .tc main_call1_v4)) = (U5 V (Proc.devRef .tc main_call1_v4)) :=
  (lift6_main_call1_v4 V).trans (after_of_not_mem writes5 (by decide) (U5 V))
theorem lift4_main_call1_v4 (V : Valuation τ sig (Elt F)) : (after (ops (F := F)) V (Proc.devRef .tc main_call1_v4)) = (U4 V (Proc.devRef .tc main_call1_v4)) :=
  (lift5_main_call1_v4 V).trans (after_of_not_mem writes4 (by decide) (U4 V))
theorem lift3_main_call1_v4 (V : Valuation τ sig (Elt F)) : (after (ops (F := F)) V (Proc.devRef .tc main_call1_v4)) = (U3 V (Proc.devRef .tc main_call1_v4)) :=
  (lift4_main_call1_v4 V).trans (after_of_not_mem writes3 (by decide) (U3 V))
theorem lift2_main_call1_v4 (V : Valuation τ sig (Elt F)) : (after (ops (F := F)) V (Proc.devRef .tc main_call1_v4)) = (U2 V (Proc.devRef .tc main_call1_v4)) :=
  (lift3_main_call1_v4 V).trans (after_of_not_mem writes2 (by decide) (U2 V))
theorem lift1_main_call1_v4 (V : Valuation τ sig (Elt F)) : (after (ops (F := F)) V (Proc.devRef .tc main_call1_v4)) = (U1 V (Proc.devRef .tc main_call1_v4)) :=
  (lift2_main_call1_v4 V).trans (after_of_not_mem writes1 (by decide) (U1 V))
theorem lift6_main_call1_v5 (V : Valuation τ sig (Elt F)) : (after (ops (F := F)) V (Proc.devRef .tc main_call1_v5)) = (U6 V (Proc.devRef .tc main_call1_v5)) := congrFun (after_ops_eq V) _
theorem lift5_main_call1_v5 (V : Valuation τ sig (Elt F)) : (after (ops (F := F)) V (Proc.devRef .tc main_call1_v5)) = (U5 V (Proc.devRef .tc main_call1_v5)) :=
  (lift6_main_call1_v5 V).trans (after_of_not_mem writes5 (by decide) (U5 V))
theorem lift4_main_call1_v5 (V : Valuation τ sig (Elt F)) : (after (ops (F := F)) V (Proc.devRef .tc main_call1_v5)) = (U4 V (Proc.devRef .tc main_call1_v5)) :=
  (lift5_main_call1_v5 V).trans (after_of_not_mem writes4 (by decide) (U4 V))
theorem lift3_main_call1_v5 (V : Valuation τ sig (Elt F)) : (after (ops (F := F)) V (Proc.devRef .tc main_call1_v5)) = (U3 V (Proc.devRef .tc main_call1_v5)) :=
  (lift4_main_call1_v5 V).trans (after_of_not_mem writes3 (by decide) (U3 V))
theorem lift2_main_call1_v5 (V : Valuation τ sig (Elt F)) : (after (ops (F := F)) V (Proc.devRef .tc main_call1_v5)) = (U2 V (Proc.devRef .tc main_call1_v5)) :=
  (lift3_main_call1_v5 V).trans (after_of_not_mem writes2 (by decide) (U2 V))
theorem lift1_main_call1_v5 (V : Valuation τ sig (Elt F)) : (after (ops (F := F)) V (Proc.devRef .tc main_call1_v5)) = (U1 V (Proc.devRef .tc main_call1_v5)) :=
  (lift2_main_call1_v5 V).trans (after_of_not_mem writes1 (by decide) (U1 V))
theorem lift6_main_call1_v6 (V : Valuation τ sig (Elt F)) : (after (ops (F := F)) V (Proc.devRef .tc main_call1_v6)) = (U6 V (Proc.devRef .tc main_call1_v6)) := congrFun (after_ops_eq V) _
theorem lift5_main_call1_v6 (V : Valuation τ sig (Elt F)) : (after (ops (F := F)) V (Proc.devRef .tc main_call1_v6)) = (U5 V (Proc.devRef .tc main_call1_v6)) :=
  (lift6_main_call1_v6 V).trans (after_of_not_mem writes5 (by decide) (U5 V))
theorem lift4_main_call1_v6 (V : Valuation τ sig (Elt F)) : (after (ops (F := F)) V (Proc.devRef .tc main_call1_v6)) = (U4 V (Proc.devRef .tc main_call1_v6)) :=
  (lift5_main_call1_v6 V).trans (after_of_not_mem writes4 (by decide) (U4 V))
theorem lift3_main_call1_v6 (V : Valuation τ sig (Elt F)) : (after (ops (F := F)) V (Proc.devRef .tc main_call1_v6)) = (U3 V (Proc.devRef .tc main_call1_v6)) :=
  (lift4_main_call1_v6 V).trans (after_of_not_mem writes3 (by decide) (U3 V))
theorem lift2_main_call1_v6 (V : Valuation τ sig (Elt F)) : (after (ops (F := F)) V (Proc.devRef .tc main_call1_v6)) = (U2 V (Proc.devRef .tc main_call1_v6)) :=
  (lift3_main_call1_v6 V).trans (after_of_not_mem writes2 (by decide) (U2 V))
theorem lift1_main_call1_v6 (V : Valuation τ sig (Elt F)) : (after (ops (F := F)) V (Proc.devRef .tc main_call1_v6)) = (U1 V (Proc.devRef .tc main_call1_v6)) :=
  (lift2_main_call1_v6 V).trans (after_of_not_mem writes1 (by decide) (U1 V))
theorem lift6_main_call1_v7 (V : Valuation τ sig (Elt F)) : (after (ops (F := F)) V (Proc.devRef .tc main_call1_v7)) = (U6 V (Proc.devRef .tc main_call1_v7)) := congrFun (after_ops_eq V) _
theorem lift5_main_call1_v7 (V : Valuation τ sig (Elt F)) : (after (ops (F := F)) V (Proc.devRef .tc main_call1_v7)) = (U5 V (Proc.devRef .tc main_call1_v7)) :=
  (lift6_main_call1_v7 V).trans (after_of_not_mem writes5 (by decide) (U5 V))
theorem lift4_main_call1_v7 (V : Valuation τ sig (Elt F)) : (after (ops (F := F)) V (Proc.devRef .tc main_call1_v7)) = (U4 V (Proc.devRef .tc main_call1_v7)) :=
  (lift5_main_call1_v7 V).trans (after_of_not_mem writes4 (by decide) (U4 V))
theorem lift3_main_call1_v7 (V : Valuation τ sig (Elt F)) : (after (ops (F := F)) V (Proc.devRef .tc main_call1_v7)) = (U3 V (Proc.devRef .tc main_call1_v7)) :=
  (lift4_main_call1_v7 V).trans (after_of_not_mem writes3 (by decide) (U3 V))
theorem lift2_main_call1_v7 (V : Valuation τ sig (Elt F)) : (after (ops (F := F)) V (Proc.devRef .tc main_call1_v7)) = (U2 V (Proc.devRef .tc main_call1_v7)) :=
  (lift3_main_call1_v7 V).trans (after_of_not_mem writes2 (by decide) (U2 V))
theorem lift1_main_call1_v7 (V : Valuation τ sig (Elt F)) : (after (ops (F := F)) V (Proc.devRef .tc main_call1_v7)) = (U1 V (Proc.devRef .tc main_call1_v7)) :=
  (lift2_main_call1_v7 V).trans (after_of_not_mem writes1 (by decide) (U1 V))
theorem lift6_main_call1_cst_1 (V : Valuation τ sig (Elt F)) : (after (ops (F := F)) V (Proc.devRef .tc main_call1_cst_1)) = (U6 V (Proc.devRef .tc main_call1_cst_1)) := congrFun (after_ops_eq V) _
theorem lift5_main_call1_cst_1 (V : Valuation τ sig (Elt F)) : (after (ops (F := F)) V (Proc.devRef .tc main_call1_cst_1)) = (U5 V (Proc.devRef .tc main_call1_cst_1)) :=
  (lift6_main_call1_cst_1 V).trans (after_of_not_mem writes5 (by decide) (U5 V))
theorem lift4_main_call1_cst_1 (V : Valuation τ sig (Elt F)) : (after (ops (F := F)) V (Proc.devRef .tc main_call1_cst_1)) = (U4 V (Proc.devRef .tc main_call1_cst_1)) :=
  (lift5_main_call1_cst_1 V).trans (after_of_not_mem writes4 (by decide) (U4 V))
theorem lift3_main_call1_cst_1 (V : Valuation τ sig (Elt F)) : (after (ops (F := F)) V (Proc.devRef .tc main_call1_cst_1)) = (U3 V (Proc.devRef .tc main_call1_cst_1)) :=
  (lift4_main_call1_cst_1 V).trans (after_of_not_mem writes3 (by decide) (U3 V))
theorem lift2_main_call1_cst_1 (V : Valuation τ sig (Elt F)) : (after (ops (F := F)) V (Proc.devRef .tc main_call1_cst_1)) = (U2 V (Proc.devRef .tc main_call1_cst_1)) :=
  (lift3_main_call1_cst_1 V).trans (after_of_not_mem writes2 (by decide) (U2 V))
theorem lift1_main_call1_cst_1 (V : Valuation τ sig (Elt F)) : (after (ops (F := F)) V (Proc.devRef .tc main_call1_cst_1)) = (U1 V (Proc.devRef .tc main_call1_cst_1)) :=
  (lift2_main_call1_cst_1 V).trans (after_of_not_mem writes1 (by decide) (U1 V))
theorem lift6_main_call1_v8 (V : Valuation τ sig (Elt F)) : (after (ops (F := F)) V (Proc.devRef .tc main_call1_v8)) = (U6 V (Proc.devRef .tc main_call1_v8)) := congrFun (after_ops_eq V) _
theorem lift5_main_call1_v8 (V : Valuation τ sig (Elt F)) : (after (ops (F := F)) V (Proc.devRef .tc main_call1_v8)) = (U5 V (Proc.devRef .tc main_call1_v8)) :=
  (lift6_main_call1_v8 V).trans (after_of_not_mem writes5 (by decide) (U5 V))
theorem lift4_main_call1_v8 (V : Valuation τ sig (Elt F)) : (after (ops (F := F)) V (Proc.devRef .tc main_call1_v8)) = (U4 V (Proc.devRef .tc main_call1_v8)) :=
  (lift5_main_call1_v8 V).trans (after_of_not_mem writes4 (by decide) (U4 V))
theorem lift3_main_call1_v8 (V : Valuation τ sig (Elt F)) : (after (ops (F := F)) V (Proc.devRef .tc main_call1_v8)) = (U3 V (Proc.devRef .tc main_call1_v8)) :=
  (lift4_main_call1_v8 V).trans (after_of_not_mem writes3 (by decide) (U3 V))
theorem lift2_main_call1_v8 (V : Valuation τ sig (Elt F)) : (after (ops (F := F)) V (Proc.devRef .tc main_call1_v8)) = (U2 V (Proc.devRef .tc main_call1_v8)) :=
  (lift3_main_call1_v8 V).trans (after_of_not_mem writes2 (by decide) (U2 V))
theorem lift1_main_call1_v8 (V : Valuation τ sig (Elt F)) : (after (ops (F := F)) V (Proc.devRef .tc main_call1_v8)) = (U1 V (Proc.devRef .tc main_call1_v8)) :=
  (lift2_main_call1_v8 V).trans (after_of_not_mem writes1 (by decide) (U1 V))
theorem lift6_main_call1_cst_2 (V : Valuation τ sig (Elt F)) : (after (ops (F := F)) V (Proc.devRef .tc main_call1_cst_2)) = (U6 V (Proc.devRef .tc main_call1_cst_2)) := congrFun (after_ops_eq V) _
theorem lift5_main_call1_cst_2 (V : Valuation τ sig (Elt F)) : (after (ops (F := F)) V (Proc.devRef .tc main_call1_cst_2)) = (U5 V (Proc.devRef .tc main_call1_cst_2)) :=
  (lift6_main_call1_cst_2 V).trans (after_of_not_mem writes5 (by decide) (U5 V))
theorem lift4_main_call1_cst_2 (V : Valuation τ sig (Elt F)) : (after (ops (F := F)) V (Proc.devRef .tc main_call1_cst_2)) = (U4 V (Proc.devRef .tc main_call1_cst_2)) :=
  (lift5_main_call1_cst_2 V).trans (after_of_not_mem writes4 (by decide) (U4 V))
theorem lift3_main_call1_cst_2 (V : Valuation τ sig (Elt F)) : (after (ops (F := F)) V (Proc.devRef .tc main_call1_cst_2)) = (U3 V (Proc.devRef .tc main_call1_cst_2)) :=
  (lift4_main_call1_cst_2 V).trans (after_of_not_mem writes3 (by decide) (U3 V))
theorem lift2_main_call1_cst_2 (V : Valuation τ sig (Elt F)) : (after (ops (F := F)) V (Proc.devRef .tc main_call1_cst_2)) = (U2 V (Proc.devRef .tc main_call1_cst_2)) :=
  (lift3_main_call1_cst_2 V).trans (after_of_not_mem writes2 (by decide) (U2 V))
theorem lift1_main_call1_cst_2 (V : Valuation τ sig (Elt F)) : (after (ops (F := F)) V (Proc.devRef .tc main_call1_cst_2)) = (U1 V (Proc.devRef .tc main_call1_cst_2)) :=
  (lift2_main_call1_cst_2 V).trans (after_of_not_mem writes1 (by decide) (U1 V))
theorem lift6_main_call1_v9 (V : Valuation τ sig (Elt F)) : (after (ops (F := F)) V (Proc.devRef .tc main_call1_v9)) = (U6 V (Proc.devRef .tc main_call1_v9)) := congrFun (after_ops_eq V) _
theorem lift5_main_call1_v9 (V : Valuation τ sig (Elt F)) : (after (ops (F := F)) V (Proc.devRef .tc main_call1_v9)) = (U5 V (Proc.devRef .tc main_call1_v9)) :=
  (lift6_main_call1_v9 V).trans (after_of_not_mem writes5 (by decide) (U5 V))
theorem lift4_main_call1_v9 (V : Valuation τ sig (Elt F)) : (after (ops (F := F)) V (Proc.devRef .tc main_call1_v9)) = (U4 V (Proc.devRef .tc main_call1_v9)) :=
  (lift5_main_call1_v9 V).trans (after_of_not_mem writes4 (by decide) (U4 V))
theorem lift3_main_call1_v9 (V : Valuation τ sig (Elt F)) : (after (ops (F := F)) V (Proc.devRef .tc main_call1_v9)) = (U3 V (Proc.devRef .tc main_call1_v9)) :=
  (lift4_main_call1_v9 V).trans (after_of_not_mem writes3 (by decide) (U3 V))
theorem lift2_main_call1_v9 (V : Valuation τ sig (Elt F)) : (after (ops (F := F)) V (Proc.devRef .tc main_call1_v9)) = (U2 V (Proc.devRef .tc main_call1_v9)) :=
  (lift3_main_call1_v9 V).trans (after_of_not_mem writes2 (by decide) (U2 V))
theorem lift1_main_call1_v9 (V : Valuation τ sig (Elt F)) : (after (ops (F := F)) V (Proc.devRef .tc main_call1_v9)) = (U1 V (Proc.devRef .tc main_call1_v9)) :=
  (lift2_main_call1_v9 V).trans (after_of_not_mem writes1 (by decide) (U1 V))
theorem lift6_main_call1_v10 (V : Valuation τ sig (Elt F)) : (after (ops (F := F)) V (Proc.devRef .tc main_call1_v10)) = (U6 V (Proc.devRef .tc main_call1_v10)) := congrFun (after_ops_eq V) _
theorem lift5_main_call1_v10 (V : Valuation τ sig (Elt F)) : (after (ops (F := F)) V (Proc.devRef .tc main_call1_v10)) = (U5 V (Proc.devRef .tc main_call1_v10)) :=
  (lift6_main_call1_v10 V).trans (after_of_not_mem writes5 (by decide) (U5 V))
theorem lift4_main_call1_v10 (V : Valuation τ sig (Elt F)) : (after (ops (F := F)) V (Proc.devRef .tc main_call1_v10)) = (U4 V (Proc.devRef .tc main_call1_v10)) :=
  (lift5_main_call1_v10 V).trans (after_of_not_mem writes4 (by decide) (U4 V))
theorem lift3_main_call1_v10 (V : Valuation τ sig (Elt F)) : (after (ops (F := F)) V (Proc.devRef .tc main_call1_v10)) = (U3 V (Proc.devRef .tc main_call1_v10)) :=
  (lift4_main_call1_v10 V).trans (after_of_not_mem writes3 (by decide) (U3 V))
theorem lift2_main_call1_v10 (V : Valuation τ sig (Elt F)) : (after (ops (F := F)) V (Proc.devRef .tc main_call1_v10)) = (U2 V (Proc.devRef .tc main_call1_v10)) :=
  (lift3_main_call1_v10 V).trans (after_of_not_mem writes2 (by decide) (U2 V))
theorem lift1_main_call1_v10 (V : Valuation τ sig (Elt F)) : (after (ops (F := F)) V (Proc.devRef .tc main_call1_v10)) = (U1 V (Proc.devRef .tc main_call1_v10)) :=
  (lift2_main_call1_v10 V).trans (after_of_not_mem writes1 (by decide) (U1 V))
theorem lift6_main_call1_v11 (V : Valuation τ sig (Elt F)) : (after (ops (F := F)) V (Proc.devRef .tc main_call1_v11)) = (U6 V (Proc.devRef .tc main_call1_v11)) := congrFun (after_ops_eq V) _
theorem lift5_main_call1_v11 (V : Valuation τ sig (Elt F)) : (after (ops (F := F)) V (Proc.devRef .tc main_call1_v11)) = (U5 V (Proc.devRef .tc main_call1_v11)) :=
  (lift6_main_call1_v11 V).trans (after_of_not_mem writes5 (by decide) (U5 V))
theorem lift4_main_call1_v11 (V : Valuation τ sig (Elt F)) : (after (ops (F := F)) V (Proc.devRef .tc main_call1_v11)) = (U4 V (Proc.devRef .tc main_call1_v11)) :=
  (lift5_main_call1_v11 V).trans (after_of_not_mem writes4 (by decide) (U4 V))
theorem lift3_main_call1_v11 (V : Valuation τ sig (Elt F)) : (after (ops (F := F)) V (Proc.devRef .tc main_call1_v11)) = (U3 V (Proc.devRef .tc main_call1_v11)) :=
  (lift4_main_call1_v11 V).trans (after_of_not_mem writes3 (by decide) (U3 V))
theorem lift2_main_call1_v11 (V : Valuation τ sig (Elt F)) : (after (ops (F := F)) V (Proc.devRef .tc main_call1_v11)) = (U2 V (Proc.devRef .tc main_call1_v11)) :=
  (lift3_main_call1_v11 V).trans (after_of_not_mem writes2 (by decide) (U2 V))
theorem lift1_main_call1_v11 (V : Valuation τ sig (Elt F)) : (after (ops (F := F)) V (Proc.devRef .tc main_call1_v11)) = (U1 V (Proc.devRef .tc main_call1_v11)) :=
  (lift2_main_call1_v11 V).trans (after_of_not_mem writes1 (by decide) (U1 V))
theorem lift6_main_call1_cst_3 (V : Valuation τ sig (Elt F)) : (after (ops (F := F)) V (Proc.devRef .tc main_call1_cst_3)) = (U6 V (Proc.devRef .tc main_call1_cst_3)) := congrFun (after_ops_eq V) _
theorem lift5_main_call1_cst_3 (V : Valuation τ sig (Elt F)) : (after (ops (F := F)) V (Proc.devRef .tc main_call1_cst_3)) = (U5 V (Proc.devRef .tc main_call1_cst_3)) :=
  (lift6_main_call1_cst_3 V).trans (after_of_not_mem writes5 (by decide) (U5 V))
theorem lift4_main_call1_cst_3 (V : Valuation τ sig (Elt F)) : (after (ops (F := F)) V (Proc.devRef .tc main_call1_cst_3)) = (U4 V (Proc.devRef .tc main_call1_cst_3)) :=
  (lift5_main_call1_cst_3 V).trans (after_of_not_mem writes4 (by decide) (U4 V))
theorem lift3_main_call1_cst_3 (V : Valuation τ sig (Elt F)) : (after (ops (F := F)) V (Proc.devRef .tc main_call1_cst_3)) = (U3 V (Proc.devRef .tc main_call1_cst_3)) :=
  (lift4_main_call1_cst_3 V).trans (after_of_not_mem writes3 (by decide) (U3 V))
theorem lift2_main_call1_cst_3 (V : Valuation τ sig (Elt F)) : (after (ops (F := F)) V (Proc.devRef .tc main_call1_cst_3)) = (U2 V (Proc.devRef .tc main_call1_cst_3)) :=
  (lift3_main_call1_cst_3 V).trans (after_of_not_mem writes2 (by decide) (U2 V))
theorem lift1_main_call1_cst_3 (V : Valuation τ sig (Elt F)) : (after (ops (F := F)) V (Proc.devRef .tc main_call1_cst_3)) = (U1 V (Proc.devRef .tc main_call1_cst_3)) :=
  (lift2_main_call1_cst_3 V).trans (after_of_not_mem writes1 (by decide) (U1 V))
theorem lift6_main_call1_v12 (V : Valuation τ sig (Elt F)) : (after (ops (F := F)) V (Proc.devRef .tc main_call1_v12)) = (U6 V (Proc.devRef .tc main_call1_v12)) := congrFun (after_ops_eq V) _
theorem lift5_main_call1_v12 (V : Valuation τ sig (Elt F)) : (after (ops (F := F)) V (Proc.devRef .tc main_call1_v12)) = (U5 V (Proc.devRef .tc main_call1_v12)) :=
  (lift6_main_call1_v12 V).trans (after_of_not_mem writes5 (by decide) (U5 V))
theorem lift4_main_call1_v12 (V : Valuation τ sig (Elt F)) : (after (ops (F := F)) V (Proc.devRef .tc main_call1_v12)) = (U4 V (Proc.devRef .tc main_call1_v12)) :=
  (lift5_main_call1_v12 V).trans (after_of_not_mem writes4 (by decide) (U4 V))
theorem lift3_main_call1_v12 (V : Valuation τ sig (Elt F)) : (after (ops (F := F)) V (Proc.devRef .tc main_call1_v12)) = (U3 V (Proc.devRef .tc main_call1_v12)) :=
  (lift4_main_call1_v12 V).trans (after_of_not_mem writes3 (by decide) (U3 V))
theorem lift2_main_call1_v12 (V : Valuation τ sig (Elt F)) : (after (ops (F := F)) V (Proc.devRef .tc main_call1_v12)) = (U2 V (Proc.devRef .tc main_call1_v12)) :=
  (lift3_main_call1_v12 V).trans (after_of_not_mem writes2 (by decide) (U2 V))
theorem lift1_main_call1_v12 (V : Valuation τ sig (Elt F)) : (after (ops (F := F)) V (Proc.devRef .tc main_call1_v12)) = (U1 V (Proc.devRef .tc main_call1_v12)) :=
  (lift2_main_call1_v12 V).trans (after_of_not_mem writes1 (by decide) (U1 V))
theorem lift6_main_call1_cst_4 (V : Valuation τ sig (Elt F)) : (after (ops (F := F)) V (Proc.devRef .tc main_call1_cst_4)) = (U6 V (Proc.devRef .tc main_call1_cst_4)) := congrFun (after_ops_eq V) _
theorem lift5_main_call1_cst_4 (V : Valuation τ sig (Elt F)) : (after (ops (F := F)) V (Proc.devRef .tc main_call1_cst_4)) = (U5 V (Proc.devRef .tc main_call1_cst_4)) :=
  (lift6_main_call1_cst_4 V).trans (after_of_not_mem writes5 (by decide) (U5 V))
theorem lift4_main_call1_cst_4 (V : Valuation τ sig (Elt F)) : (after (ops (F := F)) V (Proc.devRef .tc main_call1_cst_4)) = (U4 V (Proc.devRef .tc main_call1_cst_4)) :=
  (lift5_main_call1_cst_4 V).trans (after_of_not_mem writes4 (by decide) (U4 V))
theorem lift3_main_call1_cst_4 (V : Valuation τ sig (Elt F)) : (after (ops (F := F)) V (Proc.devRef .tc main_call1_cst_4)) = (U3 V (Proc.devRef .tc main_call1_cst_4)) :=
  (lift4_main_call1_cst_4 V).trans (after_of_not_mem writes3 (by decide) (U3 V))
theorem lift2_main_call1_cst_4 (V : Valuation τ sig (Elt F)) : (after (ops (F := F)) V (Proc.devRef .tc main_call1_cst_4)) = (U2 V (Proc.devRef .tc main_call1_cst_4)) :=
  (lift3_main_call1_cst_4 V).trans (after_of_not_mem writes2 (by decide) (U2 V))
theorem lift1_main_call1_cst_4 (V : Valuation τ sig (Elt F)) : (after (ops (F := F)) V (Proc.devRef .tc main_call1_cst_4)) = (U1 V (Proc.devRef .tc main_call1_cst_4)) :=
  (lift2_main_call1_cst_4 V).trans (after_of_not_mem writes1 (by decide) (U1 V))
theorem lift6_main_call1_call0_v0 (V : Valuation τ sig (Elt F)) : (after (ops (F := F)) V (Proc.devRef .tc main_call1_call0_v0)) = (U6 V (Proc.devRef .tc main_call1_call0_v0)) := congrFun (after_ops_eq V) _
theorem lift5_main_call1_call0_v0 (V : Valuation τ sig (Elt F)) : (after (ops (F := F)) V (Proc.devRef .tc main_call1_call0_v0)) = (U5 V (Proc.devRef .tc main_call1_call0_v0)) :=
  (lift6_main_call1_call0_v0 V).trans (after_of_not_mem writes5 (by decide) (U5 V))
theorem lift4_main_call1_call0_v0 (V : Valuation τ sig (Elt F)) : (after (ops (F := F)) V (Proc.devRef .tc main_call1_call0_v0)) = (U4 V (Proc.devRef .tc main_call1_call0_v0)) :=
  (lift5_main_call1_call0_v0 V).trans (after_of_not_mem writes4 (by decide) (U4 V))
theorem lift3_main_call1_call0_v0 (V : Valuation τ sig (Elt F)) : (after (ops (F := F)) V (Proc.devRef .tc main_call1_call0_v0)) = (U3 V (Proc.devRef .tc main_call1_call0_v0)) :=
  (lift4_main_call1_call0_v0 V).trans (after_of_not_mem writes3 (by decide) (U3 V))
theorem lift2_main_call1_call0_v0 (V : Valuation τ sig (Elt F)) : (after (ops (F := F)) V (Proc.devRef .tc main_call1_call0_v0)) = (U2 V (Proc.devRef .tc main_call1_call0_v0)) :=
  (lift3_main_call1_call0_v0 V).trans (after_of_not_mem writes2 (by decide) (U2 V))
theorem lift1_main_call1_call0_v0 (V : Valuation τ sig (Elt F)) : (after (ops (F := F)) V (Proc.devRef .tc main_call1_call0_v0)) = (U1 V (Proc.devRef .tc main_call1_call0_v0)) :=
  (lift2_main_call1_call0_v0 V).trans (after_of_not_mem writes1 (by decide) (U1 V))
theorem lift6_main_call1_call0_v1 (V : Valuation τ sig (Elt F)) : (after (ops (F := F)) V (Proc.devRef .tc main_call1_call0_v1)) = (U6 V (Proc.devRef .tc main_call1_call0_v1)) := congrFun (after_ops_eq V) _
theorem lift5_main_call1_call0_v1 (V : Valuation τ sig (Elt F)) : (after (ops (F := F)) V (Proc.devRef .tc main_call1_call0_v1)) = (U5 V (Proc.devRef .tc main_call1_call0_v1)) :=
  (lift6_main_call1_call0_v1 V).trans (after_of_not_mem writes5 (by decide) (U5 V))
theorem lift4_main_call1_call0_v1 (V : Valuation τ sig (Elt F)) : (after (ops (F := F)) V (Proc.devRef .tc main_call1_call0_v1)) = (U4 V (Proc.devRef .tc main_call1_call0_v1)) :=
  (lift5_main_call1_call0_v1 V).trans (after_of_not_mem writes4 (by decide) (U4 V))
theorem lift3_main_call1_call0_v1 (V : Valuation τ sig (Elt F)) : (after (ops (F := F)) V (Proc.devRef .tc main_call1_call0_v1)) = (U3 V (Proc.devRef .tc main_call1_call0_v1)) :=
  (lift4_main_call1_call0_v1 V).trans (after_of_not_mem writes3 (by decide) (U3 V))
theorem lift2_main_call1_call0_v1 (V : Valuation τ sig (Elt F)) : (after (ops (F := F)) V (Proc.devRef .tc main_call1_call0_v1)) = (U2 V (Proc.devRef .tc main_call1_call0_v1)) :=
  (lift3_main_call1_call0_v1 V).trans (after_of_not_mem writes2 (by decide) (U2 V))
theorem lift1_main_call1_call0_v1 (V : Valuation τ sig (Elt F)) : (after (ops (F := F)) V (Proc.devRef .tc main_call1_call0_v1)) = (U1 V (Proc.devRef .tc main_call1_call0_v1)) :=
  (lift2_main_call1_call0_v1 V).trans (after_of_not_mem writes1 (by decide) (U1 V))
theorem lift6_main_v26 (V : Valuation τ sig (Elt F)) : (after (ops (F := F)) V (Proc.devRef .tc main_v26)) = (U6 V (Proc.devRef .tc main_v26)) := congrFun (after_ops_eq V) _
theorem lift5_main_v26 (V : Valuation τ sig (Elt F)) : (after (ops (F := F)) V (Proc.devRef .tc main_v26)) = (U5 V (Proc.devRef .tc main_v26)) :=
  (lift6_main_v26 V).trans (after_of_not_mem writes5 (by decide) (U5 V))
theorem lift4_main_v26 (V : Valuation τ sig (Elt F)) : (after (ops (F := F)) V (Proc.devRef .tc main_v26)) = (U4 V (Proc.devRef .tc main_v26)) :=
  (lift5_main_v26 V).trans (after_of_not_mem writes4 (by decide) (U4 V))
theorem lift3_main_v26 (V : Valuation τ sig (Elt F)) : (after (ops (F := F)) V (Proc.devRef .tc main_v26)) = (U3 V (Proc.devRef .tc main_v26)) :=
  (lift4_main_v26 V).trans (after_of_not_mem writes3 (by decide) (U3 V))
theorem lift2_main_v26 (V : Valuation τ sig (Elt F)) : (after (ops (F := F)) V (Proc.devRef .tc main_v26)) = (U2 V (Proc.devRef .tc main_v26)) :=
  (lift3_main_v26 V).trans (after_of_not_mem writes2 (by decide) (U2 V))
theorem lift1_main_v26 (V : Valuation τ sig (Elt F)) : (after (ops (F := F)) V (Proc.devRef .tc main_v26)) = (U1 V (Proc.devRef .tc main_v26)) :=
  (lift2_main_v26 V).trans (after_of_not_mem writes1 (by decide) (U1 V))
theorem lift6_main_v27 (V : Valuation τ sig (Elt F)) : (after (ops (F := F)) V (Proc.devRef .tc main_v27)) = (U6 V (Proc.devRef .tc main_v27)) := congrFun (after_ops_eq V) _
theorem lift5_main_v27 (V : Valuation τ sig (Elt F)) : (after (ops (F := F)) V (Proc.devRef .tc main_v27)) = (U5 V (Proc.devRef .tc main_v27)) :=
  (lift6_main_v27 V).trans (after_of_not_mem writes5 (by decide) (U5 V))
theorem lift4_main_v27 (V : Valuation τ sig (Elt F)) : (after (ops (F := F)) V (Proc.devRef .tc main_v27)) = (U4 V (Proc.devRef .tc main_v27)) :=
  (lift5_main_v27 V).trans (after_of_not_mem writes4 (by decide) (U4 V))
theorem lift3_main_v27 (V : Valuation τ sig (Elt F)) : (after (ops (F := F)) V (Proc.devRef .tc main_v27)) = (U3 V (Proc.devRef .tc main_v27)) :=
  (lift4_main_v27 V).trans (after_of_not_mem writes3 (by decide) (U3 V))
theorem lift2_main_v27 (V : Valuation τ sig (Elt F)) : (after (ops (F := F)) V (Proc.devRef .tc main_v27)) = (U2 V (Proc.devRef .tc main_v27)) :=
  (lift3_main_v27 V).trans (after_of_not_mem writes2 (by decide) (U2 V))
theorem lift1_main_v27 (V : Valuation τ sig (Elt F)) : (after (ops (F := F)) V (Proc.devRef .tc main_v27)) = (U1 V (Proc.devRef .tc main_v27)) :=
  (lift2_main_v27 V).trans (after_of_not_mem writes1 (by decide) (U1 V))
theorem lift6_main_v28 (V : Valuation τ sig (Elt F)) : (after (ops (F := F)) V (Proc.devRef .tc main_v28)) = (U6 V (Proc.devRef .tc main_v28)) := congrFun (after_ops_eq V) _
theorem lift5_main_v28 (V : Valuation τ sig (Elt F)) : (after (ops (F := F)) V (Proc.devRef .tc main_v28)) = (U5 V (Proc.devRef .tc main_v28)) :=
  (lift6_main_v28 V).trans (after_of_not_mem writes5 (by decide) (U5 V))
theorem lift4_main_v28 (V : Valuation τ sig (Elt F)) : (after (ops (F := F)) V (Proc.devRef .tc main_v28)) = (U4 V (Proc.devRef .tc main_v28)) :=
  (lift5_main_v28 V).trans (after_of_not_mem writes4 (by decide) (U4 V))
theorem lift3_main_v28 (V : Valuation τ sig (Elt F)) : (after (ops (F := F)) V (Proc.devRef .tc main_v28)) = (U3 V (Proc.devRef .tc main_v28)) :=
  (lift4_main_v28 V).trans (after_of_not_mem writes3 (by decide) (U3 V))
theorem lift2_main_v28 (V : Valuation τ sig (Elt F)) : (after (ops (F := F)) V (Proc.devRef .tc main_v28)) = (U2 V (Proc.devRef .tc main_v28)) :=
  (lift3_main_v28 V).trans (after_of_not_mem writes2 (by decide) (U2 V))
theorem lift1_main_v28 (V : Valuation τ sig (Elt F)) : (after (ops (F := F)) V (Proc.devRef .tc main_v28)) = (U1 V (Proc.devRef .tc main_v28)) :=
  (lift2_main_v28 V).trans (after_of_not_mem writes1 (by decide) (U1 V))
theorem lift6_main_v29 (V : Valuation τ sig (Elt F)) : (after (ops (F := F)) V (Proc.devRef .tc main_v29)) = (U6 V (Proc.devRef .tc main_v29)) := congrFun (after_ops_eq V) _
theorem lift5_main_v29 (V : Valuation τ sig (Elt F)) : (after (ops (F := F)) V (Proc.devRef .tc main_v29)) = (U5 V (Proc.devRef .tc main_v29)) :=
  (lift6_main_v29 V).trans (after_of_not_mem writes5 (by decide) (U5 V))
theorem lift4_main_v29 (V : Valuation τ sig (Elt F)) : (after (ops (F := F)) V (Proc.devRef .tc main_v29)) = (U4 V (Proc.devRef .tc main_v29)) :=
  (lift5_main_v29 V).trans (after_of_not_mem writes4 (by decide) (U4 V))
theorem lift3_main_v29 (V : Valuation τ sig (Elt F)) : (after (ops (F := F)) V (Proc.devRef .tc main_v29)) = (U3 V (Proc.devRef .tc main_v29)) :=
  (lift4_main_v29 V).trans (after_of_not_mem writes3 (by decide) (U3 V))
theorem lift2_main_v29 (V : Valuation τ sig (Elt F)) : (after (ops (F := F)) V (Proc.devRef .tc main_v29)) = (U2 V (Proc.devRef .tc main_v29)) :=
  (lift3_main_v29 V).trans (after_of_not_mem writes2 (by decide) (U2 V))
theorem lift1_main_v29 (V : Valuation τ sig (Elt F)) : (after (ops (F := F)) V (Proc.devRef .tc main_v29)) = (U1 V (Proc.devRef .tc main_v29)) :=
  (lift2_main_v29 V).trans (after_of_not_mem writes1 (by decide) (U1 V))
theorem lift6_main_v30 (V : Valuation τ sig (Elt F)) : (after (ops (F := F)) V (Proc.devRef .tc main_v30)) = (U6 V (Proc.devRef .tc main_v30)) := congrFun (after_ops_eq V) _
theorem lift5_main_v30 (V : Valuation τ sig (Elt F)) : (after (ops (F := F)) V (Proc.devRef .tc main_v30)) = (U5 V (Proc.devRef .tc main_v30)) :=
  (lift6_main_v30 V).trans (after_of_not_mem writes5 (by decide) (U5 V))
theorem lift4_main_v30 (V : Valuation τ sig (Elt F)) : (after (ops (F := F)) V (Proc.devRef .tc main_v30)) = (U4 V (Proc.devRef .tc main_v30)) :=
  (lift5_main_v30 V).trans (after_of_not_mem writes4 (by decide) (U4 V))
theorem lift3_main_v30 (V : Valuation τ sig (Elt F)) : (after (ops (F := F)) V (Proc.devRef .tc main_v30)) = (U3 V (Proc.devRef .tc main_v30)) :=
  (lift4_main_v30 V).trans (after_of_not_mem writes3 (by decide) (U3 V))
theorem lift2_main_v30 (V : Valuation τ sig (Elt F)) : (after (ops (F := F)) V (Proc.devRef .tc main_v30)) = (U2 V (Proc.devRef .tc main_v30)) :=
  (lift3_main_v30 V).trans (after_of_not_mem writes2 (by decide) (U2 V))
theorem lift1_main_v30 (V : Valuation τ sig (Elt F)) : (after (ops (F := F)) V (Proc.devRef .tc main_v30)) = (U1 V (Proc.devRef .tc main_v30)) :=
  (lift2_main_v30 V).trans (after_of_not_mem writes1 (by decide) (U1 V))
theorem lift6_main_v31 (V : Valuation τ sig (Elt F)) : (after (ops (F := F)) V (Proc.devRef .tc main_v31)) = (U6 V (Proc.devRef .tc main_v31)) := congrFun (after_ops_eq V) _
theorem lift5_main_v31 (V : Valuation τ sig (Elt F)) : (after (ops (F := F)) V (Proc.devRef .tc main_v31)) = (U5 V (Proc.devRef .tc main_v31)) :=
  (lift6_main_v31 V).trans (after_of_not_mem writes5 (by decide) (U5 V))
theorem lift4_main_v31 (V : Valuation τ sig (Elt F)) : (after (ops (F := F)) V (Proc.devRef .tc main_v31)) = (U4 V (Proc.devRef .tc main_v31)) :=
  (lift5_main_v31 V).trans (after_of_not_mem writes4 (by decide) (U4 V))
theorem lift3_main_v31 (V : Valuation τ sig (Elt F)) : (after (ops (F := F)) V (Proc.devRef .tc main_v31)) = (U3 V (Proc.devRef .tc main_v31)) :=
  (lift4_main_v31 V).trans (after_of_not_mem writes3 (by decide) (U3 V))
theorem lift2_main_v31 (V : Valuation τ sig (Elt F)) : (after (ops (F := F)) V (Proc.devRef .tc main_v31)) = (U2 V (Proc.devRef .tc main_v31)) :=
  (lift3_main_v31 V).trans (after_of_not_mem writes2 (by decide) (U2 V))
theorem lift1_main_v31 (V : Valuation τ sig (Elt F)) : (after (ops (F := F)) V (Proc.devRef .tc main_v31)) = (U1 V (Proc.devRef .tc main_v31)) :=
  (lift2_main_v31 V).trans (after_of_not_mem writes1 (by decide) (U1 V))
theorem lift6_main_v32 (V : Valuation τ sig (Elt F)) : (after (ops (F := F)) V (Proc.devRef .tc main_v32)) = (U6 V (Proc.devRef .tc main_v32)) := congrFun (after_ops_eq V) _
theorem lift5_main_v32 (V : Valuation τ sig (Elt F)) : (after (ops (F := F)) V (Proc.devRef .tc main_v32)) = (U5 V (Proc.devRef .tc main_v32)) :=
  (lift6_main_v32 V).trans (after_of_not_mem writes5 (by decide) (U5 V))
theorem lift4_main_v32 (V : Valuation τ sig (Elt F)) : (after (ops (F := F)) V (Proc.devRef .tc main_v32)) = (U4 V (Proc.devRef .tc main_v32)) :=
  (lift5_main_v32 V).trans (after_of_not_mem writes4 (by decide) (U4 V))
theorem lift3_main_v32 (V : Valuation τ sig (Elt F)) : (after (ops (F := F)) V (Proc.devRef .tc main_v32)) = (U3 V (Proc.devRef .tc main_v32)) :=
  (lift4_main_v32 V).trans (after_of_not_mem writes3 (by decide) (U3 V))
theorem lift2_main_v32 (V : Valuation τ sig (Elt F)) : (after (ops (F := F)) V (Proc.devRef .tc main_v32)) = (U2 V (Proc.devRef .tc main_v32)) :=
  (lift3_main_v32 V).trans (after_of_not_mem writes2 (by decide) (U2 V))
theorem lift1_main_v32 (V : Valuation τ sig (Elt F)) : (after (ops (F := F)) V (Proc.devRef .tc main_v32)) = (U1 V (Proc.devRef .tc main_v32)) :=
  (lift2_main_v32 V).trans (after_of_not_mem writes1 (by decide) (U1 V))
theorem lift6_main_cst_5 (V : Valuation τ sig (Elt F)) : (after (ops (F := F)) V (Proc.devRef .tc main_cst_5)) = (U6 V (Proc.devRef .tc main_cst_5)) := congrFun (after_ops_eq V) _
theorem lift5_main_cst_5 (V : Valuation τ sig (Elt F)) : (after (ops (F := F)) V (Proc.devRef .tc main_cst_5)) = (U5 V (Proc.devRef .tc main_cst_5)) :=
  (lift6_main_cst_5 V).trans (after_of_not_mem writes5 (by decide) (U5 V))
theorem lift4_main_cst_5 (V : Valuation τ sig (Elt F)) : (after (ops (F := F)) V (Proc.devRef .tc main_cst_5)) = (U4 V (Proc.devRef .tc main_cst_5)) :=
  (lift5_main_cst_5 V).trans (after_of_not_mem writes4 (by decide) (U4 V))
theorem lift3_main_cst_5 (V : Valuation τ sig (Elt F)) : (after (ops (F := F)) V (Proc.devRef .tc main_cst_5)) = (U3 V (Proc.devRef .tc main_cst_5)) :=
  (lift4_main_cst_5 V).trans (after_of_not_mem writes3 (by decide) (U3 V))
theorem lift2_main_cst_5 (V : Valuation τ sig (Elt F)) : (after (ops (F := F)) V (Proc.devRef .tc main_cst_5)) = (U2 V (Proc.devRef .tc main_cst_5)) :=
  (lift3_main_cst_5 V).trans (after_of_not_mem writes2 (by decide) (U2 V))
theorem lift1_main_cst_5 (V : Valuation τ sig (Elt F)) : (after (ops (F := F)) V (Proc.devRef .tc main_cst_5)) = (U1 V (Proc.devRef .tc main_cst_5)) :=
  (lift2_main_cst_5 V).trans (after_of_not_mem writes1 (by decide) (U1 V))
theorem lift6_main_v33 (V : Valuation τ sig (Elt F)) : (after (ops (F := F)) V (Proc.devRef .tc main_v33)) = (U6 V (Proc.devRef .tc main_v33)) := congrFun (after_ops_eq V) _
theorem lift5_main_v33 (V : Valuation τ sig (Elt F)) : (after (ops (F := F)) V (Proc.devRef .tc main_v33)) = (U5 V (Proc.devRef .tc main_v33)) :=
  (lift6_main_v33 V).trans (after_of_not_mem writes5 (by decide) (U5 V))
theorem lift4_main_v33 (V : Valuation τ sig (Elt F)) : (after (ops (F := F)) V (Proc.devRef .tc main_v33)) = (U4 V (Proc.devRef .tc main_v33)) :=
  (lift5_main_v33 V).trans (after_of_not_mem writes4 (by decide) (U4 V))
theorem lift3_main_v33 (V : Valuation τ sig (Elt F)) : (after (ops (F := F)) V (Proc.devRef .tc main_v33)) = (U3 V (Proc.devRef .tc main_v33)) :=
  (lift4_main_v33 V).trans (after_of_not_mem writes3 (by decide) (U3 V))
theorem lift2_main_v33 (V : Valuation τ sig (Elt F)) : (after (ops (F := F)) V (Proc.devRef .tc main_v33)) = (U2 V (Proc.devRef .tc main_v33)) :=
  (lift3_main_v33 V).trans (after_of_not_mem writes2 (by decide) (U2 V))
theorem lift1_main_v33 (V : Valuation τ sig (Elt F)) : (after (ops (F := F)) V (Proc.devRef .tc main_v33)) = (U1 V (Proc.devRef .tc main_v33)) :=
  (lift2_main_v33 V).trans (after_of_not_mem writes1 (by decide) (U1 V))
theorem lift6_main_v34 (V : Valuation τ sig (Elt F)) : (after (ops (F := F)) V (Proc.devRef .tc main_v34)) = (U6 V (Proc.devRef .tc main_v34)) := congrFun (after_ops_eq V) _
theorem lift5_main_v34 (V : Valuation τ sig (Elt F)) : (after (ops (F := F)) V (Proc.devRef .tc main_v34)) = (U5 V (Proc.devRef .tc main_v34)) :=
  (lift6_main_v34 V).trans (after_of_not_mem writes5 (by decide) (U5 V))
theorem lift4_main_v34 (V : Valuation τ sig (Elt F)) : (after (ops (F := F)) V (Proc.devRef .tc main_v34)) = (U4 V (Proc.devRef .tc main_v34)) :=
  (lift5_main_v34 V).trans (after_of_not_mem writes4 (by decide) (U4 V))
theorem lift3_main_v34 (V : Valuation τ sig (Elt F)) : (after (ops (F := F)) V (Proc.devRef .tc main_v34)) = (U3 V (Proc.devRef .tc main_v34)) :=
  (lift4_main_v34 V).trans (after_of_not_mem writes3 (by decide) (U3 V))
theorem lift2_main_v34 (V : Valuation τ sig (Elt F)) : (after (ops (F := F)) V (Proc.devRef .tc main_v34)) = (U2 V (Proc.devRef .tc main_v34)) :=
  (lift3_main_v34 V).trans (after_of_not_mem writes2 (by decide) (U2 V))
theorem lift1_main_v34 (V : Valuation τ sig (Elt F)) : (after (ops (F := F)) V (Proc.devRef .tc main_v34)) = (U1 V (Proc.devRef .tc main_v34)) :=
  (lift2_main_v34 V).trans (after_of_not_mem writes1 (by decide) (U1 V))
theorem lift6_main_v35 (V : Valuation τ sig (Elt F)) : (after (ops (F := F)) V (Proc.devRef .tc main_v35)) = (U6 V (Proc.devRef .tc main_v35)) := congrFun (after_ops_eq V) _
theorem lift5_main_v35 (V : Valuation τ sig (Elt F)) : (after (ops (F := F)) V (Proc.devRef .tc main_v35)) = (U5 V (Proc.devRef .tc main_v35)) :=
  (lift6_main_v35 V).trans (after_of_not_mem writes5 (by decide) (U5 V))
theorem lift4_main_v35 (V : Valuation τ sig (Elt F)) : (after (ops (F := F)) V (Proc.devRef .tc main_v35)) = (U4 V (Proc.devRef .tc main_v35)) :=
  (lift5_main_v35 V).trans (after_of_not_mem writes4 (by decide) (U4 V))
theorem lift3_main_v35 (V : Valuation τ sig (Elt F)) : (after (ops (F := F)) V (Proc.devRef .tc main_v35)) = (U3 V (Proc.devRef .tc main_v35)) :=
  (lift4_main_v35 V).trans (after_of_not_mem writes3 (by decide) (U3 V))
theorem lift2_main_v35 (V : Valuation τ sig (Elt F)) : (after (ops (F := F)) V (Proc.devRef .tc main_v35)) = (U2 V (Proc.devRef .tc main_v35)) :=
  (lift3_main_v35 V).trans (after_of_not_mem writes2 (by decide) (U2 V))
theorem lift1_main_v35 (V : Valuation τ sig (Elt F)) : (after (ops (F := F)) V (Proc.devRef .tc main_v35)) = (U1 V (Proc.devRef .tc main_v35)) :=
  (lift2_main_v35 V).trans (after_of_not_mem writes1 (by decide) (U1 V))
theorem lift6_main_v36 (V : Valuation τ sig (Elt F)) : (after (ops (F := F)) V (Proc.devRef .tc main_v36)) = (U6 V (Proc.devRef .tc main_v36)) := congrFun (after_ops_eq V) _
theorem lift5_main_v36 (V : Valuation τ sig (Elt F)) : (after (ops (F := F)) V (Proc.devRef .tc main_v36)) = (U5 V (Proc.devRef .tc main_v36)) :=
  (lift6_main_v36 V).trans (after_of_not_mem writes5 (by decide) (U5 V))
theorem lift4_main_v36 (V : Valuation τ sig (Elt F)) : (after (ops (F := F)) V (Proc.devRef .tc main_v36)) = (U4 V (Proc.devRef .tc main_v36)) :=
  (lift5_main_v36 V).trans (after_of_not_mem writes4 (by decide) (U4 V))
theorem lift3_main_v36 (V : Valuation τ sig (Elt F)) : (after (ops (F := F)) V (Proc.devRef .tc main_v36)) = (U3 V (Proc.devRef .tc main_v36)) :=
  (lift4_main_v36 V).trans (after_of_not_mem writes3 (by decide) (U3 V))
theorem lift2_main_v36 (V : Valuation τ sig (Elt F)) : (after (ops (F := F)) V (Proc.devRef .tc main_v36)) = (U2 V (Proc.devRef .tc main_v36)) :=
  (lift3_main_v36 V).trans (after_of_not_mem writes2 (by decide) (U2 V))
theorem lift1_main_v36 (V : Valuation τ sig (Elt F)) : (after (ops (F := F)) V (Proc.devRef .tc main_v36)) = (U1 V (Proc.devRef .tc main_v36)) :=
  (lift2_main_v36 V).trans (after_of_not_mem writes1 (by decide) (U1 V))
theorem lift6_main_v37 (V : Valuation τ sig (Elt F)) : (after (ops (F := F)) V (Proc.devRef .tc main_v37)) = (U6 V (Proc.devRef .tc main_v37)) := congrFun (after_ops_eq V) _
theorem lift5_main_v37 (V : Valuation τ sig (Elt F)) : (after (ops (F := F)) V (Proc.devRef .tc main_v37)) = (U5 V (Proc.devRef .tc main_v37)) :=
  (lift6_main_v37 V).trans (after_of_not_mem writes5 (by decide) (U5 V))
theorem lift4_main_v37 (V : Valuation τ sig (Elt F)) : (after (ops (F := F)) V (Proc.devRef .tc main_v37)) = (U4 V (Proc.devRef .tc main_v37)) :=
  (lift5_main_v37 V).trans (after_of_not_mem writes4 (by decide) (U4 V))
theorem lift3_main_v37 (V : Valuation τ sig (Elt F)) : (after (ops (F := F)) V (Proc.devRef .tc main_v37)) = (U3 V (Proc.devRef .tc main_v37)) :=
  (lift4_main_v37 V).trans (after_of_not_mem writes3 (by decide) (U3 V))
theorem lift2_main_v37 (V : Valuation τ sig (Elt F)) : (after (ops (F := F)) V (Proc.devRef .tc main_v37)) = (U2 V (Proc.devRef .tc main_v37)) :=
  (lift3_main_v37 V).trans (after_of_not_mem writes2 (by decide) (U2 V))
theorem lift1_main_v37 (V : Valuation τ sig (Elt F)) : (after (ops (F := F)) V (Proc.devRef .tc main_v37)) = (U1 V (Proc.devRef .tc main_v37)) :=
  (lift2_main_v37 V).trans (after_of_not_mem writes1 (by decide) (U1 V))
theorem lift6_main_v38 (V : Valuation τ sig (Elt F)) : (after (ops (F := F)) V (Proc.devRef .tc main_v38)) = (U6 V (Proc.devRef .tc main_v38)) := congrFun (after_ops_eq V) _
theorem lift5_main_v38 (V : Valuation τ sig (Elt F)) : (after (ops (F := F)) V (Proc.devRef .tc main_v38)) = (U5 V (Proc.devRef .tc main_v38)) :=
  (lift6_main_v38 V).trans (after_of_not_mem writes5 (by decide) (U5 V))
theorem lift4_main_v38 (V : Valuation τ sig (Elt F)) : (after (ops (F := F)) V (Proc.devRef .tc main_v38)) = (U4 V (Proc.devRef .tc main_v38)) :=
  (lift5_main_v38 V).trans (after_of_not_mem writes4 (by decide) (U4 V))
theorem lift3_main_v38 (V : Valuation τ sig (Elt F)) : (after (ops (F := F)) V (Proc.devRef .tc main_v38)) = (U3 V (Proc.devRef .tc main_v38)) :=
  (lift4_main_v38 V).trans (after_of_not_mem writes3 (by decide) (U3 V))
theorem lift2_main_v38 (V : Valuation τ sig (Elt F)) : (after (ops (F := F)) V (Proc.devRef .tc main_v38)) = (U2 V (Proc.devRef .tc main_v38)) :=
  (lift3_main_v38 V).trans (after_of_not_mem writes2 (by decide) (U2 V))
theorem lift1_main_v38 (V : Valuation τ sig (Elt F)) : (after (ops (F := F)) V (Proc.devRef .tc main_v38)) = (U1 V (Proc.devRef .tc main_v38)) :=
  (lift2_main_v38 V).trans (after_of_not_mem writes1 (by decide) (U1 V))
theorem lift6_main_v39 (V : Valuation τ sig (Elt F)) : (after (ops (F := F)) V (Proc.devRef .tc main_v39)) = (U6 V (Proc.devRef .tc main_v39)) := congrFun (after_ops_eq V) _
theorem lift5_main_v39 (V : Valuation τ sig (Elt F)) : (after (ops (F := F)) V (Proc.devRef .tc main_v39)) = (U5 V (Proc.devRef .tc main_v39)) :=
  (lift6_main_v39 V).trans (after_of_not_mem writes5 (by decide) (U5 V))
theorem lift4_main_v39 (V : Valuation τ sig (Elt F)) : (after (ops (F := F)) V (Proc.devRef .tc main_v39)) = (U4 V (Proc.devRef .tc main_v39)) :=
  (lift5_main_v39 V).trans (after_of_not_mem writes4 (by decide) (U4 V))
theorem lift3_main_v39 (V : Valuation τ sig (Elt F)) : (after (ops (F := F)) V (Proc.devRef .tc main_v39)) = (U3 V (Proc.devRef .tc main_v39)) :=
  (lift4_main_v39 V).trans (after_of_not_mem writes3 (by decide) (U3 V))
theorem lift2_main_v39 (V : Valuation τ sig (Elt F)) : (after (ops (F := F)) V (Proc.devRef .tc main_v39)) = (U2 V (Proc.devRef .tc main_v39)) :=
  (lift3_main_v39 V).trans (after_of_not_mem writes2 (by decide) (U2 V))
theorem lift1_main_v39 (V : Valuation τ sig (Elt F)) : (after (ops (F := F)) V (Proc.devRef .tc main_v39)) = (U1 V (Proc.devRef .tc main_v39)) :=
  (lift2_main_v39 V).trans (after_of_not_mem writes1 (by decide) (U1 V))
theorem lift6_main_v40 (V : Valuation τ sig (Elt F)) : (after (ops (F := F)) V (Proc.devRef .tc main_v40)) = (U6 V (Proc.devRef .tc main_v40)) := congrFun (after_ops_eq V) _
theorem lift5_main_v40 (V : Valuation τ sig (Elt F)) : (after (ops (F := F)) V (Proc.devRef .tc main_v40)) = (U5 V (Proc.devRef .tc main_v40)) :=
  (lift6_main_v40 V).trans (after_of_not_mem writes5 (by decide) (U5 V))
theorem lift4_main_v40 (V : Valuation τ sig (Elt F)) : (after (ops (F := F)) V (Proc.devRef .tc main_v40)) = (U4 V (Proc.devRef .tc main_v40)) :=
  (lift5_main_v40 V).trans (after_of_not_mem writes4 (by decide) (U4 V))
theorem lift3_main_v40 (V : Valuation τ sig (Elt F)) : (after (ops (F := F)) V (Proc.devRef .tc main_v40)) = (U3 V (Proc.devRef .tc main_v40)) :=
  (lift4_main_v40 V).trans (after_of_not_mem writes3 (by decide) (U3 V))
theorem lift2_main_v40 (V : Valuation τ sig (Elt F)) : (after (ops (F := F)) V (Proc.devRef .tc main_v40)) = (U2 V (Proc.devRef .tc main_v40)) :=
  (lift3_main_v40 V).trans (after_of_not_mem writes2 (by decide) (U2 V))
theorem lift1_main_v40 (V : Valuation τ sig (Elt F)) : (after (ops (F := F)) V (Proc.devRef .tc main_v40)) = (U1 V (Proc.devRef .tc main_v40)) :=
  (lift2_main_v40 V).trans (after_of_not_mem writes1 (by decide) (U1 V))
theorem lift6_main_v41 (V : Valuation τ sig (Elt F)) : (after (ops (F := F)) V (Proc.devRef .tc main_v41)) = (U6 V (Proc.devRef .tc main_v41)) := congrFun (after_ops_eq V) _
theorem lift5_main_v41 (V : Valuation τ sig (Elt F)) : (after (ops (F := F)) V (Proc.devRef .tc main_v41)) = (U5 V (Proc.devRef .tc main_v41)) :=
  (lift6_main_v41 V).trans (after_of_not_mem writes5 (by decide) (U5 V))
theorem lift4_main_v41 (V : Valuation τ sig (Elt F)) : (after (ops (F := F)) V (Proc.devRef .tc main_v41)) = (U4 V (Proc.devRef .tc main_v41)) :=
  (lift5_main_v41 V).trans (after_of_not_mem writes4 (by decide) (U4 V))
theorem lift3_main_v41 (V : Valuation τ sig (Elt F)) : (after (ops (F := F)) V (Proc.devRef .tc main_v41)) = (U3 V (Proc.devRef .tc main_v41)) :=
  (lift4_main_v41 V).trans (after_of_not_mem writes3 (by decide) (U3 V))
theorem lift2_main_v41 (V : Valuation τ sig (Elt F)) : (after (ops (F := F)) V (Proc.devRef .tc main_v41)) = (U2 V (Proc.devRef .tc main_v41)) :=
  (lift3_main_v41 V).trans (after_of_not_mem writes2 (by decide) (U2 V))
theorem lift1_main_v41 (V : Valuation τ sig (Elt F)) : (after (ops (F := F)) V (Proc.devRef .tc main_v41)) = (U1 V (Proc.devRef .tc main_v41)) :=
  (lift2_main_v41 V).trans (after_of_not_mem writes1 (by decide) (U1 V))
theorem lift6_main_cst_6 (V : Valuation τ sig (Elt F)) : (after (ops (F := F)) V (Proc.devRef .tc main_cst_6)) = (U6 V (Proc.devRef .tc main_cst_6)) := congrFun (after_ops_eq V) _
theorem lift5_main_cst_6 (V : Valuation τ sig (Elt F)) : (after (ops (F := F)) V (Proc.devRef .tc main_cst_6)) = (U5 V (Proc.devRef .tc main_cst_6)) :=
  (lift6_main_cst_6 V).trans (after_of_not_mem writes5 (by decide) (U5 V))
theorem lift4_main_cst_6 (V : Valuation τ sig (Elt F)) : (after (ops (F := F)) V (Proc.devRef .tc main_cst_6)) = (U4 V (Proc.devRef .tc main_cst_6)) :=
  (lift5_main_cst_6 V).trans (after_of_not_mem writes4 (by decide) (U4 V))
theorem lift3_main_cst_6 (V : Valuation τ sig (Elt F)) : (after (ops (F := F)) V (Proc.devRef .tc main_cst_6)) = (U3 V (Proc.devRef .tc main_cst_6)) :=
  (lift4_main_cst_6 V).trans (after_of_not_mem writes3 (by decide) (U3 V))
theorem lift2_main_cst_6 (V : Valuation τ sig (Elt F)) : (after (ops (F := F)) V (Proc.devRef .tc main_cst_6)) = (U2 V (Proc.devRef .tc main_cst_6)) :=
  (lift3_main_cst_6 V).trans (after_of_not_mem writes2 (by decide) (U2 V))
theorem lift1_main_cst_6 (V : Valuation τ sig (Elt F)) : (after (ops (F := F)) V (Proc.devRef .tc main_cst_6)) = (U1 V (Proc.devRef .tc main_cst_6)) :=
  (lift2_main_cst_6 V).trans (after_of_not_mem writes1 (by decide) (U1 V))
theorem lift6_main_v42 (V : Valuation τ sig (Elt F)) : (after (ops (F := F)) V (Proc.devRef .tc main_v42)) = (U6 V (Proc.devRef .tc main_v42)) := congrFun (after_ops_eq V) _
theorem lift5_main_v42 (V : Valuation τ sig (Elt F)) : (after (ops (F := F)) V (Proc.devRef .tc main_v42)) = (U5 V (Proc.devRef .tc main_v42)) :=
  (lift6_main_v42 V).trans (after_of_not_mem writes5 (by decide) (U5 V))
theorem lift4_main_v42 (V : Valuation τ sig (Elt F)) : (after (ops (F := F)) V (Proc.devRef .tc main_v42)) = (U4 V (Proc.devRef .tc main_v42)) :=
  (lift5_main_v42 V).trans (after_of_not_mem writes4 (by decide) (U4 V))
theorem lift3_main_v42 (V : Valuation τ sig (Elt F)) : (after (ops (F := F)) V (Proc.devRef .tc main_v42)) = (U3 V (Proc.devRef .tc main_v42)) :=
  (lift4_main_v42 V).trans (after_of_not_mem writes3 (by decide) (U3 V))
theorem lift2_main_v42 (V : Valuation τ sig (Elt F)) : (after (ops (F := F)) V (Proc.devRef .tc main_v42)) = (U2 V (Proc.devRef .tc main_v42)) :=
  (lift3_main_v42 V).trans (after_of_not_mem writes2 (by decide) (U2 V))
theorem lift1_main_v42 (V : Valuation τ sig (Elt F)) : (after (ops (F := F)) V (Proc.devRef .tc main_v42)) = (U1 V (Proc.devRef .tc main_v42)) :=
  (lift2_main_v42 V).trans (after_of_not_mem writes1 (by decide) (U1 V))
theorem lift6_main_cst_7 (V : Valuation τ sig (Elt F)) : (after (ops (F := F)) V (Proc.devRef .tc main_cst_7)) = (U6 V (Proc.devRef .tc main_cst_7)) := congrFun (after_ops_eq V) _
theorem lift5_main_cst_7 (V : Valuation τ sig (Elt F)) : (after (ops (F := F)) V (Proc.devRef .tc main_cst_7)) = (U5 V (Proc.devRef .tc main_cst_7)) :=
  (lift6_main_cst_7 V).trans (after_of_not_mem writes5 (by decide) (U5 V))
theorem lift4_main_cst_7 (V : Valuation τ sig (Elt F)) : (after (ops (F := F)) V (Proc.devRef .tc main_cst_7)) = (U4 V (Proc.devRef .tc main_cst_7)) :=
  (lift5_main_cst_7 V).trans (after_of_not_mem writes4 (by decide) (U4 V))
theorem lift3_main_cst_7 (V : Valuation τ sig (Elt F)) : (after (ops (F := F)) V (Proc.devRef .tc main_cst_7)) = (U3 V (Proc.devRef .tc main_cst_7)) :=
  (lift4_main_cst_7 V).trans (after_of_not_mem writes3 (by decide) (U3 V))
theorem lift2_main_cst_7 (V : Valuation τ sig (Elt F)) : (after (ops (F := F)) V (Proc.devRef .tc main_cst_7)) = (U2 V (Proc.devRef .tc main_cst_7)) :=
  (lift3_main_cst_7 V).trans (after_of_not_mem writes2 (by decide) (U2 V))
theorem lift1_main_cst_7 (V : Valuation τ sig (Elt F)) : (after (ops (F := F)) V (Proc.devRef .tc main_cst_7)) = (U1 V (Proc.devRef .tc main_cst_7)) :=
  (lift2_main_cst_7 V).trans (after_of_not_mem writes1 (by decide) (U1 V))
theorem lift6_main_v43 (V : Valuation τ sig (Elt F)) : (after (ops (F := F)) V (Proc.devRef .tc main_v43)) = (U6 V (Proc.devRef .tc main_v43)) := congrFun (after_ops_eq V) _
theorem lift5_main_v43 (V : Valuation τ sig (Elt F)) : (after (ops (F := F)) V (Proc.devRef .tc main_v43)) = (U5 V (Proc.devRef .tc main_v43)) :=
  (lift6_main_v43 V).trans (after_of_not_mem writes5 (by decide) (U5 V))
theorem lift4_main_v43 (V : Valuation τ sig (Elt F)) : (after (ops (F := F)) V (Proc.devRef .tc main_v43)) = (U4 V (Proc.devRef .tc main_v43)) :=
  (lift5_main_v43 V).trans (after_of_not_mem writes4 (by decide) (U4 V))
theorem lift3_main_v43 (V : Valuation τ sig (Elt F)) : (after (ops (F := F)) V (Proc.devRef .tc main_v43)) = (U3 V (Proc.devRef .tc main_v43)) :=
  (lift4_main_v43 V).trans (after_of_not_mem writes3 (by decide) (U3 V))
theorem lift2_main_v43 (V : Valuation τ sig (Elt F)) : (after (ops (F := F)) V (Proc.devRef .tc main_v43)) = (U2 V (Proc.devRef .tc main_v43)) :=
  (lift3_main_v43 V).trans (after_of_not_mem writes2 (by decide) (U2 V))
theorem lift1_main_v43 (V : Valuation τ sig (Elt F)) : (after (ops (F := F)) V (Proc.devRef .tc main_v43)) = (U1 V (Proc.devRef .tc main_v43)) :=
  (lift2_main_v43 V).trans (after_of_not_mem writes1 (by decide) (U1 V))
theorem lift6_main_v44 (V : Valuation τ sig (Elt F)) : (after (ops (F := F)) V (Proc.devRef .tc main_v44)) = (U6 V (Proc.devRef .tc main_v44)) := congrFun (after_ops_eq V) _
theorem lift5_main_v44 (V : Valuation τ sig (Elt F)) : (after (ops (F := F)) V (Proc.devRef .tc main_v44)) = (U5 V (Proc.devRef .tc main_v44)) :=
  (lift6_main_v44 V).trans (after_of_not_mem writes5 (by decide) (U5 V))
theorem lift4_main_v44 (V : Valuation τ sig (Elt F)) : (after (ops (F := F)) V (Proc.devRef .tc main_v44)) = (U4 V (Proc.devRef .tc main_v44)) :=
  (lift5_main_v44 V).trans (after_of_not_mem writes4 (by decide) (U4 V))
theorem lift3_main_v44 (V : Valuation τ sig (Elt F)) : (after (ops (F := F)) V (Proc.devRef .tc main_v44)) = (U3 V (Proc.devRef .tc main_v44)) :=
  (lift4_main_v44 V).trans (after_of_not_mem writes3 (by decide) (U3 V))
theorem lift2_main_v44 (V : Valuation τ sig (Elt F)) : (after (ops (F := F)) V (Proc.devRef .tc main_v44)) = (U2 V (Proc.devRef .tc main_v44)) :=
  (lift3_main_v44 V).trans (after_of_not_mem writes2 (by decide) (U2 V))
theorem lift1_main_v44 (V : Valuation τ sig (Elt F)) : (after (ops (F := F)) V (Proc.devRef .tc main_v44)) = (U1 V (Proc.devRef .tc main_v44)) :=
  (lift2_main_v44 V).trans (after_of_not_mem writes1 (by decide) (U1 V))
theorem lift6_main_c_8 (V : Valuation τ sig (Elt F)) : (after (ops (F := F)) V (Proc.devRef .tc main_c_8)) = (U6 V (Proc.devRef .tc main_c_8)) := congrFun (after_ops_eq V) _
theorem lift5_main_c_8 (V : Valuation τ sig (Elt F)) : (after (ops (F := F)) V (Proc.devRef .tc main_c_8)) = (U5 V (Proc.devRef .tc main_c_8)) :=
  (lift6_main_c_8 V).trans (after_of_not_mem writes5 (by decide) (U5 V))
theorem lift4_main_c_8 (V : Valuation τ sig (Elt F)) : (after (ops (F := F)) V (Proc.devRef .tc main_c_8)) = (U4 V (Proc.devRef .tc main_c_8)) :=
  (lift5_main_c_8 V).trans (after_of_not_mem writes4 (by decide) (U4 V))
theorem lift3_main_c_8 (V : Valuation τ sig (Elt F)) : (after (ops (F := F)) V (Proc.devRef .tc main_c_8)) = (U3 V (Proc.devRef .tc main_c_8)) :=
  (lift4_main_c_8 V).trans (after_of_not_mem writes3 (by decide) (U3 V))
theorem lift2_main_c_8 (V : Valuation τ sig (Elt F)) : (after (ops (F := F)) V (Proc.devRef .tc main_c_8)) = (U2 V (Proc.devRef .tc main_c_8)) :=
  (lift3_main_c_8 V).trans (after_of_not_mem writes2 (by decide) (U2 V))
theorem lift1_main_c_8 (V : Valuation τ sig (Elt F)) : (after (ops (F := F)) V (Proc.devRef .tc main_c_8)) = (U1 V (Proc.devRef .tc main_c_8)) :=
  (lift2_main_c_8 V).trans (after_of_not_mem writes1 (by decide) (U1 V))
theorem lift6_main_call2_cst (V : Valuation τ sig (Elt F)) : (after (ops (F := F)) V (Proc.devRef .tc main_call2_cst)) = (U6 V (Proc.devRef .tc main_call2_cst)) := congrFun (after_ops_eq V) _
theorem lift5_main_call2_cst (V : Valuation τ sig (Elt F)) : (after (ops (F := F)) V (Proc.devRef .tc main_call2_cst)) = (U5 V (Proc.devRef .tc main_call2_cst)) :=
  (lift6_main_call2_cst V).trans (after_of_not_mem writes5 (by decide) (U5 V))
theorem lift4_main_call2_cst (V : Valuation τ sig (Elt F)) : (after (ops (F := F)) V (Proc.devRef .tc main_call2_cst)) = (U4 V (Proc.devRef .tc main_call2_cst)) :=
  (lift5_main_call2_cst V).trans (after_of_not_mem writes4 (by decide) (U4 V))
theorem lift3_main_call2_cst (V : Valuation τ sig (Elt F)) : (after (ops (F := F)) V (Proc.devRef .tc main_call2_cst)) = (U3 V (Proc.devRef .tc main_call2_cst)) :=
  (lift4_main_call2_cst V).trans (after_of_not_mem writes3 (by decide) (U3 V))
theorem lift2_main_call2_cst (V : Valuation τ sig (Elt F)) : (after (ops (F := F)) V (Proc.devRef .tc main_call2_cst)) = (U2 V (Proc.devRef .tc main_call2_cst)) :=
  (lift3_main_call2_cst V).trans (after_of_not_mem writes2 (by decide) (U2 V))
theorem lift1_main_call2_cst (V : Valuation τ sig (Elt F)) : (after (ops (F := F)) V (Proc.devRef .tc main_call2_cst)) = (U1 V (Proc.devRef .tc main_call2_cst)) :=
  (lift2_main_call2_cst V).trans (after_of_not_mem writes1 (by decide) (U1 V))
theorem lift6_main_call2_v0 (V : Valuation τ sig (Elt F)) : (after (ops (F := F)) V (Proc.devRef .tc main_call2_v0)) = (U6 V (Proc.devRef .tc main_call2_v0)) := congrFun (after_ops_eq V) _
theorem lift5_main_call2_v0 (V : Valuation τ sig (Elt F)) : (after (ops (F := F)) V (Proc.devRef .tc main_call2_v0)) = (U5 V (Proc.devRef .tc main_call2_v0)) :=
  (lift6_main_call2_v0 V).trans (after_of_not_mem writes5 (by decide) (U5 V))
theorem lift4_main_call2_v0 (V : Valuation τ sig (Elt F)) : (after (ops (F := F)) V (Proc.devRef .tc main_call2_v0)) = (U4 V (Proc.devRef .tc main_call2_v0)) :=
  (lift5_main_call2_v0 V).trans (after_of_not_mem writes4 (by decide) (U4 V))
theorem lift3_main_call2_v0 (V : Valuation τ sig (Elt F)) : (after (ops (F := F)) V (Proc.devRef .tc main_call2_v0)) = (U3 V (Proc.devRef .tc main_call2_v0)) :=
  (lift4_main_call2_v0 V).trans (after_of_not_mem writes3 (by decide) (U3 V))
theorem lift2_main_call2_v0 (V : Valuation τ sig (Elt F)) : (after (ops (F := F)) V (Proc.devRef .tc main_call2_v0)) = (U2 V (Proc.devRef .tc main_call2_v0)) :=
  (lift3_main_call2_v0 V).trans (after_of_not_mem writes2 (by decide) (U2 V))
theorem lift1_main_call2_v0 (V : Valuation τ sig (Elt F)) : (after (ops (F := F)) V (Proc.devRef .tc main_call2_v0)) = (U1 V (Proc.devRef .tc main_call2_v0)) :=
  (lift2_main_call2_v0 V).trans (after_of_not_mem writes1 (by decide) (U1 V))
theorem lift6_main_call2_v1 (V : Valuation τ sig (Elt F)) : (after (ops (F := F)) V (Proc.devRef .tc main_call2_v1)) = (U6 V (Proc.devRef .tc main_call2_v1)) := congrFun (after_ops_eq V) _
theorem lift5_main_call2_v1 (V : Valuation τ sig (Elt F)) : (after (ops (F := F)) V (Proc.devRef .tc main_call2_v1)) = (U5 V (Proc.devRef .tc main_call2_v1)) :=
  (lift6_main_call2_v1 V).trans (after_of_not_mem writes5 (by decide) (U5 V))
theorem lift4_main_call2_v1 (V : Valuation τ sig (Elt F)) : (after (ops (F := F)) V (Proc.devRef .tc main_call2_v1)) = (U4 V (Proc.devRef .tc main_call2_v1)) :=
  (lift5_main_call2_v1 V).trans (after_of_not_mem writes4 (by decide) (U4 V))
theorem lift3_main_call2_v1 (V : Valuation τ sig (Elt F)) : (after (ops (F := F)) V (Proc.devRef .tc main_call2_v1)) = (U3 V (Proc.devRef .tc main_call2_v1)) :=
  (lift4_main_call2_v1 V).trans (after_of_not_mem writes3 (by decide) (U3 V))
theorem lift2_main_call2_v1 (V : Valuation τ sig (Elt F)) : (after (ops (F := F)) V (Proc.devRef .tc main_call2_v1)) = (U2 V (Proc.devRef .tc main_call2_v1)) :=
  (lift3_main_call2_v1 V).trans (after_of_not_mem writes2 (by decide) (U2 V))
theorem lift1_main_call2_v1 (V : Valuation τ sig (Elt F)) : (after (ops (F := F)) V (Proc.devRef .tc main_call2_v1)) = (U1 V (Proc.devRef .tc main_call2_v1)) :=
  (lift2_main_call2_v1 V).trans (after_of_not_mem writes1 (by decide) (U1 V))
theorem lift6_main_call2_cst_0 (V : Valuation τ sig (Elt F)) : (after (ops (F := F)) V (Proc.devRef .tc main_call2_cst_0)) = (U6 V (Proc.devRef .tc main_call2_cst_0)) := congrFun (after_ops_eq V) _
theorem lift5_main_call2_cst_0 (V : Valuation τ sig (Elt F)) : (after (ops (F := F)) V (Proc.devRef .tc main_call2_cst_0)) = (U5 V (Proc.devRef .tc main_call2_cst_0)) :=
  (lift6_main_call2_cst_0 V).trans (after_of_not_mem writes5 (by decide) (U5 V))
theorem lift4_main_call2_cst_0 (V : Valuation τ sig (Elt F)) : (after (ops (F := F)) V (Proc.devRef .tc main_call2_cst_0)) = (U4 V (Proc.devRef .tc main_call2_cst_0)) :=
  (lift5_main_call2_cst_0 V).trans (after_of_not_mem writes4 (by decide) (U4 V))
theorem lift3_main_call2_cst_0 (V : Valuation τ sig (Elt F)) : (after (ops (F := F)) V (Proc.devRef .tc main_call2_cst_0)) = (U3 V (Proc.devRef .tc main_call2_cst_0)) :=
  (lift4_main_call2_cst_0 V).trans (after_of_not_mem writes3 (by decide) (U3 V))
theorem lift2_main_call2_cst_0 (V : Valuation τ sig (Elt F)) : (after (ops (F := F)) V (Proc.devRef .tc main_call2_cst_0)) = (U2 V (Proc.devRef .tc main_call2_cst_0)) :=
  (lift3_main_call2_cst_0 V).trans (after_of_not_mem writes2 (by decide) (U2 V))
theorem lift1_main_call2_cst_0 (V : Valuation τ sig (Elt F)) : (after (ops (F := F)) V (Proc.devRef .tc main_call2_cst_0)) = (U1 V (Proc.devRef .tc main_call2_cst_0)) :=
  (lift2_main_call2_cst_0 V).trans (after_of_not_mem writes1 (by decide) (U1 V))
theorem lift6_main_call2_v2 (V : Valuation τ sig (Elt F)) : (after (ops (F := F)) V (Proc.devRef .tc main_call2_v2)) = (U6 V (Proc.devRef .tc main_call2_v2)) := congrFun (after_ops_eq V) _
theorem lift5_main_call2_v2 (V : Valuation τ sig (Elt F)) : (after (ops (F := F)) V (Proc.devRef .tc main_call2_v2)) = (U5 V (Proc.devRef .tc main_call2_v2)) :=
  (lift6_main_call2_v2 V).trans (after_of_not_mem writes5 (by decide) (U5 V))
theorem lift4_main_call2_v2 (V : Valuation τ sig (Elt F)) : (after (ops (F := F)) V (Proc.devRef .tc main_call2_v2)) = (U4 V (Proc.devRef .tc main_call2_v2)) :=
  (lift5_main_call2_v2 V).trans (after_of_not_mem writes4 (by decide) (U4 V))
theorem lift3_main_call2_v2 (V : Valuation τ sig (Elt F)) : (after (ops (F := F)) V (Proc.devRef .tc main_call2_v2)) = (U3 V (Proc.devRef .tc main_call2_v2)) :=
  (lift4_main_call2_v2 V).trans (after_of_not_mem writes3 (by decide) (U3 V))
theorem lift2_main_call2_v2 (V : Valuation τ sig (Elt F)) : (after (ops (F := F)) V (Proc.devRef .tc main_call2_v2)) = (U2 V (Proc.devRef .tc main_call2_v2)) :=
  (lift3_main_call2_v2 V).trans (after_of_not_mem writes2 (by decide) (U2 V))
theorem lift1_main_call2_v2 (V : Valuation τ sig (Elt F)) : (after (ops (F := F)) V (Proc.devRef .tc main_call2_v2)) = (U1 V (Proc.devRef .tc main_call2_v2)) :=
  (lift2_main_call2_v2 V).trans (after_of_not_mem writes1 (by decide) (U1 V))
theorem lift6_main_call2_v3 (V : Valuation τ sig (Elt F)) : (after (ops (F := F)) V (Proc.devRef .tc main_call2_v3)) = (U6 V (Proc.devRef .tc main_call2_v3)) := congrFun (after_ops_eq V) _
theorem lift5_main_call2_v3 (V : Valuation τ sig (Elt F)) : (after (ops (F := F)) V (Proc.devRef .tc main_call2_v3)) = (U5 V (Proc.devRef .tc main_call2_v3)) :=
  (lift6_main_call2_v3 V).trans (after_of_not_mem writes5 (by decide) (U5 V))
theorem lift4_main_call2_v3 (V : Valuation τ sig (Elt F)) : (after (ops (F := F)) V (Proc.devRef .tc main_call2_v3)) = (U4 V (Proc.devRef .tc main_call2_v3)) :=
  (lift5_main_call2_v3 V).trans (after_of_not_mem writes4 (by decide) (U4 V))
theorem lift3_main_call2_v3 (V : Valuation τ sig (Elt F)) : (after (ops (F := F)) V (Proc.devRef .tc main_call2_v3)) = (U3 V (Proc.devRef .tc main_call2_v3)) :=
  (lift4_main_call2_v3 V).trans (after_of_not_mem writes3 (by decide) (U3 V))
theorem lift2_main_call2_v3 (V : Valuation τ sig (Elt F)) : (after (ops (F := F)) V (Proc.devRef .tc main_call2_v3)) = (U2 V (Proc.devRef .tc main_call2_v3)) :=
  (lift3_main_call2_v3 V).trans (after_of_not_mem writes2 (by decide) (U2 V))
theorem lift1_main_call2_v3 (V : Valuation τ sig (Elt F)) : (after (ops (F := F)) V (Proc.devRef .tc main_call2_v3)) = (U1 V (Proc.devRef .tc main_call2_v3)) :=
  (lift2_main_call2_v3 V).trans (after_of_not_mem writes1 (by decide) (U1 V))
theorem lift6_main_call2_v4 (V : Valuation τ sig (Elt F)) : (after (ops (F := F)) V (Proc.devRef .tc main_call2_v4)) = (U6 V (Proc.devRef .tc main_call2_v4)) := congrFun (after_ops_eq V) _
theorem lift5_main_call2_v4 (V : Valuation τ sig (Elt F)) : (after (ops (F := F)) V (Proc.devRef .tc main_call2_v4)) = (U5 V (Proc.devRef .tc main_call2_v4)) :=
  (lift6_main_call2_v4 V).trans (after_of_not_mem writes5 (by decide) (U5 V))
theorem lift4_main_call2_v4 (V : Valuation τ sig (Elt F)) : (after (ops (F := F)) V (Proc.devRef .tc main_call2_v4)) = (U4 V (Proc.devRef .tc main_call2_v4)) :=
  (lift5_main_call2_v4 V).trans (after_of_not_mem writes4 (by decide) (U4 V))
theorem lift3_main_call2_v4 (V : Valuation τ sig (Elt F)) : (after (ops (F := F)) V (Proc.devRef .tc main_call2_v4)) = (U3 V (Proc.devRef .tc main_call2_v4)) :=
  (lift4_main_call2_v4 V).trans (after_of_not_mem writes3 (by decide) (U3 V))
theorem lift2_main_call2_v4 (V : Valuation τ sig (Elt F)) : (after (ops (F := F)) V (Proc.devRef .tc main_call2_v4)) = (U2 V (Proc.devRef .tc main_call2_v4)) :=
  (lift3_main_call2_v4 V).trans (after_of_not_mem writes2 (by decide) (U2 V))
theorem lift1_main_call2_v4 (V : Valuation τ sig (Elt F)) : (after (ops (F := F)) V (Proc.devRef .tc main_call2_v4)) = (U1 V (Proc.devRef .tc main_call2_v4)) :=
  (lift2_main_call2_v4 V).trans (after_of_not_mem writes1 (by decide) (U1 V))
theorem lift6_main_call2_v5 (V : Valuation τ sig (Elt F)) : (after (ops (F := F)) V (Proc.devRef .tc main_call2_v5)) = (U6 V (Proc.devRef .tc main_call2_v5)) := congrFun (after_ops_eq V) _
theorem lift5_main_call2_v5 (V : Valuation τ sig (Elt F)) : (after (ops (F := F)) V (Proc.devRef .tc main_call2_v5)) = (U5 V (Proc.devRef .tc main_call2_v5)) :=
  (lift6_main_call2_v5 V).trans (after_of_not_mem writes5 (by decide) (U5 V))
theorem lift4_main_call2_v5 (V : Valuation τ sig (Elt F)) : (after (ops (F := F)) V (Proc.devRef .tc main_call2_v5)) = (U4 V (Proc.devRef .tc main_call2_v5)) :=
  (lift5_main_call2_v5 V).trans (after_of_not_mem writes4 (by decide) (U4 V))
theorem lift3_main_call2_v5 (V : Valuation τ sig (Elt F)) : (after (ops (F := F)) V (Proc.devRef .tc main_call2_v5)) = (U3 V (Proc.devRef .tc main_call2_v5)) :=
  (lift4_main_call2_v5 V).trans (after_of_not_mem writes3 (by decide) (U3 V))
theorem lift2_main_call2_v5 (V : Valuation τ sig (Elt F)) : (after (ops (F := F)) V (Proc.devRef .tc main_call2_v5)) = (U2 V (Proc.devRef .tc main_call2_v5)) :=
  (lift3_main_call2_v5 V).trans (after_of_not_mem writes2 (by decide) (U2 V))
theorem lift1_main_call2_v5 (V : Valuation τ sig (Elt F)) : (after (ops (F := F)) V (Proc.devRef .tc main_call2_v5)) = (U1 V (Proc.devRef .tc main_call2_v5)) :=
  (lift2_main_call2_v5 V).trans (after_of_not_mem writes1 (by decide) (U1 V))
theorem lift6_main_call2_v6 (V : Valuation τ sig (Elt F)) : (after (ops (F := F)) V (Proc.devRef .tc main_call2_v6)) = (U6 V (Proc.devRef .tc main_call2_v6)) := congrFun (after_ops_eq V) _
theorem lift5_main_call2_v6 (V : Valuation τ sig (Elt F)) : (after (ops (F := F)) V (Proc.devRef .tc main_call2_v6)) = (U5 V (Proc.devRef .tc main_call2_v6)) :=
  (lift6_main_call2_v6 V).trans (after_of_not_mem writes5 (by decide) (U5 V))
theorem lift4_main_call2_v6 (V : Valuation τ sig (Elt F)) : (after (ops (F := F)) V (Proc.devRef .tc main_call2_v6)) = (U4 V (Proc.devRef .tc main_call2_v6)) :=
  (lift5_main_call2_v6 V).trans (after_of_not_mem writes4 (by decide) (U4 V))
theorem lift3_main_call2_v6 (V : Valuation τ sig (Elt F)) : (after (ops (F := F)) V (Proc.devRef .tc main_call2_v6)) = (U3 V (Proc.devRef .tc main_call2_v6)) :=
  (lift4_main_call2_v6 V).trans (after_of_not_mem writes3 (by decide) (U3 V))
theorem lift2_main_call2_v6 (V : Valuation τ sig (Elt F)) : (after (ops (F := F)) V (Proc.devRef .tc main_call2_v6)) = (U2 V (Proc.devRef .tc main_call2_v6)) :=
  (lift3_main_call2_v6 V).trans (after_of_not_mem writes2 (by decide) (U2 V))
theorem lift1_main_call2_v6 (V : Valuation τ sig (Elt F)) : (after (ops (F := F)) V (Proc.devRef .tc main_call2_v6)) = (U1 V (Proc.devRef .tc main_call2_v6)) :=
  (lift2_main_call2_v6 V).trans (after_of_not_mem writes1 (by decide) (U1 V))
theorem lift6_main_call2_v7 (V : Valuation τ sig (Elt F)) : (after (ops (F := F)) V (Proc.devRef .tc main_call2_v7)) = (U6 V (Proc.devRef .tc main_call2_v7)) := congrFun (after_ops_eq V) _
theorem lift5_main_call2_v7 (V : Valuation τ sig (Elt F)) : (after (ops (F := F)) V (Proc.devRef .tc main_call2_v7)) = (U5 V (Proc.devRef .tc main_call2_v7)) :=
  (lift6_main_call2_v7 V).trans (after_of_not_mem writes5 (by decide) (U5 V))
theorem lift4_main_call2_v7 (V : Valuation τ sig (Elt F)) : (after (ops (F := F)) V (Proc.devRef .tc main_call2_v7)) = (U4 V (Proc.devRef .tc main_call2_v7)) :=
  (lift5_main_call2_v7 V).trans (after_of_not_mem writes4 (by decide) (U4 V))
theorem lift3_main_call2_v7 (V : Valuation τ sig (Elt F)) : (after (ops (F := F)) V (Proc.devRef .tc main_call2_v7)) = (U3 V (Proc.devRef .tc main_call2_v7)) :=
  (lift4_main_call2_v7 V).trans (after_of_not_mem writes3 (by decide) (U3 V))
theorem lift2_main_call2_v7 (V : Valuation τ sig (Elt F)) : (after (ops (F := F)) V (Proc.devRef .tc main_call2_v7)) = (U2 V (Proc.devRef .tc main_call2_v7)) :=
  (lift3_main_call2_v7 V).trans (after_of_not_mem writes2 (by decide) (U2 V))
theorem lift1_main_call2_v7 (V : Valuation τ sig (Elt F)) : (after (ops (F := F)) V (Proc.devRef .tc main_call2_v7)) = (U1 V (Proc.devRef .tc main_call2_v7)) :=
  (lift2_main_call2_v7 V).trans (after_of_not_mem writes1 (by decide) (U1 V))
theorem lift6_main_call2_cst_1 (V : Valuation τ sig (Elt F)) : (after (ops (F := F)) V (Proc.devRef .tc main_call2_cst_1)) = (U6 V (Proc.devRef .tc main_call2_cst_1)) := congrFun (after_ops_eq V) _
theorem lift5_main_call2_cst_1 (V : Valuation τ sig (Elt F)) : (after (ops (F := F)) V (Proc.devRef .tc main_call2_cst_1)) = (U5 V (Proc.devRef .tc main_call2_cst_1)) :=
  (lift6_main_call2_cst_1 V).trans (after_of_not_mem writes5 (by decide) (U5 V))
theorem lift4_main_call2_cst_1 (V : Valuation τ sig (Elt F)) : (after (ops (F := F)) V (Proc.devRef .tc main_call2_cst_1)) = (U4 V (Proc.devRef .tc main_call2_cst_1)) :=
  (lift5_main_call2_cst_1 V).trans (after_of_not_mem writes4 (by decide) (U4 V))
theorem lift3_main_call2_cst_1 (V : Valuation τ sig (Elt F)) : (after (ops (F := F)) V (Proc.devRef .tc main_call2_cst_1)) = (U3 V (Proc.devRef .tc main_call2_cst_1)) :=
  (lift4_main_call2_cst_1 V).trans (after_of_not_mem writes3 (by decide) (U3 V))
theorem lift2_main_call2_cst_1 (V : Valuation τ sig (Elt F)) : (after (ops (F := F)) V (Proc.devRef .tc main_call2_cst_1)) = (U2 V (Proc.devRef .tc main_call2_cst_1)) :=
  (lift3_main_call2_cst_1 V).trans (after_of_not_mem writes2 (by decide) (U2 V))
theorem lift1_main_call2_cst_1 (V : Valuation τ sig (Elt F)) : (after (ops (F := F)) V (Proc.devRef .tc main_call2_cst_1)) = (U1 V (Proc.devRef .tc main_call2_cst_1)) :=
  (lift2_main_call2_cst_1 V).trans (after_of_not_mem writes1 (by decide) (U1 V))
theorem lift6_main_call2_v8 (V : Valuation τ sig (Elt F)) : (after (ops (F := F)) V (Proc.devRef .tc main_call2_v8)) = (U6 V (Proc.devRef .tc main_call2_v8)) := congrFun (after_ops_eq V) _
theorem lift5_main_call2_v8 (V : Valuation τ sig (Elt F)) : (after (ops (F := F)) V (Proc.devRef .tc main_call2_v8)) = (U5 V (Proc.devRef .tc main_call2_v8)) :=
  (lift6_main_call2_v8 V).trans (after_of_not_mem writes5 (by decide) (U5 V))
theorem lift4_main_call2_v8 (V : Valuation τ sig (Elt F)) : (after (ops (F := F)) V (Proc.devRef .tc main_call2_v8)) = (U4 V (Proc.devRef .tc main_call2_v8)) :=
  (lift5_main_call2_v8 V).trans (after_of_not_mem writes4 (by decide) (U4 V))
theorem lift3_main_call2_v8 (V : Valuation τ sig (Elt F)) : (after (ops (F := F)) V (Proc.devRef .tc main_call2_v8)) = (U3 V (Proc.devRef .tc main_call2_v8)) :=
  (lift4_main_call2_v8 V).trans (after_of_not_mem writes3 (by decide) (U3 V))
theorem lift2_main_call2_v8 (V : Valuation τ sig (Elt F)) : (after (ops (F := F)) V (Proc.devRef .tc main_call2_v8)) = (U2 V (Proc.devRef .tc main_call2_v8)) :=
  (lift3_main_call2_v8 V).trans (after_of_not_mem writes2 (by decide) (U2 V))
theorem lift1_main_call2_v8 (V : Valuation τ sig (Elt F)) : (after (ops (F := F)) V (Proc.devRef .tc main_call2_v8)) = (U1 V (Proc.devRef .tc main_call2_v8)) :=
  (lift2_main_call2_v8 V).trans (after_of_not_mem writes1 (by decide) (U1 V))
theorem lift6_main_call2_cst_2 (V : Valuation τ sig (Elt F)) : (after (ops (F := F)) V (Proc.devRef .tc main_call2_cst_2)) = (U6 V (Proc.devRef .tc main_call2_cst_2)) := congrFun (after_ops_eq V) _
theorem lift5_main_call2_cst_2 (V : Valuation τ sig (Elt F)) : (after (ops (F := F)) V (Proc.devRef .tc main_call2_cst_2)) = (U5 V (Proc.devRef .tc main_call2_cst_2)) :=
  (lift6_main_call2_cst_2 V).trans (after_of_not_mem writes5 (by decide) (U5 V))
theorem lift4_main_call2_cst_2 (V : Valuation τ sig (Elt F)) : (after (ops (F := F)) V (Proc.devRef .tc main_call2_cst_2)) = (U4 V (Proc.devRef .tc main_call2_cst_2)) :=
  (lift5_main_call2_cst_2 V).trans (after_of_not_mem writes4 (by decide) (U4 V))
theorem lift3_main_call2_cst_2 (V : Valuation τ sig (Elt F)) : (after (ops (F := F)) V (Proc.devRef .tc main_call2_cst_2)) = (U3 V (Proc.devRef .tc main_call2_cst_2)) :=
  (lift4_main_call2_cst_2 V).trans (after_of_not_mem writes3 (by decide) (U3 V))
theorem lift2_main_call2_cst_2 (V : Valuation τ sig (Elt F)) : (after (ops (F := F)) V (Proc.devRef .tc main_call2_cst_2)) = (U2 V (Proc.devRef .tc main_call2_cst_2)) :=
  (lift3_main_call2_cst_2 V).trans (after_of_not_mem writes2 (by decide) (U2 V))
theorem lift1_main_call2_cst_2 (V : Valuation τ sig (Elt F)) : (after (ops (F := F)) V (Proc.devRef .tc main_call2_cst_2)) = (U1 V (Proc.devRef .tc main_call2_cst_2)) :=
  (lift2_main_call2_cst_2 V).trans (after_of_not_mem writes1 (by decide) (U1 V))
theorem lift6_main_call2_v9 (V : Valuation τ sig (Elt F)) : (after (ops (F := F)) V (Proc.devRef .tc main_call2_v9)) = (U6 V (Proc.devRef .tc main_call2_v9)) := congrFun (after_ops_eq V) _
theorem lift5_main_call2_v9 (V : Valuation τ sig (Elt F)) : (after (ops (F := F)) V (Proc.devRef .tc main_call2_v9)) = (U5 V (Proc.devRef .tc main_call2_v9)) :=
  (lift6_main_call2_v9 V).trans (after_of_not_mem writes5 (by decide) (U5 V))
theorem lift4_main_call2_v9 (V : Valuation τ sig (Elt F)) : (after (ops (F := F)) V (Proc.devRef .tc main_call2_v9)) = (U4 V (Proc.devRef .tc main_call2_v9)) :=
  (lift5_main_call2_v9 V).trans (after_of_not_mem writes4 (by decide) (U4 V))
theorem lift3_main_call2_v9 (V : Valuation τ sig (Elt F)) : (after (ops (F := F)) V (Proc.devRef .tc main_call2_v9)) = (U3 V (Proc.devRef .tc main_call2_v9)) :=
  (lift4_main_call2_v9 V).trans (after_of_not_mem writes3 (by decide) (U3 V))
theorem lift2_main_call2_v9 (V : Valuation τ sig (Elt F)) : (after (ops (F := F)) V (Proc.devRef .tc main_call2_v9)) = (U2 V (Proc.devRef .tc main_call2_v9)) :=
  (lift3_main_call2_v9 V).trans (after_of_not_mem writes2 (by decide) (U2 V))
theorem lift1_main_call2_v9 (V : Valuation τ sig (Elt F)) : (after (ops (F := F)) V (Proc.devRef .tc main_call2_v9)) = (U1 V (Proc.devRef .tc main_call2_v9)) :=
  (lift2_main_call2_v9 V).trans (after_of_not_mem writes1 (by decide) (U1 V))
theorem lift6_main_call2_v10 (V : Valuation τ sig (Elt F)) : (after (ops (F := F)) V (Proc.devRef .tc main_call2_v10)) = (U6 V (Proc.devRef .tc main_call2_v10)) := congrFun (after_ops_eq V) _
theorem lift5_main_call2_v10 (V : Valuation τ sig (Elt F)) : (after (ops (F := F)) V (Proc.devRef .tc main_call2_v10)) = (U5 V (Proc.devRef .tc main_call2_v10)) :=
  (lift6_main_call2_v10 V).trans (after_of_not_mem writes5 (by decide) (U5 V))
theorem lift4_main_call2_v10 (V : Valuation τ sig (Elt F)) : (after (ops (F := F)) V (Proc.devRef .tc main_call2_v10)) = (U4 V (Proc.devRef .tc main_call2_v10)) :=
  (lift5_main_call2_v10 V).trans (after_of_not_mem writes4 (by decide) (U4 V))
theorem lift3_main_call2_v10 (V : Valuation τ sig (Elt F)) : (after (ops (F := F)) V (Proc.devRef .tc main_call2_v10)) = (U3 V (Proc.devRef .tc main_call2_v10)) :=
  (lift4_main_call2_v10 V).trans (after_of_not_mem writes3 (by decide) (U3 V))
theorem lift2_main_call2_v10 (V : Valuation τ sig (Elt F)) : (after (ops (F := F)) V (Proc.devRef .tc main_call2_v10)) = (U2 V (Proc.devRef .tc main_call2_v10)) :=
  (lift3_main_call2_v10 V).trans (after_of_not_mem writes2 (by decide) (U2 V))
theorem lift1_main_call2_v10 (V : Valuation τ sig (Elt F)) : (after (ops (F := F)) V (Proc.devRef .tc main_call2_v10)) = (U1 V (Proc.devRef .tc main_call2_v10)) :=
  (lift2_main_call2_v10 V).trans (after_of_not_mem writes1 (by decide) (U1 V))
theorem lift6_main_call2_v11 (V : Valuation τ sig (Elt F)) : (after (ops (F := F)) V (Proc.devRef .tc main_call2_v11)) = (U6 V (Proc.devRef .tc main_call2_v11)) := congrFun (after_ops_eq V) _
theorem lift5_main_call2_v11 (V : Valuation τ sig (Elt F)) : (after (ops (F := F)) V (Proc.devRef .tc main_call2_v11)) = (U5 V (Proc.devRef .tc main_call2_v11)) :=
  (lift6_main_call2_v11 V).trans (after_of_not_mem writes5 (by decide) (U5 V))
theorem lift4_main_call2_v11 (V : Valuation τ sig (Elt F)) : (after (ops (F := F)) V (Proc.devRef .tc main_call2_v11)) = (U4 V (Proc.devRef .tc main_call2_v11)) :=
  (lift5_main_call2_v11 V).trans (after_of_not_mem writes4 (by decide) (U4 V))
theorem lift3_main_call2_v11 (V : Valuation τ sig (Elt F)) : (after (ops (F := F)) V (Proc.devRef .tc main_call2_v11)) = (U3 V (Proc.devRef .tc main_call2_v11)) :=
  (lift4_main_call2_v11 V).trans (after_of_not_mem writes3 (by decide) (U3 V))
theorem lift2_main_call2_v11 (V : Valuation τ sig (Elt F)) : (after (ops (F := F)) V (Proc.devRef .tc main_call2_v11)) = (U2 V (Proc.devRef .tc main_call2_v11)) :=
  (lift3_main_call2_v11 V).trans (after_of_not_mem writes2 (by decide) (U2 V))
theorem lift1_main_call2_v11 (V : Valuation τ sig (Elt F)) : (after (ops (F := F)) V (Proc.devRef .tc main_call2_v11)) = (U1 V (Proc.devRef .tc main_call2_v11)) :=
  (lift2_main_call2_v11 V).trans (after_of_not_mem writes1 (by decide) (U1 V))
theorem lift6_main_call2_cst_3 (V : Valuation τ sig (Elt F)) : (after (ops (F := F)) V (Proc.devRef .tc main_call2_cst_3)) = (U6 V (Proc.devRef .tc main_call2_cst_3)) := congrFun (after_ops_eq V) _
theorem lift5_main_call2_cst_3 (V : Valuation τ sig (Elt F)) : (after (ops (F := F)) V (Proc.devRef .tc main_call2_cst_3)) = (U5 V (Proc.devRef .tc main_call2_cst_3)) :=
  (lift6_main_call2_cst_3 V).trans (after_of_not_mem writes5 (by decide) (U5 V))
theorem lift4_main_call2_cst_3 (V : Valuation τ sig (Elt F)) : (after (ops (F := F)) V (Proc.devRef .tc main_call2_cst_3)) = (U4 V (Proc.devRef .tc main_call2_cst_3)) :=
  (lift5_main_call2_cst_3 V).trans (after_of_not_mem writes4 (by decide) (U4 V))
theorem lift3_main_call2_cst_3 (V : Valuation τ sig (Elt F)) : (after (ops (F := F)) V (Proc.devRef .tc main_call2_cst_3)) = (U3 V (Proc.devRef .tc main_call2_cst_3)) :=
  (lift4_main_call2_cst_3 V).trans (after_of_not_mem writes3 (by decide) (U3 V))
theorem lift2_main_call2_cst_3 (V : Valuation τ sig (Elt F)) : (after (ops (F := F)) V (Proc.devRef .tc main_call2_cst_3)) = (U2 V (Proc.devRef .tc main_call2_cst_3)) :=
  (lift3_main_call2_cst_3 V).trans (after_of_not_mem writes2 (by decide) (U2 V))
theorem lift1_main_call2_cst_3 (V : Valuation τ sig (Elt F)) : (after (ops (F := F)) V (Proc.devRef .tc main_call2_cst_3)) = (U1 V (Proc.devRef .tc main_call2_cst_3)) :=
  (lift2_main_call2_cst_3 V).trans (after_of_not_mem writes1 (by decide) (U1 V))
theorem lift6_main_call2_v12 (V : Valuation τ sig (Elt F)) : (after (ops (F := F)) V (Proc.devRef .tc main_call2_v12)) = (U6 V (Proc.devRef .tc main_call2_v12)) := congrFun (after_ops_eq V) _
theorem lift5_main_call2_v12 (V : Valuation τ sig (Elt F)) : (after (ops (F := F)) V (Proc.devRef .tc main_call2_v12)) = (U5 V (Proc.devRef .tc main_call2_v12)) :=
  (lift6_main_call2_v12 V).trans (after_of_not_mem writes5 (by decide) (U5 V))
theorem lift4_main_call2_v12 (V : Valuation τ sig (Elt F)) : (after (ops (F := F)) V (Proc.devRef .tc main_call2_v12)) = (U4 V (Proc.devRef .tc main_call2_v12)) :=
  (lift5_main_call2_v12 V).trans (after_of_not_mem writes4 (by decide) (U4 V))
theorem lift3_main_call2_v12 (V : Valuation τ sig (Elt F)) : (after (ops (F := F)) V (Proc.devRef .tc main_call2_v12)) = (U3 V (Proc.devRef .tc main_call2_v12)) :=
  (lift4_main_call2_v12 V).trans (after_of_not_mem writes3 (by decide) (U3 V))
theorem lift2_main_call2_v12 (V : Valuation τ sig (Elt F)) : (after (ops (F := F)) V (Proc.devRef .tc main_call2_v12)) = (U2 V (Proc.devRef .tc main_call2_v12)) :=
  (lift3_main_call2_v12 V).trans (after_of_not_mem writes2 (by decide) (U2 V))
theorem lift1_main_call2_v12 (V : Valuation τ sig (Elt F)) : (after (ops (F := F)) V (Proc.devRef .tc main_call2_v12)) = (U1 V (Proc.devRef .tc main_call2_v12)) :=
  (lift2_main_call2_v12 V).trans (after_of_not_mem writes1 (by decide) (U1 V))
theorem lift6_main_call2_cst_4 (V : Valuation τ sig (Elt F)) : (after (ops (F := F)) V (Proc.devRef .tc main_call2_cst_4)) = (U6 V (Proc.devRef .tc main_call2_cst_4)) := congrFun (after_ops_eq V) _
theorem lift5_main_call2_cst_4 (V : Valuation τ sig (Elt F)) : (after (ops (F := F)) V (Proc.devRef .tc main_call2_cst_4)) = (U5 V (Proc.devRef .tc main_call2_cst_4)) :=
  (lift6_main_call2_cst_4 V).trans (after_of_not_mem writes5 (by decide) (U5 V))
theorem lift4_main_call2_cst_4 (V : Valuation τ sig (Elt F)) : (after (ops (F := F)) V (Proc.devRef .tc main_call2_cst_4)) = (U4 V (Proc.devRef .tc main_call2_cst_4)) :=
  (lift5_main_call2_cst_4 V).trans (after_of_not_mem writes4 (by decide) (U4 V))
theorem lift3_main_call2_cst_4 (V : Valuation τ sig (Elt F)) : (after (ops (F := F)) V (Proc.devRef .tc main_call2_cst_4)) = (U3 V (Proc.devRef .tc main_call2_cst_4)) :=
  (lift4_main_call2_cst_4 V).trans (after_of_not_mem writes3 (by decide) (U3 V))
theorem lift2_main_call2_cst_4 (V : Valuation τ sig (Elt F)) : (after (ops (F := F)) V (Proc.devRef .tc main_call2_cst_4)) = (U2 V (Proc.devRef .tc main_call2_cst_4)) :=
  (lift3_main_call2_cst_4 V).trans (after_of_not_mem writes2 (by decide) (U2 V))
theorem lift1_main_call2_cst_4 (V : Valuation τ sig (Elt F)) : (after (ops (F := F)) V (Proc.devRef .tc main_call2_cst_4)) = (U1 V (Proc.devRef .tc main_call2_cst_4)) :=
  (lift2_main_call2_cst_4 V).trans (after_of_not_mem writes1 (by decide) (U1 V))
theorem lift6_main_call2_call0_v0 (V : Valuation τ sig (Elt F)) : (after (ops (F := F)) V (Proc.devRef .tc main_call2_call0_v0)) = (U6 V (Proc.devRef .tc main_call2_call0_v0)) := congrFun (after_ops_eq V) _
theorem lift5_main_call2_call0_v0 (V : Valuation τ sig (Elt F)) : (after (ops (F := F)) V (Proc.devRef .tc main_call2_call0_v0)) = (U5 V (Proc.devRef .tc main_call2_call0_v0)) :=
  (lift6_main_call2_call0_v0 V).trans (after_of_not_mem writes5 (by decide) (U5 V))
theorem lift4_main_call2_call0_v0 (V : Valuation τ sig (Elt F)) : (after (ops (F := F)) V (Proc.devRef .tc main_call2_call0_v0)) = (U4 V (Proc.devRef .tc main_call2_call0_v0)) :=
  (lift5_main_call2_call0_v0 V).trans (after_of_not_mem writes4 (by decide) (U4 V))
theorem lift3_main_call2_call0_v0 (V : Valuation τ sig (Elt F)) : (after (ops (F := F)) V (Proc.devRef .tc main_call2_call0_v0)) = (U3 V (Proc.devRef .tc main_call2_call0_v0)) :=
  (lift4_main_call2_call0_v0 V).trans (after_of_not_mem writes3 (by decide) (U3 V))
theorem lift2_main_call2_call0_v0 (V : Valuation τ sig (Elt F)) : (after (ops (F := F)) V (Proc.devRef .tc main_call2_call0_v0)) = (U2 V (Proc.devRef .tc main_call2_call0_v0)) :=
  (lift3_main_call2_call0_v0 V).trans (after_of_not_mem writes2 (by decide) (U2 V))
theorem lift1_main_call2_call0_v0 (V : Valuation τ sig (Elt F)) : (after (ops (F := F)) V (Proc.devRef .tc main_call2_call0_v0)) = (U1 V (Proc.devRef .tc main_call2_call0_v0)) :=
  (lift2_main_call2_call0_v0 V).trans (after_of_not_mem writes1 (by decide) (U1 V))
theorem lift6_main_call2_call0_v1 (V : Valuation τ sig (Elt F)) : (after (ops (F := F)) V (Proc.devRef .tc main_call2_call0_v1)) = (U6 V (Proc.devRef .tc main_call2_call0_v1)) := congrFun (after_ops_eq V) _
theorem lift5_main_call2_call0_v1 (V : Valuation τ sig (Elt F)) : (after (ops (F := F)) V (Proc.devRef .tc main_call2_call0_v1)) = (U5 V (Proc.devRef .tc main_call2_call0_v1)) :=
  (lift6_main_call2_call0_v1 V).trans (after_of_not_mem writes5 (by decide) (U5 V))
theorem lift4_main_call2_call0_v1 (V : Valuation τ sig (Elt F)) : (after (ops (F := F)) V (Proc.devRef .tc main_call2_call0_v1)) = (U4 V (Proc.devRef .tc main_call2_call0_v1)) :=
  (lift5_main_call2_call0_v1 V).trans (after_of_not_mem writes4 (by decide) (U4 V))
theorem lift3_main_call2_call0_v1 (V : Valuation τ sig (Elt F)) : (after (ops (F := F)) V (Proc.devRef .tc main_call2_call0_v1)) = (U3 V (Proc.devRef .tc main_call2_call0_v1)) :=
  (lift4_main_call2_call0_v1 V).trans (after_of_not_mem writes3 (by decide) (U3 V))
theorem lift2_main_call2_call0_v1 (V : Valuation τ sig (Elt F)) : (after (ops (F := F)) V (Proc.devRef .tc main_call2_call0_v1)) = (U2 V (Proc.devRef .tc main_call2_call0_v1)) :=
  (lift3_main_call2_call0_v1 V).trans (after_of_not_mem writes2 (by decide) (U2 V))
theorem lift1_main_call2_call0_v1 (V : Valuation τ sig (Elt F)) : (after (ops (F := F)) V (Proc.devRef .tc main_call2_call0_v1)) = (U1 V (Proc.devRef .tc main_call2_call0_v1)) :=
  (lift2_main_call2_call0_v1 V).trans (after_of_not_mem writes1 (by decide) (U1 V))
theorem lift6_main_v45 (V : Valuation τ sig (Elt F)) : (after (ops (F := F)) V (Proc.devRef .tc main_v45)) = (U6 V (Proc.devRef .tc main_v45)) := congrFun (after_ops_eq V) _
theorem lift5_main_v45 (V : Valuation τ sig (Elt F)) : (after (ops (F := F)) V (Proc.devRef .tc main_v45)) = (U5 V (Proc.devRef .tc main_v45)) :=
  (lift6_main_v45 V).trans (after_of_not_mem writes5 (by decide) (U5 V))
theorem lift4_main_v45 (V : Valuation τ sig (Elt F)) : (after (ops (F := F)) V (Proc.devRef .tc main_v45)) = (U4 V (Proc.devRef .tc main_v45)) :=
  (lift5_main_v45 V).trans (after_of_not_mem writes4 (by decide) (U4 V))
theorem lift3_main_v45 (V : Valuation τ sig (Elt F)) : (after (ops (F := F)) V (Proc.devRef .tc main_v45)) = (U3 V (Proc.devRef .tc main_v45)) :=
  (lift4_main_v45 V).trans (after_of_not_mem writes3 (by decide) (U3 V))
theorem lift2_main_v45 (V : Valuation τ sig (Elt F)) : (after (ops (F := F)) V (Proc.devRef .tc main_v45)) = (U2 V (Proc.devRef .tc main_v45)) :=
  (lift3_main_v45 V).trans (after_of_not_mem writes2 (by decide) (U2 V))
theorem lift1_main_v45 (V : Valuation τ sig (Elt F)) : (after (ops (F := F)) V (Proc.devRef .tc main_v45)) = (U1 V (Proc.devRef .tc main_v45)) :=
  (lift2_main_v45 V).trans (after_of_not_mem writes1 (by decide) (U1 V))
theorem lift6_main_v46 (V : Valuation τ sig (Elt F)) : (after (ops (F := F)) V (Proc.devRef .tc main_v46)) = (U6 V (Proc.devRef .tc main_v46)) := congrFun (after_ops_eq V) _
theorem lift5_main_v46 (V : Valuation τ sig (Elt F)) : (after (ops (F := F)) V (Proc.devRef .tc main_v46)) = (U5 V (Proc.devRef .tc main_v46)) :=
  (lift6_main_v46 V).trans (after_of_not_mem writes5 (by decide) (U5 V))
theorem lift4_main_v46 (V : Valuation τ sig (Elt F)) : (after (ops (F := F)) V (Proc.devRef .tc main_v46)) = (U4 V (Proc.devRef .tc main_v46)) :=
  (lift5_main_v46 V).trans (after_of_not_mem writes4 (by decide) (U4 V))
theorem lift3_main_v46 (V : Valuation τ sig (Elt F)) : (after (ops (F := F)) V (Proc.devRef .tc main_v46)) = (U3 V (Proc.devRef .tc main_v46)) :=
  (lift4_main_v46 V).trans (after_of_not_mem writes3 (by decide) (U3 V))
theorem lift2_main_v46 (V : Valuation τ sig (Elt F)) : (after (ops (F := F)) V (Proc.devRef .tc main_v46)) = (U2 V (Proc.devRef .tc main_v46)) :=
  (lift3_main_v46 V).trans (after_of_not_mem writes2 (by decide) (U2 V))
theorem lift1_main_v46 (V : Valuation τ sig (Elt F)) : (after (ops (F := F)) V (Proc.devRef .tc main_v46)) = (U1 V (Proc.devRef .tc main_v46)) :=
  (lift2_main_v46 V).trans (after_of_not_mem writes1 (by decide) (U1 V))
theorem lift6_main_v47 (V : Valuation τ sig (Elt F)) : (after (ops (F := F)) V (Proc.devRef .tc main_v47)) = (U6 V (Proc.devRef .tc main_v47)) := congrFun (after_ops_eq V) _
theorem lift5_main_v47 (V : Valuation τ sig (Elt F)) : (after (ops (F := F)) V (Proc.devRef .tc main_v47)) = (U5 V (Proc.devRef .tc main_v47)) :=
  (lift6_main_v47 V).trans (after_of_not_mem writes5 (by decide) (U5 V))
theorem lift4_main_v47 (V : Valuation τ sig (Elt F)) : (after (ops (F := F)) V (Proc.devRef .tc main_v47)) = (U4 V (Proc.devRef .tc main_v47)) :=
  (lift5_main_v47 V).trans (after_of_not_mem writes4 (by decide) (U4 V))
theorem lift3_main_v47 (V : Valuation τ sig (Elt F)) : (after (ops (F := F)) V (Proc.devRef .tc main_v47)) = (U3 V (Proc.devRef .tc main_v47)) :=
  (lift4_main_v47 V).trans (after_of_not_mem writes3 (by decide) (U3 V))
theorem lift2_main_v47 (V : Valuation τ sig (Elt F)) : (after (ops (F := F)) V (Proc.devRef .tc main_v47)) = (U2 V (Proc.devRef .tc main_v47)) :=
  (lift3_main_v47 V).trans (after_of_not_mem writes2 (by decide) (U2 V))
theorem lift1_main_v47 (V : Valuation τ sig (Elt F)) : (after (ops (F := F)) V (Proc.devRef .tc main_v47)) = (U1 V (Proc.devRef .tc main_v47)) :=
  (lift2_main_v47 V).trans (after_of_not_mem writes1 (by decide) (U1 V))
theorem lift6_main_v48 (V : Valuation τ sig (Elt F)) : (after (ops (F := F)) V (Proc.devRef .tc main_v48)) = (U6 V (Proc.devRef .tc main_v48)) := congrFun (after_ops_eq V) _
theorem lift5_main_v48 (V : Valuation τ sig (Elt F)) : (after (ops (F := F)) V (Proc.devRef .tc main_v48)) = (U5 V (Proc.devRef .tc main_v48)) :=
  (lift6_main_v48 V).trans (after_of_not_mem writes5 (by decide) (U5 V))
theorem lift4_main_v48 (V : Valuation τ sig (Elt F)) : (after (ops (F := F)) V (Proc.devRef .tc main_v48)) = (U4 V (Proc.devRef .tc main_v48)) :=
  (lift5_main_v48 V).trans (after_of_not_mem writes4 (by decide) (U4 V))
theorem lift3_main_v48 (V : Valuation τ sig (Elt F)) : (after (ops (F := F)) V (Proc.devRef .tc main_v48)) = (U3 V (Proc.devRef .tc main_v48)) :=
  (lift4_main_v48 V).trans (after_of_not_mem writes3 (by decide) (U3 V))
theorem lift2_main_v48 (V : Valuation τ sig (Elt F)) : (after (ops (F := F)) V (Proc.devRef .tc main_v48)) = (U2 V (Proc.devRef .tc main_v48)) :=
  (lift3_main_v48 V).trans (after_of_not_mem writes2 (by decide) (U2 V))
theorem lift1_main_v48 (V : Valuation τ sig (Elt F)) : (after (ops (F := F)) V (Proc.devRef .tc main_v48)) = (U1 V (Proc.devRef .tc main_v48)) :=
  (lift2_main_v48 V).trans (after_of_not_mem writes1 (by decide) (U1 V))

end Cert.ReferenceIdeal.Hand

end
-- ==== Proof.Ref.LiftA.lean ====
-- written by: gen_ref.js <unit directory>
/- No operation of the reference program's @main writes an argument: an argument array holds its launch contents at every window boundary. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_arg0 (V : Valuation τ sig (Elt F)) : (after (ops (F := F)) V (Proc.devRef .tc main_arg0)) = (U6 V (Proc.devRef .tc main_arg0)) := congrFun (after_ops_eq V) _
theorem lift5_main_arg0 (V : Valuation τ sig (Elt F)) : (after (ops (F := F)) V (Proc.devRef .tc main_arg0)) = (U5 V (Proc.devRef .tc main_arg0)) :=
  (lift6_main_arg0 V).trans (after_of_not_mem writes5 (by decide) (U5 V))
theorem lift4_main_arg0 (V : Valuation τ sig (Elt F)) : (after (ops (F := F)) V (Proc.devRef .tc main_arg0)) = (U4 V (Proc.devRef .tc main_arg0)) :=
  (lift5_main_arg0 V).trans (after_of_not_mem writes4 (by decide) (U4 V))
theorem lift3_main_arg0 (V : Valuation τ sig (Elt F)) : (after (ops (F := F)) V (Proc.devRef .tc main_arg0)) = (U3 V (Proc.devRef .tc main_arg0)) :=
  (lift4_main_arg0 V).trans (after_of_not_mem writes3 (by decide) (U3 V))
theorem lift2_main_arg0 (V : Valuation τ sig (Elt F)) : (after (ops (F := F)) V (Proc.devRef .tc main_arg0)) = (U2 V (Proc.devRef .tc main_arg0)) :=
  (lift3_main_arg0 V).trans (after_of_not_mem writes2 (by decide) (U2 V))
theorem lift1_main_arg0 (V : Valuation τ sig (Elt F)) : (after (ops (F := F)) V (Proc.devRef .tc main_arg0)) = (U1 V (Proc.devRef .tc main_arg0)) :=
  (lift2_main_arg0 V).trans (after_of_not_mem writes1 (by decide) (U1 V))
theorem lift0_main_arg0 (V : Valuation τ sig (Elt F)) : (after (ops (F := F)) V (Proc.devRef .tc main_arg0)) = (U0 V (Proc.devRef .tc main_arg0)) :=
  (lift1_main_arg0 V).trans (after_of_not_mem writes0 (by decide) (U0 V))
theorem lift6_main_arg1 (V : Valuation τ sig (Elt F)) : (after (ops (F := F)) V (Proc.devRef .tc main_arg1)) = (U6 V (Proc.devRef .tc main_arg1)) := congrFun (after_ops_eq V) _
theorem lift5_main_arg1 (V : Valuation τ sig (Elt F)) : (after (ops (F := F)) V (Proc.devRef .tc main_arg1)) = (U5 V (Proc.devRef .tc main_arg1)) :=
  (lift6_main_arg1 V).trans (after_of_not_mem writes5 (by decide) (U5 V))
theorem lift4_main_arg1 (V : Valuation τ sig (Elt F)) : (after (ops (F := F)) V (Proc.devRef .tc main_arg1)) = (U4 V (Proc.devRef .tc main_arg1)) :=
  (lift5_main_arg1 V).trans (after_of_not_mem writes4 (by decide) (U4 V))
theorem lift3_main_arg1 (V : Valuation τ sig (Elt F)) : (after (ops (F := F)) V (Proc.devRef .tc main_arg1)) = (U3 V (Proc.devRef .tc main_arg1)) :=
  (lift4_main_arg1 V).trans (after_of_not_mem writes3 (by decide) (U3 V))
theorem lift2_main_arg1 (V : Valuation τ sig (Elt F)) : (after (ops (F := F)) V (Proc.devRef .tc main_arg1)) = (U2 V (Proc.devRef .tc main_arg1)) :=
  (lift3_main_arg1 V).trans (after_of_not_mem writes2 (by decide) (U2 V))
theorem lift1_main_arg1 (V : Valuation τ sig (Elt F)) : (after (ops (F := F)) V (Proc.devRef .tc main_arg1)) = (U1 V (Proc.devRef .tc main_arg1)) :=
  (lift2_main_arg1 V).trans (after_of_not_mem writes1 (by decide) (U1 V))
theorem lift0_main_arg1 (V : Valuation τ sig (Elt F)) : (after (ops (F := F)) V (Proc.devRef .tc main_arg1)) = (U0 V (Proc.devRef .tc main_arg1)) :=
  (lift1_main_arg1 V).trans (after_of_not_mem writes0 (by decide) (U0 V))
theorem lift6_main_arg2 (V : Valuation τ sig (Elt F)) : (after (ops (F := F)) V (Proc.devRef .tc main_arg2)) = (U6 V (Proc.devRef .tc main_arg2)) := congrFun (after_ops_eq V) _
theorem lift5_main_arg2 (V : Valuation τ sig (Elt F)) : (after (ops (F := F)) V (Proc.devRef .tc main_arg2)) = (U5 V (Proc.devRef .tc main_arg2)) :=
  (lift6_main_arg2 V).trans (after_of_not_mem writes5 (by decide) (U5 V))
theorem lift4_main_arg2 (V : Valuation τ sig (Elt F)) : (after (ops (F := F)) V (Proc.devRef .tc main_arg2)) = (U4 V (Proc.devRef .tc main_arg2)) :=
  (lift5_main_arg2 V).trans (after_of_not_mem writes4 (by decide) (U4 V))
theorem lift3_main_arg2 (V : Valuation τ sig (Elt F)) : (after (ops (F := F)) V (Proc.devRef .tc main_arg2)) = (U3 V (Proc.devRef .tc main_arg2)) :=
  (lift4_main_arg2 V).trans (after_of_not_mem writes3 (by decide) (U3 V))
theorem lift2_main_arg2 (V : Valuation τ sig (Elt F)) : (after (ops (F := F)) V (Proc.devRef .tc main_arg2)) = (U2 V (Proc.devRef .tc main_arg2)) :=
  (lift3_main_arg2 V).trans (after_of_not_mem writes2 (by decide) (U2 V))
theorem lift1_main_arg2 (V : Valuation τ sig (Elt F)) : (after (ops (F := F)) V (Proc.devRef .tc main_arg2)) = (U1 V (Proc.devRef .tc main_arg2)) :=
  (lift2_main_arg2 V).trans (after_of_not_mem writes1 (by decide) (U1 V))
theorem lift0_main_arg2 (V : Valuation τ sig (Elt F)) : (after (ops (F := F)) V (Proc.devRef .tc main_arg2)) = (U0 V (Proc.devRef .tc main_arg2)) :=
  (lift1_main_arg2 V).trans (after_of_not_mem writes0 (by decide) (U0 V))
theorem lift6_main_arg3 (V : Valuation τ sig (Elt F)) : (after (ops (F := F)) V (Proc.devRef .tc main_arg3)) = (U6 V (Proc.devRef .tc main_arg3)) := congrFun (after_ops_eq V) _
theorem lift5_main_arg3 (V : Valuation τ sig (Elt F)) : (after (ops (F := F)) V (Proc.devRef .tc main_arg3)) = (U5 V (Proc.devRef .tc main_arg3)) :=
  (lift6_main_arg3 V).trans (after_of_not_mem writes5 (by decide) (U5 V))
theorem lift4_main_arg3 (V : Valuation τ sig (Elt F)) : (after (ops (F := F)) V (Proc.devRef .tc main_arg3)) = (U4 V (Proc.devRef .tc main_arg3)) :=
  (lift5_main_arg3 V).trans (after_of_not_mem writes4 (by decide) (U4 V))
theorem lift3_main_arg3 (V : Valuation τ sig (Elt F)) : (after (ops (F := F)) V (Proc.devRef .tc main_arg3)) = (U3 V (Proc.devRef .tc main_arg3)) :=
  (lift4_main_arg3 V).trans (after_of_not_mem writes3 (by decide) (U3 V))
theorem lift2_main_arg3 (V : Valuation τ sig (Elt F)) : (after (ops (F := F)) V (Proc.devRef .tc main_arg3)) = (U2 V (Proc.devRef .tc main_arg3)) :=
  (lift3_main_arg3 V).trans (after_of_not_mem writes2 (by decide) (U2 V))
theorem lift1_main_arg3 (V : Valuation τ sig (Elt F)) : (after (ops (F := F)) V (Proc.devRef .tc main_arg3)) = (U1 V (Proc.devRef .tc main_arg3)) :=
  (lift2_main_arg3 V).trans (after_of_not_mem writes1 (by decide) (U1 V))
theorem lift0_main_arg3 (V : Valuation τ sig (Elt F)) : (after (ops (F := F)) V (Proc.devRef .tc main_arg3)) = (U0 V (Proc.devRef .tc main_arg3)) :=
  (lift1_main_arg3 V).trans (after_of_not_mem writes0 (by decide) (U0 V))
theorem lift6_main_arg4 (V : Valuation τ sig (Elt F)) : (after (ops (F := F)) V (Proc.devRef .tc main_arg4)) = (U6 V (Proc.devRef .tc main_arg4)) := congrFun (after_ops_eq V) _
theorem lift5_main_arg4 (V : Valuation τ sig (Elt F)) : (after (ops (F := F)) V (Proc.devRef .tc main_arg4)) = (U5 V (Proc.devRef .tc main_arg4)) :=
  (lift6_main_arg4 V).trans (after_of_not_mem writes5 (by decide) (U5 V))
theorem lift4_main_arg4 (V : Valuation τ sig (Elt F)) : (after (ops (F := F)) V (Proc.devRef .tc main_arg4)) = (U4 V (Proc.devRef .tc main_arg4)) :=
  (lift5_main_arg4 V).trans (after_of_not_mem writes4 (by decide) (U4 V))
theorem lift3_main_arg4 (V : Valuation τ sig (Elt F)) : (after (ops (F := F)) V (Proc.devRef .tc main_arg4)) = (U3 V (Proc.devRef .tc main_arg4)) :=
  (lift4_main_arg4 V).trans (after_of_not_mem writes3 (by decide) (U3 V))
theorem lift2_main_arg4 (V : Valuation τ sig (Elt F)) : (after (ops (F := F)) V (Proc.devRef .tc main_arg4)) = (U2 V (Proc.devRef .tc main_arg4)) :=
  (lift3_main_arg4 V).trans (after_of_not_mem writes2 (by decide) (U2 V))
theorem lift1_main_arg4 (V : Valuation τ sig (Elt F)) : (after (ops (F := F)) V (Proc.devRef .tc main_arg4)) = (U1 V (Proc.devRef .tc main_arg4)) :=
  (lift2_main_arg4 V).trans (after_of_not_mem writes1 (by decide) (U1 V))
theorem lift0_main_arg4 (V : Valuation τ sig (Elt F)) : (after (ops (F := F)) V (Proc.devRef .tc main_arg4)) = (U0 V (Proc.devRef .tc main_arg4)) :=
  (lift1_main_arg4 V).trans (after_of_not_mem writes0 (by decide) (U0 V))
theorem lift6_main_arg5 (V : Valuation τ sig (Elt F)) : (after (ops (F := F)) V (Proc.devRef .tc main_arg5)) = (U6 V (Proc.devRef .tc main_arg5)) := congrFun (after_ops_eq V) _
theorem lift5_main_arg5 (V : Valuation τ sig (Elt F)) : (after (ops (F := F)) V (Proc.devRef .tc main_arg5)) = (U5 V (Proc.devRef .tc main_arg5)) :=
  (lift6_main_arg5 V).trans (after_of_not_mem writes5 (by decide) (U5 V))
theorem lift4_main_arg5 (V : Valuation τ sig (Elt F)) : (after (ops (F := F)) V (Proc.devRef .tc main_arg5)) = (U4 V (Proc.devRef .tc main_arg5)) :=
  (lift5_main_arg5 V).trans (after_of_not_mem writes4 (by decide) (U4 V))
theorem lift3_main_arg5 (V : Valuation τ sig (Elt F)) : (after (ops (F := F)) V (Proc.devRef .tc main_arg5)) = (U3 V (Proc.devRef .tc main_arg5)) :=
  (lift4_main_arg5 V).trans (after_of_not_mem writes3 (by decide) (U3 V))
theorem lift2_main_arg5 (V : Valuation τ sig (Elt F)) : (after (ops (F := F)) V (Proc.devRef .tc main_arg5)) = (U2 V (Proc.devRef .tc main_arg5)) :=
  (lift3_main_arg5 V).trans (after_of_not_mem writes2 (by decide) (U2 V))
theorem lift1_main_arg5 (V : Valuation τ sig (Elt F)) : (after (ops (F := F)) V (Proc.devRef .tc main_arg5)) = (U1 V (Proc.devRef .tc main_arg5)) :=
  (lift2_main_arg5 V).trans (after_of_not_mem writes1 (by decide) (U1 V))
theorem lift0_main_arg5 (V : Valuation τ sig (Elt F)) : (after (ops (F := F)) V (Proc.devRef .tc main_arg5)) = (U0 V (Proc.devRef .tc main_arg5)) :=
  (lift1_main_arg5 V).trans (after_of_not_mem writes0 (by decide) (U0 V))
theorem lift6_main_arg6 (V : Valuation τ sig (Elt F)) : (after (ops (F := F)) V (Proc.devRef .tc main_arg6)) = (U6 V (Proc.devRef .tc main_arg6)) := congrFun (after_ops_eq V) _
theorem lift5_main_arg6 (V : Valuation τ sig (Elt F)) : (after (ops (F := F)) V (Proc.devRef .tc main_arg6)) = (U5 V (Proc.devRef .tc main_arg6)) :=
  (lift6_main_arg6 V).trans (after_of_not_mem writes5 (by decide) (U5 V))
theorem lift4_main_arg6 (V : Valuation τ sig (Elt F)) : (after (ops (F := F)) V (Proc.devRef .tc main_arg6)) = (U4 V (Proc.devRef .tc main_arg6)) :=
  (lift5_main_arg6 V).trans (after_of_not_mem writes4 (by decide) (U4 V))
theorem lift3_main_arg6 (V : Valuation τ sig (Elt F)) : (after (ops (F := F)) V (Proc.devRef .tc main_arg6)) = (U3 V (Proc.devRef .tc main_arg6)) :=
  (lift4_main_arg6 V).trans (after_of_not_mem writes3 (by decide) (U3 V))
theorem lift2_main_arg6 (V : Valuation τ sig (Elt F)) : (after (ops (F := F)) V (Proc.devRef .tc main_arg6)) = (U2 V (Proc.devRef .tc main_arg6)) :=
  (lift3_main_arg6 V).trans (after_of_not_mem writes2 (by decide) (U2 V))
theorem lift1_main_arg6 (V : Valuation τ sig (Elt F)) : (after (ops (F := F)) V (Proc.devRef .tc main_arg6)) = (U1 V (Proc.devRef .tc main_arg6)) :=
  (lift2_main_arg6 V).trans (after_of_not_mem writes1 (by decide) (U1 V))
theorem lift0_main_arg6 (V : Valuation τ sig (Elt F)) : (after (ops (F := F)) V (Proc.devRef .tc main_arg6)) = (U0 V (Proc.devRef .tc main_arg6)) :=
  (lift1_main_arg6 V).trans (after_of_not_mem writes0 (by decide) (U0 V))
theorem lift6_main_arg7 (V : Valuation τ sig (Elt F)) : (after (ops (F := F)) V (Proc.devRef .tc main_arg7)) = (U6 V (Proc.devRef .tc main_arg7)) := congrFun (after_ops_eq V) _
theorem lift5_main_arg7 (V : Valuation τ sig (Elt F)) : (after (ops (F := F)) V (Proc.devRef .tc main_arg7)) = (U5 V (Proc.devRef .tc main_arg7)) :=
  (lift6_main_arg7 V).trans (after_of_not_mem writes5 (by decide) (U5 V))
theorem lift4_main_arg7 (V : Valuation τ sig (Elt F)) : (after (ops (F := F)) V (Proc.devRef .tc main_arg7)) = (U4 V (Proc.devRef .tc main_arg7)) :=
  (lift5_main_arg7 V).trans (after_of_not_mem writes4 (by decide) (U4 V))
theorem lift3_main_arg7 (V : Valuation τ sig (Elt F)) : (after (ops (F := F)) V (Proc.devRef .tc main_arg7)) = (U3 V (Proc.devRef .tc main_arg7)) :=
  (lift4_main_arg7 V).trans (after_of_not_mem writes3 (by decide) (U3 V))
theorem lift2_main_arg7 (V : Valuation τ sig (Elt F)) : (after (ops (F := F)) V (Proc.devRef .tc main_arg7)) = (U2 V (Proc.devRef .tc main_arg7)) :=
  (lift3_main_arg7 V).trans (after_of_not_mem writes2 (by decide) (U2 V))
theorem lift1_main_arg7 (V : Valuation τ sig (Elt F)) : (after (ops (F := F)) V (Proc.devRef .tc main_arg7)) = (U1 V (Proc.devRef .tc main_arg7)) :=
  (lift2_main_arg7 V).trans (after_of_not_mem writes1 (by decide) (U1 V))
theorem lift0_main_arg7 (V : Valuation τ sig (Elt F)) : (after (ops (F := F)) V (Proc.devRef .tc main_arg7)) = (U0 V (Proc.devRef .tc main_arg7)) :=
  (lift1_main_arg7 V).trans (after_of_not_mem writes0 (by decide) (U0 V))
theorem lift6_main_arg8 (V : Valuation τ sig (Elt F)) : (after (ops (F := F)) V (Proc.devRef .tc main_arg8)) = (U6 V (Proc.devRef .tc main_arg8)) := congrFun (after_ops_eq V) _
theorem lift5_main_arg8 (V : Valuation τ sig (Elt F)) : (after (ops (F := F)) V (Proc.devRef .tc main_arg8)) = (U5 V (Proc.devRef .tc main_arg8)) :=
  (lift6_main_arg8 V).trans (after_of_not_mem writes5 (by decide) (U5 V))
theorem lift4_main_arg8 (V : Valuation τ sig (Elt F)) : (after (ops (F := F)) V (Proc.devRef .tc main_arg8)) = (U4 V (Proc.devRef .tc main_arg8)) :=
  (lift5_main_arg8 V).trans (after_of_not_mem writes4 (by decide) (U4 V))
theorem lift3_main_arg8 (V : Valuation τ sig (Elt F)) : (after (ops (F := F)) V (Proc.devRef .tc main_arg8)) = (U3 V (Proc.devRef .tc main_arg8)) :=
  (lift4_main_arg8 V).trans (after_of_not_mem writes3 (by decide) (U3 V))
theorem lift2_main_arg8 (V : Valuation τ sig (Elt F)) : (after (ops (F := F)) V (Proc.devRef .tc main_arg8)) = (U2 V (Proc.devRef .tc main_arg8)) :=
  (lift3_main_arg8 V).trans (after_of_not_mem writes2 (by decide) (U2 V))
theorem lift1_main_arg8 (V : Valuation τ sig (Elt F)) : (after (ops (F := F)) V (Proc.devRef .tc main_arg8)) = (U1 V (Proc.devRef .tc main_arg8)) :=
  (lift2_main_arg8 V).trans (after_of_not_mem writes1 (by decide) (U1 V))
theorem lift0_main_arg8 (V : Valuation τ sig (Elt F)) : (after (ops (F := F)) V (Proc.devRef .tc main_arg8)) = (U0 V (Proc.devRef .tc main_arg8)) :=
  (lift1_main_arg8 V).trans (after_of_not_mem writes0 (by decide) (U0 V))
theorem lift6_main_arg9 (V : Valuation τ sig (Elt F)) : (after (ops (F := F)) V (Proc.devRef .tc main_arg9)) = (U6 V (Proc.devRef .tc main_arg9)) := congrFun (after_ops_eq V) _
theorem lift5_main_arg9 (V : Valuation τ sig (Elt F)) : (after (ops (F := F)) V (Proc.devRef .tc main_arg9)) = (U5 V (Proc.devRef .tc main_arg9)) :=
  (lift6_main_arg9 V).trans (after_of_not_mem writes5 (by decide) (U5 V))
theorem lift4_main_arg9 (V : Valuation τ sig (Elt F)) : (after (ops (F := F)) V (Proc.devRef .tc main_arg9)) = (U4 V (Proc.devRef .tc main_arg9)) :=
  (lift5_main_arg9 V).trans (after_of_not_mem writes4 (by decide) (U4 V))
theorem lift3_main_arg9 (V : Valuation τ sig (Elt F)) : (after (ops (F := F)) V (Proc.devRef .tc main_arg9)) = (U3 V (Proc.devRef .tc main_arg9)) :=
  (lift4_main_arg9 V).trans (after_of_not_mem writes3 (by decide) (U3 V))
theorem lift2_main_arg9 (V : Valuation τ sig (Elt F)) : (after (ops (F := F)) V (Proc.devRef .tc main_arg9)) = (U2 V (Proc.devRef .tc main_arg9)) :=
  (lift3_main_arg9 V).trans (after_of_not_mem writes2 (by decide) (U2 V))
theorem lift1_main_arg9 (V : Valuation τ sig (Elt F)) : (after (ops (F := F)) V (Proc.devRef .tc main_arg9)) = (U1 V (Proc.devRef .tc main_arg9)) :=
  (lift2_main_arg9 V).trans (after_of_not_mem writes1 (by decide) (U1 V))
theorem lift0_main_arg9 (V : Valuation τ sig (Elt F)) : (after (ops (F := F)) V (Proc.devRef .tc main_arg9)) = (U0 V (Proc.devRef .tc main_arg9)) :=
  (lift1_main_arg9 V).trans (after_of_not_mem writes0 (by decide) (U0 V))
theorem lift6_main_arg10 (V : Valuation τ sig (Elt F)) : (after (ops (F := F)) V (Proc.devRef .tc main_arg10)) = (U6 V (Proc.devRef .tc main_arg10)) := congrFun (after_ops_eq V) _
theorem lift5_main_arg10 (V : Valuation τ sig (Elt F)) : (after (ops (F := F)) V (Proc.devRef .tc main_arg10)) = (U5 V (Proc.devRef .tc main_arg10)) :=
  (lift6_main_arg10 V).trans (after_of_not_mem writes5 (by decide) (U5 V))
theorem lift4_main_arg10 (V : Valuation τ sig (Elt F)) : (after (ops (F := F)) V (Proc.devRef .tc main_arg10)) = (U4 V (Proc.devRef .tc main_arg10)) :=
  (lift5_main_arg10 V).trans (after_of_not_mem writes4 (by decide) (U4 V))
theorem lift3_main_arg10 (V : Valuation τ sig (Elt F)) : (after (ops (F := F)) V (Proc.devRef .tc main_arg10)) = (U3 V (Proc.devRef .tc main_arg10)) :=
  (lift4_main_arg10 V).trans (after_of_not_mem writes3 (by decide) (U3 V))
theorem lift2_main_arg10 (V : Valuation τ sig (Elt F)) : (after (ops (F := F)) V (Proc.devRef .tc main_arg10)) = (U2 V (Proc.devRef .tc main_arg10)) :=
  (lift3_main_arg10 V).trans (after_of_not_mem writes2 (by decide) (U2 V))
theorem lift1_main_arg10 (V : Valuation τ sig (Elt F)) : (after (ops (F := F)) V (Proc.devRef .tc main_arg10)) = (U1 V (Proc.devRef .tc main_arg10)) :=
  (lift2_main_arg10 V).trans (after_of_not_mem writes1 (by decide) (U1 V))
theorem lift0_main_arg10 (V : Valuation τ sig (Elt F)) : (after (ops (F := F)) V (Proc.devRef .tc main_arg10)) = (U0 V (Proc.devRef .tc main_arg10)) :=
  (lift1_main_arg10 V).trans (after_of_not_mem writes0 (by decide) (U0 V))
theorem lift6_main_arg11 (V : Valuation τ sig (Elt F)) : (after (ops (F := F)) V (Proc.devRef .tc main_arg11)) = (U6 V (Proc.devRef .tc main_arg11)) := congrFun (after_ops_eq V) _
theorem lift5_main_arg11 (V : Valuation τ sig (Elt F)) : (after (ops (F := F)) V (Proc.devRef .tc main_arg11)) = (U5 V (Proc.devRef .tc main_arg11)) :=
  (lift6_main_arg11 V).trans (after_of_not_mem writes5 (by decide) (U5 V))
theorem lift4_main_arg11 (V : Valuation τ sig (Elt F)) : (after (ops (F := F)) V (Proc.devRef .tc main_arg11)) = (U4 V (Proc.devRef .tc main_arg11)) :=
  (lift5_main_arg11 V).trans (after_of_not_mem writes4 (by decide) (U4 V))
theorem lift3_main_arg11 (V : Valuation τ sig (Elt F)) : (after (ops (F := F)) V (Proc.devRef .tc main_arg11)) = (U3 V (Proc.devRef .tc main_arg11)) :=
  (lift4_main_arg11 V).trans (after_of_not_mem writes3 (by decide) (U3 V))
theorem lift2_main_arg11 (V : Valuation τ sig (Elt F)) : (after (ops (F := F)) V (Proc.devRef .tc main_arg11)) = (U2 V (Proc.devRef .tc main_arg11)) :=
  (lift3_main_arg11 V).trans (after_of_not_mem writes2 (by decide) (U2 V))
theorem lift1_main_arg11 (V : Valuation τ sig (Elt F)) : (after (ops (F := F)) V (Proc.devRef .tc main_arg11)) = (U1 V (Proc.devRef .tc main_arg11)) :=
  (lift2_main_arg11 V).trans (after_of_not_mem writes1 (by decide) (U1 V))
theorem lift0_main_arg11 (V : Valuation τ sig (Elt F)) : (after (ops (F := F)) V (Proc.devRef .tc main_arg11)) = (U0 V (Proc.devRef .tc main_arg11)) :=
  (lift1_main_arg11 V).trans (after_of_not_mem writes0 (by decide) (U0 V))
theorem lift6_main_arg12 (V : Valuation τ sig (Elt F)) : (after (ops (F := F)) V (Proc.devRef .tc main_arg12)) = (U6 V (Proc.devRef .tc main_arg12)) := congrFun (after_ops_eq V) _
theorem lift5_main_arg12 (V : Valuation τ sig (Elt F)) : (after (ops (F := F)) V (Proc.devRef .tc main_arg12)) = (U5 V (Proc.devRef .tc main_arg12)) :=
  (lift6_main_arg12 V).trans (after_of_not_mem writes5 (by decide) (U5 V))
theorem lift4_main_arg12 (V : Valuation τ sig (Elt F)) : (after (ops (F := F)) V (Proc.devRef .tc main_arg12)) = (U4 V (Proc.devRef .tc main_arg12)) :=
  (lift5_main_arg12 V).trans (after_of_not_mem writes4 (by decide) (U4 V))
theorem lift3_main_arg12 (V : Valuation τ sig (Elt F)) : (after (ops (F := F)) V (Proc.devRef .tc main_arg12)) = (U3 V (Proc.devRef .tc main_arg12)) :=
  (lift4_main_arg12 V).trans (after_of_not_mem writes3 (by decide) (U3 V))
theorem lift2_main_arg12 (V : Valuation τ sig (Elt F)) : (after (ops (F := F)) V (Proc.devRef .tc main_arg12)) = (U2 V (Proc.devRef .tc main_arg12)) :=
  (lift3_main_arg12 V).trans (after_of_not_mem writes2 (by decide) (U2 V))
theorem lift1_main_arg12 (V : Valuation τ sig (Elt F)) : (after (ops (F := F)) V (Proc.devRef .tc main_arg12)) = (U1 V (Proc.devRef .tc main_arg12)) :=
  (lift2_main_arg12 V).trans (after_of_not_mem writes1 (by decide) (U1 V))
theorem lift0_main_arg12 (V : Valuation τ sig (Elt F)) : (after (ops (F := F)) V (Proc.devRef .tc main_arg12)) = (U0 V (Proc.devRef .tc main_arg12)) :=
  (lift1_main_arg12 V).trans (after_of_not_mem writes0 (by decide) (U0 V))
theorem lift6_main_arg13 (V : Valuation τ sig (Elt F)) : (after (ops (F := F)) V (Proc.devRef .tc main_arg13)) = (U6 V (Proc.devRef .tc main_arg13)) := congrFun (after_ops_eq V) _
theorem lift5_main_arg13 (V : Valuation τ sig (Elt F)) : (after (ops (F := F)) V (Proc.devRef .tc main_arg13)) = (U5 V (Proc.devRef .tc main_arg13)) :=
  (lift6_main_arg13 V).trans (after_of_not_mem writes5 (by decide) (U5 V))
theorem lift4_main_arg13 (V : Valuation τ sig (Elt F)) : (after (ops (F := F)) V (Proc.devRef .tc main_arg13)) = (U4 V (Proc.devRef .tc main_arg13)) :=
  (lift5_main_arg13 V).trans (after_of_not_mem writes4 (by decide) (U4 V))
theorem lift3_main_arg13 (V : Valuation τ sig (Elt F)) : (after (ops (F := F)) V (Proc.devRef .tc main_arg13)) = (U3 V (Proc.devRef .tc main_arg13)) :=
  (lift4_main_arg13 V).trans (after_of_not_mem writes3 (by decide) (U3 V))
theorem lift2_main_arg13 (V : Valuation τ sig (Elt F)) : (after (ops (F := F)) V (Proc.devRef .tc main_arg13)) = (U2 V (Proc.devRef .tc main_arg13)) :=
  (lift3_main_arg13 V).trans (after_of_not_mem writes2 (by decide) (U2 V))
theorem lift1_main_arg13 (V : Valuation τ sig (Elt F)) : (after (ops (F := F)) V (Proc.devRef .tc main_arg13)) = (U1 V (Proc.devRef .tc main_arg13)) :=
  (lift2_main_arg13 V).trans (after_of_not_mem writes1 (by decide) (U1 V))
theorem lift0_main_arg13 (V : Valuation τ sig (Elt F)) : (after (ops (F := F)) V (Proc.devRef .tc main_arg13)) = (U0 V (Proc.devRef .tc main_arg13)) :=
  (lift1_main_arg13 V).trans (after_of_not_mem writes0 (by decide) (U0 V))
theorem lift6_main_arg14 (V : Valuation τ sig (Elt F)) : (after (ops (F := F)) V (Proc.devRef .tc main_arg14)) = (U6 V (Proc.devRef .tc main_arg14)) := congrFun (after_ops_eq V) _
theorem lift5_main_arg14 (V : Valuation τ sig (Elt F)) : (after (ops (F := F)) V (Proc.devRef .tc main_arg14)) = (U5 V (Proc.devRef .tc main_arg14)) :=
  (lift6_main_arg14 V).trans (after_of_not_mem writes5 (by decide) (U5 V))
theorem lift4_main_arg14 (V : Valuation τ sig (Elt F)) : (after (ops (F := F)) V (Proc.devRef .tc main_arg14)) = (U4 V (Proc.devRef .tc main_arg14)) :=
  (lift5_main_arg14 V).trans (after_of_not_mem writes4 (by decide) (U4 V))
theorem lift3_main_arg14 (V : Valuation τ sig (Elt F)) : (after (ops (F := F)) V (Proc.devRef .tc main_arg14)) = (U3 V (Proc.devRef .tc main_arg14)) :=
  (lift4_main_arg14 V).trans (after_of_not_mem writes3 (by decide) (U3 V))
theorem lift2_main_arg14 (V : Valuation τ sig (Elt F)) : (after (ops (F := F)) V (Proc.devRef .tc main_arg14)) = (U2 V (Proc.devRef .tc main_arg14)) :=
  (lift3_main_arg14 V).trans (after_of_not_mem writes2 (by decide) (U2 V))
theorem lift1_main_arg14 (V : Valuation τ sig (Elt F)) : (after (ops (F := F)) V (Proc.devRef .tc main_arg14)) = (U1 V (Proc.devRef .tc main_arg14)) :=
  (lift2_main_arg14 V).trans (after_of_not_mem writes1 (by decide) (U1 V))
theorem lift0_main_arg14 (V : Valuation τ sig (Elt F)) : (after (ops (F := F)) V (Proc.devRef .tc main_arg14)) = (U0 V (Proc.devRef .tc main_arg14)) :=
  (lift1_main_arg14 V).trans (after_of_not_mem writes0 (by decide) (U0 V))
theorem lift6_main_arg15 (V : Valuation τ sig (Elt F)) : (after (ops (F := F)) V (Proc.devRef .tc main_arg15)) = (U6 V (Proc.devRef .tc main_arg15)) := congrFun (after_ops_eq V) _
theorem lift5_main_arg15 (V : Valuation τ sig (Elt F)) : (after (ops (F := F)) V (Proc.devRef .tc main_arg15)) = (U5 V (Proc.devRef .tc main_arg15)) :=
  (lift6_main_arg15 V).trans (after_of_not_mem writes5 (by decide) (U5 V))
theorem lift4_main_arg15 (V : Valuation τ sig (Elt F)) : (after (ops (F := F)) V (Proc.devRef .tc main_arg15)) = (U4 V (Proc.devRef .tc main_arg15)) :=
  (lift5_main_arg15 V).trans (after_of_not_mem writes4 (by decide) (U4 V))
theorem lift3_main_arg15 (V : Valuation τ sig (Elt F)) : (after (ops (F := F)) V (Proc.devRef .tc main_arg15)) = (U3 V (Proc.devRef .tc main_arg15)) :=
  (lift4_main_arg15 V).trans (after_of_not_mem writes3 (by decide) (U3 V))
theorem lift2_main_arg15 (V : Valuation τ sig (Elt F)) : (after (ops (F := F)) V (Proc.devRef .tc main_arg15)) = (U2 V (Proc.devRef .tc main_arg15)) :=
  (lift3_main_arg15 V).trans (after_of_not_mem writes2 (by decide) (U2 V))
theorem lift1_main_arg15 (V : Valuation τ sig (Elt F)) : (after (ops (F := F)) V (Proc.devRef .tc main_arg15)) = (U1 V (Proc.devRef .tc main_arg15)) :=
  (lift2_main_arg15 V).trans (after_of_not_mem writes1 (by decide) (U1 V))
theorem lift0_main_arg15 (V : Valuation τ sig (Elt F)) : (after (ops (F := F)) V (Proc.devRef .tc main_arg15)) = (U0 V (Proc.devRef .tc main_arg15)) :=
  (lift1_main_arg15 V).trans (after_of_not_mem writes0 (by decide) (U0 V))
theorem lift6_main_arg16 (V : Valuation τ sig (Elt F)) : (after (ops (F := F)) V (Proc.devRef .tc main_arg16)) = (U6 V (Proc.devRef .tc main_arg16)) := congrFun (after_ops_eq V) _
theorem lift5_main_arg16 (V : Valuation τ sig (Elt F)) : (after (ops (F := F)) V (Proc.devRef .tc main_arg16)) = (U5 V (Proc.devRef .tc main_arg16)) :=
  (lift6_main_arg16 V).trans (after_of_not_mem writes5 (by decide) (U5 V))
theorem lift4_main_arg16 (V : Valuation τ sig (Elt F)) : (after (ops (F := F)) V (Proc.devRef .tc main_arg16)) = (U4 V (Proc.devRef .tc main_arg16)) :=
  (lift5_main_arg16 V).trans (after_of_not_mem writes4 (by decide) (U4 V))
theorem lift3_main_arg16 (V : Valuation τ sig (Elt F)) : (after (ops (F := F)) V (Proc.devRef .tc main_arg16)) = (U3 V (Proc.devRef .tc main_arg16)) :=
  (lift4_main_arg16 V).trans (after_of_not_mem writes3 (by decide) (U3 V))
theorem lift2_main_arg16 (V : Valuation τ sig (Elt F)) : (after (ops (F := F)) V (Proc.devRef .tc main_arg16)) = (U2 V (Proc.devRef .tc main_arg16)) :=
  (lift3_main_arg16 V).trans (after_of_not_mem writes2 (by decide) (U2 V))
theorem lift1_main_arg16 (V : Valuation τ sig (Elt F)) : (after (ops (F := F)) V (Proc.devRef .tc main_arg16)) = (U1 V (Proc.devRef .tc main_arg16)) :=
  (lift2_main_arg16 V).trans (after_of_not_mem writes1 (by decide) (U1 V))
theorem lift0_main_arg16 (V : Valuation τ sig (Elt F)) : (after (ops (F := F)) V (Proc.devRef .tc main_arg16)) = (U0 V (Proc.devRef .tc main_arg16)) :=
  (lift1_main_arg16 V).trans (after_of_not_mem writes0 (by decide) (U0 V))
theorem lift6_main_arg17 (V : Valuation τ sig (Elt F)) : (after (ops (F := F)) V (Proc.devRef .tc main_arg17)) = (U6 V (Proc.devRef .tc main_arg17)) := congrFun (after_ops_eq V) _
theorem lift5_main_arg17 (V : Valuation τ sig (Elt F)) : (after (ops (F := F)) V (Proc.devRef .tc main_arg17)) = (U5 V (Proc.devRef .tc main_arg17)) :=
  (lift6_main_arg17 V).trans (after_of_not_mem writes5 (by decide) (U5 V))
theorem lift4_main_arg17 (V : Valuation τ sig (Elt F)) : (after (ops (F := F)) V (Proc.devRef .tc main_arg17)) = (U4 V (Proc.devRef .tc main_arg17)) :=
  (lift5_main_arg17 V).trans (after_of_not_mem writes4 (by decide) (U4 V))
theorem lift3_main_arg17 (V : Valuation τ sig (Elt F)) : (after (ops (F := F)) V (Proc.devRef .tc main_arg17)) = (U3 V (Proc.devRef .tc main_arg17)) :=
  (lift4_main_arg17 V).trans (after_of_not_mem writes3 (by decide) (U3 V))
theorem lift2_main_arg17 (V : Valuation τ sig (Elt F)) : (after (ops (F := F)) V (Proc.devRef .tc main_arg17)) = (U2 V (Proc.devRef .tc main_arg17)) :=
  (lift3_main_arg17 V).trans (after_of_not_mem writes2 (by decide) (U2 V))
theorem lift1_main_arg17 (V : Valuation τ sig (Elt F)) : (after (ops (F := F)) V (Proc.devRef .tc main_arg17)) = (U1 V (Proc.devRef .tc main_arg17)) :=
  (lift2_main_arg17 V).trans (after_of_not_mem writes1 (by decide) (U1 V))
theorem lift0_main_arg17 (V : Valuation τ sig (Elt F)) : (after (ops (F := F)) V (Proc.devRef .tc main_arg17)) = (U0 V (Proc.devRef .tc main_arg17)) :=
  (lift1_main_arg17 V).trans (after_of_not_mem writes0 (by decide) (U0 V))
theorem lift6_main_arg18 (V : Valuation τ sig (Elt F)) : (after (ops (F := F)) V (Proc.devRef .tc main_arg18)) = (U6 V (Proc.devRef .tc main_arg18)) := congrFun (after_ops_eq V) _
theorem lift5_main_arg18 (V : Valuation τ sig (Elt F)) : (after (ops (F := F)) V (Proc.devRef .tc main_arg18)) = (U5 V (Proc.devRef .tc main_arg18)) :=
  (lift6_main_arg18 V).trans (after_of_not_mem writes5 (by decide) (U5 V))
theorem lift4_main_arg18 (V : Valuation τ sig (Elt F)) : (after (ops (F := F)) V (Proc.devRef .tc main_arg18)) = (U4 V (Proc.devRef .tc main_arg18)) :=
  (lift5_main_arg18 V).trans (after_of_not_mem writes4 (by decide) (U4 V))
theorem lift3_main_arg18 (V : Valuation τ sig (Elt F)) : (after (ops (F := F)) V (Proc.devRef .tc main_arg18)) = (U3 V (Proc.devRef .tc main_arg18)) :=
  (lift4_main_arg18 V).trans (after_of_not_mem writes3 (by decide) (U3 V))
theorem lift2_main_arg18 (V : Valuation τ sig (Elt F)) : (after (ops (F := F)) V (Proc.devRef .tc main_arg18)) = (U2 V (Proc.devRef .tc main_arg18)) :=
  (lift3_main_arg18 V).trans (after_of_not_mem writes2 (by decide) (U2 V))
theorem lift1_main_arg18 (V : Valuation τ sig (Elt F)) : (after (ops (F := F)) V (Proc.devRef .tc main_arg18)) = (U1 V (Proc.devRef .tc main_arg18)) :=
  (lift2_main_arg18 V).trans (after_of_not_mem writes1 (by decide) (U1 V))
theorem lift0_main_arg18 (V : Valuation τ sig (Elt F)) : (after (ops (F := F)) V (Proc.devRef .tc main_arg18)) = (U0 V (Proc.devRef .tc main_arg18)) :=
  (lift1_main_arg18 V).trans (after_of_not_mem writes0 (by decide) (U0 V))
theorem lift6_main_arg19 (V : Valuation τ sig (Elt F)) : (after (ops (F := F)) V (Proc.devRef .tc main_arg19)) = (U6 V (Proc.devRef .tc main_arg19)) := congrFun (after_ops_eq V) _
theorem lift5_main_arg19 (V : Valuation τ sig (Elt F)) : (after (ops (F := F)) V (Proc.devRef .tc main_arg19)) = (U5 V (Proc.devRef .tc main_arg19)) :=
  (lift6_main_arg19 V).trans (after_of_not_mem writes5 (by decide) (U5 V))
theorem lift4_main_arg19 (V : Valuation τ sig (Elt F)) : (after (ops (F := F)) V (Proc.devRef .tc main_arg19)) = (U4 V (Proc.devRef .tc main_arg19)) :=
  (lift5_main_arg19 V).trans (after_of_not_mem writes4 (by decide) (U4 V))
theorem lift3_main_arg19 (V : Valuation τ sig (Elt F)) : (after (ops (F := F)) V (Proc.devRef .tc main_arg19)) = (U3 V (Proc.devRef .tc main_arg19)) :=
  (lift4_main_arg19 V).trans (after_of_not_mem writes3 (by decide) (U3 V))
theorem lift2_main_arg19 (V : Valuation τ sig (Elt F)) : (after (ops (F := F)) V (Proc.devRef .tc main_arg19)) = (U2 V (Proc.devRef .tc main_arg19)) :=
  (lift3_main_arg19 V).trans (after_of_not_mem writes2 (by decide) (U2 V))
theorem lift1_main_arg19 (V : Valuation τ sig (Elt F)) : (after (ops (F := F)) V (Proc.devRef .tc main_arg19)) = (U1 V (Proc.devRef .tc main_arg19)) :=
  (lift2_main_arg19 V).trans (after_of_not_mem writes1 (by decide) (U1 V))
theorem lift0_main_arg19 (V : Valuation τ sig (Elt F)) : (after (ops (F := F)) V (Proc.devRef .tc main_arg19)) = (U0 V (Proc.devRef .tc main_arg19)) :=
  (lift1_main_arg19 V).trans (after_of_not_mem writes0 (by decide) (U0 V))
theorem lift6_main_arg20 (V : Valuation τ sig (Elt F)) : (after (ops (F := F)) V (Proc.devRef .tc main_arg20)) = (U6 V (Proc.devRef .tc main_arg20)) := congrFun (after_ops_eq V) _
theorem lift5_main_arg20 (V : Valuation τ sig (Elt F)) : (after (ops (F := F)) V (Proc.devRef .tc main_arg20)) = (U5 V (Proc.devRef .tc main_arg20)) :=
  (lift6_main_arg20 V).trans (after_of_not_mem writes5 (by decide) (U5 V))
theorem lift4_main_arg20 (V : Valuation τ sig (Elt F)) : (after (ops (F := F)) V (Proc.devRef .tc main_arg20)) = (U4 V (Proc.devRef .tc main_arg20)) :=
  (lift5_main_arg20 V).trans (after_of_not_mem writes4 (by decide) (U4 V))
theorem lift3_main_arg20 (V : Valuation τ sig (Elt F)) : (after (ops (F := F)) V (Proc.devRef .tc main_arg20)) = (U3 V (Proc.devRef .tc main_arg20)) :=
  (lift4_main_arg20 V).trans (after_of_not_mem writes3 (by decide) (U3 V))
theorem lift2_main_arg20 (V : Valuation τ sig (Elt F)) : (after (ops (F := F)) V (Proc.devRef .tc main_arg20)) = (U2 V (Proc.devRef .tc main_arg20)) :=
  (lift3_main_arg20 V).trans (after_of_not_mem writes2 (by decide) (U2 V))
theorem lift1_main_arg20 (V : Valuation τ sig (Elt F)) : (after (ops (F := F)) V (Proc.devRef .tc main_arg20)) = (U1 V (Proc.devRef .tc main_arg20)) :=
  (lift2_main_arg20 V).trans (after_of_not_mem writes1 (by decide) (U1 V))
theorem lift0_main_arg20 (V : Valuation τ sig (Elt F)) : (after (ops (F := F)) V (Proc.devRef .tc main_arg20)) = (U0 V (Proc.devRef .tc main_arg20)) :=
  (lift1_main_arg20 V).trans (after_of_not_mem writes0 (by decide) (U0 V))
theorem lift6_main_arg21 (V : Valuation τ sig (Elt F)) : (after (ops (F := F)) V (Proc.devRef .tc main_arg21)) = (U6 V (Proc.devRef .tc main_arg21)) := congrFun (after_ops_eq V) _
theorem lift5_main_arg21 (V : Valuation τ sig (Elt F)) : (after (ops (F := F)) V (Proc.devRef .tc main_arg21)) = (U5 V (Proc.devRef .tc main_arg21)) :=
  (lift6_main_arg21 V).trans (after_of_not_mem writes5 (by decide) (U5 V))
theorem lift4_main_arg21 (V : Valuation τ sig (Elt F)) : (after (ops (F := F)) V (Proc.devRef .tc main_arg21)) = (U4 V (Proc.devRef .tc main_arg21)) :=
  (lift5_main_arg21 V).trans (after_of_not_mem writes4 (by decide) (U4 V))
theorem lift3_main_arg21 (V : Valuation τ sig (Elt F)) : (after (ops (F := F)) V (Proc.devRef .tc main_arg21)) = (U3 V (Proc.devRef .tc main_arg21)) :=
  (lift4_main_arg21 V).trans (after_of_not_mem writes3 (by decide) (U3 V))
theorem lift2_main_arg21 (V : Valuation τ sig (Elt F)) : (after (ops (F := F)) V (Proc.devRef .tc main_arg21)) = (U2 V (Proc.devRef .tc main_arg21)) :=
  (lift3_main_arg21 V).trans (after_of_not_mem writes2 (by decide) (U2 V))
theorem lift1_main_arg21 (V : Valuation τ sig (Elt F)) : (after (ops (F := F)) V (Proc.devRef .tc main_arg21)) = (U1 V (Proc.devRef .tc main_arg21)) :=
  (lift2_main_arg21 V).trans (after_of_not_mem writes1 (by decide) (U1 V))
theorem lift0_main_arg21 (V : Valuation τ sig (Elt F)) : (after (ops (F := F)) V (Proc.devRef .tc main_arg21)) = (U0 V (Proc.devRef .tc main_arg21)) :=
  (lift1_main_arg21 V).trans (after_of_not_mem writes0 (by decide) (U0 V))
theorem lift6_main_arg22 (V : Valuation τ sig (Elt F)) : (after (ops (F := F)) V (Proc.devRef .tc main_arg22)) = (U6 V (Proc.devRef .tc main_arg22)) := congrFun (after_ops_eq V) _
theorem lift5_main_arg22 (V : Valuation τ sig (Elt F)) : (after (ops (F := F)) V (Proc.devRef .tc main_arg22)) = (U5 V (Proc.devRef .tc main_arg22)) :=
  (lift6_main_arg22 V).trans (after_of_not_mem writes5 (by decide) (U5 V))
theorem lift4_main_arg22 (V : Valuation τ sig (Elt F)) : (after (ops (F := F)) V (Proc.devRef .tc main_arg22)) = (U4 V (Proc.devRef .tc main_arg22)) :=
  (lift5_main_arg22 V).trans (after_of_not_mem writes4 (by decide) (U4 V))
theorem lift3_main_arg22 (V : Valuation τ sig (Elt F)) : (after (ops (F := F)) V (Proc.devRef .tc main_arg22)) = (U3 V (Proc.devRef .tc main_arg22)) :=
  (lift4_main_arg22 V).trans (after_of_not_mem writes3 (by decide) (U3 V))
theorem lift2_main_arg22 (V : Valuation τ sig (Elt F)) : (after (ops (F := F)) V (Proc.devRef .tc main_arg22)) = (U2 V (Proc.devRef .tc main_arg22)) :=
  (lift3_main_arg22 V).trans (after_of_not_mem writes2 (by decide) (U2 V))
theorem lift1_main_arg22 (V : Valuation τ sig (Elt F)) : (after (ops (F := F)) V (Proc.devRef .tc main_arg22)) = (U1 V (Proc.devRef .tc main_arg22)) :=
  (lift2_main_arg22 V).trans (after_of_not_mem writes1 (by decide) (U1 V))
theorem lift0_main_arg22 (V : Valuation τ sig (Elt F)) : (after (ops (F := F)) V (Proc.devRef .tc main_arg22)) = (U0 V (Proc.devRef .tc main_arg22)) :=
  (lift1_main_arg22 V).trans (after_of_not_mem writes0 (by decide) (U0 V))
theorem lift6_main_arg23 (V : Valuation τ sig (Elt F)) : (after (ops (F := F)) V (Proc.devRef .tc main_arg23)) = (U6 V (Proc.devRef .tc main_arg23)) := congrFun (after_ops_eq V) _
theorem lift5_main_arg23 (V : Valuation τ sig (Elt F)) : (after (ops (F := F)) V (Proc.devRef .tc main_arg23)) = (U5 V (Proc.devRef .tc main_arg23)) :=
  (lift6_main_arg23 V).trans (after_of_not_mem writes5 (by decide) (U5 V))
theorem lift4_main_arg23 (V : Valuation τ sig (Elt F)) : (after (ops (F := F)) V (Proc.devRef .tc main_arg23)) = (U4 V (Proc.devRef .tc main_arg23)) :=
  (lift5_main_arg23 V).trans (after_of_not_mem writes4 (by decide) (U4 V))
theorem lift3_main_arg23 (V : Valuation τ sig (Elt F)) : (after (ops (F := F)) V (Proc.devRef .tc main_arg23)) = (U3 V (Proc.devRef .tc main_arg23)) :=
  (lift4_main_arg23 V).trans (after_of_not_mem writes3 (by decide) (U3 V))
theorem lift2_main_arg23 (V : Valuation τ sig (Elt F)) : (after (ops (F := F)) V (Proc.devRef .tc main_arg23)) = (U2 V (Proc.devRef .tc main_arg23)) :=
  (lift3_main_arg23 V).trans (after_of_not_mem writes2 (by decide) (U2 V))
theorem lift1_main_arg23 (V : Valuation τ sig (Elt F)) : (after (ops (F := F)) V (Proc.devRef .tc main_arg23)) = (U1 V (Proc.devRef .tc main_arg23)) :=
  (lift2_main_arg23 V).trans (after_of_not_mem writes1 (by decide) (U1 V))
theorem lift0_main_arg23 (V : Valuation τ sig (Elt F)) : (after (ops (F := F)) V (Proc.devRef .tc main_arg23)) = (U0 V (Proc.devRef .tc main_arg23)) :=
  (lift1_main_arg23 V).trans (after_of_not_mem writes0 (by decide) (U0 V))
theorem lift6_main_arg24 (V : Valuation τ sig (Elt F)) : (after (ops (F := F)) V (Proc.devRef .tc main_arg24)) = (U6 V (Proc.devRef .tc main_arg24)) := congrFun (after_ops_eq V) _
theorem lift5_main_arg24 (V : Valuation τ sig (Elt F)) : (after (ops (F := F)) V (Proc.devRef .tc main_arg24)) = (U5 V (Proc.devRef .tc main_arg24)) :=
  (lift6_main_arg24 V).trans (after_of_not_mem writes5 (by decide) (U5 V))
theorem lift4_main_arg24 (V : Valuation τ sig (Elt F)) : (after (ops (F := F)) V (Proc.devRef .tc main_arg24)) = (U4 V (Proc.devRef .tc main_arg24)) :=
  (lift5_main_arg24 V).trans (after_of_not_mem writes4 (by decide) (U4 V))
theorem lift3_main_arg24 (V : Valuation τ sig (Elt F)) : (after (ops (F := F)) V (Proc.devRef .tc main_arg24)) = (U3 V (Proc.devRef .tc main_arg24)) :=
  (lift4_main_arg24 V).trans (after_of_not_mem writes3 (by decide) (U3 V))
theorem lift2_main_arg24 (V : Valuation τ sig (Elt F)) : (after (ops (F := F)) V (Proc.devRef .tc main_arg24)) = (U2 V (Proc.devRef .tc main_arg24)) :=
  (lift3_main_arg24 V).trans (after_of_not_mem writes2 (by decide) (U2 V))
theorem lift1_main_arg24 (V : Valuation τ sig (Elt F)) : (after (ops (F := F)) V (Proc.devRef .tc main_arg24)) = (U1 V (Proc.devRef .tc main_arg24)) :=
  (lift2_main_arg24 V).trans (after_of_not_mem writes1 (by decide) (U1 V))
theorem lift0_main_arg24 (V : Valuation τ sig (Elt F)) : (after (ops (F := F)) V (Proc.devRef .tc main_arg24)) = (U0 V (Proc.devRef .tc main_arg24)) :=
  (lift1_main_arg24 V).trans (after_of_not_mem writes0 (by decide) (U0 V))
theorem lift6_main_arg25 (V : Valuation τ sig (Elt F)) : (after (ops (F := F)) V (Proc.devRef .tc main_arg25)) = (U6 V (Proc.devRef .tc main_arg25)) := congrFun (after_ops_eq V) _
theorem lift5_main_arg25 (V : Valuation τ sig (Elt F)) : (after (ops (F := F)) V (Proc.devRef .tc main_arg25)) = (U5 V (Proc.devRef .tc main_arg25)) :=
  (lift6_main_arg25 V).trans (after_of_not_mem writes5 (by decide) (U5 V))
theorem lift4_main_arg25 (V : Valuation τ sig (Elt F)) : (after (ops (F := F)) V (Proc.devRef .tc main_arg25)) = (U4 V (Proc.devRef .tc main_arg25)) :=
  (lift5_main_arg25 V).trans (after_of_not_mem writes4 (by decide) (U4 V))
theorem lift3_main_arg25 (V : Valuation τ sig (Elt F)) : (after (ops (F := F)) V (Proc.devRef .tc main_arg25)) = (U3 V (Proc.devRef .tc main_arg25)) :=
  (lift4_main_arg25 V).trans (after_of_not_mem writes3 (by decide) (U3 V))
theorem lift2_main_arg25 (V : Valuation τ sig (Elt F)) : (after (ops (F := F)) V (Proc.devRef .tc main_arg25)) = (U2 V (Proc.devRef .tc main_arg25)) :=
  (lift3_main_arg25 V).trans (after_of_not_mem writes2 (by decide) (U2 V))
theorem lift1_main_arg25 (V : Valuation τ sig (Elt F)) : (after (ops (F := F)) V (Proc.devRef .tc main_arg25)) = (U1 V (Proc.devRef .tc main_arg25)) :=
  (lift2_main_arg25 V).trans (after_of_not_mem writes1 (by decide) (U1 V))
theorem lift0_main_arg25 (V : Valuation τ sig (Elt F)) : (after (ops (F := F)) V (Proc.devRef .tc main_arg25)) = (U0 V (Proc.devRef .tc main_arg25)) :=
  (lift1_main_arg25 V).trans (after_of_not_mem writes0 (by decide) (U0 V))
theorem lift6_main_arg26 (V : Valuation τ sig (Elt F)) : (after (ops (F := F)) V (Proc.devRef .tc main_arg26)) = (U6 V (Proc.devRef .tc main_arg26)) := congrFun (after_ops_eq V) _
theorem lift5_main_arg26 (V : Valuation τ sig (Elt F)) : (after (ops (F := F)) V (Proc.devRef .tc main_arg26)) = (U5 V (Proc.devRef .tc main_arg26)) :=
  (lift6_main_arg26 V).trans (after_of_not_mem writes5 (by decide) (U5 V))
theorem lift4_main_arg26 (V : Valuation τ sig (Elt F)) : (after (ops (F := F)) V (Proc.devRef .tc main_arg26)) = (U4 V (Proc.devRef .tc main_arg26)) :=
  (lift5_main_arg26 V).trans (after_of_not_mem writes4 (by decide) (U4 V))
theorem lift3_main_arg26 (V : Valuation τ sig (Elt F)) : (after (ops (F := F)) V (Proc.devRef .tc main_arg26)) = (U3 V (Proc.devRef .tc main_arg26)) :=
  (lift4_main_arg26 V).trans (after_of_not_mem writes3 (by decide) (U3 V))
theorem lift2_main_arg26 (V : Valuation τ sig (Elt F)) : (after (ops (F := F)) V (Proc.devRef .tc main_arg26)) = (U2 V (Proc.devRef .tc main_arg26)) :=
  (lift3_main_arg26 V).trans (after_of_not_mem writes2 (by decide) (U2 V))
theorem lift1_main_arg26 (V : Valuation τ sig (Elt F)) : (after (ops (F := F)) V (Proc.devRef .tc main_arg26)) = (U1 V (Proc.devRef .tc main_arg26)) :=
  (lift2_main_arg26 V).trans (after_of_not_mem writes1 (by decide) (U1 V))
theorem lift0_main_arg26 (V : Valuation τ sig (Elt F)) : (after (ops (F := F)) V (Proc.devRef .tc main_arg26)) = (U0 V (Proc.devRef .tc main_arg26)) :=
  (lift1_main_arg26 V).trans (after_of_not_mem writes0 (by decide) (U0 V))
theorem lift6_main_arg27 (V : Valuation τ sig (Elt F)) : (after (ops (F := F)) V (Proc.devRef .tc main_arg27)) = (U6 V (Proc.devRef .tc main_arg27)) := congrFun (after_ops_eq V) _
theorem lift5_main_arg27 (V : Valuation τ sig (Elt F)) : (after (ops (F := F)) V (Proc.devRef .tc main_arg27)) = (U5 V (Proc.devRef .tc main_arg27)) :=
  (lift6_main_arg27 V).trans (after_of_not_mem writes5 (by decide) (U5 V))
theorem lift4_main_arg27 (V : Valuation τ sig (Elt F)) : (after (ops (F := F)) V (Proc.devRef .tc main_arg27)) = (U4 V (Proc.devRef .tc main_arg27)) :=
  (lift5_main_arg27 V).trans (after_of_not_mem writes4 (by decide) (U4 V))
theorem lift3_main_arg27 (V : Valuation τ sig (Elt F)) : (after (ops (F := F)) V (Proc.devRef .tc main_arg27)) = (U3 V (Proc.devRef .tc main_arg27)) :=
  (lift4_main_arg27 V).trans (after_of_not_mem writes3 (by decide) (U3 V))
theorem lift2_main_arg27 (V : Valuation τ sig (Elt F)) : (after (ops (F := F)) V (Proc.devRef .tc main_arg27)) = (U2 V (Proc.devRef .tc main_arg27)) :=
  (lift3_main_arg27 V).trans (after_of_not_mem writes2 (by decide) (U2 V))
theorem lift1_main_arg27 (V : Valuation τ sig (Elt F)) : (after (ops (F := F)) V (Proc.devRef .tc main_arg27)) = (U1 V (Proc.devRef .tc main_arg27)) :=
  (lift2_main_arg27 V).trans (after_of_not_mem writes1 (by decide) (U1 V))
theorem lift0_main_arg27 (V : Valuation τ sig (Elt F)) : (after (ops (F := F)) V (Proc.devRef .tc main_arg27)) = (U0 V (Proc.devRef .tc main_arg27)) :=
  (lift1_main_arg27 V).trans (after_of_not_mem writes0 (by decide) (U0 V))
theorem lift6_main_arg28 (V : Valuation τ sig (Elt F)) : (after (ops (F := F)) V (Proc.devRef .tc main_arg28)) = (U6 V (Proc.devRef .tc main_arg28)) := congrFun (after_ops_eq V) _
theorem lift5_main_arg28 (V : Valuation τ sig (Elt F)) : (after (ops (F := F)) V (Proc.devRef .tc main_arg28)) = (U5 V (Proc.devRef .tc main_arg28)) :=
  (lift6_main_arg28 V).trans (after_of_not_mem writes5 (by decide) (U5 V))
theorem lift4_main_arg28 (V : Valuation τ sig (Elt F)) : (after (ops (F := F)) V (Proc.devRef .tc main_arg28)) = (U4 V (Proc.devRef .tc main_arg28)) :=
  (lift5_main_arg28 V).trans (after_of_not_mem writes4 (by decide) (U4 V))
theorem lift3_main_arg28 (V : Valuation τ sig (Elt F)) : (after (ops (F := F)) V (Proc.devRef .tc main_arg28)) = (U3 V (Proc.devRef .tc main_arg28)) :=
  (lift4_main_arg28 V).trans (after_of_not_mem writes3 (by decide) (U3 V))
theorem lift2_main_arg28 (V : Valuation τ sig (Elt F)) : (after (ops (F := F)) V (Proc.devRef .tc main_arg28)) = (U2 V (Proc.devRef .tc main_arg28)) :=
  (lift3_main_arg28 V).trans (after_of_not_mem writes2 (by decide) (U2 V))
theorem lift1_main_arg28 (V : Valuation τ sig (Elt F)) : (after (ops (F := F)) V (Proc.devRef .tc main_arg28)) = (U1 V (Proc.devRef .tc main_arg28)) :=
  (lift2_main_arg28 V).trans (after_of_not_mem writes1 (by decide) (U1 V))
theorem lift0_main_arg28 (V : Valuation τ sig (Elt F)) : (after (ops (F := F)) V (Proc.devRef .tc main_arg28)) = (U0 V (Proc.devRef .tc main_arg28)) :=
  (lift1_main_arg28 V).trans (after_of_not_mem writes0 (by decide) (U0 V))

end Cert.ReferenceIdeal.Hand

end
-- ==== Proof.Ref.Rd0.lean ====
-- written by: gen_ref.js <unit directory>
/- Window 0's operations read at the END of the reference program's @main: each result buffer holds its operation's function of its operands' final contents (none of them is written again). -/
import proofs.«123839_j71768903516633_2_alg».proof.Proof.Ref.S0
import proofs.«123839_j71768903516633_2_alg».proof.Proof.Ref.Lift0
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem rd_main_v0 (V : Valuation τ sig (Elt F)) : (after (ops (F := F)) V (Proc.devRef .tc main_v0)) = (((extractStridedSlice S1x300000 ![0, 0] · slices_S2x300000_S1x300000_0_0) : (⟨S2x300000, .i32⟩ : BufTy).Contents (Elt F) → (⟨S1x300000, .i32⟩ : BufTy).Contents (Elt F)) (after (ops (F := F)) V (Proc.devRef .tc main_arg1))) :=
  (lift1_main_v0 V).trans ((s_main_v0 (U0 V)).trans (congrArg ((extractStridedSlice S1x300000 ![0, 0] · slices_S2x300000_S1x300000_0_0) : (⟨S2x300000, .i32⟩ : BufTy).Contents (Elt F) → (⟨S1x300000, .i32⟩ : BufTy).Contents (Elt F)) (lift1_main_arg1 V).symm))
theorem rd_main_v1 (V : Valuation τ sig (Elt F)) : (after (ops (F := F)) V (Proc.devRef .tc main_v1)) = (shapeCast S300000 (after (ops (F := F)) V (Proc.devRef .tc main_v0)) shapeCasts_S1x300000_S300000) :=
  (lift1_main_v1 V).trans ((s_main_v1 (U0 V)).trans (congrArg (fun A => shapeCast S300000 A shapeCasts_S1x300000_S300000) (lift1_main_v0 V).symm))
theorem rd_main_v2 (V : Valuation τ sig (Elt F)) : (after (ops (F := F)) V (Proc.devRef .tc main_v2)) = (((extractStridedSlice S1x300000 ![1, 0] · slices_S2x300000_S1x300000_1_0) : (⟨S2x300000, .i32⟩ : BufTy).Contents (Elt F) → (⟨S1x300000, .i32⟩ : BufTy).Contents (Elt F)) (after (ops (F := F)) V (Proc.devRef .tc main_arg1))) :=
  (lift1_main_v2 V).trans ((s_main_v2 (U0 V)).trans (congrArg ((extractStridedSlice S1x300000 ![1, 0] · slices_S2x300000_S1x300000_1_0) : (⟨S2x300000, .i32⟩ : BufTy).Contents (Elt F) → (⟨S1x300000, .i32⟩ : BufTy).Contents (Elt F)) (lift1_main_arg1 V).symm))
theorem rd_main_v3 (V : Valuation τ sig (Elt F)) : (after (ops (F := F)) V (Proc.devRef .tc main_v3)) = (shapeCast S300000 (after (ops (F := F)) V (Proc.devRef .tc main_v2)) shapeCasts_S1x300000_S300000) :=
  (lift1_main_v3 V).trans ((s_main_v3 (U0 V)).trans (congrArg (fun A => shapeCast S300000 A shapeCasts_S1x300000_S300000) (lift1_main_v2 V).symm))
theorem rd_main_cst (V : Valuation τ sig (Elt F)) : (after (ops (F := F)) V (Proc.devRef .tc main_cst)) = (constant (F := F) S_ .f32 0x00000000#32) :=
  (lift1_main_cst V).trans ((s_main_cst (U0 V)))
theorem rd_main_v4 (V : Valuation τ sig (Elt F)) : (after (ops (F := F)) V (Proc.devRef .tc main_v4)) = (((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (after (ops (F := F)) V (Proc.devRef .tc main_arg0)) (after (ops (F := F)) V (Proc.devRef .tc main_cst))) :=
  (lift1_main_v4 V).trans ((s_main_v4 (U0 V)).trans (congrArg₂ ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (lift1_main_arg0 V).symm (lift1_main_cst V).symm))
theorem rd_main_cst_0 (V : Valuation τ sig (Elt F)) : (after (ops (F := F)) V (Proc.devRef .tc main_cst_0)) = (constant (F := F) S_ .f32 0x46EA6000#32) :=
  (lift1_main_cst_0 V).trans ((s_main_cst_0 (U0 V)))
theorem rd_main_v5 (V : Valuation τ sig (Elt F)) : (after (ops (F := F)) V (Proc.devRef .tc main_v5)) = ((broadcastInDim S64 ![] bcast_S_S64 : (⟨S_, .f32⟩ : BufTy).Contents (Elt F) → (⟨S64, .f32⟩ : BufTy).Contents (Elt F)) (after (ops (F := F)) V (Proc.devRef .tc main_cst_0))) :=
  (lift1_main_v5 V).trans ((s_main_v5 (U0 V)).trans (congrArg (broadcastInDim S64 ![] bcast_S_S64 : (⟨S_, .f32⟩ : BufTy).Contents (Elt F) → (⟨S64, .f32⟩ : BufTy).Contents (Elt F)) (lift1_main_cst_0 V).symm))
theorem rd_main_v6 (V : Valuation τ sig (Elt F)) : (after (ops (F := F)) V (Proc.devRef .tc main_v6)) = ((Host.divf : (⟨S64, .f32⟩ : BufTy).Contents (Elt F) → (⟨S64, .f32⟩ : BufTy).Contents (Elt F) → (⟨S64, .f32⟩ : BufTy).Contents (Elt F)) (after (ops (F := F)) V (Proc.devRef .tc main_v4)) (after (ops (F := F)) V (Proc.devRef .tc main_v5))) :=
  (lift1_main_v6 V).trans ((s_main_v6 (U0 V)).trans (congrArg₂ (Host.divf : (⟨S64, .f32⟩ : BufTy).Contents (Elt F) → (⟨S64, .f32⟩ : BufTy).Contents (Elt F) → (⟨S64, .f32⟩ : BufTy).Contents (Elt F)) (lift1_main_v4 V).symm (lift1_main_v5 V).symm))
theorem rd_main_c (V : Valuation τ sig (Elt F)) : (after (ops (F := F)) V (Proc.devRef .tc main_c)) = (constantI S_ 32 0#32) :=
  (lift1_main_c V).trans ((s_main_c (U0 V)))
theorem rd_main_call0_cst (V : Valuation τ sig (Elt F)) : (after (ops (F := F)) V (Proc.devRef .tc main_call0_cst)) = (constant (F := F) S_ .f32 0x00000000#32) :=
  (lift1_main_call0_cst V).trans ((s_main_call0_cst (U0 V)))
theorem rd_main_call0_v0 (V : Valuation τ sig (Elt F)) : (after (ops (F := F)) V (Proc.devRef .tc main_call0_v0)) = (((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (after (ops (F := F)) V (Proc.devRef .tc main_arg0)) (after (ops (F := F)) V (Proc.devRef .tc main_call0_cst))) :=
  (lift1_main_call0_v0 V).trans ((s_main_call0_v0 (U0 V)).trans (congrArg₂ ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (lift1_main_arg0 V).symm (lift1_main_call0_cst V).symm))
theorem rd_main_call0_v1 (V : Valuation τ sig (Elt F)) : (after (ops (F := F)) V (Proc.devRef .tc main_call0_v1)) = (((broadcastInDim S1x64 ![1] bcast_S64_S1x64_1) : (⟨S64, .f32⟩ : BufTy).Contents (Elt F) → (⟨S1x64, .f32⟩ : BufTy).Contents (Elt F)) (after (ops (F := F)) V (Proc.devRef .tc main_call0_v0))) :=
  (lift1_main_call0_v1 V).trans ((s_main_call0_v1 (U0 V)).trans (congrArg ((broadcastInDim S1x64 ![1] bcast_S64_S1x64_1) : (⟨S64, .f32⟩ : BufTy).Contents (Elt F) → (⟨S1x64, .f32⟩ : BufTy).Contents (Elt F)) (lift1_main_call0_v0 V).symm))
theorem rd_main_call0_cst_0 (V : Valuation τ sig (Elt F)) : (after (ops (F := F)) V (Proc.devRef .tc main_call0_cst_0)) = (constant (F := F) S_ .f32 0x46EA6000#32) :=
  (lift1_main_call0_cst_0 V).trans ((s_main_call0_cst_0 (U0 V)))
theorem rd_main_call0_v2 (V : Valuation τ sig (Elt F)) : (after (ops (F := F)) V (Proc.devRef .tc main_call0_v2)) = (((broadcastInDim S1x64 ![] bcast_S_S1x64) : (⟨S_, .f32⟩ : BufTy).Contents (Elt F) → (⟨S1x64, .f32⟩ : BufTy).Contents (Elt F)) (after (ops (F := F)) V (Proc.devRef .tc main_call0_cst_0))) :=
  (lift1_main_call0_v2 V).trans ((s_main_call0_v2 (U0 V)).trans (congrArg ((broadcastInDim S1x64 ![] bcast_S_S1x64) : (⟨S_, .f32⟩ : BufTy).Contents (Elt F) → (⟨S1x64, .f32⟩ : BufTy).Contents (Elt F)) (lift1_main_call0_cst_0 V).symm))
theorem rd_main_call0_v3 (V : Valuation τ sig (Elt F)) : (after (ops (F := F)) V (Proc.devRef .tc main_call0_v3)) = ((Host.divf : (⟨S1x64, .f32⟩ : BufTy).Contents (Elt F) → (⟨S1x64, .f32⟩ : BufTy).Contents (Elt F) → (⟨S1x64, .f32⟩ : BufTy).Contents (Elt F)) (after (ops (F := F)) V (Proc.devRef .tc main_call0_v1)) (after (ops (F := F)) V (Proc.devRef .tc main_call0_v2))) :=
  (lift1_main_call0_v3 V).trans ((s_main_call0_v3 (U0 V)).trans (congrArg₂ (Host.divf : (⟨S1x64, .f32⟩ : BufTy).Contents (Elt F) → (⟨S1x64, .f32⟩ : BufTy).Contents (Elt F) → (⟨S1x64, .f32⟩ : BufTy).Contents (Elt F)) (lift1_main_call0_v1 V).symm (lift1_main_call0_v2 V).symm))
theorem rd_main_call0_v4 (V : Valuation τ sig (Elt F)) : (after (ops (F := F)) V (Proc.devRef .tc main_call0_v4)) = (((broadcastInDim S30000x64 ![0, 1] bcast_S1x64_S30000x64_0_1) : (⟨S1x64, .f32⟩ : BufTy).Contents (Elt F) → (⟨S30000x64, .f32⟩ : BufTy).Contents (Elt F)) (after (ops (F := F)) V (Proc.devRef .tc main_call0_v3))) :=
  (lift1_main_call0_v4 V).trans ((s_main_call0_v4 (U0 V)).trans (congrArg ((broadcastInDim S30000x64 ![0, 1] bcast_S1x64_S30000x64_0_1) : (⟨S1x64, .f32⟩ : BufTy).Contents (Elt F) → (⟨S30000x64, .f32⟩ : BufTy).Contents (Elt F)) (lift1_main_call0_v3 V).symm))
theorem rd_main_call0_v5 (V : Valuation τ sig (Elt F)) : (after (ops (F := F)) V (Proc.devRef .tc main_call0_v5)) = ((subf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_arg0)) (after (ops (F := F)) V (Proc.devRef .tc main_call0_v4))) :=
  (lift1_main_call0_v5 V).trans ((s_main_call0_v5 (U0 V)).trans (congrArg₂ (subf : (⟨S30000x64, .f32⟩ : BufTy).Contents (Elt F) → (⟨S30000x64, .f32⟩ : BufTy).Contents (Elt F) → (⟨S30000x64, .f32⟩ : BufTy).Contents (Elt F)) (lift1_main_arg0 V).symm (lift1_main_call0_v4 V).symm))
theorem rd_main_call0_v6 (V : Valuation τ sig (Elt F)) : (after (ops (F := F)) V (Proc.devRef .tc main_call0_v6)) = ((mulf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_call0_v5)) (after (ops (F := F)) V (Proc.devRef .tc main_call0_v5))) :=
  (lift1_main_call0_v6 V).trans ((s_main_call0_v6 (U0 V)).trans (congrArg₂ (mulf : (⟨S30000x64, .f32⟩ : BufTy).Contents (Elt F) → (⟨S30000x64, .f32⟩ : BufTy).Contents (Elt F) → (⟨S30000x64, .f32⟩ : BufTy).Contents (Elt F)) (lift1_main_call0_v5 V).symm (lift1_main_call0_v5 V).symm))
theorem rd_main_call0_v7 (V : Valuation τ sig (Elt F)) : (after (ops (F := F)) V (Proc.devRef .tc main_call0_v7)) = (((sitofp .f32) : (⟨S_, .i32⟩ : BufTy).Contents (Elt F) → (⟨S_, .f32⟩ : BufTy).Contents (Elt F)) (after (ops (F := F)) V (Proc.devRef .tc main_c))) :=
  (lift1_main_call0_v7 V).trans ((s_main_call0_v7 (U0 V)).trans (congrArg ((sitofp .f32) : (⟨S_, .i32⟩ : BufTy).Contents (Elt F) → (⟨S_, .f32⟩ : BufTy).Contents (Elt F)) (lift1_main_c V).symm))
theorem rd_main_call0_cst_1 (V : Valuation τ sig (Elt F)) : (after (ops (F := F)) V (Proc.devRef .tc main_call0_cst_1)) = (constant (F := F) S_ .f32 0x46EA6000#32) :=
  (lift1_main_call0_cst_1 V).trans ((s_main_call0_cst_1 (U0 V)))
theorem rd_main_call0_v8 (V : Valuation τ sig (Elt F)) : (after (ops (F := F)) V (Proc.devRef .tc main_call0_v8)) = ((subf : (⟨S_, .f32⟩ : BufTy).Contents (Elt F) → (⟨S_, .f32⟩ : BufTy).Contents (Elt F) → (⟨S_, .f32⟩ : BufTy).Contents (Elt F)) (after (ops (F := F)) V (Proc.devRef .tc main_call0_cst_1)) (after (ops (F := F)) V (Proc.devRef .tc main_call0_v7))) :=
  (lift1_main_call0_v8 V).trans ((s_main_call0_v8 (U0 V)).trans (congrArg₂ (subf : (⟨S_, .f32⟩ : BufTy).Contents (Elt F) → (⟨S_, .f32⟩ : BufTy).Contents (Elt F) → (⟨S_, .f32⟩ : BufTy).Contents (Elt F)) (lift1_main_call0_cst_1 V).symm (lift1_main_call0_v7 V).symm))
theorem rd_main_call0_cst_2 (V : Valuation τ sig (Elt F)) : (after (ops (F := F)) V (Proc.devRef .tc main_call0_cst_2)) = (constant (F := F) S_ .f32 0x00000000#32) :=
  (lift1_main_call0_cst_2 V).trans ((s_main_call0_cst_2 (U0 V)))
theorem rd_main_call0_v9 (V : Valuation τ sig (Elt F)) : (after (ops (F := F)) V (Proc.devRef .tc main_call0_v9)) = (((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (after (ops (F := F)) V (Proc.devRef .tc main_call0_v6)) (after (ops (F := F)) V (Proc.devRef .tc main_call0_cst_2))) :=
  (lift1_main_call0_v9 V).trans ((s_main_call0_v9 (U0 V)).trans (congrArg₂ ((fun x v => Host.reduceAdd x v reducesTo_S30000x64_S64_d0 h_S_) : (⟨S30000x64, .f32⟩ : BufTy).Contents (Elt F) → (⟨S_, .f32⟩ : BufTy).Contents (Elt F) → (⟨S64, .f32⟩ : BufTy).Contents (Elt F)) (lift1_main_call0_v6 V).symm (lift1_main_call0_cst_2 V).symm))
theorem rd_main_call0_v10 (V : Valuation τ sig (Elt F)) : (after (ops (F := F)) V (Proc.devRef .tc main_call0_v10)) = (((broadcastInDim S64 ![] bcast_S_S64) : (⟨S_, .f32⟩ : BufTy).Contents (Elt F) → (⟨S64, .f32⟩ : BufTy).Contents (Elt F)) (after (ops (F := F)) V (Proc.devRef .tc main_call0_v8))) :=
  (lift1_main_call0_v10 V).trans ((s_main_call0_v10 (U0 V)).trans (congrArg ((broadcastInDim S64 ![] bcast_S_S64) : (⟨S_, .f32⟩ : BufTy).Contents (Elt F) → (⟨S64, .f32⟩ : BufTy).Contents (Elt F)) (lift1_main_call0_v8 V).symm))
theorem rd_main_call0_v11 (V : Valuation τ sig (Elt F)) : (after (ops (F := F)) V (Proc.devRef .tc main_call0_v11)) = ((Host.divf : (⟨S64, .f32⟩ : BufTy).Contents (Elt F) → (⟨S64, .f32⟩ : BufTy).Contents (Elt F) → (⟨S64, .f32⟩ : BufTy).Contents (Elt F)) (after (ops (F := F)) V (Proc.devRef .tc main_call0_v9)) (after (ops (F := F)) V (Proc.devRef .tc main_call0_v10))) :=
  (lift1_main_call0_v11 V).trans ((s_main_call0_v11 (U0 V)).trans (congrArg₂ (Host.divf : (⟨S64, .f32⟩ : BufTy).Contents (Elt F) → (⟨S64, .f32⟩ : BufTy).Contents (Elt F) → (⟨S64, .f32⟩ : BufTy).Contents (Elt F)) (lift1_main_call0_v9 V).symm (lift1_main_call0_v10 V).symm))
theorem rd_main_call0_cst_3 (V : Valuation τ sig (Elt F)) : (after (ops (F := F)) V (Proc.devRef .tc main_call0_cst_3)) = (constant (F := F) S_ .f32 0x00000000#32) :=
  (lift1_main_call0_cst_3 V).trans ((s_main_call0_cst_3 (U0 V)))
theorem rd_main_call0_v12 (V : Valuation τ sig (Elt F)) : (after (ops (F := F)) V (Proc.devRef .tc main_call0_v12)) = (((cmpf .ogt) : (⟨S_, .f32⟩ : BufTy).Contents (Elt F) → (⟨S_, .f32⟩ : BufTy).Contents (Elt F) → (⟨S_, .i1⟩ : BufTy).Contents (Elt F)) (after (ops (F := F)) V (Proc.devRef .tc main_call0_v8)) (after (ops (F := F)) V (Proc.devRef .tc main_call0_cst_3))) :=
  (lift1_main_call0_v12 V).trans ((s_main_call0_v12 (U0 V)).trans (congrArg₂ ((cmpf .ogt) : (⟨S_, .f32⟩ : BufTy).Contents (Elt F) → (⟨S_, .f32⟩ : BufTy).Contents (Elt F) → (⟨S_, .i1⟩ : BufTy).Contents (Elt F)) (lift1_main_call0_v8 V).symm (lift1_main_call0_cst_3 V).symm))
theorem rd_main_call0_cst_4 (V : Valuation τ sig (Elt F)) : (after (ops (F := F)) V (Proc.devRef .tc main_call0_cst_4)) = (constant (F := F) S_ .f32 0x7FC00000#32) :=
  (lift1_main_call0_cst_4 V).trans ((s_main_call0_cst_4 (U0 V)))
theorem rd_main_call0_call0_v0 (V : Valuation τ sig (Elt F)) : (after (ops (F := F)) V (Proc.devRef .tc main_call0_call0_v0)) = ((id : (⟨S_, .f32⟩ : BufTy).Contents (Elt F) → (⟨S_, .f32⟩ : BufTy).Contents (Elt F)) (after (ops (F := F)) V (Proc.devRef .tc main_call0_cst_4))) :=
  (lift1_main_call0_call0_v0 V).trans ((s_main_call0_call0_v0 (U0 V)).trans (congrArg (id : (⟨S_, .f32⟩ : BufTy).Contents (Elt F) → (⟨S_, .f32⟩ : BufTy).Contents (Elt F)) (lift1_main_call0_cst_4 V).symm))
theorem rd_main_call0_call0_v1 (V : Valuation τ sig (Elt F)) : (after (ops (F := F)) V (Proc.devRef .tc main_call0_call0_v1)) = (((broadcastInDim S64 ![] bcast_S_S64) : (⟨S_, .f32⟩ : BufTy).Contents (Elt F) → (⟨S64, .f32⟩ : BufTy).Contents (Elt F)) (after (ops (F := F)) V (Proc.devRef .tc main_call0_call0_v0))) :=
  (lift1_main_call0_call0_v1 V).trans ((s_main_call0_call0_v1 (U0 V)).trans (congrArg ((broadcastInDim S64 ![] bcast_S_S64) : (⟨S_, .f32⟩ : BufTy).Contents (Elt F) → (⟨S64, .f32⟩ : BufTy).Contents (Elt F)) (lift1_main_call0_call0_v0 V).symm))
theorem rd_main_v7 (V : Valuation τ sig (Elt F)) : (after (ops (F := F)) V (Proc.devRef .tc main_v7)) = (((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after (ops (F := F)) V (Proc.devRef .tc main_call0_v12)) (after (ops (F := F)) V (Proc.devRef .tc main_call0_v11)) (after (ops (F := F)) V (Proc.devRef .tc main_call0_call0_v1))) :=
  (lift1_main_v7 V).trans ((s_main_v7 (U0 V)).trans (congr3 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (lift1_main_call0_v12 V).symm (lift1_main_call0_v11 V).symm (lift1_main_call0_call0_v1 V).symm))
theorem rd_main_v8 (V : Valuation τ sig (Elt F)) : (after (ops (F := F)) V (Proc.devRef .tc main_v8)) = ((broadcastInDim S1x64 ![1] bcast_S64_S1x64_1 : (⟨S64, .f32⟩ : BufTy).Contents (Elt F) → (⟨S1x64, .f32⟩ : BufTy).Contents (Elt F)) (after (ops (F := F)) V (Proc.devRef .tc main_v6))) :=
  (lift1_main_v8 V).trans ((s_main_v8 (U0 V)).trans (congrArg (broadcastInDim S1x64 ![1] bcast_S64_S1x64_1 : (⟨S64, .f32⟩ : BufTy).Contents (Elt F) → (⟨S1x64, .f32⟩ : BufTy).Contents (Elt F)) (lift1_main_v6 V).symm))
theorem rd_main_v9 (V : Valuation τ sig (Elt F)) : (after (ops (F := F)) V (Proc.devRef .tc main_v9)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v8))) :=
  (lift1_main_v9 V).trans ((s_main_v9 (U0 V)).trans (congrArg (broadcastInDim S30000x64 ![0, 1] bcast_S1x64_S30000x64_0_1 : (⟨S1x64, .f32⟩ : BufTy).Contents (Elt F) → (⟨S30000x64, .f32⟩ : BufTy).Contents (Elt F)) (lift1_main_v8 V).symm))
theorem rd_main_v10 (V : Valuation τ sig (Elt F)) : (after (ops (F := F)) V (Proc.devRef .tc main_v10)) = ((subf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_arg0)) (after (ops (F := F)) V (Proc.devRef .tc main_v9))) :=
  (lift1_main_v10 V).trans ((s_main_v10 (U0 V)).trans (congrArg₂ (subf : (⟨S30000x64, .f32⟩ : BufTy).Contents (Elt F) → (⟨S30000x64, .f32⟩ : BufTy).Contents (Elt F) → (⟨S30000x64, .f32⟩ : BufTy).Contents (Elt F)) (lift1_main_arg0 V).symm (lift1_main_v9 V).symm))
theorem rd_main_v11 (V : Valuation τ sig (Elt F)) : (after (ops (F := F)) V (Proc.devRef .tc main_v11)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg5))) :=
  (lift1_main_v11 V).trans ((s_main_v11 (U0 V)).trans (congrArg (broadcastInDim S1x64 ![1] bcast_S64_S1x64_1 : (⟨S64, .f32⟩ : BufTy).Contents (Elt F) → (⟨S1x64, .f32⟩ : BufTy).Contents (Elt F)) (lift1_main_arg5 V).symm))
theorem rd_main_v12 (V : Valuation τ sig (Elt F)) : (after (ops (F := F)) V (Proc.devRef .tc main_v12)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v11))) :=
  (lift1_main_v12 V).trans ((s_main_v12 (U0 V)).trans (congrArg (broadcastInDim S30000x64 ![0, 1] bcast_S1x64_S30000x64_0_1 : (⟨S1x64, .f32⟩ : BufTy).Contents (Elt F) → (⟨S30000x64, .f32⟩ : BufTy).Contents (Elt F)) (lift1_main_v11 V).symm))
theorem rd_main_v13 (V : Valuation τ sig (Elt F)) : (after (ops (F := F)) V (Proc.devRef .tc main_v13)) = ((mulf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v12)) (after (ops (F := F)) V (Proc.devRef .tc main_v10))) :=
  (lift1_main_v13 V).trans ((s_main_v13 (U0 V)).trans (congrArg₂ (mulf : (⟨S30000x64, .f32⟩ : BufTy).Contents (Elt F) → (⟨S30000x64, .f32⟩ : BufTy).Contents (Elt F) → (⟨S30000x64, .f32⟩ : BufTy).Contents (Elt F)) (lift1_main_v12 V).symm (lift1_main_v10 V).symm))
theorem rd_main_cst_1 (V : Valuation τ sig (Elt F)) : (after (ops (F := F)) V (Proc.devRef .tc main_cst_1)) = (constant (F := F) S_ .f32 0x3727C5AC#32) :=
  (lift1_main_cst_1 V).trans ((s_main_cst_1 (U0 V)))
theorem rd_main_v14 (V : Valuation τ sig (Elt F)) : (after (ops (F := F)) V (Proc.devRef .tc main_v14)) = ((broadcastInDim S64 ![] bcast_S_S64 : (⟨S_, .f32⟩ : BufTy).Contents (Elt F) → (⟨S64, .f32⟩ : BufTy).Contents (Elt F)) (after (ops (F := F)) V (Proc.devRef .tc main_cst_1))) :=
  (lift1_main_v14 V).trans ((s_main_v14 (U0 V)).trans (congrArg (broadcastInDim S64 ![] bcast_S_S64 : (⟨S_, .f32⟩ : BufTy).Contents (Elt F) → (⟨S64, .f32⟩ : BufTy).Contents (Elt F)) (lift1_main_cst_1 V).symm))
theorem rd_main_v15 (V : Valuation τ sig (Elt F)) : (after (ops (F := F)) V (Proc.devRef .tc main_v15)) = ((addf : (⟨S64, .f32⟩ : BufTy).Contents (Elt F) → (⟨S64, .f32⟩ : BufTy).Contents (Elt F) → (⟨S64, .f32⟩ : BufTy).Contents (Elt F)) (after (ops (F := F)) V (Proc.devRef .tc main_v7)) (after (ops (F := F)) V (Proc.devRef .tc main_v14))) :=
  (lift1_main_v15 V).trans ((s_main_v15 (U0 V)).trans (congrArg₂ (addf : (⟨S64, .f32⟩ : BufTy).Contents (Elt F) → (⟨S64, .f32⟩ : BufTy).Contents (Elt F) → (⟨S64, .f32⟩ : BufTy).Contents (Elt F)) (lift1_main_v7 V).symm (lift1_main_v14 V).symm))
theorem rd_main_v16 (V : Valuation τ sig (Elt F)) : (after (ops (F := F)) V (Proc.devRef .tc main_v16)) = ((Host.rsqrt : (⟨S64, .f32⟩ : BufTy).Contents (Elt F) → (⟨S64, .f32⟩ : BufTy).Contents (Elt F)) (after (ops (F := F)) V (Proc.devRef .tc main_v15))) :=
  (lift1_main_v16 V).trans ((s_main_v16 (U0 V)).trans (congrArg (Host.rsqrt : (⟨S64, .f32⟩ : BufTy).Contents (Elt F) → (⟨S64, .f32⟩ : BufTy).Contents (Elt F)) (lift1_main_v15 V).symm))
theorem rd_main_v17 (V : Valuation τ sig (Elt F)) : (after (ops (F := F)) V (Proc.devRef .tc main_v17)) = ((broadcastInDim S1x64 ![1] bcast_S64_S1x64_1 : (⟨S64, .f32⟩ : BufTy).Contents (Elt F) → (⟨S1x64, .f32⟩ : BufTy).Contents (Elt F)) (after (ops (F := F)) V (Proc.devRef .tc main_v16))) :=
  (lift1_main_v17 V).trans ((s_main_v17 (U0 V)).trans (congrArg (broadcastInDim S1x64 ![1] bcast_S64_S1x64_1 : (⟨S64, .f32⟩ : BufTy).Contents (Elt F) → (⟨S1x64, .f32⟩ : BufTy).Contents (Elt F)) (lift1_main_v16 V).symm))
theorem rd_main_v18 (V : Valuation τ sig (Elt F)) : (after (ops (F := F)) V (Proc.devRef .tc main_v18)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v17))) :=
  (lift1_main_v18 V).trans ((s_main_v18 (U0 V)).trans (congrArg (broadcastInDim S30000x64 ![0, 1] bcast_S1x64_S30000x64_0_1 : (⟨S1x64, .f32⟩ : BufTy).Contents (Elt F) → (⟨S30000x64, .f32⟩ : BufTy).Contents (Elt F)) (lift1_main_v17 V).symm))
theorem rd_main_v19 (V : Valuation τ sig (Elt F)) : (after (ops (F := F)) V (Proc.devRef .tc main_v19)) = ((mulf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v13)) (after (ops (F := F)) V (Proc.devRef .tc main_v18))) :=
  (lift1_main_v19 V).trans ((s_main_v19 (U0 V)).trans (congrArg₂ (mulf : (⟨S30000x64, .f32⟩ : BufTy).Contents (Elt F) → (⟨S30000x64, .f32⟩ : BufTy).Contents (Elt F) → (⟨S30000x64, .f32⟩ : BufTy).Contents (Elt F)) (lift1_main_v13 V).symm (lift1_main_v18 V).symm))
theorem rd_main_v20 (V : Valuation τ sig (Elt F)) : (after (ops (F := F)) V (Proc.devRef .tc main_v20)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg6))) :=
  (lift1_main_v20 V).trans ((s_main_v20 (U0 V)).trans (congrArg (broadcastInDim S1x64 ![1] bcast_S64_S1x64_1 : (⟨S64, .f32⟩ : BufTy).Contents (Elt F) → (⟨S1x64, .f32⟩ : BufTy).Contents (Elt F)) (lift1_main_arg6 V).symm))
theorem rd_main_v21 (V : Valuation τ sig (Elt F)) : (after (ops (F := F)) V (Proc.devRef .tc main_v21)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v20))) :=
  (lift1_main_v21 V).trans ((s_main_v21 (U0 V)).trans (congrArg (broadcastInDim S30000x64 ![0, 1] bcast_S1x64_S30000x64_0_1 : (⟨S1x64, .f32⟩ : BufTy).Contents (Elt F) → (⟨S30000x64, .f32⟩ : BufTy).Contents (Elt F)) (lift1_main_v20 V).symm))
theorem rd_main_v22 (V : Valuation τ sig (Elt F)) : (after (ops (F := F)) V (Proc.devRef .tc main_v22)) = ((addf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v19)) (after (ops (F := F)) V (Proc.devRef .tc main_v21))) :=
  (lift1_main_v22 V).trans ((s_main_v22 (U0 V)).trans (congrArg₂ (addf : (⟨S30000x64, .f32⟩ : BufTy).Contents (Elt F) → (⟨S30000x64, .f32⟩ : BufTy).Contents (Elt F) → (⟨S30000x64, .f32⟩ : BufTy).Contents (Elt F)) (lift1_main_v19 V).symm (lift1_main_v21 V).symm))
theorem rd_main_cst_2 (V : Valuation τ sig (Elt F)) : (after (ops (F := F)) V (Proc.devRef .tc main_cst_2)) = (constant (F := F) S_ .f32 0x00000000#32) :=
  (lift1_main_cst_2 V).trans ((s_main_cst_2 (U0 V)))
theorem rd_main_v23 (V : Valuation τ sig (Elt F)) : (after (ops (F := F)) V (Proc.devRef .tc main_v23)) = (((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (after (ops (F := F)) V (Proc.devRef .tc main_arg2)) (after (ops (F := F)) V (Proc.devRef .tc main_cst_2))) :=
  (lift1_main_v23 V).trans ((s_main_v23 (U0 V)).trans (congrArg₂ ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (lift1_main_arg2 V).symm (lift1_main_cst_2 V).symm))
theorem rd_main_cst_3 (V : Valuation τ sig (Elt F)) : (after (ops (F := F)) V (Proc.devRef .tc main_cst_3)) = (constant (F := F) S_ .f32 0x48927C00#32) :=
  (lift1_main_cst_3 V).trans ((s_main_cst_3 (U0 V)))
theorem rd_main_v24 (V : Valuation τ sig (Elt F)) : (after (ops (F := F)) V (Proc.devRef .tc main_v24)) = ((broadcastInDim S32 ![] bcast_S_S32 : (⟨S_, .f32⟩ : BufTy).Contents (Elt F) → (⟨S32, .f32⟩ : BufTy).Contents (Elt F)) (after (ops (F := F)) V (Proc.devRef .tc main_cst_3))) :=
  (lift1_main_v24 V).trans ((s_main_v24 (U0 V)).trans (congrArg (broadcastInDim S32 ![] bcast_S_S32 : (⟨S_, .f32⟩ : BufTy).Contents (Elt F) → (⟨S32, .f32⟩ : BufTy).Contents (Elt F)) (lift1_main_cst_3 V).symm))
theorem rd_main_v25 (V : Valuation τ sig (Elt F)) : (after (ops (F := F)) V (Proc.devRef .tc main_v25)) = ((Host.divf : (⟨S32, .f32⟩ : BufTy).Contents (Elt F) → (⟨S32, .f32⟩ : BufTy).Contents (Elt F) → (⟨S32, .f32⟩ : BufTy).Contents (Elt F)) (after (ops (F := F)) V (Proc.devRef .tc main_v23)) (after (ops (F := F)) V (Proc.devRef .tc main_v24))) :=
  (lift1_main_v25 V).trans ((s_main_v25 (U0 V)).trans (congrArg₂ (Host.divf : (⟨S32, .f32⟩ : BufTy).Contents (Elt F) → (⟨S32, .f32⟩ : BufTy).Contents (Elt F) → (⟨S32, .f32⟩ : BufTy).Contents (Elt F)) (lift1_main_v23 V).symm (lift1_main_v24 V).symm))
theorem rd_main_c_4 (V : Valuation τ sig (Elt F)) : (after (ops (F := F)) V (Proc.devRef .tc main_c_4)) = (constantI S_ 32 0#32) :=
  (lift1_main_c_4 V).trans ((s_main_c_4 (U0 V)))
theorem rd_main_call1_cst (V : Valuation τ sig (Elt F)) : (after (ops (F := F)) V (Proc.devRef .tc main_call1_cst)) = (constant (F := F) S_ .f32 0x00000000#32) :=
  (lift1_main_call1_cst V).trans ((s_main_call1_cst (U0 V)))
theorem rd_main_call1_v0 (V : Valuation τ sig (Elt F)) : (after (ops (F := F)) V (Proc.devRef .tc main_call1_v0)) = (((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (after (ops (F := F)) V (Proc.devRef .tc main_arg2)) (after (ops (F := F)) V (Proc.devRef .tc main_call1_cst))) :=
  (lift1_main_call1_v0 V).trans ((s_main_call1_v0 (U0 V)).trans (congrArg₂ ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (lift1_main_arg2 V).symm (lift1_main_call1_cst V).symm))
theorem rd_main_call1_v1 (V : Valuation τ sig (Elt F)) : (after (ops (F := F)) V (Proc.devRef .tc main_call1_v1)) = (((broadcastInDim S1x32 ![1] bcast_S32_S1x32_1) : (⟨S32, .f32⟩ : BufTy).Contents (Elt F) → (⟨S1x32, .f32⟩ : BufTy).Contents (Elt F)) (after (ops (F := F)) V (Proc.devRef .tc main_call1_v0))) :=
  (lift1_main_call1_v1 V).trans ((s_main_call1_v1 (U0 V)).trans (congrArg ((broadcastInDim S1x32 ![1] bcast_S32_S1x32_1) : (⟨S32, .f32⟩ : BufTy).Contents (Elt F) → (⟨S1x32, .f32⟩ : BufTy).Contents (Elt F)) (lift1_main_call1_v0 V).symm))
theorem rd_main_call1_cst_0 (V : Valuation τ sig (Elt F)) : (after (ops (F := F)) V (Proc.devRef .tc main_call1_cst_0)) = (constant (F := F) S_ .f32 0x48927C00#32) :=
  (lift1_main_call1_cst_0 V).trans ((s_main_call1_cst_0 (U0 V)))
theorem rd_main_call1_v2 (V : Valuation τ sig (Elt F)) : (after (ops (F := F)) V (Proc.devRef .tc main_call1_v2)) = (((broadcastInDim S1x32 ![] bcast_S_S1x32) : (⟨S_, .f32⟩ : BufTy).Contents (Elt F) → (⟨S1x32, .f32⟩ : BufTy).Contents (Elt F)) (after (ops (F := F)) V (Proc.devRef .tc main_call1_cst_0))) :=
  (lift1_main_call1_v2 V).trans ((s_main_call1_v2 (U0 V)).trans (congrArg ((broadcastInDim S1x32 ![] bcast_S_S1x32) : (⟨S_, .f32⟩ : BufTy).Contents (Elt F) → (⟨S1x32, .f32⟩ : BufTy).Contents (Elt F)) (lift1_main_call1_cst_0 V).symm))
theorem rd_main_call1_v3 (V : Valuation τ sig (Elt F)) : (after (ops (F := F)) V (Proc.devRef .tc main_call1_v3)) = ((Host.divf : (⟨S1x32, .f32⟩ : BufTy).Contents (Elt F) → (⟨S1x32, .f32⟩ : BufTy).Contents (Elt F) → (⟨S1x32, .f32⟩ : BufTy).Contents (Elt F)) (after (ops (F := F)) V (Proc.devRef .tc main_call1_v1)) (after (ops (F := F)) V (Proc.devRef .tc main_call1_v2))) :=
  (lift1_main_call1_v3 V).trans ((s_main_call1_v3 (U0 V)).trans (congrArg₂ (Host.divf : (⟨S1x32, .f32⟩ : BufTy).Contents (Elt F) → (⟨S1x32, .f32⟩ : BufTy).Contents (Elt F) → (⟨S1x32, .f32⟩ : BufTy).Contents (Elt F)) (lift1_main_call1_v1 V).symm (lift1_main_call1_v2 V).symm))
theorem rd_main_call1_v4 (V : Valuation τ sig (Elt F)) : (after (ops (F := F)) V (Proc.devRef .tc main_call1_v4)) = (((broadcastInDim S300000x32 ![0, 1] bcast_S1x32_S300000x32_0_1) : (⟨S1x32, .f32⟩ : BufTy).Contents (Elt F) → (⟨S300000x32, .f32⟩ : BufTy).Contents (Elt F)) (after (ops (F := F)) V (Proc.devRef .tc main_call1_v3))) :=
  (lift1_main_call1_v4 V).trans ((s_main_call1_v4 (U0 V)).trans (congrArg ((broadcastInDim S300000x32 ![0, 1] bcast_S1x32_S300000x32_0_1) : (⟨S1x32, .f32⟩ : BufTy).Contents (Elt F) → (⟨S300000x32, .f32⟩ : BufTy).Contents (Elt F)) (lift1_main_call1_v3 V).symm))
theorem rd_main_call1_v5 (V : Valuation τ sig (Elt F)) : (after (ops (F := F)) V (Proc.devRef .tc main_call1_v5)) = ((subf : (⟨S300000x32, .f32⟩ : BufTy).Contents (Elt F) → (⟨S300000x32, .f32⟩ : BufTy).Contents (Elt F) → (⟨S300000x32, .f32⟩ : BufTy).Contents (Elt F)) (after (ops (F := F)) V (Proc.devRef .tc main_arg2)) (after (ops (F := F)) V (Proc.devRef .tc main_call1_v4))) :=
  (lift1_main_call1_v5 V).trans ((s_main_call1_v5 (U0 V)).trans (congrArg₂ (subf : (⟨S300000x32, .f32⟩ : BufTy).Contents (Elt F) → (⟨S300000x32, .f32⟩ : BufTy).Contents (Elt F) → (⟨S300000x32, .f32⟩ : BufTy).Contents (Elt F)) (lift1_main_arg2 V).symm (lift1_main_call1_v4 V).symm))
theorem rd_main_call1_v6 (V : Valuation τ sig (Elt F)) : (after (ops (F := F)) V (Proc.devRef .tc main_call1_v6)) = ((mulf : (⟨S300000x32, .f32⟩ : BufTy).Contents (Elt F) → (⟨S300000x32, .f32⟩ : BufTy).Contents (Elt F) → (⟨S300000x32, .f32⟩ : BufTy).Contents (Elt F)) (after (ops (F := F)) V (Proc.devRef .tc main_call1_v5)) (after (ops (F := F)) V (Proc.devRef .tc main_call1_v5))) :=
  (lift1_main_call1_v6 V).trans ((s_main_call1_v6 (U0 V)).trans (congrArg₂ (mulf : (⟨S300000x32, .f32⟩ : BufTy).Contents (Elt F) → (⟨S300000x32, .f32⟩ : BufTy).Contents (Elt F) → (⟨S300000x32, .f32⟩ : BufTy).Contents (Elt F)) (lift1_main_call1_v5 V).symm (lift1_main_call1_v5 V).symm))
theorem rd_main_call1_v7 (V : Valuation τ sig (Elt F)) : (after (ops (F := F)) V (Proc.devRef .tc main_call1_v7)) = (((sitofp .f32) : (⟨S_, .i32⟩ : BufTy).Contents (Elt F) → (⟨S_, .f32⟩ : BufTy).Contents (Elt F)) (after (ops (F := F)) V (Proc.devRef .tc main_c_4))) :=
  (lift1_main_call1_v7 V).trans ((s_main_call1_v7 (U0 V)).trans (congrArg ((sitofp .f32) : (⟨S_, .i32⟩ : BufTy).Contents (Elt F) → (⟨S_, .f32⟩ : BufTy).Contents (Elt F)) (lift1_main_c_4 V).symm))
theorem rd_main_call1_cst_1 (V : Valuation τ sig (Elt F)) : (after (ops (F := F)) V (Proc.devRef .tc main_call1_cst_1)) = (constant (F := F) S_ .f32 0x48927C00#32) :=
  (lift1_main_call1_cst_1 V).trans ((s_main_call1_cst_1 (U0 V)))
theorem rd_main_call1_v8 (V : Valuation τ sig (Elt F)) : (after (ops (F := F)) V (Proc.devRef .tc main_call1_v8)) = ((subf : (⟨S_, .f32⟩ : BufTy).Contents (Elt F) → (⟨S_, .f32⟩ : BufTy).Contents (Elt F) → (⟨S_, .f32⟩ : BufTy).Contents (Elt F)) (after (ops (F := F)) V (Proc.devRef .tc main_call1_cst_1)) (after (ops (F := F)) V (Proc.devRef .tc main_call1_v7))) :=
  (lift1_main_call1_v8 V).trans ((s_main_call1_v8 (U0 V)).trans (congrArg₂ (subf : (⟨S_, .f32⟩ : BufTy).Contents (Elt F) → (⟨S_, .f32⟩ : BufTy).Contents (Elt F) → (⟨S_, .f32⟩ : BufTy).Contents (Elt F)) (lift1_main_call1_cst_1 V).symm (lift1_main_call1_v7 V).symm))
theorem rd_main_call1_cst_2 (V : Valuation τ sig (Elt F)) : (after (ops (F := F)) V (Proc.devRef .tc main_call1_cst_2)) = (constant (F := F) S_ .f32 0x00000000#32) :=
  (lift1_main_call1_cst_2 V).trans ((s_main_call1_cst_2 (U0 V)))
theorem rd_main_call1_v9 (V : Valuation τ sig (Elt F)) : (after (ops (F := F)) V (Proc.devRef .tc main_call1_v9)) = (((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (after (ops (F := F)) V (Proc.devRef .tc main_call1_v6)) (after (ops (F := F)) V (Proc.devRef .tc main_call1_cst_2))) :=
  (lift1_main_call1_v9 V).trans ((s_main_call1_v9 (U0 V)).trans (congrArg₂ ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)) (lift1_main_call1_v6 V).symm (lift1_main_call1_cst_2 V).symm))
theorem rd_main_call1_v10 (V : Valuation τ sig (Elt F)) : (after (ops (F := F)) V (Proc.devRef .tc main_call1_v10)) = (((broadcastInDim S32 ![] bcast_S_S32) : (⟨S_, .f32⟩ : BufTy).Contents (Elt F) → (⟨S32, .f32⟩ : BufTy).Contents (Elt F)) (after (ops (F := F)) V (Proc.devRef .tc main_call1_v8))) :=
  (lift1_main_call1_v10 V).trans ((s_main_call1_v10 (U0 V)).trans (congrArg ((broadcastInDim S32 ![] bcast_S_S32) : (⟨S_, .f32⟩ : BufTy).Contents (Elt F) → (⟨S32, .f32⟩ : BufTy).Contents (Elt F)) (lift1_main_call1_v8 V).symm))
theorem rd_main_call1_v11 (V : Valuation τ sig (Elt F)) : (after (ops (F := F)) V (Proc.devRef .tc main_call1_v11)) = ((Host.divf : (⟨S32, .f32⟩ : BufTy).Contents (Elt F) → (⟨S32, .f32⟩ : BufTy).Contents (Elt F) → (⟨S32, .f32⟩ : BufTy).Contents (Elt F)) (after (ops (F := F)) V (Proc.devRef .tc main_call1_v9)) (after (ops (F := F)) V (Proc.devRef .tc main_call1_v10))) :=
  (lift1_main_call1_v11 V).trans ((s_main_call1_v11 (U0 V)).trans (congrArg₂ (Host.divf : (⟨S32, .f32⟩ : BufTy).Contents (Elt F) → (⟨S32, .f32⟩ : BufTy).Contents (Elt F) → (⟨S32, .f32⟩ : BufTy).Contents (Elt F)) (lift1_main_call1_v9 V).symm (lift1_main_call1_v10 V).symm))
theorem rd_main_call1_cst_3 (V : Valuation τ sig (Elt F)) : (after (ops (F := F)) V (Proc.devRef .tc main_call1_cst_3)) = (constant (F := F) S_ .f32 0x00000000#32) :=
  (lift1_main_call1_cst_3 V).trans ((s_main_call1_cst_3 (U0 V)))
theorem rd_main_call1_v12 (V : Valuation τ sig (Elt F)) : (after (ops (F := F)) V (Proc.devRef .tc main_call1_v12)) = (((cmpf .ogt) : (⟨S_, .f32⟩ : BufTy).Contents (Elt F) → (⟨S_, .f32⟩ : BufTy).Contents (Elt F) → (⟨S_, .i1⟩ : BufTy).Contents (Elt F)) (after (ops (F := F)) V (Proc.devRef .tc main_call1_v8)) (after (ops (F := F)) V (Proc.devRef .tc main_call1_cst_3))) :=
  (lift1_main_call1_v12 V).trans ((s_main_call1_v12 (U0 V)).trans (congrArg₂ ((cmpf .ogt) : (⟨S_, .f32⟩ : BufTy).Contents (Elt F) → (⟨S_, .f32⟩ : BufTy).Contents (Elt F) → (⟨S_, .i1⟩ : BufTy).Contents (Elt F)) (lift1_main_call1_v8 V).symm (lift1_main_call1_cst_3 V).symm))
theorem rd_main_call1_cst_4 (V : Valuation τ sig (Elt F)) : (after (ops (F := F)) V (Proc.devRef .tc main_call1_cst_4)) = (constant (F := F) S_ .f32 0x7FC00000#32) :=
  (lift1_main_call1_cst_4 V).trans ((s_main_call1_cst_4 (U0 V)))
theorem rd_main_call1_call0_v0 (V : Valuation τ sig (Elt F)) : (after (ops (F := F)) V (Proc.devRef .tc main_call1_call0_v0)) = ((id : (⟨S_, .f32⟩ : BufTy).Contents (Elt F) → (⟨S_, .f32⟩ : BufTy).Contents (Elt F)) (after (ops (F := F)) V (Proc.devRef .tc main_call1_cst_4))) :=
  (lift1_main_call1_call0_v0 V).trans ((s_main_call1_call0_v0 (U0 V)).trans (congrArg (id : (⟨S_, .f32⟩ : BufTy).Contents (Elt F) → (⟨S_, .f32⟩ : BufTy).Contents (Elt F)) (lift1_main_call1_cst_4 V).symm))
theorem rd_main_call1_call0_v1 (V : Valuation τ sig (Elt F)) : (after (ops (F := F)) V (Proc.devRef .tc main_call1_call0_v1)) = (((broadcastInDim S32 ![] bcast_S_S32) : (⟨S_, .f32⟩ : BufTy).Contents (Elt F) → (⟨S32, .f32⟩ : BufTy).Contents (Elt F)) (after (ops (F := F)) V (Proc.devRef .tc main_call1_call0_v0))) :=
  (lift1_main_call1_call0_v1 V).trans ((s_main_call1_call0_v1 (U0 V)).trans (congrArg ((broadcastInDim S32 ![] bcast_S_S32) : (⟨S_, .f32⟩ : BufTy).Contents (Elt F) → (⟨S32, .f32⟩ : BufTy).Contents (Elt F)) (lift1_main_call1_call0_v0 V).symm))
theorem rd_main_v26 (V : Valuation τ sig (Elt F)) : (after (ops (F := F)) V (Proc.devRef .tc main_v26)) = (((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (after (ops (F := F)) V (Proc.devRef .tc main_call1_v12)) (after (ops (F := F)) V (Proc.devRef .tc main_call1_v11)) (after (ops (F := F)) V (Proc.devRef .tc main_call1_call0_v1))) :=
  (lift1_main_v26 V).trans ((s_main_v26 (U0 V)).trans (congr3 ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (lift1_main_call1_v12 V).symm (lift1_main_call1_v11 V).symm (lift1_main_call1_call0_v1 V).symm))
theorem rd_main_v27 (V : Valuation τ sig (Elt F)) : (after (ops (F := F)) V (Proc.devRef .tc main_v27)) = ((broadcastInDim S1x32 ![1] bcast_S32_S1x32_1 : (⟨S32, .f32⟩ : BufTy).Contents (Elt F) → (⟨S1x32, .f32⟩ : BufTy).Contents (Elt F)) (after (ops (F := F)) V (Proc.devRef .tc main_v25))) :=
  (lift1_main_v27 V).trans ((s_main_v27 (U0 V)).trans (congrArg (broadcastInDim S1x32 ![1] bcast_S32_S1x32_1 : (⟨S32, .f32⟩ : BufTy).Contents (Elt F) → (⟨S1x32, .f32⟩ : BufTy).Contents (Elt F)) (lift1_main_v25 V).symm))
theorem rd_main_v28 (V : Valuation τ sig (Elt F)) : (after (ops (F := F)) V (Proc.devRef .tc main_v28)) = ((broadcastInDim S300000x32 ![0, 1] bcast_S1x32_S300000x32_0_1 : (⟨S1x32, .f32⟩ : BufTy).Contents (Elt F) → (⟨S300000x32, .f32⟩ : BufTy).Contents (Elt F)) (after (ops (F := F)) V (Proc.devRef .tc main_v27))) :=
  (lift1_main_v28 V).trans ((s_main_v28 (U0 V)).trans (congrArg (broadcastInDim S300000x32 ![0, 1] bcast_S1x32_S300000x32_0_1 : (⟨S1x32, .f32⟩ : BufTy).Contents (Elt F) → (⟨S300000x32, .f32⟩ : BufTy).Contents (Elt F)) (lift1_main_v27 V).symm))
theorem rd_main_v29 (V : Valuation τ sig (Elt F)) : (after (ops (F := F)) V (Proc.devRef .tc main_v29)) = ((subf : (⟨S300000x32, .f32⟩ : BufTy).Contents (Elt F) → (⟨S300000x32, .f32⟩ : BufTy).Contents (Elt F) → (⟨S300000x32, .f32⟩ : BufTy).Contents (Elt F)) (after (ops (F := F)) V (Proc.devRef .tc main_arg2)) (after (ops (F := F)) V (Proc.devRef .tc main_v28))) :=
  (lift1_main_v29 V).trans ((s_main_v29 (U0 V)).trans (congrArg₂ (subf : (⟨S300000x32, .f32⟩ : BufTy).Contents (Elt F) → (⟨S300000x32, .f32⟩ : BufTy).Contents (Elt F) → (⟨S300000x32, .f32⟩ : BufTy).Contents (Elt F)) (lift1_main_arg2 V).symm (lift1_main_v28 V).symm))
theorem rd_main_v30 (V : Valuation τ sig (Elt F)) : (after (ops (F := F)) V (Proc.devRef .tc main_v30)) = ((broadcastInDim S1x32 ![1] bcast_S32_S1x32_1 : (⟨S32, .f32⟩ : BufTy).Contents (Elt F) → (⟨S1x32, .f32⟩ : BufTy).Contents (Elt F)) (after (ops (F := F)) V (Proc.devRef .tc main_arg7))) :=
  (lift1_main_v30 V).trans ((s_main_v30 (U0 V)).trans (congrArg (broadcastInDim S1x32 ![1] bcast_S32_S1x32_1 : (⟨S32, .f32⟩ : BufTy).Contents (Elt F) → (⟨S1x32, .f32⟩ : BufTy).Contents (Elt F)) (lift1_main_arg7 V).symm))
theorem rd_main_v31 (V : Valuation τ sig (Elt F)) : (after (ops (F := F)) V (Proc.devRef .tc main_v31)) = ((broadcastInDim S300000x32 ![0, 1] bcast_S1x32_S300000x32_0_1 : (⟨S1x32, .f32⟩ : BufTy).Contents (Elt F) → (⟨S300000x32, .f32⟩ : BufTy).Contents (Elt F)) (after (ops (F := F)) V (Proc.devRef .tc main_v30))) :=
  (lift1_main_v31 V).trans ((s_main_v31 (U0 V)).trans (congrArg (broadcastInDim S300000x32 ![0, 1] bcast_S1x32_S300000x32_0_1 : (⟨S1x32, .f32⟩ : BufTy).Contents (Elt F) → (⟨S300000x32, .f32⟩ : BufTy).Contents (Elt F)) (lift1_main_v30 V).symm))
theorem rd_main_v32 (V : Valuation τ sig (Elt F)) : (after (ops (F := F)) V (Proc.devRef .tc main_v32)) = ((mulf : (⟨S300000x32, .f32⟩ : BufTy).Contents (Elt F) → (⟨S300000x32, .f32⟩ : BufTy).Contents (Elt F) → (⟨S300000x32, .f32⟩ : BufTy).Contents (Elt F)) (after (ops (F := F)) V (Proc.devRef .tc main_v31)) (after (ops (F := F)) V (Proc.devRef .tc main_v29))) :=
  (lift1_main_v32 V).trans ((s_main_v32 (U0 V)).trans (congrArg₂ (mulf : (⟨S300000x32, .f32⟩ : BufTy).Contents (Elt F) → (⟨S300000x32, .f32⟩ : BufTy).Contents (Elt F) → (⟨S300000x32, .f32⟩ : BufTy).Contents (Elt F)) (lift1_main_v31 V).symm (lift1_main_v29 V).symm))
theorem rd_main_cst_5 (V : Valuation τ sig (Elt F)) : (after (ops (F := F)) V (Proc.devRef .tc main_cst_5)) = (constant (F := F) S_ .f32 0x3727C5AC#32) :=
  (lift1_main_cst_5 V).trans ((s_main_cst_5 (U0 V)))
theorem rd_main_v33 (V : Valuation τ sig (Elt F)) : (after (ops (F := F)) V (Proc.devRef .tc main_v33)) = ((broadcastInDim S32 ![] bcast_S_S32 : (⟨S_, .f32⟩ : BufTy).Contents (Elt F) → (⟨S32, .f32⟩ : BufTy).Contents (Elt F)) (after (ops (F := F)) V (Proc.devRef .tc main_cst_5))) :=
  (lift1_main_v33 V).trans ((s_main_v33 (U0 V)).trans (congrArg (broadcastInDim S32 ![] bcast_S_S32 : (⟨S_, .f32⟩ : BufTy).Contents (Elt F) → (⟨S32, .f32⟩ : BufTy).Contents (Elt F)) (lift1_main_cst_5 V).symm))
theorem rd_main_v34 (V : Valuation τ sig (Elt F)) : (after (ops (F := F)) V (Proc.devRef .tc main_v34)) = ((addf : (⟨S32, .f32⟩ : BufTy).Contents (Elt F) → (⟨S32, .f32⟩ : BufTy).Contents (Elt F) → (⟨S32, .f32⟩ : BufTy).Contents (Elt F)) (after (ops (F := F)) V (Proc.devRef .tc main_v26)) (after (ops (F := F)) V (Proc.devRef .tc main_v33))) :=
  (lift1_main_v34 V).trans ((s_main_v34 (U0 V)).trans (congrArg₂ (addf : (⟨S32, .f32⟩ : BufTy).Contents (Elt F) → (⟨S32, .f32⟩ : BufTy).Contents (Elt F) → (⟨S32, .f32⟩ : BufTy).Contents (Elt F)) (lift1_main_v26 V).symm (lift1_main_v33 V).symm))
theorem rd_main_v35 (V : Valuation τ sig (Elt F)) : (after (ops (F := F)) V (Proc.devRef .tc main_v35)) = ((Host.rsqrt : (⟨S32, .f32⟩ : BufTy).Contents (Elt F) → (⟨S32, .f32⟩ : BufTy).Contents (Elt F)) (after (ops (F := F)) V (Proc.devRef .tc main_v34))) :=
  (lift1_main_v35 V).trans ((s_main_v35 (U0 V)).trans (congrArg (Host.rsqrt : (⟨S32, .f32⟩ : BufTy).Contents (Elt F) → (⟨S32, .f32⟩ : BufTy).Contents (Elt F)) (lift1_main_v34 V).symm))
theorem rd_main_v36 (V : Valuation τ sig (Elt F)) : (after (ops (F := F)) V (Proc.devRef .tc main_v36)) = ((broadcastInDim S1x32 ![1] bcast_S32_S1x32_1 : (⟨S32, .f32⟩ : BufTy).Contents (Elt F) → (⟨S1x32, .f32⟩ : BufTy).Contents (Elt F)) (after (ops (F := F)) V (Proc.devRef .tc main_v35))) :=
  (lift1_main_v36 V).trans ((s_main_v36 (U0 V)).trans (congrArg (broadcastInDim S1x32 ![1] bcast_S32_S1x32_1 : (⟨S32, .f32⟩ : BufTy).Contents (Elt F) → (⟨S1x32, .f32⟩ : BufTy).Contents (Elt F)) (lift1_main_v35 V).symm))
theorem rd_main_v37 (V : Valuation τ sig (Elt F)) : (after (ops (F := F)) V (Proc.devRef .tc main_v37)) = ((broadcastInDim S300000x32 ![0, 1] bcast_S1x32_S300000x32_0_1 : (⟨S1x32, .f32⟩ : BufTy).Contents (Elt F) → (⟨S300000x32, .f32⟩ : BufTy).Contents (Elt F)) (after (ops (F := F)) V (Proc.devRef .tc main_v36))) :=
  (lift1_main_v37 V).trans ((s_main_v37 (U0 V)).trans (congrArg (broadcastInDim S300000x32 ![0, 1] bcast_S1x32_S300000x32_0_1 : (⟨S1x32, .f32⟩ : BufTy).Contents (Elt F) → (⟨S300000x32, .f32⟩ : BufTy).Contents (Elt F)) (lift1_main_v36 V).symm))
theorem rd_main_v38 (V : Valuation τ sig (Elt F)) : (after (ops (F := F)) V (Proc.devRef .tc main_v38)) = ((mulf : (⟨S300000x32, .f32⟩ : BufTy).Contents (Elt F) → (⟨S300000x32, .f32⟩ : BufTy).Contents (Elt F) → (⟨S300000x32, .f32⟩ : BufTy).Contents (Elt F)) (after (ops (F := F)) V (Proc.devRef .tc main_v32)) (after (ops (F := F)) V (Proc.devRef .tc main_v37))) :=
  (lift1_main_v38 V).trans ((s_main_v38 (U0 V)).trans (congrArg₂ (mulf : (⟨S300000x32, .f32⟩ : BufTy).Contents (Elt F) → (⟨S300000x32, .f32⟩ : BufTy).Contents (Elt F) → (⟨S300000x32, .f32⟩ : BufTy).Contents (Elt F)) (lift1_main_v32 V).symm (lift1_main_v37 V).symm))
theorem rd_main_v39 (V : Valuation τ sig (Elt F)) : (after (ops (F := F)) V (Proc.devRef .tc main_v39)) = ((broadcastInDim S1x32 ![1] bcast_S32_S1x32_1 : (⟨S32, .f32⟩ : BufTy).Contents (Elt F) → (⟨S1x32, .f32⟩ : BufTy).Contents (Elt F)) (after (ops (F := F)) V (Proc.devRef .tc main_arg8))) :=
  (lift1_main_v39 V).trans ((s_main_v39 (U0 V)).trans (congrArg (broadcastInDim S1x32 ![1] bcast_S32_S1x32_1 : (⟨S32, .f32⟩ : BufTy).Contents (Elt F) → (⟨S1x32, .f32⟩ : BufTy).Contents (Elt F)) (lift1_main_arg8 V).symm))
theorem rd_main_v40 (V : Valuation τ sig (Elt F)) : (after (ops (F := F)) V (Proc.devRef .tc main_v40)) = ((broadcastInDim S300000x32 ![0, 1] bcast_S1x32_S300000x32_0_1 : (⟨S1x32, .f32⟩ : BufTy).Contents (Elt F) → (⟨S300000x32, .f32⟩ : BufTy).Contents (Elt F)) (after (ops (F := F)) V (Proc.devRef .tc main_v39))) :=
  (lift1_main_v40 V).trans ((s_main_v40 (U0 V)).trans (congrArg (broadcastInDim S300000x32 ![0, 1] bcast_S1x32_S300000x32_0_1 : (⟨S1x32, .f32⟩ : BufTy).Contents (Elt F) → (⟨S300000x32, .f32⟩ : BufTy).Contents (Elt F)) (lift1_main_v39 V).symm))
theorem rd_main_v41 (V : Valuation τ sig (Elt F)) : (after (ops (F := F)) V (Proc.devRef .tc main_v41)) = ((addf : (⟨S300000x32, .f32⟩ : BufTy).Contents (Elt F) → (⟨S300000x32, .f32⟩ : BufTy).Contents (Elt F) → (⟨S300000x32, .f32⟩ : BufTy).Contents (Elt F)) (after (ops (F := F)) V (Proc.devRef .tc main_v38)) (after (ops (F := F)) V (Proc.devRef .tc main_v40))) :=
  (lift1_main_v41 V).trans ((s_main_v41 (U0 V)).trans (congrArg₂ (addf : (⟨S300000x32, .f32⟩ : BufTy).Contents (Elt F) → (⟨S300000x32, .f32⟩ : BufTy).Contents (Elt F) → (⟨S300000x32, .f32⟩ : BufTy).Contents (Elt F)) (lift1_main_v38 V).symm (lift1_main_v40 V).symm))
theorem rd_main_cst_6 (V : Valuation τ sig (Elt F)) : (after (ops (F := F)) V (Proc.devRef .tc main_cst_6)) = (constant (F := F) S_ .f32 0x00000000#32) :=
  (lift1_main_cst_6 V).trans ((s_main_cst_6 (U0 V)))
theorem rd_main_v42 (V : Valuation τ sig (Elt F)) : (after (ops (F := F)) V (Proc.devRef .tc main_v42)) = (((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (after (ops (F := F)) V (Proc.devRef .tc main_arg3)) (after (ops (F := F)) V (Proc.devRef .tc main_cst_6))) :=
  (lift1_main_v42 V).trans ((s_main_v42 (U0 V)).trans (congrArg₂ ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (lift1_main_arg3 V).symm (lift1_main_cst_6 V).symm))
theorem rd_main_cst_7 (V : Valuation τ sig (Elt F)) : (after (ops (F := F)) V (Proc.devRef .tc main_cst_7)) = (constant (F := F) S_ .f32 0x42800000#32) :=
  (lift1_main_cst_7 V).trans ((s_main_cst_7 (U0 V)))
theorem rd_main_v43 (V : Valuation τ sig (Elt F)) : (after (ops (F := F)) V (Proc.devRef .tc main_v43)) = ((broadcastInDim S32 ![] bcast_S_S32 : (⟨S_, .f32⟩ : BufTy).Contents (Elt F) → (⟨S32, .f32⟩ : BufTy).Contents (Elt F)) (after (ops (F := F)) V (Proc.devRef .tc main_cst_7))) :=
  (lift1_main_v43 V).trans ((s_main_v43 (U0 V)).trans (congrArg (broadcastInDim S32 ![] bcast_S_S32 : (⟨S_, .f32⟩ : BufTy).Contents (Elt F) → (⟨S32, .f32⟩ : BufTy).Contents (Elt F)) (lift1_main_cst_7 V).symm))
theorem rd_main_v44 (V : Valuation τ sig (Elt F)) : (after (ops (F := F)) V (Proc.devRef .tc main_v44)) = ((Host.divf : (⟨S32, .f32⟩ : BufTy).Contents (Elt F) → (⟨S32, .f32⟩ : BufTy).Contents (Elt F) → (⟨S32, .f32⟩ : BufTy).Contents (Elt F)) (after (ops (F := F)) V (Proc.devRef .tc main_v42)) (after (ops (F := F)) V (Proc.devRef .tc main_v43))) :=
  (lift1_main_v44 V).trans ((s_main_v44 (U0 V)).trans (congrArg₂ (Host.divf : (⟨S32, .f32⟩ : BufTy).Contents (Elt F) → (⟨S32, .f32⟩ : BufTy).Contents (Elt F) → (⟨S32, .f32⟩ : BufTy).Contents (Elt F)) (lift1_main_v42 V).symm (lift1_main_v43 V).symm))
theorem rd_main_c_8 (V : Valuation τ sig (Elt F)) : (after (ops (F := F)) V (Proc.devRef .tc main_c_8)) = (constantI S_ 32 0#32) :=
  (lift1_main_c_8 V).trans ((s_main_c_8 (U0 V)))
theorem rd_main_call2_cst (V : Valuation τ sig (Elt F)) : (after (ops (F := F)) V (Proc.devRef .tc main_call2_cst)) = (constant (F := F) S_ .f32 0x00000000#32) :=
  (lift1_main_call2_cst V).trans ((s_main_call2_cst (U0 V)))
theorem rd_main_call2_v0 (V : Valuation τ sig (Elt F)) : (after (ops (F := F)) V (Proc.devRef .tc main_call2_v0)) = (((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (after (ops (F := F)) V (Proc.devRef .tc main_arg3)) (after (ops (F := F)) V (Proc.devRef .tc main_call2_cst))) :=
  (lift1_main_call2_v0 V).trans ((s_main_call2_v0 (U0 V)).trans (congrArg₂ ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (lift1_main_arg3 V).symm (lift1_main_call2_cst V).symm))
theorem rd_main_call2_v1 (V : Valuation τ sig (Elt F)) : (after (ops (F := F)) V (Proc.devRef .tc main_call2_v1)) = (((broadcastInDim S1x32 ![1] bcast_S32_S1x32_1) : (⟨S32, .f32⟩ : BufTy).Contents (Elt F) → (⟨S1x32, .f32⟩ : BufTy).Contents (Elt F)) (after (ops (F := F)) V (Proc.devRef .tc main_call2_v0))) :=
  (lift1_main_call2_v1 V).trans ((s_main_call2_v1 (U0 V)).trans (congrArg ((broadcastInDim S1x32 ![1] bcast_S32_S1x32_1) : (⟨S32, .f32⟩ : BufTy).Contents (Elt F) → (⟨S1x32, .f32⟩ : BufTy).Contents (Elt F)) (lift1_main_call2_v0 V).symm))
theorem rd_main_call2_cst_0 (V : Valuation τ sig (Elt F)) : (after (ops (F := F)) V (Proc.devRef .tc main_call2_cst_0)) = (constant (F := F) S_ .f32 0x42800000#32) :=
  (lift1_main_call2_cst_0 V).trans ((s_main_call2_cst_0 (U0 V)))
theorem rd_main_call2_v2 (V : Valuation τ sig (Elt F)) : (after (ops (F := F)) V (Proc.devRef .tc main_call2_v2)) = (((broadcastInDim S1x32 ![] bcast_S_S1x32) : (⟨S_, .f32⟩ : BufTy).Contents (Elt F) → (⟨S1x32, .f32⟩ : BufTy).Contents (Elt F)) (after (ops (F := F)) V (Proc.devRef .tc main_call2_cst_0))) :=
  (lift1_main_call2_v2 V).trans ((s_main_call2_v2 (U0 V)).trans (congrArg ((broadcastInDim S1x32 ![] bcast_S_S1x32) : (⟨S_, .f32⟩ : BufTy).Contents (Elt F) → (⟨S1x32, .f32⟩ : BufTy).Contents (Elt F)) (lift1_main_call2_cst_0 V).symm))
theorem rd_main_call2_v3 (V : Valuation τ sig (Elt F)) : (after (ops (F := F)) V (Proc.devRef .tc main_call2_v3)) = ((Host.divf : (⟨S1x32, .f32⟩ : BufTy).Contents (Elt F) → (⟨S1x32, .f32⟩ : BufTy).Contents (Elt F) → (⟨S1x32, .f32⟩ : BufTy).Contents (Elt F)) (after (ops (F := F)) V (Proc.devRef .tc main_call2_v1)) (after (ops (F := F)) V (Proc.devRef .tc main_call2_v2))) :=
  (lift1_main_call2_v3 V).trans ((s_main_call2_v3 (U0 V)).trans (congrArg₂ (Host.divf : (⟨S1x32, .f32⟩ : BufTy).Contents (Elt F) → (⟨S1x32, .f32⟩ : BufTy).Contents (Elt F) → (⟨S1x32, .f32⟩ : BufTy).Contents (Elt F)) (lift1_main_call2_v1 V).symm (lift1_main_call2_v2 V).symm))
theorem rd_main_call2_v4 (V : Valuation τ sig (Elt F)) : (after (ops (F := F)) V (Proc.devRef .tc main_call2_v4)) = (((broadcastInDim S64x32 ![0, 1] bcast_S1x32_S64x32_0_1) : (⟨S1x32, .f32⟩ : BufTy).Contents (Elt F) → (⟨S64x32, .f32⟩ : BufTy).Contents (Elt F)) (after (ops (F := F)) V (Proc.devRef .tc main_call2_v3))) :=
  (lift1_main_call2_v4 V).trans ((s_main_call2_v4 (U0 V)).trans (congrArg ((broadcastInDim S64x32 ![0, 1] bcast_S1x32_S64x32_0_1) : (⟨S1x32, .f32⟩ : BufTy).Contents (Elt F) → (⟨S64x32, .f32⟩ : BufTy).Contents (Elt F)) (lift1_main_call2_v3 V).symm))
theorem rd_main_call2_v5 (V : Valuation τ sig (Elt F)) : (after (ops (F := F)) V (Proc.devRef .tc main_call2_v5)) = ((subf : (⟨S64x32, .f32⟩ : BufTy).Contents (Elt F) → (⟨S64x32, .f32⟩ : BufTy).Contents (Elt F) → (⟨S64x32, .f32⟩ : BufTy).Contents (Elt F)) (after (ops (F := F)) V (Proc.devRef .tc main_arg3)) (after (ops (F := F)) V (Proc.devRef .tc main_call2_v4))) :=
  (lift1_main_call2_v5 V).trans ((s_main_call2_v5 (U0 V)).trans (congrArg₂ (subf : (⟨S64x32, .f32⟩ : BufTy).Contents (Elt F) → (⟨S64x32, .f32⟩ : BufTy).Contents (Elt F) → (⟨S64x32, .f32⟩ : BufTy).Contents (Elt F)) (lift1_main_arg3 V).symm (lift1_main_call2_v4 V).symm))
theorem rd_main_call2_v6 (V : Valuation τ sig (Elt F)) : (after (ops (F := F)) V (Proc.devRef .tc main_call2_v6)) = ((mulf : (⟨S64x32, .f32⟩ : BufTy).Contents (Elt F) → (⟨S64x32, .f32⟩ : BufTy).Contents (Elt F) → (⟨S64x32, .f32⟩ : BufTy).Contents (Elt F)) (after (ops (F := F)) V (Proc.devRef .tc main_call2_v5)) (after (ops (F := F)) V (Proc.devRef .tc main_call2_v5))) :=
  (lift1_main_call2_v6 V).trans ((s_main_call2_v6 (U0 V)).trans (congrArg₂ (mulf : (⟨S64x32, .f32⟩ : BufTy).Contents (Elt F) → (⟨S64x32, .f32⟩ : BufTy).Contents (Elt F) → (⟨S64x32, .f32⟩ : BufTy).Contents (Elt F)) (lift1_main_call2_v5 V).symm (lift1_main_call2_v5 V).symm))
theorem rd_main_call2_v7 (V : Valuation τ sig (Elt F)) : (after (ops (F := F)) V (Proc.devRef .tc main_call2_v7)) = (((sitofp .f32) : (⟨S_, .i32⟩ : BufTy).Contents (Elt F) → (⟨S_, .f32⟩ : BufTy).Contents (Elt F)) (after (ops (F := F)) V (Proc.devRef .tc main_c_8))) :=
  (lift1_main_call2_v7 V).trans ((s_main_call2_v7 (U0 V)).trans (congrArg ((sitofp .f32) : (⟨S_, .i32⟩ : BufTy).Contents (Elt F) → (⟨S_, .f32⟩ : BufTy).Contents (Elt F)) (lift1_main_c_8 V).symm))
theorem rd_main_call2_cst_1 (V : Valuation τ sig (Elt F)) : (after (ops (F := F)) V (Proc.devRef .tc main_call2_cst_1)) = (constant (F := F) S_ .f32 0x42800000#32) :=
  (lift1_main_call2_cst_1 V).trans ((s_main_call2_cst_1 (U0 V)))
theorem rd_main_call2_v8 (V : Valuation τ sig (Elt F)) : (after (ops (F := F)) V (Proc.devRef .tc main_call2_v8)) = ((subf : (⟨S_, .f32⟩ : BufTy).Contents (Elt F) → (⟨S_, .f32⟩ : BufTy).Contents (Elt F) → (⟨S_, .f32⟩ : BufTy).Contents (Elt F)) (after (ops (F := F)) V (Proc.devRef .tc main_call2_cst_1)) (after (ops (F := F)) V (Proc.devRef .tc main_call2_v7))) :=
  (lift1_main_call2_v8 V).trans ((s_main_call2_v8 (U0 V)).trans (congrArg₂ (subf : (⟨S_, .f32⟩ : BufTy).Contents (Elt F) → (⟨S_, .f32⟩ : BufTy).Contents (Elt F) → (⟨S_, .f32⟩ : BufTy).Contents (Elt F)) (lift1_main_call2_cst_1 V).symm (lift1_main_call2_v7 V).symm))
theorem rd_main_call2_cst_2 (V : Valuation τ sig (Elt F)) : (after (ops (F := F)) V (Proc.devRef .tc main_call2_cst_2)) = (constant (F := F) S_ .f32 0x00000000#32) :=
  (lift1_main_call2_cst_2 V).trans ((s_main_call2_cst_2 (U0 V)))
theorem rd_main_call2_v9 (V : Valuation τ sig (Elt F)) : (after (ops (F := F)) V (Proc.devRef .tc main_call2_v9)) = (((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (after (ops (F := F)) V (Proc.devRef .tc main_call2_v6)) (after (ops (F := F)) V (Proc.devRef .tc main_call2_cst_2))) :=
  (lift1_main_call2_v9 V).trans ((s_main_call2_v9 (U0 V)).trans (congrArg₂ ((fun x v => Host.reduceAdd x v reducesTo_S64x32_S32_d0 h_S_) : (⟨S64x32, .f32⟩ : BufTy).Contents (Elt F) → (⟨S_, .f32⟩ : BufTy).Contents (Elt F) → (⟨S32, .f32⟩ : BufTy).Contents (Elt F)) (lift1_main_call2_v6 V).symm (lift1_main_call2_cst_2 V).symm))
theorem rd_main_call2_v10 (V : Valuation τ sig (Elt F)) : (after (ops (F := F)) V (Proc.devRef .tc main_call2_v10)) = (((broadcastInDim S32 ![] bcast_S_S32) : (⟨S_, .f32⟩ : BufTy).Contents (Elt F) → (⟨S32, .f32⟩ : BufTy).Contents (Elt F)) (after (ops (F := F)) V (Proc.devRef .tc main_call2_v8))) :=
  (lift1_main_call2_v10 V).trans ((s_main_call2_v10 (U0 V)).trans (congrArg ((broadcastInDim S32 ![] bcast_S_S32) : (⟨S_, .f32⟩ : BufTy).Contents (Elt F) → (⟨S32, .f32⟩ : BufTy).Contents (Elt F)) (lift1_main_call2_v8 V).symm))
theorem rd_main_call2_v11 (V : Valuation τ sig (Elt F)) : (after (ops (F := F)) V (Proc.devRef .tc main_call2_v11)) = ((Host.divf : (⟨S32, .f32⟩ : BufTy).Contents (Elt F) → (⟨S32, .f32⟩ : BufTy).Contents (Elt F) → (⟨S32, .f32⟩ : BufTy).Contents (Elt F)) (after (ops (F := F)) V (Proc.devRef .tc main_call2_v9)) (after (ops (F := F)) V (Proc.devRef .tc main_call2_v10))) :=
  (lift1_main_call2_v11 V).trans ((s_main_call2_v11 (U0 V)).trans (congrArg₂ (Host.divf : (⟨S32, .f32⟩ : BufTy).Contents (Elt F) → (⟨S32, .f32⟩ : BufTy).Contents (Elt F) → (⟨S32, .f32⟩ : BufTy).Contents (Elt F)) (lift1_main_call2_v9 V).symm (lift1_main_call2_v10 V).symm))
theorem rd_main_call2_cst_3 (V : Valuation τ sig (Elt F)) : (after (ops (F := F)) V (Proc.devRef .tc main_call2_cst_3)) = (constant (F := F) S_ .f32 0x00000000#32) :=
  (lift1_main_call2_cst_3 V).trans ((s_main_call2_cst_3 (U0 V)))
theorem rd_main_call2_v12 (V : Valuation τ sig (Elt F)) : (after (ops (F := F)) V (Proc.devRef .tc main_call2_v12)) = (((cmpf .ogt) : (⟨S_, .f32⟩ : BufTy).Contents (Elt F) → (⟨S_, .f32⟩ : BufTy).Contents (Elt F) → (⟨S_, .i1⟩ : BufTy).Contents (Elt F)) (after (ops (F := F)) V (Proc.devRef .tc main_call2_v8)) (after (ops (F := F)) V (Proc.devRef .tc main_call2_cst_3))) :=
  (lift1_main_call2_v12 V).trans ((s_main_call2_v12 (U0 V)).trans (congrArg₂ ((cmpf .ogt) : (⟨S_, .f32⟩ : BufTy).Contents (Elt F) → (⟨S_, .f32⟩ : BufTy).Contents (Elt F) → (⟨S_, .i1⟩ : BufTy).Contents (Elt F)) (lift1_main_call2_v8 V).symm (lift1_main_call2_cst_3 V).symm))
theorem rd_main_call2_cst_4 (V : Valuation τ sig (Elt F)) : (after (ops (F := F)) V (Proc.devRef .tc main_call2_cst_4)) = (constant (F := F) S_ .f32 0x7FC00000#32) :=
  (lift1_main_call2_cst_4 V).trans ((s_main_call2_cst_4 (U0 V)))
theorem rd_main_call2_call0_v0 (V : Valuation τ sig (Elt F)) : (after (ops (F := F)) V (Proc.devRef .tc main_call2_call0_v0)) = ((id : (⟨S_, .f32⟩ : BufTy).Contents (Elt F) → (⟨S_, .f32⟩ : BufTy).Contents (Elt F)) (after (ops (F := F)) V (Proc.devRef .tc main_call2_cst_4))) :=
  (lift1_main_call2_call0_v0 V).trans ((s_main_call2_call0_v0 (U0 V)).trans (congrArg (id : (⟨S_, .f32⟩ : BufTy).Contents (Elt F) → (⟨S_, .f32⟩ : BufTy).Contents (Elt F)) (lift1_main_call2_cst_4 V).symm))
theorem rd_main_call2_call0_v1 (V : Valuation τ sig (Elt F)) : (after (ops (F := F)) V (Proc.devRef .tc main_call2_call0_v1)) = (((broadcastInDim S32 ![] bcast_S_S32) : (⟨S_, .f32⟩ : BufTy).Contents (Elt F) → (⟨S32, .f32⟩ : BufTy).Contents (Elt F)) (after (ops (F := F)) V (Proc.devRef .tc main_call2_call0_v0))) :=
  (lift1_main_call2_call0_v1 V).trans ((s_main_call2_call0_v1 (U0 V)).trans (congrArg ((broadcastInDim S32 ![] bcast_S_S32) : (⟨S_, .f32⟩ : BufTy).Contents (Elt F) → (⟨S32, .f32⟩ : BufTy).Contents (Elt F)) (lift1_main_call2_call0_v0 V).symm))
theorem rd_main_v45 (V : Valuation τ sig (Elt F)) : (after (ops (F := F)) V (Proc.devRef .tc main_v45)) = (((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (after (ops (F := F)) V (Proc.devRef .tc main_call2_v12)) (after (ops (F := F)) V (Proc.devRef .tc main_call2_v11)) (after (ops (F := F)) V (Proc.devRef .tc main_call2_call0_v1))) :=
  (lift1_main_v45 V).trans ((s_main_v45 (U0 V)).trans (congr3 ((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (lift1_main_call2_v12 V).symm (lift1_main_call2_v11 V).symm (lift1_main_call2_call0_v1 V).symm))
theorem rd_main_v46 (V : Valuation τ sig (Elt F)) : (after (ops (F := F)) V (Proc.devRef .tc main_v46)) = ((broadcastInDim S1x32 ![1] bcast_S32_S1x32_1 : (⟨S32, .f32⟩ : BufTy).Contents (Elt F) → (⟨S1x32, .f32⟩ : BufTy).Contents (Elt F)) (after (ops (F := F)) V (Proc.devRef .tc main_v44))) :=
  (lift1_main_v46 V).trans ((s_main_v46 (U0 V)).trans (congrArg (broadcastInDim S1x32 ![1] bcast_S32_S1x32_1 : (⟨S32, .f32⟩ : BufTy).Contents (Elt F) → (⟨S1x32, .f32⟩ : BufTy).Contents (Elt F)) (lift1_main_v44 V).symm))
theorem rd_main_v47 (V : Valuation τ sig (Elt F)) : (after (ops (F := F)) V (Proc.devRef .tc main_v47)) = ((broadcastInDim S64x32 ![0, 1] bcast_S1x32_S64x32_0_1 : (⟨S1x32, .f32⟩ : BufTy).Contents (Elt F) → (⟨S64x32, .f32⟩ : BufTy).Contents (Elt F)) (after (ops (F := F)) V (Proc.devRef .tc main_v46))) :=
  (lift1_main_v47 V).trans ((s_main_v47 (U0 V)).trans (congrArg (broadcastInDim S64x32 ![0, 1] bcast_S1x32_S64x32_0_1 : (⟨S1x32, .f32⟩ : BufTy).Contents (Elt F) → (⟨S64x32, .f32⟩ : BufTy).Contents (Elt F)) (lift1_main_v46 V).symm))
theorem rd_main_v48 (V : Valuation τ sig (Elt F)) : (after (ops (F := F)) V (Proc.devRef .tc main_v48)) = ((subf : (⟨S64x32, .f32⟩ : BufTy).Contents (Elt F) → (⟨S64x32, .f32⟩ : BufTy).Contents (Elt F) → (⟨S64x32, .f32⟩ : BufTy).Contents (Elt F)) (after (ops (F := F)) V (Proc.devRef .tc main_arg3)) (after (ops (F := F)) V (Proc.devRef .tc main_v47))) :=
  (lift1_main_v48 V).trans ((s_main_v48 (U0 V)).trans (congrArg₂ (subf : (⟨S64x32, .f32⟩ : BufTy).Contents (Elt F) → (⟨S64x32, .f32⟩ : BufTy).Contents (Elt F) → (⟨S64x32, .f32⟩ : BufTy).Contents (Elt F)) (lift1_main_arg3 V).symm (lift1_main_v47 V).symm))

end Cert.ReferenceIdeal.Hand

end
-- ==== Proof.Ref.S1.lean ====
-- written by: gen_ref.js <unit directory>
/- Window 1 of the reference program's @main read one operation at a time: every buffer of the window is written once, so at the window's end each operation's result buffer holds the operation's function of its operands' contents there. -/
import proofs.«123839_j71768903516633_2_alg».proof.Proof.Ref.Writes
import proofs.«123839_j71768903516633_2_alg».proof.Proof.Lib.LibReadFinal
import proofs.«123839_j71768903516633_2_alg».proof.Proof.Lib.LibSingleAssignmentNary

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem s_main_v49 (U : Valuation τ sig (Elt F)) : (after (ops1 (F := F)) U (Proc.devRef .tc main_v49)) = (broadcastInDim S1x32 ![1] bcast_S32_S1x32_1 : (⟨S32, .f32⟩ : BufTy).Contents (Elt F) → (⟨S1x32, .f32⟩ : BufTy).Contents (Elt F)) (after (ops1 (F := F)) U (Proc.devRef .tc main_arg9)) :=
  Cert.Lib.ReadFinal.unary (x := main_arg9) (y := main_v49) (f := (broadcastInDim S1x32 ![1] bcast_S32_S1x32_1 : (⟨S32, .f32⟩ : BufTy).Contents (Elt F) → (⟨S1x32, .f32⟩ : BufTy).Contents (Elt F))) writes1 0 rfl (by decide) (by decide) U
theorem s_main_v50 (U : Valuation τ sig (Elt F)) : (after (ops1 (F := F)) U (Proc.devRef .tc main_v50)) = (broadcastInDim S64x32 ![0, 1] bcast_S1x32_S64x32_0_1 : (⟨S1x32, .f32⟩ : BufTy).Contents (Elt F) → (⟨S64x32, .f32⟩ : BufTy).Contents (Elt F)) (after (ops1 (F := F)) U (Proc.devRef .tc main_v49)) :=
  Cert.Lib.ReadFinal.unary (x := main_v49) (y := main_v50) (f := (broadcastInDim S64x32 ![0, 1] bcast_S1x32_S64x32_0_1 : (⟨S1x32, .f32⟩ : BufTy).Contents (Elt F) → (⟨S64x32, .f32⟩ : BufTy).Contents (Elt F))) writes1 1 rfl (by decide) (by decide) U
theorem s_main_v51 (U : Valuation τ sig (Elt F)) : (after (ops1 (F := F)) U (Proc.devRef .tc main_v51)) = (mulf : (⟨S64x32, .f32⟩ : BufTy).Contents (Elt F) → (⟨S64x32, .f32⟩ : BufTy).Contents (Elt F) → (⟨S64x32, .f32⟩ : BufTy).Contents (Elt F)) (after (ops1 (F := F)) U (Proc.devRef .tc main_v50)) (after (ops1 (F := F)) U (Proc.devRef .tc main_v48)) :=
  Cert.Lib.ReadFinal.binary (a := main_v50) (b := main_v48) (y := main_v51) (f := (mulf : (⟨S64x32, .f32⟩ : BufTy).Contents (Elt F) → (⟨S64x32, .f32⟩ : BufTy).Contents (Elt F) → (⟨S64x32, .f32⟩ : BufTy).Contents (Elt F))) writes1 2 rfl (by decide) (by decide) (by decide) U
theorem s_main_cst_9 (U : Valuation τ sig (Elt F)) : (after (ops1 (F := F)) U (Proc.devRef .tc main_cst_9)) = (constant (F := F) S_ .f32 0x3727C5AC#32) :=
  Cert.Lib.ReadFinal.nullary (y := main_cst_9) (v := (constant (F := F) S_ .f32 0x3727C5AC#32)) writes1 3 rfl (by decide) U
theorem s_main_v52 (U : Valuation τ sig (Elt F)) : (after (ops1 (F := F)) U (Proc.devRef .tc main_v52)) = (broadcastInDim S32 ![] bcast_S_S32 : (⟨S_, .f32⟩ : BufTy).Contents (Elt F) → (⟨S32, .f32⟩ : BufTy).Contents (Elt F)) (after (ops1 (F := F)) U (Proc.devRef .tc main_cst_9)) :=
  Cert.Lib.ReadFinal.unary (x := main_cst_9) (y := main_v52) (f := (broadcastInDim S32 ![] bcast_S_S32 : (⟨S_, .f32⟩ : BufTy).Contents (Elt F) → (⟨S32, .f32⟩ : BufTy).Contents (Elt F))) writes1 4 rfl (by decide) (by decide) U
theorem s_main_v53 (U : Valuation τ sig (Elt F)) : (after (ops1 (F := F)) U (Proc.devRef .tc main_v53)) = (addf : (⟨S32, .f32⟩ : BufTy).Contents (Elt F) → (⟨S32, .f32⟩ : BufTy).Contents (Elt F) → (⟨S32, .f32⟩ : BufTy).Contents (Elt F)) (after (ops1 (F := F)) U (Proc.devRef .tc main_v45)) (after (ops1 (F := F)) U (Proc.devRef .tc main_v52)) :=
  Cert.Lib.ReadFinal.binary (a := main_v45) (b := main_v52) (y := main_v53) (f := (addf : (⟨S32, .f32⟩ : BufTy).Contents (Elt F) → (⟨S32, .f32⟩ : BufTy).Contents (Elt F) → (⟨S32, .f32⟩ : BufTy).Contents (Elt F))) writes1 5 rfl (by decide) (by decide) (by decide) U
theorem s_main_v54 (U : Valuation τ sig (Elt F)) : (after (ops1 (F := F)) U (Proc.devRef .tc main_v54)) = (Host.rsqrt : (⟨S32, .f32⟩ : BufTy).Contents (Elt F) → (⟨S32, .f32⟩ : BufTy).Contents (Elt F)) (after (ops1 (F := F)) U (Proc.devRef .tc main_v53)) :=
  Cert.Lib.ReadFinal.unary (x := main_v53) (y := main_v54) (f := (Host.rsqrt : (⟨S32, .f32⟩ : BufTy).Contents (Elt F) → (⟨S32, .f32⟩ : BufTy).Contents (Elt F))) writes1 6 rfl (by decide) (by decide) U
theorem s_main_v55 (U : Valuation τ sig (Elt F)) : (after (ops1 (F := F)) U (Proc.devRef .tc main_v55)) = (broadcastInDim S1x32 ![1] bcast_S32_S1x32_1 : (⟨S32, .f32⟩ : BufTy).Contents (Elt F) → (⟨S1x32, .f32⟩ : BufTy).Contents (Elt F)) (after (ops1 (F := F)) U (Proc.devRef .tc main_v54)) :=
  Cert.Lib.ReadFinal.unary (x := main_v54) (y := main_v55) (f := (broadcastInDim S1x32 ![1] bcast_S32_S1x32_1 : (⟨S32, .f32⟩ : BufTy).Contents (Elt F) → (⟨S1x32, .f32⟩ : BufTy).Contents (Elt F))) writes1 7 rfl (by decide) (by decide) U
theorem s_main_v56 (U : Valuation τ sig (Elt F)) : (after (ops1 (F := F)) U (Proc.devRef .tc main_v56)) = (broadcastInDim S64x32 ![0, 1] bcast_S1x32_S64x32_0_1 : (⟨S1x32, .f32⟩ : BufTy).Contents (Elt F) → (⟨S64x32, .f32⟩ : BufTy).Contents (Elt F)) (after (ops1 (F := F)) U (Proc.devRef .tc main_v55)) :=
  Cert.Lib.ReadFinal.unary (x := main_v55) (y := main_v56) (f := (broadcastInDim S64x32 ![0, 1] bcast_S1x32_S64x32_0_1 : (⟨S1x32, .f32⟩ : BufTy).Contents (Elt F) → (⟨S64x32, .f32⟩ : BufTy).Contents (Elt F))) writes1 8 rfl (by decide) (by decide) U
theorem s_main_v57 (U : Valuation τ sig (Elt F)) : (after (ops1 (F := F)) U (Proc.devRef .tc main_v57)) = (mulf : (⟨S64x32, .f32⟩ : BufTy).Contents (Elt F) → (⟨S64x32, .f32⟩ : BufTy).Contents (Elt F) → (⟨S64x32, .f32⟩ : BufTy).Contents (Elt F)) (after (ops1 (F := F)) U (Proc.devRef .tc main_v51)) (after (ops1 (F := F)) U (Proc.devRef .tc main_v56)) :=
  Cert.Lib.ReadFinal.binary (a := main_v51) (b := main_v56) (y := main_v57) (f := (mulf : (⟨S64x32, .f32⟩ : BufTy).Contents (Elt F) → (⟨S64x32, .f32⟩ : BufTy).Contents (Elt F) → (⟨S64x32, .f32⟩ : BufTy).Contents (Elt F))) writes1 9 rfl (by decide) (by decide) (by decide) U
theorem s_main_v58 (U : Valuation τ sig (Elt F)) : (after (ops1 (F := F)) U (Proc.devRef .tc main_v58)) = (broadcastInDim S1x32 ![1] bcast_S32_S1x32_1 : (⟨S32, .f32⟩ : BufTy).Contents (Elt F) → (⟨S1x32, .f32⟩ : BufTy).Contents (Elt F)) (after (ops1 (F := F)) U (Proc.devRef .tc main_arg10)) :=
  Cert.Lib.ReadFinal.unary (x := main_arg10) (y := main_v58) (f := (broadcastInDim S1x32 ![1] bcast_S32_S1x32_1 : (⟨S32, .f32⟩ : BufTy).Contents (Elt F) → (⟨S1x32, .f32⟩ : BufTy).Contents (Elt F))) writes1 10 rfl (by decide) (by decide) U
theorem s_main_v59 (U : Valuation τ sig (Elt F)) : (after (ops1 (F := F)) U (Proc.devRef .tc main_v59)) = (broadcastInDim S64x32 ![0, 1] bcast_S1x32_S64x32_0_1 : (⟨S1x32, .f32⟩ : BufTy).Contents (Elt F) → (⟨S64x32, .f32⟩ : BufTy).Contents (Elt F)) (after (ops1 (F := F)) U (Proc.devRef .tc main_v58)) :=
  Cert.Lib.ReadFinal.unary (x := main_v58) (y := main_v59) (f := (broadcastInDim S64x32 ![0, 1] bcast_S1x32_S64x32_0_1 : (⟨S1x32, .f32⟩ : BufTy).Contents (Elt F) → (⟨S64x32, .f32⟩ : BufTy).Contents (Elt F))) writes1 11 rfl (by decide) (by decide) U
theorem s_main_v60 (U : Valuation τ sig (Elt F)) : (after (ops1 (F := F)) U (Proc.devRef .tc main_v60)) = (addf : (⟨S64x32, .f32⟩ : BufTy).Contents (Elt F) → (⟨S64x32, .f32⟩ : BufTy).Contents (Elt F) → (⟨S64x32, .f32⟩ : BufTy).Contents (Elt F)) (after (ops1 (F := F)) U (Proc.devRef .tc main_v57)) (after (ops1 (F := F)) U (Proc.devRef .tc main_v59)) :=
  Cert.Lib.ReadFinal.binary (a := main_v57) (b := main_v59) (y := main_v60) (f := (addf : (⟨S64x32, .f32⟩ : BufTy).Contents (Elt F) → (⟨S64x32, .f32⟩ : BufTy).Contents (Elt F) → (⟨S64x32, .f32⟩ : BufTy).Contents (Elt F))) writes1 12 rfl (by decide) (by decide) (by decide) U
theorem s_main_c_10 (U : Valuation τ sig (Elt F)) : (after (ops1 (F := F)) U (Proc.devRef .tc main_c_10)) = (constantI S_ 32 0#32) :=
  Cert.Lib.ReadFinal.nullary (y := main_c_10) (v := (constantI S_ 32 0#32)) writes1 13 rfl (by decide) U
theorem s_main_v61 (U : Valuation τ sig (Elt F)) : (after (ops1 (F := F)) U (Proc.devRef .tc main_v61)) = (broadcastInDim S300000 ![] bcast_S_S300000 : (⟨S_, .i32⟩ : BufTy).Contents (Elt F) → (⟨S300000, .i32⟩ : BufTy).Contents (Elt F)) (after (ops1 (F := F)) U (Proc.devRef .tc main_c_10)) :=
  Cert.Lib.ReadFinal.unary (x := main_c_10) (y := main_v61) (f := (broadcastInDim S300000 ![] bcast_S_S300000 : (⟨S_, .i32⟩ : BufTy).Contents (Elt F) → (⟨S300000, .i32⟩ : BufTy).Contents (Elt F))) writes1 14 rfl (by decide) (by decide) U
theorem s_main_v62 (U : Valuation τ sig (Elt F)) : (after (ops1 (F := F)) U (Proc.devRef .tc main_v62)) = (cmpi .slt : (⟨S300000, .i32⟩ : BufTy).Contents (Elt F) → (⟨S300000, .i32⟩ : BufTy).Contents (Elt F) → (⟨S300000, .i1⟩ : BufTy).Contents (Elt F)) (after (ops1 (F := F)) U (Proc.devRef .tc main_v1)) (after (ops1 (F := F)) U (Proc.devRef .tc main_v61)) :=
  Cert.Lib.ReadFinal.binary (a := main_v1) (b := main_v61) (y := main_v62) (f := (cmpi .slt : (⟨S300000, .i32⟩ : BufTy).Contents (Elt F) → (⟨S300000, .i32⟩ : BufTy).Contents (Elt F) → (⟨S300000, .i1⟩ : BufTy).Contents (Elt F))) writes1 15 rfl (by decide) (by decide) (by decide) U
theorem s_main_c_11 (U : Valuation τ sig (Elt F)) : (after (ops1 (F := F)) U (Proc.devRef .tc main_c_11)) = (constantI S_ 32 30000#32) :=
  Cert.Lib.ReadFinal.nullary (y := main_c_11) (v := (constantI S_ 32 30000#32)) writes1 16 rfl (by decide) U
theorem s_main_v63 (U : Valuation τ sig (Elt F)) : (after (ops1 (F := F)) U (Proc.devRef .tc main_v63)) = (broadcastInDim S300000 ![] bcast_S_S300000 : (⟨S_, .i32⟩ : BufTy).Contents (Elt F) → (⟨S300000, .i32⟩ : BufTy).Contents (Elt F)) (after (ops1 (F := F)) U (Proc.devRef .tc main_c_11)) :=
  Cert.Lib.ReadFinal.unary (x := main_c_11) (y := main_v63) (f := (broadcastInDim S300000 ![] bcast_S_S300000 : (⟨S_, .i32⟩ : BufTy).Contents (Elt F) → (⟨S300000, .i32⟩ : BufTy).Contents (Elt F))) writes1 17 rfl (by decide) (by decide) U
theorem s_main_v64 (U : Valuation τ sig (Elt F)) : (after (ops1 (F := F)) U (Proc.devRef .tc main_v64)) = (addi : (⟨S300000, .i32⟩ : BufTy).Contents (Elt F) → (⟨S300000, .i32⟩ : BufTy).Contents (Elt F) → (⟨S300000, .i32⟩ : BufTy).Contents (Elt F)) (after (ops1 (F := F)) U (Proc.devRef .tc main_v1)) (after (ops1 (F := F)) U (Proc.devRef .tc main_v63)) :=
  Cert.Lib.ReadFinal.binary (a := main_v1) (b := main_v63) (y := main_v64) (f := (addi : (⟨S300000, .i32⟩ : BufTy).Contents (Elt F) → (⟨S300000, .i32⟩ : BufTy).Contents (Elt F) → (⟨S300000, .i32⟩ : BufTy).Contents (Elt F))) writes1 18 rfl (by decide) (by decide) (by decide) U
theorem s_main_v65 (U : Valuation τ sig (Elt F)) : (after (ops1 (F := F)) U (Proc.devRef .tc main_v65)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops1 (F := F)) U (Proc.devRef .tc main_v62)) (after (ops1 (F := F)) U (Proc.devRef .tc main_v64)) (after (ops1 (F := F)) U (Proc.devRef .tc main_v1)) :=
  Cert.Lib.ReadFinal.ternary (c := main_v62) (a := main_v64) (b := main_v1) (y := main_v65) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes1 19 rfl (by decide) (by decide) (by decide) (by decide) U
theorem s_main_v66 (U : Valuation τ sig (Elt F)) : (after (ops1 (F := F)) U (Proc.devRef .tc main_v66)) = (broadcastInDim S300000x1 ![0] bcast_S300000_S300000x1_0 : (⟨S300000, .i32⟩ : BufTy).Contents (Elt F) → (⟨S300000x1, .i32⟩ : BufTy).Contents (Elt F)) (after (ops1 (F := F)) U (Proc.devRef .tc main_v65)) :=
  Cert.Lib.ReadFinal.unary (x := main_v65) (y := main_v66) (f := (broadcastInDim S300000x1 ![0] bcast_S300000_S300000x1_0 : (⟨S300000, .i32⟩ : BufTy).Contents (Elt F) → (⟨S300000x1, .i32⟩ : BufTy).Contents (Elt F))) writes1 20 rfl (by decide) (by decide) U
theorem s_main_v67 (U : Valuation τ sig (Elt F)) : (after (ops1 (F := F)) U (Proc.devRef .tc main_v67)) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops1 (F := F)) U (Proc.devRef .tc main_v22)) (after (ops1 (F := F)) U (Proc.devRef .tc main_v66)) :=
  Cert.Lib.ReadFinal.binary (a := main_v22) (b := main_v66) (y := main_v67) (f := ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F))) writes1 21 rfl (by decide) (by decide) (by decide) U
theorem s_main_c_12 (U : Valuation τ sig (Elt F)) : (after (ops1 (F := F)) U (Proc.devRef .tc main_c_12)) = (constantI S_ 32 0#32) :=
  Cert.Lib.ReadFinal.nullary (y := main_c_12) (v := (constantI S_ 32 0#32)) writes1 22 rfl (by decide) U
theorem s_main_v68 (U : Valuation τ sig (Elt F)) : (after (ops1 (F := F)) U (Proc.devRef .tc main_v68)) = (broadcastInDim S300000 ![] bcast_S_S300000 : (⟨S_, .i32⟩ : BufTy).Contents (Elt F) → (⟨S300000, .i32⟩ : BufTy).Contents (Elt F)) (after (ops1 (F := F)) U (Proc.devRef .tc main_c_12)) :=
  Cert.Lib.ReadFinal.unary (x := main_c_12) (y := main_v68) (f := (broadcastInDim S300000 ![] bcast_S_S300000 : (⟨S_, .i32⟩ : BufTy).Contents (Elt F) → (⟨S300000, .i32⟩ : BufTy).Contents (Elt F))) writes1 23 rfl (by decide) (by decide) U
theorem s_main_v69 (U : Valuation τ sig (Elt F)) : (after (ops1 (F := F)) U (Proc.devRef .tc main_v69)) = (cmpi .slt : (⟨S300000, .i32⟩ : BufTy).Contents (Elt F) → (⟨S300000, .i32⟩ : BufTy).Contents (Elt F) → (⟨S300000, .i1⟩ : BufTy).Contents (Elt F)) (after (ops1 (F := F)) U (Proc.devRef .tc main_v3)) (after (ops1 (F := F)) U (Proc.devRef .tc main_v68)) :=
  Cert.Lib.ReadFinal.binary (a := main_v3) (b := main_v68) (y := main_v69) (f := (cmpi .slt : (⟨S300000, .i32⟩ : BufTy).Contents (Elt F) → (⟨S300000, .i32⟩ : BufTy).Contents (Elt F) → (⟨S300000, .i1⟩ : BufTy).Contents (Elt F))) writes1 24 rfl (by decide) (by decide) (by decide) U
theorem s_main_c_13 (U : Valuation τ sig (Elt F)) : (after (ops1 (F := F)) U (Proc.devRef .tc main_c_13)) = (constantI S_ 32 30000#32) :=
  Cert.Lib.ReadFinal.nullary (y := main_c_13) (v := (constantI S_ 32 30000#32)) writes1 25 rfl (by decide) U
theorem s_main_v70 (U : Valuation τ sig (Elt F)) : (after (ops1 (F := F)) U (Proc.devRef .tc main_v70)) = (broadcastInDim S300000 ![] bcast_S_S300000 : (⟨S_, .i32⟩ : BufTy).Contents (Elt F) → (⟨S300000, .i32⟩ : BufTy).Contents (Elt F)) (after (ops1 (F := F)) U (Proc.devRef .tc main_c_13)) :=
  Cert.Lib.ReadFinal.unary (x := main_c_13) (y := main_v70) (f := (broadcastInDim S300000 ![] bcast_S_S300000 : (⟨S_, .i32⟩ : BufTy).Contents (Elt F) → (⟨S300000, .i32⟩ : BufTy).Contents (Elt F))) writes1 26 rfl (by decide) (by decide) U
theorem s_main_v71 (U : Valuation τ sig (Elt F)) : (after (ops1 (F := F)) U (Proc.devRef .tc main_v71)) = (addi : (⟨S300000, .i32⟩ : BufTy).Contents (Elt F) → (⟨S300000, .i32⟩ : BufTy).Contents (Elt F) → (⟨S300000, .i32⟩ : BufTy).Contents (Elt F)) (after (ops1 (F := F)) U (Proc.devRef .tc main_v3)) (after (ops1 (F := F)) U (Proc.devRef .tc main_v70)) :=
  Cert.Lib.ReadFinal.binary (a := main_v3) (b := main_v70) (y := main_v71) (f := (addi : (⟨S300000, .i32⟩ : BufTy).Contents (Elt F) → (⟨S300000, .i32⟩ : BufTy).Contents (Elt F) → (⟨S300000, .i32⟩ : BufTy).Contents (Elt F))) writes1 27 rfl (by decide) (by decide) (by decide) U
theorem s_main_v72 (U : Valuation τ sig (Elt F)) : (after (ops1 (F := F)) U (Proc.devRef .tc main_v72)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops1 (F := F)) U (Proc.devRef .tc main_v69)) (after (ops1 (F := F)) U (Proc.devRef .tc main_v71)) (after (ops1 (F := F)) U (Proc.devRef .tc main_v3)) :=
  Cert.Lib.ReadFinal.ternary (c := main_v69) (a := main_v71) (b := main_v3) (y := main_v72) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes1 28 rfl (by decide) (by decide) (by decide) (by decide) U
theorem s_main_v73 (U : Valuation τ sig (Elt F)) : (after (ops1 (F := F)) U (Proc.devRef .tc main_v73)) = (broadcastInDim S300000x1 ![0] bcast_S300000_S300000x1_0 : (⟨S300000, .i32⟩ : BufTy).Contents (Elt F) → (⟨S300000x1, .i32⟩ : BufTy).Contents (Elt F)) (after (ops1 (F := F)) U (Proc.devRef .tc main_v72)) :=
  Cert.Lib.ReadFinal.unary (x := main_v72) (y := main_v73) (f := (broadcastInDim S300000x1 ![0] bcast_S300000_S300000x1_0 : (⟨S300000, .i32⟩ : BufTy).Contents (Elt F) → (⟨S300000x1, .i32⟩ : BufTy).Contents (Elt F))) writes1 29 rfl (by decide) (by decide) U
theorem s_main_v74 (U : Valuation τ sig (Elt F)) : (after (ops1 (F := F)) U (Proc.devRef .tc main_v74)) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops1 (F := F)) U (Proc.devRef .tc main_v22)) (after (ops1 (F := F)) U (Proc.devRef .tc main_v73)) :=
  Cert.Lib.ReadFinal.binary (a := main_v22) (b := main_v73) (y := main_v74) (f := ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F))) writes1 30 rfl (by decide) (by decide) (by decide) U
theorem s_main_c_14 (U : Valuation τ sig (Elt F)) : (after (ops1 (F := F)) U (Proc.devRef .tc main_c_14)) = (constantI S_ 32 0#32) :=
  Cert.Lib.ReadFinal.nullary (y := main_c_14) (v := (constantI S_ 32 0#32)) writes1 31 rfl (by decide) U
theorem s_main_v75 (U : Valuation τ sig (Elt F)) : (after (ops1 (F := F)) U (Proc.devRef .tc main_v75)) = (broadcastInDim S300000 ![] bcast_S_S300000 : (⟨S_, .i32⟩ : BufTy).Contents (Elt F) → (⟨S300000, .i32⟩ : BufTy).Contents (Elt F)) (after (ops1 (F := F)) U (Proc.devRef .tc main_c_14)) :=
  Cert.Lib.ReadFinal.unary (x := main_c_14) (y := main_v75) (f := (broadcastInDim S300000 ![] bcast_S_S300000 : (⟨S_, .i32⟩ : BufTy).Contents (Elt F) → (⟨S300000, .i32⟩ : BufTy).Contents (Elt F))) writes1 32 rfl (by decide) (by decide) U
theorem s_main_v76 (U : Valuation τ sig (Elt F)) : (after (ops1 (F := F)) U (Proc.devRef .tc main_v76)) = (cmpi .slt : (⟨S300000, .i32⟩ : BufTy).Contents (Elt F) → (⟨S300000, .i32⟩ : BufTy).Contents (Elt F) → (⟨S300000, .i1⟩ : BufTy).Contents (Elt F)) (after (ops1 (F := F)) U (Proc.devRef .tc main_v1)) (after (ops1 (F := F)) U (Proc.devRef .tc main_v75)) :=
  Cert.Lib.ReadFinal.binary (a := main_v1) (b := main_v75) (y := main_v76) (f := (cmpi .slt : (⟨S300000, .i32⟩ : BufTy).Contents (Elt F) → (⟨S300000, .i32⟩ : BufTy).Contents (Elt F) → (⟨S300000, .i1⟩ : BufTy).Contents (Elt F))) writes1 33 rfl (by decide) (by decide) (by decide) U
theorem s_main_c_15 (U : Valuation τ sig (Elt F)) : (after (ops1 (F := F)) U (Proc.devRef .tc main_c_15)) = (constantI S_ 32 30000#32) :=
  Cert.Lib.ReadFinal.nullary (y := main_c_15) (v := (constantI S_ 32 30000#32)) writes1 34 rfl (by decide) U
theorem s_main_v77 (U : Valuation τ sig (Elt F)) : (after (ops1 (F := F)) U (Proc.devRef .tc main_v77)) = (broadcastInDim S300000 ![] bcast_S_S300000 : (⟨S_, .i32⟩ : BufTy).Contents (Elt F) → (⟨S300000, .i32⟩ : BufTy).Contents (Elt F)) (after (ops1 (F := F)) U (Proc.devRef .tc main_c_15)) :=
  Cert.Lib.ReadFinal.unary (x := main_c_15) (y := main_v77) (f := (broadcastInDim S300000 ![] bcast_S_S300000 : (⟨S_, .i32⟩ : BufTy).Contents (Elt F) → (⟨S300000, .i32⟩ : BufTy).Contents (Elt F))) writes1 35 rfl (by decide) (by decide) U
theorem s_main_v78 (U : Valuation τ sig (Elt F)) : (after (ops1 (F := F)) U (Proc.devRef .tc main_v78)) = (addi : (⟨S300000, .i32⟩ : BufTy).Contents (Elt F) → (⟨S300000, .i32⟩ : BufTy).Contents (Elt F) → (⟨S300000, .i32⟩ : BufTy).Contents (Elt F)) (after (ops1 (F := F)) U (Proc.devRef .tc main_v1)) (after (ops1 (F := F)) U (Proc.devRef .tc main_v77)) :=
  Cert.Lib.ReadFinal.binary (a := main_v1) (b := main_v77) (y := main_v78) (f := (addi : (⟨S300000, .i32⟩ : BufTy).Contents (Elt F) → (⟨S300000, .i32⟩ : BufTy).Contents (Elt F) → (⟨S300000, .i32⟩ : BufTy).Contents (Elt F))) writes1 36 rfl (by decide) (by decide) (by decide) U
theorem s_main_v79 (U : Valuation τ sig (Elt F)) : (after (ops1 (F := F)) U (Proc.devRef .tc main_v79)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops1 (F := F)) U (Proc.devRef .tc main_v76)) (after (ops1 (F := F)) U (Proc.devRef .tc main_v78)) (after (ops1 (F := F)) U (Proc.devRef .tc main_v1)) :=
  Cert.Lib.ReadFinal.ternary (c := main_v76) (a := main_v78) (b := main_v1) (y := main_v79) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes1 37 rfl (by decide) (by decide) (by decide) (by decide) U
theorem s_main_v80 (U : Valuation τ sig (Elt F)) : (after (ops1 (F := F)) U (Proc.devRef .tc main_v80)) = (broadcastInDim S300000x1 ![0] bcast_S300000_S300000x1_0 : (⟨S300000, .i32⟩ : BufTy).Contents (Elt F) → (⟨S300000x1, .i32⟩ : BufTy).Contents (Elt F)) (after (ops1 (F := F)) U (Proc.devRef .tc main_v79)) :=
  Cert.Lib.ReadFinal.unary (x := main_v79) (y := main_v80) (f := (broadcastInDim S300000x1 ![0] bcast_S300000_S300000x1_0 : (⟨S300000, .i32⟩ : BufTy).Contents (Elt F) → (⟨S300000x1, .i32⟩ : BufTy).Contents (Elt F))) writes1 38 rfl (by decide) (by decide) U
theorem s_main_v81 (U : Valuation τ sig (Elt F)) : (after (ops1 (F := F)) U (Proc.devRef .tc main_v81)) = ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (after (ops1 (F := F)) U (Proc.devRef .tc main_arg4)) (after (ops1 (F := F)) U (Proc.devRef .tc main_v80)) :=
  Cert.Lib.ReadFinal.binary (a := main_arg4) (b := main_v80) (y := main_v81) (f := ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F))) writes1 39 rfl (by decide) (by decide) (by decide) U
theorem s_main_c_16 (U : Valuation τ sig (Elt F)) : (after (ops1 (F := F)) U (Proc.devRef .tc main_c_16)) = (constantI S_ 32 0#32) :=
  Cert.Lib.ReadFinal.nullary (y := main_c_16) (v := (constantI S_ 32 0#32)) writes1 40 rfl (by decide) U
theorem s_main_v82 (U : Valuation τ sig (Elt F)) : (after (ops1 (F := F)) U (Proc.devRef .tc main_v82)) = (broadcastInDim S300000 ![] bcast_S_S300000 : (⟨S_, .i32⟩ : BufTy).Contents (Elt F) → (⟨S300000, .i32⟩ : BufTy).Contents (Elt F)) (after (ops1 (F := F)) U (Proc.devRef .tc main_c_16)) :=
  Cert.Lib.ReadFinal.unary (x := main_c_16) (y := main_v82) (f := (broadcastInDim S300000 ![] bcast_S_S300000 : (⟨S_, .i32⟩ : BufTy).Contents (Elt F) → (⟨S300000, .i32⟩ : BufTy).Contents (Elt F))) writes1 41 rfl (by decide) (by decide) U
theorem s_main_v83 (U : Valuation τ sig (Elt F)) : (after (ops1 (F := F)) U (Proc.devRef .tc main_v83)) = (cmpi .slt : (⟨S300000, .i32⟩ : BufTy).Contents (Elt F) → (⟨S300000, .i32⟩ : BufTy).Contents (Elt F) → (⟨S300000, .i1⟩ : BufTy).Contents (Elt F)) (after (ops1 (F := F)) U (Proc.devRef .tc main_v81)) (after (ops1 (F := F)) U (Proc.devRef .tc main_v82)) :=
  Cert.Lib.ReadFinal.binary (a := main_v81) (b := main_v82) (y := main_v83) (f := (cmpi .slt : (⟨S300000, .i32⟩ : BufTy).Contents (Elt F) → (⟨S300000, .i32⟩ : BufTy).Contents (Elt F) → (⟨S300000, .i1⟩ : BufTy).Contents (Elt F))) writes1 42 rfl (by decide) (by decide) (by decide) U
theorem s_main_c_17 (U : Valuation τ sig (Elt F)) : (after (ops1 (F := F)) U (Proc.devRef .tc main_c_17)) = (constantI S_ 32 64#32) :=
  Cert.Lib.ReadFinal.nullary (y := main_c_17) (v := (constantI S_ 32 64#32)) writes1 43 rfl (by decide) U
theorem s_main_v84 (U : Valuation τ sig (Elt F)) : (after (ops1 (F := F)) U (Proc.devRef .tc main_v84)) = (broadcastInDim S300000 ![] bcast_S_S300000 : (⟨S_, .i32⟩ : BufTy).Contents (Elt F) → (⟨S300000, .i32⟩ : BufTy).Contents (Elt F)) (after (ops1 (F := F)) U (Proc.devRef .tc main_c_17)) :=
  Cert.Lib.ReadFinal.unary (x := main_c_17) (y := main_v84) (f := (broadcastInDim S300000 ![] bcast_S_S300000 : (⟨S_, .i32⟩ : BufTy).Contents (Elt F) → (⟨S300000, .i32⟩ : BufTy).Contents (Elt F))) writes1 44 rfl (by decide) (by decide) U
theorem s_main_v85 (U : Valuation τ sig (Elt F)) : (after (ops1 (F := F)) U (Proc.devRef .tc main_v85)) = (addi : (⟨S300000, .i32⟩ : BufTy).Contents (Elt F) → (⟨S300000, .i32⟩ : BufTy).Contents (Elt F) → (⟨S300000, .i32⟩ : BufTy).Contents (Elt F)) (after (ops1 (F := F)) U (Proc.devRef .tc main_v81)) (after (ops1 (F := F)) U (Proc.devRef .tc main_v84)) :=
  Cert.Lib.ReadFinal.binary (a := main_v81) (b := main_v84) (y := main_v85) (f := (addi : (⟨S300000, .i32⟩ : BufTy).Contents (Elt F) → (⟨S300000, .i32⟩ : BufTy).Contents (Elt F) → (⟨S300000, .i32⟩ : BufTy).Contents (Elt F))) writes1 45 rfl (by decide) (by decide) (by decide) U
theorem s_main_v86 (U : Valuation τ sig (Elt F)) : (after (ops1 (F := F)) U (Proc.devRef .tc main_v86)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops1 (F := F)) U (Proc.devRef .tc main_v83)) (after (ops1 (F := F)) U (Proc.devRef .tc main_v85)) (after (ops1 (F := F)) U (Proc.devRef .tc main_v81)) :=
  Cert.Lib.ReadFinal.ternary (c := main_v83) (a := main_v85) (b := main_v81) (y := main_v86) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes1 46 rfl (by decide) (by decide) (by decide) (by decide) U
theorem s_main_v87 (U : Valuation τ sig (Elt F)) : (after (ops1 (F := F)) U (Proc.devRef .tc main_v87)) = (broadcastInDim S300000x1 ![0] bcast_S300000_S300000x1_0 : (⟨S300000, .i32⟩ : BufTy).Contents (Elt F) → (⟨S300000x1, .i32⟩ : BufTy).Contents (Elt F)) (after (ops1 (F := F)) U (Proc.devRef .tc main_v86)) :=
  Cert.Lib.ReadFinal.unary (x := main_v86) (y := main_v87) (f := (broadcastInDim S300000x1 ![0] bcast_S300000_S300000x1_0 : (⟨S300000, .i32⟩ : BufTy).Contents (Elt F) → (⟨S300000x1, .i32⟩ : BufTy).Contents (Elt F))) writes1 47 rfl (by decide) (by decide) U
theorem s_main_v88 (U : Valuation τ sig (Elt F)) : (after (ops1 (F := F)) U (Proc.devRef .tc main_v88)) = ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops1 (F := F)) U (Proc.devRef .tc main_v60)) (after (ops1 (F := F)) U (Proc.devRef .tc main_v87)) :=
  Cert.Lib.ReadFinal.binary (a := main_v60) (b := main_v87) (y := main_v88) (f := ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F))) writes1 48 rfl (by decide) (by decide) (by decide) U
theorem s_main_v89 (U : Valuation τ sig (Elt F)) : (after (ops1 (F := F)) U (Proc.devRef .tc main_v89)) = concatenate S300000x192 1 [⟨S300000x64, (after (ops1 (F := F)) U (Proc.devRef .tc main_v67))⟩, ⟨S300000x64, (after (ops1 (F := F)) U (Proc.devRef .tc main_v74))⟩, ⟨S300000x32, (after (ops1 (F := F)) U (Proc.devRef .tc main_v41))⟩, ⟨S300000x32, (after (ops1 (F := F)) U (Proc.devRef .tc main_v88))⟩] concatenates_S300000x64_S300000x64_S300000x32_S300000x32_S300000x192_d1 :=
  (Cert.Lib.SingleAssignment.read_nary (t := []) (xs := ![main_v67, main_v74, main_v41, main_v88]) (y := main_v89) (f := (fun u => concatenate S300000x192 1 [⟨S300000x64, u 0⟩, ⟨S300000x64, u 1⟩, ⟨S300000x32, u 2⟩, ⟨S300000x32, u 3⟩] concatenates_S300000x64_S300000x64_S300000x32_S300000x32_S300000x192_d1)) writes1 Cert.Lib.SingleAssignment.Writes.nil 49 rfl (by decide) (by decide) U).trans rfl
theorem s_main_v90 (U : Valuation τ sig (Elt F)) : (after (ops1 (F := F)) U (Proc.devRef .tc main_v90)) = ((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (after (ops1 (F := F)) U (Proc.devRef .tc main_v89)) (after (ops1 (F := F)) U (Proc.devRef .tc main_arg11)) :=
  Cert.Lib.ReadFinal.binary (a := main_v89) (b := main_arg11) (y := main_v90) (f := ((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F))) writes1 50 rfl (by decide) (by decide) (by decide) U
theorem s_main_v91 (U : Valuation τ sig (Elt F)) : (after (ops1 (F := F)) U (Proc.devRef .tc main_v91)) = (broadcastInDim S1x64 ![1] bcast_S64_S1x64_1 : (⟨S64, .f32⟩ : BufTy).Contents (Elt F) → (⟨S1x64, .f32⟩ : BufTy).Contents (Elt F)) (after (ops1 (F := F)) U (Proc.devRef .tc main_arg12)) :=
  Cert.Lib.ReadFinal.unary (x := main_arg12) (y := main_v91) (f := (broadcastInDim S1x64 ![1] bcast_S64_S1x64_1 : (⟨S64, .f32⟩ : BufTy).Contents (Elt F) → (⟨S1x64, .f32⟩ : BufTy).Contents (Elt F))) writes1 51 rfl (by decide) (by decide) U
theorem s_main_v92 (U : Valuation τ sig (Elt F)) : (after (ops1 (F := F)) U (Proc.devRef .tc main_v92)) = (broadcastInDim S300000x64 ![0, 1] bcast_S1x64_S300000x64_0_1 : (⟨S1x64, .f32⟩ : BufTy).Contents (Elt F) → (⟨S300000x64, .f32⟩ : BufTy).Contents (Elt F)) (after (ops1 (F := F)) U (Proc.devRef .tc main_v91)) :=
  Cert.Lib.ReadFinal.unary (x := main_v91) (y := main_v92) (f := (broadcastInDim S300000x64 ![0, 1] bcast_S1x64_S300000x64_0_1 : (⟨S1x64, .f32⟩ : BufTy).Contents (Elt F) → (⟨S300000x64, .f32⟩ : BufTy).Contents (Elt F))) writes1 52 rfl (by decide) (by decide) U
theorem s_main_v93 (U : Valuation τ sig (Elt F)) : (after (ops1 (F := F)) U (Proc.devRef .tc main_v93)) = (addf : (⟨S300000x64, .f32⟩ : BufTy).Contents (Elt F) → (⟨S300000x64, .f32⟩ : BufTy).Contents (Elt F) → (⟨S300000x64, .f32⟩ : BufTy).Contents (Elt F)) (after (ops1 (F := F)) U (Proc.devRef .tc main_v90)) (after (ops1 (F := F)) U (Proc.devRef .tc main_v92)) :=
  Cert.Lib.ReadFinal.binary (a := main_v90) (b := main_v92) (y := main_v93) (f := (addf : (⟨S300000x64, .f32⟩ : BufTy).Contents (Elt F) → (⟨S300000x64, .f32⟩ : BufTy).Contents (Elt F) → (⟨S300000x64, .f32⟩ : BufTy).Contents (Elt F))) writes1 53 rfl (by decide) (by decide) (by decide) U
theorem s_main_call3_cst (U : Valuation τ sig (Elt F)) : (after (ops1 (F := F)) U (Proc.devRef .tc main_call3_cst)) = (constant (F := F) S_ .f32 0x00000000#32) :=
  Cert.Lib.ReadFinal.nullary (y := main_call3_cst) (v := (constant (F := F) S_ .f32 0x00000000#32)) writes1 54 rfl (by decide) U
theorem s_main_call3_v0 (U : Valuation τ sig (Elt F)) : (after (ops1 (F := F)) U (Proc.devRef .tc main_call3_v0)) = ((broadcastInDim S300000x64 ![] bcast_S_S300000x64) : (⟨S_, .f32⟩ : BufTy).Contents (Elt F) → (⟨S300000x64, .f32⟩ : BufTy).Contents (Elt F)) (after (ops1 (F := F)) U (Proc.devRef .tc main_call3_cst)) :=
  Cert.Lib.ReadFinal.unary (x := main_call3_cst) (y := main_call3_v0) (f := ((broadcastInDim S300000x64 ![] bcast_S_S300000x64) : (⟨S_, .f32⟩ : BufTy).Contents (Elt F) → (⟨S300000x64, .f32⟩ : BufTy).Contents (Elt F))) writes1 55 rfl (by decide) (by decide) U
theorem s_main_v94 (U : Valuation τ sig (Elt F)) : (after (ops1 (F := F)) U (Proc.devRef .tc main_v94)) = (maximumf : (⟨S300000x64, .f32⟩ : BufTy).Contents (Elt F) → (⟨S300000x64, .f32⟩ : BufTy).Contents (Elt F) → (⟨S300000x64, .f32⟩ : BufTy).Contents (Elt F)) (after (ops1 (F := F)) U (Proc.devRef .tc main_v93)) (after (ops1 (F := F)) U (Proc.devRef .tc main_call3_v0)) :=
  Cert.Lib.ReadFinal.binary (a := main_v93) (b := main_call3_v0) (y := main_v94) (f := (maximumf : (⟨S300000x64, .f32⟩ : BufTy).Contents (Elt F) → (⟨S300000x64, .f32⟩ : BufTy).Contents (Elt F) → (⟨S300000x64, .f32⟩ : BufTy).Contents (Elt F))) writes1 56 rfl (by decide) (by decide) (by decide) U
theorem s_main_cst_18 (U : Valuation τ sig (Elt F)) : (after (ops1 (F := F)) U (Proc.devRef .tc main_cst_18)) = (constant (F := F) S_ .f32 0x00000000#32) :=
  Cert.Lib.ReadFinal.nullary (y := main_cst_18) (v := (constant (F := F) S_ .f32 0x00000000#32)) writes1 57 rfl (by decide) U
theorem s_main_v95 (U : Valuation τ sig (Elt F)) : (after (ops1 (F := F)) U (Proc.devRef .tc main_v95)) = (broadcastInDim S30000x64 ![] bcast_S_S30000x64 : (⟨S_, .f32⟩ : BufTy).Contents (Elt F) → (⟨S30000x64, .f32⟩ : BufTy).Contents (Elt F)) (after (ops1 (F := F)) U (Proc.devRef .tc main_cst_18)) :=
  Cert.Lib.ReadFinal.unary (x := main_cst_18) (y := main_v95) (f := (broadcastInDim S30000x64 ![] bcast_S_S30000x64 : (⟨S_, .f32⟩ : BufTy).Contents (Elt F) → (⟨S30000x64, .f32⟩ : BufTy).Contents (Elt F))) writes1 58 rfl (by decide) (by decide) U
theorem s_main_v96 (U : Valuation τ sig (Elt F)) : (after (ops1 (F := F)) U (Proc.devRef .tc main_v96)) = (broadcastInDim S300000x1 ![0] bcast_S300000_S300000x1_0 : (⟨S300000, .i32⟩ : BufTy).Contents (Elt F) → (⟨S300000x1, .i32⟩ : BufTy).Contents (Elt F)) (after (ops1 (F := F)) U (Proc.devRef .tc main_v3)) :=
  Cert.Lib.ReadFinal.unary (x := main_v3) (y := main_v96) (f := (broadcastInDim S300000x1 ![0] bcast_S300000_S300000x1_0 : (⟨S300000, .i32⟩ : BufTy).Contents (Elt F) → (⟨S300000x1, .i32⟩ : BufTy).Contents (Elt F))) writes1 59 rfl (by decide) (by decide) U
theorem s_main_v97 (U : Valuation τ sig (Elt F)) : (after (ops1 (F := F)) U (Proc.devRef .tc main_v97)) = ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (after (ops1 (F := F)) U (Proc.devRef .tc main_v95)) (after (ops1 (F := F)) U (Proc.devRef .tc main_v96)) (after (ops1 (F := F)) U (Proc.devRef .tc main_v94)) :=
  Cert.Lib.ReadFinal.ternary (c := main_v95) (a := main_v96) (b := main_v94) (y := main_v97) (f := ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F))) writes1 60 rfl (by decide) (by decide) (by decide) (by decide) U
theorem s_main_cst_19 (U : Valuation τ sig (Elt F)) : (after (ops1 (F := F)) U (Proc.devRef .tc main_cst_19)) = (constant (F := F) S_ .f32 0x3F800000#32) :=
  Cert.Lib.ReadFinal.nullary (y := main_cst_19) (v := (constant (F := F) S_ .f32 0x3F800000#32)) writes1 61 rfl (by decide) U

end Cert.ReferenceIdeal.Hand

end
-- ==== Proof.Ref.Lift1.lean ====
-- written by: gen_ref.js <unit directory>
/- The buffers window 1 of the reference program's @main writes are written by no later window: each holds at the end of @main what it held at every boundary after window 1. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_v49 (V : Valuation τ sig (Elt F)) : (after (ops (F := F)) V (Proc.devRef .tc main_v49)) = (U6 V (Proc.devRef .tc main_v49)) := congrFun (after_ops_eq V) _
theorem lift5_main_v49 (V : Valuation τ sig (Elt F)) : (after (ops (F := F)) V (Proc.devRef .tc main_v49)) = (U5 V (Proc.devRef .tc main_v49)) :=
  (lift6_main_v49 V).trans (after_of_not_mem writes5 (by decide) (U5 V))
theorem lift4_main_v49 (V : Valuation τ sig (Elt F)) : (after (ops (F := F)) V (Proc.devRef .tc main_v49)) = (U4 V (Proc.devRef .tc main_v49)) :=
  (lift5_main_v49 V).trans (after_of_not_mem writes4 (by decide) (U4 V))
theorem lift3_main_v49 (V : Valuation τ sig (Elt F)) : (after (ops (F := F)) V (Proc.devRef .tc main_v49)) = (U3 V (Proc.devRef .tc main_v49)) :=
  (lift4_main_v49 V).trans (after_of_not_mem writes3 (by decide) (U3 V))
theorem lift2_main_v49 (V : Valuation τ sig (Elt F)) : (after (ops (F := F)) V (Proc.devRef .tc main_v49)) = (U2 V (Proc.devRef .tc main_v49)) :=
  (lift3_main_v49 V).trans (after_of_not_mem writes2 (by decide) (U2 V))
theorem lift6_main_v50 (V : Valuation τ sig (Elt F)) : (after (ops (F := F)) V (Proc.devRef .tc main_v50)) = (U6 V (Proc.devRef .tc main_v50)) := congrFun (after_ops_eq V) _
theorem lift5_main_v50 (V : Valuation τ sig (Elt F)) : (after (ops (F := F)) V (Proc.devRef .tc main_v50)) = (U5 V (Proc.devRef .tc main_v50)) :=
  (lift6_main_v50 V).trans (after_of_not_mem writes5 (by decide) (U5 V))
theorem lift4_main_v50 (V : Valuation τ sig (Elt F)) : (after (ops (F := F)) V (Proc.devRef .tc main_v50)) = (U4 V (Proc.devRef .tc main_v50)) :=
  (lift5_main_v50 V).trans (after_of_not_mem writes4 (by decide) (U4 V))
theorem lift3_main_v50 (V : Valuation τ sig (Elt F)) : (after (ops (F := F)) V (Proc.devRef .tc main_v50)) = (U3 V (Proc.devRef .tc main_v50)) :=
  (lift4_main_v50 V).trans (after_of_not_mem writes3 (by decide) (U3 V))
theorem lift2_main_v50 (V : Valuation τ sig (Elt F)) : (after (ops (F := F)) V (Proc.devRef .tc main_v50)) = (U2 V (Proc.devRef .tc main_v50)) :=
  (lift3_main_v50 V).trans (after_of_not_mem writes2 (by decide) (U2 V))
theorem lift6_main_v51 (V : Valuation τ sig (Elt F)) : (after (ops (F := F)) V (Proc.devRef .tc main_v51)) = (U6 V (Proc.devRef .tc main_v51)) := congrFun (after_ops_eq V) _
theorem lift5_main_v51 (V : Valuation τ sig (Elt F)) : (after (ops (F := F)) V (Proc.devRef .tc main_v51)) = (U5 V (Proc.devRef .tc main_v51)) :=
  (lift6_main_v51 V).trans (after_of_not_mem writes5 (by decide) (U5 V))
theorem lift4_main_v51 (V : Valuation τ sig (Elt F)) : (after (ops (F := F)) V (Proc.devRef .tc main_v51)) = (U4 V (Proc.devRef .tc main_v51)) :=
  (lift5_main_v51 V).trans (after_of_not_mem writes4 (by decide) (U4 V))
theorem lift3_main_v51 (V : Valuation τ sig (Elt F)) : (after (ops (F := F)) V (Proc.devRef .tc main_v51)) = (U3 V (Proc.devRef .tc main_v51)) :=
  (lift4_main_v51 V).trans (after_of_not_mem writes3 (by decide) (U3 V))
theorem lift2_main_v51 (V : Valuation τ sig (Elt F)) : (after (ops (F := F)) V (Proc.devRef .tc main_v51)) = (U2 V (Proc.devRef .tc main_v51)) :=
  (lift3_main_v51 V).trans (after_of_not_mem writes2 (by decide) (U2 V))
theorem lift6_main_cst_9 (V : Valuation τ sig (Elt F)) : (after (ops (F := F)) V (Proc.devRef .tc main_cst_9)) = (U6 V (Proc.devRef .tc main_cst_9)) := congrFun (after_ops_eq V) _
theorem lift5_main_cst_9 (V : Valuation τ sig (Elt F)) : (after (ops (F := F)) V (Proc.devRef .tc main_cst_9)) = (U5 V (Proc.devRef .tc main_cst_9)) :=
  (lift6_main_cst_9 V).trans (after_of_not_mem writes5 (by decide) (U5 V))
theorem lift4_main_cst_9 (V : Valuation τ sig (Elt F)) : (after (ops (F := F)) V (Proc.devRef .tc main_cst_9)) = (U4 V (Proc.devRef .tc main_cst_9)) :=
  (lift5_main_cst_9 V).trans (after_of_not_mem writes4 (by decide) (U4 V))
theorem lift3_main_cst_9 (V : Valuation τ sig (Elt F)) : (after (ops (F := F)) V (Proc.devRef .tc main_cst_9)) = (U3 V (Proc.devRef .tc main_cst_9)) :=
  (lift4_main_cst_9 V).trans (after_of_not_mem writes3 (by decide) (U3 V))
theorem lift2_main_cst_9 (V : Valuation τ sig (Elt F)) : (after (ops (F := F)) V (Proc.devRef .tc main_cst_9)) = (U2 V (Proc.devRef .tc main_cst_9)) :=
  (lift3_main_cst_9 V).trans (after_of_not_mem writes2 (by decide) (U2 V))
theorem lift6_main_v52 (V : Valuation τ sig (Elt F)) : (after (ops (F := F)) V (Proc.devRef .tc main_v52)) = (U6 V (Proc.devRef .tc main_v52)) := congrFun (after_ops_eq V) _
theorem lift5_main_v52 (V : Valuation τ sig (Elt F)) : (after (ops (F := F)) V (Proc.devRef .tc main_v52)) = (U5 V (Proc.devRef .tc main_v52)) :=
  (lift6_main_v52 V).trans (after_of_not_mem writes5 (by decide) (U5 V))
theorem lift4_main_v52 (V : Valuation τ sig (Elt F)) : (after (ops (F := F)) V (Proc.devRef .tc main_v52)) = (U4 V (Proc.devRef .tc main_v52)) :=
  (lift5_main_v52 V).trans (after_of_not_mem writes4 (by decide) (U4 V))
theorem lift3_main_v52 (V : Valuation τ sig (Elt F)) : (after (ops (F := F)) V (Proc.devRef .tc main_v52)) = (U3 V (Proc.devRef .tc main_v52)) :=
  (lift4_main_v52 V).trans (after_of_not_mem writes3 (by decide) (U3 V))
theorem lift2_main_v52 (V : Valuation τ sig (Elt F)) : (after (ops (F := F)) V (Proc.devRef .tc main_v52)) = (U2 V (Proc.devRef .tc main_v52)) :=
  (lift3_main_v52 V).trans (after_of_not_mem writes2 (by decide) (U2 V))
theorem lift6_main_v53 (V : Valuation τ sig (Elt F)) : (after (ops (F := F)) V (Proc.devRef .tc main_v53)) = (U6 V (Proc.devRef .tc main_v53)) := congrFun (after_ops_eq V) _
theorem lift5_main_v53 (V : Valuation τ sig (Elt F)) : (after (ops (F := F)) V (Proc.devRef .tc main_v53)) = (U5 V (Proc.devRef .tc main_v53)) :=
  (lift6_main_v53 V).trans (after_of_not_mem writes5 (by decide) (U5 V))
theorem lift4_main_v53 (V : Valuation τ sig (Elt F)) : (after (ops (F := F)) V (Proc.devRef .tc main_v53)) = (U4 V (Proc.devRef .tc main_v53)) :=
  (lift5_main_v53 V).trans (after_of_not_mem writes4 (by decide) (U4 V))
theorem lift3_main_v53 (V : Valuation τ sig (Elt F)) : (after (ops (F := F)) V (Proc.devRef .tc main_v53)) = (U3 V (Proc.devRef .tc main_v53)) :=
  (lift4_main_v53 V).trans (after_of_not_mem writes3 (by decide) (U3 V))
theorem lift2_main_v53 (V : Valuation τ sig (Elt F)) : (after (ops (F := F)) V (Proc.devRef .tc main_v53)) = (U2 V (Proc.devRef .tc main_v53)) :=
  (lift3_main_v53 V).trans (after_of_not_mem writes2 (by decide) (U2 V))
theorem lift6_main_v54 (V : Valuation τ sig (Elt F)) : (after (ops (F := F)) V (Proc.devRef .tc main_v54)) = (U6 V (Proc.devRef .tc main_v54)) := congrFun (after_ops_eq V) _
theorem lift5_main_v54 (V : Valuation τ sig (Elt F)) : (after (ops (F := F)) V (Proc.devRef .tc main_v54)) = (U5 V (Proc.devRef .tc main_v54)) :=
  (lift6_main_v54 V).trans (after_of_not_mem writes5 (by decide) (U5 V))
theorem lift4_main_v54 (V : Valuation τ sig (Elt F)) : (after (ops (F := F)) V (Proc.devRef .tc main_v54)) = (U4 V (Proc.devRef .tc main_v54)) :=
  (lift5_main_v54 V).trans (after_of_not_mem writes4 (by decide) (U4 V))
theorem lift3_main_v54 (V : Valuation τ sig (Elt F)) : (after (ops (F := F)) V (Proc.devRef .tc main_v54)) = (U3 V (Proc.devRef .tc main_v54)) :=
  (lift4_main_v54 V).trans (after_of_not_mem writes3 (by decide) (U3 V))
theorem lift2_main_v54 (V : Valuation τ sig (Elt F)) : (after (ops (F := F)) V (Proc.devRef .tc main_v54)) = (U2 V (Proc.devRef .tc main_v54)) :=
  (lift3_main_v54 V).trans (after_of_not_mem writes2 (by decide) (U2 V))
theorem lift6_main_v55 (V : Valuation τ sig (Elt F)) : (after (ops (F := F)) V (Proc.devRef .tc main_v55)) = (U6 V (Proc.devRef .tc main_v55)) := congrFun (after_ops_eq V) _
theorem lift5_main_v55 (V : Valuation τ sig (Elt F)) : (after (ops (F := F)) V (Proc.devRef .tc main_v55)) = (U5 V (Proc.devRef .tc main_v55)) :=
  (lift6_main_v55 V).trans (after_of_not_mem writes5 (by decide) (U5 V))
theorem lift4_main_v55 (V : Valuation τ sig (Elt F)) : (after (ops (F := F)) V (Proc.devRef .tc main_v55)) = (U4 V (Proc.devRef .tc main_v55)) :=
  (lift5_main_v55 V).trans (after_of_not_mem writes4 (by decide) (U4 V))
theorem lift3_main_v55 (V : Valuation τ sig (Elt F)) : (after (ops (F := F)) V (Proc.devRef .tc main_v55)) = (U3 V (Proc.devRef .tc main_v55)) :=
  (lift4_main_v55 V).trans (after_of_not_mem writes3 (by decide) (U3 V))
theorem lift2_main_v55 (V : Valuation τ sig (Elt F)) : (after (ops (F := F)) V (Proc.devRef .tc main_v55)) = (U2 V (Proc.devRef .tc main_v55)) :=
  (lift3_main_v55 V).trans (after_of_not_mem writes2 (by decide) (U2 V))
theorem lift6_main_v56 (V : Valuation τ sig (Elt F)) : (after (ops (F := F)) V (Proc.devRef .tc main_v56)) = (U6 V (Proc.devRef .tc main_v56)) := congrFun (after_ops_eq V) _
theorem lift5_main_v56 (V : Valuation τ sig (Elt F)) : (after (ops (F := F)) V (Proc.devRef .tc main_v56)) = (U5 V (Proc.devRef .tc main_v56)) :=
  (lift6_main_v56 V).trans (after_of_not_mem writes5 (by decide) (U5 V))
theorem lift4_main_v56 (V : Valuation τ sig (Elt F)) : (after (ops (F := F)) V (Proc.devRef .tc main_v56)) = (U4 V (Proc.devRef .tc main_v56)) :=
  (lift5_main_v56 V).trans (after_of_not_mem writes4 (by decide) (U4 V))
theorem lift3_main_v56 (V : Valuation τ sig (Elt F)) : (after (ops (F := F)) V (Proc.devRef .tc main_v56)) = (U3 V (Proc.devRef .tc main_v56)) :=
  (lift4_main_v56 V).trans (after_of_not_mem writes3 (by decide) (U3 V))
theorem lift2_main_v56 (V : Valuation τ sig (Elt F)) : (after (ops (F := F)) V (Proc.devRef .tc main_v56)) = (U2 V (Proc.devRef .tc main_v56)) :=
  (lift3_main_v56 V).trans (after_of_not_mem writes2 (by decide) (U2 V))
theorem lift6_main_v57 (V : Valuation τ sig (Elt F)) : (after (ops (F := F)) V (Proc.devRef .tc main_v57)) = (U6 V (Proc.devRef .tc main_v57)) := congrFun (after_ops_eq V) _
theorem lift5_main_v57 (V : Valuation τ sig (Elt F)) : (after (ops (F := F)) V (Proc.devRef .tc main_v57)) = (U5 V (Proc.devRef .tc main_v57)) :=
  (lift6_main_v57 V).trans (after_of_not_mem writes5 (by decide) (U5 V))
theorem lift4_main_v57 (V : Valuation τ sig (Elt F)) : (after (ops (F := F)) V (Proc.devRef .tc main_v57)) = (U4 V (Proc.devRef .tc main_v57)) :=
  (lift5_main_v57 V).trans (after_of_not_mem writes4 (by decide) (U4 V))
theorem lift3_main_v57 (V : Valuation τ sig (Elt F)) : (after (ops (F := F)) V (Proc.devRef .tc main_v57)) = (U3 V (Proc.devRef .tc main_v57)) :=
  (lift4_main_v57 V).trans (after_of_not_mem writes3 (by decide) (U3 V))
theorem lift2_main_v57 (V : Valuation τ sig (Elt F)) : (after (ops (F := F)) V (Proc.devRef .tc main_v57)) = (U2 V (Proc.devRef .tc main_v57)) :=
  (lift3_main_v57 V).trans (after_of_not_mem writes2 (by decide) (U2 V))
theorem lift6_main_v58 (V : Valuation τ sig (Elt F)) : (after (ops (F := F)) V (Proc.devRef .tc main_v58)) = (U6 V (Proc.devRef .tc main_v58)) := congrFun (after_ops_eq V) _
theorem lift5_main_v58 (V : Valuation τ sig (Elt F)) : (after (ops (F := F)) V (Proc.devRef .tc main_v58)) = (U5 V (Proc.devRef .tc main_v58)) :=
  (lift6_main_v58 V).trans (after_of_not_mem writes5 (by decide) (U5 V))
theorem lift4_main_v58 (V : Valuation τ sig (Elt F)) : (after (ops (F := F)) V (Proc.devRef .tc main_v58)) = (U4 V (Proc.devRef .tc main_v58)) :=
  (lift5_main_v58 V).trans (after_of_not_mem writes4 (by decide) (U4 V))
theorem lift3_main_v58 (V : Valuation τ sig (Elt F)) : (after (ops (F := F)) V (Proc.devRef .tc main_v58)) = (U3 V (Proc.devRef .tc main_v58)) :=
  (lift4_main_v58 V).trans (after_of_not_mem writes3 (by decide) (U3 V))
theorem lift2_main_v58 (V : Valuation τ sig (Elt F)) : (after (ops (F := F)) V (Proc.devRef .tc main_v58)) = (U2 V (Proc.devRef .tc main_v58)) :=
  (lift3_main_v58 V).trans (after_of_not_mem writes2 (by decide) (U2 V))
theorem lift6_main_v59 (V : Valuation τ sig (Elt F)) : (after (ops (F := F)) V (Proc.devRef .tc main_v59)) = (U6 V (Proc.devRef .tc main_v59)) := congrFun (after_ops_eq V) _
theorem lift5_main_v59 (V : Valuation τ sig (Elt F)) : (after (ops (F := F)) V (Proc.devRef .tc main_v59)) = (U5 V (Proc.devRef .tc main_v59)) :=
  (lift6_main_v59 V).trans (after_of_not_mem writes5 (by decide) (U5 V))
theorem lift4_main_v59 (V : Valuation τ sig (Elt F)) : (after (ops (F := F)) V (Proc.devRef .tc main_v59)) = (U4 V (Proc.devRef .tc main_v59)) :=
  (lift5_main_v59 V).trans (after_of_not_mem writes4 (by decide) (U4 V))
theorem lift3_main_v59 (V : Valuation τ sig (Elt F)) : (after (ops (F := F)) V (Proc.devRef .tc main_v59)) = (U3 V (Proc.devRef .tc main_v59)) :=
  (lift4_main_v59 V).trans (after_of_not_mem writes3 (by decide) (U3 V))
theorem lift2_main_v59 (V : Valuation τ sig (Elt F)) : (after (ops (F := F)) V (Proc.devRef .tc main_v59)) = (U2 V (Proc.devRef .tc main_v59)) :=
  (lift3_main_v59 V).trans (after_of_not_mem writes2 (by decide) (U2 V))
theorem lift6_main_v60 (V : Valuation τ sig (Elt F)) : (after (ops (F := F)) V (Proc.devRef .tc main_v60)) = (U6 V (Proc.devRef .tc main_v60)) := congrFun (after_ops_eq V) _
theorem lift5_main_v60 (V : Valuation τ sig (Elt F)) : (after (ops (F := F)) V (Proc.devRef .tc main_v60)) = (U5 V (Proc.devRef .tc main_v60)) :=
  (lift6_main_v60 V).trans (after_of_not_mem writes5 (by decide) (U5 V))
theorem lift4_main_v60 (V : Valuation τ sig (Elt F)) : (after (ops (F := F)) V (Proc.devRef .tc main_v60)) = (U4 V (Proc.devRef .tc main_v60)) :=
  (lift5_main_v60 V).trans (after_of_not_mem writes4 (by decide) (U4 V))
theorem lift3_main_v60 (V : Valuation τ sig (Elt F)) : (after (ops (F := F)) V (Proc.devRef .tc main_v60)) = (U3 V (Proc.devRef .tc main_v60)) :=
  (lift4_main_v60 V).trans (after_of_not_mem writes3 (by decide) (U3 V))
theorem lift2_main_v60 (V : Valuation τ sig (Elt F)) : (after (ops (F := F)) V (Proc.devRef .tc main_v60)) = (U2 V (Proc.devRef .tc main_v60)) :=
  (lift3_main_v60 V).trans (after_of_not_mem writes2 (by decide) (U2 V))
theorem lift6_main_c_10 (V : Valuation τ sig (Elt F)) : (after (ops (F := F)) V (Proc.devRef .tc main_c_10)) = (U6 V (Proc.devRef .tc main_c_10)) := congrFun (after_ops_eq V) _
theorem lift5_main_c_10 (V : Valuation τ sig (Elt F)) : (after (ops (F := F)) V (Proc.devRef .tc main_c_10)) = (U5 V (Proc.devRef .tc main_c_10)) :=
  (lift6_main_c_10 V).trans (after_of_not_mem writes5 (by decide) (U5 V))
theorem lift4_main_c_10 (V : Valuation τ sig (Elt F)) : (after (ops (F := F)) V (Proc.devRef .tc main_c_10)) = (U4 V (Proc.devRef .tc main_c_10)) :=
  (lift5_main_c_10 V).trans (after_of_not_mem writes4 (by decide) (U4 V))
theorem lift3_main_c_10 (V : Valuation τ sig (Elt F)) : (after (ops (F := F)) V (Proc.devRef .tc main_c_10)) = (U3 V (Proc.devRef .tc main_c_10)) :=
  (lift4_main_c_10 V).trans (after_of_not_mem writes3 (by decide) (U3 V))
theorem lift2_main_c_10 (V : Valuation τ sig (Elt F)) : (after (ops (F := F)) V (Proc.devRef .tc main_c_10)) = (U2 V (Proc.devRef .tc main_c_10)) :=
  (lift3_main_c_10 V).trans (after_of_not_mem writes2 (by decide) (U2 V))
theorem lift6_main_v61 (V : Valuation τ sig (Elt F)) : (after (ops (F := F)) V (Proc.devRef .tc main_v61)) = (U6 V (Proc.devRef .tc main_v61)) := congrFun (after_ops_eq V) _
theorem lift5_main_v61 (V : Valuation τ sig (Elt F)) : (after (ops (F := F)) V (Proc.devRef .tc main_v61)) = (U5 V (Proc.devRef .tc main_v61)) :=
  (lift6_main_v61 V).trans (after_of_not_mem writes5 (by decide) (U5 V))
theorem lift4_main_v61 (V : Valuation τ sig (Elt F)) : (after (ops (F := F)) V (Proc.devRef .tc main_v61)) = (U4 V (Proc.devRef .tc main_v61)) :=
  (lift5_main_v61 V).trans (after_of_not_mem writes4 (by decide) (U4 V))
theorem lift3_main_v61 (V : Valuation τ sig (Elt F)) : (after (ops (F := F)) V (Proc.devRef .tc main_v61)) = (U3 V (Proc.devRef .tc main_v61)) :=
  (lift4_main_v61 V).trans (after_of_not_mem writes3 (by decide) (U3 V))
theorem lift2_main_v61 (V : Valuation τ sig (Elt F)) : (after (ops (F := F)) V (Proc.devRef .tc main_v61)) = (U2 V (Proc.devRef .tc main_v61)) :=
  (lift3_main_v61 V).trans (after_of_not_mem writes2 (by decide) (U2 V))
theorem lift6_main_v62 (V : Valuation τ sig (Elt F)) : (after (ops (F := F)) V (Proc.devRef .tc main_v62)) = (U6 V (Proc.devRef .tc main_v62)) := congrFun (after_ops_eq V) _
theorem lift5_main_v62 (V : Valuation τ sig (Elt F)) : (after (ops (F := F)) V (Proc.devRef .tc main_v62)) = (U5 V (Proc.devRef .tc main_v62)) :=
  (lift6_main_v62 V).trans (after_of_not_mem writes5 (by decide) (U5 V))
theorem lift4_main_v62 (V : Valuation τ sig (Elt F)) : (after (ops (F := F)) V (Proc.devRef .tc main_v62)) = (U4 V (Proc.devRef .tc main_v62)) :=
  (lift5_main_v62 V).trans (after_of_not_mem writes4 (by decide) (U4 V))
theorem lift3_main_v62 (V : Valuation τ sig (Elt F)) : (after (ops (F := F)) V (Proc.devRef .tc main_v62)) = (U3 V (Proc.devRef .tc main_v62)) :=
  (lift4_main_v62 V).trans (after_of_not_mem writes3 (by decide) (U3 V))
theorem lift2_main_v62 (V : Valuation τ sig (Elt F)) : (after (ops (F := F)) V (Proc.devRef .tc main_v62)) = (U2 V (Proc.devRef .tc main_v62)) :=
  (lift3_main_v62 V).trans (after_of_not_mem writes2 (by decide) (U2 V))
theorem lift6_main_c_11 (V : Valuation τ sig (Elt F)) : (after (ops (F := F)) V (Proc.devRef .tc main_c_11)) = (U6 V (Proc.devRef .tc main_c_11)) := congrFun (after_ops_eq V) _
theorem lift5_main_c_11 (V : Valuation τ sig (Elt F)) : (after (ops (F := F)) V (Proc.devRef .tc main_c_11)) = (U5 V (Proc.devRef .tc main_c_11)) :=
  (lift6_main_c_11 V).trans (after_of_not_mem writes5 (by decide) (U5 V))
theorem lift4_main_c_11 (V : Valuation τ sig (Elt F)) : (after (ops (F := F)) V (Proc.devRef .tc main_c_11)) = (U4 V (Proc.devRef .tc main_c_11)) :=
  (lift5_main_c_11 V).trans (after_of_not_mem writes4 (by decide) (U4 V))
theorem lift3_main_c_11 (V : Valuation τ sig (Elt F)) : (after (ops (F := F)) V (Proc.devRef .tc main_c_11)) = (U3 V (Proc.devRef .tc main_c_11)) :=
  (lift4_main_c_11 V).trans (after_of_not_mem writes3 (by decide) (U3 V))
theorem lift2_main_c_11 (V : Valuation τ sig (Elt F)) : (after (ops (F := F)) V (Proc.devRef .tc main_c_11)) = (U2 V (Proc.devRef .tc main_c_11)) :=
  (lift3_main_c_11 V).trans (after_of_not_mem writes2 (by decide) (U2 V))
theorem lift6_main_v63 (V : Valuation τ sig (Elt F)) : (after (ops (F := F)) V (Proc.devRef .tc main_v63)) = (U6 V (Proc.devRef .tc main_v63)) := congrFun (after_ops_eq V) _
theorem lift5_main_v63 (V : Valuation τ sig (Elt F)) : (after (ops (F := F)) V (Proc.devRef .tc main_v63)) = (U5 V (Proc.devRef .tc main_v63)) :=
  (lift6_main_v63 V).trans (after_of_not_mem writes5 (by decide) (U5 V))
theorem lift4_main_v63 (V : Valuation τ sig (Elt F)) : (after (ops (F := F)) V (Proc.devRef .tc main_v63)) = (U4 V (Proc.devRef .tc main_v63)) :=
  (lift5_main_v63 V).trans (after_of_not_mem writes4 (by decide) (U4 V))
theorem lift3_main_v63 (V : Valuation τ sig (Elt F)) : (after (ops (F := F)) V (Proc.devRef .tc main_v63)) = (U3 V (Proc.devRef .tc main_v63)) :=
  (lift4_main_v63 V).trans (after_of_not_mem writes3 (by decide) (U3 V))
theorem lift2_main_v63 (V : Valuation τ sig (Elt F)) : (after (ops (F := F)) V (Proc.devRef .tc main_v63)) = (U2 V (Proc.devRef .tc main_v63)) :=
  (lift3_main_v63 V).trans (after_of_not_mem writes2 (by decide) (U2 V))
theorem lift6_main_v64 (V : Valuation τ sig (Elt F)) : (after (ops (F := F)) V (Proc.devRef .tc main_v64)) = (U6 V (Proc.devRef .tc main_v64)) := congrFun (after_ops_eq V) _
theorem lift5_main_v64 (V : Valuation τ sig (Elt F)) : (after (ops (F := F)) V (Proc.devRef .tc main_v64)) = (U5 V (Proc.devRef .tc main_v64)) :=
  (lift6_main_v64 V).trans (after_of_not_mem writes5 (by decide) (U5 V))
theorem lift4_main_v64 (V : Valuation τ sig (Elt F)) : (after (ops (F := F)) V (Proc.devRef .tc main_v64)) = (U4 V (Proc.devRef .tc main_v64)) :=
  (lift5_main_v64 V).trans (after_of_not_mem writes4 (by decide) (U4 V))
theorem lift3_main_v64 (V : Valuation τ sig (Elt F)) : (after (ops (F := F)) V (Proc.devRef .tc main_v64)) = (U3 V (Proc.devRef .tc main_v64)) :=
  (lift4_main_v64 V).trans (after_of_not_mem writes3 (by decide) (U3 V))
theorem lift2_main_v64 (V : Valuation τ sig (Elt F)) : (after (ops (F := F)) V (Proc.devRef .tc main_v64)) = (U2 V (Proc.devRef .tc main_v64)) :=
  (lift3_main_v64 V).trans (after_of_not_mem writes2 (by decide) (U2 V))
theorem lift6_main_v65 (V : Valuation τ sig (Elt F)) : (after (ops (F := F)) V (Proc.devRef .tc main_v65)) = (U6 V (Proc.devRef .tc main_v65)) := congrFun (after_ops_eq V) _
theorem lift5_main_v65 (V : Valuation τ sig (Elt F)) : (after (ops (F := F)) V (Proc.devRef .tc main_v65)) = (U5 V (Proc.devRef .tc main_v65)) :=
  (lift6_main_v65 V).trans (after_of_not_mem writes5 (by decide) (U5 V))
theorem lift4_main_v65 (V : Valuation τ sig (Elt F)) : (after (ops (F := F)) V (Proc.devRef .tc main_v65)) = (U4 V (Proc.devRef .tc main_v65)) :=
  (lift5_main_v65 V).trans (after_of_not_mem writes4 (by decide) (U4 V))
theorem lift3_main_v65 (V : Valuation τ sig (Elt F)) : (after (ops (F := F)) V (Proc.devRef .tc main_v65)) = (U3 V (Proc.devRef .tc main_v65)) :=
  (lift4_main_v65 V).trans (after_of_not_mem writes3 (by decide) (U3 V))
theorem lift2_main_v65 (V : Valuation τ sig (Elt F)) : (after (ops (F := F)) V (Proc.devRef .tc main_v65)) = (U2 V (Proc.devRef .tc main_v65)) :=
  (lift3_main_v65 V).trans (after_of_not_mem writes2 (by decide) (U2 V))
theorem lift6_main_v66 (V : Valuation τ sig (Elt F)) : (after (ops (F := F)) V (Proc.devRef .tc main_v66)) = (U6 V (Proc.devRef .tc main_v66)) := congrFun (after_ops_eq V) _
theorem lift5_main_v66 (V : Valuation τ sig (Elt F)) : (after (ops (F := F)) V (Proc.devRef .tc main_v66)) = (U5 V (Proc.devRef .tc main_v66)) :=
  (lift6_main_v66 V).trans (after_of_not_mem writes5 (by decide) (U5 V))
theorem lift4_main_v66 (V : Valuation τ sig (Elt F)) : (after (ops (F := F)) V (Proc.devRef .tc main_v66)) = (U4 V (Proc.devRef .tc main_v66)) :=
  (lift5_main_v66 V).trans (after_of_not_mem writes4 (by decide) (U4 V))
theorem lift3_main_v66 (V : Valuation τ sig (Elt F)) : (after (ops (F := F)) V (Proc.devRef .tc main_v66)) = (U3 V (Proc.devRef .tc main_v66)) :=
  (lift4_main_v66 V).trans (after_of_not_mem writes3 (by decide) (U3 V))
theorem lift2_main_v66 (V : Valuation τ sig (Elt F)) : (after (ops (F := F)) V (Proc.devRef .tc main_v66)) = (U2 V (Proc.devRef .tc main_v66)) :=
  (lift3_main_v66 V).trans (after_of_not_mem writes2 (by decide) (U2 V))
theorem lift6_main_v67 (V : Valuation τ sig (Elt F)) : (after (ops (F := F)) V (Proc.devRef .tc main_v67)) = (U6 V (Proc.devRef .tc main_v67)) := congrFun (after_ops_eq V) _
theorem lift5_main_v67 (V : Valuation τ sig (Elt F)) : (after (ops (F := F)) V (Proc.devRef .tc main_v67)) = (U5 V (Proc.devRef .tc main_v67)) :=
  (lift6_main_v67 V).trans (after_of_not_mem writes5 (by decide) (U5 V))
theorem lift4_main_v67 (V : Valuation τ sig (Elt F)) : (after (ops (F := F)) V (Proc.devRef .tc main_v67)) = (U4 V (Proc.devRef .tc main_v67)) :=
  (lift5_main_v67 V).trans (after_of_not_mem writes4 (by decide) (U4 V))
theorem lift3_main_v67 (V : Valuation τ sig (Elt F)) : (after (ops (F := F)) V (Proc.devRef .tc main_v67)) = (U3 V (Proc.devRef .tc main_v67)) :=
  (lift4_main_v67 V).trans (after_of_not_mem writes3 (by decide) (U3 V))
theorem lift2_main_v67 (V : Valuation τ sig (Elt F)) : (after (ops (F := F)) V (Proc.devRef .tc main_v67)) = (U2 V (Proc.devRef .tc main_v67)) :=
  (lift3_main_v67 V).trans (after_of_not_mem writes2 (by decide) (U2 V))
theorem lift6_main_c_12 (V : Valuation τ sig (Elt F)) : (after (ops (F := F)) V (Proc.devRef .tc main_c_12)) = (U6 V (Proc.devRef .tc main_c_12)) := congrFun (after_ops_eq V) _
theorem lift5_main_c_12 (V : Valuation τ sig (Elt F)) : (after (ops (F := F)) V (Proc.devRef .tc main_c_12)) = (U5 V (Proc.devRef .tc main_c_12)) :=
  (lift6_main_c_12 V).trans (after_of_not_mem writes5 (by decide) (U5 V))
theorem lift4_main_c_12 (V : Valuation τ sig (Elt F)) : (after (ops (F := F)) V (Proc.devRef .tc main_c_12)) = (U4 V (Proc.devRef .tc main_c_12)) :=
  (lift5_main_c_12 V).trans (after_of_not_mem writes4 (by decide) (U4 V))
theorem lift3_main_c_12 (V : Valuation τ sig (Elt F)) : (after (ops (F := F)) V (Proc.devRef .tc main_c_12)) = (U3 V (Proc.devRef .tc main_c_12)) :=
  (lift4_main_c_12 V).trans (after_of_not_mem writes3 (by decide) (U3 V))
theorem lift2_main_c_12 (V : Valuation τ sig (Elt F)) : (after (ops (F := F)) V (Proc.devRef .tc main_c_12)) = (U2 V (Proc.devRef .tc main_c_12)) :=
  (lift3_main_c_12 V).trans (after_of_not_mem writes2 (by decide) (U2 V))
theorem lift6_main_v68 (V : Valuation τ sig (Elt F)) : (after (ops (F := F)) V (Proc.devRef .tc main_v68)) = (U6 V (Proc.devRef .tc main_v68)) := congrFun (after_ops_eq V) _
theorem lift5_main_v68 (V : Valuation τ sig (Elt F)) : (after (ops (F := F)) V (Proc.devRef .tc main_v68)) = (U5 V (Proc.devRef .tc main_v68)) :=
  (lift6_main_v68 V).trans (after_of_not_mem writes5 (by decide) (U5 V))
theorem lift4_main_v68 (V : Valuation τ sig (Elt F)) : (after (ops (F := F)) V (Proc.devRef .tc main_v68)) = (U4 V (Proc.devRef .tc main_v68)) :=
  (lift5_main_v68 V).trans (after_of_not_mem writes4 (by decide) (U4 V))
theorem lift3_main_v68 (V : Valuation τ sig (Elt F)) : (after (ops (F := F)) V (Proc.devRef .tc main_v68)) = (U3 V (Proc.devRef .tc main_v68)) :=
  (lift4_main_v68 V).trans (after_of_not_mem writes3 (by decide) (U3 V))
theorem lift2_main_v68 (V : Valuation τ sig (Elt F)) : (after (ops (F := F)) V (Proc.devRef .tc main_v68)) = (U2 V (Proc.devRef .tc main_v68)) :=
  (lift3_main_v68 V).trans (after_of_not_mem writes2 (by decide) (U2 V))
theorem lift6_main_v69 (V : Valuation τ sig (Elt F)) : (after (ops (F := F)) V (Proc.devRef .tc main_v69)) = (U6 V (Proc.devRef .tc main_v69)) := congrFun (after_ops_eq V) _
theorem lift5_main_v69 (V : Valuation τ sig (Elt F)) : (after (ops (F := F)) V (Proc.devRef .tc main_v69)) = (U5 V (Proc.devRef .tc main_v69)) :=
  (lift6_main_v69 V).trans (after_of_not_mem writes5 (by decide) (U5 V))
theorem lift4_main_v69 (V : Valuation τ sig (Elt F)) : (after (ops (F := F)) V (Proc.devRef .tc main_v69)) = (U4 V (Proc.devRef .tc main_v69)) :=
  (lift5_main_v69 V).trans (after_of_not_mem writes4 (by decide) (U4 V))
theorem lift3_main_v69 (V : Valuation τ sig (Elt F)) : (after (ops (F := F)) V (Proc.devRef .tc main_v69)) = (U3 V (Proc.devRef .tc main_v69)) :=
  (lift4_main_v69 V).trans (after_of_not_mem writes3 (by decide) (U3 V))
theorem lift2_main_v69 (V : Valuation τ sig (Elt F)) : (after (ops (F := F)) V (Proc.devRef .tc main_v69)) = (U2 V (Proc.devRef .tc main_v69)) :=
  (lift3_main_v69 V).trans (after_of_not_mem writes2 (by decide) (U2 V))
theorem lift6_main_c_13 (V : Valuation τ sig (Elt F)) : (after (ops (F := F)) V (Proc.devRef .tc main_c_13)) = (U6 V (Proc.devRef .tc main_c_13)) := congrFun (after_ops_eq V) _
theorem lift5_main_c_13 (V : Valuation τ sig (Elt F)) : (after (ops (F := F)) V (Proc.devRef .tc main_c_13)) = (U5 V (Proc.devRef .tc main_c_13)) :=
  (lift6_main_c_13 V).trans (after_of_not_mem writes5 (by decide) (U5 V))
theorem lift4_main_c_13 (V : Valuation τ sig (Elt F)) : (after (ops (F := F)) V (Proc.devRef .tc main_c_13)) = (U4 V (Proc.devRef .tc main_c_13)) :=
  (lift5_main_c_13 V).trans (after_of_not_mem writes4 (by decide) (U4 V))
theorem lift3_main_c_13 (V : Valuation τ sig (Elt F)) : (after (ops (F := F)) V (Proc.devRef .tc main_c_13)) = (U3 V (Proc.devRef .tc main_c_13)) :=
  (lift4_main_c_13 V).trans (after_of_not_mem writes3 (by decide) (U3 V))
theorem lift2_main_c_13 (V : Valuation τ sig (Elt F)) : (after (ops (F := F)) V (Proc.devRef .tc main_c_13)) = (U2 V (Proc.devRef .tc main_c_13)) :=
  (lift3_main_c_13 V).trans (after_of_not_mem writes2 (by decide) (U2 V))
theorem lift6_main_v70 (V : Valuation τ sig (Elt F)) : (after (ops (F := F)) V (Proc.devRef .tc main_v70)) = (U6 V (Proc.devRef .tc main_v70)) := congrFun (after_ops_eq V) _
theorem lift5_main_v70 (V : Valuation τ sig (Elt F)) : (after (ops (F := F)) V (Proc.devRef .tc main_v70)) = (U5 V (Proc.devRef .tc main_v70)) :=
  (lift6_main_v70 V).trans (after_of_not_mem writes5 (by decide) (U5 V))
theorem lift4_main_v70 (V : Valuation τ sig (Elt F)) : (after (ops (F := F)) V (Proc.devRef .tc main_v70)) = (U4 V (Proc.devRef .tc main_v70)) :=
  (lift5_main_v70 V).trans (after_of_not_mem writes4 (by decide) (U4 V))
theorem lift3_main_v70 (V : Valuation τ sig (Elt F)) : (after (ops (F := F)) V (Proc.devRef .tc main_v70)) = (U3 V (Proc.devRef .tc main_v70)) :=
  (lift4_main_v70 V).trans (after_of_not_mem writes3 (by decide) (U3 V))
theorem lift2_main_v70 (V : Valuation τ sig (Elt F)) : (after (ops (F := F)) V (Proc.devRef .tc main_v70)) = (U2 V (Proc.devRef .tc main_v70)) :=
  (lift3_main_v70 V).trans (after_of_not_mem writes2 (by decide) (U2 V))
theorem lift6_main_v71 (V : Valuation τ sig (Elt F)) : (after (ops (F := F)) V (Proc.devRef .tc main_v71)) = (U6 V (Proc.devRef .tc main_v71)) := congrFun (after_ops_eq V) _
theorem lift5_main_v71 (V : Valuation τ sig (Elt F)) : (after (ops (F := F)) V (Proc.devRef .tc main_v71)) = (U5 V (Proc.devRef .tc main_v71)) :=
  (lift6_main_v71 V).trans (after_of_not_mem writes5 (by decide) (U5 V))
theorem lift4_main_v71 (V : Valuation τ sig (Elt F)) : (after (ops (F := F)) V (Proc.devRef .tc main_v71)) = (U4 V (Proc.devRef .tc main_v71)) :=
  (lift5_main_v71 V).trans (after_of_not_mem writes4 (by decide) (U4 V))
theorem lift3_main_v71 (V : Valuation τ sig (Elt F)) : (after (ops (F := F)) V (Proc.devRef .tc main_v71)) = (U3 V (Proc.devRef .tc main_v71)) :=
  (lift4_main_v71 V).trans (after_of_not_mem writes3 (by decide) (U3 V))
theorem lift2_main_v71 (V : Valuation τ sig (Elt F)) : (after (ops (F := F)) V (Proc.devRef .tc main_v71)) = (U2 V (Proc.devRef .tc main_v71)) :=
  (lift3_main_v71 V).trans (after_of_not_mem writes2 (by decide) (U2 V))
theorem lift6_main_v72 (V : Valuation τ sig (Elt F)) : (after (ops (F := F)) V (Proc.devRef .tc main_v72)) = (U6 V (Proc.devRef .tc main_v72)) := congrFun (after_ops_eq V) _
theorem lift5_main_v72 (V : Valuation τ sig (Elt F)) : (after (ops (F := F)) V (Proc.devRef .tc main_v72)) = (U5 V (Proc.devRef .tc main_v72)) :=
  (lift6_main_v72 V).trans (after_of_not_mem writes5 (by decide) (U5 V))
theorem lift4_main_v72 (V : Valuation τ sig (Elt F)) : (after (ops (F := F)) V (Proc.devRef .tc main_v72)) = (U4 V (Proc.devRef .tc main_v72)) :=
  (lift5_main_v72 V).trans (after_of_not_mem writes4 (by decide) (U4 V))
theorem lift3_main_v72 (V : Valuation τ sig (Elt F)) : (after (ops (F := F)) V (Proc.devRef .tc main_v72)) = (U3 V (Proc.devRef .tc main_v72)) :=
  (lift4_main_v72 V).trans (after_of_not_mem writes3 (by decide) (U3 V))
theorem lift2_main_v72 (V : Valuation τ sig (Elt F)) : (after (ops (F := F)) V (Proc.devRef .tc main_v72)) = (U2 V (Proc.devRef .tc main_v72)) :=
  (lift3_main_v72 V).trans (after_of_not_mem writes2 (by decide) (U2 V))
theorem lift6_main_v73 (V : Valuation τ sig (Elt F)) : (after (ops (F := F)) V (Proc.devRef .tc main_v73)) = (U6 V (Proc.devRef .tc main_v73)) := congrFun (after_ops_eq V) _
theorem lift5_main_v73 (V : Valuation τ sig (Elt F)) : (after (ops (F := F)) V (Proc.devRef .tc main_v73)) = (U5 V (Proc.devRef .tc main_v73)) :=
  (lift6_main_v73 V).trans (after_of_not_mem writes5 (by decide) (U5 V))
theorem lift4_main_v73 (V : Valuation τ sig (Elt F)) : (after (ops (F := F)) V (Proc.devRef .tc main_v73)) = (U4 V (Proc.devRef .tc main_v73)) :=
  (lift5_main_v73 V).trans (after_of_not_mem writes4 (by decide) (U4 V))
theorem lift3_main_v73 (V : Valuation τ sig (Elt F)) : (after (ops (F := F)) V (Proc.devRef .tc main_v73)) = (U3 V (Proc.devRef .tc main_v73)) :=
  (lift4_main_v73 V).trans (after_of_not_mem writes3 (by decide) (U3 V))
theorem lift2_main_v73 (V : Valuation τ sig (Elt F)) : (after (ops (F := F)) V (Proc.devRef .tc main_v73)) = (U2 V (Proc.devRef .tc main_v73)) :=
  (lift3_main_v73 V).trans (after_of_not_mem writes2 (by decide) (U2 V))
theorem lift6_main_v74 (V : Valuation τ sig (Elt F)) : (after (ops (F := F)) V (Proc.devRef .tc main_v74)) = (U6 V (Proc.devRef .tc main_v74)) := congrFun (after_ops_eq V) _
theorem lift5_main_v74 (V : Valuation τ sig (Elt F)) : (after (ops (F := F)) V (Proc.devRef .tc main_v74)) = (U5 V (Proc.devRef .tc main_v74)) :=
  (lift6_main_v74 V).trans (after_of_not_mem writes5 (by decide) (U5 V))
theorem lift4_main_v74 (V : Valuation τ sig (Elt F)) : (after (ops (F := F)) V (Proc.devRef .tc main_v74)) = (U4 V (Proc.devRef .tc main_v74)) :=
  (lift5_main_v74 V).trans (after_of_not_mem writes4 (by decide) (U4 V))
theorem lift3_main_v74 (V : Valuation τ sig (Elt F)) : (after (ops (F := F)) V (Proc.devRef .tc main_v74)) = (U3 V (Proc.devRef .tc main_v74)) :=
  (lift4_main_v74 V).trans (after_of_not_mem writes3 (by decide) (U3 V))
theorem lift2_main_v74 (V : Valuation τ sig (Elt F)) : (after (ops (F := F)) V (Proc.devRef .tc main_v74)) = (U2 V (Proc.devRef .tc main_v74)) :=
  (lift3_main_v74 V).trans (after_of_not_mem writes2 (by decide) (U2 V))
theorem lift6_main_c_14 (V : Valuation τ sig (Elt F)) : (after (ops (F := F)) V (Proc.devRef .tc main_c_14)) = (U6 V (Proc.devRef .tc main_c_14)) := congrFun (after_ops_eq V) _
theorem lift5_main_c_14 (V : Valuation τ sig (Elt F)) : (after (ops (F := F)) V (Proc.devRef .tc main_c_14)) = (U5 V (Proc.devRef .tc main_c_14)) :=
  (lift6_main_c_14 V).trans (after_of_not_mem writes5 (by decide) (U5 V))
theorem lift4_main_c_14 (V : Valuation τ sig (Elt F)) : (after (ops (F := F)) V (Proc.devRef .tc main_c_14)) = (U4 V (Proc.devRef .tc main_c_14)) :=
  (lift5_main_c_14 V).trans (after_of_not_mem writes4 (by decide) (U4 V))
theorem lift3_main_c_14 (V : Valuation τ sig (Elt F)) : (after (ops (F := F)) V (Proc.devRef .tc main_c_14)) = (U3 V (Proc.devRef .tc main_c_14)) :=
  (lift4_main_c_14 V).trans (after_of_not_mem writes3 (by decide) (U3 V))
theorem lift2_main_c_14 (V : Valuation τ sig (Elt F)) : (after (ops (F := F)) V (Proc.devRef .tc main_c_14)) = (U2 V (Proc.devRef .tc main_c_14)) :=
  (lift3_main_c_14 V).trans (after_of_not_mem writes2 (by decide) (U2 V))
theorem lift6_main_v75 (V : Valuation τ sig (Elt F)) : (after (ops (F := F)) V (Proc.devRef .tc main_v75)) = (U6 V (Proc.devRef .tc main_v75)) := congrFun (after_ops_eq V) _
theorem lift5_main_v75 (V : Valuation τ sig (Elt F)) : (after (ops (F := F)) V (Proc.devRef .tc main_v75)) = (U5 V (Proc.devRef .tc main_v75)) :=
  (lift6_main_v75 V).trans (after_of_not_mem writes5 (by decide) (U5 V))
theorem lift4_main_v75 (V : Valuation τ sig (Elt F)) : (after (ops (F := F)) V (Proc.devRef .tc main_v75)) = (U4 V (Proc.devRef .tc main_v75)) :=
  (lift5_main_v75 V).trans (after_of_not_mem writes4 (by decide) (U4 V))
theorem lift3_main_v75 (V : Valuation τ sig (Elt F)) : (after (ops (F := F)) V (Proc.devRef .tc main_v75)) = (U3 V (Proc.devRef .tc main_v75)) :=
  (lift4_main_v75 V).trans (after_of_not_mem writes3 (by decide) (U3 V))
theorem lift2_main_v75 (V : Valuation τ sig (Elt F)) : (after (ops (F := F)) V (Proc.devRef .tc main_v75)) = (U2 V (Proc.devRef .tc main_v75)) :=
  (lift3_main_v75 V).trans (after_of_not_mem writes2 (by decide) (U2 V))
theorem lift6_main_v76 (V : Valuation τ sig (Elt F)) : (after (ops (F := F)) V (Proc.devRef .tc main_v76)) = (U6 V (Proc.devRef .tc main_v76)) := congrFun (after_ops_eq V) _
theorem lift5_main_v76 (V : Valuation τ sig (Elt F)) : (after (ops (F := F)) V (Proc.devRef .tc main_v76)) = (U5 V (Proc.devRef .tc main_v76)) :=
  (lift6_main_v76 V).trans (after_of_not_mem writes5 (by decide) (U5 V))
theorem lift4_main_v76 (V : Valuation τ sig (Elt F)) : (after (ops (F := F)) V (Proc.devRef .tc main_v76)) = (U4 V (Proc.devRef .tc main_v76)) :=
  (lift5_main_v76 V).trans (after_of_not_mem writes4 (by decide) (U4 V))
theorem lift3_main_v76 (V : Valuation τ sig (Elt F)) : (after (ops (F := F)) V (Proc.devRef .tc main_v76)) = (U3 V (Proc.devRef .tc main_v76)) :=
  (lift4_main_v76 V).trans (after_of_not_mem writes3 (by decide) (U3 V))
theorem lift2_main_v76 (V : Valuation τ sig (Elt F)) : (after (ops (F := F)) V (Proc.devRef .tc main_v76)) = (U2 V (Proc.devRef .tc main_v76)) :=
  (lift3_main_v76 V).trans (after_of_not_mem writes2 (by decide) (U2 V))
theorem lift6_main_c_15 (V : Valuation τ sig (Elt F)) : (after (ops (F := F)) V (Proc.devRef .tc main_c_15)) = (U6 V (Proc.devRef .tc main_c_15)) := congrFun (after_ops_eq V) _
theorem lift5_main_c_15 (V : Valuation τ sig (Elt F)) : (after (ops (F := F)) V (Proc.devRef .tc main_c_15)) = (U5 V (Proc.devRef .tc main_c_15)) :=
  (lift6_main_c_15 V).trans (after_of_not_mem writes5 (by decide) (U5 V))
theorem lift4_main_c_15 (V : Valuation τ sig (Elt F)) : (after (ops (F := F)) V (Proc.devRef .tc main_c_15)) = (U4 V (Proc.devRef .tc main_c_15)) :=
  (lift5_main_c_15 V).trans (after_of_not_mem writes4 (by decide) (U4 V))
theorem lift3_main_c_15 (V : Valuation τ sig (Elt F)) : (after (ops (F := F)) V (Proc.devRef .tc main_c_15)) = (U3 V (Proc.devRef .tc main_c_15)) :=
  (lift4_main_c_15 V).trans (after_of_not_mem writes3 (by decide) (U3 V))
theorem lift2_main_c_15 (V : Valuation τ sig (Elt F)) : (after (ops (F := F)) V (Proc.devRef .tc main_c_15)) = (U2 V (Proc.devRef .tc main_c_15)) :=
  (lift3_main_c_15 V).trans (after_of_not_mem writes2 (by decide) (U2 V))
theorem lift6_main_v77 (V : Valuation τ sig (Elt F)) : (after (ops (F := F)) V (Proc.devRef .tc main_v77)) = (U6 V (Proc.devRef .tc main_v77)) := congrFun (after_ops_eq V) _
theorem lift5_main_v77 (V : Valuation τ sig (Elt F)) : (after (ops (F := F)) V (Proc.devRef .tc main_v77)) = (U5 V (Proc.devRef .tc main_v77)) :=
  (lift6_main_v77 V).trans (after_of_not_mem writes5 (by decide) (U5 V))
theorem lift4_main_v77 (V : Valuation τ sig (Elt F)) : (after (ops (F := F)) V (Proc.devRef .tc main_v77)) = (U4 V (Proc.devRef .tc main_v77)) :=
  (lift5_main_v77 V).trans (after_of_not_mem writes4 (by decide) (U4 V))
theorem lift3_main_v77 (V : Valuation τ sig (Elt F)) : (after (ops (F := F)) V (Proc.devRef .tc main_v77)) = (U3 V (Proc.devRef .tc main_v77)) :=
  (lift4_main_v77 V).trans (after_of_not_mem writes3 (by decide) (U3 V))
theorem lift2_main_v77 (V : Valuation τ sig (Elt F)) : (after (ops (F := F)) V (Proc.devRef .tc main_v77)) = (U2 V (Proc.devRef .tc main_v77)) :=
  (lift3_main_v77 V).trans (after_of_not_mem writes2 (by decide) (U2 V))
theorem lift6_main_v78 (V : Valuation τ sig (Elt F)) : (after (ops (F := F)) V (Proc.devRef .tc main_v78)) = (U6 V (Proc.devRef .tc main_v78)) := congrFun (after_ops_eq V) _
theorem lift5_main_v78 (V : Valuation τ sig (Elt F)) : (after (ops (F := F)) V (Proc.devRef .tc main_v78)) = (U5 V (Proc.devRef .tc main_v78)) :=
  (lift6_main_v78 V).trans (after_of_not_mem writes5 (by decide) (U5 V))
theorem lift4_main_v78 (V : Valuation τ sig (Elt F)) : (after (ops (F := F)) V (Proc.devRef .tc main_v78)) = (U4 V (Proc.devRef .tc main_v78)) :=
  (lift5_main_v78 V).trans (after_of_not_mem writes4 (by decide) (U4 V))
theorem lift3_main_v78 (V : Valuation τ sig (Elt F)) : (after (ops (F := F)) V (Proc.devRef .tc main_v78)) = (U3 V (Proc.devRef .tc main_v78)) :=
  (lift4_main_v78 V).trans (after_of_not_mem writes3 (by decide) (U3 V))
theorem lift2_main_v78 (V : Valuation τ sig (Elt F)) : (after (ops (F := F)) V (Proc.devRef .tc main_v78)) = (U2 V (Proc.devRef .tc main_v78)) :=
  (lift3_main_v78 V).trans (after_of_not_mem writes2 (by decide) (U2 V))
theorem lift6_main_v79 (V : Valuation τ sig (Elt F)) : (after (ops (F := F)) V (Proc.devRef .tc main_v79)) = (U6 V (Proc.devRef .tc main_v79)) := congrFun (after_ops_eq V) _
theorem lift5_main_v79 (V : Valuation τ sig (Elt F)) : (after (ops (F := F)) V (Proc.devRef .tc main_v79)) = (U5 V (Proc.devRef .tc main_v79)) :=
  (lift6_main_v79 V).trans (after_of_not_mem writes5 (by decide) (U5 V))
theorem lift4_main_v79 (V : Valuation τ sig (Elt F)) : (after (ops (F := F)) V (Proc.devRef .tc main_v79)) = (U4 V (Proc.devRef .tc main_v79)) :=
  (lift5_main_v79 V).trans (after_of_not_mem writes4 (by decide) (U4 V))
theorem lift3_main_v79 (V : Valuation τ sig (Elt F)) : (after (ops (F := F)) V (Proc.devRef .tc main_v79)) = (U3 V (Proc.devRef .tc main_v79)) :=
  (lift4_main_v79 V).trans (after_of_not_mem writes3 (by decide) (U3 V))
theorem lift2_main_v79 (V : Valuation τ sig (Elt F)) : (after (ops (F := F)) V (Proc.devRef .tc main_v79)) = (U2 V (Proc.devRef .tc main_v79)) :=
  (lift3_main_v79 V).trans (after_of_not_mem writes2 (by decide) (U2 V))
theorem lift6_main_v80 (V : Valuation τ sig (Elt F)) : (after (ops (F := F)) V (Proc.devRef .tc main_v80)) = (U6 V (Proc.devRef .tc main_v80)) := congrFun (after_ops_eq V) _
theorem lift5_main_v80 (V : Valuation τ sig (Elt F)) : (after (ops (F := F)) V (Proc.devRef .tc main_v80)) = (U5 V (Proc.devRef .tc main_v80)) :=
  (lift6_main_v80 V).trans (after_of_not_mem writes5 (by decide) (U5 V))
theorem lift4_main_v80 (V : Valuation τ sig (Elt F)) : (after (ops (F := F)) V (Proc.devRef .tc main_v80)) = (U4 V (Proc.devRef .tc main_v80)) :=
  (lift5_main_v80 V).trans (after_of_not_mem writes4 (by decide) (U4 V))
theorem lift3_main_v80 (V : Valuation τ sig (Elt F)) : (after (ops (F := F)) V (Proc.devRef .tc main_v80)) = (U3 V (Proc.devRef .tc main_v80)) :=
  (lift4_main_v80 V).trans (after_of_not_mem writes3 (by decide) (U3 V))
theorem lift2_main_v80 (V : Valuation τ sig (Elt F)) : (after (ops (F := F)) V (Proc.devRef .tc main_v80)) = (U2 V (Proc.devRef .tc main_v80)) :=
  (lift3_main_v80 V).trans (after_of_not_mem writes2 (by decide) (U2 V))
theorem lift6_main_v81 (V : Valuation τ sig (Elt F)) : (after (ops (F := F)) V (Proc.devRef .tc main_v81)) = (U6 V (Proc.devRef .tc main_v81)) := congrFun (after_ops_eq V) _
theorem lift5_main_v81 (V : Valuation τ sig (Elt F)) : (after (ops (F := F)) V (Proc.devRef .tc main_v81)) = (U5 V (Proc.devRef .tc main_v81)) :=
  (lift6_main_v81 V).trans (after_of_not_mem writes5 (by decide) (U5 V))
theorem lift4_main_v81 (V : Valuation τ sig (Elt F)) : (after (ops (F := F)) V (Proc.devRef .tc main_v81)) = (U4 V (Proc.devRef .tc main_v81)) :=
  (lift5_main_v81 V).trans (after_of_not_mem writes4 (by decide) (U4 V))
theorem lift3_main_v81 (V : Valuation τ sig (Elt F)) : (after (ops (F := F)) V (Proc.devRef .tc main_v81)) = (U3 V (Proc.devRef .tc main_v81)) :=
  (lift4_main_v81 V).trans (after_of_not_mem writes3 (by decide) (U3 V))
theorem lift2_main_v81 (V : Valuation τ sig (Elt F)) : (after (ops (F := F)) V (Proc.devRef .tc main_v81)) = (U2 V (Proc.devRef .tc main_v81)) :=
  (lift3_main_v81 V).trans (after_of_not_mem writes2 (by decide) (U2 V))
theorem lift6_main_c_16 (V : Valuation τ sig (Elt F)) : (after (ops (F := F)) V (Proc.devRef .tc main_c_16)) = (U6 V (Proc.devRef .tc main_c_16)) := congrFun (after_ops_eq V) _
theorem lift5_main_c_16 (V : Valuation τ sig (Elt F)) : (after (ops (F := F)) V (Proc.devRef .tc main_c_16)) = (U5 V (Proc.devRef .tc main_c_16)) :=
  (lift6_main_c_16 V).trans (after_of_not_mem writes5 (by decide) (U5 V))
theorem lift4_main_c_16 (V : Valuation τ sig (Elt F)) : (after (ops (F := F)) V (Proc.devRef .tc main_c_16)) = (U4 V (Proc.devRef .tc main_c_16)) :=
  (lift5_main_c_16 V).trans (after_of_not_mem writes4 (by decide) (U4 V))
theorem lift3_main_c_16 (V : Valuation τ sig (Elt F)) : (after (ops (F := F)) V (Proc.devRef .tc main_c_16)) = (U3 V (Proc.devRef .tc main_c_16)) :=
  (lift4_main_c_16 V).trans (after_of_not_mem writes3 (by decide) (U3 V))
theorem lift2_main_c_16 (V : Valuation τ sig (Elt F)) : (after (ops (F := F)) V (Proc.devRef .tc main_c_16)) = (U2 V (Proc.devRef .tc main_c_16)) :=
  (lift3_main_c_16 V).trans (after_of_not_mem writes2 (by decide) (U2 V))
theorem lift6_main_v82 (V : Valuation τ sig (Elt F)) : (after (ops (F := F)) V (Proc.devRef .tc main_v82)) = (U6 V (Proc.devRef .tc main_v82)) := congrFun (after_ops_eq V) _
theorem lift5_main_v82 (V : Valuation τ sig (Elt F)) : (after (ops (F := F)) V (Proc.devRef .tc main_v82)) = (U5 V (Proc.devRef .tc main_v82)) :=
  (lift6_main_v82 V).trans (after_of_not_mem writes5 (by decide) (U5 V))
theorem lift4_main_v82 (V : Valuation τ sig (Elt F)) : (after (ops (F := F)) V (Proc.devRef .tc main_v82)) = (U4 V (Proc.devRef .tc main_v82)) :=
  (lift5_main_v82 V).trans (after_of_not_mem writes4 (by decide) (U4 V))
theorem lift3_main_v82 (V : Valuation τ sig (Elt F)) : (after (ops (F := F)) V (Proc.devRef .tc main_v82)) = (U3 V (Proc.devRef .tc main_v82)) :=
  (lift4_main_v82 V).trans (after_of_not_mem writes3 (by decide) (U3 V))
theorem lift2_main_v82 (V : Valuation τ sig (Elt F)) : (after (ops (F := F)) V (Proc.devRef .tc main_v82)) = (U2 V (Proc.devRef .tc main_v82)) :=
  (lift3_main_v82 V).trans (after_of_not_mem writes2 (by decide) (U2 V))
theorem lift6_main_v83 (V : Valuation τ sig (Elt F)) : (after (ops (F := F)) V (Proc.devRef .tc main_v83)) = (U6 V (Proc.devRef .tc main_v83)) := congrFun (after_ops_eq V) _
theorem lift5_main_v83 (V : Valuation τ sig (Elt F)) : (after (ops (F := F)) V (Proc.devRef .tc main_v83)) = (U5 V (Proc.devRef .tc main_v83)) :=
  (lift6_main_v83 V).trans (after_of_not_mem writes5 (by decide) (U5 V))
theorem lift4_main_v83 (V : Valuation τ sig (Elt F)) : (after (ops (F := F)) V (Proc.devRef .tc main_v83)) = (U4 V (Proc.devRef .tc main_v83)) :=
  (lift5_main_v83 V).trans (after_of_not_mem writes4 (by decide) (U4 V))
theorem lift3_main_v83 (V : Valuation τ sig (Elt F)) : (after (ops (F := F)) V (Proc.devRef .tc main_v83)) = (U3 V (Proc.devRef .tc main_v83)) :=
  (lift4_main_v83 V).trans (after_of_not_mem writes3 (by decide) (U3 V))
theorem lift2_main_v83 (V : Valuation τ sig (Elt F)) : (after (ops (F := F)) V (Proc.devRef .tc main_v83)) = (U2 V (Proc.devRef .tc main_v83)) :=
  (lift3_main_v83 V).trans (after_of_not_mem writes2 (by decide) (U2 V))
theorem lift6_main_c_17 (V : Valuation τ sig (Elt F)) : (after (ops (F := F)) V (Proc.devRef .tc main_c_17)) = (U6 V (Proc.devRef .tc main_c_17)) := congrFun (after_ops_eq V) _
theorem lift5_main_c_17 (V : Valuation τ sig (Elt F)) : (after (ops (F := F)) V (Proc.devRef .tc main_c_17)) = (U5 V (Proc.devRef .tc main_c_17)) :=
  (lift6_main_c_17 V).trans (after_of_not_mem writes5 (by decide) (U5 V))
theorem lift4_main_c_17 (V : Valuation τ sig (Elt F)) : (after (ops (F := F)) V (Proc.devRef .tc main_c_17)) = (U4 V (Proc.devRef .tc main_c_17)) :=
  (lift5_main_c_17 V).trans (after_of_not_mem writes4 (by decide) (U4 V))
theorem lift3_main_c_17 (V : Valuation τ sig (Elt F)) : (after (ops (F := F)) V (Proc.devRef .tc main_c_17)) = (U3 V (Proc.devRef .tc main_c_17)) :=
  (lift4_main_c_17 V).trans (after_of_not_mem writes3 (by decide) (U3 V))
theorem lift2_main_c_17 (V : Valuation τ sig (Elt F)) : (after (ops (F := F)) V (Proc.devRef .tc main_c_17)) = (U2 V (Proc.devRef .tc main_c_17)) :=
  (lift3_main_c_17 V).trans (after_of_not_mem writes2 (by decide) (U2 V))
theorem lift6_main_v84 (V : Valuation τ sig (Elt F)) : (after (ops (F := F)) V (Proc.devRef .tc main_v84)) = (U6 V (Proc.devRef .tc main_v84)) := congrFun (after_ops_eq V) _
theorem lift5_main_v84 (V : Valuation τ sig (Elt F)) : (after (ops (F := F)) V (Proc.devRef .tc main_v84)) = (U5 V (Proc.devRef .tc main_v84)) :=
  (lift6_main_v84 V).trans (after_of_not_mem writes5 (by decide) (U5 V))
theorem lift4_main_v84 (V : Valuation τ sig (Elt F)) : (after (ops (F := F)) V (Proc.devRef .tc main_v84)) = (U4 V (Proc.devRef .tc main_v84)) :=
  (lift5_main_v84 V).trans (after_of_not_mem writes4 (by decide) (U4 V))
theorem lift3_main_v84 (V : Valuation τ sig (Elt F)) : (after (ops (F := F)) V (Proc.devRef .tc main_v84)) = (U3 V (Proc.devRef .tc main_v84)) :=
  (lift4_main_v84 V).trans (after_of_not_mem writes3 (by decide) (U3 V))
theorem lift2_main_v84 (V : Valuation τ sig (Elt F)) : (after (ops (F := F)) V (Proc.devRef .tc main_v84)) = (U2 V (Proc.devRef .tc main_v84)) :=
  (lift3_main_v84 V).trans (after_of_not_mem writes2 (by decide) (U2 V))
theorem lift6_main_v85 (V : Valuation τ sig (Elt F)) : (after (ops (F := F)) V (Proc.devRef .tc main_v85)) = (U6 V (Proc.devRef .tc main_v85)) := congrFun (after_ops_eq V) _
theorem lift5_main_v85 (V : Valuation τ sig (Elt F)) : (after (ops (F := F)) V (Proc.devRef .tc main_v85)) = (U5 V (Proc.devRef .tc main_v85)) :=
  (lift6_main_v85 V).trans (after_of_not_mem writes5 (by decide) (U5 V))
theorem lift4_main_v85 (V : Valuation τ sig (Elt F)) : (after (ops (F := F)) V (Proc.devRef .tc main_v85)) = (U4 V (Proc.devRef .tc main_v85)) :=
  (lift5_main_v85 V).trans (after_of_not_mem writes4 (by decide) (U4 V))
theorem lift3_main_v85 (V : Valuation τ sig (Elt F)) : (after (ops (F := F)) V (Proc.devRef .tc main_v85)) = (U3 V (Proc.devRef .tc main_v85)) :=
  (lift4_main_v85 V).trans (after_of_not_mem writes3 (by decide) (U3 V))
theorem lift2_main_v85 (V : Valuation τ sig (Elt F)) : (after (ops (F := F)) V (Proc.devRef .tc main_v85)) = (U2 V (Proc.devRef .tc main_v85)) :=
  (lift3_main_v85 V).trans (after_of_not_mem writes2 (by decide) (U2 V))
theorem lift6_main_v86 (V : Valuation τ sig (Elt F)) : (after (ops (F := F)) V (Proc.devRef .tc main_v86)) = (U6 V (Proc.devRef .tc main_v86)) := congrFun (after_ops_eq V) _
theorem lift5_main_v86 (V : Valuation τ sig (Elt F)) : (after (ops (F := F)) V (Proc.devRef .tc main_v86)) = (U5 V (Proc.devRef .tc main_v86)) :=
  (lift6_main_v86 V).trans (after_of_not_mem writes5 (by decide) (U5 V))
theorem lift4_main_v86 (V : Valuation τ sig (Elt F)) : (after (ops (F := F)) V (Proc.devRef .tc main_v86)) = (U4 V (Proc.devRef .tc main_v86)) :=
  (lift5_main_v86 V).trans (after_of_not_mem writes4 (by decide) (U4 V))
theorem lift3_main_v86 (V : Valuation τ sig (Elt F)) : (after (ops (F := F)) V (Proc.devRef .tc main_v86)) = (U3 V (Proc.devRef .tc main_v86)) :=
  (lift4_main_v86 V).trans (after_of_not_mem writes3 (by decide) (U3 V))
theorem lift2_main_v86 (V : Valuation τ sig (Elt F)) : (after (ops (F := F)) V (Proc.devRef .tc main_v86)) = (U2 V (Proc.devRef .tc main_v86)) :=
  (lift3_main_v86 V).trans (after_of_not_mem writes2 (by decide) (U2 V))
theorem lift6_main_v87 (V : Valuation τ sig (Elt F)) : (after (ops (F := F)) V (Proc.devRef .tc main_v87)) = (U6 V (Proc.devRef .tc main_v87)) := congrFun (after_ops_eq V) _
theorem lift5_main_v87 (V : Valuation τ sig (Elt F)) : (after (ops (F := F)) V (Proc.devRef .tc main_v87)) = (U5 V (Proc.devRef .tc main_v87)) :=
  (lift6_main_v87 V).trans (after_of_not_mem writes5 (by decide) (U5 V))
theorem lift4_main_v87 (V : Valuation τ sig (Elt F)) : (after (ops (F := F)) V (Proc.devRef .tc main_v87)) = (U4 V (Proc.devRef .tc main_v87)) :=
  (lift5_main_v87 V).trans (after_of_not_mem writes4 (by decide) (U4 V))
theorem lift3_main_v87 (V : Valuation τ sig (Elt F)) : (after (ops (F := F)) V (Proc.devRef .tc main_v87)) = (U3 V (Proc.devRef .tc main_v87)) :=
  (lift4_main_v87 V).trans (after_of_not_mem writes3 (by decide) (U3 V))
theorem lift2_main_v87 (V : Valuation τ sig (Elt F)) : (after (ops (F := F)) V (Proc.devRef .tc main_v87)) = (U2 V (Proc.devRef .tc main_v87)) :=
  (lift3_main_v87 V).trans (after_of_not_mem writes2 (by decide) (U2 V))
theorem lift6_main_v88 (V : Valuation τ sig (Elt F)) : (after (ops (F := F)) V (Proc.devRef .tc main_v88)) = (U6 V (Proc.devRef .tc main_v88)) := congrFun (after_ops_eq V) _
theorem lift5_main_v88 (V : Valuation τ sig (Elt F)) : (after (ops (F := F)) V (Proc.devRef .tc main_v88)) = (U5 V (Proc.devRef .tc main_v88)) :=
  (lift6_main_v88 V).trans (after_of_not_mem writes5 (by decide) (U5 V))
theorem lift4_main_v88 (V : Valuation τ sig (Elt F)) : (after (ops (F := F)) V (Proc.devRef .tc main_v88)) = (U4 V (Proc.devRef .tc main_v88)) :=
  (lift5_main_v88 V).trans (after_of_not_mem writes4 (by decide) (U4 V))
theorem lift3_main_v88 (V : Valuation τ sig (Elt F)) : (after (ops (F := F)) V (Proc.devRef .tc main_v88)) = (U3 V (Proc.devRef .tc main_v88)) :=
  (lift4_main_v88 V).trans (after_of_not_mem writes3 (by decide) (U3 V))
theorem lift2_main_v88 (V : Valuation τ sig (Elt F)) : (after (ops (F := F)) V (Proc.devRef .tc main_v88)) = (U2 V (Proc.devRef .tc main_v88)) :=
  (lift3_main_v88 V).trans (after_of_not_mem writes2 (by decide) (U2 V))
theorem lift6_main_v89 (V : Valuation τ sig (Elt F)) : (after (ops (F := F)) V (Proc.devRef .tc main_v89)) = (U6 V (Proc.devRef .tc main_v89)) := congrFun (after_ops_eq V) _
theorem lift5_main_v89 (V : Valuation τ sig (Elt F)) : (after (ops (F := F)) V (Proc.devRef .tc main_v89)) = (U5 V (Proc.devRef .tc main_v89)) :=
  (lift6_main_v89 V).trans (after_of_not_mem writes5 (by decide) (U5 V))
theorem lift4_main_v89 (V : Valuation τ sig (Elt F)) : (after (ops (F := F)) V (Proc.devRef .tc main_v89)) = (U4 V (Proc.devRef .tc main_v89)) :=
  (lift5_main_v89 V).trans (after_of_not_mem writes4 (by decide) (U4 V))
theorem lift3_main_v89 (V : Valuation τ sig (Elt F)) : (after (ops (F := F)) V (Proc.devRef .tc main_v89)) = (U3 V (Proc.devRef .tc main_v89)) :=
  (lift4_main_v89 V).trans (after_of_not_mem writes3 (by decide) (U3 V))
theorem lift2_main_v89 (V : Valuation τ sig (Elt F)) : (after (ops (F := F)) V (Proc.devRef .tc main_v89)) = (U2 V (Proc.devRef .tc main_v89)) :=
  (lift3_main_v89 V).trans (after_of_not_mem writes2 (by decide) (U2 V))
theorem lift6_main_v90 (V : Valuation τ sig (Elt F)) : (after (ops (F := F)) V (Proc.devRef .tc main_v90)) = (U6 V (Proc.devRef .tc main_v90)) := congrFun (after_ops_eq V) _
theorem lift5_main_v90 (V : Valuation τ sig (Elt F)) : (after (ops (F := F)) V (Proc.devRef .tc main_v90)) = (U5 V (Proc.devRef .tc main_v90)) :=
  (lift6_main_v90 V).trans (after_of_not_mem writes5 (by decide) (U5 V))
theorem lift4_main_v90 (V : Valuation τ sig (Elt F)) : (after (ops (F := F)) V (Proc.devRef .tc main_v90)) = (U4 V (Proc.devRef .tc main_v90)) :=
  (lift5_main_v90 V).trans (after_of_not_mem writes4 (by decide) (U4 V))
theorem lift3_main_v90 (V : Valuation τ sig (Elt F)) : (after (ops (F := F)) V (Proc.devRef .tc main_v90)) = (U3 V (Proc.devRef .tc main_v90)) :=
  (lift4_main_v90 V).trans (after_of_not_mem writes3 (by decide) (U3 V))
theorem lift2_main_v90 (V : Valuation τ sig (Elt F)) : (after (ops (F := F)) V (Proc.devRef .tc main_v90)) = (U2 V (Proc.devRef .tc main_v90)) :=
  (lift3_main_v90 V).trans (after_of_not_mem writes2 (by decide) (U2 V))
theorem lift6_main_v91 (V : Valuation τ sig (Elt F)) : (after (ops (F := F)) V (Proc.devRef .tc main_v91)) = (U6 V (Proc.devRef .tc main_v91)) := congrFun (after_ops_eq V) _
theorem lift5_main_v91 (V : Valuation τ sig (Elt F)) : (after (ops (F := F)) V (Proc.devRef .tc main_v91)) = (U5 V (Proc.devRef .tc main_v91)) :=
  (lift6_main_v91 V).trans (after_of_not_mem writes5 (by decide) (U5 V))
theorem lift4_main_v91 (V : Valuation τ sig (Elt F)) : (after (ops (F := F)) V (Proc.devRef .tc main_v91)) = (U4 V (Proc.devRef .tc main_v91)) :=
  (lift5_main_v91 V).trans (after_of_not_mem writes4 (by decide) (U4 V))
theorem lift3_main_v91 (V : Valuation τ sig (Elt F)) : (after (ops (F := F)) V (Proc.devRef .tc main_v91)) = (U3 V (Proc.devRef .tc main_v91)) :=
  (lift4_main_v91 V).trans (after_of_not_mem writes3 (by decide) (U3 V))
theorem lift2_main_v91 (V : Valuation τ sig (Elt F)) : (after (ops (F := F)) V (Proc.devRef .tc main_v91)) = (U2 V (Proc.devRef .tc main_v91)) :=
  (lift3_main_v91 V).trans (after_of_not_mem writes2 (by decide) (U2 V))
theorem lift6_main_v92 (V : Valuation τ sig (Elt F)) : (after (ops (F := F)) V (Proc.devRef .tc main_v92)) = (U6 V (Proc.devRef .tc main_v92)) := congrFun (after_ops_eq V) _
theorem lift5_main_v92 (V : Valuation τ sig (Elt F)) : (after (ops (F := F)) V (Proc.devRef .tc main_v92)) = (U5 V (Proc.devRef .tc main_v92)) :=
  (lift6_main_v92 V).trans (after_of_not_mem writes5 (by decide) (U5 V))
theorem lift4_main_v92 (V : Valuation τ sig (Elt F)) : (after (ops (F := F)) V (Proc.devRef .tc main_v92)) = (U4 V (Proc.devRef .tc main_v92)) :=
  (lift5_main_v92 V).trans (after_of_not_mem writes4 (by decide) (U4 V))
theorem lift3_main_v92 (V : Valuation τ sig (Elt F)) : (after (ops (F := F)) V (Proc.devRef .tc main_v92)) = (U3 V (Proc.devRef .tc main_v92)) :=
  (lift4_main_v92 V).trans (after_of_not_mem writes3 (by decide) (U3 V))
theorem lift2_main_v92 (V : Valuation τ sig (Elt F)) : (after (ops (F := F)) V (Proc.devRef .tc main_v92)) = (U2 V (Proc.devRef .tc main_v92)) :=
  (lift3_main_v92 V).trans (after_of_not_mem writes2 (by decide) (U2 V))
theorem lift6_main_v93 (V : Valuation τ sig (Elt F)) : (after (ops (F := F)) V (Proc.devRef .tc main_v93)) = (U6 V (Proc.devRef .tc main_v93)) := congrFun (after_ops_eq V) _
theorem lift5_main_v93 (V : Valuation τ sig (Elt F)) : (after (ops (F := F)) V (Proc.devRef .tc main_v93)) = (U5 V (Proc.devRef .tc main_v93)) :=
  (lift6_main_v93 V).trans (after_of_not_mem writes5 (by decide) (U5 V))
theorem lift4_main_v93 (V : Valuation τ sig (Elt F)) : (after (ops (F := F)) V (Proc.devRef .tc main_v93)) = (U4 V (Proc.devRef .tc main_v93)) :=
  (lift5_main_v93 V).trans (after_of_not_mem writes4 (by decide) (U4 V))
theorem lift3_main_v93 (V : Valuation τ sig (Elt F)) : (after (ops (F := F)) V (Proc.devRef .tc main_v93)) = (U3 V (Proc.devRef .tc main_v93)) :=
  (lift4_main_v93 V).trans (after_of_not_mem writes3 (by decide) (U3 V))
theorem lift2_main_v93 (V : Valuation τ sig (Elt F)) : (after (ops (F := F)) V (Proc.devRef .tc main_v93)) = (U2 V (Proc.devRef .tc main_v93)) :=
  (lift3_main_v93 V).trans (after_of_not_mem writes2 (by decide) (U2 V))
theorem lift6_main_call3_cst (V : Valuation τ sig (Elt F)) : (after (ops (F := F)) V (Proc.devRef .tc main_call3_cst)) = (U6 V (Proc.devRef .tc main_call3_cst)) := congrFun (after_ops_eq V) _
theorem lift5_main_call3_cst (V : Valuation τ sig (Elt F)) : (after (ops (F := F)) V (Proc.devRef .tc main_call3_cst)) = (U5 V (Proc.devRef .tc main_call3_cst)) :=
  (lift6_main_call3_cst V).trans (after_of_not_mem writes5 (by decide) (U5 V))
theorem lift4_main_call3_cst (V : Valuation τ sig (Elt F)) : (after (ops (F := F)) V (Proc.devRef .tc main_call3_cst)) = (U4 V (Proc.devRef .tc main_call3_cst)) :=
  (lift5_main_call3_cst V).trans (after_of_not_mem writes4 (by decide) (U4 V))
theorem lift3_main_call3_cst (V : Valuation τ sig (Elt F)) : (after (ops (F := F)) V (Proc.devRef .tc main_call3_cst)) = (U3 V (Proc.devRef .tc main_call3_cst)) :=
  (lift4_main_call3_cst V).trans (after_of_not_mem writes3 (by decide) (U3 V))
theorem lift2_main_call3_cst (V : Valuation τ sig (Elt F)) : (after (ops (F := F)) V (Proc.devRef .tc main_call3_cst)) = (U2 V (Proc.devRef .tc main_call3_cst)) :=
  (lift3_main_call3_cst V).trans (after_of_not_mem writes2 (by decide) (U2 V))
theorem lift6_main_call3_v0 (V : Valuation τ sig (Elt F)) : (after (ops (F := F)) V (Proc.devRef .tc main_call3_v0)) = (U6 V (Proc.devRef .tc main_call3_v0)) := congrFun (after_ops_eq V) _
theorem lift5_main_call3_v0 (V : Valuation τ sig (Elt F)) : (after (ops (F := F)) V (Proc.devRef .tc main_call3_v0)) = (U5 V (Proc.devRef .tc main_call3_v0)) :=
  (lift6_main_call3_v0 V).trans (after_of_not_mem writes5 (by decide) (U5 V))
theorem lift4_main_call3_v0 (V : Valuation τ sig (Elt F)) : (after (ops (F := F)) V (Proc.devRef .tc main_call3_v0)) = (U4 V (Proc.devRef .tc main_call3_v0)) :=
  (lift5_main_call3_v0 V).trans (after_of_not_mem writes4 (by decide) (U4 V))
theorem lift3_main_call3_v0 (V : Valuation τ sig (Elt F)) : (after (ops (F := F)) V (Proc.devRef .tc main_call3_v0)) = (U3 V (Proc.devRef .tc main_call3_v0)) :=
  (lift4_main_call3_v0 V).trans (after_of_not_mem writes3 (by decide) (U3 V))
theorem lift2_main_call3_v0 (V : Valuation τ sig (Elt F)) : (after (ops (F := F)) V (Proc.devRef .tc main_call3_v0)) = (U2 V (Proc.devRef .tc main_call3_v0)) :=
  (lift3_main_call3_v0 V).trans (after_of_not_mem writes2 (by decide) (U2 V))
theorem lift6_main_v94 (V : Valuation τ sig (Elt F)) : (after (ops (F := F)) V (Proc.devRef .tc main_v94)) = (U6 V (Proc.devRef .tc main_v94)) := congrFun (after_ops_eq V) _
theorem lift5_main_v94 (V : Valuation τ sig (Elt F)) : (after (ops (F := F)) V (Proc.devRef .tc main_v94)) = (U5 V (Proc.devRef .tc main_v94)) :=
  (lift6_main_v94 V).trans (after_of_not_mem writes5 (by decide) (U5 V))
theorem lift4_main_v94 (V : Valuation τ sig (Elt F)) : (after (ops (F := F)) V (Proc.devRef .tc main_v94)) = (U4 V (Proc.devRef .tc main_v94)) :=
  (lift5_main_v94 V).trans (after_of_not_mem writes4 (by decide) (U4 V))
theorem lift3_main_v94 (V : Valuation τ sig (Elt F)) : (after (ops (F := F)) V (Proc.devRef .tc main_v94)) = (U3 V (Proc.devRef .tc main_v94)) :=
  (lift4_main_v94 V).trans (after_of_not_mem writes3 (by decide) (U3 V))
theorem lift2_main_v94 (V : Valuation τ sig (Elt F)) : (after (ops (F := F)) V (Proc.devRef .tc main_v94)) = (U2 V (Proc.devRef .tc main_v94)) :=
  (lift3_main_v94 V).trans (after_of_not_mem writes2 (by decide) (U2 V))
theorem lift6_main_cst_18 (V : Valuation τ sig (Elt F)) : (after (ops (F := F)) V (Proc.devRef .tc main_cst_18)) = (U6 V (Proc.devRef .tc main_cst_18)) := congrFun (after_ops_eq V) _
theorem lift5_main_cst_18 (V : Valuation τ sig (Elt F)) : (after (ops (F := F)) V (Proc.devRef .tc main_cst_18)) = (U5 V (Proc.devRef .tc main_cst_18)) :=
  (lift6_main_cst_18 V).trans (after_of_not_mem writes5 (by decide) (U5 V))
theorem lift4_main_cst_18 (V : Valuation τ sig (Elt F)) : (after (ops (F := F)) V (Proc.devRef .tc main_cst_18)) = (U4 V (Proc.devRef .tc main_cst_18)) :=
  (lift5_main_cst_18 V).trans (after_of_not_mem writes4 (by decide) (U4 V))
theorem lift3_main_cst_18 (V : Valuation τ sig (Elt F)) : (after (ops (F := F)) V (Proc.devRef .tc main_cst_18)) = (U3 V (Proc.devRef .tc main_cst_18)) :=
  (lift4_main_cst_18 V).trans (after_of_not_mem writes3 (by decide) (U3 V))
theorem lift2_main_cst_18 (V : Valuation τ sig (Elt F)) : (after (ops (F := F)) V (Proc.devRef .tc main_cst_18)) = (U2 V (Proc.devRef .tc main_cst_18)) :=
  (lift3_main_cst_18 V).trans (after_of_not_mem writes2 (by decide) (U2 V))
theorem lift6_main_v95 (V : Valuation τ sig (Elt F)) : (after (ops (F := F)) V (Proc.devRef .tc main_v95)) = (U6 V (Proc.devRef .tc main_v95)) := congrFun (after_ops_eq V) _
theorem lift5_main_v95 (V : Valuation τ sig (Elt F)) : (after (ops (F := F)) V (Proc.devRef .tc main_v95)) = (U5 V (Proc.devRef .tc main_v95)) :=
  (lift6_main_v95 V).trans (after_of_not_mem writes5 (by decide) (U5 V))
theorem lift4_main_v95 (V : Valuation τ sig (Elt F)) : (after (ops (F := F)) V (Proc.devRef .tc main_v95)) = (U4 V (Proc.devRef .tc main_v95)) :=
  (lift5_main_v95 V).trans (after_of_not_mem writes4 (by decide) (U4 V))
theorem lift3_main_v95 (V : Valuation τ sig (Elt F)) : (after (ops (F := F)) V (Proc.devRef .tc main_v95)) = (U3 V (Proc.devRef .tc main_v95)) :=
  (lift4_main_v95 V).trans (after_of_not_mem writes3 (by decide) (U3 V))
theorem lift2_main_v95 (V : Valuation τ sig (Elt F)) : (after (ops (F := F)) V (Proc.devRef .tc main_v95)) = (U2 V (Proc.devRef .tc main_v95)) :=
  (lift3_main_v95 V).trans (after_of_not_mem writes2 (by decide) (U2 V))
theorem lift6_main_v96 (V : Valuation τ sig (Elt F)) : (after (ops (F := F)) V (Proc.devRef .tc main_v96)) = (U6 V (Proc.devRef .tc main_v96)) := congrFun (after_ops_eq V) _
theorem lift5_main_v96 (V : Valuation τ sig (Elt F)) : (after (ops (F := F)) V (Proc.devRef .tc main_v96)) = (U5 V (Proc.devRef .tc main_v96)) :=
  (lift6_main_v96 V).trans (after_of_not_mem writes5 (by decide) (U5 V))
theorem lift4_main_v96 (V : Valuation τ sig (Elt F)) : (after (ops (F := F)) V (Proc.devRef .tc main_v96)) = (U4 V (Proc.devRef .tc main_v96)) :=
  (lift5_main_v96 V).trans (after_of_not_mem writes4 (by decide) (U4 V))
theorem lift3_main_v96 (V : Valuation τ sig (Elt F)) : (after (ops (F := F)) V (Proc.devRef .tc main_v96)) = (U3 V (Proc.devRef .tc main_v96)) :=
  (lift4_main_v96 V).trans (after_of_not_mem writes3 (by decide) (U3 V))
theorem lift2_main_v96 (V : Valuation τ sig (Elt F)) : (after (ops (F := F)) V (Proc.devRef .tc main_v96)) = (U2 V (Proc.devRef .tc main_v96)) :=
  (lift3_main_v96 V).trans (after_of_not_mem writes2 (by decide) (U2 V))
theorem lift6_main_v97 (V : Valuation τ sig (Elt F)) : (after (ops (F := F)) V (Proc.devRef .tc main_v97)) = (U6 V (Proc.devRef .tc main_v97)) := congrFun (after_ops_eq V) _
theorem lift5_main_v97 (V : Valuation τ sig (Elt F)) : (after (ops (F := F)) V (Proc.devRef .tc main_v97)) = (U5 V (Proc.devRef .tc main_v97)) :=
  (lift6_main_v97 V).trans (after_of_not_mem writes5 (by decide) (U5 V))
theorem lift4_main_v97 (V : Valuation τ sig (Elt F)) : (after (ops (F := F)) V (Proc.devRef .tc main_v97)) = (U4 V (Proc.devRef .tc main_v97)) :=
  (lift5_main_v97 V).trans (after_of_not_mem writes4 (by decide) (U4 V))
theorem lift3_main_v97 (V : Valuation τ sig (Elt F)) : (after (ops (F := F)) V (Proc.devRef .tc main_v97)) = (U3 V (Proc.devRef .tc main_v97)) :=
  (lift4_main_v97 V).trans (after_of_not_mem writes3 (by decide) (U3 V))
theorem lift2_main_v97 (V : Valuation τ sig (Elt F)) : (after (ops (F := F)) V (Proc.devRef .tc main_v97)) = (U2 V (Proc.devRef .tc main_v97)) :=
  (lift3_main_v97 V).trans (after_of_not_mem writes2 (by decide) (U2 V))
theorem lift6_main_cst_19 (V : Valuation τ sig (Elt F)) : (after (ops (F := F)) V (Proc.devRef .tc main_cst_19)) = (U6 V (Proc.devRef .tc main_cst_19)) := congrFun (after_ops_eq V) _
theorem lift5_main_cst_19 (V : Valuation τ sig (Elt F)) : (after (ops (F := F)) V (Proc.devRef .tc main_cst_19)) = (U5 V (Proc.devRef .tc main_cst_19)) :=
  (lift6_main_cst_19 V).trans (after_of_not_mem writes5 (by decide) (U5 V))
theorem lift4_main_cst_19 (V : Valuation τ sig (Elt F)) : (after (ops (F := F)) V (Proc.devRef .tc main_cst_19)) = (U4 V (Proc.devRef .tc main_cst_19)) :=
  (lift5_main_cst_19 V).trans (after_of_not_mem writes4 (by decide) (U4 V))
theorem lift3_main_cst_19 (V : Valuation τ sig (Elt F)) : (after (ops (F := F)) V (Proc.devRef .tc main_cst_19)) = (U3 V (Proc.devRef .tc main_cst_19)) :=
  (lift4_main_cst_19 V).trans (after_of_not_mem writes3 (by decide) (U3 V))
theorem lift2_main_cst_19 (V : Valuation τ sig (Elt F)) : (after (ops (F := F)) V (Proc.devRef .tc main_cst_19)) = (U2 V (Proc.devRef .tc main_cst_19)) :=
  (lift3_main_cst_19 V).trans (after_of_not_mem writes2 (by decide) (U2 V))

end Cert.ReferenceIdeal.Hand

end
-- ==== Proof.Ref.Rd1.lean ====
-- written by: gen_ref.js <unit directory>
/- Window 1's operations read at the END of the reference program's @main: each result buffer holds its operation's function of its operands' final contents (none of them is written again). -/
import proofs.«123839_j71768903516633_2_alg».proof.Proof.Ref.S1
import proofs.«123839_j71768903516633_2_alg».proof.Proof.Ref.Lift0
import proofs.«123839_j71768903516633_2_alg».proof.Proof.Ref.Lift1
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem rd_main_v49 (V : Valuation τ sig (Elt F)) : (after (ops (F := F)) V (Proc.devRef .tc main_v49)) = ((broadcastInDim S1x32 ![1] bcast_S32_S1x32_1 : (⟨S32, .f32⟩ : BufTy).Contents (Elt F) → (⟨S1x32, .f32⟩ : BufTy).Contents (Elt F)) (after (ops (F := F)) V (Proc.devRef .tc main_arg9))) :=
  (lift2_main_v49 V).trans ((s_main_v49 (U1 V)).trans (congrArg (broadcastInDim S1x32 ![1] bcast_S32_S1x32_1 : (⟨S32, .f32⟩ : BufTy).Contents (Elt F) → (⟨S1x32, .f32⟩ : BufTy).Contents (Elt F)) (lift2_main_arg9 V).symm))
theorem rd_main_v50 (V : Valuation τ sig (Elt F)) : (after (ops (F := F)) V (Proc.devRef .tc main_v50)) = ((broadcastInDim S64x32 ![0, 1] bcast_S1x32_S64x32_0_1 : (⟨S1x32, .f32⟩ : BufTy).Contents (Elt F) → (⟨S64x32, .f32⟩ : BufTy).Contents (Elt F)) (after (ops (F := F)) V (Proc.devRef .tc main_v49))) :=
  (lift2_main_v50 V).trans ((s_main_v50 (U1 V)).trans (congrArg (broadcastInDim S64x32 ![0, 1] bcast_S1x32_S64x32_0_1 : (⟨S1x32, .f32⟩ : BufTy).Contents (Elt F) → (⟨S64x32, .f32⟩ : BufTy).Contents (Elt F)) (lift2_main_v49 V).symm))
theorem rd_main_v51 (V : Valuation τ sig (Elt F)) : (after (ops (F := F)) V (Proc.devRef .tc main_v51)) = ((mulf : (⟨S64x32, .f32⟩ : BufTy).Contents (Elt F) → (⟨S64x32, .f32⟩ : BufTy).Contents (Elt F) → (⟨S64x32, .f32⟩ : BufTy).Contents (Elt F)) (after (ops (F := F)) V (Proc.devRef .tc main_v50)) (after (ops (F := F)) V (Proc.devRef .tc main_v48))) :=
  (lift2_main_v51 V).trans ((s_main_v51 (U1 V)).trans (congrArg₂ (mulf : (⟨S64x32, .f32⟩ : BufTy).Contents (Elt F) → (⟨S64x32, .f32⟩ : BufTy).Contents (Elt F) → (⟨S64x32, .f32⟩ : BufTy).Contents (Elt F)) (lift2_main_v50 V).symm (lift2_main_v48 V).symm))
theorem rd_main_cst_9 (V : Valuation τ sig (Elt F)) : (after (ops (F := F)) V (Proc.devRef .tc main_cst_9)) = (constant (F := F) S_ .f32 0x3727C5AC#32) :=
  (lift2_main_cst_9 V).trans ((s_main_cst_9 (U1 V)))
theorem rd_main_v52 (V : Valuation τ sig (Elt F)) : (after (ops (F := F)) V (Proc.devRef .tc main_v52)) = ((broadcastInDim S32 ![] bcast_S_S32 : (⟨S_, .f32⟩ : BufTy).Contents (Elt F) → (⟨S32, .f32⟩ : BufTy).Contents (Elt F)) (after (ops (F := F)) V (Proc.devRef .tc main_cst_9))) :=
  (lift2_main_v52 V).trans ((s_main_v52 (U1 V)).trans (congrArg (broadcastInDim S32 ![] bcast_S_S32 : (⟨S_, .f32⟩ : BufTy).Contents (Elt F) → (⟨S32, .f32⟩ : BufTy).Contents (Elt F)) (lift2_main_cst_9 V).symm))
theorem rd_main_v53 (V : Valuation τ sig (Elt F)) : (after (ops (F := F)) V (Proc.devRef .tc main_v53)) = ((addf : (⟨S32, .f32⟩ : BufTy).Contents (Elt F) → (⟨S32, .f32⟩ : BufTy).Contents (Elt F) → (⟨S32, .f32⟩ : BufTy).Contents (Elt F)) (after (ops (F := F)) V (Proc.devRef .tc main_v45)) (after (ops (F := F)) V (Proc.devRef .tc main_v52))) :=
  (lift2_main_v53 V).trans ((s_main_v53 (U1 V)).trans (congrArg₂ (addf : (⟨S32, .f32⟩ : BufTy).Contents (Elt F) → (⟨S32, .f32⟩ : BufTy).Contents (Elt F) → (⟨S32, .f32⟩ : BufTy).Contents (Elt F)) (lift2_main_v45 V).symm (lift2_main_v52 V).symm))
theorem rd_main_v54 (V : Valuation τ sig (Elt F)) : (after (ops (F := F)) V (Proc.devRef .tc main_v54)) = ((Host.rsqrt : (⟨S32, .f32⟩ : BufTy).Contents (Elt F) → (⟨S32, .f32⟩ : BufTy).Contents (Elt F)) (after (ops (F := F)) V (Proc.devRef .tc main_v53))) :=
  (lift2_main_v54 V).trans ((s_main_v54 (U1 V)).trans (congrArg (Host.rsqrt : (⟨S32, .f32⟩ : BufTy).Contents (Elt F) → (⟨S32, .f32⟩ : BufTy).Contents (Elt F)) (lift2_main_v53 V).symm))
theorem rd_main_v55 (V : Valuation τ sig (Elt F)) : (after (ops (F := F)) V (Proc.devRef .tc main_v55)) = ((broadcastInDim S1x32 ![1] bcast_S32_S1x32_1 : (⟨S32, .f32⟩ : BufTy).Contents (Elt F) → (⟨S1x32, .f32⟩ : BufTy).Contents (Elt F)) (after (ops (F := F)) V (Proc.devRef .tc main_v54))) :=
  (lift2_main_v55 V).trans ((s_main_v55 (U1 V)).trans (congrArg (broadcastInDim S1x32 ![1] bcast_S32_S1x32_1 : (⟨S32, .f32⟩ : BufTy).Contents (Elt F) → (⟨S1x32, .f32⟩ : BufTy).Contents (Elt F)) (lift2_main_v54 V).symm))
theorem rd_main_v56 (V : Valuation τ sig (Elt F)) : (after (ops (F := F)) V (Proc.devRef .tc main_v56)) = ((broadcastInDim S64x32 ![0, 1] bcast_S1x32_S64x32_0_1 : (⟨S1x32, .f32⟩ : BufTy).Contents (Elt F) → (⟨S64x32, .f32⟩ : BufTy).Contents (Elt F)) (after (ops (F := F)) V (Proc.devRef .tc main_v55))) :=
  (lift2_main_v56 V).trans ((s_main_v56 (U1 V)).trans (congrArg (broadcastInDim S64x32 ![0, 1] bcast_S1x32_S64x32_0_1 : (⟨S1x32, .f32⟩ : BufTy).Contents (Elt F) → (⟨S64x32, .f32⟩ : BufTy).Contents (Elt F)) (lift2_main_v55 V).symm))
theorem rd_main_v57 (V : Valuation τ sig (Elt F)) : (after (ops (F := F)) V (Proc.devRef .tc main_v57)) = ((mulf : (⟨S64x32, .f32⟩ : BufTy).Contents (Elt F) → (⟨S64x32, .f32⟩ : BufTy).Contents (Elt F) → (⟨S64x32, .f32⟩ : BufTy).Contents (Elt F)) (after (ops (F := F)) V (Proc.devRef .tc main_v51)) (after (ops (F := F)) V (Proc.devRef .tc main_v56))) :=
  (lift2_main_v57 V).trans ((s_main_v57 (U1 V)).trans (congrArg₂ (mulf : (⟨S64x32, .f32⟩ : BufTy).Contents (Elt F) → (⟨S64x32, .f32⟩ : BufTy).Contents (Elt F) → (⟨S64x32, .f32⟩ : BufTy).Contents (Elt F)) (lift2_main_v51 V).symm (lift2_main_v56 V).symm))
theorem rd_main_v58 (V : Valuation τ sig (Elt F)) : (after (ops (F := F)) V (Proc.devRef .tc main_v58)) = ((broadcastInDim S1x32 ![1] bcast_S32_S1x32_1 : (⟨S32, .f32⟩ : BufTy).Contents (Elt F) → (⟨S1x32, .f32⟩ : BufTy).Contents (Elt F)) (after (ops (F := F)) V (Proc.devRef .tc main_arg10))) :=
  (lift2_main_v58 V).trans ((s_main_v58 (U1 V)).trans (congrArg (broadcastInDim S1x32 ![1] bcast_S32_S1x32_1 : (⟨S32, .f32⟩ : BufTy).Contents (Elt F) → (⟨S1x32, .f32⟩ : BufTy).Contents (Elt F)) (lift2_main_arg10 V).symm))
theorem rd_main_v59 (V : Valuation τ sig (Elt F)) : (after (ops (F := F)) V (Proc.devRef .tc main_v59)) = ((broadcastInDim S64x32 ![0, 1] bcast_S1x32_S64x32_0_1 : (⟨S1x32, .f32⟩ : BufTy).Contents (Elt F) → (⟨S64x32, .f32⟩ : BufTy).Contents (Elt F)) (after (ops (F := F)) V (Proc.devRef .tc main_v58))) :=
  (lift2_main_v59 V).trans ((s_main_v59 (U1 V)).trans (congrArg (broadcastInDim S64x32 ![0, 1] bcast_S1x32_S64x32_0_1 : (⟨S1x32, .f32⟩ : BufTy).Contents (Elt F) → (⟨S64x32, .f32⟩ : BufTy).Contents (Elt F)) (lift2_main_v58 V).symm))
theorem rd_main_v60 (V : Valuation τ sig (Elt F)) : (after (ops (F := F)) V (Proc.devRef .tc main_v60)) = ((addf : (⟨S64x32, .f32⟩ : BufTy).Contents (Elt F) → (⟨S64x32, .f32⟩ : BufTy).Contents (Elt F) → (⟨S64x32, .f32⟩ : BufTy).Contents (Elt F)) (after (ops (F := F)) V (Proc.devRef .tc main_v57)) (after (ops (F := F)) V (Proc.devRef .tc main_v59))) :=
  (lift2_main_v60 V).trans ((s_main_v60 (U1 V)).trans (congrArg₂ (addf : (⟨S64x32, .f32⟩ : BufTy).Contents (Elt F) → (⟨S64x32, .f32⟩ : BufTy).Contents (Elt F) → (⟨S64x32, .f32⟩ : BufTy).Contents (Elt F)) (lift2_main_v57 V).symm (lift2_main_v59 V).symm))
theorem rd_main_c_10 (V : Valuation τ sig (Elt F)) : (after (ops (F := F)) V (Proc.devRef .tc main_c_10)) = (constantI S_ 32 0#32) :=
  (lift2_main_c_10 V).trans ((s_main_c_10 (U1 V)))
theorem rd_main_v61 (V : Valuation τ sig (Elt F)) : (after (ops (F := F)) V (Proc.devRef .tc main_v61)) = ((broadcastInDim S300000 ![] bcast_S_S300000 : (⟨S_, .i32⟩ : BufTy).Contents (Elt F) → (⟨S300000, .i32⟩ : BufTy).Contents (Elt F)) (after (ops (F := F)) V (Proc.devRef .tc main_c_10))) :=
  (lift2_main_v61 V).trans ((s_main_v61 (U1 V)).trans (congrArg (broadcastInDim S300000 ![] bcast_S_S300000 : (⟨S_, .i32⟩ : BufTy).Contents (Elt F) → (⟨S300000, .i32⟩ : BufTy).Contents (Elt F)) (lift2_main_c_10 V).symm))
theorem rd_main_v62 (V : Valuation τ sig (Elt F)) : (after (ops (F := F)) V (Proc.devRef .tc main_v62)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v1)) (after (ops (F := F)) V (Proc.devRef .tc main_v61))) :=
  (lift2_main_v62 V).trans ((s_main_v62 (U1 V)).trans (congrArg₂ (cmpi .slt : (⟨S300000, .i32⟩ : BufTy).Contents (Elt F) → (⟨S300000, .i32⟩ : BufTy).Contents (Elt F) → (⟨S300000, .i1⟩ : BufTy).Contents (Elt F)) (lift2_main_v1 V).symm (lift2_main_v61 V).symm))
theorem rd_main_c_11 (V : Valuation τ sig (Elt F)) : (after (ops (F := F)) V (Proc.devRef .tc main_c_11)) = (constantI S_ 32 30000#32) :=
  (lift2_main_c_11 V).trans ((s_main_c_11 (U1 V)))
theorem rd_main_v63 (V : Valuation τ sig (Elt F)) : (after (ops (F := F)) V (Proc.devRef .tc main_v63)) = ((broadcastInDim S300000 ![] bcast_S_S300000 : (⟨S_, .i32⟩ : BufTy).Contents (Elt F) → (⟨S300000, .i32⟩ : BufTy).Contents (Elt F)) (after (ops (F := F)) V (Proc.devRef .tc main_c_11))) :=
  (lift2_main_v63 V).trans ((s_main_v63 (U1 V)).trans (congrArg (broadcastInDim S300000 ![] bcast_S_S300000 : (⟨S_, .i32⟩ : BufTy).Contents (Elt F) → (⟨S300000, .i32⟩ : BufTy).Contents (Elt F)) (lift2_main_c_11 V).symm))
theorem rd_main_v64 (V : Valuation τ sig (Elt F)) : (after (ops (F := F)) V (Proc.devRef .tc main_v64)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v1)) (after (ops (F := F)) V (Proc.devRef .tc main_v63))) :=
  (lift2_main_v64 V).trans ((s_main_v64 (U1 V)).trans (congrArg₂ (addi : (⟨S300000, .i32⟩ : BufTy).Contents (Elt F) → (⟨S300000, .i32⟩ : BufTy).Contents (Elt F) → (⟨S300000, .i32⟩ : BufTy).Contents (Elt F)) (lift2_main_v1 V).symm (lift2_main_v63 V).symm))
theorem rd_main_v65 (V : Valuation τ sig (Elt F)) : (after (ops (F := F)) V (Proc.devRef .tc main_v65)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v62)) (after (ops (F := F)) V (Proc.devRef .tc main_v64)) (after (ops (F := F)) V (Proc.devRef .tc main_v1))) :=
  (lift2_main_v65 V).trans ((s_main_v65 (U1 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift2_main_v62 V).symm (lift2_main_v64 V).symm (lift2_main_v1 V).symm))
theorem rd_main_v66 (V : Valuation τ sig (Elt F)) : (after (ops (F := F)) V (Proc.devRef .tc main_v66)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v65))) :=
  (lift2_main_v66 V).trans ((s_main_v66 (U1 V)).trans (congrArg (broadcastInDim S300000x1 ![0] bcast_S300000_S300000x1_0 : (⟨S300000, .i32⟩ : BufTy).Contents (Elt F) → (⟨S300000x1, .i32⟩ : BufTy).Contents (Elt F)) (lift2_main_v65 V).symm))
theorem rd_main_v67 (V : Valuation τ sig (Elt F)) : (after (ops (F := F)) V (Proc.devRef .tc main_v67)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) (after (ops (F := F)) V (Proc.devRef .tc main_v66))) :=
  (lift2_main_v67 V).trans ((s_main_v67 (U1 V)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (lift2_main_v22 V).symm (lift2_main_v66 V).symm))
theorem rd_main_c_12 (V : Valuation τ sig (Elt F)) : (after (ops (F := F)) V (Proc.devRef .tc main_c_12)) = (constantI S_ 32 0#32) :=
  (lift2_main_c_12 V).trans ((s_main_c_12 (U1 V)))
theorem rd_main_v68 (V : Valuation τ sig (Elt F)) : (after (ops (F := F)) V (Proc.devRef .tc main_v68)) = ((broadcastInDim S300000 ![] bcast_S_S300000 : (⟨S_, .i32⟩ : BufTy).Contents (Elt F) → (⟨S300000, .i32⟩ : BufTy).Contents (Elt F)) (after (ops (F := F)) V (Proc.devRef .tc main_c_12))) :=
  (lift2_main_v68 V).trans ((s_main_v68 (U1 V)).trans (congrArg (broadcastInDim S300000 ![] bcast_S_S300000 : (⟨S_, .i32⟩ : BufTy).Contents (Elt F) → (⟨S300000, .i32⟩ : BufTy).Contents (Elt F)) (lift2_main_c_12 V).symm))
theorem rd_main_v69 (V : Valuation τ sig (Elt F)) : (after (ops (F := F)) V (Proc.devRef .tc main_v69)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v3)) (after (ops (F := F)) V (Proc.devRef .tc main_v68))) :=
  (lift2_main_v69 V).trans ((s_main_v69 (U1 V)).trans (congrArg₂ (cmpi .slt : (⟨S300000, .i32⟩ : BufTy).Contents (Elt F) → (⟨S300000, .i32⟩ : BufTy).Contents (Elt F) → (⟨S300000, .i1⟩ : BufTy).Contents (Elt F)) (lift2_main_v3 V).symm (lift2_main_v68 V).symm))
theorem rd_main_c_13 (V : Valuation τ sig (Elt F)) : (after (ops (F := F)) V (Proc.devRef .tc main_c_13)) = (constantI S_ 32 30000#32) :=
  (lift2_main_c_13 V).trans ((s_main_c_13 (U1 V)))
theorem rd_main_v70 (V : Valuation τ sig (Elt F)) : (after (ops (F := F)) V (Proc.devRef .tc main_v70)) = ((broadcastInDim S300000 ![] bcast_S_S300000 : (⟨S_, .i32⟩ : BufTy).Contents (Elt F) → (⟨S300000, .i32⟩ : BufTy).Contents (Elt F)) (after (ops (F := F)) V (Proc.devRef .tc main_c_13))) :=
  (lift2_main_v70 V).trans ((s_main_v70 (U1 V)).trans (congrArg (broadcastInDim S300000 ![] bcast_S_S300000 : (⟨S_, .i32⟩ : BufTy).Contents (Elt F) → (⟨S300000, .i32⟩ : BufTy).Contents (Elt F)) (lift2_main_c_13 V).symm))
theorem rd_main_v71 (V : Valuation τ sig (Elt F)) : (after (ops (F := F)) V (Proc.devRef .tc main_v71)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v3)) (after (ops (F := F)) V (Proc.devRef .tc main_v70))) :=
  (lift2_main_v71 V).trans ((s_main_v71 (U1 V)).trans (congrArg₂ (addi : (⟨S300000, .i32⟩ : BufTy).Contents (Elt F) → (⟨S300000, .i32⟩ : BufTy).Contents (Elt F) → (⟨S300000, .i32⟩ : BufTy).Contents (Elt F)) (lift2_main_v3 V).symm (lift2_main_v70 V).symm))
theorem rd_main_v72 (V : Valuation τ sig (Elt F)) : (after (ops (F := F)) V (Proc.devRef .tc main_v72)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v69)) (after (ops (F := F)) V (Proc.devRef .tc main_v71)) (after (ops (F := F)) V (Proc.devRef .tc main_v3))) :=
  (lift2_main_v72 V).trans ((s_main_v72 (U1 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift2_main_v69 V).symm (lift2_main_v71 V).symm (lift2_main_v3 V).symm))
theorem rd_main_v73 (V : Valuation τ sig (Elt F)) : (after (ops (F := F)) V (Proc.devRef .tc main_v73)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v72))) :=
  (lift2_main_v73 V).trans ((s_main_v73 (U1 V)).trans (congrArg (broadcastInDim S300000x1 ![0] bcast_S300000_S300000x1_0 : (⟨S300000, .i32⟩ : BufTy).Contents (Elt F) → (⟨S300000x1, .i32⟩ : BufTy).Contents (Elt F)) (lift2_main_v72 V).symm))
theorem rd_main_v74 (V : Valuation τ sig (Elt F)) : (after (ops (F := F)) V (Proc.devRef .tc main_v74)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) (after (ops (F := F)) V (Proc.devRef .tc main_v73))) :=
  (lift2_main_v74 V).trans ((s_main_v74 (U1 V)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (lift2_main_v22 V).symm (lift2_main_v73 V).symm))
theorem rd_main_c_14 (V : Valuation τ sig (Elt F)) : (after (ops (F := F)) V (Proc.devRef .tc main_c_14)) = (constantI S_ 32 0#32) :=
  (lift2_main_c_14 V).trans ((s_main_c_14 (U1 V)))
theorem rd_main_v75 (V : Valuation τ sig (Elt F)) : (after (ops (F := F)) V (Proc.devRef .tc main_v75)) = ((broadcastInDim S300000 ![] bcast_S_S300000 : (⟨S_, .i32⟩ : BufTy).Contents (Elt F) → (⟨S300000, .i32⟩ : BufTy).Contents (Elt F)) (after (ops (F := F)) V (Proc.devRef .tc main_c_14))) :=
  (lift2_main_v75 V).trans ((s_main_v75 (U1 V)).trans (congrArg (broadcastInDim S300000 ![] bcast_S_S300000 : (⟨S_, .i32⟩ : BufTy).Contents (Elt F) → (⟨S300000, .i32⟩ : BufTy).Contents (Elt F)) (lift2_main_c_14 V).symm))
theorem rd_main_v76 (V : Valuation τ sig (Elt F)) : (after (ops (F := F)) V (Proc.devRef .tc main_v76)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v1)) (after (ops (F := F)) V (Proc.devRef .tc main_v75))) :=
  (lift2_main_v76 V).trans ((s_main_v76 (U1 V)).trans (congrArg₂ (cmpi .slt : (⟨S300000, .i32⟩ : BufTy).Contents (Elt F) → (⟨S300000, .i32⟩ : BufTy).Contents (Elt F) → (⟨S300000, .i1⟩ : BufTy).Contents (Elt F)) (lift2_main_v1 V).symm (lift2_main_v75 V).symm))
theorem rd_main_c_15 (V : Valuation τ sig (Elt F)) : (after (ops (F := F)) V (Proc.devRef .tc main_c_15)) = (constantI S_ 32 30000#32) :=
  (lift2_main_c_15 V).trans ((s_main_c_15 (U1 V)))
theorem rd_main_v77 (V : Valuation τ sig (Elt F)) : (after (ops (F := F)) V (Proc.devRef .tc main_v77)) = ((broadcastInDim S300000 ![] bcast_S_S300000 : (⟨S_, .i32⟩ : BufTy).Contents (Elt F) → (⟨S300000, .i32⟩ : BufTy).Contents (Elt F)) (after (ops (F := F)) V (Proc.devRef .tc main_c_15))) :=
  (lift2_main_v77 V).trans ((s_main_v77 (U1 V)).trans (congrArg (broadcastInDim S300000 ![] bcast_S_S300000 : (⟨S_, .i32⟩ : BufTy).Contents (Elt F) → (⟨S300000, .i32⟩ : BufTy).Contents (Elt F)) (lift2_main_c_15 V).symm))
theorem rd_main_v78 (V : Valuation τ sig (Elt F)) : (after (ops (F := F)) V (Proc.devRef .tc main_v78)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v1)) (after (ops (F := F)) V (Proc.devRef .tc main_v77))) :=
  (lift2_main_v78 V).trans ((s_main_v78 (U1 V)).trans (congrArg₂ (addi : (⟨S300000, .i32⟩ : BufTy).Contents (Elt F) → (⟨S300000, .i32⟩ : BufTy).Contents (Elt F) → (⟨S300000, .i32⟩ : BufTy).Contents (Elt F)) (lift2_main_v1 V).symm (lift2_main_v77 V).symm))
theorem rd_main_v79 (V : Valuation τ sig (Elt F)) : (after (ops (F := F)) V (Proc.devRef .tc main_v79)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v76)) (after (ops (F := F)) V (Proc.devRef .tc main_v78)) (after (ops (F := F)) V (Proc.devRef .tc main_v1))) :=
  (lift2_main_v79 V).trans ((s_main_v79 (U1 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift2_main_v76 V).symm (lift2_main_v78 V).symm (lift2_main_v1 V).symm))
theorem rd_main_v80 (V : Valuation τ sig (Elt F)) : (after (ops (F := F)) V (Proc.devRef .tc main_v80)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v79))) :=
  (lift2_main_v80 V).trans ((s_main_v80 (U1 V)).trans (congrArg (broadcastInDim S300000x1 ![0] bcast_S300000_S300000x1_0 : (⟨S300000, .i32⟩ : BufTy).Contents (Elt F) → (⟨S300000x1, .i32⟩ : BufTy).Contents (Elt F)) (lift2_main_v79 V).symm))
theorem rd_main_v81 (V : Valuation τ sig (Elt F)) : (after (ops (F := F)) V (Proc.devRef .tc main_v81)) = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (after (ops (F := F)) V (Proc.devRef .tc main_arg4)) (after (ops (F := F)) V (Proc.devRef .tc main_v80))) :=
  (lift2_main_v81 V).trans ((s_main_v81 (U1 V)).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (lift2_main_arg4 V).symm (lift2_main_v80 V).symm))
theorem rd_main_c_16 (V : Valuation τ sig (Elt F)) : (after (ops (F := F)) V (Proc.devRef .tc main_c_16)) = (constantI S_ 32 0#32) :=
  (lift2_main_c_16 V).trans ((s_main_c_16 (U1 V)))
theorem rd_main_v82 (V : Valuation τ sig (Elt F)) : (after (ops (F := F)) V (Proc.devRef .tc main_v82)) = ((broadcastInDim S300000 ![] bcast_S_S300000 : (⟨S_, .i32⟩ : BufTy).Contents (Elt F) → (⟨S300000, .i32⟩ : BufTy).Contents (Elt F)) (after (ops (F := F)) V (Proc.devRef .tc main_c_16))) :=
  (lift2_main_v82 V).trans ((s_main_v82 (U1 V)).trans (congrArg (broadcastInDim S300000 ![] bcast_S_S300000 : (⟨S_, .i32⟩ : BufTy).Contents (Elt F) → (⟨S300000, .i32⟩ : BufTy).Contents (Elt F)) (lift2_main_c_16 V).symm))
theorem rd_main_v83 (V : Valuation τ sig (Elt F)) : (after (ops (F := F)) V (Proc.devRef .tc main_v83)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v81)) (after (ops (F := F)) V (Proc.devRef .tc main_v82))) :=
  (lift2_main_v83 V).trans ((s_main_v83 (U1 V)).trans (congrArg₂ (cmpi .slt : (⟨S300000, .i32⟩ : BufTy).Contents (Elt F) → (⟨S300000, .i32⟩ : BufTy).Contents (Elt F) → (⟨S300000, .i1⟩ : BufTy).Contents (Elt F)) (lift2_main_v81 V).symm (lift2_main_v82 V).symm))
theorem rd_main_c_17 (V : Valuation τ sig (Elt F)) : (after (ops (F := F)) V (Proc.devRef .tc main_c_17)) = (constantI S_ 32 64#32) :=
  (lift2_main_c_17 V).trans ((s_main_c_17 (U1 V)))
theorem rd_main_v84 (V : Valuation τ sig (Elt F)) : (after (ops (F := F)) V (Proc.devRef .tc main_v84)) = ((broadcastInDim S300000 ![] bcast_S_S300000 : (⟨S_, .i32⟩ : BufTy).Contents (Elt F) → (⟨S300000, .i32⟩ : BufTy).Contents (Elt F)) (after (ops (F := F)) V (Proc.devRef .tc main_c_17))) :=
  (lift2_main_v84 V).trans ((s_main_v84 (U1 V)).trans (congrArg (broadcastInDim S300000 ![] bcast_S_S300000 : (⟨S_, .i32⟩ : BufTy).Contents (Elt F) → (⟨S300000, .i32⟩ : BufTy).Contents (Elt F)) (lift2_main_c_17 V).symm))
theorem rd_main_v85 (V : Valuation τ sig (Elt F)) : (after (ops (F := F)) V (Proc.devRef .tc main_v85)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v81)) (after (ops (F := F)) V (Proc.devRef .tc main_v84))) :=
  (lift2_main_v85 V).trans ((s_main_v85 (U1 V)).trans (congrArg₂ (addi : (⟨S300000, .i32⟩ : BufTy).Contents (Elt F) → (⟨S300000, .i32⟩ : BufTy).Contents (Elt F) → (⟨S300000, .i32⟩ : BufTy).Contents (Elt F)) (lift2_main_v81 V).symm (lift2_main_v84 V).symm))
theorem rd_main_v86 (V : Valuation τ sig (Elt F)) : (after (ops (F := F)) V (Proc.devRef .tc main_v86)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v83)) (after (ops (F := F)) V (Proc.devRef .tc main_v85)) (after (ops (F := F)) V (Proc.devRef .tc main_v81))) :=
  (lift2_main_v86 V).trans ((s_main_v86 (U1 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift2_main_v83 V).symm (lift2_main_v85 V).symm (lift2_main_v81 V).symm))
theorem rd_main_v87 (V : Valuation τ sig (Elt F)) : (after (ops (F := F)) V (Proc.devRef .tc main_v87)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v86))) :=
  (lift2_main_v87 V).trans ((s_main_v87 (U1 V)).trans (congrArg (broadcastInDim S300000x1 ![0] bcast_S300000_S300000x1_0 : (⟨S300000, .i32⟩ : BufTy).Contents (Elt F) → (⟨S300000x1, .i32⟩ : BufTy).Contents (Elt F)) (lift2_main_v86 V).symm))
theorem rd_main_v88 (V : Valuation τ sig (Elt F)) : (after (ops (F := F)) V (Proc.devRef .tc main_v88)) = (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops (F := F)) V (Proc.devRef .tc main_v60)) (after (ops (F := F)) V (Proc.devRef .tc main_v87))) :=
  (lift2_main_v88 V).trans ((s_main_v88 (U1 V)).trans (congrArg₂ ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (lift2_main_v60 V).symm (lift2_main_v87 V).symm))
theorem rd_main_v89 (V : Valuation τ sig (Elt F)) : (after (ops (F := F)) V (Proc.devRef .tc main_v89)) = (concatenate S300000x192 1 [⟨S300000x64, (after (ops (F := F)) V (Proc.devRef .tc main_v67))⟩, ⟨S300000x64, (after (ops (F := F)) V (Proc.devRef .tc main_v74))⟩, ⟨S300000x32, (after (ops (F := F)) V (Proc.devRef .tc main_v41))⟩, ⟨S300000x32, (after (ops (F := F)) V (Proc.devRef .tc main_v88))⟩] concatenates_S300000x64_S300000x64_S300000x32_S300000x32_S300000x192_d1) :=
  (lift2_main_v89 V).trans ((s_main_v89 (U1 V)).trans (congr4 (fun A0 A1 A2 A3 => concatenate S300000x192 1 [⟨S300000x64, A0⟩, ⟨S300000x64, A1⟩, ⟨S300000x32, A2⟩, ⟨S300000x32, A3⟩] concatenates_S300000x64_S300000x64_S300000x32_S300000x32_S300000x192_d1) (lift2_main_v67 V).symm (lift2_main_v74 V).symm (lift2_main_v41 V).symm (lift2_main_v88 V).symm))
theorem rd_main_v90 (V : Valuation τ sig (Elt F)) : (after (ops (F := F)) V (Proc.devRef .tc main_v90)) = (((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (after (ops (F := F)) V (Proc.devRef .tc main_v89)) (after (ops (F := F)) V (Proc.devRef .tc main_arg11))) :=
  (lift2_main_v90 V).trans ((s_main_v90 (U1 V)).trans (congrArg₂ ((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (lift2_main_v89 V).symm (lift2_main_arg11 V).symm))
theorem rd_main_v91 (V : Valuation τ sig (Elt F)) : (after (ops (F := F)) V (Proc.devRef .tc main_v91)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg12))) :=
  (lift2_main_v91 V).trans ((s_main_v91 (U1 V)).trans (congrArg (broadcastInDim S1x64 ![1] bcast_S64_S1x64_1 : (⟨S64, .f32⟩ : BufTy).Contents (Elt F) → (⟨S1x64, .f32⟩ : BufTy).Contents (Elt F)) (lift2_main_arg12 V).symm))
theorem rd_main_v92 (V : Valuation τ sig (Elt F)) : (after (ops (F := F)) V (Proc.devRef .tc main_v92)) = ((broadcastInDim S300000x64 ![0, 1] bcast_S1x64_S300000x64_0_1 : (⟨S1x64, .f32⟩ : BufTy).Contents (Elt F) → (⟨S300000x64, .f32⟩ : BufTy).Contents (Elt F)) (after (ops (F := F)) V (Proc.devRef .tc main_v91))) :=
  (lift2_main_v92 V).trans ((s_main_v92 (U1 V)).trans (congrArg (broadcastInDim S300000x64 ![0, 1] bcast_S1x64_S300000x64_0_1 : (⟨S1x64, .f32⟩ : BufTy).Contents (Elt F) → (⟨S300000x64, .f32⟩ : BufTy).Contents (Elt F)) (lift2_main_v91 V).symm))
theorem rd_main_v93 (V : Valuation τ sig (Elt F)) : (after (ops (F := F)) V (Proc.devRef .tc main_v93)) = ((addf : (⟨S300000x64, .f32⟩ : BufTy).Contents (Elt F) → (⟨S300000x64, .f32⟩ : BufTy).Contents (Elt F) → (⟨S300000x64, .f32⟩ : BufTy).Contents (Elt F)) (after (ops (F := F)) V (Proc.devRef .tc main_v90)) (after (ops (F := F)) V (Proc.devRef .tc main_v92))) :=
  (lift2_main_v93 V).trans ((s_main_v93 (U1 V)).trans (congrArg₂ (addf : (⟨S300000x64, .f32⟩ : BufTy).Contents (Elt F) → (⟨S300000x64, .f32⟩ : BufTy).Contents (Elt F) → (⟨S300000x64, .f32⟩ : BufTy).Contents (Elt F)) (lift2_main_v90 V).symm (lift2_main_v92 V).symm))
theorem rd_main_call3_cst (V : Valuation τ sig (Elt F)) : (after (ops (F := F)) V (Proc.devRef .tc main_call3_cst)) = (constant (F := F) S_ .f32 0x00000000#32) :=
  (lift2_main_call3_cst V).trans ((s_main_call3_cst (U1 V)))
theorem rd_main_call3_v0 (V : Valuation τ sig (Elt F)) : (after (ops (F := F)) V (Proc.devRef .tc main_call3_v0)) = (((broadcastInDim S300000x64 ![] bcast_S_S300000x64) : (⟨S_, .f32⟩ : BufTy).Contents (Elt F) → (⟨S300000x64, .f32⟩ : BufTy).Contents (Elt F)) (after (ops (F := F)) V (Proc.devRef .tc main_call3_cst))) :=
  (lift2_main_call3_v0 V).trans ((s_main_call3_v0 (U1 V)).trans (congrArg ((broadcastInDim S300000x64 ![] bcast_S_S300000x64) : (⟨S_, .f32⟩ : BufTy).Contents (Elt F) → (⟨S300000x64, .f32⟩ : BufTy).Contents (Elt F)) (lift2_main_call3_cst V).symm))
theorem rd_main_v94 (V : Valuation τ sig (Elt F)) : (after (ops (F := F)) V (Proc.devRef .tc main_v94)) = ((maximumf : (⟨S300000x64, .f32⟩ : BufTy).Contents (Elt F) → (⟨S300000x64, .f32⟩ : BufTy).Contents (Elt F) → (⟨S300000x64, .f32⟩ : BufTy).Contents (Elt F)) (after (ops (F := F)) V (Proc.devRef .tc main_v93)) (after (ops (F := F)) V (Proc.devRef .tc main_call3_v0))) :=
  (lift2_main_v94 V).trans ((s_main_v94 (U1 V)).trans (congrArg₂ (maximumf : (⟨S300000x64, .f32⟩ : BufTy).Contents (Elt F) → (⟨S300000x64, .f32⟩ : BufTy).Contents (Elt F) → (⟨S300000x64, .f32⟩ : BufTy).Contents (Elt F)) (lift2_main_v93 V).symm (lift2_main_call3_v0 V).symm))
theorem rd_main_cst_18 (V : Valuation τ sig (Elt F)) : (after (ops (F := F)) V (Proc.devRef .tc main_cst_18)) = (constant (F := F) S_ .f32 0x00000000#32) :=
  (lift2_main_cst_18 V).trans ((s_main_cst_18 (U1 V)))
theorem rd_main_v95 (V : Valuation τ sig (Elt F)) : (after (ops (F := F)) V (Proc.devRef .tc main_v95)) = ((broadcastInDim S30000x64 ![] bcast_S_S30000x64 : (⟨S_, .f32⟩ : BufTy).Contents (Elt F) → (⟨S30000x64, .f32⟩ : BufTy).Contents (Elt F)) (after (ops (F := F)) V (Proc.devRef .tc main_cst_18))) :=
  (lift2_main_v95 V).trans ((s_main_v95 (U1 V)).trans (congrArg (broadcastInDim S30000x64 ![] bcast_S_S30000x64 : (⟨S_, .f32⟩ : BufTy).Contents (Elt F) → (⟨S30000x64, .f32⟩ : BufTy).Contents (Elt F)) (lift2_main_cst_18 V).symm))
theorem rd_main_v96 (V : Valuation τ sig (Elt F)) : (after (ops (F := F)) V (Proc.devRef .tc main_v96)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v3))) :=
  (lift2_main_v96 V).trans ((s_main_v96 (U1 V)).trans (congrArg (broadcastInDim S300000x1 ![0] bcast_S300000_S300000x1_0 : (⟨S300000, .i32⟩ : BufTy).Contents (Elt F) → (⟨S300000x1, .i32⟩ : BufTy).Contents (Elt F)) (lift2_main_v3 V).symm))
theorem rd_main_v97 (V : Valuation τ sig (Elt F)) : (after (ops (F := F)) V (Proc.devRef .tc main_v97)) = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (after (ops (F := F)) V (Proc.devRef .tc main_v95)) (after (ops (F := F)) V (Proc.devRef .tc main_v96)) (after (ops (F := F)) V (Proc.devRef .tc main_v94))) :=
  (lift2_main_v97 V).trans ((s_main_v97 (U1 V)).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (lift2_main_v95 V).symm (lift2_main_v96 V).symm (lift2_main_v94 V).symm))
theorem rd_main_cst_19 (V : Valuation τ sig (Elt F)) : (after (ops (F := F)) V (Proc.devRef .tc main_cst_19)) = (constant (F := F) S_ .f32 0x3F800000#32) :=
  (lift2_main_cst_19 V).trans ((s_main_cst_19 (U1 V)))

end Cert.ReferenceIdeal.Hand

end
-- ==== Proof.Ref.BnRead.lean ====
/-
  The reference program's three normalised arrays, read at the end of its run, are the host batch normalisation
  `bnHost` of its argument arrays: each result buffer is rewritten to its operation of its operands, from the
  result back to the arguments, and the term reached is `bnHost`'s own.
-/
import proofs.«123839_j71768903516633_2_alg».proof.Proof.Ref.Rd0
import proofs.«123839_j71768903516633_2_alg».proof.Proof.Ref.Rd1
import proofs.«123839_j71768903516633_2_alg».proof.Proof.Ref.LiftA
import proofs.«123839_j71768903516633_2_alg».proof.Proof.Math.BnHost

noncomputable section

namespace Cert.ReferenceIdeal.Hand

open Cert.ReferenceIdeal Idealize.ShloMosaic Idealize.ShloMosaic.TcCoe Idealize.SL.Sem Idealize.ShloMosaic.StableHlo
open Cert.Lib.BatchNorm

variable [Facts]
open Facts₀ Facts

set_option maxRecDepth 16384

/-- The reference's normalised node-feature array at the end of its run is `bnHost` of its argument arrays. -/
theorem ref_bn_x (V : Valuation Cert.ReferenceIdeal.τ Cert.ReferenceIdeal.sig (Elt Ideal)) :
    after (Cert.ReferenceIdeal.Hand.ops (F := Ideal)) V (Proc.devRef .tc Cert.ReferenceIdeal.main_v22)
      = bnHost 0x46EA6000#32 reducesTo_S30000x64_S64_d0 h_S_ bcast_S_S64 bcast_S64_S1x64_1 bcast_S_S1x64 bcast_S1x64_S30000x64_0_1
          (V (Proc.devRef .tc main_arg0)) (V (Proc.devRef .tc main_arg5)) (V (Proc.devRef .tc main_arg6)) := by
  rw [rd_main_v22 V,
    rd_main_v19 V,
    rd_main_v21 V,
    rd_main_v20 V,
    rd_main_v13 V,
    rd_main_v18 V,
    rd_main_v17 V,
    rd_main_v16 V,
    rd_main_v15 V,
    rd_main_v14 V,
    rd_main_cst_1 V,
    rd_main_v12 V,
    rd_main_v11 V,
    rd_main_v10 V,
    rd_main_v9 V,
    rd_main_v8 V,
    rd_main_v6 V,
    rd_main_v4 V,
    rd_main_cst V,
    rd_main_v5 V,
    rd_main_cst_0 V,
    rd_main_v7 V,
    rd_main_call0_v12 V,
    rd_main_call0_cst_3 V,
    rd_main_call0_v11 V,
    rd_main_call0_v9 V,
    rd_main_call0_cst_2 V,
    rd_main_call0_v10 V,
    rd_main_call0_v8 V,
    rd_main_call0_cst_1 V,
    rd_main_call0_v7 V,
    rd_main_c V,
    rd_main_call0_v6 V,
    rd_main_call0_v5 V,
    rd_main_call0_v4 V,
    rd_main_call0_v3 V,
    rd_main_call0_v1 V,
    rd_main_call0_v0 V,
    rd_main_call0_cst V,
    rd_main_call0_v2 V,
    rd_main_call0_cst_0 V,
    rd_main_call0_call0_v1 V,
    rd_main_call0_call0_v0 V,
    rd_main_call0_cst_4 V,
    lift0_main_arg0 V,
    lift0_main_arg5 V,
    lift0_main_arg6 V]
  rfl

/-- The reference's normalised edge-feature array at the end of its run is `bnHost` of its argument arrays. -/
theorem ref_bn_e (V : Valuation Cert.ReferenceIdeal.τ Cert.ReferenceIdeal.sig (Elt Ideal)) :
    after (Cert.ReferenceIdeal.Hand.ops (F := Ideal)) V (Proc.devRef .tc Cert.ReferenceIdeal.main_v41)
      = bnHost 0x48927C00#32 reducesTo_S300000x32_S32_d0 h_S_ bcast_S_S32 bcast_S32_S1x32_1 bcast_S_S1x32 bcast_S1x32_S300000x32_0_1
          (V (Proc.devRef .tc main_arg2)) (V (Proc.devRef .tc main_arg7)) (V (Proc.devRef .tc main_arg8)) := by
  rw [rd_main_v41 V,
    rd_main_v38 V,
    rd_main_v40 V,
    rd_main_v39 V,
    rd_main_v32 V,
    rd_main_v37 V,
    rd_main_v36 V,
    rd_main_v35 V,
    rd_main_v34 V,
    rd_main_v33 V,
    rd_main_cst_5 V,
    rd_main_v31 V,
    rd_main_v30 V,
    rd_main_v29 V,
    rd_main_v28 V,
    rd_main_v27 V,
    rd_main_v25 V,
    rd_main_v23 V,
    rd_main_cst_2 V,
    rd_main_v24 V,
    rd_main_cst_3 V,
    rd_main_v26 V,
    rd_main_call1_v12 V,
    rd_main_call1_cst_3 V,
    rd_main_call1_v11 V,
    rd_main_call1_v9 V,
    rd_main_call1_cst_2 V,
    rd_main_call1_v10 V,
    rd_main_call1_v8 V,
    rd_main_call1_cst_1 V,
    rd_main_call1_v7 V,
    rd_main_c_4 V,
    rd_main_call1_v6 V,
    rd_main_call1_v5 V,
    rd_main_call1_v4 V,
    rd_main_call1_v3 V,
    rd_main_call1_v1 V,
    rd_main_call1_v0 V,
    rd_main_call1_cst V,
    rd_main_call1_v2 V,
    rd_main_call1_cst_0 V,
    rd_main_call1_call0_v1 V,
    rd_main_call1_call0_v0 V,
    rd_main_call1_cst_4 V,
    lift0_main_arg2 V,
    lift0_main_arg7 V,
    lift0_main_arg8 V]
  rfl

/-- The reference's normalised global-feature array at the end of its run is `bnHost` of its argument arrays. -/
theorem ref_bn_u (V : Valuation Cert.ReferenceIdeal.τ Cert.ReferenceIdeal.sig (Elt Ideal)) :
    after (Cert.ReferenceIdeal.Hand.ops (F := Ideal)) V (Proc.devRef .tc Cert.ReferenceIdeal.main_v60)
      = bnHost 0x42800000#32 reducesTo_S64x32_S32_d0 h_S_ bcast_S_S32 bcast_S32_S1x32_1 bcast_S_S1x32 bcast_S1x32_S64x32_0_1
          (V (Proc.devRef .tc main_arg3)) (V (Proc.devRef .tc main_arg9)) (V (Proc.devRef .tc main_arg10)) := by
  rw [rd_main_v60 V,
    rd_main_v57 V,
    rd_main_v59 V,
    rd_main_v58 V,
    rd_main_v51 V,
    rd_main_v56 V,
    rd_main_v55 V,
    rd_main_v54 V,
    rd_main_v53 V,
    rd_main_v52 V,
    rd_main_cst_9 V,
    rd_main_v50 V,
    rd_main_v49 V,
    rd_main_v48 V,
    rd_main_v47 V,
    rd_main_v46 V,
    rd_main_v44 V,
    rd_main_v42 V,
    rd_main_cst_6 V,
    rd_main_v43 V,
    rd_main_cst_7 V,
    rd_main_v45 V,
    rd_main_call2_v12 V,
    rd_main_call2_cst_3 V,
    rd_main_call2_v11 V,
    rd_main_call2_v9 V,
    rd_main_call2_cst_2 V,
    rd_main_call2_v10 V,
    rd_main_call2_v8 V,
    rd_main_call2_cst_1 V,
    rd_main_call2_v7 V,
    rd_main_c_8 V,
    rd_main_call2_v6 V,
    rd_main_call2_v5 V,
    rd_main_call2_v4 V,
    rd_main_call2_v3 V,
    rd_main_call2_v1 V,
    rd_main_call2_v0 V,
    rd_main_call2_cst V,
    rd_main_call2_v2 V,
    rd_main_call2_cst_0 V,
    rd_main_call2_call0_v1 V,
    rd_main_call2_call0_v0 V,
    rd_main_call2_cst_4 V,
    lift0_main_arg3 V,
    lift0_main_arg9 V,
    lift0_main_arg10 V]
  rfl

end Cert.ReferenceIdeal.Hand

end
-- ==== Proof.Math.Finite.lean ====
/-
  The precondition read back: every entry of the three feature arrays is a real number.

  The precondition is the conjunction, over every float argument, of "every entry has absolute value below +∞".
  Each conjunct is a reduction by `and` of the entrywise comparisons, so when the conjunction is 1 each comparison
  is 1; and an extended real whose absolute value max (a, −a) is below +∞ is neither +∞ nor −∞, so it is a real.
-/
import proofs.«123839_j71768903516633_2_alg».proof.Defs
import Idealize.ShloMosaic.Lib.ReduceAll
import Idealize.ShloMosaic.Lib.ValueIdx
import Idealize.ShloMosaic.PureOps.Ideal.Laws

noncomputable section

namespace Cert.Lib.BatchNorm

open Idealize.ShloMosaic Idealize.ShloMosaic.ValueIdx

/-- A scalar has one index. -/
instance subsingletonScalarIdx : Subsingleton (⟨0, ![]⟩ : Shape).Idx := ⟨fun a b => funext fun d => d.elim0⟩

/-- The single-precision word 7F800000 is +∞. -/
theorem ofBits_inf : Ideal.ofBits .f32 0x7F800000#32 = (⊤ : EReal) := by simp [Ideal.ofBits, Ideal.ieee]

/-- An extended real whose absolute value is below +∞ is a real. -/
theorem real_of_abs_lt_inf (a : EReal)
    (h : Ideal.cmp .olt (max a (-a)) (Ideal.ofBits .f32 0x7F800000#32) = 1#1) : ∃ y : ℝ, a = (y : EReal) := by
  rw [ofBits_inf] at h
  have h' : max a (-a) < ⊤ := by
    by_contra hn
    have h0 : Ideal.cmp .olt (max a (-a)) ⊤ = 0#1 := by
      show BitVec.ofBool (decide (max a (-a) < ⊤)) = 0#1
      rw [decide_eq_false hn]; rfl
    rw [h0] at h; exact absurd h (by decide)
  induction a using EReal.rec with
  | bot => simp at h'
  | coe y => exact ⟨y, rfl⟩
  | top => simp at h'

/-- When the reduction by `and` of "the absolute value is below +∞" over a whole array is 1, every entry is a real. -/
theorem entry_real_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel) (init : (⟨0, ![]⟩ : Shape).Idx → BitVec 1)
    (e : Host.reduce IntOp.andi
          (cmpf (F := Ideal) .olt (Host.absf (F := Ideal) x)
            (broadcastInDim s ![] hb (constant (F := Ideal) ⟨0, ![]⟩ .f32 0x7F800000#32)))
          init hr hu ix0 = 1#1) (i : s.Idx) : ∃ y : ℝ, x i = (y : EReal) :=
  real_of_abs_lt_inf (x i) (Host.reduce_andi_all _ init hr hu ix0 e i)

section Arrays

open Cert.Pre_finite_inputs

variable [Cert.KernelIdeal.Facts] [Cert.Pre_finite_inputs.Facts]
  (m : (ℓ : Loc Cert.KernelIdeal.nD Cert.KernelIdeal.τ Cert.KernelIdeal.sig) → Buf (Elt Ideal) ℓ)
  (hpre : Cert.Pre_KernelIdeal m) (c : Dev Cert.KernelIdeal.nD)

include hpre in
/-- The three conjuncts of the precondition that speak of the feature arrays. -/
theorem finite_flags :
    (Host.reduce IntOp.andi
        (cmpf (F := Ideal) .olt (Host.absf (F := Ideal) (m ((c.tc : Thread Cert.KernelIdeal.nD Cert.KernelIdeal.τ).loc Cert.KernelIdeal.main_arg0) : FVec Ideal ⟨2, ![30000, 64]⟩ .f32))
          (broadcastInDim ⟨2, ![30000, 64]⟩ ![] Facts.bcast_S_S30000x64 (constant (F := Ideal) ⟨0, ![]⟩ .f32 0x7F800000#32)))
        (constantI ⟨0, ![]⟩ 1 1#1) Facts.reducesTo_S30000x64_S_d0_1 Facts.h_S_ ix0 = 1#1)
    ∧ (Host.reduce IntOp.andi
        (cmpf (F := Ideal) .olt (Host.absf (F := Ideal) (m ((c.tc : Thread Cert.KernelIdeal.nD Cert.KernelIdeal.τ).loc Cert.KernelIdeal.main_arg2) : FVec Ideal ⟨2, ![300000, 32]⟩ .f32))
          (broadcastInDim ⟨2, ![300000, 32]⟩ ![] Facts.bcast_S_S300000x32 (constant (F := Ideal) ⟨0, ![]⟩ .f32 0x7F800000#32)))
        (constantI ⟨0, ![]⟩ 1 1#1) Facts.reducesTo_S300000x32_S_d0_1 Facts.h_S_ ix0 = 1#1)
    ∧ (Host.reduce IntOp.andi
        (cmpf (F := Ideal) .olt (Host.absf (F := Ideal) (m ((c.tc : Thread Cert.KernelIdeal.nD Cert.KernelIdeal.τ).loc Cert.KernelIdeal.main_arg3) : FVec Ideal ⟨2, ![64, 32]⟩ .f32))
          (broadcastInDim ⟨2, ![64, 32]⟩ ![] Facts.bcast_S_S64x32 (constant (F := Ideal) ⟨0, ![]⟩ .f32 0x7F800000#32)))
        (constantI ⟨0, ![]⟩ 1 1#1) Facts.reducesTo_S64x32_S_d0_1 Facts.h_S_ ix0 = 1#1) := by
  have h0 := congrFun (hpre c) ix0
  dsimp only [Cert.Pre_finite_inputs.fn, fn_part1, fn_part2, fn_part3, fn_part4, fn_part5, fn_part6, fn_part7] at h0
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  have h8 := (IntOp.andi_eq_one.1 h0).1
  exact ⟨(IntOp.andi_eq_one.1 h8).1, (IntOp.andi_eq_one.1 h8).2, (IntOp.andi_eq_one.1 h0).2⟩

include hpre in
/-- Every entry of the node features is a real. -/
theorem finite_x (p : Fin 30000) (q : Fin 64) :
    ∃ y : ℝ, (m ((c.tc : Thread Cert.KernelIdeal.nD Cert.KernelIdeal.τ).loc Cert.KernelIdeal.main_arg0) : FVec Ideal ⟨2, ![30000, 64]⟩ .f32) (ix2 p q) = (y : EReal) :=
  entry_real_of_all _ _ _ _ _ (finite_flags m hpre c).1 (ix2 p q)

include hpre in
/-- Every entry of the edge features is a real. -/
theorem finite_e (p : Fin 300000) (q : Fin 32) :
    ∃ y : ℝ, (m ((c.tc : Thread Cert.KernelIdeal.nD Cert.KernelIdeal.τ).loc Cert.KernelIdeal.main_arg2) : FVec Ideal ⟨2, ![300000, 32]⟩ .f32) (ix2 p q) = (y : EReal) :=
  entry_real_of_all _ _ _ _ _ (finite_flags m hpre c).2.1 (ix2 p q)

include hpre in
/-- Every entry of the global features is a real. -/
theorem finite_u (p : Fin 64) (q : Fin 32) :
    ∃ y : ℝ, (m ((c.tc : Thread Cert.KernelIdeal.nD Cert.KernelIdeal.τ).loc Cert.KernelIdeal.main_arg3) : FVec Ideal ⟨2, ![64, 32]⟩ .f32) (ix2 p q) = (y : EReal) :=
  entry_real_of_all _ _ _ _ _ (finite_flags m hpre c).2.2 (ix2 p q)

end Arrays

end Cert.Lib.BatchNorm

end
-- ==== Proof.Bridge.BnX.lean ====
/-
  The reference's normalised input `x` holds what the kernel program's holds: the kernel's mean of squares less squared
  mean is the reference's mean squared deviation on finite entries; the three launch arguments it reads are taken equal
  as hypotheses.
-/
import proofs.«123839_j71768903516633_2_alg».proof.Proof.Bridge.Names
import proofs.«123839_j71768903516633_2_alg».proof.Proof.KI.AnchorBn
import proofs.«123839_j71768903516633_2_alg».proof.Proof.Ref.BnRead
import proofs.«123839_j71768903516633_2_alg».proof.Proof.Math.BnHost
import proofs.«123839_j71768903516633_2_alg».proof.Proof.Math.Finite
import Idealize.ShloMosaic.Lib.ValueLayout

set_option maxRecDepth 100000

noncomputable section

namespace Cert.Proof.Bridge

open Idealize.ShloMosaic Idealize.ShloMosaic.TcCoe Idealize.SL.Sem Idealize.ShloMosaic.StableHlo Idealize.ShloMosaic.ValueIdx
open Cert.Lib.BatchNorm

variable [Cert.KernelIdeal.Facts] [Cert.ReferenceIdeal.Facts] [Cert.Pre_finite_inputs.Facts]

/-! ## The normalised input `x` -/

/-- At the buffers' own types. -/
theorem eq_x1_raw (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (harg0 : launchContents m' c (Proc.devRef .tc Cert.ReferenceIdeal.main_arg0) = Cert.KernelIdeal.Hand.U0 m c Cert.KernelIdeal.main_arg0)
    (harg5 : launchContents m' c (Proc.devRef .tc Cert.ReferenceIdeal.main_arg5) = Cert.KernelIdeal.Hand.U0 m c Cert.KernelIdeal.main_arg5)
    (harg6 : launchContents m' c (Proc.devRef .tc Cert.ReferenceIdeal.main_arg6) = Cert.KernelIdeal.Hand.U0 m c Cert.KernelIdeal.main_arg6)
    : after (Cert.ReferenceIdeal.Hand.ops (F := Ideal)) (launchContents m' c) (Proc.devRef .tc Cert.ReferenceIdeal.main_v22) = Cert.KernelIdeal.Hand.U4 m c Cert.KernelIdeal.main_v15 := by
  rw [Cert.ReferenceIdeal.Hand.ref_bn_x (launchContents m' c), Cert.KernelIdeal.Hand.anchor_x m c, harg0, harg5, harg6]
  exact (bn_x _ _ _ _ _ _ _ (Cert.KernelIdeal.Hand.in_x m c) (fun p q => finite_x m hpre c p q) (Cert.KernelIdeal.Hand.U0 m c Cert.KernelIdeal.main_arg5) (Cert.KernelIdeal.Hand.U0 m c Cert.KernelIdeal.main_arg6)
    (Cert.KernelIdeal.Hand.sum_x m c) (Cert.KernelIdeal.Hand.sq_x m c) _ _ (Cert.KernelIdeal.Hand.sums_x_s m c) (Cert.KernelIdeal.Hand.sums_x_q m c)
    (fun q => shapeCast_a_1a_apply _ _ 0 q) (fun q => shapeCast_a_1a_apply _ _ 0 q)).symm

/-- At the plain names. -/
theorem eq_x1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (harg0 : rArg0 m' c = kArg0 m c)
    (harg5 : rArg5 m' c = kArg5 m c)
    (harg6 : rArg6 m' c = kArg6 m c)
    : rBnX m' c = kBnX m c :=
  eq_x1_raw m m' hpre c harg0 harg5 harg6

end Cert.Proof.Bridge

end
-- ==== Proof.Bridge.BnE.lean ====
/-
  The reference's normalised input `e` holds what the kernel program's holds: the kernel's mean of squares less squared
  mean is the reference's mean squared deviation on finite entries; the three launch arguments it reads are taken equal
  as hypotheses.
-/
import proofs.«123839_j71768903516633_2_alg».proof.Proof.Bridge.Names
import proofs.«123839_j71768903516633_2_alg».proof.Proof.KI.AnchorBn
import proofs.«123839_j71768903516633_2_alg».proof.Proof.Ref.BnRead
import proofs.«123839_j71768903516633_2_alg».proof.Proof.Math.BnHost
import proofs.«123839_j71768903516633_2_alg».proof.Proof.Math.Finite
import Idealize.ShloMosaic.Lib.ValueLayout

set_option maxRecDepth 100000

noncomputable section

namespace Cert.Proof.Bridge

open Idealize.ShloMosaic Idealize.ShloMosaic.TcCoe Idealize.SL.Sem Idealize.ShloMosaic.StableHlo Idealize.ShloMosaic.ValueIdx
open Cert.Lib.BatchNorm

variable [Cert.KernelIdeal.Facts] [Cert.ReferenceIdeal.Facts] [Cert.Pre_finite_inputs.Facts]

/-! ## The normalised input `e` -/

/-- At the buffers' own types. -/
theorem eq_e1_raw (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (harg2 : launchContents m' c (Proc.devRef .tc Cert.ReferenceIdeal.main_arg2) = Cert.KernelIdeal.Hand.U0 m c Cert.KernelIdeal.main_arg2)
    (harg7 : launchContents m' c (Proc.devRef .tc Cert.ReferenceIdeal.main_arg7) = Cert.KernelIdeal.Hand.U0 m c Cert.KernelIdeal.main_arg7)
    (harg8 : launchContents m' c (Proc.devRef .tc Cert.ReferenceIdeal.main_arg8) = Cert.KernelIdeal.Hand.U0 m c Cert.KernelIdeal.main_arg8)
    : after (Cert.ReferenceIdeal.Hand.ops (F := Ideal)) (launchContents m' c) (Proc.devRef .tc Cert.ReferenceIdeal.main_v41) = Cert.KernelIdeal.Hand.U7 m c Cert.KernelIdeal.main_v27 := by
  rw [Cert.ReferenceIdeal.Hand.ref_bn_e (launchContents m' c), Cert.KernelIdeal.Hand.anchor_e m c, harg2, harg7, harg8]
  exact (bn_e _ _ _ _ _ _ _ (Cert.KernelIdeal.Hand.in_e m c) (fun p q => finite_e m hpre c p q) (Cert.KernelIdeal.Hand.U0 m c Cert.KernelIdeal.main_arg7) (Cert.KernelIdeal.Hand.U0 m c Cert.KernelIdeal.main_arg8)
    (Cert.KernelIdeal.Hand.sum_e m c) (Cert.KernelIdeal.Hand.sq_e m c) _ _ (Cert.KernelIdeal.Hand.sums_e_s m c) (Cert.KernelIdeal.Hand.sums_e_q m c)
    (fun q => shapeCast_a_1a_apply _ _ 0 q) (fun q => shapeCast_a_1a_apply _ _ 0 q)).symm

/-- At the plain names. -/
theorem eq_e1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (harg2 : rArg2 m' c = kArg2 m c)
    (harg7 : rArg7 m' c = kArg7 m c)
    (harg8 : rArg8 m' c = kArg8 m c)
    : rBnE m' c = kBnE m c :=
  eq_e1_raw m m' hpre c harg2 harg7 harg8

end Cert.Proof.Bridge

end
-- ==== Proof.Bridge.BnU.lean ====
/-
  The reference's normalised input `u` holds what the kernel program's holds: the kernel's mean of squares less squared
  mean is the reference's mean squared deviation on finite entries; the three launch arguments it reads are taken equal
  as hypotheses.
-/
import proofs.«123839_j71768903516633_2_alg».proof.Proof.Bridge.Names
import proofs.«123839_j71768903516633_2_alg».proof.Proof.KI.AnchorBn
import proofs.«123839_j71768903516633_2_alg».proof.Proof.Ref.BnRead
import proofs.«123839_j71768903516633_2_alg».proof.Proof.Math.BnHost
import proofs.«123839_j71768903516633_2_alg».proof.Proof.Math.Finite
import Idealize.ShloMosaic.Lib.ValueLayout

set_option maxRecDepth 100000

noncomputable section

namespace Cert.Proof.Bridge

open Idealize.ShloMosaic Idealize.ShloMosaic.TcCoe Idealize.SL.Sem Idealize.ShloMosaic.StableHlo Idealize.ShloMosaic.ValueIdx
open Cert.Lib.BatchNorm

variable [Cert.KernelIdeal.Facts] [Cert.ReferenceIdeal.Facts] [Cert.Pre_finite_inputs.Facts]

/-! ## The normalised input `u` -/

/-- At the buffers' own types. -/
theorem eq_u1_raw (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (harg3 : launchContents m' c (Proc.devRef .tc Cert.ReferenceIdeal.main_arg3) = Cert.KernelIdeal.Hand.U0 m c Cert.KernelIdeal.main_arg3)
    (harg9 : launchContents m' c (Proc.devRef .tc Cert.ReferenceIdeal.main_arg9) = Cert.KernelIdeal.Hand.U0 m c Cert.KernelIdeal.main_arg9)
    (harg10 : launchContents m' c (Proc.devRef .tc Cert.ReferenceIdeal.main_arg10) = Cert.KernelIdeal.Hand.U0 m c Cert.KernelIdeal.main_arg10)
    : after (Cert.ReferenceIdeal.Hand.ops (F := Ideal)) (launchContents m' c) (Proc.devRef .tc Cert.ReferenceIdeal.main_v60) = Cert.KernelIdeal.Hand.U10 m c Cert.KernelIdeal.main_v39 := by
  rw [Cert.ReferenceIdeal.Hand.ref_bn_u (launchContents m' c), Cert.KernelIdeal.Hand.anchor_u m c, harg3, harg9, harg10]
  exact (bn_u _ _ _ _ _ _ _ (Cert.KernelIdeal.Hand.in_u m c) (fun p q => finite_u m hpre c p q) (Cert.KernelIdeal.Hand.U0 m c Cert.KernelIdeal.main_arg9) (Cert.KernelIdeal.Hand.U0 m c Cert.KernelIdeal.main_arg10)
    (Cert.KernelIdeal.Hand.sum_u m c) (Cert.KernelIdeal.Hand.sq_u m c) _ _ (Cert.KernelIdeal.Hand.sums_u_s m c) (Cert.KernelIdeal.Hand.sums_u_q m c)
    (fun q => shapeCast_a_1a_apply _ _ 0 q) (fun q => shapeCast_a_1a_apply _ _ 0 q)).symm

/-- At the plain names. -/
theorem eq_u1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (harg3 : rArg3 m' c = kArg3 m c)
    (harg9 : rArg9 m' c = kArg9 m c)
    (harg10 : rArg10 m' c = kArg10 m c)
    : rBnU m' c = kBnU m c :=
  eq_u1_raw m m' hpre c harg3 harg9 harg10

end Cert.Proof.Bridge

end
-- ==== Proof.Lib.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«123839_j71768903516633_2_alg».proof.Proof.Lib.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.Lib.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«123839_j71768903516633_2_alg».proof.Proof.Lib.LibBlockReads
import proofs.«123839_j71768903516633_2_alg».proof.Proof.Lib.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.Lib.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«123839_j71768903516633_2_alg».proof.Proof.Lib.LibBlockReads
import proofs.«123839_j71768903516633_2_alg».proof.Proof.Lib.LibMatProd
import proofs.«123839_j71768903516633_2_alg».proof.Proof.Lib.LibRowVector
import proofs.«123839_j71768903516633_2_alg».proof.Proof.Lib.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.Lib.LibBands.lean ====
/-
  Arrays laid side by side, multiplied by a matrix cut into the matching bands of rows.

  The product of the side-by-side array [U | V | E] with a matrix Wm is, entry by entry, the sum of the products of U,
  V and E with the top, middle and bottom bands of Wm: the sum over the joined column index is the sum over U's columns
  plus the sum over V's plus the sum over E's. The bands may have different widths. The same with two arrays.
-/
import Idealize.ShloMosaic.PureOps.Ideal.Laws
import Idealize.ShloMosaic.Lib.ValueIdx
import Idealize.ShloMosaic.Lib.Pipeline.Value
import proofs.«123839_j71768903516633_2_alg».proof.Proof.Lib.LibMatProd
import proofs.«123839_j71768903516633_2_alg».proof.Proof.Lib.LibRowVector
import proofs.«123839_j71768903516633_2_alg».proof.Proof.Lib.LibBiasRelu
import proofs.«123839_j71768903516633_2_alg».proof.Proof.Lib.LibSplitLayers

open scoped BigOperators

noncomputable section

namespace Cert.Lib.Bands

open Idealize.ShloMosaic Idealize.ShloMosaic.ValueIdx Cert.Lib.MatProd Cert.Lib.BiasRelu Cert.Lib.RowVector
  Cert.Lib.SplitLayers

variable {r k₁ k₂ k₃ n : Nat}

/-- [U | V | E] · Wm, entry by entry, is the three products with Wm's bands. -/
theorem matProd_beside3 (U : (⟨2, ![r, k₁]⟩ : Shape).Idx → EReal) (V : (⟨2, ![r, k₂]⟩ : Shape).Idx → EReal)
    (E : (⟨2, ![r, k₃]⟩ : Shape).Idx → EReal) (Wm : (⟨2, ![k₁ + k₂ + k₃, n]⟩ : Shape).Idx → EReal)
    (hc : Shape.Concatenates (([⟨⟨2, ![r, k₁]⟩, U⟩, ⟨⟨2, ![r, k₂]⟩, V⟩, ⟨⟨2, ![r, k₃]⟩, E⟩] :
      List ((s : Shape) × (s.Idx → EReal))).map (·.1)) ⟨2, ![r, k₁ + k₂ + k₃]⟩ 1)
    (hs₁ : (⟨2, ![k₁ + k₂ + k₃, n]⟩ : Shape).Slices ![0, 0] ⟨2, ![k₁, n]⟩)
    (hs₂ : (⟨2, ![k₁ + k₂ + k₃, n]⟩ : Shape).Slices ![k₁, 0] ⟨2, ![k₂, n]⟩)
    (hs₃ : (⟨2, ![k₁ + k₂ + k₃, n]⟩ : Shape).Slices ![k₁ + k₂, 0] ⟨2, ![k₃, n]⟩) (p : Fin r) (q : Fin n) :
    matProd (concatenate ⟨2, ![r, k₁ + k₂ + k₃]⟩ 1 [⟨⟨2, ![r, k₁]⟩, U⟩, ⟨⟨2, ![r, k₂]⟩, V⟩, ⟨⟨2, ![r, k₃]⟩, E⟩] hc) Wm (ix2 p q)
      = matProd U (extractStridedSlice ⟨2, ![k₁, n]⟩ ![0, 0] Wm hs₁) (ix2 p q)
        + matProd V (extractStridedSlice ⟨2, ![k₂, n]⟩ ![k₁, 0] Wm hs₂) (ix2 p q)
        + matProd E (extractStridedSlice ⟨2, ![k₃, n]⟩ ![k₁ + k₂, 0] Wm hs₃) (ix2 p q) := by
  rw [matProd_apply, matProd_apply, matProd_apply, matProd_apply, Fin.sum_univ_add, Fin.sum_univ_add]
  congr 1
  · congr 1
    · refine Finset.sum_congr rfl fun c _ => ?_
      congr 1
      · refine concatenate_apply_piece (1 : Fin 2) [⟨⟨2, ![r, k₁]⟩, U⟩, ⟨⟨2, ![r, k₂]⟩, V⟩, ⟨⟨2, ![r, k₃]⟩, E⟩] hc
          (ix2 p (Fin.castAdd k₃ (Fin.castAdd k₂ c))) 0 (by simp) ⟨2, ![r, k₁]⟩ U rfl rfl 0 rfl (ix2 p c)
          (fun b hb => ?_) (by show 0 + c.val = c.val; omega)
        match b with
        | ⟨0, _⟩ => rfl
        | ⟨1, _⟩ => exact absurd rfl hb
      · refine (extractStridedSlice_apply ![0, 0] Wm hs₁ (ix2 c q) _ fun a => ?_).symm
        match a with
        | ⟨0, _⟩ => show c.val = 0 + c.val; omega
        | ⟨1, _⟩ => show q.val = 0 + q.val; omega
    · refine Finset.sum_congr rfl fun c _ => ?_
      congr 1
      · refine concatenate_apply_piece (1 : Fin 2) [⟨⟨2, ![r, k₁]⟩, U⟩, ⟨⟨2, ![r, k₂]⟩, V⟩, ⟨⟨2, ![r, k₃]⟩, E⟩] hc
          (ix2 p (Fin.castAdd k₃ (Fin.natAdd k₁ c))) 1 (by simp) ⟨2, ![r, k₂]⟩ V rfl rfl k₁ (by show k₁ + 0 = k₁; omega) (ix2 p c)
          (fun b hb => ?_) (by show k₁ + c.val = k₁ + c.val; rfl)
        match b with
        | ⟨0, _⟩ => rfl
        | ⟨1, _⟩ => exact absurd rfl hb
      · refine (extractStridedSlice_apply ![k₁, 0] Wm hs₂ (ix2 c q) _ fun a => ?_).symm
        match a with
        | ⟨0, _⟩ => show k₁ + c.val = k₁ + c.val; rfl
        | ⟨1, _⟩ => show q.val = 0 + q.val; omega
  · refine Finset.sum_congr rfl fun c _ => ?_
    congr 1
    · refine concatenate_apply_piece (1 : Fin 2) [⟨⟨2, ![r, k₁]⟩, U⟩, ⟨⟨2, ![r, k₂]⟩, V⟩, ⟨⟨2, ![r, k₃]⟩, E⟩] hc
        (ix2 p (Fin.natAdd (k₁ + k₂) c)) 2 (by simp) ⟨2, ![r, k₃]⟩ E rfl rfl (k₁ + k₂) (by show k₁ + (k₂ + 0) = k₁ + k₂; omega) (ix2 p c)
        (fun b hb => ?_) (by show k₁ + k₂ + c.val = k₁ + k₂ + c.val; rfl)
      match b with
      | ⟨0, _⟩ => rfl
      | ⟨1, _⟩ => exact absurd rfl hb
    · refine (extractStridedSlice_apply ![k₁ + k₂, 0] Wm hs₃ (ix2 c q) _ fun a => ?_).symm
      match a with
      | ⟨0, _⟩ => show k₁ + k₂ + c.val = k₁ + k₂ + c.val; rfl
      | ⟨1, _⟩ => show q.val = 0 + q.val; omega

/-- [U | V] · Wm, entry by entry, is the two products with Wm's bands. -/
theorem matProd_beside2 (U : (⟨2, ![r, k₁]⟩ : Shape).Idx → EReal) (V : (⟨2, ![r, k₂]⟩ : Shape).Idx → EReal)
    (Wm : (⟨2, ![k₁ + k₂, n]⟩ : Shape).Idx → EReal)
    (hc : Shape.Concatenates (([⟨⟨2, ![r, k₁]⟩, U⟩, ⟨⟨2, ![r, k₂]⟩, V⟩] :
      List ((s : Shape) × (s.Idx → EReal))).map (·.1)) ⟨2, ![r, k₁ + k₂]⟩ 1)
    (hs₁ : (⟨2, ![k₁ + k₂, n]⟩ : Shape).Slices ![0, 0] ⟨2, ![k₁, n]⟩)
    (hs₂ : (⟨2, ![k₁ + k₂, n]⟩ : Shape).Slices ![k₁, 0] ⟨2, ![k₂, n]⟩) (p : Fin r) (q : Fin n) :
    matProd (concatenate ⟨2, ![r, k₁ + k₂]⟩ 1 [⟨⟨2, ![r, k₁]⟩, U⟩, ⟨⟨2, ![r, k₂]⟩, V⟩] hc) Wm (ix2 p q)
      = matProd U (extractStridedSlice ⟨2, ![k₁, n]⟩ ![0, 0] Wm hs₁) (ix2 p q)
        + matProd V (extractStridedSlice ⟨2, ![k₂, n]⟩ ![k₁, 0] Wm hs₂) (ix2 p q) := by
  rw [matProd_apply, matProd_apply, matProd_apply, Fin.sum_univ_add]
  congr 1
  · refine Finset.sum_congr rfl fun c _ => ?_
    congr 1
    · refine concatenate_apply_piece (1 : Fin 2) [⟨⟨2, ![r, k₁]⟩, U⟩, ⟨⟨2, ![r, k₂]⟩, V⟩] hc
        (ix2 p (Fin.castAdd k₂ c)) 0 (by simp) ⟨2, ![r, k₁]⟩ U rfl rfl 0 rfl (ix2 p c)
        (fun b hb => ?_) (by show 0 + c.val = c.val; omega)
      match b with
      | ⟨0, _⟩ => rfl
      | ⟨1, _⟩ => exact absurd rfl hb
    · refine (extractStridedSlice_apply ![0, 0] Wm hs₁ (ix2 c q) _ fun a => ?_).symm
      match a with
      | ⟨0, _⟩ => show c.val = 0 + c.val; omega
      | ⟨1, _⟩ => show q.val = 0 + q.val; omega
  · refine Finset.sum_congr rfl fun c _ => ?_
    congr 1
    · refine concatenate_apply_piece (1 : Fin 2) [⟨⟨2, ![r, k₁]⟩, U⟩, ⟨⟨2, ![r, k₂]⟩, V⟩] hc
        (ix2 p (Fin.natAdd k₁ c)) 1 (by simp) ⟨2, ![r, k₂]⟩ V rfl rfl k₁ (by show k₁ + 0 = k₁; omega) (ix2 p c)
        (fun b hb => ?_) (by show k₁ + c.val = k₁ + c.val; rfl)
      match b with
      | ⟨0, _⟩ => rfl
      | ⟨1, _⟩ => exact absurd rfl hb
    · refine (extractStridedSlice_apply ![k₁, 0] Wm hs₂ (ix2 c q) _ fun a => ?_).symm
      match a with
      | ⟨0, _⟩ => show k₁ + c.val = k₁ + c.val; rfl
      | ⟨1, _⟩ => show q.val = 0 + q.val; omega

/-- The reference's spelling of a layer over three arrays side by side: one product of the concatenation with the
    whole matrix — the layer over the three arrays with the matrix's bands. -/
theorem host_layer3 (d : DotDims ⟨2, ![r, k₁ + k₂ + k₃]⟩ ⟨2, ![k₁ + k₂ + k₃, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (U : FVec Ideal ⟨2, ![r, k₁]⟩ .f32) (V : FVec Ideal ⟨2, ![r, k₂]⟩ .f32) (E : FVec Ideal ⟨2, ![r, k₃]⟩ .f32)
    (Wm : FVec Ideal ⟨2, ![k₁ + k₂ + k₃, n]⟩ .f32) (bm : FVec Ideal ⟨1, ![n]⟩ .f32)
    (hc : Shape.Concatenates (([⟨⟨2, ![r, k₁]⟩, U⟩, ⟨⟨2, ![r, k₂]⟩, V⟩, ⟨⟨2, ![r, k₃]⟩, E⟩] :
      List ((s : Shape) × (s.Idx → EReal))).map (·.1)) ⟨2, ![r, k₁ + k₂ + k₃]⟩ 1)
    (hs₁ : (⟨2, ![k₁ + k₂ + k₃, n]⟩ : Shape).Slices ![0, 0] ⟨2, ![k₁, n]⟩)
    (hs₂ : (⟨2, ![k₁ + k₂ + k₃, n]⟩ : Shape).Slices ![k₁, 0] ⟨2, ![k₂, n]⟩)
    (hs₃ : (⟨2, ![k₁ + k₂ + k₃, n]⟩ : Shape).Slices ![k₁ + k₂, 0] ⟨2, ![k₃, n]⟩)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none
        (concatenate ⟨2, ![r, k₁ + k₂ + k₃]⟩ 1 [⟨⟨2, ![r, k₁]⟩, U⟩, ⟨⟨2, ![r, k₂]⟩, V⟩, ⟨⟨2, ![r, k₃]⟩, E⟩] hc) Wm)
        (broadcastInDim ⟨2, ![r, n]⟩ ![0, 1] h2 (broadcastInDim ⟨2, ![1, n]⟩ ![1] h1 bm)))
      (broadcastInDim ⟨2, ![r, n]⟩ ![] h3 (constant (F := Ideal) ⟨0, ![]⟩ .f32 0x00000000#32))
    = layer3 U V E (extractStridedSlice ⟨2, ![k₁, n]⟩ ![0, 0] Wm hs₁)
        (extractStridedSlice ⟨2, ![k₂, n]⟩ ![k₁, 0] Wm hs₂) (extractStridedSlice ⟨2, ![k₃, n]⟩ ![k₁ + k₂, 0] Wm hs₃)
        (asRow bm) := by
  rw [Cert.Lib.BiasRelu.host_eq]
  unfold layer3
  congr 1
  refine (dotGeneral_eq_matProd d hlc hrc hln hrn hlb hrb none _ _ Wm).trans ?_
  funext i
  obtain ⟨p, q, rfl⟩ : ∃ (p : Fin r) (q : Fin n), i = ix2 p q := ⟨i 0, i 1, eq_ix2 i⟩
  exact matProd_beside3 U V E Wm hc hs₁ hs₂ hs₃ p q

/-- The same over two arrays side by side. -/
theorem host_layer2 (d : DotDims ⟨2, ![r, k₁ + k₂]⟩ ⟨2, ![k₁ + k₂, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (U : FVec Ideal ⟨2, ![r, k₁]⟩ .f32) (V : FVec Ideal ⟨2, ![r, k₂]⟩ .f32)
    (Wm : FVec Ideal ⟨2, ![k₁ + k₂, n]⟩ .f32) (bm : FVec Ideal ⟨1, ![n]⟩ .f32)
    (hc : Shape.Concatenates (([⟨⟨2, ![r, k₁]⟩, U⟩, ⟨⟨2, ![r, k₂]⟩, V⟩] :
      List ((s : Shape) × (s.Idx → EReal))).map (·.1)) ⟨2, ![r, k₁ + k₂]⟩ 1)
    (hs₁ : (⟨2, ![k₁ + k₂, n]⟩ : Shape).Slices ![0, 0] ⟨2, ![k₁, n]⟩)
    (hs₂ : (⟨2, ![k₁ + k₂, n]⟩ : Shape).Slices ![k₁, 0] ⟨2, ![k₂, n]⟩)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none
        (concatenate ⟨2, ![r, k₁ + k₂]⟩ 1 [⟨⟨2, ![r, k₁]⟩, U⟩, ⟨⟨2, ![r, k₂]⟩, V⟩] hc) Wm)
        (broadcastInDim ⟨2, ![r, n]⟩ ![0, 1] h2 (broadcastInDim ⟨2, ![1, n]⟩ ![1] h1 bm)))
      (broadcastInDim ⟨2, ![r, n]⟩ ![] h3 (constant (F := Ideal) ⟨0, ![]⟩ .f32 0x00000000#32))
    = layer2 U V (extractStridedSlice ⟨2, ![k₁, n]⟩ ![0, 0] Wm hs₁)
        (extractStridedSlice ⟨2, ![k₂, n]⟩ ![k₁, 0] Wm hs₂) (asRow bm) := by
  rw [Cert.Lib.BiasRelu.host_eq]
  unfold layer2
  congr 1
  refine (dotGeneral_eq_matProd d hlc hrc hln hrn hlb hrb none _ _ Wm).trans ?_
  funext i
  obtain ⟨p, q, rfl⟩ : ∃ (p : Fin r) (q : Fin n), i = ix2 p q := ⟨i 0, i 1, eq_ix2 i⟩
  exact matProd_beside2 U V Wm hc hs₁ hs₂ p q

end Cert.Lib.Bands

end
-- ==== Proof.Lib.LibFourBands.lean ====
/-
  Four arrays laid side by side, multiplied by a matrix cut into the four matching bands of rows.

  The product of the side-by-side array [U | V | E | G] with a matrix Wm is, entry by entry, the sum of the products of
  U, V, E and G with the four bands of Wm taken from the top down: the sum over the joined column index is the sum over
  U's columns plus the sum over V's plus the sum over E's plus the sum over G's. Only the associativity of the addition
  of extended reals is used; the bands may have different widths. With it the layer over four arrays (the product band
  by band, a bias row added to every row, the maximum with zero), the fact that one of its rows depends on one row of
  each array, and the host's spelling of it: one product of the concatenation with the whole matrix.
  Nothing here mentions a program.
-/
import Idealize.ShloMosaic.PureOps.Ideal.Laws
import Idealize.ShloMosaic.Lib.ValueIdx
import Idealize.ShloMosaic.Lib.Pipeline.Value
import proofs.«123839_j71768903516633_2_alg».proof.Proof.Lib.LibMatProd
import proofs.«123839_j71768903516633_2_alg».proof.Proof.Lib.LibRowVector
import proofs.«123839_j71768903516633_2_alg».proof.Proof.Lib.LibBiasRelu
import proofs.«123839_j71768903516633_2_alg».proof.Proof.Lib.LibSplitLayers

open scoped BigOperators

noncomputable section

namespace Cert.Lib.FourBands

open Idealize.ShloMosaic Idealize.ShloMosaic.ValueIdx Cert.Lib.MatProd Cert.Lib.BiasRelu Cert.Lib.RowVector
  Cert.Lib.SplitLayers

variable {r r' k₁ k₂ k₃ k₄ n : Nat}

/-- [U | V | E | G] · Wm, entry by entry, is the four products with Wm's bands. -/
theorem matProd_beside4 (U : (⟨2, ![r, k₁]⟩ : Shape).Idx → EReal) (V : (⟨2, ![r, k₂]⟩ : Shape).Idx → EReal)
    (E : (⟨2, ![r, k₃]⟩ : Shape).Idx → EReal) (G : (⟨2, ![r, k₄]⟩ : Shape).Idx → EReal)
    (Wm : (⟨2, ![k₁ + k₂ + k₃ + k₄, n]⟩ : Shape).Idx → EReal)
    (hc : Shape.Concatenates (([⟨⟨2, ![r, k₁]⟩, U⟩, ⟨⟨2, ![r, k₂]⟩, V⟩, ⟨⟨2, ![r, k₃]⟩, E⟩, ⟨⟨2, ![r, k₄]⟩, G⟩] :
      List ((s : Shape) × (s.Idx → EReal))).map (·.1)) ⟨2, ![r, k₁ + k₂ + k₃ + k₄]⟩ 1)
    (hs₁ : (⟨2, ![k₁ + k₂ + k₃ + k₄, n]⟩ : Shape).Slices ![0, 0] ⟨2, ![k₁, n]⟩)
    (hs₂ : (⟨2, ![k₁ + k₂ + k₃ + k₄, n]⟩ : Shape).Slices ![k₁, 0] ⟨2, ![k₂, n]⟩)
    (hs₃ : (⟨2, ![k₁ + k₂ + k₃ + k₄, n]⟩ : Shape).Slices ![k₁ + k₂, 0] ⟨2, ![k₃, n]⟩)
    (hs₄ : (⟨2, ![k₁ + k₂ + k₃ + k₄, n]⟩ : Shape).Slices ![k₁ + k₂ + k₃, 0] ⟨2, ![k₄, n]⟩) (p : Fin r) (q : Fin n) :
    matProd (concatenate ⟨2, ![r, k₁ + k₂ + k₃ + k₄]⟩ 1 [⟨⟨2, ![r, k₁]⟩, U⟩, ⟨⟨2, ![r, k₂]⟩, V⟩, ⟨⟨2, ![r, k₃]⟩, E⟩, ⟨⟨2, ![r, k₄]⟩, G⟩] hc) Wm (ix2 p q)
      = matProd U (extractStridedSlice ⟨2, ![k₁, n]⟩ ![0, 0] Wm hs₁) (ix2 p q)
        + matProd V (extractStridedSlice ⟨2, ![k₂, n]⟩ ![k₁, 0] Wm hs₂) (ix2 p q)
        + matProd E (extractStridedSlice ⟨2, ![k₃, n]⟩ ![k₁ + k₂, 0] Wm hs₃) (ix2 p q)
        + matProd G (extractStridedSlice ⟨2, ![k₄, n]⟩ ![k₁ + k₂ + k₃, 0] Wm hs₄) (ix2 p q) := by
  rw [matProd_apply, matProd_apply, matProd_apply, matProd_apply, matProd_apply, Fin.sum_univ_add, Fin.sum_univ_add,
    Fin.sum_univ_add]
  congr 1
  · congr 1
    · congr 1
      · refine Finset.sum_congr rfl fun c _ => ?_
        congr 1
        · refine concatenate_apply_piece (1 : Fin 2) [⟨⟨2, ![r, k₁]⟩, U⟩, ⟨⟨2, ![r, k₂]⟩, V⟩, ⟨⟨2, ![r, k₃]⟩, E⟩, ⟨⟨2, ![r, k₄]⟩, G⟩] hc
            (ix2 p (Fin.castAdd k₄ (Fin.castAdd k₃ (Fin.castAdd k₂ c)))) 0 (by simp) ⟨2, ![r, k₁]⟩ U rfl rfl 0 rfl (ix2 p c)
            (fun b hb => ?_) (by show 0 + c.val = c.val; omega)
          match b with
          | ⟨0, _⟩ => rfl
          | ⟨1, _⟩ => exact absurd rfl hb
        · refine (extractStridedSlice_apply ![0, 0] Wm hs₁ (ix2 c q) _ fun a => ?_).symm
          match a with
          | ⟨0, _⟩ => show c.val = 0 + c.val; omega
          | ⟨1, _⟩ => show q.val = 0 + q.val; omega
      · refine Finset.sum_congr rfl fun c _ => ?_
        congr 1
        · refine concatenate_apply_piece (1 : Fin 2) [⟨⟨2, ![r, k₁]⟩, U⟩, ⟨⟨2, ![r, k₂]⟩, V⟩, ⟨⟨2, ![r, k₃]⟩, E⟩, ⟨⟨2, ![r, k₄]⟩, G⟩] hc
            (ix2 p (Fin.castAdd k₄ (Fin.castAdd k₃ (Fin.natAdd k₁ c)))) 1 (by simp) ⟨2, ![r, k₂]⟩ V rfl rfl k₁
            (by show k₁ + 0 = k₁; omega) (ix2 p c)
            (fun b hb => ?_) (by show k₁ + c.val = k₁ + c.val; rfl)
          match b with
          | ⟨0, _⟩ => rfl
          | ⟨1, _⟩ => exact absurd rfl hb
        · refine (extractStridedSlice_apply ![k₁, 0] Wm hs₂ (ix2 c q) _ fun a => ?_).symm
          match a with
          | ⟨0, _⟩ => show k₁ + c.val = k₁ + c.val; rfl
          | ⟨1, _⟩ => show q.val = 0 + q.val; omega
    · refine Finset.sum_congr rfl fun c _ => ?_
      congr 1
      · refine concatenate_apply_piece (1 : Fin 2) [⟨⟨2, ![r, k₁]⟩, U⟩, ⟨⟨2, ![r, k₂]⟩, V⟩, ⟨⟨2, ![r, k₃]⟩, E⟩, ⟨⟨2, ![r, k₄]⟩, G⟩] hc
          (ix2 p (Fin.castAdd k₄ (Fin.natAdd (k₁ + k₂) c))) 2 (by simp) ⟨2, ![r, k₃]⟩ E rfl rfl (k₁ + k₂)
          (by show k₁ + (k₂ + 0) = k₁ + k₂; omega) (ix2 p c)
          (fun b hb => ?_) (by show k₁ + k₂ + c.val = k₁ + k₂ + c.val; rfl)
        match b with
        | ⟨0, _⟩ => rfl
        | ⟨1, _⟩ => exact absurd rfl hb
      · refine (extractStridedSlice_apply ![k₁ + k₂, 0] Wm hs₃ (ix2 c q) _ fun a => ?_).symm
        match a with
        | ⟨0, _⟩ => show k₁ + k₂ + c.val = k₁ + k₂ + c.val; rfl
        | ⟨1, _⟩ => show q.val = 0 + q.val; omega
  · refine Finset.sum_congr rfl fun c _ => ?_
    congr 1
    · refine concatenate_apply_piece (1 : Fin 2) [⟨⟨2, ![r, k₁]⟩, U⟩, ⟨⟨2, ![r, k₂]⟩, V⟩, ⟨⟨2, ![r, k₃]⟩, E⟩, ⟨⟨2, ![r, k₄]⟩, G⟩] hc
        (ix2 p (Fin.natAdd (k₁ + k₂ + k₃) c)) 3 (by simp) ⟨2, ![r, k₄]⟩ G rfl rfl (k₁ + k₂ + k₃)
        (by show k₁ + (k₂ + (k₃ + 0)) = k₁ + k₂ + k₃; omega) (ix2 p c)
        (fun b hb => ?_) (by show k₁ + k₂ + k₃ + c.val = k₁ + k₂ + k₃ + c.val; rfl)
      match b with
      | ⟨0, _⟩ => rfl
      | ⟨1, _⟩ => exact absurd rfl hb
    · refine (extractStridedSlice_apply ![k₁ + k₂ + k₃, 0] Wm hs₄ (ix2 c q) _ fun a => ?_).symm
      match a with
      | ⟨0, _⟩ => show k₁ + k₂ + k₃ + c.val = k₁ + k₂ + k₃ + c.val; rfl
      | ⟨1, _⟩ => show q.val = 0 + q.val; omega

/-- Entry (p, q) is max ((((∑ U(p,c)·Wu(c,q) + ∑ V(p,c)·Wv(c,q)) + ∑ E(p,c)·We(c,q)) + ∑ G(p,c)·Wg(c,q)) + b(0,q)) 0. -/
def layer4 (U : (⟨2, ![r, k₁]⟩ : Shape).Idx → EReal) (V : (⟨2, ![r, k₂]⟩ : Shape).Idx → EReal)
    (E : (⟨2, ![r, k₃]⟩ : Shape).Idx → EReal) (G : (⟨2, ![r, k₄]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal) (Wg : (⟨2, ![k₄, n]⟩ : Shape).Idx → EReal)
    (b : (⟨2, ![1, n]⟩ : Shape).Idx → EReal) : (⟨2, ![r, n]⟩ : Shape).Idx → EReal :=
  biasRelu (fun i => matProd U Wu i + matProd V Wv i + matProd E We i + matProd G Wg i) b

/-- Row p' of the layer of the primed arrays is row p of the layer of the others when the arrays' rows agree. -/
theorem layer4_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (G : (⟨2, ![r, k₄]⟩ : Shape).Idx → EReal) (G' : (⟨2, ![r', k₄]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal) (Wg : (⟨2, ![k₄, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) (hG : ∀ c : Fin k₄, G' (ix2 p' c) = G (ix2 p c)) :
    layer4 U' V' E' G' Wu Wv We Wg b (ix2 p' q) = layer4 U V E G Wu Wv We Wg b (ix2 p q) := by
  refine biasRelu_rows _ _ b p' p q ?_
  show matProd U' Wu (ix2 p' q) + matProd V' Wv (ix2 p' q) + matProd E' We (ix2 p' q) + matProd G' Wg (ix2 p' q)
    = matProd U Wu (ix2 p q) + matProd V Wv (ix2 p q) + matProd E We (ix2 p q) + matProd G Wg (ix2 p q)
  rw [matProd_rows U U' Wu p' p q hU, matProd_rows V V' Wv p' p q hV, matProd_rows E E' We p' p q hE,
    matProd_rows G G' Wg p' p q hG]

/-- The host's spelling of a layer over four arrays side by side: one product of the concatenation with the whole
    matrix — the layer over the four arrays with the matrix's bands. -/
theorem host_layer4 (d : DotDims ⟨2, ![r, k₁ + k₂ + k₃ + k₄]⟩ ⟨2, ![k₁ + k₂ + k₃ + k₄, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (U : FVec Ideal ⟨2, ![r, k₁]⟩ .f32) (V : FVec Ideal ⟨2, ![r, k₂]⟩ .f32) (E : FVec Ideal ⟨2, ![r, k₃]⟩ .f32)
    (G : FVec Ideal ⟨2, ![r, k₄]⟩ .f32)
    (Wm : FVec Ideal ⟨2, ![k₁ + k₂ + k₃ + k₄, n]⟩ .f32) (bm : FVec Ideal ⟨1, ![n]⟩ .f32)
    (hc : Shape.Concatenates (([⟨⟨2, ![r, k₁]⟩, U⟩, ⟨⟨2, ![r, k₂]⟩, V⟩, ⟨⟨2, ![r, k₃]⟩, E⟩, ⟨⟨2, ![r, k₄]⟩, G⟩] :
      List ((s : Shape) × (s.Idx → EReal))).map (·.1)) ⟨2, ![r, k₁ + k₂ + k₃ + k₄]⟩ 1)
    (hs₁ : (⟨2, ![k₁ + k₂ + k₃ + k₄, n]⟩ : Shape).Slices ![0, 0] ⟨2, ![k₁, n]⟩)
    (hs₂ : (⟨2, ![k₁ + k₂ + k₃ + k₄, n]⟩ : Shape).Slices ![k₁, 0] ⟨2, ![k₂, n]⟩)
    (hs₃ : (⟨2, ![k₁ + k₂ + k₃ + k₄, n]⟩ : Shape).Slices ![k₁ + k₂, 0] ⟨2, ![k₃, n]⟩)
    (hs₄ : (⟨2, ![k₁ + k₂ + k₃ + k₄, n]⟩ : Shape).Slices ![k₁ + k₂ + k₃, 0] ⟨2, ![k₄, n]⟩)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none
        (concatenate ⟨2, ![r, k₁ + k₂ + k₃ + k₄]⟩ 1 [⟨⟨2, ![r, k₁]⟩, U⟩, ⟨⟨2, ![r, k₂]⟩, V⟩, ⟨⟨2, ![r, k₃]⟩, E⟩, ⟨⟨2, ![r, k₄]⟩, G⟩] hc) Wm)
        (broadcastInDim ⟨2, ![r, n]⟩ ![0, 1] h2 (broadcastInDim ⟨2, ![1, n]⟩ ![1] h1 bm)))
      (broadcastInDim ⟨2, ![r, n]⟩ ![] h3 (constant (F := Ideal) ⟨0, ![]⟩ .f32 0x00000000#32))
    = layer4 U V E G (extractStridedSlice ⟨2, ![k₁, n]⟩ ![0, 0] Wm hs₁)
        (extractStridedSlice ⟨2, ![k₂, n]⟩ ![k₁, 0] Wm hs₂) (extractStridedSlice ⟨2, ![k₃, n]⟩ ![k₁ + k₂, 0] Wm hs₃)
        (extractStridedSlice ⟨2, ![k₄, n]⟩ ![k₁ + k₂ + k₃, 0] Wm hs₄) (asRow bm) := by
  rw [Cert.Lib.BiasRelu.host_eq]
  unfold layer4
  congr 1
  refine (dotGeneral_eq_matProd d hlc hrc hln hrn hlb hrb none _ _ Wm).trans ?_
  funext i
  obtain ⟨p, q, rfl⟩ : ∃ (p : Fin r) (q : Fin n), i = ix2 p q := ⟨i 0, i 1, eq_ix2 i⟩
  exact matProd_beside4 U V E G Wm hc hs₁ hs₂ hs₃ hs₄ p q

end Cert.Lib.FourBands

end
-- ==== Proof.Math.MlpRef.lean ====
/-
  The reference's perceptron layers over the extended reals.

  The reference lays the layer's input arrays side by side (a concatenation along the columns), multiplies the joined
  array by the whole weight matrix in one product, adds the bias vector broadcast to every row and takes the maximum
  with a broadcast zero. A sum over the joined column index is the sum of the sums over each array's columns (addition
  of extended reals is associative; nothing else is used), so that term is the layer over the separate arrays with the
  weight matrix cut into the matching bands of rows — the bands spelt as the slices the kernel side takes of the
  matrix, the bias as the kernel side's 1×64 re-shaping of the vector. Six shape families.
-/
import proofs.«123839_j71768903516633_2_alg».proof.Proof.Gen.KernelIdeal
import proofs.«123839_j71768903516633_2_alg».proof.Proof.Gen.ReferenceIdeal
import proofs.«123839_j71768903516633_2_alg».proof.Proof.Lib.LibBands
import proofs.«123839_j71768903516633_2_alg».proof.Proof.Lib.LibFourBands

open scoped BigOperators

noncomputable section

namespace Cert.ReferenceIdeal.Mlp

open Idealize.ShloMosaic Idealize.ShloMosaic.ValueIdx Cert.ReferenceIdeal Cert.ReferenceIdeal.Facts₀
  Cert.Lib.RowVector Cert.Lib.SplitLayers Cert.Lib.Bands Cert.Lib.FourBands

/-- The reference's layer over [U | V] (64 rows; bands of 64, 32 columns): one product of the concatenation with
    the whole 96×64 matrix, the bias vector broadcast and added, the maximum with a broadcast zero — the layer over the
    arrays with the matrix's bands cut at rows 0, 64 and the bias vector as a 1×64 row. -/
theorem ref_global0 (U : FVec Ideal S64x64 .f32) (V : FVec Ideal S64x32 .f32) (W : FVec Ideal S96x64 .f32) (bv : FVec Ideal S64 .f32) :
    maximumf (addf (Host.dotGeneral dot_S64x96_S96x64_S64x64_1_0_0_1_n_n none
        (concatenate S64x96 1 [⟨S64x64, U⟩, ⟨S64x32, V⟩] concatenates_S64x64_S64x32_S64x96_d1) W)
        (broadcastInDim S64x64 ![0, 1] bcast_S1x64_S64x64_0_1 (broadcastInDim S1x64 ![1] bcast_S64_S1x64_1 bv)))
      (broadcastInDim S64x64 ![] bcast_S_S64x64 (constant (F := Ideal) S_ .f32 0x00000000#32))
    = layer2 U V
        (extractStridedSlice Cert.KernelIdeal.S64x64 ![0, 0] W Cert.KernelIdeal.Facts₀.slices_S96x64_S64x64_0_0)
        (extractStridedSlice Cert.KernelIdeal.S32x64 ![64, 0] W Cert.KernelIdeal.Facts₀.slices_S96x64_S32x64_64_0)
        (shapeCast Cert.KernelIdeal.S1x64 bv Cert.KernelIdeal.Facts₀.shapeCasts_S64_S1x64) := by
  rw [shapeCast_eq_asRow bv Cert.KernelIdeal.Facts₀.shapeCasts_S64_S1x64]
  exact host_layer2 (r := 64) (k₁ := 64) (k₂ := 32) (n := 64) dot_S64x96_S96x64_S64x64_1_0_0_1_n_n rfl rfl rfl rfl rfl rfl
    U V W bv concatenates_S64x64_S64x32_S64x96_d1
    Cert.KernelIdeal.Facts₀.slices_S96x64_S64x64_0_0 Cert.KernelIdeal.Facts₀.slices_S96x64_S32x64_64_0
    bcast_S64_S1x64_1 bcast_S1x64_S64x64_0_1 bcast_S_S64x64

/-- The reference's layer over [U | V] (64 rows; bands of 64, 64 columns): one product of the concatenation with
    the whole 128×64 matrix, the bias vector broadcast and added, the maximum with a broadcast zero — the layer over the
    arrays with the matrix's bands cut at rows 0, 64 and the bias vector as a 1×64 row. -/
theorem ref_global1 (U : FVec Ideal S64x64 .f32) (V : FVec Ideal S64x64 .f32) (W : FVec Ideal S128x64 .f32) (bv : FVec Ideal S64 .f32) :
    maximumf (addf (Host.dotGeneral dot_S64x128_S128x64_S64x64_1_0_0_1_n_n none
        (concatenate S64x128 1 [⟨S64x64, U⟩, ⟨S64x64, V⟩] concatenates_S64x64_S64x64_S64x128_d1) W)
        (broadcastInDim S64x64 ![0, 1] bcast_S1x64_S64x64_0_1 (broadcastInDim S1x64 ![1] bcast_S64_S1x64_1 bv)))
      (broadcastInDim S64x64 ![] bcast_S_S64x64 (constant (F := Ideal) S_ .f32 0x00000000#32))
    = layer2 U V
        (extractStridedSlice Cert.KernelIdeal.S64x64 ![0, 0] W Cert.KernelIdeal.Facts₀.slices_S128x64_S64x64_0_0)
        (extractStridedSlice Cert.KernelIdeal.S64x64 ![64, 0] W Cert.KernelIdeal.Facts₀.slices_S128x64_S64x64_64_0)
        (shapeCast Cert.KernelIdeal.S1x64 bv Cert.KernelIdeal.Facts₀.shapeCasts_S64_S1x64) := by
  rw [shapeCast_eq_asRow bv Cert.KernelIdeal.Facts₀.shapeCasts_S64_S1x64]
  exact host_layer2 (r := 64) (k₁ := 64) (k₂ := 64) (n := 64) dot_S64x128_S128x64_S64x64_1_0_0_1_n_n rfl rfl rfl rfl rfl rfl
    U V W bv concatenates_S64x64_S64x64_S64x128_d1
    Cert.KernelIdeal.Facts₀.slices_S128x64_S64x64_0_0 Cert.KernelIdeal.Facts₀.slices_S128x64_S64x64_64_0
    bcast_S64_S1x64_1 bcast_S1x64_S64x64_0_1 bcast_S_S64x64

/-- The reference's layer over [U | V | E] (30000 rows; bands of 64, 64, 32 columns): one product of the concatenation with
    the whole 160×64 matrix, the bias vector broadcast and added, the maximum with a broadcast zero — the layer over the
    arrays with the matrix's bands cut at rows 0, 64, 128 and the bias vector as a 1×64 row. -/
theorem ref_node0 (U : FVec Ideal S30000x64 .f32) (V : FVec Ideal S30000x64 .f32) (E : FVec Ideal S30000x32 .f32) (W : FVec Ideal S160x64 .f32) (bv : FVec Ideal S64 .f32) :
    maximumf (addf (Host.dotGeneral dot_S30000x160_S160x64_S30000x64_1_0_0_1_n_n none
        (concatenate S30000x160 1 [⟨S30000x64, U⟩, ⟨S30000x64, V⟩, ⟨S30000x32, E⟩] concatenates_S30000x64_S30000x64_S30000x32_S30000x160_d1) W)
        (broadcastInDim S30000x64 ![0, 1] bcast_S1x64_S30000x64_0_1 (broadcastInDim S1x64 ![1] bcast_S64_S1x64_1 bv)))
      (broadcastInDim S30000x64 ![] bcast_S_S30000x64 (constant (F := Ideal) S_ .f32 0x00000000#32))
    = layer3 U V E
        (extractStridedSlice Cert.KernelIdeal.S64x64 ![0, 0] W Cert.KernelIdeal.Facts₀.slices_S160x64_S64x64_0_0)
        (extractStridedSlice Cert.KernelIdeal.S64x64 ![64, 0] W Cert.KernelIdeal.Facts₀.slices_S160x64_S64x64_64_0)
        (extractStridedSlice Cert.KernelIdeal.S32x64 ![128, 0] W Cert.KernelIdeal.Facts₀.slices_S160x64_S32x64_128_0)
        (shapeCast Cert.KernelIdeal.S1x64 bv Cert.KernelIdeal.Facts₀.shapeCasts_S64_S1x64) := by
  rw [shapeCast_eq_asRow bv Cert.KernelIdeal.Facts₀.shapeCasts_S64_S1x64]
  exact host_layer3 (r := 30000) (k₁ := 64) (k₂ := 64) (k₃ := 32) (n := 64) dot_S30000x160_S160x64_S30000x64_1_0_0_1_n_n rfl rfl rfl rfl rfl rfl
    U V E W bv concatenates_S30000x64_S30000x64_S30000x32_S30000x160_d1
    Cert.KernelIdeal.Facts₀.slices_S160x64_S64x64_0_0 Cert.KernelIdeal.Facts₀.slices_S160x64_S64x64_64_0 Cert.KernelIdeal.Facts₀.slices_S160x64_S32x64_128_0
    bcast_S64_S1x64_1 bcast_S1x64_S30000x64_0_1 bcast_S_S30000x64

/-- The reference's layer over [U | V | E] (30000 rows; bands of 64, 64, 64 columns): one product of the concatenation with
    the whole 192×64 matrix, the bias vector broadcast and added, the maximum with a broadcast zero — the layer over the
    arrays with the matrix's bands cut at rows 0, 64, 128 and the bias vector as a 1×64 row. -/
theorem ref_node1 (U : FVec Ideal S30000x64 .f32) (V : FVec Ideal S30000x64 .f32) (E : FVec Ideal S30000x64 .f32) (W : FVec Ideal S192x64 .f32) (bv : FVec Ideal S64 .f32) :
    maximumf (addf (Host.dotGeneral dot_S30000x192_S192x64_S30000x64_1_0_0_1_n_n none
        (concatenate S30000x192 1 [⟨S30000x64, U⟩, ⟨S30000x64, V⟩, ⟨S30000x64, E⟩] concatenates_S30000x64_S30000x64_S30000x64_S30000x192_d1) W)
        (broadcastInDim S30000x64 ![0, 1] bcast_S1x64_S30000x64_0_1 (broadcastInDim S1x64 ![1] bcast_S64_S1x64_1 bv)))
      (broadcastInDim S30000x64 ![] bcast_S_S30000x64 (constant (F := Ideal) S_ .f32 0x00000000#32))
    = layer3 U V E
        (extractStridedSlice Cert.KernelIdeal.S64x64 ![0, 0] W Cert.KernelIdeal.Facts₀.slices_S192x64_S64x64_0_0)
        (extractStridedSlice Cert.KernelIdeal.S64x64 ![64, 0] W Cert.KernelIdeal.Facts₀.slices_S192x64_S64x64_64_0)
        (extractStridedSlice Cert.KernelIdeal.S64x64 ![128, 0] W Cert.KernelIdeal.Facts₀.slices_S192x64_S64x64_128_0)
        (shapeCast Cert.KernelIdeal.S1x64 bv Cert.KernelIdeal.Facts₀.shapeCasts_S64_S1x64) := by
  rw [shapeCast_eq_asRow bv Cert.KernelIdeal.Facts₀.shapeCasts_S64_S1x64]
  exact host_layer3 (r := 30000) (k₁ := 64) (k₂ := 64) (k₃ := 64) (n := 64) dot_S30000x192_S192x64_S30000x64_1_0_0_1_n_n rfl rfl rfl rfl rfl rfl
    U V E W bv concatenates_S30000x64_S30000x64_S30000x64_S30000x192_d1
    Cert.KernelIdeal.Facts₀.slices_S192x64_S64x64_0_0 Cert.KernelIdeal.Facts₀.slices_S192x64_S64x64_64_0 Cert.KernelIdeal.Facts₀.slices_S192x64_S64x64_128_0
    bcast_S64_S1x64_1 bcast_S1x64_S30000x64_0_1 bcast_S_S30000x64

/-- The reference's layer over [U | V | E | G] (300000 rows; bands of 64, 64, 32, 32 columns): one product of the concatenation with
    the whole 192×64 matrix, the bias vector broadcast and added, the maximum with a broadcast zero — the layer over the
    arrays with the matrix's bands cut at rows 0, 64, 128, 160 and the bias vector as a 1×64 row. -/
theorem ref_edge0 (U : FVec Ideal S300000x64 .f32) (V : FVec Ideal S300000x64 .f32) (E : FVec Ideal S300000x32 .f32) (G : FVec Ideal S300000x32 .f32) (W : FVec Ideal S192x64 .f32) (bv : FVec Ideal S64 .f32) :
    maximumf (addf (Host.dotGeneral dot_S300000x192_S192x64_S300000x64_1_0_0_1_n_n none
        (concatenate S300000x192 1 [⟨S300000x64, U⟩, ⟨S300000x64, V⟩, ⟨S300000x32, E⟩, ⟨S300000x32, G⟩] concatenates_S300000x64_S300000x64_S300000x32_S300000x32_S300000x192_d1) W)
        (broadcastInDim S300000x64 ![0, 1] bcast_S1x64_S300000x64_0_1 (broadcastInDim S1x64 ![1] bcast_S64_S1x64_1 bv)))
      (broadcastInDim S300000x64 ![] bcast_S_S300000x64 (constant (F := Ideal) S_ .f32 0x00000000#32))
    = layer4 U V E G
        (extractStridedSlice Cert.KernelIdeal.S64x64 ![0, 0] W Cert.KernelIdeal.Facts₀.slices_S192x64_S64x64_0_0)
        (extractStridedSlice Cert.KernelIdeal.S64x64 ![64, 0] W Cert.KernelIdeal.Facts₀.slices_S192x64_S64x64_64_0)
        (extractStridedSlice Cert.KernelIdeal.S32x64 ![128, 0] W Cert.KernelIdeal.Facts₀.slices_S192x64_S32x64_128_0)
        (extractStridedSlice Cert.KernelIdeal.S32x64 ![160, 0] W Cert.KernelIdeal.Facts₀.slices_S192x64_S32x64_160_0)
        (shapeCast Cert.KernelIdeal.S1x64 bv Cert.KernelIdeal.Facts₀.shapeCasts_S64_S1x64) := by
  rw [shapeCast_eq_asRow bv Cert.KernelIdeal.Facts₀.shapeCasts_S64_S1x64]
  exact host_layer4 (r := 300000) (k₁ := 64) (k₂ := 64) (k₃ := 32) (k₄ := 32) (n := 64) dot_S300000x192_S192x64_S300000x64_1_0_0_1_n_n rfl rfl rfl rfl rfl rfl
    U V E G W bv concatenates_S300000x64_S300000x64_S300000x32_S300000x32_S300000x192_d1
    Cert.KernelIdeal.Facts₀.slices_S192x64_S64x64_0_0 Cert.KernelIdeal.Facts₀.slices_S192x64_S64x64_64_0 Cert.KernelIdeal.Facts₀.slices_S192x64_S32x64_128_0 Cert.KernelIdeal.Facts₀.slices_S192x64_S32x64_160_0
    bcast_S64_S1x64_1 bcast_S1x64_S300000x64_0_1 bcast_S_S300000x64

/-- The reference's layer over [U | V | E | G] (300000 rows; bands of 64, 64, 64, 64 columns): one product of the concatenation with
    the whole 256×64 matrix, the bias vector broadcast and added, the maximum with a broadcast zero — the layer over the
    arrays with the matrix's bands cut at rows 0, 64, 128, 192 and the bias vector as a 1×64 row. -/
theorem ref_edge1 (U : FVec Ideal S300000x64 .f32) (V : FVec Ideal S300000x64 .f32) (E : FVec Ideal S300000x64 .f32) (G : FVec Ideal S300000x64 .f32) (W : FVec Ideal S256x64 .f32) (bv : FVec Ideal S64 .f32) :
    maximumf (addf (Host.dotGeneral dot_S300000x256_S256x64_S300000x64_1_0_0_1_n_n none
        (concatenate S300000x256 1 [⟨S300000x64, U⟩, ⟨S300000x64, V⟩, ⟨S300000x64, E⟩, ⟨S300000x64, G⟩] concatenates_S300000x64_S300000x64_S300000x64_S300000x64_S300000x256_d1) W)
        (broadcastInDim S300000x64 ![0, 1] bcast_S1x64_S300000x64_0_1 (broadcastInDim S1x64 ![1] bcast_S64_S1x64_1 bv)))
      (broadcastInDim S300000x64 ![] bcast_S_S300000x64 (constant (F := Ideal) S_ .f32 0x00000000#32))
    = layer4 U V E G
        (extractStridedSlice Cert.KernelIdeal.S64x64 ![0, 0] W Cert.KernelIdeal.Facts₀.slices_S256x64_S64x64_0_0)
        (extractStridedSlice Cert.KernelIdeal.S64x64 ![64, 0] W Cert.KernelIdeal.Facts₀.slices_S256x64_S64x64_64_0)
        (extractStridedSlice Cert.KernelIdeal.S64x64 ![128, 0] W Cert.KernelIdeal.Facts₀.slices_S256x64_S64x64_128_0)
        (extractStridedSlice Cert.KernelIdeal.S64x64 ![192, 0] W Cert.KernelIdeal.Facts₀.slices_S256x64_S64x64_192_0)
        (shapeCast Cert.KernelIdeal.S1x64 bv Cert.KernelIdeal.Facts₀.shapeCasts_S64_S1x64) := by
  rw [shapeCast_eq_asRow bv Cert.KernelIdeal.Facts₀.shapeCasts_S64_S1x64]
  exact host_layer4 (r := 300000) (k₁ := 64) (k₂ := 64) (k₃ := 64) (k₄ := 64) (n := 64) dot_S300000x256_S256x64_S300000x64_1_0_0_1_n_n rfl rfl rfl rfl rfl rfl
    U V E G W bv concatenates_S300000x64_S300000x64_S300000x64_S300000x64_S300000x256_d1
    Cert.KernelIdeal.Facts₀.slices_S256x64_S64x64_0_0 Cert.KernelIdeal.Facts₀.slices_S256x64_S64x64_64_0 Cert.KernelIdeal.Facts₀.slices_S256x64_S64x64_128_0 Cert.KernelIdeal.Facts₀.slices_S256x64_S64x64_192_0
    bcast_S64_S1x64_1 bcast_S1x64_S300000x64_0_1 bcast_S_S300000x64

end Cert.ReferenceIdeal.Mlp

end
-- ==== Proof.Bridge.Glue6.lean ====
import proofs.«123839_j71768903516633_2_alg».proof.Proof.Math.MlpRef

/-! Layer 6 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT6 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  ((maximumf : (⟨S300000x64, .f32⟩ : BufTy).Contents (Elt F) → (⟨S300000x64, .f32⟩ : BufTy).Contents (Elt F) → (⟨S300000x64, .f32⟩ : BufTy).Contents (Elt F)) ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (concatenate S300000x192 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vBnX) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vBnX) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000))))⟩, ⟨S300000x32, (vBnE)⟩, ⟨S300000x32, (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (vBnU) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))))))⟩] concatenates_S300000x64_S300000x64_S300000x32_S300000x32_S300000x192_d1) (a11)) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (a12)))) (((broadcastInDim S300000x64 ![] bcast_S_S300000x64) : (⟨S_, .f32⟩ : BufTy).Contents (Elt F) → (⟨S300000x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT6_0 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vBnX) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000))))
/-- The kernel side's input 1 of the layer, over the leaves. -/
def kT6_1 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vBnX) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000))))
/-- The kernel side's input 2 of the layer, over the leaves. -/
def kT6_2 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (vBnE)
/-- The kernel side's input 3 of the layer, over the leaves. -/
def kT6_3 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (vBnU) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))))))
/-- The kernel side's input 4 of the layer, over the leaves. -/
def kT6_4 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((extractStridedSlice S64x64 ![0, 0] · slices_S192x64_S64x64_0_0) : (⟨S192x64, .f32⟩ : BufTy).Contents (Elt F) → (⟨S64x64, .f32⟩ : BufTy).Contents (Elt F)) (a11))
/-- The kernel side's input 5 of the layer, over the leaves. -/
def kT6_5 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((extractStridedSlice S64x64 ![64, 0] · slices_S192x64_S64x64_64_0) : (⟨S192x64, .f32⟩ : BufTy).Contents (Elt F) → (⟨S64x64, .f32⟩ : BufTy).Contents (Elt F)) (a11))
/-- The kernel side's input 6 of the layer, over the leaves. -/
def kT6_6 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((extractStridedSlice S32x64 ![128, 0] · slices_S192x64_S32x64_128_0) : (⟨S192x64, .f32⟩ : BufTy).Contents (Elt F) → (⟨S32x64, .f32⟩ : BufTy).Contents (Elt F)) (a11))
/-- The kernel side's input 7 of the layer, over the leaves. -/
def kT6_7 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (((extractStridedSlice S32x64 ![160, 0] · slices_S192x64_S32x64_160_0) : (⟨S192x64, .f32⟩ : BufTy).Contents (Elt F) → (⟨S32x64, .f32⟩ : BufTy).Contents (Elt F)) (a11))
/-- The kernel side's input 8 of the layer, over the leaves. -/
def kT6_8 (vBnX : (⟨S30000x64, .f32⟩ : BufTy).Contents (Elt F)) (vBnE : (⟨S300000x32, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a11 : (⟨S192x64, .f32⟩ : BufTy).Contents (Elt F)) (a12 : (⟨S64, .f32⟩ : BufTy).Contents (Elt F)) :=
  (shapeCast S1x64 (a12) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue6 (vBnX : (⟨Cert.KernelIdeal.S30000x64, .f32⟩ : BufTy).Contents (Elt Ideal)) (vBnE : (⟨Cert.KernelIdeal.S300000x32, .f32⟩ : BufTy).Contents (Elt Ideal)) (vBnU : (⟨Cert.KernelIdeal.S64x32, .f32⟩ : BufTy).Contents (Elt Ideal)) (a1 : (⟨Cert.KernelIdeal.S2x300000, .i32⟩ : BufTy).Contents (Elt Ideal)) (a4 : (⟨Cert.KernelIdeal.S30000, .i32⟩ : BufTy).Contents (Elt Ideal)) (a11 : (⟨Cert.KernelIdeal.S192x64, .f32⟩ : BufTy).Contents (Elt Ideal)) (a12 : (⟨Cert.KernelIdeal.S64, .f32⟩ : BufTy).Contents (Elt Ideal)) :
    refT6 (F := Ideal) vBnX vBnE vBnU a1 a4 a11 a12
      = layer4 (kT6_0 (F := Ideal) vBnX vBnE vBnU a1 a4 a11 a12) (kT6_1 (F := Ideal) vBnX vBnE vBnU a1 a4 a11 a12) (kT6_2 (F := Ideal) vBnX vBnE vBnU a1 a4 a11 a12) (kT6_3 (F := Ideal) vBnX vBnE vBnU a1 a4 a11 a12) (kT6_4 (F := Ideal) vBnX vBnE vBnU a1 a4 a11 a12) (kT6_5 (F := Ideal) vBnX vBnE vBnU a1 a4 a11 a12) (kT6_6 (F := Ideal) vBnX vBnE vBnU a1 a4 a11 a12) (kT6_7 (F := Ideal) vBnX vBnE vBnU a1 a4 a11 a12) (kT6_8 (F := Ideal) vBnX vBnE vBnU a1 a4 a11 a12) := by
  unfold refT6
  refine (Cert.ReferenceIdeal.Mlp.ref_edge0 _ _ _ _ _ _).trans ?_
  rfl

end Cert.Proof.Bridge

end
-- ==== Proof.Math.MlpBody.lean ====
/-
  The body of a perceptron-layer kernel over the extended reals, for two, three and four input pieces.

  Each piece X_i (r rows, k_i columns) and its matrix W_i (k_i rows, n columns) is re-shaped in place, narrowed to the
  16-bit format (the identity on the extended reals) and multiplied into a block of zeros; the products are added from
  the left; the 1×n bias row is broadcast down the rows and added; the maximum is taken with a splat of the zero word.
  That term IS the layer over the pieces: entry (p, q) is max (∑_i ∑_c X_i(p, c) · W_i(c, q) + b(0, q)) 0, the sums over
  the pieces taken from the left. Nothing here mentions a program.
-/
import Idealize.ShloMosaic.PureOps.Ideal.Laws
import Idealize.ShloMosaic.Lib.ValueIdx
import Idealize.ShloMosaic.Lib.Pipeline.Value
import proofs.«123839_j71768903516633_2_alg».proof.Proof.Lib.LibMatProd
import proofs.«123839_j71768903516633_2_alg».proof.Proof.Lib.LibBiasRelu
import proofs.«123839_j71768903516633_2_alg».proof.Proof.Lib.LibSplitLayers
import proofs.«123839_j71768903516633_2_alg».proof.Proof.Lib.LibFourBands

open scoped BigOperators

noncomputable section

namespace Cert.Lib.MlpBody

open Idealize.ShloMosaic Idealize.ShloMosaic.ValueIdx Cert.Lib.MatProd Cert.Lib.BiasRelu Cert.Lib.SplitLayers
  Cert.Lib.FourBands

variable {r k k₁ k₂ k₃ k₄ n : Nat}

/-! ## The specification read at an entry -/

/-- The layer over two pieces at row p, column q: the pieces' products with their matrices summed from the
    left, the bias row's entry added, the maximum with zero. -/
theorem layer2_apply
    (X₁ : (⟨2, ![r, k₁]⟩ : Shape).Idx → EReal) (W₁ : (⟨2, ![k₁, n]⟩ : Shape).Idx → EReal)
    (X₂ : (⟨2, ![r, k₂]⟩ : Shape).Idx → EReal) (W₂ : (⟨2, ![k₂, n]⟩ : Shape).Idx → EReal)
    (b : (⟨2, ![1, n]⟩ : Shape).Idx → EReal) (p : Fin r) (q : Fin n) :
    layer2 X₁ X₂ W₁ W₂ b (ix2 p q)
      = max (∑ c : Fin k₁, X₁ (ix2 p c) * W₁ (ix2 c q) + ∑ c : Fin k₂, X₂ (ix2 p c) * W₂ (ix2 c q) + b (ix2 0 q)) 0 := by
  show biasRelu _ b (ix2 p q) = _
  rw [biasRelu_apply, Ideal.ofBits_zero_f32]
  rfl

/-- The layer over three pieces at row p, column q: the pieces' products with their matrices summed from the
    left, the bias row's entry added, the maximum with zero. -/
theorem layer3_apply
    (X₁ : (⟨2, ![r, k₁]⟩ : Shape).Idx → EReal) (W₁ : (⟨2, ![k₁, n]⟩ : Shape).Idx → EReal)
    (X₂ : (⟨2, ![r, k₂]⟩ : Shape).Idx → EReal) (W₂ : (⟨2, ![k₂, n]⟩ : Shape).Idx → EReal)
    (X₃ : (⟨2, ![r, k₃]⟩ : Shape).Idx → EReal) (W₃ : (⟨2, ![k₃, n]⟩ : Shape).Idx → EReal)
    (b : (⟨2, ![1, n]⟩ : Shape).Idx → EReal) (p : Fin r) (q : Fin n) :
    layer3 X₁ X₂ X₃ W₁ W₂ W₃ b (ix2 p q)
      = max (∑ c : Fin k₁, X₁ (ix2 p c) * W₁ (ix2 c q) + ∑ c : Fin k₂, X₂ (ix2 p c) * W₂ (ix2 c q) + ∑ c : Fin k₃, X₃ (ix2 p c) * W₃ (ix2 c q) + b (ix2 0 q)) 0 := by
  show biasRelu _ b (ix2 p q) = _
  rw [biasRelu_apply, Ideal.ofBits_zero_f32]
  rfl

/-- The layer over four pieces at row p, column q: the pieces' products with their matrices summed from the
    left, the bias row's entry added, the maximum with zero. -/
theorem layer4_apply
    (X₁ : (⟨2, ![r, k₁]⟩ : Shape).Idx → EReal) (W₁ : (⟨2, ![k₁, n]⟩ : Shape).Idx → EReal)
    (X₂ : (⟨2, ![r, k₂]⟩ : Shape).Idx → EReal) (W₂ : (⟨2, ![k₂, n]⟩ : Shape).Idx → EReal)
    (X₃ : (⟨2, ![r, k₃]⟩ : Shape).Idx → EReal) (W₃ : (⟨2, ![k₃, n]⟩ : Shape).Idx → EReal)
    (X₄ : (⟨2, ![r, k₄]⟩ : Shape).Idx → EReal) (W₄ : (⟨2, ![k₄, n]⟩ : Shape).Idx → EReal)
    (b : (⟨2, ![1, n]⟩ : Shape).Idx → EReal) (p : Fin r) (q : Fin n) :
    layer4 X₁ X₂ X₃ X₄ W₁ W₂ W₃ W₄ b (ix2 p q)
      = max (∑ c : Fin k₁, X₁ (ix2 p c) * W₁ (ix2 c q) + ∑ c : Fin k₂, X₂ (ix2 p c) * W₂ (ix2 c q) + ∑ c : Fin k₃, X₃ (ix2 p c) * W₃ (ix2 c q) + ∑ c : Fin k₄, X₄ (ix2 p c) * W₄ (ix2 c q) + b (ix2 0 q)) 0 := by
  show biasRelu _ b (ix2 p q) = _
  rw [biasRelu_apply, Ideal.ofBits_zero_f32]
  rfl

/-! ## The kernel body's spelling -/

/-- The dimension numbers of a plain product: the left operand's columns contracted with the right operand's rows, no
    batch axis. -/
def PlainDot (d : DotDims ⟨2, ![r, k]⟩ ⟨2, ![k, n]⟩ ⟨2, ![r, n]⟩) : Prop :=
  d.lhsContracting = [1] ∧ d.rhsContracting = [0] ∧ d.lhsNonContracting = [0] ∧ d.rhsNonContracting = [1]
    ∧ d.lhsBatch = [] ∧ d.rhsBatch = []

/-- One piece: re-shaped in place, narrowed, multiplied into the zero block — the matrix product. -/
theorem piece_eq (d : DotDims ⟨2, ![r, k]⟩ ⟨2, ![k, n]⟩ ⟨2, ![r, n]⟩) (hd : PlainDot d)
    (X : FVec Ideal ⟨2, ![r, k]⟩ .f32) (W : FVec Ideal ⟨2, ![k, n]⟩ .f32)
    (hx : (⟨2, ![r, k]⟩ : Shape).ShapeCasts ⟨2, ![r, k]⟩) (hw : (⟨2, ![k, n]⟩ : Shape).ShapeCasts ⟨2, ![k, n]⟩)
    (hlt : FTy.bf16.bits < FTy.f32.bits) :
    matmul d none (truncf .bf16 (shapeCast ⟨2, ![r, k]⟩ X hx) hlt) (truncf .bf16 (shapeCast ⟨2, ![k, n]⟩ W hw) hlt)
      (constant (F := Ideal) ⟨2, ![r, n]⟩ .f32 0x00000000#32) = matProd X W := by
  rw [shapeCast_self, shapeCast_self]
  exact matmul_zero_eq_matProd d hd.1 hd.2.1 hd.2.2.1 hd.2.2.2.1 hd.2.2.2.2.1 hd.2.2.2.2.2 none
    (truncf .bf16 X hlt) (truncf .bf16 W hlt)

/-- The body over two pieces is the layer over them. -/
theorem body2
    (d₁ : DotDims ⟨2, ![r, k₁]⟩ ⟨2, ![k₁, n]⟩ ⟨2, ![r, n]⟩) (hd₁ : PlainDot d₁)
    (d₂ : DotDims ⟨2, ![r, k₂]⟩ ⟨2, ![k₂, n]⟩ ⟨2, ![r, n]⟩) (hd₂ : PlainDot d₂)
    (X₁ : FVec Ideal ⟨2, ![r, k₁]⟩ .f32) (W₁ : FVec Ideal ⟨2, ![k₁, n]⟩ .f32)
    (X₂ : FVec Ideal ⟨2, ![r, k₂]⟩ .f32) (W₂ : FVec Ideal ⟨2, ![k₂, n]⟩ .f32)
    (b : FVec Ideal ⟨2, ![1, n]⟩ .f32)
    (hx₁ : (⟨2, ![r, k₁]⟩ : Shape).ShapeCasts ⟨2, ![r, k₁]⟩) (hw₁ : (⟨2, ![k₁, n]⟩ : Shape).ShapeCasts ⟨2, ![k₁, n]⟩)
    (hx₂ : (⟨2, ![r, k₂]⟩ : Shape).ShapeCasts ⟨2, ![r, k₂]⟩) (hw₂ : (⟨2, ![k₂, n]⟩ : Shape).ShapeCasts ⟨2, ![k₂, n]⟩)
    (hb : (⟨2, ![1, n]⟩ : Shape).ShapeCasts ⟨2, ![1, n]⟩) (hbc : (⟨2, ![1, n]⟩ : Shape).Broadcasts ⟨2, ![r, n]⟩)
    (hlt : FTy.bf16.bits < FTy.f32.bits) :
    maximumf (addf (addf (matmul d₁ none (truncf .bf16 (shapeCast ⟨2, ![r, k₁]⟩ X₁ hx₁) hlt) (truncf .bf16 (shapeCast ⟨2, ![k₁, n]⟩ W₁ hw₁) hlt)
          (constant (F := Ideal) ⟨2, ![r, n]⟩ .f32 0x00000000#32))
        (matmul d₂ none (truncf .bf16 (shapeCast ⟨2, ![r, k₂]⟩ X₂ hx₂) hlt) (truncf .bf16 (shapeCast ⟨2, ![k₂, n]⟩ W₂ hw₂) hlt)
          (constant (F := Ideal) ⟨2, ![r, n]⟩ .f32 0x00000000#32)))
        (broadcastTo ⟨2, ![r, n]⟩ (shapeCast ⟨2, ![1, n]⟩ b hb) hbc))
      (broadcast ⟨2, ![r, n]⟩ (Scalar.ofBits (F := Ideal) .f32 0x00000000#32))
    = layer2 X₁ X₂ W₁ W₂ b := by
  rw [piece_eq d₁ hd₁, piece_eq d₂ hd₂, shapeCast_self, relu_bias_eq]
  rfl

/-- The body over three pieces is the layer over them. -/
theorem body3
    (d₁ : DotDims ⟨2, ![r, k₁]⟩ ⟨2, ![k₁, n]⟩ ⟨2, ![r, n]⟩) (hd₁ : PlainDot d₁)
    (d₂ : DotDims ⟨2, ![r, k₂]⟩ ⟨2, ![k₂, n]⟩ ⟨2, ![r, n]⟩) (hd₂ : PlainDot d₂)
    (d₃ : DotDims ⟨2, ![r, k₃]⟩ ⟨2, ![k₃, n]⟩ ⟨2, ![r, n]⟩) (hd₃ : PlainDot d₃)
    (X₁ : FVec Ideal ⟨2, ![r, k₁]⟩ .f32) (W₁ : FVec Ideal ⟨2, ![k₁, n]⟩ .f32)
    (X₂ : FVec Ideal ⟨2, ![r, k₂]⟩ .f32) (W₂ : FVec Ideal ⟨2, ![k₂, n]⟩ .f32)
    (X₃ : FVec Ideal ⟨2, ![r, k₃]⟩ .f32) (W₃ : FVec Ideal ⟨2, ![k₃, n]⟩ .f32)
    (b : FVec Ideal ⟨2, ![1, n]⟩ .f32)
    (hx₁ : (⟨2, ![r, k₁]⟩ : Shape).ShapeCasts ⟨2, ![r, k₁]⟩) (hw₁ : (⟨2, ![k₁, n]⟩ : Shape).ShapeCasts ⟨2, ![k₁, n]⟩)
    (hx₂ : (⟨2, ![r, k₂]⟩ : Shape).ShapeCasts ⟨2, ![r, k₂]⟩) (hw₂ : (⟨2, ![k₂, n]⟩ : Shape).ShapeCasts ⟨2, ![k₂, n]⟩)
    (hx₃ : (⟨2, ![r, k₃]⟩ : Shape).ShapeCasts ⟨2, ![r, k₃]⟩) (hw₃ : (⟨2, ![k₃, n]⟩ : Shape).ShapeCasts ⟨2, ![k₃, n]⟩)
    (hb : (⟨2, ![1, n]⟩ : Shape).ShapeCasts ⟨2, ![1, n]⟩) (hbc : (⟨2, ![1, n]⟩ : Shape).Broadcasts ⟨2, ![r, n]⟩)
    (hlt : FTy.bf16.bits < FTy.f32.bits) :
    maximumf (addf (addf (addf (matmul d₁ none (truncf .bf16 (shapeCast ⟨2, ![r, k₁]⟩ X₁ hx₁) hlt) (truncf .bf16 (shapeCast ⟨2, ![k₁, n]⟩ W₁ hw₁) hlt)
          (constant (F := Ideal) ⟨2, ![r, n]⟩ .f32 0x00000000#32))
        (matmul d₂ none (truncf .bf16 (shapeCast ⟨2, ![r, k₂]⟩ X₂ hx₂) hlt) (truncf .bf16 (shapeCast ⟨2, ![k₂, n]⟩ W₂ hw₂) hlt)
          (constant (F := Ideal) ⟨2, ![r, n]⟩ .f32 0x00000000#32)))
        (matmul d₃ none (truncf .bf16 (shapeCast ⟨2, ![r, k₃]⟩ X₃ hx₃) hlt) (truncf .bf16 (shapeCast ⟨2, ![k₃, n]⟩ W₃ hw₃) hlt)
          (constant (F := Ideal) ⟨2, ![r, n]⟩ .f32 0x00000000#32)))
        (broadcastTo ⟨2, ![r, n]⟩ (shapeCast ⟨2, ![1, n]⟩ b hb) hbc))
      (broadcast ⟨2, ![r, n]⟩ (Scalar.ofBits (F := Ideal) .f32 0x00000000#32))
    = layer3 X₁ X₂ X₃ W₁ W₂ W₃ b := by
  rw [piece_eq d₁ hd₁, piece_eq d₂ hd₂, piece_eq d₃ hd₃, shapeCast_self, relu_bias_eq]
  rfl

/-- The body over four pieces is the layer over them. -/
theorem body4
    (d₁ : DotDims ⟨2, ![r, k₁]⟩ ⟨2, ![k₁, n]⟩ ⟨2, ![r, n]⟩) (hd₁ : PlainDot d₁)
    (d₂ : DotDims ⟨2, ![r, k₂]⟩ ⟨2, ![k₂, n]⟩ ⟨2, ![r, n]⟩) (hd₂ : PlainDot d₂)
    (d₃ : DotDims ⟨2, ![r, k₃]⟩ ⟨2, ![k₃, n]⟩ ⟨2, ![r, n]⟩) (hd₃ : PlainDot d₃)
    (d₄ : DotDims ⟨2, ![r, k₄]⟩ ⟨2, ![k₄, n]⟩ ⟨2, ![r, n]⟩) (hd₄ : PlainDot d₄)
    (X₁ : FVec Ideal ⟨2, ![r, k₁]⟩ .f32) (W₁ : FVec Ideal ⟨2, ![k₁, n]⟩ .f32)
    (X₂ : FVec Ideal ⟨2, ![r, k₂]⟩ .f32) (W₂ : FVec Ideal ⟨2, ![k₂, n]⟩ .f32)
    (X₃ : FVec Ideal ⟨2, ![r, k₃]⟩ .f32) (W₃ : FVec Ideal ⟨2, ![k₃, n]⟩ .f32)
    (X₄ : FVec Ideal ⟨2, ![r, k₄]⟩ .f32) (W₄ : FVec Ideal ⟨2, ![k₄, n]⟩ .f32)
    (b : FVec Ideal ⟨2, ![1, n]⟩ .f32)
    (hx₁ : (⟨2, ![r, k₁]⟩ : Shape).ShapeCasts ⟨2, ![r, k₁]⟩) (hw₁ : (⟨2, ![k₁, n]⟩ : Shape).ShapeCasts ⟨2, ![k₁, n]⟩)
    (hx₂ : (⟨2, ![r, k₂]⟩ : Shape).ShapeCasts ⟨2, ![r, k₂]⟩) (hw₂ : (⟨2, ![k₂, n]⟩ : Shape).ShapeCasts ⟨2, ![k₂, n]⟩)
    (hx₃ : (⟨2, ![r, k₃]⟩ : Shape).ShapeCasts ⟨2, ![r, k₃]⟩) (hw₃ : (⟨2, ![k₃, n]⟩ : Shape).ShapeCasts ⟨2, ![k₃, n]⟩)
    (hx₄ : (⟨2, ![r, k₄]⟩ : Shape).ShapeCasts ⟨2, ![r, k₄]⟩) (hw₄ : (⟨2, ![k₄, n]⟩ : Shape).ShapeCasts ⟨2, ![k₄, n]⟩)
    (hb : (⟨2, ![1, n]⟩ : Shape).ShapeCasts ⟨2, ![1, n]⟩) (hbc : (⟨2, ![1, n]⟩ : Shape).Broadcasts ⟨2, ![r, n]⟩)
    (hlt : FTy.bf16.bits < FTy.f32.bits) :
    maximumf (addf (addf (addf (addf (matmul d₁ none (truncf .bf16 (shapeCast ⟨2, ![r, k₁]⟩ X₁ hx₁) hlt) (truncf .bf16 (shapeCast ⟨2, ![k₁, n]⟩ W₁ hw₁) hlt)
          (constant (F := Ideal) ⟨2, ![r, n]⟩ .f32 0x00000000#32))
        (matmul d₂ none (truncf .bf16 (shapeCast ⟨2, ![r, k₂]⟩ X₂ hx₂) hlt) (truncf .bf16 (shapeCast ⟨2, ![k₂, n]⟩ W₂ hw₂) hlt)
          (constant (F := Ideal) ⟨2, ![r, n]⟩ .f32 0x00000000#32)))
        (matmul d₃ none (truncf .bf16 (shapeCast ⟨2, ![r, k₃]⟩ X₃ hx₃) hlt) (truncf .bf16 (shapeCast ⟨2, ![k₃, n]⟩ W₃ hw₃) hlt)
          (constant (F := Ideal) ⟨2, ![r, n]⟩ .f32 0x00000000#32)))
        (matmul d₄ none (truncf .bf16 (shapeCast ⟨2, ![r, k₄]⟩ X₄ hx₄) hlt) (truncf .bf16 (shapeCast ⟨2, ![k₄, n]⟩ W₄ hw₄) hlt)
          (constant (F := Ideal) ⟨2, ![r, n]⟩ .f32 0x00000000#32)))
        (broadcastTo ⟨2, ![r, n]⟩ (shapeCast ⟨2, ![1, n]⟩ b hb) hbc))
      (broadcast ⟨2, ![r, n]⟩ (Scalar.ofBits (F := Ideal) .f32 0x00000000#32))
    = layer4 X₁ X₂ X₃ X₄ W₁ W₂ W₃ W₄ b := by
  rw [piece_eq d₁ hd₁, piece_eq d₂ hd₂, piece_eq d₃ hd₃, piece_eq d₄ hd₄, shapeCast_self, relu_bias_eq]
  rfl

end Cert.Lib.MlpBody

end
-- ==== Proof.Math.MlpKernel.lean ====
/-
  The nine perceptron-layer kernels' stored values over the extended reals.

  Each kernel body stores, for the block of rows it loaded, max (∑_i X_i · W_i + bias row, 0): the pieces X_i and the
  blocks W_i of the weight matrix multiplied into zeros and added from the left, the 1×64 bias row added to every row,
  the maximum with zero. The generated payload terms are shown equal to the layer functions of Lib/LibSplitLayers.lean
  (two and three pieces) and Lib/LibFourBands.lean (four pieces), and read at an entry.
-/
import proofs.«123839_j71768903516633_2_alg».proof.Proof.Gen.KernelIdeal.Skeleton
import proofs.«123839_j71768903516633_2_alg».proof.Proof.Math.MlpBody

open scoped BigOperators

noncomputable section

namespace Cert.KernelIdeal.Mlp

open Idealize.ShloMosaic Idealize.ShloMosaic.ValueIdx Cert.KernelIdeal Cert.Lib.SplitLayers Cert.Lib.FourBands
  Cert.Lib.MlpBody

/-! ## The global layers (two pieces, one block of 64 rows) -/

/-- The value `cc8_kernel` stores, over the blocks it loads: the layer over its two pieces. -/
theorem k8_pay_eq (U : Vec Ideal S64x64 .f32) (Wu : Vec Ideal S64x64 .f32) (V : Vec Ideal S64x32 .f32) (Wv : Vec Ideal S32x64 .f32) (b : Vec Ideal S1x64 .f32) :
    Gen.k8_pay1 (F := Ideal) U Wu V Wv b = layer2 U V Wu Wv b :=
  body2 dot_S64x64_S64x64_S64x64_1_0_0_1_n_n ⟨rfl, rfl, rfl, rfl, rfl, rfl⟩
    dot_S64x32_S32x64_S64x64_1_0_0_1_n_n ⟨rfl, rfl, rfl, rfl, rfl, rfl⟩
    U Wu V Wv b _ _ _ _ _ _ _

/-- … read at row p, column q. -/
theorem k8_pay_apply (U : Vec Ideal S64x64 .f32) (Wu : Vec Ideal S64x64 .f32) (V : Vec Ideal S64x32 .f32) (Wv : Vec Ideal S32x64 .f32) (b : Vec Ideal S1x64 .f32) (p : Fin 64) (q : Fin 64) :
    Gen.k8_pay1 (F := Ideal) U Wu V Wv b (ix2 p q)
      = max (∑ c : Fin 64, U (ix2 p c) * Wu (ix2 c q) + ∑ c : Fin 32, V (ix2 p c) * Wv (ix2 c q) + b (ix2 0 q)) 0 := by
  rw [k8_pay_eq]
  exact layer2_apply U Wu V Wv b p q

/-- The value `cc11_kernel` stores, over the blocks it loads: the layer over its two pieces. -/
theorem k11_pay_eq (U : Vec Ideal S64x64 .f32) (Wu : Vec Ideal S64x64 .f32) (V : Vec Ideal S64x64 .f32) (Wv : Vec Ideal S64x64 .f32) (b : Vec Ideal S1x64 .f32) :
    Gen.k11_pay1 (F := Ideal) U Wu V Wv b = layer2 U V Wu Wv b :=
  body2 dot_S64x64_S64x64_S64x64_1_0_0_1_n_n ⟨rfl, rfl, rfl, rfl, rfl, rfl⟩
    dot_S64x64_S64x64_S64x64_1_0_0_1_n_n ⟨rfl, rfl, rfl, rfl, rfl, rfl⟩
    U Wu V Wv b _ _ _ _ _ _ _

/-- … read at row p, column q. -/
theorem k11_pay_apply (U : Vec Ideal S64x64 .f32) (Wu : Vec Ideal S64x64 .f32) (V : Vec Ideal S64x64 .f32) (Wv : Vec Ideal S64x64 .f32) (b : Vec Ideal S1x64 .f32) (p : Fin 64) (q : Fin 64) :
    Gen.k11_pay1 (F := Ideal) U Wu V Wv b (ix2 p q)
      = max (∑ c : Fin 64, U (ix2 p c) * Wu (ix2 c q) + ∑ c : Fin 64, V (ix2 p c) * Wv (ix2 c q) + b (ix2 0 q)) 0 := by
  rw [k11_pay_eq]
  exact layer2_apply U Wu V Wv b p q

/-- The value `cc14_kernel` stores, over the blocks it loads: the layer over its two pieces. -/
theorem k14_pay_eq (U : Vec Ideal S64x64 .f32) (Wu : Vec Ideal S64x64 .f32) (V : Vec Ideal S64x64 .f32) (Wv : Vec Ideal S64x64 .f32) (b : Vec Ideal S1x64 .f32) :
    Gen.k14_pay1 (F := Ideal) U Wu V Wv b = layer2 U V Wu Wv b :=
  body2 dot_S64x64_S64x64_S64x64_1_0_0_1_n_n ⟨rfl, rfl, rfl, rfl, rfl, rfl⟩
    dot_S64x64_S64x64_S64x64_1_0_0_1_n_n ⟨rfl, rfl, rfl, rfl, rfl, rfl⟩
    U Wu V Wv b _ _ _ _ _ _ _

/-- … read at row p, column q. -/
theorem k14_pay_apply (U : Vec Ideal S64x64 .f32) (Wu : Vec Ideal S64x64 .f32) (V : Vec Ideal S64x64 .f32) (Wv : Vec Ideal S64x64 .f32) (b : Vec Ideal S1x64 .f32) (p : Fin 64) (q : Fin 64) :
    Gen.k14_pay1 (F := Ideal) U Wu V Wv b (ix2 p q)
      = max (∑ c : Fin 64, U (ix2 p c) * Wu (ix2 c q) + ∑ c : Fin 64, V (ix2 p c) * Wv (ix2 c q) + b (ix2 0 q)) 0 := by
  rw [k14_pay_eq]
  exact layer2_apply U Wu V Wv b p q

/-! ## The node layers (three pieces, blocks of 6000 rows) -/

/-- The value `cc7_kernel` stores, over the blocks it loads: the layer over its three pieces. -/
theorem k7_pay_eq (U : Vec Ideal S6000x64 .f32) (Wu : Vec Ideal S64x64 .f32) (V : Vec Ideal S6000x64 .f32) (Wv : Vec Ideal S64x64 .f32) (E : Vec Ideal S6000x32 .f32) (We : Vec Ideal S32x64 .f32) (b : Vec Ideal S1x64 .f32) :
    Gen.k7_pay1 (F := Ideal) U Wu V Wv E We b = layer3 U V E Wu Wv We b :=
  body3 dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x32_S32x64_S6000x64_1_0_0_1_n_n ⟨rfl, rfl, rfl, rfl, rfl, rfl⟩
    U Wu V Wv E We b _ _ _ _ _ _ _ _ _

/-- … read at row p, column q. -/
theorem k7_pay_apply (U : Vec Ideal S6000x64 .f32) (Wu : Vec Ideal S64x64 .f32) (V : Vec Ideal S6000x64 .f32) (Wv : Vec Ideal S64x64 .f32) (E : Vec Ideal S6000x32 .f32) (We : Vec Ideal S32x64 .f32) (b : Vec Ideal S1x64 .f32) (p : Fin 6000) (q : Fin 64) :
    Gen.k7_pay1 (F := Ideal) U Wu V Wv E We b (ix2 p q)
      = max (∑ c : Fin 64, U (ix2 p c) * Wu (ix2 c q) + ∑ c : Fin 64, V (ix2 p c) * Wv (ix2 c q) + ∑ c : Fin 32, E (ix2 p c) * We (ix2 c q) + b (ix2 0 q)) 0 := by
  rw [k7_pay_eq]
  exact layer3_apply U Wu V Wv E We b p q

/-- The value `cc10_kernel` stores, over the blocks it loads: the layer over its three pieces. -/
theorem k10_pay_eq (U : Vec Ideal S6000x64 .f32) (Wu : Vec Ideal S64x64 .f32) (V : Vec Ideal S6000x64 .f32) (Wv : Vec Ideal S64x64 .f32) (E : Vec Ideal S6000x64 .f32) (We : Vec Ideal S64x64 .f32) (b : Vec Ideal S1x64 .f32) :
    Gen.k10_pay1 (F := Ideal) U Wu V Wv E We b = layer3 U V E Wu Wv We b :=
  body3 dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    U Wu V Wv E We b _ _ _ _ _ _ _ _ _

/-- … read at row p, column q. -/
theorem k10_pay_apply (U : Vec Ideal S6000x64 .f32) (Wu : Vec Ideal S64x64 .f32) (V : Vec Ideal S6000x64 .f32) (Wv : Vec Ideal S64x64 .f32) (E : Vec Ideal S6000x64 .f32) (We : Vec Ideal S64x64 .f32) (b : Vec Ideal S1x64 .f32) (p : Fin 6000) (q : Fin 64) :
    Gen.k10_pay1 (F := Ideal) U Wu V Wv E We b (ix2 p q)
      = max (∑ c : Fin 64, U (ix2 p c) * Wu (ix2 c q) + ∑ c : Fin 64, V (ix2 p c) * Wv (ix2 c q) + ∑ c : Fin 64, E (ix2 p c) * We (ix2 c q) + b (ix2 0 q)) 0 := by
  rw [k10_pay_eq]
  exact layer3_apply U Wu V Wv E We b p q

/-- The value `cc13_kernel` stores, over the blocks it loads: the layer over its three pieces. -/
theorem k13_pay_eq (U : Vec Ideal S6000x64 .f32) (Wu : Vec Ideal S64x64 .f32) (V : Vec Ideal S6000x64 .f32) (Wv : Vec Ideal S64x64 .f32) (E : Vec Ideal S6000x64 .f32) (We : Vec Ideal S64x64 .f32) (b : Vec Ideal S1x64 .f32) :
    Gen.k13_pay1 (F := Ideal) U Wu V Wv E We b = layer3 U V E Wu Wv We b :=
  body3 dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    U Wu V Wv E We b _ _ _ _ _ _ _ _ _

/-- … read at row p, column q. -/
theorem k13_pay_apply (U : Vec Ideal S6000x64 .f32) (Wu : Vec Ideal S64x64 .f32) (V : Vec Ideal S6000x64 .f32) (Wv : Vec Ideal S64x64 .f32) (E : Vec Ideal S6000x64 .f32) (We : Vec Ideal S64x64 .f32) (b : Vec Ideal S1x64 .f32) (p : Fin 6000) (q : Fin 64) :
    Gen.k13_pay1 (F := Ideal) U Wu V Wv E We b (ix2 p q)
      = max (∑ c : Fin 64, U (ix2 p c) * Wu (ix2 c q) + ∑ c : Fin 64, V (ix2 p c) * Wv (ix2 c q) + ∑ c : Fin 64, E (ix2 p c) * We (ix2 c q) + b (ix2 0 q)) 0 := by
  rw [k13_pay_eq]
  exact layer3_apply U Wu V Wv E We b p q

/-! ## The edge layers (four pieces, blocks of 6000 rows) -/

/-- The value `cc6_kernel` stores, over the blocks it loads: the layer over its four pieces. -/
theorem k6_pay_eq (U : Vec Ideal S6000x64 .f32) (Wu : Vec Ideal S64x64 .f32) (V : Vec Ideal S6000x64 .f32) (Wv : Vec Ideal S64x64 .f32) (E : Vec Ideal S6000x32 .f32) (We : Vec Ideal S32x64 .f32) (G : Vec Ideal S6000x32 .f32) (Wg : Vec Ideal S32x64 .f32) (b : Vec Ideal S1x64 .f32) :
    Gen.k6_pay1 (F := Ideal) (Gen.k6_pay2 U Wu V Wv E We G Wg b) Gen.k6_pay3 = layer4 U V E G Wu Wv We Wg b :=
  body4 dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x32_S32x64_S6000x64_1_0_0_1_n_n ⟨rfl, rfl, rfl, rfl, rfl, rfl⟩
    dot_S6000x32_S32x64_S6000x64_1_0_0_1_n_n ⟨rfl, rfl, rfl, rfl, rfl, rfl⟩
    U Wu V Wv E We G Wg b _ _ _ _ _ _ _ _ _ _ _

/-- … read at row p, column q. -/
theorem k6_pay_apply (U : Vec Ideal S6000x64 .f32) (Wu : Vec Ideal S64x64 .f32) (V : Vec Ideal S6000x64 .f32) (Wv : Vec Ideal S64x64 .f32) (E : Vec Ideal S6000x32 .f32) (We : Vec Ideal S32x64 .f32) (G : Vec Ideal S6000x32 .f32) (Wg : Vec Ideal S32x64 .f32) (b : Vec Ideal S1x64 .f32) (p : Fin 6000) (q : Fin 64) :
    Gen.k6_pay1 (F := Ideal) (Gen.k6_pay2 U Wu V Wv E We G Wg b) Gen.k6_pay3 (ix2 p q)
      = max (∑ c : Fin 64, U (ix2 p c) * Wu (ix2 c q) + ∑ c : Fin 64, V (ix2 p c) * Wv (ix2 c q) + ∑ c : Fin 32, E (ix2 p c) * We (ix2 c q) + ∑ c : Fin 32, G (ix2 p c) * Wg (ix2 c q) + b (ix2 0 q)) 0 := by
  rw [k6_pay_eq]
  exact layer4_apply U Wu V Wv E We G Wg b p q

/-- The value `cc9_kernel` stores, over the blocks it loads: the layer over its four pieces. -/
theorem k9_pay_eq (U : Vec Ideal S6000x64 .f32) (Wu : Vec Ideal S64x64 .f32) (V : Vec Ideal S6000x64 .f32) (Wv : Vec Ideal S64x64 .f32) (E : Vec Ideal S6000x64 .f32) (We : Vec Ideal S64x64 .f32) (G : Vec Ideal S6000x64 .f32) (Wg : Vec Ideal S64x64 .f32) (b : Vec Ideal S1x64 .f32) :
    Gen.k9_pay1 (F := Ideal) (Gen.k9_pay2 U Wu V Wv E We G Wg b) Gen.k9_pay3 = layer4 U V E G Wu Wv We Wg b :=
  body4 dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    U Wu V Wv E We G Wg b _ _ _ _ _ _ _ _ _ _ _

/-- … read at row p, column q. -/
theorem k9_pay_apply (U : Vec Ideal S6000x64 .f32) (Wu : Vec Ideal S64x64 .f32) (V : Vec Ideal S6000x64 .f32) (Wv : Vec Ideal S64x64 .f32) (E : Vec Ideal S6000x64 .f32) (We : Vec Ideal S64x64 .f32) (G : Vec Ideal S6000x64 .f32) (Wg : Vec Ideal S64x64 .f32) (b : Vec Ideal S1x64 .f32) (p : Fin 6000) (q : Fin 64) :
    Gen.k9_pay1 (F := Ideal) (Gen.k9_pay2 U Wu V Wv E We G Wg b) Gen.k9_pay3 (ix2 p q)
      = max (∑ c : Fin 64, U (ix2 p c) * Wu (ix2 c q) + ∑ c : Fin 64, V (ix2 p c) * Wv (ix2 c q) + ∑ c : Fin 64, E (ix2 p c) * We (ix2 c q) + ∑ c : Fin 64, G (ix2 p c) * Wg (ix2 c q) + b (ix2 0 q)) 0 := by
  rw [k9_pay_eq]
  exact layer4_apply U Wu V Wv E We G Wg b p q

/-- The value `cc12_kernel` stores, over the blocks it loads: the layer over its four pieces. -/
theorem k12_pay_eq (U : Vec Ideal S6000x64 .f32) (Wu : Vec Ideal S64x64 .f32) (V : Vec Ideal S6000x64 .f32) (Wv : Vec Ideal S64x64 .f32) (E : Vec Ideal S6000x64 .f32) (We : Vec Ideal S64x64 .f32) (G : Vec Ideal S6000x64 .f32) (Wg : Vec Ideal S64x64 .f32) (b : Vec Ideal S1x64 .f32) :
    Gen.k12_pay1 (F := Ideal) (Gen.k12_pay2 U Wu V Wv E We G Wg b) Gen.k12_pay3 = layer4 U V E G Wu Wv We Wg b :=
  body4 dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    dot_S6000x64_S64x64_S6000x64_1_0_0_1_n_n ⟨rfl, rfl, rfl, rfl, rfl, rfl⟩
    U Wu V Wv E We G Wg b _ _ _ _ _ _ _ _ _ _ _

/-- … read at row p, column q. -/
theorem k12_pay_apply (U : Vec Ideal S6000x64 .f32) (Wu : Vec Ideal S64x64 .f32) (V : Vec Ideal S6000x64 .f32) (Wv : Vec Ideal S64x64 .f32) (E : Vec Ideal S6000x64 .f32) (We : Vec Ideal S64x64 .f32) (G : Vec Ideal S6000x64 .f32) (Wg : Vec Ideal S64x64 .f32) (b : Vec Ideal S1x64 .f32) (p : Fin 6000) (q : Fin 64) :
    Gen.k12_pay1 (F := Ideal) (Gen.k12_pay2 U Wu V Wv E We G Wg b) Gen.k12_pay3 (ix2 p q)
      = max (∑ c : Fin 64, U (ix2 p c) * Wu (ix2 c q) + ∑ c : Fin 64, V (ix2 p c) * Wv (ix2 c q) + ∑ c : Fin 64, E (ix2 p c) * We (ix2 c q) + ∑ c : Fin 64, G (ix2 p c) * Wg (ix2 c q) + b (ix2 0 q)) 0 := by
  rw [k12_pay_eq]
  exact layer4_apply U Wu V Wv E We G Wg b p q

end Cert.KernelIdeal.Mlp

end
-- ==== Proof.KI.Val6.lean ====
import proofs.«123839_j71768903516633_2_alg».proof.Proof.KI.Reg6
import proofs.«123839_j71768903516633_2_alg».proof.Proof.Math.MlpKernel
import Idealize.ShloMosaic.Lib.Pipeline.Value
import Idealize.ShloMosaic.Lib.Tactic

/-! # Region 6: the output array after the region, on the extended reals

Every point of the grid writes back, into its block of rows of the output array, `layer4` of the input blocks at
the point. An entry of `layer4` depends only on its own row of the row-blocked inputs and on the whole of the
others, and a block's row `p` at point `t` is row `6000·t + p` of its array, so what point `t` writes is block `t`
of `layer4` of the WHOLE input arrays (`flushed6_eq`). The blocks cover the output array (`cover6`), so the
array ends holding `layer4` of the input arrays as the region found them (`value6`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz6 : (![0, 0] : Fin 2 → Nat) = fun _ => 0 := funext fun a => by fin_cases a <;> rfl

/-! ## What the body leaves is `layer4` of the loaded blocks -/

theorem out6_eq (x0 : Vec Ideal S6000x64 .f32) (x1 : Vec Ideal S6000x64 .f32) (x2 : Vec Ideal S6000x32 .f32) (x3 : Vec Ideal S6000x32 .f32) (x4 : Vec Ideal S64x64 .f32) (x5 : Vec Ideal S64x64 .f32) (x6 : Vec Ideal S32x64 .f32) (x7 : Vec Ideal S32x64 .f32) (x8 : Vec Ideal S1x64 .f32) :
    out6_9 (F := Ideal) x0 x1 x2 x3 x4 x5 x6 x7 x8 = layer4 x0 x1 x2 x3 x4 x5 x6 x7 x8 := by
  unfold out6_9
  rw [View.canon_unit_zero hz6]
  simp only [View.ld_unit_zero (S := S6000x64) hz6, View.ld_unit_zero (S := S6000x32) hz6, View.ld_unit_zero (S := S64x64) hz6, View.ld_unit_zero (S := S32x64) hz6, View.ld_unit_zero (S := S1x64) hz6]
  exact Mlp.k6_pay_eq _ _ _ _ _ _ _ _ _

/-! ## The index maps, decided over the grid -/

/-- The row-blocked windows are at block `t` of their rows at point `t`; every other block index is 0. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-! ## Block reads: an input block's entry is the array's entry at block index × block size + the coordinate -/

theorem blk6_0 (c : Dev nD) (t : Fin cfg6.N) (x : S6000x64.Idx) (i : S300000x64.Idx)
    (h0 : (i 0).val = win6_0.index t (0 : Fin 2) * 6000 + (x 0).val)
    (h1 : (i 1).val = win6_0.index t (1 : Fin 2) * 64 + (x 1).val) :
    (iblk6 V c 0 t : Vec Ideal S6000x64 .f32) x = (V c (Pipeline.arrRef spec6 0) : Vec Ideal S300000x64 .f32) i := by
  unfold iblk6
  rw [View.read_apply]
  show V c (Pipeline.arrRef spec6 0) _ = V c (Pipeline.arrRef spec6 0) _
  refine congrArg (V c (Pipeline.arrRef spec6 0) : Vec Ideal S300000x64 .f32) ?_
  funext a; apply Fin.ext
  match a with
  | ⟨0, _⟩ => show win6_0.index t (0 : Fin 2) * 6000 + 1 * (x 0).val = (i 0).val; omega
  | ⟨1, _⟩ => show win6_0.index t (1 : Fin 2) * 64 + 1 * (x 1).val = (i 1).val; omega

theorem blk6_1 (c : Dev nD) (t : Fin cfg6.N) (x : S6000x64.Idx) (i : S300000x64.Idx)
    (h0 : (i 0).val = win6_1.index t (0 : Fin 2) * 6000 + (x 0).val)
    (h1 : (i 1).val = win6_1.index t (1 : Fin 2) * 64 + (x 1).val) :
    (iblk6 V c 1 t : Vec Ideal S6000x64 .f32) x = (V c (Pipeline.arrRef spec6 1) : Vec Ideal S300000x64 .f32) i := by
  unfold iblk6
  rw [View.read_apply]
  show V c (Pipeline.arrRef spec6 1) _ = V c (Pipeline.arrRef spec6 1) _
  refine congrArg (V c (Pipeline.arrRef spec6 1) : Vec Ideal S300000x64 .f32) ?_
  funext a; apply Fin.ext
  match a with
  | ⟨0, _⟩ => show win6_1.index t (0 : Fin 2) * 6000 + 1 * (x 0).val = (i 0).val; omega
  | ⟨1, _⟩ => show win6_1.index t (1 : Fin 2) * 64 + 1 * (x 1).val = (i 1).val; omega

theorem blk6_2 (c : Dev nD) (t : Fin cfg6.N) (x : S6000x32.Idx) (i : S300000x32.Idx)
    (h0 : (i 0).val = win6_2.index t (0 : Fin 2) * 6000 + (x 0).val)
    (h1 : (i 1).val = win6_2.index t (1 : Fin 2) * 32 + (x 1).val) :
    (iblk6 V c 2 t : Vec Ideal S6000x32 .f32) x = (V c (Pipeline.arrRef spec6 2) : Vec Ideal S300000x32 .f32) i := by
  unfold iblk6
  rw [View.read_apply]
  show V c (Pipeline.arrRef spec6 2) _ = V c (Pipeline.arrRef spec6 2) _
  refine congrArg (V c (Pipeline.arrRef spec6 2) : Vec Ideal S300000x32 .f32) ?_
  funext a; apply Fin.ext
  match a with
  | ⟨0, _⟩ => show win6_2.index t (0 : Fin 2) * 6000 + 1 * (x 0).val = (i 0).val; omega
  | ⟨1, _⟩ => show win6_2.index t (1 : Fin 2) * 32 + 1 * (x 1).val = (i 1).val; omega

theorem blk6_3 (c : Dev nD) (t : Fin cfg6.N) (x : S6000x32.Idx) (i : S300000x32.Idx)
    (h0 : (i 0).val = win6_3.index t (0 : Fin 2) * 6000 + (x 0).val)
    (h1 : (i 1).val = win6_3.index t (1 : Fin 2) * 32 + (x 1).val) :
    (iblk6 V c 3 t : Vec Ideal S6000x32 .f32) x = (V c (Pipeline.arrRef spec6 3) : Vec Ideal S300000x32 .f32) i := by
  unfold iblk6
  rw [View.read_apply]
  show V c (Pipeline.arrRef spec6 3) _ = V c (Pipeline.arrRef spec6 3) _
  refine congrArg (V c (Pipeline.arrRef spec6 3) : Vec Ideal S300000x32 .f32) ?_
  funext a; apply Fin.ext
  match a with
  | ⟨0, _⟩ => show win6_3.index t (0 : Fin 2) * 6000 + 1 * (x 0).val = (i 0).val; omega
  | ⟨1, _⟩ => show win6_3.index t (1 : Fin 2) * 32 + 1 * (x 1).val = (i 1).val; omega

theorem blk6_4 (c : Dev nD) (t : Fin cfg6.N) (x : S64x64.Idx) (i : S64x64.Idx)
    (h0 : (i 0).val = win6_4.index t (0 : Fin 2) * 64 + (x 0).val)
    (h1 : (i 1).val = win6_4.index t (1 : Fin 2) * 64 + (x 1).val) :
    (iblk6 V c 4 t : Vec Ideal S64x64 .f32) x = (V c (Pipeline.arrRef spec6 4) : Vec Ideal S64x64 .f32) i := by
  unfold iblk6
  rw [View.read_apply]
  show V c (Pipeline.arrRef spec6 4) _ = V c (Pipeline.arrRef spec6 4) _
  refine congrArg (V c (Pipeline.arrRef spec6 4) : Vec Ideal S64x64 .f32) ?_
  funext a; apply Fin.ext
  match a with
  | ⟨0, _⟩ => show win6_4.index t (0 : Fin 2) * 64 + 1 * (x 0).val = (i 0).val; omega
  | ⟨1, _⟩ => show win6_4.index t (1 : Fin 2) * 64 + 1 * (x 1).val = (i 1).val; omega

theorem blk6_5 (c : Dev nD) (t : Fin cfg6.N) (x : S64x64.Idx) (i : S64x64.Idx)
    (h0 : (i 0).val = win6_5.index t (0 : Fin 2) * 64 + (x 0).val)
    (h1 : (i 1).val = win6_5.index t (1 : Fin 2) * 64 + (x 1).val) :
    (iblk6 V c 5 t : Vec Ideal S64x64 .f32) x = (V c (Pipeline.arrRef spec6 5) : Vec Ideal S64x64 .f32) i := by
  unfold iblk6
  rw [View.read_apply]
  show V c (Pipeline.arrRef spec6 5) _ = V c (Pipeline.arrRef spec6 5) _
  refine congrArg (V c (Pipeline.arrRef spec6 5) : Vec Ideal S64x64 .f32) ?_
  funext a; apply Fin.ext
  match a with
  | ⟨0, _⟩ => show win6_5.index t (0 : Fin 2) * 64 + 1 * (x 0).val = (i 0).val; omega
  | ⟨1, _⟩ => show win6_5.index t (1 : Fin 2) * 64 + 1 * (x 1).val = (i 1).val; omega

theorem blk6_6 (c : Dev nD) (t : Fin cfg6.N) (x : S32x64.Idx) (i : S32x64.Idx)
    (h0 : (i 0).val = win6_6.index t (0 : Fin 2) * 32 + (x 0).val)
    (h1 : (i 1).val = win6_6.index t (1 : Fin 2) * 64 + (x 1).val) :
    (iblk6 V c 6 t : Vec Ideal S32x64 .f32) x = (V c (Pipeline.arrRef spec6 6) : Vec Ideal S32x64 .f32) i := by
  unfold iblk6
  rw [View.read_apply]
  show V c (Pipeline.arrRef spec6 6) _ = V c (Pipeline.arrRef spec6 6) _
  refine congrArg (V c (Pipeline.arrRef spec6 6) : Vec Ideal S32x64 .f32) ?_
  funext a; apply Fin.ext
  match a with
  | ⟨0, _⟩ => show win6_6.index t (0 : Fin 2) * 32 + 1 * (x 0).val = (i 0).val; omega
  | ⟨1, _⟩ => show win6_6.index t (1 : Fin 2) * 64 + 1 * (x 1).val = (i 1).val; omega

theorem blk6_7 (c : Dev nD) (t : Fin cfg6.N) (x : S32x64.Idx) (i : S32x64.Idx)
    (h0 : (i 0).val = win6_7.index t (0 : Fin 2) * 32 + (x 0).val)
    (h1 : (i 1).val = win6_7.index t (1 : Fin 2) * 64 + (x 1).val) :
    (iblk6 V c 7 t : Vec Ideal S32x64 .f32) x = (V c (Pipeline.arrRef spec6 7) : Vec Ideal S32x64 .f32) i := by
  unfold iblk6
  rw [View.read_apply]
  show V c (Pipeline.arrRef spec6 7) _ = V c (Pipeline.arrRef spec6 7) _
  refine congrArg (V c (Pipeline.arrRef spec6 7) : Vec Ideal S32x64 .f32) ?_
  funext a; apply Fin.ext
  match a with
  | ⟨0, _⟩ => show win6_7.index t (0 : Fin 2) * 32 + 1 * (x 0).val = (i 0).val; omega
  | ⟨1, _⟩ => show win6_7.index t (1 : Fin 2) * 64 + 1 * (x 1).val = (i 1).val; omega

theorem blk6_8 (c : Dev nD) (t : Fin cfg6.N) (x : S1x64.Idx) (i : S1x64.Idx)
    (h0 : (i 0).val = win6_8.index t (0 : Fin 2) * 1 + (x 0).val)
    (h1 : (i 1).val = win6_8.index t (1 : Fin 2) * 64 + (x 1).val) :
    (iblk6 V c 8 t : Vec Ideal S1x64 .f32) x = (V c (Pipeline.arrRef spec6 8) : Vec Ideal S1x64 .f32) i := by
  unfold iblk6
  rw [View.read_apply]
  show V c (Pipeline.arrRef spec6 8) _ = V c (Pipeline.arrRef spec6 8) _
  refine congrArg (V c (Pipeline.arrRef spec6 8) : Vec Ideal S1x64 .f32) ?_
  funext a; apply Fin.ext
  match a with
  | ⟨0, _⟩ => show win6_8.index t (0 : Fin 2) * 1 + 1 * (x 0).val = (i 0).val; omega
  | ⟨1, _⟩ => show win6_8.index t (1 : Fin 2) * 64 + 1 * (x 1).val = (i 1).val; omega

/-! ## One entry: `layer4` of the blocks at a block coordinate is `layer4` of the arrays at the array coordinate -/

theorem point6 (A0 : Vec Ideal S300000x64 .f32) (A1 : Vec Ideal S300000x64 .f32) (A2 : Vec Ideal S300000x32 .f32) (A3 : Vec Ideal S300000x32 .f32) (A4 : Vec Ideal S64x64 .f32) (A5 : Vec Ideal S64x64 .f32) (A6 : Vec Ideal S32x64 .f32) (A7 : Vec Ideal S32x64 .f32) (A8 : Vec Ideal S1x64 .f32)
    (x0 : Vec Ideal S6000x64 .f32) (x1 : Vec Ideal S6000x64 .f32) (x2 : Vec Ideal S6000x32 .f32) (x3 : Vec Ideal S6000x32 .f32) (x4 : Vec Ideal S64x64 .f32) (x5 : Vec Ideal S64x64 .f32) (x6 : Vec Ideal S32x64 .f32) (x7 : Vec Ideal S32x64 .f32) (x8 : Vec Ideal S1x64 .f32)
    (y : S6000x64.Idx) (i : S300000x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : ∀ k : Fin 32, x2 (ix2 (y 0) k) = A2 (ix2 (i 0) k))
    (h3 : ∀ k : Fin 32, x3 (ix2 (y 0) k) = A3 (ix2 (i 0) k))
    (h4 : x4 = A4) (h5 : x5 = A5) (h6 : x6 = A6) (h7 : x7 = A7) (h8 : x8 = A8) :
    layer4 x0 x1 x2 x3 x4 x5 x6 x7 x8 y = layer4 A0 A1 A2 A3 A4 A5 A6 A7 A8 i := by
  subst h4
  subst h5
  subst h6
  subst h7
  subst h8
  calc layer4 x0 x1 x2 x3 x4 x5 x6 x7 x8 y = layer4 x0 x1 x2 x3 x4 x5 x6 x7 x8 (ix2 (y 0) (y 1)) := congrArg _ (eq_ix2 y)
    _ = layer4 A0 A1 A2 A3 x4 x5 x6 x7 x8 (ix2 (i 0) (y 1)) :=
        layer4_rows A0 x0 A1 x1 A2 x2 A3 x3 x4 x5 x6 x7 x8 (y 0) (i 0) (y 1) h0 h1 h2 h3
    _ = layer4 A0 A1 A2 A3 x4 x5 x6 x7 x8 i := congrArg _ (by
        funext a
        match a with
        | ⟨0, _⟩ => rfl
        | ⟨1, _⟩ => exact (Fin.ext hq).symm)

/-! ## What point `t` writes back is block `t` of `layer4` of the input arrays -/

-- stating the equation unfolds the output window's block among the region's 10 windows on its grid of 50: the larger regions need more than the default budget
set_option maxHeartbeats 4000000 in
theorem flushed6_eq (c : Dev nD) (t : Fin cfg6.N) :
    (dat6 (F := Ideal) V c).flushed 9 t = ((cfg6.win 9).blk t).view.read (Elt Ideal)
      (layer4 (V c (Pipeline.arrRef spec6 0) : Vec Ideal S300000x64 .f32) (V c (Pipeline.arrRef spec6 1) : Vec Ideal S300000x64 .f32) (V c (Pipeline.arrRef spec6 2) : Vec Ideal S300000x32 .f32) (V c (Pipeline.arrRef spec6 3) : Vec Ideal S300000x32 .f32) (V c (Pipeline.arrRef spec6 4) : Vec Ideal S64x64 .f32) (V c (Pipeline.arrRef spec6 5) : Vec Ideal S64x64 .f32) (V c (Pipeline.arrRef spec6 6) : Vec Ideal S32x64 .f32) (V c (Pipeline.arrRef spec6 7) : Vec Ideal S32x64 .f32) (V c (Pipeline.arrRef spec6 8) : Vec Ideal S1x64 .f32)) := by
  show (cfg6.win 9).cut (grid6.coords t) ((dat6 (F := Ideal) V c).after 9 t) = _
  rw [after6_9, out6_eq (iblk6 V c 0 t) (iblk6 V c 1 t) (iblk6 V c 2 t) (iblk6 V c 3 t) (iblk6 V c 4 t) (iblk6 V c 5 t) (iblk6 V c 6 t) (iblk6 V c 7 t) (iblk6 V c 8 t)]
  obtain ⟨e0_0, e0_1, e1_0, e1_1, e2_0, e2_1, e3_0, e3_1, e4_0, e4_1, e5_0, e5_1, e6_0, e6_1, e7_0, e7_1, e8_0, e8_1, e9_0, e9_1⟩ := idx_facts6 t
  funext y
  show layer4 (iblk6 V c 0 t) (iblk6 V c 1 t) (iblk6 V c 2 t) (iblk6 V c 3 t) (iblk6 V c 4 t) (iblk6 V c 5 t) (iblk6 V c 6 t) (iblk6 V c 7 t) (iblk6 V c 8 t) y
    = layer4 (V c (Pipeline.arrRef spec6 0) : Vec Ideal S300000x64 .f32) (V c (Pipeline.arrRef spec6 1) : Vec Ideal S300000x64 .f32) (V c (Pipeline.arrRef spec6 2) : Vec Ideal S300000x32 .f32) (V c (Pipeline.arrRef spec6 3) : Vec Ideal S300000x32 .f32) (V c (Pipeline.arrRef spec6 4) : Vec Ideal S64x64 .f32) (V c (Pipeline.arrRef spec6 5) : Vec Ideal S64x64 .f32) (V c (Pipeline.arrRef spec6 6) : Vec Ideal S32x64 .f32) (V c (Pipeline.arrRef spec6 7) : Vec Ideal S32x64 .f32) (V c (Pipeline.arrRef spec6 8) : Vec Ideal S1x64 .f32) (((cfg6.win 9).blk t).view.emb y)
  refine point6 (V c (Pipeline.arrRef spec6 0) : Vec Ideal S300000x64 .f32) (V c (Pipeline.arrRef spec6 1) : Vec Ideal S300000x64 .f32) (V c (Pipeline.arrRef spec6 2) : Vec Ideal S300000x32 .f32) (V c (Pipeline.arrRef spec6 3) : Vec Ideal S300000x32 .f32) (V c (Pipeline.arrRef spec6 4) : Vec Ideal S64x64 .f32) (V c (Pipeline.arrRef spec6 5) : Vec Ideal S64x64 .f32) (V c (Pipeline.arrRef spec6 6) : Vec Ideal S32x64 .f32) (V c (Pipeline.arrRef spec6 7) : Vec Ideal S32x64 .f32) (V c (Pipeline.arrRef spec6 8) : Vec Ideal S1x64 .f32) (iblk6 V c 0 t) (iblk6 V c 1 t) (iblk6 V c 2 t) (iblk6 V c 3 t) (iblk6 V c 4 t) (iblk6 V c 5 t) (iblk6 V c 6 t) (iblk6 V c 7 t) (iblk6 V c 8 t) y _ ?_ ?_ ?_ ?_ ?_ ?_ ?_ ?_ ?_ ?_
  · show win6_9.index t (1 : Fin 2) * 64 + 1 * (y 1).val = (y 1).val
    omega
  · intro k
    refine blk6_0 V c t _ _ ?_ ?_
    · show win6_9.index t (0 : Fin 2) * 6000 + 1 * (y 0).val = win6_0.index t (0 : Fin 2) * 6000 + (y 0).val
      omega
    · show k.val = win6_0.index t (1 : Fin 2) * 64 + k.val
      omega
  · intro k
    refine blk6_1 V c t _ _ ?_ ?_
    · show win6_9.index t (0 : Fin 2) * 6000 + 1 * (y 0).val = win6_1.index t (0 : Fin 2) * 6000 + (y 0).val
      omega
    · show k.val = win6_1.index t (1 : Fin 2) * 64 + k.val
      omega
  · intro k
    refine blk6_2 V c t _ _ ?_ ?_
    · show win6_9.index t (0 : Fin 2) * 6000 + 1 * (y 0).val = win6_2.index t (0 : Fin 2) * 6000 + (y 0).val
      omega
    · show k.val = win6_2.index t (1 : Fin 2) * 32 + k.val
      omega
  · intro k
    refine blk6_3 V c t _ _ ?_ ?_
    · show win6_9.index t (0 : Fin 2) * 6000 + 1 * (y 0).val = win6_3.index t (0 : Fin 2) * 6000 + (y 0).val
      omega
    · show k.val = win6_3.index t (1 : Fin 2) * 32 + k.val
      omega
  · funext x
    exact blk6_4 V c t x x (by omega) (by omega)
  · funext x
    exact blk6_5 V c t x x (by omega) (by omega)
  · funext x
    exact blk6_6 V c t x x (by omega) (by omega)
  · funext x
    exact blk6_7 V c t x x (by omega) (by omega)
  · funext x
    exact blk6_8 V c t x x (by omega) (by omega)

/-! ## The blocks cover the output array -/

/-- An index of the array is in point `t`'s block iff each coordinate is in the block's range on its axis. -/
theorem mem_blk6 (t : Fin cfg6.N) (i : S300000x64.Idx) :
    i ∈ ((cfg6.win 9).blk t).view.set ↔ ∀ a : Fin 2, win6_9.index t a * S6000x64.size a ≤ (i a).val ∧ (i a).val < win6_9.index t a * S6000x64.size a + S6000x64.size a := by
  show i ∈ ((View.whole main_v73).slice (win6_9.rect t)).set ↔ _
  rw [View.set_slice_whole, Rect.mem_set_unit]
  exact Iff.rfl

/-- Row `r` of the array is in the block of point `r / 6000`, which is written back. -/
theorem cover6 (i : S300000x64.Idx) :
    ∃ t : Fin cfg6.N, (cfg6.win 9).flush t = true ∧ i ∈ ((cfg6.win 9).blk t).view.set := by
  have hi0 : (i 0).val < 300000 := (i 0).isLt
  have hi1 : (i 1).val < 64 := (i 1).isLt
  have hN : cfg6.N = 50 := N_6
  have ht : (i 0).val / 6000 < cfg6.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx_facts6 ⟨(i 0).val / 6000, ht⟩
  have hv : (⟨(i 0).val / 6000, ht⟩ : Fin cfg6.N).val = (i 0).val / 6000 := rfl
  refine ⟨⟨(i 0).val / 6000, ht⟩, flush6_9 _, ?_⟩
  rw [mem_blk6]
  intro a
  match a with
  | ⟨0, _⟩ =>
    show win6_9.index ⟨(i 0).val / 6000, ht⟩ (0 : Fin 2) * 6000 ≤ (i 0).val ∧ (i 0).val < win6_9.index ⟨(i 0).val / 6000, ht⟩ (0 : Fin 2) * 6000 + 6000
    omega
  | ⟨1, _⟩ =>
    show win6_9.index ⟨(i 0).val / 6000, ht⟩ (1 : Fin 2) * 64 ≤ (i 1).val ∧ (i 1).val < win6_9.index ⟨(i 0).val / 6000, ht⟩ (1 : Fin 2) * 64 + 64
    omega

/-! ## The array after the region -/

set_option maxHeartbeats 4000000 in
/-- The output array after the region's run is `layer4` of the region's input arrays as entered. -/
theorem value6 (c : Dev nD) :
    (dat6 (F := Ideal) V c).arrAt 9 cfg6.N = layer4 (V c (Pipeline.arrRef spec6 0) : Vec Ideal S300000x64 .f32) (V c (Pipeline.arrRef spec6 1) : Vec Ideal S300000x64 .f32) (V c (Pipeline.arrRef spec6 2) : Vec Ideal S300000x32 .f32) (V c (Pipeline.arrRef spec6 3) : Vec Ideal S300000x32 .f32) (V c (Pipeline.arrRef spec6 4) : Vec Ideal S64x64 .f32) (V c (Pipeline.arrRef spec6 5) : Vec Ideal S64x64 .f32) (V c (Pipeline.arrRef spec6 6) : Vec Ideal S32x64 .f32) (V c (Pipeline.arrRef spec6 7) : Vec Ideal S32x64 .f32) (V c (Pipeline.arrRef spec6 8) : Vec Ideal S1x64 .f32) :=
  (dat6 (F := Ideal) V c).arrAt_eq_of_cover 9 (layer4 (V c (Pipeline.arrRef spec6 0) : Vec Ideal S300000x64 .f32) (V c (Pipeline.arrRef spec6 1) : Vec Ideal S300000x64 .f32) (V c (Pipeline.arrRef spec6 2) : Vec Ideal S300000x32 .f32) (V c (Pipeline.arrRef spec6 3) : Vec Ideal S300000x32 .f32) (V c (Pipeline.arrRef spec6 4) : Vec Ideal S64x64 .f32) (V c (Pipeline.arrRef spec6 5) : Vec Ideal S64x64 .f32) (V c (Pipeline.arrRef spec6 6) : Vec Ideal S32x64 .f32) (V c (Pipeline.arrRef spec6 7) : Vec Ideal S32x64 .f32) (V c (Pipeline.arrRef spec6 8) : Vec Ideal S1x64 .f32))
    (fun t _ => flushed6_eq V c t) (cover6)

end Cert.KernelIdeal.Hand

end
-- ==== Proof.KI.Val7.lean ====
import proofs.«123839_j71768903516633_2_alg».proof.Proof.KI.Reg7
import proofs.«123839_j71768903516633_2_alg».proof.Proof.Math.MlpKernel
import Idealize.ShloMosaic.Lib.Pipeline.Value
import Idealize.ShloMosaic.Lib.Tactic

/-! # Region 7: the output array after the region, on the extended reals

Every point of the grid writes back, into its block of rows of the output array, `layer3` of the input blocks at
the point. An entry of `layer3` depends only on its own row of the row-blocked inputs and on the whole of the
others, and a block's row `p` at point `t` is row `6000·t + p` of its array, so what point `t` writes is block `t`
of `layer3` of the WHOLE input arrays (`flushed7_eq`). The blocks cover the output array (`cover7`), so the
array ends holding `layer3` of the input arrays as the region found them (`value7`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz7 : (![0, 0] : Fin 2 → Nat) = fun _ => 0 := funext fun a => by fin_cases a <;> rfl

/-! ## What the body leaves is `layer3` of the loaded blocks -/

theorem out7_eq (x0 : Vec Ideal S6000x64 .f32) (x1 : Vec Ideal S6000x64 .f32) (x2 : Vec Ideal S6000x32 .f32) (x3 : Vec Ideal S64x64 .f32) (x4 : Vec Ideal S64x64 .f32) (x5 : Vec Ideal S32x64 .f32) (x6 : Vec Ideal S1x64 .f32) :
    out7_7 (F := Ideal) x0 x1 x2 x3 x4 x5 x6 = layer3 x0 x1 x2 x3 x4 x5 x6 := by
  unfold out7_7
  rw [View.canon_unit_zero hz7]
  simp only [View.ld_unit_zero (S := S6000x64) hz7, View.ld_unit_zero (S := S6000x32) hz7, View.ld_unit_zero (S := S64x64) hz7, View.ld_unit_zero (S := S32x64) hz7, View.ld_unit_zero (S := S1x64) hz7]
  exact Mlp.k7_pay_eq _ _ _ _ _ _ _

/-! ## The index maps, decided over the grid -/

/-- The row-blocked windows are at block `t` of their rows at point `t`; every other block index is 0. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-! ## Block reads: an input block's entry is the array's entry at block index × block size + the coordinate -/

theorem blk7_0 (c : Dev nD) (t : Fin cfg7.N) (x : S6000x64.Idx) (i : S30000x64.Idx)
    (h0 : (i 0).val = win7_0.index t (0 : Fin 2) * 6000 + (x 0).val)
    (h1 : (i 1).val = win7_0.index t (1 : Fin 2) * 64 + (x 1).val) :
    (iblk7 V c 0 t : Vec Ideal S6000x64 .f32) x = (V c (Pipeline.arrRef spec7 0) : Vec Ideal S30000x64 .f32) i := by
  unfold iblk7
  rw [View.read_apply]
  show V c (Pipeline.arrRef spec7 0) _ = V c (Pipeline.arrRef spec7 0) _
  refine congrArg (V c (Pipeline.arrRef spec7 0) : Vec Ideal S30000x64 .f32) ?_
  funext a; apply Fin.ext
  match a with
  | ⟨0, _⟩ => show win7_0.index t (0 : Fin 2) * 6000 + 1 * (x 0).val = (i 0).val; omega
  | ⟨1, _⟩ => show win7_0.index t (1 : Fin 2) * 64 + 1 * (x 1).val = (i 1).val; omega

theorem blk7_1 (c : Dev nD) (t : Fin cfg7.N) (x : S6000x64.Idx) (i : S30000x64.Idx)
    (h0 : (i 0).val = win7_1.index t (0 : Fin 2) * 6000 + (x 0).val)
    (h1 : (i 1).val = win7_1.index t (1 : Fin 2) * 64 + (x 1).val) :
    (iblk7 V c 1 t : Vec Ideal S6000x64 .f32) x = (V c (Pipeline.arrRef spec7 1) : Vec Ideal S30000x64 .f32) i := by
  unfold iblk7
  rw [View.read_apply]
  show V c (Pipeline.arrRef spec7 1) _ = V c (Pipeline.arrRef spec7 1) _
  refine congrArg (V c (Pipeline.arrRef spec7 1) : Vec Ideal S30000x64 .f32) ?_
  funext a; apply Fin.ext
  match a with
  | ⟨0, _⟩ => show win7_1.index t (0 : Fin 2) * 6000 + 1 * (x 0).val = (i 0).val; omega
  | ⟨1, _⟩ => show win7_1.index t (1 : Fin 2) * 64 + 1 * (x 1).val = (i 1).val; omega

theorem blk7_2 (c : Dev nD) (t : Fin cfg7.N) (x : S6000x32.Idx) (i : S30000x32.Idx)
    (h0 : (i 0).val = win7_2.index t (0 : Fin 2) * 6000 + (x 0).val)
    (h1 : (i 1).val = win7_2.index t (1 : Fin 2) * 32 + (x 1).val) :
    (iblk7 V c 2 t : Vec Ideal S6000x32 .f32) x = (V c (Pipeline.arrRef spec7 2) : Vec Ideal S30000x32 .f32) i := by
  unfold iblk7
  rw [View.read_apply]
  show V c (Pipeline.arrRef spec7 2) _ = V c (Pipeline.arrRef spec7 2) _
  refine congrArg (V c (Pipeline.arrRef spec7 2) : Vec Ideal S30000x32 .f32) ?_
  funext a; apply Fin.ext
  match a with
  | ⟨0, _⟩ => show win7_2.index t (0 : Fin 2) * 6000 + 1 * (x 0).val = (i 0).val; omega
  | ⟨1, _⟩ => show win7_2.index t (1 : Fin 2) * 32 + 1 * (x 1).val = (i 1).val; omega

theorem blk7_3 (c : Dev nD) (t : Fin cfg7.N) (x : S64x64.Idx) (i : S64x64.Idx)
    (h0 : (i 0).val = win7_3.index t (0 : Fin 2) * 64 + (x 0).val)
    (h1 : (i 1).val = win7_3.index t (1 : Fin 2) * 64 + (x 1).val) :
    (iblk7 V c 3 t : Vec Ideal S64x64 .f32) x = (V c (Pipeline.arrRef spec7 3) : Vec Ideal S64x64 .f32) i := by
  unfold iblk7
  rw [View.read_apply]
  show V c (Pipeline.arrRef spec7 3) _ = V c (Pipeline.arrRef spec7 3) _
  refine congrArg (V c (Pipeline.arrRef spec7 3) : Vec Ideal S64x64 .f32) ?_
  funext a; apply Fin.ext
  match a with
  | ⟨0, _⟩ => show win7_3.index t (0 : Fin 2) * 64 + 1 * (x 0).val = (i 0).val; omega
  | ⟨1, _⟩ => show win7_3.index t (1 : Fin 2) * 64 + 1 * (x 1).val = (i 1).val; omega

theorem blk7_4 (c : Dev nD) (t : Fin cfg7.N) (x : S64x64.Idx) (i : S64x64.Idx)
    (h0 : (i 0).val = win7_4.index t (0 : Fin 2) * 64 + (x 0).val)
    (h1 : (i 1).val = win7_4.index t (1 : Fin 2) * 64 + (x 1).val) :
    (iblk7 V c 4 t : Vec Ideal S64x64 .f32) x = (V c (Pipeline.arrRef spec7 4) : Vec Ideal S64x64 .f32) i := by
  unfold iblk7
  rw [View.read_apply]
  show V c (Pipeline.arrRef spec7 4) _ = V c (Pipeline.arrRef spec7 4) _
  refine congrArg (V c (Pipeline.arrRef spec7 4) : Vec Ideal S64x64 .f32) ?_
  funext a; apply Fin.ext
  match a with
  | ⟨0, _⟩ => show win7_4.index t (0 : Fin 2) * 64 + 1 * (x 0).val = (i 0).val; omega
  | ⟨1, _⟩ => show win7_4.index t (1 : Fin 2) * 64 + 1 * (x 1).val = (i 1).val; omega

theorem blk7_5 (c : Dev nD) (t : Fin cfg7.N) (x : S32x64.Idx) (i : S32x64.Idx)
    (h0 : (i 0).val = win7_5.index t (0 : Fin 2) * 32 + (x 0).val)
    (h1 : (i 1).val = win7_5.index t (1 : Fin 2) * 64 + (x 1).val) :
    (iblk7 V c 5 t : Vec Ideal S32x64 .f32) x = (V c (Pipeline.arrRef spec7 5) : Vec Ideal S32x64 .f32) i := by
  unfold iblk7
  rw [View.read_apply]
  show V c (Pipeline.arrRef spec7 5) _ = V c (Pipeline.arrRef spec7 5) _
  refine congrArg (V c (Pipeline.arrRef spec7 5) : Vec Ideal S32x64 .f32) ?_
  funext a; apply Fin.ext
  match a with
  | ⟨0, _⟩ => show win7_5.index t (0 : Fin 2) * 32 + 1 * (x 0).val = (i 0).val; omega
  | ⟨1, _⟩ => show win7_5.index t (1 : Fin 2) * 64 + 1 * (x 1).val = (i 1).val; omega

theorem blk7_6 (c : Dev nD) (t : Fin cfg7.N) (x : S1x64.Idx) (i : S1x64.Idx)
    (h0 : (i 0).val = win7_6.index t (0 : Fin 2) * 1 + (x 0).val)
    (h1 : (i 1).val = win7_6.index t (1 : Fin 2) * 64 + (x 1).val) :
    (iblk7 V c 6 t : Vec Ideal S1x64 .f32) x = (V c (Pipeline.arrRef spec7 6) : Vec Ideal S1x64 .f32) i := by
  unfold iblk7
  rw [View.read_apply]
  show V c (Pipeline.arrRef spec7 6) _ = V c (Pipeline.arrRef spec7 6) _
  refine congrArg (V c (Pipeline.arrRef spec7 6) : Vec Ideal S1x64 .f32) ?_
  funext a; apply Fin.ext
  match a with
  | ⟨0, _⟩ => show win7_6.index t (0 : Fin 2) * 1 + 1 * (x 0).val = (i 0).val; omega
  | ⟨1, _⟩ => show win7_6.index t (1 : Fin 2) * 64 + 1 * (x 1).val = (i 1).val; omega

/-! ## One entry: `layer3` of the blocks at a block coordinate is `layer3` of the arrays at the array coordinate -/

theorem point7 (A0 : Vec Ideal S30000x64 .f32) (A1 : Vec Ideal S30000x64 .f32) (A2 : Vec Ideal S30000x32 .f32) (A3 : Vec Ideal S64x64 .f32) (A4 : Vec Ideal S64x64 .f32) (A5 : Vec Ideal S32x64 .f32) (A6 : Vec Ideal S1x64 .f32)
    (x0 : Vec Ideal S6000x64 .f32) (x1 : Vec Ideal S6000x64 .f32) (x2 : Vec Ideal S6000x32 .f32) (x3 : Vec Ideal S64x64 .f32) (x4 : Vec Ideal S64x64 .f32) (x5 : Vec Ideal S32x64 .f32) (x6 : Vec Ideal S1x64 .f32)
    (y : S6000x64.Idx) (i : S30000x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : ∀ k : Fin 32, x2 (ix2 (y 0) k) = A2 (ix2 (i 0) k))
    (h3 : x3 = A3) (h4 : x4 = A4) (h5 : x5 = A5) (h6 : x6 = A6) :
    layer3 x0 x1 x2 x3 x4 x5 x6 y = layer3 A0 A1 A2 A3 A4 A5 A6 i := by
  subst h3
  subst h4
  subst h5
  subst h6
  calc layer3 x0 x1 x2 x3 x4 x5 x6 y = layer3 x0 x1 x2 x3 x4 x5 x6 (ix2 (y 0) (y 1)) := congrArg _ (eq_ix2 y)
    _ = layer3 A0 A1 A2 x3 x4 x5 x6 (ix2 (i 0) (y 1)) :=
        layer3_rows A0 x0 A1 x1 A2 x2 x3 x4 x5 x6 (y 0) (i 0) (y 1) h0 h1 h2
    _ = layer3 A0 A1 A2 x3 x4 x5 x6 i := congrArg _ (by
        funext a
        match a with
        | ⟨0, _⟩ => rfl
        | ⟨1, _⟩ => exact (Fin.ext hq).symm)

/-! ## What point `t` writes back is block `t` of `layer3` of the input arrays -/

-- stating the equation unfolds the output window's block among the region's 8 windows on its grid of 5: the larger regions need more than the default budget
set_option maxHeartbeats 4000000 in
theorem flushed7_eq (c : Dev nD) (t : Fin cfg7.N) :
    (dat7 (F := Ideal) V c).flushed 7 t = ((cfg7.win 7).blk t).view.read (Elt Ideal)
      (layer3 (V c (Pipeline.arrRef spec7 0) : Vec Ideal S30000x64 .f32) (V c (Pipeline.arrRef spec7 1) : Vec Ideal S30000x64 .f32) (V c (Pipeline.arrRef spec7 2) : Vec Ideal S30000x32 .f32) (V c (Pipeline.arrRef spec7 3) : Vec Ideal S64x64 .f32) (V c (Pipeline.arrRef spec7 4) : Vec Ideal S64x64 .f32) (V c (Pipeline.arrRef spec7 5) : Vec Ideal S32x64 .f32) (V c (Pipeline.arrRef spec7 6) : Vec Ideal S1x64 .f32)) := by
  show (cfg7.win 7).cut (grid7.coords t) ((dat7 (F := Ideal) V c).after 7 t) = _
  rw [after7_7, out7_eq (iblk7 V c 0 t) (iblk7 V c 1 t) (iblk7 V c 2 t) (iblk7 V c 3 t) (iblk7 V c 4 t) (iblk7 V c 5 t) (iblk7 V c 6 t)]
  obtain ⟨e0_0, e0_1, e1_0, e1_1, e2_0, e2_1, e3_0, e3_1, e4_0, e4_1, e5_0, e5_1, e6_0, e6_1, e7_0, e7_1⟩ := idx_facts7 t
  funext y
  show layer3 (iblk7 V c 0 t) (iblk7 V c 1 t) (iblk7 V c 2 t) (iblk7 V c 3 t) (iblk7 V c 4 t) (iblk7 V c 5 t) (iblk7 V c 6 t) y
    = layer3 (V c (Pipeline.arrRef spec7 0) : Vec Ideal S30000x64 .f32) (V c (Pipeline.arrRef spec7 1) : Vec Ideal S30000x64 .f32) (V c (Pipeline.arrRef spec7 2) : Vec Ideal S30000x32 .f32) (V c (Pipeline.arrRef spec7 3) : Vec Ideal S64x64 .f32) (V c (Pipeline.arrRef spec7 4) : Vec Ideal S64x64 .f32) (V c (Pipeline.arrRef spec7 5) : Vec Ideal S32x64 .f32) (V c (Pipeline.arrRef spec7 6) : Vec Ideal S1x64 .f32) (((cfg7.win 7).blk t).view.emb y)
  refine point7 (V c (Pipeline.arrRef spec7 0) : Vec Ideal S30000x64 .f32) (V c (Pipeline.arrRef spec7 1) : Vec Ideal S30000x64 .f32) (V c (Pipeline.arrRef spec7 2) : Vec Ideal S30000x32 .f32) (V c (Pipeline.arrRef spec7 3) : Vec Ideal S64x64 .f32) (V c (Pipeline.arrRef spec7 4) : Vec Ideal S64x64 .f32) (V c (Pipeline.arrRef spec7 5) : Vec Ideal S32x64 .f32) (V c (Pipeline.arrRef spec7 6) : Vec Ideal S1x64 .f32) (iblk7 V c 0 t) (iblk7 V c 1 t) (iblk7 V c 2 t) (iblk7 V c 3 t) (iblk7 V c 4 t) (iblk7 V c 5 t) (iblk7 V c 6 t) y _ ?_ ?_ ?_ ?_ ?_ ?_ ?_ ?_
  · show win7_7.index t (1 : Fin 2) * 64 + 1 * (y 1).val = (y 1).val
    omega
  · intro k
    refine blk7_0 V c t _ _ ?_ ?_
    · show win7_7.index t (0 : Fin 2) * 6000 + 1 * (y 0).val = win7_0.index t (0 : Fin 2) * 6000 + (y 0).val
      omega
    · show k.val = win7_0.index t (1 : Fin 2) * 64 + k.val
      omega
  · intro k
    refine blk7_1 V c t _ _ ?_ ?_
    · show win7_7.index t (0 : Fin 2) * 6000 + 1 * (y 0).val = win7_1.index t (0 : Fin 2) * 6000 + (y 0).val
      omega
    · show k.val = win7_1.index t (1 : Fin 2) * 64 + k.val
      omega
  · intro k
    refine blk7_2 V c t _ _ ?_ ?_
    · show win7_7.index t (0 : Fin 2) * 6000 + 1 * (y 0).val = win7_2.index t (0 : Fin 2) * 6000 + (y 0).val
      omega
    · show k.val = win7_2.index t (1 : Fin 2) * 32 + k.val
      omega
  · funext x
    exact blk7_3 V c t x x (by omega) (by omega)
  · funext x
    exact blk7_4 V c t x x (by omega) (by omega)
  · funext x
    exact blk7_5 V c t x x (by omega) (by omega)
  · funext x
    exact blk7_6 V c t x x (by omega) (by omega)

/-! ## The blocks cover the output array -/

/-- An index of the array is in point `t`'s block iff each coordinate is in the block's range on its axis. -/
theorem mem_blk7 (t : Fin cfg7.N) (i : S30000x64.Idx) :
    i ∈ ((cfg7.win 7).blk t).view.set ↔ ∀ a : Fin 2, win7_7.index t a * S6000x64.size a ≤ (i a).val ∧ (i a).val < win7_7.index t a * S6000x64.size a + S6000x64.size a := by
  show i ∈ ((View.whole main_v96).slice (win7_7.rect t)).set ↔ _
  rw [View.set_slice_whole, Rect.mem_set_unit]
  exact Iff.rfl

/-- Row `r` of the array is in the block of point `r / 6000`, which is written back. -/
theorem cover7 (i : S30000x64.Idx) :
    ∃ t : Fin cfg7.N, (cfg7.win 7).flush t = true ∧ i ∈ ((cfg7.win 7).blk t).view.set := by
  have hi0 : (i 0).val < 30000 := (i 0).isLt
  have hi1 : (i 1).val < 64 := (i 1).isLt
  have hN : cfg7.N = 5 := N_7
  have ht : (i 0).val / 6000 < cfg7.N := by rw [hN]; omega
  obtain ⟨e0_0, e0_1, e1_0, e1_1, e2_0, e2_1, e3_0, e3_1, e4_0, e4_1, e5_0, e5_1, e6_0, e6_1, e7_0, e7_1⟩ := idx_facts7 ⟨(i 0).val / 6000, ht⟩
  have hv : (⟨(i 0).val / 6000, ht⟩ : Fin cfg7.N).val = (i 0).val / 6000 := rfl
  refine ⟨⟨(i 0).val / 6000, ht⟩, flush7_7 _, ?_⟩
  rw [mem_blk7]
  intro a
  match a with
  | ⟨0, _⟩ =>
    show win7_7.index ⟨(i 0).val / 6000, ht⟩ (0 : Fin 2) * 6000 ≤ (i 0).val ∧ (i 0).val < win7_7.index ⟨(i 0).val / 6000, ht⟩ (0 : Fin 2) * 6000 + 6000
    omega
  | ⟨1, _⟩ =>
    show win7_7.index ⟨(i 0).val / 6000, ht⟩ (1 : Fin 2) * 64 ≤ (i 1).val ∧ (i 1).val < win7_7.index ⟨(i 0).val / 6000, ht⟩ (1 : Fin 2) * 64 + 64
    omega

/-! ## The array after the region -/

set_option maxHeartbeats 4000000 in
/-- The output array after the region's run is `layer3` of the region's input arrays as entered. -/
theorem value7 (c : Dev nD) :
    (dat7 (F := Ideal) V c).arrAt 7 cfg7.N = layer3 (V c (Pipeline.arrRef spec7 0) : Vec Ideal S30000x64 .f32) (V c (Pipeline.arrRef spec7 1) : Vec Ideal S30000x64 .f32) (V c (Pipeline.arrRef spec7 2) : Vec Ideal S30000x32 .f32) (V c (Pipeline.arrRef spec7 3) : Vec Ideal S64x64 .f32) (V c (Pipeline.arrRef spec7 4) : Vec Ideal S64x64 .f32) (V c (Pipeline.arrRef spec7 5) : Vec Ideal S32x64 .f32) (V c (Pipeline.arrRef spec7 6) : Vec Ideal S1x64 .f32) :=
  (dat7 (F := Ideal) V c).arrAt_eq_of_cover 7 (layer3 (V c (Pipeline.arrRef spec7 0) : Vec Ideal S30000x64 .f32) (V c (Pipeline.arrRef spec7 1) : Vec Ideal S30000x64 .f32) (V c (Pipeline.arrRef spec7 2) : Vec Ideal S30000x32 .f32) (V c (Pipeline.arrRef spec7 3) : Vec Ideal S64x64 .f32) (V c (Pipeline.arrRef spec7 4) : Vec Ideal S64x64 .f32) (V c (Pipeline.arrRef spec7 5) : Vec Ideal S32x64 .f32) (V c (Pipeline.arrRef spec7 6) : Vec Ideal S1x64 .f32))
    (fun t _ => flushed7_eq V c t) (cover7)

end Cert.KernelIdeal.Hand

end
-- ==== Proof.KI.Val8.lean ====
import proofs.«123839_j71768903516633_2_alg».proof.Proof.KI.Reg8
import proofs.«123839_j71768903516633_2_alg».proof.Proof.Math.MlpKernel
import Idealize.ShloMosaic.Lib.Pipeline.Value
import Idealize.ShloMosaic.Lib.Tactic

/-! # Region 8: the output array after the region, on the extended reals

Every point of the grid writes back, into its block of rows of the output array, `layer2` of the input blocks at
the point. An entry of `layer2` depends only on its own row of the row-blocked inputs and on the whole of the
others, and a block's row `p` at point `t` is row `64·t + p` of its array, so what point `t` writes is block `t`
of `layer2` of the WHOLE input arrays (`flushed8_eq`). The blocks cover the output array (`cover8`), so the
array ends holding `layer2` of the input arrays as the region found them (`value8`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz8 : (![0, 0] : Fin 2 → Nat) = fun _ => 0 := funext fun a => by fin_cases a <;> rfl

/-! ## What the body leaves is `layer2` of the loaded blocks -/

theorem out8_eq (x0 : Vec Ideal S64x64 .f32) (x1 : Vec Ideal S64x32 .f32) (x2 : Vec Ideal S64x64 .f32) (x3 : Vec Ideal S32x64 .f32) (x4 : Vec Ideal S1x64 .f32) :
    out8_5 (F := Ideal) x0 x1 x2 x3 x4 = layer2 x0 x1 x2 x3 x4 := by
  unfold out8_5
  rw [View.canon_unit_zero hz8]
  simp only [View.ld_unit_zero (S := S64x64) hz8, View.ld_unit_zero (S := S64x32) hz8, View.ld_unit_zero (S := S32x64) hz8, View.ld_unit_zero (S := S1x64) hz8]
  exact Mlp.k8_pay_eq _ _ _ _ _

/-! ## The index maps, decided over the grid -/

/-- The row-blocked windows are at block `t` of their rows at point `t`; every other block index is 0. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-! ## Block reads: an input block's entry is the array's entry at block index × block size + the coordinate -/

theorem blk8_0 (c : Dev nD) (t : Fin cfg8.N) (x : S64x64.Idx) (i : S64x64.Idx)
    (h0 : (i 0).val = win8_0.index t (0 : Fin 2) * 64 + (x 0).val)
    (h1 : (i 1).val = win8_0.index t (1 : Fin 2) * 64 + (x 1).val) :
    (iblk8 V c 0 t : Vec Ideal S64x64 .f32) x = (V c (Pipeline.arrRef spec8 0) : Vec Ideal S64x64 .f32) i := by
  unfold iblk8
  rw [View.read_apply]
  show V c (Pipeline.arrRef spec8 0) _ = V c (Pipeline.arrRef spec8 0) _
  refine congrArg (V c (Pipeline.arrRef spec8 0) : Vec Ideal S64x64 .f32) ?_
  funext a; apply Fin.ext
  match a with
  | ⟨0, _⟩ => show win8_0.index t (0 : Fin 2) * 64 + 1 * (x 0).val = (i 0).val; omega
  | ⟨1, _⟩ => show win8_0.index t (1 : Fin 2) * 64 + 1 * (x 1).val = (i 1).val; omega

theorem blk8_1 (c : Dev nD) (t : Fin cfg8.N) (x : S64x32.Idx) (i : S64x32.Idx)
    (h0 : (i 0).val = win8_1.index t (0 : Fin 2) * 64 + (x 0).val)
    (h1 : (i 1).val = win8_1.index t (1 : Fin 2) * 32 + (x 1).val) :
    (iblk8 V c 1 t : Vec Ideal S64x32 .f32) x = (V c (Pipeline.arrRef spec8 1) : Vec Ideal S64x32 .f32) i := by
  unfold iblk8
  rw [View.read_apply]
  show V c (Pipeline.arrRef spec8 1) _ = V c (Pipeline.arrRef spec8 1) _
  refine congrArg (V c (Pipeline.arrRef spec8 1) : Vec Ideal S64x32 .f32) ?_
  funext a; apply Fin.ext
  match a with
  | ⟨0, _⟩ => show win8_1.index t (0 : Fin 2) * 64 + 1 * (x 0).val = (i 0).val; omega
  | ⟨1, _⟩ => show win8_1.index t (1 : Fin 2) * 32 + 1 * (x 1).val = (i 1).val; omega

theorem blk8_2 (c : Dev nD) (t : Fin cfg8.N) (x : S64x64.Idx) (i : S64x64.Idx)
    (h0 : (i 0).val = win8_2.index t (0 : Fin 2) * 64 + (x 0).val)
    (h1 : (i 1).val = win8_2.index t (1 : Fin 2) * 64 + (x 1).val) :
    (iblk8 V c 2 t : Vec Ideal S64x64 .f32) x = (V c (Pipeline.arrRef spec8 2) : Vec Ideal S64x64 .f32) i := by
  unfold iblk8
  rw [View.read_apply]
  show V c (Pipeline.arrRef spec8 2) _ = V c (Pipeline.arrRef spec8 2) _
  refine congrArg (V c (Pipeline.arrRef spec8 2) : Vec Ideal S64x64 .f32) ?_
  funext a; apply Fin.ext
  match a with
  | ⟨0, _⟩ => show win8_2.index t (0 : Fin 2) * 64 + 1 * (x 0).val = (i 0).val; omega
  | ⟨1, _⟩ => show win8_2.index t (1 : Fin 2) * 64 + 1 * (x 1).val = (i 1).val; omega

theorem blk8_3 (c : Dev nD) (t : Fin cfg8.N) (x : S32x64.Idx) (i : S32x64.Idx)
    (h0 : (i 0).val = win8_3.index t (0 : Fin 2) * 32 + (x 0).val)
    (h1 : (i 1).val = win8_3.index t (1 : Fin 2) * 64 + (x 1).val) :
    (iblk8 V c 3 t : Vec Ideal S32x64 .f32) x = (V c (Pipeline.arrRef spec8 3) : Vec Ideal S32x64 .f32) i := by
  unfold iblk8
  rw [View.read_apply]
  show V c (Pipeline.arrRef spec8 3) _ = V c (Pipeline.arrRef spec8 3) _
  refine congrArg (V c (Pipeline.arrRef spec8 3) : Vec Ideal S32x64 .f32) ?_
  funext a; apply Fin.ext
  match a with
  | ⟨0, _⟩ => show win8_3.index t (0 : Fin 2) * 32 + 1 * (x 0).val = (i 0).val; omega
  | ⟨1, _⟩ => show win8_3.index t (1 : Fin 2) * 64 + 1 * (x 1).val = (i 1).val; omega

theorem blk8_4 (c : Dev nD) (t : Fin cfg8.N) (x : S1x64.Idx) (i : S1x64.Idx)
    (h0 : (i 0).val = win8_4.index t (0 : Fin 2) * 1 + (x 0).val)
    (h1 : (i 1).val = win8_4.index t (1 : Fin 2) * 64 + (x 1).val) :
    (iblk8 V c 4 t : Vec Ideal S1x64 .f32) x = (V c (Pipeline.arrRef spec8 4) : Vec Ideal S1x64 .f32) i := by
  unfold iblk8
  rw [View.read_apply]
  show V c (Pipeline.arrRef spec8 4) _ = V c (Pipeline.arrRef spec8 4) _
  refine congrArg (V c (Pipeline.arrRef spec8 4) : Vec Ideal S1x64 .f32) ?_
  funext a; apply Fin.ext
  match a with
  | ⟨0, _⟩ => show win8_4.index t (0 : Fin 2) * 1 + 1 * (x 0).val = (i 0).val; omega
  | ⟨1, _⟩ => show win8_4.index t (1 : Fin 2) * 64 + 1 * (x 1).val = (i 1).val; omega

/-! ## One entry: `layer2` of the blocks at a block coordinate is `layer2` of the arrays at the array coordinate -/

theorem point8 (A0 : Vec Ideal S64x64 .f32) (A1 : Vec Ideal S64x32 .f32) (A2 : Vec Ideal S64x64 .f32) (A3 : Vec Ideal S32x64 .f32) (A4 : Vec Ideal S1x64 .f32)
    (x0 : Vec Ideal S64x64 .f32) (x1 : Vec Ideal S64x32 .f32) (x2 : Vec Ideal S64x64 .f32) (x3 : Vec Ideal S32x64 .f32) (x4 : Vec Ideal S1x64 .f32)
    (y : S64x64.Idx) (i : S64x64.Idx) (hq : (i 1).val = (y 1).val)
    (h0 : ∀ k : Fin 64, x0 (ix2 (y 0) k) = A0 (ix2 (i 0) k))
    (h1 : ∀ k : Fin 32, x1 (ix2 (y 0) k) = A1 (ix2 (i 0) k))
    (h2 : x2 = A2) (h3 : x3 = A3) (h4 : x4 = A4) :
    layer2 x0 x1 x2 x3 x4 y = layer2 A0 A1 A2 A3 A4 i := by
  subst h2
  subst h3
  subst h4
  calc layer2 x0 x1 x2 x3 x4 y = layer2 x0 x1 x2 x3 x4 (ix2 (y 0) (y 1)) := congrArg _ (eq_ix2 y)
    _ = layer2 A0 A1 x2 x3 x4 (ix2 (i 0) (y 1)) :=
        layer2_rows A0 x0 A1 x1 x2 x3 x4 (y 0) (i 0) (y 1) h0 h1
    _ = layer2 A0 A1 x2 x3 x4 i := congrArg _ (by
        funext a
        match a with
        | ⟨0, _⟩ => rfl
        | ⟨1, _⟩ => exact (Fin.ext hq).symm)

/-! ## What point `t` writes back is block `t` of `layer2` of the input arrays -/

-- stating the equation unfolds the output window's block among the region's 6 windows on its grid of 1: the larger regions need more than the default budget
set_option maxHeartbeats 4000000 in
theorem flushed8_eq (c : Dev nD) (t : Fin cfg8.N) :
    (dat8 (F := Ideal) V c).flushed 5 t = ((cfg8.win 5).blk t).view.read (Elt Ideal)
      (layer2 (V c (Pipeline.arrRef spec8 0) : Vec Ideal S64x64 .f32) (V c (Pipeline.arrRef spec8 1) : Vec Ideal S64x32 .f32) (V c (Pipeline.arrRef spec8 2) : Vec Ideal S64x64 .f32) (V c (Pipeline.arrRef spec8 3) : Vec Ideal S32x64 .f32) (V c (Pipeline.arrRef spec8 4) : Vec Ideal S1x64 .f32)) := by
  show (cfg8.win 5).cut (grid8.coords t) ((dat8 (F := Ideal) V c).after 5 t) = _
  rw [after8_5, out8_eq (iblk8 V c 0 t) (iblk8 V c 1 t) (iblk8 V c 2 t) (iblk8 V c 3 t) (iblk8 V c 4 t)]
  obtain ⟨e0_0, e0_1, e1_0, e1_1, e2_0, e2_1, e3_0, e3_1, e4_0, e4_1, e5_0, e5_1⟩ := idx_facts8 t
  funext y
  show layer2 (iblk8 V c 0 t) (iblk8 V c 1 t) (iblk8 V c 2 t) (iblk8 V c 3 t) (iblk8 V c 4 t) y
    = layer2 (V c (Pipeline.arrRef spec8 0) : Vec Ideal S64x64 .f32) (V c (Pipeline.arrRef spec8 1) : Vec Ideal S64x32 .f32) (V c (Pipeline.arrRef spec8 2) : Vec Ideal S64x64 .f32) (V c (Pipeline.arrRef spec8 3) : Vec Ideal S32x64 .f32) (V c (Pipeline.arrRef spec8 4) : Vec Ideal S1x64 .f32) (((cfg8.win 5).blk t).view.emb y)
  refine point8 (V c (Pipeline.arrRef spec8 0) : Vec Ideal S64x64 .f32) (V c (Pipeline.arrRef spec8 1) : Vec Ideal S64x32 .f32) (V c (Pipeline.arrRef spec8 2) : Vec Ideal S64x64 .f32) (V c (Pipeline.arrRef spec8 3) : Vec Ideal S32x64 .f32) (V c (Pipeline.arrRef spec8 4) : Vec Ideal S1x64 .f32) (iblk8 V c 0 t) (iblk8 V c 1 t) (iblk8 V c 2 t) (iblk8 V c 3 t) (iblk8 V c 4 t) y _ ?_ ?_ ?_ ?_ ?_ ?_
  · show win8_5.index t (1 : Fin 2) * 64 + 1 * (y 1).val = (y 1).val
    omega
  · intro k
    refine blk8_0 V c t _ _ ?_ ?_
    · show win8_5.index t (0 : Fin 2) * 64 + 1 * (y 0).val = win8_0.index t (0 : Fin 2) * 64 + (y 0).val
      omega
    · show k.val = win8_0.index t (1 : Fin 2) * 64 + k.val
      omega
  · intro k
    refine blk8_1 V c t _ _ ?_ ?_
    · show win8_5.index t (0 : Fin 2) * 64 + 1 * (y 0).val = win8_1.index t (0 : Fin 2) * 64 + (y 0).val
      omega
    · show k.val = win8_1.index t (1 : Fin 2) * 32 + k.val
      omega
  · funext x
    exact blk8_2 V c t x x (by omega) (by omega)
  · funext x
    exact blk8_3 V c t x x (by omega) (by omega)
  · funext x
    exact blk8_4 V c t x x (by omega) (by omega)

/-! ## The blocks cover the output array -/

/-- An index of the array is in point `t`'s block iff each coordinate is in the block's range on its axis. -/
theorem mem_blk8 (t : Fin cfg8.N) (i : S64x64.Idx) :
    i ∈ ((cfg8.win 5).blk t).view.set ↔ ∀ a : Fin 2, win8_5.index t a * S64x64.size a ≤ (i a).val ∧ (i a).val < win8_5.index t a * S64x64.size a + S64x64.size a := by
  show i ∈ ((View.whole main_v111).slice (win8_5.rect t)).set ↔ _
  rw [View.set_slice_whole, Rect.mem_set_unit]
  exact Iff.rfl

/-- Row `r` of the array is in the block of point `r / 64`, which is written back. -/
theorem cover8 (i : S64x64.Idx) :
    ∃ t : Fin cfg8.N, (cfg8.win 5).flush t = true ∧ i ∈ ((cfg8.win 5).blk t).view.set := by
  have hi0 : (i 0).val < 64 := (i 0).isLt
  have hi1 : (i 1).val < 64 := (i 1).isLt
  have hN : cfg8.N = 1 := N_8
  have ht : (i 0).val / 64 < cfg8.N := by rw [hN]; omega
  obtain ⟨e0_0, e0_1, e1_0, e1_1, e2_0, e2_1, e3_0, e3_1, e4_0, e4_1, e5_0, e5_1⟩ := idx_facts8 ⟨(i 0).val / 64, ht⟩
  have hv : (⟨(i 0).val / 64, ht⟩ : Fin cfg8.N).val = (i 0).val / 64 := rfl
  refine ⟨⟨(i 0).val / 64, ht⟩, flush8_5 _, ?_⟩
  rw [mem_blk8]
  intro a
  match a with
  | ⟨0, _⟩ =>
    show win8_5.index ⟨(i 0).val / 64, ht⟩ (0 : Fin 2) * 64 ≤ (i 0).val ∧ (i 0).val < win8_5.index ⟨(i 0).val / 64, ht⟩ (0 : Fin 2) * 64 + 64
    omega
  | ⟨1, _⟩ =>
    show win8_5.index ⟨(i 0).val / 64, ht⟩ (1 : Fin 2) * 64 ≤ (i 1).val ∧ (i 1).val < win8_5.index ⟨(i 0).val / 64, ht⟩ (1 : Fin 2) * 64 + 64
    omega

/-! ## The array after the region -/

set_option maxHeartbeats 4000000 in
/-- The output array after the region's run is `layer2` of the region's input arrays as entered. -/
theorem value8 (c : Dev nD) :
    (dat8 (F := Ideal) V c).arrAt 5 cfg8.N = layer2 (V c (Pipeline.arrRef spec8 0) : Vec Ideal S64x64 .f32) (V c (Pipeline.arrRef spec8 1) : Vec Ideal S64x32 .f32) (V c (Pipeline.arrRef spec8 2) : Vec Ideal S64x64 .f32) (V c (Pipeline.arrRef spec8 3) : Vec Ideal S32x64 .f32) (V c (Pipeline.arrRef spec8 4) : Vec Ideal S1x64 .f32) :=
  (dat8 (F := Ideal) V c).arrAt_eq_of_cover 5 (layer2 (V c (Pipeline.arrRef spec8 0) : Vec Ideal S64x64 .f32) (V c (Pipeline.arrRef spec8 1) : Vec Ideal S64x32 .f32) (V c (Pipeline.arrRef spec8 2) : Vec Ideal S64x64 .f32) (V c (Pipeline.arrRef spec8 3) : Vec Ideal S32x64 .f32) (V c (Pipeline.arrRef spec8 4) : Vec Ideal S1x64 .f32))
    (fun t _ => flushed8_eq V c t) (cover8)

end Cert.KernelIdeal.Hand

end
-- ==== Proof.KI.Val9.lean ====
import proofs.«123839_j71768903516633_2_alg».proof.Proof.KI.Reg9
import proofs.«123839_j71768903516633_2_alg».proof.Proof.Math.MlpKernel
import Idealize.ShloMosaic.Lib.Pipeline.Value
import Idealize.ShloMosaic.Lib.Tactic

/-! # Region 9: the output array after the region, on the extended reals

Every point of the grid writes back, into its block of rows of the output array, `layer4` of the input blocks at
the point. An entry of `layer4` depends only on its own row of the row-blocked inputs and on the whole of the
others, and a block's row `p` at point `t` is row `6000·t + p` of its array, so what point `t` writes is block `t`
of `layer4` of the WHOLE input arrays (`flushed9_eq`). The blocks cover the output array (`cover9`), so the
array ends holding `layer4` of the input arrays as the region found them (`value9`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz9 : (![0, 0] : Fin 2 → Nat) = fun _ => 0 := funext fun a => by fin_cases a <;> rfl

/-! ## What the body leaves is `layer4` of the loaded blocks -/

theorem out9_eq (x0 : Vec Ideal S6000x64 .f32) (x1 : Vec Ideal S6000x64 .f32) (x2 : Vec Ideal S6000x64 .f32) (x3 : Vec Ideal S6000x64 .f32) (x4 : Vec Ideal S64x64 .f32) (x5 : Vec Ideal S64x64 .f32) (x6 : Vec Ideal S64x64 .f32) (x7 : Vec Ideal S64x64 .f32) (x8 : Vec Ideal S1x64 .f32) :
    out9_9 (F := Ideal) x0 x1 x2 x3 x4 x5 x6 x7 x8 = layer4 x0 x1 x2 x3 x4 x5 x6 x7 x8 := by
  unfold out9_9
  rw [View.canon_unit_zero hz9]
  simp only [View.ld_unit_zero (S := S6000x64) hz9, View.ld_unit_zero (S := S64x64) hz9, View.ld_unit_zero (S := S1x64) hz9]
  exact Mlp.k9_pay_eq _ _ _ _ _ _ _ _ _

/-! ## The index maps, decided over the grid -/

/-- The row-blocked windows are at block `t` of their rows at point `t`; every other block index is 0. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = t.val ∧ win9_9.index t (1 : Fin 2) = 0 :=
  (by decide +kernel : ∀ t : Fin grid9.N, _)

/-! ## Block reads: an input block's entry is the array's entry at block index × block size + the coordinate -/

theorem blk9_0 (c : Dev nD) (t : Fin cfg9.N) (x : S6000x64.Idx) (i : S300000x64.Idx)
    (h0 : (i 0).val = win9_0.index t (0 : Fin 2) * 6000 + (x 0).val)
    (h1 : (i 1).val = win9_0.index t (1 : Fin 2) * 64 + (x 1).val) :
    (iblk9 V c 0 t : Vec Ideal S6000x64 .f32) x = (V c (Pipeline.arrRef spec9 0) : Vec Ideal S300000x64 .f32) i := by
  unfold iblk9
  rw [View.read_apply]
  show V c (Pipeline.arrRef spec9 0) _ = V c (Pipeline.arrRef spec9 0) _
  refine congrArg (V c (Pipeline.arrRef spec9 0) : Vec Ideal S300000x64 .f32) ?_
  funext a; apply Fin.ext
  match a with
  | ⟨0, _⟩ => show win9_0.index t (0 : Fin 2) * 6000 + 1 * (x 0).val = (i 0).val; omega
  | ⟨1, _⟩ => show win9_0.index t (1 : Fin 2) * 64 + 1 * (x 1).val = (i 1).val; omega

theorem blk9_1 (c : Dev nD) (t : Fin cfg9.N) (x : S6000x64.Idx) (i : S300000x64.Idx)
    (h0 : (i 0).val = win9_1.index t (0 : Fin 2) * 6000 + (x 0).val)
    (h1 : (i 1).val = win9_1.index t (1 : Fin 2) * 64 + (x 1).val) :
    (iblk9 V c 1 t : Vec Ideal S6000x64 .f32) x = (V c (Pipeline.arrRef spec9 1) : Vec Ideal S300000x64 .f32) i := by
  unfold iblk9
  rw [View.read_apply]
  show V c (Pipeline.arrRef spec9 1) _ = V c (Pipeline.arrRef spec9 1) _
  refine congrArg (V c (Pipeline.arrRef spec9 1) : Vec Ideal S300000x64 .f32) ?_
  funext a; apply Fin.ext
  match a with
  | ⟨0, _⟩ => show win9_1.index t (0 : Fin 2) * 6000 + 1 * (x 0).val = (i 0).val; omega
  | ⟨1, _⟩ => show win9_1.index t (1 : Fin 2) * 64 + 1 * (x 1).val = (i 1).val; omega

theorem blk9_2 (c : Dev nD) (t : Fin cfg9.N) (x : S6000x64.Idx) (i : S300000x64.Idx)
    (h0 : (i 0).val = win9_2.index t (0 : Fin 2) * 6000 + (x 0).val)
    (h1 : (i 1).val = win9_2.index t (1 : Fin 2) * 64 + (x 1).val) :
    (iblk9 V c 2 t : Vec Ideal S6000x64 .f32) x = (V c (Pipeline.arrRef spec9 2) : Vec Ideal S300000x64 .f32) i := by
  unfold iblk9
  rw [View.read_apply]
  show V c (Pipeline.arrRef spec9 2) _ = V c (Pipeline.arrRef spec9 2) _
  refine congrArg (V c (Pipeline.arrRef spec9 2) : Vec Ideal S300000x64 .f32) ?_
  funext a; apply Fin.ext
  match a with
  | ⟨0, _⟩ => show win9_2.index t (0 : Fin 2) * 6000 + 1 * (x 0).val = (i 0).val; omega
  | ⟨1, _⟩ => show win9_2.index t (1 : Fin 2) * 64 + 1 * (x 1).val = (i 1).val; omega

theorem blk9_3 (c : Dev nD) (t : Fin cfg9.N) (x : S6000x64.Idx) (i : S300000x64.Idx)
    (h0 : (i 0).val = win9_3.index t (0 : Fin 2) * 6000 + (x 0).val)
    (h1 : (i 1).val = win9_3.index t (1 : Fin 2) * 64 + (x 1).val) :
    (iblk9 V c 3 t : Vec Ideal S6000x64 .f32) x = (V c (Pipeline.arrRef spec9 3) : Vec Ideal S300000x64 .f32) i := by
  unfold iblk9
  rw [View.read_apply]
  show V c (Pipeline.arrRef spec9 3) _ = V c (Pipeline.arrRef spec9 3) _
  refine congrArg (V c (Pipeline.arrRef spec9 3) : Vec Ideal S300000x64 .f32) ?_
  funext a; apply Fin.ext
  match a with
  | ⟨0, _⟩ => show win9_3.index t (0 : Fin 2) * 6000 + 1 * (x 0).val = (i 0).val; omega
  | ⟨1, _⟩ => show win9_3.index t (1 : Fin 2) * 64 + 1 * (x 1).val = (i 1).val; omega

theorem blk9_4 (c : Dev nD) (t : Fin cfg9.N) (x : S64x64.Idx) (i : S64x64.Idx)
    (h0 : (i 0).val = win9_4.index t (0 : Fin 2) * 64 + (x 0).val)
    (h1 : (i 1).val = win9_4.index t (1 : Fin 2) * 64 + (x 1).val) :
    (iblk9 V c 4 t : Vec Ideal S64x64 .f32) x = (V c (Pipeline.arrRef spec9 4) : Vec Ideal S64x64 .f32) i := by
  unfold iblk9
  rw [View.read_apply]
  show V c (Pipeline.arrRef spec9 4) _ = V c (Pipeline.arrRef spec9 4) _
  refine congrArg (V c (Pipeline.arrRef spec9 4) : Vec Ideal S64x64 .f32) ?_
  funext a; apply Fin.ext
  match a with
  | ⟨0, _⟩ => show win9_4.index t (0 : Fin 2) * 64 + 1 * (x 0).val = (i 0).val; omega
  | ⟨1, _⟩ => show win9_4.index t (1 : Fin 2) * 64 + 1 * (x 1).val = (i 1).val; omega

theorem blk9_5 (c : Dev nD) (t : Fin cfg9.N) (x : S64x64.Idx) (i : S64x64.Idx)
    (h0 : (i 0).val = win9_5.index t (0 : Fin 2) * 64 + (x 0).val)
    (h1 : (i 1).val = win9_5.index t (1 : Fin 2) * 64 + (x 1).val) :
    (iblk9 V c 5 t : Vec Ideal S64x64 .f32) x = (V c (Pipeline.arrRef spec9 5) : Vec Ideal S64x64 .f32) i := by
  unfold iblk9
  rw [View.read_apply]
  show V c (Pipeline.arrRef spec9 5) _ = V c (Pipeline.arrRef spec9 5) _
  refine congrArg (V c (Pipeline.arrRef spec9 5) : Vec Ideal S64x64 .f32) ?_
  funext a; apply Fin.ext
  match a with
  | ⟨0, _⟩ => show win9_5.index t (0 : Fin 2) * 64 + 1 * (x 0).val = (i 0).val; omega
  | ⟨1, _⟩ => show win9_5.index t (1 : Fin 2) * 64 + 1 * (x 1).val = (i 1).val; omega

theorem blk9_6 (c : Dev nD) (t : Fin cfg9.N) (x : S64x64.Idx) (i : S64x64.Idx)
    (h0 : (i 0).val = win9_6.index t (0 : Fin 2) * 64 + (x 0).val)
    (h1 : (i 1).val = win9_6.index t (1 : Fin 2) * 64 + (x 1).val) :
    (iblk9 V c 6 t : Vec Ideal S64x64 .f32) x = (V c (Pipeline.arrRef spec9 6) : Vec Ideal S64x64 .f32) i := by
  unfold iblk9
  rw [View.read_apply]
  show V c (Pipeline.arrRef spec9 6) _ = V c (Pipeline.arrRef spec9 6) _
  refine congrArg (V c (Pipeline.arrRef spec9 6) : Vec Ideal S64x64 .f32) ?_
  funext a; apply Fin.ext
  match a with
  | ⟨0, _⟩ => show win9_6.index t (0 : Fin 2) * 64 + 1 * (x 0).val = (i 0).val; omega
  | ⟨1, _⟩ => show win9_6.index t (1 : Fin 2) * 64 + 1 * (x 1).val = (i 1).val; omega

theorem blk9_7 (c : Dev nD) (t : Fin cfg9.N) (x : S64x64.Idx) (i : S64x64.Idx)
    (h0 : (i 0).val = win9_7.index t (0 : Fin 2) * 64 + (x 0).val)
    (h1 : (i 1).val = win9_7.index t (1 : Fin 2) * 64 + (x 1).val) :
    (iblk9 V c 7 t : Vec Ideal S64x64 .f32) x = (V c (Pipeline.arrRef spec9 7) : Vec Ideal S64x64 .f32) i := by
  unfold iblk9
  rw [View.read_apply]
  show V c (Pipeline.arrRef spec9 7) _ = V c (Pipeline.arrRef spec9 7) _
  refine congrArg (V c (Pipeline.arrRef spec9 7) : Vec Ideal S64x64 .f32) ?_
  funext a; apply Fin.ext
  match a with
  | ⟨0, _⟩ => show win9_7.index t (0 : Fin 2) * 64 + 1 * (x 0).val = (i 0).val; omega
  | ⟨1, _⟩ => show win9_7.index t (1 : Fin 2) * 64 + 1 * (x 1).val = (i 1).val; omega

theorem blk9_8 (c : Dev nD) (t : Fin cfg9.N) (x : S1x64.Idx) (i : S1x64.Idx)
    (h0 : (i 0).val = win9_8.index t (0 : Fin 2) * 1 + (x 0).val)
    (h1 : (i 1).val = win9_8.index t (1 : Fin 2) * 64 + (x 1).val) :
    (iblk9 V c 8 t : Vec Ideal S1x64 .f32) x = (V c (Pipeline.arrRef spec9 8) : Vec Ideal S1x64 .f32) i := by
  unfold iblk9
  rw [View.read_apply]
  show V c (Pipeline.arrRef spec9 8) _ = V c (Pipeline.arrRef spec9 8) _
  refine congrArg (V c (Pipeline.arrRef spec9 8) : Vec Ideal S1x64 .f32) ?_
  funext a; apply Fin.ext
  match a with
  | ⟨0, _⟩ => show win9_8.index t (0 : Fin 2) * 1 + 1 * (x 0).val = (i 0).val; omega
  | ⟨1, _⟩ => show win9_8.index t (1 : Fin 2) * 64 + 1 * (x 1).val = (i 1).val; omega

/-! ## One entry: `layer4` of the blocks at a block coordinate is `layer4` of the arrays at the array coordinate -/

theorem point9 (A0 : Vec Ideal S300000x64 .f32) (A1 : Vec Ideal S300000x64 .f32) (A2 : Vec Ideal S300000x64 .f32) (A3 : Vec Ideal S300000x64 .f32) (A4 : Vec Ideal S64x64 .f32) (A5 : Vec Ideal S64x64 .f32) (A6 : Vec Ideal S64x64 .f32) (A7 : Vec Ideal S64x64 .f32) (A8 : Vec Ideal S1x64 .f32)
    (x0 : Vec Ideal S6000x64 .f32) (x1 : Vec Ideal S6000x64 .f32) (x2 : Vec Ideal S6000x64 .f32) (x3 : Vec Ideal S6000x64 .f32) (x4 : Vec Ideal S64x64 .f32) (x5 : Vec Ideal S64x64 .f32) (x6 : Vec Ideal S64x64 .f32) (x7 : Vec Ideal S64x64 .f32) (x8 : Vec Ideal S1x64 .f32)
    (y : S6000x64.Idx) (i : S300000x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : ∀ k : Fin 64, x2 (ix2 (y 0) k) = A2 (ix2 (i 0) k))
    (h3 : ∀ k : Fin 64, x3 (ix2 (y 0) k) = A3 (ix2 (i 0) k))
    (h4 : x4 = A4) (h5 : x5 = A5) (h6 : x6 = A6) (h7 : x7 = A7) (h8 : x8 = A8) :
    layer4 x0 x1 x2 x3 x4 x5 x6 x7 x8 y = layer4 A0 A1 A2 A3 A4 A5 A6 A7 A8 i := by
  subst h4
  subst h5
  subst h6
  subst h7
  subst h8
  calc layer4 x0 x1 x2 x3 x4 x5 x6 x7 x8 y = layer4 x0 x1 x2 x3 x4 x5 x6 x7 x8 (ix2 (y 0) (y 1)) := congrArg _ (eq_ix2 y)
    _ = layer4 A0 A1 A2 A3 x4 x5 x6 x7 x8 (ix2 (i 0) (y 1)) :=
        layer4_rows A0 x0 A1 x1 A2 x2 A3 x3 x4 x5 x6 x7 x8 (y 0) (i 0) (y 1) h0 h1 h2 h3
    _ = layer4 A0 A1 A2 A3 x4 x5 x6 x7 x8 i := congrArg _ (by
        funext a
        match a with
        | ⟨0, _⟩ => rfl
        | ⟨1, _⟩ => exact (Fin.ext hq).symm)

/-! ## What point `t` writes back is block `t` of `layer4` of the input arrays -/

-- stating the equation unfolds the output window's block among the region's 10 windows on its grid of 50: the larger regions need more than the default budget
set_option maxHeartbeats 4000000 in
theorem flushed9_eq (c : Dev nD) (t : Fin cfg9.N) :
    (dat9 (F := Ideal) V c).flushed 9 t = ((cfg9.win 9).blk t).view.read (Elt Ideal)
      (layer4 (V c (Pipeline.arrRef spec9 0) : Vec Ideal S300000x64 .f32) (V c (Pipeline.arrRef spec9 1) : Vec Ideal S300000x64 .f32) (V c (Pipeline.arrRef spec9 2) : Vec Ideal S300000x64 .f32) (V c (Pipeline.arrRef spec9 3) : Vec Ideal S300000x64 .f32) (V c (Pipeline.arrRef spec9 4) : Vec Ideal S64x64 .f32) (V c (Pipeline.arrRef spec9 5) : Vec Ideal S64x64 .f32) (V c (Pipeline.arrRef spec9 6) : Vec Ideal S64x64 .f32) (V c (Pipeline.arrRef spec9 7) : Vec Ideal S64x64 .f32) (V c (Pipeline.arrRef spec9 8) : Vec Ideal S1x64 .f32)) := by
  show (cfg9.win 9).cut (grid9.coords t) ((dat9 (F := Ideal) V c).after 9 t) = _
  rw [after9_9, out9_eq (iblk9 V c 0 t) (iblk9 V c 1 t) (iblk9 V c 2 t) (iblk9 V c 3 t) (iblk9 V c 4 t) (iblk9 V c 5 t) (iblk9 V c 6 t) (iblk9 V c 7 t) (iblk9 V c 8 t)]
  obtain ⟨e0_0, e0_1, e1_0, e1_1, e2_0, e2_1, e3_0, e3_1, e4_0, e4_1, e5_0, e5_1, e6_0, e6_1, e7_0, e7_1, e8_0, e8_1, e9_0, e9_1⟩ := idx_facts9 t
  funext y
  show layer4 (iblk9 V c 0 t) (iblk9 V c 1 t) (iblk9 V c 2 t) (iblk9 V c 3 t) (iblk9 V c 4 t) (iblk9 V c 5 t) (iblk9 V c 6 t) (iblk9 V c 7 t) (iblk9 V c 8 t) y
    = layer4 (V c (Pipeline.arrRef spec9 0) : Vec Ideal S300000x64 .f32) (V c (Pipeline.arrRef spec9 1) : Vec Ideal S300000x64 .f32) (V c (Pipeline.arrRef spec9 2) : Vec Ideal S300000x64 .f32) (V c (Pipeline.arrRef spec9 3) : Vec Ideal S300000x64 .f32) (V c (Pipeline.arrRef spec9 4) : Vec Ideal S64x64 .f32) (V c (Pipeline.arrRef spec9 5) : Vec Ideal S64x64 .f32) (V c (Pipeline.arrRef spec9 6) : Vec Ideal S64x64 .f32) (V c (Pipeline.arrRef spec9 7) : Vec Ideal S64x64 .f32) (V c (Pipeline.arrRef spec9 8) : Vec Ideal S1x64 .f32) (((cfg9.win 9).blk t).view.emb y)
  refine point9 (V c (Pipeline.arrRef spec9 0) : Vec Ideal S300000x64 .f32) (V c (Pipeline.arrRef spec9 1) : Vec Ideal S300000x64 .f32) (V c (Pipeline.arrRef spec9 2) : Vec Ideal S300000x64 .f32) (V c (Pipeline.arrRef spec9 3) : Vec Ideal S300000x64 .f32) (V c (Pipeline.arrRef spec9 4) : Vec Ideal S64x64 .f32) (V c (Pipeline.arrRef spec9 5) : Vec Ideal S64x64 .f32) (V c (Pipeline.arrRef spec9 6) : Vec Ideal S64x64 .f32) (V c (Pipeline.arrRef spec9 7) : Vec Ideal S64x64 .f32) (V c (Pipeline.arrRef spec9 8) : Vec Ideal S1x64 .f32) (iblk9 V c 0 t) (iblk9 V c 1 t) (iblk9 V c 2 t) (iblk9 V c 3 t) (iblk9 V c 4 t) (iblk9 V c 5 t) (iblk9 V c 6 t) (iblk9 V c 7 t) (iblk9 V c 8 t) y _ ?_ ?_ ?_ ?_ ?_ ?_ ?_ ?_ ?_ ?_
  · show win9_9.index t (1 : Fin 2) * 64 + 1 * (y 1).val = (y 1).val
    omega
  · intro k
    refine blk9_0 V c t _ _ ?_ ?_
    · show win9_9.index t (0 : Fin 2) * 6000 + 1 * (y 0).val = win9_0.index t (0 : Fin 2) * 6000 + (y 0).val
      omega
    · show k.val = win9_0.index t (1 : Fin 2) * 64 + k.val
      omega
  · intro k
    refine blk9_1 V c t _ _ ?_ ?_
    · show win9_9.index t (0 : Fin 2) * 6000 + 1 * (y 0).val = win9_1.index t (0 : Fin 2) * 6000 + (y 0).val
      omega
    · show k.val = win9_1.index t (1 : Fin 2) * 64 + k.val
      omega
  · intro k
    refine blk9_2 V c t _ _ ?_ ?_
    · show win9_9.index t (0 : Fin 2) * 6000 + 1 * (y 0).val = win9_2.index t (0 : Fin 2) * 6000 + (y 0).val
      omega
    · show k.val = win9_2.index t (1 : Fin 2) * 64 + k.val
      omega
  · intro k
    refine blk9_3 V c t _ _ ?_ ?_
    · show win9_9.index t (0 : Fin 2) * 6000 + 1 * (y 0).val = win9_3.index t (0 : Fin 2) * 6000 + (y 0).val
      omega
    · show k.val = win9_3.index t (1 : Fin 2) * 64 + k.val
      omega
  · funext x
    exact blk9_4 V c t x x (by omega) (by omega)
  · funext x
    exact blk9_5 V c t x x (by omega) (by omega)
  · funext x
    exact blk9_6 V c t x x (by omega) (by omega)
  · funext x
    exact blk9_7 V c t x x (by omega) (by omega)
  · funext x
    exact blk9_8 V c t x x (by omega) (by omega)

/-! ## The blocks cover the output array -/

/-- An index of the array is in point `t`'s block iff each coordinate is in the block's range on its axis. -/
theorem mem_blk9 (t : Fin cfg9.N) (i : S300000x64.Idx) :
    i ∈ ((cfg9.win 9).blk t).view.set ↔ ∀ a : Fin 2, win9_9.index t a * S6000x64.size a ≤ (i a).val ∧ (i a).val < win9_9.index t a * S6000x64.size a + S6000x64.size a := by
  show i ∈ ((View.whole main_v145).slice (win9_9.rect t)).set ↔ _
  rw [View.set_slice_whole, Rect.mem_set_unit]
  exact Iff.rfl

/-- Row `r` of the array is in the block of point `r / 6000`, which is written back. -/
theorem cover9 (i : S300000x64.Idx) :
    ∃ t : Fin cfg9.N, (cfg9.win 9).flush t = true ∧ i ∈ ((cfg9.win 9).blk t).view.set := by
  have hi0 : (i 0).val < 300000 := (i 0).isLt
  have hi1 : (i 1).val < 64 := (i 1).isLt
  have hN : cfg9.N = 50 := N_9
  have ht : (i 0).val / 6000 < cfg9.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx_facts9 ⟨(i 0).val / 6000, ht⟩
  have hv : (⟨(i 0).val / 6000, ht⟩ : Fin cfg9.N).val = (i 0).val / 6000 := rfl
  refine ⟨⟨(i 0).val / 6000, ht⟩, flush9_9 _, ?_⟩
  rw [mem_blk9]
  intro a
  match a with
  | ⟨0, _⟩ =>
    show win9_9.index ⟨(i 0).val / 6000, ht⟩ (0 : Fin 2) * 6000 ≤ (i 0).val ∧ (i 0).val < win9_9.index ⟨(i 0).val / 6000, ht⟩ (0 : Fin 2) * 6000 + 6000
    omega
  | ⟨1, _⟩ =>
    show win9_9.index ⟨(i 0).val / 6000, ht⟩ (1 : Fin 2) * 64 ≤ (i 1).val ∧ (i 1).val < win9_9.index ⟨(i 0).val / 6000, ht⟩ (1 : Fin 2) * 64 + 64
    omega

/-! ## The array after the region -/

set_option maxHeartbeats 4000000 in
/-- The output array after the region's run is `layer4` of the region's input arrays as entered. -/
theorem value9 (c : Dev nD) :
    (dat9 (F := Ideal) V c).arrAt 9 cfg9.N = layer4 (V c (Pipeline.arrRef spec9 0) : Vec Ideal S300000x64 .f32) (V c (Pipeline.arrRef spec9 1) : Vec Ideal S300000x64 .f32) (V c (Pipeline.arrRef spec9 2) : Vec Ideal S300000x64 .f32) (V c (Pipeline.arrRef spec9 3) : Vec Ideal S300000x64 .f32) (V c (Pipeline.arrRef spec9 4) : Vec Ideal S64x64 .f32) (V c (Pipeline.arrRef spec9 5) : Vec Ideal S64x64 .f32) (V c (Pipeline.arrRef spec9 6) : Vec Ideal S64x64 .f32) (V c (Pipeline.arrRef spec9 7) : Vec Ideal S64x64 .f32) (V c (Pipeline.arrRef spec9 8) : Vec Ideal S1x64 .f32) :=
  (dat9 (F := Ideal) V c).arrAt_eq_of_cover 9 (layer4 (V c (Pipeline.arrRef spec9 0) : Vec Ideal S300000x64 .f32) (V c (Pipeline.arrRef spec9 1) : Vec Ideal S300000x64 .f32) (V c (Pipeline.arrRef spec9 2) : Vec Ideal S300000x64 .f32) (V c (Pipeline.arrRef spec9 3) : Vec Ideal S300000x64 .f32) (V c (Pipeline.arrRef spec9 4) : Vec Ideal S64x64 .f32) (V c (Pipeline.arrRef spec9 5) : Vec Ideal S64x64 .f32) (V c (Pipeline.arrRef spec9 6) : Vec Ideal S64x64 .f32) (V c (Pipeline.arrRef spec9 7) : Vec Ideal S64x64 .f32) (V c (Pipeline.arrRef spec9 8) : Vec Ideal S1x64 .f32))
    (fun t _ => flushed9_eq V c t) (cover9)

end Cert.KernelIdeal.Hand

end
-- ==== Proof.KI.Val10.lean ====
import proofs.«123839_j71768903516633_2_alg».proof.Proof.KI.Reg10
import proofs.«123839_j71768903516633_2_alg».proof.Proof.Math.MlpKernel
import Idealize.ShloMosaic.Lib.Pipeline.Value
import Idealize.ShloMosaic.Lib.Tactic

/-! # Region 10: the output array after the region, on the extended reals

Every point of the grid writes back, into its block of rows of the output array, `layer3` of the input blocks at
the point. An entry of `layer3` depends only on its own row of the row-blocked inputs and on the whole of the
others, and a block's row `p` at point `t` is row `6000·t + p` of its array, so what point `t` writes is block `t`
of `layer3` of the WHOLE input arrays (`flushed10_eq`). The blocks cover the output array (`cover10`), so the
array ends holding `layer3` of the input arrays as the region found them (`value10`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz10 : (![0, 0] : Fin 2 → Nat) = fun _ => 0 := funext fun a => by fin_cases a <;> rfl

/-! ## What the body leaves is `layer3` of the loaded blocks -/

theorem out10_eq (x0 : Vec Ideal S6000x64 .f32) (x1 : Vec Ideal S6000x64 .f32) (x2 : Vec Ideal S6000x64 .f32) (x3 : Vec Ideal S64x64 .f32) (x4 : Vec Ideal S64x64 .f32) (x5 : Vec Ideal S64x64 .f32) (x6 : Vec Ideal S1x64 .f32) :
    out10_7 (F := Ideal) x0 x1 x2 x3 x4 x5 x6 = layer3 x0 x1 x2 x3 x4 x5 x6 := by
  unfold out10_7
  rw [View.canon_unit_zero hz10]
  simp only [View.ld_unit_zero (S := S6000x64) hz10, View.ld_unit_zero (S := S64x64) hz10, View.ld_unit_zero (S := S1x64) hz10]
  exact Mlp.k10_pay_eq _ _ _ _ _ _ _

/-! ## The index maps, decided over the grid -/

/-- The row-blocked windows are at block `t` of their rows at point `t`; every other block index is 0. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-! ## Block reads: an input block's entry is the array's entry at block index × block size + the coordinate -/

theorem blk10_0 (c : Dev nD) (t : Fin cfg10.N) (x : S6000x64.Idx) (i : S30000x64.Idx)
    (h0 : (i 0).val = win10_0.index t (0 : Fin 2) * 6000 + (x 0).val)
    (h1 : (i 1).val = win10_0.index t (1 : Fin 2) * 64 + (x 1).val) :
    (iblk10 V c 0 t : Vec Ideal S6000x64 .f32) x = (V c (Pipeline.arrRef spec10 0) : Vec Ideal S30000x64 .f32) i := by
  unfold iblk10
  rw [View.read_apply]
  show V c (Pipeline.arrRef spec10 0) _ = V c (Pipeline.arrRef spec10 0) _
  refine congrArg (V c (Pipeline.arrRef spec10 0) : Vec Ideal S30000x64 .f32) ?_
  funext a; apply Fin.ext
  match a with
  | ⟨0, _⟩ => show win10_0.index t (0 : Fin 2) * 6000 + 1 * (x 0).val = (i 0).val; omega
  | ⟨1, _⟩ => show win10_0.index t (1 : Fin 2) * 64 + 1 * (x 1).val = (i 1).val; omega

theorem blk10_1 (c : Dev nD) (t : Fin cfg10.N) (x : S6000x64.Idx) (i : S30000x64.Idx)
    (h0 : (i 0).val = win10_1.index t (0 : Fin 2) * 6000 + (x 0).val)
    (h1 : (i 1).val = win10_1.index t (1 : Fin 2) * 64 + (x 1).val) :
    (iblk10 V c 1 t : Vec Ideal S6000x64 .f32) x = (V c (Pipeline.arrRef spec10 1) : Vec Ideal S30000x64 .f32) i := by
  unfold iblk10
  rw [View.read_apply]
  show V c (Pipeline.arrRef spec10 1) _ = V c (Pipeline.arrRef spec10 1) _
  refine congrArg (V c (Pipeline.arrRef spec10 1) : Vec Ideal S30000x64 .f32) ?_
  funext a; apply Fin.ext
  match a with
  | ⟨0, _⟩ => show win10_1.index t (0 : Fin 2) * 6000 + 1 * (x 0).val = (i 0).val; omega
  | ⟨1, _⟩ => show win10_1.index t (1 : Fin 2) * 64 + 1 * (x 1).val = (i 1).val; omega

theorem blk10_2 (c : Dev nD) (t : Fin cfg10.N) (x : S6000x64.Idx) (i : S30000x64.Idx)
    (h0 : (i 0).val = win10_2.index t (0 : Fin 2) * 6000 + (x 0).val)
    (h1 : (i 1).val = win10_2.index t (1 : Fin 2) * 64 + (x 1).val) :
    (iblk10 V c 2 t : Vec Ideal S6000x64 .f32) x = (V c (Pipeline.arrRef spec10 2) : Vec Ideal S30000x64 .f32) i := by
  unfold iblk10
  rw [View.read_apply]
  show V c (Pipeline.arrRef spec10 2) _ = V c (Pipeline.arrRef spec10 2) _
  refine congrArg (V c (Pipeline.arrRef spec10 2) : Vec Ideal S30000x64 .f32) ?_
  funext a; apply Fin.ext
  match a with
  | ⟨0, _⟩ => show win10_2.index t (0 : Fin 2) * 6000 + 1 * (x 0).val = (i 0).val; omega
  | ⟨1, _⟩ => show win10_2.index t (1 : Fin 2) * 64 + 1 * (x 1).val = (i 1).val; omega

theorem blk10_3 (c : Dev nD) (t : Fin cfg10.N) (x : S64x64.Idx) (i : S64x64.Idx)
    (h0 : (i 0).val = win10_3.index t (0 : Fin 2) * 64 + (x 0).val)
    (h1 : (i 1).val = win10_3.index t (1 : Fin 2) * 64 + (x 1).val) :
    (iblk10 V c 3 t : Vec Ideal S64x64 .f32) x = (V c (Pipeline.arrRef spec10 3) : Vec Ideal S64x64 .f32) i := by
  unfold iblk10
  rw [View.read_apply]
  show V c (Pipeline.arrRef spec10 3) _ = V c (Pipeline.arrRef spec10 3) _
  refine congrArg (V c (Pipeline.arrRef spec10 3) : Vec Ideal S64x64 .f32) ?_
  funext a; apply Fin.ext
  match a with
  | ⟨0, _⟩ => show win10_3.index t (0 : Fin 2) * 64 + 1 * (x 0).val = (i 0).val; omega
  | ⟨1, _⟩ => show win10_3.index t (1 : Fin 2) * 64 + 1 * (x 1).val = (i 1).val; omega

theorem blk10_4 (c : Dev nD) (t : Fin cfg10.N) (x : S64x64.Idx) (i : S64x64.Idx)
    (h0 : (i 0).val = win10_4.index t (0 : Fin 2) * 64 + (x 0).val)
    (h1 : (i 1).val = win10_4.index t (1 : Fin 2) * 64 + (x 1).val) :
    (iblk10 V c 4 t : Vec Ideal S64x64 .f32) x = (V c (Pipeline.arrRef spec10 4) : Vec Ideal S64x64 .f32) i := by
  unfold iblk10
  rw [View.read_apply]
  show V c (Pipeline.arrRef spec10 4) _ = V c (Pipeline.arrRef spec10 4) _
  refine congrArg (V c (Pipeline.arrRef spec10 4) : Vec Ideal S64x64 .f32) ?_
  funext a; apply Fin.ext
  match a with
  | ⟨0, _⟩ => show win10_4.index t (0 : Fin 2) * 64 + 1 * (x 0).val = (i 0).val; omega
  | ⟨1, _⟩ => show win10_4.index t (1 : Fin 2) * 64 + 1 * (x 1).val = (i 1).val; omega

theorem blk10_5 (c : Dev nD) (t : Fin cfg10.N) (x : S64x64.Idx) (i : S64x64.Idx)
    (h0 : (i 0).val = win10_5.index t (0 : Fin 2) * 64 + (x 0).val)
    (h1 : (i 1).val = win10_5.index t (1 : Fin 2) * 64 + (x 1).val) :
    (iblk10 V c 5 t : Vec Ideal S64x64 .f32) x = (V c (Pipeline.arrRef spec10 5) : Vec Ideal S64x64 .f32) i := by
  unfold iblk10
  rw [View.read_apply]
  show V c (Pipeline.arrRef spec10 5) _ = V c (Pipeline.arrRef spec10 5) _
  refine congrArg (V c (Pipeline.arrRef spec10 5) : Vec Ideal S64x64 .f32) ?_
  funext a; apply Fin.ext
  match a with
  | ⟨0, _⟩ => show win10_5.index t (0 : Fin 2) * 64 + 1 * (x 0).val = (i 0).val; omega
  | ⟨1, _⟩ => show win10_5.index t (1 : Fin 2) * 64 + 1 * (x 1).val = (i 1).val; omega

theorem blk10_6 (c : Dev nD) (t : Fin cfg10.N) (x : S1x64.Idx) (i : S1x64.Idx)
    (h0 : (i 0).val = win10_6.index t (0 : Fin 2) * 1 + (x 0).val)
    (h1 : (i 1).val = win10_6.index t (1 : Fin 2) * 64 + (x 1).val) :
    (iblk10 V c 6 t : Vec Ideal S1x64 .f32) x = (V c (Pipeline.arrRef spec10 6) : Vec Ideal S1x64 .f32) i := by
  unfold iblk10
  rw [View.read_apply]
  show V c (Pipeline.arrRef spec10 6) _ = V c (Pipeline.arrRef spec10 6) _
  refine congrArg (V c (Pipeline.arrRef spec10 6) : Vec Ideal S1x64 .f32) ?_
  funext a; apply Fin.ext
  match a with
  | ⟨0, _⟩ => show win10_6.index t (0 : Fin 2) * 1 + 1 * (x 0).val = (i 0).val; omega
  | ⟨1, _⟩ => show win10_6.index t (1 : Fin 2) * 64 + 1 * (x 1).val = (i 1).val; omega

/-! ## One entry: `layer3` of the blocks at a block coordinate is `layer3` of the arrays at the array coordinate -/

theorem point10 (A0 : Vec Ideal S30000x64 .f32) (A1 : Vec Ideal S30000x64 .f32) (A2 : Vec Ideal S30000x64 .f32) (A3 : Vec Ideal S64x64 .f32) (A4 : Vec Ideal S64x64 .f32) (A5 : Vec Ideal S64x64 .f32) (A6 : Vec Ideal S1x64 .f32)
    (x0 : Vec Ideal S6000x64 .f32) (x1 : Vec Ideal S6000x64 .f32) (x2 : Vec Ideal S6000x64 .f32) (x3 : Vec Ideal S64x64 .f32) (x4 : Vec Ideal S64x64 .f32) (x5 : Vec Ideal S64x64 .f32) (x6 : Vec Ideal S1x64 .f32)
    (y : S6000x64.Idx) (i : S30000x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : ∀ k : Fin 64, x2 (ix2 (y 0) k) = A2 (ix2 (i 0) k))
    (h3 : x3 = A3) (h4 : x4 = A4) (h5 : x5 = A5) (h6 : x6 = A6) :
    layer3 x0 x1 x2 x3 x4 x5 x6 y = layer3 A0 A1 A2 A3 A4 A5 A6 i := by
  subst h3
  subst h4
  subst h5
  subst h6
  calc layer3 x0 x1 x2 x3 x4 x5 x6 y = layer3 x0 x1 x2 x3 x4 x5 x6 (ix2 (y 0) (y 1)) := congrArg _ (eq_ix2 y)
    _ = layer3 A0 A1 A2 x3 x4 x5 x6 (ix2 (i 0) (y 1)) :=
        layer3_rows A0 x0 A1 x1 A2 x2 x3 x4 x5 x6 (y 0) (i 0) (y 1) h0 h1 h2
    _ = layer3 A0 A1 A2 x3 x4 x5 x6 i := congrArg _ (by
        funext a
        match a with
        | ⟨0, _⟩ => rfl
        | ⟨1, _⟩ => exact (Fin.ext hq).symm)

/-! ## What point `t` writes back is block `t` of `layer3` of the input arrays -/

-- stating the equation unfolds the output window's block among the region's 8 windows on its grid of 5: the larger regions need more than the default budget
set_option maxHeartbeats 4000000 in
theorem flushed10_eq (c : Dev nD) (t : Fin cfg10.N) :
    (dat10 (F := Ideal) V c).flushed 7 t = ((cfg10.win 7).blk t).view.read (Elt Ideal)
      (layer3 (V c (Pipeline.arrRef spec10 0) : Vec Ideal S30000x64 .f32) (V c (Pipeline.arrRef spec10 1) : Vec Ideal S30000x64 .f32) (V c (Pipeline.arrRef spec10 2) : Vec Ideal S30000x64 .f32) (V c (Pipeline.arrRef spec10 3) : Vec Ideal S64x64 .f32) (V c (Pipeline.arrRef spec10 4) : Vec Ideal S64x64 .f32) (V c (Pipeline.arrRef spec10 5) : Vec Ideal S64x64 .f32) (V c (Pipeline.arrRef spec10 6) : Vec Ideal S1x64 .f32)) := by
  show (cfg10.win 7).cut (grid10.coords t) ((dat10 (F := Ideal) V c).after 7 t) = _
  rw [after10_7, out10_eq (iblk10 V c 0 t) (iblk10 V c 1 t) (iblk10 V c 2 t) (iblk10 V c 3 t) (iblk10 V c 4 t) (iblk10 V c 5 t) (iblk10 V c 6 t)]
  obtain ⟨e0_0, e0_1, e1_0, e1_1, e2_0, e2_1, e3_0, e3_1, e4_0, e4_1, e5_0, e5_1, e6_0, e6_1, e7_0, e7_1⟩ := idx_facts10 t
  funext y
  show layer3 (iblk10 V c 0 t) (iblk10 V c 1 t) (iblk10 V c 2 t) (iblk10 V c 3 t) (iblk10 V c 4 t) (iblk10 V c 5 t) (iblk10 V c 6 t) y
    = layer3 (V c (Pipeline.arrRef spec10 0) : Vec Ideal S30000x64 .f32) (V c (Pipeline.arrRef spec10 1) : Vec Ideal S30000x64 .f32) (V c (Pipeline.arrRef spec10 2) : Vec Ideal S30000x64 .f32) (V c (Pipeline.arrRef spec10 3) : Vec Ideal S64x64 .f32) (V c (Pipeline.arrRef spec10 4) : Vec Ideal S64x64 .f32) (V c (Pipeline.arrRef spec10 5) : Vec Ideal S64x64 .f32) (V c (Pipeline.arrRef spec10 6) : Vec Ideal S1x64 .f32) (((cfg10.win 7).blk t).view.emb y)
  refine point10 (V c (Pipeline.arrRef spec10 0) : Vec Ideal S30000x64 .f32) (V c (Pipeline.arrRef spec10 1) : Vec Ideal S30000x64 .f32) (V c (Pipeline.arrRef spec10 2) : Vec Ideal S30000x64 .f32) (V c (Pipeline.arrRef spec10 3) : Vec Ideal S64x64 .f32) (V c (Pipeline.arrRef spec10 4) : Vec Ideal S64x64 .f32) (V c (Pipeline.arrRef spec10 5) : Vec Ideal S64x64 .f32) (V c (Pipeline.arrRef spec10 6) : Vec Ideal S1x64 .f32) (iblk10 V c 0 t) (iblk10 V c 1 t) (iblk10 V c 2 t) (iblk10 V c 3 t) (iblk10 V c 4 t) (iblk10 V c 5 t) (iblk10 V c 6 t) y _ ?_ ?_ ?_ ?_ ?_ ?_ ?_ ?_
  · show win10_7.index t (1 : Fin 2) * 64 + 1 * (y 1).val = (y 1).val
    omega
  · intro k
    refine blk10_0 V c t _ _ ?_ ?_
    · show win10_7.index t (0 : Fin 2) * 6000 + 1 * (y 0).val = win10_0.index t (0 : Fin 2) * 6000 + (y 0).val
      omega
    · show k.val = win10_0.index t (1 : Fin 2) * 64 + k.val
      omega
  · intro k
    refine blk10_1 V c t _ _ ?_ ?_
    · show win10_7.index t (0 : Fin 2) * 6000 + 1 * (y 0).val = win10_1.index t (0 : Fin 2) * 6000 + (y 0).val
      omega
    · show k.val = win10_1.index t (1 : Fin 2) * 64 + k.val
      omega
  · intro k
    refine blk10_2 V c t _ _ ?_ ?_
    · show win10_7.index t (0 : Fin 2) * 6000 + 1 * (y 0).val = win10_2.index t (0 : Fin 2) * 6000 + (y 0).val
      omega
    · show k.val = win10_2.index t (1 : Fin 2) * 64 + k.val
      omega
  · funext x
    exact blk10_3 V c t x x (by omega) (by omega)
  · funext x
    exact blk10_4 V c t x x (by omega) (by omega)
  · funext x
    exact blk10_5 V c t x x (by omega) (by omega)
  · funext x
    exact blk10_6 V c t x x (by omega) (by omega)

/-! ## The blocks cover the output array -/

/-- An index of the array is in point `t`'s block iff each coordinate is in the block's range on its axis. -/
theorem mem_blk10 (t : Fin cfg10.N) (i : S30000x64.Idx) :
    i ∈ ((cfg10.win 7).blk t).view.set ↔ ∀ a : Fin 2, win10_7.index t a * S6000x64.size a ≤ (i a).val ∧ (i a).val < win10_7.index t a * S6000x64.size a + S6000x64.size a := by
  show i ∈ ((View.whole main_v168).slice (win10_7.rect t)).set ↔ _
  rw [View.set_slice_whole, Rect.mem_set_unit]
  exact Iff.rfl

/-- Row `r` of the array is in the block of point `r / 6000`, which is written back. -/
theorem cover10 (i : S30000x64.Idx) :
    ∃ t : Fin cfg10.N, (cfg10.win 7).flush t = true ∧ i ∈ ((cfg10.win 7).blk t).view.set := by
  have hi0 : (i 0).val < 30000 := (i 0).isLt
  have hi1 : (i 1).val < 64 := (i 1).isLt
  have hN : cfg10.N = 5 := N_10
  have ht : (i 0).val / 6000 < cfg10.N := by rw [hN]; omega
  obtain ⟨e0_0, e0_1, e1_0, e1_1, e2_0, e2_1, e3_0, e3_1, e4_0, e4_1, e5_0, e5_1, e6_0, e6_1, e7_0, e7_1⟩ := idx_facts10 ⟨(i 0).val / 6000, ht⟩
  have hv : (⟨(i 0).val / 6000, ht⟩ : Fin cfg10.N).val = (i 0).val / 6000 := rfl
  refine ⟨⟨(i 0).val / 6000, ht⟩, flush10_7 _, ?_⟩
  rw [mem_blk10]
  intro a
  match a with
  | ⟨0, _⟩ =>
    show win10_7.index ⟨(i 0).val / 6000, ht⟩ (0 : Fin 2) * 6000 ≤ (i 0).val ∧ (i 0).val < win10_7.index ⟨(i 0).val / 6000, ht⟩ (0 : Fin 2) * 6000 + 6000
    omega
  | ⟨1, _⟩ =>
    show win10_7.index ⟨(i 0).val / 6000, ht⟩ (1 : Fin 2) * 64 ≤ (i 1).val ∧ (i 1).val < win10_7.index ⟨(i 0).val / 6000, ht⟩ (1 : Fin 2) * 64 + 64
    omega

/-! ## The array after the region -/

set_option maxHeartbeats 4000000 in
/-- The output array after the region's run is `layer3` of the region's input arrays as entered. -/
theorem value10 (c : Dev nD) :
    (dat10 (F := Ideal) V c).arrAt 7 cfg10.N = layer3 (V c (Pipeline.arrRef spec10 0) : Vec Ideal S30000x64 .f32) (V c (Pipeline.arrRef spec10 1) : Vec Ideal S30000x64 .f32) (V c (Pipeline.arrRef spec10 2) : Vec Ideal S30000x64 .f32) (V c (Pipeline.arrRef spec10 3) : Vec Ideal S64x64 .f32) (V c (Pipeline.arrRef spec10 4) : Vec Ideal S64x64 .f32) (V c (Pipeline.arrRef spec10 5) : Vec Ideal S64x64 .f32) (V c (Pipeline.arrRef spec10 6) : Vec Ideal S1x64 .f32) :=
  (dat10 (F := Ideal) V c).arrAt_eq_of_cover 7 (layer3 (V c (Pipeline.arrRef spec10 0) : Vec Ideal S30000x64 .f32) (V c (Pipeline.arrRef spec10 1) : Vec Ideal S30000x64 .f32) (V c (Pipeline.arrRef spec10 2) : Vec Ideal S30000x64 .f32) (V c (Pipeline.arrRef spec10 3) : Vec Ideal S64x64 .f32) (V c (Pipeline.arrRef spec10 4) : Vec Ideal S64x64 .f32) (V c (Pipeline.arrRef spec10 5) : Vec Ideal S64x64 .f32) (V c (Pipeline.arrRef spec10 6) : Vec Ideal S1x64 .f32))
    (fun t _ => flushed10_eq V c t) (cover10)

end Cert.KernelIdeal.Hand

end
-- ==== Proof.KI.Val11.lean ====
import proofs.«123839_j71768903516633_2_alg».proof.Proof.KI.Reg11
import proofs.«123839_j71768903516633_2_alg».proof.Proof.Math.MlpKernel
import Idealize.ShloMosaic.Lib.Pipeline.Value
import Idealize.ShloMosaic.Lib.Tactic

/-! # Region 11: the output array after the region, on the extended reals

Every point of the grid writes back, into its block of rows of the output array, `layer2` of the input blocks at
the point. An entry of `layer2` depends only on its own row of the row-blocked inputs and on the whole of the
others, and a block's row `p` at point `t` is row `64·t + p` of its array, so what point `t` writes is block `t`
of `layer2` of the WHOLE input arrays (`flushed11_eq`). The blocks cover the output array (`cover11`), so the
array ends holding `layer2` of the input arrays as the region found them (`value11`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz11 : (![0, 0] : Fin 2 → Nat) = fun _ => 0 := funext fun a => by fin_cases a <;> rfl

/-! ## What the body leaves is `layer2` of the loaded blocks -/

theorem out11_eq (x0 : Vec Ideal S64x64 .f32) (x1 : Vec Ideal S64x64 .f32) (x2 : Vec Ideal S64x64 .f32) (x3 : Vec Ideal S64x64 .f32) (x4 : Vec Ideal S1x64 .f32) :
    out11_5 (F := Ideal) x0 x1 x2 x3 x4 = layer2 x0 x1 x2 x3 x4 := by
  unfold out11_5
  rw [View.canon_unit_zero hz11]
  simp only [View.ld_unit_zero (S := S64x64) hz11, View.ld_unit_zero (S := S1x64) hz11]
  exact Mlp.k11_pay_eq _ _ _ _ _

/-! ## The index maps, decided over the grid -/

/-- The row-blocked windows are at block `t` of their rows at point `t`; every other block index is 0. -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-! ## Block reads: an input block's entry is the array's entry at block index × block size + the coordinate -/

theorem blk11_0 (c : Dev nD) (t : Fin cfg11.N) (x : S64x64.Idx) (i : S64x64.Idx)
    (h0 : (i 0).val = win11_0.index t (0 : Fin 2) * 64 + (x 0).val)
    (h1 : (i 1).val = win11_0.index t (1 : Fin 2) * 64 + (x 1).val) :
    (iblk11 V c 0 t : Vec Ideal S64x64 .f32) x = (V c (Pipeline.arrRef spec11 0) : Vec Ideal S64x64 .f32) i := by
  unfold iblk11
  rw [View.read_apply]
  show V c (Pipeline.arrRef spec11 0) _ = V c (Pipeline.arrRef spec11 0) _
  refine congrArg (V c (Pipeline.arrRef spec11 0) : Vec Ideal S64x64 .f32) ?_
  funext a; apply Fin.ext
  match a with
  | ⟨0, _⟩ => show win11_0.index t (0 : Fin 2) * 64 + 1 * (x 0).val = (i 0).val; omega
  | ⟨1, _⟩ => show win11_0.index t (1 : Fin 2) * 64 + 1 * (x 1).val = (i 1).val; omega

theorem blk11_1 (c : Dev nD) (t : Fin cfg11.N) (x : S64x64.Idx) (i : S64x64.Idx)
    (h0 : (i 0).val = win11_1.index t (0 : Fin 2) * 64 + (x 0).val)
    (h1 : (i 1).val = win11_1.index t (1 : Fin 2) * 64 + (x 1).val) :
    (iblk11 V c 1 t : Vec Ideal S64x64 .f32) x = (V c (Pipeline.arrRef spec11 1) : Vec Ideal S64x64 .f32) i := by
  unfold iblk11
  rw [View.read_apply]
  show V c (Pipeline.arrRef spec11 1) _ = V c (Pipeline.arrRef spec11 1) _
  refine congrArg (V c (Pipeline.arrRef spec11 1) : Vec Ideal S64x64 .f32) ?_
  funext a; apply Fin.ext
  match a with
  | ⟨0, _⟩ => show win11_1.index t (0 : Fin 2) * 64 + 1 * (x 0).val = (i 0).val; omega
  | ⟨1, _⟩ => show win11_1.index t (1 : Fin 2) * 64 + 1 * (x 1).val = (i 1).val; omega

theorem blk11_2 (c : Dev nD) (t : Fin cfg11.N) (x : S64x64.Idx) (i : S64x64.Idx)
    (h0 : (i 0).val = win11_2.index t (0 : Fin 2) * 64 + (x 0).val)
    (h1 : (i 1).val = win11_2.index t (1 : Fin 2) * 64 + (x 1).val) :
    (iblk11 V c 2 t : Vec Ideal S64x64 .f32) x = (V c (Pipeline.arrRef spec11 2) : Vec Ideal S64x64 .f32) i := by
  unfold iblk11
  rw [View.read_apply]
  show V c (Pipeline.arrRef spec11 2) _ = V c (Pipeline.arrRef spec11 2) _
  refine congrArg (V c (Pipeline.arrRef spec11 2) : Vec Ideal S64x64 .f32) ?_
  funext a; apply Fin.ext
  match a with
  | ⟨0, _⟩ => show win11_2.index t (0 : Fin 2) * 64 + 1 * (x 0).val = (i 0).val; omega
  | ⟨1, _⟩ => show win11_2.index t (1 : Fin 2) * 64 + 1 * (x 1).val = (i 1).val; omega

theorem blk11_3 (c : Dev nD) (t : Fin cfg11.N) (x : S64x64.Idx) (i : S64x64.Idx)
    (h0 : (i 0).val = win11_3.index t (0 : Fin 2) * 64 + (x 0).val)
    (h1 : (i 1).val = win11_3.index t (1 : Fin 2) * 64 + (x 1).val) :
    (iblk11 V c 3 t : Vec Ideal S64x64 .f32) x = (V c (Pipeline.arrRef spec11 3) : Vec Ideal S64x64 .f32) i := by
  unfold iblk11
  rw [View.read_apply]
  show V c (Pipeline.arrRef spec11 3) _ = V c (Pipeline.arrRef spec11 3) _
  refine congrArg (V c (Pipeline.arrRef spec11 3) : Vec Ideal S64x64 .f32) ?_
  funext a; apply Fin.ext
  match a with
  | ⟨0, _⟩ => show win11_3.index t (0 : Fin 2) * 64 + 1 * (x 0).val = (i 0).val; omega
  | ⟨1, _⟩ => show win11_3.index t (1 : Fin 2) * 64 + 1 * (x 1).val = (i 1).val; omega

theorem blk11_4 (c : Dev nD) (t : Fin cfg11.N) (x : S1x64.Idx) (i : S1x64.Idx)
    (h0 : (i 0).val = win11_4.index t (0 : Fin 2) * 1 + (x 0).val)
    (h1 : (i 1).val = win11_4.index t (1 : Fin 2) * 64 + (x 1).val) :
    (iblk11 V c 4 t : Vec Ideal S1x64 .f32) x = (V c (Pipeline.arrRef spec11 4) : Vec Ideal S1x64 .f32) i := by
  unfold iblk11
  rw [View.read_apply]
  show V c (Pipeline.arrRef spec11 4) _ = V c (Pipeline.arrRef spec11 4) _
  refine congrArg (V c (Pipeline.arrRef spec11 4) : Vec Ideal S1x64 .f32) ?_
  funext a; apply Fin.ext
  match a with
  | ⟨0, _⟩ => show win11_4.index t (0 : Fin 2) * 1 + 1 * (x 0).val = (i 0).val; omega
  | ⟨1, _⟩ => show win11_4.index t (1 : Fin 2) * 64 + 1 * (x 1).val = (i 1).val; omega

/-! ## One entry: `layer2` of the blocks at a block coordinate is `layer2` of the arrays at the array coordinate -/

theorem point11 (A0 : Vec Ideal S64x64 .f32) (A1 : Vec Ideal S64x64 .f32) (A2 : Vec Ideal S64x64 .f32) (A3 : Vec Ideal S64x64 .f32) (A4 : Vec Ideal S1x64 .f32)
    (x0 : Vec Ideal S64x64 .f32) (x1 : Vec Ideal S64x64 .f32) (x2 : Vec Ideal S64x64 .f32) (x3 : Vec Ideal S64x64 .f32) (x4 : Vec Ideal S1x64 .f32)
    (y : S64x64.Idx) (i : S64x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : x2 = A2) (h3 : x3 = A3) (h4 : x4 = A4) :
    layer2 x0 x1 x2 x3 x4 y = layer2 A0 A1 A2 A3 A4 i := by
  subst h2
  subst h3
  subst h4
  calc layer2 x0 x1 x2 x3 x4 y = layer2 x0 x1 x2 x3 x4 (ix2 (y 0) (y 1)) := congrArg _ (eq_ix2 y)
    _ = layer2 A0 A1 x2 x3 x4 (ix2 (i 0) (y 1)) :=
        layer2_rows A0 x0 A1 x1 x2 x3 x4 (y 0) (i 0) (y 1) h0 h1
    _ = layer2 A0 A1 x2 x3 x4 i := congrArg _ (by
        funext a
        match a with
        | ⟨0, _⟩ => rfl
        | ⟨1, _⟩ => exact (Fin.ext hq).symm)

/-! ## What point `t` writes back is block `t` of `layer2` of the input arrays -/

-- stating the equation unfolds the output window's block among the region's 6 windows on its grid of 1: the larger regions need more than the default budget
set_option maxHeartbeats 4000000 in
theorem flushed11_eq (c : Dev nD) (t : Fin cfg11.N) :
    (dat11 (F := Ideal) V c).flushed 5 t = ((cfg11.win 5).blk t).view.read (Elt Ideal)
      (layer2 (V c (Pipeline.arrRef spec11 0) : Vec Ideal S64x64 .f32) (V c (Pipeline.arrRef spec11 1) : Vec Ideal S64x64 .f32) (V c (Pipeline.arrRef spec11 2) : Vec Ideal S64x64 .f32) (V c (Pipeline.arrRef spec11 3) : Vec Ideal S64x64 .f32) (V c (Pipeline.arrRef spec11 4) : Vec Ideal S1x64 .f32)) := by
  show (cfg11.win 5).cut (grid11.coords t) ((dat11 (F := Ideal) V c).after 5 t) = _
  rw [after11_5, out11_eq (iblk11 V c 0 t) (iblk11 V c 1 t) (iblk11 V c 2 t) (iblk11 V c 3 t) (iblk11 V c 4 t)]
  obtain ⟨e0_0, e0_1, e1_0, e1_1, e2_0, e2_1, e3_0, e3_1, e4_0, e4_1, e5_0, e5_1⟩ := idx_facts11 t
  funext y
  show layer2 (iblk11 V c 0 t) (iblk11 V c 1 t) (iblk11 V c 2 t) (iblk11 V c 3 t) (iblk11 V c 4 t) y
    = layer2 (V c (Pipeline.arrRef spec11 0) : Vec Ideal S64x64 .f32) (V c (Pipeline.arrRef spec11 1) : Vec Ideal S64x64 .f32) (V c (Pipeline.arrRef spec11 2) : Vec Ideal S64x64 .f32) (V c (Pipeline.arrRef spec11 3) : Vec Ideal S64x64 .f32) (V c (Pipeline.arrRef spec11 4) : Vec Ideal S1x64 .f32) (((cfg11.win 5).blk t).view.emb y)
  refine point11 (V c (Pipeline.arrRef spec11 0) : Vec Ideal S64x64 .f32) (V c (Pipeline.arrRef spec11 1) : Vec Ideal S64x64 .f32) (V c (Pipeline.arrRef spec11 2) : Vec Ideal S64x64 .f32) (V c (Pipeline.arrRef spec11 3) : Vec Ideal S64x64 .f32) (V c (Pipeline.arrRef spec11 4) : Vec Ideal S1x64 .f32) (iblk11 V c 0 t) (iblk11 V c 1 t) (iblk11 V c 2 t) (iblk11 V c 3 t) (iblk11 V c 4 t) y _ ?_ ?_ ?_ ?_ ?_ ?_
  · show win11_5.index t (1 : Fin 2) * 64 + 1 * (y 1).val = (y 1).val
    omega
  · intro k
    refine blk11_0 V c t _ _ ?_ ?_
    · show win11_5.index t (0 : Fin 2) * 64 + 1 * (y 0).val = win11_0.index t (0 : Fin 2) * 64 + (y 0).val
      omega
    · show k.val = win11_0.index t (1 : Fin 2) * 64 + k.val
      omega
  · intro k
    refine blk11_1 V c t _ _ ?_ ?_
    · show win11_5.index t (0 : Fin 2) * 64 + 1 * (y 0).val = win11_1.index t (0 : Fin 2) * 64 + (y 0).val
      omega
    · show k.val = win11_1.index t (1 : Fin 2) * 64 + k.val
      omega
  · funext x
    exact blk11_2 V c t x x (by omega) (by omega)
  · funext x
    exact blk11_3 V c t x x (by omega) (by omega)
  · funext x
    exact blk11_4 V c t x x (by omega) (by omega)

/-! ## The blocks cover the output array -/

/-- An index of the array is in point `t`'s block iff each coordinate is in the block's range on its axis. -/
theorem mem_blk11 (t : Fin cfg11.N) (i : S64x64.Idx) :
    i ∈ ((cfg11.win 5).blk t).view.set ↔ ∀ a : Fin 2, win11_5.index t a * S64x64.size a ≤ (i a).val ∧ (i a).val < win11_5.index t a * S64x64.size a + S64x64.size a := by
  show i ∈ ((View.whole main_v183).slice (win11_5.rect t)).set ↔ _
  rw [View.set_slice_whole, Rect.mem_set_unit]
  exact Iff.rfl

/-- Row `r` of the array is in the block of point `r / 64`, which is written back. -/
theorem cover11 (i : S64x64.Idx) :
    ∃ t : Fin cfg11.N, (cfg11.win 5).flush t = true ∧ i ∈ ((cfg11.win 5).blk t).view.set := by
  have hi0 : (i 0).val < 64 := (i 0).isLt
  have hi1 : (i 1).val < 64 := (i 1).isLt
  have hN : cfg11.N = 1 := N_11
  have ht : (i 0).val / 64 < cfg11.N := by rw [hN]; omega
  obtain ⟨e0_0, e0_1, e1_0, e1_1, e2_0, e2_1, e3_0, e3_1, e4_0, e4_1, e5_0, e5_1⟩ := idx_facts11 ⟨(i 0).val / 64, ht⟩
  have hv : (⟨(i 0).val / 64, ht⟩ : Fin cfg11.N).val = (i 0).val / 64 := rfl
  refine ⟨⟨(i 0).val / 64, ht⟩, flush11_5 _, ?_⟩
  rw [mem_blk11]
  intro a
  match a with
  | ⟨0, _⟩ =>
    show win11_5.index ⟨(i 0).val / 64, ht⟩ (0 : Fin 2) * 64 ≤ (i 0).val ∧ (i 0).val < win11_5.index ⟨(i 0).val / 64, ht⟩ (0 : Fin 2) * 64 + 64
    omega
  | ⟨1, _⟩ =>
    show win11_5.index ⟨(i 0).val / 64, ht⟩ (1 : Fin 2) * 64 ≤ (i 1).val ∧ (i 1).val < win11_5.index ⟨(i 0).val / 64, ht⟩ (1 : Fin 2) * 64 + 64
    omega

/-! ## The array after the region -/

set_option maxHeartbeats 4000000 in
/-- The output array after the region's run is `layer2` of the region's input arrays as entered. -/
theorem value11 (c : Dev nD) :
    (dat11 (F := Ideal) V c).arrAt 5 cfg11.N = layer2 (V c (Pipeline.arrRef spec11 0) : Vec Ideal S64x64 .f32) (V c (Pipeline.arrRef spec11 1) : Vec Ideal S64x64 .f32) (V c (Pipeline.arrRef spec11 2) : Vec Ideal S64x64 .f32) (V c (Pipeline.arrRef spec11 3) : Vec Ideal S64x64 .f32) (V c (Pipeline.arrRef spec11 4) : Vec Ideal S1x64 .f32) :=
  (dat11 (F := Ideal) V c).arrAt_eq_of_cover 5 (layer2 (V c (Pipeline.arrRef spec11 0) : Vec Ideal S64x64 .f32) (V c (Pipeline.arrRef spec11 1) : Vec Ideal S64x64 .f32) (V c (Pipeline.arrRef spec11 2) : Vec Ideal S64x64 .f32) (V c (Pipeline.arrRef spec11 3) : Vec Ideal S64x64 .f32) (V c (Pipeline.arrRef spec11 4) : Vec Ideal S1x64 .f32))
    (fun t _ => flushed11_eq V c t) (cover11)

end Cert.KernelIdeal.Hand

end
-- ==== Proof.KI.Val12.lean ====
import proofs.«123839_j71768903516633_2_alg».proof.Proof.KI.Reg12
import proofs.«123839_j71768903516633_2_alg».proof.Proof.Math.MlpKernel
import Idealize.ShloMosaic.Lib.Pipeline.Value
import Idealize.ShloMosaic.Lib.Tactic

/-! # Region 12: the output array after the region, on the extended reals

Every point of the grid writes back, into its block of rows of the output array, `layer4` of the input blocks at
the point. An entry of `layer4` depends only on its own row of the row-blocked inputs and on the whole of the
others, and a block's row `p` at point `t` is row `6000·t + p` of its array, so what point `t` writes is block `t`
of `layer4` of the WHOLE input arrays (`flushed12_eq`). The blocks cover the output array (`cover12`), so the
array ends holding `layer4` of the input arrays as the region found them (`value12`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz12 : (![0, 0] : Fin 2 → Nat) = fun _ => 0 := funext fun a => by fin_cases a <;> rfl

/-! ## What the body leaves is `layer4` of the loaded blocks -/

theorem out12_eq (x0 : Vec Ideal S6000x64 .f32) (x1 : Vec Ideal S6000x64 .f32) (x2 : Vec Ideal S6000x64 .f32) (x3 : Vec Ideal S6000x64 .f32) (x4 : Vec Ideal S64x64 .f32) (x5 : Vec Ideal S64x64 .f32) (x6 : Vec Ideal S64x64 .f32) (x7 : Vec Ideal S64x64 .f32) (x8 : Vec Ideal S1x64 .f32) :
    out12_9 (F := Ideal) x0 x1 x2 x3 x4 x5 x6 x7 x8 = layer4 x0 x1 x2 x3 x4 x5 x6 x7 x8 := by
  unfold out12_9
  rw [View.canon_unit_zero hz12]
  simp only [View.ld_unit_zero (S := S6000x64) hz12, View.ld_unit_zero (S := S64x64) hz12, View.ld_unit_zero (S := S1x64) hz12]
  exact Mlp.k12_pay_eq _ _ _ _ _ _ _ _ _

/-! ## The index maps, decided over the grid -/

/-- The row-blocked windows are at block `t` of their rows at point `t`; every other block index is 0. -/
theorem idx_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0
    ∧ win12_8.index t (0 : Fin 2) = 0 ∧ win12_8.index t (1 : Fin 2) = 0
    ∧ win12_9.index t (0 : Fin 2) = t.val ∧ win12_9.index t (1 : Fin 2) = 0 :=
  (by decide +kernel : ∀ t : Fin grid12.N, _)

/-! ## Block reads: an input block's entry is the array's entry at block index × block size + the coordinate -/

theorem blk12_0 (c : Dev nD) (t : Fin cfg12.N) (x : S6000x64.Idx) (i : S300000x64.Idx)
    (h0 : (i 0).val = win12_0.index t (0 : Fin 2) * 6000 + (x 0).val)
    (h1 : (i 1).val = win12_0.index t (1 : Fin 2) * 64 + (x 1).val) :
    (iblk12 V c 0 t : Vec Ideal S6000x64 .f32) x = (V c (Pipeline.arrRef spec12 0) : Vec Ideal S300000x64 .f32) i := by
  unfold iblk12
  rw [View.read_apply]
  show V c (Pipeline.arrRef spec12 0) _ = V c (Pipeline.arrRef spec12 0) _
  refine congrArg (V c (Pipeline.arrRef spec12 0) : Vec Ideal S300000x64 .f32) ?_
  funext a; apply Fin.ext
  match a with
  | ⟨0, _⟩ => show win12_0.index t (0 : Fin 2) * 6000 + 1 * (x 0).val = (i 0).val; omega
  | ⟨1, _⟩ => show win12_0.index t (1 : Fin 2) * 64 + 1 * (x 1).val = (i 1).val; omega

theorem blk12_1 (c : Dev nD) (t : Fin cfg12.N) (x : S6000x64.Idx) (i : S300000x64.Idx)
    (h0 : (i 0).val = win12_1.index t (0 : Fin 2) * 6000 + (x 0).val)
    (h1 : (i 1).val = win12_1.index t (1 : Fin 2) * 64 + (x 1).val) :
    (iblk12 V c 1 t : Vec Ideal S6000x64 .f32) x = (V c (Pipeline.arrRef spec12 1) : Vec Ideal S300000x64 .f32) i := by
  unfold iblk12
  rw [View.read_apply]
  show V c (Pipeline.arrRef spec12 1) _ = V c (Pipeline.arrRef spec12 1) _
  refine congrArg (V c (Pipeline.arrRef spec12 1) : Vec Ideal S300000x64 .f32) ?_
  funext a; apply Fin.ext
  match a with
  | ⟨0, _⟩ => show win12_1.index t (0 : Fin 2) * 6000 + 1 * (x 0).val = (i 0).val; omega
  | ⟨1, _⟩ => show win12_1.index t (1 : Fin 2) * 64 + 1 * (x 1).val = (i 1).val; omega

theorem blk12_2 (c : Dev nD) (t : Fin cfg12.N) (x : S6000x64.Idx) (i : S300000x64.Idx)
    (h0 : (i 0).val = win12_2.index t (0 : Fin 2) * 6000 + (x 0).val)
    (h1 : (i 1).val = win12_2.index t (1 : Fin 2) * 64 + (x 1).val) :
    (iblk12 V c 2 t : Vec Ideal S6000x64 .f32) x = (V c (Pipeline.arrRef spec12 2) : Vec Ideal S300000x64 .f32) i := by
  unfold iblk12
  rw [View.read_apply]
  show V c (Pipeline.arrRef spec12 2) _ = V c (Pipeline.arrRef spec12 2) _
  refine congrArg (V c (Pipeline.arrRef spec12 2) : Vec Ideal S300000x64 .f32) ?_
  funext a; apply Fin.ext
  match a with
  | ⟨0, _⟩ => show win12_2.index t (0 : Fin 2) * 6000 + 1 * (x 0).val = (i 0).val; omega
  | ⟨1, _⟩ => show win12_2.index t (1 : Fin 2) * 64 + 1 * (x 1).val = (i 1).val; omega

theorem blk12_3 (c : Dev nD) (t : Fin cfg12.N) (x : S6000x64.Idx) (i : S300000x64.Idx)
    (h0 : (i 0).val = win12_3.index t (0 : Fin 2) * 6000 + (x 0).val)
    (h1 : (i 1).val = win12_3.index t (1 : Fin 2) * 64 + (x 1).val) :
    (iblk12 V c 3 t : Vec Ideal S6000x64 .f32) x = (V c (Pipeline.arrRef spec12 3) : Vec Ideal S300000x64 .f32) i := by
  unfold iblk12
  rw [View.read_apply]
  show V c (Pipeline.arrRef spec12 3) _ = V c (Pipeline.arrRef spec12 3) _
  refine congrArg (V c (Pipeline.arrRef spec12 3) : Vec Ideal S300000x64 .f32) ?_
  funext a; apply Fin.ext
  match a with
  | ⟨0, _⟩ => show win12_3.index t (0 : Fin 2) * 6000 + 1 * (x 0).val = (i 0).val; omega
  | ⟨1, _⟩ => show win12_3.index t (1 : Fin 2) * 64 + 1 * (x 1).val = (i 1).val; omega

theorem blk12_4 (c : Dev nD) (t : Fin cfg12.N) (x : S64x64.Idx) (i : S64x64.Idx)
    (h0 : (i 0).val = win12_4.index t (0 : Fin 2) * 64 + (x 0).val)
    (h1 : (i 1).val = win12_4.index t (1 : Fin 2) * 64 + (x 1).val) :
    (iblk12 V c 4 t : Vec Ideal S64x64 .f32) x = (V c (Pipeline.arrRef spec12 4) : Vec Ideal S64x64 .f32) i := by
  unfold iblk12
  rw [View.read_apply]
  show V c (Pipeline.arrRef spec12 4) _ = V c (Pipeline.arrRef spec12 4) _
  refine congrArg (V c (Pipeline.arrRef spec12 4) : Vec Ideal S64x64 .f32) ?_
  funext a; apply Fin.ext
  match a with
  | ⟨0, _⟩ => show win12_4.index t (0 : Fin 2) * 64 + 1 * (x 0).val = (i 0).val; omega
  | ⟨1, _⟩ => show win12_4.index t (1 : Fin 2) * 64 + 1 * (x 1).val = (i 1).val; omega

theorem blk12_5 (c : Dev nD) (t : Fin cfg12.N) (x : S64x64.Idx) (i : S64x64.Idx)
    (h0 : (i 0).val = win12_5.index t (0 : Fin 2) * 64 + (x 0).val)
    (h1 : (i 1).val = win12_5.index t (1 : Fin 2) * 64 + (x 1).val) :
    (iblk12 V c 5 t : Vec Ideal S64x64 .f32) x = (V c (Pipeline.arrRef spec12 5) : Vec Ideal S64x64 .f32) i := by
  unfold iblk12
  rw [View.read_apply]
  show V c (Pipeline.arrRef spec12 5) _ = V c (Pipeline.arrRef spec12 5) _
  refine congrArg (V c (Pipeline.arrRef spec12 5) : Vec Ideal S64x64 .f32) ?_
  funext a; apply Fin.ext
  match a with
  | ⟨0, _⟩ => show win12_5.index t (0 : Fin 2) * 64 + 1 * (x 0).val = (i 0).val; omega
  | ⟨1, _⟩ => show win12_5.index t (1 : Fin 2) * 64 + 1 * (x 1).val = (i 1).val; omega

theorem blk12_6 (c : Dev nD) (t : Fin cfg12.N) (x : S64x64.Idx) (i : S64x64.Idx)
    (h0 : (i 0).val = win12_6.index t (0 : Fin 2) * 64 + (x 0).val)
    (h1 : (i 1).val = win12_6.index t (1 : Fin 2) * 64 + (x 1).val) :
    (iblk12 V c 6 t : Vec Ideal S64x64 .f32) x = (V c (Pipeline.arrRef spec12 6) : Vec Ideal S64x64 .f32) i := by
  unfold iblk12
  rw [View.read_apply]
  show V c (Pipeline.arrRef spec12 6) _ = V c (Pipeline.arrRef spec12 6) _
  refine congrArg (V c (Pipeline.arrRef spec12 6) : Vec Ideal S64x64 .f32) ?_
  funext a; apply Fin.ext
  match a with
  | ⟨0, _⟩ => show win12_6.index t (0 : Fin 2) * 64 + 1 * (x 0).val = (i 0).val; omega
  | ⟨1, _⟩ => show win12_6.index t (1 : Fin 2) * 64 + 1 * (x 1).val = (i 1).val; omega

theorem blk12_7 (c : Dev nD) (t : Fin cfg12.N) (x : S64x64.Idx) (i : S64x64.Idx)
    (h0 : (i 0).val = win12_7.index t (0 : Fin 2) * 64 + (x 0).val)
    (h1 : (i 1).val = win12_7.index t (1 : Fin 2) * 64 + (x 1).val) :
    (iblk12 V c 7 t : Vec Ideal S64x64 .f32) x = (V c (Pipeline.arrRef spec12 7) : Vec Ideal S64x64 .f32) i := by
  unfold iblk12
  rw [View.read_apply]
  show V c (Pipeline.arrRef spec12 7) _ = V c (Pipeline.arrRef spec12 7) _
  refine congrArg (V c (Pipeline.arrRef spec12 7) : Vec Ideal S64x64 .f32) ?_
  funext a; apply Fin.ext
  match a with
  | ⟨0, _⟩ => show win12_7.index t (0 : Fin 2) * 64 + 1 * (x 0).val = (i 0).val; omega
  | ⟨1, _⟩ => show win12_7.index t (1 : Fin 2) * 64 + 1 * (x 1).val = (i 1).val; omega

theorem blk12_8 (c : Dev nD) (t : Fin cfg12.N) (x : S1x64.Idx) (i : S1x64.Idx)
    (h0 : (i 0).val = win12_8.index t (0 : Fin 2) * 1 + (x 0).val)
    (h1 : (i 1).val = win12_8.index t (1 : Fin 2) * 64 + (x 1).val) :
    (iblk12 V c 8 t : Vec Ideal S1x64 .f32) x = (V c (Pipeline.arrRef spec12 8) : Vec Ideal S1x64 .f32) i := by
  unfold iblk12
  rw [View.read_apply]
  show V c (Pipeline.arrRef spec12 8) _ = V c (Pipeline.arrRef spec12 8) _
  refine congrArg (V c (Pipeline.arrRef spec12 8) : Vec Ideal S1x64 .f32) ?_
  funext a; apply Fin.ext
  match a with
  | ⟨0, _⟩ => show win12_8.index t (0 : Fin 2) * 1 + 1 * (x 0).val = (i 0).val; omega
  | ⟨1, _⟩ => show win12_8.index t (1 : Fin 2) * 64 + 1 * (x 1).val = (i 1).val; omega

/-! ## One entry: `layer4` of the blocks at a block coordinate is `layer4` of the arrays at the array coordinate -/

theorem point12 (A0 : Vec Ideal S300000x64 .f32) (A1 : Vec Ideal S300000x64 .f32) (A2 : Vec Ideal S300000x64 .f32) (A3 : Vec Ideal S300000x64 .f32) (A4 : Vec Ideal S64x64 .f32) (A5 : Vec Ideal S64x64 .f32) (A6 : Vec Ideal S64x64 .f32) (A7 : Vec Ideal S64x64 .f32) (A8 : Vec Ideal S1x64 .f32)
    (x0 : Vec Ideal S6000x64 .f32) (x1 : Vec Ideal S6000x64 .f32) (x2 : Vec Ideal S6000x64 .f32) (x3 : Vec Ideal S6000x64 .f32) (x4 : Vec Ideal S64x64 .f32) (x5 : Vec Ideal S64x64 .f32) (x6 : Vec Ideal S64x64 .f32) (x7 : Vec Ideal S64x64 .f32) (x8 : Vec Ideal S1x64 .f32)
    (y : S6000x64.Idx) (i : S300000x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : ∀ k : Fin 64, x2 (ix2 (y 0) k) = A2 (ix2 (i 0) k))
    (h3 : ∀ k : Fin 64, x3 (ix2 (y 0) k) = A3 (ix2 (i 0) k))
    (h4 : x4 = A4) (h5 : x5 = A5) (h6 : x6 = A6) (h7 : x7 = A7) (h8 : x8 = A8) :
    layer4 x0 x1 x2 x3 x4 x5 x6 x7 x8 y = layer4 A0 A1 A2 A3 A4 A5 A6 A7 A8 i := by
  subst h4
  subst h5
  subst h6
  subst h7
  subst h8
  calc layer4 x0 x1 x2 x3 x4 x5 x6 x7 x8 y = layer4 x0 x1 x2 x3 x4 x5 x6 x7 x8 (ix2 (y 0) (y 1)) := congrArg _ (eq_ix2 y)
    _ = layer4 A0 A1 A2 A3 x4 x5 x6 x7 x8 (ix2 (i 0) (y 1)) :=
        layer4_rows A0 x0 A1 x1 A2 x2 A3 x3 x4 x5 x6 x7 x8 (y 0) (i 0) (y 1) h0 h1 h2 h3
    _ = layer4 A0 A1 A2 A3 x4 x5 x6 x7 x8 i := congrArg _ (by
        funext a
        match a with
        | ⟨0, _⟩ => rfl
        | ⟨1, _⟩ => exact (Fin.ext hq).symm)

/-! ## What point `t` writes back is block `t` of `layer4` of the input arrays -/

-- stating the equation unfolds the output window's block among the region's 10 windows on its grid of 50: the larger regions need more than the default budget
set_option maxHeartbeats 4000000 in
theorem flushed12_eq (c : Dev nD) (t : Fin cfg12.N) :
    (dat12 (F := Ideal) V c).flushed 9 t = ((cfg12.win 9).blk t).view.read (Elt Ideal)
      (layer4 (V c (Pipeline.arrRef spec12 0) : Vec Ideal S300000x64 .f32) (V c (Pipeline.arrRef spec12 1) : Vec Ideal S300000x64 .f32) (V c (Pipeline.arrRef spec12 2) : Vec Ideal S300000x64 .f32) (V c (Pipeline.arrRef spec12 3) : Vec Ideal S300000x64 .f32) (V c (Pipeline.arrRef spec12 4) : Vec Ideal S64x64 .f32) (V c (Pipeline.arrRef spec12 5) : Vec Ideal S64x64 .f32) (V c (Pipeline.arrRef spec12 6) : Vec Ideal S64x64 .f32) (V c (Pipeline.arrRef spec12 7) : Vec Ideal S64x64 .f32) (V c (Pipeline.arrRef spec12 8) : Vec Ideal S1x64 .f32)) := by
  show (cfg12.win 9).cut (grid12.coords t) ((dat12 (F := Ideal) V c).after 9 t) = _
  rw [after12_9, out12_eq (iblk12 V c 0 t) (iblk12 V c 1 t) (iblk12 V c 2 t) (iblk12 V c 3 t) (iblk12 V c 4 t) (iblk12 V c 5 t) (iblk12 V c 6 t) (iblk12 V c 7 t) (iblk12 V c 8 t)]
  obtain ⟨e0_0, e0_1, e1_0, e1_1, e2_0, e2_1, e3_0, e3_1, e4_0, e4_1, e5_0, e5_1, e6_0, e6_1, e7_0, e7_1, e8_0, e8_1, e9_0, e9_1⟩ := idx_facts12 t
  funext y
  show layer4 (iblk12 V c 0 t) (iblk12 V c 1 t) (iblk12 V c 2 t) (iblk12 V c 3 t) (iblk12 V c 4 t) (iblk12 V c 5 t) (iblk12 V c 6 t) (iblk12 V c 7 t) (iblk12 V c 8 t) y
    = layer4 (V c (Pipeline.arrRef spec12 0) : Vec Ideal S300000x64 .f32) (V c (Pipeline.arrRef spec12 1) : Vec Ideal S300000x64 .f32) (V c (Pipeline.arrRef spec12 2) : Vec Ideal S300000x64 .f32) (V c (Pipeline.arrRef spec12 3) : Vec Ideal S300000x64 .f32) (V c (Pipeline.arrRef spec12 4) : Vec Ideal S64x64 .f32) (V c (Pipeline.arrRef spec12 5) : Vec Ideal S64x64 .f32) (V c (Pipeline.arrRef spec12 6) : Vec Ideal S64x64 .f32) (V c (Pipeline.arrRef spec12 7) : Vec Ideal S64x64 .f32) (V c (Pipeline.arrRef spec12 8) : Vec Ideal S1x64 .f32) (((cfg12.win 9).blk t).view.emb y)
  refine point12 (V c (Pipeline.arrRef spec12 0) : Vec Ideal S300000x64 .f32) (V c (Pipeline.arrRef spec12 1) : Vec Ideal S300000x64 .f32) (V c (Pipeline.arrRef spec12 2) : Vec Ideal S300000x64 .f32) (V c (Pipeline.arrRef spec12 3) : Vec Ideal S300000x64 .f32) (V c (Pipeline.arrRef spec12 4) : Vec Ideal S64x64 .f32) (V c (Pipeline.arrRef spec12 5) : Vec Ideal S64x64 .f32) (V c (Pipeline.arrRef spec12 6) : Vec Ideal S64x64 .f32) (V c (Pipeline.arrRef spec12 7) : Vec Ideal S64x64 .f32) (V c (Pipeline.arrRef spec12 8) : Vec Ideal S1x64 .f32) (iblk12 V c 0 t) (iblk12 V c 1 t) (iblk12 V c 2 t) (iblk12 V c 3 t) (iblk12 V c 4 t) (iblk12 V c 5 t) (iblk12 V c 6 t) (iblk12 V c 7 t) (iblk12 V c 8 t) y _ ?_ ?_ ?_ ?_ ?_ ?_ ?_ ?_ ?_ ?_
  · show win12_9.index t (1 : Fin 2) * 64 + 1 * (y 1).val = (y 1).val
    omega
  · intro k
    refine blk12_0 V c t _ _ ?_ ?_
    · show win12_9.index t (0 : Fin 2) * 6000 + 1 * (y 0).val = win12_0.index t (0 : Fin 2) * 6000 + (y 0).val
      omega
    · show k.val = win12_0.index t (1 : Fin 2) * 64 + k.val
      omega
  · intro k
    refine blk12_1 V c t _ _ ?_ ?_
    · show win12_9.index t (0 : Fin 2) * 6000 + 1 * (y 0).val = win12_1.index t (0 : Fin 2) * 6000 + (y 0).val
      omega
    · show k.val = win12_1.index t (1 : Fin 2) * 64 + k.val
      omega
  · intro k
    refine blk12_2 V c t _ _ ?_ ?_
    · show win12_9.index t (0 : Fin 2) * 6000 + 1 * (y 0).val = win12_2.index t (0 : Fin 2) * 6000 + (y 0).val
      omega
    · show k.val = win12_2.index t (1 : Fin 2) * 64 + k.val
      omega
  · intro k
    refine blk12_3 V c t _ _ ?_ ?_
    · show win12_9.index t (0 : Fin 2) * 6000 + 1 * (y 0).val = win12_3.index t (0 : Fin 2) * 6000 + (y 0).val
      omega
    · show k.val = win12_3.index t (1 : Fin 2) * 64 + k.val
      omega
  · funext x
    exact blk12_4 V c t x x (by omega) (by omega)
  · funext x
    exact blk12_5 V c t x x (by omega) (by omega)
  · funext x
    exact blk12_6 V c t x x (by omega) (by omega)
  · funext x
    exact blk12_7 V c t x x (by omega) (by omega)
  · funext x
    exact blk12_8 V c t x x (by omega) (by omega)

/-! ## The blocks cover the output array -/

/-- An index of the array is in point `t`'s block iff each coordinate is in the block's range on its axis. -/
theorem mem_blk12 (t : Fin cfg12.N) (i : S300000x64.Idx) :
    i ∈ ((cfg12.win 9).blk t).view.set ↔ ∀ a : Fin 2, win12_9.index t a * S6000x64.size a ≤ (i a).val ∧ (i a).val < win12_9.index t a * S6000x64.size a + S6000x64.size a := by
  show i ∈ ((View.whole main_v217).slice (win12_9.rect t)).set ↔ _
  rw [View.set_slice_whole, Rect.mem_set_unit]
  exact Iff.rfl

/-- Row `r` of the array is in the block of point `r / 6000`, which is written back. -/
theorem cover12 (i : S300000x64.Idx) :
    ∃ t : Fin cfg12.N, (cfg12.win 9).flush t = true ∧ i ∈ ((cfg12.win 9).blk t).view.set := by
  have hi0 : (i 0).val < 300000 := (i 0).isLt
  have hi1 : (i 1).val < 64 := (i 1).isLt
  have hN : cfg12.N = 50 := N_12
  have ht : (i 0).val / 6000 < cfg12.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx_facts12 ⟨(i 0).val / 6000, ht⟩
  have hv : (⟨(i 0).val / 6000, ht⟩ : Fin cfg12.N).val = (i 0).val / 6000 := rfl
  refine ⟨⟨(i 0).val / 6000, ht⟩, flush12_9 _, ?_⟩
  rw [mem_blk12]
  intro a
  match a with
  | ⟨0, _⟩ =>
    show win12_9.index ⟨(i 0).val / 6000, ht⟩ (0 : Fin 2) * 6000 ≤ (i 0).val ∧ (i 0).val < win12_9.index ⟨(i 0).val / 6000, ht⟩ (0 : Fin 2) * 6000 + 6000
    omega
  | ⟨1, _⟩ =>
    show win12_9.index ⟨(i 0).val / 6000, ht⟩ (1 : Fin 2) * 64 ≤ (i 1).val ∧ (i 1).val < win12_9.index ⟨(i 0).val / 6000, ht⟩ (1 : Fin 2) * 64 + 64
    omega

/-! ## The array after the region -/

set_option maxHeartbeats 4000000 in
/-- The output array after the region's run is `layer4` of the region's input arrays as entered. -/
theorem value12 (c : Dev nD) :
    (dat12 (F := Ideal) V c).arrAt 9 cfg12.N = layer4 (V c (Pipeline.arrRef spec12 0) : Vec Ideal S300000x64 .f32) (V c (Pipeline.arrRef spec12 1) : Vec Ideal S300000x64 .f32) (V c (Pipeline.arrRef spec12 2) : Vec Ideal S300000x64 .f32) (V c (Pipeline.arrRef spec12 3) : Vec Ideal S300000x64 .f32) (V c (Pipeline.arrRef spec12 4) : Vec Ideal S64x64 .f32) (V c (Pipeline.arrRef spec12 5) : Vec Ideal S64x64 .f32) (V c (Pipeline.arrRef spec12 6) : Vec Ideal S64x64 .f32) (V c (Pipeline.arrRef spec12 7) : Vec Ideal S64x64 .f32) (V c (Pipeline.arrRef spec12 8) : Vec Ideal S1x64 .f32) :=
  (dat12 (F := Ideal) V c).arrAt_eq_of_cover 9 (layer4 (V c (Pipeline.arrRef spec12 0) : Vec Ideal S300000x64 .f32) (V c (Pipeline.arrRef spec12 1) : Vec Ideal S300000x64 .f32) (V c (Pipeline.arrRef spec12 2) : Vec Ideal S300000x64 .f32) (V c (Pipeline.arrRef spec12 3) : Vec Ideal S300000x64 .f32) (V c (Pipeline.arrRef spec12 4) : Vec Ideal S64x64 .f32) (V c (Pipeline.arrRef spec12 5) : Vec Ideal S64x64 .f32) (V c (Pipeline.arrRef spec12 6) : Vec Ideal S64x64 .f32) (V c (Pipeline.arrRef spec12 7) : Vec Ideal S64x64 .f32) (V c (Pipeline.arrRef spec12 8) : Vec Ideal S1x64 .f32))
    (fun t _ => flushed12_eq V c t) (cover12)

end Cert.KernelIdeal.Hand

end
-- ==== Proof.KI.Val13.lean ====
import proofs.«123839_j71768903516633_2_alg».proof.Proof.KI.Reg13
import proofs.«123839_j71768903516633_2_alg».proof.Proof.Math.MlpKernel
import Idealize.ShloMosaic.Lib.Pipeline.Value
import Idealize.ShloMosaic.Lib.Tactic

/-! # Region 13: the output array after the region, on the extended reals

Every point of the grid writes back, into its block of rows of the output array, `layer3` of the input blocks at
the point. An entry of `layer3` depends only on its own row of the row-blocked inputs and on the whole of the
others, and a block's row `p` at point `t` is row `6000·t + p` of its array, so what point `t` writes is block `t`
of `layer3` of the WHOLE input arrays (`flushed13_eq`). The blocks cover the output array (`cover13`), so the
array ends holding `layer3` of the input arrays as the region found them (`value13`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz13 : (![0, 0] : Fin 2 → Nat) = fun _ => 0 := funext fun a => by fin_cases a <;> rfl

/-! ## What the body leaves is `layer3` of the loaded blocks -/

theorem out13_eq (x0 : Vec Ideal S6000x64 .f32) (x1 : Vec Ideal S6000x64 .f32) (x2 : Vec Ideal S6000x64 .f32) (x3 : Vec Ideal S64x64 .f32) (x4 : Vec Ideal S64x64 .f32) (x5 : Vec Ideal S64x64 .f32) (x6 : Vec Ideal S1x64 .f32) :
    out13_7 (F := Ideal) x0 x1 x2 x3 x4 x5 x6 = layer3 x0 x1 x2 x3 x4 x5 x6 := by
  unfold out13_7
  rw [View.canon_unit_zero hz13]
  simp only [View.ld_unit_zero (S := S6000x64) hz13, View.ld_unit_zero (S := S64x64) hz13, View.ld_unit_zero (S := S1x64) hz13]
  exact Mlp.k13_pay_eq _ _ _ _ _ _ _

/-! ## The index maps, decided over the grid -/

/-- The row-blocked windows are at block `t` of their rows at point `t`; every other block index is 0. -/
theorem idx_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0 :=
  (by decide +kernel : ∀ t : Fin grid13.N, _)

/-! ## Block reads: an input block's entry is the array's entry at block index × block size + the coordinate -/

theorem blk13_0 (c : Dev nD) (t : Fin cfg13.N) (x : S6000x64.Idx) (i : S30000x64.Idx)
    (h0 : (i 0).val = win13_0.index t (0 : Fin 2) * 6000 + (x 0).val)
    (h1 : (i 1).val = win13_0.index t (1 : Fin 2) * 64 + (x 1).val) :
    (iblk13 V c 0 t : Vec Ideal S6000x64 .f32) x = (V c (Pipeline.arrRef spec13 0) : Vec Ideal S30000x64 .f32) i := by
  unfold iblk13
  rw [View.read_apply]
  show V c (Pipeline.arrRef spec13 0) _ = V c (Pipeline.arrRef spec13 0) _
  refine congrArg (V c (Pipeline.arrRef spec13 0) : Vec Ideal S30000x64 .f32) ?_
  funext a; apply Fin.ext
  match a with
  | ⟨0, _⟩ => show win13_0.index t (0 : Fin 2) * 6000 + 1 * (x 0).val = (i 0).val; omega
  | ⟨1, _⟩ => show win13_0.index t (1 : Fin 2) * 64 + 1 * (x 1).val = (i 1).val; omega

theorem blk13_1 (c : Dev nD) (t : Fin cfg13.N) (x : S6000x64.Idx) (i : S30000x64.Idx)
    (h0 : (i 0).val = win13_1.index t (0 : Fin 2) * 6000 + (x 0).val)
    (h1 : (i 1).val = win13_1.index t (1 : Fin 2) * 64 + (x 1).val) :
    (iblk13 V c 1 t : Vec Ideal S6000x64 .f32) x = (V c (Pipeline.arrRef spec13 1) : Vec Ideal S30000x64 .f32) i := by
  unfold iblk13
  rw [View.read_apply]
  show V c (Pipeline.arrRef spec13 1) _ = V c (Pipeline.arrRef spec13 1) _
  refine congrArg (V c (Pipeline.arrRef spec13 1) : Vec Ideal S30000x64 .f32) ?_
  funext a; apply Fin.ext
  match a with
  | ⟨0, _⟩ => show win13_1.index t (0 : Fin 2) * 6000 + 1 * (x 0).val = (i 0).val; omega
  | ⟨1, _⟩ => show win13_1.index t (1 : Fin 2) * 64 + 1 * (x 1).val = (i 1).val; omega

theorem blk13_2 (c : Dev nD) (t : Fin cfg13.N) (x : S6000x64.Idx) (i : S30000x64.Idx)
    (h0 : (i 0).val = win13_2.index t (0 : Fin 2) * 6000 + (x 0).val)
    (h1 : (i 1).val = win13_2.index t (1 : Fin 2) * 64 + (x 1).val) :
    (iblk13 V c 2 t : Vec Ideal S6000x64 .f32) x = (V c (Pipeline.arrRef spec13 2) : Vec Ideal S30000x64 .f32) i := by
  unfold iblk13
  rw [View.read_apply]
  show V c (Pipeline.arrRef spec13 2) _ = V c (Pipeline.arrRef spec13 2) _
  refine congrArg (V c (Pipeline.arrRef spec13 2) : Vec Ideal S30000x64 .f32) ?_
  funext a; apply Fin.ext
  match a with
  | ⟨0, _⟩ => show win13_2.index t (0 : Fin 2) * 6000 + 1 * (x 0).val = (i 0).val; omega
  | ⟨1, _⟩ => show win13_2.index t (1 : Fin 2) * 64 + 1 * (x 1).val = (i 1).val; omega

theorem blk13_3 (c : Dev nD) (t : Fin cfg13.N) (x : S64x64.Idx) (i : S64x64.Idx)
    (h0 : (i 0).val = win13_3.index t (0 : Fin 2) * 64 + (x 0).val)
    (h1 : (i 1).val = win13_3.index t (1 : Fin 2) * 64 + (x 1).val) :
    (iblk13 V c 3 t : Vec Ideal S64x64 .f32) x = (V c (Pipeline.arrRef spec13 3) : Vec Ideal S64x64 .f32) i := by
  unfold iblk13
  rw [View.read_apply]
  show V c (Pipeline.arrRef spec13 3) _ = V c (Pipeline.arrRef spec13 3) _
  refine congrArg (V c (Pipeline.arrRef spec13 3) : Vec Ideal S64x64 .f32) ?_
  funext a; apply Fin.ext
  match a with
  | ⟨0, _⟩ => show win13_3.index t (0 : Fin 2) * 64 + 1 * (x 0).val = (i 0).val; omega
  | ⟨1, _⟩ => show win13_3.index t (1 : Fin 2) * 64 + 1 * (x 1).val = (i 1).val; omega

theorem blk13_4 (c : Dev nD) (t : Fin cfg13.N) (x : S64x64.Idx) (i : S64x64.Idx)
    (h0 : (i 0).val = win13_4.index t (0 : Fin 2) * 64 + (x 0).val)
    (h1 : (i 1).val = win13_4.index t (1 : Fin 2) * 64 + (x 1).val) :
    (iblk13 V c 4 t : Vec Ideal S64x64 .f32) x = (V c (Pipeline.arrRef spec13 4) : Vec Ideal S64x64 .f32) i := by
  unfold iblk13
  rw [View.read_apply]
  show V c (Pipeline.arrRef spec13 4) _ = V c (Pipeline.arrRef spec13 4) _
  refine congrArg (V c (Pipeline.arrRef spec13 4) : Vec Ideal S64x64 .f32) ?_
  funext a; apply Fin.ext
  match a with
  | ⟨0, _⟩ => show win13_4.index t (0 : Fin 2) * 64 + 1 * (x 0).val = (i 0).val; omega
  | ⟨1, _⟩ => show win13_4.index t (1 : Fin 2) * 64 + 1 * (x 1).val = (i 1).val; omega

theorem blk13_5 (c : Dev nD) (t : Fin cfg13.N) (x : S64x64.Idx) (i : S64x64.Idx)
    (h0 : (i 0).val = win13_5.index t (0 : Fin 2) * 64 + (x 0).val)
    (h1 : (i 1).val = win13_5.index t (1 : Fin 2) * 64 + (x 1).val) :
    (iblk13 V c 5 t : Vec Ideal S64x64 .f32) x = (V c (Pipeline.arrRef spec13 5) : Vec Ideal S64x64 .f32) i := by
  unfold iblk13
  rw [View.read_apply]
  show V c (Pipeline.arrRef spec13 5) _ = V c (Pipeline.arrRef spec13 5) _
  refine congrArg (V c (Pipeline.arrRef spec13 5) : Vec Ideal S64x64 .f32) ?_
  funext a; apply Fin.ext
  match a with
  | ⟨0, _⟩ => show win13_5.index t (0 : Fin 2) * 64 + 1 * (x 0).val = (i 0).val; omega
  | ⟨1, _⟩ => show win13_5.index t (1 : Fin 2) * 64 + 1 * (x 1).val = (i 1).val; omega

theorem blk13_6 (c : Dev nD) (t : Fin cfg13.N) (x : S1x64.Idx) (i : S1x64.Idx)
    (h0 : (i 0).val = win13_6.index t (0 : Fin 2) * 1 + (x 0).val)
    (h1 : (i 1).val = win13_6.index t (1 : Fin 2) * 64 + (x 1).val) :
    (iblk13 V c 6 t : Vec Ideal S1x64 .f32) x = (V c (Pipeline.arrRef spec13 6) : Vec Ideal S1x64 .f32) i := by
  unfold iblk13
  rw [View.read_apply]
  show V c (Pipeline.arrRef spec13 6) _ = V c (Pipeline.arrRef spec13 6) _
  refine congrArg (V c (Pipeline.arrRef spec13 6) : Vec Ideal S1x64 .f32) ?_
  funext a; apply Fin.ext
  match a with
  | ⟨0, _⟩ => show win13_6.index t (0 : Fin 2) * 1 + 1 * (x 0).val = (i 0).val; omega
  | ⟨1, _⟩ => show win13_6.index t (1 : Fin 2) * 64 + 1 * (x 1).val = (i 1).val; omega

/-! ## One entry: `layer3` of the blocks at a block coordinate is `layer3` of the arrays at the array coordinate -/

theorem point13 (A0 : Vec Ideal S30000x64 .f32) (A1 : Vec Ideal S30000x64 .f32) (A2 : Vec Ideal S30000x64 .f32) (A3 : Vec Ideal S64x64 .f32) (A4 : Vec Ideal S64x64 .f32) (A5 : Vec Ideal S64x64 .f32) (A6 : Vec Ideal S1x64 .f32)
    (x0 : Vec Ideal S6000x64 .f32) (x1 : Vec Ideal S6000x64 .f32) (x2 : Vec Ideal S6000x64 .f32) (x3 : Vec Ideal S64x64 .f32) (x4 : Vec Ideal S64x64 .f32) (x5 : Vec Ideal S64x64 .f32) (x6 : Vec Ideal S1x64 .f32)
    (y : S6000x64.Idx) (i : S30000x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : ∀ k : Fin 64, x2 (ix2 (y 0) k) = A2 (ix2 (i 0) k))
    (h3 : x3 = A3) (h4 : x4 = A4) (h5 : x5 = A5) (h6 : x6 = A6) :
    layer3 x0 x1 x2 x3 x4 x5 x6 y = layer3 A0 A1 A2 A3 A4 A5 A6 i := by
  subst h3
  subst h4
  subst h5
  subst h6
  calc layer3 x0 x1 x2 x3 x4 x5 x6 y = layer3 x0 x1 x2 x3 x4 x5 x6 (ix2 (y 0) (y 1)) := congrArg _ (eq_ix2 y)
    _ = layer3 A0 A1 A2 x3 x4 x5 x6 (ix2 (i 0) (y 1)) :=
        layer3_rows A0 x0 A1 x1 A2 x2 x3 x4 x5 x6 (y 0) (i 0) (y 1) h0 h1 h2
    _ = layer3 A0 A1 A2 x3 x4 x5 x6 i := congrArg _ (by
        funext a
        match a with
        | ⟨0, _⟩ => rfl
        | ⟨1, _⟩ => exact (Fin.ext hq).symm)

/-! ## What point `t` writes back is block `t` of `layer3` of the input arrays -/

-- stating the equation unfolds the output window's block among the region's 8 windows on its grid of 5: the larger regions need more than the default budget
set_option maxHeartbeats 4000000 in
theorem flushed13_eq (c : Dev nD) (t : Fin cfg13.N) :
    (dat13 (F := Ideal) V c).flushed 7 t = ((cfg13.win 7).blk t).view.read (Elt Ideal)
      (layer3 (V c (Pipeline.arrRef spec13 0) : Vec Ideal S30000x64 .f32) (V c (Pipeline.arrRef spec13 1) : Vec Ideal S30000x64 .f32) (V c (Pipeline.arrRef spec13 2) : Vec Ideal S30000x64 .f32) (V c (Pipeline.arrRef spec13 3) : Vec Ideal S64x64 .f32) (V c (Pipeline.arrRef spec13 4) : Vec Ideal S64x64 .f32) (V c (Pipeline.arrRef spec13 5) : Vec Ideal S64x64 .f32) (V c (Pipeline.arrRef spec13 6) : Vec Ideal S1x64 .f32)) := by
  show (cfg13.win 7).cut (grid13.coords t) ((dat13 (F := Ideal) V c).after 7 t) = _
  rw [after13_7, out13_eq (iblk13 V c 0 t) (iblk13 V c 1 t) (iblk13 V c 2 t) (iblk13 V c 3 t) (iblk13 V c 4 t) (iblk13 V c 5 t) (iblk13 V c 6 t)]
  obtain ⟨e0_0, e0_1, e1_0, e1_1, e2_0, e2_1, e3_0, e3_1, e4_0, e4_1, e5_0, e5_1, e6_0, e6_1, e7_0, e7_1⟩ := idx_facts13 t
  funext y
  show layer3 (iblk13 V c 0 t) (iblk13 V c 1 t) (iblk13 V c 2 t) (iblk13 V c 3 t) (iblk13 V c 4 t) (iblk13 V c 5 t) (iblk13 V c 6 t) y
    = layer3 (V c (Pipeline.arrRef spec13 0) : Vec Ideal S30000x64 .f32) (V c (Pipeline.arrRef spec13 1) : Vec Ideal S30000x64 .f32) (V c (Pipeline.arrRef spec13 2) : Vec Ideal S30000x64 .f32) (V c (Pipeline.arrRef spec13 3) : Vec Ideal S64x64 .f32) (V c (Pipeline.arrRef spec13 4) : Vec Ideal S64x64 .f32) (V c (Pipeline.arrRef spec13 5) : Vec Ideal S64x64 .f32) (V c (Pipeline.arrRef spec13 6) : Vec Ideal S1x64 .f32) (((cfg13.win 7).blk t).view.emb y)
  refine point13 (V c (Pipeline.arrRef spec13 0) : Vec Ideal S30000x64 .f32) (V c (Pipeline.arrRef spec13 1) : Vec Ideal S30000x64 .f32) (V c (Pipeline.arrRef spec13 2) : Vec Ideal S30000x64 .f32) (V c (Pipeline.arrRef spec13 3) : Vec Ideal S64x64 .f32) (V c (Pipeline.arrRef spec13 4) : Vec Ideal S64x64 .f32) (V c (Pipeline.arrRef spec13 5) : Vec Ideal S64x64 .f32) (V c (Pipeline.arrRef spec13 6) : Vec Ideal S1x64 .f32) (iblk13 V c 0 t) (iblk13 V c 1 t) (iblk13 V c 2 t) (iblk13 V c 3 t) (iblk13 V c 4 t) (iblk13 V c 5 t) (iblk13 V c 6 t) y _ ?_ ?_ ?_ ?_ ?_ ?_ ?_ ?_
  · show win13_7.index t (1 : Fin 2) * 64 + 1 * (y 1).val = (y 1).val
    omega
  · intro k
    refine blk13_0 V c t _ _ ?_ ?_
    · show win13_7.index t (0 : Fin 2) * 6000 + 1 * (y 0).val = win13_0.index t (0 : Fin 2) * 6000 + (y 0).val
      omega
    · show k.val = win13_0.index t (1 : Fin 2) * 64 + k.val
      omega
  · intro k
    refine blk13_1 V c t _ _ ?_ ?_
    · show win13_7.index t (0 : Fin 2) * 6000 + 1 * (y 0).val = win13_1.index t (0 : Fin 2) * 6000 + (y 0).val
      omega
    · show k.val = win13_1.index t (1 : Fin 2) * 64 + k.val
      omega
  · intro k
    refine blk13_2 V c t _ _ ?_ ?_
    · show win13_7.index t (0 : Fin 2) * 6000 + 1 * (y 0).val = win13_2.index t (0 : Fin 2) * 6000 + (y 0).val
      omega
    · show k.val = win13_2.index t (1 : Fin 2) * 64 + k.val
      omega
  · funext x
    exact blk13_3 V c t x x (by omega) (by omega)
  · funext x
    exact blk13_4 V c t x x (by omega) (by omega)
  · funext x
    exact blk13_5 V c t x x (by omega) (by omega)
  · funext x
    exact blk13_6 V c t x x (by omega) (by omega)

/-! ## The blocks cover the output array -/

/-- An index of the array is in point `t`'s block iff each coordinate is in the block's range on its axis. -/
theorem mem_blk13 (t : Fin cfg13.N) (i : S30000x64.Idx) :
    i ∈ ((cfg13.win 7).blk t).view.set ↔ ∀ a : Fin 2, win13_7.index t a * S6000x64.size a ≤ (i a).val ∧ (i a).val < win13_7.index t a * S6000x64.size a + S6000x64.size a := by
  show i ∈ ((View.whole main_v240).slice (win13_7.rect t)).set ↔ _
  rw [View.set_slice_whole, Rect.mem_set_unit]
  exact Iff.rfl

/-- Row `r` of the array is in the block of point `r / 6000`, which is written back. -/
theorem cover13 (i : S30000x64.Idx) :
    ∃ t : Fin cfg13.N, (cfg13.win 7).flush t = true ∧ i ∈ ((cfg13.win 7).blk t).view.set := by
  have hi0 : (i 0).val < 30000 := (i 0).isLt
  have hi1 : (i 1).val < 64 := (i 1).isLt
  have hN : cfg13.N = 5 := N_13
  have ht : (i 0).val / 6000 < cfg13.N := by rw [hN]; omega
  obtain ⟨e0_0, e0_1, e1_0, e1_1, e2_0, e2_1, e3_0, e3_1, e4_0, e4_1, e5_0, e5_1, e6_0, e6_1, e7_0, e7_1⟩ := idx_facts13 ⟨(i 0).val / 6000, ht⟩
  have hv : (⟨(i 0).val / 6000, ht⟩ : Fin cfg13.N).val = (i 0).val / 6000 := rfl
  refine ⟨⟨(i 0).val / 6000, ht⟩, flush13_7 _, ?_⟩
  rw [mem_blk13]
  intro a
  match a with
  | ⟨0, _⟩ =>
    show win13_7.index ⟨(i 0).val / 6000, ht⟩ (0 : Fin 2) * 6000 ≤ (i 0).val ∧ (i 0).val < win13_7.index ⟨(i 0).val / 6000, ht⟩ (0 : Fin 2) * 6000 + 6000
    omega
  | ⟨1, _⟩ =>
    show win13_7.index ⟨(i 0).val / 6000, ht⟩ (1 : Fin 2) * 64 ≤ (i 1).val ∧ (i 1).val < win13_7.index ⟨(i 0).val / 6000, ht⟩ (1 : Fin 2) * 64 + 64
    omega

/-! ## The array after the region -/

set_option maxHeartbeats 4000000 in
/-- The output array after the region's run is `layer3` of the region's input arrays as entered. -/
theorem value13 (c : Dev nD) :
    (dat13 (F := Ideal) V c).arrAt 7 cfg13.N = layer3 (V c (Pipeline.arrRef spec13 0) : Vec Ideal S30000x64 .f32) (V c (Pipeline.arrRef spec13 1) : Vec Ideal S30000x64 .f32) (V c (Pipeline.arrRef spec13 2) : Vec Ideal S30000x64 .f32) (V c (Pipeline.arrRef spec13 3) : Vec Ideal S64x64 .f32) (V c (Pipeline.arrRef spec13 4) : Vec Ideal S64x64 .f32) (V c (Pipeline.arrRef spec13 5) : Vec Ideal S64x64 .f32) (V c (Pipeline.arrRef spec13 6) : Vec Ideal S1x64 .f32) :=
  (dat13 (F := Ideal) V c).arrAt_eq_of_cover 7 (layer3 (V c (Pipeline.arrRef spec13 0) : Vec Ideal S30000x64 .f32) (V c (Pipeline.arrRef spec13 1) : Vec Ideal S30000x64 .f32) (V c (Pipeline.arrRef spec13 2) : Vec Ideal S30000x64 .f32) (V c (Pipeline.arrRef spec13 3) : Vec Ideal S64x64 .f32) (V c (Pipeline.arrRef spec13 4) : Vec Ideal S64x64 .f32) (V c (Pipeline.arrRef spec13 5) : Vec Ideal S64x64 .f32) (V c (Pipeline.arrRef spec13 6) : Vec Ideal S1x64 .f32))
    (fun t _ => flushed13_eq V c t) (cover13)

end Cert.KernelIdeal.Hand

end
-- ==== Proof.KI.Val14.lean ====
import proofs.«123839_j71768903516633_2_alg».proof.Proof.KI.Reg14
import proofs.«123839_j71768903516633_2_alg».proof.Proof.Math.MlpKernel
import Idealize.ShloMosaic.Lib.Pipeline.Value
import Idealize.ShloMosaic.Lib.Tactic

/-! # Region 14: the output array after the region, on the extended reals

Every point of the grid writes back, into its block of rows of the output array, `layer2` of the input blocks at
the point. An entry of `layer2` depends only on its own row of the row-blocked inputs and on the whole of the
others, and a block's row `p` at point `t` is row `64·t + p` of its array, so what point `t` writes is block `t`
of `layer2` of the WHOLE input arrays (`flushed14_eq`). The blocks cover the output array (`cover14`), so the
array ends holding `layer2` of the input arrays as the region found them (`value14`). -/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.SplitLayers Cert.Lib.FourBands

-- the TensorCore's buffer contents when the region is entered
variable (V : (c : Dev nD) → (b : Ref sig .tc) → Buf (Elt Ideal) ((c : Thread nD τ).loc b))

theorem hz14 : (![0, 0] : Fin 2 → Nat) = fun _ => 0 := funext fun a => by fin_cases a <;> rfl

/-! ## What the body leaves is `layer2` of the loaded blocks -/

theorem out14_eq (x0 : Vec Ideal S64x64 .f32) (x1 : Vec Ideal S64x64 .f32) (x2 : Vec Ideal S64x64 .f32) (x3 : Vec Ideal S64x64 .f32) (x4 : Vec Ideal S1x64 .f32) :
    out14_5 (F := Ideal) x0 x1 x2 x3 x4 = layer2 x0 x1 x2 x3 x4 := by
  unfold out14_5
  rw [View.canon_unit_zero hz14]
  simp only [View.ld_unit_zero (S := S64x64) hz14, View.ld_unit_zero (S := S1x64) hz14]
  exact Mlp.k14_pay_eq _ _ _ _ _

/-! ## The index maps, decided over the grid -/

/-- The row-blocked windows are at block `t` of their rows at point `t`; every other block index is 0. -/
theorem idx_facts14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-! ## Block reads: an input block's entry is the array's entry at block index × block size + the coordinate -/

theorem blk14_0 (c : Dev nD) (t : Fin cfg14.N) (x : S64x64.Idx) (i : S64x64.Idx)
    (h0 : (i 0).val = win14_0.index t (0 : Fin 2) * 64 + (x 0).val)
    (h1 : (i 1).val = win14_0.index t (1 : Fin 2) * 64 + (x 1).val) :
    (iblk14 V c 0 t : Vec Ideal S64x64 .f32) x = (V c (Pipeline.arrRef spec14 0) : Vec Ideal S64x64 .f32) i := by
  unfold iblk14
  rw [View.read_apply]
  show V c (Pipeline.arrRef spec14 0) _ = V c (Pipeline.arrRef spec14 0) _
  refine congrArg (V c (Pipeline.arrRef spec14 0) : Vec Ideal S64x64 .f32) ?_
  funext a; apply Fin.ext
  match a with
  | ⟨0, _⟩ => show win14_0.index t (0 : Fin 2) * 64 + 1 * (x 0).val = (i 0).val; omega
  | ⟨1, _⟩ => show win14_0.index t (1 : Fin 2) * 64 + 1 * (x 1).val = (i 1).val; omega

theorem blk14_1 (c : Dev nD) (t : Fin cfg14.N) (x : S64x64.Idx) (i : S64x64.Idx)
    (h0 : (i 0).val = win14_1.index t (0 : Fin 2) * 64 + (x 0).val)
    (h1 : (i 1).val = win14_1.index t (1 : Fin 2) * 64 + (x 1).val) :
    (iblk14 V c 1 t : Vec Ideal S64x64 .f32) x = (V c (Pipeline.arrRef spec14 1) : Vec Ideal S64x64 .f32) i := by
  unfold iblk14
  rw [View.read_apply]
  show V c (Pipeline.arrRef spec14 1) _ = V c (Pipeline.arrRef spec14 1) _
  refine congrArg (V c (Pipeline.arrRef spec14 1) : Vec Ideal S64x64 .f32) ?_
  funext a; apply Fin.ext
  match a with
  | ⟨0, _⟩ => show win14_1.index t (0 : Fin 2) * 64 + 1 * (x 0).val = (i 0).val; omega
  | ⟨1, _⟩ => show win14_1.index t (1 : Fin 2) * 64 + 1 * (x 1).val = (i 1).val; omega

theorem blk14_2 (c : Dev nD) (t : Fin cfg14.N) (x : S64x64.Idx) (i : S64x64.Idx)
    (h0 : (i 0).val = win14_2.index t (0 : Fin 2) * 64 + (x 0).val)
    (h1 : (i 1).val = win14_2.index t (1 : Fin 2) * 64 + (x 1).val) :
    (iblk14 V c 2 t : Vec Ideal S64x64 .f32) x = (V c (Pipeline.arrRef spec14 2) : Vec Ideal S64x64 .f32) i := by
  unfold iblk14
  rw [View.read_apply]
  show V c (Pipeline.arrRef spec14 2) _ = V c (Pipeline.arrRef spec14 2) _
  refine congrArg (V c (Pipeline.arrRef spec14 2) : Vec Ideal S64x64 .f32) ?_
  funext a; apply Fin.ext
  match a with
  | ⟨0, _⟩ => show win14_2.index t (0 : Fin 2) * 64 + 1 * (x 0).val = (i 0).val; omega
  | ⟨1, _⟩ => show win14_2.index t (1 : Fin 2) * 64 + 1 * (x 1).val = (i 1).val; omega

theorem blk14_3 (c : Dev nD) (t : Fin cfg14.N) (x : S64x64.Idx) (i : S64x64.Idx)
    (h0 : (i 0).val = win14_3.index t (0 : Fin 2) * 64 + (x 0).val)
    (h1 : (i 1).val = win14_3.index t (1 : Fin 2) * 64 + (x 1).val) :
    (iblk14 V c 3 t : Vec Ideal S64x64 .f32) x = (V c (Pipeline.arrRef spec14 3) : Vec Ideal S64x64 .f32) i := by
  unfold iblk14
  rw [View.read_apply]
  show V c (Pipeline.arrRef spec14 3) _ = V c (Pipeline.arrRef spec14 3) _
  refine congrArg (V c (Pipeline.arrRef spec14 3) : Vec Ideal S64x64 .f32) ?_
  funext a; apply Fin.ext
  match a with
  | ⟨0, _⟩ => show win14_3.index t (0 : Fin 2) * 64 + 1 * (x 0).val = (i 0).val; omega
  | ⟨1, _⟩ => show win14_3.index t (1 : Fin 2) * 64 + 1 * (x 1).val = (i 1).val; omega

theorem blk14_4 (c : Dev nD) (t : Fin cfg14.N) (x : S1x64.Idx) (i : S1x64.Idx)
    (h0 : (i 0).val = win14_4.index t (0 : Fin 2) * 1 + (x 0).val)
    (h1 : (i 1).val = win14_4.index t (1 : Fin 2) * 64 + (x 1).val) :
    (iblk14 V c 4 t : Vec Ideal S1x64 .f32) x = (V c (Pipeline.arrRef spec14 4) : Vec Ideal S1x64 .f32) i := by
  unfold iblk14
  rw [View.read_apply]
  show V c (Pipeline.arrRef spec14 4) _ = V c (Pipeline.arrRef spec14 4) _
  refine congrArg (V c (Pipeline.arrRef spec14 4) : Vec Ideal S1x64 .f32) ?_
  funext a; apply Fin.ext
  match a with
  | ⟨0, _⟩ => show win14_4.index t (0 : Fin 2) * 1 + 1 * (x 0).val = (i 0).val; omega
  | ⟨1, _⟩ => show win14_4.index t (1 : Fin 2) * 64 + 1 * (x 1).val = (i 1).val; omega

/-! ## One entry: `layer2` of the blocks at a block coordinate is `layer2` of the arrays at the array coordinate -/

theorem point14 (A0 : Vec Ideal S64x64 .f32) (A1 : Vec Ideal S64x64 .f32) (A2 : Vec Ideal S64x64 .f32) (A3 : Vec Ideal S64x64 .f32) (A4 : Vec Ideal S1x64 .f32)
    (x0 : Vec Ideal S64x64 .f32) (x1 : Vec Ideal S64x64 .f32) (x2 : Vec Ideal S64x64 .f32) (x3 : Vec Ideal S64x64 .f32) (x4 : Vec Ideal S1x64 .f32)
    (y : S64x64.Idx) (i : S64x64.Idx) (hq : (i 1).val = (y 1).val)
    (h0 : ∀ k : Fin 64, x0 (ix2 (y 0) k) = A0 (ix2 (i 0) k))
    (h1 : ∀ k : Fin 64, x1 (ix2 (y 0) k) = A1 (ix2 (i 0) k))
    (h2 : x2 = A2) (h3 : x3 = A3) (h4 : x4 = A4) :
    layer2 x0 x1 x2 x3 x4 y = layer2 A0 A1 A2 A3 A4 i := by
  subst h2
  subst h3
  subst h4
  calc layer2 x0 x1 x2 x3 x4 y = layer2 x0 x1 x2 x3 x4 (ix2 (y 0) (y 1)) := congrArg _ (eq_ix2 y)
    _ = layer2 A0 A1 x2 x3 x4 (ix2 (i 0) (y 1)) :=
        layer2_rows A0 x0 A1 x1 x2 x3 x4 (y 0) (i 0) (y 1) h0 h1
    _ = layer2 A0 A1 x2 x3 x4 i := congrArg _ (by
        funext a
        match a with
        | ⟨0, _⟩ => rfl
        | ⟨1, _⟩ => exact (Fin.ext hq).symm)

/-! ## What point `t` writes back is block `t` of `layer2` of the input arrays -/

-- stating the equation unfolds the output window's block among the region's 6 windows on its grid of 1: the larger regions need more than the default budget
set_option maxHeartbeats 4000000 in
theorem flushed14_eq (c : Dev nD) (t : Fin cfg14.N) :
    (dat14 (F := Ideal) V c).flushed 5 t = ((cfg14.win 5).blk t).view.read (Elt Ideal)
      (layer2 (V c (Pipeline.arrRef spec14 0) : Vec Ideal S64x64 .f32) (V c (Pipeline.arrRef spec14 1) : Vec Ideal S64x64 .f32) (V c (Pipeline.arrRef spec14 2) : Vec Ideal S64x64 .f32) (V c (Pipeline.arrRef spec14 3) : Vec Ideal S64x64 .f32) (V c (Pipeline.arrRef spec14 4) : Vec Ideal S1x64 .f32)) := by
  show (cfg14.win 5).cut (grid14.coords t) ((dat14 (F := Ideal) V c).after 5 t) = _
  rw [after14_5, out14_eq (iblk14 V c 0 t) (iblk14 V c 1 t) (iblk14 V c 2 t) (iblk14 V c 3 t) (iblk14 V c 4 t)]
  obtain ⟨e0_0, e0_1, e1_0, e1_1, e2_0, e2_1, e3_0, e3_1, e4_0, e4_1, e5_0, e5_1⟩ := idx_facts14 t
  funext y
  show layer2 (iblk14 V c 0 t) (iblk14 V c 1 t) (iblk14 V c 2 t) (iblk14 V c 3 t) (iblk14 V c 4 t) y
    = layer2 (V c (Pipeline.arrRef spec14 0) : Vec Ideal S64x64 .f32) (V c (Pipeline.arrRef spec14 1) : Vec Ideal S64x64 .f32) (V c (Pipeline.arrRef spec14 2) : Vec Ideal S64x64 .f32) (V c (Pipeline.arrRef spec14 3) : Vec Ideal S64x64 .f32) (V c (Pipeline.arrRef spec14 4) : Vec Ideal S1x64 .f32) (((cfg14.win 5).blk t).view.emb y)
  refine point14 (V c (Pipeline.arrRef spec14 0) : Vec Ideal S64x64 .f32) (V c (Pipeline.arrRef spec14 1) : Vec Ideal S64x64 .f32) (V c (Pipeline.arrRef spec14 2) : Vec Ideal S64x64 .f32) (V c (Pipeline.arrRef spec14 3) : Vec Ideal S64x64 .f32) (V c (Pipeline.arrRef spec14 4) : Vec Ideal S1x64 .f32) (iblk14 V c 0 t) (iblk14 V c 1 t) (iblk14 V c 2 t) (iblk14 V c 3 t) (iblk14 V c 4 t) y _ ?_ ?_ ?_ ?_ ?_ ?_
  · show win14_5.index t (1 : Fin 2) * 64 + 1 * (y 1).val = (y 1).val
    omega
  · intro k
    refine blk14_0 V c t _ _ ?_ ?_
    · show win14_5.index t (0 : Fin 2) * 64 + 1 * (y 0).val = win14_0.index t (0 : Fin 2) * 64 + (y 0).val
      omega
    · show k.val = win14_0.index t (1 : Fin 2) * 64 + k.val
      omega
  · intro k
    refine blk14_1 V c t _ _ ?_ ?_
    · show win14_5.index t (0 : Fin 2) * 64 + 1 * (y 0).val = win14_1.index t (0 : Fin 2) * 64 + (y 0).val
      omega
    · show k.val = win14_1.index t (1 : Fin 2) * 64 + k.val
      omega
  · funext x
    exact blk14_2 V c t x x (by omega) (by omega)
  · funext x
    exact blk14_3 V c t x x (by omega) (by omega)
  · funext x
    exact blk14_4 V c t x x (by omega) (by omega)

/-! ## The blocks cover the output array -/

/-- An index of the array is in point `t`'s block iff each coordinate is in the block's range on its axis. -/
theorem mem_blk14 (t : Fin cfg14.N) (i : S64x64.Idx) :
    i ∈ ((cfg14.win 5).blk t).view.set ↔ ∀ a : Fin 2, win14_5.index t a * S64x64.size a ≤ (i a).val ∧ (i a).val < win14_5.index t a * S64x64.size a + S64x64.size a := by
  show i ∈ ((View.whole main_v255).slice (win14_5.rect t)).set ↔ _
  rw [View.set_slice_whole, Rect.mem_set_unit]
  exact Iff.rfl

/-- Row `r` of the array is in the block of point `r / 64`, which is written back. -/
theorem cover14 (i : S64x64.Idx) :
    ∃ t : Fin cfg14.N, (cfg14.win 5).flush t = true ∧ i ∈ ((cfg14.win 5).blk t).view.set := by
  have hi0 : (i 0).val < 64 := (i 0).isLt
  have hi1 : (i 1).val < 64 := (i 1).isLt
  have hN : cfg14.N = 1 := N_14
  have ht : (i 0).val / 64 < cfg14.N := by rw [hN]; omega
  obtain ⟨e0_0, e0_1, e1_0, e1_1, e2_0, e2_1, e3_0, e3_1, e4_0, e4_1, e5_0, e5_1⟩ := idx_facts14 ⟨(i 0).val / 64, ht⟩
  have hv : (⟨(i 0).val / 64, ht⟩ : Fin cfg14.N).val = (i 0).val / 64 := rfl
  refine ⟨⟨(i 0).val / 64, ht⟩, flush14_5 _, ?_⟩
  rw [mem_blk14]
  intro a
  match a with
  | ⟨0, _⟩ =>
    show win14_5.index ⟨(i 0).val / 64, ht⟩ (0 : Fin 2) * 64 ≤ (i 0).val ∧ (i 0).val < win14_5.index ⟨(i 0).val / 64, ht⟩ (0 : Fin 2) * 64 + 64
    omega
  | ⟨1, _⟩ =>
    show win14_5.index ⟨(i 0).val / 64, ht⟩ (1 : Fin 2) * 64 ≤ (i 1).val ∧ (i 1).val < win14_5.index ⟨(i 0).val / 64, ht⟩ (1 : Fin 2) * 64 + 64
    omega

/-! ## The array after the region -/

set_option maxHeartbeats 4000000 in
/-- The output array after the region's run is `layer2` of the region's input arrays as entered. -/
theorem value14 (c : Dev nD) :
    (dat14 (F := Ideal) V c).arrAt 5 cfg14.N = layer2 (V c (Pipeline.arrRef spec14 0) : Vec Ideal S64x64 .f32) (V c (Pipeline.arrRef spec14 1) : Vec Ideal S64x64 .f32) (V c (Pipeline.arrRef spec14 2) : Vec Ideal S64x64 .f32) (V c (Pipeline.arrRef spec14 3) : Vec Ideal S64x64 .f32) (V c (Pipeline.arrRef spec14 4) : Vec Ideal S1x64 .f32) :=
  (dat14 (F := Ideal) V c).arrAt_eq_of_cover 5 (layer2 (V c (Pipeline.arrRef spec14 0) : Vec Ideal S64x64 .f32) (V c (Pipeline.arrRef spec14 1) : Vec Ideal S64x64 .f32) (V c (Pipeline.arrRef spec14 2) : Vec Ideal S64x64 .f32) (V c (Pipeline.arrRef spec14 3) : Vec Ideal S64x64 .f32) (V c (Pipeline.arrRef spec14 4) : Vec Ideal S1x64 .f32))
    (fun t _ => flushed14_eq V c t) (cover14)

end Cert.KernelIdeal.Hand

end
-- ==== Proof.KI.Anchor.lean ====
/-
  Each dense layer's output array after its kernel region, as the layer's specification applied to closed terms: the
  region's value (its output array is the specification of its input arrays as entered) with each input array read as
  the closed term of the launch arguments and the earlier regions' outputs that the host stretch before it computes.
-/
import proofs.«123839_j71768903516633_2_alg».proof.Proof.KI.Stage
import proofs.«123839_j71768903516633_2_alg».proof.Proof.KI.Val6
import proofs.«123839_j71768903516633_2_alg».proof.Proof.KI.Val7
import proofs.«123839_j71768903516633_2_alg».proof.Proof.KI.Val8
import proofs.«123839_j71768903516633_2_alg».proof.Proof.KI.Val9
import proofs.«123839_j71768903516633_2_alg».proof.Proof.KI.Val10
import proofs.«123839_j71768903516633_2_alg».proof.Proof.KI.Val11
import proofs.«123839_j71768903516633_2_alg».proof.Proof.KI.Val12
import proofs.«123839_j71768903516633_2_alg».proof.Proof.KI.Val13
import proofs.«123839_j71768903516633_2_alg».proof.Proof.KI.Val14

set_option maxRecDepth 16384

noncomputable section

namespace Cert.KernelIdeal.Hand

open Idealize.ShloMosaic Idealize.ShloMosaic.TcCoe
open Idealize.SL.Sem
open Cert.KernelIdeal Cert.KernelIdeal.Gen Cert.Lib.SplitLayers Cert.Lib.FourBands

variable (m : (ℓ : Loc nD τ sig) → Buf (Elt Ideal) ℓ)

theorem anchor6 (c : Dev nD) : U12 m c main_v73 = layer4 (U11 m c main_v46) (U11 m c main_v53) (U11 m c main_v27) (U11 m c main_v67) (U11 m c main_v68) (U11 m c main_v69) (U11 m c main_v70) (U11 m c main_v71) (U11 m c main_v72) :=
  (hF6 m c 9).symm.trans (value6 (U11 m) c)

theorem anchor7 (c : Dev nD) : U14 m c main_v96 = layer3 (U13 m c main_v15) (U13 m c main_v84) (U13 m c main_v91) (U13 m c main_v92) (U13 m c main_v93) (U13 m c main_v94) (U13 m c main_v95) :=
  (hF7 m c 7).symm.trans (value7 (U13 m) c)

theorem anchor8 (c : Dev nD) : U16 m c main_v111 = layer2 (U15 m c main_v107) (U15 m c main_v39) (U15 m c main_v108) (U15 m c main_v109) (U15 m c main_v110) :=
  (hF8 m c 5).symm.trans (value8 (U15 m) c)

theorem anchor9 (c : Dev nD) : U18 m c main_v145 = layer4 (U17 m c main_v118) (U17 m c main_v125) (U17 m c main_v73) (U17 m c main_v139) (U17 m c main_v140) (U17 m c main_v141) (U17 m c main_v142) (U17 m c main_v143) (U17 m c main_v144) :=
  (hF9 m c 9).symm.trans (value9 (U17 m) c)

theorem anchor10 (c : Dev nD) : U20 m c main_v168 = layer3 (U19 m c main_v96) (U19 m c main_v156) (U19 m c main_v163) (U19 m c main_v164) (U19 m c main_v165) (U19 m c main_v166) (U19 m c main_v167) :=
  (hF10 m c 7).symm.trans (value10 (U19 m) c)

theorem anchor11 (c : Dev nD) : U22 m c main_v183 = layer2 (U21 m c main_v179) (U21 m c main_v111) (U21 m c main_v180) (U21 m c main_v181) (U21 m c main_v182) :=
  (hF11 m c 5).symm.trans (value11 (U21 m) c)

theorem anchor12 (c : Dev nD) : U24 m c main_v217 = layer4 (U23 m c main_v190) (U23 m c main_v197) (U23 m c main_v145) (U23 m c main_v211) (U23 m c main_v212) (U23 m c main_v213) (U23 m c main_v214) (U23 m c main_v215) (U23 m c main_v216) :=
  (hF12 m c 9).symm.trans (value12 (U23 m) c)

theorem anchor13 (c : Dev nD) : U26 m c main_v240 = layer3 (U25 m c main_v168) (U25 m c main_v228) (U25 m c main_v235) (U25 m c main_v236) (U25 m c main_v237) (U25 m c main_v238) (U25 m c main_v239) :=
  (hF13 m c 7).symm.trans (value13 (U25 m) c)

theorem anchor14 (c : Dev nD) : U28 m c main_v255 = layer2 (U27 m c main_v251) (U27 m c main_v183) (U27 m c main_v252) (U27 m c main_v253) (U27 m c main_v254) :=
  (hF14 m c 5).symm.trans (value14 (U27 m) c)

end Cert.KernelIdeal.Hand

end
-- ==== Proof.Ref.S2.lean ====
-- written by: gen_ref.js <unit directory>
/- Window 2 of the reference program's @main read one operation at a time: every buffer of the window is written once, so at the window's end each operation's result buffer holds the operation's function of its operands' contents there. -/
import proofs.«123839_j71768903516633_2_alg».proof.Proof.Ref.Writes
import proofs.«123839_j71768903516633_2_alg».proof.Proof.Lib.LibReadFinal
import proofs.«123839_j71768903516633_2_alg».proof.Proof.Lib.LibSingleAssignmentNary

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem s_main_v98 (U : Valuation τ sig (Elt F)) : (after (ops2 (F := F)) U (Proc.devRef .tc main_v98)) = (broadcastInDim S300000x1 ![] bcast_S_S300000x1 : (⟨S_, .f32⟩ : BufTy).Contents (Elt F) → (⟨S300000x1, .f32⟩ : BufTy).Contents (Elt F)) (after (ops2 (F := F)) U (Proc.devRef .tc main_cst_19)) :=
  Cert.Lib.ReadFinal.unary (x := main_cst_19) (y := main_v98) (f := (broadcastInDim S300000x1 ![] bcast_S_S300000x1 : (⟨S_, .f32⟩ : BufTy).Contents (Elt F) → (⟨S300000x1, .f32⟩ : BufTy).Contents (Elt F))) writes2 0 rfl (by decide) (by decide) U
theorem s_main_cst_20 (U : Valuation τ sig (Elt F)) : (after (ops2 (F := F)) U (Proc.devRef .tc main_cst_20)) = (constant (F := F) S_ .f32 0x00000000#32) :=
  Cert.Lib.ReadFinal.nullary (y := main_cst_20) (v := (constant (F := F) S_ .f32 0x00000000#32)) writes2 1 rfl (by decide) U
theorem s_main_v99 (U : Valuation τ sig (Elt F)) : (after (ops2 (F := F)) U (Proc.devRef .tc main_v99)) = (broadcastInDim S30000x1 ![] bcast_S_S30000x1 : (⟨S_, .f32⟩ : BufTy).Contents (Elt F) → (⟨S30000x1, .f32⟩ : BufTy).Contents (Elt F)) (after (ops2 (F := F)) U (Proc.devRef .tc main_cst_20)) :=
  Cert.Lib.ReadFinal.unary (x := main_cst_20) (y := main_v99) (f := (broadcastInDim S30000x1 ![] bcast_S_S30000x1 : (⟨S_, .f32⟩ : BufTy).Contents (Elt F) → (⟨S30000x1, .f32⟩ : BufTy).Contents (Elt F))) writes2 2 rfl (by decide) (by decide) U
theorem s_main_v100 (U : Valuation τ sig (Elt F)) : (after (ops2 (F := F)) U (Proc.devRef .tc main_v100)) = (broadcastInDim S300000x1 ![0] bcast_S300000_S300000x1_0 : (⟨S300000, .i32⟩ : BufTy).Contents (Elt F) → (⟨S300000x1, .i32⟩ : BufTy).Contents (Elt F)) (after (ops2 (F := F)) U (Proc.devRef .tc main_v3)) :=
  Cert.Lib.ReadFinal.unary (x := main_v3) (y := main_v100) (f := (broadcastInDim S300000x1 ![0] bcast_S300000_S300000x1_0 : (⟨S300000, .i32⟩ : BufTy).Contents (Elt F) → (⟨S300000x1, .i32⟩ : BufTy).Contents (Elt F))) writes2 3 rfl (by decide) (by decide) U
theorem s_main_v101 (U : Valuation τ sig (Elt F)) : (after (ops2 (F := F)) U (Proc.devRef .tc main_v101)) = ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (after (ops2 (F := F)) U (Proc.devRef .tc main_v99)) (after (ops2 (F := F)) U (Proc.devRef .tc main_v100)) (after (ops2 (F := F)) U (Proc.devRef .tc main_v98)) :=
  Cert.Lib.ReadFinal.ternary (c := main_v99) (a := main_v100) (b := main_v98) (y := main_v101) (f := ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F))) writes2 4 rfl (by decide) (by decide) (by decide) (by decide) U
theorem s_main_cst_21 (U : Valuation τ sig (Elt F)) : (after (ops2 (F := F)) U (Proc.devRef .tc main_cst_21)) = (constant (F := F) S_ .f32 0x3F800000#32) :=
  Cert.Lib.ReadFinal.nullary (y := main_cst_21) (v := (constant (F := F) S_ .f32 0x3F800000#32)) writes2 5 rfl (by decide) U
theorem s_main_v102 (U : Valuation τ sig (Elt F)) : (after (ops2 (F := F)) U (Proc.devRef .tc main_v102)) = (broadcastInDim S30000x1 ![] bcast_S_S30000x1 : (⟨S_, .f32⟩ : BufTy).Contents (Elt F) → (⟨S30000x1, .f32⟩ : BufTy).Contents (Elt F)) (after (ops2 (F := F)) U (Proc.devRef .tc main_cst_21)) :=
  Cert.Lib.ReadFinal.unary (x := main_cst_21) (y := main_v102) (f := (broadcastInDim S30000x1 ![] bcast_S_S30000x1 : (⟨S_, .f32⟩ : BufTy).Contents (Elt F) → (⟨S30000x1, .f32⟩ : BufTy).Contents (Elt F))) writes2 6 rfl (by decide) (by decide) U
theorem s_main_v103 (U : Valuation τ sig (Elt F)) : (after (ops2 (F := F)) U (Proc.devRef .tc main_v103)) = (maximumf : (⟨S30000x1, .f32⟩ : BufTy).Contents (Elt F) → (⟨S30000x1, .f32⟩ : BufTy).Contents (Elt F) → (⟨S30000x1, .f32⟩ : BufTy).Contents (Elt F)) (after (ops2 (F := F)) U (Proc.devRef .tc main_v101)) (after (ops2 (F := F)) U (Proc.devRef .tc main_v102)) :=
  Cert.Lib.ReadFinal.binary (a := main_v101) (b := main_v102) (y := main_v103) (f := (maximumf : (⟨S30000x1, .f32⟩ : BufTy).Contents (Elt F) → (⟨S30000x1, .f32⟩ : BufTy).Contents (Elt F) → (⟨S30000x1, .f32⟩ : BufTy).Contents (Elt F))) writes2 7 rfl (by decide) (by decide) (by decide) U
theorem s_main_v104 (U : Valuation τ sig (Elt F)) : (after (ops2 (F := F)) U (Proc.devRef .tc main_v104)) = (broadcastInDim S30000x64 ![0, 1] bcast_S30000x1_S30000x64_0_1 : (⟨S30000x1, .f32⟩ : BufTy).Contents (Elt F) → (⟨S30000x64, .f32⟩ : BufTy).Contents (Elt F)) (after (ops2 (F := F)) U (Proc.devRef .tc main_v103)) :=
  Cert.Lib.ReadFinal.unary (x := main_v103) (y := main_v104) (f := (broadcastInDim S30000x64 ![0, 1] bcast_S30000x1_S30000x64_0_1 : (⟨S30000x1, .f32⟩ : BufTy).Contents (Elt F) → (⟨S30000x64, .f32⟩ : BufTy).Contents (Elt F))) writes2 8 rfl (by decide) (by decide) U
theorem s_main_v105 (U : Valuation τ sig (Elt F)) : (after (ops2 (F := F)) U (Proc.devRef .tc main_v105)) = (Host.divf : (⟨S30000x64, .f32⟩ : BufTy).Contents (Elt F) → (⟨S30000x64, .f32⟩ : BufTy).Contents (Elt F) → (⟨S30000x64, .f32⟩ : BufTy).Contents (Elt F)) (after (ops2 (F := F)) U (Proc.devRef .tc main_v97)) (after (ops2 (F := F)) U (Proc.devRef .tc main_v104)) :=
  Cert.Lib.ReadFinal.binary (a := main_v97) (b := main_v104) (y := main_v105) (f := (Host.divf : (⟨S30000x64, .f32⟩ : BufTy).Contents (Elt F) → (⟨S30000x64, .f32⟩ : BufTy).Contents (Elt F) → (⟨S30000x64, .f32⟩ : BufTy).Contents (Elt F))) writes2 9 rfl (by decide) (by decide) (by decide) U
theorem s_main_c_22 (U : Valuation τ sig (Elt F)) : (after (ops2 (F := F)) U (Proc.devRef .tc main_c_22)) = (constantI S_ 32 0#32) :=
  Cert.Lib.ReadFinal.nullary (y := main_c_22) (v := (constantI S_ 32 0#32)) writes2 10 rfl (by decide) U
theorem s_main_v106 (U : Valuation τ sig (Elt F)) : (after (ops2 (F := F)) U (Proc.devRef .tc main_v106)) = (broadcastInDim S30000 ![] bcast_S_S30000 : (⟨S_, .i32⟩ : BufTy).Contents (Elt F) → (⟨S30000, .i32⟩ : BufTy).Contents (Elt F)) (after (ops2 (F := F)) U (Proc.devRef .tc main_c_22)) :=
  Cert.Lib.ReadFinal.unary (x := main_c_22) (y := main_v106) (f := (broadcastInDim S30000 ![] bcast_S_S30000 : (⟨S_, .i32⟩ : BufTy).Contents (Elt F) → (⟨S30000, .i32⟩ : BufTy).Contents (Elt F))) writes2 11 rfl (by decide) (by decide) U
theorem s_main_v107 (U : Valuation τ sig (Elt F)) : (after (ops2 (F := F)) U (Proc.devRef .tc main_v107)) = (cmpi .slt : (⟨S30000, .i32⟩ : BufTy).Contents (Elt F) → (⟨S30000, .i32⟩ : BufTy).Contents (Elt F) → (⟨S30000, .i1⟩ : BufTy).Contents (Elt F)) (after (ops2 (F := F)) U (Proc.devRef .tc main_arg4)) (after (ops2 (F := F)) U (Proc.devRef .tc main_v106)) :=
  Cert.Lib.ReadFinal.binary (a := main_arg4) (b := main_v106) (y := main_v107) (f := (cmpi .slt : (⟨S30000, .i32⟩ : BufTy).Contents (Elt F) → (⟨S30000, .i32⟩ : BufTy).Contents (Elt F) → (⟨S30000, .i1⟩ : BufTy).Contents (Elt F))) writes2 12 rfl (by decide) (by decide) (by decide) U
theorem s_main_c_23 (U : Valuation τ sig (Elt F)) : (after (ops2 (F := F)) U (Proc.devRef .tc main_c_23)) = (constantI S_ 32 64#32) :=
  Cert.Lib.ReadFinal.nullary (y := main_c_23) (v := (constantI S_ 32 64#32)) writes2 13 rfl (by decide) U
theorem s_main_v108 (U : Valuation τ sig (Elt F)) : (after (ops2 (F := F)) U (Proc.devRef .tc main_v108)) = (broadcastInDim S30000 ![] bcast_S_S30000 : (⟨S_, .i32⟩ : BufTy).Contents (Elt F) → (⟨S30000, .i32⟩ : BufTy).Contents (Elt F)) (after (ops2 (F := F)) U (Proc.devRef .tc main_c_23)) :=
  Cert.Lib.ReadFinal.unary (x := main_c_23) (y := main_v108) (f := (broadcastInDim S30000 ![] bcast_S_S30000 : (⟨S_, .i32⟩ : BufTy).Contents (Elt F) → (⟨S30000, .i32⟩ : BufTy).Contents (Elt F))) writes2 14 rfl (by decide) (by decide) U
theorem s_main_v109 (U : Valuation τ sig (Elt F)) : (after (ops2 (F := F)) U (Proc.devRef .tc main_v109)) = (addi : (⟨S30000, .i32⟩ : BufTy).Contents (Elt F) → (⟨S30000, .i32⟩ : BufTy).Contents (Elt F) → (⟨S30000, .i32⟩ : BufTy).Contents (Elt F)) (after (ops2 (F := F)) U (Proc.devRef .tc main_arg4)) (after (ops2 (F := F)) U (Proc.devRef .tc main_v108)) :=
  Cert.Lib.ReadFinal.binary (a := main_arg4) (b := main_v108) (y := main_v109) (f := (addi : (⟨S30000, .i32⟩ : BufTy).Contents (Elt F) → (⟨S30000, .i32⟩ : BufTy).Contents (Elt F) → (⟨S30000, .i32⟩ : BufTy).Contents (Elt F))) writes2 15 rfl (by decide) (by decide) (by decide) U
theorem s_main_v110 (U : Valuation τ sig (Elt F)) : (after (ops2 (F := F)) U (Proc.devRef .tc main_v110)) = (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (after (ops2 (F := F)) U (Proc.devRef .tc main_v107)) (after (ops2 (F := F)) U (Proc.devRef .tc main_v109)) (after (ops2 (F := F)) U (Proc.devRef .tc main_arg4)) :=
  Cert.Lib.ReadFinal.ternary (c := main_v107) (a := main_v109) (b := main_arg4) (y := main_v110) (f := (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))) writes2 16 rfl (by decide) (by decide) (by decide) (by decide) U
theorem s_main_v111 (U : Valuation τ sig (Elt F)) : (after (ops2 (F := F)) U (Proc.devRef .tc main_v111)) = (broadcastInDim S30000x1 ![0] bcast_S30000_S30000x1_0 : (⟨S30000, .i32⟩ : BufTy).Contents (Elt F) → (⟨S30000x1, .i32⟩ : BufTy).Contents (Elt F)) (after (ops2 (F := F)) U (Proc.devRef .tc main_v110)) :=
  Cert.Lib.ReadFinal.unary (x := main_v110) (y := main_v111) (f := (broadcastInDim S30000x1 ![0] bcast_S30000_S30000x1_0 : (⟨S30000, .i32⟩ : BufTy).Contents (Elt F) → (⟨S30000x1, .i32⟩ : BufTy).Contents (Elt F))) writes2 17 rfl (by decide) (by decide) U
theorem s_main_v112 (U : Valuation τ sig (Elt F)) : (after (ops2 (F := F)) U (Proc.devRef .tc main_v112)) = ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops2 (F := F)) U (Proc.devRef .tc main_v60)) (after (ops2 (F := F)) U (Proc.devRef .tc main_v111)) :=
  Cert.Lib.ReadFinal.binary (a := main_v60) (b := main_v111) (y := main_v112) (f := ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F))) writes2 18 rfl (by decide) (by decide) (by decide) U
theorem s_main_v113 (U : Valuation τ sig (Elt F)) : (after (ops2 (F := F)) U (Proc.devRef .tc main_v113)) = concatenate S30000x160 1 [⟨S30000x64, (after (ops2 (F := F)) U (Proc.devRef .tc main_v22))⟩, ⟨S30000x64, (after (ops2 (F := F)) U (Proc.devRef .tc main_v105))⟩, ⟨S30000x32, (after (ops2 (F := F)) U (Proc.devRef .tc main_v112))⟩] concatenates_S30000x64_S30000x64_S30000x32_S30000x160_d1 :=
  (Cert.Lib.SingleAssignment.read_nary (t := []) (xs := ![main_v22, main_v105, main_v112]) (y := main_v113) (f := (fun u => concatenate S30000x160 1 [⟨S30000x64, u 0⟩, ⟨S30000x64, u 1⟩, ⟨S30000x32, u 2⟩] concatenates_S30000x64_S30000x64_S30000x32_S30000x160_d1)) writes2 Cert.Lib.SingleAssignment.Writes.nil 19 rfl (by decide) (by decide) U).trans rfl
theorem s_main_v114 (U : Valuation τ sig (Elt F)) : (after (ops2 (F := F)) U (Proc.devRef .tc main_v114)) = ((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (after (ops2 (F := F)) U (Proc.devRef .tc main_v113)) (after (ops2 (F := F)) U (Proc.devRef .tc main_arg13)) :=
  Cert.Lib.ReadFinal.binary (a := main_v113) (b := main_arg13) (y := main_v114) (f := ((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F))) writes2 20 rfl (by decide) (by decide) (by decide) U
theorem s_main_v115 (U : Valuation τ sig (Elt F)) : (after (ops2 (F := F)) U (Proc.devRef .tc main_v115)) = (broadcastInDim S1x64 ![1] bcast_S64_S1x64_1 : (⟨S64, .f32⟩ : BufTy).Contents (Elt F) → (⟨S1x64, .f32⟩ : BufTy).Contents (Elt F)) (after (ops2 (F := F)) U (Proc.devRef .tc main_arg14)) :=
  Cert.Lib.ReadFinal.unary (x := main_arg14) (y := main_v115) (f := (broadcastInDim S1x64 ![1] bcast_S64_S1x64_1 : (⟨S64, .f32⟩ : BufTy).Contents (Elt F) → (⟨S1x64, .f32⟩ : BufTy).Contents (Elt F))) writes2 21 rfl (by decide) (by decide) U
theorem s_main_v116 (U : Valuation τ sig (Elt F)) : (after (ops2 (F := F)) U (Proc.devRef .tc main_v116)) = (broadcastInDim S30000x64 ![0, 1] bcast_S1x64_S30000x64_0_1 : (⟨S1x64, .f32⟩ : BufTy).Contents (Elt F) → (⟨S30000x64, .f32⟩ : BufTy).Contents (Elt F)) (after (ops2 (F := F)) U (Proc.devRef .tc main_v115)) :=
  Cert.Lib.ReadFinal.unary (x := main_v115) (y := main_v116) (f := (broadcastInDim S30000x64 ![0, 1] bcast_S1x64_S30000x64_0_1 : (⟨S1x64, .f32⟩ : BufTy).Contents (Elt F) → (⟨S30000x64, .f32⟩ : BufTy).Contents (Elt F))) writes2 22 rfl (by decide) (by decide) U
theorem s_main_v117 (U : Valuation τ sig (Elt F)) : (after (ops2 (F := F)) U (Proc.devRef .tc main_v117)) = (addf : (⟨S30000x64, .f32⟩ : BufTy).Contents (Elt F) → (⟨S30000x64, .f32⟩ : BufTy).Contents (Elt F) → (⟨S30000x64, .f32⟩ : BufTy).Contents (Elt F)) (after (ops2 (F := F)) U (Proc.devRef .tc main_v114)) (after (ops2 (F := F)) U (Proc.devRef .tc main_v116)) :=
  Cert.Lib.ReadFinal.binary (a := main_v114) (b := main_v116) (y := main_v117) (f := (addf : (⟨S30000x64, .f32⟩ : BufTy).Contents (Elt F) → (⟨S30000x64, .f32⟩ : BufTy).Contents (Elt F) → (⟨S30000x64, .f32⟩ : BufTy).Contents (Elt F))) writes2 23 rfl (by decide) (by decide) (by decide) U
theorem s_main_call4_cst (U : Valuation τ sig (Elt F)) : (after (ops2 (F := F)) U (Proc.devRef .tc main_call4_cst)) = (constant (F := F) S_ .f32 0x00000000#32) :=
  Cert.Lib.ReadFinal.nullary (y := main_call4_cst) (v := (constant (F := F) S_ .f32 0x00000000#32)) writes2 24 rfl (by decide) U
theorem s_main_call4_v0 (U : Valuation τ sig (Elt F)) : (after (ops2 (F := F)) U (Proc.devRef .tc main_call4_v0)) = ((broadcastInDim S30000x64 ![] bcast_S_S30000x64) : (⟨S_, .f32⟩ : BufTy).Contents (Elt F) → (⟨S30000x64, .f32⟩ : BufTy).Contents (Elt F)) (after (ops2 (F := F)) U (Proc.devRef .tc main_call4_cst)) :=
  Cert.Lib.ReadFinal.unary (x := main_call4_cst) (y := main_call4_v0) (f := ((broadcastInDim S30000x64 ![] bcast_S_S30000x64) : (⟨S_, .f32⟩ : BufTy).Contents (Elt F) → (⟨S30000x64, .f32⟩ : BufTy).Contents (Elt F))) writes2 25 rfl (by decide) (by decide) U
theorem s_main_v118 (U : Valuation τ sig (Elt F)) : (after (ops2 (F := F)) U (Proc.devRef .tc main_v118)) = (maximumf : (⟨S30000x64, .f32⟩ : BufTy).Contents (Elt F) → (⟨S30000x64, .f32⟩ : BufTy).Contents (Elt F) → (⟨S30000x64, .f32⟩ : BufTy).Contents (Elt F)) (after (ops2 (F := F)) U (Proc.devRef .tc main_v117)) (after (ops2 (F := F)) U (Proc.devRef .tc main_call4_v0)) :=
  Cert.Lib.ReadFinal.binary (a := main_v117) (b := main_call4_v0) (y := main_v118) (f := (maximumf : (⟨S30000x64, .f32⟩ : BufTy).Contents (Elt F) → (⟨S30000x64, .f32⟩ : BufTy).Contents (Elt F) → (⟨S30000x64, .f32⟩ : BufTy).Contents (Elt F))) writes2 26 rfl (by decide) (by decide) (by decide) U
theorem s_main_cst_24 (U : Valuation τ sig (Elt F)) : (after (ops2 (F := F)) U (Proc.devRef .tc main_cst_24)) = (constant (F := F) S_ .f32 0x00000000#32) :=
  Cert.Lib.ReadFinal.nullary (y := main_cst_24) (v := (constant (F := F) S_ .f32 0x00000000#32)) writes2 27 rfl (by decide) U
theorem s_main_v119 (U : Valuation τ sig (Elt F)) : (after (ops2 (F := F)) U (Proc.devRef .tc main_v119)) = (broadcastInDim S64x64 ![] bcast_S_S64x64 : (⟨S_, .f32⟩ : BufTy).Contents (Elt F) → (⟨S64x64, .f32⟩ : BufTy).Contents (Elt F)) (after (ops2 (F := F)) U (Proc.devRef .tc main_cst_24)) :=
  Cert.Lib.ReadFinal.unary (x := main_cst_24) (y := main_v119) (f := (broadcastInDim S64x64 ![] bcast_S_S64x64 : (⟨S_, .f32⟩ : BufTy).Contents (Elt F) → (⟨S64x64, .f32⟩ : BufTy).Contents (Elt F))) writes2 28 rfl (by decide) (by decide) U
theorem s_main_v120 (U : Valuation τ sig (Elt F)) : (after (ops2 (F := F)) U (Proc.devRef .tc main_v120)) = (broadcastInDim S30000x1 ![0] bcast_S30000_S30000x1_0 : (⟨S30000, .i32⟩ : BufTy).Contents (Elt F) → (⟨S30000x1, .i32⟩ : BufTy).Contents (Elt F)) (after (ops2 (F := F)) U (Proc.devRef .tc main_arg4)) :=
  Cert.Lib.ReadFinal.unary (x := main_arg4) (y := main_v120) (f := (broadcastInDim S30000x1 ![0] bcast_S30000_S30000x1_0 : (⟨S30000, .i32⟩ : BufTy).Contents (Elt F) → (⟨S30000x1, .i32⟩ : BufTy).Contents (Elt F))) writes2 29 rfl (by decide) (by decide) U
theorem s_main_v121 (U : Valuation τ sig (Elt F)) : (after (ops2 (F := F)) U (Proc.devRef .tc main_v121)) = ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (after (ops2 (F := F)) U (Proc.devRef .tc main_v119)) (after (ops2 (F := F)) U (Proc.devRef .tc main_v120)) (after (ops2 (F := F)) U (Proc.devRef .tc main_v118)) :=
  Cert.Lib.ReadFinal.ternary (c := main_v119) (a := main_v120) (b := main_v118) (y := main_v121) (f := ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F))) writes2 30 rfl (by decide) (by decide) (by decide) (by decide) U
theorem s_main_cst_25 (U : Valuation τ sig (Elt F)) : (after (ops2 (F := F)) U (Proc.devRef .tc main_cst_25)) = (constant (F := F) S_ .f32 0x3F800000#32) :=
  Cert.Lib.ReadFinal.nullary (y := main_cst_25) (v := (constant (F := F) S_ .f32 0x3F800000#32)) writes2 31 rfl (by decide) U
theorem s_main_v122 (U : Valuation τ sig (Elt F)) : (after (ops2 (F := F)) U (Proc.devRef .tc main_v122)) = (broadcastInDim S30000x1 ![] bcast_S_S30000x1 : (⟨S_, .f32⟩ : BufTy).Contents (Elt F) → (⟨S30000x1, .f32⟩ : BufTy).Contents (Elt F)) (after (ops2 (F := F)) U (Proc.devRef .tc main_cst_25)) :=
  Cert.Lib.ReadFinal.unary (x := main_cst_25) (y := main_v122) (f := (broadcastInDim S30000x1 ![] bcast_S_S30000x1 : (⟨S_, .f32⟩ : BufTy).Contents (Elt F) → (⟨S30000x1, .f32⟩ : BufTy).Contents (Elt F))) writes2 32 rfl (by decide) (by decide) U
theorem s_main_cst_26 (U : Valuation τ sig (Elt F)) : (after (ops2 (F := F)) U (Proc.devRef .tc main_cst_26)) = (constant (F := F) S_ .f32 0x00000000#32) :=
  Cert.Lib.ReadFinal.nullary (y := main_cst_26) (v := (constant (F := F) S_ .f32 0x00000000#32)) writes2 33 rfl (by decide) U
theorem s_main_v123 (U : Valuation τ sig (Elt F)) : (after (ops2 (F := F)) U (Proc.devRef .tc main_v123)) = (broadcastInDim S64x1 ![] bcast_S_S64x1 : (⟨S_, .f32⟩ : BufTy).Contents (Elt F) → (⟨S64x1, .f32⟩ : BufTy).Contents (Elt F)) (after (ops2 (F := F)) U (Proc.devRef .tc main_cst_26)) :=
  Cert.Lib.ReadFinal.unary (x := main_cst_26) (y := main_v123) (f := (broadcastInDim S64x1 ![] bcast_S_S64x1 : (⟨S_, .f32⟩ : BufTy).Contents (Elt F) → (⟨S64x1, .f32⟩ : BufTy).Contents (Elt F))) writes2 34 rfl (by decide) (by decide) U
theorem s_main_v124 (U : Valuation τ sig (Elt F)) : (after (ops2 (F := F)) U (Proc.devRef .tc main_v124)) = (broadcastInDim S30000x1 ![0] bcast_S30000_S30000x1_0 : (⟨S30000, .i32⟩ : BufTy).Contents (Elt F) → (⟨S30000x1, .i32⟩ : BufTy).Contents (Elt F)) (after (ops2 (F := F)) U (Proc.devRef .tc main_arg4)) :=
  Cert.Lib.ReadFinal.unary (x := main_arg4) (y := main_v124) (f := (broadcastInDim S30000x1 ![0] bcast_S30000_S30000x1_0 : (⟨S30000, .i32⟩ : BufTy).Contents (Elt F) → (⟨S30000x1, .i32⟩ : BufTy).Contents (Elt F))) writes2 35 rfl (by decide) (by decide) U
theorem s_main_v125 (U : Valuation τ sig (Elt F)) : (after (ops2 (F := F)) U (Proc.devRef .tc main_v125)) = ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (after (ops2 (F := F)) U (Proc.devRef .tc main_v123)) (after (ops2 (F := F)) U (Proc.devRef .tc main_v124)) (after (ops2 (F := F)) U (Proc.devRef .tc main_v122)) :=
  Cert.Lib.ReadFinal.ternary (c := main_v123) (a := main_v124) (b := main_v122) (y := main_v125) (f := ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F))) writes2 36 rfl (by decide) (by decide) (by decide) (by decide) U
theorem s_main_cst_27 (U : Valuation τ sig (Elt F)) : (after (ops2 (F := F)) U (Proc.devRef .tc main_cst_27)) = (constant (F := F) S_ .f32 0x3F800000#32) :=
  Cert.Lib.ReadFinal.nullary (y := main_cst_27) (v := (constant (F := F) S_ .f32 0x3F800000#32)) writes2 37 rfl (by decide) U
theorem s_main_v126 (U : Valuation τ sig (Elt F)) : (after (ops2 (F := F)) U (Proc.devRef .tc main_v126)) = (broadcastInDim S64x1 ![] bcast_S_S64x1 : (⟨S_, .f32⟩ : BufTy).Contents (Elt F) → (⟨S64x1, .f32⟩ : BufTy).Contents (Elt F)) (after (ops2 (F := F)) U (Proc.devRef .tc main_cst_27)) :=
  Cert.Lib.ReadFinal.unary (x := main_cst_27) (y := main_v126) (f := (broadcastInDim S64x1 ![] bcast_S_S64x1 : (⟨S_, .f32⟩ : BufTy).Contents (Elt F) → (⟨S64x1, .f32⟩ : BufTy).Contents (Elt F))) writes2 38 rfl (by decide) (by decide) U
theorem s_main_v127 (U : Valuation τ sig (Elt F)) : (after (ops2 (F := F)) U (Proc.devRef .tc main_v127)) = (maximumf : (⟨S64x1, .f32⟩ : BufTy).Contents (Elt F) → (⟨S64x1, .f32⟩ : BufTy).Contents (Elt F) → (⟨S64x1, .f32⟩ : BufTy).Contents (Elt F)) (after (ops2 (F := F)) U (Proc.devRef .tc main_v125)) (after (ops2 (F := F)) U (Proc.devRef .tc main_v126)) :=
  Cert.Lib.ReadFinal.binary (a := main_v125) (b := main_v126) (y := main_v127) (f := (maximumf : (⟨S64x1, .f32⟩ : BufTy).Contents (Elt F) → (⟨S64x1, .f32⟩ : BufTy).Contents (Elt F) → (⟨S64x1, .f32⟩ : BufTy).Contents (Elt F))) writes2 39 rfl (by decide) (by decide) (by decide) U
theorem s_main_v128 (U : Valuation τ sig (Elt F)) : (after (ops2 (F := F)) U (Proc.devRef .tc main_v128)) = (broadcastInDim S64x64 ![0, 1] bcast_S64x1_S64x64_0_1 : (⟨S64x1, .f32⟩ : BufTy).Contents (Elt F) → (⟨S64x64, .f32⟩ : BufTy).Contents (Elt F)) (after (ops2 (F := F)) U (Proc.devRef .tc main_v127)) :=
  Cert.Lib.ReadFinal.unary (x := main_v127) (y := main_v128) (f := (broadcastInDim S64x64 ![0, 1] bcast_S64x1_S64x64_0_1 : (⟨S64x1, .f32⟩ : BufTy).Contents (Elt F) → (⟨S64x64, .f32⟩ : BufTy).Contents (Elt F))) writes2 40 rfl (by decide) (by decide) U
theorem s_main_v129 (U : Valuation τ sig (Elt F)) : (after (ops2 (F := F)) U (Proc.devRef .tc main_v129)) = (Host.divf : (⟨S64x64, .f32⟩ : BufTy).Contents (Elt F) → (⟨S64x64, .f32⟩ : BufTy).Contents (Elt F) → (⟨S64x64, .f32⟩ : BufTy).Contents (Elt F)) (after (ops2 (F := F)) U (Proc.devRef .tc main_v121)) (after (ops2 (F := F)) U (Proc.devRef .tc main_v128)) :=
  Cert.Lib.ReadFinal.binary (a := main_v121) (b := main_v128) (y := main_v129) (f := (Host.divf : (⟨S64x64, .f32⟩ : BufTy).Contents (Elt F) → (⟨S64x64, .f32⟩ : BufTy).Contents (Elt F) → (⟨S64x64, .f32⟩ : BufTy).Contents (Elt F))) writes2 41 rfl (by decide) (by decide) (by decide) U
theorem s_main_v130 (U : Valuation τ sig (Elt F)) : (after (ops2 (F := F)) U (Proc.devRef .tc main_v130)) = ((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) (after (ops2 (F := F)) U (Proc.devRef .tc main_v129)) (after (ops2 (F := F)) U (Proc.devRef .tc main_v60)) :=
  Cert.Lib.ReadFinal.binary (a := main_v129) (b := main_v60) (y := main_v130) (f := ((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F))) writes2 42 rfl (by decide) (by decide) (by decide) U
theorem s_main_v131 (U : Valuation τ sig (Elt F)) : (after (ops2 (F := F)) U (Proc.devRef .tc main_v131)) = ((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (after (ops2 (F := F)) U (Proc.devRef .tc main_v130)) (after (ops2 (F := F)) U (Proc.devRef .tc main_arg15)) :=
  Cert.Lib.ReadFinal.binary (a := main_v130) (b := main_arg15) (y := main_v131) (f := ((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F))) writes2 43 rfl (by decide) (by decide) (by decide) U
theorem s_main_v132 (U : Valuation τ sig (Elt F)) : (after (ops2 (F := F)) U (Proc.devRef .tc main_v132)) = (broadcastInDim S1x64 ![1] bcast_S64_S1x64_1 : (⟨S64, .f32⟩ : BufTy).Contents (Elt F) → (⟨S1x64, .f32⟩ : BufTy).Contents (Elt F)) (after (ops2 (F := F)) U (Proc.devRef .tc main_arg16)) :=
  Cert.Lib.ReadFinal.unary (x := main_arg16) (y := main_v132) (f := (broadcastInDim S1x64 ![1] bcast_S64_S1x64_1 : (⟨S64, .f32⟩ : BufTy).Contents (Elt F) → (⟨S1x64, .f32⟩ : BufTy).Contents (Elt F))) writes2 44 rfl (by decide) (by decide) U
theorem s_main_v133 (U : Valuation τ sig (Elt F)) : (after (ops2 (F := F)) U (Proc.devRef .tc main_v133)) = (broadcastInDim S64x64 ![0, 1] bcast_S1x64_S64x64_0_1 : (⟨S1x64, .f32⟩ : BufTy).Contents (Elt F) → (⟨S64x64, .f32⟩ : BufTy).Contents (Elt F)) (after (ops2 (F := F)) U (Proc.devRef .tc main_v132)) :=
  Cert.Lib.ReadFinal.unary (x := main_v132) (y := main_v133) (f := (broadcastInDim S64x64 ![0, 1] bcast_S1x64_S64x64_0_1 : (⟨S1x64, .f32⟩ : BufTy).Contents (Elt F) → (⟨S64x64, .f32⟩ : BufTy).Contents (Elt F))) writes2 45 rfl (by decide) (by decide) U
theorem s_main_v134 (U : Valuation τ sig (Elt F)) : (after (ops2 (F := F)) U (Proc.devRef .tc main_v134)) = (addf : (⟨S64x64, .f32⟩ : BufTy).Contents (Elt F) → (⟨S64x64, .f32⟩ : BufTy).Contents (Elt F) → (⟨S64x64, .f32⟩ : BufTy).Contents (Elt F)) (after (ops2 (F := F)) U (Proc.devRef .tc main_v131)) (after (ops2 (F := F)) U (Proc.devRef .tc main_v133)) :=
  Cert.Lib.ReadFinal.binary (a := main_v131) (b := main_v133) (y := main_v134) (f := (addf : (⟨S64x64, .f32⟩ : BufTy).Contents (Elt F) → (⟨S64x64, .f32⟩ : BufTy).Contents (Elt F) → (⟨S64x64, .f32⟩ : BufTy).Contents (Elt F))) writes2 46 rfl (by decide) (by decide) (by decide) U
theorem s_main_call5_cst (U : Valuation τ sig (Elt F)) : (after (ops2 (F := F)) U (Proc.devRef .tc main_call5_cst)) = (constant (F := F) S_ .f32 0x00000000#32) :=
  Cert.Lib.ReadFinal.nullary (y := main_call5_cst) (v := (constant (F := F) S_ .f32 0x00000000#32)) writes2 47 rfl (by decide) U
theorem s_main_call5_v0 (U : Valuation τ sig (Elt F)) : (after (ops2 (F := F)) U (Proc.devRef .tc main_call5_v0)) = ((broadcastInDim S64x64 ![] bcast_S_S64x64) : (⟨S_, .f32⟩ : BufTy).Contents (Elt F) → (⟨S64x64, .f32⟩ : BufTy).Contents (Elt F)) (after (ops2 (F := F)) U (Proc.devRef .tc main_call5_cst)) :=
  Cert.Lib.ReadFinal.unary (x := main_call5_cst) (y := main_call5_v0) (f := ((broadcastInDim S64x64 ![] bcast_S_S64x64) : (⟨S_, .f32⟩ : BufTy).Contents (Elt F) → (⟨S64x64, .f32⟩ : BufTy).Contents (Elt F))) writes2 48 rfl (by decide) (by decide) U
theorem s_main_v135 (U : Valuation τ sig (Elt F)) : (after (ops2 (F := F)) U (Proc.devRef .tc main_v135)) = (maximumf : (⟨S64x64, .f32⟩ : BufTy).Contents (Elt F) → (⟨S64x64, .f32⟩ : BufTy).Contents (Elt F) → (⟨S64x64, .f32⟩ : BufTy).Contents (Elt F)) (after (ops2 (F := F)) U (Proc.devRef .tc main_v134)) (after (ops2 (F := F)) U (Proc.devRef .tc main_call5_v0)) :=
  Cert.Lib.ReadFinal.binary (a := main_v134) (b := main_call5_v0) (y := main_v135) (f := (maximumf : (⟨S64x64, .f32⟩ : BufTy).Contents (Elt F) → (⟨S64x64, .f32⟩ : BufTy).Contents (Elt F) → (⟨S64x64, .f32⟩ : BufTy).Contents (Elt F))) writes2 49 rfl (by decide) (by decide) (by decide) U
theorem s_main_c_28 (U : Valuation τ sig (Elt F)) : (after (ops2 (F := F)) U (Proc.devRef .tc main_c_28)) = (constantI S_ 32 0#32) :=
  Cert.Lib.ReadFinal.nullary (y := main_c_28) (v := (constantI S_ 32 0#32)) writes2 50 rfl (by decide) U
theorem s_main_v136 (U : Valuation τ sig (Elt F)) : (after (ops2 (F := F)) U (Proc.devRef .tc main_v136)) = (broadcastInDim S300000 ![] bcast_S_S300000 : (⟨S_, .i32⟩ : BufTy).Contents (Elt F) → (⟨S300000, .i32⟩ : BufTy).Contents (Elt F)) (after (ops2 (F := F)) U (Proc.devRef .tc main_c_28)) :=
  Cert.Lib.ReadFinal.unary (x := main_c_28) (y := main_v136) (f := (broadcastInDim S300000 ![] bcast_S_S300000 : (⟨S_, .i32⟩ : BufTy).Contents (Elt F) → (⟨S300000, .i32⟩ : BufTy).Contents (Elt F))) writes2 51 rfl (by decide) (by decide) U
theorem s_main_v137 (U : Valuation τ sig (Elt F)) : (after (ops2 (F := F)) U (Proc.devRef .tc main_v137)) = (cmpi .slt : (⟨S300000, .i32⟩ : BufTy).Contents (Elt F) → (⟨S300000, .i32⟩ : BufTy).Contents (Elt F) → (⟨S300000, .i1⟩ : BufTy).Contents (Elt F)) (after (ops2 (F := F)) U (Proc.devRef .tc main_v1)) (after (ops2 (F := F)) U (Proc.devRef .tc main_v136)) :=
  Cert.Lib.ReadFinal.binary (a := main_v1) (b := main_v136) (y := main_v137) (f := (cmpi .slt : (⟨S300000, .i32⟩ : BufTy).Contents (Elt F) → (⟨S300000, .i32⟩ : BufTy).Contents (Elt F) → (⟨S300000, .i1⟩ : BufTy).Contents (Elt F))) writes2 52 rfl (by decide) (by decide) (by decide) U
theorem s_main_c_29 (U : Valuation τ sig (Elt F)) : (after (ops2 (F := F)) U (Proc.devRef .tc main_c_29)) = (constantI S_ 32 30000#32) :=
  Cert.Lib.ReadFinal.nullary (y := main_c_29) (v := (constantI S_ 32 30000#32)) writes2 53 rfl (by decide) U
theorem s_main_v138 (U : Valuation τ sig (Elt F)) : (after (ops2 (F := F)) U (Proc.devRef .tc main_v138)) = (broadcastInDim S300000 ![] bcast_S_S300000 : (⟨S_, .i32⟩ : BufTy).Contents (Elt F) → (⟨S300000, .i32⟩ : BufTy).Contents (Elt F)) (after (ops2 (F := F)) U (Proc.devRef .tc main_c_29)) :=
  Cert.Lib.ReadFinal.unary (x := main_c_29) (y := main_v138) (f := (broadcastInDim S300000 ![] bcast_S_S300000 : (⟨S_, .i32⟩ : BufTy).Contents (Elt F) → (⟨S300000, .i32⟩ : BufTy).Contents (Elt F))) writes2 54 rfl (by decide) (by decide) U
theorem s_main_v139 (U : Valuation τ sig (Elt F)) : (after (ops2 (F := F)) U (Proc.devRef .tc main_v139)) = (addi : (⟨S300000, .i32⟩ : BufTy).Contents (Elt F) → (⟨S300000, .i32⟩ : BufTy).Contents (Elt F) → (⟨S300000, .i32⟩ : BufTy).Contents (Elt F)) (after (ops2 (F := F)) U (Proc.devRef .tc main_v1)) (after (ops2 (F := F)) U (Proc.devRef .tc main_v138)) :=
  Cert.Lib.ReadFinal.binary (a := main_v1) (b := main_v138) (y := main_v139) (f := (addi : (⟨S300000, .i32⟩ : BufTy).Contents (Elt F) → (⟨S300000, .i32⟩ : BufTy).Contents (Elt F) → (⟨S300000, .i32⟩ : BufTy).Contents (Elt F))) writes2 55 rfl (by decide) (by decide) (by decide) U
theorem s_main_v140 (U : Valuation τ sig (Elt F)) : (after (ops2 (F := F)) U (Proc.devRef .tc main_v140)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops2 (F := F)) U (Proc.devRef .tc main_v137)) (after (ops2 (F := F)) U (Proc.devRef .tc main_v139)) (after (ops2 (F := F)) U (Proc.devRef .tc main_v1)) :=
  Cert.Lib.ReadFinal.ternary (c := main_v137) (a := main_v139) (b := main_v1) (y := main_v140) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes2 56 rfl (by decide) (by decide) (by decide) (by decide) U
theorem s_main_v141 (U : Valuation τ sig (Elt F)) : (after (ops2 (F := F)) U (Proc.devRef .tc main_v141)) = (broadcastInDim S300000x1 ![0] bcast_S300000_S300000x1_0 : (⟨S300000, .i32⟩ : BufTy).Contents (Elt F) → (⟨S300000x1, .i32⟩ : BufTy).Contents (Elt F)) (after (ops2 (F := F)) U (Proc.devRef .tc main_v140)) :=
  Cert.Lib.ReadFinal.unary (x := main_v140) (y := main_v141) (f := (broadcastInDim S300000x1 ![0] bcast_S300000_S300000x1_0 : (⟨S300000, .i32⟩ : BufTy).Contents (Elt F) → (⟨S300000x1, .i32⟩ : BufTy).Contents (Elt F))) writes2 57 rfl (by decide) (by decide) U
theorem s_main_v142 (U : Valuation τ sig (Elt F)) : (after (ops2 (F := F)) U (Proc.devRef .tc main_v142)) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops2 (F := F)) U (Proc.devRef .tc main_v118)) (after (ops2 (F := F)) U (Proc.devRef .tc main_v141)) :=
  Cert.Lib.ReadFinal.binary (a := main_v118) (b := main_v141) (y := main_v142) (f := ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F))) writes2 58 rfl (by decide) (by decide) (by decide) U
theorem s_main_c_30 (U : Valuation τ sig (Elt F)) : (after (ops2 (F := F)) U (Proc.devRef .tc main_c_30)) = (constantI S_ 32 0#32) :=
  Cert.Lib.ReadFinal.nullary (y := main_c_30) (v := (constantI S_ 32 0#32)) writes2 59 rfl (by decide) U
theorem s_main_v143 (U : Valuation τ sig (Elt F)) : (after (ops2 (F := F)) U (Proc.devRef .tc main_v143)) = (broadcastInDim S300000 ![] bcast_S_S300000 : (⟨S_, .i32⟩ : BufTy).Contents (Elt F) → (⟨S300000, .i32⟩ : BufTy).Contents (Elt F)) (after (ops2 (F := F)) U (Proc.devRef .tc main_c_30)) :=
  Cert.Lib.ReadFinal.unary (x := main_c_30) (y := main_v143) (f := (broadcastInDim S300000 ![] bcast_S_S300000 : (⟨S_, .i32⟩ : BufTy).Contents (Elt F) → (⟨S300000, .i32⟩ : BufTy).Contents (Elt F))) writes2 60 rfl (by decide) (by decide) U
theorem s_main_v144 (U : Valuation τ sig (Elt F)) : (after (ops2 (F := F)) U (Proc.devRef .tc main_v144)) = (cmpi .slt : (⟨S300000, .i32⟩ : BufTy).Contents (Elt F) → (⟨S300000, .i32⟩ : BufTy).Contents (Elt F) → (⟨S300000, .i1⟩ : BufTy).Contents (Elt F)) (after (ops2 (F := F)) U (Proc.devRef .tc main_v3)) (after (ops2 (F := F)) U (Proc.devRef .tc main_v143)) :=
  Cert.Lib.ReadFinal.binary (a := main_v3) (b := main_v143) (y := main_v144) (f := (cmpi .slt : (⟨S300000, .i32⟩ : BufTy).Contents (Elt F) → (⟨S300000, .i32⟩ : BufTy).Contents (Elt F) → (⟨S300000, .i1⟩ : BufTy).Contents (Elt F))) writes2 61 rfl (by decide) (by decide) (by decide) U
theorem s_main_c_31 (U : Valuation τ sig (Elt F)) : (after (ops2 (F := F)) U (Proc.devRef .tc main_c_31)) = (constantI S_ 32 30000#32) :=
  Cert.Lib.ReadFinal.nullary (y := main_c_31) (v := (constantI S_ 32 30000#32)) writes2 62 rfl (by decide) U
theorem s_main_v145 (U : Valuation τ sig (Elt F)) : (after (ops2 (F := F)) U (Proc.devRef .tc main_v145)) = (broadcastInDim S300000 ![] bcast_S_S300000 : (⟨S_, .i32⟩ : BufTy).Contents (Elt F) → (⟨S300000, .i32⟩ : BufTy).Contents (Elt F)) (after (ops2 (F := F)) U (Proc.devRef .tc main_c_31)) :=
  Cert.Lib.ReadFinal.unary (x := main_c_31) (y := main_v145) (f := (broadcastInDim S300000 ![] bcast_S_S300000 : (⟨S_, .i32⟩ : BufTy).Contents (Elt F) → (⟨S300000, .i32⟩ : BufTy).Contents (Elt F))) writes2 63 rfl (by decide) (by decide) U

end Cert.ReferenceIdeal.Hand

end
-- ==== Proof.Ref.Lift2.lean ====
-- written by: gen_ref.js <unit directory>
/- The buffers window 2 of the reference program's @main writes are written by no later window: each holds at the end of @main what it held at every boundary after window 2. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_v98 (V : Valuation τ sig (Elt F)) : (after (ops (F := F)) V (Proc.devRef .tc main_v98)) = (U6 V (Proc.devRef .tc main_v98)) := congrFun (after_ops_eq V) _
theorem lift5_main_v98 (V : Valuation τ sig (Elt F)) : (after (ops (F := F)) V (Proc.devRef .tc main_v98)) = (U5 V (Proc.devRef .tc main_v98)) :=
  (lift6_main_v98 V).trans (after_of_not_mem writes5 (by decide) (U5 V))
theorem lift4_main_v98 (V : Valuation τ sig (Elt F)) : (after (ops (F := F)) V (Proc.devRef .tc main_v98)) = (U4 V (Proc.devRef .tc main_v98)) :=
  (lift5_main_v98 V).trans (after_of_not_mem writes4 (by decide) (U4 V))
theorem lift3_main_v98 (V : Valuation τ sig (Elt F)) : (after (ops (F := F)) V (Proc.devRef .tc main_v98)) = (U3 V (Proc.devRef .tc main_v98)) :=
  (lift4_main_v98 V).trans (after_of_not_mem writes3 (by decide) (U3 V))
theorem lift6_main_cst_20 (V : Valuation τ sig (Elt F)) : (after (ops (F := F)) V (Proc.devRef .tc main_cst_20)) = (U6 V (Proc.devRef .tc main_cst_20)) := congrFun (after_ops_eq V) _
theorem lift5_main_cst_20 (V : Valuation τ sig (Elt F)) : (after (ops (F := F)) V (Proc.devRef .tc main_cst_20)) = (U5 V (Proc.devRef .tc main_cst_20)) :=
  (lift6_main_cst_20 V).trans (after_of_not_mem writes5 (by decide) (U5 V))
theorem lift4_main_cst_20 (V : Valuation τ sig (Elt F)) : (after (ops (F := F)) V (Proc.devRef .tc main_cst_20)) = (U4 V (Proc.devRef .tc main_cst_20)) :=
  (lift5_main_cst_20 V).trans (after_of_not_mem writes4 (by decide) (U4 V))
theorem lift3_main_cst_20 (V : Valuation τ sig (Elt F)) : (after (ops (F := F)) V (Proc.devRef .tc main_cst_20)) = (U3 V (Proc.devRef .tc main_cst_20)) :=
  (lift4_main_cst_20 V).trans (after_of_not_mem writes3 (by decide) (U3 V))
theorem lift6_main_v99 (V : Valuation τ sig (Elt F)) : (after (ops (F := F)) V (Proc.devRef .tc main_v99)) = (U6 V (Proc.devRef .tc main_v99)) := congrFun (after_ops_eq V) _
theorem lift5_main_v99 (V : Valuation τ sig (Elt F)) : (after (ops (F := F)) V (Proc.devRef .tc main_v99)) = (U5 V (Proc.devRef .tc main_v99)) :=
  (lift6_main_v99 V).trans (after_of_not_mem writes5 (by decide) (U5 V))
theorem lift4_main_v99 (V : Valuation τ sig (Elt F)) : (after (ops (F := F)) V (Proc.devRef .tc main_v99)) = (U4 V (Proc.devRef .tc main_v99)) :=
  (lift5_main_v99 V).trans (after_of_not_mem writes4 (by decide) (U4 V))
theorem lift3_main_v99 (V : Valuation τ sig (Elt F)) : (after (ops (F := F)) V (Proc.devRef .tc main_v99)) = (U3 V (Proc.devRef .tc main_v99)) :=
  (lift4_main_v99 V).trans (after_of_not_mem writes3 (by decide) (U3 V))
theorem lift6_main_v100 (V : Valuation τ sig (Elt F)) : (after (ops (F := F)) V (Proc.devRef .tc main_v100)) = (U6 V (Proc.devRef .tc main_v100)) := congrFun (after_ops_eq V) _
theorem lift5_main_v100 (V : Valuation τ sig (Elt F)) : (after (ops (F := F)) V (Proc.devRef .tc main_v100)) = (U5 V (Proc.devRef .tc main_v100)) :=
  (lift6_main_v100 V).trans (after_of_not_mem writes5 (by decide) (U5 V))
theorem lift4_main_v100 (V : Valuation τ sig (Elt F)) : (after (ops (F := F)) V (Proc.devRef .tc main_v100)) = (U4 V (Proc.devRef .tc main_v100)) :=
  (lift5_main_v100 V).trans (after_of_not_mem writes4 (by decide) (U4 V))
theorem lift3_main_v100 (V : Valuation τ sig (Elt F)) : (after (ops (F := F)) V (Proc.devRef .tc main_v100)) = (U3 V (Proc.devRef .tc main_v100)) :=
  (lift4_main_v100 V).trans (after_of_not_mem writes3 (by decide) (U3 V))
theorem lift6_main_v101 (V : Valuation τ sig (Elt F)) : (after (ops (F := F)) V (Proc.devRef .tc main_v101)) = (U6 V (Proc.devRef .tc main_v101)) := congrFun (after_ops_eq V) _
theorem lift5_main_v101 (V : Valuation τ sig (Elt F)) : (after (ops (F := F)) V (Proc.devRef .tc main_v101)) = (U5 V (Proc.devRef .tc main_v101)) :=
  (lift6_main_v101 V).trans (after_of_not_mem writes5 (by decide) (U5 V))
theorem lift4_main_v101 (V : Valuation τ sig (Elt F)) : (after (ops (F := F)) V (Proc.devRef .tc main_v101)) = (U4 V (Proc.devRef .tc main_v101)) :=
  (lift5_main_v101 V).trans (after_of_not_mem writes4 (by decide) (U4 V))
theorem lift3_main_v101 (V : Valuation τ sig (Elt F)) : (after (ops (F := F)) V (Proc.devRef .tc main_v101)) = (U3 V (Proc.devRef .tc main_v101)) :=
  (lift4_main_v101 V).trans (after_of_not_mem writes3 (by decide) (U3 V))
theorem lift6_main_cst_21 (V : Valuation τ sig (Elt F)) : (after (ops (F := F)) V (Proc.devRef .tc main_cst_21)) = (U6 V (Proc.devRef .tc main_cst_21)) := congrFun (after_ops_eq V) _
theorem lift5_main_cst_21 (V : Valuation τ sig (Elt F)) : (after (ops (F := F)) V (Proc.devRef .tc main_cst_21)) = (U5 V (Proc.devRef .tc main_cst_21)) :=
  (lift6_main_cst_21 V).trans (after_of_not_mem writes5 (by decide) (U5 V))
theorem lift4_main_cst_21 (V : Valuation τ sig (Elt F)) : (after (ops (F := F)) V (Proc.devRef .tc main_cst_21)) = (U4 V (Proc.devRef .tc main_cst_21)) :=
  (lift5_main_cst_21 V).trans (after_of_not_mem writes4 (by decide) (U4 V))
theorem lift3_main_cst_21 (V : Valuation τ sig (Elt F)) : (after (ops (F := F)) V (Proc.devRef .tc main_cst_21)) = (U3 V (Proc.devRef .tc main_cst_21)) :=
  (lift4_main_cst_21 V).trans (after_of_not_mem writes3 (by decide) (U3 V))
theorem lift6_main_v102 (V : Valuation τ sig (Elt F)) : (after (ops (F := F)) V (Proc.devRef .tc main_v102)) = (U6 V (Proc.devRef .tc main_v102)) := congrFun (after_ops_eq V) _
theorem lift5_main_v102 (V : Valuation τ sig (Elt F)) : (after (ops (F := F)) V (Proc.devRef .tc main_v102)) = (U5 V (Proc.devRef .tc main_v102)) :=
  (lift6_main_v102 V).trans (after_of_not_mem writes5 (by decide) (U5 V))
theorem lift4_main_v102 (V : Valuation τ sig (Elt F)) : (after (ops (F := F)) V (Proc.devRef .tc main_v102)) = (U4 V (Proc.devRef .tc main_v102)) :=
  (lift5_main_v102 V).trans (after_of_not_mem writes4 (by decide) (U4 V))
theorem lift3_main_v102 (V : Valuation τ sig (Elt F)) : (after (ops (F := F)) V (Proc.devRef .tc main_v102)) = (U3 V (Proc.devRef .tc main_v102)) :=
  (lift4_main_v102 V).trans (after_of_not_mem writes3 (by decide) (U3 V))
theorem lift6_main_v103 (V : Valuation τ sig (Elt F)) : (after (ops (F := F)) V (Proc.devRef .tc main_v103)) = (U6 V (Proc.devRef .tc main_v103)) := congrFun (after_ops_eq V) _
theorem lift5_main_v103 (V : Valuation τ sig (Elt F)) : (after (ops (F := F)) V (Proc.devRef .tc main_v103)) = (U5 V (Proc.devRef .tc main_v103)) :=
  (lift6_main_v103 V).trans (after_of_not_mem writes5 (by decide) (U5 V))
theorem lift4_main_v103 (V : Valuation τ sig (Elt F)) : (after (ops (F := F)) V (Proc.devRef .tc main_v103)) = (U4 V (Proc.devRef .tc main_v103)) :=
  (lift5_main_v103 V).trans (after_of_not_mem writes4 (by decide) (U4 V))
theorem lift3_main_v103 (V : Valuation τ sig (Elt F)) : (after (ops (F := F)) V (Proc.devRef .tc main_v103)) = (U3 V (Proc.devRef .tc main_v103)) :=
  (lift4_main_v103 V).trans (after_of_not_mem writes3 (by decide) (U3 V))
theorem lift6_main_v104 (V : Valuation τ sig (Elt F)) : (after (ops (F := F)) V (Proc.devRef .tc main_v104)) = (U6 V (Proc.devRef .tc main_v104)) := congrFun (after_ops_eq V) _
theorem lift5_main_v104 (V : Valuation τ sig (Elt F)) : (after (ops (F := F)) V (Proc.devRef .tc main_v104)) = (U5 V (Proc.devRef .tc main_v104)) :=
  (lift6_main_v104 V).trans (after_of_not_mem writes5 (by decide) (U5 V))
theorem lift4_main_v104 (V : Valuation τ sig (Elt F)) : (after (ops (F := F)) V (Proc.devRef .tc main_v104)) = (U4 V (Proc.devRef .tc main_v104)) :=
  (lift5_main_v104 V).trans (after_of_not_mem writes4 (by decide) (U4 V))
theorem lift3_main_v104 (V : Valuation τ sig (Elt F)) : (after (ops (F := F)) V (Proc.devRef .tc main_v104)) = (U3 V (Proc.devRef .tc main_v104)) :=
  (lift4_main_v104 V).trans (after_of_not_mem writes3 (by decide) (U3 V))
theorem lift6_main_v105 (V : Valuation τ sig (Elt F)) : (after (ops (F := F)) V (Proc.devRef .tc main_v105)) = (U6 V (Proc.devRef .tc main_v105)) := congrFun (after_ops_eq V) _
theorem lift5_main_v105 (V : Valuation τ sig (Elt F)) : (after (ops (F := F)) V (Proc.devRef .tc main_v105)) = (U5 V (Proc.devRef .tc main_v105)) :=
  (lift6_main_v105 V).trans (after_of_not_mem writes5 (by decide) (U5 V))
theorem lift4_main_v105 (V : Valuation τ sig (Elt F)) : (after (ops (F := F)) V (Proc.devRef .tc main_v105)) = (U4 V (Proc.devRef .tc main_v105)) :=
  (lift5_main_v105 V).trans (after_of_not_mem writes4 (by decide) (U4 V))
theorem lift3_main_v105 (V : Valuation τ sig (Elt F)) : (after (ops (F := F)) V (Proc.devRef .tc main_v105)) = (U3 V (Proc.devRef .tc main_v105)) :=
  (lift4_main_v105 V).trans (after_of_not_mem writes3 (by decide) (U3 V))
theorem lift6_main_c_22 (V : Valuation τ sig (Elt F)) : (after (ops (F := F)) V (Proc.devRef .tc main_c_22)) = (U6 V (Proc.devRef .tc main_c_22)) := congrFun (after_ops_eq V) _
theorem lift5_main_c_22 (V : Valuation τ sig (Elt F)) : (after (ops (F := F)) V (Proc.devRef .tc main_c_22)) = (U5 V (Proc.devRef .tc main_c_22)) :=
  (lift6_main_c_22 V).trans (after_of_not_mem writes5 (by decide) (U5 V))
theorem lift4_main_c_22 (V : Valuation τ sig (Elt F)) : (after (ops (F := F)) V (Proc.devRef .tc main_c_22)) = (U4 V (Proc.devRef .tc main_c_22)) :=
  (lift5_main_c_22 V).trans (after_of_not_mem writes4 (by decide) (U4 V))
theorem lift3_main_c_22 (V : Valuation τ sig (Elt F)) : (after (ops (F := F)) V (Proc.devRef .tc main_c_22)) = (U3 V (Proc.devRef .tc main_c_22)) :=
  (lift4_main_c_22 V).trans (after_of_not_mem writes3 (by decide) (U3 V))
theorem lift6_main_v106 (V : Valuation τ sig (Elt F)) : (after (ops (F := F)) V (Proc.devRef .tc main_v106)) = (U6 V (Proc.devRef .tc main_v106)) := congrFun (after_ops_eq V) _
theorem lift5_main_v106 (V : Valuation τ sig (Elt F)) : (after (ops (F := F)) V (Proc.devRef .tc main_v106)) = (U5 V (Proc.devRef .tc main_v106)) :=
  (lift6_main_v106 V).trans (after_of_not_mem writes5 (by decide) (U5 V))
theorem lift4_main_v106 (V : Valuation τ sig (Elt F)) : (after (ops (F := F)) V (Proc.devRef .tc main_v106)) = (U4 V (Proc.devRef .tc main_v106)) :=
  (lift5_main_v106 V).trans (after_of_not_mem writes4 (by decide) (U4 V))
theorem lift3_main_v106 (V : Valuation τ sig (Elt F)) : (after (ops (F := F)) V (Proc.devRef .tc main_v106)) = (U3 V (Proc.devRef .tc main_v106)) :=
  (lift4_main_v106 V).trans (after_of_not_mem writes3 (by decide) (U3 V))
theorem lift6_main_v107 (V : Valuation τ sig (Elt F)) : (after (ops (F := F)) V (Proc.devRef .tc main_v107)) = (U6 V (Proc.devRef .tc main_v107)) := congrFun (after_ops_eq V) _
theorem lift5_main_v107 (V : Valuation τ sig (Elt F)) : (after (ops (F := F)) V (Proc.devRef .tc main_v107)) = (U5 V (Proc.devRef .tc main_v107)) :=
  (lift6_main_v107 V).trans (after_of_not_mem writes5 (by decide) (U5 V))
theorem lift4_main_v107 (V : Valuation τ sig (Elt F)) : (after (ops (F := F)) V (Proc.devRef .tc main_v107)) = (U4 V (Proc.devRef .tc main_v107)) :=
  (lift5_main_v107 V).trans (after_of_not_mem writes4 (by decide) (U4 V))
theorem lift3_main_v107 (V : Valuation τ sig (Elt F)) : (after (ops (F := F)) V (Proc.devRef .tc main_v107)) = (U3 V (Proc.devRef .tc main_v107)) :=
  (lift4_main_v107 V).trans (after_of_not_mem writes3 (by decide) (U3 V))
theorem lift6_main_c_23 (V : Valuation τ sig (Elt F)) : (after (ops (F := F)) V (Proc.devRef .tc main_c_23)) = (U6 V (Proc.devRef .tc main_c_23)) := congrFun (after_ops_eq V) _
theorem lift5_main_c_23 (V : Valuation τ sig (Elt F)) : (after (ops (F := F)) V (Proc.devRef .tc main_c_23)) = (U5 V (Proc.devRef .tc main_c_23)) :=
  (lift6_main_c_23 V).trans (after_of_not_mem writes5 (by decide) (U5 V))
theorem lift4_main_c_23 (V : Valuation τ sig (Elt F)) : (after (ops (F := F)) V (Proc.devRef .tc main_c_23)) = (U4 V (Proc.devRef .tc main_c_23)) :=
  (lift5_main_c_23 V).trans (after_of_not_mem writes4 (by decide) (U4 V))
theorem lift3_main_c_23 (V : Valuation τ sig (Elt F)) : (after (ops (F := F)) V (Proc.devRef .tc main_c_23)) = (U3 V (Proc.devRef .tc main_c_23)) :=
  (lift4_main_c_23 V).trans (after_of_not_mem writes3 (by decide) (U3 V))
theorem lift6_main_v108 (V : Valuation τ sig (Elt F)) : (after (ops (F := F)) V (Proc.devRef .tc main_v108)) = (U6 V (Proc.devRef .tc main_v108)) := congrFun (after_ops_eq V) _
theorem lift5_main_v108 (V : Valuation τ sig (Elt F)) : (after (ops (F := F)) V (Proc.devRef .tc main_v108)) = (U5 V (Proc.devRef .tc main_v108)) :=
  (lift6_main_v108 V).trans (after_of_not_mem writes5 (by decide) (U5 V))
theorem lift4_main_v108 (V : Valuation τ sig (Elt F)) : (after (ops (F := F)) V (Proc.devRef .tc main_v108)) = (U4 V (Proc.devRef .tc main_v108)) :=
  (lift5_main_v108 V).trans (after_of_not_mem writes4 (by decide) (U4 V))
theorem lift3_main_v108 (V : Valuation τ sig (Elt F)) : (after (ops (F := F)) V (Proc.devRef .tc main_v108)) = (U3 V (Proc.devRef .tc main_v108)) :=
  (lift4_main_v108 V).trans (after_of_not_mem writes3 (by decide) (U3 V))
theorem lift6_main_v109 (V : Valuation τ sig (Elt F)) : (after (ops (F := F)) V (Proc.devRef .tc main_v109)) = (U6 V (Proc.devRef .tc main_v109)) := congrFun (after_ops_eq V) _
theorem lift5_main_v109 (V : Valuation τ sig (Elt F)) : (after (ops (F := F)) V (Proc.devRef .tc main_v109)) = (U5 V (Proc.devRef .tc main_v109)) :=
  (lift6_main_v109 V).trans (after_of_not_mem writes5 (by decide) (U5 V))
theorem lift4_main_v109 (V : Valuation τ sig (Elt F)) : (after (ops (F := F)) V (Proc.devRef .tc main_v109)) = (U4 V (Proc.devRef .tc main_v109)) :=
  (lift5_main_v109 V).trans (after_of_not_mem writes4 (by decide) (U4 V))
theorem lift3_main_v109 (V : Valuation τ sig (Elt F)) : (after (ops (F := F)) V (Proc.devRef .tc main_v109)) = (U3 V (Proc.devRef .tc main_v109)) :=
  (lift4_main_v109 V).trans (after_of_not_mem writes3 (by decide) (U3 V))
theorem lift6_main_v110 (V : Valuation τ sig (Elt F)) : (after (ops (F := F)) V (Proc.devRef .tc main_v110)) = (U6 V (Proc.devRef .tc main_v110)) := congrFun (after_ops_eq V) _
theorem lift5_main_v110 (V : Valuation τ sig (Elt F)) : (after (ops (F := F)) V (Proc.devRef .tc main_v110)) = (U5 V (Proc.devRef .tc main_v110)) :=
  (lift6_main_v110 V).trans (after_of_not_mem writes5 (by decide) (U5 V))
theorem lift4_main_v110 (V : Valuation τ sig (Elt F)) : (after (ops (F := F)) V (Proc.devRef .tc main_v110)) = (U4 V (Proc.devRef .tc main_v110)) :=
  (lift5_main_v110 V).trans (after_of_not_mem writes4 (by decide) (U4 V))
theorem lift3_main_v110 (V : Valuation τ sig (Elt F)) : (after (ops (F := F)) V (Proc.devRef .tc main_v110)) = (U3 V (Proc.devRef .tc main_v110)) :=
  (lift4_main_v110 V).trans (after_of_not_mem writes3 (by decide) (U3 V))
theorem lift6_main_v111 (V : Valuation τ sig (Elt F)) : (after (ops (F := F)) V (Proc.devRef .tc main_v111)) = (U6 V (Proc.devRef .tc main_v111)) := congrFun (after_ops_eq V) _
theorem lift5_main_v111 (V : Valuation τ sig (Elt F)) : (after (ops (F := F)) V (Proc.devRef .tc main_v111)) = (U5 V (Proc.devRef .tc main_v111)) :=
  (lift6_main_v111 V).trans (after_of_not_mem writes5 (by decide) (U5 V))
theorem lift4_main_v111 (V : Valuation τ sig (Elt F)) : (after (ops (F := F)) V (Proc.devRef .tc main_v111)) = (U4 V (Proc.devRef .tc main_v111)) :=
  (lift5_main_v111 V).trans (after_of_not_mem writes4 (by decide) (U4 V))
theorem lift3_main_v111 (V : Valuation τ sig (Elt F)) : (after (ops (F := F)) V (Proc.devRef .tc main_v111)) = (U3 V (Proc.devRef .tc main_v111)) :=
  (lift4_main_v111 V).trans (after_of_not_mem writes3 (by decide) (U3 V))
theorem lift6_main_v112 (V : Valuation τ sig (Elt F)) : (after (ops (F := F)) V (Proc.devRef .tc main_v112)) = (U6 V (Proc.devRef .tc main_v112)) := congrFun (after_ops_eq V) _
theorem lift5_main_v112 (V : Valuation τ sig (Elt F)) : (after (ops (F := F)) V (Proc.devRef .tc main_v112)) = (U5 V (Proc.devRef .tc main_v112)) :=
  (lift6_main_v112 V).trans (after_of_not_mem writes5 (by decide) (U5 V))
theorem lift4_main_v112 (V : Valuation τ sig (Elt F)) : (after (ops (F := F)) V (Proc.devRef .tc main_v112)) = (U4 V (Proc.devRef .tc main_v112)) :=
  (lift5_main_v112 V).trans (after_of_not_mem writes4 (by decide) (U4 V))
theorem lift3_main_v112 (V : Valuation τ sig (Elt F)) : (after (ops (F := F)) V (Proc.devRef .tc main_v112)) = (U3 V (Proc.devRef .tc main_v112)) :=
  (lift4_main_v112 V).trans (after_of_not_mem writes3 (by decide) (U3 V))
theorem lift6_main_v113 (V : Valuation τ sig (Elt F)) : (after (ops (F := F)) V (Proc.devRef .tc main_v113)) = (U6 V (Proc.devRef .tc main_v113)) := congrFun (after_ops_eq V) _
theorem lift5_main_v113 (V : Valuation τ sig (Elt F)) : (after (ops (F := F)) V (Proc.devRef .tc main_v113)) = (U5 V (Proc.devRef .tc main_v113)) :=
  (lift6_main_v113 V).trans (after_of_not_mem writes5 (by decide) (U5 V))
theorem lift4_main_v113 (V : Valuation τ sig (Elt F)) : (after (ops (F := F)) V (Proc.devRef .tc main_v113)) = (U4 V (Proc.devRef .tc main_v113)) :=
  (lift5_main_v113 V).trans (after_of_not_mem writes4 (by decide) (U4 V))
theorem lift3_main_v113 (V : Valuation τ sig (Elt F)) : (after (ops (F := F)) V (Proc.devRef .tc main_v113)) = (U3 V (Proc.devRef .tc main_v113)) :=
  (lift4_main_v113 V).trans (after_of_not_mem writes3 (by decide) (U3 V))
theorem lift6_main_v114 (V : Valuation τ sig (Elt F)) : (after (ops (F := F)) V (Proc.devRef .tc main_v114)) = (U6 V (Proc.devRef .tc main_v114)) := congrFun (after_ops_eq V) _
theorem lift5_main_v114 (V : Valuation τ sig (Elt F)) : (after (ops (F := F)) V (Proc.devRef .tc main_v114)) = (U5 V (Proc.devRef .tc main_v114)) :=
  (lift6_main_v114 V).trans (after_of_not_mem writes5 (by decide) (U5 V))
theorem lift4_main_v114 (V : Valuation τ sig (Elt F)) : (after (ops (F := F)) V (Proc.devRef .tc main_v114)) = (U4 V (Proc.devRef .tc main_v114)) :=
  (lift5_main_v114 V).trans (after_of_not_mem writes4 (by decide) (U4 V))
theorem lift3_main_v114 (V : Valuation τ sig (Elt F)) : (after (ops (F := F)) V (Proc.devRef .tc main_v114)) = (U3 V (Proc.devRef .tc main_v114)) :=
  (lift4_main_v114 V).trans (after_of_not_mem writes3 (by decide) (U3 V))
theorem lift6_main_v115 (V : Valuation τ sig (Elt F)) : (after (ops (F := F)) V (Proc.devRef .tc main_v115)) = (U6 V (Proc.devRef .tc main_v115)) := congrFun (after_ops_eq V) _
theorem lift5_main_v115 (V : Valuation τ sig (Elt F)) : (after (ops (F := F)) V (Proc.devRef .tc main_v115)) = (U5 V (Proc.devRef .tc main_v115)) :=
  (lift6_main_v115 V).trans (after_of_not_mem writes5 (by decide) (U5 V))
theorem lift4_main_v115 (V : Valuation τ sig (Elt F)) : (after (ops (F := F)) V (Proc.devRef .tc main_v115)) = (U4 V (Proc.devRef .tc main_v115)) :=
  (lift5_main_v115 V).trans (after_of_not_mem writes4 (by decide) (U4 V))
theorem lift3_main_v115 (V : Valuation τ sig (Elt F)) : (after (ops (F := F)) V (Proc.devRef .tc main_v115)) = (U3 V (Proc.devRef .tc main_v115)) :=
  (lift4_main_v115 V).trans (after_of_not_mem writes3 (by decide) (U3 V))
theorem lift6_main_v116 (V : Valuation τ sig (Elt F)) : (after (ops (F := F)) V (Proc.devRef .tc main_v116)) = (U6 V (Proc.devRef .tc main_v116)) := congrFun (after_ops_eq V) _
theorem lift5_main_v116 (V : Valuation τ sig (Elt F)) : (after (ops (F := F)) V (Proc.devRef .tc main_v116)) = (U5 V (Proc.devRef .tc main_v116)) :=
  (lift6_main_v116 V).trans (after_of_not_mem writes5 (by decide) (U5 V))
theorem lift4_main_v116 (V : Valuation τ sig (Elt F)) : (after (ops (F := F)) V (Proc.devRef .tc main_v116)) = (U4 V (Proc.devRef .tc main_v116)) :=
  (lift5_main_v116 V).trans (after_of_not_mem writes4 (by decide) (U4 V))
theorem lift3_main_v116 (V : Valuation τ sig (Elt F)) : (after (ops (F := F)) V (Proc.devRef .tc main_v116)) = (U3 V (Proc.devRef .tc main_v116)) :=
  (lift4_main_v116 V).trans (after_of_not_mem writes3 (by decide) (U3 V))
theorem lift6_main_v117 (V : Valuation τ sig (Elt F)) : (after (ops (F := F)) V (Proc.devRef .tc main_v117)) = (U6 V (Proc.devRef .tc main_v117)) := congrFun (after_ops_eq V) _
theorem lift5_main_v117 (V : Valuation τ sig (Elt F)) : (after (ops (F := F)) V (Proc.devRef .tc main_v117)) = (U5 V (Proc.devRef .tc main_v117)) :=
  (lift6_main_v117 V).trans (after_of_not_mem writes5 (by decide) (U5 V))
theorem lift4_main_v117 (V : Valuation τ sig (Elt F)) : (after (ops (F := F)) V (Proc.devRef .tc main_v117)) = (U4 V (Proc.devRef .tc main_v117)) :=
  (lift5_main_v117 V).trans (after_of_not_mem writes4 (by decide) (U4 V))
theorem lift3_main_v117 (V : Valuation τ sig (Elt F)) : (after (ops (F := F)) V (Proc.devRef .tc main_v117)) = (U3 V (Proc.devRef .tc main_v117)) :=
  (lift4_main_v117 V).trans (after_of_not_mem writes3 (by decide) (U3 V))
theorem lift6_main_call4_cst (V : Valuation τ sig (Elt F)) : (after (ops (F := F)) V (Proc.devRef .tc main_call4_cst)) = (U6 V (Proc.devRef .tc main_call4_cst)) := congrFun (after_ops_eq V) _
theorem lift5_main_call4_cst (V : Valuation τ sig (Elt F)) : (after (ops (F := F)) V (Proc.devRef .tc main_call4_cst)) = (U5 V (Proc.devRef .tc main_call4_cst)) :=
  (lift6_main_call4_cst V).trans (after_of_not_mem writes5 (by decide) (U5 V))
theorem lift4_main_call4_cst (V : Valuation τ sig (Elt F)) : (after (ops (F := F)) V (Proc.devRef .tc main_call4_cst)) = (U4 V (Proc.devRef .tc main_call4_cst)) :=
  (lift5_main_call4_cst V).trans (after_of_not_mem writes4 (by decide) (U4 V))
theorem lift3_main_call4_cst (V : Valuation τ sig (Elt F)) : (after (ops (F := F)) V (Proc.devRef .tc main_call4_cst)) = (U3 V (Proc.devRef .tc main_call4_cst)) :=
  (lift4_main_call4_cst V).trans (after_of_not_mem writes3 (by decide) (U3 V))
theorem lift6_main_call4_v0 (V : Valuation τ sig (Elt F)) : (after (ops (F := F)) V (Proc.devRef .tc main_call4_v0)) = (U6 V (Proc.devRef .tc main_call4_v0)) := congrFun (after_ops_eq V) _
theorem lift5_main_call4_v0 (V : Valuation τ sig (Elt F)) : (after (ops (F := F)) V (Proc.devRef .tc main_call4_v0)) = (U5 V (Proc.devRef .tc main_call4_v0)) :=
  (lift6_main_call4_v0 V).trans (after_of_not_mem writes5 (by decide) (U5 V))
theorem lift4_main_call4_v0 (V : Valuation τ sig (Elt F)) : (after (ops (F := F)) V (Proc.devRef .tc main_call4_v0)) = (U4 V (Proc.devRef .tc main_call4_v0)) :=
  (lift5_main_call4_v0 V).trans (after_of_not_mem writes4 (by decide) (U4 V))
theorem lift3_main_call4_v0 (V : Valuation τ sig (Elt F)) : (after (ops (F := F)) V (Proc.devRef .tc main_call4_v0)) = (U3 V (Proc.devRef .tc main_call4_v0)) :=
  (lift4_main_call4_v0 V).trans (after_of_not_mem writes3 (by decide) (U3 V))
theorem lift6_main_v118 (V : Valuation τ sig (Elt F)) : (after (ops (F := F)) V (Proc.devRef .tc main_v118)) = (U6 V (Proc.devRef .tc main_v118)) := congrFun (after_ops_eq V) _
theorem lift5_main_v118 (V : Valuation τ sig (Elt F)) : (after (ops (F := F)) V (Proc.devRef .tc main_v118)) = (U5 V (Proc.devRef .tc main_v118)) :=
  (lift6_main_v118 V).trans (after_of_not_mem writes5 (by decide) (U5 V))
theorem lift4_main_v118 (V : Valuation τ sig (Elt F)) : (after (ops (F := F)) V (Proc.devRef .tc main_v118)) = (U4 V (Proc.devRef .tc main_v118)) :=
  (lift5_main_v118 V).trans (after_of_not_mem writes4 (by decide) (U4 V))
theorem lift3_main_v118 (V : Valuation τ sig (Elt F)) : (after (ops (F := F)) V (Proc.devRef .tc main_v118)) = (U3 V (Proc.devRef .tc main_v118)) :=
  (lift4_main_v118 V).trans (after_of_not_mem writes3 (by decide) (U3 V))
theorem lift6_main_cst_24 (V : Valuation τ sig (Elt F)) : (after (ops (F := F)) V (Proc.devRef .tc main_cst_24)) = (U6 V (Proc.devRef .tc main_cst_24)) := congrFun (after_ops_eq V) _
theorem lift5_main_cst_24 (V : Valuation τ sig (Elt F)) : (after (ops (F := F)) V (Proc.devRef .tc main_cst_24)) = (U5 V (Proc.devRef .tc main_cst_24)) :=
  (lift6_main_cst_24 V).trans (after_of_not_mem writes5 (by decide) (U5 V))
theorem lift4_main_cst_24 (V : Valuation τ sig (Elt F)) : (after (ops (F := F)) V (Proc.devRef .tc main_cst_24)) = (U4 V (Proc.devRef .tc main_cst_24)) :=
  (lift5_main_cst_24 V).trans (after_of_not_mem writes4 (by decide) (U4 V))
theorem lift3_main_cst_24 (V : Valuation τ sig (Elt F)) : (after (ops (F := F)) V (Proc.devRef .tc main_cst_24)) = (U3 V (Proc.devRef .tc main_cst_24)) :=
  (lift4_main_cst_24 V).trans (after_of_not_mem writes3 (by decide) (U3 V))
theorem lift6_main_v119 (V : Valuation τ sig (Elt F)) : (after (ops (F := F)) V (Proc.devRef .tc main_v119)) = (U6 V (Proc.devRef .tc main_v119)) := congrFun (after_ops_eq V) _
theorem lift5_main_v119 (V : Valuation τ sig (Elt F)) : (after (ops (F := F)) V (Proc.devRef .tc main_v119)) = (U5 V (Proc.devRef .tc main_v119)) :=
  (lift6_main_v119 V).trans (after_of_not_mem writes5 (by decide) (U5 V))
theorem lift4_main_v119 (V : Valuation τ sig (Elt F)) : (after (ops (F := F)) V (Proc.devRef .tc main_v119)) = (U4 V (Proc.devRef .tc main_v119)) :=
  (lift5_main_v119 V).trans (after_of_not_mem writes4 (by decide) (U4 V))
theorem lift3_main_v119 (V : Valuation τ sig (Elt F)) : (after (ops (F := F)) V (Proc.devRef .tc main_v119)) = (U3 V (Proc.devRef .tc main_v119)) :=
  (lift4_main_v119 V).trans (after_of_not_mem writes3 (by decide) (U3 V))
theorem lift6_main_v120 (V : Valuation τ sig (Elt F)) : (after (ops (F := F)) V (Proc.devRef .tc main_v120)) = (U6 V (Proc.devRef .tc main_v120)) := congrFun (after_ops_eq V) _
theorem lift5_main_v120 (V : Valuation τ sig (Elt F)) : (after (ops (F := F)) V (Proc.devRef .tc main_v120)) = (U5 V (Proc.devRef .tc main_v120)) :=
  (lift6_main_v120 V).trans (after_of_not_mem writes5 (by decide) (U5 V))
theorem lift4_main_v120 (V : Valuation τ sig (Elt F)) : (after (ops (F := F)) V (Proc.devRef .tc main_v120)) = (U4 V (Proc.devRef .tc main_v120)) :=
  (lift5_main_v120 V).trans (after_of_not_mem writes4 (by decide) (U4 V))
theorem lift3_main_v120 (V : Valuation τ sig (Elt F)) : (after (ops (F := F)) V (Proc.devRef .tc main_v120)) = (U3 V (Proc.devRef .tc main_v120)) :=
  (lift4_main_v120 V).trans (after_of_not_mem writes3 (by decide) (U3 V))
theorem lift6_main_v121 (V : Valuation τ sig (Elt F)) : (after (ops (F := F)) V (Proc.devRef .tc main_v121)) = (U6 V (Proc.devRef .tc main_v121)) := congrFun (after_ops_eq V) _
theorem lift5_main_v121 (V : Valuation τ sig (Elt F)) : (after (ops (F := F)) V (Proc.devRef .tc main_v121)) = (U5 V (Proc.devRef .tc main_v121)) :=
  (lift6_main_v121 V).trans (after_of_not_mem writes5 (by decide) (U5 V))
theorem lift4_main_v121 (V : Valuation τ sig (Elt F)) : (after (ops (F := F)) V (Proc.devRef .tc main_v121)) = (U4 V (Proc.devRef .tc main_v121)) :=
  (lift5_main_v121 V).trans (after_of_not_mem writes4 (by decide) (U4 V))
theorem lift3_main_v121 (V : Valuation τ sig (Elt F)) : (after (ops (F := F)) V (Proc.devRef .tc main_v121)) = (U3 V (Proc.devRef .tc main_v121)) :=
  (lift4_main_v121 V).trans (after_of_not_mem writes3 (by decide) (U3 V))
theorem lift6_main_cst_25 (V : Valuation τ sig (Elt F)) : (after (ops (F := F)) V (Proc.devRef .tc main_cst_25)) = (U6 V (Proc.devRef .tc main_cst_25)) := congrFun (after_ops_eq V) _
theorem lift5_main_cst_25 (V : Valuation τ sig (Elt F)) : (after (ops (F := F)) V (Proc.devRef .tc main_cst_25)) = (U5 V (Proc.devRef .tc main_cst_25)) :=
  (lift6_main_cst_25 V).trans (after_of_not_mem writes5 (by decide) (U5 V))
theorem lift4_main_cst_25 (V : Valuation τ sig (Elt F)) : (after (ops (F := F)) V (Proc.devRef .tc main_cst_25)) = (U4 V (Proc.devRef .tc main_cst_25)) :=
  (lift5_main_cst_25 V).trans (after_of_not_mem writes4 (by decide) (U4 V))
theorem lift3_main_cst_25 (V : Valuation τ sig (Elt F)) : (after (ops (F := F)) V (Proc.devRef .tc main_cst_25)) = (U3 V (Proc.devRef .tc main_cst_25)) :=
  (lift4_main_cst_25 V).trans (after_of_not_mem writes3 (by decide) (U3 V))
theorem lift6_main_v122 (V : Valuation τ sig (Elt F)) : (after (ops (F := F)) V (Proc.devRef .tc main_v122)) = (U6 V (Proc.devRef .tc main_v122)) := congrFun (after_ops_eq V) _
theorem lift5_main_v122 (V : Valuation τ sig (Elt F)) : (after (ops (F := F)) V (Proc.devRef .tc main_v122)) = (U5 V (Proc.devRef .tc main_v122)) :=
  (lift6_main_v122 V).trans (after_of_not_mem writes5 (by decide) (U5 V))
theorem lift4_main_v122 (V : Valuation τ sig (Elt F)) : (after (ops (F := F)) V (Proc.devRef .tc main_v122)) = (U4 V (Proc.devRef .tc main_v122)) :=
  (lift5_main_v122 V).trans (after_of_not_mem writes4 (by decide) (U4 V))
theorem lift3_main_v122 (V : Valuation τ sig (Elt F)) : (after (ops (F := F)) V (Proc.devRef .tc main_v122)) = (U3 V (Proc.devRef .tc main_v122)) :=
  (lift4_main_v122 V).trans (after_of_not_mem writes3 (by decide) (U3 V))
theorem lift6_main_cst_26 (V : Valuation τ sig (Elt F)) : (after (ops (F := F)) V (Proc.devRef .tc main_cst_26)) = (U6 V (Proc.devRef .tc main_cst_26)) := congrFun (after_ops_eq V) _
theorem lift5_main_cst_26 (V : Valuation τ sig (Elt F)) : (after (ops (F := F)) V (Proc.devRef .tc main_cst_26)) = (U5 V (Proc.devRef .tc main_cst_26)) :=
  (lift6_main_cst_26 V).trans (after_of_not_mem writes5 (by decide) (U5 V))
theorem lift4_main_cst_26 (V : Valuation τ sig (Elt F)) : (after (ops (F := F)) V (Proc.devRef .tc main_cst_26)) = (U4 V (Proc.devRef .tc main_cst_26)) :=
  (lift5_main_cst_26 V).trans (after_of_not_mem writes4 (by decide) (U4 V))
theorem lift3_main_cst_26 (V : Valuation τ sig (Elt F)) : (after (ops (F := F)) V (Proc.devRef .tc main_cst_26)) = (U3 V (Proc.devRef .tc main_cst_26)) :=
  (lift4_main_cst_26 V).trans (after_of_not_mem writes3 (by decide) (U3 V))
theorem lift6_main_v123 (V : Valuation τ sig (Elt F)) : (after (ops (F := F)) V (Proc.devRef .tc main_v123)) = (U6 V (Proc.devRef .tc main_v123)) := congrFun (after_ops_eq V) _
theorem lift5_main_v123 (V : Valuation τ sig (Elt F)) : (after (ops (F := F)) V (Proc.devRef .tc main_v123)) = (U5 V (Proc.devRef .tc main_v123)) :=
  (lift6_main_v123 V).trans (after_of_not_mem writes5 (by decide) (U5 V))
theorem lift4_main_v123 (V : Valuation τ sig (Elt F)) : (after (ops (F := F)) V (Proc.devRef .tc main_v123)) = (U4 V (Proc.devRef .tc main_v123)) :=
  (lift5_main_v123 V).trans (after_of_not_mem writes4 (by decide) (U4 V))
theorem lift3_main_v123 (V : Valuation τ sig (Elt F)) : (after (ops (F := F)) V (Proc.devRef .tc main_v123)) = (U3 V (Proc.devRef .tc main_v123)) :=
  (lift4_main_v123 V).trans (after_of_not_mem writes3 (by decide) (U3 V))
theorem lift6_main_v124 (V : Valuation τ sig (Elt F)) : (after (ops (F := F)) V (Proc.devRef .tc main_v124)) = (U6 V (Proc.devRef .tc main_v124)) := congrFun (after_ops_eq V) _
theorem lift5_main_v124 (V : Valuation τ sig (Elt F)) : (after (ops (F := F)) V (Proc.devRef .tc main_v124)) = (U5 V (Proc.devRef .tc main_v124)) :=
  (lift6_main_v124 V).trans (after_of_not_mem writes5 (by decide) (U5 V))
theorem lift4_main_v124 (V : Valuation τ sig (Elt F)) : (after (ops (F := F)) V (Proc.devRef .tc main_v124)) = (U4 V (Proc.devRef .tc main_v124)) :=
  (lift5_main_v124 V).trans (after_of_not_mem writes4 (by decide) (U4 V))
theorem lift3_main_v124 (V : Valuation τ sig (Elt F)) : (after (ops (F := F)) V (Proc.devRef .tc main_v124)) = (U3 V (Proc.devRef .tc main_v124)) :=
  (lift4_main_v124 V).trans (after_of_not_mem writes3 (by decide) (U3 V))
theorem lift6_main_v125 (V : Valuation τ sig (Elt F)) : (after (ops (F := F)) V (Proc.devRef .tc main_v125)) = (U6 V (Proc.devRef .tc main_v125)) := congrFun (after_ops_eq V) _
theorem lift5_main_v125 (V : Valuation τ sig (Elt F)) : (after (ops (F := F)) V (Proc.devRef .tc main_v125)) = (U5 V (Proc.devRef .tc main_v125)) :=
  (lift6_main_v125 V).trans (after_of_not_mem writes5 (by decide) (U5 V))
theorem lift4_main_v125 (V : Valuation τ sig (Elt F)) : (after (ops (F := F)) V (Proc.devRef .tc main_v125)) = (U4 V (Proc.devRef .tc main_v125)) :=
  (lift5_main_v125 V).trans (after_of_not_mem writes4 (by decide) (U4 V))
theorem lift3_main_v125 (V : Valuation τ sig (Elt F)) : (after (ops (F := F)) V (Proc.devRef .tc main_v125)) = (U3 V (Proc.devRef .tc main_v125)) :=
  (lift4_main_v125 V).trans (after_of_not_mem writes3 (by decide) (U3 V))
theorem lift6_main_cst_27 (V : Valuation τ sig (Elt F)) : (after (ops (F := F)) V (Proc.devRef .tc main_cst_27)) = (U6 V (Proc.devRef .tc main_cst_27)) := congrFun (after_ops_eq V) _
theorem lift5_main_cst_27 (V : Valuation τ sig (Elt F)) : (after (ops (F := F)) V (Proc.devRef .tc main_cst_27)) = (U5 V (Proc.devRef .tc main_cst_27)) :=
  (lift6_main_cst_27 V).trans (after_of_not_mem writes5 (by decide) (U5 V))
theorem lift4_main_cst_27 (V : Valuation τ sig (Elt F)) : (after (ops (F := F)) V (Proc.devRef .tc main_cst_27)) = (U4 V (Proc.devRef .tc main_cst_27)) :=
  (lift5_main_cst_27 V).trans (after_of_not_mem writes4 (by decide) (U4 V))
theorem lift3_main_cst_27 (V : Valuation τ sig (Elt F)) : (after (ops (F := F)) V (Proc.devRef .tc main_cst_27)) = (U3 V (Proc.devRef .tc main_cst_27)) :=
  (lift4_main_cst_27 V).trans (after_of_not_mem writes3 (by decide) (U3 V))
theorem lift6_main_v126 (V : Valuation τ sig (Elt F)) : (after (ops (F := F)) V (Proc.devRef .tc main_v126)) = (U6 V (Proc.devRef .tc main_v126)) := congrFun (after_ops_eq V) _
theorem lift5_main_v126 (V : Valuation τ sig (Elt F)) : (after (ops (F := F)) V (Proc.devRef .tc main_v126)) = (U5 V (Proc.devRef .tc main_v126)) :=
  (lift6_main_v126 V).trans (after_of_not_mem writes5 (by decide) (U5 V))
theorem lift4_main_v126 (V : Valuation τ sig (Elt F)) : (after (ops (F := F)) V (Proc.devRef .tc main_v126)) = (U4 V (Proc.devRef .tc main_v126)) :=
  (lift5_main_v126 V).trans (after_of_not_mem writes4 (by decide) (U4 V))
theorem lift3_main_v126 (V : Valuation τ sig (Elt F)) : (after (ops (F := F)) V (Proc.devRef .tc main_v126)) = (U3 V (Proc.devRef .tc main_v126)) :=
  (lift4_main_v126 V).trans (after_of_not_mem writes3 (by decide) (U3 V))
theorem lift6_main_v127 (V : Valuation τ sig (Elt F)) : (after (ops (F := F)) V (Proc.devRef .tc main_v127)) = (U6 V (Proc.devRef .tc main_v127)) := congrFun (after_ops_eq V) _
theorem lift5_main_v127 (V : Valuation τ sig (Elt F)) : (after (ops (F := F)) V (Proc.devRef .tc main_v127)) = (U5 V (Proc.devRef .tc main_v127)) :=
  (lift6_main_v127 V).trans (after_of_not_mem writes5 (by decide) (U5 V))
theorem lift4_main_v127 (V : Valuation τ sig (Elt F)) : (after (ops (F := F)) V (Proc.devRef .tc main_v127)) = (U4 V (Proc.devRef .tc main_v127)) :=
  (lift5_main_v127 V).trans (after_of_not_mem writes4 (by decide) (U4 V))
theorem lift3_main_v127 (V : Valuation τ sig (Elt F)) : (after (ops (F := F)) V (Proc.devRef .tc main_v127)) = (U3 V (Proc.devRef .tc main_v127)) :=
  (lift4_main_v127 V).trans (after_of_not_mem writes3 (by decide) (U3 V))
theorem lift6_main_v128 (V : Valuation τ sig (Elt F)) : (after (ops (F := F)) V (Proc.devRef .tc main_v128)) = (U6 V (Proc.devRef .tc main_v128)) := congrFun (after_ops_eq V) _
theorem lift5_main_v128 (V : Valuation τ sig (Elt F)) : (after (ops (F := F)) V (Proc.devRef .tc main_v128)) = (U5 V (Proc.devRef .tc main_v128)) :=
  (lift6_main_v128 V).trans (after_of_not_mem writes5 (by decide) (U5 V))
theorem lift4_main_v128 (V : Valuation τ sig (Elt F)) : (after (ops (F := F)) V (Proc.devRef .tc main_v128)) = (U4 V (Proc.devRef .tc main_v128)) :=
  (lift5_main_v128 V).trans (after_of_not_mem writes4 (by decide) (U4 V))
theorem lift3_main_v128 (V : Valuation τ sig (Elt F)) : (after (ops (F := F)) V (Proc.devRef .tc main_v128)) = (U3 V (Proc.devRef .tc main_v128)) :=
  (lift4_main_v128 V).trans (after_of_not_mem writes3 (by decide) (U3 V))
theorem lift6_main_v129 (V : Valuation τ sig (Elt F)) : (after (ops (F := F)) V (Proc.devRef .tc main_v129)) = (U6 V (Proc.devRef .tc main_v129)) := congrFun (after_ops_eq V) _
theorem lift5_main_v129 (V : Valuation τ sig (Elt F)) : (after (ops (F := F)) V (Proc.devRef .tc main_v129)) = (U5 V (Proc.devRef .tc main_v129)) :=
  (lift6_main_v129 V).trans (after_of_not_mem writes5 (by decide) (U5 V))
theorem lift4_main_v129 (V : Valuation τ sig (Elt F)) : (after (ops (F := F)) V (Proc.devRef .tc main_v129)) = (U4 V (Proc.devRef .tc main_v129)) :=
  (lift5_main_v129 V).trans (after_of_not_mem writes4 (by decide) (U4 V))
theorem lift3_main_v129 (V : Valuation τ sig (Elt F)) : (after (ops (F := F)) V (Proc.devRef .tc main_v129)) = (U3 V (Proc.devRef .tc main_v129)) :=
  (lift4_main_v129 V).trans (after_of_not_mem writes3 (by decide) (U3 V))
theorem lift6_main_v130 (V : Valuation τ sig (Elt F)) : (after (ops (F := F)) V (Proc.devRef .tc main_v130)) = (U6 V (Proc.devRef .tc main_v130)) := congrFun (after_ops_eq V) _
theorem lift5_main_v130 (V : Valuation τ sig (Elt F)) : (after (ops (F := F)) V (Proc.devRef .tc main_v130)) = (U5 V (Proc.devRef .tc main_v130)) :=
  (lift6_main_v130 V).trans (after_of_not_mem writes5 (by decide) (U5 V))
theorem lift4_main_v130 (V : Valuation τ sig (Elt F)) : (after (ops (F := F)) V (Proc.devRef .tc main_v130)) = (U4 V (Proc.devRef .tc main_v130)) :=
  (lift5_main_v130 V).trans (after_of_not_mem writes4 (by decide) (U4 V))
theorem lift3_main_v130 (V : Valuation τ sig (Elt F)) : (after (ops (F := F)) V (Proc.devRef .tc main_v130)) = (U3 V (Proc.devRef .tc main_v130)) :=
  (lift4_main_v130 V).trans (after_of_not_mem writes3 (by decide) (U3 V))
theorem lift6_main_v131 (V : Valuation τ sig (Elt F)) : (after (ops (F := F)) V (Proc.devRef .tc main_v131)) = (U6 V (Proc.devRef .tc main_v131)) := congrFun (after_ops_eq V) _
theorem lift5_main_v131 (V : Valuation τ sig (Elt F)) : (after (ops (F := F)) V (Proc.devRef .tc main_v131)) = (U5 V (Proc.devRef .tc main_v131)) :=
  (lift6_main_v131 V).trans (after_of_not_mem writes5 (by decide) (U5 V))
theorem lift4_main_v131 (V : Valuation τ sig (Elt F)) : (after (ops (F := F)) V (Proc.devRef .tc main_v131)) = (U4 V (Proc.devRef .tc main_v131)) :=
  (lift5_main_v131 V).trans (after_of_not_mem writes4 (by decide) (U4 V))
theorem lift3_main_v131 (V : Valuation τ sig (Elt F)) : (after (ops (F := F)) V (Proc.devRef .tc main_v131)) = (U3 V (Proc.devRef .tc main_v131)) :=
  (lift4_main_v131 V).trans (after_of_not_mem writes3 (by decide) (U3 V))
theorem lift6_main_v132 (V : Valuation τ sig (Elt F)) : (after (ops (F := F)) V (Proc.devRef .tc main_v132)) = (U6 V (Proc.devRef .tc main_v132)) := congrFun (after_ops_eq V) _
theorem lift5_main_v132 (V : Valuation τ sig (Elt F)) : (after (ops (F := F)) V (Proc.devRef .tc main_v132)) = (U5 V (Proc.devRef .tc main_v132)) :=
  (lift6_main_v132 V).trans (after_of_not_mem writes5 (by decide) (U5 V))
theorem lift4_main_v132 (V : Valuation τ sig (Elt F)) : (after (ops (F := F)) V (Proc.devRef .tc main_v132)) = (U4 V (Proc.devRef .tc main_v132)) :=
  (lift5_main_v132 V).trans (after_of_not_mem writes4 (by decide) (U4 V))
theorem lift3_main_v132 (V : Valuation τ sig (Elt F)) : (after (ops (F := F)) V (Proc.devRef .tc main_v132)) = (U3 V (Proc.devRef .tc main_v132)) :=
  (lift4_main_v132 V).trans (after_of_not_mem writes3 (by decide) (U3 V))
theorem lift6_main_v133 (V : Valuation τ sig (Elt F)) : (after (ops (F := F)) V (Proc.devRef .tc main_v133)) = (U6 V (Proc.devRef .tc main_v133)) := congrFun (after_ops_eq V) _
theorem lift5_main_v133 (V : Valuation τ sig (Elt F)) : (after (ops (F := F)) V (Proc.devRef .tc main_v133)) = (U5 V (Proc.devRef .tc main_v133)) :=
  (lift6_main_v133 V).trans (after_of_not_mem writes5 (by decide) (U5 V))
theorem lift4_main_v133 (V : Valuation τ sig (Elt F)) : (after (ops (F := F)) V (Proc.devRef .tc main_v133)) = (U4 V (Proc.devRef .tc main_v133)) :=
  (lift5_main_v133 V).trans (after_of_not_mem writes4 (by decide) (U4 V))
theorem lift3_main_v133 (V : Valuation τ sig (Elt F)) : (after (ops (F := F)) V (Proc.devRef .tc main_v133)) = (U3 V (Proc.devRef .tc main_v133)) :=
  (lift4_main_v133 V).trans (after_of_not_mem writes3 (by decide) (U3 V))
theorem lift6_main_v134 (V : Valuation τ sig (Elt F)) : (after (ops (F := F)) V (Proc.devRef .tc main_v134)) = (U6 V (Proc.devRef .tc main_v134)) := congrFun (after_ops_eq V) _
theorem lift5_main_v134 (V : Valuation τ sig (Elt F)) : (after (ops (F := F)) V (Proc.devRef .tc main_v134)) = (U5 V (Proc.devRef .tc main_v134)) :=
  (lift6_main_v134 V).trans (after_of_not_mem writes5 (by decide) (U5 V))
theorem lift4_main_v134 (V : Valuation τ sig (Elt F)) : (after (ops (F := F)) V (Proc.devRef .tc main_v134)) = (U4 V (Proc.devRef .tc main_v134)) :=
  (lift5_main_v134 V).trans (after_of_not_mem writes4 (by decide) (U4 V))
theorem lift3_main_v134 (V : Valuation τ sig (Elt F)) : (after (ops (F := F)) V (Proc.devRef .tc main_v134)) = (U3 V (Proc.devRef .tc main_v134)) :=
  (lift4_main_v134 V).trans (after_of_not_mem writes3 (by decide) (U3 V))
theorem lift6_main_call5_cst (V : Valuation τ sig (Elt F)) : (after (ops (F := F)) V (Proc.devRef .tc main_call5_cst)) = (U6 V (Proc.devRef .tc main_call5_cst)) := congrFun (after_ops_eq V) _
theorem lift5_main_call5_cst (V : Valuation τ sig (Elt F)) : (after (ops (F := F)) V (Proc.devRef .tc main_call5_cst)) = (U5 V (Proc.devRef .tc main_call5_cst)) :=
  (lift6_main_call5_cst V).trans (after_of_not_mem writes5 (by decide) (U5 V))
theorem lift4_main_call5_cst (V : Valuation τ sig (Elt F)) : (after (ops (F := F)) V (Proc.devRef .tc main_call5_cst)) = (U4 V (Proc.devRef .tc main_call5_cst)) :=
  (lift5_main_call5_cst V).trans (after_of_not_mem writes4 (by decide) (U4 V))
theorem lift3_main_call5_cst (V : Valuation τ sig (Elt F)) : (after (ops (F := F)) V (Proc.devRef .tc main_call5_cst)) = (U3 V (Proc.devRef .tc main_call5_cst)) :=
  (lift4_main_call5_cst V).trans (after_of_not_mem writes3 (by decide) (U3 V))
theorem lift6_main_call5_v0 (V : Valuation τ sig (Elt F)) : (after (ops (F := F)) V (Proc.devRef .tc main_call5_v0)) = (U6 V (Proc.devRef .tc main_call5_v0)) := congrFun (after_ops_eq V) _
theorem lift5_main_call5_v0 (V : Valuation τ sig (Elt F)) : (after (ops (F := F)) V (Proc.devRef .tc main_call5_v0)) = (U5 V (Proc.devRef .tc main_call5_v0)) :=
  (lift6_main_call5_v0 V).trans (after_of_not_mem writes5 (by decide) (U5 V))
theorem lift4_main_call5_v0 (V : Valuation τ sig (Elt F)) : (after (ops (F := F)) V (Proc.devRef .tc main_call5_v0)) = (U4 V (Proc.devRef .tc main_call5_v0)) :=
  (lift5_main_call5_v0 V).trans (after_of_not_mem writes4 (by decide) (U4 V))
theorem lift3_main_call5_v0 (V : Valuation τ sig (Elt F)) : (after (ops (F := F)) V (Proc.devRef .tc main_call5_v0)) = (U3 V (Proc.devRef .tc main_call5_v0)) :=
  (lift4_main_call5_v0 V).trans (after_of_not_mem writes3 (by decide) (U3 V))
theorem lift6_main_v135 (V : Valuation τ sig (Elt F)) : (after (ops (F := F)) V (Proc.devRef .tc main_v135)) = (U6 V (Proc.devRef .tc main_v135)) := congrFun (after_ops_eq V) _
theorem lift5_main_v135 (V : Valuation τ sig (Elt F)) : (after (ops (F := F)) V (Proc.devRef .tc main_v135)) = (U5 V (Proc.devRef .tc main_v135)) :=
  (lift6_main_v135 V).trans (after_of_not_mem writes5 (by decide) (U5 V))
theorem lift4_main_v135 (V : Valuation τ sig (Elt F)) : (after (ops (F := F)) V (Proc.devRef .tc main_v135)) = (U4 V (Proc.devRef .tc main_v135)) :=
  (lift5_main_v135 V).trans (after_of_not_mem writes4 (by decide) (U4 V))
theorem lift3_main_v135 (V : Valuation τ sig (Elt F)) : (after (ops (F := F)) V (Proc.devRef .tc main_v135)) = (U3 V (Proc.devRef .tc main_v135)) :=
  (lift4_main_v135 V).trans (after_of_not_mem writes3 (by decide) (U3 V))
theorem lift6_main_c_28 (V : Valuation τ sig (Elt F)) : (after (ops (F := F)) V (Proc.devRef .tc main_c_28)) = (U6 V (Proc.devRef .tc main_c_28)) := congrFun (after_ops_eq V) _
theorem lift5_main_c_28 (V : Valuation τ sig (Elt F)) : (after (ops (F := F)) V (Proc.devRef .tc main_c_28)) = (U5 V (Proc.devRef .tc main_c_28)) :=
  (lift6_main_c_28 V).trans (after_of_not_mem writes5 (by decide) (U5 V))
theorem lift4_main_c_28 (V : Valuation τ sig (Elt F)) : (after (ops (F := F)) V (Proc.devRef .tc main_c_28)) = (U4 V (Proc.devRef .tc main_c_28)) :=
  (lift5_main_c_28 V).trans (after_of_not_mem writes4 (by decide) (U4 V))
theorem lift3_main_c_28 (V : Valuation τ sig (Elt F)) : (after (ops (F := F)) V (Proc.devRef .tc main_c_28)) = (U3 V (Proc.devRef .tc main_c_28)) :=
  (lift4_main_c_28 V).trans (after_of_not_mem writes3 (by decide) (U3 V))
theorem lift6_main_v136 (V : Valuation τ sig (Elt F)) : (after (ops (F := F)) V (Proc.devRef .tc main_v136)) = (U6 V (Proc.devRef .tc main_v136)) := congrFun (after_ops_eq V) _
theorem lift5_main_v136 (V : Valuation τ sig (Elt F)) : (after (ops (F := F)) V (Proc.devRef .tc main_v136)) = (U5 V (Proc.devRef .tc main_v136)) :=
  (lift6_main_v136 V).trans (after_of_not_mem writes5 (by decide) (U5 V))
theorem lift4_main_v136 (V : Valuation τ sig (Elt F)) : (after (ops (F := F)) V (Proc.devRef .tc main_v136)) = (U4 V (Proc.devRef .tc main_v136)) :=
  (lift5_main_v136 V).trans (after_of_not_mem writes4 (by decide) (U4 V))
theorem lift3_main_v136 (V : Valuation τ sig (Elt F)) : (after (ops (F := F)) V (Proc.devRef .tc main_v136)) = (U3 V (Proc.devRef .tc main_v136)) :=
  (lift4_main_v136 V).trans (after_of_not_mem writes3 (by decide) (U3 V))
theorem lift6_main_v137 (V : Valuation τ sig (Elt F)) : (after (ops (F := F)) V (Proc.devRef .tc main_v137)) = (U6 V (Proc.devRef .tc main_v137)) := congrFun (after_ops_eq V) _
theorem lift5_main_v137 (V : Valuation τ sig (Elt F)) : (after (ops (F := F)) V (Proc.devRef .tc main_v137)) = (U5 V (Proc.devRef .tc main_v137)) :=
  (lift6_main_v137 V).trans (after_of_not_mem writes5 (by decide) (U5 V))
theorem lift4_main_v137 (V : Valuation τ sig (Elt F)) : (after (ops (F := F)) V (Proc.devRef .tc main_v137)) = (U4 V (Proc.devRef .tc main_v137)) :=
  (lift5_main_v137 V).trans (after_of_not_mem writes4 (by decide) (U4 V))
theorem lift3_main_v137 (V : Valuation τ sig (Elt F)) : (after (ops (F := F)) V (Proc.devRef .tc main_v137)) = (U3 V (Proc.devRef .tc main_v137)) :=
  (lift4_main_v137 V).trans (after_of_not_mem writes3 (by decide) (U3 V))
theorem lift6_main_c_29 (V : Valuation τ sig (Elt F)) : (after (ops (F := F)) V (Proc.devRef .tc main_c_29)) = (U6 V (Proc.devRef .tc main_c_29)) := congrFun (after_ops_eq V) _
theorem lift5_main_c_29 (V : Valuation τ sig (Elt F)) : (after (ops (F := F)) V (Proc.devRef .tc main_c_29)) = (U5 V (Proc.devRef .tc main_c_29)) :=
  (lift6_main_c_29 V).trans (after_of_not_mem writes5 (by decide) (U5 V))
theorem lift4_main_c_29 (V : Valuation τ sig (Elt F)) : (after (ops (F := F)) V (Proc.devRef .tc main_c_29)) = (U4 V (Proc.devRef .tc main_c_29)) :=
  (lift5_main_c_29 V).trans (after_of_not_mem writes4 (by decide) (U4 V))
theorem lift3_main_c_29 (V : Valuation τ sig (Elt F)) : (after (ops (F := F)) V (Proc.devRef .tc main_c_29)) = (U3 V (Proc.devRef .tc main_c_29)) :=
  (lift4_main_c_29 V).trans (after_of_not_mem writes3 (by decide) (U3 V))
theorem lift6_main_v138 (V : Valuation τ sig (Elt F)) : (after (ops (F := F)) V (Proc.devRef .tc main_v138)) = (U6 V (Proc.devRef .tc main_v138)) := congrFun (after_ops_eq V) _
theorem lift5_main_v138 (V : Valuation τ sig (Elt F)) : (after (ops (F := F)) V (Proc.devRef .tc main_v138)) = (U5 V (Proc.devRef .tc main_v138)) :=
  (lift6_main_v138 V).trans (after_of_not_mem writes5 (by decide) (U5 V))
theorem lift4_main_v138 (V : Valuation τ sig (Elt F)) : (after (ops (F := F)) V (Proc.devRef .tc main_v138)) = (U4 V (Proc.devRef .tc main_v138)) :=
  (lift5_main_v138 V).trans (after_of_not_mem writes4 (by decide) (U4 V))
theorem lift3_main_v138 (V : Valuation τ sig (Elt F)) : (after (ops (F := F)) V (Proc.devRef .tc main_v138)) = (U3 V (Proc.devRef .tc main_v138)) :=
  (lift4_main_v138 V).trans (after_of_not_mem writes3 (by decide) (U3 V))
theorem lift6_main_v139 (V : Valuation τ sig (Elt F)) : (after (ops (F := F)) V (Proc.devRef .tc main_v139)) = (U6 V (Proc.devRef .tc main_v139)) := congrFun (after_ops_eq V) _
theorem lift5_main_v139 (V : Valuation τ sig (Elt F)) : (after (ops (F := F)) V (Proc.devRef .tc main_v139)) = (U5 V (Proc.devRef .tc main_v139)) :=
  (lift6_main_v139 V).trans (after_of_not_mem writes5 (by decide) (U5 V))
theorem lift4_main_v139 (V : Valuation τ sig (Elt F)) : (after (ops (F := F)) V (Proc.devRef .tc main_v139)) = (U4 V (Proc.devRef .tc main_v139)) :=
  (lift5_main_v139 V).trans (after_of_not_mem writes4 (by decide) (U4 V))
theorem lift3_main_v139 (V : Valuation τ sig (Elt F)) : (after (ops (F := F)) V (Proc.devRef .tc main_v139)) = (U3 V (Proc.devRef .tc main_v139)) :=
  (lift4_main_v139 V).trans (after_of_not_mem writes3 (by decide) (U3 V))
theorem lift6_main_v140 (V : Valuation τ sig (Elt F)) : (after (ops (F := F)) V (Proc.devRef .tc main_v140)) = (U6 V (Proc.devRef .tc main_v140)) := congrFun (after_ops_eq V) _
theorem lift5_main_v140 (V : Valuation τ sig (Elt F)) : (after (ops (F := F)) V (Proc.devRef .tc main_v140)) = (U5 V (Proc.devRef .tc main_v140)) :=
  (lift6_main_v140 V).trans (after_of_not_mem writes5 (by decide) (U5 V))
theorem lift4_main_v140 (V : Valuation τ sig (Elt F)) : (after (ops (F := F)) V (Proc.devRef .tc main_v140)) = (U4 V (Proc.devRef .tc main_v140)) :=
  (lift5_main_v140 V).trans (after_of_not_mem writes4 (by decide) (U4 V))
theorem lift3_main_v140 (V : Valuation τ sig (Elt F)) : (after (ops (F := F)) V (Proc.devRef .tc main_v140)) = (U3 V (Proc.devRef .tc main_v140)) :=
  (lift4_main_v140 V).trans (after_of_not_mem writes3 (by decide) (U3 V))
theorem lift6_main_v141 (V : Valuation τ sig (Elt F)) : (after (ops (F := F)) V (Proc.devRef .tc main_v141)) = (U6 V (Proc.devRef .tc main_v141)) := congrFun (after_ops_eq V) _
theorem lift5_main_v141 (V : Valuation τ sig (Elt F)) : (after (ops (F := F)) V (Proc.devRef .tc main_v141)) = (U5 V (Proc.devRef .tc main_v141)) :=
  (lift6_main_v141 V).trans (after_of_not_mem writes5 (by decide) (U5 V))
theorem lift4_main_v141 (V : Valuation τ sig (Elt F)) : (after (ops (F := F)) V (Proc.devRef .tc main_v141)) = (U4 V (Proc.devRef .tc main_v141)) :=
  (lift5_main_v141 V).trans (after_of_not_mem writes4 (by decide) (U4 V))
theorem lift3_main_v141 (V : Valuation τ sig (Elt F)) : (after (ops (F := F)) V (Proc.devRef .tc main_v141)) = (U3 V (Proc.devRef .tc main_v141)) :=
  (lift4_main_v141 V).trans (after_of_not_mem writes3 (by decide) (U3 V))
theorem lift6_main_v142 (V : Valuation τ sig (Elt F)) : (after (ops (F := F)) V (Proc.devRef .tc main_v142)) = (U6 V (Proc.devRef .tc main_v142)) := congrFun (after_ops_eq V) _
theorem lift5_main_v142 (V : Valuation τ sig (Elt F)) : (after (ops (F := F)) V (Proc.devRef .tc main_v142)) = (U5 V (Proc.devRef .tc main_v142)) :=
  (lift6_main_v142 V).trans (after_of_not_mem writes5 (by decide) (U5 V))
theorem lift4_main_v142 (V : Valuation τ sig (Elt F)) : (after (ops (F := F)) V (Proc.devRef .tc main_v142)) = (U4 V (Proc.devRef .tc main_v142)) :=
  (lift5_main_v142 V).trans (after_of_not_mem writes4 (by decide) (U4 V))
theorem lift3_main_v142 (V : Valuation τ sig (Elt F)) : (after (ops (F := F)) V (Proc.devRef .tc main_v142)) = (U3 V (Proc.devRef .tc main_v142)) :=
  (lift4_main_v142 V).trans (after_of_not_mem writes3 (by decide) (U3 V))
theorem lift6_main_c_30 (V : Valuation τ sig (Elt F)) : (after (ops (F := F)) V (Proc.devRef .tc main_c_30)) = (U6 V (Proc.devRef .tc main_c_30)) := congrFun (after_ops_eq V) _
theorem lift5_main_c_30 (V : Valuation τ sig (Elt F)) : (after (ops (F := F)) V (Proc.devRef .tc main_c_30)) = (U5 V (Proc.devRef .tc main_c_30)) :=
  (lift6_main_c_30 V).trans (after_of_not_mem writes5 (by decide) (U5 V))
theorem lift4_main_c_30 (V : Valuation τ sig (Elt F)) : (after (ops (F := F)) V (Proc.devRef .tc main_c_30)) = (U4 V (Proc.devRef .tc main_c_30)) :=
  (lift5_main_c_30 V).trans (after_of_not_mem writes4 (by decide) (U4 V))
theorem lift3_main_c_30 (V : Valuation τ sig (Elt F)) : (after (ops (F := F)) V (Proc.devRef .tc main_c_30)) = (U3 V (Proc.devRef .tc main_c_30)) :=
  (lift4_main_c_30 V).trans (after_of_not_mem writes3 (by decide) (U3 V))
theorem lift6_main_v143 (V : Valuation τ sig (Elt F)) : (after (ops (F := F)) V (Proc.devRef .tc main_v143)) = (U6 V (Proc.devRef .tc main_v143)) := congrFun (after_ops_eq V) _
theorem lift5_main_v143 (V : Valuation τ sig (Elt F)) : (after (ops (F := F)) V (Proc.devRef .tc main_v143)) = (U5 V (Proc.devRef .tc main_v143)) :=
  (lift6_main_v143 V).trans (after_of_not_mem writes5 (by decide) (U5 V))
theorem lift4_main_v143 (V : Valuation τ sig (Elt F)) : (after (ops (F := F)) V (Proc.devRef .tc main_v143)) = (U4 V (Proc.devRef .tc main_v143)) :=
  (lift5_main_v143 V).trans (after_of_not_mem writes4 (by decide) (U4 V))
theorem lift3_main_v143 (V : Valuation τ sig (Elt F)) : (after (ops (F := F)) V (Proc.devRef .tc main_v143)) = (U3 V (Proc.devRef .tc main_v143)) :=
  (lift4_main_v143 V).trans (after_of_not_mem writes3 (by decide) (U3 V))
theorem lift6_main_v144 (V : Valuation τ sig (Elt F)) : (after (ops (F := F)) V (Proc.devRef .tc main_v144)) = (U6 V (Proc.devRef .tc main_v144)) := congrFun (after_ops_eq V) _
theorem lift5_main_v144 (V : Valuation τ sig (Elt F)) : (after (ops (F := F)) V (Proc.devRef .tc main_v144)) = (U5 V (Proc.devRef .tc main_v144)) :=
  (lift6_main_v144 V).trans (after_of_not_mem writes5 (by decide) (U5 V))
theorem lift4_main_v144 (V : Valuation τ sig (Elt F)) : (after (ops (F := F)) V (Proc.devRef .tc main_v144)) = (U4 V (Proc.devRef .tc main_v144)) :=
  (lift5_main_v144 V).trans (after_of_not_mem writes4 (by decide) (U4 V))
theorem lift3_main_v144 (V : Valuation τ sig (Elt F)) : (after (ops (F := F)) V (Proc.devRef .tc main_v144)) = (U3 V (Proc.devRef .tc main_v144)) :=
  (lift4_main_v144 V).trans (after_of_not_mem writes3 (by decide) (U3 V))
theorem lift6_main_c_31 (V : Valuation τ sig (Elt F)) : (after (ops (F := F)) V (Proc.devRef .tc main_c_31)) = (U6 V (Proc.devRef .tc main_c_31)) := congrFun (after_ops_eq V) _
theorem lift5_main_c_31 (V : Valuation τ sig (Elt F)) : (after (ops (F := F)) V (Proc.devRef .tc main_c_31)) = (U5 V (Proc.devRef .tc main_c_31)) :=
  (lift6_main_c_31 V).trans (after_of_not_mem writes5 (by decide) (U5 V))
theorem lift4_main_c_31 (V : Valuation τ sig (Elt F)) : (after (ops (F := F)) V (Proc.devRef .tc main_c_31)) = (U4 V (Proc.devRef .tc main_c_31)) :=
  (lift5_main_c_31 V).trans (after_of_not_mem writes4 (by decide) (U4 V))
theorem lift3_main_c_31 (V : Valuation τ sig (Elt F)) : (after (ops (F := F)) V (Proc.devRef .tc main_c_31)) = (U3 V (Proc.devRef .tc main_c_31)) :=
  (lift4_main_c_31 V).trans (after_of_not_mem writes3 (by decide) (U3 V))
theorem lift6_main_v145 (V : Valuation τ sig (Elt F)) : (after (ops (F := F)) V (Proc.devRef .tc main_v145)) = (U6 V (Proc.devRef .tc main_v145)) := congrFun (after_ops_eq V) _
theorem lift5_main_v145 (V : Valuation τ sig (Elt F)) : (after (ops (F := F)) V (Proc.devRef .tc main_v145)) = (U5 V (Proc.devRef .tc main_v145)) :=
  (lift6_main_v145 V).trans (after_of_not_mem writes5 (by decide) (U5 V))
theorem lift4_main_v145 (V : Valuation τ sig (Elt F)) : (after (ops (F := F)) V (Proc.devRef .tc main_v145)) = (U4 V (Proc.devRef .tc main_v145)) :=
  (lift5_main_v145 V).trans (after_of_not_mem writes4 (by decide) (U4 V))
theorem lift3_main_v145 (V : Valuation τ sig (Elt F)) : (after (ops (F := F)) V (Proc.devRef .tc main_v145)) = (U3 V (Proc.devRef .tc main_v145)) :=
  (lift4_main_v145 V).trans (after_of_not_mem writes3 (by decide) (U3 V))

end Cert.ReferenceIdeal.Hand

end
-- ==== Proof.Ref.Rd2.lean ====
-- written by: gen_ref.js <unit directory>
/- Window 2's operations read at the END of the reference program's @main: each result buffer holds its operation's function of its operands' final contents (none of them is written again). -/
import proofs.«123839_j71768903516633_2_alg».proof.Proof.Ref.S2
import proofs.«123839_j71768903516633_2_alg».proof.Proof.Ref.Lift0
import proofs.«123839_j71768903516633_2_alg».proof.Proof.Ref.Lift1
import proofs.«123839_j71768903516633_2_alg».proof.Proof.Ref.Lift2
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem rd_main_v98 (V : Valuation τ sig (Elt F)) : (after (ops (F := F)) V (Proc.devRef .tc main_v98)) = ((broadcastInDim S300000x1 ![] bcast_S_S300000x1 : (⟨S_, .f32⟩ : BufTy).Contents (Elt F) → (⟨S300000x1, .f32⟩ : BufTy).Contents (Elt F)) (after (ops (F := F)) V (Proc.devRef .tc main_cst_19))) :=
  (lift3_main_v98 V).trans ((s_main_v98 (U2 V)).trans (congrArg (broadcastInDim S300000x1 ![] bcast_S_S300000x1 : (⟨S_, .f32⟩ : BufTy).Contents (Elt F) → (⟨S300000x1, .f32⟩ : BufTy).Contents (Elt F)) (lift3_main_cst_19 V).symm))
theorem rd_main_cst_20 (V : Valuation τ sig (Elt F)) : (after (ops (F := F)) V (Proc.devRef .tc main_cst_20)) = (constant (F := F) S_ .f32 0x00000000#32) :=
  (lift3_main_cst_20 V).trans ((s_main_cst_20 (U2 V)))
theorem rd_main_v99 (V : Valuation τ sig (Elt F)) : (after (ops (F := F)) V (Proc.devRef .tc main_v99)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_20))) :=
  (lift3_main_v99 V).trans ((s_main_v99 (U2 V)).trans (congrArg (broadcastInDim S30000x1 ![] bcast_S_S30000x1 : (⟨S_, .f32⟩ : BufTy).Contents (Elt F) → (⟨S30000x1, .f32⟩ : BufTy).Contents (Elt F)) (lift3_main_cst_20 V).symm))
theorem rd_main_v100 (V : Valuation τ sig (Elt F)) : (after (ops (F := F)) V (Proc.devRef .tc main_v100)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v3))) :=
  (lift3_main_v100 V).trans ((s_main_v100 (U2 V)).trans (congrArg (broadcastInDim S300000x1 ![0] bcast_S300000_S300000x1_0 : (⟨S300000, .i32⟩ : BufTy).Contents (Elt F) → (⟨S300000x1, .i32⟩ : BufTy).Contents (Elt F)) (lift3_main_v3 V).symm))
theorem rd_main_v101 (V : Valuation τ sig (Elt F)) : (after (ops (F := F)) V (Proc.devRef .tc main_v101)) = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (after (ops (F := F)) V (Proc.devRef .tc main_v99)) (after (ops (F := F)) V (Proc.devRef .tc main_v100)) (after (ops (F := F)) V (Proc.devRef .tc main_v98))) :=
  (lift3_main_v101 V).trans ((s_main_v101 (U2 V)).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (lift3_main_v99 V).symm (lift3_main_v100 V).symm (lift3_main_v98 V).symm))
theorem rd_main_cst_21 (V : Valuation τ sig (Elt F)) : (after (ops (F := F)) V (Proc.devRef .tc main_cst_21)) = (constant (F := F) S_ .f32 0x3F800000#32) :=
  (lift3_main_cst_21 V).trans ((s_main_cst_21 (U2 V)))
theorem rd_main_v102 (V : Valuation τ sig (Elt F)) : (after (ops (F := F)) V (Proc.devRef .tc main_v102)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_21))) :=
  (lift3_main_v102 V).trans ((s_main_v102 (U2 V)).trans (congrArg (broadcastInDim S30000x1 ![] bcast_S_S30000x1 : (⟨S_, .f32⟩ : BufTy).Contents (Elt F) → (⟨S30000x1, .f32⟩ : BufTy).Contents (Elt F)) (lift3_main_cst_21 V).symm))
theorem rd_main_v103 (V : Valuation τ sig (Elt F)) : (after (ops (F := F)) V (Proc.devRef .tc main_v103)) = ((maximumf : (⟨S30000x1, .f32⟩ : BufTy).Contents (Elt F) → (⟨S30000x1, .f32⟩ : BufTy).Contents (Elt F) → (⟨S30000x1, .f32⟩ : BufTy).Contents (Elt F)) (after (ops (F := F)) V (Proc.devRef .tc main_v101)) (after (ops (F := F)) V (Proc.devRef .tc main_v102))) :=
  (lift3_main_v103 V).trans ((s_main_v103 (U2 V)).trans (congrArg₂ (maximumf : (⟨S30000x1, .f32⟩ : BufTy).Contents (Elt F) → (⟨S30000x1, .f32⟩ : BufTy).Contents (Elt F) → (⟨S30000x1, .f32⟩ : BufTy).Contents (Elt F)) (lift3_main_v101 V).symm (lift3_main_v102 V).symm))
theorem rd_main_v104 (V : Valuation τ sig (Elt F)) : (after (ops (F := F)) V (Proc.devRef .tc main_v104)) = ((broadcastInDim S30000x64 ![0, 1] bcast_S30000x1_S30000x64_0_1 : (⟨S30000x1, .f32⟩ : BufTy).Contents (Elt F) → (⟨S30000x64, .f32⟩ : BufTy).Contents (Elt F)) (after (ops (F := F)) V (Proc.devRef .tc main_v103))) :=
  (lift3_main_v104 V).trans ((s_main_v104 (U2 V)).trans (congrArg (broadcastInDim S30000x64 ![0, 1] bcast_S30000x1_S30000x64_0_1 : (⟨S30000x1, .f32⟩ : BufTy).Contents (Elt F) → (⟨S30000x64, .f32⟩ : BufTy).Contents (Elt F)) (lift3_main_v103 V).symm))
theorem rd_main_v105 (V : Valuation τ sig (Elt F)) : (after (ops (F := F)) V (Proc.devRef .tc main_v105)) = ((Host.divf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v97)) (after (ops (F := F)) V (Proc.devRef .tc main_v104))) :=
  (lift3_main_v105 V).trans ((s_main_v105 (U2 V)).trans (congrArg₂ (Host.divf : (⟨S30000x64, .f32⟩ : BufTy).Contents (Elt F) → (⟨S30000x64, .f32⟩ : BufTy).Contents (Elt F) → (⟨S30000x64, .f32⟩ : BufTy).Contents (Elt F)) (lift3_main_v97 V).symm (lift3_main_v104 V).symm))
theorem rd_main_c_22 (V : Valuation τ sig (Elt F)) : (after (ops (F := F)) V (Proc.devRef .tc main_c_22)) = (constantI S_ 32 0#32) :=
  (lift3_main_c_22 V).trans ((s_main_c_22 (U2 V)))
theorem rd_main_v106 (V : Valuation τ sig (Elt F)) : (after (ops (F := F)) V (Proc.devRef .tc main_v106)) = ((broadcastInDim S30000 ![] bcast_S_S30000 : (⟨S_, .i32⟩ : BufTy).Contents (Elt F) → (⟨S30000, .i32⟩ : BufTy).Contents (Elt F)) (after (ops (F := F)) V (Proc.devRef .tc main_c_22))) :=
  (lift3_main_v106 V).trans ((s_main_v106 (U2 V)).trans (congrArg (broadcastInDim S30000 ![] bcast_S_S30000 : (⟨S_, .i32⟩ : BufTy).Contents (Elt F) → (⟨S30000, .i32⟩ : BufTy).Contents (Elt F)) (lift3_main_c_22 V).symm))
theorem rd_main_v107 (V : Valuation τ sig (Elt F)) : (after (ops (F := F)) V (Proc.devRef .tc main_v107)) = ((cmpi .slt : (⟨S30000, .i32⟩ : BufTy).Contents (Elt F) → (⟨S30000, .i32⟩ : BufTy).Contents (Elt F) → (⟨S30000, .i1⟩ : BufTy).Contents (Elt F)) (after (ops (F := F)) V (Proc.devRef .tc main_arg4)) (after (ops (F := F)) V (Proc.devRef .tc main_v106))) :=
  (lift3_main_v107 V).trans ((s_main_v107 (U2 V)).trans (congrArg₂ (cmpi .slt : (⟨S30000, .i32⟩ : BufTy).Contents (Elt F) → (⟨S30000, .i32⟩ : BufTy).Contents (Elt F) → (⟨S30000, .i1⟩ : BufTy).Contents (Elt F)) (lift3_main_arg4 V).symm (lift3_main_v106 V).symm))
theorem rd_main_c_23 (V : Valuation τ sig (Elt F)) : (after (ops (F := F)) V (Proc.devRef .tc main_c_23)) = (constantI S_ 32 64#32) :=
  (lift3_main_c_23 V).trans ((s_main_c_23 (U2 V)))
theorem rd_main_v108 (V : Valuation τ sig (Elt F)) : (after (ops (F := F)) V (Proc.devRef .tc main_v108)) = ((broadcastInDim S30000 ![] bcast_S_S30000 : (⟨S_, .i32⟩ : BufTy).Contents (Elt F) → (⟨S30000, .i32⟩ : BufTy).Contents (Elt F)) (after (ops (F := F)) V (Proc.devRef .tc main_c_23))) :=
  (lift3_main_v108 V).trans ((s_main_v108 (U2 V)).trans (congrArg (broadcastInDim S30000 ![] bcast_S_S30000 : (⟨S_, .i32⟩ : BufTy).Contents (Elt F) → (⟨S30000, .i32⟩ : BufTy).Contents (Elt F)) (lift3_main_c_23 V).symm))
theorem rd_main_v109 (V : Valuation τ sig (Elt F)) : (after (ops (F := F)) V (Proc.devRef .tc main_v109)) = ((addi : (⟨S30000, .i32⟩ : BufTy).Contents (Elt F) → (⟨S30000, .i32⟩ : BufTy).Contents (Elt F) → (⟨S30000, .i32⟩ : BufTy).Contents (Elt F)) (after (ops (F := F)) V (Proc.devRef .tc main_arg4)) (after (ops (F := F)) V (Proc.devRef .tc main_v108))) :=
  (lift3_main_v109 V).trans ((s_main_v109 (U2 V)).trans (congrArg₂ (addi : (⟨S30000, .i32⟩ : BufTy).Contents (Elt F) → (⟨S30000, .i32⟩ : BufTy).Contents (Elt F) → (⟨S30000, .i32⟩ : BufTy).Contents (Elt F)) (lift3_main_arg4 V).symm (lift3_main_v108 V).symm))
theorem rd_main_v110 (V : Valuation τ sig (Elt F)) : (after (ops (F := F)) V (Proc.devRef .tc main_v110)) = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (after (ops (F := F)) V (Proc.devRef .tc main_v107)) (after (ops (F := F)) V (Proc.devRef .tc main_v109)) (after (ops (F := F)) V (Proc.devRef .tc main_arg4))) :=
  (lift3_main_v110 V).trans ((s_main_v110 (U2 V)).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (lift3_main_v107 V).symm (lift3_main_v109 V).symm (lift3_main_arg4 V).symm))
theorem rd_main_v111 (V : Valuation τ sig (Elt F)) : (after (ops (F := F)) V (Proc.devRef .tc main_v111)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_v110))) :=
  (lift3_main_v111 V).trans ((s_main_v111 (U2 V)).trans (congrArg (broadcastInDim S30000x1 ![0] bcast_S30000_S30000x1_0 : (⟨S30000, .i32⟩ : BufTy).Contents (Elt F) → (⟨S30000x1, .i32⟩ : BufTy).Contents (Elt F)) (lift3_main_v110 V).symm))
theorem rd_main_v112 (V : Valuation τ sig (Elt F)) : (after (ops (F := F)) V (Proc.devRef .tc main_v112)) = (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops (F := F)) V (Proc.devRef .tc main_v60)) (after (ops (F := F)) V (Proc.devRef .tc main_v111))) :=
  (lift3_main_v112 V).trans ((s_main_v112 (U2 V)).trans (congrArg₂ ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (lift3_main_v60 V).symm (lift3_main_v111 V).symm))
theorem rd_main_v113 (V : Valuation τ sig (Elt F)) : (after (ops (F := F)) V (Proc.devRef .tc main_v113)) = (concatenate S30000x160 1 [⟨S30000x64, (after (ops (F := F)) V (Proc.devRef .tc main_v22))⟩, ⟨S30000x64, (after (ops (F := F)) V (Proc.devRef .tc main_v105))⟩, ⟨S30000x32, (after (ops (F := F)) V (Proc.devRef .tc main_v112))⟩] concatenates_S30000x64_S30000x64_S30000x32_S30000x160_d1) :=
  (lift3_main_v113 V).trans ((s_main_v113 (U2 V)).trans (congr3 (fun A0 A1 A2 => concatenate S30000x160 1 [⟨S30000x64, A0⟩, ⟨S30000x64, A1⟩, ⟨S30000x32, A2⟩] concatenates_S30000x64_S30000x64_S30000x32_S30000x160_d1) (lift3_main_v22 V).symm (lift3_main_v105 V).symm (lift3_main_v112 V).symm))
theorem rd_main_v114 (V : Valuation τ sig (Elt F)) : (after (ops (F := F)) V (Proc.devRef .tc main_v114)) = (((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (after (ops (F := F)) V (Proc.devRef .tc main_v113)) (after (ops (F := F)) V (Proc.devRef .tc main_arg13))) :=
  (lift3_main_v114 V).trans ((s_main_v114 (U2 V)).trans (congrArg₂ ((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (lift3_main_v113 V).symm (lift3_main_arg13 V).symm))
theorem rd_main_v115 (V : Valuation τ sig (Elt F)) : (after (ops (F := F)) V (Proc.devRef .tc main_v115)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg14))) :=
  (lift3_main_v115 V).trans ((s_main_v115 (U2 V)).trans (congrArg (broadcastInDim S1x64 ![1] bcast_S64_S1x64_1 : (⟨S64, .f32⟩ : BufTy).Contents (Elt F) → (⟨S1x64, .f32⟩ : BufTy).Contents (Elt F)) (lift3_main_arg14 V).symm))
theorem rd_main_v116 (V : Valuation τ sig (Elt F)) : (after (ops (F := F)) V (Proc.devRef .tc main_v116)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v115))) :=
  (lift3_main_v116 V).trans ((s_main_v116 (U2 V)).trans (congrArg (broadcastInDim S30000x64 ![0, 1] bcast_S1x64_S30000x64_0_1 : (⟨S1x64, .f32⟩ : BufTy).Contents (Elt F) → (⟨S30000x64, .f32⟩ : BufTy).Contents (Elt F)) (lift3_main_v115 V).symm))
theorem rd_main_v117 (V : Valuation τ sig (Elt F)) : (after (ops (F := F)) V (Proc.devRef .tc main_v117)) = ((addf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v114)) (after (ops (F := F)) V (Proc.devRef .tc main_v116))) :=
  (lift3_main_v117 V).trans ((s_main_v117 (U2 V)).trans (congrArg₂ (addf : (⟨S30000x64, .f32⟩ : BufTy).Contents (Elt F) → (⟨S30000x64, .f32⟩ : BufTy).Contents (Elt F) → (⟨S30000x64, .f32⟩ : BufTy).Contents (Elt F)) (lift3_main_v114 V).symm (lift3_main_v116 V).symm))
theorem rd_main_call4_cst (V : Valuation τ sig (Elt F)) : (after (ops (F := F)) V (Proc.devRef .tc main_call4_cst)) = (constant (F := F) S_ .f32 0x00000000#32) :=
  (lift3_main_call4_cst V).trans ((s_main_call4_cst (U2 V)))
theorem rd_main_call4_v0 (V : Valuation τ sig (Elt F)) : (after (ops (F := F)) V (Proc.devRef .tc main_call4_v0)) = (((broadcastInDim S30000x64 ![] bcast_S_S30000x64) : (⟨S_, .f32⟩ : BufTy).Contents (Elt F) → (⟨S30000x64, .f32⟩ : BufTy).Contents (Elt F)) (after (ops (F := F)) V (Proc.devRef .tc main_call4_cst))) :=
  (lift3_main_call4_v0 V).trans ((s_main_call4_v0 (U2 V)).trans (congrArg ((broadcastInDim S30000x64 ![] bcast_S_S30000x64) : (⟨S_, .f32⟩ : BufTy).Contents (Elt F) → (⟨S30000x64, .f32⟩ : BufTy).Contents (Elt F)) (lift3_main_call4_cst V).symm))
theorem rd_main_v118 (V : Valuation τ sig (Elt F)) : (after (ops (F := F)) V (Proc.devRef .tc main_v118)) = ((maximumf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v117)) (after (ops (F := F)) V (Proc.devRef .tc main_call4_v0))) :=
  (lift3_main_v118 V).trans ((s_main_v118 (U2 V)).trans (congrArg₂ (maximumf : (⟨S30000x64, .f32⟩ : BufTy).Contents (Elt F) → (⟨S30000x64, .f32⟩ : BufTy).Contents (Elt F) → (⟨S30000x64, .f32⟩ : BufTy).Contents (Elt F)) (lift3_main_v117 V).symm (lift3_main_call4_v0 V).symm))
theorem rd_main_cst_24 (V : Valuation τ sig (Elt F)) : (after (ops (F := F)) V (Proc.devRef .tc main_cst_24)) = (constant (F := F) S_ .f32 0x00000000#32) :=
  (lift3_main_cst_24 V).trans ((s_main_cst_24 (U2 V)))
theorem rd_main_v119 (V : Valuation τ sig (Elt F)) : (after (ops (F := F)) V (Proc.devRef .tc main_v119)) = ((broadcastInDim S64x64 ![] bcast_S_S64x64 : (⟨S_, .f32⟩ : BufTy).Contents (Elt F) → (⟨S64x64, .f32⟩ : BufTy).Contents (Elt F)) (after (ops (F := F)) V (Proc.devRef .tc main_cst_24))) :=
  (lift3_main_v119 V).trans ((s_main_v119 (U2 V)).trans (congrArg (broadcastInDim S64x64 ![] bcast_S_S64x64 : (⟨S_, .f32⟩ : BufTy).Contents (Elt F) → (⟨S64x64, .f32⟩ : BufTy).Contents (Elt F)) (lift3_main_cst_24 V).symm))
theorem rd_main_v120 (V : Valuation τ sig (Elt F)) : (after (ops (F := F)) V (Proc.devRef .tc main_v120)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_arg4))) :=
  (lift3_main_v120 V).trans ((s_main_v120 (U2 V)).trans (congrArg (broadcastInDim S30000x1 ![0] bcast_S30000_S30000x1_0 : (⟨S30000, .i32⟩ : BufTy).Contents (Elt F) → (⟨S30000x1, .i32⟩ : BufTy).Contents (Elt F)) (lift3_main_arg4 V).symm))
theorem rd_main_v121 (V : Valuation τ sig (Elt F)) : (after (ops (F := F)) V (Proc.devRef .tc main_v121)) = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (after (ops (F := F)) V (Proc.devRef .tc main_v119)) (after (ops (F := F)) V (Proc.devRef .tc main_v120)) (after (ops (F := F)) V (Proc.devRef .tc main_v118))) :=
  (lift3_main_v121 V).trans ((s_main_v121 (U2 V)).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (lift3_main_v119 V).symm (lift3_main_v120 V).symm (lift3_main_v118 V).symm))
theorem rd_main_cst_25 (V : Valuation τ sig (Elt F)) : (after (ops (F := F)) V (Proc.devRef .tc main_cst_25)) = (constant (F := F) S_ .f32 0x3F800000#32) :=
  (lift3_main_cst_25 V).trans ((s_main_cst_25 (U2 V)))
theorem rd_main_v122 (V : Valuation τ sig (Elt F)) : (after (ops (F := F)) V (Proc.devRef .tc main_v122)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_25))) :=
  (lift3_main_v122 V).trans ((s_main_v122 (U2 V)).trans (congrArg (broadcastInDim S30000x1 ![] bcast_S_S30000x1 : (⟨S_, .f32⟩ : BufTy).Contents (Elt F) → (⟨S30000x1, .f32⟩ : BufTy).Contents (Elt F)) (lift3_main_cst_25 V).symm))
theorem rd_main_cst_26 (V : Valuation τ sig (Elt F)) : (after (ops (F := F)) V (Proc.devRef .tc main_cst_26)) = (constant (F := F) S_ .f32 0x00000000#32) :=
  (lift3_main_cst_26 V).trans ((s_main_cst_26 (U2 V)))
theorem rd_main_v123 (V : Valuation τ sig (Elt F)) : (after (ops (F := F)) V (Proc.devRef .tc main_v123)) = ((broadcastInDim S64x1 ![] bcast_S_S64x1 : (⟨S_, .f32⟩ : BufTy).Contents (Elt F) → (⟨S64x1, .f32⟩ : BufTy).Contents (Elt F)) (after (ops (F := F)) V (Proc.devRef .tc main_cst_26))) :=
  (lift3_main_v123 V).trans ((s_main_v123 (U2 V)).trans (congrArg (broadcastInDim S64x1 ![] bcast_S_S64x1 : (⟨S_, .f32⟩ : BufTy).Contents (Elt F) → (⟨S64x1, .f32⟩ : BufTy).Contents (Elt F)) (lift3_main_cst_26 V).symm))
theorem rd_main_v124 (V : Valuation τ sig (Elt F)) : (after (ops (F := F)) V (Proc.devRef .tc main_v124)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_arg4))) :=
  (lift3_main_v124 V).trans ((s_main_v124 (U2 V)).trans (congrArg (broadcastInDim S30000x1 ![0] bcast_S30000_S30000x1_0 : (⟨S30000, .i32⟩ : BufTy).Contents (Elt F) → (⟨S30000x1, .i32⟩ : BufTy).Contents (Elt F)) (lift3_main_arg4 V).symm))
theorem rd_main_v125 (V : Valuation τ sig (Elt F)) : (after (ops (F := F)) V (Proc.devRef .tc main_v125)) = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (after (ops (F := F)) V (Proc.devRef .tc main_v123)) (after (ops (F := F)) V (Proc.devRef .tc main_v124)) (after (ops (F := F)) V (Proc.devRef .tc main_v122))) :=
  (lift3_main_v125 V).trans ((s_main_v125 (U2 V)).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (lift3_main_v123 V).symm (lift3_main_v124 V).symm (lift3_main_v122 V).symm))
theorem rd_main_cst_27 (V : Valuation τ sig (Elt F)) : (after (ops (F := F)) V (Proc.devRef .tc main_cst_27)) = (constant (F := F) S_ .f32 0x3F800000#32) :=
  (lift3_main_cst_27 V).trans ((s_main_cst_27 (U2 V)))
theorem rd_main_v126 (V : Valuation τ sig (Elt F)) : (after (ops (F := F)) V (Proc.devRef .tc main_v126)) = ((broadcastInDim S64x1 ![] bcast_S_S64x1 : (⟨S_, .f32⟩ : BufTy).Contents (Elt F) → (⟨S64x1, .f32⟩ : BufTy).Contents (Elt F)) (after (ops (F := F)) V (Proc.devRef .tc main_cst_27))) :=
  (lift3_main_v126 V).trans ((s_main_v126 (U2 V)).trans (congrArg (broadcastInDim S64x1 ![] bcast_S_S64x1 : (⟨S_, .f32⟩ : BufTy).Contents (Elt F) → (⟨S64x1, .f32⟩ : BufTy).Contents (Elt F)) (lift3_main_cst_27 V).symm))
theorem rd_main_v127 (V : Valuation τ sig (Elt F)) : (after (ops (F := F)) V (Proc.devRef .tc main_v127)) = ((maximumf : (⟨S64x1, .f32⟩ : BufTy).Contents (Elt F) → (⟨S64x1, .f32⟩ : BufTy).Contents (Elt F) → (⟨S64x1, .f32⟩ : BufTy).Contents (Elt F)) (after (ops (F := F)) V (Proc.devRef .tc main_v125)) (after (ops (F := F)) V (Proc.devRef .tc main_v126))) :=
  (lift3_main_v127 V).trans ((s_main_v127 (U2 V)).trans (congrArg₂ (maximumf : (⟨S64x1, .f32⟩ : BufTy).Contents (Elt F) → (⟨S64x1, .f32⟩ : BufTy).Contents (Elt F) → (⟨S64x1, .f32⟩ : BufTy).Contents (Elt F)) (lift3_main_v125 V).symm (lift3_main_v126 V).symm))
theorem rd_main_v128 (V : Valuation τ sig (Elt F)) : (after (ops (F := F)) V (Proc.devRef .tc main_v128)) = ((broadcastInDim S64x64 ![0, 1] bcast_S64x1_S64x64_0_1 : (⟨S64x1, .f32⟩ : BufTy).Contents (Elt F) → (⟨S64x64, .f32⟩ : BufTy).Contents (Elt F)) (after (ops (F := F)) V (Proc.devRef .tc main_v127))) :=
  (lift3_main_v128 V).trans ((s_main_v128 (U2 V)).trans (congrArg (broadcastInDim S64x64 ![0, 1] bcast_S64x1_S64x64_0_1 : (⟨S64x1, .f32⟩ : BufTy).Contents (Elt F) → (⟨S64x64, .f32⟩ : BufTy).Contents (Elt F)) (lift3_main_v127 V).symm))
theorem rd_main_v129 (V : Valuation τ sig (Elt F)) : (after (ops (F := F)) V (Proc.devRef .tc main_v129)) = ((Host.divf : (⟨S64x64, .f32⟩ : BufTy).Contents (Elt F) → (⟨S64x64, .f32⟩ : BufTy).Contents (Elt F) → (⟨S64x64, .f32⟩ : BufTy).Contents (Elt F)) (after (ops (F := F)) V (Proc.devRef .tc main_v121)) (after (ops (F := F)) V (Proc.devRef .tc main_v128))) :=
  (lift3_main_v129 V).trans ((s_main_v129 (U2 V)).trans (congrArg₂ (Host.divf : (⟨S64x64, .f32⟩ : BufTy).Contents (Elt F) → (⟨S64x64, .f32⟩ : BufTy).Contents (Elt F) → (⟨S64x64, .f32⟩ : BufTy).Contents (Elt F)) (lift3_main_v121 V).symm (lift3_main_v128 V).symm))
theorem rd_main_v130 (V : Valuation τ sig (Elt F)) : (after (ops (F := F)) V (Proc.devRef .tc main_v130)) = (((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) (after (ops (F := F)) V (Proc.devRef .tc main_v129)) (after (ops (F := F)) V (Proc.devRef .tc main_v60))) :=
  (lift3_main_v130 V).trans ((s_main_v130 (U2 V)).trans (congrArg₂ ((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) (lift3_main_v129 V).symm (lift3_main_v60 V).symm))
theorem rd_main_v131 (V : Valuation τ sig (Elt F)) : (after (ops (F := F)) V (Proc.devRef .tc main_v131)) = (((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (after (ops (F := F)) V (Proc.devRef .tc main_v130)) (after (ops (F := F)) V (Proc.devRef .tc main_arg15))) :=
  (lift3_main_v131 V).trans ((s_main_v131 (U2 V)).trans (congrArg₂ ((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (lift3_main_v130 V).symm (lift3_main_arg15 V).symm))
theorem rd_main_v132 (V : Valuation τ sig (Elt F)) : (after (ops (F := F)) V (Proc.devRef .tc main_v132)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg16))) :=
  (lift3_main_v132 V).trans ((s_main_v132 (U2 V)).trans (congrArg (broadcastInDim S1x64 ![1] bcast_S64_S1x64_1 : (⟨S64, .f32⟩ : BufTy).Contents (Elt F) → (⟨S1x64, .f32⟩ : BufTy).Contents (Elt F)) (lift3_main_arg16 V).symm))
theorem rd_main_v133 (V : Valuation τ sig (Elt F)) : (after (ops (F := F)) V (Proc.devRef .tc main_v133)) = ((broadcastInDim S64x64 ![0, 1] bcast_S1x64_S64x64_0_1 : (⟨S1x64, .f32⟩ : BufTy).Contents (Elt F) → (⟨S64x64, .f32⟩ : BufTy).Contents (Elt F)) (after (ops (F := F)) V (Proc.devRef .tc main_v132))) :=
  (lift3_main_v133 V).trans ((s_main_v133 (U2 V)).trans (congrArg (broadcastInDim S64x64 ![0, 1] bcast_S1x64_S64x64_0_1 : (⟨S1x64, .f32⟩ : BufTy).Contents (Elt F) → (⟨S64x64, .f32⟩ : BufTy).Contents (Elt F)) (lift3_main_v132 V).symm))
theorem rd_main_v134 (V : Valuation τ sig (Elt F)) : (after (ops (F := F)) V (Proc.devRef .tc main_v134)) = ((addf : (⟨S64x64, .f32⟩ : BufTy).Contents (Elt F) → (⟨S64x64, .f32⟩ : BufTy).Contents (Elt F) → (⟨S64x64, .f32⟩ : BufTy).Contents (Elt F)) (after (ops (F := F)) V (Proc.devRef .tc main_v131)) (after (ops (F := F)) V (Proc.devRef .tc main_v133))) :=
  (lift3_main_v134 V).trans ((s_main_v134 (U2 V)).trans (congrArg₂ (addf : (⟨S64x64, .f32⟩ : BufTy).Contents (Elt F) → (⟨S64x64, .f32⟩ : BufTy).Contents (Elt F) → (⟨S64x64, .f32⟩ : BufTy).Contents (Elt F)) (lift3_main_v131 V).symm (lift3_main_v133 V).symm))
theorem rd_main_call5_cst (V : Valuation τ sig (Elt F)) : (after (ops (F := F)) V (Proc.devRef .tc main_call5_cst)) = (constant (F := F) S_ .f32 0x00000000#32) :=
  (lift3_main_call5_cst V).trans ((s_main_call5_cst (U2 V)))
theorem rd_main_call5_v0 (V : Valuation τ sig (Elt F)) : (after (ops (F := F)) V (Proc.devRef .tc main_call5_v0)) = (((broadcastInDim S64x64 ![] bcast_S_S64x64) : (⟨S_, .f32⟩ : BufTy).Contents (Elt F) → (⟨S64x64, .f32⟩ : BufTy).Contents (Elt F)) (after (ops (F := F)) V (Proc.devRef .tc main_call5_cst))) :=
  (lift3_main_call5_v0 V).trans ((s_main_call5_v0 (U2 V)).trans (congrArg ((broadcastInDim S64x64 ![] bcast_S_S64x64) : (⟨S_, .f32⟩ : BufTy).Contents (Elt F) → (⟨S64x64, .f32⟩ : BufTy).Contents (Elt F)) (lift3_main_call5_cst V).symm))
theorem rd_main_v135 (V : Valuation τ sig (Elt F)) : (after (ops (F := F)) V (Proc.devRef .tc main_v135)) = ((maximumf : (⟨S64x64, .f32⟩ : BufTy).Contents (Elt F) → (⟨S64x64, .f32⟩ : BufTy).Contents (Elt F) → (⟨S64x64, .f32⟩ : BufTy).Contents (Elt F)) (after (ops (F := F)) V (Proc.devRef .tc main_v134)) (after (ops (F := F)) V (Proc.devRef .tc main_call5_v0))) :=
  (lift3_main_v135 V).trans ((s_main_v135 (U2 V)).trans (congrArg₂ (maximumf : (⟨S64x64, .f32⟩ : BufTy).Contents (Elt F) → (⟨S64x64, .f32⟩ : BufTy).Contents (Elt F) → (⟨S64x64, .f32⟩ : BufTy).Contents (Elt F)) (lift3_main_v134 V).symm (lift3_main_call5_v0 V).symm))
theorem rd_main_c_28 (V : Valuation τ sig (Elt F)) : (after (ops (F := F)) V (Proc.devRef .tc main_c_28)) = (constantI S_ 32 0#32) :=
  (lift3_main_c_28 V).trans ((s_main_c_28 (U2 V)))
theorem rd_main_v136 (V : Valuation τ sig (Elt F)) : (after (ops (F := F)) V (Proc.devRef .tc main_v136)) = ((broadcastInDim S300000 ![] bcast_S_S300000 : (⟨S_, .i32⟩ : BufTy).Contents (Elt F) → (⟨S300000, .i32⟩ : BufTy).Contents (Elt F)) (after (ops (F := F)) V (Proc.devRef .tc main_c_28))) :=
  (lift3_main_v136 V).trans ((s_main_v136 (U2 V)).trans (congrArg (broadcastInDim S300000 ![] bcast_S_S300000 : (⟨S_, .i32⟩ : BufTy).Contents (Elt F) → (⟨S300000, .i32⟩ : BufTy).Contents (Elt F)) (lift3_main_c_28 V).symm))
theorem rd_main_v137 (V : Valuation τ sig (Elt F)) : (after (ops (F := F)) V (Proc.devRef .tc main_v137)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v1)) (after (ops (F := F)) V (Proc.devRef .tc main_v136))) :=
  (lift3_main_v137 V).trans ((s_main_v137 (U2 V)).trans (congrArg₂ (cmpi .slt : (⟨S300000, .i32⟩ : BufTy).Contents (Elt F) → (⟨S300000, .i32⟩ : BufTy).Contents (Elt F) → (⟨S300000, .i1⟩ : BufTy).Contents (Elt F)) (lift3_main_v1 V).symm (lift3_main_v136 V).symm))
theorem rd_main_c_29 (V : Valuation τ sig (Elt F)) : (after (ops (F := F)) V (Proc.devRef .tc main_c_29)) = (constantI S_ 32 30000#32) :=
  (lift3_main_c_29 V).trans ((s_main_c_29 (U2 V)))
theorem rd_main_v138 (V : Valuation τ sig (Elt F)) : (after (ops (F := F)) V (Proc.devRef .tc main_v138)) = ((broadcastInDim S300000 ![] bcast_S_S300000 : (⟨S_, .i32⟩ : BufTy).Contents (Elt F) → (⟨S300000, .i32⟩ : BufTy).Contents (Elt F)) (after (ops (F := F)) V (Proc.devRef .tc main_c_29))) :=
  (lift3_main_v138 V).trans ((s_main_v138 (U2 V)).trans (congrArg (broadcastInDim S300000 ![] bcast_S_S300000 : (⟨S_, .i32⟩ : BufTy).Contents (Elt F) → (⟨S300000, .i32⟩ : BufTy).Contents (Elt F)) (lift3_main_c_29 V).symm))
theorem rd_main_v139 (V : Valuation τ sig (Elt F)) : (after (ops (F := F)) V (Proc.devRef .tc main_v139)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v1)) (after (ops (F := F)) V (Proc.devRef .tc main_v138))) :=
  (lift3_main_v139 V).trans ((s_main_v139 (U2 V)).trans (congrArg₂ (addi : (⟨S300000, .i32⟩ : BufTy).Contents (Elt F) → (⟨S300000, .i32⟩ : BufTy).Contents (Elt F) → (⟨S300000, .i32⟩ : BufTy).Contents (Elt F)) (lift3_main_v1 V).symm (lift3_main_v138 V).symm))
theorem rd_main_v140 (V : Valuation τ sig (Elt F)) : (after (ops (F := F)) V (Proc.devRef .tc main_v140)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v137)) (after (ops (F := F)) V (Proc.devRef .tc main_v139)) (after (ops (F := F)) V (Proc.devRef .tc main_v1))) :=
  (lift3_main_v140 V).trans ((s_main_v140 (U2 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift3_main_v137 V).symm (lift3_main_v139 V).symm (lift3_main_v1 V).symm))
theorem rd_main_v141 (V : Valuation τ sig (Elt F)) : (after (ops (F := F)) V (Proc.devRef .tc main_v141)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v140))) :=
  (lift3_main_v141 V).trans ((s_main_v141 (U2 V)).trans (congrArg (broadcastInDim S300000x1 ![0] bcast_S300000_S300000x1_0 : (⟨S300000, .i32⟩ : BufTy).Contents (Elt F) → (⟨S300000x1, .i32⟩ : BufTy).Contents (Elt F)) (lift3_main_v140 V).symm))
theorem rd_main_v142 (V : Valuation τ sig (Elt F)) : (after (ops (F := F)) V (Proc.devRef .tc main_v142)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) (after (ops (F := F)) V (Proc.devRef .tc main_v141))) :=
  (lift3_main_v142 V).trans ((s_main_v142 (U2 V)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (lift3_main_v118 V).symm (lift3_main_v141 V).symm))
theorem rd_main_c_30 (V : Valuation τ sig (Elt F)) : (after (ops (F := F)) V (Proc.devRef .tc main_c_30)) = (constantI S_ 32 0#32) :=
  (lift3_main_c_30 V).trans ((s_main_c_30 (U2 V)))
theorem rd_main_v143 (V : Valuation τ sig (Elt F)) : (after (ops (F := F)) V (Proc.devRef .tc main_v143)) = ((broadcastInDim S300000 ![] bcast_S_S300000 : (⟨S_, .i32⟩ : BufTy).Contents (Elt F) → (⟨S300000, .i32⟩ : BufTy).Contents (Elt F)) (after (ops (F := F)) V (Proc.devRef .tc main_c_30))) :=
  (lift3_main_v143 V).trans ((s_main_v143 (U2 V)).trans (congrArg (broadcastInDim S300000 ![] bcast_S_S300000 : (⟨S_, .i32⟩ : BufTy).Contents (Elt F) → (⟨S300000, .i32⟩ : BufTy).Contents (Elt F)) (lift3_main_c_30 V).symm))
theorem rd_main_v144 (V : Valuation τ sig (Elt F)) : (after (ops (F := F)) V (Proc.devRef .tc main_v144)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v3)) (after (ops (F := F)) V (Proc.devRef .tc main_v143))) :=
  (lift3_main_v144 V).trans ((s_main_v144 (U2 V)).trans (congrArg₂ (cmpi .slt : (⟨S300000, .i32⟩ : BufTy).Contents (Elt F) → (⟨S300000, .i32⟩ : BufTy).Contents (Elt F) → (⟨S300000, .i1⟩ : BufTy).Contents (Elt F)) (lift3_main_v3 V).symm (lift3_main_v143 V).symm))
theorem rd_main_c_31 (V : Valuation τ sig (Elt F)) : (after (ops (F := F)) V (Proc.devRef .tc main_c_31)) = (constantI S_ 32 30000#32) :=
  (lift3_main_c_31 V).trans ((s_main_c_31 (U2 V)))
theorem rd_main_v145 (V : Valuation τ sig (Elt F)) : (after (ops (F := F)) V (Proc.devRef .tc main_v145)) = ((broadcastInDim S300000 ![] bcast_S_S300000 : (⟨S_, .i32⟩ : BufTy).Contents (Elt F) → (⟨S300000, .i32⟩ : BufTy).Contents (Elt F)) (after (ops (F := F)) V (Proc.devRef .tc main_c_31))) :=
  (lift3_main_v145 V).trans ((s_main_v145 (U2 V)).trans (congrArg (broadcastInDim S300000 ![] bcast_S_S300000 : (⟨S_, .i32⟩ : BufTy).Contents (Elt F) → (⟨S300000, .i32⟩ : BufTy).Contents (Elt F)) (lift3_main_c_31 V).symm))

end Cert.ReferenceIdeal.Hand

end
-- ==== Proof.Ref.StageL0.lean ====
-- written by: gen_ref.js <unit directory>
/- The first layer of the reference program read as terms: the edge update main_v94, the node update main_v118 and the global update main_v135, each relu(concatenate(...) · W + b) over the normalised inputs, the launch contents of the arguments and the updates before it. -/
import proofs.«123839_j71768903516633_2_alg».proof.Proof.Ref.Rd0
import proofs.«123839_j71768903516633_2_alg».proof.Proof.Ref.Rd1
import proofs.«123839_j71768903516633_2_alg».proof.Proof.Ref.Rd2
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem t_main_v0 (V : Valuation τ sig (Elt F)) : (after (ops (F := F)) V (Proc.devRef .tc main_v0)) = (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) :=
  (rd_main_v0 V).trans (congrArg ((extractStridedSlice S1x300000 ![0, 0] · slices_S2x300000_S1x300000_0_0) : (⟨S2x300000, .i32⟩ : BufTy).Contents (Elt F) → (⟨S1x300000, .i32⟩ : BufTy).Contents (Elt F)) (lift0_main_arg1 V))
theorem t_main_v1 (V : Valuation τ sig (Elt F)) : (after (ops (F := F)) V (Proc.devRef .tc main_v1)) = (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) :=
  (rd_main_v1 V).trans (congrArg (fun A => shapeCast S300000 A shapeCasts_S1x300000_S300000) (t_main_v0 V))
theorem t_main_c_10 (V : Valuation τ sig (Elt F)) : (after (ops (F := F)) V (Proc.devRef .tc main_c_10)) = (constantI S_ 32 0#32) :=
  rd_main_c_10 V
theorem t_main_v61 (V : Valuation τ sig (Elt F)) : (after (ops (F := F)) V (Proc.devRef .tc main_v61)) = ((broadcastInDim S300000 ![] bcast_S_S300000 : (⟨S_, .i32⟩ : BufTy).Contents (Elt F) → (⟨S300000, .i32⟩ : BufTy).Contents (Elt F)) (constantI S_ 32 0#32)) :=
  (rd_main_v61 V).trans (congrArg (broadcastInDim S300000 ![] bcast_S_S300000 : (⟨S_, .i32⟩ : BufTy).Contents (Elt F) → (⟨S300000, .i32⟩ : BufTy).Contents (Elt F)) (t_main_c_10 V))
theorem t_main_v62 (V : Valuation τ sig (Elt F)) : (after (ops (F := F)) V (Proc.devRef .tc main_v62)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v62 V).trans (congrArg₂ (cmpi .slt : (⟨S300000, .i32⟩ : BufTy).Contents (Elt F) → (⟨S300000, .i32⟩ : BufTy).Contents (Elt F) → (⟨S300000, .i1⟩ : BufTy).Contents (Elt F)) (t_main_v1 V) (t_main_v61 V))
theorem t_main_c_11 (V : Valuation τ sig (Elt F)) : (after (ops (F := F)) V (Proc.devRef .tc main_c_11)) = (constantI S_ 32 30000#32) :=
  rd_main_c_11 V
theorem t_main_v63 (V : Valuation τ sig (Elt F)) : (after (ops (F := F)) V (Proc.devRef .tc main_v63)) = ((broadcastInDim S300000 ![] bcast_S_S300000 : (⟨S_, .i32⟩ : BufTy).Contents (Elt F) → (⟨S300000, .i32⟩ : BufTy).Contents (Elt F)) (constantI S_ 32 30000#32)) :=
  (rd_main_v63 V).trans (congrArg (broadcastInDim S300000 ![] bcast_S_S300000 : (⟨S_, .i32⟩ : BufTy).Contents (Elt F) → (⟨S300000, .i32⟩ : BufTy).Contents (Elt F)) (t_main_c_11 V))
theorem t_main_v64 (V : Valuation τ sig (Elt F)) : (after (ops (F := F)) V (Proc.devRef .tc main_v64)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v64 V).trans (congrArg₂ (addi : (⟨S300000, .i32⟩ : BufTy).Contents (Elt F) → (⟨S300000, .i32⟩ : BufTy).Contents (Elt F) → (⟨S300000, .i32⟩ : BufTy).Contents (Elt F)) (t_main_v1 V) (t_main_v63 V))
theorem t_main_v65 (V : Valuation τ sig (Elt F)) : (after (ops (F := F)) V (Proc.devRef .tc main_v65)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)) :=
  (rd_main_v65 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v62 V) (t_main_v64 V) (t_main_v1 V))
theorem t_main_v66 (V : Valuation τ sig (Elt F)) : (after (ops (F := F)) V (Proc.devRef .tc main_v66)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))) :=
  (rd_main_v66 V).trans (congrArg (broadcastInDim S300000x1 ![0] bcast_S300000_S300000x1_0 : (⟨S300000, .i32⟩ : BufTy).Contents (Elt F) → (⟨S300000x1, .i32⟩ : BufTy).Contents (Elt F)) (t_main_v65 V))
theorem t_main_v67 (V : Valuation τ sig (Elt F)) : (after (ops (F := F)) V (Proc.devRef .tc main_v67)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) :=
  (rd_main_v67 V).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) rfl (t_main_v66 V))
theorem t_main_v2 (V : Valuation τ sig (Elt F)) : (after (ops (F := F)) V (Proc.devRef .tc main_v2)) = (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) :=
  (rd_main_v2 V).trans (congrArg ((extractStridedSlice S1x300000 ![1, 0] · slices_S2x300000_S1x300000_1_0) : (⟨S2x300000, .i32⟩ : BufTy).Contents (Elt F) → (⟨S1x300000, .i32⟩ : BufTy).Contents (Elt F)) (lift0_main_arg1 V))
theorem t_main_v3 (V : Valuation τ sig (Elt F)) : (after (ops (F := F)) V (Proc.devRef .tc main_v3)) = (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) :=
  (rd_main_v3 V).trans (congrArg (fun A => shapeCast S300000 A shapeCasts_S1x300000_S300000) (t_main_v2 V))
theorem t_main_c_12 (V : Valuation τ sig (Elt F)) : (after (ops (F := F)) V (Proc.devRef .tc main_c_12)) = (constantI S_ 32 0#32) :=
  rd_main_c_12 V
theorem t_main_v68 (V : Valuation τ sig (Elt F)) : (after (ops (F := F)) V (Proc.devRef .tc main_v68)) = ((broadcastInDim S300000 ![] bcast_S_S300000 : (⟨S_, .i32⟩ : BufTy).Contents (Elt F) → (⟨S300000, .i32⟩ : BufTy).Contents (Elt F)) (constantI S_ 32 0#32)) :=
  (rd_main_v68 V).trans (congrArg (broadcastInDim S300000 ![] bcast_S_S300000 : (⟨S_, .i32⟩ : BufTy).Contents (Elt F) → (⟨S300000, .i32⟩ : BufTy).Contents (Elt F)) (t_main_c_12 V))
theorem t_main_v69 (V : Valuation τ sig (Elt F)) : (after (ops (F := F)) V (Proc.devRef .tc main_v69)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v69 V).trans (congrArg₂ (cmpi .slt : (⟨S300000, .i32⟩ : BufTy).Contents (Elt F) → (⟨S300000, .i32⟩ : BufTy).Contents (Elt F) → (⟨S300000, .i1⟩ : BufTy).Contents (Elt F)) (t_main_v3 V) (t_main_v68 V))
theorem t_main_c_13 (V : Valuation τ sig (Elt F)) : (after (ops (F := F)) V (Proc.devRef .tc main_c_13)) = (constantI S_ 32 30000#32) :=
  rd_main_c_13 V
theorem t_main_v70 (V : Valuation τ sig (Elt F)) : (after (ops (F := F)) V (Proc.devRef .tc main_v70)) = ((broadcastInDim S300000 ![] bcast_S_S300000 : (⟨S_, .i32⟩ : BufTy).Contents (Elt F) → (⟨S300000, .i32⟩ : BufTy).Contents (Elt F)) (constantI S_ 32 30000#32)) :=
  (rd_main_v70 V).trans (congrArg (broadcastInDim S300000 ![] bcast_S_S300000 : (⟨S_, .i32⟩ : BufTy).Contents (Elt F) → (⟨S300000, .i32⟩ : BufTy).Contents (Elt F)) (t_main_c_13 V))
theorem t_main_v71 (V : Valuation τ sig (Elt F)) : (after (ops (F := F)) V (Proc.devRef .tc main_v71)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v71 V).trans (congrArg₂ (addi : (⟨S300000, .i32⟩ : BufTy).Contents (Elt F) → (⟨S300000, .i32⟩ : BufTy).Contents (Elt F) → (⟨S300000, .i32⟩ : BufTy).Contents (Elt F)) (t_main_v3 V) (t_main_v70 V))
theorem t_main_v72 (V : Valuation τ sig (Elt F)) : (after (ops (F := F)) V (Proc.devRef .tc main_v72)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v72 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v69 V) (t_main_v71 V) (t_main_v3 V))
theorem t_main_v73 (V : Valuation τ sig (Elt F)) : (after (ops (F := F)) V (Proc.devRef .tc main_v73)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))) :=
  (rd_main_v73 V).trans (congrArg (broadcastInDim S300000x1 ![0] bcast_S300000_S300000x1_0 : (⟨S300000, .i32⟩ : BufTy).Contents (Elt F) → (⟨S300000x1, .i32⟩ : BufTy).Contents (Elt F)) (t_main_v72 V))
theorem t_main_v74 (V : Valuation τ sig (Elt F)) : (after (ops (F := F)) V (Proc.devRef .tc main_v74)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)))) :=
  (rd_main_v74 V).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) rfl (t_main_v73 V))
theorem t_main_c_14 (V : Valuation τ sig (Elt F)) : (after (ops (F := F)) V (Proc.devRef .tc main_c_14)) = (constantI S_ 32 0#32) :=
  rd_main_c_14 V
theorem t_main_v75 (V : Valuation τ sig (Elt F)) : (after (ops (F := F)) V (Proc.devRef .tc main_v75)) = ((broadcastInDim S300000 ![] bcast_S_S300000 : (⟨S_, .i32⟩ : BufTy).Contents (Elt F) → (⟨S300000, .i32⟩ : BufTy).Contents (Elt F)) (constantI S_ 32 0#32)) :=
  (rd_main_v75 V).trans (congrArg (broadcastInDim S300000 ![] bcast_S_S300000 : (⟨S_, .i32⟩ : BufTy).Contents (Elt F) → (⟨S300000, .i32⟩ : BufTy).Contents (Elt F)) (t_main_c_14 V))
theorem t_main_v76 (V : Valuation τ sig (Elt F)) : (after (ops (F := F)) V (Proc.devRef .tc main_v76)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v76 V).trans (congrArg₂ (cmpi .slt : (⟨S300000, .i32⟩ : BufTy).Contents (Elt F) → (⟨S300000, .i32⟩ : BufTy).Contents (Elt F) → (⟨S300000, .i1⟩ : BufTy).Contents (Elt F)) (t_main_v1 V) (t_main_v75 V))
theorem t_main_c_15 (V : Valuation τ sig (Elt F)) : (after (ops (F := F)) V (Proc.devRef .tc main_c_15)) = (constantI S_ 32 30000#32) :=
  rd_main_c_15 V
theorem t_main_v77 (V : Valuation τ sig (Elt F)) : (after (ops (F := F)) V (Proc.devRef .tc main_v77)) = ((broadcastInDim S300000 ![] bcast_S_S300000 : (⟨S_, .i32⟩ : BufTy).Contents (Elt F) → (⟨S300000, .i32⟩ : BufTy).Contents (Elt F)) (constantI S_ 32 30000#32)) :=
  (rd_main_v77 V).trans (congrArg (broadcastInDim S300000 ![] bcast_S_S300000 : (⟨S_, .i32⟩ : BufTy).Contents (Elt F) → (⟨S300000, .i32⟩ : BufTy).Contents (Elt F)) (t_main_c_15 V))
theorem t_main_v78 (V : Valuation τ sig (Elt F)) : (after (ops (F := F)) V (Proc.devRef .tc main_v78)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v78 V).trans (congrArg₂ (addi : (⟨S300000, .i32⟩ : BufTy).Contents (Elt F) → (⟨S300000, .i32⟩ : BufTy).Contents (Elt F) → (⟨S300000, .i32⟩ : BufTy).Contents (Elt F)) (t_main_v1 V) (t_main_v77 V))
theorem t_main_v79 (V : Valuation τ sig (Elt F)) : (after (ops (F := F)) V (Proc.devRef .tc main_v79)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)) :=
  (rd_main_v79 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v76 V) (t_main_v78 V) (t_main_v1 V))
theorem t_main_v80 (V : Valuation τ sig (Elt F)) : (after (ops (F := F)) V (Proc.devRef .tc main_v80)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))) :=
  (rd_main_v80 V).trans (congrArg (broadcastInDim S300000x1 ![0] bcast_S300000_S300000x1_0 : (⟨S300000, .i32⟩ : BufTy).Contents (Elt F) → (⟨S300000x1, .i32⟩ : BufTy).Contents (Elt F)) (t_main_v79 V))
theorem t_main_v81 (V : Valuation τ sig (Elt F)) : (after (ops (F := F)) V (Proc.devRef .tc main_v81)) = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) :=
  (rd_main_v81 V).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (lift0_main_arg4 V) (t_main_v80 V))
theorem t_main_c_16 (V : Valuation τ sig (Elt F)) : (after (ops (F := F)) V (Proc.devRef .tc main_c_16)) = (constantI S_ 32 0#32) :=
  rd_main_c_16 V
theorem t_main_v82 (V : Valuation τ sig (Elt F)) : (after (ops (F := F)) V (Proc.devRef .tc main_v82)) = ((broadcastInDim S300000 ![] bcast_S_S300000 : (⟨S_, .i32⟩ : BufTy).Contents (Elt F) → (⟨S300000, .i32⟩ : BufTy).Contents (Elt F)) (constantI S_ 32 0#32)) :=
  (rd_main_v82 V).trans (congrArg (broadcastInDim S300000 ![] bcast_S_S300000 : (⟨S_, .i32⟩ : BufTy).Contents (Elt F) → (⟨S300000, .i32⟩ : BufTy).Contents (Elt F)) (t_main_c_16 V))
theorem t_main_v83 (V : Valuation τ sig (Elt F)) : (after (ops (F := F)) V (Proc.devRef .tc main_v83)) = ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) :=
  (rd_main_v83 V).trans (congrArg₂ (cmpi .slt : (⟨S300000, .i32⟩ : BufTy).Contents (Elt F) → (⟨S300000, .i32⟩ : BufTy).Contents (Elt F) → (⟨S300000, .i1⟩ : BufTy).Contents (Elt F)) (t_main_v81 V) (t_main_v82 V))
theorem t_main_c_17 (V : Valuation τ sig (Elt F)) : (after (ops (F := F)) V (Proc.devRef .tc main_c_17)) = (constantI S_ 32 64#32) :=
  rd_main_c_17 V
theorem t_main_v84 (V : Valuation τ sig (Elt F)) : (after (ops (F := F)) V (Proc.devRef .tc main_v84)) = ((broadcastInDim S300000 ![] bcast_S_S300000 : (⟨S_, .i32⟩ : BufTy).Contents (Elt F) → (⟨S300000, .i32⟩ : BufTy).Contents (Elt F)) (constantI S_ 32 64#32)) :=
  (rd_main_v84 V).trans (congrArg (broadcastInDim S300000 ![] bcast_S_S300000 : (⟨S_, .i32⟩ : BufTy).Contents (Elt F) → (⟨S300000, .i32⟩ : BufTy).Contents (Elt F)) (t_main_c_17 V))
theorem t_main_v85 (V : Valuation τ sig (Elt F)) : (after (ops (F := F)) V (Proc.devRef .tc main_v85)) = ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) :=
  (rd_main_v85 V).trans (congrArg₂ (addi : (⟨S300000, .i32⟩ : BufTy).Contents (Elt F) → (⟨S300000, .i32⟩ : BufTy).Contents (Elt F) → (⟨S300000, .i32⟩ : BufTy).Contents (Elt F)) (t_main_v81 V) (t_main_v84 V))
theorem t_main_v86 (V : Valuation τ sig (Elt F)) : (after (ops (F := F)) V (Proc.devRef .tc main_v86)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))) :=
  (rd_main_v86 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v83 V) (t_main_v85 V) (t_main_v81 V))
theorem t_main_v87 (V : Valuation τ sig (Elt F)) : (after (ops (F := F)) V (Proc.devRef .tc main_v87)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))) :=
  (rd_main_v87 V).trans (congrArg (broadcastInDim S300000x1 ![0] bcast_S300000_S300000x1_0 : (⟨S300000, .i32⟩ : BufTy).Contents (Elt F) → (⟨S300000x1, .i32⟩ : BufTy).Contents (Elt F)) (t_main_v86 V))
theorem t_main_v88 (V : Valuation τ sig (Elt F)) : (after (ops (F := F)) V (Proc.devRef .tc main_v88)) = (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops (F := F)) V (Proc.devRef .tc main_v60)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))))) :=
  (rd_main_v88 V).trans (congrArg₂ ((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) rfl (t_main_v87 V))
theorem t_main_v89 (V : Valuation τ sig (Elt F)) : (after (ops (F := F)) V (Proc.devRef .tc main_v89)) = (concatenate S300000x192 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x32, (after (ops (F := F)) V (Proc.devRef .tc main_v41))⟩, ⟨S300000x32, (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops (F := F)) V (Proc.devRef .tc main_v60)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x32_S300000x32_S300000x192_d1) :=
  (rd_main_v89 V).trans (congr4 (fun A0 A1 A2 A3 => concatenate S300000x192 1 [⟨S300000x64, A0⟩, ⟨S300000x64, A1⟩, ⟨S300000x32, A2⟩, ⟨S300000x32, A3⟩] concatenates_S300000x64_S300000x64_S300000x32_S300000x32_S300000x192_d1) (t_main_v67 V) (t_main_v74 V) rfl (t_main_v88 V))
theorem t_main_v90 (V : Valuation τ sig (Elt F)) : (after (ops (F := F)) V (Proc.devRef .tc main_v90)) = (((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (concatenate S300000x192 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x32, (after (ops (F := F)) V (Proc.devRef .tc main_v41))⟩, ⟨S300000x32, (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops (F := F)) V (Proc.devRef .tc main_v60)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x32_S300000x32_S300000x192_d1) (V (Proc.devRef .tc main_arg11))) :=
  (rd_main_v90 V).trans (congrArg₂ ((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (t_main_v89 V) (lift0_main_arg11 V))
theorem t_main_v91 (V : Valuation τ sig (Elt F)) : (after (ops (F := F)) V (Proc.devRef .tc main_v91)) = ((broadcastInDim S1x64 ![1] bcast_S64_S1x64_1 : (⟨S64, .f32⟩ : BufTy).Contents (Elt F) → (⟨S1x64, .f32⟩ : BufTy).Contents (Elt F)) (V (Proc.devRef .tc main_arg12))) :=
  (rd_main_v91 V).trans (congrArg (broadcastInDim S1x64 ![1] bcast_S64_S1x64_1 : (⟨S64, .f32⟩ : BufTy).Contents (Elt F) → (⟨S1x64, .f32⟩ : BufTy).Contents (Elt F)) (lift0_main_arg12 V))
theorem t_main_v92 (V : Valuation τ sig (Elt F)) : (after (ops (F := F)) V (Proc.devRef .tc main_v92)) = ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg12)))) :=
  (rd_main_v92 V).trans (congrArg (broadcastInDim S300000x64 ![0, 1] bcast_S1x64_S300000x64_0_1 : (⟨S1x64, .f32⟩ : BufTy).Contents (Elt F) → (⟨S300000x64, .f32⟩ : BufTy).Contents (Elt F)) (t_main_v91 V))
theorem t_main_v93 (V : Valuation τ sig (Elt F)) : (after (ops (F := F)) V (Proc.devRef .tc main_v93)) = ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (concatenate S300000x192 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x32, (after (ops (F := F)) V (Proc.devRef .tc main_v41))⟩, ⟨S300000x32, (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops (F := F)) V (Proc.devRef .tc main_v60)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x32_S300000x32_S300000x192_d1) (V (Proc.devRef .tc main_arg11))) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg12))))) :=
  (rd_main_v93 V).trans (congrArg₂ (addf : (⟨S300000x64, .f32⟩ : BufTy).Contents (Elt F) → (⟨S300000x64, .f32⟩ : BufTy).Contents (Elt F) → (⟨S300000x64, .f32⟩ : BufTy).Contents (Elt F)) (t_main_v90 V) (t_main_v92 V))
theorem t_main_call3_cst (V : Valuation τ sig (Elt F)) : (after (ops (F := F)) V (Proc.devRef .tc main_call3_cst)) = (constant (F := F) S_ .f32 0x00000000#32) :=
  rd_main_call3_cst V
theorem t_main_call3_v0 (V : Valuation τ sig (Elt F)) : (after (ops (F := F)) V (Proc.devRef .tc main_call3_v0)) = (((broadcastInDim S300000x64 ![] bcast_S_S300000x64) : (⟨S_, .f32⟩ : BufTy).Contents (Elt F) → (⟨S300000x64, .f32⟩ : BufTy).Contents (Elt F)) (constant (F := F) S_ .f32 0x00000000#32)) :=
  (rd_main_call3_v0 V).trans (congrArg ((broadcastInDim S300000x64 ![] bcast_S_S300000x64) : (⟨S_, .f32⟩ : BufTy).Contents (Elt F) → (⟨S300000x64, .f32⟩ : BufTy).Contents (Elt F)) (t_main_call3_cst V))
theorem ref_main_v94 (V : Valuation τ sig (Elt F)) : (after (ops (F := F)) V (Proc.devRef .tc main_v94)) = ((maximumf : (⟨S300000x64, .f32⟩ : BufTy).Contents (Elt F) → (⟨S300000x64, .f32⟩ : BufTy).Contents (Elt F) → (⟨S300000x64, .f32⟩ : BufTy).Contents (Elt F)) ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x192_S192x64_S300000x64_1_0_0_1_n_n none l r) : (⟨S300000x192, .f32⟩ : BufTy).Contents (Elt F) → (⟨S192x64, .f32⟩ : BufTy).Contents (Elt F) → (⟨S300000x64, .f32⟩ : BufTy).Contents (Elt F)) (concatenate S300000x192 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v22)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x32, (after (ops (F := F)) V (Proc.devRef .tc main_v41))⟩, ⟨S300000x32, (((fun x i => Host.gather gather_S64x32_S300000x1_S300000x32_1_0_n_n_0_1_132 x i) : (⟨S64x32, .f32⟩ : BufTy).Contents (Elt F) → (⟨S300000x1, .i32⟩ : BufTy).Contents (Elt F) → (⟨S300000x32, .f32⟩ : BufTy).Contents (Elt F)) (after (ops (F := F)) V (Proc.devRef .tc main_v60)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x32_S300000x32_S300000x192_d1) (V (Proc.devRef .tc main_arg11))) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg12))))) (((broadcastInDim S300000x64 ![] bcast_S_S300000x64) : (⟨S_, .f32⟩ : BufTy).Contents (Elt F) → (⟨S300000x64, .f32⟩ : BufTy).Contents (Elt F)) (constant (F := F) S_ .f32 0x00000000#32))) :=
  (rd_main_v94 V).trans (congrArg₂ (maximumf : (⟨S300000x64, .f32⟩ : BufTy).Contents (Elt F) → (⟨S300000x64, .f32⟩ : BufTy).Contents (Elt F) → (⟨S300000x64, .f32⟩ : BufTy).Contents (Elt F)) (t_main_v93 V) (t_main_call3_v0 V))
theorem t_main_cst_18 (V : Valuation τ sig (Elt F)) : (after (ops (F := F)) V (Proc.devRef .tc main_cst_18)) = (constant (F := F) S_ .f32 0x00000000#32) :=
  rd_main_cst_18 V
theorem t_main_v95 (V : Valuation τ sig (Elt F)) : (after (ops (F := F)) V (Proc.devRef .tc main_v95)) = ((broadcastInDim S30000x64 ![] bcast_S_S30000x64 : (⟨S_, .f32⟩ : BufTy).Contents (Elt F) → (⟨S30000x64, .f32⟩ : BufTy).Contents (Elt F)) (constant (F := F) S_ .f32 0x00000000#32)) :=
  (rd_main_v95 V).trans (congrArg (broadcastInDim S30000x64 ![] bcast_S_S30000x64 : (⟨S_, .f32⟩ : BufTy).Contents (Elt F) → (⟨S30000x64, .f32⟩ : BufTy).Contents (Elt F)) (t_main_cst_18 V))
theorem t_main_v96 (V : Valuation τ sig (Elt F)) : (after (ops (F := F)) V (Proc.devRef .tc main_v96)) = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v96 V).trans (congrArg (broadcastInDim S300000x1 ![0] bcast_S300000_S300000x1_0 : (⟨S300000, .i32⟩ : BufTy).Contents (Elt F) → (⟨S300000x1, .i32⟩ : BufTy).Contents (Elt F)) (t_main_v3 V))
theorem t_main_v97 (V : Valuation τ sig (Elt F)) : (after (ops (F := F)) V (Proc.devRef .tc main_v97)) = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v94))) :=
  (rd_main_v97 V).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (t_main_v95 V) (t_main_v96 V) rfl)
theorem t_main_cst_20 (V : Valuation τ sig (Elt F)) : (after (ops (F := F)) V (Proc.devRef .tc main_cst_20)) = (constant (F := F) S_ .f32 0x00000000#32) :=
  rd_main_cst_20 V
theorem t_main_v99 (V : Valuation τ sig (Elt F)) : (after (ops (F := F)) V (Proc.devRef .tc main_v99)) = ((broadcastInDim S30000x1 ![] bcast_S_S30000x1 : (⟨S_, .f32⟩ : BufTy).Contents (Elt F) → (⟨S30000x1, .f32⟩ : BufTy).Contents (Elt F)) (constant (F := F) S_ .f32 0x00000000#32)) :=
  (rd_main_v99 V).trans (congrArg (broadcastInDim S30000x1 ![] bcast_S_S30000x1 : (⟨S_, .f32⟩ : BufTy).Contents (Elt F) → (⟨S30000x1, .f32⟩ : BufTy).Contents (Elt F)) (t_main_cst_20 V))
theorem t_main_v100 (V : Valuation τ sig (Elt F)) : (after (ops (F := F)) V (Proc.devRef .tc main_v100)) = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v100 V).trans (congrArg (broadcastInDim S300000x1 ![0] bcast_S300000_S300000x1_0 : (⟨S300000, .i32⟩ : BufTy).Contents (Elt F) → (⟨S300000x1, .i32⟩ : BufTy).Contents (Elt F)) (t_main_v3 V))
theorem t_main_cst_19 (V : Valuation τ sig (Elt F)) : (after (ops (F := F)) V (Proc.devRef .tc main_cst_19)) = (constant (F := F) S_ .f32 0x3F800000#32) :=
  rd_main_cst_19 V
theorem t_main_v98 (V : Valuation τ sig (Elt F)) : (after (ops (F := F)) V (Proc.devRef .tc main_v98)) = ((broadcastInDim S300000x1 ![] bcast_S_S300000x1 : (⟨S_, .f32⟩ : BufTy).Contents (Elt F) → (⟨S300000x1, .f32⟩ : BufTy).Contents (Elt F)) (constant (F := F) S_ .f32 0x3F800000#32)) :=
  (rd_main_v98 V).trans (congrArg (broadcastInDim S300000x1 ![] bcast_S_S300000x1 : (⟨S_, .f32⟩ : BufTy).Contents (Elt F) → (⟨S300000x1, .f32⟩ : BufTy).Contents (Elt F)) (t_main_cst_19 V))
theorem t_main_v101 (V : Valuation τ sig (Elt F)) : (after (ops (F := F)) V (Proc.devRef .tc main_v101)) = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) :=
  (rd_main_v101 V).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (t_main_v99 V) (t_main_v100 V) (t_main_v98 V))
theorem t_main_cst_21 (V : Valuation τ sig (Elt F)) : (after (ops (F := F)) V (Proc.devRef .tc main_cst_21)) = (constant (F := F) S_ .f32 0x3F800000#32) :=
  rd_main_cst_21 V
theorem t_main_v102 (V : Valuation τ sig (Elt F)) : (after (ops (F := F)) V (Proc.devRef .tc main_v102)) = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (rd_main_v102 V).trans (congrArg (broadcastInDim S30000x1 ![] bcast_S_S30000x1 : (⟨S_, .f32⟩ : BufTy).Contents (Elt F) → (⟨S30000x1, .f32⟩ : BufTy).Contents (Elt F)) (t_main_cst_21 V))
theorem t_main_v103 (V : Valuation τ sig (Elt F)) : (after (ops (F := F)) V (Proc.devRef .tc main_v103)) = ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (rd_main_v103 V).trans (congrArg₂ (maximumf : (⟨S30000x1, .f32⟩ : BufTy).Contents (Elt F) → (⟨S30000x1, .f32⟩ : BufTy).Contents (Elt F) → (⟨S30000x1, .f32⟩ : BufTy).Contents (Elt F)) (t_main_v101 V) (t_main_v102 V))
theorem t_main_v104 (V : Valuation τ sig (Elt F)) : (after (ops (F := F)) V (Proc.devRef .tc main_v104)) = ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))) :=
  (rd_main_v104 V).trans (congrArg (broadcastInDim S30000x64 ![0, 1] bcast_S30000x1_S30000x64_0_1 : (⟨S30000x1, .f32⟩ : BufTy).Contents (Elt F) → (⟨S30000x64, .f32⟩ : BufTy).Contents (Elt F)) (t_main_v103 V))
theorem t_main_v105 (V : Valuation τ sig (Elt F)) : (after (ops (F := F)) V (Proc.devRef .tc main_v105)) = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v94))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  (rd_main_v105 V).trans (congrArg₂ (Host.divf : (⟨S30000x64, .f32⟩ : BufTy).Contents (Elt F) → (⟨S30000x64, .f32⟩ : BufTy).Contents (Elt F) → (⟨S30000x64, .f32⟩ : BufTy).Contents (Elt F)) (t_main_v97 V) (t_main_v104 V))
theorem t_main_c_22 (V : Valuation τ sig (Elt F)) : (after (ops (F := F)) V (Proc.devRef .tc main_c_22)) = (constantI S_ 32 0#32) :=
  rd_main_c_22 V
theorem t_main_v106 (V : Valuation τ sig (Elt F)) : (after (ops (F := F)) V (Proc.devRef .tc main_v106)) = ((broadcastInDim S30000 ![] bcast_S_S30000 : (⟨S_, .i32⟩ : BufTy).Contents (Elt F) → (⟨S30000, .i32⟩ : BufTy).Contents (Elt F)) (constantI S_ 32 0#32)) :=
  (rd_main_v106 V).trans (congrArg (broadcastInDim S30000 ![] bcast_S_S30000 : (⟨S_, .i32⟩ : BufTy).Contents (Elt F) → (⟨S30000, .i32⟩ : BufTy).Contents (Elt F)) (t_main_c_22 V))
theorem t_main_v107 (V : Valuation τ sig (Elt F)) : (after (ops (F := F)) V (Proc.devRef .tc main_v107)) = ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) :=
  (rd_main_v107 V).trans (congrArg₂ (cmpi .slt : (⟨S30000, .i32⟩ : BufTy).Contents (Elt F) → (⟨S30000, .i32⟩ : BufTy).Contents (Elt F) → (⟨S30000, .i1⟩ : BufTy).Contents (Elt F)) (lift0_main_arg4 V) (t_main_v106 V))
theorem t_main_c_23 (V : Valuation τ sig (Elt F)) : (after (ops (F := F)) V (Proc.devRef .tc main_c_23)) = (constantI S_ 32 64#32) :=
  rd_main_c_23 V
theorem t_main_v108 (V : Valuation τ sig (Elt F)) : (after (ops (F := F)) V (Proc.devRef .tc main_v108)) = ((broadcastInDim S30000 ![] bcast_S_S30000 : (⟨S_, .i32⟩ : BufTy).Contents (Elt F) → (⟨S30000, .i32⟩ : BufTy).Contents (Elt F)) (constantI S_ 32 64#32)) :=
  (rd_main_v108 V).trans (congrArg (broadcastInDim S30000 ![] bcast_S_S30000 : (⟨S_, .i32⟩ : BufTy).Contents (Elt F) → (⟨S30000, .i32⟩ : BufTy).Contents (Elt F)) (t_main_c_23 V))
theorem t_main_v109 (V : Valuation τ sig (Elt F)) : (after (ops (F := F)) V (Proc.devRef .tc main_v109)) = ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) :=
  (rd_main_v109 V).trans (congrArg₂ (addi : (⟨S30000, .i32⟩ : BufTy).Contents (Elt F) → (⟨S30000, .i32⟩ : BufTy).Contents (Elt F) → (⟨S30000, .i32⟩ : BufTy).Contents (Elt F)) (lift0_main_arg4 V) (t_main_v108 V))
theorem t_main_v110 (V : Valuation τ sig (Elt F)) : (after (ops (F := F)) V (Proc.devRef .tc main_v110)) = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4))) :=
  (rd_main_v110 V).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (t_main_v107 V) (t_main_v109 V) (lift0_main_arg4 V))
theorem t_main_v111 (V : Valuation τ sig (Elt F)) : (after (ops (F := F)) V (Proc.devRef .tc main_v111)) = ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))) :=
  (rd_main_v111 V).trans (congrArg (broadcastInDim S30000x1 ![0] bcast_S30000_S30000x1_0 : (⟨S30000, .i32⟩ : BufTy).Contents (Elt F) → (⟨S30000x1, .i32⟩ : BufTy).Contents (Elt F)) (t_main_v110 V))
theorem t_main_v112 (V : Valuation τ sig (Elt F)) : (after (ops (F := F)) V (Proc.devRef .tc main_v112)) = (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops (F := F)) V (Proc.devRef .tc main_v60)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4))))) :=
  (rd_main_v112 V).trans (congrArg₂ ((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) rfl (t_main_v111 V))
theorem t_main_v113 (V : Valuation τ sig (Elt F)) : (after (ops (F := F)) V (Proc.devRef .tc main_v113)) = (concatenate S30000x160 1 [⟨S30000x64, (after (ops (F := F)) V (Proc.devRef .tc main_v22))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v94))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x32, (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops (F := F)) V (Proc.devRef .tc main_v60)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x32_S30000x160_d1) :=
  (rd_main_v113 V).trans (congr3 (fun A0 A1 A2 => concatenate S30000x160 1 [⟨S30000x64, A0⟩, ⟨S30000x64, A1⟩, ⟨S30000x32, A2⟩] concatenates_S30000x64_S30000x64_S30000x32_S30000x160_d1) rfl (t_main_v105 V) (t_main_v112 V))
theorem t_main_v114 (V : Valuation τ sig (Elt F)) : (after (ops (F := F)) V (Proc.devRef .tc main_v114)) = (((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (concatenate S30000x160 1 [⟨S30000x64, (after (ops (F := F)) V (Proc.devRef .tc main_v22))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v94))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x32, (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops (F := F)) V (Proc.devRef .tc main_v60)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x32_S30000x160_d1) (V (Proc.devRef .tc main_arg13))) :=
  (rd_main_v114 V).trans (congrArg₂ ((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (t_main_v113 V) (lift0_main_arg13 V))
theorem t_main_v115 (V : Valuation τ sig (Elt F)) : (after (ops (F := F)) V (Proc.devRef .tc main_v115)) = ((broadcastInDim S1x64 ![1] bcast_S64_S1x64_1 : (⟨S64, .f32⟩ : BufTy).Contents (Elt F) → (⟨S1x64, .f32⟩ : BufTy).Contents (Elt F)) (V (Proc.devRef .tc main_arg14))) :=
  (rd_main_v115 V).trans (congrArg (broadcastInDim S1x64 ![1] bcast_S64_S1x64_1 : (⟨S64, .f32⟩ : BufTy).Contents (Elt F) → (⟨S1x64, .f32⟩ : BufTy).Contents (Elt F)) (lift0_main_arg14 V))
theorem t_main_v116 (V : Valuation τ sig (Elt F)) : (after (ops (F := F)) V (Proc.devRef .tc main_v116)) = ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg14)))) :=
  (rd_main_v116 V).trans (congrArg (broadcastInDim S30000x64 ![0, 1] bcast_S1x64_S30000x64_0_1 : (⟨S1x64, .f32⟩ : BufTy).Contents (Elt F) → (⟨S30000x64, .f32⟩ : BufTy).Contents (Elt F)) (t_main_v115 V))
theorem t_main_v117 (V : Valuation τ sig (Elt F)) : (after (ops (F := F)) V (Proc.devRef .tc main_v117)) = ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (concatenate S30000x160 1 [⟨S30000x64, (after (ops (F := F)) V (Proc.devRef .tc main_v22))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v94))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x32, (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops (F := F)) V (Proc.devRef .tc main_v60)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x32_S30000x160_d1) (V (Proc.devRef .tc main_arg13))) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg14))))) :=
  (rd_main_v117 V).trans (congrArg₂ (addf : (⟨S30000x64, .f32⟩ : BufTy).Contents (Elt F) → (⟨S30000x64, .f32⟩ : BufTy).Contents (Elt F) → (⟨S30000x64, .f32⟩ : BufTy).Contents (Elt F)) (t_main_v114 V) (t_main_v116 V))
theorem t_main_call4_cst (V : Valuation τ sig (Elt F)) : (after (ops (F := F)) V (Proc.devRef .tc main_call4_cst)) = (constant (F := F) S_ .f32 0x00000000#32) :=
  rd_main_call4_cst V
theorem t_main_call4_v0 (V : Valuation τ sig (Elt F)) : (after (ops (F := F)) V (Proc.devRef .tc main_call4_v0)) = (((broadcastInDim S30000x64 ![] bcast_S_S30000x64) : (⟨S_, .f32⟩ : BufTy).Contents (Elt F) → (⟨S30000x64, .f32⟩ : BufTy).Contents (Elt F)) (constant (F := F) S_ .f32 0x00000000#32)) :=
  (rd_main_call4_v0 V).trans (congrArg ((broadcastInDim S30000x64 ![] bcast_S_S30000x64) : (⟨S_, .f32⟩ : BufTy).Contents (Elt F) → (⟨S30000x64, .f32⟩ : BufTy).Contents (Elt F)) (t_main_call4_cst V))
theorem ref_main_v118 (V : Valuation τ sig (Elt F)) : (after (ops (F := F)) V (Proc.devRef .tc main_v118)) = ((maximumf : (⟨S30000x64, .f32⟩ : BufTy).Contents (Elt F) → (⟨S30000x64, .f32⟩ : BufTy).Contents (Elt F) → (⟨S30000x64, .f32⟩ : BufTy).Contents (Elt F)) ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (concatenate S30000x160 1 [⟨S30000x64, (after (ops (F := F)) V (Proc.devRef .tc main_v22))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v94))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x32, (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (after (ops (F := F)) V (Proc.devRef .tc main_v60)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x32_S30000x160_d1) (V (Proc.devRef .tc main_arg13))) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg14))))) (((broadcastInDim S30000x64 ![] bcast_S_S30000x64) : (⟨S_, .f32⟩ : BufTy).Contents (Elt F) → (⟨S30000x64, .f32⟩ : BufTy).Contents (Elt F)) (constant (F := F) S_ .f32 0x00000000#32))) :=
  (rd_main_v118 V).trans (congrArg₂ (maximumf : (⟨S30000x64, .f32⟩ : BufTy).Contents (Elt F) → (⟨S30000x64, .f32⟩ : BufTy).Contents (Elt F) → (⟨S30000x64, .f32⟩ : BufTy).Contents (Elt F)) (t_main_v117 V) (t_main_call4_v0 V))
theorem t_main_cst_24 (V : Valuation τ sig (Elt F)) : (after (ops (F := F)) V (Proc.devRef .tc main_cst_24)) = (constant (F := F) S_ .f32 0x00000000#32) :=
  rd_main_cst_24 V
theorem t_main_v119 (V : Valuation τ sig (Elt F)) : (after (ops (F := F)) V (Proc.devRef .tc main_v119)) = ((broadcastInDim S64x64 ![] bcast_S_S64x64 : (⟨S_, .f32⟩ : BufTy).Contents (Elt F) → (⟨S64x64, .f32⟩ : BufTy).Contents (Elt F)) (constant (F := F) S_ .f32 0x00000000#32)) :=
  (rd_main_v119 V).trans (congrArg (broadcastInDim S64x64 ![] bcast_S_S64x64 : (⟨S_, .f32⟩ : BufTy).Contents (Elt F) → (⟨S64x64, .f32⟩ : BufTy).Contents (Elt F)) (t_main_cst_24 V))
theorem t_main_v120 (V : Valuation τ sig (Elt F)) : (after (ops (F := F)) V (Proc.devRef .tc main_v120)) = ((broadcastInDim S30000x1 ![0] bcast_S30000_S30000x1_0 : (⟨S30000, .i32⟩ : BufTy).Contents (Elt F) → (⟨S30000x1, .i32⟩ : BufTy).Contents (Elt F)) (V (Proc.devRef .tc main_arg4))) :=
  (rd_main_v120 V).trans (congrArg (broadcastInDim S30000x1 ![0] bcast_S30000_S30000x1_0 : (⟨S30000, .i32⟩ : BufTy).Contents (Elt F) → (⟨S30000x1, .i32⟩ : BufTy).Contents (Elt F)) (lift0_main_arg4 V))
theorem t_main_v121 (V : Valuation τ sig (Elt F)) : (after (ops (F := F)) V (Proc.devRef .tc main_v121)) = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v118))) :=
  (rd_main_v121 V).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (t_main_v119 V) (t_main_v120 V) rfl)
theorem t_main_cst_26 (V : Valuation τ sig (Elt F)) : (after (ops (F := F)) V (Proc.devRef .tc main_cst_26)) = (constant (F := F) S_ .f32 0x00000000#32) :=
  rd_main_cst_26 V
theorem t_main_v123 (V : Valuation τ sig (Elt F)) : (after (ops (F := F)) V (Proc.devRef .tc main_v123)) = ((broadcastInDim S64x1 ![] bcast_S_S64x1 : (⟨S_, .f32⟩ : BufTy).Contents (Elt F) → (⟨S64x1, .f32⟩ : BufTy).Contents (Elt F)) (constant (F := F) S_ .f32 0x00000000#32)) :=
  (rd_main_v123 V).trans (congrArg (broadcastInDim S64x1 ![] bcast_S_S64x1 : (⟨S_, .f32⟩ : BufTy).Contents (Elt F) → (⟨S64x1, .f32⟩ : BufTy).Contents (Elt F)) (t_main_cst_26 V))
theorem t_main_v124 (V : Valuation τ sig (Elt F)) : (after (ops (F := F)) V (Proc.devRef .tc main_v124)) = ((broadcastInDim S30000x1 ![0] bcast_S30000_S30000x1_0 : (⟨S30000, .i32⟩ : BufTy).Contents (Elt F) → (⟨S30000x1, .i32⟩ : BufTy).Contents (Elt F)) (V (Proc.devRef .tc main_arg4))) :=
  (rd_main_v124 V).trans (congrArg (broadcastInDim S30000x1 ![0] bcast_S30000_S30000x1_0 : (⟨S30000, .i32⟩ : BufTy).Contents (Elt F) → (⟨S30000x1, .i32⟩ : BufTy).Contents (Elt F)) (lift0_main_arg4 V))
theorem t_main_cst_25 (V : Valuation τ sig (Elt F)) : (after (ops (F := F)) V (Proc.devRef .tc main_cst_25)) = (constant (F := F) S_ .f32 0x3F800000#32) :=
  rd_main_cst_25 V
theorem t_main_v122 (V : Valuation τ sig (Elt F)) : (after (ops (F := F)) V (Proc.devRef .tc main_v122)) = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (rd_main_v122 V).trans (congrArg (broadcastInDim S30000x1 ![] bcast_S_S30000x1 : (⟨S_, .f32⟩ : BufTy).Contents (Elt F) → (⟨S30000x1, .f32⟩ : BufTy).Contents (Elt F)) (t_main_cst_25 V))
theorem t_main_v125 (V : Valuation τ sig (Elt F)) : (after (ops (F := F)) V (Proc.devRef .tc main_v125)) = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (rd_main_v125 V).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (t_main_v123 V) (t_main_v124 V) (t_main_v122 V))
theorem t_main_cst_27 (V : Valuation τ sig (Elt F)) : (after (ops (F := F)) V (Proc.devRef .tc main_cst_27)) = (constant (F := F) S_ .f32 0x3F800000#32) :=
  rd_main_cst_27 V
theorem t_main_v126 (V : Valuation τ sig (Elt F)) : (after (ops (F := F)) V (Proc.devRef .tc main_v126)) = ((broadcastInDim S64x1 ![] bcast_S_S64x1 : (⟨S_, .f32⟩ : BufTy).Contents (Elt F) → (⟨S64x1, .f32⟩ : BufTy).Contents (Elt F)) (constant (F := F) S_ .f32 0x3F800000#32)) :=
  (rd_main_v126 V).trans (congrArg (broadcastInDim S64x1 ![] bcast_S_S64x1 : (⟨S_, .f32⟩ : BufTy).Contents (Elt F) → (⟨S64x1, .f32⟩ : BufTy).Contents (Elt F)) (t_main_cst_27 V))
theorem t_main_v127 (V : Valuation τ sig (Elt F)) : (after (ops (F := F)) V (Proc.devRef .tc main_v127)) = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))) :=
  (rd_main_v127 V).trans (congrArg₂ (maximumf : (⟨S64x1, .f32⟩ : BufTy).Contents (Elt F) → (⟨S64x1, .f32⟩ : BufTy).Contents (Elt F) → (⟨S64x1, .f32⟩ : BufTy).Contents (Elt F)) (t_main_v125 V) (t_main_v126 V))
theorem t_main_v128 (V : Valuation τ sig (Elt F)) : (after (ops (F := F)) V (Proc.devRef .tc main_v128)) = ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))) :=
  (rd_main_v128 V).trans (congrArg (broadcastInDim S64x64 ![0, 1] bcast_S64x1_S64x64_0_1 : (⟨S64x1, .f32⟩ : BufTy).Contents (Elt F) → (⟨S64x64, .f32⟩ : BufTy).Contents (Elt F)) (t_main_v127 V))
theorem t_main_v129 (V : Valuation τ sig (Elt F)) : (after (ops (F := F)) V (Proc.devRef .tc main_v129)) = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v118))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  (rd_main_v129 V).trans (congrArg₂ (Host.divf : (⟨S64x64, .f32⟩ : BufTy).Contents (Elt F) → (⟨S64x64, .f32⟩ : BufTy).Contents (Elt F) → (⟨S64x64, .f32⟩ : BufTy).Contents (Elt F)) (t_main_v121 V) (t_main_v128 V))
theorem t_main_v130 (V : Valuation τ sig (Elt F)) : (after (ops (F := F)) V (Proc.devRef .tc main_v130)) = (((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v118))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v60))) :=
  (rd_main_v130 V).trans (congrArg₂ ((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) (t_main_v129 V) rfl)
theorem t_main_v131 (V : Valuation τ sig (Elt F)) : (after (ops (F := F)) V (Proc.devRef .tc main_v131)) = (((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v118))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v60))) (V (Proc.devRef .tc main_arg15))) :=
  (rd_main_v131 V).trans (congrArg₂ ((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (t_main_v130 V) (lift0_main_arg15 V))
theorem t_main_v132 (V : Valuation τ sig (Elt F)) : (after (ops (F := F)) V (Proc.devRef .tc main_v132)) = ((broadcastInDim S1x64 ![1] bcast_S64_S1x64_1 : (⟨S64, .f32⟩ : BufTy).Contents (Elt F) → (⟨S1x64, .f32⟩ : BufTy).Contents (Elt F)) (V (Proc.devRef .tc main_arg16))) :=
  (rd_main_v132 V).trans (congrArg (broadcastInDim S1x64 ![1] bcast_S64_S1x64_1 : (⟨S64, .f32⟩ : BufTy).Contents (Elt F) → (⟨S1x64, .f32⟩ : BufTy).Contents (Elt F)) (lift0_main_arg16 V))
theorem t_main_v133 (V : Valuation τ sig (Elt F)) : (after (ops (F := F)) V (Proc.devRef .tc main_v133)) = ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg16)))) :=
  (rd_main_v133 V).trans (congrArg (broadcastInDim S64x64 ![0, 1] bcast_S1x64_S64x64_0_1 : (⟨S1x64, .f32⟩ : BufTy).Contents (Elt F) → (⟨S64x64, .f32⟩ : BufTy).Contents (Elt F)) (t_main_v132 V))
theorem t_main_v134 (V : Valuation τ sig (Elt F)) : (after (ops (F := F)) V (Proc.devRef .tc main_v134)) = ((addf : (⟨S64x64, .f32⟩ : BufTy).Contents (Elt F) → (⟨S64x64, .f32⟩ : BufTy).Contents (Elt F) → (⟨S64x64, .f32⟩ : BufTy).Contents (Elt F)) (((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v118))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v60))) (V (Proc.devRef .tc main_arg15))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg16))))) :=
  (rd_main_v134 V).trans (congrArg₂ (addf : (⟨S64x64, .f32⟩ : BufTy).Contents (Elt F) → (⟨S64x64, .f32⟩ : BufTy).Contents (Elt F) → (⟨S64x64, .f32⟩ : BufTy).Contents (Elt F)) (t_main_v131 V) (t_main_v133 V))
theorem t_main_call5_cst (V : Valuation τ sig (Elt F)) : (after (ops (F := F)) V (Proc.devRef .tc main_call5_cst)) = (constant (F := F) S_ .f32 0x00000000#32) :=
  rd_main_call5_cst V
theorem t_main_call5_v0 (V : Valuation τ sig (Elt F)) : (after (ops (F := F)) V (Proc.devRef .tc main_call5_v0)) = (((broadcastInDim S64x64 ![] bcast_S_S64x64) : (⟨S_, .f32⟩ : BufTy).Contents (Elt F) → (⟨S64x64, .f32⟩ : BufTy).Contents (Elt F)) (constant (F := F) S_ .f32 0x00000000#32)) :=
  (rd_main_call5_v0 V).trans (congrArg ((broadcastInDim S64x64 ![] bcast_S_S64x64) : (⟨S_, .f32⟩ : BufTy).Contents (Elt F) → (⟨S64x64, .f32⟩ : BufTy).Contents (Elt F)) (t_main_call5_cst V))
theorem ref_main_v135 (V : Valuation τ sig (Elt F)) : (after (ops (F := F)) V (Proc.devRef .tc main_v135)) = ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v118))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v60))) (V (Proc.devRef .tc main_arg15))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg16))))) (((broadcastInDim S64x64 ![] bcast_S_S64x64) : (⟨S_, .f32⟩ : BufTy).Contents (Elt F) → (⟨S64x64, .f32⟩ : BufTy).Contents (Elt F)) (constant (F := F) S_ .f32 0x00000000#32))) :=
  (rd_main_v135 V).trans (congrArg₂ (maximumf : (⟨S64x64, .f32⟩ : BufTy).Contents (Elt F) → (⟨S64x64, .f32⟩ : BufTy).Contents (Elt F) → (⟨S64x64, .f32⟩ : BufTy).Contents (Elt F)) (t_main_v134 V) (t_main_call5_v0 V))

end Cert.ReferenceIdeal.Hand

end
-- ==== Proof.Bridge.L6.lean ====
import proofs.«123839_j71768903516633_2_alg».proof.Proof.Bridge.Names
import proofs.«123839_j71768903516633_2_alg».proof.Proof.Bridge.Glue6
import proofs.«123839_j71768903516633_2_alg».proof.Proof.KI.Anchor
import proofs.«123839_j71768903516633_2_alg».proof.Proof.Ref.StageL0

/-! Layer 6: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide6 (c : Dev Cert.KernelIdeal.nD) : rL6 m' c = refT6 (F := Ideal) (rBnX m' c) (rBnE m' c) (rBnU m' c) (rArg1 m' c) (rArg4 m' c) (rArg11 m' c) (rArg12 m' c) :=
  Cert.ReferenceIdeal.Hand.ref_main_v94 (F := Ideal) (launchContents m' c)

set_option maxHeartbeats 1000000 in
/-- The kernel program's anchor is the layer over its inputs, each the kernel side's term over the kernel's leaves. -/
theorem kerSide6 (c : Dev Cert.KernelIdeal.nD) :
    kL6 m c = layer4 (kT6_0 (F := Ideal) (kBnX m c) (kBnE m c) (kBnU m c) (kArg1 m c) (kArg4 m c) (kArg11 m c) (kArg12 m c)) (kT6_1 (F := Ideal) (kBnX m c) (kBnE m c) (kBnU m c) (kArg1 m c) (kArg4 m c) (kArg11 m c) (kArg12 m c)) (kT6_2 (F := Ideal) (kBnX m c) (kBnE m c) (kBnU m c) (kArg1 m c) (kArg4 m c) (kArg11 m c) (kArg12 m c)) (kT6_3 (F := Ideal) (kBnX m c) (kBnE m c) (kBnU m c) (kArg1 m c) (kArg4 m c) (kArg11 m c) (kArg12 m c)) (kT6_4 (F := Ideal) (kBnX m c) (kBnE m c) (kBnU m c) (kArg1 m c) (kArg4 m c) (kArg11 m c) (kArg12 m c)) (kT6_5 (F := Ideal) (kBnX m c) (kBnE m c) (kBnU m c) (kArg1 m c) (kArg4 m c) (kArg11 m c) (kArg12 m c)) (kT6_6 (F := Ideal) (kBnX m c) (kBnE m c) (kBnU m c) (kArg1 m c) (kArg4 m c) (kArg11 m c) (kArg12 m c)) (kT6_7 (F := Ideal) (kBnX m c) (kBnE m c) (kBnU m c) (kArg1 m c) (kArg4 m c) (kArg11 m c) (kArg12 m c)) (kT6_8 (F := Ideal) (kBnX m c) (kBnE m c) (kBnU m c) (kArg1 m c) (kArg4 m c) (kArg11 m c) (kArg12 m c)) := by
  have i0 : Cert.KernelIdeal.Hand.U11 m c Cert.KernelIdeal.main_v46 = kT6_0 (F := Ideal) (kBnX m c) (kBnE m c) (kBnU m c) (kArg1 m c) (kArg4 m c) (kArg11 m c) (kArg12 m c) := Cert.KernelIdeal.Hand.in6_0 (F := Ideal) m c
  have i1 : Cert.KernelIdeal.Hand.U11 m c Cert.KernelIdeal.main_v53 = kT6_1 (F := Ideal) (kBnX m c) (kBnE m c) (kBnU m c) (kArg1 m c) (kArg4 m c) (kArg11 m c) (kArg12 m c) := Cert.KernelIdeal.Hand.in6_1 (F := Ideal) m c
  have i2 : Cert.KernelIdeal.Hand.U11 m c Cert.KernelIdeal.main_v27 = kT6_2 (F := Ideal) (kBnX m c) (kBnE m c) (kBnU m c) (kArg1 m c) (kArg4 m c) (kArg11 m c) (kArg12 m c) := Cert.KernelIdeal.Hand.in6_2 (F := Ideal) m c
  have i3 : Cert.KernelIdeal.Hand.U11 m c Cert.KernelIdeal.main_v67 = kT6_3 (F := Ideal) (kBnX m c) (kBnE m c) (kBnU m c) (kArg1 m c) (kArg4 m c) (kArg11 m c) (kArg12 m c) := Cert.KernelIdeal.Hand.in6_3 (F := Ideal) m c
  have i4 : Cert.KernelIdeal.Hand.U11 m c Cert.KernelIdeal.main_v68 = kT6_4 (F := Ideal) (kBnX m c) (kBnE m c) (kBnU m c) (kArg1 m c) (kArg4 m c) (kArg11 m c) (kArg12 m c) := Cert.KernelIdeal.Hand.in6_4 (F := Ideal) m c
  have i5 : Cert.KernelIdeal.Hand.U11 m c Cert.KernelIdeal.main_v69 = kT6_5 (F := Ideal) (kBnX m c) (kBnE m c) (kBnU m c) (kArg1 m c) (kArg4 m c) (kArg11 m c) (kArg12 m c) := Cert.KernelIdeal.Hand.in6_5 (F := Ideal) m c
  have i6 : Cert.KernelIdeal.Hand.U11 m c Cert.KernelIdeal.main_v70 = kT6_6 (F := Ideal) (kBnX m c) (kBnE m c) (kBnU m c) (kArg1 m c) (kArg4 m c) (kArg11 m c) (kArg12 m c) := Cert.KernelIdeal.Hand.in6_6 (F := Ideal) m c
  have i7 : Cert.KernelIdeal.Hand.U11 m c Cert.KernelIdeal.main_v71 = kT6_7 (F := Ideal) (kBnX m c) (kBnE m c) (kBnU m c) (kArg1 m c) (kArg4 m c) (kArg11 m c) (kArg12 m c) := Cert.KernelIdeal.Hand.in6_7 (F := Ideal) m c
  have i8 : Cert.KernelIdeal.Hand.U11 m c Cert.KernelIdeal.main_v72 = kT6_8 (F := Ideal) (kBnX m c) (kBnE m c) (kBnU m c) (kArg1 m c) (kArg4 m c) (kArg11 m c) (kArg12 m c) := Cert.KernelIdeal.Hand.in6_8 (F := Ideal) m c
  refine (Cert.KernelIdeal.Hand.anchor6 m c).trans ?_
  rw [i0, i1, i2, i3, i4, i5, i6, i7, i8]

set_option maxHeartbeats 1000000 in
/-- Layer 6's anchors agree. -/
theorem eq_6 (c : Dev Cert.KernelIdeal.nD)
    (hBnX : rBnX m' c = kBnX m c)
    (hBnE : rBnE m' c = kBnE m c)
    (hBnU : rBnU m' c = kBnU m c)
    (ha1 : rArg1 m' c = kArg1 m c)
    (ha4 : rArg4 m' c = kArg4 m c)
    (ha11 : rArg11 m' c = kArg11 m c)
    (ha12 : rArg12 m' c = kArg12 m c) :
    rL6 m' c = kL6 m c := by
  rw [refSide6 m' c, hBnX, hBnE, hBnU, ha1, ha4, ha11, ha12, kerSide6 m c]
  exact glue6 (kBnX m c) (kBnE m c) (kBnU m c) (kArg1 m c) (kArg4 m c) (kArg11 m c) (kArg12 m c)

end Cert.Proof.Bridge

end
-- ==== Proof.Bridge.Glue7.lean ====
import proofs.«123839_j71768903516633_2_alg».proof.Proof.Math.MlpRef

/-! Layer 7 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT7 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  ((maximumf : (⟨S30000x64, .f32⟩ : BufTy).Contents (Elt F) → (⟨S30000x64, .f32⟩ : BufTy).Contents (Elt F) → (⟨S30000x64, .f32⟩ : BufTy).Contents (Elt F)) ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x160_S160x64_S30000x64_1_0_0_1_n_n none l r) : (⟨S30000x160, .f32⟩ : BufTy).Contents (Elt F) → (⟨S160x64, .f32⟩ : BufTy).Contents (Elt F) → (⟨S30000x64, .f32⟩ : BufTy).Contents (Elt F)) (concatenate S30000x160 1 [⟨S30000x64, (vBnX)⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) (vL6)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x32, (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (vBnU) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (a4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (a4) ((broadcastInDim S30000 ![] bcast_S_S30000 : (⟨S_, .i32⟩ : BufTy).Contents (Elt F) → (⟨S30000, .i32⟩ : BufTy).Contents (Elt F)) (constantI S_ 32 64#32))) (a4))))⟩] concatenates_S30000x64_S30000x64_S30000x32_S30000x160_d1) (a13)) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (a14)))) (((broadcastInDim S30000x64 ![] bcast_S_S30000x64) : (⟨S_, .f32⟩ : BufTy).Contents (Elt F) → (⟨S30000x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT7_0 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  (vBnX)
/-- The kernel side's input 1 of the layer, over the leaves. -/
def kT7_1 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) (vL6)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))
/-- The kernel side's input 2 of the layer, over the leaves. -/
def kT7_2 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  (((fun x i => Host.gather gather_S64x32_S30000x1_S30000x32_1_0_n_n_0_1_132 x i) : (⟨S64x32, .f32⟩ : BufTy).Contents (Elt F) → (⟨S30000x1, .i32⟩ : BufTy).Contents (Elt F) → (⟨S30000x32, .f32⟩ : BufTy).Contents (Elt F)) (vBnU) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (a4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (a4) ((broadcastInDim S30000 ![] bcast_S_S30000 : (⟨S_, .i32⟩ : BufTy).Contents (Elt F) → (⟨S30000, .i32⟩ : BufTy).Contents (Elt F)) (constantI S_ 32 64#32))) (a4))))
/-- The kernel side's input 3 of the layer, over the leaves. -/
def kT7_3 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  (((extractStridedSlice S64x64 ![0, 0] · slices_S160x64_S64x64_0_0) : (⟨S160x64, .f32⟩ : BufTy).Contents (Elt F) → (⟨S64x64, .f32⟩ : BufTy).Contents (Elt F)) (a13))
/-- The kernel side's input 4 of the layer, over the leaves. -/
def kT7_4 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  (((extractStridedSlice S64x64 ![64, 0] · slices_S160x64_S64x64_64_0) : (⟨S160x64, .f32⟩ : BufTy).Contents (Elt F) → (⟨S64x64, .f32⟩ : BufTy).Contents (Elt F)) (a13))
/-- The kernel side's input 5 of the layer, over the leaves. -/
def kT7_5 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  (((extractStridedSlice S32x64 ![128, 0] · slices_S160x64_S32x64_128_0) : (⟨S160x64, .f32⟩ : BufTy).Contents (Elt F) → (⟨S32x64, .f32⟩ : BufTy).Contents (Elt F)) (a13))
/-- The kernel side's input 6 of the layer, over the leaves. -/
def kT7_6 (vBnX : (⟨S30000x64, .f32⟩ : BufTy).Contents (Elt F)) (vL6 : (⟨S300000x64, .f32⟩ : BufTy).Contents (Elt F)) (vBnU : (⟨S64x32, .f32⟩ : BufTy).Contents (Elt F)) (a1 : (⟨S2x300000, .i32⟩ : BufTy).Contents (Elt F)) (a4 : (⟨S30000, .i32⟩ : BufTy).Contents (Elt F)) (a13 : (⟨S160x64, .f32⟩ : BufTy).Contents (Elt F)) (a14 : (⟨S64, .f32⟩ : BufTy).Contents (Elt F)) :=
  (shapeCast S1x64 (a14) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue7 (vBnX : (⟨Cert.KernelIdeal.S30000x64, .f32⟩ : BufTy).Contents (Elt Ideal)) (vL6 : (⟨Cert.KernelIdeal.S300000x64, .f32⟩ : BufTy).Contents (Elt Ideal)) (vBnU : (⟨Cert.KernelIdeal.S64x32, .f32⟩ : BufTy).Contents (Elt Ideal)) (a1 : (⟨Cert.KernelIdeal.S2x300000, .i32⟩ : BufTy).Contents (Elt Ideal)) (a4 : (⟨Cert.KernelIdeal.S30000, .i32⟩ : BufTy).Contents (Elt Ideal)) (a13 : (⟨Cert.KernelIdeal.S160x64, .f32⟩ : BufTy).Contents (Elt Ideal)) (a14 : (⟨Cert.KernelIdeal.S64, .f32⟩ : BufTy).Contents (Elt Ideal)) :
    refT7 (F := Ideal) vBnX vL6 vBnU a1 a4 a13 a14
      = layer3 (kT7_0 (F := Ideal) vBnX vL6 vBnU a1 a4 a13 a14) (kT7_1 (F := Ideal) vBnX vL6 vBnU a1 a4 a13 a14) (kT7_2 (F := Ideal) vBnX vL6 vBnU a1 a4 a13 a14) (kT7_3 (F := Ideal) vBnX vL6 vBnU a1 a4 a13 a14) (kT7_4 (F := Ideal) vBnX vL6 vBnU a1 a4 a13 a14) (kT7_5 (F := Ideal) vBnX vL6 vBnU a1 a4 a13 a14) (kT7_6 (F := Ideal) vBnX vL6 vBnU a1 a4 a13 a14) := by
  unfold refT7
  refine (Cert.ReferenceIdeal.Mlp.ref_node0 _ _ _ _ _).trans ?_
  rfl

end Cert.Proof.Bridge

end
-- ==== Proof.Bridge.L7.lean ====
import proofs.«123839_j71768903516633_2_alg».proof.Proof.Bridge.Names
import proofs.«123839_j71768903516633_2_alg».proof.Proof.Bridge.Glue7
import proofs.«123839_j71768903516633_2_alg».proof.Proof.KI.Anchor
import proofs.«123839_j71768903516633_2_alg».proof.Proof.Ref.StageL0

/-! Layer 7: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide7 (c : Dev Cert.KernelIdeal.nD) : rL7 m' c = refT7 (F := Ideal) (rBnX m' c) (rL6 m' c) (rBnU m' c) (rArg1 m' c) (rArg4 m' c) (rArg13 m' c) (rArg14 m' c) :=
  Cert.ReferenceIdeal.Hand.ref_main_v118 (F := Ideal) (launchContents m' c)

set_option maxHeartbeats 1000000 in
/-- The kernel program's anchor is the layer over its inputs, each the kernel side's term over the kernel's leaves. -/
theorem kerSide7 (c : Dev Cert.KernelIdeal.nD) :
    kL7 m c = layer3 (kT7_0 (F := Ideal) (kBnX m c) (kL6 m c) (kBnU m c) (kArg1 m c) (kArg4 m c) (kArg13 m c) (kArg14 m c)) (kT7_1 (F := Ideal) (kBnX m c) (kL6 m c) (kBnU m c) (kArg1 m c) (kArg4 m c) (kArg13 m c) (kArg14 m c)) (kT7_2 (F := Ideal) (kBnX m c) (kL6 m c) (kBnU m c) (kArg1 m c) (kArg4 m c) (kArg13 m c) (kArg14 m c)) (kT7_3 (F := Ideal) (kBnX m c) (kL6 m c) (kBnU m c) (kArg1 m c) (kArg4 m c) (kArg13 m c) (kArg14 m c)) (kT7_4 (F := Ideal) (kBnX m c) (kL6 m c) (kBnU m c) (kArg1 m c) (kArg4 m c) (kArg13 m c) (kArg14 m c)) (kT7_5 (F := Ideal) (kBnX m c) (kL6 m c) (kBnU m c) (kArg1 m c) (kArg4 m c) (kArg13 m c) (kArg14 m c)) (kT7_6 (F := Ideal) (kBnX m c) (kL6 m c) (kBnU m c) (kArg1 m c) (kArg4 m c) (kArg13 m c) (kArg14 m c)) := by
  have i0 : Cert.KernelIdeal.Hand.U13 m c Cert.KernelIdeal.main_v15 = kT7_0 (F := Ideal) (kBnX m c) (kL6 m c) (kBnU m c) (kArg1 m c) (kArg4 m c) (kArg13 m c) (kArg14 m c) := Cert.KernelIdeal.Hand.in7_0 (F := Ideal) m c
  have i1 : Cert.KernelIdeal.Hand.U13 m c Cert.KernelIdeal.main_v84 = kT7_1 (F := Ideal) (kBnX m c) (kL6 m c) (kBnU m c) (kArg1 m c) (kArg4 m c) (kArg13 m c) (kArg14 m c) := Cert.KernelIdeal.Hand.in7_1 (F := Ideal) m c
  have i2 : Cert.KernelIdeal.Hand.U13 m c Cert.KernelIdeal.main_v91 = kT7_2 (F := Ideal) (kBnX m c) (kL6 m c) (kBnU m c) (kArg1 m c) (kArg4 m c) (kArg13 m c) (kArg14 m c) := Cert.KernelIdeal.Hand.in7_2 (F := Ideal) m c
  have i3 : Cert.KernelIdeal.Hand.U13 m c Cert.KernelIdeal.main_v92 = kT7_3 (F := Ideal) (kBnX m c) (kL6 m c) (kBnU m c) (kArg1 m c) (kArg4 m c) (kArg13 m c) (kArg14 m c) := Cert.KernelIdeal.Hand.in7_3 (F := Ideal) m c
  have i4 : Cert.KernelIdeal.Hand.U13 m c Cert.KernelIdeal.main_v93 = kT7_4 (F := Ideal) (kBnX m c) (kL6 m c) (kBnU m c) (kArg1 m c) (kArg4 m c) (kArg13 m c) (kArg14 m c) := Cert.KernelIdeal.Hand.in7_4 (F := Ideal) m c
  have i5 : Cert.KernelIdeal.Hand.U13 m c Cert.KernelIdeal.main_v94 = kT7_5 (F := Ideal) (kBnX m c) (kL6 m c) (kBnU m c) (kArg1 m c) (kArg4 m c) (kArg13 m c) (kArg14 m c) := Cert.KernelIdeal.Hand.in7_5 (F := Ideal) m c
  have i6 : Cert.KernelIdeal.Hand.U13 m c Cert.KernelIdeal.main_v95 = kT7_6 (F := Ideal) (kBnX m c) (kL6 m c) (kBnU m c) (kArg1 m c) (kArg4 m c) (kArg13 m c) (kArg14 m c) := Cert.KernelIdeal.Hand.in7_6 (F := Ideal) m c
  refine (Cert.KernelIdeal.Hand.anchor7 m c).trans ?_
  rw [i0, i1, i2, i3, i4, i5, i6]

set_option maxHeartbeats 1000000 in
/-- Layer 7's anchors agree. -/
theorem eq_7 (c : Dev Cert.KernelIdeal.nD)
    (hBnX : rBnX m' c = kBnX m c)
    (hL6 : rL6 m' c = kL6 m c)
    (hBnU : rBnU m' c = kBnU m c)
    (ha1 : rArg1 m' c = kArg1 m c)
    (ha4 : rArg4 m' c = kArg4 m c)
    (ha13 : rArg13 m' c = kArg13 m c)
    (ha14 : rArg14 m' c = kArg14 m c) :
    rL7 m' c = kL7 m c := by
  rw [refSide7 m' c, hBnX, hL6, hBnU, ha1, ha4, ha13, ha14, kerSide7 m c]
  exact glue7 (kBnX m c) (kL6 m c) (kBnU m c) (kArg1 m c) (kArg4 m c) (kArg13 m c) (kArg14 m c)

end Cert.Proof.Bridge

end
-- ==== Proof.Bridge.Glue8.lean ====
import proofs.«123839_j71768903516633_2_alg».proof.Proof.Math.MlpRef

/-! Layer 8 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT8 (vL7 : (⟨S30000x64, .f32⟩ : BufTy).Contents (Elt F)) (vBnU : (⟨S64x32, .f32⟩ : BufTy).Contents (Elt F)) (a4 : (⟨S30000, .i32⟩ : BufTy).Contents (Elt F)) (a15 : (⟨S96x64, .f32⟩ : BufTy).Contents (Elt F)) (a16 : (⟨S64, .f32⟩ : BufTy).Contents (Elt F)) :=
  ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x96_S96x64_S64x64_1_0_0_1_n_n none l r) : (⟨S64x96, .f32⟩ : BufTy).Contents (Elt F) → (⟨S96x64, .f32⟩ : BufTy).Contents (Elt F) → (⟨S64x64, .f32⟩ : BufTy).Contents (Elt F)) (((fun a b => concatenate S64x96 1 [⟨S64x64, a⟩, ⟨S64x32, b⟩] concatenates_S64x64_S64x32_S64x96_d1) : (⟨S64x64, .f32⟩ : BufTy).Contents (Elt F) → (⟨S64x32, .f32⟩ : BufTy).Contents (Elt F) → (⟨S64x96, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) (vL7)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (vBnU)) (a15)) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (a16)))) (((broadcastInDim S64x64 ![] bcast_S_S64x64) : (⟨S_, .f32⟩ : BufTy).Contents (Elt F) → (⟨S64x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT8_0 (vL7 : (⟨S30000x64, .f32⟩ : BufTy).Contents (Elt F)) (vBnU : (⟨S64x32, .f32⟩ : BufTy).Contents (Elt F)) (a4 : (⟨S30000, .i32⟩ : BufTy).Contents (Elt F)) (a15 : (⟨S96x64, .f32⟩ : BufTy).Contents (Elt F)) (a16 : (⟨S64, .f32⟩ : BufTy).Contents (Elt F)) :=
  ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) (vL7)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))))
/-- The kernel side's input 1 of the layer, over the leaves. -/
def kT8_1 (vL7 : (⟨S30000x64, .f32⟩ : BufTy).Contents (Elt F)) (vBnU : (⟨S64x32, .f32⟩ : BufTy).Contents (Elt F)) (a4 : (⟨S30000, .i32⟩ : BufTy).Contents (Elt F)) (a15 : (⟨S96x64, .f32⟩ : BufTy).Contents (Elt F)) (a16 : (⟨S64, .f32⟩ : BufTy).Contents (Elt F)) :=
  (vBnU)
/-- The kernel side's input 2 of the layer, over the leaves. -/
def kT8_2 (vL7 : (⟨S30000x64, .f32⟩ : BufTy).Contents (Elt F)) (vBnU : (⟨S64x32, .f32⟩ : BufTy).Contents (Elt F)) (a4 : (⟨S30000, .i32⟩ : BufTy).Contents (Elt F)) (a15 : (⟨S96x64, .f32⟩ : BufTy).Contents (Elt F)) (a16 : (⟨S64, .f32⟩ : BufTy).Contents (Elt F)) :=
  (((extractStridedSlice S64x64 ![0, 0] · slices_S96x64_S64x64_0_0) : (⟨S96x64, .f32⟩ : BufTy).Contents (Elt F) → (⟨S64x64, .f32⟩ : BufTy).Contents (Elt F)) (a15))
/-- The kernel side's input 3 of the layer, over the leaves. -/
def kT8_3 (vL7 : (⟨S30000x64, .f32⟩ : BufTy).Contents (Elt F)) (vBnU : (⟨S64x32, .f32⟩ : BufTy).Contents (Elt F)) (a4 : (⟨S30000, .i32⟩ : BufTy).Contents (Elt F)) (a15 : (⟨S96x64, .f32⟩ : BufTy).Contents (Elt F)) (a16 : (⟨S64, .f32⟩ : BufTy).Contents (Elt F)) :=
  (((extractStridedSlice S32x64 ![64, 0] · slices_S96x64_S32x64_64_0) : (⟨S96x64, .f32⟩ : BufTy).Contents (Elt F) → (⟨S32x64, .f32⟩ : BufTy).Contents (Elt F)) (a15))
/-- The kernel side's input 4 of the layer, over the leaves. -/
def kT8_4 (vL7 : (⟨S30000x64, .f32⟩ : BufTy).Contents (Elt F)) (vBnU : (⟨S64x32, .f32⟩ : BufTy).Contents (Elt F)) (a4 : (⟨S30000, .i32⟩ : BufTy).Contents (Elt F)) (a15 : (⟨S96x64, .f32⟩ : BufTy).Contents (Elt F)) (a16 : (⟨S64, .f32⟩ : BufTy).Contents (Elt F)) :=
  (shapeCast S1x64 (a16) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue8 (vL7 : (⟨Cert.KernelIdeal.S30000x64, .f32⟩ : BufTy).Contents (Elt Ideal)) (vBnU : (⟨Cert.KernelIdeal.S64x32, .f32⟩ : BufTy).Contents (Elt Ideal)) (a4 : (⟨Cert.KernelIdeal.S30000, .i32⟩ : BufTy).Contents (Elt Ideal)) (a15 : (⟨Cert.KernelIdeal.S96x64, .f32⟩ : BufTy).Contents (Elt Ideal)) (a16 : (⟨Cert.KernelIdeal.S64, .f32⟩ : BufTy).Contents (Elt Ideal)) :
    refT8 (F := Ideal) vL7 vBnU a4 a15 a16
      = layer2 (kT8_0 (F := Ideal) vL7 vBnU a4 a15 a16) (kT8_1 (F := Ideal) vL7 vBnU a4 a15 a16) (kT8_2 (F := Ideal) vL7 vBnU a4 a15 a16) (kT8_3 (F := Ideal) vL7 vBnU a4 a15 a16) (kT8_4 (F := Ideal) vL7 vBnU a4 a15 a16) := by
  unfold refT8
  refine (Cert.ReferenceIdeal.Mlp.ref_global0 _ _ _ _).trans ?_
  rfl

end Cert.Proof.Bridge

end
-- ==== Proof.Bridge.L8.lean ====
import proofs.«123839_j71768903516633_2_alg».proof.Proof.Bridge.Names
import proofs.«123839_j71768903516633_2_alg».proof.Proof.Bridge.Glue8
import proofs.«123839_j71768903516633_2_alg».proof.Proof.KI.Anchor
import proofs.«123839_j71768903516633_2_alg».proof.Proof.Ref.StageL0

/-! Layer 8: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide8 (c : Dev Cert.KernelIdeal.nD) : rL8 m' c = refT8 (F := Ideal) (rL7 m' c) (rBnU m' c) (rArg4 m' c) (rArg15 m' c) (rArg16 m' c) :=
  Cert.ReferenceIdeal.Hand.ref_main_v135 (F := Ideal) (launchContents m' c)

set_option maxHeartbeats 1000000 in
/-- The kernel program's anchor is the layer over its inputs, each the kernel side's term over the kernel's leaves. -/
theorem kerSide8 (c : Dev Cert.KernelIdeal.nD) :
    kL8 m c = layer2 (kT8_0 (F := Ideal) (kL7 m c) (kBnU m c) (kArg4 m c) (kArg15 m c) (kArg16 m c)) (kT8_1 (F := Ideal) (kL7 m c) (kBnU m c) (kArg4 m c) (kArg15 m c) (kArg16 m c)) (kT8_2 (F := Ideal) (kL7 m c) (kBnU m c) (kArg4 m c) (kArg15 m c) (kArg16 m c)) (kT8_3 (F := Ideal) (kL7 m c) (kBnU m c) (kArg4 m c) (kArg15 m c) (kArg16 m c)) (kT8_4 (F := Ideal) (kL7 m c) (kBnU m c) (kArg4 m c) (kArg15 m c) (kArg16 m c)) := by
  have i0 : Cert.KernelIdeal.Hand.U15 m c Cert.KernelIdeal.main_v107 = kT8_0 (F := Ideal) (kL7 m c) (kBnU m c) (kArg4 m c) (kArg15 m c) (kArg16 m c) := Cert.KernelIdeal.Hand.in8_0 (F := Ideal) m c
  have i1 : Cert.KernelIdeal.Hand.U15 m c Cert.KernelIdeal.main_v39 = kT8_1 (F := Ideal) (kL7 m c) (kBnU m c) (kArg4 m c) (kArg15 m c) (kArg16 m c) := Cert.KernelIdeal.Hand.in8_1 (F := Ideal) m c
  have i2 : Cert.KernelIdeal.Hand.U15 m c Cert.KernelIdeal.main_v108 = kT8_2 (F := Ideal) (kL7 m c) (kBnU m c) (kArg4 m c) (kArg15 m c) (kArg16 m c) := Cert.KernelIdeal.Hand.in8_2 (F := Ideal) m c
  have i3 : Cert.KernelIdeal.Hand.U15 m c Cert.KernelIdeal.main_v109 = kT8_3 (F := Ideal) (kL7 m c) (kBnU m c) (kArg4 m c) (kArg15 m c) (kArg16 m c) := Cert.KernelIdeal.Hand.in8_3 (F := Ideal) m c
  have i4 : Cert.KernelIdeal.Hand.U15 m c Cert.KernelIdeal.main_v110 = kT8_4 (F := Ideal) (kL7 m c) (kBnU m c) (kArg4 m c) (kArg15 m c) (kArg16 m c) := Cert.KernelIdeal.Hand.in8_4 (F := Ideal) m c
  refine (Cert.KernelIdeal.Hand.anchor8 m c).trans ?_
  rw [i0, i1, i2, i3, i4]

set_option maxHeartbeats 1000000 in
/-- Layer 8's anchors agree. -/
theorem eq_8 (c : Dev Cert.KernelIdeal.nD)
    (hL7 : rL7 m' c = kL7 m c)
    (hBnU : rBnU m' c = kBnU m c)
    (ha4 : rArg4 m' c = kArg4 m c)
    (ha15 : rArg15 m' c = kArg15 m c)
    (ha16 : rArg16 m' c = kArg16 m c) :
    rL8 m' c = kL8 m c := by
  rw [refSide8 m' c, hL7, hBnU, ha4, ha15, ha16, kerSide8 m c]
  exact glue8 (kL7 m c) (kBnU m c) (kArg4 m c) (kArg15 m c) (kArg16 m c)

end Cert.Proof.Bridge

end
-- ==== Proof.Bridge.Glue9.lean ====
import proofs.«123839_j71768903516633_2_alg».proof.Proof.Math.MlpRef

/-! Layer 9 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT9 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  ((maximumf : (⟨S300000x64, .f32⟩ : BufTy).Contents (Elt F) → (⟨S300000x64, .f32⟩ : BufTy).Contents (Elt F) → (⟨S300000x64, .f32⟩ : BufTy).Contents (Elt F)) ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL7) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL7) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000))))⟩, ⟨S300000x64, (vL6)⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (vL8) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))))))⟩] concatenates_S300000x64_S300000x64_S300000x64_S300000x64_S300000x256_d1) (a17)) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (a18)))) (((broadcastInDim S300000x64 ![] bcast_S_S300000x64) : (⟨S_, .f32⟩ : BufTy).Contents (Elt F) → (⟨S300000x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT9_0 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL7) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000))))
/-- The kernel side's input 1 of the layer, over the leaves. -/
def kT9_1 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL7) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000))))
/-- The kernel side's input 2 of the layer, over the leaves. -/
def kT9_2 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (vL6)
/-- The kernel side's input 3 of the layer, over the leaves. -/
def kT9_3 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (vL8) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))))))
/-- The kernel side's input 4 of the layer, over the leaves. -/
def kT9_4 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((extractStridedSlice S64x64 ![0, 0] · slices_S256x64_S64x64_0_0) : (⟨S256x64, .f32⟩ : BufTy).Contents (Elt F) → (⟨S64x64, .f32⟩ : BufTy).Contents (Elt F)) (a17))
/-- The kernel side's input 5 of the layer, over the leaves. -/
def kT9_5 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((extractStridedSlice S64x64 ![64, 0] · slices_S256x64_S64x64_64_0) : (⟨S256x64, .f32⟩ : BufTy).Contents (Elt F) → (⟨S64x64, .f32⟩ : BufTy).Contents (Elt F)) (a17))
/-- The kernel side's input 6 of the layer, over the leaves. -/
def kT9_6 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((extractStridedSlice S64x64 ![128, 0] · slices_S256x64_S64x64_128_0) : (⟨S256x64, .f32⟩ : BufTy).Contents (Elt F) → (⟨S64x64, .f32⟩ : BufTy).Contents (Elt F)) (a17))
/-- The kernel side's input 7 of the layer, over the leaves. -/
def kT9_7 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (((extractStridedSlice S64x64 ![192, 0] · slices_S256x64_S64x64_192_0) : (⟨S256x64, .f32⟩ : BufTy).Contents (Elt F) → (⟨S64x64, .f32⟩ : BufTy).Contents (Elt F)) (a17))
/-- The kernel side's input 8 of the layer, over the leaves. -/
def kT9_8 (vL7 : (⟨S30000x64, .f32⟩ : BufTy).Contents (Elt F)) (vL6 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a17 : (⟨S256x64, .f32⟩ : BufTy).Contents (Elt F)) (a18 : (⟨S64, .f32⟩ : BufTy).Contents (Elt F)) :=
  (shapeCast S1x64 (a18) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue9 (vL7 : (⟨Cert.KernelIdeal.S30000x64, .f32⟩ : BufTy).Contents (Elt Ideal)) (vL6 : (⟨Cert.KernelIdeal.S300000x64, .f32⟩ : BufTy).Contents (Elt Ideal)) (vL8 : (⟨Cert.KernelIdeal.S64x64, .f32⟩ : BufTy).Contents (Elt Ideal)) (a1 : (⟨Cert.KernelIdeal.S2x300000, .i32⟩ : BufTy).Contents (Elt Ideal)) (a4 : (⟨Cert.KernelIdeal.S30000, .i32⟩ : BufTy).Contents (Elt Ideal)) (a17 : (⟨Cert.KernelIdeal.S256x64, .f32⟩ : BufTy).Contents (Elt Ideal)) (a18 : (⟨Cert.KernelIdeal.S64, .f32⟩ : BufTy).Contents (Elt Ideal)) :
    refT9 (F := Ideal) vL7 vL6 vL8 a1 a4 a17 a18
      = layer4 (kT9_0 (F := Ideal) vL7 vL6 vL8 a1 a4 a17 a18) (kT9_1 (F := Ideal) vL7 vL6 vL8 a1 a4 a17 a18) (kT9_2 (F := Ideal) vL7 vL6 vL8 a1 a4 a17 a18) (kT9_3 (F := Ideal) vL7 vL6 vL8 a1 a4 a17 a18) (kT9_4 (F := Ideal) vL7 vL6 vL8 a1 a4 a17 a18) (kT9_5 (F := Ideal) vL7 vL6 vL8 a1 a4 a17 a18) (kT9_6 (F := Ideal) vL7 vL6 vL8 a1 a4 a17 a18) (kT9_7 (F := Ideal) vL7 vL6 vL8 a1 a4 a17 a18) (kT9_8 (F := Ideal) vL7 vL6 vL8 a1 a4 a17 a18) := by
  unfold refT9
  refine (Cert.ReferenceIdeal.Mlp.ref_edge1 _ _ _ _ _ _).trans ?_
  rfl

end Cert.Proof.Bridge

end
-- ==== Proof.Ref.S3.lean ====
-- written by: gen_ref.js <unit directory>
/- Window 3 of the reference program's @main read one operation at a time: every buffer of the window is written once, so at the window's end each operation's result buffer holds the operation's function of its operands' contents there. -/
import proofs.«123839_j71768903516633_2_alg».proof.Proof.Ref.Writes
import proofs.«123839_j71768903516633_2_alg».proof.Proof.Lib.LibReadFinal
import proofs.«123839_j71768903516633_2_alg».proof.Proof.Lib.LibSingleAssignmentNary

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem s_main_v146 (U : Valuation τ sig (Elt F)) : (after (ops3 (F := F)) U (Proc.devRef .tc main_v146)) = (addi : (⟨S300000, .i32⟩ : BufTy).Contents (Elt F) → (⟨S300000, .i32⟩ : BufTy).Contents (Elt F) → (⟨S300000, .i32⟩ : BufTy).Contents (Elt F)) (after (ops3 (F := F)) U (Proc.devRef .tc main_v3)) (after (ops3 (F := F)) U (Proc.devRef .tc main_v145)) :=
  Cert.Lib.ReadFinal.binary (a := main_v3) (b := main_v145) (y := main_v146) (f := (addi : (⟨S300000, .i32⟩ : BufTy).Contents (Elt F) → (⟨S300000, .i32⟩ : BufTy).Contents (Elt F) → (⟨S300000, .i32⟩ : BufTy).Contents (Elt F))) writes3 0 rfl (by decide) (by decide) (by decide) U
theorem s_main_v147 (U : Valuation τ sig (Elt F)) : (after (ops3 (F := F)) U (Proc.devRef .tc main_v147)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops3 (F := F)) U (Proc.devRef .tc main_v144)) (after (ops3 (F := F)) U (Proc.devRef .tc main_v146)) (after (ops3 (F := F)) U (Proc.devRef .tc main_v3)) :=
  Cert.Lib.ReadFinal.ternary (c := main_v144) (a := main_v146) (b := main_v3) (y := main_v147) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes3 1 rfl (by decide) (by decide) (by decide) (by decide) U
theorem s_main_v148 (U : Valuation τ sig (Elt F)) : (after (ops3 (F := F)) U (Proc.devRef .tc main_v148)) = (broadcastInDim S300000x1 ![0] bcast_S300000_S300000x1_0 : (⟨S300000, .i32⟩ : BufTy).Contents (Elt F) → (⟨S300000x1, .i32⟩ : BufTy).Contents (Elt F)) (after (ops3 (F := F)) U (Proc.devRef .tc main_v147)) :=
  Cert.Lib.ReadFinal.unary (x := main_v147) (y := main_v148) (f := (broadcastInDim S300000x1 ![0] bcast_S300000_S300000x1_0 : (⟨S300000, .i32⟩ : BufTy).Contents (Elt F) → (⟨S300000x1, .i32⟩ : BufTy).Contents (Elt F))) writes3 2 rfl (by decide) (by decide) U
theorem s_main_v149 (U : Valuation τ sig (Elt F)) : (after (ops3 (F := F)) U (Proc.devRef .tc main_v149)) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops3 (F := F)) U (Proc.devRef .tc main_v118)) (after (ops3 (F := F)) U (Proc.devRef .tc main_v148)) :=
  Cert.Lib.ReadFinal.binary (a := main_v118) (b := main_v148) (y := main_v149) (f := ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F))) writes3 3 rfl (by decide) (by decide) (by decide) U
theorem s_main_c_32 (U : Valuation τ sig (Elt F)) : (after (ops3 (F := F)) U (Proc.devRef .tc main_c_32)) = (constantI S_ 32 0#32) :=
  Cert.Lib.ReadFinal.nullary (y := main_c_32) (v := (constantI S_ 32 0#32)) writes3 4 rfl (by decide) U
theorem s_main_v150 (U : Valuation τ sig (Elt F)) : (after (ops3 (F := F)) U (Proc.devRef .tc main_v150)) = (broadcastInDim S300000 ![] bcast_S_S300000 : (⟨S_, .i32⟩ : BufTy).Contents (Elt F) → (⟨S300000, .i32⟩ : BufTy).Contents (Elt F)) (after (ops3 (F := F)) U (Proc.devRef .tc main_c_32)) :=
  Cert.Lib.ReadFinal.unary (x := main_c_32) (y := main_v150) (f := (broadcastInDim S300000 ![] bcast_S_S300000 : (⟨S_, .i32⟩ : BufTy).Contents (Elt F) → (⟨S300000, .i32⟩ : BufTy).Contents (Elt F))) writes3 5 rfl (by decide) (by decide) U
theorem s_main_v151 (U : Valuation τ sig (Elt F)) : (after (ops3 (F := F)) U (Proc.devRef .tc main_v151)) = (cmpi .slt : (⟨S300000, .i32⟩ : BufTy).Contents (Elt F) → (⟨S300000, .i32⟩ : BufTy).Contents (Elt F) → (⟨S300000, .i1⟩ : BufTy).Contents (Elt F)) (after (ops3 (F := F)) U (Proc.devRef .tc main_v1)) (after (ops3 (F := F)) U (Proc.devRef .tc main_v150)) :=
  Cert.Lib.ReadFinal.binary (a := main_v1) (b := main_v150) (y := main_v151) (f := (cmpi .slt : (⟨S300000, .i32⟩ : BufTy).Contents (Elt F) → (⟨S300000, .i32⟩ : BufTy).Contents (Elt F) → (⟨S300000, .i1⟩ : BufTy).Contents (Elt F))) writes3 6 rfl (by decide) (by decide) (by decide) U
theorem s_main_c_33 (U : Valuation τ sig (Elt F)) : (after (ops3 (F := F)) U (Proc.devRef .tc main_c_33)) = (constantI S_ 32 30000#32) :=
  Cert.Lib.ReadFinal.nullary (y := main_c_33) (v := (constantI S_ 32 30000#32)) writes3 7 rfl (by decide) U
theorem s_main_v152 (U : Valuation τ sig (Elt F)) : (after (ops3 (F := F)) U (Proc.devRef .tc main_v152)) = (broadcastInDim S300000 ![] bcast_S_S300000 : (⟨S_, .i32⟩ : BufTy).Contents (Elt F) → (⟨S300000, .i32⟩ : BufTy).Contents (Elt F)) (after (ops3 (F := F)) U (Proc.devRef .tc main_c_33)) :=
  Cert.Lib.ReadFinal.unary (x := main_c_33) (y := main_v152) (f := (broadcastInDim S300000 ![] bcast_S_S300000 : (⟨S_, .i32⟩ : BufTy).Contents (Elt F) → (⟨S300000, .i32⟩ : BufTy).Contents (Elt F))) writes3 8 rfl (by decide) (by decide) U
theorem s_main_v153 (U : Valuation τ sig (Elt F)) : (after (ops3 (F := F)) U (Proc.devRef .tc main_v153)) = (addi : (⟨S300000, .i32⟩ : BufTy).Contents (Elt F) → (⟨S300000, .i32⟩ : BufTy).Contents (Elt F) → (⟨S300000, .i32⟩ : BufTy).Contents (Elt F)) (after (ops3 (F := F)) U (Proc.devRef .tc main_v1)) (after (ops3 (F := F)) U (Proc.devRef .tc main_v152)) :=
  Cert.Lib.ReadFinal.binary (a := main_v1) (b := main_v152) (y := main_v153) (f := (addi : (⟨S300000, .i32⟩ : BufTy).Contents (Elt F) → (⟨S300000, .i32⟩ : BufTy).Contents (Elt F) → (⟨S300000, .i32⟩ : BufTy).Contents (Elt F))) writes3 9 rfl (by decide) (by decide) (by decide) U
theorem s_main_v154 (U : Valuation τ sig (Elt F)) : (after (ops3 (F := F)) U (Proc.devRef .tc main_v154)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops3 (F := F)) U (Proc.devRef .tc main_v151)) (after (ops3 (F := F)) U (Proc.devRef .tc main_v153)) (after (ops3 (F := F)) U (Proc.devRef .tc main_v1)) :=
  Cert.Lib.ReadFinal.ternary (c := main_v151) (a := main_v153) (b := main_v1) (y := main_v154) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes3 10 rfl (by decide) (by decide) (by decide) (by decide) U
theorem s_main_v155 (U : Valuation τ sig (Elt F)) : (after (ops3 (F := F)) U (Proc.devRef .tc main_v155)) = (broadcastInDim S300000x1 ![0] bcast_S300000_S300000x1_0 : (⟨S300000, .i32⟩ : BufTy).Contents (Elt F) → (⟨S300000x1, .i32⟩ : BufTy).Contents (Elt F)) (after (ops3 (F := F)) U (Proc.devRef .tc main_v154)) :=
  Cert.Lib.ReadFinal.unary (x := main_v154) (y := main_v155) (f := (broadcastInDim S300000x1 ![0] bcast_S300000_S300000x1_0 : (⟨S300000, .i32⟩ : BufTy).Contents (Elt F) → (⟨S300000x1, .i32⟩ : BufTy).Contents (Elt F))) writes3 11 rfl (by decide) (by decide) U
theorem s_main_v156 (U : Valuation τ sig (Elt F)) : (after (ops3 (F := F)) U (Proc.devRef .tc main_v156)) = ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (after (ops3 (F := F)) U (Proc.devRef .tc main_arg4)) (after (ops3 (F := F)) U (Proc.devRef .tc main_v155)) :=
  Cert.Lib.ReadFinal.binary (a := main_arg4) (b := main_v155) (y := main_v156) (f := ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F))) writes3 12 rfl (by decide) (by decide) (by decide) U
theorem s_main_c_34 (U : Valuation τ sig (Elt F)) : (after (ops3 (F := F)) U (Proc.devRef .tc main_c_34)) = (constantI S_ 32 0#32) :=
  Cert.Lib.ReadFinal.nullary (y := main_c_34) (v := (constantI S_ 32 0#32)) writes3 13 rfl (by decide) U
theorem s_main_v157 (U : Valuation τ sig (Elt F)) : (after (ops3 (F := F)) U (Proc.devRef .tc main_v157)) = (broadcastInDim S300000 ![] bcast_S_S300000 : (⟨S_, .i32⟩ : BufTy).Contents (Elt F) → (⟨S300000, .i32⟩ : BufTy).Contents (Elt F)) (after (ops3 (F := F)) U (Proc.devRef .tc main_c_34)) :=
  Cert.Lib.ReadFinal.unary (x := main_c_34) (y := main_v157) (f := (broadcastInDim S300000 ![] bcast_S_S300000 : (⟨S_, .i32⟩ : BufTy).Contents (Elt F) → (⟨S300000, .i32⟩ : BufTy).Contents (Elt F))) writes3 14 rfl (by decide) (by decide) U
theorem s_main_v158 (U : Valuation τ sig (Elt F)) : (after (ops3 (F := F)) U (Proc.devRef .tc main_v158)) = (cmpi .slt : (⟨S300000, .i32⟩ : BufTy).Contents (Elt F) → (⟨S300000, .i32⟩ : BufTy).Contents (Elt F) → (⟨S300000, .i1⟩ : BufTy).Contents (Elt F)) (after (ops3 (F := F)) U (Proc.devRef .tc main_v156)) (after (ops3 (F := F)) U (Proc.devRef .tc main_v157)) :=
  Cert.Lib.ReadFinal.binary (a := main_v156) (b := main_v157) (y := main_v158) (f := (cmpi .slt : (⟨S300000, .i32⟩ : BufTy).Contents (Elt F) → (⟨S300000, .i32⟩ : BufTy).Contents (Elt F) → (⟨S300000, .i1⟩ : BufTy).Contents (Elt F))) writes3 15 rfl (by decide) (by decide) (by decide) U
theorem s_main_c_35 (U : Valuation τ sig (Elt F)) : (after (ops3 (F := F)) U (Proc.devRef .tc main_c_35)) = (constantI S_ 32 64#32) :=
  Cert.Lib.ReadFinal.nullary (y := main_c_35) (v := (constantI S_ 32 64#32)) writes3 16 rfl (by decide) U
theorem s_main_v159 (U : Valuation τ sig (Elt F)) : (after (ops3 (F := F)) U (Proc.devRef .tc main_v159)) = (broadcastInDim S300000 ![] bcast_S_S300000 : (⟨S_, .i32⟩ : BufTy).Contents (Elt F) → (⟨S300000, .i32⟩ : BufTy).Contents (Elt F)) (after (ops3 (F := F)) U (Proc.devRef .tc main_c_35)) :=
  Cert.Lib.ReadFinal.unary (x := main_c_35) (y := main_v159) (f := (broadcastInDim S300000 ![] bcast_S_S300000 : (⟨S_, .i32⟩ : BufTy).Contents (Elt F) → (⟨S300000, .i32⟩ : BufTy).Contents (Elt F))) writes3 17 rfl (by decide) (by decide) U
theorem s_main_v160 (U : Valuation τ sig (Elt F)) : (after (ops3 (F := F)) U (Proc.devRef .tc main_v160)) = (addi : (⟨S300000, .i32⟩ : BufTy).Contents (Elt F) → (⟨S300000, .i32⟩ : BufTy).Contents (Elt F) → (⟨S300000, .i32⟩ : BufTy).Contents (Elt F)) (after (ops3 (F := F)) U (Proc.devRef .tc main_v156)) (after (ops3 (F := F)) U (Proc.devRef .tc main_v159)) :=
  Cert.Lib.ReadFinal.binary (a := main_v156) (b := main_v159) (y := main_v160) (f := (addi : (⟨S300000, .i32⟩ : BufTy).Contents (Elt F) → (⟨S300000, .i32⟩ : BufTy).Contents (Elt F) → (⟨S300000, .i32⟩ : BufTy).Contents (Elt F))) writes3 18 rfl (by decide) (by decide) (by decide) U
theorem s_main_v161 (U : Valuation τ sig (Elt F)) : (after (ops3 (F := F)) U (Proc.devRef .tc main_v161)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops3 (F := F)) U (Proc.devRef .tc main_v158)) (after (ops3 (F := F)) U (Proc.devRef .tc main_v160)) (after (ops3 (F := F)) U (Proc.devRef .tc main_v156)) :=
  Cert.Lib.ReadFinal.ternary (c := main_v158) (a := main_v160) (b := main_v156) (y := main_v161) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes3 19 rfl (by decide) (by decide) (by decide) (by decide) U
theorem s_main_v162 (U : Valuation τ sig (Elt F)) : (after (ops3 (F := F)) U (Proc.devRef .tc main_v162)) = (broadcastInDim S300000x1 ![0] bcast_S300000_S300000x1_0 : (⟨S300000, .i32⟩ : BufTy).Contents (Elt F) → (⟨S300000x1, .i32⟩ : BufTy).Contents (Elt F)) (after (ops3 (F := F)) U (Proc.devRef .tc main_v161)) :=
  Cert.Lib.ReadFinal.unary (x := main_v161) (y := main_v162) (f := (broadcastInDim S300000x1 ![0] bcast_S300000_S300000x1_0 : (⟨S300000, .i32⟩ : BufTy).Contents (Elt F) → (⟨S300000x1, .i32⟩ : BufTy).Contents (Elt F))) writes3 20 rfl (by decide) (by decide) U
theorem s_main_v163 (U : Valuation τ sig (Elt F)) : (after (ops3 (F := F)) U (Proc.devRef .tc main_v163)) = ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops3 (F := F)) U (Proc.devRef .tc main_v135)) (after (ops3 (F := F)) U (Proc.devRef .tc main_v162)) :=
  Cert.Lib.ReadFinal.binary (a := main_v135) (b := main_v162) (y := main_v163) (f := ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F))) writes3 21 rfl (by decide) (by decide) (by decide) U
theorem s_main_v164 (U : Valuation τ sig (Elt F)) : (after (ops3 (F := F)) U (Proc.devRef .tc main_v164)) = concatenate S300000x256 1 [⟨S300000x64, (after (ops3 (F := F)) U (Proc.devRef .tc main_v142))⟩, ⟨S300000x64, (after (ops3 (F := F)) U (Proc.devRef .tc main_v149))⟩, ⟨S300000x64, (after (ops3 (F := F)) U (Proc.devRef .tc main_v94))⟩, ⟨S300000x64, (after (ops3 (F := F)) U (Proc.devRef .tc main_v163))⟩] concatenates_S300000x64_S300000x64_S300000x64_S300000x64_S300000x256_d1 :=
  (Cert.Lib.SingleAssignment.read_nary (t := []) (xs := ![main_v142, main_v149, main_v94, main_v163]) (y := main_v164) (f := (fun u => concatenate S300000x256 1 [⟨S300000x64, u 0⟩, ⟨S300000x64, u 1⟩, ⟨S300000x64, u 2⟩, ⟨S300000x64, u 3⟩] concatenates_S300000x64_S300000x64_S300000x64_S300000x64_S300000x256_d1)) writes3 Cert.Lib.SingleAssignment.Writes.nil 22 rfl (by decide) (by decide) U).trans rfl
theorem s_main_v165 (U : Valuation τ sig (Elt F)) : (after (ops3 (F := F)) U (Proc.devRef .tc main_v165)) = ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (after (ops3 (F := F)) U (Proc.devRef .tc main_v164)) (after (ops3 (F := F)) U (Proc.devRef .tc main_arg17)) :=
  Cert.Lib.ReadFinal.binary (a := main_v164) (b := main_arg17) (y := main_v165) (f := ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F))) writes3 23 rfl (by decide) (by decide) (by decide) U
theorem s_main_v166 (U : Valuation τ sig (Elt F)) : (after (ops3 (F := F)) U (Proc.devRef .tc main_v166)) = (broadcastInDim S1x64 ![1] bcast_S64_S1x64_1 : (⟨S64, .f32⟩ : BufTy).Contents (Elt F) → (⟨S1x64, .f32⟩ : BufTy).Contents (Elt F)) (after (ops3 (F := F)) U (Proc.devRef .tc main_arg18)) :=
  Cert.Lib.ReadFinal.unary (x := main_arg18) (y := main_v166) (f := (broadcastInDim S1x64 ![1] bcast_S64_S1x64_1 : (⟨S64, .f32⟩ : BufTy).Contents (Elt F) → (⟨S1x64, .f32⟩ : BufTy).Contents (Elt F))) writes3 24 rfl (by decide) (by decide) U
theorem s_main_v167 (U : Valuation τ sig (Elt F)) : (after (ops3 (F := F)) U (Proc.devRef .tc main_v167)) = (broadcastInDim S300000x64 ![0, 1] bcast_S1x64_S300000x64_0_1 : (⟨S1x64, .f32⟩ : BufTy).Contents (Elt F) → (⟨S300000x64, .f32⟩ : BufTy).Contents (Elt F)) (after (ops3 (F := F)) U (Proc.devRef .tc main_v166)) :=
  Cert.Lib.ReadFinal.unary (x := main_v166) (y := main_v167) (f := (broadcastInDim S300000x64 ![0, 1] bcast_S1x64_S300000x64_0_1 : (⟨S1x64, .f32⟩ : BufTy).Contents (Elt F) → (⟨S300000x64, .f32⟩ : BufTy).Contents (Elt F))) writes3 25 rfl (by decide) (by decide) U
theorem s_main_v168 (U : Valuation τ sig (Elt F)) : (after (ops3 (F := F)) U (Proc.devRef .tc main_v168)) = (addf : (⟨S300000x64, .f32⟩ : BufTy).Contents (Elt F) → (⟨S300000x64, .f32⟩ : BufTy).Contents (Elt F) → (⟨S300000x64, .f32⟩ : BufTy).Contents (Elt F)) (after (ops3 (F := F)) U (Proc.devRef .tc main_v165)) (after (ops3 (F := F)) U (Proc.devRef .tc main_v167)) :=
  Cert.Lib.ReadFinal.binary (a := main_v165) (b := main_v167) (y := main_v168) (f := (addf : (⟨S300000x64, .f32⟩ : BufTy).Contents (Elt F) → (⟨S300000x64, .f32⟩ : BufTy).Contents (Elt F) → (⟨S300000x64, .f32⟩ : BufTy).Contents (Elt F))) writes3 26 rfl (by decide) (by decide) (by decide) U
theorem s_main_call6_cst (U : Valuation τ sig (Elt F)) : (after (ops3 (F := F)) U (Proc.devRef .tc main_call6_cst)) = (constant (F := F) S_ .f32 0x00000000#32) :=
  Cert.Lib.ReadFinal.nullary (y := main_call6_cst) (v := (constant (F := F) S_ .f32 0x00000000#32)) writes3 27 rfl (by decide) U
theorem s_main_call6_v0 (U : Valuation τ sig (Elt F)) : (after (ops3 (F := F)) U (Proc.devRef .tc main_call6_v0)) = ((broadcastInDim S300000x64 ![] bcast_S_S300000x64) : (⟨S_, .f32⟩ : BufTy).Contents (Elt F) → (⟨S300000x64, .f32⟩ : BufTy).Contents (Elt F)) (after (ops3 (F := F)) U (Proc.devRef .tc main_call6_cst)) :=
  Cert.Lib.ReadFinal.unary (x := main_call6_cst) (y := main_call6_v0) (f := ((broadcastInDim S300000x64 ![] bcast_S_S300000x64) : (⟨S_, .f32⟩ : BufTy).Contents (Elt F) → (⟨S300000x64, .f32⟩ : BufTy).Contents (Elt F))) writes3 28 rfl (by decide) (by decide) U
theorem s_main_v169 (U : Valuation τ sig (Elt F)) : (after (ops3 (F := F)) U (Proc.devRef .tc main_v169)) = (maximumf : (⟨S300000x64, .f32⟩ : BufTy).Contents (Elt F) → (⟨S300000x64, .f32⟩ : BufTy).Contents (Elt F) → (⟨S300000x64, .f32⟩ : BufTy).Contents (Elt F)) (after (ops3 (F := F)) U (Proc.devRef .tc main_v168)) (after (ops3 (F := F)) U (Proc.devRef .tc main_call6_v0)) :=
  Cert.Lib.ReadFinal.binary (a := main_v168) (b := main_call6_v0) (y := main_v169) (f := (maximumf : (⟨S300000x64, .f32⟩ : BufTy).Contents (Elt F) → (⟨S300000x64, .f32⟩ : BufTy).Contents (Elt F) → (⟨S300000x64, .f32⟩ : BufTy).Contents (Elt F))) writes3 29 rfl (by decide) (by decide) (by decide) U
theorem s_main_cst_36 (U : Valuation τ sig (Elt F)) : (after (ops3 (F := F)) U (Proc.devRef .tc main_cst_36)) = (constant (F := F) S_ .f32 0x00000000#32) :=
  Cert.Lib.ReadFinal.nullary (y := main_cst_36) (v := (constant (F := F) S_ .f32 0x00000000#32)) writes3 30 rfl (by decide) U
theorem s_main_v170 (U : Valuation τ sig (Elt F)) : (after (ops3 (F := F)) U (Proc.devRef .tc main_v170)) = (broadcastInDim S30000x64 ![] bcast_S_S30000x64 : (⟨S_, .f32⟩ : BufTy).Contents (Elt F) → (⟨S30000x64, .f32⟩ : BufTy).Contents (Elt F)) (after (ops3 (F := F)) U (Proc.devRef .tc main_cst_36)) :=
  Cert.Lib.ReadFinal.unary (x := main_cst_36) (y := main_v170) (f := (broadcastInDim S30000x64 ![] bcast_S_S30000x64 : (⟨S_, .f32⟩ : BufTy).Contents (Elt F) → (⟨S30000x64, .f32⟩ : BufTy).Contents (Elt F))) writes3 31 rfl (by decide) (by decide) U
theorem s_main_v171 (U : Valuation τ sig (Elt F)) : (after (ops3 (F := F)) U (Proc.devRef .tc main_v171)) = (broadcastInDim S300000x1 ![0] bcast_S300000_S300000x1_0 : (⟨S300000, .i32⟩ : BufTy).Contents (Elt F) → (⟨S300000x1, .i32⟩ : BufTy).Contents (Elt F)) (after (ops3 (F := F)) U (Proc.devRef .tc main_v3)) :=
  Cert.Lib.ReadFinal.unary (x := main_v3) (y := main_v171) (f := (broadcastInDim S300000x1 ![0] bcast_S300000_S300000x1_0 : (⟨S300000, .i32⟩ : BufTy).Contents (Elt F) → (⟨S300000x1, .i32⟩ : BufTy).Contents (Elt F))) writes3 32 rfl (by decide) (by decide) U
theorem s_main_v172 (U : Valuation τ sig (Elt F)) : (after (ops3 (F := F)) U (Proc.devRef .tc main_v172)) = ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (after (ops3 (F := F)) U (Proc.devRef .tc main_v170)) (after (ops3 (F := F)) U (Proc.devRef .tc main_v171)) (after (ops3 (F := F)) U (Proc.devRef .tc main_v169)) :=
  Cert.Lib.ReadFinal.ternary (c := main_v170) (a := main_v171) (b := main_v169) (y := main_v172) (f := ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F))) writes3 33 rfl (by decide) (by decide) (by decide) (by decide) U
theorem s_main_cst_37 (U : Valuation τ sig (Elt F)) : (after (ops3 (F := F)) U (Proc.devRef .tc main_cst_37)) = (constant (F := F) S_ .f32 0x3F800000#32) :=
  Cert.Lib.ReadFinal.nullary (y := main_cst_37) (v := (constant (F := F) S_ .f32 0x3F800000#32)) writes3 34 rfl (by decide) U
theorem s_main_v173 (U : Valuation τ sig (Elt F)) : (after (ops3 (F := F)) U (Proc.devRef .tc main_v173)) = (broadcastInDim S300000x1 ![] bcast_S_S300000x1 : (⟨S_, .f32⟩ : BufTy).Contents (Elt F) → (⟨S300000x1, .f32⟩ : BufTy).Contents (Elt F)) (after (ops3 (F := F)) U (Proc.devRef .tc main_cst_37)) :=
  Cert.Lib.ReadFinal.unary (x := main_cst_37) (y := main_v173) (f := (broadcastInDim S300000x1 ![] bcast_S_S300000x1 : (⟨S_, .f32⟩ : BufTy).Contents (Elt F) → (⟨S300000x1, .f32⟩ : BufTy).Contents (Elt F))) writes3 35 rfl (by decide) (by decide) U
theorem s_main_cst_38 (U : Valuation τ sig (Elt F)) : (after (ops3 (F := F)) U (Proc.devRef .tc main_cst_38)) = (constant (F := F) S_ .f32 0x00000000#32) :=
  Cert.Lib.ReadFinal.nullary (y := main_cst_38) (v := (constant (F := F) S_ .f32 0x00000000#32)) writes3 36 rfl (by decide) U
theorem s_main_v174 (U : Valuation τ sig (Elt F)) : (after (ops3 (F := F)) U (Proc.devRef .tc main_v174)) = (broadcastInDim S30000x1 ![] bcast_S_S30000x1 : (⟨S_, .f32⟩ : BufTy).Contents (Elt F) → (⟨S30000x1, .f32⟩ : BufTy).Contents (Elt F)) (after (ops3 (F := F)) U (Proc.devRef .tc main_cst_38)) :=
  Cert.Lib.ReadFinal.unary (x := main_cst_38) (y := main_v174) (f := (broadcastInDim S30000x1 ![] bcast_S_S30000x1 : (⟨S_, .f32⟩ : BufTy).Contents (Elt F) → (⟨S30000x1, .f32⟩ : BufTy).Contents (Elt F))) writes3 37 rfl (by decide) (by decide) U
theorem s_main_v175 (U : Valuation τ sig (Elt F)) : (after (ops3 (F := F)) U (Proc.devRef .tc main_v175)) = (broadcastInDim S300000x1 ![0] bcast_S300000_S300000x1_0 : (⟨S300000, .i32⟩ : BufTy).Contents (Elt F) → (⟨S300000x1, .i32⟩ : BufTy).Contents (Elt F)) (after (ops3 (F := F)) U (Proc.devRef .tc main_v3)) :=
  Cert.Lib.ReadFinal.unary (x := main_v3) (y := main_v175) (f := (broadcastInDim S300000x1 ![0] bcast_S300000_S300000x1_0 : (⟨S300000, .i32⟩ : BufTy).Contents (Elt F) → (⟨S300000x1, .i32⟩ : BufTy).Contents (Elt F))) writes3 38 rfl (by decide) (by decide) U
theorem s_main_v176 (U : Valuation τ sig (Elt F)) : (after (ops3 (F := F)) U (Proc.devRef .tc main_v176)) = ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (after (ops3 (F := F)) U (Proc.devRef .tc main_v174)) (after (ops3 (F := F)) U (Proc.devRef .tc main_v175)) (after (ops3 (F := F)) U (Proc.devRef .tc main_v173)) :=
  Cert.Lib.ReadFinal.ternary (c := main_v174) (a := main_v175) (b := main_v173) (y := main_v176) (f := ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F))) writes3 39 rfl (by decide) (by decide) (by decide) (by decide) U
theorem s_main_cst_39 (U : Valuation τ sig (Elt F)) : (after (ops3 (F := F)) U (Proc.devRef .tc main_cst_39)) = (constant (F := F) S_ .f32 0x3F800000#32) :=
  Cert.Lib.ReadFinal.nullary (y := main_cst_39) (v := (constant (F := F) S_ .f32 0x3F800000#32)) writes3 40 rfl (by decide) U
theorem s_main_v177 (U : Valuation τ sig (Elt F)) : (after (ops3 (F := F)) U (Proc.devRef .tc main_v177)) = (broadcastInDim S30000x1 ![] bcast_S_S30000x1 : (⟨S_, .f32⟩ : BufTy).Contents (Elt F) → (⟨S30000x1, .f32⟩ : BufTy).Contents (Elt F)) (after (ops3 (F := F)) U (Proc.devRef .tc main_cst_39)) :=
  Cert.Lib.ReadFinal.unary (x := main_cst_39) (y := main_v177) (f := (broadcastInDim S30000x1 ![] bcast_S_S30000x1 : (⟨S_, .f32⟩ : BufTy).Contents (Elt F) → (⟨S30000x1, .f32⟩ : BufTy).Contents (Elt F))) writes3 41 rfl (by decide) (by decide) U
theorem s_main_v178 (U : Valuation τ sig (Elt F)) : (after (ops3 (F := F)) U (Proc.devRef .tc main_v178)) = (maximumf : (⟨S30000x1, .f32⟩ : BufTy).Contents (Elt F) → (⟨S30000x1, .f32⟩ : BufTy).Contents (Elt F) → (⟨S30000x1, .f32⟩ : BufTy).Contents (Elt F)) (after (ops3 (F := F)) U (Proc.devRef .tc main_v176)) (after (ops3 (F := F)) U (Proc.devRef .tc main_v177)) :=
  Cert.Lib.ReadFinal.binary (a := main_v176) (b := main_v177) (y := main_v178) (f := (maximumf : (⟨S30000x1, .f32⟩ : BufTy).Contents (Elt F) → (⟨S30000x1, .f32⟩ : BufTy).Contents (Elt F) → (⟨S30000x1, .f32⟩ : BufTy).Contents (Elt F))) writes3 42 rfl (by decide) (by decide) (by decide) U
theorem s_main_v179 (U : Valuation τ sig (Elt F)) : (after (ops3 (F := F)) U (Proc.devRef .tc main_v179)) = (broadcastInDim S30000x64 ![0, 1] bcast_S30000x1_S30000x64_0_1 : (⟨S30000x1, .f32⟩ : BufTy).Contents (Elt F) → (⟨S30000x64, .f32⟩ : BufTy).Contents (Elt F)) (after (ops3 (F := F)) U (Proc.devRef .tc main_v178)) :=
  Cert.Lib.ReadFinal.unary (x := main_v178) (y := main_v179) (f := (broadcastInDim S30000x64 ![0, 1] bcast_S30000x1_S30000x64_0_1 : (⟨S30000x1, .f32⟩ : BufTy).Contents (Elt F) → (⟨S30000x64, .f32⟩ : BufTy).Contents (Elt F))) writes3 43 rfl (by decide) (by decide) U
theorem s_main_v180 (U : Valuation τ sig (Elt F)) : (after (ops3 (F := F)) U (Proc.devRef .tc main_v180)) = (Host.divf : (⟨S30000x64, .f32⟩ : BufTy).Contents (Elt F) → (⟨S30000x64, .f32⟩ : BufTy).Contents (Elt F) → (⟨S30000x64, .f32⟩ : BufTy).Contents (Elt F)) (after (ops3 (F := F)) U (Proc.devRef .tc main_v172)) (after (ops3 (F := F)) U (Proc.devRef .tc main_v179)) :=
  Cert.Lib.ReadFinal.binary (a := main_v172) (b := main_v179) (y := main_v180) (f := (Host.divf : (⟨S30000x64, .f32⟩ : BufTy).Contents (Elt F) → (⟨S30000x64, .f32⟩ : BufTy).Contents (Elt F) → (⟨S30000x64, .f32⟩ : BufTy).Contents (Elt F))) writes3 44 rfl (by decide) (by decide) (by decide) U
theorem s_main_c_40 (U : Valuation τ sig (Elt F)) : (after (ops3 (F := F)) U (Proc.devRef .tc main_c_40)) = (constantI S_ 32 0#32) :=
  Cert.Lib.ReadFinal.nullary (y := main_c_40) (v := (constantI S_ 32 0#32)) writes3 45 rfl (by decide) U
theorem s_main_v181 (U : Valuation τ sig (Elt F)) : (after (ops3 (F := F)) U (Proc.devRef .tc main_v181)) = (broadcastInDim S30000 ![] bcast_S_S30000 : (⟨S_, .i32⟩ : BufTy).Contents (Elt F) → (⟨S30000, .i32⟩ : BufTy).Contents (Elt F)) (after (ops3 (F := F)) U (Proc.devRef .tc main_c_40)) :=
  Cert.Lib.ReadFinal.unary (x := main_c_40) (y := main_v181) (f := (broadcastInDim S30000 ![] bcast_S_S30000 : (⟨S_, .i32⟩ : BufTy).Contents (Elt F) → (⟨S30000, .i32⟩ : BufTy).Contents (Elt F))) writes3 46 rfl (by decide) (by decide) U
theorem s_main_v182 (U : Valuation τ sig (Elt F)) : (after (ops3 (F := F)) U (Proc.devRef .tc main_v182)) = (cmpi .slt : (⟨S30000, .i32⟩ : BufTy).Contents (Elt F) → (⟨S30000, .i32⟩ : BufTy).Contents (Elt F) → (⟨S30000, .i1⟩ : BufTy).Contents (Elt F)) (after (ops3 (F := F)) U (Proc.devRef .tc main_arg4)) (after (ops3 (F := F)) U (Proc.devRef .tc main_v181)) :=
  Cert.Lib.ReadFinal.binary (a := main_arg4) (b := main_v181) (y := main_v182) (f := (cmpi .slt : (⟨S30000, .i32⟩ : BufTy).Contents (Elt F) → (⟨S30000, .i32⟩ : BufTy).Contents (Elt F) → (⟨S30000, .i1⟩ : BufTy).Contents (Elt F))) writes3 47 rfl (by decide) (by decide) (by decide) U
theorem s_main_c_41 (U : Valuation τ sig (Elt F)) : (after (ops3 (F := F)) U (Proc.devRef .tc main_c_41)) = (constantI S_ 32 64#32) :=
  Cert.Lib.ReadFinal.nullary (y := main_c_41) (v := (constantI S_ 32 64#32)) writes3 48 rfl (by decide) U
theorem s_main_v183 (U : Valuation τ sig (Elt F)) : (after (ops3 (F := F)) U (Proc.devRef .tc main_v183)) = (broadcastInDim S30000 ![] bcast_S_S30000 : (⟨S_, .i32⟩ : BufTy).Contents (Elt F) → (⟨S30000, .i32⟩ : BufTy).Contents (Elt F)) (after (ops3 (F := F)) U (Proc.devRef .tc main_c_41)) :=
  Cert.Lib.ReadFinal.unary (x := main_c_41) (y := main_v183) (f := (broadcastInDim S30000 ![] bcast_S_S30000 : (⟨S_, .i32⟩ : BufTy).Contents (Elt F) → (⟨S30000, .i32⟩ : BufTy).Contents (Elt F))) writes3 49 rfl (by decide) (by decide) U
theorem s_main_v184 (U : Valuation τ sig (Elt F)) : (after (ops3 (F := F)) U (Proc.devRef .tc main_v184)) = (addi : (⟨S30000, .i32⟩ : BufTy).Contents (Elt F) → (⟨S30000, .i32⟩ : BufTy).Contents (Elt F) → (⟨S30000, .i32⟩ : BufTy).Contents (Elt F)) (after (ops3 (F := F)) U (Proc.devRef .tc main_arg4)) (after (ops3 (F := F)) U (Proc.devRef .tc main_v183)) :=
  Cert.Lib.ReadFinal.binary (a := main_arg4) (b := main_v183) (y := main_v184) (f := (addi : (⟨S30000, .i32⟩ : BufTy).Contents (Elt F) → (⟨S30000, .i32⟩ : BufTy).Contents (Elt F) → (⟨S30000, .i32⟩ : BufTy).Contents (Elt F))) writes3 50 rfl (by decide) (by decide) (by decide) U
theorem s_main_v185 (U : Valuation τ sig (Elt F)) : (after (ops3 (F := F)) U (Proc.devRef .tc main_v185)) = (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (after (ops3 (F := F)) U (Proc.devRef .tc main_v182)) (after (ops3 (F := F)) U (Proc.devRef .tc main_v184)) (after (ops3 (F := F)) U (Proc.devRef .tc main_arg4)) :=
  Cert.Lib.ReadFinal.ternary (c := main_v182) (a := main_v184) (b := main_arg4) (y := main_v185) (f := (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))) writes3 51 rfl (by decide) (by decide) (by decide) (by decide) U
theorem s_main_v186 (U : Valuation τ sig (Elt F)) : (after (ops3 (F := F)) U (Proc.devRef .tc main_v186)) = (broadcastInDim S30000x1 ![0] bcast_S30000_S30000x1_0 : (⟨S30000, .i32⟩ : BufTy).Contents (Elt F) → (⟨S30000x1, .i32⟩ : BufTy).Contents (Elt F)) (after (ops3 (F := F)) U (Proc.devRef .tc main_v185)) :=
  Cert.Lib.ReadFinal.unary (x := main_v185) (y := main_v186) (f := (broadcastInDim S30000x1 ![0] bcast_S30000_S30000x1_0 : (⟨S30000, .i32⟩ : BufTy).Contents (Elt F) → (⟨S30000x1, .i32⟩ : BufTy).Contents (Elt F))) writes3 52 rfl (by decide) (by decide) U
theorem s_main_v187 (U : Valuation τ sig (Elt F)) : (after (ops3 (F := F)) U (Proc.devRef .tc main_v187)) = ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops3 (F := F)) U (Proc.devRef .tc main_v135)) (after (ops3 (F := F)) U (Proc.devRef .tc main_v186)) :=
  Cert.Lib.ReadFinal.binary (a := main_v135) (b := main_v186) (y := main_v187) (f := ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F))) writes3 53 rfl (by decide) (by decide) (by decide) U
theorem s_main_v188 (U : Valuation τ sig (Elt F)) : (after (ops3 (F := F)) U (Proc.devRef .tc main_v188)) = concatenate S30000x192 1 [⟨S30000x64, (after (ops3 (F := F)) U (Proc.devRef .tc main_v118))⟩, ⟨S30000x64, (after (ops3 (F := F)) U (Proc.devRef .tc main_v180))⟩, ⟨S30000x64, (after (ops3 (F := F)) U (Proc.devRef .tc main_v187))⟩] concatenates_S30000x64_S30000x64_S30000x64_S30000x192_d1 :=
  (Cert.Lib.SingleAssignment.read_nary (t := []) (xs := ![main_v118, main_v180, main_v187]) (y := main_v188) (f := (fun u => concatenate S30000x192 1 [⟨S30000x64, u 0⟩, ⟨S30000x64, u 1⟩, ⟨S30000x64, u 2⟩] concatenates_S30000x64_S30000x64_S30000x64_S30000x192_d1)) writes3 Cert.Lib.SingleAssignment.Writes.nil 54 rfl (by decide) (by decide) U).trans rfl
theorem s_main_v189 (U : Valuation τ sig (Elt F)) : (after (ops3 (F := F)) U (Proc.devRef .tc main_v189)) = ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (after (ops3 (F := F)) U (Proc.devRef .tc main_v188)) (after (ops3 (F := F)) U (Proc.devRef .tc main_arg19)) :=
  Cert.Lib.ReadFinal.binary (a := main_v188) (b := main_arg19) (y := main_v189) (f := ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F))) writes3 55 rfl (by decide) (by decide) (by decide) U
theorem s_main_v190 (U : Valuation τ sig (Elt F)) : (after (ops3 (F := F)) U (Proc.devRef .tc main_v190)) = (broadcastInDim S1x64 ![1] bcast_S64_S1x64_1 : (⟨S64, .f32⟩ : BufTy).Contents (Elt F) → (⟨S1x64, .f32⟩ : BufTy).Contents (Elt F)) (after (ops3 (F := F)) U (Proc.devRef .tc main_arg20)) :=
  Cert.Lib.ReadFinal.unary (x := main_arg20) (y := main_v190) (f := (broadcastInDim S1x64 ![1] bcast_S64_S1x64_1 : (⟨S64, .f32⟩ : BufTy).Contents (Elt F) → (⟨S1x64, .f32⟩ : BufTy).Contents (Elt F))) writes3 56 rfl (by decide) (by decide) U
theorem s_main_v191 (U : Valuation τ sig (Elt F)) : (after (ops3 (F := F)) U (Proc.devRef .tc main_v191)) = (broadcastInDim S30000x64 ![0, 1] bcast_S1x64_S30000x64_0_1 : (⟨S1x64, .f32⟩ : BufTy).Contents (Elt F) → (⟨S30000x64, .f32⟩ : BufTy).Contents (Elt F)) (after (ops3 (F := F)) U (Proc.devRef .tc main_v190)) :=
  Cert.Lib.ReadFinal.unary (x := main_v190) (y := main_v191) (f := (broadcastInDim S30000x64 ![0, 1] bcast_S1x64_S30000x64_0_1 : (⟨S1x64, .f32⟩ : BufTy).Contents (Elt F) → (⟨S30000x64, .f32⟩ : BufTy).Contents (Elt F))) writes3 57 rfl (by decide) (by decide) U
theorem s_main_v192 (U : Valuation τ sig (Elt F)) : (after (ops3 (F := F)) U (Proc.devRef .tc main_v192)) = (addf : (⟨S30000x64, .f32⟩ : BufTy).Contents (Elt F) → (⟨S30000x64, .f32⟩ : BufTy).Contents (Elt F) → (⟨S30000x64, .f32⟩ : BufTy).Contents (Elt F)) (after (ops3 (F := F)) U (Proc.devRef .tc main_v189)) (after (ops3 (F := F)) U (Proc.devRef .tc main_v191)) :=
  Cert.Lib.ReadFinal.binary (a := main_v189) (b := main_v191) (y := main_v192) (f := (addf : (⟨S30000x64, .f32⟩ : BufTy).Contents (Elt F) → (⟨S30000x64, .f32⟩ : BufTy).Contents (Elt F) → (⟨S30000x64, .f32⟩ : BufTy).Contents (Elt F))) writes3 58 rfl (by decide) (by decide) (by decide) U
theorem s_main_call7_cst (U : Valuation τ sig (Elt F)) : (after (ops3 (F := F)) U (Proc.devRef .tc main_call7_cst)) = (constant (F := F) S_ .f32 0x00000000#32) :=
  Cert.Lib.ReadFinal.nullary (y := main_call7_cst) (v := (constant (F := F) S_ .f32 0x00000000#32)) writes3 59 rfl (by decide) U
theorem s_main_call7_v0 (U : Valuation τ sig (Elt F)) : (after (ops3 (F := F)) U (Proc.devRef .tc main_call7_v0)) = ((broadcastInDim S30000x64 ![] bcast_S_S30000x64) : (⟨S_, .f32⟩ : BufTy).Contents (Elt F) → (⟨S30000x64, .f32⟩ : BufTy).Contents (Elt F)) (after (ops3 (F := F)) U (Proc.devRef .tc main_call7_cst)) :=
  Cert.Lib.ReadFinal.unary (x := main_call7_cst) (y := main_call7_v0) (f := ((broadcastInDim S30000x64 ![] bcast_S_S30000x64) : (⟨S_, .f32⟩ : BufTy).Contents (Elt F) → (⟨S30000x64, .f32⟩ : BufTy).Contents (Elt F))) writes3 60 rfl (by decide) (by decide) U
theorem s_main_v193 (U : Valuation τ sig (Elt F)) : (after (ops3 (F := F)) U (Proc.devRef .tc main_v193)) = (maximumf : (⟨S30000x64, .f32⟩ : BufTy).Contents (Elt F) → (⟨S30000x64, .f32⟩ : BufTy).Contents (Elt F) → (⟨S30000x64, .f32⟩ : BufTy).Contents (Elt F)) (after (ops3 (F := F)) U (Proc.devRef .tc main_v192)) (after (ops3 (F := F)) U (Proc.devRef .tc main_call7_v0)) :=
  Cert.Lib.ReadFinal.binary (a := main_v192) (b := main_call7_v0) (y := main_v193) (f := (maximumf : (⟨S30000x64, .f32⟩ : BufTy).Contents (Elt F) → (⟨S30000x64, .f32⟩ : BufTy).Contents (Elt F) → (⟨S30000x64, .f32⟩ : BufTy).Contents (Elt F))) writes3 61 rfl (by decide) (by decide) (by decide) U
theorem s_main_cst_42 (U : Valuation τ sig (Elt F)) : (after (ops3 (F := F)) U (Proc.devRef .tc main_cst_42)) = (constant (F := F) S_ .f32 0x00000000#32) :=
  Cert.Lib.ReadFinal.nullary (y := main_cst_42) (v := (constant (F := F) S_ .f32 0x00000000#32)) writes3 62 rfl (by decide) U
theorem s_main_v194 (U : Valuation τ sig (Elt F)) : (after (ops3 (F := F)) U (Proc.devRef .tc main_v194)) = (broadcastInDim S64x64 ![] bcast_S_S64x64 : (⟨S_, .f32⟩ : BufTy).Contents (Elt F) → (⟨S64x64, .f32⟩ : BufTy).Contents (Elt F)) (after (ops3 (F := F)) U (Proc.devRef .tc main_cst_42)) :=
  Cert.Lib.ReadFinal.unary (x := main_cst_42) (y := main_v194) (f := (broadcastInDim S64x64 ![] bcast_S_S64x64 : (⟨S_, .f32⟩ : BufTy).Contents (Elt F) → (⟨S64x64, .f32⟩ : BufTy).Contents (Elt F))) writes3 63 rfl (by decide) (by decide) U

end Cert.ReferenceIdeal.Hand

end
-- ==== Proof.Ref.Lift3.lean ====
-- written by: gen_ref.js <unit directory>
/- The buffers window 3 of the reference program's @main writes are written by no later window: each holds at the end of @main what it held at every boundary after window 3. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_v146 (V : Valuation τ sig (Elt F)) : (after (ops (F := F)) V (Proc.devRef .tc main_v146)) = (U6 V (Proc.devRef .tc main_v146)) := congrFun (after_ops_eq V) _
theorem lift5_main_v146 (V : Valuation τ sig (Elt F)) : (after (ops (F := F)) V (Proc.devRef .tc main_v146)) = (U5 V (Proc.devRef .tc main_v146)) :=
  (lift6_main_v146 V).trans (after_of_not_mem writes5 (by decide) (U5 V))
theorem lift4_main_v146 (V : Valuation τ sig (Elt F)) : (after (ops (F := F)) V (Proc.devRef .tc main_v146)) = (U4 V (Proc.devRef .tc main_v146)) :=
  (lift5_main_v146 V).trans (after_of_not_mem writes4 (by decide) (U4 V))
theorem lift6_main_v147 (V : Valuation τ sig (Elt F)) : (after (ops (F := F)) V (Proc.devRef .tc main_v147)) = (U6 V (Proc.devRef .tc main_v147)) := congrFun (after_ops_eq V) _
theorem lift5_main_v147 (V : Valuation τ sig (Elt F)) : (after (ops (F := F)) V (Proc.devRef .tc main_v147)) = (U5 V (Proc.devRef .tc main_v147)) :=
  (lift6_main_v147 V).trans (after_of_not_mem writes5 (by decide) (U5 V))
theorem lift4_main_v147 (V : Valuation τ sig (Elt F)) : (after (ops (F := F)) V (Proc.devRef .tc main_v147)) = (U4 V (Proc.devRef .tc main_v147)) :=
  (lift5_main_v147 V).trans (after_of_not_mem writes4 (by decide) (U4 V))
theorem lift6_main_v148 (V : Valuation τ sig (Elt F)) : (after (ops (F := F)) V (Proc.devRef .tc main_v148)) = (U6 V (Proc.devRef .tc main_v148)) := congrFun (after_ops_eq V) _
theorem lift5_main_v148 (V : Valuation τ sig (Elt F)) : (after (ops (F := F)) V (Proc.devRef .tc main_v148)) = (U5 V (Proc.devRef .tc main_v148)) :=
  (lift6_main_v148 V).trans (after_of_not_mem writes5 (by decide) (U5 V))
theorem lift4_main_v148 (V : Valuation τ sig (Elt F)) : (after (ops (F := F)) V (Proc.devRef .tc main_v148)) = (U4 V (Proc.devRef .tc main_v148)) :=
  (lift5_main_v148 V).trans (after_of_not_mem writes4 (by decide) (U4 V))
theorem lift6_main_v149 (V : Valuation τ sig (Elt F)) : (after (ops (F := F)) V (Proc.devRef .tc main_v149)) = (U6 V (Proc.devRef .tc main_v149)) := congrFun (after_ops_eq V) _
theorem lift5_main_v149 (V : Valuation τ sig (Elt F)) : (after (ops (F := F)) V (Proc.devRef .tc main_v149)) = (U5 V (Proc.devRef .tc main_v149)) :=
  (lift6_main_v149 V).trans (after_of_not_mem writes5 (by decide) (U5 V))
theorem lift4_main_v149 (V : Valuation τ sig (Elt F)) : (after (ops (F := F)) V (Proc.devRef .tc main_v149)) = (U4 V (Proc.devRef .tc main_v149)) :=
  (lift5_main_v149 V).trans (after_of_not_mem writes4 (by decide) (U4 V))
theorem lift6_main_c_32 (V : Valuation τ sig (Elt F)) : (after (ops (F := F)) V (Proc.devRef .tc main_c_32)) = (U6 V (Proc.devRef .tc main_c_32)) := congrFun (after_ops_eq V) _
theorem lift5_main_c_32 (V : Valuation τ sig (Elt F)) : (after (ops (F := F)) V (Proc.devRef .tc main_c_32)) = (U5 V (Proc.devRef .tc main_c_32)) :=
  (lift6_main_c_32 V).trans (after_of_not_mem writes5 (by decide) (U5 V))
theorem lift4_main_c_32 (V : Valuation τ sig (Elt F)) : (after (ops (F := F)) V (Proc.devRef .tc main_c_32)) = (U4 V (Proc.devRef .tc main_c_32)) :=
  (lift5_main_c_32 V).trans (after_of_not_mem writes4 (by decide) (U4 V))
theorem lift6_main_v150 (V : Valuation τ sig (Elt F)) : (after (ops (F := F)) V (Proc.devRef .tc main_v150)) = (U6 V (Proc.devRef .tc main_v150)) := congrFun (after_ops_eq V) _
theorem lift5_main_v150 (V : Valuation τ sig (Elt F)) : (after (ops (F := F)) V (Proc.devRef .tc main_v150)) = (U5 V (Proc.devRef .tc main_v150)) :=
  (lift6_main_v150 V).trans (after_of_not_mem writes5 (by decide) (U5 V))
theorem lift4_main_v150 (V : Valuation τ sig (Elt F)) : (after (ops (F := F)) V (Proc.devRef .tc main_v150)) = (U4 V (Proc.devRef .tc main_v150)) :=
  (lift5_main_v150 V).trans (after_of_not_mem writes4 (by decide) (U4 V))
theorem lift6_main_v151 (V : Valuation τ sig (Elt F)) : (after (ops (F := F)) V (Proc.devRef .tc main_v151)) = (U6 V (Proc.devRef .tc main_v151)) := congrFun (after_ops_eq V) _
theorem lift5_main_v151 (V : Valuation τ sig (Elt F)) : (after (ops (F := F)) V (Proc.devRef .tc main_v151)) = (U5 V (Proc.devRef .tc main_v151)) :=
  (lift6_main_v151 V).trans (after_of_not_mem writes5 (by decide) (U5 V))
theorem lift4_main_v151 (V : Valuation τ sig (Elt F)) : (after (ops (F := F)) V (Proc.devRef .tc main_v151)) = (U4 V (Proc.devRef .tc main_v151)) :=
  (lift5_main_v151 V).trans (after_of_not_mem writes4 (by decide) (U4 V))
theorem lift6_main_c_33 (V : Valuation τ sig (Elt F)) : (after (ops (F := F)) V (Proc.devRef .tc main_c_33)) = (U6 V (Proc.devRef .tc main_c_33)) := congrFun (after_ops_eq V) _
theorem lift5_main_c_33 (V : Valuation τ sig (Elt F)) : (after (ops (F := F)) V (Proc.devRef .tc main_c_33)) = (U5 V (Proc.devRef .tc main_c_33)) :=
  (lift6_main_c_33 V).trans (after_of_not_mem writes5 (by decide) (U5 V))
theorem lift4_main_c_33 (V : Valuation τ sig (Elt F)) : (after (ops (F := F)) V (Proc.devRef .tc main_c_33)) = (U4 V (Proc.devRef .tc main_c_33)) :=
  (lift5_main_c_33 V).trans (after_of_not_mem writes4 (by decide) (U4 V))
theorem lift6_main_v152 (V : Valuation τ sig (Elt F)) : (after (ops (F := F)) V (Proc.devRef .tc main_v152)) = (U6 V (Proc.devRef .tc main_v152)) := congrFun (after_ops_eq V) _
theorem lift5_main_v152 (V : Valuation τ sig (Elt F)) : (after (ops (F := F)) V (Proc.devRef .tc main_v152)) = (U5 V (Proc.devRef .tc main_v152)) :=
  (lift6_main_v152 V).trans (after_of_not_mem writes5 (by decide) (U5 V))
theorem lift4_main_v152 (V : Valuation τ sig (Elt F)) : (after (ops (F := F)) V (Proc.devRef .tc main_v152)) = (U4 V (Proc.devRef .tc main_v152)) :=
  (lift5_main_v152 V).trans (after_of_not_mem writes4 (by decide) (U4 V))
theorem lift6_main_v153 (V : Valuation τ sig (Elt F)) : (after (ops (F := F)) V (Proc.devRef .tc main_v153)) = (U6 V (Proc.devRef .tc main_v153)) := congrFun (after_ops_eq V) _
theorem lift5_main_v153 (V : Valuation τ sig (Elt F)) : (after (ops (F := F)) V (Proc.devRef .tc main_v153)) = (U5 V (Proc.devRef .tc main_v153)) :=
  (lift6_main_v153 V).trans (after_of_not_mem writes5 (by decide) (U5 V))
theorem lift4_main_v153 (V : Valuation τ sig (Elt F)) : (after (ops (F := F)) V (Proc.devRef .tc main_v153)) = (U4 V (Proc.devRef .tc main_v153)) :=
  (lift5_main_v153 V).trans (after_of_not_mem writes4 (by decide) (U4 V))
theorem lift6_main_v154 (V : Valuation τ sig (Elt F)) : (after (ops (F := F)) V (Proc.devRef .tc main_v154)) = (U6 V (Proc.devRef .tc main_v154)) := congrFun (after_ops_eq V) _
theorem lift5_main_v154 (V : Valuation τ sig (Elt F)) : (after (ops (F := F)) V (Proc.devRef .tc main_v154)) = (U5 V (Proc.devRef .tc main_v154)) :=
  (lift6_main_v154 V).trans (after_of_not_mem writes5 (by decide) (U5 V))
theorem lift4_main_v154 (V : Valuation τ sig (Elt F)) : (after (ops (F := F)) V (Proc.devRef .tc main_v154)) = (U4 V (Proc.devRef .tc main_v154)) :=
  (lift5_main_v154 V).trans (after_of_not_mem writes4 (by decide) (U4 V))
theorem lift6_main_v155 (V : Valuation τ sig (Elt F)) : (after (ops (F := F)) V (Proc.devRef .tc main_v155)) = (U6 V (Proc.devRef .tc main_v155)) := congrFun (after_ops_eq V) _
theorem lift5_main_v155 (V : Valuation τ sig (Elt F)) : (after (ops (F := F)) V (Proc.devRef .tc main_v155)) = (U5 V (Proc.devRef .tc main_v155)) :=
  (lift6_main_v155 V).trans (after_of_not_mem writes5 (by decide) (U5 V))
theorem lift4_main_v155 (V : Valuation τ sig (Elt F)) : (after (ops (F := F)) V (Proc.devRef .tc main_v155)) = (U4 V (Proc.devRef .tc main_v155)) :=
  (lift5_main_v155 V).trans (after_of_not_mem writes4 (by decide) (U4 V))
theorem lift6_main_v156 (V : Valuation τ sig (Elt F)) : (after (ops (F := F)) V (Proc.devRef .tc main_v156)) = (U6 V (Proc.devRef .tc main_v156)) := congrFun (after_ops_eq V) _
theorem lift5_main_v156 (V : Valuation τ sig (Elt F)) : (after (ops (F := F)) V (Proc.devRef .tc main_v156)) = (U5 V (Proc.devRef .tc main_v156)) :=
  (lift6_main_v156 V).trans (after_of_not_mem writes5 (by decide) (U5 V))
theorem lift4_main_v156 (V : Valuation τ sig (Elt F)) : (after (ops (F := F)) V (Proc.devRef .tc main_v156)) = (U4 V (Proc.devRef .tc main_v156)) :=
  (lift5_main_v156 V).trans (after_of_not_mem writes4 (by decide) (U4 V))
theorem lift6_main_c_34 (V : Valuation τ sig (Elt F)) : (after (ops (F := F)) V (Proc.devRef .tc main_c_34)) = (U6 V (Proc.devRef .tc main_c_34)) := congrFun (after_ops_eq V) _
theorem lift5_main_c_34 (V : Valuation τ sig (Elt F)) : (after (ops (F := F)) V (Proc.devRef .tc main_c_34)) = (U5 V (Proc.devRef .tc main_c_34)) :=
  (lift6_main_c_34 V).trans (after_of_not_mem writes5 (by decide) (U5 V))
theorem lift4_main_c_34 (V : Valuation τ sig (Elt F)) : (after (ops (F := F)) V (Proc.devRef .tc main_c_34)) = (U4 V (Proc.devRef .tc main_c_34)) :=
  (lift5_main_c_34 V).trans (after_of_not_mem writes4 (by decide) (U4 V))
theorem lift6_main_v157 (V : Valuation τ sig (Elt F)) : (after (ops (F := F)) V (Proc.devRef .tc main_v157)) = (U6 V (Proc.devRef .tc main_v157)) := congrFun (after_ops_eq V) _
theorem lift5_main_v157 (V : Valuation τ sig (Elt F)) : (after (ops (F := F)) V (Proc.devRef .tc main_v157)) = (U5 V (Proc.devRef .tc main_v157)) :=
  (lift6_main_v157 V).trans (after_of_not_mem writes5 (by decide) (U5 V))
theorem lift4_main_v157 (V : Valuation τ sig (Elt F)) : (after (ops (F := F)) V (Proc.devRef .tc main_v157)) = (U4 V (Proc.devRef .tc main_v157)) :=
  (lift5_main_v157 V).trans (after_of_not_mem writes4 (by decide) (U4 V))
theorem lift6_main_v158 (V : Valuation τ sig (Elt F)) : (after (ops (F := F)) V (Proc.devRef .tc main_v158)) = (U6 V (Proc.devRef .tc main_v158)) := congrFun (after_ops_eq V) _
theorem lift5_main_v158 (V : Valuation τ sig (Elt F)) : (after (ops (F := F)) V (Proc.devRef .tc main_v158)) = (U5 V (Proc.devRef .tc main_v158)) :=
  (lift6_main_v158 V).trans (after_of_not_mem writes5 (by decide) (U5 V))
theorem lift4_main_v158 (V : Valuation τ sig (Elt F)) : (after (ops (F := F)) V (Proc.devRef .tc main_v158)) = (U4 V (Proc.devRef .tc main_v158)) :=
  (lift5_main_v158 V).trans (after_of_not_mem writes4 (by decide) (U4 V))
theorem lift6_main_c_35 (V : Valuation τ sig (Elt F)) : (after (ops (F := F)) V (Proc.devRef .tc main_c_35)) = (U6 V (Proc.devRef .tc main_c_35)) := congrFun (after_ops_eq V) _
theorem lift5_main_c_35 (V : Valuation τ sig (Elt F)) : (after (ops (F := F)) V (Proc.devRef .tc main_c_35)) = (U5 V (Proc.devRef .tc main_c_35)) :=
  (lift6_main_c_35 V).trans (after_of_not_mem writes5 (by decide) (U5 V))
theorem lift4_main_c_35 (V : Valuation τ sig (Elt F)) : (after (ops (F := F)) V (Proc.devRef .tc main_c_35)) = (U4 V (Proc.devRef .tc main_c_35)) :=
  (lift5_main_c_35 V).trans (after_of_not_mem writes4 (by decide) (U4 V))
theorem lift6_main_v159 (V : Valuation τ sig (Elt F)) : (after (ops (F := F)) V (Proc.devRef .tc main_v159)) = (U6 V (Proc.devRef .tc main_v159)) := congrFun (after_ops_eq V) _
theorem lift5_main_v159 (V : Valuation τ sig (Elt F)) : (after (ops (F := F)) V (Proc.devRef .tc main_v159)) = (U5 V (Proc.devRef .tc main_v159)) :=
  (lift6_main_v159 V).trans (after_of_not_mem writes5 (by decide) (U5 V))
theorem lift4_main_v159 (V : Valuation τ sig (Elt F)) : (after (ops (F := F)) V (Proc.devRef .tc main_v159)) = (U4 V (Proc.devRef .tc main_v159)) :=
  (lift5_main_v159 V).trans (after_of_not_mem writes4 (by decide) (U4 V))
theorem lift6_main_v160 (V : Valuation τ sig (Elt F)) : (after (ops (F := F)) V (Proc.devRef .tc main_v160)) = (U6 V (Proc.devRef .tc main_v160)) := congrFun (after_ops_eq V) _
theorem lift5_main_v160 (V : Valuation τ sig (Elt F)) : (after (ops (F := F)) V (Proc.devRef .tc main_v160)) = (U5 V (Proc.devRef .tc main_v160)) :=
  (lift6_main_v160 V).trans (after_of_not_mem writes5 (by decide) (U5 V))
theorem lift4_main_v160 (V : Valuation τ sig (Elt F)) : (after (ops (F := F)) V (Proc.devRef .tc main_v160)) = (U4 V (Proc.devRef .tc main_v160)) :=
  (lift5_main_v160 V).trans (after_of_not_mem writes4 (by decide) (U4 V))
theorem lift6_main_v161 (V : Valuation τ sig (Elt F)) : (after (ops (F := F)) V (Proc.devRef .tc main_v161)) = (U6 V (Proc.devRef .tc main_v161)) := congrFun (after_ops_eq V) _
theorem lift5_main_v161 (V : Valuation τ sig (Elt F)) : (after (ops (F := F)) V (Proc.devRef .tc main_v161)) = (U5 V (Proc.devRef .tc main_v161)) :=
  (lift6_main_v161 V).trans (after_of_not_mem writes5 (by decide) (U5 V))
theorem lift4_main_v161 (V : Valuation τ sig (Elt F)) : (after (ops (F := F)) V (Proc.devRef .tc main_v161)) = (U4 V (Proc.devRef .tc main_v161)) :=
  (lift5_main_v161 V).trans (after_of_not_mem writes4 (by decide) (U4 V))
theorem lift6_main_v162 (V : Valuation τ sig (Elt F)) : (after (ops (F := F)) V (Proc.devRef .tc main_v162)) = (U6 V (Proc.devRef .tc main_v162)) := congrFun (after_ops_eq V) _
theorem lift5_main_v162 (V : Valuation τ sig (Elt F)) : (after (ops (F := F)) V (Proc.devRef .tc main_v162)) = (U5 V (Proc.devRef .tc main_v162)) :=
  (lift6_main_v162 V).trans (after_of_not_mem writes5 (by decide) (U5 V))
theorem lift4_main_v162 (V : Valuation τ sig (Elt F)) : (after (ops (F := F)) V (Proc.devRef .tc main_v162)) = (U4 V (Proc.devRef .tc main_v162)) :=
  (lift5_main_v162 V).trans (after_of_not_mem writes4 (by decide) (U4 V))
theorem lift6_main_v163 (V : Valuation τ sig (Elt F)) : (after (ops (F := F)) V (Proc.devRef .tc main_v163)) = (U6 V (Proc.devRef .tc main_v163)) := congrFun (after_ops_eq V) _
theorem lift5_main_v163 (V : Valuation τ sig (Elt F)) : (after (ops (F := F)) V (Proc.devRef .tc main_v163)) = (U5 V (Proc.devRef .tc main_v163)) :=
  (lift6_main_v163 V).trans (after_of_not_mem writes5 (by decide) (U5 V))
theorem lift4_main_v163 (V : Valuation τ sig (Elt F)) : (after (ops (F := F)) V (Proc.devRef .tc main_v163)) = (U4 V (Proc.devRef .tc main_v163)) :=
  (lift5_main_v163 V).trans (after_of_not_mem writes4 (by decide) (U4 V))
theorem lift6_main_v164 (V : Valuation τ sig (Elt F)) : (after (ops (F := F)) V (Proc.devRef .tc main_v164)) = (U6 V (Proc.devRef .tc main_v164)) := congrFun (after_ops_eq V) _
theorem lift5_main_v164 (V : Valuation τ sig (Elt F)) : (after (ops (F := F)) V (Proc.devRef .tc main_v164)) = (U5 V (Proc.devRef .tc main_v164)) :=
  (lift6_main_v164 V).trans (after_of_not_mem writes5 (by decide) (U5 V))
theorem lift4_main_v164 (V : Valuation τ sig (Elt F)) : (after (ops (F := F)) V (Proc.devRef .tc main_v164)) = (U4 V (Proc.devRef .tc main_v164)) :=
  (lift5_main_v164 V).trans (after_of_not_mem writes4 (by decide) (U4 V))
theorem lift6_main_v165 (V : Valuation τ sig (Elt F)) : (after (ops (F := F)) V (Proc.devRef .tc main_v165)) = (U6 V (Proc.devRef .tc main_v165)) := congrFun (after_ops_eq V) _
theorem lift5_main_v165 (V : Valuation τ sig (Elt F)) : (after (ops (F := F)) V (Proc.devRef .tc main_v165)) = (U5 V (Proc.devRef .tc main_v165)) :=
  (lift6_main_v165 V).trans (after_of_not_mem writes5 (by decide) (U5 V))
theorem lift4_main_v165 (V : Valuation τ sig (Elt F)) : (after (ops (F := F)) V (Proc.devRef .tc main_v165)) = (U4 V (Proc.devRef .tc main_v165)) :=
  (lift5_main_v165 V).trans (after_of_not_mem writes4 (by decide) (U4 V))
theorem lift6_main_v166 (V : Valuation τ sig (Elt F)) : (after (ops (F := F)) V (Proc.devRef .tc main_v166)) = (U6 V (Proc.devRef .tc main_v166)) := congrFun (after_ops_eq V) _
theorem lift5_main_v166 (V : Valuation τ sig (Elt F)) : (after (ops (F := F)) V (Proc.devRef .tc main_v166)) = (U5 V (Proc.devRef .tc main_v166)) :=
  (lift6_main_v166 V).trans (after_of_not_mem writes5 (by decide) (U5 V))
theorem lift4_main_v166 (V : Valuation τ sig (Elt F)) : (after (ops (F := F)) V (Proc.devRef .tc main_v166)) = (U4 V (Proc.devRef .tc main_v166)) :=
  (lift5_main_v166 V).trans (after_of_not_mem writes4 (by decide) (U4 V))
theorem lift6_main_v167 (V : Valuation τ sig (Elt F)) : (after (ops (F := F)) V (Proc.devRef .tc main_v167)) = (U6 V (Proc.devRef .tc main_v167)) := congrFun (after_ops_eq V) _
theorem lift5_main_v167 (V : Valuation τ sig (Elt F)) : (after (ops (F := F)) V (Proc.devRef .tc main_v167)) = (U5 V (Proc.devRef .tc main_v167)) :=
  (lift6_main_v167 V).trans (after_of_not_mem writes5 (by decide) (U5 V))
theorem lift4_main_v167 (V : Valuation τ sig (Elt F)) : (after (ops (F := F)) V (Proc.devRef .tc main_v167)) = (U4 V (Proc.devRef .tc main_v167)) :=
  (lift5_main_v167 V).trans (after_of_not_mem writes4 (by decide) (U4 V))
theorem lift6_main_v168 (V : Valuation τ sig (Elt F)) : (after (ops (F := F)) V (Proc.devRef .tc main_v168)) = (U6 V (Proc.devRef .tc main_v168)) := congrFun (after_ops_eq V) _
theorem lift5_main_v168 (V : Valuation τ sig (Elt F)) : (after (ops (F := F)) V (Proc.devRef .tc main_v168)) = (U5 V (Proc.devRef .tc main_v168)) :=
  (lift6_main_v168 V).trans (after_of_not_mem writes5 (by decide) (U5 V))
theorem lift4_main_v168 (V : Valuation τ sig (Elt F)) : (after (ops (F := F)) V (Proc.devRef .tc main_v168)) = (U4 V (Proc.devRef .tc main_v168)) :=
  (lift5_main_v168 V).trans (after_of_not_mem writes4 (by decide) (U4 V))
theorem lift6_main_call6_cst (V : Valuation τ sig (Elt F)) : (after (ops (F := F)) V (Proc.devRef .tc main_call6_cst)) = (U6 V (Proc.devRef .tc main_call6_cst)) := congrFun (after_ops_eq V) _
theorem lift5_main_call6_cst (V : Valuation τ sig (Elt F)) : (after (ops (F := F)) V (Proc.devRef .tc main_call6_cst)) = (U5 V (Proc.devRef .tc main_call6_cst)) :=
  (lift6_main_call6_cst V).trans (after_of_not_mem writes5 (by decide) (U5 V))
theorem lift4_main_call6_cst (V : Valuation τ sig (Elt F)) : (after (ops (F := F)) V (Proc.devRef .tc main_call6_cst)) = (U4 V (Proc.devRef .tc main_call6_cst)) :=
  (lift5_main_call6_cst V).trans (after_of_not_mem writes4 (by decide) (U4 V))
theorem lift6_main_call6_v0 (V : Valuation τ sig (Elt F)) : (after (ops (F := F)) V (Proc.devRef .tc main_call6_v0)) = (U6 V (Proc.devRef .tc main_call6_v0)) := congrFun (after_ops_eq V) _
theorem lift5_main_call6_v0 (V : Valuation τ sig (Elt F)) : (after (ops (F := F)) V (Proc.devRef .tc main_call6_v0)) = (U5 V (Proc.devRef .tc main_call6_v0)) :=
  (lift6_main_call6_v0 V).trans (after_of_not_mem writes5 (by decide) (U5 V))
theorem lift4_main_call6_v0 (V : Valuation τ sig (Elt F)) : (after (ops (F := F)) V (Proc.devRef .tc main_call6_v0)) = (U4 V (Proc.devRef .tc main_call6_v0)) :=
  (lift5_main_call6_v0 V).trans (after_of_not_mem writes4 (by decide) (U4 V))
theorem lift6_main_v169 (V : Valuation τ sig (Elt F)) : (after (ops (F := F)) V (Proc.devRef .tc main_v169)) = (U6 V (Proc.devRef .tc main_v169)) := congrFun (after_ops_eq V) _
theorem lift5_main_v169 (V : Valuation τ sig (Elt F)) : (after (ops (F := F)) V (Proc.devRef .tc main_v169)) = (U5 V (Proc.devRef .tc main_v169)) :=
  (lift6_main_v169 V).trans (after_of_not_mem writes5 (by decide) (U5 V))
theorem lift4_main_v169 (V : Valuation τ sig (Elt F)) : (after (ops (F := F)) V (Proc.devRef .tc main_v169)) = (U4 V (Proc.devRef .tc main_v169)) :=
  (lift5_main_v169 V).trans (after_of_not_mem writes4 (by decide) (U4 V))
theorem lift6_main_cst_36 (V : Valuation τ sig (Elt F)) : (after (ops (F := F)) V (Proc.devRef .tc main_cst_36)) = (U6 V (Proc.devRef .tc main_cst_36)) := congrFun (after_ops_eq V) _
theorem lift5_main_cst_36 (V : Valuation τ sig (Elt F)) : (after (ops (F := F)) V (Proc.devRef .tc main_cst_36)) = (U5 V (Proc.devRef .tc main_cst_36)) :=
  (lift6_main_cst_36 V).trans (after_of_not_mem writes5 (by decide) (U5 V))
theorem lift4_main_cst_36 (V : Valuation τ sig (Elt F)) : (after (ops (F := F)) V (Proc.devRef .tc main_cst_36)) = (U4 V (Proc.devRef .tc main_cst_36)) :=
  (lift5_main_cst_36 V).trans (after_of_not_mem writes4 (by decide) (U4 V))
theorem lift6_main_v170 (V : Valuation τ sig (Elt F)) : (after (ops (F := F)) V (Proc.devRef .tc main_v170)) = (U6 V (Proc.devRef .tc main_v170)) := congrFun (after_ops_eq V) _
theorem lift5_main_v170 (V : Valuation τ sig (Elt F)) : (after (ops (F := F)) V (Proc.devRef .tc main_v170)) = (U5 V (Proc.devRef .tc main_v170)) :=
  (lift6_main_v170 V).trans (after_of_not_mem writes5 (by decide) (U5 V))
theorem lift4_main_v170 (V : Valuation τ sig (Elt F)) : (after (ops (F := F)) V (Proc.devRef .tc main_v170)) = (U4 V (Proc.devRef .tc main_v170)) :=
  (lift5_main_v170 V).trans (after_of_not_mem writes4 (by decide) (U4 V))
theorem lift6_main_v171 (V : Valuation τ sig (Elt F)) : (after (ops (F := F)) V (Proc.devRef .tc main_v171)) = (U6 V (Proc.devRef .tc main_v171)) := congrFun (after_ops_eq V) _
theorem lift5_main_v171 (V : Valuation τ sig (Elt F)) : (after (ops (F := F)) V (Proc.devRef .tc main_v171)) = (U5 V (Proc.devRef .tc main_v171)) :=
  (lift6_main_v171 V).trans (after_of_not_mem writes5 (by decide) (U5 V))
theorem lift4_main_v171 (V : Valuation τ sig (Elt F)) : (after (ops (F := F)) V (Proc.devRef .tc main_v171)) = (U4 V (Proc.devRef .tc main_v171)) :=
  (lift5_main_v171 V).trans (after_of_not_mem writes4 (by decide) (U4 V))
theorem lift6_main_v172 (V : Valuation τ sig (Elt F)) : (after (ops (F := F)) V (Proc.devRef .tc main_v172)) = (U6 V (Proc.devRef .tc main_v172)) := congrFun (after_ops_eq V) _
theorem lift5_main_v172 (V : Valuation τ sig (Elt F)) : (after (ops (F := F)) V (Proc.devRef .tc main_v172)) = (U5 V (Proc.devRef .tc main_v172)) :=
  (lift6_main_v172 V).trans (after_of_not_mem writes5 (by decide) (U5 V))
theorem lift4_main_v172 (V : Valuation τ sig (Elt F)) : (after (ops (F := F)) V (Proc.devRef .tc main_v172)) = (U4 V (Proc.devRef .tc main_v172)) :=
  (lift5_main_v172 V).trans (after_of_not_mem writes4 (by decide) (U4 V))
theorem lift6_main_cst_37 (V : Valuation τ sig (Elt F)) : (after (ops (F := F)) V (Proc.devRef .tc main_cst_37)) = (U6 V (Proc.devRef .tc main_cst_37)) := congrFun (after_ops_eq V) _
theorem lift5_main_cst_37 (V : Valuation τ sig (Elt F)) : (after (ops (F := F)) V (Proc.devRef .tc main_cst_37)) = (U5 V (Proc.devRef .tc main_cst_37)) :=
  (lift6_main_cst_37 V).trans (after_of_not_mem writes5 (by decide) (U5 V))
theorem lift4_main_cst_37 (V : Valuation τ sig (Elt F)) : (after (ops (F := F)) V (Proc.devRef .tc main_cst_37)) = (U4 V (Proc.devRef .tc main_cst_37)) :=
  (lift5_main_cst_37 V).trans (after_of_not_mem writes4 (by decide) (U4 V))
theorem lift6_main_v173 (V : Valuation τ sig (Elt F)) : (after (ops (F := F)) V (Proc.devRef .tc main_v173)) = (U6 V (Proc.devRef .tc main_v173)) := congrFun (after_ops_eq V) _
theorem lift5_main_v173 (V : Valuation τ sig (Elt F)) : (after (ops (F := F)) V (Proc.devRef .tc main_v173)) = (U5 V (Proc.devRef .tc main_v173)) :=
  (lift6_main_v173 V).trans (after_of_not_mem writes5 (by decide) (U5 V))
theorem lift4_main_v173 (V : Valuation τ sig (Elt F)) : (after (ops (F := F)) V (Proc.devRef .tc main_v173)) = (U4 V (Proc.devRef .tc main_v173)) :=
  (lift5_main_v173 V).trans (after_of_not_mem writes4 (by decide) (U4 V))
theorem lift6_main_cst_38 (V : Valuation τ sig (Elt F)) : (after (ops (F := F)) V (Proc.devRef .tc main_cst_38)) = (U6 V (Proc.devRef .tc main_cst_38)) := congrFun (after_ops_eq V) _
theorem lift5_main_cst_38 (V : Valuation τ sig (Elt F)) : (after (ops (F := F)) V (Proc.devRef .tc main_cst_38)) = (U5 V (Proc.devRef .tc main_cst_38)) :=
  (lift6_main_cst_38 V).trans (after_of_not_mem writes5 (by decide) (U5 V))
theorem lift4_main_cst_38 (V : Valuation τ sig (Elt F)) : (after (ops (F := F)) V (Proc.devRef .tc main_cst_38)) = (U4 V (Proc.devRef .tc main_cst_38)) :=
  (lift5_main_cst_38 V).trans (after_of_not_mem writes4 (by decide) (U4 V))
theorem lift6_main_v174 (V : Valuation τ sig (Elt F)) : (after (ops (F := F)) V (Proc.devRef .tc main_v174)) = (U6 V (Proc.devRef .tc main_v174)) := congrFun (after_ops_eq V) _
theorem lift5_main_v174 (V : Valuation τ sig (Elt F)) : (after (ops (F := F)) V (Proc.devRef .tc main_v174)) = (U5 V (Proc.devRef .tc main_v174)) :=
  (lift6_main_v174 V).trans (after_of_not_mem writes5 (by decide) (U5 V))
theorem lift4_main_v174 (V : Valuation τ sig (Elt F)) : (after (ops (F := F)) V (Proc.devRef .tc main_v174)) = (U4 V (Proc.devRef .tc main_v174)) :=
  (lift5_main_v174 V).trans (after_of_not_mem writes4 (by decide) (U4 V))
theorem lift6_main_v175 (V : Valuation τ sig (Elt F)) : (after (ops (F := F)) V (Proc.devRef .tc main_v175)) = (U6 V (Proc.devRef .tc main_v175)) := congrFun (after_ops_eq V) _
theorem lift5_main_v175 (V : Valuation τ sig (Elt F)) : (after (ops (F := F)) V (Proc.devRef .tc main_v175)) = (U5 V (Proc.devRef .tc main_v175)) :=
  (lift6_main_v175 V).trans (after_of_not_mem writes5 (by decide) (U5 V))
theorem lift4_main_v175 (V : Valuation τ sig (Elt F)) : (after (ops (F := F)) V (Proc.devRef .tc main_v175)) = (U4 V (Proc.devRef .tc main_v175)) :=
  (lift5_main_v175 V).trans (after_of_not_mem writes4 (by decide) (U4 V))
theorem lift6_main_v176 (V : Valuation τ sig (Elt F)) : (after (ops (F := F)) V (Proc.devRef .tc main_v176)) = (U6 V (Proc.devRef .tc main_v176)) := congrFun (after_ops_eq V) _
theorem lift5_main_v176 (V : Valuation τ sig (Elt F)) : (after (ops (F := F)) V (Proc.devRef .tc main_v176)) = (U5 V (Proc.devRef .tc main_v176)) :=
  (lift6_main_v176 V).trans (after_of_not_mem writes5 (by decide) (U5 V))
theorem lift4_main_v176 (V : Valuation τ sig (Elt F)) : (after (ops (F := F)) V (Proc.devRef .tc main_v176)) = (U4 V (Proc.devRef .tc main_v176)) :=
  (lift5_main_v176 V).trans (after_of_not_mem writes4 (by decide) (U4 V))
theorem lift6_main_cst_39 (V : Valuation τ sig (Elt F)) : (after (ops (F := F)) V (Proc.devRef .tc main_cst_39)) = (U6 V (Proc.devRef .tc main_cst_39)) := congrFun (after_ops_eq V) _
theorem lift5_main_cst_39 (V : Valuation τ sig (Elt F)) : (after (ops (F := F)) V (Proc.devRef .tc main_cst_39)) = (U5 V (Proc.devRef .tc main_cst_39)) :=
  (lift6_main_cst_39 V).trans (after_of_not_mem writes5 (by decide) (U5 V))
theorem lift4_main_cst_39 (V : Valuation τ sig (Elt F)) : (after (ops (F := F)) V (Proc.devRef .tc main_cst_39)) = (U4 V (Proc.devRef .tc main_cst_39)) :=
  (lift5_main_cst_39 V).trans (after_of_not_mem writes4 (by decide) (U4 V))
theorem lift6_main_v177 (V : Valuation τ sig (Elt F)) : (after (ops (F := F)) V (Proc.devRef .tc main_v177)) = (U6 V (Proc.devRef .tc main_v177)) := congrFun (after_ops_eq V) _
theorem lift5_main_v177 (V : Valuation τ sig (Elt F)) : (after (ops (F := F)) V (Proc.devRef .tc main_v177)) = (U5 V (Proc.devRef .tc main_v177)) :=
  (lift6_main_v177 V).trans (after_of_not_mem writes5 (by decide) (U5 V))
theorem lift4_main_v177 (V : Valuation τ sig (Elt F)) : (after (ops (F := F)) V (Proc.devRef .tc main_v177)) = (U4 V (Proc.devRef .tc main_v177)) :=
  (lift5_main_v177 V).trans (after_of_not_mem writes4 (by decide) (U4 V))
theorem lift6_main_v178 (V : Valuation τ sig (Elt F)) : (after (ops (F := F)) V (Proc.devRef .tc main_v178)) = (U6 V (Proc.devRef .tc main_v178)) := congrFun (after_ops_eq V) _
theorem lift5_main_v178 (V : Valuation τ sig (Elt F)) : (after (ops (F := F)) V (Proc.devRef .tc main_v178)) = (U5 V (Proc.devRef .tc main_v178)) :=
  (lift6_main_v178 V).trans (after_of_not_mem writes5 (by decide) (U5 V))
theorem lift4_main_v178 (V : Valuation τ sig (Elt F)) : (after (ops (F := F)) V (Proc.devRef .tc main_v178)) = (U4 V (Proc.devRef .tc main_v178)) :=
  (lift5_main_v178 V).trans (after_of_not_mem writes4 (by decide) (U4 V))
theorem lift6_main_v179 (V : Valuation τ sig (Elt F)) : (after (ops (F := F)) V (Proc.devRef .tc main_v179)) = (U6 V (Proc.devRef .tc main_v179)) := congrFun (after_ops_eq V) _
theorem lift5_main_v179 (V : Valuation τ sig (Elt F)) : (after (ops (F := F)) V (Proc.devRef .tc main_v179)) = (U5 V (Proc.devRef .tc main_v179)) :=
  (lift6_main_v179 V).trans (after_of_not_mem writes5 (by decide) (U5 V))
theorem lift4_main_v179 (V : Valuation τ sig (Elt F)) : (after (ops (F := F)) V (Proc.devRef .tc main_v179)) = (U4 V (Proc.devRef .tc main_v179)) :=
  (lift5_main_v179 V).trans (after_of_not_mem writes4 (by decide) (U4 V))
theorem lift6_main_v180 (V : Valuation τ sig (Elt F)) : (after (ops (F := F)) V (Proc.devRef .tc main_v180)) = (U6 V (Proc.devRef .tc main_v180)) := congrFun (after_ops_eq V) _
theorem lift5_main_v180 (V : Valuation τ sig (Elt F)) : (after (ops (F := F)) V (Proc.devRef .tc main_v180)) = (U5 V (Proc.devRef .tc main_v180)) :=
  (lift6_main_v180 V).trans (after_of_not_mem writes5 (by decide) (U5 V))
theorem lift4_main_v180 (V : Valuation τ sig (Elt F)) : (after (ops (F := F)) V (Proc.devRef .tc main_v180)) = (U4 V (Proc.devRef .tc main_v180)) :=
  (lift5_main_v180 V).trans (after_of_not_mem writes4 (by decide) (U4 V))
theorem lift6_main_c_40 (V : Valuation τ sig (Elt F)) : (after (ops (F := F)) V (Proc.devRef .tc main_c_40)) = (U6 V (Proc.devRef .tc main_c_40)) := congrFun (after_ops_eq V) _
theorem lift5_main_c_40 (V : Valuation τ sig (Elt F)) : (after (ops (F := F)) V (Proc.devRef .tc main_c_40)) = (U5 V (Proc.devRef .tc main_c_40)) :=
  (lift6_main_c_40 V).trans (after_of_not_mem writes5 (by decide) (U5 V))
theorem lift4_main_c_40 (V : Valuation τ sig (Elt F)) : (after (ops (F := F)) V (Proc.devRef .tc main_c_40)) = (U4 V (Proc.devRef .tc main_c_40)) :=
  (lift5_main_c_40 V).trans (after_of_not_mem writes4 (by decide) (U4 V))
theorem lift6_main_v181 (V : Valuation τ sig (Elt F)) : (after (ops (F := F)) V (Proc.devRef .tc main_v181)) = (U6 V (Proc.devRef .tc main_v181)) := congrFun (after_ops_eq V) _
theorem lift5_main_v181 (V : Valuation τ sig (Elt F)) : (after (ops (F := F)) V (Proc.devRef .tc main_v181)) = (U5 V (Proc.devRef .tc main_v181)) :=
  (lift6_main_v181 V).trans (after_of_not_mem writes5 (by decide) (U5 V))
theorem lift4_main_v181 (V : Valuation τ sig (Elt F)) : (after (ops (F := F)) V (Proc.devRef .tc main_v181)) = (U4 V (Proc.devRef .tc main_v181)) :=
  (lift5_main_v181 V).trans (after_of_not_mem writes4 (by decide) (U4 V))
theorem lift6_main_v182 (V : Valuation τ sig (Elt F)) : (after (ops (F := F)) V (Proc.devRef .tc main_v182)) = (U6 V (Proc.devRef .tc main_v182)) := congrFun (after_ops_eq V) _
theorem lift5_main_v182 (V : Valuation τ sig (Elt F)) : (after (ops (F := F)) V (Proc.devRef .tc main_v182)) = (U5 V (Proc.devRef .tc main_v182)) :=
  (lift6_main_v182 V).trans (after_of_not_mem writes5 (by decide) (U5 V))
theorem lift4_main_v182 (V : Valuation τ sig (Elt F)) : (after (ops (F := F)) V (Proc.devRef .tc main_v182)) = (U4 V (Proc.devRef .tc main_v182)) :=
  (lift5_main_v182 V).trans (after_of_not_mem writes4 (by decide) (U4 V))
theorem lift6_main_c_41 (V : Valuation τ sig (Elt F)) : (after (ops (F := F)) V (Proc.devRef .tc main_c_41)) = (U6 V (Proc.devRef .tc main_c_41)) := congrFun (after_ops_eq V) _
theorem lift5_main_c_41 (V : Valuation τ sig (Elt F)) : (after (ops (F := F)) V (Proc.devRef .tc main_c_41)) = (U5 V (Proc.devRef .tc main_c_41)) :=
  (lift6_main_c_41 V).trans (after_of_not_mem writes5 (by decide) (U5 V))
theorem lift4_main_c_41 (V : Valuation τ sig (Elt F)) : (after (ops (F := F)) V (Proc.devRef .tc main_c_41)) = (U4 V (Proc.devRef .tc main_c_41)) :=
  (lift5_main_c_41 V).trans (after_of_not_mem writes4 (by decide) (U4 V))
theorem lift6_main_v183 (V : Valuation τ sig (Elt F)) : (after (ops (F := F)) V (Proc.devRef .tc main_v183)) = (U6 V (Proc.devRef .tc main_v183)) := congrFun (after_ops_eq V) _
theorem lift5_main_v183 (V : Valuation τ sig (Elt F)) : (after (ops (F := F)) V (Proc.devRef .tc main_v183)) = (U5 V (Proc.devRef .tc main_v183)) :=
  (lift6_main_v183 V).trans (after_of_not_mem writes5 (by decide) (U5 V))
theorem lift4_main_v183 (V : Valuation τ sig (Elt F)) : (after (ops (F := F)) V (Proc.devRef .tc main_v183)) = (U4 V (Proc.devRef .tc main_v183)) :=
  (lift5_main_v183 V).trans (after_of_not_mem writes4 (by decide) (U4 V))
theorem lift6_main_v184 (V : Valuation τ sig (Elt F)) : (after (ops (F := F)) V (Proc.devRef .tc main_v184)) = (U6 V (Proc.devRef .tc main_v184)) := congrFun (after_ops_eq V) _
theorem lift5_main_v184 (V : Valuation τ sig (Elt F)) : (after (ops (F := F)) V (Proc.devRef .tc main_v184)) = (U5 V (Proc.devRef .tc main_v184)) :=
  (lift6_main_v184 V).trans (after_of_not_mem writes5 (by decide) (U5 V))
theorem lift4_main_v184 (V : Valuation τ sig (Elt F)) : (after (ops (F := F)) V (Proc.devRef .tc main_v184)) = (U4 V (Proc.devRef .tc main_v184)) :=
  (lift5_main_v184 V).trans (after_of_not_mem writes4 (by decide) (U4 V))
theorem lift6_main_v185 (V : Valuation τ sig (Elt F)) : (after (ops (F := F)) V (Proc.devRef .tc main_v185)) = (U6 V (Proc.devRef .tc main_v185)) := congrFun (after_ops_eq V) _
theorem lift5_main_v185 (V : Valuation τ sig (Elt F)) : (after (ops (F := F)) V (Proc.devRef .tc main_v185)) = (U5 V (Proc.devRef .tc main_v185)) :=
  (lift6_main_v185 V).trans (after_of_not_mem writes5 (by decide) (U5 V))
theorem lift4_main_v185 (V : Valuation τ sig (Elt F)) : (after (ops (F := F)) V (Proc.devRef .tc main_v185)) = (U4 V (Proc.devRef .tc main_v185)) :=
  (lift5_main_v185 V).trans (after_of_not_mem writes4 (by decide) (U4 V))
theorem lift6_main_v186 (V : Valuation τ sig (Elt F)) : (after (ops (F := F)) V (Proc.devRef .tc main_v186)) = (U6 V (Proc.devRef .tc main_v186)) := congrFun (after_ops_eq V) _
theorem lift5_main_v186 (V : Valuation τ sig (Elt F)) : (after (ops (F := F)) V (Proc.devRef .tc main_v186)) = (U5 V (Proc.devRef .tc main_v186)) :=
  (lift6_main_v186 V).trans (after_of_not_mem writes5 (by decide) (U5 V))
theorem lift4_main_v186 (V : Valuation τ sig (Elt F)) : (after (ops (F := F)) V (Proc.devRef .tc main_v186)) = (U4 V (Proc.devRef .tc main_v186)) :=
  (lift5_main_v186 V).trans (after_of_not_mem writes4 (by decide) (U4 V))
theorem lift6_main_v187 (V : Valuation τ sig (Elt F)) : (after (ops (F := F)) V (Proc.devRef .tc main_v187)) = (U6 V (Proc.devRef .tc main_v187)) := congrFun (after_ops_eq V) _
theorem lift5_main_v187 (V : Valuation τ sig (Elt F)) : (after (ops (F := F)) V (Proc.devRef .tc main_v187)) = (U5 V (Proc.devRef .tc main_v187)) :=
  (lift6_main_v187 V).trans (after_of_not_mem writes5 (by decide) (U5 V))
theorem lift4_main_v187 (V : Valuation τ sig (Elt F)) : (after (ops (F := F)) V (Proc.devRef .tc main_v187)) = (U4 V (Proc.devRef .tc main_v187)) :=
  (lift5_main_v187 V).trans (after_of_not_mem writes4 (by decide) (U4 V))
theorem lift6_main_v188 (V : Valuation τ sig (Elt F)) : (after (ops (F := F)) V (Proc.devRef .tc main_v188)) = (U6 V (Proc.devRef .tc main_v188)) := congrFun (after_ops_eq V) _
theorem lift5_main_v188 (V : Valuation τ sig (Elt F)) : (after (ops (F := F)) V (Proc.devRef .tc main_v188)) = (U5 V (Proc.devRef .tc main_v188)) :=
  (lift6_main_v188 V).trans (after_of_not_mem writes5 (by decide) (U5 V))
theorem lift4_main_v188 (V : Valuation τ sig (Elt F)) : (after (ops (F := F)) V (Proc.devRef .tc main_v188)) = (U4 V (Proc.devRef .tc main_v188)) :=
  (lift5_main_v188 V).trans (after_of_not_mem writes4 (by decide) (U4 V))
theorem lift6_main_v189 (V : Valuation τ sig (Elt F)) : (after (ops (F := F)) V (Proc.devRef .tc main_v189)) = (U6 V (Proc.devRef .tc main_v189)) := congrFun (after_ops_eq V) _
theorem lift5_main_v189 (V : Valuation τ sig (Elt F)) : (after (ops (F := F)) V (Proc.devRef .tc main_v189)) = (U5 V (Proc.devRef .tc main_v189)) :=
  (lift6_main_v189 V).trans (after_of_not_mem writes5 (by decide) (U5 V))
theorem lift4_main_v189 (V : Valuation τ sig (Elt F)) : (after (ops (F := F)) V (Proc.devRef .tc main_v189)) = (U4 V (Proc.devRef .tc main_v189)) :=
  (lift5_main_v189 V).trans (after_of_not_mem writes4 (by decide) (U4 V))
theorem lift6_main_v190 (V : Valuation τ sig (Elt F)) : (after (ops (F := F)) V (Proc.devRef .tc main_v190)) = (U6 V (Proc.devRef .tc main_v190)) := congrFun (after_ops_eq V) _
theorem lift5_main_v190 (V : Valuation τ sig (Elt F)) : (after (ops (F := F)) V (Proc.devRef .tc main_v190)) = (U5 V (Proc.devRef .tc main_v190)) :=
  (lift6_main_v190 V).trans (after_of_not_mem writes5 (by decide) (U5 V))
theorem lift4_main_v190 (V : Valuation τ sig (Elt F)) : (after (ops (F := F)) V (Proc.devRef .tc main_v190)) = (U4 V (Proc.devRef .tc main_v190)) :=
  (lift5_main_v190 V).trans (after_of_not_mem writes4 (by decide) (U4 V))
theorem lift6_main_v191 (V : Valuation τ sig (Elt F)) : (after (ops (F := F)) V (Proc.devRef .tc main_v191)) = (U6 V (Proc.devRef .tc main_v191)) := congrFun (after_ops_eq V) _
theorem lift5_main_v191 (V : Valuation τ sig (Elt F)) : (after (ops (F := F)) V (Proc.devRef .tc main_v191)) = (U5 V (Proc.devRef .tc main_v191)) :=
  (lift6_main_v191 V).trans (after_of_not_mem writes5 (by decide) (U5 V))
theorem lift4_main_v191 (V : Valuation τ sig (Elt F)) : (after (ops (F := F)) V (Proc.devRef .tc main_v191)) = (U4 V (Proc.devRef .tc main_v191)) :=
  (lift5_main_v191 V).trans (after_of_not_mem writes4 (by decide) (U4 V))
theorem lift6_main_v192 (V : Valuation τ sig (Elt F)) : (after (ops (F := F)) V (Proc.devRef .tc main_v192)) = (U6 V (Proc.devRef .tc main_v192)) := congrFun (after_ops_eq V) _
theorem lift5_main_v192 (V : Valuation τ sig (Elt F)) : (after (ops (F := F)) V (Proc.devRef .tc main_v192)) = (U5 V (Proc.devRef .tc main_v192)) :=
  (lift6_main_v192 V).trans (after_of_not_mem writes5 (by decide) (U5 V))
theorem lift4_main_v192 (V : Valuation τ sig (Elt F)) : (after (ops (F := F)) V (Proc.devRef .tc main_v192)) = (U4 V (Proc.devRef .tc main_v192)) :=
  (lift5_main_v192 V).trans (after_of_not_mem writes4 (by decide) (U4 V))
theorem lift6_main_call7_cst (V : Valuation τ sig (Elt F)) : (after (ops (F := F)) V (Proc.devRef .tc main_call7_cst)) = (U6 V (Proc.devRef .tc main_call7_cst)) := congrFun (after_ops_eq V) _
theorem lift5_main_call7_cst (V : Valuation τ sig (Elt F)) : (after (ops (F := F)) V (Proc.devRef .tc main_call7_cst)) = (U5 V (Proc.devRef .tc main_call7_cst)) :=
  (lift6_main_call7_cst V).trans (after_of_not_mem writes5 (by decide) (U5 V))
theorem lift4_main_call7_cst (V : Valuation τ sig (Elt F)) : (after (ops (F := F)) V (Proc.devRef .tc main_call7_cst)) = (U4 V (Proc.devRef .tc main_call7_cst)) :=
  (lift5_main_call7_cst V).trans (after_of_not_mem writes4 (by decide) (U4 V))
theorem lift6_main_call7_v0 (V : Valuation τ sig (Elt F)) : (after (ops (F := F)) V (Proc.devRef .tc main_call7_v0)) = (U6 V (Proc.devRef .tc main_call7_v0)) := congrFun (after_ops_eq V) _
theorem lift5_main_call7_v0 (V : Valuation τ sig (Elt F)) : (after (ops (F := F)) V (Proc.devRef .tc main_call7_v0)) = (U5 V (Proc.devRef .tc main_call7_v0)) :=
  (lift6_main_call7_v0 V).trans (after_of_not_mem writes5 (by decide) (U5 V))
theorem lift4_main_call7_v0 (V : Valuation τ sig (Elt F)) : (after (ops (F := F)) V (Proc.devRef .tc main_call7_v0)) = (U4 V (Proc.devRef .tc main_call7_v0)) :=
  (lift5_main_call7_v0 V).trans (after_of_not_mem writes4 (by decide) (U4 V))
theorem lift6_main_v193 (V : Valuation τ sig (Elt F)) : (after (ops (F := F)) V (Proc.devRef .tc main_v193)) = (U6 V (Proc.devRef .tc main_v193)) := congrFun (after_ops_eq V) _
theorem lift5_main_v193 (V : Valuation τ sig (Elt F)) : (after (ops (F := F)) V (Proc.devRef .tc main_v193)) = (U5 V (Proc.devRef .tc main_v193)) :=
  (lift6_main_v193 V).trans (after_of_not_mem writes5 (by decide) (U5 V))
theorem lift4_main_v193 (V : Valuation τ sig (Elt F)) : (after (ops (F := F)) V (Proc.devRef .tc main_v193)) = (U4 V (Proc.devRef .tc main_v193)) :=
  (lift5_main_v193 V).trans (after_of_not_mem writes4 (by decide) (U4 V))
theorem lift6_main_cst_42 (V : Valuation τ sig (Elt F)) : (after (ops (F := F)) V (Proc.devRef .tc main_cst_42)) = (U6 V (Proc.devRef .tc main_cst_42)) := congrFun (after_ops_eq V) _
theorem lift5_main_cst_42 (V : Valuation τ sig (Elt F)) : (after (ops (F := F)) V (Proc.devRef .tc main_cst_42)) = (U5 V (Proc.devRef .tc main_cst_42)) :=
  (lift6_main_cst_42 V).trans (after_of_not_mem writes5 (by decide) (U5 V))
theorem lift4_main_cst_42 (V : Valuation τ sig (Elt F)) : (after (ops (F := F)) V (Proc.devRef .tc main_cst_42)) = (U4 V (Proc.devRef .tc main_cst_42)) :=
  (lift5_main_cst_42 V).trans (after_of_not_mem writes4 (by decide) (U4 V))
theorem lift6_main_v194 (V : Valuation τ sig (Elt F)) : (after (ops (F := F)) V (Proc.devRef .tc main_v194)) = (U6 V (Proc.devRef .tc main_v194)) := congrFun (after_ops_eq V) _
theorem lift5_main_v194 (V : Valuation τ sig (Elt F)) : (after (ops (F := F)) V (Proc.devRef .tc main_v194)) = (U5 V (Proc.devRef .tc main_v194)) :=
  (lift6_main_v194 V).trans (after_of_not_mem writes5 (by decide) (U5 V))
theorem lift4_main_v194 (V : Valuation τ sig (Elt F)) : (after (ops (F := F)) V (Proc.devRef .tc main_v194)) = (U4 V (Proc.devRef .tc main_v194)) :=
  (lift5_main_v194 V).trans (after_of_not_mem writes4 (by decide) (U4 V))

end Cert.ReferenceIdeal.Hand

end
-- ==== Proof.Ref.Rd3.lean ====
-- written by: gen_ref.js <unit directory>
/- Window 3's operations read at the END of the reference program's @main: each result buffer holds its operation's function of its operands' final contents (none of them is written again). -/
import proofs.«123839_j71768903516633_2_alg».proof.Proof.Ref.S3
import proofs.«123839_j71768903516633_2_alg».proof.Proof.Ref.Lift0
import proofs.«123839_j71768903516633_2_alg».proof.Proof.Ref.Lift1
import proofs.«123839_j71768903516633_2_alg».proof.Proof.Ref.Lift2
import proofs.«123839_j71768903516633_2_alg».proof.Proof.Ref.Lift3
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem rd_main_v146 (V : Valuation τ sig (Elt F)) : (after (ops (F := F)) V (Proc.devRef .tc main_v146)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v3)) (after (ops (F := F)) V (Proc.devRef .tc main_v145))) :=
  (lift4_main_v146 V).trans ((s_main_v146 (U3 V)).trans (congrArg₂ (addi : (⟨S300000, .i32⟩ : BufTy).Contents (Elt F) → (⟨S300000, .i32⟩ : BufTy).Contents (Elt F) → (⟨S300000, .i32⟩ : BufTy).Contents (Elt F)) (lift4_main_v3 V).symm (lift4_main_v145 V).symm))
theorem rd_main_v147 (V : Valuation τ sig (Elt F)) : (after (ops (F := F)) V (Proc.devRef .tc main_v147)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v144)) (after (ops (F := F)) V (Proc.devRef .tc main_v146)) (after (ops (F := F)) V (Proc.devRef .tc main_v3))) :=
  (lift4_main_v147 V).trans ((s_main_v147 (U3 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift4_main_v144 V).symm (lift4_main_v146 V).symm (lift4_main_v3 V).symm))
theorem rd_main_v148 (V : Valuation τ sig (Elt F)) : (after (ops (F := F)) V (Proc.devRef .tc main_v148)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v147))) :=
  (lift4_main_v148 V).trans ((s_main_v148 (U3 V)).trans (congrArg (broadcastInDim S300000x1 ![0] bcast_S300000_S300000x1_0 : (⟨S300000, .i32⟩ : BufTy).Contents (Elt F) → (⟨S300000x1, .i32⟩ : BufTy).Contents (Elt F)) (lift4_main_v147 V).symm))
theorem rd_main_v149 (V : Valuation τ sig (Elt F)) : (after (ops (F := F)) V (Proc.devRef .tc main_v149)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) (after (ops (F := F)) V (Proc.devRef .tc main_v148))) :=
  (lift4_main_v149 V).trans ((s_main_v149 (U3 V)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (lift4_main_v118 V).symm (lift4_main_v148 V).symm))
theorem rd_main_c_32 (V : Valuation τ sig (Elt F)) : (after (ops (F := F)) V (Proc.devRef .tc main_c_32)) = (constantI S_ 32 0#32) :=
  (lift4_main_c_32 V).trans ((s_main_c_32 (U3 V)))
theorem rd_main_v150 (V : Valuation τ sig (Elt F)) : (after (ops (F := F)) V (Proc.devRef .tc main_v150)) = ((broadcastInDim S300000 ![] bcast_S_S300000 : (⟨S_, .i32⟩ : BufTy).Contents (Elt F) → (⟨S300000, .i32⟩ : BufTy).Contents (Elt F)) (after (ops (F := F)) V (Proc.devRef .tc main_c_32))) :=
  (lift4_main_v150 V).trans ((s_main_v150 (U3 V)).trans (congrArg (broadcastInDim S300000 ![] bcast_S_S300000 : (⟨S_, .i32⟩ : BufTy).Contents (Elt F) → (⟨S300000, .i32⟩ : BufTy).Contents (Elt F)) (lift4_main_c_32 V).symm))
theorem rd_main_v151 (V : Valuation τ sig (Elt F)) : (after (ops (F := F)) V (Proc.devRef .tc main_v151)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v1)) (after (ops (F := F)) V (Proc.devRef .tc main_v150))) :=
  (lift4_main_v151 V).trans ((s_main_v151 (U3 V)).trans (congrArg₂ (cmpi .slt : (⟨S300000, .i32⟩ : BufTy).Contents (Elt F) → (⟨S300000, .i32⟩ : BufTy).Contents (Elt F) → (⟨S300000, .i1⟩ : BufTy).Contents (Elt F)) (lift4_main_v1 V).symm (lift4_main_v150 V).symm))
theorem rd_main_c_33 (V : Valuation τ sig (Elt F)) : (after (ops (F := F)) V (Proc.devRef .tc main_c_33)) = (constantI S_ 32 30000#32) :=
  (lift4_main_c_33 V).trans ((s_main_c_33 (U3 V)))
theorem rd_main_v152 (V : Valuation τ sig (Elt F)) : (after (ops (F := F)) V (Proc.devRef .tc main_v152)) = ((broadcastInDim S300000 ![] bcast_S_S300000 : (⟨S_, .i32⟩ : BufTy).Contents (Elt F) → (⟨S300000, .i32⟩ : BufTy).Contents (Elt F)) (after (ops (F := F)) V (Proc.devRef .tc main_c_33))) :=
  (lift4_main_v152 V).trans ((s_main_v152 (U3 V)).trans (congrArg (broadcastInDim S300000 ![] bcast_S_S300000 : (⟨S_, .i32⟩ : BufTy).Contents (Elt F) → (⟨S300000, .i32⟩ : BufTy).Contents (Elt F)) (lift4_main_c_33 V).symm))
theorem rd_main_v153 (V : Valuation τ sig (Elt F)) : (after (ops (F := F)) V (Proc.devRef .tc main_v153)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v1)) (after (ops (F := F)) V (Proc.devRef .tc main_v152))) :=
  (lift4_main_v153 V).trans ((s_main_v153 (U3 V)).trans (congrArg₂ (addi : (⟨S300000, .i32⟩ : BufTy).Contents (Elt F) → (⟨S300000, .i32⟩ : BufTy).Contents (Elt F) → (⟨S300000, .i32⟩ : BufTy).Contents (Elt F)) (lift4_main_v1 V).symm (lift4_main_v152 V).symm))
theorem rd_main_v154 (V : Valuation τ sig (Elt F)) : (after (ops (F := F)) V (Proc.devRef .tc main_v154)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v151)) (after (ops (F := F)) V (Proc.devRef .tc main_v153)) (after (ops (F := F)) V (Proc.devRef .tc main_v1))) :=
  (lift4_main_v154 V).trans ((s_main_v154 (U3 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift4_main_v151 V).symm (lift4_main_v153 V).symm (lift4_main_v1 V).symm))
theorem rd_main_v155 (V : Valuation τ sig (Elt F)) : (after (ops (F := F)) V (Proc.devRef .tc main_v155)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v154))) :=
  (lift4_main_v155 V).trans ((s_main_v155 (U3 V)).trans (congrArg (broadcastInDim S300000x1 ![0] bcast_S300000_S300000x1_0 : (⟨S300000, .i32⟩ : BufTy).Contents (Elt F) → (⟨S300000x1, .i32⟩ : BufTy).Contents (Elt F)) (lift4_main_v154 V).symm))
theorem rd_main_v156 (V : Valuation τ sig (Elt F)) : (after (ops (F := F)) V (Proc.devRef .tc main_v156)) = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (after (ops (F := F)) V (Proc.devRef .tc main_arg4)) (after (ops (F := F)) V (Proc.devRef .tc main_v155))) :=
  (lift4_main_v156 V).trans ((s_main_v156 (U3 V)).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (lift4_main_arg4 V).symm (lift4_main_v155 V).symm))
theorem rd_main_c_34 (V : Valuation τ sig (Elt F)) : (after (ops (F := F)) V (Proc.devRef .tc main_c_34)) = (constantI S_ 32 0#32) :=
  (lift4_main_c_34 V).trans ((s_main_c_34 (U3 V)))
theorem rd_main_v157 (V : Valuation τ sig (Elt F)) : (after (ops (F := F)) V (Proc.devRef .tc main_v157)) = ((broadcastInDim S300000 ![] bcast_S_S300000 : (⟨S_, .i32⟩ : BufTy).Contents (Elt F) → (⟨S300000, .i32⟩ : BufTy).Contents (Elt F)) (after (ops (F := F)) V (Proc.devRef .tc main_c_34))) :=
  (lift4_main_v157 V).trans ((s_main_v157 (U3 V)).trans (congrArg (broadcastInDim S300000 ![] bcast_S_S300000 : (⟨S_, .i32⟩ : BufTy).Contents (Elt F) → (⟨S300000, .i32⟩ : BufTy).Contents (Elt F)) (lift4_main_c_34 V).symm))
theorem rd_main_v158 (V : Valuation τ sig (Elt F)) : (after (ops (F := F)) V (Proc.devRef .tc main_v158)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v156)) (after (ops (F := F)) V (Proc.devRef .tc main_v157))) :=
  (lift4_main_v158 V).trans ((s_main_v158 (U3 V)).trans (congrArg₂ (cmpi .slt : (⟨S300000, .i32⟩ : BufTy).Contents (Elt F) → (⟨S300000, .i32⟩ : BufTy).Contents (Elt F) → (⟨S300000, .i1⟩ : BufTy).Contents (Elt F)) (lift4_main_v156 V).symm (lift4_main_v157 V).symm))
theorem rd_main_c_35 (V : Valuation τ sig (Elt F)) : (after (ops (F := F)) V (Proc.devRef .tc main_c_35)) = (constantI S_ 32 64#32) :=
  (lift4_main_c_35 V).trans ((s_main_c_35 (U3 V)))
theorem rd_main_v159 (V : Valuation τ sig (Elt F)) : (after (ops (F := F)) V (Proc.devRef .tc main_v159)) = ((broadcastInDim S300000 ![] bcast_S_S300000 : (⟨S_, .i32⟩ : BufTy).Contents (Elt F) → (⟨S300000, .i32⟩ : BufTy).Contents (Elt F)) (after (ops (F := F)) V (Proc.devRef .tc main_c_35))) :=
  (lift4_main_v159 V).trans ((s_main_v159 (U3 V)).trans (congrArg (broadcastInDim S300000 ![] bcast_S_S300000 : (⟨S_, .i32⟩ : BufTy).Contents (Elt F) → (⟨S300000, .i32⟩ : BufTy).Contents (Elt F)) (lift4_main_c_35 V).symm))
theorem rd_main_v160 (V : Valuation τ sig (Elt F)) : (after (ops (F := F)) V (Proc.devRef .tc main_v160)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v156)) (after (ops (F := F)) V (Proc.devRef .tc main_v159))) :=
  (lift4_main_v160 V).trans ((s_main_v160 (U3 V)).trans (congrArg₂ (addi : (⟨S300000, .i32⟩ : BufTy).Contents (Elt F) → (⟨S300000, .i32⟩ : BufTy).Contents (Elt F) → (⟨S300000, .i32⟩ : BufTy).Contents (Elt F)) (lift4_main_v156 V).symm (lift4_main_v159 V).symm))
theorem rd_main_v161 (V : Valuation τ sig (Elt F)) : (after (ops (F := F)) V (Proc.devRef .tc main_v161)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v158)) (after (ops (F := F)) V (Proc.devRef .tc main_v160)) (after (ops (F := F)) V (Proc.devRef .tc main_v156))) :=
  (lift4_main_v161 V).trans ((s_main_v161 (U3 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift4_main_v158 V).symm (lift4_main_v160 V).symm (lift4_main_v156 V).symm))
theorem rd_main_v162 (V : Valuation τ sig (Elt F)) : (after (ops (F := F)) V (Proc.devRef .tc main_v162)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v161))) :=
  (lift4_main_v162 V).trans ((s_main_v162 (U3 V)).trans (congrArg (broadcastInDim S300000x1 ![0] bcast_S300000_S300000x1_0 : (⟨S300000, .i32⟩ : BufTy).Contents (Elt F) → (⟨S300000x1, .i32⟩ : BufTy).Contents (Elt F)) (lift4_main_v161 V).symm))
theorem rd_main_v163 (V : Valuation τ sig (Elt F)) : (after (ops (F := F)) V (Proc.devRef .tc main_v163)) = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v135)) (after (ops (F := F)) V (Proc.devRef .tc main_v162))) :=
  (lift4_main_v163 V).trans ((s_main_v163 (U3 V)).trans (congrArg₂ ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (lift4_main_v135 V).symm (lift4_main_v162 V).symm))
theorem rd_main_v164 (V : Valuation τ sig (Elt F)) : (after (ops (F := F)) V (Proc.devRef .tc main_v164)) = (concatenate S300000x256 1 [⟨S300000x64, (after (ops (F := F)) V (Proc.devRef .tc main_v142))⟩, ⟨S300000x64, (after (ops (F := F)) V (Proc.devRef .tc main_v149))⟩, ⟨S300000x64, (after (ops (F := F)) V (Proc.devRef .tc main_v94))⟩, ⟨S300000x64, (after (ops (F := F)) V (Proc.devRef .tc main_v163))⟩] concatenates_S300000x64_S300000x64_S300000x64_S300000x64_S300000x256_d1) :=
  (lift4_main_v164 V).trans ((s_main_v164 (U3 V)).trans (congr4 (fun A0 A1 A2 A3 => concatenate S300000x256 1 [⟨S300000x64, A0⟩, ⟨S300000x64, A1⟩, ⟨S300000x64, A2⟩, ⟨S300000x64, A3⟩] concatenates_S300000x64_S300000x64_S300000x64_S300000x64_S300000x256_d1) (lift4_main_v142 V).symm (lift4_main_v149 V).symm (lift4_main_v94 V).symm (lift4_main_v163 V).symm))
theorem rd_main_v165 (V : Valuation τ sig (Elt F)) : (after (ops (F := F)) V (Proc.devRef .tc main_v165)) = (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (after (ops (F := F)) V (Proc.devRef .tc main_v164)) (after (ops (F := F)) V (Proc.devRef .tc main_arg17))) :=
  (lift4_main_v165 V).trans ((s_main_v165 (U3 V)).trans (congrArg₂ ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (lift4_main_v164 V).symm (lift4_main_arg17 V).symm))
theorem rd_main_v166 (V : Valuation τ sig (Elt F)) : (after (ops (F := F)) V (Proc.devRef .tc main_v166)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg18))) :=
  (lift4_main_v166 V).trans ((s_main_v166 (U3 V)).trans (congrArg (broadcastInDim S1x64 ![1] bcast_S64_S1x64_1 : (⟨S64, .f32⟩ : BufTy).Contents (Elt F) → (⟨S1x64, .f32⟩ : BufTy).Contents (Elt F)) (lift4_main_arg18 V).symm))
theorem rd_main_v167 (V : Valuation τ sig (Elt F)) : (after (ops (F := F)) V (Proc.devRef .tc main_v167)) = ((broadcastInDim S300000x64 ![0, 1] bcast_S1x64_S300000x64_0_1 : (⟨S1x64, .f32⟩ : BufTy).Contents (Elt F) → (⟨S300000x64, .f32⟩ : BufTy).Contents (Elt F)) (after (ops (F := F)) V (Proc.devRef .tc main_v166))) :=
  (lift4_main_v167 V).trans ((s_main_v167 (U3 V)).trans (congrArg (broadcastInDim S300000x64 ![0, 1] bcast_S1x64_S300000x64_0_1 : (⟨S1x64, .f32⟩ : BufTy).Contents (Elt F) → (⟨S300000x64, .f32⟩ : BufTy).Contents (Elt F)) (lift4_main_v166 V).symm))
theorem rd_main_v168 (V : Valuation τ sig (Elt F)) : (after (ops (F := F)) V (Proc.devRef .tc main_v168)) = ((addf : (⟨S300000x64, .f32⟩ : BufTy).Contents (Elt F) → (⟨S300000x64, .f32⟩ : BufTy).Contents (Elt F) → (⟨S300000x64, .f32⟩ : BufTy).Contents (Elt F)) (after (ops (F := F)) V (Proc.devRef .tc main_v165)) (after (ops (F := F)) V (Proc.devRef .tc main_v167))) :=
  (lift4_main_v168 V).trans ((s_main_v168 (U3 V)).trans (congrArg₂ (addf : (⟨S300000x64, .f32⟩ : BufTy).Contents (Elt F) → (⟨S300000x64, .f32⟩ : BufTy).Contents (Elt F) → (⟨S300000x64, .f32⟩ : BufTy).Contents (Elt F)) (lift4_main_v165 V).symm (lift4_main_v167 V).symm))
theorem rd_main_call6_cst (V : Valuation τ sig (Elt F)) : (after (ops (F := F)) V (Proc.devRef .tc main_call6_cst)) = (constant (F := F) S_ .f32 0x00000000#32) :=
  (lift4_main_call6_cst V).trans ((s_main_call6_cst (U3 V)))
theorem rd_main_call6_v0 (V : Valuation τ sig (Elt F)) : (after (ops (F := F)) V (Proc.devRef .tc main_call6_v0)) = (((broadcastInDim S300000x64 ![] bcast_S_S300000x64) : (⟨S_, .f32⟩ : BufTy).Contents (Elt F) → (⟨S300000x64, .f32⟩ : BufTy).Contents (Elt F)) (after (ops (F := F)) V (Proc.devRef .tc main_call6_cst))) :=
  (lift4_main_call6_v0 V).trans ((s_main_call6_v0 (U3 V)).trans (congrArg ((broadcastInDim S300000x64 ![] bcast_S_S300000x64) : (⟨S_, .f32⟩ : BufTy).Contents (Elt F) → (⟨S300000x64, .f32⟩ : BufTy).Contents (Elt F)) (lift4_main_call6_cst V).symm))
theorem rd_main_v169 (V : Valuation τ sig (Elt F)) : (after (ops (F := F)) V (Proc.devRef .tc main_v169)) = ((maximumf : (⟨S300000x64, .f32⟩ : BufTy).Contents (Elt F) → (⟨S300000x64, .f32⟩ : BufTy).Contents (Elt F) → (⟨S300000x64, .f32⟩ : BufTy).Contents (Elt F)) (after (ops (F := F)) V (Proc.devRef .tc main_v168)) (after (ops (F := F)) V (Proc.devRef .tc main_call6_v0))) :=
  (lift4_main_v169 V).trans ((s_main_v169 (U3 V)).trans (congrArg₂ (maximumf : (⟨S300000x64, .f32⟩ : BufTy).Contents (Elt F) → (⟨S300000x64, .f32⟩ : BufTy).Contents (Elt F) → (⟨S300000x64, .f32⟩ : BufTy).Contents (Elt F)) (lift4_main_v168 V).symm (lift4_main_call6_v0 V).symm))
theorem rd_main_cst_36 (V : Valuation τ sig (Elt F)) : (after (ops (F := F)) V (Proc.devRef .tc main_cst_36)) = (constant (F := F) S_ .f32 0x00000000#32) :=
  (lift4_main_cst_36 V).trans ((s_main_cst_36 (U3 V)))
theorem rd_main_v170 (V : Valuation τ sig (Elt F)) : (after (ops (F := F)) V (Proc.devRef .tc main_v170)) = ((broadcastInDim S30000x64 ![] bcast_S_S30000x64 : (⟨S_, .f32⟩ : BufTy).Contents (Elt F) → (⟨S30000x64, .f32⟩ : BufTy).Contents (Elt F)) (after (ops (F := F)) V (Proc.devRef .tc main_cst_36))) :=
  (lift4_main_v170 V).trans ((s_main_v170 (U3 V)).trans (congrArg (broadcastInDim S30000x64 ![] bcast_S_S30000x64 : (⟨S_, .f32⟩ : BufTy).Contents (Elt F) → (⟨S30000x64, .f32⟩ : BufTy).Contents (Elt F)) (lift4_main_cst_36 V).symm))
theorem rd_main_v171 (V : Valuation τ sig (Elt F)) : (after (ops (F := F)) V (Proc.devRef .tc main_v171)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v3))) :=
  (lift4_main_v171 V).trans ((s_main_v171 (U3 V)).trans (congrArg (broadcastInDim S300000x1 ![0] bcast_S300000_S300000x1_0 : (⟨S300000, .i32⟩ : BufTy).Contents (Elt F) → (⟨S300000x1, .i32⟩ : BufTy).Contents (Elt F)) (lift4_main_v3 V).symm))
theorem rd_main_v172 (V : Valuation τ sig (Elt F)) : (after (ops (F := F)) V (Proc.devRef .tc main_v172)) = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (after (ops (F := F)) V (Proc.devRef .tc main_v170)) (after (ops (F := F)) V (Proc.devRef .tc main_v171)) (after (ops (F := F)) V (Proc.devRef .tc main_v169))) :=
  (lift4_main_v172 V).trans ((s_main_v172 (U3 V)).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (lift4_main_v170 V).symm (lift4_main_v171 V).symm (lift4_main_v169 V).symm))
theorem rd_main_cst_37 (V : Valuation τ sig (Elt F)) : (after (ops (F := F)) V (Proc.devRef .tc main_cst_37)) = (constant (F := F) S_ .f32 0x3F800000#32) :=
  (lift4_main_cst_37 V).trans ((s_main_cst_37 (U3 V)))
theorem rd_main_v173 (V : Valuation τ sig (Elt F)) : (after (ops (F := F)) V (Proc.devRef .tc main_v173)) = ((broadcastInDim S300000x1 ![] bcast_S_S300000x1 : (⟨S_, .f32⟩ : BufTy).Contents (Elt F) → (⟨S300000x1, .f32⟩ : BufTy).Contents (Elt F)) (after (ops (F := F)) V (Proc.devRef .tc main_cst_37))) :=
  (lift4_main_v173 V).trans ((s_main_v173 (U3 V)).trans (congrArg (broadcastInDim S300000x1 ![] bcast_S_S300000x1 : (⟨S_, .f32⟩ : BufTy).Contents (Elt F) → (⟨S300000x1, .f32⟩ : BufTy).Contents (Elt F)) (lift4_main_cst_37 V).symm))
theorem rd_main_cst_38 (V : Valuation τ sig (Elt F)) : (after (ops (F := F)) V (Proc.devRef .tc main_cst_38)) = (constant (F := F) S_ .f32 0x00000000#32) :=
  (lift4_main_cst_38 V).trans ((s_main_cst_38 (U3 V)))
theorem rd_main_v174 (V : Valuation τ sig (Elt F)) : (after (ops (F := F)) V (Proc.devRef .tc main_v174)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_38))) :=
  (lift4_main_v174 V).trans ((s_main_v174 (U3 V)).trans (congrArg (broadcastInDim S30000x1 ![] bcast_S_S30000x1 : (⟨S_, .f32⟩ : BufTy).Contents (Elt F) → (⟨S30000x1, .f32⟩ : BufTy).Contents (Elt F)) (lift4_main_cst_38 V).symm))
theorem rd_main_v175 (V : Valuation τ sig (Elt F)) : (after (ops (F := F)) V (Proc.devRef .tc main_v175)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v3))) :=
  (lift4_main_v175 V).trans ((s_main_v175 (U3 V)).trans (congrArg (broadcastInDim S300000x1 ![0] bcast_S300000_S300000x1_0 : (⟨S300000, .i32⟩ : BufTy).Contents (Elt F) → (⟨S300000x1, .i32⟩ : BufTy).Contents (Elt F)) (lift4_main_v3 V).symm))
theorem rd_main_v176 (V : Valuation τ sig (Elt F)) : (after (ops (F := F)) V (Proc.devRef .tc main_v176)) = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (after (ops (F := F)) V (Proc.devRef .tc main_v174)) (after (ops (F := F)) V (Proc.devRef .tc main_v175)) (after (ops (F := F)) V (Proc.devRef .tc main_v173))) :=
  (lift4_main_v176 V).trans ((s_main_v176 (U3 V)).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (lift4_main_v174 V).symm (lift4_main_v175 V).symm (lift4_main_v173 V).symm))
theorem rd_main_cst_39 (V : Valuation τ sig (Elt F)) : (after (ops (F := F)) V (Proc.devRef .tc main_cst_39)) = (constant (F := F) S_ .f32 0x3F800000#32) :=
  (lift4_main_cst_39 V).trans ((s_main_cst_39 (U3 V)))
theorem rd_main_v177 (V : Valuation τ sig (Elt F)) : (after (ops (F := F)) V (Proc.devRef .tc main_v177)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_39))) :=
  (lift4_main_v177 V).trans ((s_main_v177 (U3 V)).trans (congrArg (broadcastInDim S30000x1 ![] bcast_S_S30000x1 : (⟨S_, .f32⟩ : BufTy).Contents (Elt F) → (⟨S30000x1, .f32⟩ : BufTy).Contents (Elt F)) (lift4_main_cst_39 V).symm))
theorem rd_main_v178 (V : Valuation τ sig (Elt F)) : (after (ops (F := F)) V (Proc.devRef .tc main_v178)) = ((maximumf : (⟨S30000x1, .f32⟩ : BufTy).Contents (Elt F) → (⟨S30000x1, .f32⟩ : BufTy).Contents (Elt F) → (⟨S30000x1, .f32⟩ : BufTy).Contents (Elt F)) (after (ops (F := F)) V (Proc.devRef .tc main_v176)) (after (ops (F := F)) V (Proc.devRef .tc main_v177))) :=
  (lift4_main_v178 V).trans ((s_main_v178 (U3 V)).trans (congrArg₂ (maximumf : (⟨S30000x1, .f32⟩ : BufTy).Contents (Elt F) → (⟨S30000x1, .f32⟩ : BufTy).Contents (Elt F) → (⟨S30000x1, .f32⟩ : BufTy).Contents (Elt F)) (lift4_main_v176 V).symm (lift4_main_v177 V).symm))
theorem rd_main_v179 (V : Valuation τ sig (Elt F)) : (after (ops (F := F)) V (Proc.devRef .tc main_v179)) = ((broadcastInDim S30000x64 ![0, 1] bcast_S30000x1_S30000x64_0_1 : (⟨S30000x1, .f32⟩ : BufTy).Contents (Elt F) → (⟨S30000x64, .f32⟩ : BufTy).Contents (Elt F)) (after (ops (F := F)) V (Proc.devRef .tc main_v178))) :=
  (lift4_main_v179 V).trans ((s_main_v179 (U3 V)).trans (congrArg (broadcastInDim S30000x64 ![0, 1] bcast_S30000x1_S30000x64_0_1 : (⟨S30000x1, .f32⟩ : BufTy).Contents (Elt F) → (⟨S30000x64, .f32⟩ : BufTy).Contents (Elt F)) (lift4_main_v178 V).symm))
theorem rd_main_v180 (V : Valuation τ sig (Elt F)) : (after (ops (F := F)) V (Proc.devRef .tc main_v180)) = ((Host.divf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v172)) (after (ops (F := F)) V (Proc.devRef .tc main_v179))) :=
  (lift4_main_v180 V).trans ((s_main_v180 (U3 V)).trans (congrArg₂ (Host.divf : (⟨S30000x64, .f32⟩ : BufTy).Contents (Elt F) → (⟨S30000x64, .f32⟩ : BufTy).Contents (Elt F) → (⟨S30000x64, .f32⟩ : BufTy).Contents (Elt F)) (lift4_main_v172 V).symm (lift4_main_v179 V).symm))
theorem rd_main_c_40 (V : Valuation τ sig (Elt F)) : (after (ops (F := F)) V (Proc.devRef .tc main_c_40)) = (constantI S_ 32 0#32) :=
  (lift4_main_c_40 V).trans ((s_main_c_40 (U3 V)))
theorem rd_main_v181 (V : Valuation τ sig (Elt F)) : (after (ops (F := F)) V (Proc.devRef .tc main_v181)) = ((broadcastInDim S30000 ![] bcast_S_S30000 : (⟨S_, .i32⟩ : BufTy).Contents (Elt F) → (⟨S30000, .i32⟩ : BufTy).Contents (Elt F)) (after (ops (F := F)) V (Proc.devRef .tc main_c_40))) :=
  (lift4_main_v181 V).trans ((s_main_v181 (U3 V)).trans (congrArg (broadcastInDim S30000 ![] bcast_S_S30000 : (⟨S_, .i32⟩ : BufTy).Contents (Elt F) → (⟨S30000, .i32⟩ : BufTy).Contents (Elt F)) (lift4_main_c_40 V).symm))
theorem rd_main_v182 (V : Valuation τ sig (Elt F)) : (after (ops (F := F)) V (Proc.devRef .tc main_v182)) = ((cmpi .slt : (⟨S30000, .i32⟩ : BufTy).Contents (Elt F) → (⟨S30000, .i32⟩ : BufTy).Contents (Elt F) → (⟨S30000, .i1⟩ : BufTy).Contents (Elt F)) (after (ops (F := F)) V (Proc.devRef .tc main_arg4)) (after (ops (F := F)) V (Proc.devRef .tc main_v181))) :=
  (lift4_main_v182 V).trans ((s_main_v182 (U3 V)).trans (congrArg₂ (cmpi .slt : (⟨S30000, .i32⟩ : BufTy).Contents (Elt F) → (⟨S30000, .i32⟩ : BufTy).Contents (Elt F) → (⟨S30000, .i1⟩ : BufTy).Contents (Elt F)) (lift4_main_arg4 V).symm (lift4_main_v181 V).symm))
theorem rd_main_c_41 (V : Valuation τ sig (Elt F)) : (after (ops (F := F)) V (Proc.devRef .tc main_c_41)) = (constantI S_ 32 64#32) :=
  (lift4_main_c_41 V).trans ((s_main_c_41 (U3 V)))
theorem rd_main_v183 (V : Valuation τ sig (Elt F)) : (after (ops (F := F)) V (Proc.devRef .tc main_v183)) = ((broadcastInDim S30000 ![] bcast_S_S30000 : (⟨S_, .i32⟩ : BufTy).Contents (Elt F) → (⟨S30000, .i32⟩ : BufTy).Contents (Elt F)) (after (ops (F := F)) V (Proc.devRef .tc main_c_41))) :=
  (lift4_main_v183 V).trans ((s_main_v183 (U3 V)).trans (congrArg (broadcastInDim S30000 ![] bcast_S_S30000 : (⟨S_, .i32⟩ : BufTy).Contents (Elt F) → (⟨S30000, .i32⟩ : BufTy).Contents (Elt F)) (lift4_main_c_41 V).symm))
theorem rd_main_v184 (V : Valuation τ sig (Elt F)) : (after (ops (F := F)) V (Proc.devRef .tc main_v184)) = ((addi : (⟨S30000, .i32⟩ : BufTy).Contents (Elt F) → (⟨S30000, .i32⟩ : BufTy).Contents (Elt F) → (⟨S30000, .i32⟩ : BufTy).Contents (Elt F)) (after (ops (F := F)) V (Proc.devRef .tc main_arg4)) (after (ops (F := F)) V (Proc.devRef .tc main_v183))) :=
  (lift4_main_v184 V).trans ((s_main_v184 (U3 V)).trans (congrArg₂ (addi : (⟨S30000, .i32⟩ : BufTy).Contents (Elt F) → (⟨S30000, .i32⟩ : BufTy).Contents (Elt F) → (⟨S30000, .i32⟩ : BufTy).Contents (Elt F)) (lift4_main_arg4 V).symm (lift4_main_v183 V).symm))
theorem rd_main_v185 (V : Valuation τ sig (Elt F)) : (after (ops (F := F)) V (Proc.devRef .tc main_v185)) = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (after (ops (F := F)) V (Proc.devRef .tc main_v182)) (after (ops (F := F)) V (Proc.devRef .tc main_v184)) (after (ops (F := F)) V (Proc.devRef .tc main_arg4))) :=
  (lift4_main_v185 V).trans ((s_main_v185 (U3 V)).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (lift4_main_v182 V).symm (lift4_main_v184 V).symm (lift4_main_arg4 V).symm))
theorem rd_main_v186 (V : Valuation τ sig (Elt F)) : (after (ops (F := F)) V (Proc.devRef .tc main_v186)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_v185))) :=
  (lift4_main_v186 V).trans ((s_main_v186 (U3 V)).trans (congrArg (broadcastInDim S30000x1 ![0] bcast_S30000_S30000x1_0 : (⟨S30000, .i32⟩ : BufTy).Contents (Elt F) → (⟨S30000x1, .i32⟩ : BufTy).Contents (Elt F)) (lift4_main_v185 V).symm))
theorem rd_main_v187 (V : Valuation τ sig (Elt F)) : (after (ops (F := F)) V (Proc.devRef .tc main_v187)) = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v135)) (after (ops (F := F)) V (Proc.devRef .tc main_v186))) :=
  (lift4_main_v187 V).trans ((s_main_v187 (U3 V)).trans (congrArg₂ ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (lift4_main_v135 V).symm (lift4_main_v186 V).symm))
theorem rd_main_v188 (V : Valuation τ sig (Elt F)) : (after (ops (F := F)) V (Proc.devRef .tc main_v188)) = (concatenate S30000x192 1 [⟨S30000x64, (after (ops (F := F)) V (Proc.devRef .tc main_v118))⟩, ⟨S30000x64, (after (ops (F := F)) V (Proc.devRef .tc main_v180))⟩, ⟨S30000x64, (after (ops (F := F)) V (Proc.devRef .tc main_v187))⟩] concatenates_S30000x64_S30000x64_S30000x64_S30000x192_d1) :=
  (lift4_main_v188 V).trans ((s_main_v188 (U3 V)).trans (congr3 (fun A0 A1 A2 => concatenate S30000x192 1 [⟨S30000x64, A0⟩, ⟨S30000x64, A1⟩, ⟨S30000x64, A2⟩] concatenates_S30000x64_S30000x64_S30000x64_S30000x192_d1) (lift4_main_v118 V).symm (lift4_main_v180 V).symm (lift4_main_v187 V).symm))
theorem rd_main_v189 (V : Valuation τ sig (Elt F)) : (after (ops (F := F)) V (Proc.devRef .tc main_v189)) = (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (after (ops (F := F)) V (Proc.devRef .tc main_v188)) (after (ops (F := F)) V (Proc.devRef .tc main_arg19))) :=
  (lift4_main_v189 V).trans ((s_main_v189 (U3 V)).trans (congrArg₂ ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (lift4_main_v188 V).symm (lift4_main_arg19 V).symm))
theorem rd_main_v190 (V : Valuation τ sig (Elt F)) : (after (ops (F := F)) V (Proc.devRef .tc main_v190)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg20))) :=
  (lift4_main_v190 V).trans ((s_main_v190 (U3 V)).trans (congrArg (broadcastInDim S1x64 ![1] bcast_S64_S1x64_1 : (⟨S64, .f32⟩ : BufTy).Contents (Elt F) → (⟨S1x64, .f32⟩ : BufTy).Contents (Elt F)) (lift4_main_arg20 V).symm))
theorem rd_main_v191 (V : Valuation τ sig (Elt F)) : (after (ops (F := F)) V (Proc.devRef .tc main_v191)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v190))) :=
  (lift4_main_v191 V).trans ((s_main_v191 (U3 V)).trans (congrArg (broadcastInDim S30000x64 ![0, 1] bcast_S1x64_S30000x64_0_1 : (⟨S1x64, .f32⟩ : BufTy).Contents (Elt F) → (⟨S30000x64, .f32⟩ : BufTy).Contents (Elt F)) (lift4_main_v190 V).symm))
theorem rd_main_v192 (V : Valuation τ sig (Elt F)) : (after (ops (F := F)) V (Proc.devRef .tc main_v192)) = ((addf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v189)) (after (ops (F := F)) V (Proc.devRef .tc main_v191))) :=
  (lift4_main_v192 V).trans ((s_main_v192 (U3 V)).trans (congrArg₂ (addf : (⟨S30000x64, .f32⟩ : BufTy).Contents (Elt F) → (⟨S30000x64, .f32⟩ : BufTy).Contents (Elt F) → (⟨S30000x64, .f32⟩ : BufTy).Contents (Elt F)) (lift4_main_v189 V).symm (lift4_main_v191 V).symm))
theorem rd_main_call7_cst (V : Valuation τ sig (Elt F)) : (after (ops (F := F)) V (Proc.devRef .tc main_call7_cst)) = (constant (F := F) S_ .f32 0x00000000#32) :=
  (lift4_main_call7_cst V).trans ((s_main_call7_cst (U3 V)))
theorem rd_main_call7_v0 (V : Valuation τ sig (Elt F)) : (after (ops (F := F)) V (Proc.devRef .tc main_call7_v0)) = (((broadcastInDim S30000x64 ![] bcast_S_S30000x64) : (⟨S_, .f32⟩ : BufTy).Contents (Elt F) → (⟨S30000x64, .f32⟩ : BufTy).Contents (Elt F)) (after (ops (F := F)) V (Proc.devRef .tc main_call7_cst))) :=
  (lift4_main_call7_v0 V).trans ((s_main_call7_v0 (U3 V)).trans (congrArg ((broadcastInDim S30000x64 ![] bcast_S_S30000x64) : (⟨S_, .f32⟩ : BufTy).Contents (Elt F) → (⟨S30000x64, .f32⟩ : BufTy).Contents (Elt F)) (lift4_main_call7_cst V).symm))
theorem rd_main_v193 (V : Valuation τ sig (Elt F)) : (after (ops (F := F)) V (Proc.devRef .tc main_v193)) = ((maximumf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v192)) (after (ops (F := F)) V (Proc.devRef .tc main_call7_v0))) :=
  (lift4_main_v193 V).trans ((s_main_v193 (U3 V)).trans (congrArg₂ (maximumf : (⟨S30000x64, .f32⟩ : BufTy).Contents (Elt F) → (⟨S30000x64, .f32⟩ : BufTy).Contents (Elt F) → (⟨S30000x64, .f32⟩ : BufTy).Contents (Elt F)) (lift4_main_v192 V).symm (lift4_main_call7_v0 V).symm))
theorem rd_main_cst_42 (V : Valuation τ sig (Elt F)) : (after (ops (F := F)) V (Proc.devRef .tc main_cst_42)) = (constant (F := F) S_ .f32 0x00000000#32) :=
  (lift4_main_cst_42 V).trans ((s_main_cst_42 (U3 V)))
theorem rd_main_v194 (V : Valuation τ sig (Elt F)) : (after (ops (F := F)) V (Proc.devRef .tc main_v194)) = ((broadcastInDim S64x64 ![] bcast_S_S64x64 : (⟨S_, .f32⟩ : BufTy).Contents (Elt F) → (⟨S64x64, .f32⟩ : BufTy).Contents (Elt F)) (after (ops (F := F)) V (Proc.devRef .tc main_cst_42))) :=
  (lift4_main_v194 V).trans ((s_main_v194 (U3 V)).trans (congrArg (broadcastInDim S64x64 ![] bcast_S_S64x64 : (⟨S_, .f32⟩ : BufTy).Contents (Elt F) → (⟨S64x64, .f32⟩ : BufTy).Contents (Elt F)) (lift4_main_cst_42 V).symm))

end Cert.ReferenceIdeal.Hand

end
-- ==== Proof.Ref.S4.lean ====
-- written by: gen_ref.js <unit directory>
/- Window 4 of the reference program's @main read one operation at a time: every buffer of the window is written once, so at the window's end each operation's result buffer holds the operation's function of its operands' contents there. -/
import proofs.«123839_j71768903516633_2_alg».proof.Proof.Ref.Writes
import proofs.«123839_j71768903516633_2_alg».proof.Proof.Lib.LibReadFinal
import proofs.«123839_j71768903516633_2_alg».proof.Proof.Lib.LibSingleAssignmentNary

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem s_main_v195 (U : Valuation τ sig (Elt F)) : (after (ops4 (F := F)) U (Proc.devRef .tc main_v195)) = (broadcastInDim S30000x1 ![0] bcast_S30000_S30000x1_0 : (⟨S30000, .i32⟩ : BufTy).Contents (Elt F) → (⟨S30000x1, .i32⟩ : BufTy).Contents (Elt F)) (after (ops4 (F := F)) U (Proc.devRef .tc main_arg4)) :=
  Cert.Lib.ReadFinal.unary (x := main_arg4) (y := main_v195) (f := (broadcastInDim S30000x1 ![0] bcast_S30000_S30000x1_0 : (⟨S30000, .i32⟩ : BufTy).Contents (Elt F) → (⟨S30000x1, .i32⟩ : BufTy).Contents (Elt F))) writes4 0 rfl (by decide) (by decide) U
theorem s_main_v196 (U : Valuation τ sig (Elt F)) : (after (ops4 (F := F)) U (Proc.devRef .tc main_v196)) = ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (after (ops4 (F := F)) U (Proc.devRef .tc main_v194)) (after (ops4 (F := F)) U (Proc.devRef .tc main_v195)) (after (ops4 (F := F)) U (Proc.devRef .tc main_v193)) :=
  Cert.Lib.ReadFinal.ternary (c := main_v194) (a := main_v195) (b := main_v193) (y := main_v196) (f := ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F))) writes4 1 rfl (by decide) (by decide) (by decide) (by decide) U
theorem s_main_cst_43 (U : Valuation τ sig (Elt F)) : (after (ops4 (F := F)) U (Proc.devRef .tc main_cst_43)) = (constant (F := F) S_ .f32 0x3F800000#32) :=
  Cert.Lib.ReadFinal.nullary (y := main_cst_43) (v := (constant (F := F) S_ .f32 0x3F800000#32)) writes4 2 rfl (by decide) U
theorem s_main_v197 (U : Valuation τ sig (Elt F)) : (after (ops4 (F := F)) U (Proc.devRef .tc main_v197)) = (broadcastInDim S30000x1 ![] bcast_S_S30000x1 : (⟨S_, .f32⟩ : BufTy).Contents (Elt F) → (⟨S30000x1, .f32⟩ : BufTy).Contents (Elt F)) (after (ops4 (F := F)) U (Proc.devRef .tc main_cst_43)) :=
  Cert.Lib.ReadFinal.unary (x := main_cst_43) (y := main_v197) (f := (broadcastInDim S30000x1 ![] bcast_S_S30000x1 : (⟨S_, .f32⟩ : BufTy).Contents (Elt F) → (⟨S30000x1, .f32⟩ : BufTy).Contents (Elt F))) writes4 3 rfl (by decide) (by decide) U
theorem s_main_cst_44 (U : Valuation τ sig (Elt F)) : (after (ops4 (F := F)) U (Proc.devRef .tc main_cst_44)) = (constant (F := F) S_ .f32 0x00000000#32) :=
  Cert.Lib.ReadFinal.nullary (y := main_cst_44) (v := (constant (F := F) S_ .f32 0x00000000#32)) writes4 4 rfl (by decide) U
theorem s_main_v198 (U : Valuation τ sig (Elt F)) : (after (ops4 (F := F)) U (Proc.devRef .tc main_v198)) = (broadcastInDim S64x1 ![] bcast_S_S64x1 : (⟨S_, .f32⟩ : BufTy).Contents (Elt F) → (⟨S64x1, .f32⟩ : BufTy).Contents (Elt F)) (after (ops4 (F := F)) U (Proc.devRef .tc main_cst_44)) :=
  Cert.Lib.ReadFinal.unary (x := main_cst_44) (y := main_v198) (f := (broadcastInDim S64x1 ![] bcast_S_S64x1 : (⟨S_, .f32⟩ : BufTy).Contents (Elt F) → (⟨S64x1, .f32⟩ : BufTy).Contents (Elt F))) writes4 5 rfl (by decide) (by decide) U
theorem s_main_v199 (U : Valuation τ sig (Elt F)) : (after (ops4 (F := F)) U (Proc.devRef .tc main_v199)) = (broadcastInDim S30000x1 ![0] bcast_S30000_S30000x1_0 : (⟨S30000, .i32⟩ : BufTy).Contents (Elt F) → (⟨S30000x1, .i32⟩ : BufTy).Contents (Elt F)) (after (ops4 (F := F)) U (Proc.devRef .tc main_arg4)) :=
  Cert.Lib.ReadFinal.unary (x := main_arg4) (y := main_v199) (f := (broadcastInDim S30000x1 ![0] bcast_S30000_S30000x1_0 : (⟨S30000, .i32⟩ : BufTy).Contents (Elt F) → (⟨S30000x1, .i32⟩ : BufTy).Contents (Elt F))) writes4 6 rfl (by decide) (by decide) U
theorem s_main_v200 (U : Valuation τ sig (Elt F)) : (after (ops4 (F := F)) U (Proc.devRef .tc main_v200)) = ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (after (ops4 (F := F)) U (Proc.devRef .tc main_v198)) (after (ops4 (F := F)) U (Proc.devRef .tc main_v199)) (after (ops4 (F := F)) U (Proc.devRef .tc main_v197)) :=
  Cert.Lib.ReadFinal.ternary (c := main_v198) (a := main_v199) (b := main_v197) (y := main_v200) (f := ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F))) writes4 7 rfl (by decide) (by decide) (by decide) (by decide) U
theorem s_main_cst_45 (U : Valuation τ sig (Elt F)) : (after (ops4 (F := F)) U (Proc.devRef .tc main_cst_45)) = (constant (F := F) S_ .f32 0x3F800000#32) :=
  Cert.Lib.ReadFinal.nullary (y := main_cst_45) (v := (constant (F := F) S_ .f32 0x3F800000#32)) writes4 8 rfl (by decide) U
theorem s_main_v201 (U : Valuation τ sig (Elt F)) : (after (ops4 (F := F)) U (Proc.devRef .tc main_v201)) = (broadcastInDim S64x1 ![] bcast_S_S64x1 : (⟨S_, .f32⟩ : BufTy).Contents (Elt F) → (⟨S64x1, .f32⟩ : BufTy).Contents (Elt F)) (after (ops4 (F := F)) U (Proc.devRef .tc main_cst_45)) :=
  Cert.Lib.ReadFinal.unary (x := main_cst_45) (y := main_v201) (f := (broadcastInDim S64x1 ![] bcast_S_S64x1 : (⟨S_, .f32⟩ : BufTy).Contents (Elt F) → (⟨S64x1, .f32⟩ : BufTy).Contents (Elt F))) writes4 9 rfl (by decide) (by decide) U
theorem s_main_v202 (U : Valuation τ sig (Elt F)) : (after (ops4 (F := F)) U (Proc.devRef .tc main_v202)) = (maximumf : (⟨S64x1, .f32⟩ : BufTy).Contents (Elt F) → (⟨S64x1, .f32⟩ : BufTy).Contents (Elt F) → (⟨S64x1, .f32⟩ : BufTy).Contents (Elt F)) (after (ops4 (F := F)) U (Proc.devRef .tc main_v200)) (after (ops4 (F := F)) U (Proc.devRef .tc main_v201)) :=
  Cert.Lib.ReadFinal.binary (a := main_v200) (b := main_v201) (y := main_v202) (f := (maximumf : (⟨S64x1, .f32⟩ : BufTy).Contents (Elt F) → (⟨S64x1, .f32⟩ : BufTy).Contents (Elt F) → (⟨S64x1, .f32⟩ : BufTy).Contents (Elt F))) writes4 10 rfl (by decide) (by decide) (by decide) U
theorem s_main_v203 (U : Valuation τ sig (Elt F)) : (after (ops4 (F := F)) U (Proc.devRef .tc main_v203)) = (broadcastInDim S64x64 ![0, 1] bcast_S64x1_S64x64_0_1 : (⟨S64x1, .f32⟩ : BufTy).Contents (Elt F) → (⟨S64x64, .f32⟩ : BufTy).Contents (Elt F)) (after (ops4 (F := F)) U (Proc.devRef .tc main_v202)) :=
  Cert.Lib.ReadFinal.unary (x := main_v202) (y := main_v203) (f := (broadcastInDim S64x64 ![0, 1] bcast_S64x1_S64x64_0_1 : (⟨S64x1, .f32⟩ : BufTy).Contents (Elt F) → (⟨S64x64, .f32⟩ : BufTy).Contents (Elt F))) writes4 11 rfl (by decide) (by decide) U
theorem s_main_v204 (U : Valuation τ sig (Elt F)) : (after (ops4 (F := F)) U (Proc.devRef .tc main_v204)) = (Host.divf : (⟨S64x64, .f32⟩ : BufTy).Contents (Elt F) → (⟨S64x64, .f32⟩ : BufTy).Contents (Elt F) → (⟨S64x64, .f32⟩ : BufTy).Contents (Elt F)) (after (ops4 (F := F)) U (Proc.devRef .tc main_v196)) (after (ops4 (F := F)) U (Proc.devRef .tc main_v203)) :=
  Cert.Lib.ReadFinal.binary (a := main_v196) (b := main_v203) (y := main_v204) (f := (Host.divf : (⟨S64x64, .f32⟩ : BufTy).Contents (Elt F) → (⟨S64x64, .f32⟩ : BufTy).Contents (Elt F) → (⟨S64x64, .f32⟩ : BufTy).Contents (Elt F))) writes4 12 rfl (by decide) (by decide) (by decide) U
theorem s_main_v205 (U : Valuation τ sig (Elt F)) : (after (ops4 (F := F)) U (Proc.devRef .tc main_v205)) = ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (after (ops4 (F := F)) U (Proc.devRef .tc main_v204)) (after (ops4 (F := F)) U (Proc.devRef .tc main_v135)) :=
  Cert.Lib.ReadFinal.binary (a := main_v204) (b := main_v135) (y := main_v205) (f := ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F))) writes4 13 rfl (by decide) (by decide) (by decide) U
theorem s_main_v206 (U : Valuation τ sig (Elt F)) : (after (ops4 (F := F)) U (Proc.devRef .tc main_v206)) = ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (after (ops4 (F := F)) U (Proc.devRef .tc main_v205)) (after (ops4 (F := F)) U (Proc.devRef .tc main_arg21)) :=
  Cert.Lib.ReadFinal.binary (a := main_v205) (b := main_arg21) (y := main_v206) (f := ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F))) writes4 14 rfl (by decide) (by decide) (by decide) U
theorem s_main_v207 (U : Valuation τ sig (Elt F)) : (after (ops4 (F := F)) U (Proc.devRef .tc main_v207)) = (broadcastInDim S1x64 ![1] bcast_S64_S1x64_1 : (⟨S64, .f32⟩ : BufTy).Contents (Elt F) → (⟨S1x64, .f32⟩ : BufTy).Contents (Elt F)) (after (ops4 (F := F)) U (Proc.devRef .tc main_arg22)) :=
  Cert.Lib.ReadFinal.unary (x := main_arg22) (y := main_v207) (f := (broadcastInDim S1x64 ![1] bcast_S64_S1x64_1 : (⟨S64, .f32⟩ : BufTy).Contents (Elt F) → (⟨S1x64, .f32⟩ : BufTy).Contents (Elt F))) writes4 15 rfl (by decide) (by decide) U
theorem s_main_v208 (U : Valuation τ sig (Elt F)) : (after (ops4 (F := F)) U (Proc.devRef .tc main_v208)) = (broadcastInDim S64x64 ![0, 1] bcast_S1x64_S64x64_0_1 : (⟨S1x64, .f32⟩ : BufTy).Contents (Elt F) → (⟨S64x64, .f32⟩ : BufTy).Contents (Elt F)) (after (ops4 (F := F)) U (Proc.devRef .tc main_v207)) :=
  Cert.Lib.ReadFinal.unary (x := main_v207) (y := main_v208) (f := (broadcastInDim S64x64 ![0, 1] bcast_S1x64_S64x64_0_1 : (⟨S1x64, .f32⟩ : BufTy).Contents (Elt F) → (⟨S64x64, .f32⟩ : BufTy).Contents (Elt F))) writes4 16 rfl (by decide) (by decide) U
theorem s_main_v209 (U : Valuation τ sig (Elt F)) : (after (ops4 (F := F)) U (Proc.devRef .tc main_v209)) = (addf : (⟨S64x64, .f32⟩ : BufTy).Contents (Elt F) → (⟨S64x64, .f32⟩ : BufTy).Contents (Elt F) → (⟨S64x64, .f32⟩ : BufTy).Contents (Elt F)) (after (ops4 (F := F)) U (Proc.devRef .tc main_v206)) (after (ops4 (F := F)) U (Proc.devRef .tc main_v208)) :=
  Cert.Lib.ReadFinal.binary (a := main_v206) (b := main_v208) (y := main_v209) (f := (addf : (⟨S64x64, .f32⟩ : BufTy).Contents (Elt F) → (⟨S64x64, .f32⟩ : BufTy).Contents (Elt F) → (⟨S64x64, .f32⟩ : BufTy).Contents (Elt F))) writes4 17 rfl (by decide) (by decide) (by decide) U
theorem s_main_call8_cst (U : Valuation τ sig (Elt F)) : (after (ops4 (F := F)) U (Proc.devRef .tc main_call8_cst)) = (constant (F := F) S_ .f32 0x00000000#32) :=
  Cert.Lib.ReadFinal.nullary (y := main_call8_cst) (v := (constant (F := F) S_ .f32 0x00000000#32)) writes4 18 rfl (by decide) U
theorem s_main_call8_v0 (U : Valuation τ sig (Elt F)) : (after (ops4 (F := F)) U (Proc.devRef .tc main_call8_v0)) = ((broadcastInDim S64x64 ![] bcast_S_S64x64) : (⟨S_, .f32⟩ : BufTy).Contents (Elt F) → (⟨S64x64, .f32⟩ : BufTy).Contents (Elt F)) (after (ops4 (F := F)) U (Proc.devRef .tc main_call8_cst)) :=
  Cert.Lib.ReadFinal.unary (x := main_call8_cst) (y := main_call8_v0) (f := ((broadcastInDim S64x64 ![] bcast_S_S64x64) : (⟨S_, .f32⟩ : BufTy).Contents (Elt F) → (⟨S64x64, .f32⟩ : BufTy).Contents (Elt F))) writes4 19 rfl (by decide) (by decide) U
theorem s_main_v210 (U : Valuation τ sig (Elt F)) : (after (ops4 (F := F)) U (Proc.devRef .tc main_v210)) = (maximumf : (⟨S64x64, .f32⟩ : BufTy).Contents (Elt F) → (⟨S64x64, .f32⟩ : BufTy).Contents (Elt F) → (⟨S64x64, .f32⟩ : BufTy).Contents (Elt F)) (after (ops4 (F := F)) U (Proc.devRef .tc main_v209)) (after (ops4 (F := F)) U (Proc.devRef .tc main_call8_v0)) :=
  Cert.Lib.ReadFinal.binary (a := main_v209) (b := main_call8_v0) (y := main_v210) (f := (maximumf : (⟨S64x64, .f32⟩ : BufTy).Contents (Elt F) → (⟨S64x64, .f32⟩ : BufTy).Contents (Elt F) → (⟨S64x64, .f32⟩ : BufTy).Contents (Elt F))) writes4 20 rfl (by decide) (by decide) (by decide) U
theorem s_main_c_46 (U : Valuation τ sig (Elt F)) : (after (ops4 (F := F)) U (Proc.devRef .tc main_c_46)) = (constantI S_ 32 0#32) :=
  Cert.Lib.ReadFinal.nullary (y := main_c_46) (v := (constantI S_ 32 0#32)) writes4 21 rfl (by decide) U
theorem s_main_v211 (U : Valuation τ sig (Elt F)) : (after (ops4 (F := F)) U (Proc.devRef .tc main_v211)) = (broadcastInDim S300000 ![] bcast_S_S300000 : (⟨S_, .i32⟩ : BufTy).Contents (Elt F) → (⟨S300000, .i32⟩ : BufTy).Contents (Elt F)) (after (ops4 (F := F)) U (Proc.devRef .tc main_c_46)) :=
  Cert.Lib.ReadFinal.unary (x := main_c_46) (y := main_v211) (f := (broadcastInDim S300000 ![] bcast_S_S300000 : (⟨S_, .i32⟩ : BufTy).Contents (Elt F) → (⟨S300000, .i32⟩ : BufTy).Contents (Elt F))) writes4 22 rfl (by decide) (by decide) U
theorem s_main_v212 (U : Valuation τ sig (Elt F)) : (after (ops4 (F := F)) U (Proc.devRef .tc main_v212)) = (cmpi .slt : (⟨S300000, .i32⟩ : BufTy).Contents (Elt F) → (⟨S300000, .i32⟩ : BufTy).Contents (Elt F) → (⟨S300000, .i1⟩ : BufTy).Contents (Elt F)) (after (ops4 (F := F)) U (Proc.devRef .tc main_v1)) (after (ops4 (F := F)) U (Proc.devRef .tc main_v211)) :=
  Cert.Lib.ReadFinal.binary (a := main_v1) (b := main_v211) (y := main_v212) (f := (cmpi .slt : (⟨S300000, .i32⟩ : BufTy).Contents (Elt F) → (⟨S300000, .i32⟩ : BufTy).Contents (Elt F) → (⟨S300000, .i1⟩ : BufTy).Contents (Elt F))) writes4 23 rfl (by decide) (by decide) (by decide) U
theorem s_main_c_47 (U : Valuation τ sig (Elt F)) : (after (ops4 (F := F)) U (Proc.devRef .tc main_c_47)) = (constantI S_ 32 30000#32) :=
  Cert.Lib.ReadFinal.nullary (y := main_c_47) (v := (constantI S_ 32 30000#32)) writes4 24 rfl (by decide) U
theorem s_main_v213 (U : Valuation τ sig (Elt F)) : (after (ops4 (F := F)) U (Proc.devRef .tc main_v213)) = (broadcastInDim S300000 ![] bcast_S_S300000 : (⟨S_, .i32⟩ : BufTy).Contents (Elt F) → (⟨S300000, .i32⟩ : BufTy).Contents (Elt F)) (after (ops4 (F := F)) U (Proc.devRef .tc main_c_47)) :=
  Cert.Lib.ReadFinal.unary (x := main_c_47) (y := main_v213) (f := (broadcastInDim S300000 ![] bcast_S_S300000 : (⟨S_, .i32⟩ : BufTy).Contents (Elt F) → (⟨S300000, .i32⟩ : BufTy).Contents (Elt F))) writes4 25 rfl (by decide) (by decide) U
theorem s_main_v214 (U : Valuation τ sig (Elt F)) : (after (ops4 (F := F)) U (Proc.devRef .tc main_v214)) = (addi : (⟨S300000, .i32⟩ : BufTy).Contents (Elt F) → (⟨S300000, .i32⟩ : BufTy).Contents (Elt F) → (⟨S300000, .i32⟩ : BufTy).Contents (Elt F)) (after (ops4 (F := F)) U (Proc.devRef .tc main_v1)) (after (ops4 (F := F)) U (Proc.devRef .tc main_v213)) :=
  Cert.Lib.ReadFinal.binary (a := main_v1) (b := main_v213) (y := main_v214) (f := (addi : (⟨S300000, .i32⟩ : BufTy).Contents (Elt F) → (⟨S300000, .i32⟩ : BufTy).Contents (Elt F) → (⟨S300000, .i32⟩ : BufTy).Contents (Elt F))) writes4 26 rfl (by decide) (by decide) (by decide) U
theorem s_main_v215 (U : Valuation τ sig (Elt F)) : (after (ops4 (F := F)) U (Proc.devRef .tc main_v215)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops4 (F := F)) U (Proc.devRef .tc main_v212)) (after (ops4 (F := F)) U (Proc.devRef .tc main_v214)) (after (ops4 (F := F)) U (Proc.devRef .tc main_v1)) :=
  Cert.Lib.ReadFinal.ternary (c := main_v212) (a := main_v214) (b := main_v1) (y := main_v215) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes4 27 rfl (by decide) (by decide) (by decide) (by decide) U
theorem s_main_v216 (U : Valuation τ sig (Elt F)) : (after (ops4 (F := F)) U (Proc.devRef .tc main_v216)) = (broadcastInDim S300000x1 ![0] bcast_S300000_S300000x1_0 : (⟨S300000, .i32⟩ : BufTy).Contents (Elt F) → (⟨S300000x1, .i32⟩ : BufTy).Contents (Elt F)) (after (ops4 (F := F)) U (Proc.devRef .tc main_v215)) :=
  Cert.Lib.ReadFinal.unary (x := main_v215) (y := main_v216) (f := (broadcastInDim S300000x1 ![0] bcast_S300000_S300000x1_0 : (⟨S300000, .i32⟩ : BufTy).Contents (Elt F) → (⟨S300000x1, .i32⟩ : BufTy).Contents (Elt F))) writes4 28 rfl (by decide) (by decide) U
theorem s_main_v217 (U : Valuation τ sig (Elt F)) : (after (ops4 (F := F)) U (Proc.devRef .tc main_v217)) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops4 (F := F)) U (Proc.devRef .tc main_v193)) (after (ops4 (F := F)) U (Proc.devRef .tc main_v216)) :=
  Cert.Lib.ReadFinal.binary (a := main_v193) (b := main_v216) (y := main_v217) (f := ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F))) writes4 29 rfl (by decide) (by decide) (by decide) U
theorem s_main_c_48 (U : Valuation τ sig (Elt F)) : (after (ops4 (F := F)) U (Proc.devRef .tc main_c_48)) = (constantI S_ 32 0#32) :=
  Cert.Lib.ReadFinal.nullary (y := main_c_48) (v := (constantI S_ 32 0#32)) writes4 30 rfl (by decide) U
theorem s_main_v218 (U : Valuation τ sig (Elt F)) : (after (ops4 (F := F)) U (Proc.devRef .tc main_v218)) = (broadcastInDim S300000 ![] bcast_S_S300000 : (⟨S_, .i32⟩ : BufTy).Contents (Elt F) → (⟨S300000, .i32⟩ : BufTy).Contents (Elt F)) (after (ops4 (F := F)) U (Proc.devRef .tc main_c_48)) :=
  Cert.Lib.ReadFinal.unary (x := main_c_48) (y := main_v218) (f := (broadcastInDim S300000 ![] bcast_S_S300000 : (⟨S_, .i32⟩ : BufTy).Contents (Elt F) → (⟨S300000, .i32⟩ : BufTy).Contents (Elt F))) writes4 31 rfl (by decide) (by decide) U
theorem s_main_v219 (U : Valuation τ sig (Elt F)) : (after (ops4 (F := F)) U (Proc.devRef .tc main_v219)) = (cmpi .slt : (⟨S300000, .i32⟩ : BufTy).Contents (Elt F) → (⟨S300000, .i32⟩ : BufTy).Contents (Elt F) → (⟨S300000, .i1⟩ : BufTy).Contents (Elt F)) (after (ops4 (F := F)) U (Proc.devRef .tc main_v3)) (after (ops4 (F := F)) U (Proc.devRef .tc main_v218)) :=
  Cert.Lib.ReadFinal.binary (a := main_v3) (b := main_v218) (y := main_v219) (f := (cmpi .slt : (⟨S300000, .i32⟩ : BufTy).Contents (Elt F) → (⟨S300000, .i32⟩ : BufTy).Contents (Elt F) → (⟨S300000, .i1⟩ : BufTy).Contents (Elt F))) writes4 32 rfl (by decide) (by decide) (by decide) U
theorem s_main_c_49 (U : Valuation τ sig (Elt F)) : (after (ops4 (F := F)) U (Proc.devRef .tc main_c_49)) = (constantI S_ 32 30000#32) :=
  Cert.Lib.ReadFinal.nullary (y := main_c_49) (v := (constantI S_ 32 30000#32)) writes4 33 rfl (by decide) U
theorem s_main_v220 (U : Valuation τ sig (Elt F)) : (after (ops4 (F := F)) U (Proc.devRef .tc main_v220)) = (broadcastInDim S300000 ![] bcast_S_S300000 : (⟨S_, .i32⟩ : BufTy).Contents (Elt F) → (⟨S300000, .i32⟩ : BufTy).Contents (Elt F)) (after (ops4 (F := F)) U (Proc.devRef .tc main_c_49)) :=
  Cert.Lib.ReadFinal.unary (x := main_c_49) (y := main_v220) (f := (broadcastInDim S300000 ![] bcast_S_S300000 : (⟨S_, .i32⟩ : BufTy).Contents (Elt F) → (⟨S300000, .i32⟩ : BufTy).Contents (Elt F))) writes4 34 rfl (by decide) (by decide) U
theorem s_main_v221 (U : Valuation τ sig (Elt F)) : (after (ops4 (F := F)) U (Proc.devRef .tc main_v221)) = (addi : (⟨S300000, .i32⟩ : BufTy).Contents (Elt F) → (⟨S300000, .i32⟩ : BufTy).Contents (Elt F) → (⟨S300000, .i32⟩ : BufTy).Contents (Elt F)) (after (ops4 (F := F)) U (Proc.devRef .tc main_v3)) (after (ops4 (F := F)) U (Proc.devRef .tc main_v220)) :=
  Cert.Lib.ReadFinal.binary (a := main_v3) (b := main_v220) (y := main_v221) (f := (addi : (⟨S300000, .i32⟩ : BufTy).Contents (Elt F) → (⟨S300000, .i32⟩ : BufTy).Contents (Elt F) → (⟨S300000, .i32⟩ : BufTy).Contents (Elt F))) writes4 35 rfl (by decide) (by decide) (by decide) U
theorem s_main_v222 (U : Valuation τ sig (Elt F)) : (after (ops4 (F := F)) U (Proc.devRef .tc main_v222)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops4 (F := F)) U (Proc.devRef .tc main_v219)) (after (ops4 (F := F)) U (Proc.devRef .tc main_v221)) (after (ops4 (F := F)) U (Proc.devRef .tc main_v3)) :=
  Cert.Lib.ReadFinal.ternary (c := main_v219) (a := main_v221) (b := main_v3) (y := main_v222) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes4 36 rfl (by decide) (by decide) (by decide) (by decide) U
theorem s_main_v223 (U : Valuation τ sig (Elt F)) : (after (ops4 (F := F)) U (Proc.devRef .tc main_v223)) = (broadcastInDim S300000x1 ![0] bcast_S300000_S300000x1_0 : (⟨S300000, .i32⟩ : BufTy).Contents (Elt F) → (⟨S300000x1, .i32⟩ : BufTy).Contents (Elt F)) (after (ops4 (F := F)) U (Proc.devRef .tc main_v222)) :=
  Cert.Lib.ReadFinal.unary (x := main_v222) (y := main_v223) (f := (broadcastInDim S300000x1 ![0] bcast_S300000_S300000x1_0 : (⟨S300000, .i32⟩ : BufTy).Contents (Elt F) → (⟨S300000x1, .i32⟩ : BufTy).Contents (Elt F))) writes4 37 rfl (by decide) (by decide) U
theorem s_main_v224 (U : Valuation τ sig (Elt F)) : (after (ops4 (F := F)) U (Proc.devRef .tc main_v224)) = ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops4 (F := F)) U (Proc.devRef .tc main_v193)) (after (ops4 (F := F)) U (Proc.devRef .tc main_v223)) :=
  Cert.Lib.ReadFinal.binary (a := main_v193) (b := main_v223) (y := main_v224) (f := ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F))) writes4 38 rfl (by decide) (by decide) (by decide) U
theorem s_main_c_50 (U : Valuation τ sig (Elt F)) : (after (ops4 (F := F)) U (Proc.devRef .tc main_c_50)) = (constantI S_ 32 0#32) :=
  Cert.Lib.ReadFinal.nullary (y := main_c_50) (v := (constantI S_ 32 0#32)) writes4 39 rfl (by decide) U
theorem s_main_v225 (U : Valuation τ sig (Elt F)) : (after (ops4 (F := F)) U (Proc.devRef .tc main_v225)) = (broadcastInDim S300000 ![] bcast_S_S300000 : (⟨S_, .i32⟩ : BufTy).Contents (Elt F) → (⟨S300000, .i32⟩ : BufTy).Contents (Elt F)) (after (ops4 (F := F)) U (Proc.devRef .tc main_c_50)) :=
  Cert.Lib.ReadFinal.unary (x := main_c_50) (y := main_v225) (f := (broadcastInDim S300000 ![] bcast_S_S300000 : (⟨S_, .i32⟩ : BufTy).Contents (Elt F) → (⟨S300000, .i32⟩ : BufTy).Contents (Elt F))) writes4 40 rfl (by decide) (by decide) U
theorem s_main_v226 (U : Valuation τ sig (Elt F)) : (after (ops4 (F := F)) U (Proc.devRef .tc main_v226)) = (cmpi .slt : (⟨S300000, .i32⟩ : BufTy).Contents (Elt F) → (⟨S300000, .i32⟩ : BufTy).Contents (Elt F) → (⟨S300000, .i1⟩ : BufTy).Contents (Elt F)) (after (ops4 (F := F)) U (Proc.devRef .tc main_v1)) (after (ops4 (F := F)) U (Proc.devRef .tc main_v225)) :=
  Cert.Lib.ReadFinal.binary (a := main_v1) (b := main_v225) (y := main_v226) (f := (cmpi .slt : (⟨S300000, .i32⟩ : BufTy).Contents (Elt F) → (⟨S300000, .i32⟩ : BufTy).Contents (Elt F) → (⟨S300000, .i1⟩ : BufTy).Contents (Elt F))) writes4 41 rfl (by decide) (by decide) (by decide) U
theorem s_main_c_51 (U : Valuation τ sig (Elt F)) : (after (ops4 (F := F)) U (Proc.devRef .tc main_c_51)) = (constantI S_ 32 30000#32) :=
  Cert.Lib.ReadFinal.nullary (y := main_c_51) (v := (constantI S_ 32 30000#32)) writes4 42 rfl (by decide) U
theorem s_main_v227 (U : Valuation τ sig (Elt F)) : (after (ops4 (F := F)) U (Proc.devRef .tc main_v227)) = (broadcastInDim S300000 ![] bcast_S_S300000 : (⟨S_, .i32⟩ : BufTy).Contents (Elt F) → (⟨S300000, .i32⟩ : BufTy).Contents (Elt F)) (after (ops4 (F := F)) U (Proc.devRef .tc main_c_51)) :=
  Cert.Lib.ReadFinal.unary (x := main_c_51) (y := main_v227) (f := (broadcastInDim S300000 ![] bcast_S_S300000 : (⟨S_, .i32⟩ : BufTy).Contents (Elt F) → (⟨S300000, .i32⟩ : BufTy).Contents (Elt F))) writes4 43 rfl (by decide) (by decide) U
theorem s_main_v228 (U : Valuation τ sig (Elt F)) : (after (ops4 (F := F)) U (Proc.devRef .tc main_v228)) = (addi : (⟨S300000, .i32⟩ : BufTy).Contents (Elt F) → (⟨S300000, .i32⟩ : BufTy).Contents (Elt F) → (⟨S300000, .i32⟩ : BufTy).Contents (Elt F)) (after (ops4 (F := F)) U (Proc.devRef .tc main_v1)) (after (ops4 (F := F)) U (Proc.devRef .tc main_v227)) :=
  Cert.Lib.ReadFinal.binary (a := main_v1) (b := main_v227) (y := main_v228) (f := (addi : (⟨S300000, .i32⟩ : BufTy).Contents (Elt F) → (⟨S300000, .i32⟩ : BufTy).Contents (Elt F) → (⟨S300000, .i32⟩ : BufTy).Contents (Elt F))) writes4 44 rfl (by decide) (by decide) (by decide) U
theorem s_main_v229 (U : Valuation τ sig (Elt F)) : (after (ops4 (F := F)) U (Proc.devRef .tc main_v229)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops4 (F := F)) U (Proc.devRef .tc main_v226)) (after (ops4 (F := F)) U (Proc.devRef .tc main_v228)) (after (ops4 (F := F)) U (Proc.devRef .tc main_v1)) :=
  Cert.Lib.ReadFinal.ternary (c := main_v226) (a := main_v228) (b := main_v1) (y := main_v229) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes4 45 rfl (by decide) (by decide) (by decide) (by decide) U
theorem s_main_v230 (U : Valuation τ sig (Elt F)) : (after (ops4 (F := F)) U (Proc.devRef .tc main_v230)) = (broadcastInDim S300000x1 ![0] bcast_S300000_S300000x1_0 : (⟨S300000, .i32⟩ : BufTy).Contents (Elt F) → (⟨S300000x1, .i32⟩ : BufTy).Contents (Elt F)) (after (ops4 (F := F)) U (Proc.devRef .tc main_v229)) :=
  Cert.Lib.ReadFinal.unary (x := main_v229) (y := main_v230) (f := (broadcastInDim S300000x1 ![0] bcast_S300000_S300000x1_0 : (⟨S300000, .i32⟩ : BufTy).Contents (Elt F) → (⟨S300000x1, .i32⟩ : BufTy).Contents (Elt F))) writes4 46 rfl (by decide) (by decide) U
theorem s_main_v231 (U : Valuation τ sig (Elt F)) : (after (ops4 (F := F)) U (Proc.devRef .tc main_v231)) = ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (after (ops4 (F := F)) U (Proc.devRef .tc main_arg4)) (after (ops4 (F := F)) U (Proc.devRef .tc main_v230)) :=
  Cert.Lib.ReadFinal.binary (a := main_arg4) (b := main_v230) (y := main_v231) (f := ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F))) writes4 47 rfl (by decide) (by decide) (by decide) U
theorem s_main_c_52 (U : Valuation τ sig (Elt F)) : (after (ops4 (F := F)) U (Proc.devRef .tc main_c_52)) = (constantI S_ 32 0#32) :=
  Cert.Lib.ReadFinal.nullary (y := main_c_52) (v := (constantI S_ 32 0#32)) writes4 48 rfl (by decide) U
theorem s_main_v232 (U : Valuation τ sig (Elt F)) : (after (ops4 (F := F)) U (Proc.devRef .tc main_v232)) = (broadcastInDim S300000 ![] bcast_S_S300000 : (⟨S_, .i32⟩ : BufTy).Contents (Elt F) → (⟨S300000, .i32⟩ : BufTy).Contents (Elt F)) (after (ops4 (F := F)) U (Proc.devRef .tc main_c_52)) :=
  Cert.Lib.ReadFinal.unary (x := main_c_52) (y := main_v232) (f := (broadcastInDim S300000 ![] bcast_S_S300000 : (⟨S_, .i32⟩ : BufTy).Contents (Elt F) → (⟨S300000, .i32⟩ : BufTy).Contents (Elt F))) writes4 49 rfl (by decide) (by decide) U
theorem s_main_v233 (U : Valuation τ sig (Elt F)) : (after (ops4 (F := F)) U (Proc.devRef .tc main_v233)) = (cmpi .slt : (⟨S300000, .i32⟩ : BufTy).Contents (Elt F) → (⟨S300000, .i32⟩ : BufTy).Contents (Elt F) → (⟨S300000, .i1⟩ : BufTy).Contents (Elt F)) (after (ops4 (F := F)) U (Proc.devRef .tc main_v231)) (after (ops4 (F := F)) U (Proc.devRef .tc main_v232)) :=
  Cert.Lib.ReadFinal.binary (a := main_v231) (b := main_v232) (y := main_v233) (f := (cmpi .slt : (⟨S300000, .i32⟩ : BufTy).Contents (Elt F) → (⟨S300000, .i32⟩ : BufTy).Contents (Elt F) → (⟨S300000, .i1⟩ : BufTy).Contents (Elt F))) writes4 50 rfl (by decide) (by decide) (by decide) U
theorem s_main_c_53 (U : Valuation τ sig (Elt F)) : (after (ops4 (F := F)) U (Proc.devRef .tc main_c_53)) = (constantI S_ 32 64#32) :=
  Cert.Lib.ReadFinal.nullary (y := main_c_53) (v := (constantI S_ 32 64#32)) writes4 51 rfl (by decide) U
theorem s_main_v234 (U : Valuation τ sig (Elt F)) : (after (ops4 (F := F)) U (Proc.devRef .tc main_v234)) = (broadcastInDim S300000 ![] bcast_S_S300000 : (⟨S_, .i32⟩ : BufTy).Contents (Elt F) → (⟨S300000, .i32⟩ : BufTy).Contents (Elt F)) (after (ops4 (F := F)) U (Proc.devRef .tc main_c_53)) :=
  Cert.Lib.ReadFinal.unary (x := main_c_53) (y := main_v234) (f := (broadcastInDim S300000 ![] bcast_S_S300000 : (⟨S_, .i32⟩ : BufTy).Contents (Elt F) → (⟨S300000, .i32⟩ : BufTy).Contents (Elt F))) writes4 52 rfl (by decide) (by decide) U
theorem s_main_v235 (U : Valuation τ sig (Elt F)) : (after (ops4 (F := F)) U (Proc.devRef .tc main_v235)) = (addi : (⟨S300000, .i32⟩ : BufTy).Contents (Elt F) → (⟨S300000, .i32⟩ : BufTy).Contents (Elt F) → (⟨S300000, .i32⟩ : BufTy).Contents (Elt F)) (after (ops4 (F := F)) U (Proc.devRef .tc main_v231)) (after (ops4 (F := F)) U (Proc.devRef .tc main_v234)) :=
  Cert.Lib.ReadFinal.binary (a := main_v231) (b := main_v234) (y := main_v235) (f := (addi : (⟨S300000, .i32⟩ : BufTy).Contents (Elt F) → (⟨S300000, .i32⟩ : BufTy).Contents (Elt F) → (⟨S300000, .i32⟩ : BufTy).Contents (Elt F))) writes4 53 rfl (by decide) (by decide) (by decide) U
theorem s_main_v236 (U : Valuation τ sig (Elt F)) : (after (ops4 (F := F)) U (Proc.devRef .tc main_v236)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops4 (F := F)) U (Proc.devRef .tc main_v233)) (after (ops4 (F := F)) U (Proc.devRef .tc main_v235)) (after (ops4 (F := F)) U (Proc.devRef .tc main_v231)) :=
  Cert.Lib.ReadFinal.ternary (c := main_v233) (a := main_v235) (b := main_v231) (y := main_v236) (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) writes4 54 rfl (by decide) (by decide) (by decide) (by decide) U
theorem s_main_v237 (U : Valuation τ sig (Elt F)) : (after (ops4 (F := F)) U (Proc.devRef .tc main_v237)) = (broadcastInDim S300000x1 ![0] bcast_S300000_S300000x1_0 : (⟨S300000, .i32⟩ : BufTy).Contents (Elt F) → (⟨S300000x1, .i32⟩ : BufTy).Contents (Elt F)) (after (ops4 (F := F)) U (Proc.devRef .tc main_v236)) :=
  Cert.Lib.ReadFinal.unary (x := main_v236) (y := main_v237) (f := (broadcastInDim S300000x1 ![0] bcast_S300000_S300000x1_0 : (⟨S300000, .i32⟩ : BufTy).Contents (Elt F) → (⟨S300000x1, .i32⟩ : BufTy).Contents (Elt F))) writes4 55 rfl (by decide) (by decide) U
theorem s_main_v238 (U : Valuation τ sig (Elt F)) : (after (ops4 (F := F)) U (Proc.devRef .tc main_v238)) = ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops4 (F := F)) U (Proc.devRef .tc main_v210)) (after (ops4 (F := F)) U (Proc.devRef .tc main_v237)) :=
  Cert.Lib.ReadFinal.binary (a := main_v210) (b := main_v237) (y := main_v238) (f := ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F))) writes4 56 rfl (by decide) (by decide) (by decide) U
theorem s_main_v239 (U : Valuation τ sig (Elt F)) : (after (ops4 (F := F)) U (Proc.devRef .tc main_v239)) = concatenate S300000x256 1 [⟨S300000x64, (after (ops4 (F := F)) U (Proc.devRef .tc main_v217))⟩, ⟨S300000x64, (after (ops4 (F := F)) U (Proc.devRef .tc main_v224))⟩, ⟨S300000x64, (after (ops4 (F := F)) U (Proc.devRef .tc main_v169))⟩, ⟨S300000x64, (after (ops4 (F := F)) U (Proc.devRef .tc main_v238))⟩] concatenates_S300000x64_S300000x64_S300000x64_S300000x64_S300000x256_d1 :=
  (Cert.Lib.SingleAssignment.read_nary (t := []) (xs := ![main_v217, main_v224, main_v169, main_v238]) (y := main_v239) (f := (fun u => concatenate S300000x256 1 [⟨S300000x64, u 0⟩, ⟨S300000x64, u 1⟩, ⟨S300000x64, u 2⟩, ⟨S300000x64, u 3⟩] concatenates_S300000x64_S300000x64_S300000x64_S300000x64_S300000x256_d1)) writes4 Cert.Lib.SingleAssignment.Writes.nil 57 rfl (by decide) (by decide) U).trans rfl
theorem s_main_v240 (U : Valuation τ sig (Elt F)) : (after (ops4 (F := F)) U (Proc.devRef .tc main_v240)) = ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (after (ops4 (F := F)) U (Proc.devRef .tc main_v239)) (after (ops4 (F := F)) U (Proc.devRef .tc main_arg23)) :=
  Cert.Lib.ReadFinal.binary (a := main_v239) (b := main_arg23) (y := main_v240) (f := ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F))) writes4 58 rfl (by decide) (by decide) (by decide) U
theorem s_main_v241 (U : Valuation τ sig (Elt F)) : (after (ops4 (F := F)) U (Proc.devRef .tc main_v241)) = (broadcastInDim S1x64 ![1] bcast_S64_S1x64_1 : (⟨S64, .f32⟩ : BufTy).Contents (Elt F) → (⟨S1x64, .f32⟩ : BufTy).Contents (Elt F)) (after (ops4 (F := F)) U (Proc.devRef .tc main_arg24)) :=
  Cert.Lib.ReadFinal.unary (x := main_arg24) (y := main_v241) (f := (broadcastInDim S1x64 ![1] bcast_S64_S1x64_1 : (⟨S64, .f32⟩ : BufTy).Contents (Elt F) → (⟨S1x64, .f32⟩ : BufTy).Contents (Elt F))) writes4 59 rfl (by decide) (by decide) U
theorem s_main_v242 (U : Valuation τ sig (Elt F)) : (after (ops4 (F := F)) U (Proc.devRef .tc main_v242)) = (broadcastInDim S300000x64 ![0, 1] bcast_S1x64_S300000x64_0_1 : (⟨S1x64, .f32⟩ : BufTy).Contents (Elt F) → (⟨S300000x64, .f32⟩ : BufTy).Contents (Elt F)) (after (ops4 (F := F)) U (Proc.devRef .tc main_v241)) :=
  Cert.Lib.ReadFinal.unary (x := main_v241) (y := main_v242) (f := (broadcastInDim S300000x64 ![0, 1] bcast_S1x64_S300000x64_0_1 : (⟨S1x64, .f32⟩ : BufTy).Contents (Elt F) → (⟨S300000x64, .f32⟩ : BufTy).Contents (Elt F))) writes4 60 rfl (by decide) (by decide) U
theorem s_main_v243 (U : Valuation τ sig (Elt F)) : (after (ops4 (F := F)) U (Proc.devRef .tc main_v243)) = (addf : (⟨S300000x64, .f32⟩ : BufTy).Contents (Elt F) → (⟨S300000x64, .f32⟩ : BufTy).Contents (Elt F) → (⟨S300000x64, .f32⟩ : BufTy).Contents (Elt F)) (after (ops4 (F := F)) U (Proc.devRef .tc main_v240)) (after (ops4 (F := F)) U (Proc.devRef .tc main_v242)) :=
  Cert.Lib.ReadFinal.binary (a := main_v240) (b := main_v242) (y := main_v243) (f := (addf : (⟨S300000x64, .f32⟩ : BufTy).Contents (Elt F) → (⟨S300000x64, .f32⟩ : BufTy).Contents (Elt F) → (⟨S300000x64, .f32⟩ : BufTy).Contents (Elt F))) writes4 61 rfl (by decide) (by decide) (by decide) U

end Cert.ReferenceIdeal.Hand

end
-- ==== Proof.Ref.Lift4.lean ====
-- written by: gen_ref.js <unit directory>
/- The buffers window 4 of the reference program's @main writes are written by no later window: each holds at the end of @main what it held at every boundary after window 4. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_v195 (V : Valuation τ sig (Elt F)) : (after (ops (F := F)) V (Proc.devRef .tc main_v195)) = (U6 V (Proc.devRef .tc main_v195)) := congrFun (after_ops_eq V) _
theorem lift5_main_v195 (V : Valuation τ sig (Elt F)) : (after (ops (F := F)) V (Proc.devRef .tc main_v195)) = (U5 V (Proc.devRef .tc main_v195)) :=
  (lift6_main_v195 V).trans (after_of_not_mem writes5 (by decide) (U5 V))
theorem lift6_main_v196 (V : Valuation τ sig (Elt F)) : (after (ops (F := F)) V (Proc.devRef .tc main_v196)) = (U6 V (Proc.devRef .tc main_v196)) := congrFun (after_ops_eq V) _
theorem lift5_main_v196 (V : Valuation τ sig (Elt F)) : (after (ops (F := F)) V (Proc.devRef .tc main_v196)) = (U5 V (Proc.devRef .tc main_v196)) :=
  (lift6_main_v196 V).trans (after_of_not_mem writes5 (by decide) (U5 V))
theorem lift6_main_cst_43 (V : Valuation τ sig (Elt F)) : (after (ops (F := F)) V (Proc.devRef .tc main_cst_43)) = (U6 V (Proc.devRef .tc main_cst_43)) := congrFun (after_ops_eq V) _
theorem lift5_main_cst_43 (V : Valuation τ sig (Elt F)) : (after (ops (F := F)) V (Proc.devRef .tc main_cst_43)) = (U5 V (Proc.devRef .tc main_cst_43)) :=
  (lift6_main_cst_43 V).trans (after_of_not_mem writes5 (by decide) (U5 V))
theorem lift6_main_v197 (V : Valuation τ sig (Elt F)) : (after (ops (F := F)) V (Proc.devRef .tc main_v197)) = (U6 V (Proc.devRef .tc main_v197)) := congrFun (after_ops_eq V) _
theorem lift5_main_v197 (V : Valuation τ sig (Elt F)) : (after (ops (F := F)) V (Proc.devRef .tc main_v197)) = (U5 V (Proc.devRef .tc main_v197)) :=
  (lift6_main_v197 V).trans (after_of_not_mem writes5 (by decide) (U5 V))
theorem lift6_main_cst_44 (V : Valuation τ sig (Elt F)) : (after (ops (F := F)) V (Proc.devRef .tc main_cst_44)) = (U6 V (Proc.devRef .tc main_cst_44)) := congrFun (after_ops_eq V) _
theorem lift5_main_cst_44 (V : Valuation τ sig (Elt F)) : (after (ops (F := F)) V (Proc.devRef .tc main_cst_44)) = (U5 V (Proc.devRef .tc main_cst_44)) :=
  (lift6_main_cst_44 V).trans (after_of_not_mem writes5 (by decide) (U5 V))
theorem lift6_main_v198 (V : Valuation τ sig (Elt F)) : (after (ops (F := F)) V (Proc.devRef .tc main_v198)) = (U6 V (Proc.devRef .tc main_v198)) := congrFun (after_ops_eq V) _
theorem lift5_main_v198 (V : Valuation τ sig (Elt F)) : (after (ops (F := F)) V (Proc.devRef .tc main_v198)) = (U5 V (Proc.devRef .tc main_v198)) :=
  (lift6_main_v198 V).trans (after_of_not_mem writes5 (by decide) (U5 V))
theorem lift6_main_v199 (V : Valuation τ sig (Elt F)) : (after (ops (F := F)) V (Proc.devRef .tc main_v199)) = (U6 V (Proc.devRef .tc main_v199)) := congrFun (after_ops_eq V) _
theorem lift5_main_v199 (V : Valuation τ sig (Elt F)) : (after (ops (F := F)) V (Proc.devRef .tc main_v199)) = (U5 V (Proc.devRef .tc main_v199)) :=
  (lift6_main_v199 V).trans (after_of_not_mem writes5 (by decide) (U5 V))
theorem lift6_main_v200 (V : Valuation τ sig (Elt F)) : (after (ops (F := F)) V (Proc.devRef .tc main_v200)) = (U6 V (Proc.devRef .tc main_v200)) := congrFun (after_ops_eq V) _
theorem lift5_main_v200 (V : Valuation τ sig (Elt F)) : (after (ops (F := F)) V (Proc.devRef .tc main_v200)) = (U5 V (Proc.devRef .tc main_v200)) :=
  (lift6_main_v200 V).trans (after_of_not_mem writes5 (by decide) (U5 V))
theorem lift6_main_cst_45 (V : Valuation τ sig (Elt F)) : (after (ops (F := F)) V (Proc.devRef .tc main_cst_45)) = (U6 V (Proc.devRef .tc main_cst_45)) := congrFun (after_ops_eq V) _
theorem lift5_main_cst_45 (V : Valuation τ sig (Elt F)) : (after (ops (F := F)) V (Proc.devRef .tc main_cst_45)) = (U5 V (Proc.devRef .tc main_cst_45)) :=
  (lift6_main_cst_45 V).trans (after_of_not_mem writes5 (by decide) (U5 V))
theorem lift6_main_v201 (V : Valuation τ sig (Elt F)) : (after (ops (F := F)) V (Proc.devRef .tc main_v201)) = (U6 V (Proc.devRef .tc main_v201)) := congrFun (after_ops_eq V) _
theorem lift5_main_v201 (V : Valuation τ sig (Elt F)) : (after (ops (F := F)) V (Proc.devRef .tc main_v201)) = (U5 V (Proc.devRef .tc main_v201)) :=
  (lift6_main_v201 V).trans (after_of_not_mem writes5 (by decide) (U5 V))
theorem lift6_main_v202 (V : Valuation τ sig (Elt F)) : (after (ops (F := F)) V (Proc.devRef .tc main_v202)) = (U6 V (Proc.devRef .tc main_v202)) := congrFun (after_ops_eq V) _
theorem lift5_main_v202 (V : Valuation τ sig (Elt F)) : (after (ops (F := F)) V (Proc.devRef .tc main_v202)) = (U5 V (Proc.devRef .tc main_v202)) :=
  (lift6_main_v202 V).trans (after_of_not_mem writes5 (by decide) (U5 V))
theorem lift6_main_v203 (V : Valuation τ sig (Elt F)) : (after (ops (F := F)) V (Proc.devRef .tc main_v203)) = (U6 V (Proc.devRef .tc main_v203)) := congrFun (after_ops_eq V) _
theorem lift5_main_v203 (V : Valuation τ sig (Elt F)) : (after (ops (F := F)) V (Proc.devRef .tc main_v203)) = (U5 V (Proc.devRef .tc main_v203)) :=
  (lift6_main_v203 V).trans (after_of_not_mem writes5 (by decide) (U5 V))
theorem lift6_main_v204 (V : Valuation τ sig (Elt F)) : (after (ops (F := F)) V (Proc.devRef .tc main_v204)) = (U6 V (Proc.devRef .tc main_v204)) := congrFun (after_ops_eq V) _
theorem lift5_main_v204 (V : Valuation τ sig (Elt F)) : (after (ops (F := F)) V (Proc.devRef .tc main_v204)) = (U5 V (Proc.devRef .tc main_v204)) :=
  (lift6_main_v204 V).trans (after_of_not_mem writes5 (by decide) (U5 V))
theorem lift6_main_v205 (V : Valuation τ sig (Elt F)) : (after (ops (F := F)) V (Proc.devRef .tc main_v205)) = (U6 V (Proc.devRef .tc main_v205)) := congrFun (after_ops_eq V) _
theorem lift5_main_v205 (V : Valuation τ sig (Elt F)) : (after (ops (F := F)) V (Proc.devRef .tc main_v205)) = (U5 V (Proc.devRef .tc main_v205)) :=
  (lift6_main_v205 V).trans (after_of_not_mem writes5 (by decide) (U5 V))
theorem lift6_main_v206 (V : Valuation τ sig (Elt F)) : (after (ops (F := F)) V (Proc.devRef .tc main_v206)) = (U6 V (Proc.devRef .tc main_v206)) := congrFun (after_ops_eq V) _
theorem lift5_main_v206 (V : Valuation τ sig (Elt F)) : (after (ops (F := F)) V (Proc.devRef .tc main_v206)) = (U5 V (Proc.devRef .tc main_v206)) :=
  (lift6_main_v206 V).trans (after_of_not_mem writes5 (by decide) (U5 V))
theorem lift6_main_v207 (V : Valuation τ sig (Elt F)) : (after (ops (F := F)) V (Proc.devRef .tc main_v207)) = (U6 V (Proc.devRef .tc main_v207)) := congrFun (after_ops_eq V) _
theorem lift5_main_v207 (V : Valuation τ sig (Elt F)) : (after (ops (F := F)) V (Proc.devRef .tc main_v207)) = (U5 V (Proc.devRef .tc main_v207)) :=
  (lift6_main_v207 V).trans (after_of_not_mem writes5 (by decide) (U5 V))
theorem lift6_main_v208 (V : Valuation τ sig (Elt F)) : (after (ops (F := F)) V (Proc.devRef .tc main_v208)) = (U6 V (Proc.devRef .tc main_v208)) := congrFun (after_ops_eq V) _
theorem lift5_main_v208 (V : Valuation τ sig (Elt F)) : (after (ops (F := F)) V (Proc.devRef .tc main_v208)) = (U5 V (Proc.devRef .tc main_v208)) :=
  (lift6_main_v208 V).trans (after_of_not_mem writes5 (by decide) (U5 V))
theorem lift6_main_v209 (V : Valuation τ sig (Elt F)) : (after (ops (F := F)) V (Proc.devRef .tc main_v209)) = (U6 V (Proc.devRef .tc main_v209)) := congrFun (after_ops_eq V) _
theorem lift5_main_v209 (V : Valuation τ sig (Elt F)) : (after (ops (F := F)) V (Proc.devRef .tc main_v209)) = (U5 V (Proc.devRef .tc main_v209)) :=
  (lift6_main_v209 V).trans (after_of_not_mem writes5 (by decide) (U5 V))
theorem lift6_main_call8_cst (V : Valuation τ sig (Elt F)) : (after (ops (F := F)) V (Proc.devRef .tc main_call8_cst)) = (U6 V (Proc.devRef .tc main_call8_cst)) := congrFun (after_ops_eq V) _
theorem lift5_main_call8_cst (V : Valuation τ sig (Elt F)) : (after (ops (F := F)) V (Proc.devRef .tc main_call8_cst)) = (U5 V (Proc.devRef .tc main_call8_cst)) :=
  (lift6_main_call8_cst V).trans (after_of_not_mem writes5 (by decide) (U5 V))
theorem lift6_main_call8_v0 (V : Valuation τ sig (Elt F)) : (after (ops (F := F)) V (Proc.devRef .tc main_call8_v0)) = (U6 V (Proc.devRef .tc main_call8_v0)) := congrFun (after_ops_eq V) _
theorem lift5_main_call8_v0 (V : Valuation τ sig (Elt F)) : (after (ops (F := F)) V (Proc.devRef .tc main_call8_v0)) = (U5 V (Proc.devRef .tc main_call8_v0)) :=
  (lift6_main_call8_v0 V).trans (after_of_not_mem writes5 (by decide) (U5 V))
theorem lift6_main_v210 (V : Valuation τ sig (Elt F)) : (after (ops (F := F)) V (Proc.devRef .tc main_v210)) = (U6 V (Proc.devRef .tc main_v210)) := congrFun (after_ops_eq V) _
theorem lift5_main_v210 (V : Valuation τ sig (Elt F)) : (after (ops (F := F)) V (Proc.devRef .tc main_v210)) = (U5 V (Proc.devRef .tc main_v210)) :=
  (lift6_main_v210 V).trans (after_of_not_mem writes5 (by decide) (U5 V))
theorem lift6_main_c_46 (V : Valuation τ sig (Elt F)) : (after (ops (F := F)) V (Proc.devRef .tc main_c_46)) = (U6 V (Proc.devRef .tc main_c_46)) := congrFun (after_ops_eq V) _
theorem lift5_main_c_46 (V : Valuation τ sig (Elt F)) : (after (ops (F := F)) V (Proc.devRef .tc main_c_46)) = (U5 V (Proc.devRef .tc main_c_46)) :=
  (lift6_main_c_46 V).trans (after_of_not_mem writes5 (by decide) (U5 V))
theorem lift6_main_v211 (V : Valuation τ sig (Elt F)) : (after (ops (F := F)) V (Proc.devRef .tc main_v211)) = (U6 V (Proc.devRef .tc main_v211)) := congrFun (after_ops_eq V) _
theorem lift5_main_v211 (V : Valuation τ sig (Elt F)) : (after (ops (F := F)) V (Proc.devRef .tc main_v211)) = (U5 V (Proc.devRef .tc main_v211)) :=
  (lift6_main_v211 V).trans (after_of_not_mem writes5 (by decide) (U5 V))
theorem lift6_main_v212 (V : Valuation τ sig (Elt F)) : (after (ops (F := F)) V (Proc.devRef .tc main_v212)) = (U6 V (Proc.devRef .tc main_v212)) := congrFun (after_ops_eq V) _
theorem lift5_main_v212 (V : Valuation τ sig (Elt F)) : (after (ops (F := F)) V (Proc.devRef .tc main_v212)) = (U5 V (Proc.devRef .tc main_v212)) :=
  (lift6_main_v212 V).trans (after_of_not_mem writes5 (by decide) (U5 V))
theorem lift6_main_c_47 (V : Valuation τ sig (Elt F)) : (after (ops (F := F)) V (Proc.devRef .tc main_c_47)) = (U6 V (Proc.devRef .tc main_c_47)) := congrFun (after_ops_eq V) _
theorem lift5_main_c_47 (V : Valuation τ sig (Elt F)) : (after (ops (F := F)) V (Proc.devRef .tc main_c_47)) = (U5 V (Proc.devRef .tc main_c_47)) :=
  (lift6_main_c_47 V).trans (after_of_not_mem writes5 (by decide) (U5 V))
theorem lift6_main_v213 (V : Valuation τ sig (Elt F)) : (after (ops (F := F)) V (Proc.devRef .tc main_v213)) = (U6 V (Proc.devRef .tc main_v213)) := congrFun (after_ops_eq V) _
theorem lift5_main_v213 (V : Valuation τ sig (Elt F)) : (after (ops (F := F)) V (Proc.devRef .tc main_v213)) = (U5 V (Proc.devRef .tc main_v213)) :=
  (lift6_main_v213 V).trans (after_of_not_mem writes5 (by decide) (U5 V))
theorem lift6_main_v214 (V : Valuation τ sig (Elt F)) : (after (ops (F := F)) V (Proc.devRef .tc main_v214)) = (U6 V (Proc.devRef .tc main_v214)) := congrFun (after_ops_eq V) _
theorem lift5_main_v214 (V : Valuation τ sig (Elt F)) : (after (ops (F := F)) V (Proc.devRef .tc main_v214)) = (U5 V (Proc.devRef .tc main_v214)) :=
  (lift6_main_v214 V).trans (after_of_not_mem writes5 (by decide) (U5 V))
theorem lift6_main_v215 (V : Valuation τ sig (Elt F)) : (after (ops (F := F)) V (Proc.devRef .tc main_v215)) = (U6 V (Proc.devRef .tc main_v215)) := congrFun (after_ops_eq V) _
theorem lift5_main_v215 (V : Valuation τ sig (Elt F)) : (after (ops (F := F)) V (Proc.devRef .tc main_v215)) = (U5 V (Proc.devRef .tc main_v215)) :=
  (lift6_main_v215 V).trans (after_of_not_mem writes5 (by decide) (U5 V))
theorem lift6_main_v216 (V : Valuation τ sig (Elt F)) : (after (ops (F := F)) V (Proc.devRef .tc main_v216)) = (U6 V (Proc.devRef .tc main_v216)) := congrFun (after_ops_eq V) _
theorem lift5_main_v216 (V : Valuation τ sig (Elt F)) : (after (ops (F := F)) V (Proc.devRef .tc main_v216)) = (U5 V (Proc.devRef .tc main_v216)) :=
  (lift6_main_v216 V).trans (after_of_not_mem writes5 (by decide) (U5 V))
theorem lift6_main_v217 (V : Valuation τ sig (Elt F)) : (after (ops (F := F)) V (Proc.devRef .tc main_v217)) = (U6 V (Proc.devRef .tc main_v217)) := congrFun (after_ops_eq V) _
theorem lift5_main_v217 (V : Valuation τ sig (Elt F)) : (after (ops (F := F)) V (Proc.devRef .tc main_v217)) = (U5 V (Proc.devRef .tc main_v217)) :=
  (lift6_main_v217 V).trans (after_of_not_mem writes5 (by decide) (U5 V))
theorem lift6_main_c_48 (V : Valuation τ sig (Elt F)) : (after (ops (F := F)) V (Proc.devRef .tc main_c_48)) = (U6 V (Proc.devRef .tc main_c_48)) := congrFun (after_ops_eq V) _
theorem lift5_main_c_48 (V : Valuation τ sig (Elt F)) : (after (ops (F := F)) V (Proc.devRef .tc main_c_48)) = (U5 V (Proc.devRef .tc main_c_48)) :=
  (lift6_main_c_48 V).trans (after_of_not_mem writes5 (by decide) (U5 V))
theorem lift6_main_v218 (V : Valuation τ sig (Elt F)) : (after (ops (F := F)) V (Proc.devRef .tc main_v218)) = (U6 V (Proc.devRef .tc main_v218)) := congrFun (after_ops_eq V) _
theorem lift5_main_v218 (V : Valuation τ sig (Elt F)) : (after (ops (F := F)) V (Proc.devRef .tc main_v218)) = (U5 V (Proc.devRef .tc main_v218)) :=
  (lift6_main_v218 V).trans (after_of_not_mem writes5 (by decide) (U5 V))
theorem lift6_main_v219 (V : Valuation τ sig (Elt F)) : (after (ops (F := F)) V (Proc.devRef .tc main_v219)) = (U6 V (Proc.devRef .tc main_v219)) := congrFun (after_ops_eq V) _
theorem lift5_main_v219 (V : Valuation τ sig (Elt F)) : (after (ops (F := F)) V (Proc.devRef .tc main_v219)) = (U5 V (Proc.devRef .tc main_v219)) :=
  (lift6_main_v219 V).trans (after_of_not_mem writes5 (by decide) (U5 V))
theorem lift6_main_c_49 (V : Valuation τ sig (Elt F)) : (after (ops (F := F)) V (Proc.devRef .tc main_c_49)) = (U6 V (Proc.devRef .tc main_c_49)) := congrFun (after_ops_eq V) _
theorem lift5_main_c_49 (V : Valuation τ sig (Elt F)) : (after (ops (F := F)) V (Proc.devRef .tc main_c_49)) = (U5 V (Proc.devRef .tc main_c_49)) :=
  (lift6_main_c_49 V).trans (after_of_not_mem writes5 (by decide) (U5 V))
theorem lift6_main_v220 (V : Valuation τ sig (Elt F)) : (after (ops (F := F)) V (Proc.devRef .tc main_v220)) = (U6 V (Proc.devRef .tc main_v220)) := congrFun (after_ops_eq V) _
theorem lift5_main_v220 (V : Valuation τ sig (Elt F)) : (after (ops (F := F)) V (Proc.devRef .tc main_v220)) = (U5 V (Proc.devRef .tc main_v220)) :=
  (lift6_main_v220 V).trans (after_of_not_mem writes5 (by decide) (U5 V))
theorem lift6_main_v221 (V : Valuation τ sig (Elt F)) : (after (ops (F := F)) V (Proc.devRef .tc main_v221)) = (U6 V (Proc.devRef .tc main_v221)) := congrFun (after_ops_eq V) _
theorem lift5_main_v221 (V : Valuation τ sig (Elt F)) : (after (ops (F := F)) V (Proc.devRef .tc main_v221)) = (U5 V (Proc.devRef .tc main_v221)) :=
  (lift6_main_v221 V).trans (after_of_not_mem writes5 (by decide) (U5 V))
theorem lift6_main_v222 (V : Valuation τ sig (Elt F)) : (after (ops (F := F)) V (Proc.devRef .tc main_v222)) = (U6 V (Proc.devRef .tc main_v222)) := congrFun (after_ops_eq V) _
theorem lift5_main_v222 (V : Valuation τ sig (Elt F)) : (after (ops (F := F)) V (Proc.devRef .tc main_v222)) = (U5 V (Proc.devRef .tc main_v222)) :=
  (lift6_main_v222 V).trans (after_of_not_mem writes5 (by decide) (U5 V))
theorem lift6_main_v223 (V : Valuation τ sig (Elt F)) : (after (ops (F := F)) V (Proc.devRef .tc main_v223)) = (U6 V (Proc.devRef .tc main_v223)) := congrFun (after_ops_eq V) _
theorem lift5_main_v223 (V : Valuation τ sig (Elt F)) : (after (ops (F := F)) V (Proc.devRef .tc main_v223)) = (U5 V (Proc.devRef .tc main_v223)) :=
  (lift6_main_v223 V).trans (after_of_not_mem writes5 (by decide) (U5 V))
theorem lift6_main_v224 (V : Valuation τ sig (Elt F)) : (after (ops (F := F)) V (Proc.devRef .tc main_v224)) = (U6 V (Proc.devRef .tc main_v224)) := congrFun (after_ops_eq V) _
theorem lift5_main_v224 (V : Valuation τ sig (Elt F)) : (after (ops (F := F)) V (Proc.devRef .tc main_v224)) = (U5 V (Proc.devRef .tc main_v224)) :=
  (lift6_main_v224 V).trans (after_of_not_mem writes5 (by decide) (U5 V))
theorem lift6_main_c_50 (V : Valuation τ sig (Elt F)) : (after (ops (F := F)) V (Proc.devRef .tc main_c_50)) = (U6 V (Proc.devRef .tc main_c_50)) := congrFun (after_ops_eq V) _
theorem lift5_main_c_50 (V : Valuation τ sig (Elt F)) : (after (ops (F := F)) V (Proc.devRef .tc main_c_50)) = (U5 V (Proc.devRef .tc main_c_50)) :=
  (lift6_main_c_50 V).trans (after_of_not_mem writes5 (by decide) (U5 V))
theorem lift6_main_v225 (V : Valuation τ sig (Elt F)) : (after (ops (F := F)) V (Proc.devRef .tc main_v225)) = (U6 V (Proc.devRef .tc main_v225)) := congrFun (after_ops_eq V) _
theorem lift5_main_v225 (V : Valuation τ sig (Elt F)) : (after (ops (F := F)) V (Proc.devRef .tc main_v225)) = (U5 V (Proc.devRef .tc main_v225)) :=
  (lift6_main_v225 V).trans (after_of_not_mem writes5 (by decide) (U5 V))
theorem lift6_main_v226 (V : Valuation τ sig (Elt F)) : (after (ops (F := F)) V (Proc.devRef .tc main_v226)) = (U6 V (Proc.devRef .tc main_v226)) := congrFun (after_ops_eq V) _
theorem lift5_main_v226 (V : Valuation τ sig (Elt F)) : (after (ops (F := F)) V (Proc.devRef .tc main_v226)) = (U5 V (Proc.devRef .tc main_v226)) :=
  (lift6_main_v226 V).trans (after_of_not_mem writes5 (by decide) (U5 V))
theorem lift6_main_c_51 (V : Valuation τ sig (Elt F)) : (after (ops (F := F)) V (Proc.devRef .tc main_c_51)) = (U6 V (Proc.devRef .tc main_c_51)) := congrFun (after_ops_eq V) _
theorem lift5_main_c_51 (V : Valuation τ sig (Elt F)) : (after (ops (F := F)) V (Proc.devRef .tc main_c_51)) = (U5 V (Proc.devRef .tc main_c_51)) :=
  (lift6_main_c_51 V).trans (after_of_not_mem writes5 (by decide) (U5 V))
theorem lift6_main_v227 (V : Valuation τ sig (Elt F)) : (after (ops (F := F)) V (Proc.devRef .tc main_v227)) = (U6 V (Proc.devRef .tc main_v227)) := congrFun (after_ops_eq V) _
theorem lift5_main_v227 (V : Valuation τ sig (Elt F)) : (after (ops (F := F)) V (Proc.devRef .tc main_v227)) = (U5 V (Proc.devRef .tc main_v227)) :=
  (lift6_main_v227 V).trans (after_of_not_mem writes5 (by decide) (U5 V))
theorem lift6_main_v228 (V : Valuation τ sig (Elt F)) : (after (ops (F := F)) V (Proc.devRef .tc main_v228)) = (U6 V (Proc.devRef .tc main_v228)) := congrFun (after_ops_eq V) _
theorem lift5_main_v228 (V : Valuation τ sig (Elt F)) : (after (ops (F := F)) V (Proc.devRef .tc main_v228)) = (U5 V (Proc.devRef .tc main_v228)) :=
  (lift6_main_v228 V).trans (after_of_not_mem writes5 (by decide) (U5 V))
theorem lift6_main_v229 (V : Valuation τ sig (Elt F)) : (after (ops (F := F)) V (Proc.devRef .tc main_v229)) = (U6 V (Proc.devRef .tc main_v229)) := congrFun (after_ops_eq V) _
theorem lift5_main_v229 (V : Valuation τ sig (Elt F)) : (after (ops (F := F)) V (Proc.devRef .tc main_v229)) = (U5 V (Proc.devRef .tc main_v229)) :=
  (lift6_main_v229 V).trans (after_of_not_mem writes5 (by decide) (U5 V))
theorem lift6_main_v230 (V : Valuation τ sig (Elt F)) : (after (ops (F := F)) V (Proc.devRef .tc main_v230)) = (U6 V (Proc.devRef .tc main_v230)) := congrFun (after_ops_eq V) _
theorem lift5_main_v230 (V : Valuation τ sig (Elt F)) : (after (ops (F := F)) V (Proc.devRef .tc main_v230)) = (U5 V (Proc.devRef .tc main_v230)) :=
  (lift6_main_v230 V).trans (after_of_not_mem writes5 (by decide) (U5 V))
theorem lift6_main_v231 (V : Valuation τ sig (Elt F)) : (after (ops (F := F)) V (Proc.devRef .tc main_v231)) = (U6 V (Proc.devRef .tc main_v231)) := congrFun (after_ops_eq V) _
theorem lift5_main_v231 (V : Valuation τ sig (Elt F)) : (after (ops (F := F)) V (Proc.devRef .tc main_v231)) = (U5 V (Proc.devRef .tc main_v231)) :=
  (lift6_main_v231 V).trans (after_of_not_mem writes5 (by decide) (U5 V))
theorem lift6_main_c_52 (V : Valuation τ sig (Elt F)) : (after (ops (F := F)) V (Proc.devRef .tc main_c_52)) = (U6 V (Proc.devRef .tc main_c_52)) := congrFun (after_ops_eq V) _
theorem lift5_main_c_52 (V : Valuation τ sig (Elt F)) : (after (ops (F := F)) V (Proc.devRef .tc main_c_52)) = (U5 V (Proc.devRef .tc main_c_52)) :=
  (lift6_main_c_52 V).trans (after_of_not_mem writes5 (by decide) (U5 V))
theorem lift6_main_v232 (V : Valuation τ sig (Elt F)) : (after (ops (F := F)) V (Proc.devRef .tc main_v232)) = (U6 V (Proc.devRef .tc main_v232)) := congrFun (after_ops_eq V) _
theorem lift5_main_v232 (V : Valuation τ sig (Elt F)) : (after (ops (F := F)) V (Proc.devRef .tc main_v232)) = (U5 V (Proc.devRef .tc main_v232)) :=
  (lift6_main_v232 V).trans (after_of_not_mem writes5 (by decide) (U5 V))
theorem lift6_main_v233 (V : Valuation τ sig (Elt F)) : (after (ops (F := F)) V (Proc.devRef .tc main_v233)) = (U6 V (Proc.devRef .tc main_v233)) := congrFun (after_ops_eq V) _
theorem lift5_main_v233 (V : Valuation τ sig (Elt F)) : (after (ops (F := F)) V (Proc.devRef .tc main_v233)) = (U5 V (Proc.devRef .tc main_v233)) :=
  (lift6_main_v233 V).trans (after_of_not_mem writes5 (by decide) (U5 V))
theorem lift6_main_c_53 (V : Valuation τ sig (Elt F)) : (after (ops (F := F)) V (Proc.devRef .tc main_c_53)) = (U6 V (Proc.devRef .tc main_c_53)) := congrFun (after_ops_eq V) _
theorem lift5_main_c_53 (V : Valuation τ sig (Elt F)) : (after (ops (F := F)) V (Proc.devRef .tc main_c_53)) = (U5 V (Proc.devRef .tc main_c_53)) :=
  (lift6_main_c_53 V).trans (after_of_not_mem writes5 (by decide) (U5 V))
theorem lift6_main_v234 (V : Valuation τ sig (Elt F)) : (after (ops (F := F)) V (Proc.devRef .tc main_v234)) = (U6 V (Proc.devRef .tc main_v234)) := congrFun (after_ops_eq V) _
theorem lift5_main_v234 (V : Valuation τ sig (Elt F)) : (after (ops (F := F)) V (Proc.devRef .tc main_v234)) = (U5 V (Proc.devRef .tc main_v234)) :=
  (lift6_main_v234 V).trans (after_of_not_mem writes5 (by decide) (U5 V))
theorem lift6_main_v235 (V : Valuation τ sig (Elt F)) : (after (ops (F := F)) V (Proc.devRef .tc main_v235)) = (U6 V (Proc.devRef .tc main_v235)) := congrFun (after_ops_eq V) _
theorem lift5_main_v235 (V : Valuation τ sig (Elt F)) : (after (ops (F := F)) V (Proc.devRef .tc main_v235)) = (U5 V (Proc.devRef .tc main_v235)) :=
  (lift6_main_v235 V).trans (after_of_not_mem writes5 (by decide) (U5 V))
theorem lift6_main_v236 (V : Valuation τ sig (Elt F)) : (after (ops (F := F)) V (Proc.devRef .tc main_v236)) = (U6 V (Proc.devRef .tc main_v236)) := congrFun (after_ops_eq V) _
theorem lift5_main_v236 (V : Valuation τ sig (Elt F)) : (after (ops (F := F)) V (Proc.devRef .tc main_v236)) = (U5 V (Proc.devRef .tc main_v236)) :=
  (lift6_main_v236 V).trans (after_of_not_mem writes5 (by decide) (U5 V))
theorem lift6_main_v237 (V : Valuation τ sig (Elt F)) : (after (ops (F := F)) V (Proc.devRef .tc main_v237)) = (U6 V (Proc.devRef .tc main_v237)) := congrFun (after_ops_eq V) _
theorem lift5_main_v237 (V : Valuation τ sig (Elt F)) : (after (ops (F := F)) V (Proc.devRef .tc main_v237)) = (U5 V (Proc.devRef .tc main_v237)) :=
  (lift6_main_v237 V).trans (after_of_not_mem writes5 (by decide) (U5 V))
theorem lift6_main_v238 (V : Valuation τ sig (Elt F)) : (after (ops (F := F)) V (Proc.devRef .tc main_v238)) = (U6 V (Proc.devRef .tc main_v238)) := congrFun (after_ops_eq V) _
theorem lift5_main_v238 (V : Valuation τ sig (Elt F)) : (after (ops (F := F)) V (Proc.devRef .tc main_v238)) = (U5 V (Proc.devRef .tc main_v238)) :=
  (lift6_main_v238 V).trans (after_of_not_mem writes5 (by decide) (U5 V))
theorem lift6_main_v239 (V : Valuation τ sig (Elt F)) : (after (ops (F := F)) V (Proc.devRef .tc main_v239)) = (U6 V (Proc.devRef .tc main_v239)) := congrFun (after_ops_eq V) _
theorem lift5_main_v239 (V : Valuation τ sig (Elt F)) : (after (ops (F := F)) V (Proc.devRef .tc main_v239)) = (U5 V (Proc.devRef .tc main_v239)) :=
  (lift6_main_v239 V).trans (after_of_not_mem writes5 (by decide) (U5 V))
theorem lift6_main_v240 (V : Valuation τ sig (Elt F)) : (after (ops (F := F)) V (Proc.devRef .tc main_v240)) = (U6 V (Proc.devRef .tc main_v240)) := congrFun (after_ops_eq V) _
theorem lift5_main_v240 (V : Valuation τ sig (Elt F)) : (after (ops (F := F)) V (Proc.devRef .tc main_v240)) = (U5 V (Proc.devRef .tc main_v240)) :=
  (lift6_main_v240 V).trans (after_of_not_mem writes5 (by decide) (U5 V))
theorem lift6_main_v241 (V : Valuation τ sig (Elt F)) : (after (ops (F := F)) V (Proc.devRef .tc main_v241)) = (U6 V (Proc.devRef .tc main_v241)) := congrFun (after_ops_eq V) _
theorem lift5_main_v241 (V : Valuation τ sig (Elt F)) : (after (ops (F := F)) V (Proc.devRef .tc main_v241)) = (U5 V (Proc.devRef .tc main_v241)) :=
  (lift6_main_v241 V).trans (after_of_not_mem writes5 (by decide) (U5 V))
theorem lift6_main_v242 (V : Valuation τ sig (Elt F)) : (after (ops (F := F)) V (Proc.devRef .tc main_v242)) = (U6 V (Proc.devRef .tc main_v242)) := congrFun (after_ops_eq V) _
theorem lift5_main_v242 (V : Valuation τ sig (Elt F)) : (after (ops (F := F)) V (Proc.devRef .tc main_v242)) = (U5 V (Proc.devRef .tc main_v242)) :=
  (lift6_main_v242 V).trans (after_of_not_mem writes5 (by decide) (U5 V))
theorem lift6_main_v243 (V : Valuation τ sig (Elt F)) : (after (ops (F := F)) V (Proc.devRef .tc main_v243)) = (U6 V (Proc.devRef .tc main_v243)) := congrFun (after_ops_eq V) _
theorem lift5_main_v243 (V : Valuation τ sig (Elt F)) : (after (ops (F := F)) V (Proc.devRef .tc main_v243)) = (U5 V (Proc.devRef .tc main_v243)) :=
  (lift6_main_v243 V).trans (after_of_not_mem writes5 (by decide) (U5 V))

end Cert.ReferenceIdeal.Hand

end
-- ==== Proof.Ref.Rd4.lean ====
-- written by: gen_ref.js <unit directory>
/- Window 4's operations read at the END of the reference program's @main: each result buffer holds its operation's function of its operands' final contents (none of them is written again). -/
import proofs.«123839_j71768903516633_2_alg».proof.Proof.Ref.S4
import proofs.«123839_j71768903516633_2_alg».proof.Proof.Ref.Lift0
import proofs.«123839_j71768903516633_2_alg».proof.Proof.Ref.Lift2
import proofs.«123839_j71768903516633_2_alg».proof.Proof.Ref.Lift3
import proofs.«123839_j71768903516633_2_alg».proof.Proof.Ref.Lift4
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem rd_main_v195 (V : Valuation τ sig (Elt F)) : (after (ops (F := F)) V (Proc.devRef .tc main_v195)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_arg4))) :=
  (lift5_main_v195 V).trans ((s_main_v195 (U4 V)).trans (congrArg (broadcastInDim S30000x1 ![0] bcast_S30000_S30000x1_0 : (⟨S30000, .i32⟩ : BufTy).Contents (Elt F) → (⟨S30000x1, .i32⟩ : BufTy).Contents (Elt F)) (lift5_main_arg4 V).symm))
theorem rd_main_v196 (V : Valuation τ sig (Elt F)) : (after (ops (F := F)) V (Proc.devRef .tc main_v196)) = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (after (ops (F := F)) V (Proc.devRef .tc main_v194)) (after (ops (F := F)) V (Proc.devRef .tc main_v195)) (after (ops (F := F)) V (Proc.devRef .tc main_v193))) :=
  (lift5_main_v196 V).trans ((s_main_v196 (U4 V)).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (lift5_main_v194 V).symm (lift5_main_v195 V).symm (lift5_main_v193 V).symm))
theorem rd_main_cst_43 (V : Valuation τ sig (Elt F)) : (after (ops (F := F)) V (Proc.devRef .tc main_cst_43)) = (constant (F := F) S_ .f32 0x3F800000#32) :=
  (lift5_main_cst_43 V).trans ((s_main_cst_43 (U4 V)))
theorem rd_main_v197 (V : Valuation τ sig (Elt F)) : (after (ops (F := F)) V (Proc.devRef .tc main_v197)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_43))) :=
  (lift5_main_v197 V).trans ((s_main_v197 (U4 V)).trans (congrArg (broadcastInDim S30000x1 ![] bcast_S_S30000x1 : (⟨S_, .f32⟩ : BufTy).Contents (Elt F) → (⟨S30000x1, .f32⟩ : BufTy).Contents (Elt F)) (lift5_main_cst_43 V).symm))
theorem rd_main_cst_44 (V : Valuation τ sig (Elt F)) : (after (ops (F := F)) V (Proc.devRef .tc main_cst_44)) = (constant (F := F) S_ .f32 0x00000000#32) :=
  (lift5_main_cst_44 V).trans ((s_main_cst_44 (U4 V)))
theorem rd_main_v198 (V : Valuation τ sig (Elt F)) : (after (ops (F := F)) V (Proc.devRef .tc main_v198)) = ((broadcastInDim S64x1 ![] bcast_S_S64x1 : (⟨S_, .f32⟩ : BufTy).Contents (Elt F) → (⟨S64x1, .f32⟩ : BufTy).Contents (Elt F)) (after (ops (F := F)) V (Proc.devRef .tc main_cst_44))) :=
  (lift5_main_v198 V).trans ((s_main_v198 (U4 V)).trans (congrArg (broadcastInDim S64x1 ![] bcast_S_S64x1 : (⟨S_, .f32⟩ : BufTy).Contents (Elt F) → (⟨S64x1, .f32⟩ : BufTy).Contents (Elt F)) (lift5_main_cst_44 V).symm))
theorem rd_main_v199 (V : Valuation τ sig (Elt F)) : (after (ops (F := F)) V (Proc.devRef .tc main_v199)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_arg4))) :=
  (lift5_main_v199 V).trans ((s_main_v199 (U4 V)).trans (congrArg (broadcastInDim S30000x1 ![0] bcast_S30000_S30000x1_0 : (⟨S30000, .i32⟩ : BufTy).Contents (Elt F) → (⟨S30000x1, .i32⟩ : BufTy).Contents (Elt F)) (lift5_main_arg4 V).symm))
theorem rd_main_v200 (V : Valuation τ sig (Elt F)) : (after (ops (F := F)) V (Proc.devRef .tc main_v200)) = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (after (ops (F := F)) V (Proc.devRef .tc main_v198)) (after (ops (F := F)) V (Proc.devRef .tc main_v199)) (after (ops (F := F)) V (Proc.devRef .tc main_v197))) :=
  (lift5_main_v200 V).trans ((s_main_v200 (U4 V)).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (lift5_main_v198 V).symm (lift5_main_v199 V).symm (lift5_main_v197 V).symm))
theorem rd_main_cst_45 (V : Valuation τ sig (Elt F)) : (after (ops (F := F)) V (Proc.devRef .tc main_cst_45)) = (constant (F := F) S_ .f32 0x3F800000#32) :=
  (lift5_main_cst_45 V).trans ((s_main_cst_45 (U4 V)))
theorem rd_main_v201 (V : Valuation τ sig (Elt F)) : (after (ops (F := F)) V (Proc.devRef .tc main_v201)) = ((broadcastInDim S64x1 ![] bcast_S_S64x1 : (⟨S_, .f32⟩ : BufTy).Contents (Elt F) → (⟨S64x1, .f32⟩ : BufTy).Contents (Elt F)) (after (ops (F := F)) V (Proc.devRef .tc main_cst_45))) :=
  (lift5_main_v201 V).trans ((s_main_v201 (U4 V)).trans (congrArg (broadcastInDim S64x1 ![] bcast_S_S64x1 : (⟨S_, .f32⟩ : BufTy).Contents (Elt F) → (⟨S64x1, .f32⟩ : BufTy).Contents (Elt F)) (lift5_main_cst_45 V).symm))
theorem rd_main_v202 (V : Valuation τ sig (Elt F)) : (after (ops (F := F)) V (Proc.devRef .tc main_v202)) = ((maximumf : (⟨S64x1, .f32⟩ : BufTy).Contents (Elt F) → (⟨S64x1, .f32⟩ : BufTy).Contents (Elt F) → (⟨S64x1, .f32⟩ : BufTy).Contents (Elt F)) (after (ops (F := F)) V (Proc.devRef .tc main_v200)) (after (ops (F := F)) V (Proc.devRef .tc main_v201))) :=
  (lift5_main_v202 V).trans ((s_main_v202 (U4 V)).trans (congrArg₂ (maximumf : (⟨S64x1, .f32⟩ : BufTy).Contents (Elt F) → (⟨S64x1, .f32⟩ : BufTy).Contents (Elt F) → (⟨S64x1, .f32⟩ : BufTy).Contents (Elt F)) (lift5_main_v200 V).symm (lift5_main_v201 V).symm))
theorem rd_main_v203 (V : Valuation τ sig (Elt F)) : (after (ops (F := F)) V (Proc.devRef .tc main_v203)) = ((broadcastInDim S64x64 ![0, 1] bcast_S64x1_S64x64_0_1 : (⟨S64x1, .f32⟩ : BufTy).Contents (Elt F) → (⟨S64x64, .f32⟩ : BufTy).Contents (Elt F)) (after (ops (F := F)) V (Proc.devRef .tc main_v202))) :=
  (lift5_main_v203 V).trans ((s_main_v203 (U4 V)).trans (congrArg (broadcastInDim S64x64 ![0, 1] bcast_S64x1_S64x64_0_1 : (⟨S64x1, .f32⟩ : BufTy).Contents (Elt F) → (⟨S64x64, .f32⟩ : BufTy).Contents (Elt F)) (lift5_main_v202 V).symm))
theorem rd_main_v204 (V : Valuation τ sig (Elt F)) : (after (ops (F := F)) V (Proc.devRef .tc main_v204)) = ((Host.divf : (⟨S64x64, .f32⟩ : BufTy).Contents (Elt F) → (⟨S64x64, .f32⟩ : BufTy).Contents (Elt F) → (⟨S64x64, .f32⟩ : BufTy).Contents (Elt F)) (after (ops (F := F)) V (Proc.devRef .tc main_v196)) (after (ops (F := F)) V (Proc.devRef .tc main_v203))) :=
  (lift5_main_v204 V).trans ((s_main_v204 (U4 V)).trans (congrArg₂ (Host.divf : (⟨S64x64, .f32⟩ : BufTy).Contents (Elt F) → (⟨S64x64, .f32⟩ : BufTy).Contents (Elt F) → (⟨S64x64, .f32⟩ : BufTy).Contents (Elt F)) (lift5_main_v196 V).symm (lift5_main_v203 V).symm))
theorem rd_main_v205 (V : Valuation τ sig (Elt F)) : (after (ops (F := F)) V (Proc.devRef .tc main_v205)) = (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (after (ops (F := F)) V (Proc.devRef .tc main_v204)) (after (ops (F := F)) V (Proc.devRef .tc main_v135))) :=
  (lift5_main_v205 V).trans ((s_main_v205 (U4 V)).trans (congrArg₂ ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (lift5_main_v204 V).symm (lift5_main_v135 V).symm))
theorem rd_main_v206 (V : Valuation τ sig (Elt F)) : (after (ops (F := F)) V (Proc.devRef .tc main_v206)) = (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (after (ops (F := F)) V (Proc.devRef .tc main_v205)) (after (ops (F := F)) V (Proc.devRef .tc main_arg21))) :=
  (lift5_main_v206 V).trans ((s_main_v206 (U4 V)).trans (congrArg₂ ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (lift5_main_v205 V).symm (lift5_main_arg21 V).symm))
theorem rd_main_v207 (V : Valuation τ sig (Elt F)) : (after (ops (F := F)) V (Proc.devRef .tc main_v207)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg22))) :=
  (lift5_main_v207 V).trans ((s_main_v207 (U4 V)).trans (congrArg (broadcastInDim S1x64 ![1] bcast_S64_S1x64_1 : (⟨S64, .f32⟩ : BufTy).Contents (Elt F) → (⟨S1x64, .f32⟩ : BufTy).Contents (Elt F)) (lift5_main_arg22 V).symm))
theorem rd_main_v208 (V : Valuation τ sig (Elt F)) : (after (ops (F := F)) V (Proc.devRef .tc main_v208)) = ((broadcastInDim S64x64 ![0, 1] bcast_S1x64_S64x64_0_1 : (⟨S1x64, .f32⟩ : BufTy).Contents (Elt F) → (⟨S64x64, .f32⟩ : BufTy).Contents (Elt F)) (after (ops (F := F)) V (Proc.devRef .tc main_v207))) :=
  (lift5_main_v208 V).trans ((s_main_v208 (U4 V)).trans (congrArg (broadcastInDim S64x64 ![0, 1] bcast_S1x64_S64x64_0_1 : (⟨S1x64, .f32⟩ : BufTy).Contents (Elt F) → (⟨S64x64, .f32⟩ : BufTy).Contents (Elt F)) (lift5_main_v207 V).symm))
theorem rd_main_v209 (V : Valuation τ sig (Elt F)) : (after (ops (F := F)) V (Proc.devRef .tc main_v209)) = ((addf : (⟨S64x64, .f32⟩ : BufTy).Contents (Elt F) → (⟨S64x64, .f32⟩ : BufTy).Contents (Elt F) → (⟨S64x64, .f32⟩ : BufTy).Contents (Elt F)) (after (ops (F := F)) V (Proc.devRef .tc main_v206)) (after (ops (F := F)) V (Proc.devRef .tc main_v208))) :=
  (lift5_main_v209 V).trans ((s_main_v209 (U4 V)).trans (congrArg₂ (addf : (⟨S64x64, .f32⟩ : BufTy).Contents (Elt F) → (⟨S64x64, .f32⟩ : BufTy).Contents (Elt F) → (⟨S64x64, .f32⟩ : BufTy).Contents (Elt F)) (lift5_main_v206 V).symm (lift5_main_v208 V).symm))
theorem rd_main_call8_cst (V : Valuation τ sig (Elt F)) : (after (ops (F := F)) V (Proc.devRef .tc main_call8_cst)) = (constant (F := F) S_ .f32 0x00000000#32) :=
  (lift5_main_call8_cst V).trans ((s_main_call8_cst (U4 V)))
theorem rd_main_call8_v0 (V : Valuation τ sig (Elt F)) : (after (ops (F := F)) V (Proc.devRef .tc main_call8_v0)) = (((broadcastInDim S64x64 ![] bcast_S_S64x64) : (⟨S_, .f32⟩ : BufTy).Contents (Elt F) → (⟨S64x64, .f32⟩ : BufTy).Contents (Elt F)) (after (ops (F := F)) V (Proc.devRef .tc main_call8_cst))) :=
  (lift5_main_call8_v0 V).trans ((s_main_call8_v0 (U4 V)).trans (congrArg ((broadcastInDim S64x64 ![] bcast_S_S64x64) : (⟨S_, .f32⟩ : BufTy).Contents (Elt F) → (⟨S64x64, .f32⟩ : BufTy).Contents (Elt F)) (lift5_main_call8_cst V).symm))
theorem rd_main_v210 (V : Valuation τ sig (Elt F)) : (after (ops (F := F)) V (Proc.devRef .tc main_v210)) = ((maximumf : (⟨S64x64, .f32⟩ : BufTy).Contents (Elt F) → (⟨S64x64, .f32⟩ : BufTy).Contents (Elt F) → (⟨S64x64, .f32⟩ : BufTy).Contents (Elt F)) (after (ops (F := F)) V (Proc.devRef .tc main_v209)) (after (ops (F := F)) V (Proc.devRef .tc main_call8_v0))) :=
  (lift5_main_v210 V).trans ((s_main_v210 (U4 V)).trans (congrArg₂ (maximumf : (⟨S64x64, .f32⟩ : BufTy).Contents (Elt F) → (⟨S64x64, .f32⟩ : BufTy).Contents (Elt F) → (⟨S64x64, .f32⟩ : BufTy).Contents (Elt F)) (lift5_main_v209 V).symm (lift5_main_call8_v0 V).symm))
theorem rd_main_c_46 (V : Valuation τ sig (Elt F)) : (after (ops (F := F)) V (Proc.devRef .tc main_c_46)) = (constantI S_ 32 0#32) :=
  (lift5_main_c_46 V).trans ((s_main_c_46 (U4 V)))
theorem rd_main_v211 (V : Valuation τ sig (Elt F)) : (after (ops (F := F)) V (Proc.devRef .tc main_v211)) = ((broadcastInDim S300000 ![] bcast_S_S300000 : (⟨S_, .i32⟩ : BufTy).Contents (Elt F) → (⟨S300000, .i32⟩ : BufTy).Contents (Elt F)) (after (ops (F := F)) V (Proc.devRef .tc main_c_46))) :=
  (lift5_main_v211 V).trans ((s_main_v211 (U4 V)).trans (congrArg (broadcastInDim S300000 ![] bcast_S_S300000 : (⟨S_, .i32⟩ : BufTy).Contents (Elt F) → (⟨S300000, .i32⟩ : BufTy).Contents (Elt F)) (lift5_main_c_46 V).symm))
theorem rd_main_v212 (V : Valuation τ sig (Elt F)) : (after (ops (F := F)) V (Proc.devRef .tc main_v212)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v1)) (after (ops (F := F)) V (Proc.devRef .tc main_v211))) :=
  (lift5_main_v212 V).trans ((s_main_v212 (U4 V)).trans (congrArg₂ (cmpi .slt : (⟨S300000, .i32⟩ : BufTy).Contents (Elt F) → (⟨S300000, .i32⟩ : BufTy).Contents (Elt F) → (⟨S300000, .i1⟩ : BufTy).Contents (Elt F)) (lift5_main_v1 V).symm (lift5_main_v211 V).symm))
theorem rd_main_c_47 (V : Valuation τ sig (Elt F)) : (after (ops (F := F)) V (Proc.devRef .tc main_c_47)) = (constantI S_ 32 30000#32) :=
  (lift5_main_c_47 V).trans ((s_main_c_47 (U4 V)))
theorem rd_main_v213 (V : Valuation τ sig (Elt F)) : (after (ops (F := F)) V (Proc.devRef .tc main_v213)) = ((broadcastInDim S300000 ![] bcast_S_S300000 : (⟨S_, .i32⟩ : BufTy).Contents (Elt F) → (⟨S300000, .i32⟩ : BufTy).Contents (Elt F)) (after (ops (F := F)) V (Proc.devRef .tc main_c_47))) :=
  (lift5_main_v213 V).trans ((s_main_v213 (U4 V)).trans (congrArg (broadcastInDim S300000 ![] bcast_S_S300000 : (⟨S_, .i32⟩ : BufTy).Contents (Elt F) → (⟨S300000, .i32⟩ : BufTy).Contents (Elt F)) (lift5_main_c_47 V).symm))
theorem rd_main_v214 (V : Valuation τ sig (Elt F)) : (after (ops (F := F)) V (Proc.devRef .tc main_v214)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v1)) (after (ops (F := F)) V (Proc.devRef .tc main_v213))) :=
  (lift5_main_v214 V).trans ((s_main_v214 (U4 V)).trans (congrArg₂ (addi : (⟨S300000, .i32⟩ : BufTy).Contents (Elt F) → (⟨S300000, .i32⟩ : BufTy).Contents (Elt F) → (⟨S300000, .i32⟩ : BufTy).Contents (Elt F)) (lift5_main_v1 V).symm (lift5_main_v213 V).symm))
theorem rd_main_v215 (V : Valuation τ sig (Elt F)) : (after (ops (F := F)) V (Proc.devRef .tc main_v215)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v212)) (after (ops (F := F)) V (Proc.devRef .tc main_v214)) (after (ops (F := F)) V (Proc.devRef .tc main_v1))) :=
  (lift5_main_v215 V).trans ((s_main_v215 (U4 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift5_main_v212 V).symm (lift5_main_v214 V).symm (lift5_main_v1 V).symm))
theorem rd_main_v216 (V : Valuation τ sig (Elt F)) : (after (ops (F := F)) V (Proc.devRef .tc main_v216)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v215))) :=
  (lift5_main_v216 V).trans ((s_main_v216 (U4 V)).trans (congrArg (broadcastInDim S300000x1 ![0] bcast_S300000_S300000x1_0 : (⟨S300000, .i32⟩ : BufTy).Contents (Elt F) → (⟨S300000x1, .i32⟩ : BufTy).Contents (Elt F)) (lift5_main_v215 V).symm))
theorem rd_main_v217 (V : Valuation τ sig (Elt F)) : (after (ops (F := F)) V (Proc.devRef .tc main_v217)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) (after (ops (F := F)) V (Proc.devRef .tc main_v216))) :=
  (lift5_main_v217 V).trans ((s_main_v217 (U4 V)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (lift5_main_v193 V).symm (lift5_main_v216 V).symm))
theorem rd_main_c_48 (V : Valuation τ sig (Elt F)) : (after (ops (F := F)) V (Proc.devRef .tc main_c_48)) = (constantI S_ 32 0#32) :=
  (lift5_main_c_48 V).trans ((s_main_c_48 (U4 V)))
theorem rd_main_v218 (V : Valuation τ sig (Elt F)) : (after (ops (F := F)) V (Proc.devRef .tc main_v218)) = ((broadcastInDim S300000 ![] bcast_S_S300000 : (⟨S_, .i32⟩ : BufTy).Contents (Elt F) → (⟨S300000, .i32⟩ : BufTy).Contents (Elt F)) (after (ops (F := F)) V (Proc.devRef .tc main_c_48))) :=
  (lift5_main_v218 V).trans ((s_main_v218 (U4 V)).trans (congrArg (broadcastInDim S300000 ![] bcast_S_S300000 : (⟨S_, .i32⟩ : BufTy).Contents (Elt F) → (⟨S300000, .i32⟩ : BufTy).Contents (Elt F)) (lift5_main_c_48 V).symm))
theorem rd_main_v219 (V : Valuation τ sig (Elt F)) : (after (ops (F := F)) V (Proc.devRef .tc main_v219)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v3)) (after (ops (F := F)) V (Proc.devRef .tc main_v218))) :=
  (lift5_main_v219 V).trans ((s_main_v219 (U4 V)).trans (congrArg₂ (cmpi .slt : (⟨S300000, .i32⟩ : BufTy).Contents (Elt F) → (⟨S300000, .i32⟩ : BufTy).Contents (Elt F) → (⟨S300000, .i1⟩ : BufTy).Contents (Elt F)) (lift5_main_v3 V).symm (lift5_main_v218 V).symm))
theorem rd_main_c_49 (V : Valuation τ sig (Elt F)) : (after (ops (F := F)) V (Proc.devRef .tc main_c_49)) = (constantI S_ 32 30000#32) :=
  (lift5_main_c_49 V).trans ((s_main_c_49 (U4 V)))
theorem rd_main_v220 (V : Valuation τ sig (Elt F)) : (after (ops (F := F)) V (Proc.devRef .tc main_v220)) = ((broadcastInDim S300000 ![] bcast_S_S300000 : (⟨S_, .i32⟩ : BufTy).Contents (Elt F) → (⟨S300000, .i32⟩ : BufTy).Contents (Elt F)) (after (ops (F := F)) V (Proc.devRef .tc main_c_49))) :=
  (lift5_main_v220 V).trans ((s_main_v220 (U4 V)).trans (congrArg (broadcastInDim S300000 ![] bcast_S_S300000 : (⟨S_, .i32⟩ : BufTy).Contents (Elt F) → (⟨S300000, .i32⟩ : BufTy).Contents (Elt F)) (lift5_main_c_49 V).symm))
theorem rd_main_v221 (V : Valuation τ sig (Elt F)) : (after (ops (F := F)) V (Proc.devRef .tc main_v221)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v3)) (after (ops (F := F)) V (Proc.devRef .tc main_v220))) :=
  (lift5_main_v221 V).trans ((s_main_v221 (U4 V)).trans (congrArg₂ (addi : (⟨S300000, .i32⟩ : BufTy).Contents (Elt F) → (⟨S300000, .i32⟩ : BufTy).Contents (Elt F) → (⟨S300000, .i32⟩ : BufTy).Contents (Elt F)) (lift5_main_v3 V).symm (lift5_main_v220 V).symm))
theorem rd_main_v222 (V : Valuation τ sig (Elt F)) : (after (ops (F := F)) V (Proc.devRef .tc main_v222)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v219)) (after (ops (F := F)) V (Proc.devRef .tc main_v221)) (after (ops (F := F)) V (Proc.devRef .tc main_v3))) :=
  (lift5_main_v222 V).trans ((s_main_v222 (U4 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift5_main_v219 V).symm (lift5_main_v221 V).symm (lift5_main_v3 V).symm))
theorem rd_main_v223 (V : Valuation τ sig (Elt F)) : (after (ops (F := F)) V (Proc.devRef .tc main_v223)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v222))) :=
  (lift5_main_v223 V).trans ((s_main_v223 (U4 V)).trans (congrArg (broadcastInDim S300000x1 ![0] bcast_S300000_S300000x1_0 : (⟨S300000, .i32⟩ : BufTy).Contents (Elt F) → (⟨S300000x1, .i32⟩ : BufTy).Contents (Elt F)) (lift5_main_v222 V).symm))
theorem rd_main_v224 (V : Valuation τ sig (Elt F)) : (after (ops (F := F)) V (Proc.devRef .tc main_v224)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) (after (ops (F := F)) V (Proc.devRef .tc main_v223))) :=
  (lift5_main_v224 V).trans ((s_main_v224 (U4 V)).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (lift5_main_v193 V).symm (lift5_main_v223 V).symm))
theorem rd_main_c_50 (V : Valuation τ sig (Elt F)) : (after (ops (F := F)) V (Proc.devRef .tc main_c_50)) = (constantI S_ 32 0#32) :=
  (lift5_main_c_50 V).trans ((s_main_c_50 (U4 V)))
theorem rd_main_v225 (V : Valuation τ sig (Elt F)) : (after (ops (F := F)) V (Proc.devRef .tc main_v225)) = ((broadcastInDim S300000 ![] bcast_S_S300000 : (⟨S_, .i32⟩ : BufTy).Contents (Elt F) → (⟨S300000, .i32⟩ : BufTy).Contents (Elt F)) (after (ops (F := F)) V (Proc.devRef .tc main_c_50))) :=
  (lift5_main_v225 V).trans ((s_main_v225 (U4 V)).trans (congrArg (broadcastInDim S300000 ![] bcast_S_S300000 : (⟨S_, .i32⟩ : BufTy).Contents (Elt F) → (⟨S300000, .i32⟩ : BufTy).Contents (Elt F)) (lift5_main_c_50 V).symm))
theorem rd_main_v226 (V : Valuation τ sig (Elt F)) : (after (ops (F := F)) V (Proc.devRef .tc main_v226)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v1)) (after (ops (F := F)) V (Proc.devRef .tc main_v225))) :=
  (lift5_main_v226 V).trans ((s_main_v226 (U4 V)).trans (congrArg₂ (cmpi .slt : (⟨S300000, .i32⟩ : BufTy).Contents (Elt F) → (⟨S300000, .i32⟩ : BufTy).Contents (Elt F) → (⟨S300000, .i1⟩ : BufTy).Contents (Elt F)) (lift5_main_v1 V).symm (lift5_main_v225 V).symm))
theorem rd_main_c_51 (V : Valuation τ sig (Elt F)) : (after (ops (F := F)) V (Proc.devRef .tc main_c_51)) = (constantI S_ 32 30000#32) :=
  (lift5_main_c_51 V).trans ((s_main_c_51 (U4 V)))
theorem rd_main_v227 (V : Valuation τ sig (Elt F)) : (after (ops (F := F)) V (Proc.devRef .tc main_v227)) = ((broadcastInDim S300000 ![] bcast_S_S300000 : (⟨S_, .i32⟩ : BufTy).Contents (Elt F) → (⟨S300000, .i32⟩ : BufTy).Contents (Elt F)) (after (ops (F := F)) V (Proc.devRef .tc main_c_51))) :=
  (lift5_main_v227 V).trans ((s_main_v227 (U4 V)).trans (congrArg (broadcastInDim S300000 ![] bcast_S_S300000 : (⟨S_, .i32⟩ : BufTy).Contents (Elt F) → (⟨S300000, .i32⟩ : BufTy).Contents (Elt F)) (lift5_main_c_51 V).symm))
theorem rd_main_v228 (V : Valuation τ sig (Elt F)) : (after (ops (F := F)) V (Proc.devRef .tc main_v228)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v1)) (after (ops (F := F)) V (Proc.devRef .tc main_v227))) :=
  (lift5_main_v228 V).trans ((s_main_v228 (U4 V)).trans (congrArg₂ (addi : (⟨S300000, .i32⟩ : BufTy).Contents (Elt F) → (⟨S300000, .i32⟩ : BufTy).Contents (Elt F) → (⟨S300000, .i32⟩ : BufTy).Contents (Elt F)) (lift5_main_v1 V).symm (lift5_main_v227 V).symm))
theorem rd_main_v229 (V : Valuation τ sig (Elt F)) : (after (ops (F := F)) V (Proc.devRef .tc main_v229)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v226)) (after (ops (F := F)) V (Proc.devRef .tc main_v228)) (after (ops (F := F)) V (Proc.devRef .tc main_v1))) :=
  (lift5_main_v229 V).trans ((s_main_v229 (U4 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift5_main_v226 V).symm (lift5_main_v228 V).symm (lift5_main_v1 V).symm))
theorem rd_main_v230 (V : Valuation τ sig (Elt F)) : (after (ops (F := F)) V (Proc.devRef .tc main_v230)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v229))) :=
  (lift5_main_v230 V).trans ((s_main_v230 (U4 V)).trans (congrArg (broadcastInDim S300000x1 ![0] bcast_S300000_S300000x1_0 : (⟨S300000, .i32⟩ : BufTy).Contents (Elt F) → (⟨S300000x1, .i32⟩ : BufTy).Contents (Elt F)) (lift5_main_v229 V).symm))
theorem rd_main_v231 (V : Valuation τ sig (Elt F)) : (after (ops (F := F)) V (Proc.devRef .tc main_v231)) = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (after (ops (F := F)) V (Proc.devRef .tc main_arg4)) (after (ops (F := F)) V (Proc.devRef .tc main_v230))) :=
  (lift5_main_v231 V).trans ((s_main_v231 (U4 V)).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (lift5_main_arg4 V).symm (lift5_main_v230 V).symm))
theorem rd_main_c_52 (V : Valuation τ sig (Elt F)) : (after (ops (F := F)) V (Proc.devRef .tc main_c_52)) = (constantI S_ 32 0#32) :=
  (lift5_main_c_52 V).trans ((s_main_c_52 (U4 V)))
theorem rd_main_v232 (V : Valuation τ sig (Elt F)) : (after (ops (F := F)) V (Proc.devRef .tc main_v232)) = ((broadcastInDim S300000 ![] bcast_S_S300000 : (⟨S_, .i32⟩ : BufTy).Contents (Elt F) → (⟨S300000, .i32⟩ : BufTy).Contents (Elt F)) (after (ops (F := F)) V (Proc.devRef .tc main_c_52))) :=
  (lift5_main_v232 V).trans ((s_main_v232 (U4 V)).trans (congrArg (broadcastInDim S300000 ![] bcast_S_S300000 : (⟨S_, .i32⟩ : BufTy).Contents (Elt F) → (⟨S300000, .i32⟩ : BufTy).Contents (Elt F)) (lift5_main_c_52 V).symm))
theorem rd_main_v233 (V : Valuation τ sig (Elt F)) : (after (ops (F := F)) V (Proc.devRef .tc main_v233)) = ((cmpi .slt : (⟨S300000, .i32⟩ : BufTy).Contents (Elt F) → (⟨S300000, .i32⟩ : BufTy).Contents (Elt F) → (⟨S300000, .i1⟩ : BufTy).Contents (Elt F)) (after (ops (F := F)) V (Proc.devRef .tc main_v231)) (after (ops (F := F)) V (Proc.devRef .tc main_v232))) :=
  (lift5_main_v233 V).trans ((s_main_v233 (U4 V)).trans (congrArg₂ (cmpi .slt : (⟨S300000, .i32⟩ : BufTy).Contents (Elt F) → (⟨S300000, .i32⟩ : BufTy).Contents (Elt F) → (⟨S300000, .i1⟩ : BufTy).Contents (Elt F)) (lift5_main_v231 V).symm (lift5_main_v232 V).symm))
theorem rd_main_c_53 (V : Valuation τ sig (Elt F)) : (after (ops (F := F)) V (Proc.devRef .tc main_c_53)) = (constantI S_ 32 64#32) :=
  (lift5_main_c_53 V).trans ((s_main_c_53 (U4 V)))
theorem rd_main_v234 (V : Valuation τ sig (Elt F)) : (after (ops (F := F)) V (Proc.devRef .tc main_v234)) = ((broadcastInDim S300000 ![] bcast_S_S300000 : (⟨S_, .i32⟩ : BufTy).Contents (Elt F) → (⟨S300000, .i32⟩ : BufTy).Contents (Elt F)) (after (ops (F := F)) V (Proc.devRef .tc main_c_53))) :=
  (lift5_main_v234 V).trans ((s_main_v234 (U4 V)).trans (congrArg (broadcastInDim S300000 ![] bcast_S_S300000 : (⟨S_, .i32⟩ : BufTy).Contents (Elt F) → (⟨S300000, .i32⟩ : BufTy).Contents (Elt F)) (lift5_main_c_53 V).symm))
theorem rd_main_v235 (V : Valuation τ sig (Elt F)) : (after (ops (F := F)) V (Proc.devRef .tc main_v235)) = ((addi : (⟨S300000, .i32⟩ : BufTy).Contents (Elt F) → (⟨S300000, .i32⟩ : BufTy).Contents (Elt F) → (⟨S300000, .i32⟩ : BufTy).Contents (Elt F)) (after (ops (F := F)) V (Proc.devRef .tc main_v231)) (after (ops (F := F)) V (Proc.devRef .tc main_v234))) :=
  (lift5_main_v235 V).trans ((s_main_v235 (U4 V)).trans (congrArg₂ (addi : (⟨S300000, .i32⟩ : BufTy).Contents (Elt F) → (⟨S300000, .i32⟩ : BufTy).Contents (Elt F) → (⟨S300000, .i32⟩ : BufTy).Contents (Elt F)) (lift5_main_v231 V).symm (lift5_main_v234 V).symm))
theorem rd_main_v236 (V : Valuation τ sig (Elt F)) : (after (ops (F := F)) V (Proc.devRef .tc main_v236)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (after (ops (F := F)) V (Proc.devRef .tc main_v233)) (after (ops (F := F)) V (Proc.devRef .tc main_v235)) (after (ops (F := F)) V (Proc.devRef .tc main_v231))) :=
  (lift5_main_v236 V).trans ((s_main_v236 (U4 V)).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (lift5_main_v233 V).symm (lift5_main_v235 V).symm (lift5_main_v231 V).symm))
theorem rd_main_v237 (V : Valuation τ sig (Elt F)) : (after (ops (F := F)) V (Proc.devRef .tc main_v237)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v236))) :=
  (lift5_main_v237 V).trans ((s_main_v237 (U4 V)).trans (congrArg (broadcastInDim S300000x1 ![0] bcast_S300000_S300000x1_0 : (⟨S300000, .i32⟩ : BufTy).Contents (Elt F) → (⟨S300000x1, .i32⟩ : BufTy).Contents (Elt F)) (lift5_main_v236 V).symm))
theorem rd_main_v238 (V : Valuation τ sig (Elt F)) : (after (ops (F := F)) V (Proc.devRef .tc main_v238)) = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v210)) (after (ops (F := F)) V (Proc.devRef .tc main_v237))) :=
  (lift5_main_v238 V).trans ((s_main_v238 (U4 V)).trans (congrArg₂ ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (lift5_main_v210 V).symm (lift5_main_v237 V).symm))
theorem rd_main_v239 (V : Valuation τ sig (Elt F)) : (after (ops (F := F)) V (Proc.devRef .tc main_v239)) = (concatenate S300000x256 1 [⟨S300000x64, (after (ops (F := F)) V (Proc.devRef .tc main_v217))⟩, ⟨S300000x64, (after (ops (F := F)) V (Proc.devRef .tc main_v224))⟩, ⟨S300000x64, (after (ops (F := F)) V (Proc.devRef .tc main_v169))⟩, ⟨S300000x64, (after (ops (F := F)) V (Proc.devRef .tc main_v238))⟩] concatenates_S300000x64_S300000x64_S300000x64_S300000x64_S300000x256_d1) :=
  (lift5_main_v239 V).trans ((s_main_v239 (U4 V)).trans (congr4 (fun A0 A1 A2 A3 => concatenate S300000x256 1 [⟨S300000x64, A0⟩, ⟨S300000x64, A1⟩, ⟨S300000x64, A2⟩, ⟨S300000x64, A3⟩] concatenates_S300000x64_S300000x64_S300000x64_S300000x64_S300000x256_d1) (lift5_main_v217 V).symm (lift5_main_v224 V).symm (lift5_main_v169 V).symm (lift5_main_v238 V).symm))
theorem rd_main_v240 (V : Valuation τ sig (Elt F)) : (after (ops (F := F)) V (Proc.devRef .tc main_v240)) = (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (after (ops (F := F)) V (Proc.devRef .tc main_v239)) (after (ops (F := F)) V (Proc.devRef .tc main_arg23))) :=
  (lift5_main_v240 V).trans ((s_main_v240 (U4 V)).trans (congrArg₂ ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (lift5_main_v239 V).symm (lift5_main_arg23 V).symm))
theorem rd_main_v241 (V : Valuation τ sig (Elt F)) : (after (ops (F := F)) V (Proc.devRef .tc main_v241)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg24))) :=
  (lift5_main_v241 V).trans ((s_main_v241 (U4 V)).trans (congrArg (broadcastInDim S1x64 ![1] bcast_S64_S1x64_1 : (⟨S64, .f32⟩ : BufTy).Contents (Elt F) → (⟨S1x64, .f32⟩ : BufTy).Contents (Elt F)) (lift5_main_arg24 V).symm))
theorem rd_main_v242 (V : Valuation τ sig (Elt F)) : (after (ops (F := F)) V (Proc.devRef .tc main_v242)) = ((broadcastInDim S300000x64 ![0, 1] bcast_S1x64_S300000x64_0_1 : (⟨S1x64, .f32⟩ : BufTy).Contents (Elt F) → (⟨S300000x64, .f32⟩ : BufTy).Contents (Elt F)) (after (ops (F := F)) V (Proc.devRef .tc main_v241))) :=
  (lift5_main_v242 V).trans ((s_main_v242 (U4 V)).trans (congrArg (broadcastInDim S300000x64 ![0, 1] bcast_S1x64_S300000x64_0_1 : (⟨S1x64, .f32⟩ : BufTy).Contents (Elt F) → (⟨S300000x64, .f32⟩ : BufTy).Contents (Elt F)) (lift5_main_v241 V).symm))
theorem rd_main_v243 (V : Valuation τ sig (Elt F)) : (after (ops (F := F)) V (Proc.devRef .tc main_v243)) = ((addf : (⟨S300000x64, .f32⟩ : BufTy).Contents (Elt F) → (⟨S300000x64, .f32⟩ : BufTy).Contents (Elt F) → (⟨S300000x64, .f32⟩ : BufTy).Contents (Elt F)) (after (ops (F := F)) V (Proc.devRef .tc main_v240)) (after (ops (F := F)) V (Proc.devRef .tc main_v242))) :=
  (lift5_main_v243 V).trans ((s_main_v243 (U4 V)).trans (congrArg₂ (addf : (⟨S300000x64, .f32⟩ : BufTy).Contents (Elt F) → (⟨S300000x64, .f32⟩ : BufTy).Contents (Elt F) → (⟨S300000x64, .f32⟩ : BufTy).Contents (Elt F)) (lift5_main_v240 V).symm (lift5_main_v242 V).symm))

end Cert.ReferenceIdeal.Hand

end
-- ==== Proof.Ref.StageL1.lean ====
-- written by: gen_ref.js <unit directory>
/- The second layer of the reference program read as terms: the edge update main_v169, the node update main_v193 and the global update main_v210 over the first layer's results and the launch contents of the arguments. -/
import proofs.«123839_j71768903516633_2_alg».proof.Proof.Ref.Rd0
import proofs.«123839_j71768903516633_2_alg».proof.Proof.Ref.Rd2
import proofs.«123839_j71768903516633_2_alg».proof.Proof.Ref.Rd3
import proofs.«123839_j71768903516633_2_alg».proof.Proof.Ref.Rd4
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem t_main_v0 (V : Valuation τ sig (Elt F)) : (after (ops (F := F)) V (Proc.devRef .tc main_v0)) = (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) :=
  (rd_main_v0 V).trans (congrArg ((extractStridedSlice S1x300000 ![0, 0] · slices_S2x300000_S1x300000_0_0) : (⟨S2x300000, .i32⟩ : BufTy).Contents (Elt F) → (⟨S1x300000, .i32⟩ : BufTy).Contents (Elt F)) (lift0_main_arg1 V))
theorem t_main_v1 (V : Valuation τ sig (Elt F)) : (after (ops (F := F)) V (Proc.devRef .tc main_v1)) = (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) :=
  (rd_main_v1 V).trans (congrArg (fun A => shapeCast S300000 A shapeCasts_S1x300000_S300000) (t_main_v0 V))
theorem t_main_c_28 (V : Valuation τ sig (Elt F)) : (after (ops (F := F)) V (Proc.devRef .tc main_c_28)) = (constantI S_ 32 0#32) :=
  rd_main_c_28 V
theorem t_main_v136 (V : Valuation τ sig (Elt F)) : (after (ops (F := F)) V (Proc.devRef .tc main_v136)) = ((broadcastInDim S300000 ![] bcast_S_S300000 : (⟨S_, .i32⟩ : BufTy).Contents (Elt F) → (⟨S300000, .i32⟩ : BufTy).Contents (Elt F)) (constantI S_ 32 0#32)) :=
  (rd_main_v136 V).trans (congrArg (broadcastInDim S300000 ![] bcast_S_S300000 : (⟨S_, .i32⟩ : BufTy).Contents (Elt F) → (⟨S300000, .i32⟩ : BufTy).Contents (Elt F)) (t_main_c_28 V))
theorem t_main_v137 (V : Valuation τ sig (Elt F)) : (after (ops (F := F)) V (Proc.devRef .tc main_v137)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v137 V).trans (congrArg₂ (cmpi .slt : (⟨S300000, .i32⟩ : BufTy).Contents (Elt F) → (⟨S300000, .i32⟩ : BufTy).Contents (Elt F) → (⟨S300000, .i1⟩ : BufTy).Contents (Elt F)) (t_main_v1 V) (t_main_v136 V))
theorem t_main_c_29 (V : Valuation τ sig (Elt F)) : (after (ops (F := F)) V (Proc.devRef .tc main_c_29)) = (constantI S_ 32 30000#32) :=
  rd_main_c_29 V
theorem t_main_v138 (V : Valuation τ sig (Elt F)) : (after (ops (F := F)) V (Proc.devRef .tc main_v138)) = ((broadcastInDim S300000 ![] bcast_S_S300000 : (⟨S_, .i32⟩ : BufTy).Contents (Elt F) → (⟨S300000, .i32⟩ : BufTy).Contents (Elt F)) (constantI S_ 32 30000#32)) :=
  (rd_main_v138 V).trans (congrArg (broadcastInDim S300000 ![] bcast_S_S300000 : (⟨S_, .i32⟩ : BufTy).Contents (Elt F) → (⟨S300000, .i32⟩ : BufTy).Contents (Elt F)) (t_main_c_29 V))
theorem t_main_v139 (V : Valuation τ sig (Elt F)) : (after (ops (F := F)) V (Proc.devRef .tc main_v139)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v139 V).trans (congrArg₂ (addi : (⟨S300000, .i32⟩ : BufTy).Contents (Elt F) → (⟨S300000, .i32⟩ : BufTy).Contents (Elt F) → (⟨S300000, .i32⟩ : BufTy).Contents (Elt F)) (t_main_v1 V) (t_main_v138 V))
theorem t_main_v140 (V : Valuation τ sig (Elt F)) : (after (ops (F := F)) V (Proc.devRef .tc main_v140)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)) :=
  (rd_main_v140 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v137 V) (t_main_v139 V) (t_main_v1 V))
theorem t_main_v141 (V : Valuation τ sig (Elt F)) : (after (ops (F := F)) V (Proc.devRef .tc main_v141)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))) :=
  (rd_main_v141 V).trans (congrArg (broadcastInDim S300000x1 ![0] bcast_S300000_S300000x1_0 : (⟨S300000, .i32⟩ : BufTy).Contents (Elt F) → (⟨S300000x1, .i32⟩ : BufTy).Contents (Elt F)) (t_main_v140 V))
theorem t_main_v142 (V : Valuation τ sig (Elt F)) : (after (ops (F := F)) V (Proc.devRef .tc main_v142)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) :=
  (rd_main_v142 V).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) rfl (t_main_v141 V))
theorem t_main_v2 (V : Valuation τ sig (Elt F)) : (after (ops (F := F)) V (Proc.devRef .tc main_v2)) = (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) :=
  (rd_main_v2 V).trans (congrArg ((extractStridedSlice S1x300000 ![1, 0] · slices_S2x300000_S1x300000_1_0) : (⟨S2x300000, .i32⟩ : BufTy).Contents (Elt F) → (⟨S1x300000, .i32⟩ : BufTy).Contents (Elt F)) (lift0_main_arg1 V))
theorem t_main_v3 (V : Valuation τ sig (Elt F)) : (after (ops (F := F)) V (Proc.devRef .tc main_v3)) = (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) :=
  (rd_main_v3 V).trans (congrArg (fun A => shapeCast S300000 A shapeCasts_S1x300000_S300000) (t_main_v2 V))
theorem t_main_c_30 (V : Valuation τ sig (Elt F)) : (after (ops (F := F)) V (Proc.devRef .tc main_c_30)) = (constantI S_ 32 0#32) :=
  rd_main_c_30 V
theorem t_main_v143 (V : Valuation τ sig (Elt F)) : (after (ops (F := F)) V (Proc.devRef .tc main_v143)) = ((broadcastInDim S300000 ![] bcast_S_S300000 : (⟨S_, .i32⟩ : BufTy).Contents (Elt F) → (⟨S300000, .i32⟩ : BufTy).Contents (Elt F)) (constantI S_ 32 0#32)) :=
  (rd_main_v143 V).trans (congrArg (broadcastInDim S300000 ![] bcast_S_S300000 : (⟨S_, .i32⟩ : BufTy).Contents (Elt F) → (⟨S300000, .i32⟩ : BufTy).Contents (Elt F)) (t_main_c_30 V))
theorem t_main_v144 (V : Valuation τ sig (Elt F)) : (after (ops (F := F)) V (Proc.devRef .tc main_v144)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v144 V).trans (congrArg₂ (cmpi .slt : (⟨S300000, .i32⟩ : BufTy).Contents (Elt F) → (⟨S300000, .i32⟩ : BufTy).Contents (Elt F) → (⟨S300000, .i1⟩ : BufTy).Contents (Elt F)) (t_main_v3 V) (t_main_v143 V))
theorem t_main_c_31 (V : Valuation τ sig (Elt F)) : (after (ops (F := F)) V (Proc.devRef .tc main_c_31)) = (constantI S_ 32 30000#32) :=
  rd_main_c_31 V
theorem t_main_v145 (V : Valuation τ sig (Elt F)) : (after (ops (F := F)) V (Proc.devRef .tc main_v145)) = ((broadcastInDim S300000 ![] bcast_S_S300000 : (⟨S_, .i32⟩ : BufTy).Contents (Elt F) → (⟨S300000, .i32⟩ : BufTy).Contents (Elt F)) (constantI S_ 32 30000#32)) :=
  (rd_main_v145 V).trans (congrArg (broadcastInDim S300000 ![] bcast_S_S300000 : (⟨S_, .i32⟩ : BufTy).Contents (Elt F) → (⟨S300000, .i32⟩ : BufTy).Contents (Elt F)) (t_main_c_31 V))
theorem t_main_v146 (V : Valuation τ sig (Elt F)) : (after (ops (F := F)) V (Proc.devRef .tc main_v146)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v146 V).trans (congrArg₂ (addi : (⟨S300000, .i32⟩ : BufTy).Contents (Elt F) → (⟨S300000, .i32⟩ : BufTy).Contents (Elt F) → (⟨S300000, .i32⟩ : BufTy).Contents (Elt F)) (t_main_v3 V) (t_main_v145 V))
theorem t_main_v147 (V : Valuation τ sig (Elt F)) : (after (ops (F := F)) V (Proc.devRef .tc main_v147)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v147 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v144 V) (t_main_v146 V) (t_main_v3 V))
theorem t_main_v148 (V : Valuation τ sig (Elt F)) : (after (ops (F := F)) V (Proc.devRef .tc main_v148)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))) :=
  (rd_main_v148 V).trans (congrArg (broadcastInDim S300000x1 ![0] bcast_S300000_S300000x1_0 : (⟨S300000, .i32⟩ : BufTy).Contents (Elt F) → (⟨S300000x1, .i32⟩ : BufTy).Contents (Elt F)) (t_main_v147 V))
theorem t_main_v149 (V : Valuation τ sig (Elt F)) : (after (ops (F := F)) V (Proc.devRef .tc main_v149)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)))) :=
  (rd_main_v149 V).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) rfl (t_main_v148 V))
theorem t_main_c_32 (V : Valuation τ sig (Elt F)) : (after (ops (F := F)) V (Proc.devRef .tc main_c_32)) = (constantI S_ 32 0#32) :=
  rd_main_c_32 V
theorem t_main_v150 (V : Valuation τ sig (Elt F)) : (after (ops (F := F)) V (Proc.devRef .tc main_v150)) = ((broadcastInDim S300000 ![] bcast_S_S300000 : (⟨S_, .i32⟩ : BufTy).Contents (Elt F) → (⟨S300000, .i32⟩ : BufTy).Contents (Elt F)) (constantI S_ 32 0#32)) :=
  (rd_main_v150 V).trans (congrArg (broadcastInDim S300000 ![] bcast_S_S300000 : (⟨S_, .i32⟩ : BufTy).Contents (Elt F) → (⟨S300000, .i32⟩ : BufTy).Contents (Elt F)) (t_main_c_32 V))
theorem t_main_v151 (V : Valuation τ sig (Elt F)) : (after (ops (F := F)) V (Proc.devRef .tc main_v151)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v151 V).trans (congrArg₂ (cmpi .slt : (⟨S300000, .i32⟩ : BufTy).Contents (Elt F) → (⟨S300000, .i32⟩ : BufTy).Contents (Elt F) → (⟨S300000, .i1⟩ : BufTy).Contents (Elt F)) (t_main_v1 V) (t_main_v150 V))
theorem t_main_c_33 (V : Valuation τ sig (Elt F)) : (after (ops (F := F)) V (Proc.devRef .tc main_c_33)) = (constantI S_ 32 30000#32) :=
  rd_main_c_33 V
theorem t_main_v152 (V : Valuation τ sig (Elt F)) : (after (ops (F := F)) V (Proc.devRef .tc main_v152)) = ((broadcastInDim S300000 ![] bcast_S_S300000 : (⟨S_, .i32⟩ : BufTy).Contents (Elt F) → (⟨S300000, .i32⟩ : BufTy).Contents (Elt F)) (constantI S_ 32 30000#32)) :=
  (rd_main_v152 V).trans (congrArg (broadcastInDim S300000 ![] bcast_S_S300000 : (⟨S_, .i32⟩ : BufTy).Contents (Elt F) → (⟨S300000, .i32⟩ : BufTy).Contents (Elt F)) (t_main_c_33 V))
theorem t_main_v153 (V : Valuation τ sig (Elt F)) : (after (ops (F := F)) V (Proc.devRef .tc main_v153)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v153 V).trans (congrArg₂ (addi : (⟨S300000, .i32⟩ : BufTy).Contents (Elt F) → (⟨S300000, .i32⟩ : BufTy).Contents (Elt F) → (⟨S300000, .i32⟩ : BufTy).Contents (Elt F)) (t_main_v1 V) (t_main_v152 V))
theorem t_main_v154 (V : Valuation τ sig (Elt F)) : (after (ops (F := F)) V (Proc.devRef .tc main_v154)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)) :=
  (rd_main_v154 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v151 V) (t_main_v153 V) (t_main_v1 V))
theorem t_main_v155 (V : Valuation τ sig (Elt F)) : (after (ops (F := F)) V (Proc.devRef .tc main_v155)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))) :=
  (rd_main_v155 V).trans (congrArg (broadcastInDim S300000x1 ![0] bcast_S300000_S300000x1_0 : (⟨S300000, .i32⟩ : BufTy).Contents (Elt F) → (⟨S300000x1, .i32⟩ : BufTy).Contents (Elt F)) (t_main_v154 V))
theorem t_main_v156 (V : Valuation τ sig (Elt F)) : (after (ops (F := F)) V (Proc.devRef .tc main_v156)) = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) :=
  (rd_main_v156 V).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (lift0_main_arg4 V) (t_main_v155 V))
theorem t_main_c_34 (V : Valuation τ sig (Elt F)) : (after (ops (F := F)) V (Proc.devRef .tc main_c_34)) = (constantI S_ 32 0#32) :=
  rd_main_c_34 V
theorem t_main_v157 (V : Valuation τ sig (Elt F)) : (after (ops (F := F)) V (Proc.devRef .tc main_v157)) = ((broadcastInDim S300000 ![] bcast_S_S300000 : (⟨S_, .i32⟩ : BufTy).Contents (Elt F) → (⟨S300000, .i32⟩ : BufTy).Contents (Elt F)) (constantI S_ 32 0#32)) :=
  (rd_main_v157 V).trans (congrArg (broadcastInDim S300000 ![] bcast_S_S300000 : (⟨S_, .i32⟩ : BufTy).Contents (Elt F) → (⟨S300000, .i32⟩ : BufTy).Contents (Elt F)) (t_main_c_34 V))
theorem t_main_v158 (V : Valuation τ sig (Elt F)) : (after (ops (F := F)) V (Proc.devRef .tc main_v158)) = ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) :=
  (rd_main_v158 V).trans (congrArg₂ (cmpi .slt : (⟨S300000, .i32⟩ : BufTy).Contents (Elt F) → (⟨S300000, .i32⟩ : BufTy).Contents (Elt F) → (⟨S300000, .i1⟩ : BufTy).Contents (Elt F)) (t_main_v156 V) (t_main_v157 V))
theorem t_main_c_35 (V : Valuation τ sig (Elt F)) : (after (ops (F := F)) V (Proc.devRef .tc main_c_35)) = (constantI S_ 32 64#32) :=
  rd_main_c_35 V
theorem t_main_v159 (V : Valuation τ sig (Elt F)) : (after (ops (F := F)) V (Proc.devRef .tc main_v159)) = ((broadcastInDim S300000 ![] bcast_S_S300000 : (⟨S_, .i32⟩ : BufTy).Contents (Elt F) → (⟨S300000, .i32⟩ : BufTy).Contents (Elt F)) (constantI S_ 32 64#32)) :=
  (rd_main_v159 V).trans (congrArg (broadcastInDim S300000 ![] bcast_S_S300000 : (⟨S_, .i32⟩ : BufTy).Contents (Elt F) → (⟨S300000, .i32⟩ : BufTy).Contents (Elt F)) (t_main_c_35 V))
theorem t_main_v160 (V : Valuation τ sig (Elt F)) : (after (ops (F := F)) V (Proc.devRef .tc main_v160)) = ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) :=
  (rd_main_v160 V).trans (congrArg₂ (addi : (⟨S300000, .i32⟩ : BufTy).Contents (Elt F) → (⟨S300000, .i32⟩ : BufTy).Contents (Elt F) → (⟨S300000, .i32⟩ : BufTy).Contents (Elt F)) (t_main_v156 V) (t_main_v159 V))
theorem t_main_v161 (V : Valuation τ sig (Elt F)) : (after (ops (F := F)) V (Proc.devRef .tc main_v161)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))) :=
  (rd_main_v161 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v158 V) (t_main_v160 V) (t_main_v156 V))
theorem t_main_v162 (V : Valuation τ sig (Elt F)) : (after (ops (F := F)) V (Proc.devRef .tc main_v162)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))) :=
  (rd_main_v162 V).trans (congrArg (broadcastInDim S300000x1 ![0] bcast_S300000_S300000x1_0 : (⟨S300000, .i32⟩ : BufTy).Contents (Elt F) → (⟨S300000x1, .i32⟩ : BufTy).Contents (Elt F)) (t_main_v161 V))
theorem t_main_v163 (V : Valuation τ sig (Elt F)) : (after (ops (F := F)) V (Proc.devRef .tc main_v163)) = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v135)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))))) :=
  (rd_main_v163 V).trans (congrArg₂ ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) rfl (t_main_v162 V))
theorem t_main_v164 (V : Valuation τ sig (Elt F)) : (after (ops (F := F)) V (Proc.devRef .tc main_v164)) = (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v94))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v135)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) :=
  (rd_main_v164 V).trans (congr4 (fun A0 A1 A2 A3 => concatenate S300000x256 1 [⟨S300000x64, A0⟩, ⟨S300000x64, A1⟩, ⟨S300000x64, A2⟩, ⟨S300000x64, A3⟩] concatenates_S300000x64_S300000x64_S300000x64_S300000x64_S300000x256_d1) (t_main_v142 V) (t_main_v149 V) rfl (t_main_v163 V))
theorem t_main_v165 (V : Valuation τ sig (Elt F)) : (after (ops (F := F)) V (Proc.devRef .tc main_v165)) = (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v94))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v135)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) (V (Proc.devRef .tc main_arg17))) :=
  (rd_main_v165 V).trans (congrArg₂ ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (t_main_v164 V) (lift0_main_arg17 V))
theorem t_main_v166 (V : Valuation τ sig (Elt F)) : (after (ops (F := F)) V (Proc.devRef .tc main_v166)) = ((broadcastInDim S1x64 ![1] bcast_S64_S1x64_1 : (⟨S64, .f32⟩ : BufTy).Contents (Elt F) → (⟨S1x64, .f32⟩ : BufTy).Contents (Elt F)) (V (Proc.devRef .tc main_arg18))) :=
  (rd_main_v166 V).trans (congrArg (broadcastInDim S1x64 ![1] bcast_S64_S1x64_1 : (⟨S64, .f32⟩ : BufTy).Contents (Elt F) → (⟨S1x64, .f32⟩ : BufTy).Contents (Elt F)) (lift0_main_arg18 V))
theorem t_main_v167 (V : Valuation τ sig (Elt F)) : (after (ops (F := F)) V (Proc.devRef .tc main_v167)) = ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg18)))) :=
  (rd_main_v167 V).trans (congrArg (broadcastInDim S300000x64 ![0, 1] bcast_S1x64_S300000x64_0_1 : (⟨S1x64, .f32⟩ : BufTy).Contents (Elt F) → (⟨S300000x64, .f32⟩ : BufTy).Contents (Elt F)) (t_main_v166 V))
theorem t_main_v168 (V : Valuation τ sig (Elt F)) : (after (ops (F := F)) V (Proc.devRef .tc main_v168)) = ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v94))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v135)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) (V (Proc.devRef .tc main_arg17))) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg18))))) :=
  (rd_main_v168 V).trans (congrArg₂ (addf : (⟨S300000x64, .f32⟩ : BufTy).Contents (Elt F) → (⟨S300000x64, .f32⟩ : BufTy).Contents (Elt F) → (⟨S300000x64, .f32⟩ : BufTy).Contents (Elt F)) (t_main_v165 V) (t_main_v167 V))
theorem t_main_call6_cst (V : Valuation τ sig (Elt F)) : (after (ops (F := F)) V (Proc.devRef .tc main_call6_cst)) = (constant (F := F) S_ .f32 0x00000000#32) :=
  rd_main_call6_cst V
theorem t_main_call6_v0 (V : Valuation τ sig (Elt F)) : (after (ops (F := F)) V (Proc.devRef .tc main_call6_v0)) = (((broadcastInDim S300000x64 ![] bcast_S_S300000x64) : (⟨S_, .f32⟩ : BufTy).Contents (Elt F) → (⟨S300000x64, .f32⟩ : BufTy).Contents (Elt F)) (constant (F := F) S_ .f32 0x00000000#32)) :=
  (rd_main_call6_v0 V).trans (congrArg ((broadcastInDim S300000x64 ![] bcast_S_S300000x64) : (⟨S_, .f32⟩ : BufTy).Contents (Elt F) → (⟨S300000x64, .f32⟩ : BufTy).Contents (Elt F)) (t_main_call6_cst V))
theorem ref_main_v169 (V : Valuation τ sig (Elt F)) : (after (ops (F := F)) V (Proc.devRef .tc main_v169)) = ((maximumf : (⟨S300000x64, .f32⟩ : BufTy).Contents (Elt F) → (⟨S300000x64, .f32⟩ : BufTy).Contents (Elt F) → (⟨S300000x64, .f32⟩ : BufTy).Contents (Elt F)) ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v118)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v94))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v135)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) (V (Proc.devRef .tc main_arg17))) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg18))))) (((broadcastInDim S300000x64 ![] bcast_S_S300000x64) : (⟨S_, .f32⟩ : BufTy).Contents (Elt F) → (⟨S300000x64, .f32⟩ : BufTy).Contents (Elt F)) (constant (F := F) S_ .f32 0x00000000#32))) :=
  (rd_main_v169 V).trans (congrArg₂ (maximumf : (⟨S300000x64, .f32⟩ : BufTy).Contents (Elt F) → (⟨S300000x64, .f32⟩ : BufTy).Contents (Elt F) → (⟨S300000x64, .f32⟩ : BufTy).Contents (Elt F)) (t_main_v168 V) (t_main_call6_v0 V))
theorem t_main_cst_36 (V : Valuation τ sig (Elt F)) : (after (ops (F := F)) V (Proc.devRef .tc main_cst_36)) = (constant (F := F) S_ .f32 0x00000000#32) :=
  rd_main_cst_36 V
theorem t_main_v170 (V : Valuation τ sig (Elt F)) : (after (ops (F := F)) V (Proc.devRef .tc main_v170)) = ((broadcastInDim S30000x64 ![] bcast_S_S30000x64 : (⟨S_, .f32⟩ : BufTy).Contents (Elt F) → (⟨S30000x64, .f32⟩ : BufTy).Contents (Elt F)) (constant (F := F) S_ .f32 0x00000000#32)) :=
  (rd_main_v170 V).trans (congrArg (broadcastInDim S30000x64 ![] bcast_S_S30000x64 : (⟨S_, .f32⟩ : BufTy).Contents (Elt F) → (⟨S30000x64, .f32⟩ : BufTy).Contents (Elt F)) (t_main_cst_36 V))
theorem t_main_v171 (V : Valuation τ sig (Elt F)) : (after (ops (F := F)) V (Proc.devRef .tc main_v171)) = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v171 V).trans (congrArg (broadcastInDim S300000x1 ![0] bcast_S300000_S300000x1_0 : (⟨S300000, .i32⟩ : BufTy).Contents (Elt F) → (⟨S300000x1, .i32⟩ : BufTy).Contents (Elt F)) (t_main_v3 V))
theorem t_main_v172 (V : Valuation τ sig (Elt F)) : (after (ops (F := F)) V (Proc.devRef .tc main_v172)) = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v169))) :=
  (rd_main_v172 V).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (t_main_v170 V) (t_main_v171 V) rfl)
theorem t_main_cst_38 (V : Valuation τ sig (Elt F)) : (after (ops (F := F)) V (Proc.devRef .tc main_cst_38)) = (constant (F := F) S_ .f32 0x00000000#32) :=
  rd_main_cst_38 V
theorem t_main_v174 (V : Valuation τ sig (Elt F)) : (after (ops (F := F)) V (Proc.devRef .tc main_v174)) = ((broadcastInDim S30000x1 ![] bcast_S_S30000x1 : (⟨S_, .f32⟩ : BufTy).Contents (Elt F) → (⟨S30000x1, .f32⟩ : BufTy).Contents (Elt F)) (constant (F := F) S_ .f32 0x00000000#32)) :=
  (rd_main_v174 V).trans (congrArg (broadcastInDim S30000x1 ![] bcast_S_S30000x1 : (⟨S_, .f32⟩ : BufTy).Contents (Elt F) → (⟨S30000x1, .f32⟩ : BufTy).Contents (Elt F)) (t_main_cst_38 V))
theorem t_main_v175 (V : Valuation τ sig (Elt F)) : (after (ops (F := F)) V (Proc.devRef .tc main_v175)) = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v175 V).trans (congrArg (broadcastInDim S300000x1 ![0] bcast_S300000_S300000x1_0 : (⟨S300000, .i32⟩ : BufTy).Contents (Elt F) → (⟨S300000x1, .i32⟩ : BufTy).Contents (Elt F)) (t_main_v3 V))
theorem t_main_cst_37 (V : Valuation τ sig (Elt F)) : (after (ops (F := F)) V (Proc.devRef .tc main_cst_37)) = (constant (F := F) S_ .f32 0x3F800000#32) :=
  rd_main_cst_37 V
theorem t_main_v173 (V : Valuation τ sig (Elt F)) : (after (ops (F := F)) V (Proc.devRef .tc main_v173)) = ((broadcastInDim S300000x1 ![] bcast_S_S300000x1 : (⟨S_, .f32⟩ : BufTy).Contents (Elt F) → (⟨S300000x1, .f32⟩ : BufTy).Contents (Elt F)) (constant (F := F) S_ .f32 0x3F800000#32)) :=
  (rd_main_v173 V).trans (congrArg (broadcastInDim S300000x1 ![] bcast_S_S300000x1 : (⟨S_, .f32⟩ : BufTy).Contents (Elt F) → (⟨S300000x1, .f32⟩ : BufTy).Contents (Elt F)) (t_main_cst_37 V))
theorem t_main_v176 (V : Valuation τ sig (Elt F)) : (after (ops (F := F)) V (Proc.devRef .tc main_v176)) = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) :=
  (rd_main_v176 V).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (t_main_v174 V) (t_main_v175 V) (t_main_v173 V))
theorem t_main_cst_39 (V : Valuation τ sig (Elt F)) : (after (ops (F := F)) V (Proc.devRef .tc main_cst_39)) = (constant (F := F) S_ .f32 0x3F800000#32) :=
  rd_main_cst_39 V
theorem t_main_v177 (V : Valuation τ sig (Elt F)) : (after (ops (F := F)) V (Proc.devRef .tc main_v177)) = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (rd_main_v177 V).trans (congrArg (broadcastInDim S30000x1 ![] bcast_S_S30000x1 : (⟨S_, .f32⟩ : BufTy).Contents (Elt F) → (⟨S30000x1, .f32⟩ : BufTy).Contents (Elt F)) (t_main_cst_39 V))
theorem t_main_v178 (V : Valuation τ sig (Elt F)) : (after (ops (F := F)) V (Proc.devRef .tc main_v178)) = ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (rd_main_v178 V).trans (congrArg₂ (maximumf : (⟨S30000x1, .f32⟩ : BufTy).Contents (Elt F) → (⟨S30000x1, .f32⟩ : BufTy).Contents (Elt F) → (⟨S30000x1, .f32⟩ : BufTy).Contents (Elt F)) (t_main_v176 V) (t_main_v177 V))
theorem t_main_v179 (V : Valuation τ sig (Elt F)) : (after (ops (F := F)) V (Proc.devRef .tc main_v179)) = ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))) :=
  (rd_main_v179 V).trans (congrArg (broadcastInDim S30000x64 ![0, 1] bcast_S30000x1_S30000x64_0_1 : (⟨S30000x1, .f32⟩ : BufTy).Contents (Elt F) → (⟨S30000x64, .f32⟩ : BufTy).Contents (Elt F)) (t_main_v178 V))
theorem t_main_v180 (V : Valuation τ sig (Elt F)) : (after (ops (F := F)) V (Proc.devRef .tc main_v180)) = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v169))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  (rd_main_v180 V).trans (congrArg₂ (Host.divf : (⟨S30000x64, .f32⟩ : BufTy).Contents (Elt F) → (⟨S30000x64, .f32⟩ : BufTy).Contents (Elt F) → (⟨S30000x64, .f32⟩ : BufTy).Contents (Elt F)) (t_main_v172 V) (t_main_v179 V))
theorem t_main_c_40 (V : Valuation τ sig (Elt F)) : (after (ops (F := F)) V (Proc.devRef .tc main_c_40)) = (constantI S_ 32 0#32) :=
  rd_main_c_40 V
theorem t_main_v181 (V : Valuation τ sig (Elt F)) : (after (ops (F := F)) V (Proc.devRef .tc main_v181)) = ((broadcastInDim S30000 ![] bcast_S_S30000 : (⟨S_, .i32⟩ : BufTy).Contents (Elt F) → (⟨S30000, .i32⟩ : BufTy).Contents (Elt F)) (constantI S_ 32 0#32)) :=
  (rd_main_v181 V).trans (congrArg (broadcastInDim S30000 ![] bcast_S_S30000 : (⟨S_, .i32⟩ : BufTy).Contents (Elt F) → (⟨S30000, .i32⟩ : BufTy).Contents (Elt F)) (t_main_c_40 V))
theorem t_main_v182 (V : Valuation τ sig (Elt F)) : (after (ops (F := F)) V (Proc.devRef .tc main_v182)) = ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) :=
  (rd_main_v182 V).trans (congrArg₂ (cmpi .slt : (⟨S30000, .i32⟩ : BufTy).Contents (Elt F) → (⟨S30000, .i32⟩ : BufTy).Contents (Elt F) → (⟨S30000, .i1⟩ : BufTy).Contents (Elt F)) (lift0_main_arg4 V) (t_main_v181 V))
theorem t_main_c_41 (V : Valuation τ sig (Elt F)) : (after (ops (F := F)) V (Proc.devRef .tc main_c_41)) = (constantI S_ 32 64#32) :=
  rd_main_c_41 V
theorem t_main_v183 (V : Valuation τ sig (Elt F)) : (after (ops (F := F)) V (Proc.devRef .tc main_v183)) = ((broadcastInDim S30000 ![] bcast_S_S30000 : (⟨S_, .i32⟩ : BufTy).Contents (Elt F) → (⟨S30000, .i32⟩ : BufTy).Contents (Elt F)) (constantI S_ 32 64#32)) :=
  (rd_main_v183 V).trans (congrArg (broadcastInDim S30000 ![] bcast_S_S30000 : (⟨S_, .i32⟩ : BufTy).Contents (Elt F) → (⟨S30000, .i32⟩ : BufTy).Contents (Elt F)) (t_main_c_41 V))
theorem t_main_v184 (V : Valuation τ sig (Elt F)) : (after (ops (F := F)) V (Proc.devRef .tc main_v184)) = ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) :=
  (rd_main_v184 V).trans (congrArg₂ (addi : (⟨S30000, .i32⟩ : BufTy).Contents (Elt F) → (⟨S30000, .i32⟩ : BufTy).Contents (Elt F) → (⟨S30000, .i32⟩ : BufTy).Contents (Elt F)) (lift0_main_arg4 V) (t_main_v183 V))
theorem t_main_v185 (V : Valuation τ sig (Elt F)) : (after (ops (F := F)) V (Proc.devRef .tc main_v185)) = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4))) :=
  (rd_main_v185 V).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (t_main_v182 V) (t_main_v184 V) (lift0_main_arg4 V))
theorem t_main_v186 (V : Valuation τ sig (Elt F)) : (after (ops (F := F)) V (Proc.devRef .tc main_v186)) = ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))) :=
  (rd_main_v186 V).trans (congrArg (broadcastInDim S30000x1 ![0] bcast_S30000_S30000x1_0 : (⟨S30000, .i32⟩ : BufTy).Contents (Elt F) → (⟨S30000x1, .i32⟩ : BufTy).Contents (Elt F)) (t_main_v185 V))
theorem t_main_v187 (V : Valuation τ sig (Elt F)) : (after (ops (F := F)) V (Proc.devRef .tc main_v187)) = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v135)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4))))) :=
  (rd_main_v187 V).trans (congrArg₂ ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) rfl (t_main_v186 V))
theorem t_main_v188 (V : Valuation τ sig (Elt F)) : (after (ops (F := F)) V (Proc.devRef .tc main_v188)) = (concatenate S30000x192 1 [⟨S30000x64, (after (ops (F := F)) V (Proc.devRef .tc main_v118))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v169))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v135)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) :=
  (rd_main_v188 V).trans (congr3 (fun A0 A1 A2 => concatenate S30000x192 1 [⟨S30000x64, A0⟩, ⟨S30000x64, A1⟩, ⟨S30000x64, A2⟩] concatenates_S30000x64_S30000x64_S30000x64_S30000x192_d1) rfl (t_main_v180 V) (t_main_v187 V))
theorem t_main_v189 (V : Valuation τ sig (Elt F)) : (after (ops (F := F)) V (Proc.devRef .tc main_v189)) = (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (after (ops (F := F)) V (Proc.devRef .tc main_v118))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v169))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v135)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) (V (Proc.devRef .tc main_arg19))) :=
  (rd_main_v189 V).trans (congrArg₂ ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (t_main_v188 V) (lift0_main_arg19 V))
theorem t_main_v190 (V : Valuation τ sig (Elt F)) : (after (ops (F := F)) V (Proc.devRef .tc main_v190)) = ((broadcastInDim S1x64 ![1] bcast_S64_S1x64_1 : (⟨S64, .f32⟩ : BufTy).Contents (Elt F) → (⟨S1x64, .f32⟩ : BufTy).Contents (Elt F)) (V (Proc.devRef .tc main_arg20))) :=
  (rd_main_v190 V).trans (congrArg (broadcastInDim S1x64 ![1] bcast_S64_S1x64_1 : (⟨S64, .f32⟩ : BufTy).Contents (Elt F) → (⟨S1x64, .f32⟩ : BufTy).Contents (Elt F)) (lift0_main_arg20 V))
theorem t_main_v191 (V : Valuation τ sig (Elt F)) : (after (ops (F := F)) V (Proc.devRef .tc main_v191)) = ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg20)))) :=
  (rd_main_v191 V).trans (congrArg (broadcastInDim S30000x64 ![0, 1] bcast_S1x64_S30000x64_0_1 : (⟨S1x64, .f32⟩ : BufTy).Contents (Elt F) → (⟨S30000x64, .f32⟩ : BufTy).Contents (Elt F)) (t_main_v190 V))
theorem t_main_v192 (V : Valuation τ sig (Elt F)) : (after (ops (F := F)) V (Proc.devRef .tc main_v192)) = ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (after (ops (F := F)) V (Proc.devRef .tc main_v118))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v169))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v135)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) (V (Proc.devRef .tc main_arg19))) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg20))))) :=
  (rd_main_v192 V).trans (congrArg₂ (addf : (⟨S30000x64, .f32⟩ : BufTy).Contents (Elt F) → (⟨S30000x64, .f32⟩ : BufTy).Contents (Elt F) → (⟨S30000x64, .f32⟩ : BufTy).Contents (Elt F)) (t_main_v189 V) (t_main_v191 V))
theorem t_main_call7_cst (V : Valuation τ sig (Elt F)) : (after (ops (F := F)) V (Proc.devRef .tc main_call7_cst)) = (constant (F := F) S_ .f32 0x00000000#32) :=
  rd_main_call7_cst V
theorem t_main_call7_v0 (V : Valuation τ sig (Elt F)) : (after (ops (F := F)) V (Proc.devRef .tc main_call7_v0)) = (((broadcastInDim S30000x64 ![] bcast_S_S30000x64) : (⟨S_, .f32⟩ : BufTy).Contents (Elt F) → (⟨S30000x64, .f32⟩ : BufTy).Contents (Elt F)) (constant (F := F) S_ .f32 0x00000000#32)) :=
  (rd_main_call7_v0 V).trans (congrArg ((broadcastInDim S30000x64 ![] bcast_S_S30000x64) : (⟨S_, .f32⟩ : BufTy).Contents (Elt F) → (⟨S30000x64, .f32⟩ : BufTy).Contents (Elt F)) (t_main_call7_cst V))
theorem ref_main_v193 (V : Valuation τ sig (Elt F)) : (after (ops (F := F)) V (Proc.devRef .tc main_v193)) = ((maximumf : (⟨S30000x64, .f32⟩ : BufTy).Contents (Elt F) → (⟨S30000x64, .f32⟩ : BufTy).Contents (Elt F) → (⟨S30000x64, .f32⟩ : BufTy).Contents (Elt F)) ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (after (ops (F := F)) V (Proc.devRef .tc main_v118))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v169))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v135)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) (V (Proc.devRef .tc main_arg19))) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg20))))) (((broadcastInDim S30000x64 ![] bcast_S_S30000x64) : (⟨S_, .f32⟩ : BufTy).Contents (Elt F) → (⟨S30000x64, .f32⟩ : BufTy).Contents (Elt F)) (constant (F := F) S_ .f32 0x00000000#32))) :=
  (rd_main_v193 V).trans (congrArg₂ (maximumf : (⟨S30000x64, .f32⟩ : BufTy).Contents (Elt F) → (⟨S30000x64, .f32⟩ : BufTy).Contents (Elt F) → (⟨S30000x64, .f32⟩ : BufTy).Contents (Elt F)) (t_main_v192 V) (t_main_call7_v0 V))
theorem t_main_cst_42 (V : Valuation τ sig (Elt F)) : (after (ops (F := F)) V (Proc.devRef .tc main_cst_42)) = (constant (F := F) S_ .f32 0x00000000#32) :=
  rd_main_cst_42 V
theorem t_main_v194 (V : Valuation τ sig (Elt F)) : (after (ops (F := F)) V (Proc.devRef .tc main_v194)) = ((broadcastInDim S64x64 ![] bcast_S_S64x64 : (⟨S_, .f32⟩ : BufTy).Contents (Elt F) → (⟨S64x64, .f32⟩ : BufTy).Contents (Elt F)) (constant (F := F) S_ .f32 0x00000000#32)) :=
  (rd_main_v194 V).trans (congrArg (broadcastInDim S64x64 ![] bcast_S_S64x64 : (⟨S_, .f32⟩ : BufTy).Contents (Elt F) → (⟨S64x64, .f32⟩ : BufTy).Contents (Elt F)) (t_main_cst_42 V))
theorem t_main_v195 (V : Valuation τ sig (Elt F)) : (after (ops (F := F)) V (Proc.devRef .tc main_v195)) = ((broadcastInDim S30000x1 ![0] bcast_S30000_S30000x1_0 : (⟨S30000, .i32⟩ : BufTy).Contents (Elt F) → (⟨S30000x1, .i32⟩ : BufTy).Contents (Elt F)) (V (Proc.devRef .tc main_arg4))) :=
  (rd_main_v195 V).trans (congrArg (broadcastInDim S30000x1 ![0] bcast_S30000_S30000x1_0 : (⟨S30000, .i32⟩ : BufTy).Contents (Elt F) → (⟨S30000x1, .i32⟩ : BufTy).Contents (Elt F)) (lift0_main_arg4 V))
theorem t_main_v196 (V : Valuation τ sig (Elt F)) : (after (ops (F := F)) V (Proc.devRef .tc main_v196)) = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v193))) :=
  (rd_main_v196 V).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (t_main_v194 V) (t_main_v195 V) rfl)
theorem t_main_cst_44 (V : Valuation τ sig (Elt F)) : (after (ops (F := F)) V (Proc.devRef .tc main_cst_44)) = (constant (F := F) S_ .f32 0x00000000#32) :=
  rd_main_cst_44 V
theorem t_main_v198 (V : Valuation τ sig (Elt F)) : (after (ops (F := F)) V (Proc.devRef .tc main_v198)) = ((broadcastInDim S64x1 ![] bcast_S_S64x1 : (⟨S_, .f32⟩ : BufTy).Contents (Elt F) → (⟨S64x1, .f32⟩ : BufTy).Contents (Elt F)) (constant (F := F) S_ .f32 0x00000000#32)) :=
  (rd_main_v198 V).trans (congrArg (broadcastInDim S64x1 ![] bcast_S_S64x1 : (⟨S_, .f32⟩ : BufTy).Contents (Elt F) → (⟨S64x1, .f32⟩ : BufTy).Contents (Elt F)) (t_main_cst_44 V))
theorem t_main_v199 (V : Valuation τ sig (Elt F)) : (after (ops (F := F)) V (Proc.devRef .tc main_v199)) = ((broadcastInDim S30000x1 ![0] bcast_S30000_S30000x1_0 : (⟨S30000, .i32⟩ : BufTy).Contents (Elt F) → (⟨S30000x1, .i32⟩ : BufTy).Contents (Elt F)) (V (Proc.devRef .tc main_arg4))) :=
  (rd_main_v199 V).trans (congrArg (broadcastInDim S30000x1 ![0] bcast_S30000_S30000x1_0 : (⟨S30000, .i32⟩ : BufTy).Contents (Elt F) → (⟨S30000x1, .i32⟩ : BufTy).Contents (Elt F)) (lift0_main_arg4 V))
theorem t_main_cst_43 (V : Valuation τ sig (Elt F)) : (after (ops (F := F)) V (Proc.devRef .tc main_cst_43)) = (constant (F := F) S_ .f32 0x3F800000#32) :=
  rd_main_cst_43 V
theorem t_main_v197 (V : Valuation τ sig (Elt F)) : (after (ops (F := F)) V (Proc.devRef .tc main_v197)) = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (rd_main_v197 V).trans (congrArg (broadcastInDim S30000x1 ![] bcast_S_S30000x1 : (⟨S_, .f32⟩ : BufTy).Contents (Elt F) → (⟨S30000x1, .f32⟩ : BufTy).Contents (Elt F)) (t_main_cst_43 V))
theorem t_main_v200 (V : Valuation τ sig (Elt F)) : (after (ops (F := F)) V (Proc.devRef .tc main_v200)) = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (rd_main_v200 V).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (t_main_v198 V) (t_main_v199 V) (t_main_v197 V))
theorem t_main_cst_45 (V : Valuation τ sig (Elt F)) : (after (ops (F := F)) V (Proc.devRef .tc main_cst_45)) = (constant (F := F) S_ .f32 0x3F800000#32) :=
  rd_main_cst_45 V
theorem t_main_v201 (V : Valuation τ sig (Elt F)) : (after (ops (F := F)) V (Proc.devRef .tc main_v201)) = ((broadcastInDim S64x1 ![] bcast_S_S64x1 : (⟨S_, .f32⟩ : BufTy).Contents (Elt F) → (⟨S64x1, .f32⟩ : BufTy).Contents (Elt F)) (constant (F := F) S_ .f32 0x3F800000#32)) :=
  (rd_main_v201 V).trans (congrArg (broadcastInDim S64x1 ![] bcast_S_S64x1 : (⟨S_, .f32⟩ : BufTy).Contents (Elt F) → (⟨S64x1, .f32⟩ : BufTy).Contents (Elt F)) (t_main_cst_45 V))
theorem t_main_v202 (V : Valuation τ sig (Elt F)) : (after (ops (F := F)) V (Proc.devRef .tc main_v202)) = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))) :=
  (rd_main_v202 V).trans (congrArg₂ (maximumf : (⟨S64x1, .f32⟩ : BufTy).Contents (Elt F) → (⟨S64x1, .f32⟩ : BufTy).Contents (Elt F) → (⟨S64x1, .f32⟩ : BufTy).Contents (Elt F)) (t_main_v200 V) (t_main_v201 V))
theorem t_main_v203 (V : Valuation τ sig (Elt F)) : (after (ops (F := F)) V (Proc.devRef .tc main_v203)) = ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))) :=
  (rd_main_v203 V).trans (congrArg (broadcastInDim S64x64 ![0, 1] bcast_S64x1_S64x64_0_1 : (⟨S64x1, .f32⟩ : BufTy).Contents (Elt F) → (⟨S64x64, .f32⟩ : BufTy).Contents (Elt F)) (t_main_v202 V))
theorem t_main_v204 (V : Valuation τ sig (Elt F)) : (after (ops (F := F)) V (Proc.devRef .tc main_v204)) = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v193))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  (rd_main_v204 V).trans (congrArg₂ (Host.divf : (⟨S64x64, .f32⟩ : BufTy).Contents (Elt F) → (⟨S64x64, .f32⟩ : BufTy).Contents (Elt F) → (⟨S64x64, .f32⟩ : BufTy).Contents (Elt F)) (t_main_v196 V) (t_main_v203 V))
theorem t_main_v205 (V : Valuation τ sig (Elt F)) : (after (ops (F := F)) V (Proc.devRef .tc main_v205)) = (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v193))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v135))) :=
  (rd_main_v205 V).trans (congrArg₂ ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (t_main_v204 V) rfl)
theorem t_main_v206 (V : Valuation τ sig (Elt F)) : (after (ops (F := F)) V (Proc.devRef .tc main_v206)) = (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v193))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v135))) (V (Proc.devRef .tc main_arg21))) :=
  (rd_main_v206 V).trans (congrArg₂ ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (t_main_v205 V) (lift0_main_arg21 V))
theorem t_main_v207 (V : Valuation τ sig (Elt F)) : (after (ops (F := F)) V (Proc.devRef .tc main_v207)) = ((broadcastInDim S1x64 ![1] bcast_S64_S1x64_1 : (⟨S64, .f32⟩ : BufTy).Contents (Elt F) → (⟨S1x64, .f32⟩ : BufTy).Contents (Elt F)) (V (Proc.devRef .tc main_arg22))) :=
  (rd_main_v207 V).trans (congrArg (broadcastInDim S1x64 ![1] bcast_S64_S1x64_1 : (⟨S64, .f32⟩ : BufTy).Contents (Elt F) → (⟨S1x64, .f32⟩ : BufTy).Contents (Elt F)) (lift0_main_arg22 V))
theorem t_main_v208 (V : Valuation τ sig (Elt F)) : (after (ops (F := F)) V (Proc.devRef .tc main_v208)) = ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg22)))) :=
  (rd_main_v208 V).trans (congrArg (broadcastInDim S64x64 ![0, 1] bcast_S1x64_S64x64_0_1 : (⟨S1x64, .f32⟩ : BufTy).Contents (Elt F) → (⟨S64x64, .f32⟩ : BufTy).Contents (Elt F)) (t_main_v207 V))
theorem t_main_v209 (V : Valuation τ sig (Elt F)) : (after (ops (F := F)) V (Proc.devRef .tc main_v209)) = ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v193))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v135))) (V (Proc.devRef .tc main_arg21))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg22))))) :=
  (rd_main_v209 V).trans (congrArg₂ (addf : (⟨S64x64, .f32⟩ : BufTy).Contents (Elt F) → (⟨S64x64, .f32⟩ : BufTy).Contents (Elt F) → (⟨S64x64, .f32⟩ : BufTy).Contents (Elt F)) (t_main_v206 V) (t_main_v208 V))
theorem t_main_call8_cst (V : Valuation τ sig (Elt F)) : (after (ops (F := F)) V (Proc.devRef .tc main_call8_cst)) = (constant (F := F) S_ .f32 0x00000000#32) :=
  rd_main_call8_cst V
theorem t_main_call8_v0 (V : Valuation τ sig (Elt F)) : (after (ops (F := F)) V (Proc.devRef .tc main_call8_v0)) = (((broadcastInDim S64x64 ![] bcast_S_S64x64) : (⟨S_, .f32⟩ : BufTy).Contents (Elt F) → (⟨S64x64, .f32⟩ : BufTy).Contents (Elt F)) (constant (F := F) S_ .f32 0x00000000#32)) :=
  (rd_main_call8_v0 V).trans (congrArg ((broadcastInDim S64x64 ![] bcast_S_S64x64) : (⟨S_, .f32⟩ : BufTy).Contents (Elt F) → (⟨S64x64, .f32⟩ : BufTy).Contents (Elt F)) (t_main_call8_cst V))
theorem ref_main_v210 (V : Valuation τ sig (Elt F)) : (after (ops (F := F)) V (Proc.devRef .tc main_v210)) = ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v193))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v135))) (V (Proc.devRef .tc main_arg21))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg22))))) (((broadcastInDim S64x64 ![] bcast_S_S64x64) : (⟨S_, .f32⟩ : BufTy).Contents (Elt F) → (⟨S64x64, .f32⟩ : BufTy).Contents (Elt F)) (constant (F := F) S_ .f32 0x00000000#32))) :=
  (rd_main_v210 V).trans (congrArg₂ (maximumf : (⟨S64x64, .f32⟩ : BufTy).Contents (Elt F) → (⟨S64x64, .f32⟩ : BufTy).Contents (Elt F) → (⟨S64x64, .f32⟩ : BufTy).Contents (Elt F)) (t_main_v209 V) (t_main_call8_v0 V))

end Cert.ReferenceIdeal.Hand

end
-- ==== Proof.Bridge.L9.lean ====
import proofs.«123839_j71768903516633_2_alg».proof.Proof.Bridge.Names
import proofs.«123839_j71768903516633_2_alg».proof.Proof.Bridge.Glue9
import proofs.«123839_j71768903516633_2_alg».proof.Proof.KI.Anchor
import proofs.«123839_j71768903516633_2_alg».proof.Proof.Ref.StageL1

/-! Layer 9: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide9 (c : Dev Cert.KernelIdeal.nD) : rL9 m' c = refT9 (F := Ideal) (rL7 m' c) (rL6 m' c) (rL8 m' c) (rArg1 m' c) (rArg4 m' c) (rArg17 m' c) (rArg18 m' c) :=
  Cert.ReferenceIdeal.Hand.ref_main_v169 (F := Ideal) (launchContents m' c)

set_option maxHeartbeats 1000000 in
/-- The kernel program's anchor is the layer over its inputs, each the kernel side's term over the kernel's leaves. -/
theorem kerSide9 (c : Dev Cert.KernelIdeal.nD) :
    kL9 m c = layer4 (kT9_0 (F := Ideal) (kL7 m c) (kL6 m c) (kL8 m c) (kArg1 m c) (kArg4 m c) (kArg17 m c) (kArg18 m c)) (kT9_1 (F := Ideal) (kL7 m c) (kL6 m c) (kL8 m c) (kArg1 m c) (kArg4 m c) (kArg17 m c) (kArg18 m c)) (kT9_2 (F := Ideal) (kL7 m c) (kL6 m c) (kL8 m c) (kArg1 m c) (kArg4 m c) (kArg17 m c) (kArg18 m c)) (kT9_3 (F := Ideal) (kL7 m c) (kL6 m c) (kL8 m c) (kArg1 m c) (kArg4 m c) (kArg17 m c) (kArg18 m c)) (kT9_4 (F := Ideal) (kL7 m c) (kL6 m c) (kL8 m c) (kArg1 m c) (kArg4 m c) (kArg17 m c) (kArg18 m c)) (kT9_5 (F := Ideal) (kL7 m c) (kL6 m c) (kL8 m c) (kArg1 m c) (kArg4 m c) (kArg17 m c) (kArg18 m c)) (kT9_6 (F := Ideal) (kL7 m c) (kL6 m c) (kL8 m c) (kArg1 m c) (kArg4 m c) (kArg17 m c) (kArg18 m c)) (kT9_7 (F := Ideal) (kL7 m c) (kL6 m c) (kL8 m c) (kArg1 m c) (kArg4 m c) (kArg17 m c) (kArg18 m c)) (kT9_8 (F := Ideal) (kL7 m c) (kL6 m c) (kL8 m c) (kArg1 m c) (kArg4 m c) (kArg17 m c) (kArg18 m c)) := by
  have i0 : Cert.KernelIdeal.Hand.U17 m c Cert.KernelIdeal.main_v118 = kT9_0 (F := Ideal) (kL7 m c) (kL6 m c) (kL8 m c) (kArg1 m c) (kArg4 m c) (kArg17 m c) (kArg18 m c) := Cert.KernelIdeal.Hand.in9_0 (F := Ideal) m c
  have i1 : Cert.KernelIdeal.Hand.U17 m c Cert.KernelIdeal.main_v125 = kT9_1 (F := Ideal) (kL7 m c) (kL6 m c) (kL8 m c) (kArg1 m c) (kArg4 m c) (kArg17 m c) (kArg18 m c) := Cert.KernelIdeal.Hand.in9_1 (F := Ideal) m c
  have i2 : Cert.KernelIdeal.Hand.U17 m c Cert.KernelIdeal.main_v73 = kT9_2 (F := Ideal) (kL7 m c) (kL6 m c) (kL8 m c) (kArg1 m c) (kArg4 m c) (kArg17 m c) (kArg18 m c) := Cert.KernelIdeal.Hand.in9_2 (F := Ideal) m c
  have i3 : Cert.KernelIdeal.Hand.U17 m c Cert.KernelIdeal.main_v139 = kT9_3 (F := Ideal) (kL7 m c) (kL6 m c) (kL8 m c) (kArg1 m c) (kArg4 m c) (kArg17 m c) (kArg18 m c) := Cert.KernelIdeal.Hand.in9_3 (F := Ideal) m c
  have i4 : Cert.KernelIdeal.Hand.U17 m c Cert.KernelIdeal.main_v140 = kT9_4 (F := Ideal) (kL7 m c) (kL6 m c) (kL8 m c) (kArg1 m c) (kArg4 m c) (kArg17 m c) (kArg18 m c) := Cert.KernelIdeal.Hand.in9_4 (F := Ideal) m c
  have i5 : Cert.KernelIdeal.Hand.U17 m c Cert.KernelIdeal.main_v141 = kT9_5 (F := Ideal) (kL7 m c) (kL6 m c) (kL8 m c) (kArg1 m c) (kArg4 m c) (kArg17 m c) (kArg18 m c) := Cert.KernelIdeal.Hand.in9_5 (F := Ideal) m c
  have i6 : Cert.KernelIdeal.Hand.U17 m c Cert.KernelIdeal.main_v142 = kT9_6 (F := Ideal) (kL7 m c) (kL6 m c) (kL8 m c) (kArg1 m c) (kArg4 m c) (kArg17 m c) (kArg18 m c) := Cert.KernelIdeal.Hand.in9_6 (F := Ideal) m c
  have i7 : Cert.KernelIdeal.Hand.U17 m c Cert.KernelIdeal.main_v143 = kT9_7 (F := Ideal) (kL7 m c) (kL6 m c) (kL8 m c) (kArg1 m c) (kArg4 m c) (kArg17 m c) (kArg18 m c) := Cert.KernelIdeal.Hand.in9_7 (F := Ideal) m c
  have i8 : Cert.KernelIdeal.Hand.U17 m c Cert.KernelIdeal.main_v144 = kT9_8 (F := Ideal) (kL7 m c) (kL6 m c) (kL8 m c) (kArg1 m c) (kArg4 m c) (kArg17 m c) (kArg18 m c) := Cert.KernelIdeal.Hand.in9_8 (F := Ideal) m c
  refine (Cert.KernelIdeal.Hand.anchor9 m c).trans ?_
  rw [i0, i1, i2, i3, i4, i5, i6, i7, i8]

set_option maxHeartbeats 1000000 in
/-- Layer 9's anchors agree. -/
theorem eq_9 (c : Dev Cert.KernelIdeal.nD)
    (hL7 : rL7 m' c = kL7 m c)
    (hL6 : rL6 m' c = kL6 m c)
    (hL8 : rL8 m' c = kL8 m c)
    (ha1 : rArg1 m' c = kArg1 m c)
    (ha4 : rArg4 m' c = kArg4 m c)
    (ha17 : rArg17 m' c = kArg17 m c)
    (ha18 : rArg18 m' c = kArg18 m c) :
    rL9 m' c = kL9 m c := by
  rw [refSide9 m' c, hL7, hL6, hL8, ha1, ha4, ha17, ha18, kerSide9 m c]
  exact glue9 (kL7 m c) (kL6 m c) (kL8 m c) (kArg1 m c) (kArg4 m c) (kArg17 m c) (kArg18 m c)

end Cert.Proof.Bridge

end
-- ==== Proof.Bridge.Glue10.lean ====
import proofs.«123839_j71768903516633_2_alg».proof.Proof.Math.MlpRef

/-! Layer 10 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT10 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  ((maximumf : (⟨S30000x64, .f32⟩ : BufTy).Contents (Elt F) → (⟨S30000x64, .f32⟩ : BufTy).Contents (Elt F) → (⟨S30000x64, .f32⟩ : BufTy).Contents (Elt F)) ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (vL7)⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) (vL9)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (vL8) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (a4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (a4) ((broadcastInDim S30000 ![] bcast_S_S30000 : (⟨S_, .i32⟩ : BufTy).Contents (Elt F) → (⟨S30000, .i32⟩ : BufTy).Contents (Elt F)) (constantI S_ 32 64#32))) (a4))))⟩] concatenates_S30000x64_S30000x64_S30000x64_S30000x192_d1) (a19)) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (a20)))) (((broadcastInDim S30000x64 ![] bcast_S_S30000x64) : (⟨S_, .f32⟩ : BufTy).Contents (Elt F) → (⟨S30000x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT10_0 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  (vL7)
/-- The kernel side's input 1 of the layer, over the leaves. -/
def kT10_1 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) (vL9)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))
/-- The kernel side's input 2 of the layer, over the leaves. -/
def kT10_2 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (vL8) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (a4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (a4) ((broadcastInDim S30000 ![] bcast_S_S30000 : (⟨S_, .i32⟩ : BufTy).Contents (Elt F) → (⟨S30000, .i32⟩ : BufTy).Contents (Elt F)) (constantI S_ 32 64#32))) (a4))))
/-- The kernel side's input 3 of the layer, over the leaves. -/
def kT10_3 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  (((extractStridedSlice S64x64 ![0, 0] · slices_S192x64_S64x64_0_0) : (⟨S192x64, .f32⟩ : BufTy).Contents (Elt F) → (⟨S64x64, .f32⟩ : BufTy).Contents (Elt F)) (a19))
/-- The kernel side's input 4 of the layer, over the leaves. -/
def kT10_4 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  (((extractStridedSlice S64x64 ![64, 0] · slices_S192x64_S64x64_64_0) : (⟨S192x64, .f32⟩ : BufTy).Contents (Elt F) → (⟨S64x64, .f32⟩ : BufTy).Contents (Elt F)) (a19))
/-- The kernel side's input 5 of the layer, over the leaves. -/
def kT10_5 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  (((extractStridedSlice S64x64 ![128, 0] · slices_S192x64_S64x64_128_0) : (⟨S192x64, .f32⟩ : BufTy).Contents (Elt F) → (⟨S64x64, .f32⟩ : BufTy).Contents (Elt F)) (a19))
/-- The kernel side's input 6 of the layer, over the leaves. -/
def kT10_6 (vL7 : (⟨S30000x64, .f32⟩ : BufTy).Contents (Elt F)) (vL9 : (⟨S300000x64, .f32⟩ : BufTy).Contents (Elt F)) (vL8 : (⟨S64x64, .f32⟩ : BufTy).Contents (Elt F)) (a1 : (⟨S2x300000, .i32⟩ : BufTy).Contents (Elt F)) (a4 : (⟨S30000, .i32⟩ : BufTy).Contents (Elt F)) (a19 : (⟨S192x64, .f32⟩ : BufTy).Contents (Elt F)) (a20 : (⟨S64, .f32⟩ : BufTy).Contents (Elt F)) :=
  (shapeCast S1x64 (a20) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue10 (vL7 : (⟨Cert.KernelIdeal.S30000x64, .f32⟩ : BufTy).Contents (Elt Ideal)) (vL9 : (⟨Cert.KernelIdeal.S300000x64, .f32⟩ : BufTy).Contents (Elt Ideal)) (vL8 : (⟨Cert.KernelIdeal.S64x64, .f32⟩ : BufTy).Contents (Elt Ideal)) (a1 : (⟨Cert.KernelIdeal.S2x300000, .i32⟩ : BufTy).Contents (Elt Ideal)) (a4 : (⟨Cert.KernelIdeal.S30000, .i32⟩ : BufTy).Contents (Elt Ideal)) (a19 : (⟨Cert.KernelIdeal.S192x64, .f32⟩ : BufTy).Contents (Elt Ideal)) (a20 : (⟨Cert.KernelIdeal.S64, .f32⟩ : BufTy).Contents (Elt Ideal)) :
    refT10 (F := Ideal) vL7 vL9 vL8 a1 a4 a19 a20
      = layer3 (kT10_0 (F := Ideal) vL7 vL9 vL8 a1 a4 a19 a20) (kT10_1 (F := Ideal) vL7 vL9 vL8 a1 a4 a19 a20) (kT10_2 (F := Ideal) vL7 vL9 vL8 a1 a4 a19 a20) (kT10_3 (F := Ideal) vL7 vL9 vL8 a1 a4 a19 a20) (kT10_4 (F := Ideal) vL7 vL9 vL8 a1 a4 a19 a20) (kT10_5 (F := Ideal) vL7 vL9 vL8 a1 a4 a19 a20) (kT10_6 (F := Ideal) vL7 vL9 vL8 a1 a4 a19 a20) := by
  unfold refT10
  refine (Cert.ReferenceIdeal.Mlp.ref_node1 _ _ _ _ _).trans ?_
  rfl

end Cert.Proof.Bridge

end
-- ==== Proof.Bridge.L10.lean ====
import proofs.«123839_j71768903516633_2_alg».proof.Proof.Bridge.Names
import proofs.«123839_j71768903516633_2_alg».proof.Proof.Bridge.Glue10
import proofs.«123839_j71768903516633_2_alg».proof.Proof.KI.Anchor
import proofs.«123839_j71768903516633_2_alg».proof.Proof.Ref.StageL1

/-! Layer 10: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide10 (c : Dev Cert.KernelIdeal.nD) : rL10 m' c = refT10 (F := Ideal) (rL7 m' c) (rL9 m' c) (rL8 m' c) (rArg1 m' c) (rArg4 m' c) (rArg19 m' c) (rArg20 m' c) :=
  Cert.ReferenceIdeal.Hand.ref_main_v193 (F := Ideal) (launchContents m' c)

set_option maxHeartbeats 1000000 in
/-- The kernel program's anchor is the layer over its inputs, each the kernel side's term over the kernel's leaves. -/
theorem kerSide10 (c : Dev Cert.KernelIdeal.nD) :
    kL10 m c = layer3 (kT10_0 (F := Ideal) (kL7 m c) (kL9 m c) (kL8 m c) (kArg1 m c) (kArg4 m c) (kArg19 m c) (kArg20 m c)) (kT10_1 (F := Ideal) (kL7 m c) (kL9 m c) (kL8 m c) (kArg1 m c) (kArg4 m c) (kArg19 m c) (kArg20 m c)) (kT10_2 (F := Ideal) (kL7 m c) (kL9 m c) (kL8 m c) (kArg1 m c) (kArg4 m c) (kArg19 m c) (kArg20 m c)) (kT10_3 (F := Ideal) (kL7 m c) (kL9 m c) (kL8 m c) (kArg1 m c) (kArg4 m c) (kArg19 m c) (kArg20 m c)) (kT10_4 (F := Ideal) (kL7 m c) (kL9 m c) (kL8 m c) (kArg1 m c) (kArg4 m c) (kArg19 m c) (kArg20 m c)) (kT10_5 (F := Ideal) (kL7 m c) (kL9 m c) (kL8 m c) (kArg1 m c) (kArg4 m c) (kArg19 m c) (kArg20 m c)) (kT10_6 (F := Ideal) (kL7 m c) (kL9 m c) (kL8 m c) (kArg1 m c) (kArg4 m c) (kArg19 m c) (kArg20 m c)) := by
  have i0 : Cert.KernelIdeal.Hand.U19 m c Cert.KernelIdeal.main_v96 = kT10_0 (F := Ideal) (kL7 m c) (kL9 m c) (kL8 m c) (kArg1 m c) (kArg4 m c) (kArg19 m c) (kArg20 m c) := Cert.KernelIdeal.Hand.in10_0 (F := Ideal) m c
  have i1 : Cert.KernelIdeal.Hand.U19 m c Cert.KernelIdeal.main_v156 = kT10_1 (F := Ideal) (kL7 m c) (kL9 m c) (kL8 m c) (kArg1 m c) (kArg4 m c) (kArg19 m c) (kArg20 m c) := Cert.KernelIdeal.Hand.in10_1 (F := Ideal) m c
  have i2 : Cert.KernelIdeal.Hand.U19 m c Cert.KernelIdeal.main_v163 = kT10_2 (F := Ideal) (kL7 m c) (kL9 m c) (kL8 m c) (kArg1 m c) (kArg4 m c) (kArg19 m c) (kArg20 m c) := Cert.KernelIdeal.Hand.in10_2 (F := Ideal) m c
  have i3 : Cert.KernelIdeal.Hand.U19 m c Cert.KernelIdeal.main_v164 = kT10_3 (F := Ideal) (kL7 m c) (kL9 m c) (kL8 m c) (kArg1 m c) (kArg4 m c) (kArg19 m c) (kArg20 m c) := Cert.KernelIdeal.Hand.in10_3 (F := Ideal) m c
  have i4 : Cert.KernelIdeal.Hand.U19 m c Cert.KernelIdeal.main_v165 = kT10_4 (F := Ideal) (kL7 m c) (kL9 m c) (kL8 m c) (kArg1 m c) (kArg4 m c) (kArg19 m c) (kArg20 m c) := Cert.KernelIdeal.Hand.in10_4 (F := Ideal) m c
  have i5 : Cert.KernelIdeal.Hand.U19 m c Cert.KernelIdeal.main_v166 = kT10_5 (F := Ideal) (kL7 m c) (kL9 m c) (kL8 m c) (kArg1 m c) (kArg4 m c) (kArg19 m c) (kArg20 m c) := Cert.KernelIdeal.Hand.in10_5 (F := Ideal) m c
  have i6 : Cert.KernelIdeal.Hand.U19 m c Cert.KernelIdeal.main_v167 = kT10_6 (F := Ideal) (kL7 m c) (kL9 m c) (kL8 m c) (kArg1 m c) (kArg4 m c) (kArg19 m c) (kArg20 m c) := Cert.KernelIdeal.Hand.in10_6 (F := Ideal) m c
  refine (Cert.KernelIdeal.Hand.anchor10 m c).trans ?_
  rw [i0, i1, i2, i3, i4, i5, i6]

set_option maxHeartbeats 1000000 in
/-- Layer 10's anchors agree. -/
theorem eq_10 (c : Dev Cert.KernelIdeal.nD)
    (hL7 : rL7 m' c = kL7 m c)
    (hL9 : rL9 m' c = kL9 m c)
    (hL8 : rL8 m' c = kL8 m c)
    (ha1 : rArg1 m' c = kArg1 m c)
    (ha4 : rArg4 m' c = kArg4 m c)
    (ha19 : rArg19 m' c = kArg19 m c)
    (ha20 : rArg20 m' c = kArg20 m c) :
    rL10 m' c = kL10 m c := by
  rw [refSide10 m' c, hL7, hL9, hL8, ha1, ha4, ha19, ha20, kerSide10 m c]
  exact glue10 (kL7 m c) (kL9 m c) (kL8 m c) (kArg1 m c) (kArg4 m c) (kArg19 m c) (kArg20 m c)

end Cert.Proof.Bridge

end
-- ==== Proof.Bridge.Glue11.lean ====
import proofs.«123839_j71768903516633_2_alg».proof.Proof.Math.MlpRef

/-! Layer 11 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT11 (vL10 : (⟨S30000x64, .f32⟩ : BufTy).Contents (Elt F)) (vL8 : (⟨S64x64, .f32⟩ : BufTy).Contents (Elt F)) (a4 : (⟨S30000, .i32⟩ : BufTy).Contents (Elt F)) (a21 : (⟨S128x64, .f32⟩ : BufTy).Contents (Elt F)) (a22 : (⟨S64, .f32⟩ : BufTy).Contents (Elt F)) :=
  ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) (vL10)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (vL8)) (a21)) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (a22)))) (((broadcastInDim S64x64 ![] bcast_S_S64x64) : (⟨S_, .f32⟩ : BufTy).Contents (Elt F) → (⟨S64x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT11_0 (vL10 : (⟨S30000x64, .f32⟩ : BufTy).Contents (Elt F)) (vL8 : (⟨S64x64, .f32⟩ : BufTy).Contents (Elt F)) (a4 : (⟨S30000, .i32⟩ : BufTy).Contents (Elt F)) (a21 : (⟨S128x64, .f32⟩ : BufTy).Contents (Elt F)) (a22 : (⟨S64, .f32⟩ : BufTy).Contents (Elt F)) :=
  ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) (vL10)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))))
/-- The kernel side's input 1 of the layer, over the leaves. -/
def kT11_1 (vL10 : (⟨S30000x64, .f32⟩ : BufTy).Contents (Elt F)) (vL8 : (⟨S64x64, .f32⟩ : BufTy).Contents (Elt F)) (a4 : (⟨S30000, .i32⟩ : BufTy).Contents (Elt F)) (a21 : (⟨S128x64, .f32⟩ : BufTy).Contents (Elt F)) (a22 : (⟨S64, .f32⟩ : BufTy).Contents (Elt F)) :=
  (vL8)
/-- The kernel side's input 2 of the layer, over the leaves. -/
def kT11_2 (vL10 : (⟨S30000x64, .f32⟩ : BufTy).Contents (Elt F)) (vL8 : (⟨S64x64, .f32⟩ : BufTy).Contents (Elt F)) (a4 : (⟨S30000, .i32⟩ : BufTy).Contents (Elt F)) (a21 : (⟨S128x64, .f32⟩ : BufTy).Contents (Elt F)) (a22 : (⟨S64, .f32⟩ : BufTy).Contents (Elt F)) :=
  (((extractStridedSlice S64x64 ![0, 0] · slices_S128x64_S64x64_0_0) : (⟨S128x64, .f32⟩ : BufTy).Contents (Elt F) → (⟨S64x64, .f32⟩ : BufTy).Contents (Elt F)) (a21))
/-- The kernel side's input 3 of the layer, over the leaves. -/
def kT11_3 (vL10 : (⟨S30000x64, .f32⟩ : BufTy).Contents (Elt F)) (vL8 : (⟨S64x64, .f32⟩ : BufTy).Contents (Elt F)) (a4 : (⟨S30000, .i32⟩ : BufTy).Contents (Elt F)) (a21 : (⟨S128x64, .f32⟩ : BufTy).Contents (Elt F)) (a22 : (⟨S64, .f32⟩ : BufTy).Contents (Elt F)) :=
  (((extractStridedSlice S64x64 ![64, 0] · slices_S128x64_S64x64_64_0) : (⟨S128x64, .f32⟩ : BufTy).Contents (Elt F) → (⟨S64x64, .f32⟩ : BufTy).Contents (Elt F)) (a21))
/-- The kernel side's input 4 of the layer, over the leaves. -/
def kT11_4 (vL10 : (⟨S30000x64, .f32⟩ : BufTy).Contents (Elt F)) (vL8 : (⟨S64x64, .f32⟩ : BufTy).Contents (Elt F)) (a4 : (⟨S30000, .i32⟩ : BufTy).Contents (Elt F)) (a21 : (⟨S128x64, .f32⟩ : BufTy).Contents (Elt F)) (a22 : (⟨S64, .f32⟩ : BufTy).Contents (Elt F)) :=
  (shapeCast S1x64 (a22) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue11 (vL10 : (⟨Cert.KernelIdeal.S30000x64, .f32⟩ : BufTy).Contents (Elt Ideal)) (vL8 : (⟨Cert.KernelIdeal.S64x64, .f32⟩ : BufTy).Contents (Elt Ideal)) (a4 : (⟨Cert.KernelIdeal.S30000, .i32⟩ : BufTy).Contents (Elt Ideal)) (a21 : (⟨Cert.KernelIdeal.S128x64, .f32⟩ : BufTy).Contents (Elt Ideal)) (a22 : (⟨Cert.KernelIdeal.S64, .f32⟩ : BufTy).Contents (Elt Ideal)) :
    refT11 (F := Ideal) vL10 vL8 a4 a21 a22
      = layer2 (kT11_0 (F := Ideal) vL10 vL8 a4 a21 a22) (kT11_1 (F := Ideal) vL10 vL8 a4 a21 a22) (kT11_2 (F := Ideal) vL10 vL8 a4 a21 a22) (kT11_3 (F := Ideal) vL10 vL8 a4 a21 a22) (kT11_4 (F := Ideal) vL10 vL8 a4 a21 a22) := by
  unfold refT11
  refine (Cert.ReferenceIdeal.Mlp.ref_global1 _ _ _ _).trans ?_
  rfl

end Cert.Proof.Bridge

end
-- ==== Proof.Bridge.L11.lean ====
import proofs.«123839_j71768903516633_2_alg».proof.Proof.Bridge.Names
import proofs.«123839_j71768903516633_2_alg».proof.Proof.Bridge.Glue11
import proofs.«123839_j71768903516633_2_alg».proof.Proof.KI.Anchor
import proofs.«123839_j71768903516633_2_alg».proof.Proof.Ref.StageL1

/-! Layer 11: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide11 (c : Dev Cert.KernelIdeal.nD) : rL11 m' c = refT11 (F := Ideal) (rL10 m' c) (rL8 m' c) (rArg4 m' c) (rArg21 m' c) (rArg22 m' c) :=
  Cert.ReferenceIdeal.Hand.ref_main_v210 (F := Ideal) (launchContents m' c)

set_option maxHeartbeats 1000000 in
/-- The kernel program's anchor is the layer over its inputs, each the kernel side's term over the kernel's leaves. -/
theorem kerSide11 (c : Dev Cert.KernelIdeal.nD) :
    kL11 m c = layer2 (kT11_0 (F := Ideal) (kL10 m c) (kL8 m c) (kArg4 m c) (kArg21 m c) (kArg22 m c)) (kT11_1 (F := Ideal) (kL10 m c) (kL8 m c) (kArg4 m c) (kArg21 m c) (kArg22 m c)) (kT11_2 (F := Ideal) (kL10 m c) (kL8 m c) (kArg4 m c) (kArg21 m c) (kArg22 m c)) (kT11_3 (F := Ideal) (kL10 m c) (kL8 m c) (kArg4 m c) (kArg21 m c) (kArg22 m c)) (kT11_4 (F := Ideal) (kL10 m c) (kL8 m c) (kArg4 m c) (kArg21 m c) (kArg22 m c)) := by
  have i0 : Cert.KernelIdeal.Hand.U21 m c Cert.KernelIdeal.main_v179 = kT11_0 (F := Ideal) (kL10 m c) (kL8 m c) (kArg4 m c) (kArg21 m c) (kArg22 m c) := Cert.KernelIdeal.Hand.in11_0 (F := Ideal) m c
  have i1 : Cert.KernelIdeal.Hand.U21 m c Cert.KernelIdeal.main_v111 = kT11_1 (F := Ideal) (kL10 m c) (kL8 m c) (kArg4 m c) (kArg21 m c) (kArg22 m c) := Cert.KernelIdeal.Hand.in11_1 (F := Ideal) m c
  have i2 : Cert.KernelIdeal.Hand.U21 m c Cert.KernelIdeal.main_v180 = kT11_2 (F := Ideal) (kL10 m c) (kL8 m c) (kArg4 m c) (kArg21 m c) (kArg22 m c) := Cert.KernelIdeal.Hand.in11_2 (F := Ideal) m c
  have i3 : Cert.KernelIdeal.Hand.U21 m c Cert.KernelIdeal.main_v181 = kT11_3 (F := Ideal) (kL10 m c) (kL8 m c) (kArg4 m c) (kArg21 m c) (kArg22 m c) := Cert.KernelIdeal.Hand.in11_3 (F := Ideal) m c
  have i4 : Cert.KernelIdeal.Hand.U21 m c Cert.KernelIdeal.main_v182 = kT11_4 (F := Ideal) (kL10 m c) (kL8 m c) (kArg4 m c) (kArg21 m c) (kArg22 m c) := Cert.KernelIdeal.Hand.in11_4 (F := Ideal) m c
  refine (Cert.KernelIdeal.Hand.anchor11 m c).trans ?_
  rw [i0, i1, i2, i3, i4]

set_option maxHeartbeats 1000000 in
/-- Layer 11's anchors agree. -/
theorem eq_11 (c : Dev Cert.KernelIdeal.nD)
    (hL10 : rL10 m' c = kL10 m c)
    (hL8 : rL8 m' c = kL8 m c)
    (ha4 : rArg4 m' c = kArg4 m c)
    (ha21 : rArg21 m' c = kArg21 m c)
    (ha22 : rArg22 m' c = kArg22 m c) :
    rL11 m' c = kL11 m c := by
  rw [refSide11 m' c, hL10, hL8, ha4, ha21, ha22, kerSide11 m c]
  exact glue11 (kL10 m c) (kL8 m c) (kArg4 m c) (kArg21 m c) (kArg22 m c)

end Cert.Proof.Bridge

end
-- ==== Proof.Bridge.Glue12.lean ====
import proofs.«123839_j71768903516633_2_alg».proof.Proof.Math.MlpRef

/-! Layer 12 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT12 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  ((maximumf : (⟨S300000x64, .f32⟩ : BufTy).Contents (Elt F) → (⟨S300000x64, .f32⟩ : BufTy).Contents (Elt F) → (⟨S300000x64, .f32⟩ : BufTy).Contents (Elt F)) ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL10) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL10) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000))))⟩, ⟨S300000x64, (vL9)⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (vL11) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))))))⟩] concatenates_S300000x64_S300000x64_S300000x64_S300000x64_S300000x256_d1) (a23)) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (a24)))) (((broadcastInDim S300000x64 ![] bcast_S_S300000x64) : (⟨S_, .f32⟩ : BufTy).Contents (Elt F) → (⟨S300000x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT12_0 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL10) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000))))
/-- The kernel side's input 1 of the layer, over the leaves. -/
def kT12_1 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (vL10) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000))))
/-- The kernel side's input 2 of the layer, over the leaves. -/
def kT12_2 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (vL9)
/-- The kernel side's input 3 of the layer, over the leaves. -/
def kT12_3 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (vL11) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (a4) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (a1)) shapeCasts_S1x300000_S300000)))))))
/-- The kernel side's input 4 of the layer, over the leaves. -/
def kT12_4 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((extractStridedSlice S64x64 ![0, 0] · slices_S256x64_S64x64_0_0) : (⟨S256x64, .f32⟩ : BufTy).Contents (Elt F) → (⟨S64x64, .f32⟩ : BufTy).Contents (Elt F)) (a23))
/-- The kernel side's input 5 of the layer, over the leaves. -/
def kT12_5 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((extractStridedSlice S64x64 ![64, 0] · slices_S256x64_S64x64_64_0) : (⟨S256x64, .f32⟩ : BufTy).Contents (Elt F) → (⟨S64x64, .f32⟩ : BufTy).Contents (Elt F)) (a23))
/-- The kernel side's input 6 of the layer, over the leaves. -/
def kT12_6 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((extractStridedSlice S64x64 ![128, 0] · slices_S256x64_S64x64_128_0) : (⟨S256x64, .f32⟩ : BufTy).Contents (Elt F) → (⟨S64x64, .f32⟩ : BufTy).Contents (Elt F)) (a23))
/-- The kernel side's input 7 of the layer, over the leaves. -/
def kT12_7 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (((extractStridedSlice S64x64 ![192, 0] · slices_S256x64_S64x64_192_0) : (⟨S256x64, .f32⟩ : BufTy).Contents (Elt F) → (⟨S64x64, .f32⟩ : BufTy).Contents (Elt F)) (a23))
/-- The kernel side's input 8 of the layer, over the leaves. -/
def kT12_8 (vL10 : (⟨S30000x64, .f32⟩ : BufTy).Contents (Elt F)) (vL9 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a23 : (⟨S256x64, .f32⟩ : BufTy).Contents (Elt F)) (a24 : (⟨S64, .f32⟩ : BufTy).Contents (Elt F)) :=
  (shapeCast S1x64 (a24) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue12 (vL10 : (⟨Cert.KernelIdeal.S30000x64, .f32⟩ : BufTy).Contents (Elt Ideal)) (vL9 : (⟨Cert.KernelIdeal.S300000x64, .f32⟩ : BufTy).Contents (Elt Ideal)) (vL11 : (⟨Cert.KernelIdeal.S64x64, .f32⟩ : BufTy).Contents (Elt Ideal)) (a1 : (⟨Cert.KernelIdeal.S2x300000, .i32⟩ : BufTy).Contents (Elt Ideal)) (a4 : (⟨Cert.KernelIdeal.S30000, .i32⟩ : BufTy).Contents (Elt Ideal)) (a23 : (⟨Cert.KernelIdeal.S256x64, .f32⟩ : BufTy).Contents (Elt Ideal)) (a24 : (⟨Cert.KernelIdeal.S64, .f32⟩ : BufTy).Contents (Elt Ideal)) :
    refT12 (F := Ideal) vL10 vL9 vL11 a1 a4 a23 a24
      = layer4 (kT12_0 (F := Ideal) vL10 vL9 vL11 a1 a4 a23 a24) (kT12_1 (F := Ideal) vL10 vL9 vL11 a1 a4 a23 a24) (kT12_2 (F := Ideal) vL10 vL9 vL11 a1 a4 a23 a24) (kT12_3 (F := Ideal) vL10 vL9 vL11 a1 a4 a23 a24) (kT12_4 (F := Ideal) vL10 vL9 vL11 a1 a4 a23 a24) (kT12_5 (F := Ideal) vL10 vL9 vL11 a1 a4 a23 a24) (kT12_6 (F := Ideal) vL10 vL9 vL11 a1 a4 a23 a24) (kT12_7 (F := Ideal) vL10 vL9 vL11 a1 a4 a23 a24) (kT12_8 (F := Ideal) vL10 vL9 vL11 a1 a4 a23 a24) := by
  unfold refT12
  refine (Cert.ReferenceIdeal.Mlp.ref_edge1 _ _ _ _ _ _).trans ?_
  rfl

end Cert.Proof.Bridge

end
-- ==== Proof.Ref.S5.lean ====
-- written by: gen_ref.js <unit directory>
/- Window 5 of the reference program's @main read one operation at a time: every buffer of the window is written once, so at the window's end each operation's result buffer holds the operation's function of its operands' contents there. -/
import proofs.«123839_j71768903516633_2_alg».proof.Proof.Ref.Writes
import proofs.«123839_j71768903516633_2_alg».proof.Proof.Lib.LibReadFinal
import proofs.«123839_j71768903516633_2_alg».proof.Proof.Lib.LibSingleAssignmentNary

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem s_main_call9_cst (U : Valuation τ sig (Elt F)) : (after (ops5 (F := F)) U (Proc.devRef .tc main_call9_cst)) = (constant (F := F) S_ .f32 0x00000000#32) :=
  Cert.Lib.ReadFinal.nullary (y := main_call9_cst) (v := (constant (F := F) S_ .f32 0x00000000#32)) writes5 0 rfl (by decide) U
theorem s_main_call9_v0 (U : Valuation τ sig (Elt F)) : (after (ops5 (F := F)) U (Proc.devRef .tc main_call9_v0)) = ((broadcastInDim S300000x64 ![] bcast_S_S300000x64) : (⟨S_, .f32⟩ : BufTy).Contents (Elt F) → (⟨S300000x64, .f32⟩ : BufTy).Contents (Elt F)) (after (ops5 (F := F)) U (Proc.devRef .tc main_call9_cst)) :=
  Cert.Lib.ReadFinal.unary (x := main_call9_cst) (y := main_call9_v0) (f := ((broadcastInDim S300000x64 ![] bcast_S_S300000x64) : (⟨S_, .f32⟩ : BufTy).Contents (Elt F) → (⟨S300000x64, .f32⟩ : BufTy).Contents (Elt F))) writes5 1 rfl (by decide) (by decide) U
theorem s_main_v244 (U : Valuation τ sig (Elt F)) : (after (ops5 (F := F)) U (Proc.devRef .tc main_v244)) = (maximumf : (⟨S300000x64, .f32⟩ : BufTy).Contents (Elt F) → (⟨S300000x64, .f32⟩ : BufTy).Contents (Elt F) → (⟨S300000x64, .f32⟩ : BufTy).Contents (Elt F)) (after (ops5 (F := F)) U (Proc.devRef .tc main_v243)) (after (ops5 (F := F)) U (Proc.devRef .tc main_call9_v0)) :=
  Cert.Lib.ReadFinal.binary (a := main_v243) (b := main_call9_v0) (y := main_v244) (f := (maximumf : (⟨S300000x64, .f32⟩ : BufTy).Contents (Elt F) → (⟨S300000x64, .f32⟩ : BufTy).Contents (Elt F) → (⟨S300000x64, .f32⟩ : BufTy).Contents (Elt F))) writes5 2 rfl (by decide) (by decide) (by decide) U
theorem s_main_cst_54 (U : Valuation τ sig (Elt F)) : (after (ops5 (F := F)) U (Proc.devRef .tc main_cst_54)) = (constant (F := F) S_ .f32 0x00000000#32) :=
  Cert.Lib.ReadFinal.nullary (y := main_cst_54) (v := (constant (F := F) S_ .f32 0x00000000#32)) writes5 3 rfl (by decide) U
theorem s_main_v245 (U : Valuation τ sig (Elt F)) : (after (ops5 (F := F)) U (Proc.devRef .tc main_v245)) = (broadcastInDim S30000x64 ![] bcast_S_S30000x64 : (⟨S_, .f32⟩ : BufTy).Contents (Elt F) → (⟨S30000x64, .f32⟩ : BufTy).Contents (Elt F)) (after (ops5 (F := F)) U (Proc.devRef .tc main_cst_54)) :=
  Cert.Lib.ReadFinal.unary (x := main_cst_54) (y := main_v245) (f := (broadcastInDim S30000x64 ![] bcast_S_S30000x64 : (⟨S_, .f32⟩ : BufTy).Contents (Elt F) → (⟨S30000x64, .f32⟩ : BufTy).Contents (Elt F))) writes5 4 rfl (by decide) (by decide) U
theorem s_main_v246 (U : Valuation τ sig (Elt F)) : (after (ops5 (F := F)) U (Proc.devRef .tc main_v246)) = (broadcastInDim S300000x1 ![0] bcast_S300000_S300000x1_0 : (⟨S300000, .i32⟩ : BufTy).Contents (Elt F) → (⟨S300000x1, .i32⟩ : BufTy).Contents (Elt F)) (after (ops5 (F := F)) U (Proc.devRef .tc main_v3)) :=
  Cert.Lib.ReadFinal.unary (x := main_v3) (y := main_v246) (f := (broadcastInDim S300000x1 ![0] bcast_S300000_S300000x1_0 : (⟨S300000, .i32⟩ : BufTy).Contents (Elt F) → (⟨S300000x1, .i32⟩ : BufTy).Contents (Elt F))) writes5 5 rfl (by decide) (by decide) U
theorem s_main_v247 (U : Valuation τ sig (Elt F)) : (after (ops5 (F := F)) U (Proc.devRef .tc main_v247)) = ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (after (ops5 (F := F)) U (Proc.devRef .tc main_v245)) (after (ops5 (F := F)) U (Proc.devRef .tc main_v246)) (after (ops5 (F := F)) U (Proc.devRef .tc main_v244)) :=
  Cert.Lib.ReadFinal.ternary (c := main_v245) (a := main_v246) (b := main_v244) (y := main_v247) (f := ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F))) writes5 6 rfl (by decide) (by decide) (by decide) (by decide) U
theorem s_main_cst_55 (U : Valuation τ sig (Elt F)) : (after (ops5 (F := F)) U (Proc.devRef .tc main_cst_55)) = (constant (F := F) S_ .f32 0x3F800000#32) :=
  Cert.Lib.ReadFinal.nullary (y := main_cst_55) (v := (constant (F := F) S_ .f32 0x3F800000#32)) writes5 7 rfl (by decide) U
theorem s_main_v248 (U : Valuation τ sig (Elt F)) : (after (ops5 (F := F)) U (Proc.devRef .tc main_v248)) = (broadcastInDim S300000x1 ![] bcast_S_S300000x1 : (⟨S_, .f32⟩ : BufTy).Contents (Elt F) → (⟨S300000x1, .f32⟩ : BufTy).Contents (Elt F)) (after (ops5 (F := F)) U (Proc.devRef .tc main_cst_55)) :=
  Cert.Lib.ReadFinal.unary (x := main_cst_55) (y := main_v248) (f := (broadcastInDim S300000x1 ![] bcast_S_S300000x1 : (⟨S_, .f32⟩ : BufTy).Contents (Elt F) → (⟨S300000x1, .f32⟩ : BufTy).Contents (Elt F))) writes5 8 rfl (by decide) (by decide) U
theorem s_main_cst_56 (U : Valuation τ sig (Elt F)) : (after (ops5 (F := F)) U (Proc.devRef .tc main_cst_56)) = (constant (F := F) S_ .f32 0x00000000#32) :=
  Cert.Lib.ReadFinal.nullary (y := main_cst_56) (v := (constant (F := F) S_ .f32 0x00000000#32)) writes5 9 rfl (by decide) U
theorem s_main_v249 (U : Valuation τ sig (Elt F)) : (after (ops5 (F := F)) U (Proc.devRef .tc main_v249)) = (broadcastInDim S30000x1 ![] bcast_S_S30000x1 : (⟨S_, .f32⟩ : BufTy).Contents (Elt F) → (⟨S30000x1, .f32⟩ : BufTy).Contents (Elt F)) (after (ops5 (F := F)) U (Proc.devRef .tc main_cst_56)) :=
  Cert.Lib.ReadFinal.unary (x := main_cst_56) (y := main_v249) (f := (broadcastInDim S30000x1 ![] bcast_S_S30000x1 : (⟨S_, .f32⟩ : BufTy).Contents (Elt F) → (⟨S30000x1, .f32⟩ : BufTy).Contents (Elt F))) writes5 10 rfl (by decide) (by decide) U
theorem s_main_v250 (U : Valuation τ sig (Elt F)) : (after (ops5 (F := F)) U (Proc.devRef .tc main_v250)) = (broadcastInDim S300000x1 ![0] bcast_S300000_S300000x1_0 : (⟨S300000, .i32⟩ : BufTy).Contents (Elt F) → (⟨S300000x1, .i32⟩ : BufTy).Contents (Elt F)) (after (ops5 (F := F)) U (Proc.devRef .tc main_v3)) :=
  Cert.Lib.ReadFinal.unary (x := main_v3) (y := main_v250) (f := (broadcastInDim S300000x1 ![0] bcast_S300000_S300000x1_0 : (⟨S300000, .i32⟩ : BufTy).Contents (Elt F) → (⟨S300000x1, .i32⟩ : BufTy).Contents (Elt F))) writes5 11 rfl (by decide) (by decide) U
theorem s_main_v251 (U : Valuation τ sig (Elt F)) : (after (ops5 (F := F)) U (Proc.devRef .tc main_v251)) = ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (after (ops5 (F := F)) U (Proc.devRef .tc main_v249)) (after (ops5 (F := F)) U (Proc.devRef .tc main_v250)) (after (ops5 (F := F)) U (Proc.devRef .tc main_v248)) :=
  Cert.Lib.ReadFinal.ternary (c := main_v249) (a := main_v250) (b := main_v248) (y := main_v251) (f := ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F))) writes5 12 rfl (by decide) (by decide) (by decide) (by decide) U
theorem s_main_cst_57 (U : Valuation τ sig (Elt F)) : (after (ops5 (F := F)) U (Proc.devRef .tc main_cst_57)) = (constant (F := F) S_ .f32 0x3F800000#32) :=
  Cert.Lib.ReadFinal.nullary (y := main_cst_57) (v := (constant (F := F) S_ .f32 0x3F800000#32)) writes5 13 rfl (by decide) U
theorem s_main_v252 (U : Valuation τ sig (Elt F)) : (after (ops5 (F := F)) U (Proc.devRef .tc main_v252)) = (broadcastInDim S30000x1 ![] bcast_S_S30000x1 : (⟨S_, .f32⟩ : BufTy).Contents (Elt F) → (⟨S30000x1, .f32⟩ : BufTy).Contents (Elt F)) (after (ops5 (F := F)) U (Proc.devRef .tc main_cst_57)) :=
  Cert.Lib.ReadFinal.unary (x := main_cst_57) (y := main_v252) (f := (broadcastInDim S30000x1 ![] bcast_S_S30000x1 : (⟨S_, .f32⟩ : BufTy).Contents (Elt F) → (⟨S30000x1, .f32⟩ : BufTy).Contents (Elt F))) writes5 14 rfl (by decide) (by decide) U
theorem s_main_v253 (U : Valuation τ sig (Elt F)) : (after (ops5 (F := F)) U (Proc.devRef .tc main_v253)) = (maximumf : (⟨S30000x1, .f32⟩ : BufTy).Contents (Elt F) → (⟨S30000x1, .f32⟩ : BufTy).Contents (Elt F) → (⟨S30000x1, .f32⟩ : BufTy).Contents (Elt F)) (after (ops5 (F := F)) U (Proc.devRef .tc main_v251)) (after (ops5 (F := F)) U (Proc.devRef .tc main_v252)) :=
  Cert.Lib.ReadFinal.binary (a := main_v251) (b := main_v252) (y := main_v253) (f := (maximumf : (⟨S30000x1, .f32⟩ : BufTy).Contents (Elt F) → (⟨S30000x1, .f32⟩ : BufTy).Contents (Elt F) → (⟨S30000x1, .f32⟩ : BufTy).Contents (Elt F))) writes5 15 rfl (by decide) (by decide) (by decide) U
theorem s_main_v254 (U : Valuation τ sig (Elt F)) : (after (ops5 (F := F)) U (Proc.devRef .tc main_v254)) = (broadcastInDim S30000x64 ![0, 1] bcast_S30000x1_S30000x64_0_1 : (⟨S30000x1, .f32⟩ : BufTy).Contents (Elt F) → (⟨S30000x64, .f32⟩ : BufTy).Contents (Elt F)) (after (ops5 (F := F)) U (Proc.devRef .tc main_v253)) :=
  Cert.Lib.ReadFinal.unary (x := main_v253) (y := main_v254) (f := (broadcastInDim S30000x64 ![0, 1] bcast_S30000x1_S30000x64_0_1 : (⟨S30000x1, .f32⟩ : BufTy).Contents (Elt F) → (⟨S30000x64, .f32⟩ : BufTy).Contents (Elt F))) writes5 16 rfl (by decide) (by decide) U
theorem s_main_v255 (U : Valuation τ sig (Elt F)) : (after (ops5 (F := F)) U (Proc.devRef .tc main_v255)) = (Host.divf : (⟨S30000x64, .f32⟩ : BufTy).Contents (Elt F) → (⟨S30000x64, .f32⟩ : BufTy).Contents (Elt F) → (⟨S30000x64, .f32⟩ : BufTy).Contents (Elt F)) (after (ops5 (F := F)) U (Proc.devRef .tc main_v247)) (after (ops5 (F := F)) U (Proc.devRef .tc main_v254)) :=
  Cert.Lib.ReadFinal.binary (a := main_v247) (b := main_v254) (y := main_v255) (f := (Host.divf : (⟨S30000x64, .f32⟩ : BufTy).Contents (Elt F) → (⟨S30000x64, .f32⟩ : BufTy).Contents (Elt F) → (⟨S30000x64, .f32⟩ : BufTy).Contents (Elt F))) writes5 17 rfl (by decide) (by decide) (by decide) U
theorem s_main_c_58 (U : Valuation τ sig (Elt F)) : (after (ops5 (F := F)) U (Proc.devRef .tc main_c_58)) = (constantI S_ 32 0#32) :=
  Cert.Lib.ReadFinal.nullary (y := main_c_58) (v := (constantI S_ 32 0#32)) writes5 18 rfl (by decide) U
theorem s_main_v256 (U : Valuation τ sig (Elt F)) : (after (ops5 (F := F)) U (Proc.devRef .tc main_v256)) = (broadcastInDim S30000 ![] bcast_S_S30000 : (⟨S_, .i32⟩ : BufTy).Contents (Elt F) → (⟨S30000, .i32⟩ : BufTy).Contents (Elt F)) (after (ops5 (F := F)) U (Proc.devRef .tc main_c_58)) :=
  Cert.Lib.ReadFinal.unary (x := main_c_58) (y := main_v256) (f := (broadcastInDim S30000 ![] bcast_S_S30000 : (⟨S_, .i32⟩ : BufTy).Contents (Elt F) → (⟨S30000, .i32⟩ : BufTy).Contents (Elt F))) writes5 19 rfl (by decide) (by decide) U
theorem s_main_v257 (U : Valuation τ sig (Elt F)) : (after (ops5 (F := F)) U (Proc.devRef .tc main_v257)) = (cmpi .slt : (⟨S30000, .i32⟩ : BufTy).Contents (Elt F) → (⟨S30000, .i32⟩ : BufTy).Contents (Elt F) → (⟨S30000, .i1⟩ : BufTy).Contents (Elt F)) (after (ops5 (F := F)) U (Proc.devRef .tc main_arg4)) (after (ops5 (F := F)) U (Proc.devRef .tc main_v256)) :=
  Cert.Lib.ReadFinal.binary (a := main_arg4) (b := main_v256) (y := main_v257) (f := (cmpi .slt : (⟨S30000, .i32⟩ : BufTy).Contents (Elt F) → (⟨S30000, .i32⟩ : BufTy).Contents (Elt F) → (⟨S30000, .i1⟩ : BufTy).Contents (Elt F))) writes5 20 rfl (by decide) (by decide) (by decide) U
theorem s_main_c_59 (U : Valuation τ sig (Elt F)) : (after (ops5 (F := F)) U (Proc.devRef .tc main_c_59)) = (constantI S_ 32 64#32) :=
  Cert.Lib.ReadFinal.nullary (y := main_c_59) (v := (constantI S_ 32 64#32)) writes5 21 rfl (by decide) U
theorem s_main_v258 (U : Valuation τ sig (Elt F)) : (after (ops5 (F := F)) U (Proc.devRef .tc main_v258)) = (broadcastInDim S30000 ![] bcast_S_S30000 : (⟨S_, .i32⟩ : BufTy).Contents (Elt F) → (⟨S30000, .i32⟩ : BufTy).Contents (Elt F)) (after (ops5 (F := F)) U (Proc.devRef .tc main_c_59)) :=
  Cert.Lib.ReadFinal.unary (x := main_c_59) (y := main_v258) (f := (broadcastInDim S30000 ![] bcast_S_S30000 : (⟨S_, .i32⟩ : BufTy).Contents (Elt F) → (⟨S30000, .i32⟩ : BufTy).Contents (Elt F))) writes5 22 rfl (by decide) (by decide) U
theorem s_main_v259 (U : Valuation τ sig (Elt F)) : (after (ops5 (F := F)) U (Proc.devRef .tc main_v259)) = (addi : (⟨S30000, .i32⟩ : BufTy).Contents (Elt F) → (⟨S30000, .i32⟩ : BufTy).Contents (Elt F) → (⟨S30000, .i32⟩ : BufTy).Contents (Elt F)) (after (ops5 (F := F)) U (Proc.devRef .tc main_arg4)) (after (ops5 (F := F)) U (Proc.devRef .tc main_v258)) :=
  Cert.Lib.ReadFinal.binary (a := main_arg4) (b := main_v258) (y := main_v259) (f := (addi : (⟨S30000, .i32⟩ : BufTy).Contents (Elt F) → (⟨S30000, .i32⟩ : BufTy).Contents (Elt F) → (⟨S30000, .i32⟩ : BufTy).Contents (Elt F))) writes5 23 rfl (by decide) (by decide) (by decide) U
theorem s_main_v260 (U : Valuation τ sig (Elt F)) : (after (ops5 (F := F)) U (Proc.devRef .tc main_v260)) = (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (after (ops5 (F := F)) U (Proc.devRef .tc main_v257)) (after (ops5 (F := F)) U (Proc.devRef .tc main_v259)) (after (ops5 (F := F)) U (Proc.devRef .tc main_arg4)) :=
  Cert.Lib.ReadFinal.ternary (c := main_v257) (a := main_v259) (b := main_arg4) (y := main_v260) (f := (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))) writes5 24 rfl (by decide) (by decide) (by decide) (by decide) U
theorem s_main_v261 (U : Valuation τ sig (Elt F)) : (after (ops5 (F := F)) U (Proc.devRef .tc main_v261)) = (broadcastInDim S30000x1 ![0] bcast_S30000_S30000x1_0 : (⟨S30000, .i32⟩ : BufTy).Contents (Elt F) → (⟨S30000x1, .i32⟩ : BufTy).Contents (Elt F)) (after (ops5 (F := F)) U (Proc.devRef .tc main_v260)) :=
  Cert.Lib.ReadFinal.unary (x := main_v260) (y := main_v261) (f := (broadcastInDim S30000x1 ![0] bcast_S30000_S30000x1_0 : (⟨S30000, .i32⟩ : BufTy).Contents (Elt F) → (⟨S30000x1, .i32⟩ : BufTy).Contents (Elt F))) writes5 25 rfl (by decide) (by decide) U
theorem s_main_v262 (U : Valuation τ sig (Elt F)) : (after (ops5 (F := F)) U (Proc.devRef .tc main_v262)) = ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops5 (F := F)) U (Proc.devRef .tc main_v210)) (after (ops5 (F := F)) U (Proc.devRef .tc main_v261)) :=
  Cert.Lib.ReadFinal.binary (a := main_v210) (b := main_v261) (y := main_v262) (f := ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F))) writes5 26 rfl (by decide) (by decide) (by decide) U
theorem s_main_v263 (U : Valuation τ sig (Elt F)) : (after (ops5 (F := F)) U (Proc.devRef .tc main_v263)) = concatenate S30000x192 1 [⟨S30000x64, (after (ops5 (F := F)) U (Proc.devRef .tc main_v193))⟩, ⟨S30000x64, (after (ops5 (F := F)) U (Proc.devRef .tc main_v255))⟩, ⟨S30000x64, (after (ops5 (F := F)) U (Proc.devRef .tc main_v262))⟩] concatenates_S30000x64_S30000x64_S30000x64_S30000x192_d1 :=
  (Cert.Lib.SingleAssignment.read_nary (t := []) (xs := ![main_v193, main_v255, main_v262]) (y := main_v263) (f := (fun u => concatenate S30000x192 1 [⟨S30000x64, u 0⟩, ⟨S30000x64, u 1⟩, ⟨S30000x64, u 2⟩] concatenates_S30000x64_S30000x64_S30000x64_S30000x192_d1)) writes5 Cert.Lib.SingleAssignment.Writes.nil 27 rfl (by decide) (by decide) U).trans rfl
theorem s_main_v264 (U : Valuation τ sig (Elt F)) : (after (ops5 (F := F)) U (Proc.devRef .tc main_v264)) = ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (after (ops5 (F := F)) U (Proc.devRef .tc main_v263)) (after (ops5 (F := F)) U (Proc.devRef .tc main_arg25)) :=
  Cert.Lib.ReadFinal.binary (a := main_v263) (b := main_arg25) (y := main_v264) (f := ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F))) writes5 28 rfl (by decide) (by decide) (by decide) U
theorem s_main_v265 (U : Valuation τ sig (Elt F)) : (after (ops5 (F := F)) U (Proc.devRef .tc main_v265)) = (broadcastInDim S1x64 ![1] bcast_S64_S1x64_1 : (⟨S64, .f32⟩ : BufTy).Contents (Elt F) → (⟨S1x64, .f32⟩ : BufTy).Contents (Elt F)) (after (ops5 (F := F)) U (Proc.devRef .tc main_arg26)) :=
  Cert.Lib.ReadFinal.unary (x := main_arg26) (y := main_v265) (f := (broadcastInDim S1x64 ![1] bcast_S64_S1x64_1 : (⟨S64, .f32⟩ : BufTy).Contents (Elt F) → (⟨S1x64, .f32⟩ : BufTy).Contents (Elt F))) writes5 29 rfl (by decide) (by decide) U
theorem s_main_v266 (U : Valuation τ sig (Elt F)) : (after (ops5 (F := F)) U (Proc.devRef .tc main_v266)) = (broadcastInDim S30000x64 ![0, 1] bcast_S1x64_S30000x64_0_1 : (⟨S1x64, .f32⟩ : BufTy).Contents (Elt F) → (⟨S30000x64, .f32⟩ : BufTy).Contents (Elt F)) (after (ops5 (F := F)) U (Proc.devRef .tc main_v265)) :=
  Cert.Lib.ReadFinal.unary (x := main_v265) (y := main_v266) (f := (broadcastInDim S30000x64 ![0, 1] bcast_S1x64_S30000x64_0_1 : (⟨S1x64, .f32⟩ : BufTy).Contents (Elt F) → (⟨S30000x64, .f32⟩ : BufTy).Contents (Elt F))) writes5 30 rfl (by decide) (by decide) U
theorem s_main_v267 (U : Valuation τ sig (Elt F)) : (after (ops5 (F := F)) U (Proc.devRef .tc main_v267)) = (addf : (⟨S30000x64, .f32⟩ : BufTy).Contents (Elt F) → (⟨S30000x64, .f32⟩ : BufTy).Contents (Elt F) → (⟨S30000x64, .f32⟩ : BufTy).Contents (Elt F)) (after (ops5 (F := F)) U (Proc.devRef .tc main_v264)) (after (ops5 (F := F)) U (Proc.devRef .tc main_v266)) :=
  Cert.Lib.ReadFinal.binary (a := main_v264) (b := main_v266) (y := main_v267) (f := (addf : (⟨S30000x64, .f32⟩ : BufTy).Contents (Elt F) → (⟨S30000x64, .f32⟩ : BufTy).Contents (Elt F) → (⟨S30000x64, .f32⟩ : BufTy).Contents (Elt F))) writes5 31 rfl (by decide) (by decide) (by decide) U
theorem s_main_call10_cst (U : Valuation τ sig (Elt F)) : (after (ops5 (F := F)) U (Proc.devRef .tc main_call10_cst)) = (constant (F := F) S_ .f32 0x00000000#32) :=
  Cert.Lib.ReadFinal.nullary (y := main_call10_cst) (v := (constant (F := F) S_ .f32 0x00000000#32)) writes5 32 rfl (by decide) U
theorem s_main_call10_v0 (U : Valuation τ sig (Elt F)) : (after (ops5 (F := F)) U (Proc.devRef .tc main_call10_v0)) = ((broadcastInDim S30000x64 ![] bcast_S_S30000x64) : (⟨S_, .f32⟩ : BufTy).Contents (Elt F) → (⟨S30000x64, .f32⟩ : BufTy).Contents (Elt F)) (after (ops5 (F := F)) U (Proc.devRef .tc main_call10_cst)) :=
  Cert.Lib.ReadFinal.unary (x := main_call10_cst) (y := main_call10_v0) (f := ((broadcastInDim S30000x64 ![] bcast_S_S30000x64) : (⟨S_, .f32⟩ : BufTy).Contents (Elt F) → (⟨S30000x64, .f32⟩ : BufTy).Contents (Elt F))) writes5 33 rfl (by decide) (by decide) U
theorem s_main_v268 (U : Valuation τ sig (Elt F)) : (after (ops5 (F := F)) U (Proc.devRef .tc main_v268)) = (maximumf : (⟨S30000x64, .f32⟩ : BufTy).Contents (Elt F) → (⟨S30000x64, .f32⟩ : BufTy).Contents (Elt F) → (⟨S30000x64, .f32⟩ : BufTy).Contents (Elt F)) (after (ops5 (F := F)) U (Proc.devRef .tc main_v267)) (after (ops5 (F := F)) U (Proc.devRef .tc main_call10_v0)) :=
  Cert.Lib.ReadFinal.binary (a := main_v267) (b := main_call10_v0) (y := main_v268) (f := (maximumf : (⟨S30000x64, .f32⟩ : BufTy).Contents (Elt F) → (⟨S30000x64, .f32⟩ : BufTy).Contents (Elt F) → (⟨S30000x64, .f32⟩ : BufTy).Contents (Elt F))) writes5 34 rfl (by decide) (by decide) (by decide) U
theorem s_main_cst_60 (U : Valuation τ sig (Elt F)) : (after (ops5 (F := F)) U (Proc.devRef .tc main_cst_60)) = (constant (F := F) S_ .f32 0x00000000#32) :=
  Cert.Lib.ReadFinal.nullary (y := main_cst_60) (v := (constant (F := F) S_ .f32 0x00000000#32)) writes5 35 rfl (by decide) U
theorem s_main_v269 (U : Valuation τ sig (Elt F)) : (after (ops5 (F := F)) U (Proc.devRef .tc main_v269)) = (broadcastInDim S64x64 ![] bcast_S_S64x64 : (⟨S_, .f32⟩ : BufTy).Contents (Elt F) → (⟨S64x64, .f32⟩ : BufTy).Contents (Elt F)) (after (ops5 (F := F)) U (Proc.devRef .tc main_cst_60)) :=
  Cert.Lib.ReadFinal.unary (x := main_cst_60) (y := main_v269) (f := (broadcastInDim S64x64 ![] bcast_S_S64x64 : (⟨S_, .f32⟩ : BufTy).Contents (Elt F) → (⟨S64x64, .f32⟩ : BufTy).Contents (Elt F))) writes5 36 rfl (by decide) (by decide) U
theorem s_main_v270 (U : Valuation τ sig (Elt F)) : (after (ops5 (F := F)) U (Proc.devRef .tc main_v270)) = (broadcastInDim S30000x1 ![0] bcast_S30000_S30000x1_0 : (⟨S30000, .i32⟩ : BufTy).Contents (Elt F) → (⟨S30000x1, .i32⟩ : BufTy).Contents (Elt F)) (after (ops5 (F := F)) U (Proc.devRef .tc main_arg4)) :=
  Cert.Lib.ReadFinal.unary (x := main_arg4) (y := main_v270) (f := (broadcastInDim S30000x1 ![0] bcast_S30000_S30000x1_0 : (⟨S30000, .i32⟩ : BufTy).Contents (Elt F) → (⟨S30000x1, .i32⟩ : BufTy).Contents (Elt F))) writes5 37 rfl (by decide) (by decide) U
theorem s_main_v271 (U : Valuation τ sig (Elt F)) : (after (ops5 (F := F)) U (Proc.devRef .tc main_v271)) = ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (after (ops5 (F := F)) U (Proc.devRef .tc main_v269)) (after (ops5 (F := F)) U (Proc.devRef .tc main_v270)) (after (ops5 (F := F)) U (Proc.devRef .tc main_v268)) :=
  Cert.Lib.ReadFinal.ternary (c := main_v269) (a := main_v270) (b := main_v268) (y := main_v271) (f := ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F))) writes5 38 rfl (by decide) (by decide) (by decide) (by decide) U
theorem s_main_cst_61 (U : Valuation τ sig (Elt F)) : (after (ops5 (F := F)) U (Proc.devRef .tc main_cst_61)) = (constant (F := F) S_ .f32 0x3F800000#32) :=
  Cert.Lib.ReadFinal.nullary (y := main_cst_61) (v := (constant (F := F) S_ .f32 0x3F800000#32)) writes5 39 rfl (by decide) U
theorem s_main_v272 (U : Valuation τ sig (Elt F)) : (after (ops5 (F := F)) U (Proc.devRef .tc main_v272)) = (broadcastInDim S30000x1 ![] bcast_S_S30000x1 : (⟨S_, .f32⟩ : BufTy).Contents (Elt F) → (⟨S30000x1, .f32⟩ : BufTy).Contents (Elt F)) (after (ops5 (F := F)) U (Proc.devRef .tc main_cst_61)) :=
  Cert.Lib.ReadFinal.unary (x := main_cst_61) (y := main_v272) (f := (broadcastInDim S30000x1 ![] bcast_S_S30000x1 : (⟨S_, .f32⟩ : BufTy).Contents (Elt F) → (⟨S30000x1, .f32⟩ : BufTy).Contents (Elt F))) writes5 40 rfl (by decide) (by decide) U
theorem s_main_cst_62 (U : Valuation τ sig (Elt F)) : (after (ops5 (F := F)) U (Proc.devRef .tc main_cst_62)) = (constant (F := F) S_ .f32 0x00000000#32) :=
  Cert.Lib.ReadFinal.nullary (y := main_cst_62) (v := (constant (F := F) S_ .f32 0x00000000#32)) writes5 41 rfl (by decide) U
theorem s_main_v273 (U : Valuation τ sig (Elt F)) : (after (ops5 (F := F)) U (Proc.devRef .tc main_v273)) = (broadcastInDim S64x1 ![] bcast_S_S64x1 : (⟨S_, .f32⟩ : BufTy).Contents (Elt F) → (⟨S64x1, .f32⟩ : BufTy).Contents (Elt F)) (after (ops5 (F := F)) U (Proc.devRef .tc main_cst_62)) :=
  Cert.Lib.ReadFinal.unary (x := main_cst_62) (y := main_v273) (f := (broadcastInDim S64x1 ![] bcast_S_S64x1 : (⟨S_, .f32⟩ : BufTy).Contents (Elt F) → (⟨S64x1, .f32⟩ : BufTy).Contents (Elt F))) writes5 42 rfl (by decide) (by decide) U
theorem s_main_v274 (U : Valuation τ sig (Elt F)) : (after (ops5 (F := F)) U (Proc.devRef .tc main_v274)) = (broadcastInDim S30000x1 ![0] bcast_S30000_S30000x1_0 : (⟨S30000, .i32⟩ : BufTy).Contents (Elt F) → (⟨S30000x1, .i32⟩ : BufTy).Contents (Elt F)) (after (ops5 (F := F)) U (Proc.devRef .tc main_arg4)) :=
  Cert.Lib.ReadFinal.unary (x := main_arg4) (y := main_v274) (f := (broadcastInDim S30000x1 ![0] bcast_S30000_S30000x1_0 : (⟨S30000, .i32⟩ : BufTy).Contents (Elt F) → (⟨S30000x1, .i32⟩ : BufTy).Contents (Elt F))) writes5 43 rfl (by decide) (by decide) U
theorem s_main_v275 (U : Valuation τ sig (Elt F)) : (after (ops5 (F := F)) U (Proc.devRef .tc main_v275)) = ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (after (ops5 (F := F)) U (Proc.devRef .tc main_v273)) (after (ops5 (F := F)) U (Proc.devRef .tc main_v274)) (after (ops5 (F := F)) U (Proc.devRef .tc main_v272)) :=
  Cert.Lib.ReadFinal.ternary (c := main_v273) (a := main_v274) (b := main_v272) (y := main_v275) (f := ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F))) writes5 44 rfl (by decide) (by decide) (by decide) (by decide) U
theorem s_main_cst_63 (U : Valuation τ sig (Elt F)) : (after (ops5 (F := F)) U (Proc.devRef .tc main_cst_63)) = (constant (F := F) S_ .f32 0x3F800000#32) :=
  Cert.Lib.ReadFinal.nullary (y := main_cst_63) (v := (constant (F := F) S_ .f32 0x3F800000#32)) writes5 45 rfl (by decide) U
theorem s_main_v276 (U : Valuation τ sig (Elt F)) : (after (ops5 (F := F)) U (Proc.devRef .tc main_v276)) = (broadcastInDim S64x1 ![] bcast_S_S64x1 : (⟨S_, .f32⟩ : BufTy).Contents (Elt F) → (⟨S64x1, .f32⟩ : BufTy).Contents (Elt F)) (after (ops5 (F := F)) U (Proc.devRef .tc main_cst_63)) :=
  Cert.Lib.ReadFinal.unary (x := main_cst_63) (y := main_v276) (f := (broadcastInDim S64x1 ![] bcast_S_S64x1 : (⟨S_, .f32⟩ : BufTy).Contents (Elt F) → (⟨S64x1, .f32⟩ : BufTy).Contents (Elt F))) writes5 46 rfl (by decide) (by decide) U
theorem s_main_v277 (U : Valuation τ sig (Elt F)) : (after (ops5 (F := F)) U (Proc.devRef .tc main_v277)) = (maximumf : (⟨S64x1, .f32⟩ : BufTy).Contents (Elt F) → (⟨S64x1, .f32⟩ : BufTy).Contents (Elt F) → (⟨S64x1, .f32⟩ : BufTy).Contents (Elt F)) (after (ops5 (F := F)) U (Proc.devRef .tc main_v275)) (after (ops5 (F := F)) U (Proc.devRef .tc main_v276)) :=
  Cert.Lib.ReadFinal.binary (a := main_v275) (b := main_v276) (y := main_v277) (f := (maximumf : (⟨S64x1, .f32⟩ : BufTy).Contents (Elt F) → (⟨S64x1, .f32⟩ : BufTy).Contents (Elt F) → (⟨S64x1, .f32⟩ : BufTy).Contents (Elt F))) writes5 47 rfl (by decide) (by decide) (by decide) U
theorem s_main_v278 (U : Valuation τ sig (Elt F)) : (after (ops5 (F := F)) U (Proc.devRef .tc main_v278)) = (broadcastInDim S64x64 ![0, 1] bcast_S64x1_S64x64_0_1 : (⟨S64x1, .f32⟩ : BufTy).Contents (Elt F) → (⟨S64x64, .f32⟩ : BufTy).Contents (Elt F)) (after (ops5 (F := F)) U (Proc.devRef .tc main_v277)) :=
  Cert.Lib.ReadFinal.unary (x := main_v277) (y := main_v278) (f := (broadcastInDim S64x64 ![0, 1] bcast_S64x1_S64x64_0_1 : (⟨S64x1, .f32⟩ : BufTy).Contents (Elt F) → (⟨S64x64, .f32⟩ : BufTy).Contents (Elt F))) writes5 48 rfl (by decide) (by decide) U
theorem s_main_v279 (U : Valuation τ sig (Elt F)) : (after (ops5 (F := F)) U (Proc.devRef .tc main_v279)) = (Host.divf : (⟨S64x64, .f32⟩ : BufTy).Contents (Elt F) → (⟨S64x64, .f32⟩ : BufTy).Contents (Elt F) → (⟨S64x64, .f32⟩ : BufTy).Contents (Elt F)) (after (ops5 (F := F)) U (Proc.devRef .tc main_v271)) (after (ops5 (F := F)) U (Proc.devRef .tc main_v278)) :=
  Cert.Lib.ReadFinal.binary (a := main_v271) (b := main_v278) (y := main_v279) (f := (Host.divf : (⟨S64x64, .f32⟩ : BufTy).Contents (Elt F) → (⟨S64x64, .f32⟩ : BufTy).Contents (Elt F) → (⟨S64x64, .f32⟩ : BufTy).Contents (Elt F))) writes5 49 rfl (by decide) (by decide) (by decide) U
theorem s_main_v280 (U : Valuation τ sig (Elt F)) : (after (ops5 (F := F)) U (Proc.devRef .tc main_v280)) = ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (after (ops5 (F := F)) U (Proc.devRef .tc main_v279)) (after (ops5 (F := F)) U (Proc.devRef .tc main_v210)) :=
  Cert.Lib.ReadFinal.binary (a := main_v279) (b := main_v210) (y := main_v280) (f := ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F))) writes5 50 rfl (by decide) (by decide) (by decide) U
theorem s_main_v281 (U : Valuation τ sig (Elt F)) : (after (ops5 (F := F)) U (Proc.devRef .tc main_v281)) = ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (after (ops5 (F := F)) U (Proc.devRef .tc main_v280)) (after (ops5 (F := F)) U (Proc.devRef .tc main_arg27)) :=
  Cert.Lib.ReadFinal.binary (a := main_v280) (b := main_arg27) (y := main_v281) (f := ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F))) writes5 51 rfl (by decide) (by decide) (by decide) U
theorem s_main_v282 (U : Valuation τ sig (Elt F)) : (after (ops5 (F := F)) U (Proc.devRef .tc main_v282)) = (broadcastInDim S1x64 ![1] bcast_S64_S1x64_1 : (⟨S64, .f32⟩ : BufTy).Contents (Elt F) → (⟨S1x64, .f32⟩ : BufTy).Contents (Elt F)) (after (ops5 (F := F)) U (Proc.devRef .tc main_arg28)) :=
  Cert.Lib.ReadFinal.unary (x := main_arg28) (y := main_v282) (f := (broadcastInDim S1x64 ![1] bcast_S64_S1x64_1 : (⟨S64, .f32⟩ : BufTy).Contents (Elt F) → (⟨S1x64, .f32⟩ : BufTy).Contents (Elt F))) writes5 52 rfl (by decide) (by decide) U
theorem s_main_v283 (U : Valuation τ sig (Elt F)) : (after (ops5 (F := F)) U (Proc.devRef .tc main_v283)) = (broadcastInDim S64x64 ![0, 1] bcast_S1x64_S64x64_0_1 : (⟨S1x64, .f32⟩ : BufTy).Contents (Elt F) → (⟨S64x64, .f32⟩ : BufTy).Contents (Elt F)) (after (ops5 (F := F)) U (Proc.devRef .tc main_v282)) :=
  Cert.Lib.ReadFinal.unary (x := main_v282) (y := main_v283) (f := (broadcastInDim S64x64 ![0, 1] bcast_S1x64_S64x64_0_1 : (⟨S1x64, .f32⟩ : BufTy).Contents (Elt F) → (⟨S64x64, .f32⟩ : BufTy).Contents (Elt F))) writes5 53 rfl (by decide) (by decide) U
theorem s_main_v284 (U : Valuation τ sig (Elt F)) : (after (ops5 (F := F)) U (Proc.devRef .tc main_v284)) = (addf : (⟨S64x64, .f32⟩ : BufTy).Contents (Elt F) → (⟨S64x64, .f32⟩ : BufTy).Contents (Elt F) → (⟨S64x64, .f32⟩ : BufTy).Contents (Elt F)) (after (ops5 (F := F)) U (Proc.devRef .tc main_v281)) (after (ops5 (F := F)) U (Proc.devRef .tc main_v283)) :=
  Cert.Lib.ReadFinal.binary (a := main_v281) (b := main_v283) (y := main_v284) (f := (addf : (⟨S64x64, .f32⟩ : BufTy).Contents (Elt F) → (⟨S64x64, .f32⟩ : BufTy).Contents (Elt F) → (⟨S64x64, .f32⟩ : BufTy).Contents (Elt F))) writes5 54 rfl (by decide) (by decide) (by decide) U
theorem s_main_call11_cst (U : Valuation τ sig (Elt F)) : (after (ops5 (F := F)) U (Proc.devRef .tc main_call11_cst)) = (constant (F := F) S_ .f32 0x00000000#32) :=
  Cert.Lib.ReadFinal.nullary (y := main_call11_cst) (v := (constant (F := F) S_ .f32 0x00000000#32)) writes5 55 rfl (by decide) U
theorem s_main_call11_v0 (U : Valuation τ sig (Elt F)) : (after (ops5 (F := F)) U (Proc.devRef .tc main_call11_v0)) = ((broadcastInDim S64x64 ![] bcast_S_S64x64) : (⟨S_, .f32⟩ : BufTy).Contents (Elt F) → (⟨S64x64, .f32⟩ : BufTy).Contents (Elt F)) (after (ops5 (F := F)) U (Proc.devRef .tc main_call11_cst)) :=
  Cert.Lib.ReadFinal.unary (x := main_call11_cst) (y := main_call11_v0) (f := ((broadcastInDim S64x64 ![] bcast_S_S64x64) : (⟨S_, .f32⟩ : BufTy).Contents (Elt F) → (⟨S64x64, .f32⟩ : BufTy).Contents (Elt F))) writes5 56 rfl (by decide) (by decide) U
theorem s_main_v285 (U : Valuation τ sig (Elt F)) : (after (ops5 (F := F)) U (Proc.devRef .tc main_v285)) = (maximumf : (⟨S64x64, .f32⟩ : BufTy).Contents (Elt F) → (⟨S64x64, .f32⟩ : BufTy).Contents (Elt F) → (⟨S64x64, .f32⟩ : BufTy).Contents (Elt F)) (after (ops5 (F := F)) U (Proc.devRef .tc main_v284)) (after (ops5 (F := F)) U (Proc.devRef .tc main_call11_v0)) :=
  Cert.Lib.ReadFinal.binary (a := main_v284) (b := main_call11_v0) (y := main_v285) (f := (maximumf : (⟨S64x64, .f32⟩ : BufTy).Contents (Elt F) → (⟨S64x64, .f32⟩ : BufTy).Contents (Elt F) → (⟨S64x64, .f32⟩ : BufTy).Contents (Elt F))) writes5 57 rfl (by decide) (by decide) (by decide) U

end Cert.ReferenceIdeal.Hand

end
-- ==== Proof.Ref.Lift5.lean ====
-- written by: gen_ref.js <unit directory>
/- The buffers window 5 of the reference program's @main writes are written by no later window: each holds at the end of @main what it held at every boundary after window 5. -/
import proofs.«123839_j71768903516633_2_alg».proof.Proof.Ref.Bound

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem lift6_main_call9_cst (V : Valuation τ sig (Elt F)) : (after (ops (F := F)) V (Proc.devRef .tc main_call9_cst)) = (U6 V (Proc.devRef .tc main_call9_cst)) := congrFun (after_ops_eq V) _
theorem lift6_main_call9_v0 (V : Valuation τ sig (Elt F)) : (after (ops (F := F)) V (Proc.devRef .tc main_call9_v0)) = (U6 V (Proc.devRef .tc main_call9_v0)) := congrFun (after_ops_eq V) _
theorem lift6_main_v244 (V : Valuation τ sig (Elt F)) : (after (ops (F := F)) V (Proc.devRef .tc main_v244)) = (U6 V (Proc.devRef .tc main_v244)) := congrFun (after_ops_eq V) _
theorem lift6_main_cst_54 (V : Valuation τ sig (Elt F)) : (after (ops (F := F)) V (Proc.devRef .tc main_cst_54)) = (U6 V (Proc.devRef .tc main_cst_54)) := congrFun (after_ops_eq V) _
theorem lift6_main_v245 (V : Valuation τ sig (Elt F)) : (after (ops (F := F)) V (Proc.devRef .tc main_v245)) = (U6 V (Proc.devRef .tc main_v245)) := congrFun (after_ops_eq V) _
theorem lift6_main_v246 (V : Valuation τ sig (Elt F)) : (after (ops (F := F)) V (Proc.devRef .tc main_v246)) = (U6 V (Proc.devRef .tc main_v246)) := congrFun (after_ops_eq V) _
theorem lift6_main_v247 (V : Valuation τ sig (Elt F)) : (after (ops (F := F)) V (Proc.devRef .tc main_v247)) = (U6 V (Proc.devRef .tc main_v247)) := congrFun (after_ops_eq V) _
theorem lift6_main_cst_55 (V : Valuation τ sig (Elt F)) : (after (ops (F := F)) V (Proc.devRef .tc main_cst_55)) = (U6 V (Proc.devRef .tc main_cst_55)) := congrFun (after_ops_eq V) _
theorem lift6_main_v248 (V : Valuation τ sig (Elt F)) : (after (ops (F := F)) V (Proc.devRef .tc main_v248)) = (U6 V (Proc.devRef .tc main_v248)) := congrFun (after_ops_eq V) _
theorem lift6_main_cst_56 (V : Valuation τ sig (Elt F)) : (after (ops (F := F)) V (Proc.devRef .tc main_cst_56)) = (U6 V (Proc.devRef .tc main_cst_56)) := congrFun (after_ops_eq V) _
theorem lift6_main_v249 (V : Valuation τ sig (Elt F)) : (after (ops (F := F)) V (Proc.devRef .tc main_v249)) = (U6 V (Proc.devRef .tc main_v249)) := congrFun (after_ops_eq V) _
theorem lift6_main_v250 (V : Valuation τ sig (Elt F)) : (after (ops (F := F)) V (Proc.devRef .tc main_v250)) = (U6 V (Proc.devRef .tc main_v250)) := congrFun (after_ops_eq V) _
theorem lift6_main_v251 (V : Valuation τ sig (Elt F)) : (after (ops (F := F)) V (Proc.devRef .tc main_v251)) = (U6 V (Proc.devRef .tc main_v251)) := congrFun (after_ops_eq V) _
theorem lift6_main_cst_57 (V : Valuation τ sig (Elt F)) : (after (ops (F := F)) V (Proc.devRef .tc main_cst_57)) = (U6 V (Proc.devRef .tc main_cst_57)) := congrFun (after_ops_eq V) _
theorem lift6_main_v252 (V : Valuation τ sig (Elt F)) : (after (ops (F := F)) V (Proc.devRef .tc main_v252)) = (U6 V (Proc.devRef .tc main_v252)) := congrFun (after_ops_eq V) _
theorem lift6_main_v253 (V : Valuation τ sig (Elt F)) : (after (ops (F := F)) V (Proc.devRef .tc main_v253)) = (U6 V (Proc.devRef .tc main_v253)) := congrFun (after_ops_eq V) _
theorem lift6_main_v254 (V : Valuation τ sig (Elt F)) : (after (ops (F := F)) V (Proc.devRef .tc main_v254)) = (U6 V (Proc.devRef .tc main_v254)) := congrFun (after_ops_eq V) _
theorem lift6_main_v255 (V : Valuation τ sig (Elt F)) : (after (ops (F := F)) V (Proc.devRef .tc main_v255)) = (U6 V (Proc.devRef .tc main_v255)) := congrFun (after_ops_eq V) _
theorem lift6_main_c_58 (V : Valuation τ sig (Elt F)) : (after (ops (F := F)) V (Proc.devRef .tc main_c_58)) = (U6 V (Proc.devRef .tc main_c_58)) := congrFun (after_ops_eq V) _
theorem lift6_main_v256 (V : Valuation τ sig (Elt F)) : (after (ops (F := F)) V (Proc.devRef .tc main_v256)) = (U6 V (Proc.devRef .tc main_v256)) := congrFun (after_ops_eq V) _
theorem lift6_main_v257 (V : Valuation τ sig (Elt F)) : (after (ops (F := F)) V (Proc.devRef .tc main_v257)) = (U6 V (Proc.devRef .tc main_v257)) := congrFun (after_ops_eq V) _
theorem lift6_main_c_59 (V : Valuation τ sig (Elt F)) : (after (ops (F := F)) V (Proc.devRef .tc main_c_59)) = (U6 V (Proc.devRef .tc main_c_59)) := congrFun (after_ops_eq V) _
theorem lift6_main_v258 (V : Valuation τ sig (Elt F)) : (after (ops (F := F)) V (Proc.devRef .tc main_v258)) = (U6 V (Proc.devRef .tc main_v258)) := congrFun (after_ops_eq V) _
theorem lift6_main_v259 (V : Valuation τ sig (Elt F)) : (after (ops (F := F)) V (Proc.devRef .tc main_v259)) = (U6 V (Proc.devRef .tc main_v259)) := congrFun (after_ops_eq V) _
theorem lift6_main_v260 (V : Valuation τ sig (Elt F)) : (after (ops (F := F)) V (Proc.devRef .tc main_v260)) = (U6 V (Proc.devRef .tc main_v260)) := congrFun (after_ops_eq V) _
theorem lift6_main_v261 (V : Valuation τ sig (Elt F)) : (after (ops (F := F)) V (Proc.devRef .tc main_v261)) = (U6 V (Proc.devRef .tc main_v261)) := congrFun (after_ops_eq V) _
theorem lift6_main_v262 (V : Valuation τ sig (Elt F)) : (after (ops (F := F)) V (Proc.devRef .tc main_v262)) = (U6 V (Proc.devRef .tc main_v262)) := congrFun (after_ops_eq V) _
theorem lift6_main_v263 (V : Valuation τ sig (Elt F)) : (after (ops (F := F)) V (Proc.devRef .tc main_v263)) = (U6 V (Proc.devRef .tc main_v263)) := congrFun (after_ops_eq V) _
theorem lift6_main_v264 (V : Valuation τ sig (Elt F)) : (after (ops (F := F)) V (Proc.devRef .tc main_v264)) = (U6 V (Proc.devRef .tc main_v264)) := congrFun (after_ops_eq V) _
theorem lift6_main_v265 (V : Valuation τ sig (Elt F)) : (after (ops (F := F)) V (Proc.devRef .tc main_v265)) = (U6 V (Proc.devRef .tc main_v265)) := congrFun (after_ops_eq V) _
theorem lift6_main_v266 (V : Valuation τ sig (Elt F)) : (after (ops (F := F)) V (Proc.devRef .tc main_v266)) = (U6 V (Proc.devRef .tc main_v266)) := congrFun (after_ops_eq V) _
theorem lift6_main_v267 (V : Valuation τ sig (Elt F)) : (after (ops (F := F)) V (Proc.devRef .tc main_v267)) = (U6 V (Proc.devRef .tc main_v267)) := congrFun (after_ops_eq V) _
theorem lift6_main_call10_cst (V : Valuation τ sig (Elt F)) : (after (ops (F := F)) V (Proc.devRef .tc main_call10_cst)) = (U6 V (Proc.devRef .tc main_call10_cst)) := congrFun (after_ops_eq V) _
theorem lift6_main_call10_v0 (V : Valuation τ sig (Elt F)) : (after (ops (F := F)) V (Proc.devRef .tc main_call10_v0)) = (U6 V (Proc.devRef .tc main_call10_v0)) := congrFun (after_ops_eq V) _
theorem lift6_main_v268 (V : Valuation τ sig (Elt F)) : (after (ops (F := F)) V (Proc.devRef .tc main_v268)) = (U6 V (Proc.devRef .tc main_v268)) := congrFun (after_ops_eq V) _
theorem lift6_main_cst_60 (V : Valuation τ sig (Elt F)) : (after (ops (F := F)) V (Proc.devRef .tc main_cst_60)) = (U6 V (Proc.devRef .tc main_cst_60)) := congrFun (after_ops_eq V) _
theorem lift6_main_v269 (V : Valuation τ sig (Elt F)) : (after (ops (F := F)) V (Proc.devRef .tc main_v269)) = (U6 V (Proc.devRef .tc main_v269)) := congrFun (after_ops_eq V) _
theorem lift6_main_v270 (V : Valuation τ sig (Elt F)) : (after (ops (F := F)) V (Proc.devRef .tc main_v270)) = (U6 V (Proc.devRef .tc main_v270)) := congrFun (after_ops_eq V) _
theorem lift6_main_v271 (V : Valuation τ sig (Elt F)) : (after (ops (F := F)) V (Proc.devRef .tc main_v271)) = (U6 V (Proc.devRef .tc main_v271)) := congrFun (after_ops_eq V) _
theorem lift6_main_cst_61 (V : Valuation τ sig (Elt F)) : (after (ops (F := F)) V (Proc.devRef .tc main_cst_61)) = (U6 V (Proc.devRef .tc main_cst_61)) := congrFun (after_ops_eq V) _
theorem lift6_main_v272 (V : Valuation τ sig (Elt F)) : (after (ops (F := F)) V (Proc.devRef .tc main_v272)) = (U6 V (Proc.devRef .tc main_v272)) := congrFun (after_ops_eq V) _
theorem lift6_main_cst_62 (V : Valuation τ sig (Elt F)) : (after (ops (F := F)) V (Proc.devRef .tc main_cst_62)) = (U6 V (Proc.devRef .tc main_cst_62)) := congrFun (after_ops_eq V) _
theorem lift6_main_v273 (V : Valuation τ sig (Elt F)) : (after (ops (F := F)) V (Proc.devRef .tc main_v273)) = (U6 V (Proc.devRef .tc main_v273)) := congrFun (after_ops_eq V) _
theorem lift6_main_v274 (V : Valuation τ sig (Elt F)) : (after (ops (F := F)) V (Proc.devRef .tc main_v274)) = (U6 V (Proc.devRef .tc main_v274)) := congrFun (after_ops_eq V) _
theorem lift6_main_v275 (V : Valuation τ sig (Elt F)) : (after (ops (F := F)) V (Proc.devRef .tc main_v275)) = (U6 V (Proc.devRef .tc main_v275)) := congrFun (after_ops_eq V) _
theorem lift6_main_cst_63 (V : Valuation τ sig (Elt F)) : (after (ops (F := F)) V (Proc.devRef .tc main_cst_63)) = (U6 V (Proc.devRef .tc main_cst_63)) := congrFun (after_ops_eq V) _
theorem lift6_main_v276 (V : Valuation τ sig (Elt F)) : (after (ops (F := F)) V (Proc.devRef .tc main_v276)) = (U6 V (Proc.devRef .tc main_v276)) := congrFun (after_ops_eq V) _
theorem lift6_main_v277 (V : Valuation τ sig (Elt F)) : (after (ops (F := F)) V (Proc.devRef .tc main_v277)) = (U6 V (Proc.devRef .tc main_v277)) := congrFun (after_ops_eq V) _
theorem lift6_main_v278 (V : Valuation τ sig (Elt F)) : (after (ops (F := F)) V (Proc.devRef .tc main_v278)) = (U6 V (Proc.devRef .tc main_v278)) := congrFun (after_ops_eq V) _
theorem lift6_main_v279 (V : Valuation τ sig (Elt F)) : (after (ops (F := F)) V (Proc.devRef .tc main_v279)) = (U6 V (Proc.devRef .tc main_v279)) := congrFun (after_ops_eq V) _
theorem lift6_main_v280 (V : Valuation τ sig (Elt F)) : (after (ops (F := F)) V (Proc.devRef .tc main_v280)) = (U6 V (Proc.devRef .tc main_v280)) := congrFun (after_ops_eq V) _
theorem lift6_main_v281 (V : Valuation τ sig (Elt F)) : (after (ops (F := F)) V (Proc.devRef .tc main_v281)) = (U6 V (Proc.devRef .tc main_v281)) := congrFun (after_ops_eq V) _
theorem lift6_main_v282 (V : Valuation τ sig (Elt F)) : (after (ops (F := F)) V (Proc.devRef .tc main_v282)) = (U6 V (Proc.devRef .tc main_v282)) := congrFun (after_ops_eq V) _
theorem lift6_main_v283 (V : Valuation τ sig (Elt F)) : (after (ops (F := F)) V (Proc.devRef .tc main_v283)) = (U6 V (Proc.devRef .tc main_v283)) := congrFun (after_ops_eq V) _
theorem lift6_main_v284 (V : Valuation τ sig (Elt F)) : (after (ops (F := F)) V (Proc.devRef .tc main_v284)) = (U6 V (Proc.devRef .tc main_v284)) := congrFun (after_ops_eq V) _
theorem lift6_main_call11_cst (V : Valuation τ sig (Elt F)) : (after (ops (F := F)) V (Proc.devRef .tc main_call11_cst)) = (U6 V (Proc.devRef .tc main_call11_cst)) := congrFun (after_ops_eq V) _
theorem lift6_main_call11_v0 (V : Valuation τ sig (Elt F)) : (after (ops (F := F)) V (Proc.devRef .tc main_call11_v0)) = (U6 V (Proc.devRef .tc main_call11_v0)) := congrFun (after_ops_eq V) _
theorem lift6_main_v285 (V : Valuation τ sig (Elt F)) : (after (ops (F := F)) V (Proc.devRef .tc main_v285)) = (U6 V (Proc.devRef .tc main_v285)) := congrFun (after_ops_eq V) _

end Cert.ReferenceIdeal.Hand

end
-- ==== Proof.Ref.Rd5.lean ====
-- written by: gen_ref.js <unit directory>
/- Window 5's operations read at the END of the reference program's @main: each result buffer holds its operation's function of its operands' final contents (none of them is written again). -/
import proofs.«123839_j71768903516633_2_alg».proof.Proof.Ref.S5
import proofs.«123839_j71768903516633_2_alg».proof.Proof.Ref.Lift0
import proofs.«123839_j71768903516633_2_alg».proof.Proof.Ref.Lift3
import proofs.«123839_j71768903516633_2_alg».proof.Proof.Ref.Lift4
import proofs.«123839_j71768903516633_2_alg».proof.Proof.Ref.Lift5
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem rd_main_call9_cst (V : Valuation τ sig (Elt F)) : (after (ops (F := F)) V (Proc.devRef .tc main_call9_cst)) = (constant (F := F) S_ .f32 0x00000000#32) :=
  (lift6_main_call9_cst V).trans ((s_main_call9_cst (U5 V)))
theorem rd_main_call9_v0 (V : Valuation τ sig (Elt F)) : (after (ops (F := F)) V (Proc.devRef .tc main_call9_v0)) = (((broadcastInDim S300000x64 ![] bcast_S_S300000x64) : (⟨S_, .f32⟩ : BufTy).Contents (Elt F) → (⟨S300000x64, .f32⟩ : BufTy).Contents (Elt F)) (after (ops (F := F)) V (Proc.devRef .tc main_call9_cst))) :=
  (lift6_main_call9_v0 V).trans ((s_main_call9_v0 (U5 V)).trans (congrArg ((broadcastInDim S300000x64 ![] bcast_S_S300000x64) : (⟨S_, .f32⟩ : BufTy).Contents (Elt F) → (⟨S300000x64, .f32⟩ : BufTy).Contents (Elt F)) (lift6_main_call9_cst V).symm))
theorem rd_main_v244 (V : Valuation τ sig (Elt F)) : (after (ops (F := F)) V (Proc.devRef .tc main_v244)) = ((maximumf : (⟨S300000x64, .f32⟩ : BufTy).Contents (Elt F) → (⟨S300000x64, .f32⟩ : BufTy).Contents (Elt F) → (⟨S300000x64, .f32⟩ : BufTy).Contents (Elt F)) (after (ops (F := F)) V (Proc.devRef .tc main_v243)) (after (ops (F := F)) V (Proc.devRef .tc main_call9_v0))) :=
  (lift6_main_v244 V).trans ((s_main_v244 (U5 V)).trans (congrArg₂ (maximumf : (⟨S300000x64, .f32⟩ : BufTy).Contents (Elt F) → (⟨S300000x64, .f32⟩ : BufTy).Contents (Elt F) → (⟨S300000x64, .f32⟩ : BufTy).Contents (Elt F)) (lift6_main_v243 V).symm (lift6_main_call9_v0 V).symm))
theorem rd_main_cst_54 (V : Valuation τ sig (Elt F)) : (after (ops (F := F)) V (Proc.devRef .tc main_cst_54)) = (constant (F := F) S_ .f32 0x00000000#32) :=
  (lift6_main_cst_54 V).trans ((s_main_cst_54 (U5 V)))
theorem rd_main_v245 (V : Valuation τ sig (Elt F)) : (after (ops (F := F)) V (Proc.devRef .tc main_v245)) = ((broadcastInDim S30000x64 ![] bcast_S_S30000x64 : (⟨S_, .f32⟩ : BufTy).Contents (Elt F) → (⟨S30000x64, .f32⟩ : BufTy).Contents (Elt F)) (after (ops (F := F)) V (Proc.devRef .tc main_cst_54))) :=
  (lift6_main_v245 V).trans ((s_main_v245 (U5 V)).trans (congrArg (broadcastInDim S30000x64 ![] bcast_S_S30000x64 : (⟨S_, .f32⟩ : BufTy).Contents (Elt F) → (⟨S30000x64, .f32⟩ : BufTy).Contents (Elt F)) (lift6_main_cst_54 V).symm))
theorem rd_main_v246 (V : Valuation τ sig (Elt F)) : (after (ops (F := F)) V (Proc.devRef .tc main_v246)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v3))) :=
  (lift6_main_v246 V).trans ((s_main_v246 (U5 V)).trans (congrArg (broadcastInDim S300000x1 ![0] bcast_S300000_S300000x1_0 : (⟨S300000, .i32⟩ : BufTy).Contents (Elt F) → (⟨S300000x1, .i32⟩ : BufTy).Contents (Elt F)) (lift6_main_v3 V).symm))
theorem rd_main_v247 (V : Valuation τ sig (Elt F)) : (after (ops (F := F)) V (Proc.devRef .tc main_v247)) = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (after (ops (F := F)) V (Proc.devRef .tc main_v245)) (after (ops (F := F)) V (Proc.devRef .tc main_v246)) (after (ops (F := F)) V (Proc.devRef .tc main_v244))) :=
  (lift6_main_v247 V).trans ((s_main_v247 (U5 V)).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (lift6_main_v245 V).symm (lift6_main_v246 V).symm (lift6_main_v244 V).symm))
theorem rd_main_cst_55 (V : Valuation τ sig (Elt F)) : (after (ops (F := F)) V (Proc.devRef .tc main_cst_55)) = (constant (F := F) S_ .f32 0x3F800000#32) :=
  (lift6_main_cst_55 V).trans ((s_main_cst_55 (U5 V)))
theorem rd_main_v248 (V : Valuation τ sig (Elt F)) : (after (ops (F := F)) V (Proc.devRef .tc main_v248)) = ((broadcastInDim S300000x1 ![] bcast_S_S300000x1 : (⟨S_, .f32⟩ : BufTy).Contents (Elt F) → (⟨S300000x1, .f32⟩ : BufTy).Contents (Elt F)) (after (ops (F := F)) V (Proc.devRef .tc main_cst_55))) :=
  (lift6_main_v248 V).trans ((s_main_v248 (U5 V)).trans (congrArg (broadcastInDim S300000x1 ![] bcast_S_S300000x1 : (⟨S_, .f32⟩ : BufTy).Contents (Elt F) → (⟨S300000x1, .f32⟩ : BufTy).Contents (Elt F)) (lift6_main_cst_55 V).symm))
theorem rd_main_cst_56 (V : Valuation τ sig (Elt F)) : (after (ops (F := F)) V (Proc.devRef .tc main_cst_56)) = (constant (F := F) S_ .f32 0x00000000#32) :=
  (lift6_main_cst_56 V).trans ((s_main_cst_56 (U5 V)))
theorem rd_main_v249 (V : Valuation τ sig (Elt F)) : (after (ops (F := F)) V (Proc.devRef .tc main_v249)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_56))) :=
  (lift6_main_v249 V).trans ((s_main_v249 (U5 V)).trans (congrArg (broadcastInDim S30000x1 ![] bcast_S_S30000x1 : (⟨S_, .f32⟩ : BufTy).Contents (Elt F) → (⟨S30000x1, .f32⟩ : BufTy).Contents (Elt F)) (lift6_main_cst_56 V).symm))
theorem rd_main_v250 (V : Valuation τ sig (Elt F)) : (after (ops (F := F)) V (Proc.devRef .tc main_v250)) = ((broadcastInDim S300000x1 ![0] bcast_S300000_S300000x1_0 : (⟨S300000, .i32⟩ : BufTy).Contents (Elt F) → (⟨S300000x1, .i32⟩ : BufTy).Contents (Elt F)) (after (ops (F := F)) V (Proc.devRef .tc main_v3))) :=
  (lift6_main_v250 V).trans ((s_main_v250 (U5 V)).trans (congrArg (broadcastInDim S300000x1 ![0] bcast_S300000_S300000x1_0 : (⟨S300000, .i32⟩ : BufTy).Contents (Elt F) → (⟨S300000x1, .i32⟩ : BufTy).Contents (Elt F)) (lift6_main_v3 V).symm))
theorem rd_main_v251 (V : Valuation τ sig (Elt F)) : (after (ops (F := F)) V (Proc.devRef .tc main_v251)) = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (after (ops (F := F)) V (Proc.devRef .tc main_v249)) (after (ops (F := F)) V (Proc.devRef .tc main_v250)) (after (ops (F := F)) V (Proc.devRef .tc main_v248))) :=
  (lift6_main_v251 V).trans ((s_main_v251 (U5 V)).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (lift6_main_v249 V).symm (lift6_main_v250 V).symm (lift6_main_v248 V).symm))
theorem rd_main_cst_57 (V : Valuation τ sig (Elt F)) : (after (ops (F := F)) V (Proc.devRef .tc main_cst_57)) = (constant (F := F) S_ .f32 0x3F800000#32) :=
  (lift6_main_cst_57 V).trans ((s_main_cst_57 (U5 V)))
theorem rd_main_v252 (V : Valuation τ sig (Elt F)) : (after (ops (F := F)) V (Proc.devRef .tc main_v252)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_57))) :=
  (lift6_main_v252 V).trans ((s_main_v252 (U5 V)).trans (congrArg (broadcastInDim S30000x1 ![] bcast_S_S30000x1 : (⟨S_, .f32⟩ : BufTy).Contents (Elt F) → (⟨S30000x1, .f32⟩ : BufTy).Contents (Elt F)) (lift6_main_cst_57 V).symm))
theorem rd_main_v253 (V : Valuation τ sig (Elt F)) : (after (ops (F := F)) V (Proc.devRef .tc main_v253)) = ((maximumf : (⟨S30000x1, .f32⟩ : BufTy).Contents (Elt F) → (⟨S30000x1, .f32⟩ : BufTy).Contents (Elt F) → (⟨S30000x1, .f32⟩ : BufTy).Contents (Elt F)) (after (ops (F := F)) V (Proc.devRef .tc main_v251)) (after (ops (F := F)) V (Proc.devRef .tc main_v252))) :=
  (lift6_main_v253 V).trans ((s_main_v253 (U5 V)).trans (congrArg₂ (maximumf : (⟨S30000x1, .f32⟩ : BufTy).Contents (Elt F) → (⟨S30000x1, .f32⟩ : BufTy).Contents (Elt F) → (⟨S30000x1, .f32⟩ : BufTy).Contents (Elt F)) (lift6_main_v251 V).symm (lift6_main_v252 V).symm))
theorem rd_main_v254 (V : Valuation τ sig (Elt F)) : (after (ops (F := F)) V (Proc.devRef .tc main_v254)) = ((broadcastInDim S30000x64 ![0, 1] bcast_S30000x1_S30000x64_0_1 : (⟨S30000x1, .f32⟩ : BufTy).Contents (Elt F) → (⟨S30000x64, .f32⟩ : BufTy).Contents (Elt F)) (after (ops (F := F)) V (Proc.devRef .tc main_v253))) :=
  (lift6_main_v254 V).trans ((s_main_v254 (U5 V)).trans (congrArg (broadcastInDim S30000x64 ![0, 1] bcast_S30000x1_S30000x64_0_1 : (⟨S30000x1, .f32⟩ : BufTy).Contents (Elt F) → (⟨S30000x64, .f32⟩ : BufTy).Contents (Elt F)) (lift6_main_v253 V).symm))
theorem rd_main_v255 (V : Valuation τ sig (Elt F)) : (after (ops (F := F)) V (Proc.devRef .tc main_v255)) = ((Host.divf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v247)) (after (ops (F := F)) V (Proc.devRef .tc main_v254))) :=
  (lift6_main_v255 V).trans ((s_main_v255 (U5 V)).trans (congrArg₂ (Host.divf : (⟨S30000x64, .f32⟩ : BufTy).Contents (Elt F) → (⟨S30000x64, .f32⟩ : BufTy).Contents (Elt F) → (⟨S30000x64, .f32⟩ : BufTy).Contents (Elt F)) (lift6_main_v247 V).symm (lift6_main_v254 V).symm))
theorem rd_main_c_58 (V : Valuation τ sig (Elt F)) : (after (ops (F := F)) V (Proc.devRef .tc main_c_58)) = (constantI S_ 32 0#32) :=
  (lift6_main_c_58 V).trans ((s_main_c_58 (U5 V)))
theorem rd_main_v256 (V : Valuation τ sig (Elt F)) : (after (ops (F := F)) V (Proc.devRef .tc main_v256)) = ((broadcastInDim S30000 ![] bcast_S_S30000 : (⟨S_, .i32⟩ : BufTy).Contents (Elt F) → (⟨S30000, .i32⟩ : BufTy).Contents (Elt F)) (after (ops (F := F)) V (Proc.devRef .tc main_c_58))) :=
  (lift6_main_v256 V).trans ((s_main_v256 (U5 V)).trans (congrArg (broadcastInDim S30000 ![] bcast_S_S30000 : (⟨S_, .i32⟩ : BufTy).Contents (Elt F) → (⟨S30000, .i32⟩ : BufTy).Contents (Elt F)) (lift6_main_c_58 V).symm))
theorem rd_main_v257 (V : Valuation τ sig (Elt F)) : (after (ops (F := F)) V (Proc.devRef .tc main_v257)) = ((cmpi .slt : (⟨S30000, .i32⟩ : BufTy).Contents (Elt F) → (⟨S30000, .i32⟩ : BufTy).Contents (Elt F) → (⟨S30000, .i1⟩ : BufTy).Contents (Elt F)) (after (ops (F := F)) V (Proc.devRef .tc main_arg4)) (after (ops (F := F)) V (Proc.devRef .tc main_v256))) :=
  (lift6_main_v257 V).trans ((s_main_v257 (U5 V)).trans (congrArg₂ (cmpi .slt : (⟨S30000, .i32⟩ : BufTy).Contents (Elt F) → (⟨S30000, .i32⟩ : BufTy).Contents (Elt F) → (⟨S30000, .i1⟩ : BufTy).Contents (Elt F)) (lift6_main_arg4 V).symm (lift6_main_v256 V).symm))
theorem rd_main_c_59 (V : Valuation τ sig (Elt F)) : (after (ops (F := F)) V (Proc.devRef .tc main_c_59)) = (constantI S_ 32 64#32) :=
  (lift6_main_c_59 V).trans ((s_main_c_59 (U5 V)))
theorem rd_main_v258 (V : Valuation τ sig (Elt F)) : (after (ops (F := F)) V (Proc.devRef .tc main_v258)) = ((broadcastInDim S30000 ![] bcast_S_S30000 : (⟨S_, .i32⟩ : BufTy).Contents (Elt F) → (⟨S30000, .i32⟩ : BufTy).Contents (Elt F)) (after (ops (F := F)) V (Proc.devRef .tc main_c_59))) :=
  (lift6_main_v258 V).trans ((s_main_v258 (U5 V)).trans (congrArg (broadcastInDim S30000 ![] bcast_S_S30000 : (⟨S_, .i32⟩ : BufTy).Contents (Elt F) → (⟨S30000, .i32⟩ : BufTy).Contents (Elt F)) (lift6_main_c_59 V).symm))
theorem rd_main_v259 (V : Valuation τ sig (Elt F)) : (after (ops (F := F)) V (Proc.devRef .tc main_v259)) = ((addi : (⟨S30000, .i32⟩ : BufTy).Contents (Elt F) → (⟨S30000, .i32⟩ : BufTy).Contents (Elt F) → (⟨S30000, .i32⟩ : BufTy).Contents (Elt F)) (after (ops (F := F)) V (Proc.devRef .tc main_arg4)) (after (ops (F := F)) V (Proc.devRef .tc main_v258))) :=
  (lift6_main_v259 V).trans ((s_main_v259 (U5 V)).trans (congrArg₂ (addi : (⟨S30000, .i32⟩ : BufTy).Contents (Elt F) → (⟨S30000, .i32⟩ : BufTy).Contents (Elt F) → (⟨S30000, .i32⟩ : BufTy).Contents (Elt F)) (lift6_main_arg4 V).symm (lift6_main_v258 V).symm))
theorem rd_main_v260 (V : Valuation τ sig (Elt F)) : (after (ops (F := F)) V (Proc.devRef .tc main_v260)) = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (after (ops (F := F)) V (Proc.devRef .tc main_v257)) (after (ops (F := F)) V (Proc.devRef .tc main_v259)) (after (ops (F := F)) V (Proc.devRef .tc main_arg4))) :=
  (lift6_main_v260 V).trans ((s_main_v260 (U5 V)).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (lift6_main_v257 V).symm (lift6_main_v259 V).symm (lift6_main_arg4 V).symm))
theorem rd_main_v261 (V : Valuation τ sig (Elt F)) : (after (ops (F := F)) V (Proc.devRef .tc main_v261)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_v260))) :=
  (lift6_main_v261 V).trans ((s_main_v261 (U5 V)).trans (congrArg (broadcastInDim S30000x1 ![0] bcast_S30000_S30000x1_0 : (⟨S30000, .i32⟩ : BufTy).Contents (Elt F) → (⟨S30000x1, .i32⟩ : BufTy).Contents (Elt F)) (lift6_main_v260 V).symm))
theorem rd_main_v262 (V : Valuation τ sig (Elt F)) : (after (ops (F := F)) V (Proc.devRef .tc main_v262)) = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v210)) (after (ops (F := F)) V (Proc.devRef .tc main_v261))) :=
  (lift6_main_v262 V).trans ((s_main_v262 (U5 V)).trans (congrArg₂ ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (lift6_main_v210 V).symm (lift6_main_v261 V).symm))
theorem rd_main_v263 (V : Valuation τ sig (Elt F)) : (after (ops (F := F)) V (Proc.devRef .tc main_v263)) = (concatenate S30000x192 1 [⟨S30000x64, (after (ops (F := F)) V (Proc.devRef .tc main_v193))⟩, ⟨S30000x64, (after (ops (F := F)) V (Proc.devRef .tc main_v255))⟩, ⟨S30000x64, (after (ops (F := F)) V (Proc.devRef .tc main_v262))⟩] concatenates_S30000x64_S30000x64_S30000x64_S30000x192_d1) :=
  (lift6_main_v263 V).trans ((s_main_v263 (U5 V)).trans (congr3 (fun A0 A1 A2 => concatenate S30000x192 1 [⟨S30000x64, A0⟩, ⟨S30000x64, A1⟩, ⟨S30000x64, A2⟩] concatenates_S30000x64_S30000x64_S30000x64_S30000x192_d1) (lift6_main_v193 V).symm (lift6_main_v255 V).symm (lift6_main_v262 V).symm))
theorem rd_main_v264 (V : Valuation τ sig (Elt F)) : (after (ops (F := F)) V (Proc.devRef .tc main_v264)) = (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (after (ops (F := F)) V (Proc.devRef .tc main_v263)) (after (ops (F := F)) V (Proc.devRef .tc main_arg25))) :=
  (lift6_main_v264 V).trans ((s_main_v264 (U5 V)).trans (congrArg₂ ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (lift6_main_v263 V).symm (lift6_main_arg25 V).symm))
theorem rd_main_v265 (V : Valuation τ sig (Elt F)) : (after (ops (F := F)) V (Proc.devRef .tc main_v265)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg26))) :=
  (lift6_main_v265 V).trans ((s_main_v265 (U5 V)).trans (congrArg (broadcastInDim S1x64 ![1] bcast_S64_S1x64_1 : (⟨S64, .f32⟩ : BufTy).Contents (Elt F) → (⟨S1x64, .f32⟩ : BufTy).Contents (Elt F)) (lift6_main_arg26 V).symm))
theorem rd_main_v266 (V : Valuation τ sig (Elt F)) : (after (ops (F := F)) V (Proc.devRef .tc main_v266)) = ((broadcastInDim S30000x64 ![0, 1] bcast_S1x64_S30000x64_0_1 : (⟨S1x64, .f32⟩ : BufTy).Contents (Elt F) → (⟨S30000x64, .f32⟩ : BufTy).Contents (Elt F)) (after (ops (F := F)) V (Proc.devRef .tc main_v265))) :=
  (lift6_main_v266 V).trans ((s_main_v266 (U5 V)).trans (congrArg (broadcastInDim S30000x64 ![0, 1] bcast_S1x64_S30000x64_0_1 : (⟨S1x64, .f32⟩ : BufTy).Contents (Elt F) → (⟨S30000x64, .f32⟩ : BufTy).Contents (Elt F)) (lift6_main_v265 V).symm))
theorem rd_main_v267 (V : Valuation τ sig (Elt F)) : (after (ops (F := F)) V (Proc.devRef .tc main_v267)) = ((addf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v264)) (after (ops (F := F)) V (Proc.devRef .tc main_v266))) :=
  (lift6_main_v267 V).trans ((s_main_v267 (U5 V)).trans (congrArg₂ (addf : (⟨S30000x64, .f32⟩ : BufTy).Contents (Elt F) → (⟨S30000x64, .f32⟩ : BufTy).Contents (Elt F) → (⟨S30000x64, .f32⟩ : BufTy).Contents (Elt F)) (lift6_main_v264 V).symm (lift6_main_v266 V).symm))
theorem rd_main_call10_cst (V : Valuation τ sig (Elt F)) : (after (ops (F := F)) V (Proc.devRef .tc main_call10_cst)) = (constant (F := F) S_ .f32 0x00000000#32) :=
  (lift6_main_call10_cst V).trans ((s_main_call10_cst (U5 V)))
theorem rd_main_call10_v0 (V : Valuation τ sig (Elt F)) : (after (ops (F := F)) V (Proc.devRef .tc main_call10_v0)) = (((broadcastInDim S30000x64 ![] bcast_S_S30000x64) : (⟨S_, .f32⟩ : BufTy).Contents (Elt F) → (⟨S30000x64, .f32⟩ : BufTy).Contents (Elt F)) (after (ops (F := F)) V (Proc.devRef .tc main_call10_cst))) :=
  (lift6_main_call10_v0 V).trans ((s_main_call10_v0 (U5 V)).trans (congrArg ((broadcastInDim S30000x64 ![] bcast_S_S30000x64) : (⟨S_, .f32⟩ : BufTy).Contents (Elt F) → (⟨S30000x64, .f32⟩ : BufTy).Contents (Elt F)) (lift6_main_call10_cst V).symm))
theorem rd_main_v268 (V : Valuation τ sig (Elt F)) : (after (ops (F := F)) V (Proc.devRef .tc main_v268)) = ((maximumf : (⟨S30000x64, .f32⟩ : BufTy).Contents (Elt F) → (⟨S30000x64, .f32⟩ : BufTy).Contents (Elt F) → (⟨S30000x64, .f32⟩ : BufTy).Contents (Elt F)) (after (ops (F := F)) V (Proc.devRef .tc main_v267)) (after (ops (F := F)) V (Proc.devRef .tc main_call10_v0))) :=
  (lift6_main_v268 V).trans ((s_main_v268 (U5 V)).trans (congrArg₂ (maximumf : (⟨S30000x64, .f32⟩ : BufTy).Contents (Elt F) → (⟨S30000x64, .f32⟩ : BufTy).Contents (Elt F) → (⟨S30000x64, .f32⟩ : BufTy).Contents (Elt F)) (lift6_main_v267 V).symm (lift6_main_call10_v0 V).symm))
theorem rd_main_cst_60 (V : Valuation τ sig (Elt F)) : (after (ops (F := F)) V (Proc.devRef .tc main_cst_60)) = (constant (F := F) S_ .f32 0x00000000#32) :=
  (lift6_main_cst_60 V).trans ((s_main_cst_60 (U5 V)))
theorem rd_main_v269 (V : Valuation τ sig (Elt F)) : (after (ops (F := F)) V (Proc.devRef .tc main_v269)) = ((broadcastInDim S64x64 ![] bcast_S_S64x64 : (⟨S_, .f32⟩ : BufTy).Contents (Elt F) → (⟨S64x64, .f32⟩ : BufTy).Contents (Elt F)) (after (ops (F := F)) V (Proc.devRef .tc main_cst_60))) :=
  (lift6_main_v269 V).trans ((s_main_v269 (U5 V)).trans (congrArg (broadcastInDim S64x64 ![] bcast_S_S64x64 : (⟨S_, .f32⟩ : BufTy).Contents (Elt F) → (⟨S64x64, .f32⟩ : BufTy).Contents (Elt F)) (lift6_main_cst_60 V).symm))
theorem rd_main_v270 (V : Valuation τ sig (Elt F)) : (after (ops (F := F)) V (Proc.devRef .tc main_v270)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_arg4))) :=
  (lift6_main_v270 V).trans ((s_main_v270 (U5 V)).trans (congrArg (broadcastInDim S30000x1 ![0] bcast_S30000_S30000x1_0 : (⟨S30000, .i32⟩ : BufTy).Contents (Elt F) → (⟨S30000x1, .i32⟩ : BufTy).Contents (Elt F)) (lift6_main_arg4 V).symm))
theorem rd_main_v271 (V : Valuation τ sig (Elt F)) : (after (ops (F := F)) V (Proc.devRef .tc main_v271)) = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (after (ops (F := F)) V (Proc.devRef .tc main_v269)) (after (ops (F := F)) V (Proc.devRef .tc main_v270)) (after (ops (F := F)) V (Proc.devRef .tc main_v268))) :=
  (lift6_main_v271 V).trans ((s_main_v271 (U5 V)).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (lift6_main_v269 V).symm (lift6_main_v270 V).symm (lift6_main_v268 V).symm))
theorem rd_main_cst_61 (V : Valuation τ sig (Elt F)) : (after (ops (F := F)) V (Proc.devRef .tc main_cst_61)) = (constant (F := F) S_ .f32 0x3F800000#32) :=
  (lift6_main_cst_61 V).trans ((s_main_cst_61 (U5 V)))
theorem rd_main_v272 (V : Valuation τ sig (Elt F)) : (after (ops (F := F)) V (Proc.devRef .tc main_v272)) = ((broadcastInDim S30000x1 ![] bcast_S_S30000x1 : (⟨S_, .f32⟩ : BufTy).Contents (Elt F) → (⟨S30000x1, .f32⟩ : BufTy).Contents (Elt F)) (after (ops (F := F)) V (Proc.devRef .tc main_cst_61))) :=
  (lift6_main_v272 V).trans ((s_main_v272 (U5 V)).trans (congrArg (broadcastInDim S30000x1 ![] bcast_S_S30000x1 : (⟨S_, .f32⟩ : BufTy).Contents (Elt F) → (⟨S30000x1, .f32⟩ : BufTy).Contents (Elt F)) (lift6_main_cst_61 V).symm))
theorem rd_main_cst_62 (V : Valuation τ sig (Elt F)) : (after (ops (F := F)) V (Proc.devRef .tc main_cst_62)) = (constant (F := F) S_ .f32 0x00000000#32) :=
  (lift6_main_cst_62 V).trans ((s_main_cst_62 (U5 V)))
theorem rd_main_v273 (V : Valuation τ sig (Elt F)) : (after (ops (F := F)) V (Proc.devRef .tc main_v273)) = ((broadcastInDim S64x1 ![] bcast_S_S64x1 : (⟨S_, .f32⟩ : BufTy).Contents (Elt F) → (⟨S64x1, .f32⟩ : BufTy).Contents (Elt F)) (after (ops (F := F)) V (Proc.devRef .tc main_cst_62))) :=
  (lift6_main_v273 V).trans ((s_main_v273 (U5 V)).trans (congrArg (broadcastInDim S64x1 ![] bcast_S_S64x1 : (⟨S_, .f32⟩ : BufTy).Contents (Elt F) → (⟨S64x1, .f32⟩ : BufTy).Contents (Elt F)) (lift6_main_cst_62 V).symm))
theorem rd_main_v274 (V : Valuation τ sig (Elt F)) : (after (ops (F := F)) V (Proc.devRef .tc main_v274)) = ((broadcastInDim S30000x1 ![0] bcast_S30000_S30000x1_0 : (⟨S30000, .i32⟩ : BufTy).Contents (Elt F) → (⟨S30000x1, .i32⟩ : BufTy).Contents (Elt F)) (after (ops (F := F)) V (Proc.devRef .tc main_arg4))) :=
  (lift6_main_v274 V).trans ((s_main_v274 (U5 V)).trans (congrArg (broadcastInDim S30000x1 ![0] bcast_S30000_S30000x1_0 : (⟨S30000, .i32⟩ : BufTy).Contents (Elt F) → (⟨S30000x1, .i32⟩ : BufTy).Contents (Elt F)) (lift6_main_arg4 V).symm))
theorem rd_main_v275 (V : Valuation τ sig (Elt F)) : (after (ops (F := F)) V (Proc.devRef .tc main_v275)) = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (after (ops (F := F)) V (Proc.devRef .tc main_v273)) (after (ops (F := F)) V (Proc.devRef .tc main_v274)) (after (ops (F := F)) V (Proc.devRef .tc main_v272))) :=
  (lift6_main_v275 V).trans ((s_main_v275 (U5 V)).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (lift6_main_v273 V).symm (lift6_main_v274 V).symm (lift6_main_v272 V).symm))
theorem rd_main_cst_63 (V : Valuation τ sig (Elt F)) : (after (ops (F := F)) V (Proc.devRef .tc main_cst_63)) = (constant (F := F) S_ .f32 0x3F800000#32) :=
  (lift6_main_cst_63 V).trans ((s_main_cst_63 (U5 V)))
theorem rd_main_v276 (V : Valuation τ sig (Elt F)) : (after (ops (F := F)) V (Proc.devRef .tc main_v276)) = ((broadcastInDim S64x1 ![] bcast_S_S64x1 : (⟨S_, .f32⟩ : BufTy).Contents (Elt F) → (⟨S64x1, .f32⟩ : BufTy).Contents (Elt F)) (after (ops (F := F)) V (Proc.devRef .tc main_cst_63))) :=
  (lift6_main_v276 V).trans ((s_main_v276 (U5 V)).trans (congrArg (broadcastInDim S64x1 ![] bcast_S_S64x1 : (⟨S_, .f32⟩ : BufTy).Contents (Elt F) → (⟨S64x1, .f32⟩ : BufTy).Contents (Elt F)) (lift6_main_cst_63 V).symm))
theorem rd_main_v277 (V : Valuation τ sig (Elt F)) : (after (ops (F := F)) V (Proc.devRef .tc main_v277)) = ((maximumf : (⟨S64x1, .f32⟩ : BufTy).Contents (Elt F) → (⟨S64x1, .f32⟩ : BufTy).Contents (Elt F) → (⟨S64x1, .f32⟩ : BufTy).Contents (Elt F)) (after (ops (F := F)) V (Proc.devRef .tc main_v275)) (after (ops (F := F)) V (Proc.devRef .tc main_v276))) :=
  (lift6_main_v277 V).trans ((s_main_v277 (U5 V)).trans (congrArg₂ (maximumf : (⟨S64x1, .f32⟩ : BufTy).Contents (Elt F) → (⟨S64x1, .f32⟩ : BufTy).Contents (Elt F) → (⟨S64x1, .f32⟩ : BufTy).Contents (Elt F)) (lift6_main_v275 V).symm (lift6_main_v276 V).symm))
theorem rd_main_v278 (V : Valuation τ sig (Elt F)) : (after (ops (F := F)) V (Proc.devRef .tc main_v278)) = ((broadcastInDim S64x64 ![0, 1] bcast_S64x1_S64x64_0_1 : (⟨S64x1, .f32⟩ : BufTy).Contents (Elt F) → (⟨S64x64, .f32⟩ : BufTy).Contents (Elt F)) (after (ops (F := F)) V (Proc.devRef .tc main_v277))) :=
  (lift6_main_v278 V).trans ((s_main_v278 (U5 V)).trans (congrArg (broadcastInDim S64x64 ![0, 1] bcast_S64x1_S64x64_0_1 : (⟨S64x1, .f32⟩ : BufTy).Contents (Elt F) → (⟨S64x64, .f32⟩ : BufTy).Contents (Elt F)) (lift6_main_v277 V).symm))
theorem rd_main_v279 (V : Valuation τ sig (Elt F)) : (after (ops (F := F)) V (Proc.devRef .tc main_v279)) = ((Host.divf : (⟨S64x64, .f32⟩ : BufTy).Contents (Elt F) → (⟨S64x64, .f32⟩ : BufTy).Contents (Elt F) → (⟨S64x64, .f32⟩ : BufTy).Contents (Elt F)) (after (ops (F := F)) V (Proc.devRef .tc main_v271)) (after (ops (F := F)) V (Proc.devRef .tc main_v278))) :=
  (lift6_main_v279 V).trans ((s_main_v279 (U5 V)).trans (congrArg₂ (Host.divf : (⟨S64x64, .f32⟩ : BufTy).Contents (Elt F) → (⟨S64x64, .f32⟩ : BufTy).Contents (Elt F) → (⟨S64x64, .f32⟩ : BufTy).Contents (Elt F)) (lift6_main_v271 V).symm (lift6_main_v278 V).symm))
theorem rd_main_v280 (V : Valuation τ sig (Elt F)) : (after (ops (F := F)) V (Proc.devRef .tc main_v280)) = (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (after (ops (F := F)) V (Proc.devRef .tc main_v279)) (after (ops (F := F)) V (Proc.devRef .tc main_v210))) :=
  (lift6_main_v280 V).trans ((s_main_v280 (U5 V)).trans (congrArg₂ ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (lift6_main_v279 V).symm (lift6_main_v210 V).symm))
theorem rd_main_v281 (V : Valuation τ sig (Elt F)) : (after (ops (F := F)) V (Proc.devRef .tc main_v281)) = (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (after (ops (F := F)) V (Proc.devRef .tc main_v280)) (after (ops (F := F)) V (Proc.devRef .tc main_arg27))) :=
  (lift6_main_v281 V).trans ((s_main_v281 (U5 V)).trans (congrArg₂ ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (lift6_main_v280 V).symm (lift6_main_arg27 V).symm))
theorem rd_main_v282 (V : Valuation τ sig (Elt F)) : (after (ops (F := F)) V (Proc.devRef .tc main_v282)) = ((broadcastInDim S1x64 ![1] bcast_S64_S1x64_1 : (⟨S64, .f32⟩ : BufTy).Contents (Elt F) → (⟨S1x64, .f32⟩ : BufTy).Contents (Elt F)) (after (ops (F := F)) V (Proc.devRef .tc main_arg28))) :=
  (lift6_main_v282 V).trans ((s_main_v282 (U5 V)).trans (congrArg (broadcastInDim S1x64 ![1] bcast_S64_S1x64_1 : (⟨S64, .f32⟩ : BufTy).Contents (Elt F) → (⟨S1x64, .f32⟩ : BufTy).Contents (Elt F)) (lift6_main_arg28 V).symm))
theorem rd_main_v283 (V : Valuation τ sig (Elt F)) : (after (ops (F := F)) V (Proc.devRef .tc main_v283)) = ((broadcastInDim S64x64 ![0, 1] bcast_S1x64_S64x64_0_1 : (⟨S1x64, .f32⟩ : BufTy).Contents (Elt F) → (⟨S64x64, .f32⟩ : BufTy).Contents (Elt F)) (after (ops (F := F)) V (Proc.devRef .tc main_v282))) :=
  (lift6_main_v283 V).trans ((s_main_v283 (U5 V)).trans (congrArg (broadcastInDim S64x64 ![0, 1] bcast_S1x64_S64x64_0_1 : (⟨S1x64, .f32⟩ : BufTy).Contents (Elt F) → (⟨S64x64, .f32⟩ : BufTy).Contents (Elt F)) (lift6_main_v282 V).symm))
theorem rd_main_v284 (V : Valuation τ sig (Elt F)) : (after (ops (F := F)) V (Proc.devRef .tc main_v284)) = ((addf : (⟨S64x64, .f32⟩ : BufTy).Contents (Elt F) → (⟨S64x64, .f32⟩ : BufTy).Contents (Elt F) → (⟨S64x64, .f32⟩ : BufTy).Contents (Elt F)) (after (ops (F := F)) V (Proc.devRef .tc main_v281)) (after (ops (F := F)) V (Proc.devRef .tc main_v283))) :=
  (lift6_main_v284 V).trans ((s_main_v284 (U5 V)).trans (congrArg₂ (addf : (⟨S64x64, .f32⟩ : BufTy).Contents (Elt F) → (⟨S64x64, .f32⟩ : BufTy).Contents (Elt F) → (⟨S64x64, .f32⟩ : BufTy).Contents (Elt F)) (lift6_main_v281 V).symm (lift6_main_v283 V).symm))
theorem rd_main_call11_cst (V : Valuation τ sig (Elt F)) : (after (ops (F := F)) V (Proc.devRef .tc main_call11_cst)) = (constant (F := F) S_ .f32 0x00000000#32) :=
  (lift6_main_call11_cst V).trans ((s_main_call11_cst (U5 V)))
theorem rd_main_call11_v0 (V : Valuation τ sig (Elt F)) : (after (ops (F := F)) V (Proc.devRef .tc main_call11_v0)) = (((broadcastInDim S64x64 ![] bcast_S_S64x64) : (⟨S_, .f32⟩ : BufTy).Contents (Elt F) → (⟨S64x64, .f32⟩ : BufTy).Contents (Elt F)) (after (ops (F := F)) V (Proc.devRef .tc main_call11_cst))) :=
  (lift6_main_call11_v0 V).trans ((s_main_call11_v0 (U5 V)).trans (congrArg ((broadcastInDim S64x64 ![] bcast_S_S64x64) : (⟨S_, .f32⟩ : BufTy).Contents (Elt F) → (⟨S64x64, .f32⟩ : BufTy).Contents (Elt F)) (lift6_main_call11_cst V).symm))
theorem rd_main_v285 (V : Valuation τ sig (Elt F)) : (after (ops (F := F)) V (Proc.devRef .tc main_v285)) = ((maximumf : (⟨S64x64, .f32⟩ : BufTy).Contents (Elt F) → (⟨S64x64, .f32⟩ : BufTy).Contents (Elt F) → (⟨S64x64, .f32⟩ : BufTy).Contents (Elt F)) (after (ops (F := F)) V (Proc.devRef .tc main_v284)) (after (ops (F := F)) V (Proc.devRef .tc main_call11_v0))) :=
  (lift6_main_v285 V).trans ((s_main_v285 (U5 V)).trans (congrArg₂ (maximumf : (⟨S64x64, .f32⟩ : BufTy).Contents (Elt F) → (⟨S64x64, .f32⟩ : BufTy).Contents (Elt F) → (⟨S64x64, .f32⟩ : BufTy).Contents (Elt F)) (lift6_main_v284 V).symm (lift6_main_call11_v0 V).symm))

end Cert.ReferenceIdeal.Hand

end
-- ==== Proof.Ref.StageL2.lean ====
-- written by: gen_ref.js <unit directory>
/- The third layer of the reference program read as terms: the three results main_v244 (edges), main_v268 (nodes), main_v285 (globals) over the second layer's results and the launch contents of the arguments. -/
import proofs.«123839_j71768903516633_2_alg».proof.Proof.Ref.Rd0
import proofs.«123839_j71768903516633_2_alg».proof.Proof.Ref.Rd4
import proofs.«123839_j71768903516633_2_alg».proof.Proof.Ref.Rd5
import proofs.«123839_j71768903516633_2_alg».proof.Proof.Ref.LiftA

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

open Cert.Lib.SingleAssignment

set_option maxRecDepth 16384

theorem t_main_v0 (V : Valuation τ sig (Elt F)) : (after (ops (F := F)) V (Proc.devRef .tc main_v0)) = (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) :=
  (rd_main_v0 V).trans (congrArg ((extractStridedSlice S1x300000 ![0, 0] · slices_S2x300000_S1x300000_0_0) : (⟨S2x300000, .i32⟩ : BufTy).Contents (Elt F) → (⟨S1x300000, .i32⟩ : BufTy).Contents (Elt F)) (lift0_main_arg1 V))
theorem t_main_v1 (V : Valuation τ sig (Elt F)) : (after (ops (F := F)) V (Proc.devRef .tc main_v1)) = (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) :=
  (rd_main_v1 V).trans (congrArg (fun A => shapeCast S300000 A shapeCasts_S1x300000_S300000) (t_main_v0 V))
theorem t_main_c_46 (V : Valuation τ sig (Elt F)) : (after (ops (F := F)) V (Proc.devRef .tc main_c_46)) = (constantI S_ 32 0#32) :=
  rd_main_c_46 V
theorem t_main_v211 (V : Valuation τ sig (Elt F)) : (after (ops (F := F)) V (Proc.devRef .tc main_v211)) = ((broadcastInDim S300000 ![] bcast_S_S300000 : (⟨S_, .i32⟩ : BufTy).Contents (Elt F) → (⟨S300000, .i32⟩ : BufTy).Contents (Elt F)) (constantI S_ 32 0#32)) :=
  (rd_main_v211 V).trans (congrArg (broadcastInDim S300000 ![] bcast_S_S300000 : (⟨S_, .i32⟩ : BufTy).Contents (Elt F) → (⟨S300000, .i32⟩ : BufTy).Contents (Elt F)) (t_main_c_46 V))
theorem t_main_v212 (V : Valuation τ sig (Elt F)) : (after (ops (F := F)) V (Proc.devRef .tc main_v212)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v212 V).trans (congrArg₂ (cmpi .slt : (⟨S300000, .i32⟩ : BufTy).Contents (Elt F) → (⟨S300000, .i32⟩ : BufTy).Contents (Elt F) → (⟨S300000, .i1⟩ : BufTy).Contents (Elt F)) (t_main_v1 V) (t_main_v211 V))
theorem t_main_c_47 (V : Valuation τ sig (Elt F)) : (after (ops (F := F)) V (Proc.devRef .tc main_c_47)) = (constantI S_ 32 30000#32) :=
  rd_main_c_47 V
theorem t_main_v213 (V : Valuation τ sig (Elt F)) : (after (ops (F := F)) V (Proc.devRef .tc main_v213)) = ((broadcastInDim S300000 ![] bcast_S_S300000 : (⟨S_, .i32⟩ : BufTy).Contents (Elt F) → (⟨S300000, .i32⟩ : BufTy).Contents (Elt F)) (constantI S_ 32 30000#32)) :=
  (rd_main_v213 V).trans (congrArg (broadcastInDim S300000 ![] bcast_S_S300000 : (⟨S_, .i32⟩ : BufTy).Contents (Elt F) → (⟨S300000, .i32⟩ : BufTy).Contents (Elt F)) (t_main_c_47 V))
theorem t_main_v214 (V : Valuation τ sig (Elt F)) : (after (ops (F := F)) V (Proc.devRef .tc main_v214)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v214 V).trans (congrArg₂ (addi : (⟨S300000, .i32⟩ : BufTy).Contents (Elt F) → (⟨S300000, .i32⟩ : BufTy).Contents (Elt F) → (⟨S300000, .i32⟩ : BufTy).Contents (Elt F)) (t_main_v1 V) (t_main_v213 V))
theorem t_main_v215 (V : Valuation τ sig (Elt F)) : (after (ops (F := F)) V (Proc.devRef .tc main_v215)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)) :=
  (rd_main_v215 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v212 V) (t_main_v214 V) (t_main_v1 V))
theorem t_main_v216 (V : Valuation τ sig (Elt F)) : (after (ops (F := F)) V (Proc.devRef .tc main_v216)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))) :=
  (rd_main_v216 V).trans (congrArg (broadcastInDim S300000x1 ![0] bcast_S300000_S300000x1_0 : (⟨S300000, .i32⟩ : BufTy).Contents (Elt F) → (⟨S300000x1, .i32⟩ : BufTy).Contents (Elt F)) (t_main_v215 V))
theorem t_main_v217 (V : Valuation τ sig (Elt F)) : (after (ops (F := F)) V (Proc.devRef .tc main_v217)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) :=
  (rd_main_v217 V).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) rfl (t_main_v216 V))
theorem t_main_v2 (V : Valuation τ sig (Elt F)) : (after (ops (F := F)) V (Proc.devRef .tc main_v2)) = (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) :=
  (rd_main_v2 V).trans (congrArg ((extractStridedSlice S1x300000 ![1, 0] · slices_S2x300000_S1x300000_1_0) : (⟨S2x300000, .i32⟩ : BufTy).Contents (Elt F) → (⟨S1x300000, .i32⟩ : BufTy).Contents (Elt F)) (lift0_main_arg1 V))
theorem t_main_v3 (V : Valuation τ sig (Elt F)) : (after (ops (F := F)) V (Proc.devRef .tc main_v3)) = (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) :=
  (rd_main_v3 V).trans (congrArg (fun A => shapeCast S300000 A shapeCasts_S1x300000_S300000) (t_main_v2 V))
theorem t_main_c_48 (V : Valuation τ sig (Elt F)) : (after (ops (F := F)) V (Proc.devRef .tc main_c_48)) = (constantI S_ 32 0#32) :=
  rd_main_c_48 V
theorem t_main_v218 (V : Valuation τ sig (Elt F)) : (after (ops (F := F)) V (Proc.devRef .tc main_v218)) = ((broadcastInDim S300000 ![] bcast_S_S300000 : (⟨S_, .i32⟩ : BufTy).Contents (Elt F) → (⟨S300000, .i32⟩ : BufTy).Contents (Elt F)) (constantI S_ 32 0#32)) :=
  (rd_main_v218 V).trans (congrArg (broadcastInDim S300000 ![] bcast_S_S300000 : (⟨S_, .i32⟩ : BufTy).Contents (Elt F) → (⟨S300000, .i32⟩ : BufTy).Contents (Elt F)) (t_main_c_48 V))
theorem t_main_v219 (V : Valuation τ sig (Elt F)) : (after (ops (F := F)) V (Proc.devRef .tc main_v219)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v219 V).trans (congrArg₂ (cmpi .slt : (⟨S300000, .i32⟩ : BufTy).Contents (Elt F) → (⟨S300000, .i32⟩ : BufTy).Contents (Elt F) → (⟨S300000, .i1⟩ : BufTy).Contents (Elt F)) (t_main_v3 V) (t_main_v218 V))
theorem t_main_c_49 (V : Valuation τ sig (Elt F)) : (after (ops (F := F)) V (Proc.devRef .tc main_c_49)) = (constantI S_ 32 30000#32) :=
  rd_main_c_49 V
theorem t_main_v220 (V : Valuation τ sig (Elt F)) : (after (ops (F := F)) V (Proc.devRef .tc main_v220)) = ((broadcastInDim S300000 ![] bcast_S_S300000 : (⟨S_, .i32⟩ : BufTy).Contents (Elt F) → (⟨S300000, .i32⟩ : BufTy).Contents (Elt F)) (constantI S_ 32 30000#32)) :=
  (rd_main_v220 V).trans (congrArg (broadcastInDim S300000 ![] bcast_S_S300000 : (⟨S_, .i32⟩ : BufTy).Contents (Elt F) → (⟨S300000, .i32⟩ : BufTy).Contents (Elt F)) (t_main_c_49 V))
theorem t_main_v221 (V : Valuation τ sig (Elt F)) : (after (ops (F := F)) V (Proc.devRef .tc main_v221)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v221 V).trans (congrArg₂ (addi : (⟨S300000, .i32⟩ : BufTy).Contents (Elt F) → (⟨S300000, .i32⟩ : BufTy).Contents (Elt F) → (⟨S300000, .i32⟩ : BufTy).Contents (Elt F)) (t_main_v3 V) (t_main_v220 V))
theorem t_main_v222 (V : Valuation τ sig (Elt F)) : (after (ops (F := F)) V (Proc.devRef .tc main_v222)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v222 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v219 V) (t_main_v221 V) (t_main_v3 V))
theorem t_main_v223 (V : Valuation τ sig (Elt F)) : (after (ops (F := F)) V (Proc.devRef .tc main_v223)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))) :=
  (rd_main_v223 V).trans (congrArg (broadcastInDim S300000x1 ![0] bcast_S300000_S300000x1_0 : (⟨S300000, .i32⟩ : BufTy).Contents (Elt F) → (⟨S300000x1, .i32⟩ : BufTy).Contents (Elt F)) (t_main_v222 V))
theorem t_main_v224 (V : Valuation τ sig (Elt F)) : (after (ops (F := F)) V (Proc.devRef .tc main_v224)) = (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)))) :=
  (rd_main_v224 V).trans (congrArg₂ ((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) rfl (t_main_v223 V))
theorem t_main_c_50 (V : Valuation τ sig (Elt F)) : (after (ops (F := F)) V (Proc.devRef .tc main_c_50)) = (constantI S_ 32 0#32) :=
  rd_main_c_50 V
theorem t_main_v225 (V : Valuation τ sig (Elt F)) : (after (ops (F := F)) V (Proc.devRef .tc main_v225)) = ((broadcastInDim S300000 ![] bcast_S_S300000 : (⟨S_, .i32⟩ : BufTy).Contents (Elt F) → (⟨S300000, .i32⟩ : BufTy).Contents (Elt F)) (constantI S_ 32 0#32)) :=
  (rd_main_v225 V).trans (congrArg (broadcastInDim S300000 ![] bcast_S_S300000 : (⟨S_, .i32⟩ : BufTy).Contents (Elt F) → (⟨S300000, .i32⟩ : BufTy).Contents (Elt F)) (t_main_c_50 V))
theorem t_main_v226 (V : Valuation τ sig (Elt F)) : (after (ops (F := F)) V (Proc.devRef .tc main_v226)) = ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) :=
  (rd_main_v226 V).trans (congrArg₂ (cmpi .slt : (⟨S300000, .i32⟩ : BufTy).Contents (Elt F) → (⟨S300000, .i32⟩ : BufTy).Contents (Elt F) → (⟨S300000, .i1⟩ : BufTy).Contents (Elt F)) (t_main_v1 V) (t_main_v225 V))
theorem t_main_c_51 (V : Valuation τ sig (Elt F)) : (after (ops (F := F)) V (Proc.devRef .tc main_c_51)) = (constantI S_ 32 30000#32) :=
  rd_main_c_51 V
theorem t_main_v227 (V : Valuation τ sig (Elt F)) : (after (ops (F := F)) V (Proc.devRef .tc main_v227)) = ((broadcastInDim S300000 ![] bcast_S_S300000 : (⟨S_, .i32⟩ : BufTy).Contents (Elt F) → (⟨S300000, .i32⟩ : BufTy).Contents (Elt F)) (constantI S_ 32 30000#32)) :=
  (rd_main_v227 V).trans (congrArg (broadcastInDim S300000 ![] bcast_S_S300000 : (⟨S_, .i32⟩ : BufTy).Contents (Elt F) → (⟨S300000, .i32⟩ : BufTy).Contents (Elt F)) (t_main_c_51 V))
theorem t_main_v228 (V : Valuation τ sig (Elt F)) : (after (ops (F := F)) V (Proc.devRef .tc main_v228)) = ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) :=
  (rd_main_v228 V).trans (congrArg₂ (addi : (⟨S300000, .i32⟩ : BufTy).Contents (Elt F) → (⟨S300000, .i32⟩ : BufTy).Contents (Elt F) → (⟨S300000, .i32⟩ : BufTy).Contents (Elt F)) (t_main_v1 V) (t_main_v227 V))
theorem t_main_v229 (V : Valuation τ sig (Elt F)) : (after (ops (F := F)) V (Proc.devRef .tc main_v229)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)) :=
  (rd_main_v229 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v226 V) (t_main_v228 V) (t_main_v1 V))
theorem t_main_v230 (V : Valuation τ sig (Elt F)) : (after (ops (F := F)) V (Proc.devRef .tc main_v230)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))) :=
  (rd_main_v230 V).trans (congrArg (broadcastInDim S300000x1 ![0] bcast_S300000_S300000x1_0 : (⟨S300000, .i32⟩ : BufTy).Contents (Elt F) → (⟨S300000x1, .i32⟩ : BufTy).Contents (Elt F)) (t_main_v229 V))
theorem t_main_v231 (V : Valuation τ sig (Elt F)) : (after (ops (F := F)) V (Proc.devRef .tc main_v231)) = (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) :=
  (rd_main_v231 V).trans (congrArg₂ ((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (lift0_main_arg4 V) (t_main_v230 V))
theorem t_main_c_52 (V : Valuation τ sig (Elt F)) : (after (ops (F := F)) V (Proc.devRef .tc main_c_52)) = (constantI S_ 32 0#32) :=
  rd_main_c_52 V
theorem t_main_v232 (V : Valuation τ sig (Elt F)) : (after (ops (F := F)) V (Proc.devRef .tc main_v232)) = ((broadcastInDim S300000 ![] bcast_S_S300000 : (⟨S_, .i32⟩ : BufTy).Contents (Elt F) → (⟨S300000, .i32⟩ : BufTy).Contents (Elt F)) (constantI S_ 32 0#32)) :=
  (rd_main_v232 V).trans (congrArg (broadcastInDim S300000 ![] bcast_S_S300000 : (⟨S_, .i32⟩ : BufTy).Contents (Elt F) → (⟨S300000, .i32⟩ : BufTy).Contents (Elt F)) (t_main_c_52 V))
theorem t_main_v233 (V : Valuation τ sig (Elt F)) : (after (ops (F := F)) V (Proc.devRef .tc main_v233)) = ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) :=
  (rd_main_v233 V).trans (congrArg₂ (cmpi .slt : (⟨S300000, .i32⟩ : BufTy).Contents (Elt F) → (⟨S300000, .i32⟩ : BufTy).Contents (Elt F) → (⟨S300000, .i1⟩ : BufTy).Contents (Elt F)) (t_main_v231 V) (t_main_v232 V))
theorem t_main_c_53 (V : Valuation τ sig (Elt F)) : (after (ops (F := F)) V (Proc.devRef .tc main_c_53)) = (constantI S_ 32 64#32) :=
  rd_main_c_53 V
theorem t_main_v234 (V : Valuation τ sig (Elt F)) : (after (ops (F := F)) V (Proc.devRef .tc main_v234)) = ((broadcastInDim S300000 ![] bcast_S_S300000 : (⟨S_, .i32⟩ : BufTy).Contents (Elt F) → (⟨S300000, .i32⟩ : BufTy).Contents (Elt F)) (constantI S_ 32 64#32)) :=
  (rd_main_v234 V).trans (congrArg (broadcastInDim S300000 ![] bcast_S_S300000 : (⟨S_, .i32⟩ : BufTy).Contents (Elt F) → (⟨S300000, .i32⟩ : BufTy).Contents (Elt F)) (t_main_c_53 V))
theorem t_main_v235 (V : Valuation τ sig (Elt F)) : (after (ops (F := F)) V (Proc.devRef .tc main_v235)) = ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) :=
  (rd_main_v235 V).trans (congrArg₂ (addi : (⟨S300000, .i32⟩ : BufTy).Contents (Elt F) → (⟨S300000, .i32⟩ : BufTy).Contents (Elt F) → (⟨S300000, .i32⟩ : BufTy).Contents (Elt F)) (t_main_v231 V) (t_main_v234 V))
theorem t_main_v236 (V : Valuation τ sig (Elt F)) : (after (ops (F := F)) V (Proc.devRef .tc main_v236)) = ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))) :=
  (rd_main_v236 V).trans (congr3 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (t_main_v233 V) (t_main_v235 V) (t_main_v231 V))
theorem t_main_v237 (V : Valuation τ sig (Elt F)) : (after (ops (F := F)) V (Proc.devRef .tc main_v237)) = ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))) :=
  (rd_main_v237 V).trans (congrArg (broadcastInDim S300000x1 ![0] bcast_S300000_S300000x1_0 : (⟨S300000, .i32⟩ : BufTy).Contents (Elt F) → (⟨S300000x1, .i32⟩ : BufTy).Contents (Elt F)) (t_main_v236 V))
theorem t_main_v238 (V : Valuation τ sig (Elt F)) : (after (ops (F := F)) V (Proc.devRef .tc main_v238)) = (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v210)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))))) :=
  (rd_main_v238 V).trans (congrArg₂ ((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) rfl (t_main_v237 V))
theorem t_main_v239 (V : Valuation τ sig (Elt F)) : (after (ops (F := F)) V (Proc.devRef .tc main_v239)) = (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v169))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v210)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) :=
  (rd_main_v239 V).trans (congr4 (fun A0 A1 A2 A3 => concatenate S300000x256 1 [⟨S300000x64, A0⟩, ⟨S300000x64, A1⟩, ⟨S300000x64, A2⟩, ⟨S300000x64, A3⟩] concatenates_S300000x64_S300000x64_S300000x64_S300000x64_S300000x256_d1) (t_main_v217 V) (t_main_v224 V) rfl (t_main_v238 V))
theorem t_main_v240 (V : Valuation τ sig (Elt F)) : (after (ops (F := F)) V (Proc.devRef .tc main_v240)) = (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v169))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v210)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) (V (Proc.devRef .tc main_arg23))) :=
  (rd_main_v240 V).trans (congrArg₂ ((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (t_main_v239 V) (lift0_main_arg23 V))
theorem t_main_v241 (V : Valuation τ sig (Elt F)) : (after (ops (F := F)) V (Proc.devRef .tc main_v241)) = ((broadcastInDim S1x64 ![1] bcast_S64_S1x64_1 : (⟨S64, .f32⟩ : BufTy).Contents (Elt F) → (⟨S1x64, .f32⟩ : BufTy).Contents (Elt F)) (V (Proc.devRef .tc main_arg24))) :=
  (rd_main_v241 V).trans (congrArg (broadcastInDim S1x64 ![1] bcast_S64_S1x64_1 : (⟨S64, .f32⟩ : BufTy).Contents (Elt F) → (⟨S1x64, .f32⟩ : BufTy).Contents (Elt F)) (lift0_main_arg24 V))
theorem t_main_v242 (V : Valuation τ sig (Elt F)) : (after (ops (F := F)) V (Proc.devRef .tc main_v242)) = ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg24)))) :=
  (rd_main_v242 V).trans (congrArg (broadcastInDim S300000x64 ![0, 1] bcast_S1x64_S300000x64_0_1 : (⟨S1x64, .f32⟩ : BufTy).Contents (Elt F) → (⟨S300000x64, .f32⟩ : BufTy).Contents (Elt F)) (t_main_v241 V))
theorem t_main_v243 (V : Valuation τ sig (Elt F)) : (after (ops (F := F)) V (Proc.devRef .tc main_v243)) = ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v169))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v210)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) (V (Proc.devRef .tc main_arg23))) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg24))))) :=
  (rd_main_v243 V).trans (congrArg₂ (addf : (⟨S300000x64, .f32⟩ : BufTy).Contents (Elt F) → (⟨S300000x64, .f32⟩ : BufTy).Contents (Elt F) → (⟨S300000x64, .f32⟩ : BufTy).Contents (Elt F)) (t_main_v240 V) (t_main_v242 V))
theorem t_main_call9_cst (V : Valuation τ sig (Elt F)) : (after (ops (F := F)) V (Proc.devRef .tc main_call9_cst)) = (constant (F := F) S_ .f32 0x00000000#32) :=
  rd_main_call9_cst V
theorem t_main_call9_v0 (V : Valuation τ sig (Elt F)) : (after (ops (F := F)) V (Proc.devRef .tc main_call9_v0)) = (((broadcastInDim S300000x64 ![] bcast_S_S300000x64) : (⟨S_, .f32⟩ : BufTy).Contents (Elt F) → (⟨S300000x64, .f32⟩ : BufTy).Contents (Elt F)) (constant (F := F) S_ .f32 0x00000000#32)) :=
  (rd_main_call9_v0 V).trans (congrArg ((broadcastInDim S300000x64 ![] bcast_S_S300000x64) : (⟨S_, .f32⟩ : BufTy).Contents (Elt F) → (⟨S300000x64, .f32⟩ : BufTy).Contents (Elt F)) (t_main_call9_cst V))
theorem ref_main_v244 (V : Valuation τ sig (Elt F)) : (after (ops (F := F)) V (Proc.devRef .tc main_v244)) = ((maximumf : (⟨S300000x64, .f32⟩ : BufTy).Contents (Elt F) → (⟨S300000x64, .f32⟩ : BufTy).Contents (Elt F) → (⟨S300000x64, .f32⟩ : BufTy).Contents (Elt F)) ((addf : (⟨S300000x64, .f32⟩ : BufTy).Contents (Elt F) → (⟨S300000x64, .f32⟩ : BufTy).Contents (Elt F) → (⟨S300000x64, .f32⟩ : BufTy).Contents (Elt F)) (((fun l r => Host.dotGeneral dot_S300000x256_S256x64_S300000x64_1_0_0_1_n_n none l r) : (⟨S300000x256, .f32⟩ : BufTy).Contents (Elt F) → (⟨S256x64, .f32⟩ : BufTy).Contents (Elt F) → (⟨S300000x64, .f32⟩ : BufTy).Contents (Elt F)) (concatenate S300000x256 1 [⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000))))⟩, ⟨S300000x64, (((fun x i => Host.gather gather_S30000x64_S300000x1_S300000x64_1_0_n_n_0_1_164 x i) : (⟨S30000x64, .f32⟩ : BufTy).Contents (Elt F) → (⟨S300000x1, .i32⟩ : BufTy).Contents (Elt F) → (⟨S300000x64, .f32⟩ : BufTy).Contents (Elt F)) (after (ops (F := F)) V (Proc.devRef .tc main_v193)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000))))⟩, ⟨S300000x64, (after (ops (F := F)) V (Proc.devRef .tc main_v169))⟩, ⟨S300000x64, (((fun x i => Host.gather gather_S64x64_S300000x1_S300000x64_1_0_n_n_0_1_164 x i) : (⟨S64x64, .f32⟩ : BufTy).Contents (Elt F) → (⟨S300000x1, .i32⟩ : BufTy).Contents (Elt F) → (⟨S300000x64, .f32⟩ : BufTy).Contents (Elt F)) (after (ops (F := F)) V (Proc.devRef .tc main_v210)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))) ((broadcastInDim S300000 ![] bcast_S_S300000 : (⟨S_, .i32⟩ : BufTy).Contents (Elt F) → (⟨S300000, .i32⟩ : BufTy).Contents (Elt F)) (constantI S_ 32 64#32))) (((fun x i => Host.gather gather_S30000_S300000x1_S300000_n_0_n_n_0_1_1 x i) : (⟨S30000, .i32⟩ : BufTy).Contents (Elt F) → (⟨S300000x1, .i32⟩ : BufTy).Contents (Elt F) → (⟨S300000, .i32⟩ : BufTy).Contents (Elt F)) (V (Proc.devRef .tc main_arg4)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000) ((broadcastInDim S300000 ![] bcast_S_S300000 : (⟨S_, .i32⟩ : BufTy).Contents (Elt F) → (⟨S300000, .i32⟩ : BufTy).Contents (Elt F)) (constantI S_ 32 30000#32))) (shapeCast S300000 (((extractStridedSlice S1x300000 ![0, 0] · slices_S2x300000_S1x300000_0_0) : (⟨S2x300000, .i32⟩ : BufTy).Contents (Elt F) → (⟨S1x300000, .i32⟩ : BufTy).Contents (Elt F)) (V (Proc.devRef .tc main_arg1))) shapeCasts_S1x300000_S300000)))))))⟩] concatenates_S300000x64_S300000x64_S300000x64_S300000x64_S300000x256_d1) (V (Proc.devRef .tc main_arg23))) ((broadcastInDim S300000x64 ![0, 1] bcast_S1x64_S300000x64_0_1 : (⟨S1x64, .f32⟩ : BufTy).Contents (Elt F) → (⟨S300000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg24))))) (((broadcastInDim S300000x64 ![] bcast_S_S300000x64) : (⟨S_, .f32⟩ : BufTy).Contents (Elt F) → (⟨S300000x64, .f32⟩ : BufTy).Contents (Elt F)) (constant (F := F) S_ .f32 0x00000000#32))) :=
  (rd_main_v244 V).trans (congrArg₂ (maximumf : (⟨S300000x64, .f32⟩ : BufTy).Contents (Elt F) → (⟨S300000x64, .f32⟩ : BufTy).Contents (Elt F) → (⟨S300000x64, .f32⟩ : BufTy).Contents (Elt F)) (t_main_v243 V) (t_main_call9_v0 V))
theorem t_main_cst_54 (V : Valuation τ sig (Elt F)) : (after (ops (F := F)) V (Proc.devRef .tc main_cst_54)) = (constant (F := F) S_ .f32 0x00000000#32) :=
  rd_main_cst_54 V
theorem t_main_v245 (V : Valuation τ sig (Elt F)) : (after (ops (F := F)) V (Proc.devRef .tc main_v245)) = ((broadcastInDim S30000x64 ![] bcast_S_S30000x64 : (⟨S_, .f32⟩ : BufTy).Contents (Elt F) → (⟨S30000x64, .f32⟩ : BufTy).Contents (Elt F)) (constant (F := F) S_ .f32 0x00000000#32)) :=
  (rd_main_v245 V).trans (congrArg (broadcastInDim S30000x64 ![] bcast_S_S30000x64 : (⟨S_, .f32⟩ : BufTy).Contents (Elt F) → (⟨S30000x64, .f32⟩ : BufTy).Contents (Elt F)) (t_main_cst_54 V))
theorem t_main_v246 (V : Valuation τ sig (Elt F)) : (after (ops (F := F)) V (Proc.devRef .tc main_v246)) = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v246 V).trans (congrArg (broadcastInDim S300000x1 ![0] bcast_S300000_S300000x1_0 : (⟨S300000, .i32⟩ : BufTy).Contents (Elt F) → (⟨S300000x1, .i32⟩ : BufTy).Contents (Elt F)) (t_main_v3 V))
theorem t_main_v247 (V : Valuation τ sig (Elt F)) : (after (ops (F := F)) V (Proc.devRef .tc main_v247)) = (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v244))) :=
  (rd_main_v247 V).trans (congr3 ((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) (t_main_v245 V) (t_main_v246 V) rfl)
theorem t_main_cst_56 (V : Valuation τ sig (Elt F)) : (after (ops (F := F)) V (Proc.devRef .tc main_cst_56)) = (constant (F := F) S_ .f32 0x00000000#32) :=
  rd_main_cst_56 V
theorem t_main_v249 (V : Valuation τ sig (Elt F)) : (after (ops (F := F)) V (Proc.devRef .tc main_v249)) = ((broadcastInDim S30000x1 ![] bcast_S_S30000x1 : (⟨S_, .f32⟩ : BufTy).Contents (Elt F) → (⟨S30000x1, .f32⟩ : BufTy).Contents (Elt F)) (constant (F := F) S_ .f32 0x00000000#32)) :=
  (rd_main_v249 V).trans (congrArg (broadcastInDim S30000x1 ![] bcast_S_S30000x1 : (⟨S_, .f32⟩ : BufTy).Contents (Elt F) → (⟨S30000x1, .f32⟩ : BufTy).Contents (Elt F)) (t_main_cst_56 V))
theorem t_main_v250 (V : Valuation τ sig (Elt F)) : (after (ops (F := F)) V (Proc.devRef .tc main_v250)) = ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) :=
  (rd_main_v250 V).trans (congrArg (broadcastInDim S300000x1 ![0] bcast_S300000_S300000x1_0 : (⟨S300000, .i32⟩ : BufTy).Contents (Elt F) → (⟨S300000x1, .i32⟩ : BufTy).Contents (Elt F)) (t_main_v3 V))
theorem t_main_cst_55 (V : Valuation τ sig (Elt F)) : (after (ops (F := F)) V (Proc.devRef .tc main_cst_55)) = (constant (F := F) S_ .f32 0x3F800000#32) :=
  rd_main_cst_55 V
theorem t_main_v248 (V : Valuation τ sig (Elt F)) : (after (ops (F := F)) V (Proc.devRef .tc main_v248)) = ((broadcastInDim S300000x1 ![] bcast_S_S300000x1 : (⟨S_, .f32⟩ : BufTy).Contents (Elt F) → (⟨S300000x1, .f32⟩ : BufTy).Contents (Elt F)) (constant (F := F) S_ .f32 0x3F800000#32)) :=
  (rd_main_v248 V).trans (congrArg (broadcastInDim S300000x1 ![] bcast_S_S300000x1 : (⟨S_, .f32⟩ : BufTy).Contents (Elt F) → (⟨S300000x1, .f32⟩ : BufTy).Contents (Elt F)) (t_main_cst_55 V))
theorem t_main_v251 (V : Valuation τ sig (Elt F)) : (after (ops (F := F)) V (Proc.devRef .tc main_v251)) = (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) :=
  (rd_main_v251 V).trans (congr3 ((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) (t_main_v249 V) (t_main_v250 V) (t_main_v248 V))
theorem t_main_cst_57 (V : Valuation τ sig (Elt F)) : (after (ops (F := F)) V (Proc.devRef .tc main_cst_57)) = (constant (F := F) S_ .f32 0x3F800000#32) :=
  rd_main_cst_57 V
theorem t_main_v252 (V : Valuation τ sig (Elt F)) : (after (ops (F := F)) V (Proc.devRef .tc main_v252)) = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (rd_main_v252 V).trans (congrArg (broadcastInDim S30000x1 ![] bcast_S_S30000x1 : (⟨S_, .f32⟩ : BufTy).Contents (Elt F) → (⟨S30000x1, .f32⟩ : BufTy).Contents (Elt F)) (t_main_cst_57 V))
theorem t_main_v253 (V : Valuation τ sig (Elt F)) : (after (ops (F := F)) V (Proc.devRef .tc main_v253)) = ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (rd_main_v253 V).trans (congrArg₂ (maximumf : (⟨S30000x1, .f32⟩ : BufTy).Contents (Elt F) → (⟨S30000x1, .f32⟩ : BufTy).Contents (Elt F) → (⟨S30000x1, .f32⟩ : BufTy).Contents (Elt F)) (t_main_v251 V) (t_main_v252 V))
theorem t_main_v254 (V : Valuation τ sig (Elt F)) : (after (ops (F := F)) V (Proc.devRef .tc main_v254)) = ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))) :=
  (rd_main_v254 V).trans (congrArg (broadcastInDim S30000x64 ![0, 1] bcast_S30000x1_S30000x64_0_1 : (⟨S30000x1, .f32⟩ : BufTy).Contents (Elt F) → (⟨S30000x64, .f32⟩ : BufTy).Contents (Elt F)) (t_main_v253 V))
theorem t_main_v255 (V : Valuation τ sig (Elt F)) : (after (ops (F := F)) V (Proc.devRef .tc main_v255)) = ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v244))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32))))) :=
  (rd_main_v255 V).trans (congrArg₂ (Host.divf : (⟨S30000x64, .f32⟩ : BufTy).Contents (Elt F) → (⟨S30000x64, .f32⟩ : BufTy).Contents (Elt F) → (⟨S30000x64, .f32⟩ : BufTy).Contents (Elt F)) (t_main_v247 V) (t_main_v254 V))
theorem t_main_c_58 (V : Valuation τ sig (Elt F)) : (after (ops (F := F)) V (Proc.devRef .tc main_c_58)) = (constantI S_ 32 0#32) :=
  rd_main_c_58 V
theorem t_main_v256 (V : Valuation τ sig (Elt F)) : (after (ops (F := F)) V (Proc.devRef .tc main_v256)) = ((broadcastInDim S30000 ![] bcast_S_S30000 : (⟨S_, .i32⟩ : BufTy).Contents (Elt F) → (⟨S30000, .i32⟩ : BufTy).Contents (Elt F)) (constantI S_ 32 0#32)) :=
  (rd_main_v256 V).trans (congrArg (broadcastInDim S30000 ![] bcast_S_S30000 : (⟨S_, .i32⟩ : BufTy).Contents (Elt F) → (⟨S30000, .i32⟩ : BufTy).Contents (Elt F)) (t_main_c_58 V))
theorem t_main_v257 (V : Valuation τ sig (Elt F)) : (after (ops (F := F)) V (Proc.devRef .tc main_v257)) = ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) :=
  (rd_main_v257 V).trans (congrArg₂ (cmpi .slt : (⟨S30000, .i32⟩ : BufTy).Contents (Elt F) → (⟨S30000, .i32⟩ : BufTy).Contents (Elt F) → (⟨S30000, .i1⟩ : BufTy).Contents (Elt F)) (lift0_main_arg4 V) (t_main_v256 V))
theorem t_main_c_59 (V : Valuation τ sig (Elt F)) : (after (ops (F := F)) V (Proc.devRef .tc main_c_59)) = (constantI S_ 32 64#32) :=
  rd_main_c_59 V
theorem t_main_v258 (V : Valuation τ sig (Elt F)) : (after (ops (F := F)) V (Proc.devRef .tc main_v258)) = ((broadcastInDim S30000 ![] bcast_S_S30000 : (⟨S_, .i32⟩ : BufTy).Contents (Elt F) → (⟨S30000, .i32⟩ : BufTy).Contents (Elt F)) (constantI S_ 32 64#32)) :=
  (rd_main_v258 V).trans (congrArg (broadcastInDim S30000 ![] bcast_S_S30000 : (⟨S_, .i32⟩ : BufTy).Contents (Elt F) → (⟨S30000, .i32⟩ : BufTy).Contents (Elt F)) (t_main_c_59 V))
theorem t_main_v259 (V : Valuation τ sig (Elt F)) : (after (ops (F := F)) V (Proc.devRef .tc main_v259)) = ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) :=
  (rd_main_v259 V).trans (congrArg₂ (addi : (⟨S30000, .i32⟩ : BufTy).Contents (Elt F) → (⟨S30000, .i32⟩ : BufTy).Contents (Elt F) → (⟨S30000, .i32⟩ : BufTy).Contents (Elt F)) (lift0_main_arg4 V) (t_main_v258 V))
theorem t_main_v260 (V : Valuation τ sig (Elt F)) : (after (ops (F := F)) V (Proc.devRef .tc main_v260)) = ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4))) :=
  (rd_main_v260 V).trans (congr3 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) (t_main_v257 V) (t_main_v259 V) (lift0_main_arg4 V))
theorem t_main_v261 (V : Valuation τ sig (Elt F)) : (after (ops (F := F)) V (Proc.devRef .tc main_v261)) = ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))) :=
  (rd_main_v261 V).trans (congrArg (broadcastInDim S30000x1 ![0] bcast_S30000_S30000x1_0 : (⟨S30000, .i32⟩ : BufTy).Contents (Elt F) → (⟨S30000x1, .i32⟩ : BufTy).Contents (Elt F)) (t_main_v260 V))
theorem t_main_v262 (V : Valuation τ sig (Elt F)) : (after (ops (F := F)) V (Proc.devRef .tc main_v262)) = (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v210)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4))))) :=
  (rd_main_v262 V).trans (congrArg₂ ((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) rfl (t_main_v261 V))
theorem t_main_v263 (V : Valuation τ sig (Elt F)) : (after (ops (F := F)) V (Proc.devRef .tc main_v263)) = (concatenate S30000x192 1 [⟨S30000x64, (after (ops (F := F)) V (Proc.devRef .tc main_v193))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v244))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v210)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) :=
  (rd_main_v263 V).trans (congr3 (fun A0 A1 A2 => concatenate S30000x192 1 [⟨S30000x64, A0⟩, ⟨S30000x64, A1⟩, ⟨S30000x64, A2⟩] concatenates_S30000x64_S30000x64_S30000x64_S30000x192_d1) rfl (t_main_v255 V) (t_main_v262 V))
theorem t_main_v264 (V : Valuation τ sig (Elt F)) : (after (ops (F := F)) V (Proc.devRef .tc main_v264)) = (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (after (ops (F := F)) V (Proc.devRef .tc main_v193))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v244))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v210)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) (V (Proc.devRef .tc main_arg25))) :=
  (rd_main_v264 V).trans (congrArg₂ ((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (t_main_v263 V) (lift0_main_arg25 V))
theorem t_main_v265 (V : Valuation τ sig (Elt F)) : (after (ops (F := F)) V (Proc.devRef .tc main_v265)) = ((broadcastInDim S1x64 ![1] bcast_S64_S1x64_1 : (⟨S64, .f32⟩ : BufTy).Contents (Elt F) → (⟨S1x64, .f32⟩ : BufTy).Contents (Elt F)) (V (Proc.devRef .tc main_arg26))) :=
  (rd_main_v265 V).trans (congrArg (broadcastInDim S1x64 ![1] bcast_S64_S1x64_1 : (⟨S64, .f32⟩ : BufTy).Contents (Elt F) → (⟨S1x64, .f32⟩ : BufTy).Contents (Elt F)) (lift0_main_arg26 V))
theorem t_main_v266 (V : Valuation τ sig (Elt F)) : (after (ops (F := F)) V (Proc.devRef .tc main_v266)) = ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg26)))) :=
  (rd_main_v266 V).trans (congrArg (broadcastInDim S30000x64 ![0, 1] bcast_S1x64_S30000x64_0_1 : (⟨S1x64, .f32⟩ : BufTy).Contents (Elt F) → (⟨S30000x64, .f32⟩ : BufTy).Contents (Elt F)) (t_main_v265 V))
theorem t_main_v267 (V : Valuation τ sig (Elt F)) : (after (ops (F := F)) V (Proc.devRef .tc main_v267)) = ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (after (ops (F := F)) V (Proc.devRef .tc main_v193))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v244))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v210)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) (V (Proc.devRef .tc main_arg25))) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg26))))) :=
  (rd_main_v267 V).trans (congrArg₂ (addf : (⟨S30000x64, .f32⟩ : BufTy).Contents (Elt F) → (⟨S30000x64, .f32⟩ : BufTy).Contents (Elt F) → (⟨S30000x64, .f32⟩ : BufTy).Contents (Elt F)) (t_main_v264 V) (t_main_v266 V))
theorem t_main_call10_cst (V : Valuation τ sig (Elt F)) : (after (ops (F := F)) V (Proc.devRef .tc main_call10_cst)) = (constant (F := F) S_ .f32 0x00000000#32) :=
  rd_main_call10_cst V
theorem t_main_call10_v0 (V : Valuation τ sig (Elt F)) : (after (ops (F := F)) V (Proc.devRef .tc main_call10_v0)) = (((broadcastInDim S30000x64 ![] bcast_S_S30000x64) : (⟨S_, .f32⟩ : BufTy).Contents (Elt F) → (⟨S30000x64, .f32⟩ : BufTy).Contents (Elt F)) (constant (F := F) S_ .f32 0x00000000#32)) :=
  (rd_main_call10_v0 V).trans (congrArg ((broadcastInDim S30000x64 ![] bcast_S_S30000x64) : (⟨S_, .f32⟩ : BufTy).Contents (Elt F) → (⟨S30000x64, .f32⟩ : BufTy).Contents (Elt F)) (t_main_call10_cst V))
theorem ref_main_v268 (V : Valuation τ sig (Elt F)) : (after (ops (F := F)) V (Proc.devRef .tc main_v268)) = ((maximumf : (⟨S30000x64, .f32⟩ : BufTy).Contents (Elt F) → (⟨S30000x64, .f32⟩ : BufTy).Contents (Elt F) → (⟨S30000x64, .f32⟩ : BufTy).Contents (Elt F)) ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (after (ops (F := F)) V (Proc.devRef .tc main_v193))⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) (after (ops (F := F)) V (Proc.devRef .tc main_v244))) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (V (Proc.devRef .tc main_arg1))) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (after (ops (F := F)) V (Proc.devRef .tc main_v210)) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (V (Proc.devRef .tc main_arg4)) ((broadcastInDim S30000 ![] bcast_S_S30000 : (⟨S_, .i32⟩ : BufTy).Contents (Elt F) → (⟨S30000, .i32⟩ : BufTy).Contents (Elt F)) (constantI S_ 32 64#32))) (V (Proc.devRef .tc main_arg4)))))⟩] concatenates_S30000x64_S30000x64_S30000x64_S30000x192_d1) (V (Proc.devRef .tc main_arg25))) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg26))))) (((broadcastInDim S30000x64 ![] bcast_S_S30000x64) : (⟨S_, .f32⟩ : BufTy).Contents (Elt F) → (⟨S30000x64, .f32⟩ : BufTy).Contents (Elt F)) (constant (F := F) S_ .f32 0x00000000#32))) :=
  (rd_main_v268 V).trans (congrArg₂ (maximumf : (⟨S30000x64, .f32⟩ : BufTy).Contents (Elt F) → (⟨S30000x64, .f32⟩ : BufTy).Contents (Elt F) → (⟨S30000x64, .f32⟩ : BufTy).Contents (Elt F)) (t_main_v267 V) (t_main_call10_v0 V))
theorem t_main_cst_60 (V : Valuation τ sig (Elt F)) : (after (ops (F := F)) V (Proc.devRef .tc main_cst_60)) = (constant (F := F) S_ .f32 0x00000000#32) :=
  rd_main_cst_60 V
theorem t_main_v269 (V : Valuation τ sig (Elt F)) : (after (ops (F := F)) V (Proc.devRef .tc main_v269)) = ((broadcastInDim S64x64 ![] bcast_S_S64x64 : (⟨S_, .f32⟩ : BufTy).Contents (Elt F) → (⟨S64x64, .f32⟩ : BufTy).Contents (Elt F)) (constant (F := F) S_ .f32 0x00000000#32)) :=
  (rd_main_v269 V).trans (congrArg (broadcastInDim S64x64 ![] bcast_S_S64x64 : (⟨S_, .f32⟩ : BufTy).Contents (Elt F) → (⟨S64x64, .f32⟩ : BufTy).Contents (Elt F)) (t_main_cst_60 V))
theorem t_main_v270 (V : Valuation τ sig (Elt F)) : (after (ops (F := F)) V (Proc.devRef .tc main_v270)) = ((broadcastInDim S30000x1 ![0] bcast_S30000_S30000x1_0 : (⟨S30000, .i32⟩ : BufTy).Contents (Elt F) → (⟨S30000x1, .i32⟩ : BufTy).Contents (Elt F)) (V (Proc.devRef .tc main_arg4))) :=
  (rd_main_v270 V).trans (congrArg (broadcastInDim S30000x1 ![0] bcast_S30000_S30000x1_0 : (⟨S30000, .i32⟩ : BufTy).Contents (Elt F) → (⟨S30000x1, .i32⟩ : BufTy).Contents (Elt F)) (lift0_main_arg4 V))
theorem t_main_v271 (V : Valuation τ sig (Elt F)) : (after (ops (F := F)) V (Proc.devRef .tc main_v271)) = (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v268))) :=
  (rd_main_v271 V).trans (congr3 ((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) (t_main_v269 V) (t_main_v270 V) rfl)
theorem t_main_cst_62 (V : Valuation τ sig (Elt F)) : (after (ops (F := F)) V (Proc.devRef .tc main_cst_62)) = (constant (F := F) S_ .f32 0x00000000#32) :=
  rd_main_cst_62 V
theorem t_main_v273 (V : Valuation τ sig (Elt F)) : (after (ops (F := F)) V (Proc.devRef .tc main_v273)) = ((broadcastInDim S64x1 ![] bcast_S_S64x1 : (⟨S_, .f32⟩ : BufTy).Contents (Elt F) → (⟨S64x1, .f32⟩ : BufTy).Contents (Elt F)) (constant (F := F) S_ .f32 0x00000000#32)) :=
  (rd_main_v273 V).trans (congrArg (broadcastInDim S64x1 ![] bcast_S_S64x1 : (⟨S_, .f32⟩ : BufTy).Contents (Elt F) → (⟨S64x1, .f32⟩ : BufTy).Contents (Elt F)) (t_main_cst_62 V))
theorem t_main_v274 (V : Valuation τ sig (Elt F)) : (after (ops (F := F)) V (Proc.devRef .tc main_v274)) = ((broadcastInDim S30000x1 ![0] bcast_S30000_S30000x1_0 : (⟨S30000, .i32⟩ : BufTy).Contents (Elt F) → (⟨S30000x1, .i32⟩ : BufTy).Contents (Elt F)) (V (Proc.devRef .tc main_arg4))) :=
  (rd_main_v274 V).trans (congrArg (broadcastInDim S30000x1 ![0] bcast_S30000_S30000x1_0 : (⟨S30000, .i32⟩ : BufTy).Contents (Elt F) → (⟨S30000x1, .i32⟩ : BufTy).Contents (Elt F)) (lift0_main_arg4 V))
theorem t_main_cst_61 (V : Valuation τ sig (Elt F)) : (after (ops (F := F)) V (Proc.devRef .tc main_cst_61)) = (constant (F := F) S_ .f32 0x3F800000#32) :=
  rd_main_cst_61 V
theorem t_main_v272 (V : Valuation τ sig (Elt F)) : (after (ops (F := F)) V (Proc.devRef .tc main_v272)) = ((broadcastInDim S30000x1 ![] bcast_S_S30000x1 : (⟨S_, .f32⟩ : BufTy).Contents (Elt F) → (⟨S30000x1, .f32⟩ : BufTy).Contents (Elt F)) (constant (F := F) S_ .f32 0x3F800000#32)) :=
  (rd_main_v272 V).trans (congrArg (broadcastInDim S30000x1 ![] bcast_S_S30000x1 : (⟨S_, .f32⟩ : BufTy).Contents (Elt F) → (⟨S30000x1, .f32⟩ : BufTy).Contents (Elt F)) (t_main_cst_61 V))
theorem t_main_v275 (V : Valuation τ sig (Elt F)) : (after (ops (F := F)) V (Proc.devRef .tc main_v275)) = (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) :=
  (rd_main_v275 V).trans (congr3 ((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) (t_main_v273 V) (t_main_v274 V) (t_main_v272 V))
theorem t_main_cst_63 (V : Valuation τ sig (Elt F)) : (after (ops (F := F)) V (Proc.devRef .tc main_cst_63)) = (constant (F := F) S_ .f32 0x3F800000#32) :=
  rd_main_cst_63 V
theorem t_main_v276 (V : Valuation τ sig (Elt F)) : (after (ops (F := F)) V (Proc.devRef .tc main_v276)) = ((broadcastInDim S64x1 ![] bcast_S_S64x1 : (⟨S_, .f32⟩ : BufTy).Contents (Elt F) → (⟨S64x1, .f32⟩ : BufTy).Contents (Elt F)) (constant (F := F) S_ .f32 0x3F800000#32)) :=
  (rd_main_v276 V).trans (congrArg (broadcastInDim S64x1 ![] bcast_S_S64x1 : (⟨S_, .f32⟩ : BufTy).Contents (Elt F) → (⟨S64x1, .f32⟩ : BufTy).Contents (Elt F)) (t_main_cst_63 V))
theorem t_main_v277 (V : Valuation τ sig (Elt F)) : (after (ops (F := F)) V (Proc.devRef .tc main_v277)) = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))) :=
  (rd_main_v277 V).trans (congrArg₂ (maximumf : (⟨S64x1, .f32⟩ : BufTy).Contents (Elt F) → (⟨S64x1, .f32⟩ : BufTy).Contents (Elt F) → (⟨S64x1, .f32⟩ : BufTy).Contents (Elt F)) (t_main_v275 V) (t_main_v276 V))
theorem t_main_v278 (V : Valuation τ sig (Elt F)) : (after (ops (F := F)) V (Proc.devRef .tc main_v278)) = ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))) :=
  (rd_main_v278 V).trans (congrArg (broadcastInDim S64x64 ![0, 1] bcast_S64x1_S64x64_0_1 : (⟨S64x1, .f32⟩ : BufTy).Contents (Elt F) → (⟨S64x64, .f32⟩ : BufTy).Contents (Elt F)) (t_main_v277 V))
theorem t_main_v279 (V : Valuation τ sig (Elt F)) : (after (ops (F := F)) V (Proc.devRef .tc main_v279)) = ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v268))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) :=
  (rd_main_v279 V).trans (congrArg₂ (Host.divf : (⟨S64x64, .f32⟩ : BufTy).Contents (Elt F) → (⟨S64x64, .f32⟩ : BufTy).Contents (Elt F) → (⟨S64x64, .f32⟩ : BufTy).Contents (Elt F)) (t_main_v271 V) (t_main_v278 V))
theorem t_main_v280 (V : Valuation τ sig (Elt F)) : (after (ops (F := F)) V (Proc.devRef .tc main_v280)) = (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v268))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v210))) :=
  (rd_main_v280 V).trans (congrArg₂ ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) (t_main_v279 V) rfl)
theorem t_main_v281 (V : Valuation τ sig (Elt F)) : (after (ops (F := F)) V (Proc.devRef .tc main_v281)) = (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v268))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v210))) (V (Proc.devRef .tc main_arg27))) :=
  (rd_main_v281 V).trans (congrArg₂ ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (t_main_v280 V) (lift0_main_arg27 V))
theorem t_main_v282 (V : Valuation τ sig (Elt F)) : (after (ops (F := F)) V (Proc.devRef .tc main_v282)) = ((broadcastInDim S1x64 ![1] bcast_S64_S1x64_1 : (⟨S64, .f32⟩ : BufTy).Contents (Elt F) → (⟨S1x64, .f32⟩ : BufTy).Contents (Elt F)) (V (Proc.devRef .tc main_arg28))) :=
  (rd_main_v282 V).trans (congrArg (broadcastInDim S1x64 ![1] bcast_S64_S1x64_1 : (⟨S64, .f32⟩ : BufTy).Contents (Elt F) → (⟨S1x64, .f32⟩ : BufTy).Contents (Elt F)) (lift0_main_arg28 V))
theorem t_main_v283 (V : Valuation τ sig (Elt F)) : (after (ops (F := F)) V (Proc.devRef .tc main_v283)) = ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg28)))) :=
  (rd_main_v283 V).trans (congrArg (broadcastInDim S64x64 ![0, 1] bcast_S1x64_S64x64_0_1 : (⟨S1x64, .f32⟩ : BufTy).Contents (Elt F) → (⟨S64x64, .f32⟩ : BufTy).Contents (Elt F)) (t_main_v282 V))
theorem t_main_v284 (V : Valuation τ sig (Elt F)) : (after (ops (F := F)) V (Proc.devRef .tc main_v284)) = ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v268))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v210))) (V (Proc.devRef .tc main_arg27))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg28))))) :=
  (rd_main_v284 V).trans (congrArg₂ (addf : (⟨S64x64, .f32⟩ : BufTy).Contents (Elt F) → (⟨S64x64, .f32⟩ : BufTy).Contents (Elt F) → (⟨S64x64, .f32⟩ : BufTy).Contents (Elt F)) (t_main_v281 V) (t_main_v283 V))
theorem t_main_call11_cst (V : Valuation τ sig (Elt F)) : (after (ops (F := F)) V (Proc.devRef .tc main_call11_cst)) = (constant (F := F) S_ .f32 0x00000000#32) :=
  rd_main_call11_cst V
theorem t_main_call11_v0 (V : Valuation τ sig (Elt F)) : (after (ops (F := F)) V (Proc.devRef .tc main_call11_v0)) = (((broadcastInDim S64x64 ![] bcast_S_S64x64) : (⟨S_, .f32⟩ : BufTy).Contents (Elt F) → (⟨S64x64, .f32⟩ : BufTy).Contents (Elt F)) (constant (F := F) S_ .f32 0x00000000#32)) :=
  (rd_main_call11_v0 V).trans (congrArg ((broadcastInDim S64x64 ![] bcast_S_S64x64) : (⟨S_, .f32⟩ : BufTy).Contents (Elt F) → (⟨S64x64, .f32⟩ : BufTy).Contents (Elt F)) (t_main_call11_cst V))
theorem ref_main_v285 (V : Valuation τ sig (Elt F)) : (after (ops (F := F)) V (Proc.devRef .tc main_v285)) = ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) (after (ops (F := F)) V (Proc.devRef .tc main_v268))) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (V (Proc.devRef .tc main_arg4))) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (after (ops (F := F)) V (Proc.devRef .tc main_v210))) (V (Proc.devRef .tc main_arg27))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (V (Proc.devRef .tc main_arg28))))) (((broadcastInDim S64x64 ![] bcast_S_S64x64) : (⟨S_, .f32⟩ : BufTy).Contents (Elt F) → (⟨S64x64, .f32⟩ : BufTy).Contents (Elt F)) (constant (F := F) S_ .f32 0x00000000#32))) :=
  (rd_main_v285 V).trans (congrArg₂ (maximumf : (⟨S64x64, .f32⟩ : BufTy).Contents (Elt F) → (⟨S64x64, .f32⟩ : BufTy).Contents (Elt F) → (⟨S64x64, .f32⟩ : BufTy).Contents (Elt F)) (t_main_v284 V) (t_main_call11_v0 V))

end Cert.ReferenceIdeal.Hand

end
-- ==== Proof.Bridge.L12.lean ====
import proofs.«123839_j71768903516633_2_alg».proof.Proof.Bridge.Names
import proofs.«123839_j71768903516633_2_alg».proof.Proof.Bridge.Glue12
import proofs.«123839_j71768903516633_2_alg».proof.Proof.KI.Anchor
import proofs.«123839_j71768903516633_2_alg».proof.Proof.Ref.StageL2

/-! Layer 12: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide12 (c : Dev Cert.KernelIdeal.nD) : rL12 m' c = refT12 (F := Ideal) (rL10 m' c) (rL9 m' c) (rL11 m' c) (rArg1 m' c) (rArg4 m' c) (rArg23 m' c) (rArg24 m' c) :=
  Cert.ReferenceIdeal.Hand.ref_main_v244 (F := Ideal) (launchContents m' c)

set_option maxHeartbeats 1000000 in
/-- The kernel program's anchor is the layer over its inputs, each the kernel side's term over the kernel's leaves. -/
theorem kerSide12 (c : Dev Cert.KernelIdeal.nD) :
    kL12 m c = layer4 (kT12_0 (F := Ideal) (kL10 m c) (kL9 m c) (kL11 m c) (kArg1 m c) (kArg4 m c) (kArg23 m c) (kArg24 m c)) (kT12_1 (F := Ideal) (kL10 m c) (kL9 m c) (kL11 m c) (kArg1 m c) (kArg4 m c) (kArg23 m c) (kArg24 m c)) (kT12_2 (F := Ideal) (kL10 m c) (kL9 m c) (kL11 m c) (kArg1 m c) (kArg4 m c) (kArg23 m c) (kArg24 m c)) (kT12_3 (F := Ideal) (kL10 m c) (kL9 m c) (kL11 m c) (kArg1 m c) (kArg4 m c) (kArg23 m c) (kArg24 m c)) (kT12_4 (F := Ideal) (kL10 m c) (kL9 m c) (kL11 m c) (kArg1 m c) (kArg4 m c) (kArg23 m c) (kArg24 m c)) (kT12_5 (F := Ideal) (kL10 m c) (kL9 m c) (kL11 m c) (kArg1 m c) (kArg4 m c) (kArg23 m c) (kArg24 m c)) (kT12_6 (F := Ideal) (kL10 m c) (kL9 m c) (kL11 m c) (kArg1 m c) (kArg4 m c) (kArg23 m c) (kArg24 m c)) (kT12_7 (F := Ideal) (kL10 m c) (kL9 m c) (kL11 m c) (kArg1 m c) (kArg4 m c) (kArg23 m c) (kArg24 m c)) (kT12_8 (F := Ideal) (kL10 m c) (kL9 m c) (kL11 m c) (kArg1 m c) (kArg4 m c) (kArg23 m c) (kArg24 m c)) := by
  have i0 : Cert.KernelIdeal.Hand.U23 m c Cert.KernelIdeal.main_v190 = kT12_0 (F := Ideal) (kL10 m c) (kL9 m c) (kL11 m c) (kArg1 m c) (kArg4 m c) (kArg23 m c) (kArg24 m c) := Cert.KernelIdeal.Hand.in12_0 (F := Ideal) m c
  have i1 : Cert.KernelIdeal.Hand.U23 m c Cert.KernelIdeal.main_v197 = kT12_1 (F := Ideal) (kL10 m c) (kL9 m c) (kL11 m c) (kArg1 m c) (kArg4 m c) (kArg23 m c) (kArg24 m c) := Cert.KernelIdeal.Hand.in12_1 (F := Ideal) m c
  have i2 : Cert.KernelIdeal.Hand.U23 m c Cert.KernelIdeal.main_v145 = kT12_2 (F := Ideal) (kL10 m c) (kL9 m c) (kL11 m c) (kArg1 m c) (kArg4 m c) (kArg23 m c) (kArg24 m c) := Cert.KernelIdeal.Hand.in12_2 (F := Ideal) m c
  have i3 : Cert.KernelIdeal.Hand.U23 m c Cert.KernelIdeal.main_v211 = kT12_3 (F := Ideal) (kL10 m c) (kL9 m c) (kL11 m c) (kArg1 m c) (kArg4 m c) (kArg23 m c) (kArg24 m c) := Cert.KernelIdeal.Hand.in12_3 (F := Ideal) m c
  have i4 : Cert.KernelIdeal.Hand.U23 m c Cert.KernelIdeal.main_v212 = kT12_4 (F := Ideal) (kL10 m c) (kL9 m c) (kL11 m c) (kArg1 m c) (kArg4 m c) (kArg23 m c) (kArg24 m c) := Cert.KernelIdeal.Hand.in12_4 (F := Ideal) m c
  have i5 : Cert.KernelIdeal.Hand.U23 m c Cert.KernelIdeal.main_v213 = kT12_5 (F := Ideal) (kL10 m c) (kL9 m c) (kL11 m c) (kArg1 m c) (kArg4 m c) (kArg23 m c) (kArg24 m c) := Cert.KernelIdeal.Hand.in12_5 (F := Ideal) m c
  have i6 : Cert.KernelIdeal.Hand.U23 m c Cert.KernelIdeal.main_v214 = kT12_6 (F := Ideal) (kL10 m c) (kL9 m c) (kL11 m c) (kArg1 m c) (kArg4 m c) (kArg23 m c) (kArg24 m c) := Cert.KernelIdeal.Hand.in12_6 (F := Ideal) m c
  have i7 : Cert.KernelIdeal.Hand.U23 m c Cert.KernelIdeal.main_v215 = kT12_7 (F := Ideal) (kL10 m c) (kL9 m c) (kL11 m c) (kArg1 m c) (kArg4 m c) (kArg23 m c) (kArg24 m c) := Cert.KernelIdeal.Hand.in12_7 (F := Ideal) m c
  have i8 : Cert.KernelIdeal.Hand.U23 m c Cert.KernelIdeal.main_v216 = kT12_8 (F := Ideal) (kL10 m c) (kL9 m c) (kL11 m c) (kArg1 m c) (kArg4 m c) (kArg23 m c) (kArg24 m c) := Cert.KernelIdeal.Hand.in12_8 (F := Ideal) m c
  refine (Cert.KernelIdeal.Hand.anchor12 m c).trans ?_
  rw [i0, i1, i2, i3, i4, i5, i6, i7, i8]

set_option maxHeartbeats 1000000 in
/-- Layer 12's anchors agree. -/
theorem eq_12 (c : Dev Cert.KernelIdeal.nD)
    (hL10 : rL10 m' c = kL10 m c)
    (hL9 : rL9 m' c = kL9 m c)
    (hL11 : rL11 m' c = kL11 m c)
    (ha1 : rArg1 m' c = kArg1 m c)
    (ha4 : rArg4 m' c = kArg4 m c)
    (ha23 : rArg23 m' c = kArg23 m c)
    (ha24 : rArg24 m' c = kArg24 m c) :
    rL12 m' c = kL12 m c := by
  rw [refSide12 m' c, hL10, hL9, hL11, ha1, ha4, ha23, ha24, kerSide12 m c]
  exact glue12 (kL10 m c) (kL9 m c) (kL11 m c) (kArg1 m c) (kArg4 m c) (kArg23 m c) (kArg24 m c)

end Cert.Proof.Bridge

end
-- ==== Proof.Bridge.Glue13.lean ====
import proofs.«123839_j71768903516633_2_alg».proof.Proof.Math.MlpRef

/-! Layer 13 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT13 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  ((maximumf : (⟨S30000x64, .f32⟩ : BufTy).Contents (Elt F) → (⟨S30000x64, .f32⟩ : BufTy).Contents (Elt F) → (⟨S30000x64, .f32⟩ : BufTy).Contents (Elt F)) ((addf : (⟨S30000x64, .f32⟩ : BufTy).Contents (Elt F) → (⟨S30000x64, .f32⟩ : BufTy).Contents (Elt F) → (⟨S30000x64, .f32⟩ : BufTy).Contents (Elt F)) (((fun l r => Host.dotGeneral dot_S30000x192_S192x64_S30000x64_1_0_0_1_n_n none l r) : (⟨S30000x192, .f32⟩ : BufTy).Contents (Elt F) → (⟨S192x64, .f32⟩ : BufTy).Contents (Elt F) → (⟨S30000x64, .f32⟩ : BufTy).Contents (Elt F)) (concatenate S30000x192 1 [⟨S30000x64, (vL10)⟩, ⟨S30000x64, ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) (vL12)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))⟩, ⟨S30000x64, (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (vL11) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (a4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (a4) ((broadcastInDim S30000 ![] bcast_S_S30000 : (⟨S_, .i32⟩ : BufTy).Contents (Elt F) → (⟨S30000, .i32⟩ : BufTy).Contents (Elt F)) (constantI S_ 32 64#32))) (a4))))⟩] concatenates_S30000x64_S30000x64_S30000x64_S30000x192_d1) (a25)) ((broadcastInDim S30000x64 ![0, 1] bcast_S1x64_S30000x64_0_1 : (⟨S1x64, .f32⟩ : BufTy).Contents (Elt F) → (⟨S30000x64, .f32⟩ : BufTy).Contents (Elt F)) ((broadcastInDim S1x64 ![1] bcast_S64_S1x64_1 : (⟨S64, .f32⟩ : BufTy).Contents (Elt F) → (⟨S1x64, .f32⟩ : BufTy).Contents (Elt F)) (a26)))) (((broadcastInDim S30000x64 ![] bcast_S_S30000x64) : (⟨S_, .f32⟩ : BufTy).Contents (Elt F) → (⟨S30000x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT13_0 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  (vL10)
/-- The kernel side's input 1 of the layer, over the leaves. -/
def kT13_1 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  ((Host.divf : (⟨S30000x64, .f32⟩ : BufTy).Contents (Elt F) → (⟨S30000x64, .f32⟩ : BufTy).Contents (Elt F) → (⟨S30000x64, .f32⟩ : BufTy).Contents (Elt F)) (((fun x i u => Host.scatterAdd scatter_S30000x64_S300000x1_S300000x64_1_0_0_1 x i u) : (⟨S30000x64, .f32⟩ : BufTy).Contents (Elt F) → (⟨S300000x1, .i32⟩ : BufTy).Contents (Elt F) → (⟨S300000x64, .f32⟩ : BufTy).Contents (Elt F) → (⟨S30000x64, .f32⟩ : BufTy).Contents (Elt F)) ((broadcastInDim S30000x64 ![] bcast_S_S30000x64 : (⟨S_, .f32⟩ : BufTy).Contents (Elt F) → (⟨S30000x64, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) (vL12)) ((broadcastInDim S30000x64 ![0, 1] bcast_S30000x1_S30000x64_0_1 : (⟨S30000x1, .f32⟩ : BufTy).Contents (Elt F) → (⟨S30000x64, .f32⟩ : BufTy).Contents (Elt F)) ((maximumf : (⟨S30000x1, .f32⟩ : BufTy).Contents (Elt F) → (⟨S30000x1, .f32⟩ : BufTy).Contents (Elt F) → (⟨S30000x1, .f32⟩ : BufTy).Contents (Elt F)) (((fun x i u => Host.scatterAdd scatter_S30000x1_S300000x1_S300000x1_1_0_0_1 x i u) : (⟨S30000x1, .f32⟩ : BufTy).Contents (Elt F) → (⟨S300000x1, .i32⟩ : BufTy).Contents (Elt F) → (⟨S300000x1, .f32⟩ : BufTy).Contents (Elt F) → (⟨S30000x1, .f32⟩ : BufTy).Contents (Elt F)) ((broadcastInDim S30000x1 ![] bcast_S_S30000x1 : (⟨S_, .f32⟩ : BufTy).Contents (Elt F) → (⟨S30000x1, .f32⟩ : BufTy).Contents (Elt F)) (constant (F := F) S_ .f32 0x00000000#32)) ((broadcastInDim S300000x1 ![0] bcast_S300000_S300000x1_0 : (⟨S300000, .i32⟩ : BufTy).Contents (Elt F) → (⟨S300000x1, .i32⟩ : BufTy).Contents (Elt F)) (shapeCast S300000 (((extractStridedSlice S1x300000 ![1, 0] · slices_S2x300000_S1x300000_1_0) : (⟨S2x300000, .i32⟩ : BufTy).Contents (Elt F) → (⟨S1x300000, .i32⟩ : BufTy).Contents (Elt F)) (a1)) shapeCasts_S1x300000_S300000)) ((broadcastInDim S300000x1 ![] bcast_S_S300000x1 : (⟨S_, .f32⟩ : BufTy).Contents (Elt F) → (⟨S300000x1, .f32⟩ : BufTy).Contents (Elt F)) (constant (F := F) S_ .f32 0x3F800000#32))) ((broadcastInDim S30000x1 ![] bcast_S_S30000x1 : (⟨S_, .f32⟩ : BufTy).Contents (Elt F) → (⟨S30000x1, .f32⟩ : BufTy).Contents (Elt F)) (constant (F := F) S_ .f32 0x3F800000#32)))))
/-- The kernel side's input 2 of the layer, over the leaves. -/
def kT13_2 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  (((fun x i => Host.gather gather_S64x64_S30000x1_S30000x64_1_0_n_n_0_1_164 x i) : (⟨S64x64, .f32⟩ : BufTy).Contents (Elt F) → (⟨S30000x1, .i32⟩ : BufTy).Contents (Elt F) → (⟨S30000x64, .f32⟩ : BufTy).Contents (Elt F)) (vL11) ((broadcastInDim S30000x1 ![0] bcast_S30000_S30000x1_0 : (⟨S30000, .i32⟩ : BufTy).Contents (Elt F) → (⟨S30000x1, .i32⟩ : BufTy).Contents (Elt F)) ((select : (⟨S30000, .i1⟩ : BufTy).Contents (Elt F) → (⟨S30000, .i32⟩ : BufTy).Contents (Elt F) → (⟨S30000, .i32⟩ : BufTy).Contents (Elt F) → (⟨S30000, .i32⟩ : BufTy).Contents (Elt F)) ((cmpi .slt : (⟨S30000, .i32⟩ : BufTy).Contents (Elt F) → (⟨S30000, .i32⟩ : BufTy).Contents (Elt F) → (⟨S30000, .i1⟩ : BufTy).Contents (Elt F)) (a4) ((broadcastInDim S30000 ![] bcast_S_S30000 : (⟨S_, .i32⟩ : BufTy).Contents (Elt F) → (⟨S30000, .i32⟩ : BufTy).Contents (Elt F)) (constantI S_ 32 0#32))) ((addi : (⟨S30000, .i32⟩ : BufTy).Contents (Elt F) → (⟨S30000, .i32⟩ : BufTy).Contents (Elt F) → (⟨S30000, .i32⟩ : BufTy).Contents (Elt F)) (a4) ((broadcastInDim S30000 ![] bcast_S_S30000 : (⟨S_, .i32⟩ : BufTy).Contents (Elt F) → (⟨S30000, .i32⟩ : BufTy).Contents (Elt F)) (constantI S_ 32 64#32))) (a4))))
/-- The kernel side's input 3 of the layer, over the leaves. -/
def kT13_3 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  (((extractStridedSlice S64x64 ![0, 0] · slices_S192x64_S64x64_0_0) : (⟨S192x64, .f32⟩ : BufTy).Contents (Elt F) → (⟨S64x64, .f32⟩ : BufTy).Contents (Elt F)) (a25))
/-- The kernel side's input 4 of the layer, over the leaves. -/
def kT13_4 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  (((extractStridedSlice S64x64 ![64, 0] · slices_S192x64_S64x64_64_0) : (⟨S192x64, .f32⟩ : BufTy).Contents (Elt F) → (⟨S64x64, .f32⟩ : BufTy).Contents (Elt F)) (a25))
/-- The kernel side's input 5 of the layer, over the leaves. -/
def kT13_5 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  (((extractStridedSlice S64x64 ![128, 0] · slices_S192x64_S64x64_128_0) : (⟨S192x64, .f32⟩ : BufTy).Contents (Elt F) → (⟨S64x64, .f32⟩ : BufTy).Contents (Elt F)) (a25))
/-- The kernel side's input 6 of the layer, over the leaves. -/
def kT13_6 (vL10 : (⟨S30000x64, .f32⟩ : BufTy).Contents (Elt F)) (vL12 : (⟨S300000x64, .f32⟩ : BufTy).Contents (Elt F)) (vL11 : (⟨S64x64, .f32⟩ : BufTy).Contents (Elt F)) (a1 : (⟨S2x300000, .i32⟩ : BufTy).Contents (Elt F)) (a4 : (⟨S30000, .i32⟩ : BufTy).Contents (Elt F)) (a25 : (⟨S192x64, .f32⟩ : BufTy).Contents (Elt F)) (a26 : (⟨S64, .f32⟩ : BufTy).Contents (Elt F)) :=
  (shapeCast S1x64 (a26) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue13 (vL10 : (⟨Cert.KernelIdeal.S30000x64, .f32⟩ : BufTy).Contents (Elt Ideal)) (vL12 : (⟨Cert.KernelIdeal.S300000x64, .f32⟩ : BufTy).Contents (Elt Ideal)) (vL11 : (⟨Cert.KernelIdeal.S64x64, .f32⟩ : BufTy).Contents (Elt Ideal)) (a1 : (⟨Cert.KernelIdeal.S2x300000, .i32⟩ : BufTy).Contents (Elt Ideal)) (a4 : (⟨Cert.KernelIdeal.S30000, .i32⟩ : BufTy).Contents (Elt Ideal)) (a25 : (⟨Cert.KernelIdeal.S192x64, .f32⟩ : BufTy).Contents (Elt Ideal)) (a26 : (⟨Cert.KernelIdeal.S64, .f32⟩ : BufTy).Contents (Elt Ideal)) :
    refT13 (F := Ideal) vL10 vL12 vL11 a1 a4 a25 a26
      = layer3 (kT13_0 (F := Ideal) vL10 vL12 vL11 a1 a4 a25 a26) (kT13_1 (F := Ideal) vL10 vL12 vL11 a1 a4 a25 a26) (kT13_2 (F := Ideal) vL10 vL12 vL11 a1 a4 a25 a26) (kT13_3 (F := Ideal) vL10 vL12 vL11 a1 a4 a25 a26) (kT13_4 (F := Ideal) vL10 vL12 vL11 a1 a4 a25 a26) (kT13_5 (F := Ideal) vL10 vL12 vL11 a1 a4 a25 a26) (kT13_6 (F := Ideal) vL10 vL12 vL11 a1 a4 a25 a26) := by
  unfold refT13
  refine (Cert.ReferenceIdeal.Mlp.ref_node1 _ _ _ _ _).trans ?_
  rfl

end Cert.Proof.Bridge

end
-- ==== Proof.Bridge.L13.lean ====
import proofs.«123839_j71768903516633_2_alg».proof.Proof.Bridge.Names
import proofs.«123839_j71768903516633_2_alg».proof.Proof.Bridge.Glue13
import proofs.«123839_j71768903516633_2_alg».proof.Proof.KI.Anchor
import proofs.«123839_j71768903516633_2_alg».proof.Proof.Ref.StageL2

/-! Layer 13: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide13 (c : Dev Cert.KernelIdeal.nD) : rL13 m' c = refT13 (F := Ideal) (rL10 m' c) (rL12 m' c) (rL11 m' c) (rArg1 m' c) (rArg4 m' c) (rArg25 m' c) (rArg26 m' c) :=
  Cert.ReferenceIdeal.Hand.ref_main_v268 (F := Ideal) (launchContents m' c)

set_option maxHeartbeats 1000000 in
/-- The kernel program's anchor is the layer over its inputs, each the kernel side's term over the kernel's leaves. -/
theorem kerSide13 (c : Dev Cert.KernelIdeal.nD) :
    kL13 m c = layer3 (kT13_0 (F := Ideal) (kL10 m c) (kL12 m c) (kL11 m c) (kArg1 m c) (kArg4 m c) (kArg25 m c) (kArg26 m c)) (kT13_1 (F := Ideal) (kL10 m c) (kL12 m c) (kL11 m c) (kArg1 m c) (kArg4 m c) (kArg25 m c) (kArg26 m c)) (kT13_2 (F := Ideal) (kL10 m c) (kL12 m c) (kL11 m c) (kArg1 m c) (kArg4 m c) (kArg25 m c) (kArg26 m c)) (kT13_3 (F := Ideal) (kL10 m c) (kL12 m c) (kL11 m c) (kArg1 m c) (kArg4 m c) (kArg25 m c) (kArg26 m c)) (kT13_4 (F := Ideal) (kL10 m c) (kL12 m c) (kL11 m c) (kArg1 m c) (kArg4 m c) (kArg25 m c) (kArg26 m c)) (kT13_5 (F := Ideal) (kL10 m c) (kL12 m c) (kL11 m c) (kArg1 m c) (kArg4 m c) (kArg25 m c) (kArg26 m c)) (kT13_6 (F := Ideal) (kL10 m c) (kL12 m c) (kL11 m c) (kArg1 m c) (kArg4 m c) (kArg25 m c) (kArg26 m c)) := by
  have i0 : Cert.KernelIdeal.Hand.U25 m c Cert.KernelIdeal.main_v168 = kT13_0 (F := Ideal) (kL10 m c) (kL12 m c) (kL11 m c) (kArg1 m c) (kArg4 m c) (kArg25 m c) (kArg26 m c) := Cert.KernelIdeal.Hand.in13_0 (F := Ideal) m c
  have i1 : Cert.KernelIdeal.Hand.U25 m c Cert.KernelIdeal.main_v228 = kT13_1 (F := Ideal) (kL10 m c) (kL12 m c) (kL11 m c) (kArg1 m c) (kArg4 m c) (kArg25 m c) (kArg26 m c) := Cert.KernelIdeal.Hand.in13_1 (F := Ideal) m c
  have i2 : Cert.KernelIdeal.Hand.U25 m c Cert.KernelIdeal.main_v235 = kT13_2 (F := Ideal) (kL10 m c) (kL12 m c) (kL11 m c) (kArg1 m c) (kArg4 m c) (kArg25 m c) (kArg26 m c) := Cert.KernelIdeal.Hand.in13_2 (F := Ideal) m c
  have i3 : Cert.KernelIdeal.Hand.U25 m c Cert.KernelIdeal.main_v236 = kT13_3 (F := Ideal) (kL10 m c) (kL12 m c) (kL11 m c) (kArg1 m c) (kArg4 m c) (kArg25 m c) (kArg26 m c) := Cert.KernelIdeal.Hand.in13_3 (F := Ideal) m c
  have i4 : Cert.KernelIdeal.Hand.U25 m c Cert.KernelIdeal.main_v237 = kT13_4 (F := Ideal) (kL10 m c) (kL12 m c) (kL11 m c) (kArg1 m c) (kArg4 m c) (kArg25 m c) (kArg26 m c) := Cert.KernelIdeal.Hand.in13_4 (F := Ideal) m c
  have i5 : Cert.KernelIdeal.Hand.U25 m c Cert.KernelIdeal.main_v238 = kT13_5 (F := Ideal) (kL10 m c) (kL12 m c) (kL11 m c) (kArg1 m c) (kArg4 m c) (kArg25 m c) (kArg26 m c) := Cert.KernelIdeal.Hand.in13_5 (F := Ideal) m c
  have i6 : Cert.KernelIdeal.Hand.U25 m c Cert.KernelIdeal.main_v239 = kT13_6 (F := Ideal) (kL10 m c) (kL12 m c) (kL11 m c) (kArg1 m c) (kArg4 m c) (kArg25 m c) (kArg26 m c) := Cert.KernelIdeal.Hand.in13_6 (F := Ideal) m c
  refine (Cert.KernelIdeal.Hand.anchor13 m c).trans ?_
  rw [i0, i1, i2, i3, i4, i5, i6]

set_option maxHeartbeats 1000000 in
/-- Layer 13's anchors agree. -/
theorem eq_13 (c : Dev Cert.KernelIdeal.nD)
    (hL10 : rL10 m' c = kL10 m c)
    (hL12 : rL12 m' c = kL12 m c)
    (hL11 : rL11 m' c = kL11 m c)
    (ha1 : rArg1 m' c = kArg1 m c)
    (ha4 : rArg4 m' c = kArg4 m c)
    (ha25 : rArg25 m' c = kArg25 m c)
    (ha26 : rArg26 m' c = kArg26 m c) :
    rL13 m' c = kL13 m c := by
  rw [refSide13 m' c, hL10, hL12, hL11, ha1, ha4, ha25, ha26, kerSide13 m c]
  exact glue13 (kL10 m c) (kL12 m c) (kL11 m c) (kArg1 m c) (kArg4 m c) (kArg25 m c) (kArg26 m c)

end Cert.Proof.Bridge

end
-- ==== Proof.Bridge.Glue14.lean ====
import proofs.«123839_j71768903516633_2_alg».proof.Proof.Math.MlpRef

/-! Layer 14 as two closed terms over the same leaves: the reference's term (one product with the joined inputs) and the
    kernel side's inputs (the same gathers, segment sums and slices), and their agreement through the layer law. The
    leaves are the layer's earlier anchors and arguments, as variables. -/

set_option maxRecDepth 100000

noncomputable section

open Idealize.ShloMosaic Idealize.ShloMosaic.TcCoe

namespace Cert.Proof.Bridge

variable {F : FTy → Type} [FloatOps F]

section R
open Cert.ReferenceIdeal Cert.ReferenceIdeal.Facts₀ Cert.ReferenceIdeal.Facts
variable [Cert.ReferenceIdeal.Facts]
/-- The reference's term for the layer's output, over the leaves. -/
def refT14 (vL13 : (⟨S30000x64, .f32⟩ : BufTy).Contents (Elt F)) (vL11 : (⟨S64x64, .f32⟩ : BufTy).Contents (Elt F)) (a4 : (⟨S30000, .i32⟩ : BufTy).Contents (Elt F)) (a27 : (⟨S128x64, .f32⟩ : BufTy).Contents (Elt F)) (a28 : (⟨S64, .f32⟩ : BufTy).Contents (Elt F)) :=
  ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)) ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) (vL13)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32))))) (vL11)) (a27)) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (a28)))) (((broadcastInDim S64x64 ![] bcast_S_S64x64) : (⟨S_, .f32⟩ : BufTy).Contents (Elt F) → (⟨S64x64, .f32⟩ : BufTy).Contents (Elt F)) (constant (F := F) S_ .f32 0x00000000#32)))
end R

section K
open Cert.KernelIdeal Cert.KernelIdeal.Facts₀ Cert.KernelIdeal.Facts
variable [Cert.KernelIdeal.Facts]
/-- The kernel side's input 0 of the layer, over the leaves. -/
def kT14_0 (vL13 : (⟨S30000x64, .f32⟩ : BufTy).Contents (Elt F)) (vL11 : (⟨S64x64, .f32⟩ : BufTy).Contents (Elt F)) (a4 : (⟨S30000, .i32⟩ : BufTy).Contents (Elt F)) (a27 : (⟨S128x64, .f32⟩ : BufTy).Contents (Elt F)) (a28 : (⟨S64, .f32⟩ : BufTy).Contents (Elt F)) :=
  ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S30000x1_S30000x64_1_0_0_1 x i u) : (⟨S64x64, .f32⟩ : BufTy).Contents (Elt F) → (⟨S30000x1, .i32⟩ : BufTy).Contents (Elt F) → (⟨S30000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) (vL13)) ((broadcastInDim S64x64 ![0, 1] bcast_S64x1_S64x64_0_1 : (⟨S64x1, .f32⟩ : BufTy).Contents (Elt F) → (⟨S64x64, .f32⟩ : BufTy).Contents (Elt F)) ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S30000x1_S30000x1_1_0_0_1 x i u) : (⟨S64x1, .f32⟩ : BufTy).Contents (Elt F) → (⟨S30000x1, .i32⟩ : BufTy).Contents (Elt F) → (⟨S30000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant (F := F) S_ .f32 0x00000000#32)) ((broadcastInDim S30000x1 ![0] bcast_S30000_S30000x1_0 : (⟨S30000, .i32⟩ : BufTy).Contents (Elt F) → (⟨S30000x1, .i32⟩ : BufTy).Contents (Elt F)) (a4)) ((broadcastInDim S30000x1 ![] bcast_S_S30000x1 : (⟨S_, .f32⟩ : BufTy).Contents (Elt F) → (⟨S30000x1, .f32⟩ : BufTy).Contents (Elt F)) (constant (F := F) S_ .f32 0x3F800000#32))) ((broadcastInDim S64x1 ![] bcast_S_S64x1 : (⟨S_, .f32⟩ : BufTy).Contents (Elt F) → (⟨S64x1, .f32⟩ : BufTy).Contents (Elt F)) (constant (F := F) S_ .f32 0x3F800000#32)))))
/-- The kernel side's input 1 of the layer, over the leaves. -/
def kT14_1 (vL13 : (⟨S30000x64, .f32⟩ : BufTy).Contents (Elt F)) (vL11 : (⟨S64x64, .f32⟩ : BufTy).Contents (Elt F)) (a4 : (⟨S30000, .i32⟩ : BufTy).Contents (Elt F)) (a27 : (⟨S128x64, .f32⟩ : BufTy).Contents (Elt F)) (a28 : (⟨S64, .f32⟩ : BufTy).Contents (Elt F)) :=
  (vL11)
/-- The kernel side's input 2 of the layer, over the leaves. -/
def kT14_2 (vL13 : (⟨S30000x64, .f32⟩ : BufTy).Contents (Elt F)) (vL11 : (⟨S64x64, .f32⟩ : BufTy).Contents (Elt F)) (a4 : (⟨S30000, .i32⟩ : BufTy).Contents (Elt F)) (a27 : (⟨S128x64, .f32⟩ : BufTy).Contents (Elt F)) (a28 : (⟨S64, .f32⟩ : BufTy).Contents (Elt F)) :=
  (((extractStridedSlice S64x64 ![0, 0] · slices_S128x64_S64x64_0_0) : (⟨S128x64, .f32⟩ : BufTy).Contents (Elt F) → (⟨S64x64, .f32⟩ : BufTy).Contents (Elt F)) (a27))
/-- The kernel side's input 3 of the layer, over the leaves. -/
def kT14_3 (vL13 : (⟨S30000x64, .f32⟩ : BufTy).Contents (Elt F)) (vL11 : (⟨S64x64, .f32⟩ : BufTy).Contents (Elt F)) (a4 : (⟨S30000, .i32⟩ : BufTy).Contents (Elt F)) (a27 : (⟨S128x64, .f32⟩ : BufTy).Contents (Elt F)) (a28 : (⟨S64, .f32⟩ : BufTy).Contents (Elt F)) :=
  (((extractStridedSlice S64x64 ![64, 0] · slices_S128x64_S64x64_64_0) : (⟨S128x64, .f32⟩ : BufTy).Contents (Elt F) → (⟨S64x64, .f32⟩ : BufTy).Contents (Elt F)) (a27))
/-- The kernel side's input 4 of the layer, over the leaves. -/
def kT14_4 (vL13 : (⟨S30000x64, .f32⟩ : BufTy).Contents (Elt F)) (vL11 : (⟨S64x64, .f32⟩ : BufTy).Contents (Elt F)) (a4 : (⟨S30000, .i32⟩ : BufTy).Contents (Elt F)) (a27 : (⟨S128x64, .f32⟩ : BufTy).Contents (Elt F)) (a28 : (⟨S64, .f32⟩ : BufTy).Contents (Elt F)) :=
  (shapeCast S1x64 (a28) shapeCasts_S64_S1x64)
end K

variable [Cert.KernelIdeal.Facts] [Cert.ReferenceIdeal.Facts]
open Cert.Lib.RowVector Cert.Lib.SplitLayers Cert.Lib.Bands Cert.Lib.FourBands

set_option maxHeartbeats 1000000 in
/-- The reference's term is the layer over the kernel side's inputs. -/
theorem glue14 (vL13 : (⟨Cert.KernelIdeal.S30000x64, .f32⟩ : BufTy).Contents (Elt Ideal)) (vL11 : (⟨Cert.KernelIdeal.S64x64, .f32⟩ : BufTy).Contents (Elt Ideal)) (a4 : (⟨Cert.KernelIdeal.S30000, .i32⟩ : BufTy).Contents (Elt Ideal)) (a27 : (⟨Cert.KernelIdeal.S128x64, .f32⟩ : BufTy).Contents (Elt Ideal)) (a28 : (⟨Cert.KernelIdeal.S64, .f32⟩ : BufTy).Contents (Elt Ideal)) :
    refT14 (F := Ideal) vL13 vL11 a4 a27 a28
      = layer2 (kT14_0 (F := Ideal) vL13 vL11 a4 a27 a28) (kT14_1 (F := Ideal) vL13 vL11 a4 a27 a28) (kT14_2 (F := Ideal) vL13 vL11 a4 a27 a28) (kT14_3 (F := Ideal) vL13 vL11 a4 a27 a28) (kT14_4 (F := Ideal) vL13 vL11 a4 a27 a28) := by
  unfold refT14
  refine (Cert.ReferenceIdeal.Mlp.ref_global1 _ _ _ _).trans ?_
  rfl

end Cert.Proof.Bridge

end
-- ==== Proof.Bridge.L14.lean ====
import proofs.«123839_j71768903516633_2_alg».proof.Proof.Bridge.Names
import proofs.«123839_j71768903516633_2_alg».proof.Proof.Bridge.Glue14
import proofs.«123839_j71768903516633_2_alg».proof.Proof.KI.Anchor
import proofs.«123839_j71768903516633_2_alg».proof.Proof.Ref.StageL2

/-! Layer 14: the reference's output anchor holds what the kernel program's does, given that the layer's earlier
    anchors and arguments agree. The reference's anchor is its term over its leaves; the leaves are replaced by the
    kernel side's; the layer law turns the term into the layer over the kernel side's inputs; and that is what the
    kernel program's anchor holds. -/

set_option maxRecDepth 100000

noncomputable section

namespace Cert.Proof.Bridge

open Idealize.ShloMosaic Idealize.ShloMosaic.TcCoe Idealize.SL.Sem Idealize.ShloMosaic.StableHlo
open Cert.Lib.RowVector Cert.Lib.SplitLayers Cert.Lib.Bands Cert.Lib.FourBands

variable [Cert.KernelIdeal.Facts] [Cert.ReferenceIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- The reference's anchor is its term over the reference's leaves. -/
theorem refSide14 (c : Dev Cert.KernelIdeal.nD) : rL14 m' c = refT14 (F := Ideal) (rL13 m' c) (rL11 m' c) (rArg4 m' c) (rArg27 m' c) (rArg28 m' c) :=
  Cert.ReferenceIdeal.Hand.ref_main_v285 (F := Ideal) (launchContents m' c)

set_option maxHeartbeats 1000000 in
/-- The kernel program's anchor is the layer over its inputs, each the kernel side's term over the kernel's leaves. -/
theorem kerSide14 (c : Dev Cert.KernelIdeal.nD) :
    kL14 m c = layer2 (kT14_0 (F := Ideal) (kL13 m c) (kL11 m c) (kArg4 m c) (kArg27 m c) (kArg28 m c)) (kT14_1 (F := Ideal) (kL13 m c) (kL11 m c) (kArg4 m c) (kArg27 m c) (kArg28 m c)) (kT14_2 (F := Ideal) (kL13 m c) (kL11 m c) (kArg4 m c) (kArg27 m c) (kArg28 m c)) (kT14_3 (F := Ideal) (kL13 m c) (kL11 m c) (kArg4 m c) (kArg27 m c) (kArg28 m c)) (kT14_4 (F := Ideal) (kL13 m c) (kL11 m c) (kArg4 m c) (kArg27 m c) (kArg28 m c)) := by
  have i0 : Cert.KernelIdeal.Hand.U27 m c Cert.KernelIdeal.main_v251 = kT14_0 (F := Ideal) (kL13 m c) (kL11 m c) (kArg4 m c) (kArg27 m c) (kArg28 m c) := Cert.KernelIdeal.Hand.in14_0 (F := Ideal) m c
  have i1 : Cert.KernelIdeal.Hand.U27 m c Cert.KernelIdeal.main_v183 = kT14_1 (F := Ideal) (kL13 m c) (kL11 m c) (kArg4 m c) (kArg27 m c) (kArg28 m c) := Cert.KernelIdeal.Hand.in14_1 (F := Ideal) m c
  have i2 : Cert.KernelIdeal.Hand.U27 m c Cert.KernelIdeal.main_v252 = kT14_2 (F := Ideal) (kL13 m c) (kL11 m c) (kArg4 m c) (kArg27 m c) (kArg28 m c) := Cert.KernelIdeal.Hand.in14_2 (F := Ideal) m c
  have i3 : Cert.KernelIdeal.Hand.U27 m c Cert.KernelIdeal.main_v253 = kT14_3 (F := Ideal) (kL13 m c) (kL11 m c) (kArg4 m c) (kArg27 m c) (kArg28 m c) := Cert.KernelIdeal.Hand.in14_3 (F := Ideal) m c
  have i4 : Cert.KernelIdeal.Hand.U27 m c Cert.KernelIdeal.main_v254 = kT14_4 (F := Ideal) (kL13 m c) (kL11 m c) (kArg4 m c) (kArg27 m c) (kArg28 m c) := Cert.KernelIdeal.Hand.in14_4 (F := Ideal) m c
  refine (Cert.KernelIdeal.Hand.anchor14 m c).trans ?_
  rw [i0, i1, i2, i3, i4]

set_option maxHeartbeats 1000000 in
/-- Layer 14's anchors agree. -/
theorem eq_14 (c : Dev Cert.KernelIdeal.nD)
    (hL13 : rL13 m' c = kL13 m c)
    (hL11 : rL11 m' c = kL11 m c)
    (ha4 : rArg4 m' c = kArg4 m c)
    (ha27 : rArg27 m' c = kArg27 m c)
    (ha28 : rArg28 m' c = kArg28 m c) :
    rL14 m' c = kL14 m c := by
  rw [refSide14 m' c, hL13, hL11, ha4, ha27, ha28, kerSide14 m c]
  exact glue14 (kL13 m c) (kL11 m c) (kArg4 m c) (kArg27 m c) (kArg28 m c)

end Cert.Proof.Bridge

end
-- ==== Proof.Bridge.lean ====
/-
  The two idealized programs end with equal results.  Going through the network in order, each anchor of the reference
  (a normalised input, or a layer's output) holds what the corresponding buffer of the kernel program holds:
  a normalised input because the kernel's mean of squares less squared mean is the reference's mean squared deviation
  on finite entries; a layer's output because the kernel's sum of per-band products is the reference's one product with
  the concatenated features, everything that feeds the layer (gathers, segment sums, index arithmetic) being the same
  operations applied to buffers already known equal.  Each anchor's equality is proved in a module of its own from the
  equalities it uses; here they are chained in order and the claim follows.
-/
import proofs.«123839_j71768903516633_2_alg».proof.Defs
import proofs.«123839_j71768903516633_2_alg».proof.Proof.KI.Run
import proofs.«123839_j71768903516633_2_alg».proof.Proof.Ref.Run
import proofs.«123839_j71768903516633_2_alg».proof.Proof.Bridge.Names
import proofs.«123839_j71768903516633_2_alg».proof.Proof.Bridge.Args
import proofs.«123839_j71768903516633_2_alg».proof.Proof.Bridge.BnX
import proofs.«123839_j71768903516633_2_alg».proof.Proof.Bridge.BnE
import proofs.«123839_j71768903516633_2_alg».proof.Proof.Bridge.BnU
import proofs.«123839_j71768903516633_2_alg».proof.Proof.Bridge.L6
import proofs.«123839_j71768903516633_2_alg».proof.Proof.Bridge.L7
import proofs.«123839_j71768903516633_2_alg».proof.Proof.Bridge.L8
import proofs.«123839_j71768903516633_2_alg».proof.Proof.Bridge.L9
import proofs.«123839_j71768903516633_2_alg».proof.Proof.Bridge.L10
import proofs.«123839_j71768903516633_2_alg».proof.Proof.Bridge.L11
import proofs.«123839_j71768903516633_2_alg».proof.Proof.Bridge.L12
import proofs.«123839_j71768903516633_2_alg».proof.Proof.Bridge.L13
import proofs.«123839_j71768903516633_2_alg».proof.Proof.Bridge.L14
import Idealize.ShloMosaic.Lib.ValueLayout

set_option maxRecDepth 100000

noncomputable section

namespace Cert.Proof.Bridge

open Idealize.ShloMosaic Idealize.ShloMosaic.TcCoe Idealize.SL.Sem Idealize.ShloMosaic.StableHlo Idealize.ShloMosaic.ValueIdx
open Cert.Lib.BatchNorm

variable [Cert.KernelIdeal.Facts] [Cert.ReferenceIdeal.Facts] [Cert.Pre_finite_inputs.Facts]

/-! ## The anchors in order, each from the ones before it -/

section Chain

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
variable (hpre : Cert.Pre_KernelIdeal m)
variable (hagree : AgreeP m m')
include hpre hagree

theorem at_x1 (c : Dev Cert.KernelIdeal.nD) : rBnX m' c = kBnX m c :=
  eq_x1 m m' hpre c (harg0 m m' hagree c) (harg5 m m' hagree c) (harg6 m m' hagree c)
theorem at_e1 (c : Dev Cert.KernelIdeal.nD) : rBnE m' c = kBnE m c :=
  eq_e1 m m' hpre c (harg2 m m' hagree c) (harg7 m m' hagree c) (harg8 m m' hagree c)
theorem at_u1 (c : Dev Cert.KernelIdeal.nD) : rBnU m' c = kBnU m c :=
  eq_u1 m m' hpre c (harg3 m m' hagree c) (harg9 m m' hagree c) (harg10 m m' hagree c)
theorem at_6 (c : Dev Cert.KernelIdeal.nD) : rL6 m' c = kL6 m c :=
  eq_6 m m' c (at_x1 m m' hpre hagree c) (at_e1 m m' hpre hagree c) (at_u1 m m' hpre hagree c) (harg1 m m' hagree c) (harg4 m m' hagree c) (harg11 m m' hagree c) (harg12 m m' hagree c)
theorem at_7 (c : Dev Cert.KernelIdeal.nD) : rL7 m' c = kL7 m c :=
  eq_7 m m' c (at_x1 m m' hpre hagree c) (at_6 m m' hpre hagree c) (at_u1 m m' hpre hagree c) (harg1 m m' hagree c) (harg4 m m' hagree c) (harg13 m m' hagree c) (harg14 m m' hagree c)
theorem at_8 (c : Dev Cert.KernelIdeal.nD) : rL8 m' c = kL8 m c :=
  eq_8 m m' c (at_7 m m' hpre hagree c) (at_u1 m m' hpre hagree c) (harg4 m m' hagree c) (harg15 m m' hagree c) (harg16 m m' hagree c)
theorem at_9 (c : Dev Cert.KernelIdeal.nD) : rL9 m' c = kL9 m c :=
  eq_9 m m' c (at_7 m m' hpre hagree c) (at_6 m m' hpre hagree c) (at_8 m m' hpre hagree c) (harg1 m m' hagree c) (harg4 m m' hagree c) (harg17 m m' hagree c) (harg18 m m' hagree c)
theorem at_10 (c : Dev Cert.KernelIdeal.nD) : rL10 m' c = kL10 m c :=
  eq_10 m m' c (at_7 m m' hpre hagree c) (at_9 m m' hpre hagree c) (at_8 m m' hpre hagree c) (harg1 m m' hagree c) (harg4 m m' hagree c) (harg19 m m' hagree c) (harg20 m m' hagree c)
theorem at_11 (c : Dev Cert.KernelIdeal.nD) : rL11 m' c = kL11 m c :=
  eq_11 m m' c (at_10 m m' hpre hagree c) (at_8 m m' hpre hagree c) (harg4 m m' hagree c) (harg21 m m' hagree c) (harg22 m m' hagree c)
theorem at_12 (c : Dev Cert.KernelIdeal.nD) : rL12 m' c = kL12 m c :=
  eq_12 m m' c (at_10 m m' hpre hagree c) (at_9 m m' hpre hagree c) (at_11 m m' hpre hagree c) (harg1 m m' hagree c) (harg4 m m' hagree c) (harg23 m m' hagree c) (harg24 m m' hagree c)
theorem at_13 (c : Dev Cert.KernelIdeal.nD) : rL13 m' c = kL13 m c :=
  eq_13 m m' c (at_10 m m' hpre hagree c) (at_12 m m' hpre hagree c) (at_11 m m' hpre hagree c) (harg1 m m' hagree c) (harg4 m m' hagree c) (harg25 m m' hagree c) (harg26 m m' hagree c)
theorem at_14 (c : Dev Cert.KernelIdeal.nD) : rL14 m' c = kL14 m c :=
  eq_14 m m' c (at_13 m m' hpre hagree c) (at_11 m m' hpre hagree c) (harg4 m m' hagree c) (harg27 m m' hagree c) (harg28 m m' hagree c)

end Chain

/-! ## The claim -/

theorem algebraic : Cert.algebraic_KernelIdeal_ReferenceIdeal := by
  intro m ρ m' ρ' hpre hagree0
  have hagree : AgreeP m m' := fun c => hagree0 c
  refine ⟨fun c => Cert.KernelIdeal.Hand.W28 m c (Proc.devRef .tc Cert.KernelIdeal.main_v240), fun c => Cert.KernelIdeal.Hand.W28 m c (Proc.devRef .tc Cert.KernelIdeal.main_v217),
    fun c => Cert.KernelIdeal.Hand.W28 m c (Proc.devRef .tc Cert.KernelIdeal.main_v255), Cert.KernelIdeal.Hand.run_results (F := Ideal) m ρ, ?_⟩
  refine (θ_run (Cert.ReferenceIdeal.defs (F := Ideal)) _ _).mono (fun r h c => ⟨?_, ?_, ?_, (h c).2⟩) (Cert.ReferenceIdeal.Hand.run (F := Ideal) m' ρ')
  · exact ((h c).1 Cert.ReferenceIdeal.main_v268).trans ((at_13 m m' hpre hagree c).trans
      ((Cert.KernelIdeal.Hand.W28_keep m c Cert.KernelIdeal.main_v240 (by decide)).trans (Cert.KernelIdeal.Hand.W27_keep m c Cert.KernelIdeal.main_v240 (by decide))).symm)
  · exact ((h c).1 Cert.ReferenceIdeal.main_v244).trans ((at_12 m m' hpre hagree c).trans
      ((Cert.KernelIdeal.Hand.W28_keep m c Cert.KernelIdeal.main_v217 (by decide)).trans ((Cert.KernelIdeal.Hand.W27_keep m c Cert.KernelIdeal.main_v217 (by decide)).trans
        ((Cert.KernelIdeal.Hand.W26_keep m c Cert.KernelIdeal.main_v217 (by decide)).trans (Cert.KernelIdeal.Hand.W25_keep m c Cert.KernelIdeal.main_v217 (by decide))))).symm)
  · exact ((h c).1 Cert.ReferenceIdeal.main_v285).trans (at_14 m m' hpre hagree c)

end Cert.Proof.Bridge

end
-- ==== Proof.lean ====
/-
  The claim's five parts.
  The three frames: each kernel program's @main is run as its 28 segments (13 stretches of host operations and 15 kernel
  regions), every region entered with its windows' arrays as the previous segment left them; the reference is a line of host
  operations.  No segment writes an argument array, so each ends as launched.
  The idealization rewrote nothing, so there is nothing to preserve.
  The two idealized programs compute the same three arrays: the three input normalisations agree because, for finite
  entries, the mean of squares less the squared mean is the mean squared deviation, which is never negative; each of the
  nine dense layers agrees because a sum over the concatenated feature axis is the sum of the bands' sums; everything else
  (gathers, segment sums, index arithmetic) is the same operation applied to equal operands on both sides.
-/
import proofs.«123839_j71768903516633_2_alg».proof.Defs
import proofs.«123839_j71768903516633_2_alg».proof.Proof.Gen.Kernel
import proofs.«123839_j71768903516633_2_alg».proof.Proof.Gen.KernelIdeal
import proofs.«123839_j71768903516633_2_alg».proof.Proof.Gen.ReferenceIdeal
import proofs.«123839_j71768903516633_2_alg».proof.Proof.Gen.Pre_finite_inputs
import proofs.«123839_j71768903516633_2_alg».proof.Proof.K.Run
import proofs.«123839_j71768903516633_2_alg».proof.Proof.KI.Run
import proofs.«123839_j71768903516633_2_alg».proof.Proof.Ref.Frame
import proofs.«123839_j71768903516633_2_alg».proof.Proof.Bridge
import Idealize.ShloMosaic.Adequacy
import Idealize.ShloMosaic.Init

noncomputable section

namespace Cert.Proof

open Idealize.ShloMosaic Idealize.SL.Sem

section Parts

variable [Cert.Kernel.Facts] [Cert.KernelIdeal.Facts] [Cert.ReferenceIdeal.Facts] [Cert.Pre_finite_inputs.Facts]

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_r : Cert.frame_ReferenceIdeal := Cert.ReferenceIdeal.Hand.frame_ri
theorem preserves : Cert.preserves_Kernel_KernelIdeal := trivial

end Parts

theorem claim : Cert.Claim :=
  ⟨Cert.Kernel.Gen.facts, Cert.KernelIdeal.Gen.facts, Cert.ReferenceIdeal.Gen.facts, Cert.Pre_finite_inputs.Gen.facts,
    frame_k, frame_ki, frame_r, preserves, Cert.Proof.Bridge.algebraic⟩

end Cert.Proof

end
